-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x320000 32 := broadcastInDim S2x320000 ![] bcast_S_S2x320000 main_c_8
  let main_v25 : IVec S2x320000 1 := cmpi .sge main_arg1 main_v24
  let main_c_9 : IVec S_ 32 := constantI S_ 32 9999#32
  let main_v26 : IVec S2x320000 32 := broadcastInDim S2x320000 ![] bcast_S_S2x320000 main_c_9
  let main_v27 : IVec S2x320000 1 := cmpi .sle main_arg1 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S7680 : Shape := ⟨1, ![7680]⟩
abbrev S327680 : Shape := ⟨1, ![327680]⟩
abbrev S2560x128 : Shape := ⟨2, ![2560, 128]⟩
abbrev S10240x128 : Shape := ⟨2, ![10240, 128]⟩
abbrev S10240 : Shape := ⟨1, ![10240]⟩
abbrev S320000x1 : Shape := ⟨2, ![320000, 1]⟩
abbrev S10240x1 : Shape := ⟨2, ![10240, 1]⟩
abbrev S256x128 : Shape := ⟨2, ![256, 128]⟩
abbrev S256x1 : Shape := ⟨2, ![256, 1]⟩
abbrev S327680x128 : Shape := ⟨2, ![327680, 128]⟩
abbrev S80x128 : Shape := ⟨2, ![80, 128]⟩
abbrev S16 : Shape := ⟨1, ![16]⟩
abbrev S16x128 : Shape := ⟨2, ![16, 128]⟩
abbrev S1x128 : Shape := ⟨2, ![1, 128]⟩
abbrev S327680x1 : Shape := ⟨2, ![327680, 1]⟩

abbrev nBuf : Table → Nat
  | .hbm => 72
  | .local .tc .vmem => 24
  | .local .scVector .vmem => 10
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S7680, .i32⟩
  | .hbm, ⟨12, _⟩ => ⟨S327680, .i32⟩
  | .hbm, ⟨13, _⟩ => ⟨S2560x128, .i32⟩
  | .hbm, ⟨14, _⟩ => ⟨S327680, .i32⟩
  | .hbm, ⟨15, _⟩ => ⟨S_, .i32⟩
  | .hbm, ⟨16, _⟩ => ⟨S_, .f32⟩
  | .hbm, ⟨17, _⟩ => ⟨S10240x128, .f32⟩
  | .hbm, ⟨18, _⟩ => ⟨S_, .i32⟩
  | .hbm, ⟨19, _⟩ => ⟨S10240, .i32⟩
  | .hbm, ⟨20, _⟩ => ⟨S_, .i32⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S_, .i32⟩
  | .hbm, ⟨33, _⟩ => ⟨S320000, .i32⟩
  | .hbm, ⟨34, _⟩ => ⟨S10240, .i32⟩
  | .hbm, ⟨35, _⟩ => ⟨S10240, .f32⟩
  | .hbm, ⟨36, _⟩ => ⟨S10240x1, .f32⟩
  | .hbm, ⟨37, _⟩ => ⟨S_, .i32⟩
  | .hbm, ⟨38, _⟩ => ⟨S10240, .i32⟩
  | .hbm, ⟨39, _⟩ => ⟨S_, .i32⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S_, .i32⟩
  | .hbm, ⟨52, _⟩ => ⟨S320000, .i32⟩
  | .hbm, ⟨53, _⟩ => ⟨S10240, .i32⟩
  | .hbm, ⟨54, _⟩ => ⟨S10240, .f32⟩
  | .hbm, ⟨55, _⟩ => ⟨S10240x1, .f32⟩
  | .hbm, ⟨56, _⟩ => ⟨S10240x128, .f32⟩
  | .hbm, ⟨57, _⟩ => ⟨S327680x128, .f32⟩
  | .hbm, ⟨58, _⟩ => ⟨S_, .f32⟩
  | .hbm, ⟨59, _⟩ => ⟨S10240x128, .f32⟩
  | .hbm, ⟨60, _⟩ => ⟨S327680x1, .i32⟩
  | .hbm, ⟨61, _⟩ => ⟨S10240x128, .f32⟩
  | .hbm, ⟨62, _⟩ => ⟨S1x128, .f32⟩
  | .hbm, ⟨63, _⟩ => ⟨S10240x128, .f32⟩
  | .hbm, ⟨64, _⟩ => ⟨S327680x128, .f32⟩
  | .hbm, ⟨65, _⟩ => ⟨S_, .f32⟩
  | .hbm, ⟨66, _⟩ => ⟨S10240x128, .f32⟩
  | .hbm, ⟨67, _⟩ => ⟨S327680x1, .i32⟩
  | .hbm, ⟨68, _⟩ => ⟨S10240x128, .f32⟩
  | .hbm, ⟨69, _⟩ => ⟨S1x128, .f32⟩
  | .hbm, ⟨70, _⟩ => ⟨S10240x128, .f32⟩
  | .hbm, ⟨71, _⟩ => ⟨S10000x128, .f32⟩
  | .local .tc .vmem, ⟨0, _⟩ => ⟨S256x128, .f32⟩
  | .local .tc .vmem, ⟨1, _⟩ => ⟨S256x128, .f32⟩
  | .local .tc .vmem, ⟨2, _⟩ => ⟨S256x1, .f32⟩
  | .local .tc .vmem, ⟨3, _⟩ => ⟨S256x1, .f32⟩
  | .local .tc .vmem, ⟨4, _⟩ => ⟨S256x128, .f32⟩
  | .local .tc .vmem, ⟨5, _⟩ => ⟨S256x128, .f32⟩
  | .local .tc .vmem, ⟨6, _⟩ => ⟨S256x128, .f32⟩
  | .local .tc .vmem, ⟨7, _⟩ => ⟨S256x128, .f32⟩
  | .local .tc .vmem, ⟨8, _⟩ => ⟨S256x1, .f32⟩
  | .local .tc .vmem, ⟨9, _⟩ => ⟨S256x1, .f32⟩
  | .local .tc .vmem, ⟨10, _⟩ => ⟨S128x128, .f32⟩
  | .local .tc .vmem, ⟨11, _⟩ => ⟨S1x128, .f32⟩
  | .local .tc .vmem, ⟨12, _⟩ => ⟨S256x1, .f32⟩
  | .local .tc .vmem, ⟨13, _⟩ => ⟨S256x1, .f32⟩
  | .local .tc .vmem, ⟨14, _⟩ => ⟨S256x128, .f32⟩
  | .local .tc .vmem, ⟨15, _⟩ => ⟨S256x128, .f32⟩
  | .local .tc .vmem, ⟨16, _⟩ => ⟨S256x128, .f32⟩
  | .local .tc .vmem, ⟨17, _⟩ => ⟨S256x128, .f32⟩
  | .local .tc .vmem, ⟨18, _⟩ => ⟨S256x1, .f32⟩
  | .local .tc .vmem, ⟨19, _⟩ => ⟨S256x1, .f32⟩
  | .local .tc .vmem, ⟨20, _⟩ => ⟨S128x128, .f32⟩
  | .local .tc .vmem, ⟨21, _⟩ => ⟨S1x128, .f32⟩
  | .local .tc .vmem, ⟨22, _⟩ => ⟨S256x128, .f32⟩
  | .local .tc .vmem, ⟨23, _⟩ => ⟨S256x128, .f32⟩
  | .local .scVector .vmem, ⟨0, _⟩ => ⟨S80x128, .i32⟩
  | .local .scVector .vmem, ⟨1, _⟩ => ⟨S128x128, .f32⟩
  | .local .scVector .vmem, ⟨2, _⟩ => ⟨S128x128, .f32⟩
  | .local .scVector .vmem, ⟨3, _⟩ => ⟨S16, .i32⟩
  | .local .scVector .vmem, ⟨4, _⟩ => ⟨S16x128, .f32⟩
  | .local .scVector .vmem, ⟨5, _⟩ => ⟨S80x128, .i32⟩
  | .local .scVector .vmem, ⟨6, _⟩ => ⟨S128x128, .f32⟩
  | .local .scVector .vmem, ⟨7, _⟩ => ⟨S128x128, .f32⟩
  | .local .scVector .vmem, ⟨8, _⟩ => ⟨S16, .i32⟩
  | .local .scVector .vmem, ⟨9, _⟩ => ⟨S16x128, .f32⟩
  | _, _ => ⟨S10000x128, .f32⟩

abbrev dmaSemScopedAt0_0 (i : Nat) : Bool := match i % 128 with
  | 0 => true
  | 1 => true
  | 2 => true
  | 3 => true
  | 4 => true
  | 5 => true
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => false
  | 108 => false
  | 109 => false
  | 110 => false
  | 111 => false
  | 112 => false
  | 113 => false
  | 114 => false
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => true
  | 41 => true
  | 42 => true
  | 43 => true
  | 44 => true
  | 45 => true
  | 46 => true
  | 47 => true
  | 48 => true
  | 49 => true
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => false
  | 108 => false
  | 109 => false
  | 110 => false
  | 111 => false
  | 112 => false
  | 113 => false
  | 114 => false
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_2 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => true
  | 85 => true
  | 86 => true
  | 87 => true
  | 88 => true
  | 89 => true
  | 90 => true
  | 91 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 348 → Bool
  | ⟨i, _⟩ => dmaSemScopedAt i

abbrev sig : RefSig :=
  ofTables nBuf rfl bufTy 4 348 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call0_v0 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_c_7 : Ref sig .tc := ⟨.hbm, 39, rfl⟩
abbrev main_call2_v0 : Ref sig .tc := ⟨.hbm, 40, rfl⟩
abbrev main_call2_v1 : Ref sig .tc := ⟨.hbm, 41, rfl⟩
abbrev main_v22 : Ref sig .tc := ⟨.hbm, 42, rfl⟩
abbrev main_c_8 : Ref sig .tc := ⟨.hbm, 43, rfl⟩
abbrev main_v23 : Ref sig .tc := ⟨.hbm, 44, rfl⟩
abbrev main_v24 : Ref sig .tc := ⟨.hbm, 45, rfl⟩
abbrev main_c_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_10 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v33_scv : Ref sig .scVector := ⟨.hbm, 56, rfl⟩
abbrev main_v6_scv : Ref sig .scVector := ⟨.hbm, 13, rfl⟩
abbrev main_v34_scv : Ref sig .scVector := ⟨.hbm, 57, rfl⟩
abbrev main_v39_scv : Ref sig .scVector := ⟨.hbm, 63, rfl⟩
abbrev main_v40_scv : Ref sig .scVector := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg3_0 : Ref sig .tc := ⟨.vmem, 21, rfl⟩
abbrev cc4_stg4_0 : Ref sig .tc := ⟨.vmem, 22, rfl⟩
abbrev cc4_stg4_1 : Ref sig .tc := ⟨.vmem, 23, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc3_scratch3 : Ref sig .scVector := ⟨.vmem, 8, rfl⟩
abbrev cc3_scratch4 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 168
abbrev cc2_sem0_1 : DmaSem sig := 169
abbrev cc2_sem1_0 : DmaSem sig := 170
abbrev cc2_sem1_1 : DmaSem sig := 171
abbrev cc2_sem2_0 : DmaSem sig := 172
abbrev cc2_sem3_0 : DmaSem sig := 173
abbrev cc2_sem4_0 : DmaSem sig := 174
abbrev cc2_sem4_1 : DmaSem sig := 175
abbrev cc2_sem5_0 : DmaSem sig := 176
abbrev cc2_sem5_1 : DmaSem sig := 177
abbrev cc4_sem0_0 : DmaSem sig := 340
abbrev cc4_sem0_1 : DmaSem sig := 341
abbrev cc4_sem1_0 : DmaSem sig := 342
abbrev cc4_sem1_1 : DmaSem sig := 343
abbrev cc4_sem2_0 : DmaSem sig := 344
abbrev cc4_sem3_0 : DmaSem sig := 345
abbrev cc4_sem4_0 : DmaSem sig := 346
abbrev cc4_sem4_1 : DmaSem sig := 347
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c80_i32 : BitVec 32 := 80#32
  let v6 : BitVec 32 := Scalar.muli v1 c80_i32
  let c0_i32_2_r0 : BitVec 32 := 0#32
  ![v6.toNat, 0]
def k1_off2 (i : grid1.Coords) (c0_i32_0 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10240_i32 : BitVec 32 := 10240#32
  let v7 : BitVec 32 := Scalar.muli v1 c10240_i32
  let v8 : BitVec 32 := Scalar.addi v7 c0_i32_0
  let c0_i32_2_r3 : BitVec 32 := 0#32
  ![v8.toNat, 0]
abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 16], ![false, false]⟩

def k3_off1 (i : grid3.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c80_i32 : BitVec 32 := 80#32
  let v6 : BitVec 32 := Scalar.muli v1 c80_i32
  let c0_i32_2_r0 : BitVec 32 := 0#32
  ![v6.toNat, 0]
def k3_off2 (i : grid3.Coords) (c0_i32_0 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10240_i32 : BitVec 32 := 10240#32
  let v7 : BitVec 32 := Scalar.muli v1 c10240_i32
  let v8 : BitVec 32 := Scalar.addi v7 c0_i32_0
  let c0_i32_2_r3 : BitVec 32 := 0#32
  ![v8.toNat, 0]
abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S7680 : S_.BroadcastsInDim S7680 (![] : Fin 0 → Fin S7680.rank)
  concatenates_S320000_S7680_S327680_d0 : Shape.Concatenates [S320000, S7680] S327680 0
  shapeCasts_S327680_S2560x128 : S327680.ShapeCasts S2560x128
  pads_S10000x128_S10240x128_02400_000 : S10000x128.Pads (![0, 0] : Fin 2 → Nat) ![240, 0] ![0, 0] S10240x128
  h_S_ : 0 < S_.numel
  bcast_S_S10240 : S_.BroadcastsInDim S10240 (![] : Fin 0 → Fin S10240.rank)
  bcast_S_S320000 : S_.BroadcastsInDim S320000 (![] : Fin 0 → Fin S320000.rank)
  bcast_S320000_S320000x1_0 : S320000.BroadcastsInDim S320000x1 (![0] : Fin 1 → Fin S320000x1.rank)
  shapeCasts_S10240_S10240x1 : S10240.ShapeCasts S10240x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S256x1_S256x128 : S256x1.Broadcasts S256x128
  iota_S16_d0_w32_scVector : S16.Iotas .scVector 32 [0]
  inb_S16_S16_0 : ∀ a, (![0] : Fin 1 → Nat) a + S16.size a ≤ S16.size a
  h_S16 : 0 < S16.numel
  shapeCasts_S16_S16 : S16.ShapeCasts S16
  inb_S80x128_S1x128_0_0 : ∀ a, (![0, 0] : Fin 2 → Nat) a + S1x128.size a ≤ S80x128.size a
  squeezes_S1x128_S128 : S1x128.Squeezes S128
  inb_S10240x128_S10240x128_0_0 : ∀ a, (![0, 0] : Fin 2 → Nat) a + S10240x128.size a ≤ S10240x128.size a
  gathers_S10240x128_S128x128 : S10240x128.Gathers 0 S128x128
  inb_S80x128_S1x128_1_0 : ∀ a, (![1, 0] : Fin 2 → Nat) a + S1x128.size a ≤ S80x128.size a
  inb_S80x128_S1x128_2_0 : ∀ a, (![2, 0] : Fin 2 → Nat) a + S1x128.size a ≤ S80x128.size a
  inb_S80x128_S1x128_3_0 : ∀ a, (![3, 0] : Fin 2 → Nat) a + S1x128.size a ≤ S80x128.size a
  inb_S80x128_S1x128_4_0 : ∀ a, (![4, 0] : Fin 2 → Nat) a + S1x128.size a ≤ S80x128.size a
  inb_S80x128_S1x128_5_0 : ∀ a, (![5, 0] : Fin 2 → Nat) a + S1x128.size a ≤ S80x128.size a
  inb_S80x128_S1x128_6_0 : ∀ a, (![6, 0] : Fin 2 → Nat) a + S1x128.size a ≤ S80x128.size a
  inb_S80x128_S1x128_7_0 : ∀ a, (![7, 0] : Fin 2 → Nat) a + S1x128.size a ≤ S80x128.size a
  inb_S80x128_S1x128_8_0 : ∀ a, (![8, 0] : Fin 2 → Nat) a + S1x128.size a ≤ S80x128.size a
  inb_S80x128_S1x128_9_0 : ∀ a, (![9, 0] : Fin 2 → Nat) a + S1x128.size a ≤ S80x128.size a
  inb_S80x128_S1x128_10_0 : ∀ a, (![10, 0] : Fin 2 → Nat) a + S1x128.size a ≤ S80x128.size a
  inb_S80x128_S1x128_11_0 : ∀ a, (![11, 0] : Fin 2 → Nat) a + S1x128.size a ≤ S80x128.size a
  inb_S80x128_S1x128_12_0 : ∀ a, (![12, 0] : Fin 2 → Nat) a + S1x128.size a ≤ S80x128.size a
  inb_S80x128_S1x128_13_0 : ∀ a, (![13, 0] : Fin 2 → Nat) a + S1x128.size a ≤ S80x128.size a
  inb_S80x128_S1x128_14_0 : ∀ a, (![14, 0] : Fin 2 → Nat) a + S1x128.size a ≤ S80x128.size a
  inb_S80x128_S1x128_15_0 : ∀ a, (![15, 0] : Fin 2 → Nat) a + S1x128.size a ≤ S80x128.size a
  inb_S80x128_S1x128_16_0 : ∀ a, (![16, 0] : Fin 2 → Nat) a + S1x128.size a ≤ S80x128.size a
  inb_S80x128_S1x128_17_0 : ∀ a, (![17, 0] : Fin 2 → Nat) a + S1x128.size a ≤ S80x128.size a
  inb_S80x128_S1x128_18_0 : ∀ a, (![18, 0] : Fin 2 → Nat) a + S1x128.size a ≤ S80x128.size a
  inb_S80x128_S1x128_19_0 : ∀ a, (![19, 0] : Fin 2 → Nat) a + S1x128.size a ≤ S80x128.size a
  inb_S80x128_S1x128_20_0 : ∀ a, (![20, 0] : Fin 2 → Nat) a + S1x128.size a ≤ S80x128.size a
  inb_S80x128_S1x128_21_0 : ∀ a, (![21, 0] : Fin 2 → Nat) a + S1x128.size a ≤ S80x128.size a
  inb_S80x128_S1x128_22_0 : ∀ a, (![22, 0] : Fin 2 → Nat) a + S1x128.size a ≤ S80x128.size a
  inb_S80x128_S1x128_23_0 : ∀ a, (![23, 0] : Fin 2 → Nat) a + S1x128.size a ≤ S80x128.size a
  inb_S80x128_S1x128_24_0 : ∀ a, (![24, 0] : Fin 2 → Nat) a + S1x128.size a ≤ S80x128.size a
  inb_S80x128_S1x128_25_0 : ∀ a, (![25, 0] : Fin 2 → Nat) a + S1x128.size a ≤ S80x128.size a
  inb_S80x128_S1x128_26_0 : ∀ a, (![26, 0] : Fin 2 → Nat) a + S1x128.size a ≤ S80x128.size a
  inb_S80x128_S1x128_27_0 : ∀ a, (![27, 0] : Fin 2 → Nat) a + S1x128.size a ≤ S80x128.size a
  inb_S80x128_S1x128_28_0 : ∀ a, (![28, 0] : Fin 2 → Nat) a + S1x128.size a ≤ S80x128.size a
  inb_S80x128_S1x128_29_0 : ∀ a, (![29, 0] : Fin 2 → Nat) a + S1x128.size a ≤ S80x128.size a
  inb_S80x128_S1x128_30_0 : ∀ a, (![30, 0] : Fin 2 → Nat) a + S1x128.size a ≤ S80x128.size a
  inb_S80x128_S1x128_31_0 : ∀ a, (![31, 0] : Fin 2 → Nat) a + S1x128.size a ≤ S80x128.size a
  inb_S80x128_S1x128_32_0 : ∀ a, (![32, 0] : Fin 2 → Nat) a + S1x128.size a ≤ S80x128.size a
  inb_S80x128_S1x128_33_0 : ∀ a, (![33, 0] : Fin 2 → Nat) a + S1x128.size a ≤ S80x128.size a
  inb_S80x128_S1x128_34_0 : ∀ a, (![34, 0] : Fin 2 → Nat) a + S1x128.size a ≤ S80x128.size a
  inb_S80x128_S1x128_35_0 : ∀ a, (![35, 0] : Fin 2 → Nat) a + S1x128.size a ≤ S80x128.size a
  inb_S80x128_S1x128_36_0 : ∀ a, (![36, 0] : Fin 2 → Nat) a + S1x128.size a ≤ S80x128.size a
  inb_S80x128_S1x128_37_0 : ∀ a, (![37, 0] : Fin 2 → Nat) a + S1x128.size a ≤ S80x128.size a
  inb_S80x128_S1x128_38_0 : ∀ a, (![38, 0] : Fin 2 → Nat) a + S1x128.size a ≤ S80x128.size a
  inb_S80x128_S1x128_39_0 : ∀ a, (![39, 0] : Fin 2 → Nat) a + S1x128.size a ≤ S80x128.size a
  inb_S80x128_S1x128_40_0 : ∀ a, (![40, 0] : Fin 2 → Nat) a + S1x128.size a ≤ S80x128.size a
  inb_S80x128_S1x128_41_0 : ∀ a, (![41, 0] : Fin 2 → Nat) a + S1x128.size a ≤ S80x128.size a
  inb_S80x128_S1x128_42_0 : ∀ a, (![42, 0] : Fin 2 → Nat) a + S1x128.size a ≤ S80x128.size a
  inb_S80x128_S1x128_43_0 : ∀ a, (![43, 0] : Fin 2 → Nat) a + S1x128.size a ≤ S80x128.size a
  inb_S80x128_S1x128_44_0 : ∀ a, (![44, 0] : Fin 2 → Nat) a + S1x128.size a ≤ S80x128.size a
  inb_S80x128_S1x128_45_0 : ∀ a, (![45, 0] : Fin 2 → Nat) a + S1x128.size a ≤ S80x128.size a
  inb_S80x128_S1x128_46_0 : ∀ a, (![46, 0] : Fin 2 → Nat) a + S1x128.size a ≤ S80x128.size a
  inb_S80x128_S1x128_47_0 : ∀ a, (![47, 0] : Fin 2 → Nat) a + S1x128.size a ≤ S80x128.size a
  inb_S80x128_S1x128_48_0 : ∀ a, (![48, 0] : Fin 2 → Nat) a + S1x128.size a ≤ S80x128.size a
  inb_S80x128_S1x128_49_0 : ∀ a, (![49, 0] : Fin 2 → Nat) a + S1x128.size a ≤ S80x128.size a
  inb_S80x128_S1x128_50_0 : ∀ a, (![50, 0] : Fin 2 → Nat) a + S1x128.size a ≤ S80x128.size a
  inb_S80x128_S1x128_51_0 : ∀ a, (![51, 0] : Fin 2 → Nat) a + S1x128.size a ≤ S80x128.size a
  inb_S80x128_S1x128_52_0 : ∀ a, (![52, 0] : Fin 2 → Nat) a + S1x128.size a ≤ S80x128.size a
  inb_S80x128_S1x128_53_0 : ∀ a, (![53, 0] : Fin 2 → Nat) a + S1x128.size a ≤ S80x128.size a
  inb_S80x128_S1x128_54_0 : ∀ a, (![54, 0] : Fin 2 → Nat) a + S1x128.size a ≤ S80x128.size a
  inb_S80x128_S1x128_55_0 : ∀ a, (![55, 0] : Fin 2 → Nat) a + S1x128.size a ≤ S80x128.size a
  inb_S80x128_S1x128_56_0 : ∀ a, (![56, 0] : Fin 2 → Nat) a + S1x128.size a ≤ S80x128.size a
  inb_S80x128_S1x128_57_0 : ∀ a, (![57, 0] : Fin 2 → Nat) a + S1x128.size a ≤ S80x128.size a
  inb_S80x128_S1x128_58_0 : ∀ a, (![58, 0] : Fin 2 → Nat) a + S1x128.size a ≤ S80x128.size a
  inb_S80x128_S1x128_59_0 : ∀ a, (![59, 0] : Fin 2 → Nat) a + S1x128.size a ≤ S80x128.size a
  inb_S80x128_S1x128_60_0 : ∀ a, (![60, 0] : Fin 2 → Nat) a + S1x128.size a ≤ S80x128.size a
  inb_S80x128_S1x128_61_0 : ∀ a, (![61, 0] : Fin 2 → Nat) a + S1x128.size a ≤ S80x128.size a
  inb_S80x128_S1x128_62_0 : ∀ a, (![62, 0] : Fin 2 → Nat) a + S1x128.size a ≤ S80x128.size a
  inb_S80x128_S1x128_63_0 : ∀ a, (![63, 0] : Fin 2 → Nat) a + S1x128.size a ≤ S80x128.size a
  inb_S80x128_S1x128_64_0 : ∀ a, (![64, 0] : Fin 2 → Nat) a + S1x128.size a ≤ S80x128.size a
  inb_S80x128_S1x128_65_0 : ∀ a, (![65, 0] : Fin 2 → Nat) a + S1x128.size a ≤ S80x128.size a
  inb_S80x128_S1x128_66_0 : ∀ a, (![66, 0] : Fin 2 → Nat) a + S1x128.size a ≤ S80x128.size a
  inb_S80x128_S1x128_67_0 : ∀ a, (![67, 0] : Fin 2 → Nat) a + S1x128.size a ≤ S80x128.size a
  inb_S80x128_S1x128_68_0 : ∀ a, (![68, 0] : Fin 2 → Nat) a + S1x128.size a ≤ S80x128.size a
  inb_S80x128_S1x128_69_0 : ∀ a, (![69, 0] : Fin 2 → Nat) a + S1x128.size a ≤ S80x128.size a
  inb_S80x128_S1x128_70_0 : ∀ a, (![70, 0] : Fin 2 → Nat) a + S1x128.size a ≤ S80x128.size a
  inb_S80x128_S1x128_71_0 : ∀ a, (![71, 0] : Fin 2 → Nat) a + S1x128.size a ≤ S80x128.size a
  inb_S80x128_S1x128_72_0 : ∀ a, (![72, 0] : Fin 2 → Nat) a + S1x128.size a ≤ S80x128.size a
  inb_S80x128_S1x128_73_0 : ∀ a, (![73, 0] : Fin 2 → Nat) a + S1x128.size a ≤ S80x128.size a
  inb_S80x128_S1x128_74_0 : ∀ a, (![74, 0] : Fin 2 → Nat) a + S1x128.size a ≤ S80x128.size a
  inb_S80x128_S1x128_75_0 : ∀ a, (![75, 0] : Fin 2 → Nat) a + S1x128.size a ≤ S80x128.size a
  inb_S80x128_S1x128_76_0 : ∀ a, (![76, 0] : Fin 2 → Nat) a + S1x128.size a ≤ S80x128.size a
  inb_S80x128_S1x128_77_0 : ∀ a, (![77, 0] : Fin 2 → Nat) a + S1x128.size a ≤ S80x128.size a
  inb_S80x128_S1x128_78_0 : ∀ a, (![78, 0] : Fin 2 → Nat) a + S1x128.size a ≤ S80x128.size a
  inb_S80x128_S1x128_79_0 : ∀ a, (![79, 0] : Fin 2 → Nat) a + S1x128.size a ≤ S80x128.size a
  gathers_S10240x128_S16x128 : S10240x128.Gathers 0 S16x128
  bcast_S_S10240x128 : S_.BroadcastsInDim S10240x128 (![] : Fin 0 → Fin S10240x128.rank)
  bcast_S327680_S327680x1_0 : S327680.BroadcastsInDim S327680x1 (![0] : Fin 1 → Fin S327680x1.rank)
  shapeCasts_S128_S1x128 : S128.ShapeCasts S1x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S10240x128_S10000x128_0_0 : S10240x128.Slices ![0, 0] S10000x128
  scatter_S10240_S320000x1_S320000_n_0_0_1_wf : ScatterDims.WF S10240 S320000x1 S320000 [] [0] [0] 1
  scatter_S10240x128_S327680x1_S327680x128_1_0_0_1_wf : ScatterDims.WF S10240x128 S327680x1 S327680x128 [1] [0] [0] 1
  dot_S256x128_S128x128_S256x128_1_0_0_1_n_n_wf : DotDims.WF S256x128 S128x128 S256x128 [1] [0] [0] [1] [] []
  hcc1_scoped0 : 6 + S_.numel ≤ 348
  hcc1_scoped1 : 7 + S_.numel ≤ 348
  hcc1_scoped2 : 8 + S_.numel ≤ 348
  hcc1_scoped3 : 9 + S_.numel ≤ 348
  hcc1_scoped4 : 10 + S_.numel ≤ 348
  hcc1_scoped5 : 11 + S_.numel ≤ 348
  hcc1_scoped6 : 12 + S_.numel ≤ 348
  hcc1_scoped7 : 13 + S_.numel ≤ 348
  hcc1_scoped8 : 14 + S_.numel ≤ 348
  hcc1_scoped9 : 15 + S_.numel ≤ 348
  hcc1_scoped10 : 16 + S_.numel ≤ 348
  hcc1_scoped11 : 17 + S_.numel ≤ 348
  hcc1_scoped12 : 18 + S_.numel ≤ 348
  hcc1_scoped13 : 19 + S_.numel ≤ 348
  hcc1_scoped14 : 20 + S_.numel ≤ 348
  hcc1_scoped15 : 21 + S_.numel ≤ 348
  hcc1_scoped16 : 22 + S_.numel ≤ 348
  hcc1_scoped17 : 23 + S_.numel ≤ 348
  hcc1_scoped18 : 24 + S_.numel ≤ 348
  hcc1_scoped19 : 25 + S_.numel ≤ 348
  hcc1_scoped20 : 26 + S_.numel ≤ 348
  hcc1_scoped21 : 27 + S_.numel ≤ 348
  hcc1_scoped22 : 28 + S_.numel ≤ 348
  hcc1_scoped23 : 29 + S_.numel ≤ 348
  hcc1_scoped24 : 30 + S_.numel ≤ 348
  hcc1_scoped25 : 31 + S_.numel ≤ 348
  hcc1_scoped26 : 32 + S_.numel ≤ 348
  hcc1_scoped27 : 33 + S_.numel ≤ 348
  hcc1_scoped28 : 34 + S_.numel ≤ 348
  hcc1_scoped29 : 35 + S_.numel ≤ 348
  hcc1_scoped30 : 36 + S_.numel ≤ 348
  hcc1_scoped31 : 37 + S_.numel ≤ 348
  hcc1_scoped32 : 38 + S_.numel ≤ 348
  hcc1_scoped33 : 39 + S_.numel ≤ 348
  hcc1_scoped34 : 40 + S_.numel ≤ 348
  hcc1_scoped35 : 41 + S_.numel ≤ 348
  hcc1_scoped36 : 42 + S_.numel ≤ 348
  hcc1_scoped37 : 43 + S_.numel ≤ 348
  hcc1_scoped38 : 44 + S_.numel ≤ 348
  hcc1_scoped39 : 45 + S_.numel ≤ 348
  hcc1_scoped40 : 46 + S_.numel ≤ 348
  hcc1_scoped41 : 47 + S_.numel ≤ 348
  hcc1_scoped42 : 48 + S_.numel ≤ 348
  hcc1_scoped43 : 49 + S_.numel ≤ 348
  hcc1_scoped44 : 50 + S_.numel ≤ 348
  hcc1_scoped45 : 51 + S_.numel ≤ 348
  hcc1_scoped46 : 52 + S_.numel ≤ 348
  hcc1_scoped47 : 53 + S_.numel ≤ 348
  hcc1_scoped48 : 54 + S_.numel ≤ 348
  hcc1_scoped49 : 55 + S_.numel ≤ 348
  hcc1_scoped50 : 56 + S_.numel ≤ 348
  hcc1_scoped51 : 57 + S_.numel ≤ 348
  hcc1_scoped52 : 58 + S_.numel ≤ 348
  hcc1_scoped53 : 59 + S_.numel ≤ 348
  hcc1_scoped54 : 60 + S_.numel ≤ 348
  hcc1_scoped55 : 61 + S_.numel ≤ 348
  hcc1_scoped56 : 62 + S_.numel ≤ 348
  hcc1_scoped57 : 63 + S_.numel ≤ 348
  hcc1_scoped58 : 64 + S_.numel ≤ 348
  hcc1_scoped59 : 65 + S_.numel ≤ 348
  hcc1_scoped60 : 66 + S_.numel ≤ 348
  hcc1_scoped61 : 67 + S_.numel ≤ 348
  hcc1_scoped62 : 68 + S_.numel ≤ 348
  hcc1_scoped63 : 69 + S_.numel ≤ 348
  hcc1_scoped64 : 70 + S_.numel ≤ 348
  hcc1_scoped65 : 71 + S_.numel ≤ 348
  hcc1_scoped66 : 72 + S_.numel ≤ 348
  hcc1_scoped67 : 73 + S_.numel ≤ 348
  hcc1_scoped68 : 74 + S_.numel ≤ 348
  hcc1_scoped69 : 75 + S_.numel ≤ 348
  hcc1_scoped70 : 76 + S_.numel ≤ 348
  hcc1_scoped71 : 77 + S_.numel ≤ 348
  hcc1_scoped72 : 78 + S_.numel ≤ 348
  hcc1_scoped73 : 79 + S_.numel ≤ 348
  hcc1_scoped74 : 80 + S_.numel ≤ 348
  hcc1_scoped75 : 81 + S_.numel ≤ 348
  hcc1_scoped76 : 82 + S_.numel ≤ 348
  hcc1_scoped77 : 83 + S_.numel ≤ 348
  hcc1_scoped78 : 84 + S_.numel ≤ 348
  hcc1_scoped79 : 85 + S_.numel ≤ 348
  hcc1_scoped80 : 86 + S_.numel ≤ 348
  hcc1_scoped81 : 87 + S_.numel ≤ 348
  hcc1_scoped82 : 88 + S_.numel ≤ 348
  hcc1_scoped83 : 89 + S_.numel ≤ 348
  hcc1_scoped84 : 90 + S_.numel ≤ 348
  hcc1_scoped85 : 91 + S_.numel ≤ 348
  hcc1_scoped86 : 92 + S_.numel ≤ 348
  hcc1_scoped87 : 93 + S_.numel ≤ 348
  hcc1_scoped88 : 94 + S_.numel ≤ 348
  hcc1_scoped89 : 95 + S_.numel ≤ 348
  hcc1_scoped90 : 96 + S_.numel ≤ 348
  hcc1_scoped91 : 97 + S_.numel ≤ 348
  hcc1_scoped92 : 98 + S_.numel ≤ 348
  hcc1_scoped93 : 99 + S_.numel ≤ 348
  hcc1_scoped94 : 100 + S_.numel ≤ 348
  hcc1_scoped95 : 101 + S_.numel ≤ 348
  hcc1_scoped96 : 102 + S_.numel ≤ 348
  hcc1_scoped97 : 103 + S_.numel ≤ 348
  hcc1_scoped98 : 104 + S_.numel ≤ 348
  hcc1_scoped99 : 105 + S_.numel ≤ 348
  hcc1_scoped100 : 106 + S_.numel ≤ 348
  hcc1_scoped101 : 107 + S_.numel ≤ 348
  hcc1_scoped102 : 108 + S_.numel ≤ 348
  hcc1_scoped103 : 109 + S_.numel ≤ 348
  hcc1_scoped104 : 110 + S_.numel ≤ 348
  hcc1_scoped105 : 111 + S_.numel ≤ 348
  hcc1_scoped106 : 112 + S_.numel ≤ 348
  hcc1_scoped107 : 113 + S_.numel ≤ 348
  hcc1_scoped108 : 114 + S_.numel ≤ 348
  hcc1_scoped109 : 115 + S_.numel ≤ 348
  hcc1_scoped110 : 116 + S_.numel ≤ 348
  hcc1_scoped111 : 117 + S_.numel ≤ 348
  hcc1_scoped112 : 118 + S_.numel ≤ 348
  hcc1_scoped113 : 119 + S_.numel ≤ 348
  hcc1_scoped114 : 120 + S_.numel ≤ 348
  hcc1_scoped115 : 121 + S_.numel ≤ 348
  hcc1_scoped116 : 122 + S_.numel ≤ 348
  hcc1_scoped117 : 123 + S_.numel ≤ 348
  hcc1_scoped118 : 124 + S_.numel ≤ 348
  hcc1_scoped119 : 125 + S_.numel ≤ 348
  hcc1_scoped120 : 126 + S_.numel ≤ 348
  hcc1_scoped121 : 127 + S_.numel ≤ 348
  hcc1_scoped122 : 128 + S_.numel ≤ 348
  hcc1_scoped123 : 129 + S_.numel ≤ 348
  hcc1_scoped124 : 130 + S_.numel ≤ 348
  hcc1_scoped125 : 131 + S_.numel ≤ 348
  hcc1_scoped126 : 132 + S_.numel ≤ 348
  hcc1_scoped127 : 133 + S_.numel ≤ 348
  hcc1_scoped128 : 134 + S_.numel ≤ 348
  hcc1_scoped129 : 135 + S_.numel ≤ 348
  hcc1_scoped130 : 136 + S_.numel ≤ 348
  hcc1_scoped131 : 137 + S_.numel ≤ 348
  hcc1_scoped132 : 138 + S_.numel ≤ 348
  hcc1_scoped133 : 139 + S_.numel ≤ 348
  hcc1_scoped134 : 140 + S_.numel ≤ 348
  hcc1_scoped135 : 141 + S_.numel ≤ 348
  hcc1_scoped136 : 142 + S_.numel ≤ 348
  hcc1_scoped137 : 143 + S_.numel ≤ 348
  hcc1_scoped138 : 144 + S_.numel ≤ 348
  hcc1_scoped139 : 145 + S_.numel ≤ 348
  hcc1_scoped140 : 146 + S_.numel ≤ 348
  hcc1_scoped141 : 147 + S_.numel ≤ 348
  hcc1_scoped142 : 148 + S_.numel ≤ 348
  hcc1_scoped143 : 149 + S_.numel ≤ 348
  hcc1_scoped144 : 150 + S_.numel ≤ 348
  hcc1_scoped145 : 151 + S_.numel ≤ 348
  hcc1_scoped146 : 152 + S_.numel ≤ 348
  hcc1_scoped147 : 153 + S_.numel ≤ 348
  hcc1_scoped148 : 154 + S_.numel ≤ 348
  hcc1_scoped149 : 155 + S_.numel ≤ 348
  hcc1_scoped150 : 156 + S_.numel ≤ 348
  hcc1_scoped151 : 157 + S_.numel ≤ 348
  hcc1_scoped152 : 158 + S_.numel ≤ 348
  hcc1_scoped153 : 159 + S_.numel ≤ 348
  hcc1_scoped154 : 160 + S_.numel ≤ 348
  hcc1_scoped155 : 161 + S_.numel ≤ 348
  hcc1_scoped156 : 162 + S_.numel ≤ 348
  hcc1_scoped157 : 163 + S_.numel ≤ 348
  hcc1_scoped158 : 164 + S_.numel ≤ 348
  hcc1_scoped159 : 165 + S_.numel ≤ 348
  hcc1_scoped160 : 166 + S_.numel ≤ 348
  hcc1_scoped161 : 167 + S_.numel ≤ 348
  hcc3_scoped0 : 178 + S_.numel ≤ 348
  hcc3_scoped1 : 179 + S_.numel ≤ 348
  hcc3_scoped2 : 180 + S_.numel ≤ 348
  hcc3_scoped3 : 181 + S_.numel ≤ 348
  hcc3_scoped4 : 182 + S_.numel ≤ 348
  hcc3_scoped5 : 183 + S_.numel ≤ 348
  hcc3_scoped6 : 184 + S_.numel ≤ 348
  hcc3_scoped7 : 185 + S_.numel ≤ 348
  hcc3_scoped8 : 186 + S_.numel ≤ 348
  hcc3_scoped9 : 187 + S_.numel ≤ 348
  hcc3_scoped10 : 188 + S_.numel ≤ 348
  hcc3_scoped11 : 189 + S_.numel ≤ 348
  hcc3_scoped12 : 190 + S_.numel ≤ 348
  hcc3_scoped13 : 191 + S_.numel ≤ 348
  hcc3_scoped14 : 192 + S_.numel ≤ 348
  hcc3_scoped15 : 193 + S_.numel ≤ 348
  hcc3_scoped16 : 194 + S_.numel ≤ 348
  hcc3_scoped17 : 195 + S_.numel ≤ 348
  hcc3_scoped18 : 196 + S_.numel ≤ 348
  hcc3_scoped19 : 197 + S_.numel ≤ 348
  hcc3_scoped20 : 198 + S_.numel ≤ 348
  hcc3_scoped21 : 199 + S_.numel ≤ 348
  hcc3_scoped22 : 200 + S_.numel ≤ 348
  hcc3_scoped23 : 201 + S_.numel ≤ 348
  hcc3_scoped24 : 202 + S_.numel ≤ 348
  hcc3_scoped25 : 203 + S_.numel ≤ 348
  hcc3_scoped26 : 204 + S_.numel ≤ 348
  hcc3_scoped27 : 205 + S_.numel ≤ 348
  hcc3_scoped28 : 206 + S_.numel ≤ 348
  hcc3_scoped29 : 207 + S_.numel ≤ 348
  hcc3_scoped30 : 208 + S_.numel ≤ 348
  hcc3_scoped31 : 209 + S_.numel ≤ 348
  hcc3_scoped32 : 210 + S_.numel ≤ 348
  hcc3_scoped33 : 211 + S_.numel ≤ 348
  hcc3_scoped34 : 212 + S_.numel ≤ 348
  hcc3_scoped35 : 213 + S_.numel ≤ 348
  hcc3_scoped36 : 214 + S_.numel ≤ 348
  hcc3_scoped37 : 215 + S_.numel ≤ 348
  hcc3_scoped38 : 216 + S_.numel ≤ 348
  hcc3_scoped39 : 217 + S_.numel ≤ 348
  hcc3_scoped40 : 218 + S_.numel ≤ 348
  hcc3_scoped41 : 219 + S_.numel ≤ 348
  hcc3_scoped42 : 220 + S_.numel ≤ 348
  hcc3_scoped43 : 221 + S_.numel ≤ 348
  hcc3_scoped44 : 222 + S_.numel ≤ 348
  hcc3_scoped45 : 223 + S_.numel ≤ 348
  hcc3_scoped46 : 224 + S_.numel ≤ 348
  hcc3_scoped47 : 225 + S_.numel ≤ 348
  hcc3_scoped48 : 226 + S_.numel ≤ 348
  hcc3_scoped49 : 227 + S_.numel ≤ 348
  hcc3_scoped50 : 228 + S_.numel ≤ 348
  hcc3_scoped51 : 229 + S_.numel ≤ 348
  hcc3_scoped52 : 230 + S_.numel ≤ 348
  hcc3_scoped53 : 231 + S_.numel ≤ 348
  hcc3_scoped54 : 232 + S_.numel ≤ 348
  hcc3_scoped55 : 233 + S_.numel ≤ 348
  hcc3_scoped56 : 234 + S_.numel ≤ 348
  hcc3_scoped57 : 235 + S_.numel ≤ 348
  hcc3_scoped58 : 236 + S_.numel ≤ 348
  hcc3_scoped59 : 237 + S_.numel ≤ 348
  hcc3_scoped60 : 238 + S_.numel ≤ 348
  hcc3_scoped61 : 239 + S_.numel ≤ 348
  hcc3_scoped62 : 240 + S_.numel ≤ 348
  hcc3_scoped63 : 241 + S_.numel ≤ 348
  hcc3_scoped64 : 242 + S_.numel ≤ 348
  hcc3_scoped65 : 243 + S_.numel ≤ 348
  hcc3_scoped66 : 244 + S_.numel ≤ 348
  hcc3_scoped67 : 245 + S_.numel ≤ 348
  hcc3_scoped68 : 246 + S_.numel ≤ 348
  hcc3_scoped69 : 247 + S_.numel ≤ 348
  hcc3_scoped70 : 248 + S_.numel ≤ 348
  hcc3_scoped71 : 249 + S_.numel ≤ 348
  hcc3_scoped72 : 250 + S_.numel ≤ 348
  hcc3_scoped73 : 251 + S_.numel ≤ 348
  hcc3_scoped74 : 252 + S_.numel ≤ 348
  hcc3_scoped75 : 253 + S_.numel ≤ 348
  hcc3_scoped76 : 254 + S_.numel ≤ 348
  hcc3_scoped77 : 255 + S_.numel ≤ 348
  hcc3_scoped78 : 256 + S_.numel ≤ 348
  hcc3_scoped79 : 257 + S_.numel ≤ 348
  hcc3_scoped80 : 258 + S_.numel ≤ 348
  hcc3_scoped81 : 259 + S_.numel ≤ 348
  hcc3_scoped82 : 260 + S_.numel ≤ 348
  hcc3_scoped83 : 261 + S_.numel ≤ 348
  hcc3_scoped84 : 262 + S_.numel ≤ 348
  hcc3_scoped85 : 263 + S_.numel ≤ 348
  hcc3_scoped86 : 264 + S_.numel ≤ 348
  hcc3_scoped87 : 265 + S_.numel ≤ 348
  hcc3_scoped88 : 266 + S_.numel ≤ 348
  hcc3_scoped89 : 267 + S_.numel ≤ 348
  hcc3_scoped90 : 268 + S_.numel ≤ 348
  hcc3_scoped91 : 269 + S_.numel ≤ 348
  hcc3_scoped92 : 270 + S_.numel ≤ 348
  hcc3_scoped93 : 271 + S_.numel ≤ 348
  hcc3_scoped94 : 272 + S_.numel ≤ 348
  hcc3_scoped95 : 273 + S_.numel ≤ 348
  hcc3_scoped96 : 274 + S_.numel ≤ 348
  hcc3_scoped97 : 275 + S_.numel ≤ 348
  hcc3_scoped98 : 276 + S_.numel ≤ 348
  hcc3_scoped99 : 277 + S_.numel ≤ 348
  hcc3_scoped100 : 278 + S_.numel ≤ 348
  hcc3_scoped101 : 279 + S_.numel ≤ 348
  hcc3_scoped102 : 280 + S_.numel ≤ 348
  hcc3_scoped103 : 281 + S_.numel ≤ 348
  hcc3_scoped104 : 282 + S_.numel ≤ 348
  hcc3_scoped105 : 283 + S_.numel ≤ 348
  hcc3_scoped106 : 284 + S_.numel ≤ 348
  hcc3_scoped107 : 285 + S_.numel ≤ 348
  hcc3_scoped108 : 286 + S_.numel ≤ 348
  hcc3_scoped109 : 287 + S_.numel ≤ 348
  hcc3_scoped110 : 288 + S_.numel ≤ 348
  hcc3_scoped111 : 289 + S_.numel ≤ 348
  hcc3_scoped112 : 290 + S_.numel ≤ 348
  hcc3_scoped113 : 291 + S_.numel ≤ 348
  hcc3_scoped114 : 292 + S_.numel ≤ 348
  hcc3_scoped115 : 293 + S_.numel ≤ 348
  hcc3_scoped116 : 294 + S_.numel ≤ 348
  hcc3_scoped117 : 295 + S_.numel ≤ 348
  hcc3_scoped118 : 296 + S_.numel ≤ 348
  hcc3_scoped119 : 297 + S_.numel ≤ 348
  hcc3_scoped120 : 298 + S_.numel ≤ 348
  hcc3_scoped121 : 299 + S_.numel ≤ 348
  hcc3_scoped122 : 300 + S_.numel ≤ 348
  hcc3_scoped123 : 301 + S_.numel ≤ 348
  hcc3_scoped124 : 302 + S_.numel ≤ 348
  hcc3_scoped125 : 303 + S_.numel ≤ 348
  hcc3_scoped126 : 304 + S_.numel ≤ 348
  hcc3_scoped127 : 305 + S_.numel ≤ 348
  hcc3_scoped128 : 306 + S_.numel ≤ 348
  hcc3_scoped129 : 307 + S_.numel ≤ 348
  hcc3_scoped130 : 308 + S_.numel ≤ 348
  hcc3_scoped131 : 309 + S_.numel ≤ 348
  hcc3_scoped132 : 310 + S_.numel ≤ 348
  hcc3_scoped133 : 311 + S_.numel ≤ 348
  hcc3_scoped134 : 312 + S_.numel ≤ 348
  hcc3_scoped135 : 313 + S_.numel ≤ 348
  hcc3_scoped136 : 314 + S_.numel ≤ 348
  hcc3_scoped137 : 315 + S_.numel ≤ 348
  hcc3_scoped138 : 316 + S_.numel ≤ 348
  hcc3_scoped139 : 317 + S_.numel ≤ 348
  hcc3_scoped140 : 318 + S_.numel ≤ 348
  hcc3_scoped141 : 319 + S_.numel ≤ 348
  hcc3_scoped142 : 320 + S_.numel ≤ 348
  hcc3_scoped143 : 321 + S_.numel ≤ 348
  hcc3_scoped144 : 322 + S_.numel ≤ 348
  hcc3_scoped145 : 323 + S_.numel ≤ 348
  hcc3_scoped146 : 324 + S_.numel ≤ 348
  hcc3_scoped147 : 325 + S_.numel ≤ 348
  hcc3_scoped148 : 326 + S_.numel ≤ 348
  hcc3_scoped149 : 327 + S_.numel ≤ 348
  hcc3_scoped150 : 328 + S_.numel ≤ 348
  hcc3_scoped151 : 329 + S_.numel ≤ 348
  hcc3_scoped152 : 330 + S_.numel ≤ 348
  hcc3_scoped153 : 331 + S_.numel ≤ 348
  hcc3_scoped154 : 332 + S_.numel ≤ 348
  hcc3_scoped155 : 333 + S_.numel ≤ 348
  hcc3_scoped156 : 334 + S_.numel ≤ 348
  hcc3_scoped157 : 335 + S_.numel ≤ 348
  hcc3_scoped158 : 336 + S_.numel ≤ 348
  hcc3_scoped159 : 337 + S_.numel ≤ 348
  hcc3_scoped160 : 338 + S_.numel ≤ 348
  hcc3_scoped161 : 339 + S_.numel ≤ 348
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S10240x128.size a
  hwx0_0 : ∀ i : grid0.Coords, EltTy.bits .f32 = 32 ∨ (Rect.block (s := S10240x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S10240x1.size a
  hwx0_1 : ∀ i : grid0.Coords, EltTy.bits .f32 = 32 ∨ (Rect.block (s := S10240x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S10240x128.size a
  hwx0_2 : ∀ i : grid0.Coords, EltTy.bits .f32 = 32 ∨ (Rect.block (s := S10240x128) S256x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S80x128.size a ≤ S2560x128.size a
  k1_off2_inb : ∀ i : grid1.Coords, ∀ (r : Fin 80), ∀ a, (k1_off2 i (BitVec.ofNat 32 (128 * r.val))) a + S128x128.size a ≤ S327680x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S10240x128.size a
  hwx2_0 : ∀ i : grid2.Coords, EltTy.bits .f32 = 32 ∨ (Rect.block (s := S10240x128) S256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S10240x1.size a
  hwx2_1 : ∀ i : grid2.Coords, EltTy.bits .f32 = 32 ∨ (Rect.block (s := S10240x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S10240x1.size a
  hwx2_4 : ∀ i : grid2.Coords, EltTy.bits .f32 = 32 ∨ (Rect.block (s := S10240x1) S256x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S10240x128.size a
  hwx2_5 : ∀ i : grid2.Coords, EltTy.bits .f32 = 32 ∨ (Rect.block (s := S10240x128) S256x128.size (cc2_transform_5 i) (hinb2_5 i)).WholeWords (EltTy.packing .f32)
  hcore3 : grid3.bound 0 ≤ τ.nSC
  hsub3 : grid3.bound 1 ≤ τ.nSub
  k3_off1_inb : ∀ i : grid3.Coords, ∀ a, (k3_off1 i) a + S80x128.size a ≤ S2560x128.size a
  k3_off2_inb : ∀ i : grid3.Coords, ∀ (r : Fin 80), ∀ a, (k3_off2 i (BitVec.ofNat 32 (128 * r.val))) a + S128x128.size a ≤ S327680x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S10240x128.size a
  hwx4_0 : ∀ i : grid4.Coords, EltTy.bits .f32 = 32 ∨ (Rect.block (s := S10240x128) S256x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x1.size a ≤ S10240x1.size a
  hwx4_1 : ∀ i : grid4.Coords, EltTy.bits .f32 = 32 ∨ (Rect.block (s := S10240x1) S256x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S10240x128.size a
  hwx4_4 : ∀ i : grid4.Coords, EltTy.bits .f32 = 32 ∨ (Rect.block (s := S10240x128) S256x128.size (cc4_transform_4 i) (hinb4_4 i)).WholeWords (EltTy.packing .f32)

variable [Facts₀]

abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3
abbrev cc1_scoped4 : DmaSems sig S_ := SemArray.consecutive 10 S_ hcc1_scoped4
abbrev cc1_scoped5 : DmaSems sig S_ := SemArray.consecutive 11 S_ hcc1_scoped5
abbrev cc1_scoped6 : DmaSems sig S_ := SemArray.consecutive 12 S_ hcc1_scoped6
abbrev cc1_scoped7 : DmaSems sig S_ := SemArray.consecutive 13 S_ hcc1_scoped7
abbrev cc1_scoped8 : DmaSems sig S_ := SemArray.consecutive 14 S_ hcc1_scoped8
abbrev cc1_scoped9 : DmaSems sig S_ := SemArray.consecutive 15 S_ hcc1_scoped9
abbrev cc1_scoped10 : DmaSems sig S_ := SemArray.consecutive 16 S_ hcc1_scoped10
abbrev cc1_scoped11 : DmaSems sig S_ := SemArray.consecutive 17 S_ hcc1_scoped11
abbrev cc1_scoped12 : DmaSems sig S_ := SemArray.consecutive 18 S_ hcc1_scoped12
abbrev cc1_scoped13 : DmaSems sig S_ := SemArray.consecutive 19 S_ hcc1_scoped13
abbrev cc1_scoped14 : DmaSems sig S_ := SemArray.consecutive 20 S_ hcc1_scoped14
abbrev cc1_scoped15 : DmaSems sig S_ := SemArray.consecutive 21 S_ hcc1_scoped15
abbrev cc1_scoped16 : DmaSems sig S_ := SemArray.consecutive 22 S_ hcc1_scoped16
abbrev cc1_scoped17 : DmaSems sig S_ := SemArray.consecutive 23 S_ hcc1_scoped17
abbrev cc1_scoped18 : DmaSems sig S_ := SemArray.consecutive 24 S_ hcc1_scoped18
abbrev cc1_scoped19 : DmaSems sig S_ := SemArray.consecutive 25 S_ hcc1_scoped19
abbrev cc1_scoped20 : DmaSems sig S_ := SemArray.consecutive 26 S_ hcc1_scoped20
abbrev cc1_scoped21 : DmaSems sig S_ := SemArray.consecutive 27 S_ hcc1_scoped21
abbrev cc1_scoped22 : DmaSems sig S_ := SemArray.consecutive 28 S_ hcc1_scoped22
abbrev cc1_scoped23 : DmaSems sig S_ := SemArray.consecutive 29 S_ hcc1_scoped23
abbrev cc1_scoped24 : DmaSems sig S_ := SemArray.consecutive 30 S_ hcc1_scoped24
abbrev cc1_scoped25 : DmaSems sig S_ := SemArray.consecutive 31 S_ hcc1_scoped25
abbrev cc1_scoped26 : DmaSems sig S_ := SemArray.consecutive 32 S_ hcc1_scoped26
abbrev cc1_scoped27 : DmaSems sig S_ := SemArray.consecutive 33 S_ hcc1_scoped27
abbrev cc1_scoped28 : DmaSems sig S_ := SemArray.consecutive 34 S_ hcc1_scoped28
abbrev cc1_scoped29 : DmaSems sig S_ := SemArray.consecutive 35 S_ hcc1_scoped29
abbrev cc1_scoped30 : DmaSems sig S_ := SemArray.consecutive 36 S_ hcc1_scoped30
abbrev cc1_scoped31 : DmaSems sig S_ := SemArray.consecutive 37 S_ hcc1_scoped31
abbrev cc1_scoped32 : DmaSems sig S_ := SemArray.consecutive 38 S_ hcc1_scoped32
abbrev cc1_scoped33 : DmaSems sig S_ := SemArray.consecutive 39 S_ hcc1_scoped33
abbrev cc1_scoped34 : DmaSems sig S_ := SemArray.consecutive 40 S_ hcc1_scoped34
abbrev cc1_scoped35 : DmaSems sig S_ := SemArray.consecutive 41 S_ hcc1_scoped35
abbrev cc1_scoped36 : DmaSems sig S_ := SemArray.consecutive 42 S_ hcc1_scoped36
abbrev cc1_scoped37 : DmaSems sig S_ := SemArray.consecutive 43 S_ hcc1_scoped37
abbrev cc1_scoped38 : DmaSems sig S_ := SemArray.consecutive 44 S_ hcc1_scoped38
abbrev cc1_scoped39 : DmaSems sig S_ := SemArray.consecutive 45 S_ hcc1_scoped39
abbrev cc1_scoped40 : DmaSems sig S_ := SemArray.consecutive 46 S_ hcc1_scoped40
abbrev cc1_scoped41 : DmaSems sig S_ := SemArray.consecutive 47 S_ hcc1_scoped41
abbrev cc1_scoped42 : DmaSems sig S_ := SemArray.consecutive 48 S_ hcc1_scoped42
abbrev cc1_scoped43 : DmaSems sig S_ := SemArray.consecutive 49 S_ hcc1_scoped43
abbrev cc1_scoped44 : DmaSems sig S_ := SemArray.consecutive 50 S_ hcc1_scoped44
abbrev cc1_scoped45 : DmaSems sig S_ := SemArray.consecutive 51 S_ hcc1_scoped45
abbrev cc1_scoped46 : DmaSems sig S_ := SemArray.consecutive 52 S_ hcc1_scoped46
abbrev cc1_scoped47 : DmaSems sig S_ := SemArray.consecutive 53 S_ hcc1_scoped47
abbrev cc1_scoped48 : DmaSems sig S_ := SemArray.consecutive 54 S_ hcc1_scoped48
abbrev cc1_scoped49 : DmaSems sig S_ := SemArray.consecutive 55 S_ hcc1_scoped49
abbrev cc1_scoped50 : DmaSems sig S_ := SemArray.consecutive 56 S_ hcc1_scoped50
abbrev cc1_scoped51 : DmaSems sig S_ := SemArray.consecutive 57 S_ hcc1_scoped51
abbrev cc1_scoped52 : DmaSems sig S_ := SemArray.consecutive 58 S_ hcc1_scoped52
abbrev cc1_scoped53 : DmaSems sig S_ := SemArray.consecutive 59 S_ hcc1_scoped53
abbrev cc1_scoped54 : DmaSems sig S_ := SemArray.consecutive 60 S_ hcc1_scoped54
abbrev cc1_scoped55 : DmaSems sig S_ := SemArray.consecutive 61 S_ hcc1_scoped55
abbrev cc1_scoped56 : DmaSems sig S_ := SemArray.consecutive 62 S_ hcc1_scoped56
abbrev cc1_scoped57 : DmaSems sig S_ := SemArray.consecutive 63 S_ hcc1_scoped57
abbrev cc1_scoped58 : DmaSems sig S_ := SemArray.consecutive 64 S_ hcc1_scoped58
abbrev cc1_scoped59 : DmaSems sig S_ := SemArray.consecutive 65 S_ hcc1_scoped59
abbrev cc1_scoped60 : DmaSems sig S_ := SemArray.consecutive 66 S_ hcc1_scoped60
abbrev cc1_scoped61 : DmaSems sig S_ := SemArray.consecutive 67 S_ hcc1_scoped61
abbrev cc1_scoped62 : DmaSems sig S_ := SemArray.consecutive 68 S_ hcc1_scoped62
abbrev cc1_scoped63 : DmaSems sig S_ := SemArray.consecutive 69 S_ hcc1_scoped63
abbrev cc1_scoped64 : DmaSems sig S_ := SemArray.consecutive 70 S_ hcc1_scoped64
abbrev cc1_scoped65 : DmaSems sig S_ := SemArray.consecutive 71 S_ hcc1_scoped65
abbrev cc1_scoped66 : DmaSems sig S_ := SemArray.consecutive 72 S_ hcc1_scoped66
abbrev cc1_scoped67 : DmaSems sig S_ := SemArray.consecutive 73 S_ hcc1_scoped67
abbrev cc1_scoped68 : DmaSems sig S_ := SemArray.consecutive 74 S_ hcc1_scoped68
abbrev cc1_scoped69 : DmaSems sig S_ := SemArray.consecutive 75 S_ hcc1_scoped69
abbrev cc1_scoped70 : DmaSems sig S_ := SemArray.consecutive 76 S_ hcc1_scoped70
abbrev cc1_scoped71 : DmaSems sig S_ := SemArray.consecutive 77 S_ hcc1_scoped71
abbrev cc1_scoped72 : DmaSems sig S_ := SemArray.consecutive 78 S_ hcc1_scoped72
abbrev cc1_scoped73 : DmaSems sig S_ := SemArray.consecutive 79 S_ hcc1_scoped73
abbrev cc1_scoped74 : DmaSems sig S_ := SemArray.consecutive 80 S_ hcc1_scoped74
abbrev cc1_scoped75 : DmaSems sig S_ := SemArray.consecutive 81 S_ hcc1_scoped75
abbrev cc1_scoped76 : DmaSems sig S_ := SemArray.consecutive 82 S_ hcc1_scoped76
abbrev cc1_scoped77 : DmaSems sig S_ := SemArray.consecutive 83 S_ hcc1_scoped77
abbrev cc1_scoped78 : DmaSems sig S_ := SemArray.consecutive 84 S_ hcc1_scoped78
abbrev cc1_scoped79 : DmaSems sig S_ := SemArray.consecutive 85 S_ hcc1_scoped79
abbrev cc1_scoped80 : DmaSems sig S_ := SemArray.consecutive 86 S_ hcc1_scoped80
abbrev cc1_scoped81 : DmaSems sig S_ := SemArray.consecutive 87 S_ hcc1_scoped81
abbrev cc1_scoped82 : DmaSems sig S_ := SemArray.consecutive 88 S_ hcc1_scoped82
abbrev cc1_scoped83 : DmaSems sig S_ := SemArray.consecutive 89 S_ hcc1_scoped83
abbrev cc1_scoped84 : DmaSems sig S_ := SemArray.consecutive 90 S_ hcc1_scoped84
abbrev cc1_scoped85 : DmaSems sig S_ := SemArray.consecutive 91 S_ hcc1_scoped85
abbrev cc1_scoped86 : DmaSems sig S_ := SemArray.consecutive 92 S_ hcc1_scoped86
abbrev cc1_scoped87 : DmaSems sig S_ := SemArray.consecutive 93 S_ hcc1_scoped87
abbrev cc1_scoped88 : DmaSems sig S_ := SemArray.consecutive 94 S_ hcc1_scoped88
abbrev cc1_scoped89 : DmaSems sig S_ := SemArray.consecutive 95 S_ hcc1_scoped89
abbrev cc1_scoped90 : DmaSems sig S_ := SemArray.consecutive 96 S_ hcc1_scoped90
abbrev cc1_scoped91 : DmaSems sig S_ := SemArray.consecutive 97 S_ hcc1_scoped91
abbrev cc1_scoped92 : DmaSems sig S_ := SemArray.consecutive 98 S_ hcc1_scoped92
abbrev cc1_scoped93 : DmaSems sig S_ := SemArray.consecutive 99 S_ hcc1_scoped93
abbrev cc1_scoped94 : DmaSems sig S_ := SemArray.consecutive 100 S_ hcc1_scoped94
abbrev cc1_scoped95 : DmaSems sig S_ := SemArray.consecutive 101 S_ hcc1_scoped95
abbrev cc1_scoped96 : DmaSems sig S_ := SemArray.consecutive 102 S_ hcc1_scoped96
abbrev cc1_scoped97 : DmaSems sig S_ := SemArray.consecutive 103 S_ hcc1_scoped97
abbrev cc1_scoped98 : DmaSems sig S_ := SemArray.consecutive 104 S_ hcc1_scoped98
abbrev cc1_scoped99 : DmaSems sig S_ := SemArray.consecutive 105 S_ hcc1_scoped99
abbrev cc1_scoped100 : DmaSems sig S_ := SemArray.consecutive 106 S_ hcc1_scoped100
abbrev cc1_scoped101 : DmaSems sig S_ := SemArray.consecutive 107 S_ hcc1_scoped101
abbrev cc1_scoped102 : DmaSems sig S_ := SemArray.consecutive 108 S_ hcc1_scoped102
abbrev cc1_scoped103 : DmaSems sig S_ := SemArray.consecutive 109 S_ hcc1_scoped103
abbrev cc1_scoped104 : DmaSems sig S_ := SemArray.consecutive 110 S_ hcc1_scoped104
abbrev cc1_scoped105 : DmaSems sig S_ := SemArray.consecutive 111 S_ hcc1_scoped105
abbrev cc1_scoped106 : DmaSems sig S_ := SemArray.consecutive 112 S_ hcc1_scoped106
abbrev cc1_scoped107 : DmaSems sig S_ := SemArray.consecutive 113 S_ hcc1_scoped107
abbrev cc1_scoped108 : DmaSems sig S_ := SemArray.consecutive 114 S_ hcc1_scoped108
abbrev cc1_scoped109 : DmaSems sig S_ := SemArray.consecutive 115 S_ hcc1_scoped109
abbrev cc1_scoped110 : DmaSems sig S_ := SemArray.consecutive 116 S_ hcc1_scoped110
abbrev cc1_scoped111 : DmaSems sig S_ := SemArray.consecutive 117 S_ hcc1_scoped111
abbrev cc1_scoped112 : DmaSems sig S_ := SemArray.consecutive 118 S_ hcc1_scoped112
abbrev cc1_scoped113 : DmaSems sig S_ := SemArray.consecutive 119 S_ hcc1_scoped113
abbrev cc1_scoped114 : DmaSems sig S_ := SemArray.consecutive 120 S_ hcc1_scoped114
abbrev cc1_scoped115 : DmaSems sig S_ := SemArray.consecutive 121 S_ hcc1_scoped115
abbrev cc1_scoped116 : DmaSems sig S_ := SemArray.consecutive 122 S_ hcc1_scoped116
abbrev cc1_scoped117 : DmaSems sig S_ := SemArray.consecutive 123 S_ hcc1_scoped117
abbrev cc1_scoped118 : DmaSems sig S_ := SemArray.consecutive 124 S_ hcc1_scoped118
abbrev cc1_scoped119 : DmaSems sig S_ := SemArray.consecutive 125 S_ hcc1_scoped119
abbrev cc1_scoped120 : DmaSems sig S_ := SemArray.consecutive 126 S_ hcc1_scoped120
abbrev cc1_scoped121 : DmaSems sig S_ := SemArray.consecutive 127 S_ hcc1_scoped121
abbrev cc1_scoped122 : DmaSems sig S_ := SemArray.consecutive 128 S_ hcc1_scoped122
abbrev cc1_scoped123 : DmaSems sig S_ := SemArray.consecutive 129 S_ hcc1_scoped123
abbrev cc1_scoped124 : DmaSems sig S_ := SemArray.consecutive 130 S_ hcc1_scoped124
abbrev cc1_scoped125 : DmaSems sig S_ := SemArray.consecutive 131 S_ hcc1_scoped125
abbrev cc1_scoped126 : DmaSems sig S_ := SemArray.consecutive 132 S_ hcc1_scoped126
abbrev cc1_scoped127 : DmaSems sig S_ := SemArray.consecutive 133 S_ hcc1_scoped127
abbrev cc1_scoped128 : DmaSems sig S_ := SemArray.consecutive 134 S_ hcc1_scoped128
abbrev cc1_scoped129 : DmaSems sig S_ := SemArray.consecutive 135 S_ hcc1_scoped129
abbrev cc1_scoped130 : DmaSems sig S_ := SemArray.consecutive 136 S_ hcc1_scoped130
abbrev cc1_scoped131 : DmaSems sig S_ := SemArray.consecutive 137 S_ hcc1_scoped131
abbrev cc1_scoped132 : DmaSems sig S_ := SemArray.consecutive 138 S_ hcc1_scoped132
abbrev cc1_scoped133 : DmaSems sig S_ := SemArray.consecutive 139 S_ hcc1_scoped133
abbrev cc1_scoped134 : DmaSems sig S_ := SemArray.consecutive 140 S_ hcc1_scoped134
abbrev cc1_scoped135 : DmaSems sig S_ := SemArray.consecutive 141 S_ hcc1_scoped135
abbrev cc1_scoped136 : DmaSems sig S_ := SemArray.consecutive 142 S_ hcc1_scoped136
abbrev cc1_scoped137 : DmaSems sig S_ := SemArray.consecutive 143 S_ hcc1_scoped137
abbrev cc1_scoped138 : DmaSems sig S_ := SemArray.consecutive 144 S_ hcc1_scoped138
abbrev cc1_scoped139 : DmaSems sig S_ := SemArray.consecutive 145 S_ hcc1_scoped139
abbrev cc1_scoped140 : DmaSems sig S_ := SemArray.consecutive 146 S_ hcc1_scoped140
abbrev cc1_scoped141 : DmaSems sig S_ := SemArray.consecutive 147 S_ hcc1_scoped141
abbrev cc1_scoped142 : DmaSems sig S_ := SemArray.consecutive 148 S_ hcc1_scoped142
abbrev cc1_scoped143 : DmaSems sig S_ := SemArray.consecutive 149 S_ hcc1_scoped143
abbrev cc1_scoped144 : DmaSems sig S_ := SemArray.consecutive 150 S_ hcc1_scoped144
abbrev cc1_scoped145 : DmaSems sig S_ := SemArray.consecutive 151 S_ hcc1_scoped145
abbrev cc1_scoped146 : DmaSems sig S_ := SemArray.consecutive 152 S_ hcc1_scoped146
abbrev cc1_scoped147 : DmaSems sig S_ := SemArray.consecutive 153 S_ hcc1_scoped147
abbrev cc1_scoped148 : DmaSems sig S_ := SemArray.consecutive 154 S_ hcc1_scoped148
abbrev cc1_scoped149 : DmaSems sig S_ := SemArray.consecutive 155 S_ hcc1_scoped149
abbrev cc1_scoped150 : DmaSems sig S_ := SemArray.consecutive 156 S_ hcc1_scoped150
abbrev cc1_scoped151 : DmaSems sig S_ := SemArray.consecutive 157 S_ hcc1_scoped151
abbrev cc1_scoped152 : DmaSems sig S_ := SemArray.consecutive 158 S_ hcc1_scoped152
abbrev cc1_scoped153 : DmaSems sig S_ := SemArray.consecutive 159 S_ hcc1_scoped153
abbrev cc1_scoped154 : DmaSems sig S_ := SemArray.consecutive 160 S_ hcc1_scoped154
abbrev cc1_scoped155 : DmaSems sig S_ := SemArray.consecutive 161 S_ hcc1_scoped155
abbrev cc1_scoped156 : DmaSems sig S_ := SemArray.consecutive 162 S_ hcc1_scoped156
abbrev cc1_scoped157 : DmaSems sig S_ := SemArray.consecutive 163 S_ hcc1_scoped157
abbrev cc1_scoped158 : DmaSems sig S_ := SemArray.consecutive 164 S_ hcc1_scoped158
abbrev cc1_scoped159 : DmaSems sig S_ := SemArray.consecutive 165 S_ hcc1_scoped159
abbrev cc1_scoped160 : DmaSems sig S_ := SemArray.consecutive 166 S_ hcc1_scoped160
abbrev cc1_scoped161 : DmaSems sig S_ := SemArray.consecutive 167 S_ hcc1_scoped161
abbrev cc3_scoped0 : DmaSems sig S_ := SemArray.consecutive 178 S_ hcc3_scoped0
abbrev cc3_scoped1 : DmaSems sig S_ := SemArray.consecutive 179 S_ hcc3_scoped1
abbrev cc3_scoped2 : DmaSems sig S_ := SemArray.consecutive 180 S_ hcc3_scoped2
abbrev cc3_scoped3 : DmaSems sig S_ := SemArray.consecutive 181 S_ hcc3_scoped3
abbrev cc3_scoped4 : DmaSems sig S_ := SemArray.consecutive 182 S_ hcc3_scoped4
abbrev cc3_scoped5 : DmaSems sig S_ := SemArray.consecutive 183 S_ hcc3_scoped5
abbrev cc3_scoped6 : DmaSems sig S_ := SemArray.consecutive 184 S_ hcc3_scoped6
abbrev cc3_scoped7 : DmaSems sig S_ := SemArray.consecutive 185 S_ hcc3_scoped7
abbrev cc3_scoped8 : DmaSems sig S_ := SemArray.consecutive 186 S_ hcc3_scoped8
abbrev cc3_scoped9 : DmaSems sig S_ := SemArray.consecutive 187 S_ hcc3_scoped9
abbrev cc3_scoped10 : DmaSems sig S_ := SemArray.consecutive 188 S_ hcc3_scoped10
abbrev cc3_scoped11 : DmaSems sig S_ := SemArray.consecutive 189 S_ hcc3_scoped11
abbrev cc3_scoped12 : DmaSems sig S_ := SemArray.consecutive 190 S_ hcc3_scoped12
abbrev cc3_scoped13 : DmaSems sig S_ := SemArray.consecutive 191 S_ hcc3_scoped13
abbrev cc3_scoped14 : DmaSems sig S_ := SemArray.consecutive 192 S_ hcc3_scoped14
abbrev cc3_scoped15 : DmaSems sig S_ := SemArray.consecutive 193 S_ hcc3_scoped15
abbrev cc3_scoped16 : DmaSems sig S_ := SemArray.consecutive 194 S_ hcc3_scoped16
abbrev cc3_scoped17 : DmaSems sig S_ := SemArray.consecutive 195 S_ hcc3_scoped17
abbrev cc3_scoped18 : DmaSems sig S_ := SemArray.consecutive 196 S_ hcc3_scoped18
abbrev cc3_scoped19 : DmaSems sig S_ := SemArray.consecutive 197 S_ hcc3_scoped19
abbrev cc3_scoped20 : DmaSems sig S_ := SemArray.consecutive 198 S_ hcc3_scoped20
abbrev cc3_scoped21 : DmaSems sig S_ := SemArray.consecutive 199 S_ hcc3_scoped21
abbrev cc3_scoped22 : DmaSems sig S_ := SemArray.consecutive 200 S_ hcc3_scoped22
abbrev cc3_scoped23 : DmaSems sig S_ := SemArray.consecutive 201 S_ hcc3_scoped23
abbrev cc3_scoped24 : DmaSems sig S_ := SemArray.consecutive 202 S_ hcc3_scoped24
abbrev cc3_scoped25 : DmaSems sig S_ := SemArray.consecutive 203 S_ hcc3_scoped25
abbrev cc3_scoped26 : DmaSems sig S_ := SemArray.consecutive 204 S_ hcc3_scoped26
abbrev cc3_scoped27 : DmaSems sig S_ := SemArray.consecutive 205 S_ hcc3_scoped27
abbrev cc3_scoped28 : DmaSems sig S_ := SemArray.consecutive 206 S_ hcc3_scoped28
abbrev cc3_scoped29 : DmaSems sig S_ := SemArray.consecutive 207 S_ hcc3_scoped29
abbrev cc3_scoped30 : DmaSems sig S_ := SemArray.consecutive 208 S_ hcc3_scoped30
abbrev cc3_scoped31 : DmaSems sig S_ := SemArray.consecutive 209 S_ hcc3_scoped31
abbrev cc3_scoped32 : DmaSems sig S_ := SemArray.consecutive 210 S_ hcc3_scoped32
abbrev cc3_scoped33 : DmaSems sig S_ := SemArray.consecutive 211 S_ hcc3_scoped33
abbrev cc3_scoped34 : DmaSems sig S_ := SemArray.consecutive 212 S_ hcc3_scoped34
abbrev cc3_scoped35 : DmaSems sig S_ := SemArray.consecutive 213 S_ hcc3_scoped35
abbrev cc3_scoped36 : DmaSems sig S_ := SemArray.consecutive 214 S_ hcc3_scoped36
abbrev cc3_scoped37 : DmaSems sig S_ := SemArray.consecutive 215 S_ hcc3_scoped37
abbrev cc3_scoped38 : DmaSems sig S_ := SemArray.consecutive 216 S_ hcc3_scoped38
abbrev cc3_scoped39 : DmaSems sig S_ := SemArray.consecutive 217 S_ hcc3_scoped39
abbrev cc3_scoped40 : DmaSems sig S_ := SemArray.consecutive 218 S_ hcc3_scoped40
abbrev cc3_scoped41 : DmaSems sig S_ := SemArray.consecutive 219 S_ hcc3_scoped41
abbrev cc3_scoped42 : DmaSems sig S_ := SemArray.consecutive 220 S_ hcc3_scoped42
abbrev cc3_scoped43 : DmaSems sig S_ := SemArray.consecutive 221 S_ hcc3_scoped43
abbrev cc3_scoped44 : DmaSems sig S_ := SemArray.consecutive 222 S_ hcc3_scoped44
abbrev cc3_scoped45 : DmaSems sig S_ := SemArray.consecutive 223 S_ hcc3_scoped45
abbrev cc3_scoped46 : DmaSems sig S_ := SemArray.consecutive 224 S_ hcc3_scoped46
abbrev cc3_scoped47 : DmaSems sig S_ := SemArray.consecutive 225 S_ hcc3_scoped47
abbrev cc3_scoped48 : DmaSems sig S_ := SemArray.consecutive 226 S_ hcc3_scoped48
abbrev cc3_scoped49 : DmaSems sig S_ := SemArray.consecutive 227 S_ hcc3_scoped49
abbrev cc3_scoped50 : DmaSems sig S_ := SemArray.consecutive 228 S_ hcc3_scoped50
abbrev cc3_scoped51 : DmaSems sig S_ := SemArray.consecutive 229 S_ hcc3_scoped51
abbrev cc3_scoped52 : DmaSems sig S_ := SemArray.consecutive 230 S_ hcc3_scoped52
abbrev cc3_scoped53 : DmaSems sig S_ := SemArray.consecutive 231 S_ hcc3_scoped53
abbrev cc3_scoped54 : DmaSems sig S_ := SemArray.consecutive 232 S_ hcc3_scoped54
abbrev cc3_scoped55 : DmaSems sig S_ := SemArray.consecutive 233 S_ hcc3_scoped55
abbrev cc3_scoped56 : DmaSems sig S_ := SemArray.consecutive 234 S_ hcc3_scoped56
abbrev cc3_scoped57 : DmaSems sig S_ := SemArray.consecutive 235 S_ hcc3_scoped57
abbrev cc3_scoped58 : DmaSems sig S_ := SemArray.consecutive 236 S_ hcc3_scoped58
abbrev cc3_scoped59 : DmaSems sig S_ := SemArray.consecutive 237 S_ hcc3_scoped59
abbrev cc3_scoped60 : DmaSems sig S_ := SemArray.consecutive 238 S_ hcc3_scoped60
abbrev cc3_scoped61 : DmaSems sig S_ := SemArray.consecutive 239 S_ hcc3_scoped61
abbrev cc3_scoped62 : DmaSems sig S_ := SemArray.consecutive 240 S_ hcc3_scoped62
abbrev cc3_scoped63 : DmaSems sig S_ := SemArray.consecutive 241 S_ hcc3_scoped63
abbrev cc3_scoped64 : DmaSems sig S_ := SemArray.consecutive 242 S_ hcc3_scoped64
abbrev cc3_scoped65 : DmaSems sig S_ := SemArray.consecutive 243 S_ hcc3_scoped65
abbrev cc3_scoped66 : DmaSems sig S_ := SemArray.consecutive 244 S_ hcc3_scoped66
abbrev cc3_scoped67 : DmaSems sig S_ := SemArray.consecutive 245 S_ hcc3_scoped67
abbrev cc3_scoped68 : DmaSems sig S_ := SemArray.consecutive 246 S_ hcc3_scoped68
abbrev cc3_scoped69 : DmaSems sig S_ := SemArray.consecutive 247 S_ hcc3_scoped69
abbrev cc3_scoped70 : DmaSems sig S_ := SemArray.consecutive 248 S_ hcc3_scoped70
abbrev cc3_scoped71 : DmaSems sig S_ := SemArray.consecutive 249 S_ hcc3_scoped71
abbrev cc3_scoped72 : DmaSems sig S_ := SemArray.consecutive 250 S_ hcc3_scoped72
abbrev cc3_scoped73 : DmaSems sig S_ := SemArray.consecutive 251 S_ hcc3_scoped73
abbrev cc3_scoped74 : DmaSems sig S_ := SemArray.consecutive 252 S_ hcc3_scoped74
abbrev cc3_scoped75 : DmaSems sig S_ := SemArray.consecutive 253 S_ hcc3_scoped75
abbrev cc3_scoped76 : DmaSems sig S_ := SemArray.consecutive 254 S_ hcc3_scoped76
abbrev cc3_scoped77 : DmaSems sig S_ := SemArray.consecutive 255 S_ hcc3_scoped77
abbrev cc3_scoped78 : DmaSems sig S_ := SemArray.consecutive 256 S_ hcc3_scoped78
abbrev cc3_scoped79 : DmaSems sig S_ := SemArray.consecutive 257 S_ hcc3_scoped79
abbrev cc3_scoped80 : DmaSems sig S_ := SemArray.consecutive 258 S_ hcc3_scoped80
abbrev cc3_scoped81 : DmaSems sig S_ := SemArray.consecutive 259 S_ hcc3_scoped81
abbrev cc3_scoped82 : DmaSems sig S_ := SemArray.consecutive 260 S_ hcc3_scoped82
abbrev cc3_scoped83 : DmaSems sig S_ := SemArray.consecutive 261 S_ hcc3_scoped83
abbrev cc3_scoped84 : DmaSems sig S_ := SemArray.consecutive 262 S_ hcc3_scoped84
abbrev cc3_scoped85 : DmaSems sig S_ := SemArray.consecutive 263 S_ hcc3_scoped85
abbrev cc3_scoped86 : DmaSems sig S_ := SemArray.consecutive 264 S_ hcc3_scoped86
abbrev cc3_scoped87 : DmaSems sig S_ := SemArray.consecutive 265 S_ hcc3_scoped87
abbrev cc3_scoped88 : DmaSems sig S_ := SemArray.consecutive 266 S_ hcc3_scoped88
abbrev cc3_scoped89 : DmaSems sig S_ := SemArray.consecutive 267 S_ hcc3_scoped89
abbrev cc3_scoped90 : DmaSems sig S_ := SemArray.consecutive 268 S_ hcc3_scoped90
abbrev cc3_scoped91 : DmaSems sig S_ := SemArray.consecutive 269 S_ hcc3_scoped91
abbrev cc3_scoped92 : DmaSems sig S_ := SemArray.consecutive 270 S_ hcc3_scoped92
abbrev cc3_scoped93 : DmaSems sig S_ := SemArray.consecutive 271 S_ hcc3_scoped93
abbrev cc3_scoped94 : DmaSems sig S_ := SemArray.consecutive 272 S_ hcc3_scoped94
abbrev cc3_scoped95 : DmaSems sig S_ := SemArray.consecutive 273 S_ hcc3_scoped95
abbrev cc3_scoped96 : DmaSems sig S_ := SemArray.consecutive 274 S_ hcc3_scoped96
abbrev cc3_scoped97 : DmaSems sig S_ := SemArray.consecutive 275 S_ hcc3_scoped97
abbrev cc3_scoped98 : DmaSems sig S_ := SemArray.consecutive 276 S_ hcc3_scoped98
abbrev cc3_scoped99 : DmaSems sig S_ := SemArray.consecutive 277 S_ hcc3_scoped99
abbrev cc3_scoped100 : DmaSems sig S_ := SemArray.consecutive 278 S_ hcc3_scoped100
abbrev cc3_scoped101 : DmaSems sig S_ := SemArray.consecutive 279 S_ hcc3_scoped101
abbrev cc3_scoped102 : DmaSems sig S_ := SemArray.consecutive 280 S_ hcc3_scoped102
abbrev cc3_scoped103 : DmaSems sig S_ := SemArray.consecutive 281 S_ hcc3_scoped103
abbrev cc3_scoped104 : DmaSems sig S_ := SemArray.consecutive 282 S_ hcc3_scoped104
abbrev cc3_scoped105 : DmaSems sig S_ := SemArray.consecutive 283 S_ hcc3_scoped105
abbrev cc3_scoped106 : DmaSems sig S_ := SemArray.consecutive 284 S_ hcc3_scoped106
abbrev cc3_scoped107 : DmaSems sig S_ := SemArray.consecutive 285 S_ hcc3_scoped107
abbrev cc3_scoped108 : DmaSems sig S_ := SemArray.consecutive 286 S_ hcc3_scoped108
abbrev cc3_scoped109 : DmaSems sig S_ := SemArray.consecutive 287 S_ hcc3_scoped109
abbrev cc3_scoped110 : DmaSems sig S_ := SemArray.consecutive 288 S_ hcc3_scoped110
abbrev cc3_scoped111 : DmaSems sig S_ := SemArray.consecutive 289 S_ hcc3_scoped111
abbrev cc3_scoped112 : DmaSems sig S_ := SemArray.consecutive 290 S_ hcc3_scoped112
abbrev cc3_scoped113 : DmaSems sig S_ := SemArray.consecutive 291 S_ hcc3_scoped113
abbrev cc3_scoped114 : DmaSems sig S_ := SemArray.consecutive 292 S_ hcc3_scoped114
abbrev cc3_scoped115 : DmaSems sig S_ := SemArray.consecutive 293 S_ hcc3_scoped115
abbrev cc3_scoped116 : DmaSems sig S_ := SemArray.consecutive 294 S_ hcc3_scoped116
abbrev cc3_scoped117 : DmaSems sig S_ := SemArray.consecutive 295 S_ hcc3_scoped117
abbrev cc3_scoped118 : DmaSems sig S_ := SemArray.consecutive 296 S_ hcc3_scoped118
abbrev cc3_scoped119 : DmaSems sig S_ := SemArray.consecutive 297 S_ hcc3_scoped119
abbrev cc3_scoped120 : DmaSems sig S_ := SemArray.consecutive 298 S_ hcc3_scoped120
abbrev cc3_scoped121 : DmaSems sig S_ := SemArray.consecutive 299 S_ hcc3_scoped121
abbrev cc3_scoped122 : DmaSems sig S_ := SemArray.consecutive 300 S_ hcc3_scoped122
abbrev cc3_scoped123 : DmaSems sig S_ := SemArray.consecutive 301 S_ hcc3_scoped123
abbrev cc3_scoped124 : DmaSems sig S_ := SemArray.consecutive 302 S_ hcc3_scoped124
abbrev cc3_scoped125 : DmaSems sig S_ := SemArray.consecutive 303 S_ hcc3_scoped125
abbrev cc3_scoped126 : DmaSems sig S_ := SemArray.consecutive 304 S_ hcc3_scoped126
abbrev cc3_scoped127 : DmaSems sig S_ := SemArray.consecutive 305 S_ hcc3_scoped127
abbrev cc3_scoped128 : DmaSems sig S_ := SemArray.consecutive 306 S_ hcc3_scoped128
abbrev cc3_scoped129 : DmaSems sig S_ := SemArray.consecutive 307 S_ hcc3_scoped129
abbrev cc3_scoped130 : DmaSems sig S_ := SemArray.consecutive 308 S_ hcc3_scoped130
abbrev cc3_scoped131 : DmaSems sig S_ := SemArray.consecutive 309 S_ hcc3_scoped131
abbrev cc3_scoped132 : DmaSems sig S_ := SemArray.consecutive 310 S_ hcc3_scoped132
abbrev cc3_scoped133 : DmaSems sig S_ := SemArray.consecutive 311 S_ hcc3_scoped133
abbrev cc3_scoped134 : DmaSems sig S_ := SemArray.consecutive 312 S_ hcc3_scoped134
abbrev cc3_scoped135 : DmaSems sig S_ := SemArray.consecutive 313 S_ hcc3_scoped135
abbrev cc3_scoped136 : DmaSems sig S_ := SemArray.consecutive 314 S_ hcc3_scoped136
abbrev cc3_scoped137 : DmaSems sig S_ := SemArray.consecutive 315 S_ hcc3_scoped137
abbrev cc3_scoped138 : DmaSems sig S_ := SemArray.consecutive 316 S_ hcc3_scoped138
abbrev cc3_scoped139 : DmaSems sig S_ := SemArray.consecutive 317 S_ hcc3_scoped139
abbrev cc3_scoped140 : DmaSems sig S_ := SemArray.consecutive 318 S_ hcc3_scoped140
abbrev cc3_scoped141 : DmaSems sig S_ := SemArray.consecutive 319 S_ hcc3_scoped141
abbrev cc3_scoped142 : DmaSems sig S_ := SemArray.consecutive 320 S_ hcc3_scoped142
abbrev cc3_scoped143 : DmaSems sig S_ := SemArray.consecutive 321 S_ hcc3_scoped143
abbrev cc3_scoped144 : DmaSems sig S_ := SemArray.consecutive 322 S_ hcc3_scoped144
abbrev cc3_scoped145 : DmaSems sig S_ := SemArray.consecutive 323 S_ hcc3_scoped145
abbrev cc3_scoped146 : DmaSems sig S_ := SemArray.consecutive 324 S_ hcc3_scoped146
abbrev cc3_scoped147 : DmaSems sig S_ := SemArray.consecutive 325 S_ hcc3_scoped147
abbrev cc3_scoped148 : DmaSems sig S_ := SemArray.consecutive 326 S_ hcc3_scoped148
abbrev cc3_scoped149 : DmaSems sig S_ := SemArray.consecutive 327 S_ hcc3_scoped149
abbrev cc3_scoped150 : DmaSems sig S_ := SemArray.consecutive 328 S_ hcc3_scoped150
abbrev cc3_scoped151 : DmaSems sig S_ := SemArray.consecutive 329 S_ hcc3_scoped151
abbrev cc3_scoped152 : DmaSems sig S_ := SemArray.consecutive 330 S_ hcc3_scoped152
abbrev cc3_scoped153 : DmaSems sig S_ := SemArray.consecutive 331 S_ hcc3_scoped153
abbrev cc3_scoped154 : DmaSems sig S_ := SemArray.consecutive 332 S_ hcc3_scoped154
abbrev cc3_scoped155 : DmaSems sig S_ := SemArray.consecutive 333 S_ hcc3_scoped155
abbrev cc3_scoped156 : DmaSems sig S_ := SemArray.consecutive 334 S_ hcc3_scoped156
abbrev cc3_scoped157 : DmaSems sig S_ := SemArray.consecutive 335 S_ hcc3_scoped157
abbrev cc3_scoped158 : DmaSems sig S_ := SemArray.consecutive 336 S_ hcc3_scoped158
abbrev cc3_scoped159 : DmaSems sig S_ := SemArray.consecutive 337 S_ hcc3_scoped159
abbrev cc3_scoped160 : DmaSems sig S_ := SemArray.consecutive 338 S_ hcc3_scoped160
abbrev cc3_scoped161 : DmaSems sig S_ := SemArray.consecutive 339 S_ hcc3_scoped161
def scatter_S10240_S320000x1_S320000_n_0_0_1 : ScatterDims S10240 S320000x1 S320000 where
  updateWindowDims := []
  insertedWindowDims := [0]
  scatterDimsToOperandDims := [0]
  indexVectorDim := 1
  wf := scatter_S10240_S320000x1_S320000_n_0_0_1_wf
def scatter_S10240x128_S327680x1_S327680x128_1_0_0_1 : ScatterDims S10240x128 S327680x1 S327680x128 where
  updateWindowDims := [1]
  insertedWindowDims := [0]
  scatterDimsToOperandDims := [0]
  indexVectorDim := 1
  wf := scatter_S10240x128_S327680x1_S327680x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v8) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v37) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S256x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39) S256x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win4_0 : Pipeline.Window sig grid4 :=
  Pipeline.Window.ofSpec (Memref.whole main_v43) S256x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S256x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S256x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S1 : Shape := ⟨1, ![1]⟩
abbrev S1x1 : Shape := ⟨2, ![1, 1]⟩
abbrev S320000x128 : Shape := ⟨2, ![320000, 128]⟩
abbrev S1x128 : Shape := ⟨2, ![1, 128]⟩

abbrev nBuf : Space → Nat
  | .hbm => 187
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128x128, .f32⟩
  | 5 => ⟨S128, .f32⟩
  | 6 => ⟨S1x320000, .i32⟩
  | 7 => ⟨S320000, .i32⟩
  | 8 => ⟨S1x320000, .i32⟩
  | 9 => ⟨S320000, .i32⟩
  | 10 => ⟨S_, .i32⟩
  | 11 => ⟨S10000, .i32⟩
  | 12 => ⟨S_, .i32⟩
  | 13 => ⟨S_, .i32⟩
  | 14 => ⟨S320000, .i32⟩
  | 15 => ⟨S320000, .i32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S_, .i32⟩
  | 25 => ⟨S320000, .i32⟩
  | 26 => ⟨S10000, .i32⟩
  | 27 => ⟨S_, .i32⟩
  | 28 => ⟨S_, .i32⟩
  | 29 => ⟨S10000, .i32⟩
  | 30 => ⟨S10000, .i32⟩
  | 31 => ⟨S10000, .f32⟩
  | 32 => ⟨S_, .i32⟩
  | 33 => ⟨S10000, .i32⟩
  | 34 => ⟨S_, .i32⟩
  | 35 => ⟨S_, .i32⟩
  | 36 => ⟨S320000, .i32⟩
  | 37 => ⟨S320000, .i32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S_, .i32⟩
  | 47 => ⟨S320000, .i32⟩
  | 48 => ⟨S10000, .i32⟩
  | 49 => ⟨S_, .i32⟩
  | 50 => ⟨S_, .i32⟩
  | 51 => ⟨S10000, .i32⟩
  | 52 => ⟨S10000, .i32⟩
  | 53 => ⟨S10000, .f32⟩
  | 54 => ⟨S_, .f32⟩
  | 55 => ⟨S10000, .f32⟩
  | 56 => ⟨S10000, .f32⟩
  | 57 => ⟨S10000x1, .f32⟩
  | 58 => ⟨S10000x128, .f32⟩
  | 59 => ⟨S10000x128, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S1, .i32⟩
  | 69 => ⟨S_, .i32⟩
  | 70 => ⟨S320000x1, .i32⟩
  | 71 => ⟨S320000x1, .i1⟩
  | 72 => ⟨S1x1, .i32⟩
  | 73 => ⟨S320000x1, .i32⟩
  | 74 => ⟨S320000x1, .i1⟩
  | 75 => ⟨S320000x1, .i1⟩
  | 76 => ⟨S_, .i1⟩
  | 77 => ⟨S320000, .i1⟩
  | 78 => ⟨S320000x128, .f32⟩
  | 79 => ⟨S320000x128, .i1⟩
  | 80 => ⟨S_, .f32⟩
  | 81 => ⟨S320000x128, .f32⟩
  | 82 => ⟨S320000x128, .f32⟩
  | 83 => ⟨S_, .f32⟩
  | 84 => ⟨S10000x128, .f32⟩
  | 85 => ⟨S320000x1, .i32⟩
  | 86 => ⟨S10000x128, .f32⟩
  | 87 => ⟨S_, .f32⟩
  | 88 => ⟨S10000, .f32⟩
  | 89 => ⟨S10000, .f32⟩
  | 90 => ⟨S10000x1, .f32⟩
  | 91 => ⟨S10000x128, .f32⟩
  | 92 => ⟨S10000x128, .f32⟩
  | 93 => ⟨S10000x128, .f32⟩
  | 94 => ⟨S1x128, .f32⟩
  | 95 => ⟨S10000x128, .f32⟩
  | 96 => ⟨S10000x128, .f32⟩
  | 97 => ⟨S_, .f32⟩
  | 98 => ⟨S10000x128, .f32⟩
  | 99 => ⟨S10000x128, .f32⟩
  | 100 => ⟨S_, .i32⟩
  | 101 => ⟨S10000, .i32⟩
  | 102 => ⟨S_, .i32⟩
  | 103 => ⟨S_, .i32⟩
  | 104 => ⟨S320000, .i32⟩
  | 105 => ⟨S320000, .i32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S_, .i32⟩
  | 115 => ⟨S320000, .i32⟩
  | 116 => ⟨S10000, .i32⟩
  | 117 => ⟨S_, .i32⟩
  | 118 => ⟨S_, .i32⟩
  | 119 => ⟨S10000, .i32⟩
  | 120 => ⟨S10000, .i32⟩
  | 121 => ⟨S10000, .f32⟩
  | 122 => ⟨S_, .i32⟩
  | 123 => ⟨S10000, .i32⟩
  | 124 => ⟨S_, .i32⟩
  | 125 => ⟨S_, .i32⟩
  | 126 => ⟨S320000, .i32⟩
  | 127 => ⟨S320000, .i32⟩
  | _ => ⟨S10000x128, .f32⟩

abbrev hbmTy0_1 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S_, .i32⟩
  | 9 => ⟨S320000, .i32⟩
  | 10 => ⟨S10000, .i32⟩
  | 11 => ⟨S_, .i32⟩
  | 12 => ⟨S_, .i32⟩
  | 13 => ⟨S10000, .i32⟩
  | 14 => ⟨S10000, .i32⟩
  | 15 => ⟨S10000, .f32⟩
  | 16 => ⟨S_, .f32⟩
  | 17 => ⟨S10000, .f32⟩
  | 18 => ⟨S10000, .f32⟩
  | 19 => ⟨S10000x1, .f32⟩
  | 20 => ⟨S10000x128, .f32⟩
  | 21 => ⟨S10000x128, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S1, .i32⟩
  | 31 => ⟨S_, .i32⟩
  | 32 => ⟨S320000x1, .i32⟩
  | 33 => ⟨S320000x1, .i1⟩
  | 34 => ⟨S1x1, .i32⟩
  | 35 => ⟨S320000x1, .i32⟩
  | 36 => ⟨S320000x1, .i1⟩
  | 37 => ⟨S320000x1, .i1⟩
  | 38 => ⟨S_, .i1⟩
  | 39 => ⟨S320000, .i1⟩
  | 40 => ⟨S320000x128, .f32⟩
  | 41 => ⟨S320000x128, .i1⟩
  | 42 => ⟨S_, .f32⟩
  | 43 => ⟨S320000x128, .f32⟩
  | 44 => ⟨S320000x128, .f32⟩
  | 45 => ⟨S_, .f32⟩
  | 46 => ⟨S10000x128, .f32⟩
  | 47 => ⟨S320000x1, .i32⟩
  | 48 => ⟨S10000x128, .f32⟩
  | 49 => ⟨S_, .f32⟩
  | 50 => ⟨S10000, .f32⟩
  | 51 => ⟨S10000, .f32⟩
  | 52 => ⟨S10000x1, .f32⟩
  | 53 => ⟨S10000x128, .f32⟩
  | 54 => ⟨S10000x128, .f32⟩
  | 55 => ⟨S10000x128, .f32⟩
  | 56 => ⟨S1x128, .f32⟩
  | 57 => ⟨S10000x128, .f32⟩
  | 58 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_c_6 : Ref sig .tc := ⟨.hbm, 34, rfl⟩
abbrev main_call2_v0 : Ref sig .tc := ⟨.hbm, 35, rfl⟩
abbrev main_call2_v1 : Ref sig .tc := ⟨.hbm, 36, rfl⟩
abbrev main_v17 : Ref sig .tc := ⟨.hbm, 37, rfl⟩
abbrev main_c_7 : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_9 : Ref sig .tc := ⟨.hbm, 46, rfl⟩
abbrev main_v24 : Ref sig .tc := ⟨.hbm, 47, rfl⟩
abbrev main_v25 : Ref sig .tc := ⟨.hbm, 48, rfl⟩
abbrev main_c_10 : Ref sig .tc := ⟨.hbm, 49, rfl⟩
abbrev main_call3_v0 : Ref sig .tc := ⟨.hbm, 50, rfl⟩
abbrev main_call3_v1 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call4_c : Ref sig .tc := ⟨.hbm, 60, rfl⟩
abbrev main_call4_v0 : Ref sig .tc := ⟨.hbm, 61, rfl⟩
abbrev main_call4_v1 : Ref sig .tc := ⟨.hbm, 62, rfl⟩
abbrev main_call4_c_0 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_c_1 : Ref sig .tc := ⟨.hbm, 68, rfl⟩
abbrev main_call4_c_2 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_3 : Ref sig .tc := ⟨.hbm, 76, rfl⟩
abbrev main_call4_v12 : Ref sig .tc := ⟨.hbm, 77, rfl⟩
abbrev main_call4_v13 : Ref sig .tc := ⟨.hbm, 78, rfl⟩
abbrev main_call4_v14 : Ref sig .tc := ⟨.hbm, 79, rfl⟩
abbrev main_call4_cst : Ref sig .tc := ⟨.hbm, 80, rfl⟩
abbrev main_call4_v15 : Ref sig .tc := ⟨.hbm, 81, rfl⟩
abbrev main_v33 : Ref sig .tc := ⟨.hbm, 82, rfl⟩
abbrev main_cst_11 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_12 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_call5_cst : Ref sig .tc := ⟨.hbm, 97, rfl⟩
abbrev main_call5_v0 : Ref sig .tc := ⟨.hbm, 98, rfl⟩
abbrev main_v46 : Ref sig .tc := ⟨.hbm, 99, rfl⟩
abbrev main_c_13 : Ref sig .tc := ⟨.hbm, 100, rfl⟩
abbrev main_v47 : Ref sig .tc := ⟨.hbm, 101, rfl⟩
abbrev main_c_14 : Ref sig .tc := ⟨.hbm, 102, rfl⟩
abbrev main_call6_v0 : Ref sig .tc := ⟨.hbm, 103, rfl⟩
abbrev main_call6_v1 : Ref sig .tc := ⟨.hbm, 104, rfl⟩
abbrev main_v48 : Ref sig .tc := ⟨.hbm, 105, rfl⟩
abbrev main_c_15 : Ref sig .tc := ⟨.hbm, 106, rfl⟩
abbrev main_v49 : Ref sig .tc := ⟨.hbm, 107, rfl⟩
abbrev main_v50 : Ref sig .tc := ⟨.hbm, 108, rfl⟩
abbrev main_c_16 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_c_17 : Ref sig .tc := ⟨.hbm, 114, rfl⟩
abbrev main_v55 : Ref sig .tc := ⟨.hbm, 115, rfl⟩
abbrev main_v56 : Ref sig .tc := ⟨.hbm, 116, rfl⟩
abbrev main_c_18 : Ref sig .tc := ⟨.hbm, 117, rfl⟩
abbrev main_call7_v0 : Ref sig .tc := ⟨.hbm, 118, rfl⟩
abbrev main_call7_v1 : Ref sig .tc := ⟨.hbm, 119, rfl⟩
abbrev main_v57 : Ref sig .tc := ⟨.hbm, 120, rfl⟩
abbrev main_v58 : Ref sig .tc := ⟨.hbm, 121, rfl⟩
abbrev main_c_19 : Ref sig .tc := ⟨.hbm, 122, rfl⟩
abbrev main_v59 : Ref sig .tc := ⟨.hbm, 123, rfl⟩
abbrev main_c_20 : Ref sig .tc := ⟨.hbm, 124, rfl⟩
abbrev main_call8_v0 : Ref sig .tc := ⟨.hbm, 125, rfl⟩
abbrev main_call8_v1 : Ref sig .tc := ⟨.hbm, 126, rfl⟩
abbrev main_v60 : Ref sig .tc := ⟨.hbm, 127, rfl⟩
abbrev main_c_21 : Ref sig .tc := ⟨.hbm, 128, rfl⟩
abbrev main_v61 : Ref sig .tc := ⟨.hbm, 129, rfl⟩
abbrev main_v62 : Ref sig .tc := ⟨.hbm, 130, rfl⟩
abbrev main_c_22 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_c_23 : Ref sig .tc := ⟨.hbm, 136, rfl⟩
abbrev main_v67 : Ref sig .tc := ⟨.hbm, 137, rfl⟩
abbrev main_v68 : Ref sig .tc := ⟨.hbm, 138, rfl⟩
abbrev main_c_24 : Ref sig .tc := ⟨.hbm, 139, rfl⟩
abbrev main_call9_v0 : Ref sig .tc := ⟨.hbm, 140, rfl⟩
abbrev main_call9_v1 : Ref sig .tc := ⟨.hbm, 141, rfl⟩
abbrev main_v69 : Ref sig .tc := ⟨.hbm, 142, rfl⟩
abbrev main_v70 : Ref sig .tc := ⟨.hbm, 143, rfl⟩
abbrev main_cst_25 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_call10_c : Ref sig .tc := ⟨.hbm, 150, rfl⟩
abbrev main_call10_v0 : Ref sig .tc := ⟨.hbm, 151, rfl⟩
abbrev main_call10_v1 : Ref sig .tc := ⟨.hbm, 152, rfl⟩
abbrev main_call10_c_0 : Ref sig .tc := ⟨.hbm, 153, rfl⟩
abbrev main_call10_v2 : Ref sig .tc := ⟨.hbm, 154, rfl⟩
abbrev main_call10_v3 : Ref sig .tc := ⟨.hbm, 155, rfl⟩
abbrev main_call10_v4 : Ref sig .tc := ⟨.hbm, 156, rfl⟩
abbrev main_call10_v5 : Ref sig .tc := ⟨.hbm, 157, rfl⟩
abbrev main_call10_c_1 : Ref sig .tc := ⟨.hbm, 158, rfl⟩
abbrev main_call10_c_2 : Ref sig .tc := ⟨.hbm, 159, rfl⟩
abbrev main_call10_v6 : Ref sig .tc := ⟨.hbm, 160, rfl⟩
abbrev main_call10_v7 : Ref sig .tc := ⟨.hbm, 161, rfl⟩
abbrev main_call10_v8 : Ref sig .tc := ⟨.hbm, 162, rfl⟩
abbrev main_call10_v9 : Ref sig .tc := ⟨.hbm, 163, rfl⟩
abbrev main_call10_v10 : Ref sig .tc := ⟨.hbm, 164, rfl⟩
abbrev main_call10_v11 : Ref sig .tc := ⟨.hbm, 165, rfl⟩
abbrev main_call10_c_3 : Ref sig .tc := ⟨.hbm, 166, rfl⟩
abbrev main_call10_v12 : Ref sig .tc := ⟨.hbm, 167, rfl⟩
abbrev main_call10_v13 : Ref sig .tc := ⟨.hbm, 168, rfl⟩
abbrev main_call10_v14 : Ref sig .tc := ⟨.hbm, 169, rfl⟩
abbrev main_call10_cst : Ref sig .tc := ⟨.hbm, 170, rfl⟩
abbrev main_call10_v15 : Ref sig .tc := ⟨.hbm, 171, rfl⟩
abbrev main_v76 : Ref sig .tc := ⟨.hbm, 172, rfl⟩
abbrev main_cst_26 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_cst_27 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S320000x1_S320000_n_0_0_1_wf : ScatterDims.WF S10000 S320000x1 S320000 [] [0] [0] 1
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.SetupI.lean ====
/-
  The idealized kernel program as the SparseCore launch theorem reads it: two vector-subcore calls (the same
  row-gather, once per layer) beside three TensorCore pipelines, one body table over both, and the resource
  algebra of the proof: the handshakes' rounds beside plain transfer counters (every transfer of the gather
  kernel is local to its tile, alone on its semaphore and waited for before the next is issued, so the kernel's
  own semaphores need no schedule).
-/
import proofs.«207928_g75127567942135_cont_9to1c4b_313_20_alg».proof.Defs
import Idealize.ShloMosaic.Lib.SparseCore.Launch
import Idealize.ShloMosaic.Lib.SparseCore.Ops
import Idealize.ShloMosaic.Lib.StableHlo.Run
import Idealize.ShloMosaic.Lib.Tactic
import proofs.«207928_g75127567942135_cont_9to1c4b_313_20_alg».proof.Proof.Gen.KernelIdeal
import proofs.«207928_g75127567942135_cont_9to1c4b_313_20_alg».proof.Proof.Gen.KernelIdeal.Skeleton
import proofs.«207928_g75127567942135_cont_9to1c4b_313_20_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nSub_zero : (K (F := F)).nSub 0 = 16 := rfl
theorem nSub_one : (K (F := F)).nSub 1 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := UR sig nD τ
abbrev UU : Type := UH × (UP × Counters)

/-- The handshakes' component: the left factor. -/
abbrev EH : Emb UH (MT nD τ sig (HIx 2) (Elt F) ℕ UU ℕ) := embL

/-- The three pipelines' staging cells' component: the left of the right factor (the counters are the right of it, found by instance). -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP (MT nD τ sig (HIx 2) (Elt F) ℕ UU ℕ)).LandsIn (upEmb : UEmb _ (MT nD τ sig (HIx 2) (Elt F) ℕ UU ℕ)) := by
  unfold EP embR; infer_instance

end Cert.Proof.KI

end
-- ==== Proof.LaunchI.lean ====
/-
  The launch of the idealized kernel program: what the two gather calls' handshakes carry (each SparseCore a read
  share of the table of rows and of the index table, and the output rows its sixteen tasks write; each task its
  share and its eighty blocks of 128 output rows), the launch element (the handshakes' rounds, the three pipelines'
  staging cells' ghost state, nothing for the gather kernel's own semaphores: its transfers need no schedule),
  and the run of every thread from it.
-/
import proofs.«207928_g75127567942135_cont_9to1c4b_313_20_alg».proof.Proof.SetupI
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The arrays the two gather calls read and write -/

abbrev sLoc (d : Dev nD) : Loc nD τ sig := (SparseCore.T d).loc main_v6

/-- Block `b` of 128 consecutive output rows, `b < 2560`: task `(c, i)` writes blocks `1280 c + 80 i + r`, `r < 80`. -/
theorem hdiv : 2560 ∣ S327680x128.size 0 := ⟨128, rfl⟩
abbrev blk (b : Fin 2560) : Rect S327680x128 := Rect.part (s := S327680x128) (a₀ := 0) hdiv b

theorem blkIx_lt (c : Fin 2) (i : Fin 16) (r : Fin 80) : 1280 * c.val + 80 * i.val + r.val < 2560 := by omega
abbrev blkIx (c : Fin 2) (i : Fin 16) (r : Fin 80) : Fin 2560 := ⟨1280 * c.val + 80 * i.val + r.val, blkIx_lt c i r⟩

/-- A SparseCore's read share of an array the TensorCore holds whole, and a task's share of that. -/
abbrev qC (c : Fin 2) : PosShare TreeShare := Transfers.shareTok fullShare 2 c
abbrev qT (c : Fin 2) (i : Fin 16) : PosShare TreeShare := Transfers.shareTok (qC c) 16 i

/-! ### Call 0: rows of `main_v33` gathered into `main_v34` -/

abbrev hLoc0 (d : Dev nD) : Loc nD τ sig := (SparseCore.T d).loc main_v33
abbrev oLoc0 (d : Dev nD) : Loc nD τ sig := (SparseCore.T d).loc main_v34

/-- What a task holds of the call's arrays: its shares of the two tables, and its eighty blocks of the output at `g`. -/
def taskPay0 (fh : (d : Dev nD) → Buf (Elt F) (hLoc0 d)) (fs : (d : Dev nD) → Buf (Elt F) (sLoc d))
    (d : Dev nD) (c : Fin 2) (i : Fin 16) (g : Buf (Elt F) (oLoc0 d)) : sProp 𝕄 :=
  iprop((hLoc0 d ↦{qT c i} fh d) ∗ (sLoc d ↦{qT c i} fs d)
    ∗ bigSep Finset.univ fun r : Fin 80 => oLoc0 d ↦[(blk (blkIx c i r)).set]{fullShare} g)

/-- What a SparseCore holds of them: its shares, and its sixteen tasks' blocks. -/
def corePay0 (fh : (d : Dev nD) → Buf (Elt F) (hLoc0 d)) (fs : (d : Dev nD) → Buf (Elt F) (sLoc d))
    (d : Dev nD) (c : Fin 2) (g : Buf (Elt F) (oLoc0 d)) : sProp 𝕄 :=
  iprop((hLoc0 d ↦{qC c} fh d) ∗ (sLoc d ↦{qC c} fs d)
    ∗ bigSep Finset.univ fun i : Fin 16 => bigSep Finset.univ fun r : Fin 80 => oLoc0 d ↦[(blk (blkIx c i r)).set]{fullShare} g)

/-! ### Call 1: rows of `main_v39` gathered into `main_v40` -/

abbrev hLoc1 (d : Dev nD) : Loc nD τ sig := (SparseCore.T d).loc main_v39
abbrev oLoc1 (d : Dev nD) : Loc nD τ sig := (SparseCore.T d).loc main_v40

/-- What a task holds of the call's arrays: its shares of the two tables, and its eighty blocks of the output at `g`. -/
def taskPay1 (fh : (d : Dev nD) → Buf (Elt F) (hLoc1 d)) (fs : (d : Dev nD) → Buf (Elt F) (sLoc d))
    (d : Dev nD) (c : Fin 2) (i : Fin 16) (g : Buf (Elt F) (oLoc1 d)) : sProp 𝕄 :=
  iprop((hLoc1 d ↦{qT c i} fh d) ∗ (sLoc d ↦{qT c i} fs d)
    ∗ bigSep Finset.univ fun r : Fin 80 => oLoc1 d ↦[(blk (blkIx c i r)).set]{fullShare} g)

/-- What a SparseCore holds of them: its shares, and its sixteen tasks' blocks. -/
def corePay1 (fh : (d : Dev nD) → Buf (Elt F) (hLoc1 d)) (fs : (d : Dev nD) → Buf (Elt F) (sLoc d))
    (d : Dev nD) (c : Fin 2) (g : Buf (Elt F) (oLoc1 d)) : sProp 𝕄 :=
  iprop((hLoc1 d ↦{qC c} fh d) ∗ (sLoc d ↦{qC c} fs d)
    ∗ bigSep Finset.univ fun i : Fin 16 => bigSep Finset.univ fun r : Fin 80 => oLoc1 d ↦[(blk (blkIx c i r)).set]{fullShare} g)

section Pay

variable (fh0 : (d : Dev nD) → Buf (Elt F) (hLoc0 d)) (fh1 : (d : Dev nD) → Buf (Elt F) (hLoc1 d)) (fs : (d : Dev nD) → Buf (Elt F) (sLoc d))
  (fo0 fo0' : (d : Dev nD) → Buf (Elt F) (oLoc0 d)) (fo1 fo1' : (d : Dev nD) → Buf (Elt F) (oLoc1 d))

theorem nCore_eq (q : Fin 2) : (K (F := F)).nCore q = 2 := by fin_cases q <;> rfl
theorem nSub_eq (q : Fin 2) : (K (F := F)).nSub q = 16 := by fin_cases q <;> rfl

/-- The handshakes' payloads: each call's output at `fo` going in, at `fo'` coming back; nothing for the kernel's own semaphores. -/
def P : (K (F := F)).Pay (nD := nD) (Val := Elt F) (Name := ℕ) (U := UU) where
  st := fun q d c => match q with
    | 0 => corePay0 fh0 fs d c (fo0 d)
    | 1 => corePay1 fh1 fs d c (fo1 d)
  dn := fun q d c => match q with
    | 0 => corePay0 fh0 fs d c (fo0' d)
    | 1 => corePay1 fh1 fs d c (fo1' d)
  go := fun q d c i => match q with
    | 0 => taskPay0 fh0 fs d c i (fo0 d)
    | 1 => taskPay1 fh1 fs d c i (fo1 d)
  td := fun q d c i => match q with
    | 0 => taskPay0 fh0 fs d c i (fo0' d)
    | 1 => taskPay1 fh1 fs d c i (fo1' d)
  x := fun _ _ => iprop(emp)

instance P_storable : (P (F := F) fh0 fh1 fs fo0 fo0' fo1 fo1').IsStorable where
  st q d c := match q with
    | 0 => by unfold P corePay0; infer_instance
    | 1 => by unfold P corePay1; infer_instance
  dn q d c := match q with
    | 0 => by unfold P corePay0; infer_instance
    | 1 => by unfold P corePay1; infer_instance
  go q d c i := match q with
    | 0 => by unfold P taskPay0; infer_instance
    | 1 => by unfold P taskPay1; infer_instance
  td q d c i := match q with
    | 0 => by unfold P taskPay0; infer_instance
    | 1 => by unfold P taskPay1; infer_instance

/-- Call 0: a SparseCore's shares split sixteen ways among its tasks (the remainders wait in the hand that will put them back), its blocks
    task by task; the tasks' shares and blocks join back the same way. -/
theorem vecSplit0 : (K (F := F)).VecSplit' (P fh0 fh1 fs fo0 fo0' fo1 fo1') 0 := by
  intro d c
  show corePay0 fh0 fs d c (fo0 d) ⊢ |={Set.univ}=> iprop((bigSep Finset.univ fun i : Fin 16 => taskPay0 fh0 fs d c i (fo0 d))
    ∗ ((bigSep Finset.univ fun i : Fin 16 => taskPay0 fh0 fs d c i (fo0' d)) -∗ corePay0 fh0 fs d c (fo0' d)))
  unfold corePay0 taskPay0
  rw [bigSep_sep', bigSep_sep', bigSep_sep', bigSep_sep']
  iintro ⟨Hh, Hs, Ho⟩
  ihave Hh' := (Transfers.pointsTo_toks_split (qC c) 16) $$ Hh
  icases Hh' with ⟨Hhr, Hht⟩
  ihave Hs' := (Transfers.pointsTo_toks_split (qC c) 16) $$ Hs
  icases Hs' with ⟨Hsr, Hst⟩
  imodintro
  isplitl [Hht Hst Ho]
  · isplitl [Hht]; · iexact Hht
    isplitl [Hst]; · iexact Hst
    iexact Ho
  iintro ⟨Hht, Hst, Ho⟩
  isplitl [Hhr Hht]
  · iapply (Transfers.pointsTo_toks_join (qC c) 16); isplitl [Hhr] <;> iassumption
  isplitl [Hsr Hst]
  · iapply (Transfers.pointsTo_toks_join (qC c) 16); isplitl [Hsr] <;> iassumption
  iexact Ho

/-- Call 1: a SparseCore's shares split sixteen ways among its tasks (the remainders wait in the hand that will put them back), its blocks
    task by task; the tasks' shares and blocks join back the same way. -/
theorem vecSplit1 : (K (F := F)).VecSplit' (P fh0 fh1 fs fo0 fo0' fo1 fo1') 1 := by
  intro d c
  show corePay1 fh1 fs d c (fo1 d) ⊢ |={Set.univ}=> iprop((bigSep Finset.univ fun i : Fin 16 => taskPay1 fh1 fs d c i (fo1 d))
    ∗ ((bigSep Finset.univ fun i : Fin 16 => taskPay1 fh1 fs d c i (fo1' d)) -∗ corePay1 fh1 fs d c (fo1' d)))
  unfold corePay1 taskPay1
  rw [bigSep_sep', bigSep_sep', bigSep_sep', bigSep_sep']
  iintro ⟨Hh, Hs, Ho⟩
  ihave Hh' := (Transfers.pointsTo_toks_split (qC c) 16) $$ Hh
  icases Hh' with ⟨Hhr, Hht⟩
  ihave Hs' := (Transfers.pointsTo_toks_split (qC c) 16) $$ Hs
  icases Hs' with ⟨Hsr, Hst⟩
  imodintro
  isplitl [Hht Hst Ho]
  · isplitl [Hht]; · iexact Hht
    isplitl [Hst]; · iexact Hst
    iexact Ho
  iintro ⟨Hht, Hst, Ho⟩
  isplitl [Hhr Hht]
  · iapply (Transfers.pointsTo_toks_join (qC c) 16); isplitl [Hhr] <;> iassumption
  isplitl [Hsr Hst]
  · iapply (Transfers.pointsTo_toks_join (qC c) 16); isplitl [Hsr] <;> iassumption
  iexact Ho

/-! ## The launch element -/

/-- No pipeline has a prefetched table. -/
abbrev adm : (p : Fin 3) → (pcfgs (F := F) p).Adm := fun p => (cfgs p).toPCfg_adm

/-- The handshakes' rounds at their launch state; the three pipelines' staging cells' rounds at theirs; the transfers' counters' unit. -/
def u₀ : UU := (initOf (K (F := F)).hsCells (K (F := F)).hsToks, (initOf (Pipeline.cells cfgs cellOf_inj) (Pipeline.launchToks cfgs cellOf_inj), 1))

/-- What @main's proof starts from beside the launch's deal: each pipeline's staging cells' ghost state and duty tokens, from which a
    region allocates its cells' invariants when it is entered. -/
def G (d : Dev nD) : sProp 𝕄 :=
  bigSep Finset.univ fun p : Fin 3 => iprop(Pipeline.cellsGhost (Pipeline.pin (pcfgs (F := F)) adm) EP p d ∗ Pipeline.toksInit (Pipeline.pin (pcfgs (F := F)) adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P fh0 fh1 fs fo0 fo0' fo1 fo1').x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (show (BI.own (((Emb.inl : Emb UP (UP × Counters)).trans (embR : Emb (UP × Counters) 𝕄))
        (initOf (Pipeline.cells cfgs cellOf_inj) (Pipeline.launchToks cfgs cellOf_inj))) : sProp 𝕄)
      ⊢ BI.own ((EP (F := F)) (initOf (Pipeline.cells cfgs cellOf_inj) (Pipeline.launchToks cfgs cellOf_inj))) from .rfl) $$ HP
  imod (Pipeline.fund_ghost (cfgs) (EP (F := F)) cellOf_inj) $$ HP' with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Pay

end Cert.Proof.KI

end
-- ==== Proof.BlocksI.lean ====
/-
  An array of 327680 rows held whole is its 2560 blocks of 128 consecutive rows held block by block; block
  `1280 c + 80 i + r` is chunk `r` of task `i` of SparseCore `c`, and `(c, i, r) ↦ 1280 c + 80 i + r` is a
  bijection from `2 × 16 × 80` onto the blocks, so the blocks regroup by SparseCore, task and chunk.
-/
import proofs.«207928_g75127567942135_cont_9to1c4b_313_20_alg».proof.Proof.LaunchI

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

theorem blks_disjoint : ∀ a ∈ (Finset.univ : Finset (Fin 2560)), ∀ b ∈ (Finset.univ : Finset (Fin 2560)), a ≠ b → Disjoint (blk a).set (blk b).set :=
  fun _ _ _ _ h => Rect.part_disjoint hdiv h

theorem blks_cover : (Finset.univ : Finset (Fin 2560)).biUnion (fun b => (blk b).set) = Finset.univ := Rect.biUnion_part hdiv

/-- The index of a block from its SparseCore, task and chunk, as one function of the triple. -/
def blkOf (x : Fin 2 × Fin 16 × Fin 80) : Fin 2560 := blkIx x.1 x.2.1 x.2.2

theorem blkOf_injective : Function.Injective blkOf := by
  rintro ⟨c, i, r⟩ ⟨c', i', r'⟩ h
  have h' : 1280 * c.val + 80 * i.val + r.val = 1280 * c'.val + 80 * i'.val + r'.val := congrArg Fin.val h
  have hc : c.val = c'.val := by omega
  have hi : i.val = i'.val := by omega
  have hr : r.val = r'.val := by omega
  exact Prod.ext (Fin.ext hc) (Prod.ext (Fin.ext hi) (Fin.ext hr))

theorem blkOf_image : (Finset.univ : Finset (Fin 2 × Fin 16 × Fin 80)).image blkOf = Finset.univ :=
  Finset.eq_univ_of_card _ (by rw [Finset.card_image_of_injective _ blkOf_injective]; simp)

/-- A family over the blocks, regrouped by SparseCore, task and chunk. -/
theorem bigSep_blks (Φ : Fin 2560 → sProp 𝕄) :
    bigSep Finset.univ Φ = bigSep Finset.univ fun c : Fin 2 => bigSep Finset.univ fun i : Fin 16 => bigSep Finset.univ fun r : Fin 80 => Φ (blkIx c i r) := by
  rw [← blkOf_image, SparseCore.bigSep_image_of_injOn (blkOf_injective.injOn) Φ,
    show (Finset.univ : Finset (Fin 2 × Fin 16 × Fin 80)) = Finset.univ ×ˢ Finset.univ from Finset.univ_product_univ.symm,
    SparseCore.bigSep_product]
  refine bigSep_congr fun c _ => ?_
  rw [show (Finset.univ : Finset (Fin 16 × Fin 80)) = Finset.univ ×ˢ Finset.univ from Finset.univ_product_univ.symm, SparseCore.bigSep_product]
  rfl

/-- The first call's output held whole at `g` is its blocks held by SparseCore, task and chunk at `g`; -/
theorem oPts_blks0 (d : Dev nD) (g : Buf (Elt F) (oLoc0 d)) :
    (oLoc0 d ↦{fullShare} g : sProp 𝕄)
      = bigSep Finset.univ fun c : Fin 2 => bigSep Finset.univ fun i : Fin 16 => bigSep Finset.univ fun r : Fin 80 => oLoc0 d ↦[(blk (blkIx c i r)).set]{fullShare} g := by
  rw [← bigSep_blks (fun b => (oLoc0 d ↦[(blk b).set]{fullShare} g : sProp 𝕄)),
    ← pointsTo_biUnion Finset.univ (ℓ := oLoc0 d) (fun b => (blk b).set) blks_disjoint, blks_cover]; try rfl

/-- and so is the second's. -/
theorem oPts_blks1 (d : Dev nD) (g : Buf (Elt F) (oLoc1 d)) :
    (oLoc1 d ↦{fullShare} g : sProp 𝕄)
      = bigSep Finset.univ fun c : Fin 2 => bigSep Finset.univ fun i : Fin 16 => bigSep Finset.univ fun r : Fin 80 => oLoc1 d ↦[(blk (blkIx c i r)).set]{fullShare} g := by
  rw [← bigSep_blks (fun b => (oLoc1 d ↦[(blk b).set]{fullShare} g : sProp 𝕄)),
    ← pointsTo_biUnion Finset.univ (ℓ := oLoc1 d) (fun b => (blk b).set) blks_disjoint, blks_cover]; try rfl

end Cert.Proof.KI

end
-- ==== Proof.CallI.lean ====
/-
  A gather call as the TensorCore sees it: holding every one of its arrays at contents `W`, it hands the call's three
  arrays to the two SparseCores and gets them back with the output at the gathered rows.
-/
import proofs.«207928_g75127567942135_cont_9to1c4b_313_20_alg».proof.Proof.BlocksI
import Idealize.ShloMosaic.Lib.Pipeline.Frame

noncomputable section

namespace Cert.Proof.KI

open Cert.KernelIdeal Cert.KernelIdeal.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (fh0 : (d : Dev nD) → Buf (Elt F) (hLoc0 d)) (fh1 : (d : Dev nD) → Buf (Elt F) (hLoc1 d)) (fs : (d : Dev nD) → Buf (Elt F) (sLoc d))
  (fo0 fo0' : (d : Dev nD) → Buf (Elt F) (oLoc0 d)) (fo1 fo1' : (d : Dev nD) → Buf (Elt F) (oLoc1 d))

/-- The index table, read by both calls. -/
abbrev s' : DevRef τ sig := Proc.devRef .tc (main_v6 : Ref sig .tc)

/-! ### Call 0 -/

abbrev h0' : DevRef τ sig := Proc.devRef .tc (main_v33 : Ref sig .tc)
abbrev o0' : DevRef τ sig := Proc.devRef .tc (main_v34 : Ref sig .tc)
/-- The three arrays the call touches. -/
abbrev C0 : Finset (DevRef τ sig) := {h0', s', o0'}

omit [FloatOps F] in
theorem C0_sub : (C0 : Finset (DevRef τ sig)) ⊆ Pipeline.ucRefs τ sig := by decide

omit [FloatOps F] in
theorem held_C0 (d : Dev nD) (W : Valuation τ sig (Elt F)) :
    (held (T d) C0 W : sProp 𝕄) = iprop((hLoc0 d ↦{fullShare} W h0') ∗ (sLoc d ↦{fullShare} W s') ∗ (oLoc0 d ↦{fullShare} W o0')) := by
  unfold held C0
  rw [SparseCore.bigSep_insert' (by decide), SparseCore.bigSep_insert' (by decide), bigSep_singleton]

omit [FloatOps F] in
theorem held_rest0 (d : Dev nD) (W : Valuation τ sig (Elt F)) (g : Buf (Elt F) (oLoc0 d)) :
    (held (T d) (Pipeline.ucRefs τ sig \ C0) (Function.update W o0' g) : sProp 𝕄) = held (T d) (Pipeline.ucRefs τ sig \ C0) W :=
  held_congr (T d) fun b hb => Function.update_of_ne (fun e => (Finset.mem_sdiff.mp hb).2 (by rw [e]; decide)) _ _

/-- What the call hands the two SparseCores, regrouped: the two tables' shares and the output's blocks. -/
theorem st0_eq (d : Dev nD) (g : (d : Dev nD) → Buf (Elt F) (oLoc0 d)) :
    (bigSep Finset.univ fun c : Fin 2 => corePay0 fh0 fs d c (g d) : sProp 𝕄)
      = iprop((bigSep Finset.univ fun c : Fin 2 => hLoc0 d ↦{qC c} fh0 d) ∗ (bigSep Finset.univ fun c : Fin 2 => sLoc d ↦{qC c} fs d)
          ∗ bigSep Finset.univ fun c : Fin 2 => bigSep Finset.univ fun i : Fin 16 => bigSep Finset.univ fun r : Fin 80 =>
              oLoc0 d ↦[(blk (blkIx c i r)).set]{fullShare} g d) := by
  unfold corePay0
  rw [bigSep_sep', bigSep_sep']

/-- The call on the TensorCore: the three arrays go out — the two tables as read shares, a half to each SparseCore, the output block by
    block — and come back, the output at the gathered rows; every other buffer is untouched. -/
theorem call0 (κ : GSem nD τ sig → ℕ) (d : Dev nD) (W : Valuation τ sig (Elt F)) (hh : W h0' = fh0 d) (hs : W s' = fs d) (ho : W o0' = fo0 d)
    {Φ : PUnit → sProp 𝕄} :
    iprop((K (F := F)).ctx EH (P fh0 fh1 fs fo0 fo0' fo1 fo1') κ ∗ (K (F := F)).tcSt EH d 0 ∗ held (T d) (Pipeline.ucRefs τ sig) W
        ∗ (((K (F := F)).tcSt EH d 1 ∗ held (T d) (Pipeline.ucRefs τ sig) (Function.update W o0' (fo0' d))) -∗ Φ ⟨⟩))
      ⊢ wp frame (wpE ((K (F := F)).defs (D (F := F))) 𝒱 (SparseCore.T d) none) Set.univ ((K (F := F)).run d 0) Φ := by
  rw [held_sub_split (T d) C0_sub W, held_C0, hh, hs, ho]
  iintro ⟨#Hctx, Htc, ⟨⟨Hh, Hs, Ho⟩, Hrest⟩, Hk⟩
  ihave Hh' := (Transfers.pointsTo_toks_split fullShare 2) $$ Hh
  icases Hh' with ⟨Hhr, Hht⟩
  ihave Hs' := (Transfers.pointsTo_toks_split fullShare 2) $$ Hs
  icases Hs' with ⟨Hsr, Hsk⟩
  ihave Ho' := (Entails.of_eq (oPts_blks0 (F := F) d (fo0 d))) $$ Ho
  iapply ((K (F := F)).wp_run (D (F := F)) 𝒱 (EH := EH) (P := P fh0 fh1 fs fo0 fo0' fo1 fo1') κ d 0) $$ [Htc Hht Hsk Ho' Hhr Hsr Hrest Hk]
  isplitr; · iexact Hctx
  isplitl [Htc]; · iexact Htc
  isplitl [Hht Hsk Ho']
  · iapply (show iprop((bigSep Finset.univ fun c : Fin 2 => hLoc0 d ↦{qC c} fh0 d) ∗ (bigSep Finset.univ fun c : Fin 2 => sLoc d ↦{qC c} fs d)
          ∗ bigSep Finset.univ fun c : Fin 2 => bigSep Finset.univ fun i : Fin 16 => bigSep Finset.univ fun r : Fin 80 =>
              oLoc0 d ↦[(blk (blkIx c i r)).set]{fullShare} fo0 d)
        ⊢ (bigSep Finset.univ fun c : Fin ((K (F := F)).nCore 0) => (P fh0 fh1 fs fo0 fo0' fo1 fo1').st 0 d c : sProp 𝕄)
        from Entails.of_eq (st0_eq fh0 fs d fo0).symm)
    isplitl [Hht]; · iexact Hht
    isplitl [Hsk]; · iexact Hsk
    iexact Ho'
  iintro ⟨Htc, Hdn⟩
  ihave Hdn' := (show (bigSep Finset.univ fun c : Fin ((K (F := F)).nCore 0) => (P fh0 fh1 fs fo0 fo0' fo1 fo1').dn 0 d c)
      ⊢ iprop((bigSep Finset.univ fun c : Fin 2 => hLoc0 d ↦{qC c} fh0 d) ∗ (bigSep Finset.univ fun c : Fin 2 => sLoc d ↦{qC c} fs d)
          ∗ bigSep Finset.univ fun c : Fin 2 => bigSep Finset.univ fun i : Fin 16 => bigSep Finset.univ fun r : Fin 80 =>
              oLoc0 d ↦[(blk (blkIx c i r)).set]{fullShare} fo0' d) from by
    exact Entails.of_eq (st0_eq fh0 fs d fo0')) $$ Hdn
  icases Hdn' with ⟨Hht, Hsk, Ho'⟩
  iapply Hk
  isplitl [Htc]; · iexact Htc
  rw [held_sub_split (T d) C0_sub (Function.update W o0' (fo0' d)), held_C0, held_rest0,
    Function.update_of_ne (show h0' ≠ o0' by decide), Function.update_of_ne (show s' ≠ o0' by decide), Function.update_self, hh, hs]
  isplitr [Hrest]
  · isplitl [Hhr Hht]
    · iapply (Transfers.pointsTo_toks_join fullShare 2); isplitl [Hhr] <;> iassumption
    isplitl [Hsr Hsk]
    · iapply (Transfers.pointsTo_toks_join fullShare 2); isplitl [Hsr] <;> iassumption
    iapply (Entails.of_eq (oPts_blks0 (F := F) d (fo0' d)).symm); iexact Ho'
  iexact Hrest

/-! ### Call 1 -/

abbrev h1' : DevRef τ sig := Proc.devRef .tc (main_v39 : Ref sig .tc)
abbrev o1' : DevRef τ sig := Proc.devRef .tc (main_v40 : Ref sig .tc)
/-- The three arrays the call touches. -/
abbrev C1 : Finset (DevRef τ sig) := {h1', s', o1'}

omit [FloatOps F] in
theorem C1_sub : (C1 : Finset (DevRef τ sig)) ⊆ Pipeline.ucRefs τ sig := by decide

omit [FloatOps F] in
theorem held_C1 (d : Dev nD) (W : Valuation τ sig (Elt F)) :
    (held (T d) C1 W : sProp 𝕄) = iprop((hLoc1 d ↦{fullShare} W h1') ∗ (sLoc d ↦{fullShare} W s') ∗ (oLoc1 d ↦{fullShare} W o1')) := by
  unfold held C1
  rw [SparseCore.bigSep_insert' (by decide), SparseCore.bigSep_insert' (by decide), bigSep_singleton]

omit [FloatOps F] in
theorem held_rest1 (d : Dev nD) (W : Valuation τ sig (Elt F)) (g : Buf (Elt F) (oLoc1 d)) :
    (held (T d) (Pipeline.ucRefs τ sig \ C1) (Function.update W o1' g) : sProp 𝕄) = held (T d) (Pipeline.ucRefs τ sig \ C1) W :=
  held_congr (T d) fun b hb => Function.update_of_ne (fun e => (Finset.mem_sdiff.mp hb).2 (by rw [e]; decide)) _ _

/-- What the call hands the two SparseCores, regrouped: the two tables' shares and the output's blocks. -/
theorem st1_eq (d : Dev nD) (g : (d : Dev nD) → Buf (Elt F) (oLoc1 d)) :
    (bigSep Finset.univ fun c : Fin 2 => corePay1 fh1 fs d c (g d) : sProp 𝕄)
      = iprop((bigSep Finset.univ fun c : Fin 2 => hLoc1 d ↦{qC c} fh1 d) ∗ (bigSep Finset.univ fun c : Fin 2 => sLoc d ↦{qC c} fs d)
          ∗ bigSep Finset.univ fun c : Fin 2 => bigSep Finset.univ fun i : Fin 16 => bigSep Finset.univ fun r : Fin 80 =>
              oLoc1 d ↦[(blk (blkIx c i r)).set]{fullShare} g d) := by
  unfold corePay1
  rw [bigSep_sep', bigSep_sep']

/-- The call on the TensorCore: the three arrays go out — the two tables as read shares, a half to each SparseCore, the output block by
    block — and come back, the output at the gathered rows; every other buffer is untouched. -/
theorem call1 (κ : GSem nD τ sig → ℕ) (d : Dev nD) (W : Valuation τ sig (Elt F)) (hh : W h1' = fh1 d) (hs : W s' = fs d) (ho : W o1' = fo1 d)
    {Φ : PUnit → sProp 𝕄} :
    iprop((K (F := F)).ctx EH (P fh0 fh1 fs fo0 fo0' fo1 fo1') κ ∗ (K (F := F)).tcSt EH d 1 ∗ held (T d) (Pipeline.ucRefs τ sig) W
        ∗ (((K (F := F)).tcSt EH d 2 ∗ held (T d) (Pipeline.ucRefs τ sig) (Function.update W o1' (fo1' d))) -∗ Φ ⟨⟩))
      ⊢ wp frame (wpE ((K (F := F)).defs (D (F := F))) 𝒱 (SparseCore.T d) none) Set.univ ((K (F := F)).run d 1) Φ := by
  rw [held_sub_split (T d) C1_sub W, held_C1, hh, hs, ho]
  iintro ⟨#Hctx, Htc, ⟨⟨Hh, Hs, Ho⟩, Hrest⟩, Hk⟩
  ihave Hh' := (Transfers.pointsTo_toks_split fullShare 2) $$ Hh
  icases Hh' with ⟨Hhr, Hht⟩
  ihave Hs' := (Transfers.pointsTo_toks_split fullShare 2) $$ Hs
  icases Hs' with ⟨Hsr, Hsk⟩
  ihave Ho' := (Entails.of_eq (oPts_blks1 (F := F) d (fo1 d))) $$ Ho
  iapply ((K (F := F)).wp_run (D (F := F)) 𝒱 (EH := EH) (P := P fh0 fh1 fs fo0 fo0' fo1 fo1') κ d 1) $$ [Htc Hht Hsk Ho' Hhr Hsr Hrest Hk]
  isplitr; · iexact Hctx
  isplitl [Htc]; · iexact Htc
  isplitl [Hht Hsk Ho']
  · iapply (show iprop((bigSep Finset.univ fun c : Fin 2 => hLoc1 d ↦{qC c} fh1 d) ∗ (bigSep Finset.univ fun c : Fin 2 => sLoc d ↦{qC c} fs d)
          ∗ bigSep Finset.univ fun c : Fin 2 => bigSep Finset.univ fun i : Fin 16 => bigSep Finset.univ fun r : Fin 80 =>
              oLoc1 d ↦[(blk (blkIx c i r)).set]{fullShare} fo1 d)
        ⊢ (bigSep Finset.univ fun c : Fin ((K (F := F)).nCore 1) => (P fh0 fh1 fs fo0 fo0' fo1 fo1').st 1 d c : sProp 𝕄)
        from Entails.of_eq (st1_eq fh1 fs d fo1).symm)
    isplitl [Hht]; · iexact Hht
    isplitl [Hsk]; · iexact Hsk
    iexact Ho'
  iintro ⟨Htc, Hdn⟩
  ihave Hdn' := (show (bigSep Finset.univ fun c : Fin ((K (F := F)).nCore 1) => (P fh0 fh1 fs fo0 fo0' fo1 fo1').dn 1 d c)
      ⊢ iprop((bigSep Finset.univ fun c : Fin 2 => hLoc1 d ↦{qC c} fh1 d) ∗ (bigSep Finset.univ fun c : Fin 2 => sLoc d ↦{qC c} fs d)
          ∗ bigSep Finset.univ fun c : Fin 2 => bigSep Finset.univ fun i : Fin 16 => bigSep Finset.univ fun r : Fin 80 =>
              oLoc1 d ↦[(blk (blkIx c i r)).set]{fullShare} fo1' d) from by
    exact Entails.of_eq (st1_eq fh1 fs d fo1')) $$ Hdn
  icases Hdn' with ⟨Hht, Hsk, Ho'⟩
  iapply Hk
  isplitl [Htc]; · iexact Htc
  rw [held_sub_split (T d) C1_sub (Function.update W o1' (fo1' d)), held_C1, held_rest1,
    Function.update_of_ne (show h1' ≠ o1' by decide), Function.update_of_ne (show s' ≠ o1' by decide), Function.update_self, hh, hs]
  isplitr [Hrest]
  · isplitl [Hhr Hht]
    · iapply (Transfers.pointsTo_toks_join fullShare 2); isplitl [Hhr] <;> iassumption
    isplitl [Hsr Hsk]
    · iapply (Transfers.pointsTo_toks_join fullShare 2); isplitl [Hsr] <;> iassumption
    iapply (Entails.of_eq (oPts_blks1 (F := F) d (fo1' d)).symm); iexact Ho'
  iexact Hrest

end Cert.Proof.KI

end
-- ==== Proof.RegionBaseI.lean ====
/-
  What the three TensorCore pipelines of the idealized kernel share: the invariant a pipeline carries from one
  grid point to the next. A body of this program reads and writes its windows' staging buffers only, so the
  invariant is everything else the core holds privately: its scoped buffers that are no staging buffer of the
  pipeline, each whole at some contents, and its generator register at some state. The bodies never open it.
-/
import proofs.«207928_g75127567942135_cont_9to1c4b_313_20_alg».proof.Proof.SetupI
import proofs.«207928_g75127567942135_cont_9to1c4b_313_20_alg».proof.Proof.Gen.KernelIdeal.Points
import Idealize.ShloMosaic.Lib.Pipeline.FrameBody
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The invariant of a pipeline with windows `win` on core `c`, in the model whose index type is the handshakes'
    (`HIx 2`) and whose user algebra is `UU`: the scoped rest at some contents and the generator register at some
    state. -/
def ΦI {gr : Nat} {W : Nat} (win : Fin W → Pipeline.WinSpec sig gr) (c : Dev nD) : sProp 𝕄 :=
  iprop(Pipeline.scopedRest (Ix := HIx 2) (Name := ℕ) (U := UU) (Lvl := ℕ) (Val := Elt F) win c ∗ ∃ r, prngReg c r)

end Cert.Proof.KI

end
-- ==== Proof.Region0I.lean ====
/-
  REGION 0 of the idealized kernel's @main: the first TensorCore pipeline (configuration `cfg0`, 40 grid points,
  three windows). At every point its body loads a 256x128 block x of the features and the matching 256x1 block g of
  the degrees, and stores x * rsqrt(max(1, g)) whole into the output window's buffer (it also loads the output's buffer
  once, a value nothing uses). Stated at parameters: `V`, the TensorCore's buffer contents when the region is
  entered; `O`, the tallies the TensorCore owes throughout the region (the body pays none and takes on none); and
  `B`, a bound on the (cell, index) pairs the core's waits recorded before the region (the body waits on nothing).
-/
import proofs.«207928_g75127567942135_cont_9to1c4b_313_20_alg».proof.Proof.RegionBaseI
import proofs.«207928_g75127567942135_cont_9to1c4b_313_20_alg».proof.Proof.Gen.KernelIdeal.Skeleton
import proofs.«207928_g75127567942135_cont_9to1c4b_313_20_alg».proof.Proof.Gen.KernelIdeal.Launch
import proofs.«207928_g75127567942135_cont_9to1c4b_313_20_alg».proof.Proof.Gen.KernelIdeal.Points

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region0

variable (V : (c : Dev nD) → (b : Ref sig .tc) → Buf (Elt F) ((c : Thread nD τ).loc b))
variable (O : CellTallies nD τ sig (HIx 2))
variable (B : Set (SemLoc sig × HIx 2))

/-! ## The windows' blocks -/

/-- The block of window `w` at grid point `t`: the window's rectangle there, read off the window's array at the
    contents the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' window (0) holds its block whenever the body is called: for any proof data whose array is `V`'s and
    whose body leaves the block where it found it, a point that does not refetch has not moved the block index, so
    what stayed in the buffer is this point's block as well. The window is uncut and has no idle point. -/
theorem before0_0_of {c : Dev nD} (dat : Dat τ (Elt F) (HIx 2) ℕ UU ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The degrees' window (1), likewise. -/
theorem before0_1_of {c : Dev nD} (dat : Dat τ (Elt F) (HIx 2) ℕ UU ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## What the body leaves in the output window's buffer -/

/-- The whole 256x128 rectangle, the one the body stores through, -/
abbrev rX0 : Rect S256x128 := Rect.unit (s := S256x128) ![0, 0] S256x128.size inb_S256x128_S256x128_0_0
/-- and the whole 256x1 rectangle of the degrees' block. -/
abbrev rG0 : Rect S256x1 := Rect.unit (s := S256x1) ![0, 0] S256x1.size inb_S256x1_S256x1_0_0

/-- The output window's buffer after the body, as a function of the two input blocks: its one store, of the
    skeleton's payload at the two loaded values, read back as a function of the buffer's index. -/
def out0 (x : Vec F S256x128 .f32) (g : Vec F S256x1 .f32) : Vec F S256x128 .f32 :=
  View.canon [⟨rX0, k0_pay1 (View.ld g rG0) (View.ld x rX0)⟩]

/-- The one store is of the whole buffer, so it covers every index. -/
theorem cover0 (p : rX0.shape.Idx → Elt F .f32) (y : S256x128.Idx) :
    ∃ pc ∈ ([⟨rX0, p⟩] : List (View.Piece (Elt F) S256x128 .f32)), y ∈ pc.1.set :=
  View.cover_of_tiled [⟨rX0, p⟩] S256x128.size (by rfl) y

/-! ## The body's triple -/

set_option maxHeartbeats 1000000 in
/-- The body on whole staging memrefs — the inputs' at contents `x`, `g`, the output's at anything — runs to a
    continuation that holds the inputs' as they were and the output's at `out0 x g`, at any grid coordinate (the
    body does not read it) and under any mask. -/
theorem sound_kernel0 (c : Dev nD) (E : Set ℕ) (i : grid0.Coords)
    (a0 : Memref sig .tc .vmem S256x128 .f32) (h0 : a0.IsWhole) (a1 : Memref sig .tc .vmem S256x1 .f32) (h1 : a1.IsWhole)
    (a2 : Memref sig .tc .vmem S256x128 .f32) (h2 : a2.IsWhole)
    (x : Vec F S256x128 .f32) (g : Vec F S256x1 .f32) (K : PUnit → sProp 𝕄) :
    iprop(owns (c : Thread nD τ) a0 fullShare x ∗ owns (c : Thread nD τ) a1 fullShare g ∗ (∃ d, owns (c : Thread nD τ) a2 fullShare d)
        ∗ (iprop(owns (c : Thread nD τ) a0 fullShare x ∗ owns (c : Thread nD τ) a1 fullShare g
              ∗ owns (c : Thread nD τ) a2 fullShare (out0 x g)) -∗ K ⟨⟩))
      ⊢ wp frame (wpE (defs₀ (F := F)) Variants.none c none) E (cc0_body i a0 h0 a1 h1 a2 h2) K := by
  simp only [cc0_body_eq_skeleton]; unfold cc0_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of the pipeline on core `c`: the windows' arrays at the region's starting contents; after the
    body at point `t` each input's buffer still at its block and the output's at `out0` of the two blocks; the
    invariant `ΦI`, the same at every point; full shares; the owed tallies `O` and the bound `B` on the recorded pairs, the same at every point. -/
def dat0 (c : Dev nD) : Dat τ (Elt F) (HIx 2) ℕ UU ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := ΦI spec0 c
  q _ := fullShare
  owed _ := O
  recorded _ := B

/-- The arrays of the proof data are the starting contents (the structure's field projected). -/
theorem A_eq0 (c : Dev nD) (w : Fin cfg0.W) : (dat0 V O B c).A w = V c (Pipeline.arrRef spec0 w) := by
  dsimp only [dat0]

/-- What the body leaves, window by window (the `match` on the window reduced). -/
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) :
    (dat0 V O B c).after 2 t = out0 (iblk0 V c 0 t) (iblk0 V c 1 t) := by dsimp only [dat0]

/-- Each input's current buffer holds its block when the body is called at `t`, fetched there or not. -/
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

/-! ## The body obligation, at a generic point -/

/-- What the body is handed at point `t`: the invariant, the owed tallies, and each window's current buffer at what
    it then holds (the obligation's precondition with its three windows written out), -/
def bodyPre0 (c : Dev nD) (t : Fin cfg0.N) : sProp 𝕄 :=
  iprop((dat0 V O B c).Φ t.castSucc ∗ (dat0 V O B c).owesAt (none : HIx 2) t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

/-- and what it hands back. -/
def bodyPost0 (c : Dev nD) (t : Fin cfg0.N) : sProp 𝕄 :=
  iprop((dat0 V O B c).Φ t.succ ∗ (dat0 V O B c).owesAt (none : HIx 2) t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

/-- The body at any point: the inputs' buffers hold their blocks, so the body's triple applies; the invariant and
    the owed tallies, constant over the points, pass through untouched. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt (none : HIx 2) t.succ = (dat0 V O B c).owesAt (none : HIx 2) t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the pipeline, at every point. -/
theorem body_obligation0 (c : Dev nD) :
    BodyObligation (dat0 (F := F) V O B c) (defs₀ (F := F)) Variants.none (none : HIx 2) Set.univ := fun t => by
  rw [bigSep_W0, bigSep_W0]
  exact sound_body0 V O B c t

end Region0

end Cert.Proof.KI

end
-- ==== Proof.Region2I.lean ====
/-
  REGION 2 of the idealized kernel's @main: the second TensorCore pipeline (configuration `cfg2`, 40 grid points,
  six windows). At every point its body loads a 256x128 block a of the aggregated features with the matching 256x1
  block d of in-degrees, the 128x128 weight matrix W and the 1x128 bias b (both fetched once, at the first point),
  and the matching 256x1 block e of out-degrees, and stores relu((a * rsqrt(max(1, d))) W + b) * rsqrt(max(1, e))
  whole into the output window's buffer (it also loads the output's buffer once, a value nothing uses). Stated at
  parameters: `V`, the TensorCore's buffer contents when the region is entered; `O`, the tallies the TensorCore
  owes throughout the region (the body pays none and takes on none); and `B`, a bound on the (cell, index) pairs the
  core's waits recorded before the region (the body waits on nothing).
-/
import proofs.«207928_g75127567942135_cont_9to1c4b_313_20_alg».proof.Proof.RegionBaseI
import proofs.«207928_g75127567942135_cont_9to1c4b_313_20_alg».proof.Proof.Gen.KernelIdeal.Skeleton
import proofs.«207928_g75127567942135_cont_9to1c4b_313_20_alg».proof.Proof.Gen.KernelIdeal.Launch
import proofs.«207928_g75127567942135_cont_9to1c4b_313_20_alg».proof.Proof.Gen.KernelIdeal.Points

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region2

variable (V : (c : Dev nD) → (b : Ref sig .tc) → Buf (Elt F) ((c : Thread nD τ).loc b))
variable (O : CellTallies nD τ sig (HIx 2))
variable (B : Set (SemLoc sig × HIx 2))

/-! ## The windows' blocks -/

/-- The block of window `w` at grid point `t`: the window's rectangle there, read off the window's array at the
    contents the region starts from. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window holds its block whenever the body is called: for any proof data whose array is `V`'s and
    whose body leaves the block where it found it, a point that does not refetch the window has not moved its block
    index, so what stayed in the buffer is this point's block as well. This covers the windows whose index map is
    constant, fetched at the first point only, exactly as it covers those fetched at every point. The windows are
    uncut and have no idle point. -/

/-- Window 0 (the aggregated features) holds its block whenever the body is called, fetched at that point or not. -/
theorem before2_0_of {c : Dev nD} (dat : Dat τ (Elt F) (HIx 2) ℕ UU ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  refine (dat.before_in_eq_fetched 0 rfl (fun _ => rfl) (fun _ _ _ => rfl) hkeep t d).trans ?_
  unfold Dat.fetched Dat.blockOf iblk2; rw [hA]; try rfl

/-- Window 1 (the in-degrees) holds its block whenever the body is called, fetched at that point or not. -/
theorem before2_1_of {c : Dev nD} (dat : Dat τ (Elt F) (HIx 2) ℕ UU ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  refine (dat.before_in_eq_fetched 1 rfl (fun _ => rfl) (fun _ _ _ => rfl) hkeep t d).trans ?_
  unfold Dat.fetched Dat.blockOf iblk2; rw [hA]; try rfl

/-- Window 2 (the weights, fetched at the first point only) holds its block whenever the body is called, fetched at that point or not. -/
theorem before2_2_of {c : Dev nD} (dat : Dat τ (Elt F) (HIx 2) ℕ UU ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  refine (dat.before_in_eq_fetched 2 rfl (fun _ => rfl) (fun _ _ _ => rfl) hkeep t d).trans ?_
  unfold Dat.fetched Dat.blockOf iblk2; rw [hA]; try rfl

/-- Window 3 (the bias, fetched at the first point only) holds its block whenever the body is called, fetched at that point or not. -/
theorem before2_3_of {c : Dev nD} (dat : Dat τ (Elt F) (HIx 2) ℕ UU ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  refine (dat.before_in_eq_fetched 3 rfl (fun _ => rfl) (fun _ _ _ => rfl) hkeep t d).trans ?_
  unfold Dat.fetched Dat.blockOf iblk2; rw [hA]; try rfl

/-- Window 4 (the out-degrees) holds its block whenever the body is called, fetched at that point or not. -/
theorem before2_4_of {c : Dev nD} (dat : Dat τ (Elt F) (HIx 2) ℕ UU ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  refine (dat.before_in_eq_fetched 4 rfl (fun _ => rfl) (fun _ _ _ => rfl) hkeep t d).trans ?_
  unfold Dat.fetched Dat.blockOf iblk2; rw [hA]; try rfl

/-! ## What the body leaves in the output window's buffer -/

/-- The whole rectangle of each block shape: what the body loads and stores through. -/
abbrev r256x128_2 : Rect S256x128 := Rect.unit (s := S256x128) ![0, 0] S256x128.size inb_S256x128_S256x128_0_0
abbrev r256x1_2 : Rect S256x1 := Rect.unit (s := S256x1) ![0, 0] S256x1.size inb_S256x1_S256x1_0_0
abbrev r128x128_2 : Rect S128x128 := Rect.unit (s := S128x128) ![0, 0] S128x128.size inb_S128x128_S128x128_0_0
abbrev r1x128_2 : Rect S1x128 := Rect.unit (s := S1x128) ![0, 0] S1x128.size inb_S1x128_S1x128_0_0

/-- The output window's buffer after the body, as a function of the input blocks: its one store, of the skeleton's
    payload at the loaded values, read back as a function of the buffer's index. -/
def out2 (x : Vec F S256x128 .f32) (g : Vec F S256x1 .f32) (wt : Vec F S128x128 .f32) (bs : Vec F S1x128 .f32) (go : Vec F S256x1 .f32) : Vec F S256x128 .f32 :=
  View.canon [⟨r256x128_2, k2_pay1 (View.ld g r256x1_2) (View.ld x r256x128_2) (View.ld wt r128x128_2) (View.ld bs r1x128_2) (View.ld go r256x1_2)⟩]

/-- The one store is of the whole buffer, so it covers every index. -/
theorem cover2 (p : r256x128_2.shape.Idx → Elt F .f32) (y : S256x128.Idx) :
    ∃ pc ∈ ([⟨r256x128_2, p⟩] : List (View.Piece (Elt F) S256x128 .f32)), y ∈ pc.1.set :=
  View.cover_of_tiled [⟨r256x128_2, p⟩] S256x128.size (by rfl) y

/-! ## The body's triple -/

set_option maxHeartbeats 1000000 in
/-- The body on whole staging memrefs — the inputs' at the given contents, the output's at anything — runs to a
    continuation that holds the inputs' as they were and the output's at `out2` of the inputs', at any grid
    coordinate (the body does not read it) and under any mask. The matrix product is one more pure value of the
    loaded blocks; the body's memory operations are its loads and its one store. -/
theorem sound_kernel2 (c : Dev nD) (E : Set ℕ) (i : grid2.Coords)
    (a0 : Memref sig .tc .vmem S256x128 .f32) (h0 : a0.IsWhole)
    (a1 : Memref sig .tc .vmem S256x1 .f32) (h1 : a1.IsWhole)
    (a2 : Memref sig .tc .vmem S128x128 .f32) (h2 : a2.IsWhole)
    (a3 : Memref sig .tc .vmem S1x128 .f32) (h3 : a3.IsWhole)
    (a4 : Memref sig .tc .vmem S256x1 .f32) (h4 : a4.IsWhole)
    (a5 : Memref sig .tc .vmem S256x128 .f32) (h5 : a5.IsWhole)
    (x : Vec F S256x128 .f32) (g : Vec F S256x1 .f32) (wt : Vec F S128x128 .f32) (bs : Vec F S1x128 .f32) (go : Vec F S256x1 .f32) (K : PUnit → sProp 𝕄) :
    iprop(owns (c : Thread nD τ) a0 fullShare x
        ∗ owns (c : Thread nD τ) a1 fullShare g
        ∗ owns (c : Thread nD τ) a2 fullShare wt
        ∗ owns (c : Thread nD τ) a3 fullShare bs
        ∗ owns (c : Thread nD τ) a4 fullShare go
        ∗ (∃ d, owns (c : Thread nD τ) a5 fullShare d)
        ∗ (iprop(owns (c : Thread nD τ) a0 fullShare x
              ∗ owns (c : Thread nD τ) a1 fullShare g
              ∗ owns (c : Thread nD τ) a2 fullShare wt
              ∗ owns (c : Thread nD τ) a3 fullShare bs
              ∗ owns (c : Thread nD τ) a4 fullShare go
              ∗ owns (c : Thread nD τ) a5 fullShare (out2 x g wt bs go)) -∗ K ⟨⟩))
      ⊢ wp frame (wpE (defs₀ (F := F)) Variants.none c none) E (cc2_body i a0 h0 a1 h1 a2 h2 a3 h3 a4 h4 a5 h5) K := by
  simp only [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of the pipeline on core `c`: the windows' arrays at the region's starting contents; after the
    body at point `t` each input's buffer still at its block and the output's at `out2` of the input blocks; the
    invariant `ΦI`, the same at every point; full shares; the owed tallies `O` and the bound `B` on the recorded
    pairs, the same at every point. -/
def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := ΦI spec2 c
  q _ := fullShare
  owed _ := O
  recorded _ := B

/-- The arrays of the proof data are the starting contents (the structure's field projected). -/
theorem A_eq2 (c : Dev nD) (w : Fin cfg2.W) : (dat2 V O B c).A w = V c (Pipeline.arrRef spec2 w) := by
  dsimp only [dat2]

/-- What the body leaves, window by window (the `match` on the window reduced). -/
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) :
    (dat2 V O B c).after 5 t = out2 (iblk2 V c 0 t) (iblk2 V c 1 t) (iblk2 V c 2 t) (iblk2 V c 3 t) (iblk2 V c 4 t) := by dsimp only [dat2]

/-- Each input's current buffer holds its block when the body is called at `t`, fetched there or not. -/
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d

/-! ## The body obligation, at a generic point -/

/-- What the body is handed at point `t`: the invariant, the owed tallies, and each window's current buffer at what
    it then holds (the obligation's precondition with its windows written out), -/
def bodyPre2 (c : Dev nD) (t : Fin cfg2.N) : sProp 𝕄 :=
  iprop((dat2 V O B c).Φ t.castSucc ∗ (dat2 V O B c).owesAt (none : HIx 2) t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d)))

/-- and what it hands back. -/
def bodyPost2 (c : Dev nD) (t : Fin cfg2.N) : sProp 𝕄 :=
  iprop((dat2 V O B c).Φ t.succ ∗ (dat2 V O B c).owesAt (none : HIx 2) t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t))

/-- The body at any point: the inputs' buffers hold their blocks, so the body's triple applies; the invariant and
    the owed tallies, constant over the points, pass through untouched. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4]
  rw [show (dat2 V O B c).Φ t.succ = (dat2 V O B c).Φ t.castSucc from rfl,
    show (dat2 V O B c).owesAt (none : HIx 2) t.succ = (dat2 V O B c).owesAt (none : HIx 2) t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the pipeline, at every point. -/
theorem body_obligation2 (c : Dev nD) :
    BodyObligation (dat2 (F := F) V O B c) (defs₀ (F := F)) Variants.none (none : HIx 2) Set.univ := fun t => by
  rw [bigSep_W2, bigSep_W2]
  exact sound_body2 V O B c t

end Region2

end Cert.Proof.KI

end
-- ==== Proof.Region4I.lean ====
/-
  REGION 4 of the idealized kernel's @main: the third TensorCore pipeline (configuration `cfg4`, 40 grid points,
  five windows). At every point its body loads a 256x128 block a of the aggregated features with the matching 256x1
  block d of in-degrees, the 128x128 weight matrix W and the 1x128 bias b (both fetched once, at the first point),
  and stores (a * rsqrt(max(1, d))) W + b whole into the output window's buffer (it also loads the output's buffer
  once, a value nothing uses). Stated at parameters: `V`, the TensorCore's buffer contents when the region is
  entered; `O`, the tallies the TensorCore owes throughout the region (the body pays none and takes on none); and
  `B`, a bound on the (cell, index) pairs the core's waits recorded before the region (the body waits on nothing).
-/
import proofs.«207928_g75127567942135_cont_9to1c4b_313_20_alg».proof.Proof.RegionBaseI
import proofs.«207928_g75127567942135_cont_9to1c4b_313_20_alg».proof.Proof.Gen.KernelIdeal.Skeleton
import proofs.«207928_g75127567942135_cont_9to1c4b_313_20_alg».proof.Proof.Gen.KernelIdeal.Launch
import proofs.«207928_g75127567942135_cont_9to1c4b_313_20_alg».proof.Proof.Gen.KernelIdeal.Points

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region4

variable (V : (c : Dev nD) → (b : Ref sig .tc) → Buf (Elt F) ((c : Thread nD τ).loc b))
variable (O : CellTallies nD τ sig (HIx 2))
variable (B : Set (SemLoc sig × HIx 2))

/-! ## The windows' blocks -/

/-- The block of window `w` at grid point `t`: the window's rectangle there, read off the window's array at the
    contents the region starts from. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window holds its block whenever the body is called: for any proof data whose array is `V`'s and
    whose body leaves the block where it found it, a point that does not refetch the window has not moved its block
    index, so what stayed in the buffer is this point's block as well. This covers the windows whose index map is
    constant, fetched at the first point only, exactly as it covers those fetched at every point. The windows are
    uncut and have no idle point. -/

/-- Window 0 (the aggregated features) holds its block whenever the body is called, fetched at that point or not. -/
theorem before4_0_of {c : Dev nD} (dat : Dat τ (Elt F) (HIx 2) ℕ UU ℕ cfg4 c) (hA : dat.A 0 = V c (Pipeline.arrRef spec4 0))
    (hafter : ∀ t, dat.after 0 t = iblk4 V c 0 t) (t : Fin cfg4.N) (d) : dat.before 0 t d = iblk4 V c 0 t := by
  have hkeep : ∀ t, (cfg4.win 0).cut (cfg4.grid.coords t) (dat.after 0 t) = dat.blockOf 0 t := fun t => by
    rw [hafter]; unfold Dat.blockOf iblk4; rw [hA]; try rfl
  refine (dat.before_in_eq_fetched 0 rfl (fun _ => rfl) (fun _ _ _ => rfl) hkeep t d).trans ?_
  unfold Dat.fetched Dat.blockOf iblk4; rw [hA]; try rfl

/-- Window 1 (the in-degrees) holds its block whenever the body is called, fetched at that point or not. -/
theorem before4_1_of {c : Dev nD} (dat : Dat τ (Elt F) (HIx 2) ℕ UU ℕ cfg4 c) (hA : dat.A 1 = V c (Pipeline.arrRef spec4 1))
    (hafter : ∀ t, dat.after 1 t = iblk4 V c 1 t) (t : Fin cfg4.N) (d) : dat.before 1 t d = iblk4 V c 1 t := by
  have hkeep : ∀ t, (cfg4.win 1).cut (cfg4.grid.coords t) (dat.after 1 t) = dat.blockOf 1 t := fun t => by
    rw [hafter]; unfold Dat.blockOf iblk4; rw [hA]; try rfl
  refine (dat.before_in_eq_fetched 1 rfl (fun _ => rfl) (fun _ _ _ => rfl) hkeep t d).trans ?_
  unfold Dat.fetched Dat.blockOf iblk4; rw [hA]; try rfl

/-- Window 2 (the weights, fetched at the first point only) holds its block whenever the body is called, fetched at that point or not. -/
theorem before4_2_of {c : Dev nD} (dat : Dat τ (Elt F) (HIx 2) ℕ UU ℕ cfg4 c) (hA : dat.A 2 = V c (Pipeline.arrRef spec4 2))
    (hafter : ∀ t, dat.after 2 t = iblk4 V c 2 t) (t : Fin cfg4.N) (d) : dat.before 2 t d = iblk4 V c 2 t := by
  have hkeep : ∀ t, (cfg4.win 2).cut (cfg4.grid.coords t) (dat.after 2 t) = dat.blockOf 2 t := fun t => by
    rw [hafter]; unfold Dat.blockOf iblk4; rw [hA]; try rfl
  refine (dat.before_in_eq_fetched 2 rfl (fun _ => rfl) (fun _ _ _ => rfl) hkeep t d).trans ?_
  unfold Dat.fetched Dat.blockOf iblk4; rw [hA]; try rfl

/-- Window 3 (the bias, fetched at the first point only) holds its block whenever the body is called, fetched at that point or not. -/
theorem before4_3_of {c : Dev nD} (dat : Dat τ (Elt F) (HIx 2) ℕ UU ℕ cfg4 c) (hA : dat.A 3 = V c (Pipeline.arrRef spec4 3))
    (hafter : ∀ t, dat.after 3 t = iblk4 V c 3 t) (t : Fin cfg4.N) (d) : dat.before 3 t d = iblk4 V c 3 t := by
  have hkeep : ∀ t, (cfg4.win 3).cut (cfg4.grid.coords t) (dat.after 3 t) = dat.blockOf 3 t := fun t => by
    rw [hafter]; unfold Dat.blockOf iblk4; rw [hA]; try rfl
  refine (dat.before_in_eq_fetched 3 rfl (fun _ => rfl) (fun _ _ _ => rfl) hkeep t d).trans ?_
  unfold Dat.fetched Dat.blockOf iblk4; rw [hA]; try rfl

/-! ## What the body leaves in the output window's buffer -/

/-- The whole rectangle of each block shape: what the body loads and stores through. -/
abbrev r256x128_4 : Rect S256x128 := Rect.unit (s := S256x128) ![0, 0] S256x128.size inb_S256x128_S256x128_0_0
abbrev r256x1_4 : Rect S256x1 := Rect.unit (s := S256x1) ![0, 0] S256x1.size inb_S256x1_S256x1_0_0
abbrev r128x128_4 : Rect S128x128 := Rect.unit (s := S128x128) ![0, 0] S128x128.size inb_S128x128_S128x128_0_0
abbrev r1x128_4 : Rect S1x128 := Rect.unit (s := S1x128) ![0, 0] S1x128.size inb_S1x128_S1x128_0_0

/-- The output window's buffer after the body, as a function of the input blocks: its one store, of the skeleton's
    payload at the loaded values, read back as a function of the buffer's index. -/
def out4 (x : Vec F S256x128 .f32) (g : Vec F S256x1 .f32) (wt : Vec F S128x128 .f32) (bs : Vec F S1x128 .f32) : Vec F S256x128 .f32 :=
  View.canon [⟨r256x128_4, k4_pay1 (View.ld g r256x1_4) (View.ld x r256x128_4) (View.ld wt r128x128_4) (View.ld bs r1x128_4)⟩]

/-- The one store is of the whole buffer, so it covers every index. -/
theorem cover4 (p : r256x128_4.shape.Idx → Elt F .f32) (y : S256x128.Idx) :
    ∃ pc ∈ ([⟨r256x128_4, p⟩] : List (View.Piece (Elt F) S256x128 .f32)), y ∈ pc.1.set :=
  View.cover_of_tiled [⟨r256x128_4, p⟩] S256x128.size (by rfl) y

/-! ## The body's triple -/

set_option maxHeartbeats 1000000 in
/-- The body on whole staging memrefs — the inputs' at the given contents, the output's at anything — runs to a
    continuation that holds the inputs' as they were and the output's at `out4` of the inputs', at any grid
    coordinate (the body does not read it) and under any mask. The matrix product is one more pure value of the
    loaded blocks; the body's memory operations are its loads and its one store. -/
theorem sound_kernel4 (c : Dev nD) (E : Set ℕ) (i : grid4.Coords)
    (a0 : Memref sig .tc .vmem S256x128 .f32) (h0 : a0.IsWhole)
    (a1 : Memref sig .tc .vmem S256x1 .f32) (h1 : a1.IsWhole)
    (a2 : Memref sig .tc .vmem S128x128 .f32) (h2 : a2.IsWhole)
    (a3 : Memref sig .tc .vmem S1x128 .f32) (h3 : a3.IsWhole)
    (a4 : Memref sig .tc .vmem S256x128 .f32) (h4 : a4.IsWhole)
    (x : Vec F S256x128 .f32) (g : Vec F S256x1 .f32) (wt : Vec F S128x128 .f32) (bs : Vec F S1x128 .f32) (K : PUnit → sProp 𝕄) :
    iprop(owns (c : Thread nD τ) a0 fullShare x
        ∗ owns (c : Thread nD τ) a1 fullShare g
        ∗ owns (c : Thread nD τ) a2 fullShare wt
        ∗ owns (c : Thread nD τ) a3 fullShare bs
        ∗ (∃ d, owns (c : Thread nD τ) a4 fullShare d)
        ∗ (iprop(owns (c : Thread nD τ) a0 fullShare x
              ∗ owns (c : Thread nD τ) a1 fullShare g
              ∗ owns (c : Thread nD τ) a2 fullShare wt
              ∗ owns (c : Thread nD τ) a3 fullShare bs
              ∗ owns (c : Thread nD τ) a4 fullShare (out4 x g wt bs)) -∗ K ⟨⟩))
      ⊢ wp frame (wpE (defs₀ (F := F)) Variants.none c none) E (cc4_body i a0 h0 a1 h1 a2 h2 a3 h3 a4 h4) K := by
  simp only [cc4_body_eq_skeleton]; unfold cc4_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of the pipeline on core `c`: the windows' arrays at the region's starting contents; after the
    body at point `t` each input's buffer still at its block and the output's at `out4` of the input blocks; the
    invariant `ΦI`, the same at every point; full shares; the owed tallies `O` and the bound `B` on the recorded
    pairs, the same at every point. -/
def dat4 (c : Dev nD) : Dat τ (Elt F) (HIx 2) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := ΦI spec4 c
  q _ := fullShare
  owed _ := O
  recorded _ := B

/-- The arrays of the proof data are the starting contents (the structure's field projected). -/
theorem A_eq4 (c : Dev nD) (w : Fin cfg4.W) : (dat4 V O B c).A w = V c (Pipeline.arrRef spec4 w) := by
  dsimp only [dat4]

/-- What the body leaves, window by window (the `match` on the window reduced). -/
theorem after4_0 (c : Dev nD) (t : Fin cfg4.N) : (dat4 V O B c).after 0 t = iblk4 V c 0 t := by dsimp only [dat4]
theorem after4_1 (c : Dev nD) (t : Fin cfg4.N) : (dat4 V O B c).after 1 t = iblk4 V c 1 t := by dsimp only [dat4]
theorem after4_2 (c : Dev nD) (t : Fin cfg4.N) : (dat4 V O B c).after 2 t = iblk4 V c 2 t := by dsimp only [dat4]
theorem after4_3 (c : Dev nD) (t : Fin cfg4.N) : (dat4 V O B c).after 3 t = iblk4 V c 3 t := by dsimp only [dat4]
theorem after4_4 (c : Dev nD) (t : Fin cfg4.N) :
    (dat4 V O B c).after 4 t = out4 (iblk4 V c 0 t) (iblk4 V c 1 t) (iblk4 V c 2 t) (iblk4 V c 3 t) := by dsimp only [dat4]

/-- Each input's current buffer holds its block when the body is called at `t`, fetched there or not. -/
theorem before4_0 (c : Dev nD) (t : Fin cfg4.N) (d) : (dat4 V O B c).before 0 t d = iblk4 V c 0 t :=
  before4_0_of V (dat4 V O B c) (A_eq4 V O B c 0) (after4_0 V O B c) t d
theorem before4_1 (c : Dev nD) (t : Fin cfg4.N) (d) : (dat4 V O B c).before 1 t d = iblk4 V c 1 t :=
  before4_1_of V (dat4 V O B c) (A_eq4 V O B c 1) (after4_1 V O B c) t d
theorem before4_2 (c : Dev nD) (t : Fin cfg4.N) (d) : (dat4 V O B c).before 2 t d = iblk4 V c 2 t :=
  before4_2_of V (dat4 V O B c) (A_eq4 V O B c 2) (after4_2 V O B c) t d
theorem before4_3 (c : Dev nD) (t : Fin cfg4.N) (d) : (dat4 V O B c).before 3 t d = iblk4 V c 3 t :=
  before4_3_of V (dat4 V O B c) (A_eq4 V O B c 3) (after4_3 V O B c) t d

/-! ## The body obligation, at a generic point -/

/-- What the body is handed at point `t`: the invariant, the owed tallies, and each window's current buffer at what
    it then holds (the obligation's precondition with its windows written out), -/
def bodyPre4 (c : Dev nD) (t : Fin cfg4.N) : sProp 𝕄 :=
  iprop((dat4 V O B c).Φ t.castSucc ∗ (dat4 V O B c).owesAt (none : HIx 2) t.castSucc
    ∗ (∃ d, owns (c : Thread nD τ) (st4_0 t) fullShare ((dat4 V O B c).before 0 t d))
    ∗ (∃ d, owns (c : Thread nD τ) (st4_1 t) fullShare ((dat4 V O B c).before 1 t d))
    ∗ (∃ d, owns (c : Thread nD τ) (st4_2 t) fullShare ((dat4 V O B c).before 2 t d))
    ∗ (∃ d, owns (c : Thread nD τ) (st4_3 t) fullShare ((dat4 V O B c).before 3 t d))
    ∗ (∃ d, owns (c : Thread nD τ) (st4_4 t) fullShare ((dat4 V O B c).before 4 t d)))

/-- and what it hands back. -/
def bodyPost4 (c : Dev nD) (t : Fin cfg4.N) : sProp 𝕄 :=
  iprop((dat4 V O B c).Φ t.succ ∗ (dat4 V O B c).owesAt (none : HIx 2) t.succ
    ∗ owns (c : Thread nD τ) (st4_0 t) fullShare ((dat4 V O B c).after 0 t)
    ∗ owns (c : Thread nD τ) (st4_1 t) fullShare ((dat4 V O B c).after 1 t)
    ∗ owns (c : Thread nD τ) (st4_2 t) fullShare ((dat4 V O B c).after 2 t)
    ∗ owns (c : Thread nD τ) (st4_3 t) fullShare ((dat4 V O B c).after 3 t)
    ∗ owns (c : Thread nD τ) (st4_4 t) fullShare ((dat4 V O B c).after 4 t))

/-- The body at any point: the inputs' buffers hold their blocks, so the body's triple applies; the invariant and
    the owed tallies, constant over the points, pass through untouched. -/
theorem sound_body4 (c : Dev nD) (t : Fin cfg4.N) :
    bodyPre4 V O B c t ⊢ wp frame (wpE (defs₀ (F := F)) Variants.none c none) Set.univ (bodyAt4 t) (fun _ => bodyPost4 V O B c t) := by
  unfold bodyPre4 bodyPost4 bodyAt4
  simp only [before4_0, before4_1, before4_2, before4_3]
  rw [show (dat4 V O B c).Φ t.succ = (dat4 V O B c).Φ t.castSucc from rfl,
    show (dat4 V O B c).owesAt (none : HIx 2) t.succ = (dat4 V O B c).owesAt (none : HIx 2) t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the pipeline, at every point. -/
theorem body_obligation4 (c : Dev nD) :
    BodyObligation (dat4 (F := F) V O B c) (defs₀ (F := F)) Variants.none (none : HIx 2) Set.univ := fun t => by
  rw [bigSep_W4, bigSep_W4]
  exact sound_body4 V O B c t

end Region4

end Cert.Proof.KI

end
-- ==== Proof.RegionsI.lean ====
/-
  The three TensorCore pipelines of the idealized kernel, region by region: each region's proof data at its entry
  contents and its body obligation at every grid point.
-/
import proofs.«207928_g75127567942135_cont_9to1c4b_313_20_alg».proof.Proof.Region0I
import proofs.«207928_g75127567942135_cont_9to1c4b_313_20_alg».proof.Proof.Region2I
import proofs.«207928_g75127567942135_cont_9to1c4b_313_20_alg».proof.Proof.Region4I
-- ==== Proof.RegionRecsI.lean ====
/-
  The three TensorCore regions of the idealized kernel's @main as segments over the TensorCore's thread state. The
  TensorCore runs inside a launch that also makes two SparseCore calls: throughout region K it owes the start
  signals of the calls still to come (none of them at the index of a pipeline's own waits), and the pairs its waits
  have recorded sit at levels the calls already made allow. Each record says how the region's arrays are split
  out of the core's unscoped buffers at entry and put back at exit, and that the pipeline's own waits sit below
  everything the core owes.
-/
import proofs.«207928_g75127567942135_cont_9to1c4b_313_20_alg».proof.Proof.RegionsI
import Idealize.ShloMosaic.Lib.Pipeline.Regions
import Idealize.ShloMosaic.Lib.Pipeline.RegionsLoop
import Idealize.ShloMosaic.Lib.Pipeline.FrameSuffix
import Idealize.ShloMosaic.Lib.SparseCore.Threads

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Records

/-! ## What the three records share -/

/-- No pipeline of the program has a prefetched table: the admissible contents of the (empty) tables. -/
abbrev admI : (p : Fin 3) → (pcfgs (F := F) p).Adm := fun p => (cfgs p).toPCfg_adm

/-- A core's buffer contents, read at the TensorCore's references: what a region's proof data take. -/
abbrev Vof (W : Dev nD → Valuation τ sig (Elt F)) : (c : Dev nD) → (b : Ref sig .tc) → Buf (Elt F) ((c : Thread nD τ).loc b) :=
  fun c b => W c b

/-- The bound on the TensorCore's recorded pairs before call `n`: every pair at level at most `8 n`. -/
abbrev Bt (F : FTy → Type) (c : Dev nD) (n : ℕ) : Set (SemLoc sig × HIx 2) :=
  {p | (K (F := F)).lev (SparseCore.T c, p.1) p.2 ≤ 8 * n}

/-- Before call `n` the TensorCore owes only start signals of later calls, each at its call's index: nothing at
    the index `none` of a kernel's own waits (what it owes sits at level at least `8 n + 1`; index `none` is level 0). -/
theorem Otc_none (c : Dev nD) (n : ℕ) (g : GSem nD τ sig) : (K (F := F)).Otc c n g none = 0 :=
  Nat.eq_zero_of_not_pos fun h => by
    have h' := SparseCore.Cfg.lev_of_Otc_pos (K := K (F := F)) h
    rw [SparseCore.Cfg.lev_none] at h'
    omega

/-- Recorded pairs within the bound before call `n`, or among a pipeline's own wait pairs at index `none` (level 0),
    all sit at level at most `8 n`. -/
theorem wbelow_of_bound {cfg : Pipeline.Cfg sig Λ₀} (c : Dev nD) (n : ℕ) (Wt : Waits sig (HIx 2))
    (h : (↑Wt : Set (SemLoc sig × HIx 2)) ⊆ Bt F c n ∪ cfg.waitPairs (none : HIx 2)) :
    (K (F := F)).WBelow (SparseCore.T c) Wt (8 * n) := by
  intro p hp
  rcases h (Finset.mem_coe.mpr hp) with hB | ⟨w, s, rfl⟩
  · exact hB
  · show (K (F := F)).lev _ none ≤ _
    rw [SparseCore.Cfg.lev_none]; exact Nat.zero_le _

/-- The TensorCore's thread state around a region entered before call `n` from the contents `W`: every unscoped
    buffer at `W`, the generator register at some state, and what it owes before call `n` with its recorded pairs
    at level at most `8 n`. -/
def TS (n : ℕ) (W : Dev nD → Valuation τ sig (Elt F)) (c : Dev nD) : sProp 𝕄 :=
  iprop(StableHlo.held (c : Thread nD τ) (Pipeline.ucRefs τ sig) (W c) ∗ (∃ r, prngReg c r)
    ∗ ∃ Wt, ⌜(K (F := F)).WBelow (SparseCore.T c) Wt (8 * n)⌝ ∗ owes (SparseCore.T c) ((K (F := F)).Otc c n) Wt)

/-! ## Region 0: the contents it leaves -/

/-- Core `c`'s buffers when region 0, entered from `W`, is left: the pipeline's arrays at what its write-backs leave
    (the inputs as entered, the output's blocks folded in), every other buffer as entered. -/
def Wx0 (W : Dev nD → Valuation τ sig (Elt F)) (c : Dev nD) : Valuation τ sig (Elt F) :=
  Pipeline.withArrays spec0 c (W c) fun w => (dat0 (Vof W) ((K (F := F)).Otc c 0) (Bt F c 0) c).arrAt w cfg0.N
theorem Wx0_arr (W : Dev nD → Valuation τ sig (Elt F)) (c : Dev nD) (w : Fin cfg0.W) :
    Wx0 W c (Proc.devRef .tc (Pipeline.arrRef spec0 w)) = (dat0 (Vof W) ((K (F := F)).Otc c 0) (Bt F c 0) c).arrAt w cfg0.N := by
  unfold Wx0; exact Pipeline.withArrays_arr spec0 launch0.win.arr_inj c _ _ w
theorem Wx0_of_ne (W : Dev nD → Valuation τ sig (Elt F)) (c : Dev nD) (b : Ref sig .tc) (hb : ∀ w, Pipeline.arrRef spec0 w ≠ b) :
    Wx0 W c (Proc.devRef .tc b) = W c (Proc.devRef .tc b) := by
  unfold Wx0; exact Pipeline.withArrays_of_ne spec0 c _ _ b hb
/-- At the exit each array of the pipeline holds what the pipeline leaves, and every other buffer what it held at entry. -/
theorem hF0 (W : Dev nD → Valuation τ sig (Elt F)) (c : Dev nD) (w : Fin cfg0.W) :
    (dat0 (Vof W) ((K (F := F)).Otc c 0) (Bt F c 0) c).arrAt w cfg0.N = Vof (Wx0 W) c (Pipeline.arrRef spec0 w) :=
  (Wx0_arr W c w).symm
theorem hrest0 (W : Dev nD → Valuation τ sig (Elt F)) (c : Dev nD) :
    ∀ b, b ∉ Finset.univ.image (Pipeline.arrRef spec0) → Vof (Wx0 W) c b = Vof W c b :=
  fun b hb => Wx0_of_ne W c b fun w e => hb (Finset.mem_image.mpr ⟨w, Finset.mem_univ _, e⟩)

/-! ## Region 2: the contents it leaves -/

/-- Core `c`'s buffers when region 2, entered from `W`, is left: the pipeline's arrays at what its write-backs leave
    (the inputs as entered, the output's blocks folded in), every other buffer as entered. -/
def Wx2 (W : Dev nD → Valuation τ sig (Elt F)) (c : Dev nD) : Valuation τ sig (Elt F) :=
  Pipeline.withArrays spec2 c (W c) fun w => (dat2 (Vof W) ((K (F := F)).Otc c 1) (Bt F c 1) c).arrAt w cfg2.N
theorem Wx2_arr (W : Dev nD → Valuation τ sig (Elt F)) (c : Dev nD) (w : Fin cfg2.W) :
    Wx2 W c (Proc.devRef .tc (Pipeline.arrRef spec2 w)) = (dat2 (Vof W) ((K (F := F)).Otc c 1) (Bt F c 1) c).arrAt w cfg2.N := by
  unfold Wx2; exact Pipeline.withArrays_arr spec2 launch2.win.arr_inj c _ _ w
theorem Wx2_of_ne (W : Dev nD → Valuation τ sig (Elt F)) (c : Dev nD) (b : Ref sig .tc) (hb : ∀ w, Pipeline.arrRef spec2 w ≠ b) :
    Wx2 W c (Proc.devRef .tc b) = W c (Proc.devRef .tc b) := by
  unfold Wx2; exact Pipeline.withArrays_of_ne spec2 c _ _ b hb
/-- At the exit each array of the pipeline holds what the pipeline leaves, and every other buffer what it held at entry. -/
theorem hF2 (W : Dev nD → Valuation τ sig (Elt F)) (c : Dev nD) (w : Fin cfg2.W) :
    (dat2 (Vof W) ((K (F := F)).Otc c 1) (Bt F c 1) c).arrAt w cfg2.N = Vof (Wx2 W) c (Pipeline.arrRef spec2 w) :=
  (Wx2_arr W c w).symm
theorem hrest2 (W : Dev nD → Valuation τ sig (Elt F)) (c : Dev nD) :
    ∀ b, b ∉ Finset.univ.image (Pipeline.arrRef spec2) → Vof (Wx2 W) c b = Vof W c b :=
  fun b hb => Wx2_of_ne W c b fun w e => hb (Finset.mem_image.mpr ⟨w, Finset.mem_univ _, e⟩)

/-! ## Region 4: the contents it leaves -/

/-- Core `c`'s buffers when region 4, entered from `W`, is left: the pipeline's arrays at what its write-backs leave
    (the inputs as entered, the output's blocks folded in), every other buffer as entered. -/
def Wx4 (W : Dev nD → Valuation τ sig (Elt F)) (c : Dev nD) : Valuation τ sig (Elt F) :=
  Pipeline.withArrays spec4 c (W c) fun w => (dat4 (Vof W) ((K (F := F)).Otc c 2) (Bt F c 2) c).arrAt w cfg4.N
theorem Wx4_arr (W : Dev nD → Valuation τ sig (Elt F)) (c : Dev nD) (w : Fin cfg4.W) :
    Wx4 W c (Proc.devRef .tc (Pipeline.arrRef spec4 w)) = (dat4 (Vof W) ((K (F := F)).Otc c 2) (Bt F c 2) c).arrAt w cfg4.N := by
  unfold Wx4; exact Pipeline.withArrays_arr spec4 launch4.win.arr_inj c _ _ w
theorem Wx4_of_ne (W : Dev nD → Valuation τ sig (Elt F)) (c : Dev nD) (b : Ref sig .tc) (hb : ∀ w, Pipeline.arrRef spec4 w ≠ b) :
    Wx4 W c (Proc.devRef .tc b) = W c (Proc.devRef .tc b) := by
  unfold Wx4; exact Pipeline.withArrays_of_ne spec4 c _ _ b hb
/-- At the exit each array of the pipeline holds what the pipeline leaves, and every other buffer what it held at entry. -/
theorem hF4 (W : Dev nD → Valuation τ sig (Elt F)) (c : Dev nD) (w : Fin cfg4.W) :
    (dat4 (Vof W) ((K (F := F)).Otc c 2) (Bt F c 2) c).arrAt w cfg4.N = Vof (Wx4 W) c (Pipeline.arrRef spec4 w) :=
  (Wx4_arr W c w).symm
theorem hrest4 (W : Dev nD → Valuation τ sig (Elt F)) (c : Dev nD) :
    ∀ b, b ∉ Finset.univ.image (Pipeline.arrRef spec4) → Vof (Wx4 W) c b = Vof W c b :=
  fun b hb => Wx4_of_ne W c b fun w e => hb (Finset.mem_image.mpr ⟨w, Finset.mem_univ _, e⟩)

/-! ## The proof data family -/

variable (W0 W2 W4 : Dev nD → Valuation τ sig (Elt F))

/-- Every pipeline's proof data, each at its region's entry contents, owing what the TensorCore owes before the
    call that follows the region's predecessors (0, 1, 2 calls made), its recorded pairs bounded accordingly: a
    literal `match` on the pipeline, so that the pinned configuration at a numeral reduces to the printed one. -/
def pdats : (p : Fin 3) → (c : Dev nD) → Dat τ (Elt F) (HIx 2) ℕ UU ℕ (Pipeline.pin (pcfgs (F := F)) admI p) c
  | ⟨0, _⟩ => fun c => dat0 (Vof W0) ((K (F := F)).Otc c 0) (Bt F c 0) c
  | ⟨1, _⟩ => fun c => dat2 (Vof W2) ((K (F := F)).Otc c 1) (Bt F c 1) c
  | ⟨2, _⟩ => fun c => dat4 (Vof W4) ((K (F := F)).Otc c 2) (Bt F c 2) c

/-! ## Region 0 as a segment of @main -/

set_option backward.isDefEq.respectTransparency.types false in
/-- REGION 0 (pipeline 0) over the TensorCore's thread state, entered before call 0 from every unscoped buffer at
    `W0` and left at `Wx0 W0`: its arrays split out of the unscoped buffers and put back at the exit contents; the
    generator register into the invariant and out; what the core owes unchanged, its recorded pairs growing by the
    pipeline's own wait pairs only, all at level 0; no semaphore of the kernel's own. The pipeline's waits, at index
    `none`, sit below everything the core owes (start signals of later calls, at their calls' indices). -/
def reg0 : Pipeline.RegionSeg (pcfgs (F := F)) admI (pdats W0 W2 W4) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (Vof W0) ((K (F := F)).Otc c 0) (Bt F c 0) c).loose
  hwaits c := Pipeline.cellsWaits_intro (Pipeline.pin (pcfgs (F := F)) admI) (pdats W0 W2 W4) (none : HIx 2) 0 c fun w s t =>
    (K (F := F)).mayWait_none _ (Otc_none c 0)
  pre c := TS 0 W0 c
  post c := TS 0 (Wx0 W0) c
  X c := iprop(∃ r, prngReg c r)
  Y c := iprop(∃ r, prngReg c r)
  Z c := Pipeline.unscopedRest (Ix := HIx 2) (Name := ℕ) (U := UU) (Lvl := ℕ) spec0 c (Vof W0 c)
  hentry c := by
    rw [Pipeline.ownSems0_none]
    have hsplit := Pipeline.arrays_of_unscopedBufs (p := 0) (pcfgs (F := F)) admI (pdats W0 W2 W4) launch0.win launch0.arr_whole c
      ((pdats W0 W2 W4 0 c).share_full fun _ => rfl) (Vof W0 c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr
      · ipureintro; exact fun q hq => Or.inl (hWt q (Finset.mem_coe.mp hq))
      iexact HO
    isplitl [Hp]; · iexact Hp
    iexact Hrest
  hin c := by
    rw [show (pdats W0 W2 W4 0 c).Φ 0 = ΦI spec0 c from rfl]; unfold ΦI
    iintro ⟨Hp, -, Hr⟩
    isplitl [Hr]; · iexact Hr
    iexact Hp
  hout c := by
    rw [Pipeline.ownSems0_none, show (pdats W0 W2 W4 0 c).Φ (Fin.last _) = ΦI spec0 c from rfl]; unfold ΦI
    iintro ⟨Hr, Hp⟩
    isplitl [Hp]; · iexact Hp
    isplitr; · iempintro
    iexact Hr
  hexit c := by
    have hjoin := Pipeline.unscopedBufs_of_arrays (p := 0) (pcfgs (F := F)) admI (Ix := HIx 2) (Name := ℕ) (U := UU) (Lvl := ℕ)
      launch0.win launch0.arr_whole c (pdats W0 W2 W4) ((pdats W0 W2 W4 0 c).share_full fun _ => rfl)
      (Vof W0 c) (Vof (Wx0 W0) c) ((pdats W0 W2 W4 0 c).arrAt · cfg0.N) (hF0 W0 c) (hrest0 W0 c)
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro; exact wbelow_of_bound c 0 Wt hWt
    iexact HO

/-! ## Region 2 as a segment of @main -/

set_option backward.isDefEq.respectTransparency.types false in
/-- REGION 2 (pipeline 1) over the TensorCore's thread state, entered before call 1 from every unscoped buffer at
    `W2` and left at `Wx2 W2`: its arrays split out of the unscoped buffers and put back at the exit contents; the
    generator register into the invariant and out; what the core owes unchanged, its recorded pairs growing by the
    pipeline's own wait pairs only, all at level 0; no semaphore of the kernel's own. The pipeline's waits, at index
    `none`, sit below everything the core owes (start signals of later calls, at their calls' indices). -/
def reg2 : Pipeline.RegionSeg (pcfgs (F := F)) admI (pdats W0 W2 W4) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vof W2) ((K (F := F)).Otc c 1) (Bt F c 1) c).loose
  hwaits c := Pipeline.cellsWaits_intro (Pipeline.pin (pcfgs (F := F)) admI) (pdats W0 W2 W4) (none : HIx 2) 1 c fun w s t =>
    (K (F := F)).mayWait_none _ (Otc_none c 1)
  pre c := TS 1 W2 c
  post c := TS 1 (Wx2 W2) c
  X c := iprop(∃ r, prngReg c r)
  Y c := iprop(∃ r, prngReg c r)
  Z c := Pipeline.unscopedRest (Ix := HIx 2) (Name := ℕ) (U := UU) (Lvl := ℕ) spec2 c (Vof W2 c)
  hentry c := by
    rw [Pipeline.ownSems0_none]
    have hsplit := Pipeline.arrays_of_unscopedBufs (p := 1) (pcfgs (F := F)) admI (pdats W0 W2 W4) launch2.win launch2.arr_whole c
      ((pdats W0 W2 W4 1 c).share_full fun _ => rfl) (Vof W2 c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr
      · ipureintro; exact fun q hq => Or.inl (hWt q (Finset.mem_coe.mp hq))
      iexact HO
    isplitl [Hp]; · iexact Hp
    iexact Hrest
  hin c := by
    rw [show (pdats W0 W2 W4 1 c).Φ 0 = ΦI spec2 c from rfl]; unfold ΦI
    iintro ⟨Hp, -, Hr⟩
    isplitl [Hr]; · iexact Hr
    iexact Hp
  hout c := by
    rw [Pipeline.ownSems0_none, show (pdats W0 W2 W4 1 c).Φ (Fin.last _) = ΦI spec2 c from rfl]; unfold ΦI
    iintro ⟨Hr, Hp⟩
    isplitl [Hp]; · iexact Hp
    isplitr; · iempintro
    iexact Hr
  hexit c := by
    have hjoin := Pipeline.unscopedBufs_of_arrays (p := 1) (pcfgs (F := F)) admI (Ix := HIx 2) (Name := ℕ) (U := UU) (Lvl := ℕ)
      launch2.win launch2.arr_whole c (pdats W0 W2 W4) ((pdats W0 W2 W4 1 c).share_full fun _ => rfl)
      (Vof W2 c) (Vof (Wx2 W2) c) ((pdats W0 W2 W4 1 c).arrAt · cfg2.N) (hF2 W2 c) (hrest2 W2 c)
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro; exact wbelow_of_bound c 1 Wt hWt
    iexact HO

/-! ## Region 4 as a segment of @main -/

set_option backward.isDefEq.respectTransparency.types false in
/-- REGION 4 (pipeline 2) over the TensorCore's thread state, entered before call 2 from every unscoped buffer at
    `W4` and left at `Wx4 W4`: its arrays split out of the unscoped buffers and put back at the exit contents; the
    generator register into the invariant and out; what the core owes unchanged, its recorded pairs growing by the
    pipeline's own wait pairs only, all at level 0; no semaphore of the kernel's own. The pipeline's waits, at index
    `none`, sit below everything the core owes (start signals of later calls, at their calls' indices). -/
def reg4 : Pipeline.RegionSeg (pcfgs (F := F)) admI (pdats W0 W2 W4) (none : HIx 2) defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 (Vof W4) ((K (F := F)).Otc c 2) (Bt F c 2) c).loose
  hwaits c := Pipeline.cellsWaits_intro (Pipeline.pin (pcfgs (F := F)) admI) (pdats W0 W2 W4) (none : HIx 2) 2 c fun w s t =>
    (K (F := F)).mayWait_none _ (Otc_none c 2)
  pre c := TS 2 W4 c
  post c := TS 2 (Wx4 W4) c
  X c := iprop(∃ r, prngReg c r)
  Y c := iprop(∃ r, prngReg c r)
  Z c := Pipeline.unscopedRest (Ix := HIx 2) (Name := ℕ) (U := UU) (Lvl := ℕ) spec4 c (Vof W4 c)
  hentry c := by
    rw [Pipeline.ownSems0_none]
    have hsplit := Pipeline.arrays_of_unscopedBufs (p := 2) (pcfgs (F := F)) admI (pdats W0 W2 W4) launch4.win launch4.arr_whole c
      ((pdats W0 W2 W4 2 c).share_full fun _ => rfl) (Vof W4 c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr
      · ipureintro; exact fun q hq => Or.inl (hWt q (Finset.mem_coe.mp hq))
      iexact HO
    isplitl [Hp]; · iexact Hp
    iexact Hrest
  hin c := by
    rw [show (pdats W0 W2 W4 2 c).Φ 0 = ΦI spec4 c from rfl]; unfold ΦI
    iintro ⟨Hp, -, Hr⟩
    isplitl [Hr]; · iexact Hr
    iexact Hp
  hout c := by
    rw [Pipeline.ownSems0_none, show (pdats W0 W2 W4 2 c).Φ (Fin.last _) = ΦI spec4 c from rfl]; unfold ΦI
    iintro ⟨Hr, Hp⟩
    isplitl [Hp]; · iexact Hp
    isplitr; · iempintro
    iexact Hr
  hexit c := by
    have hjoin := Pipeline.unscopedBufs_of_arrays (p := 2) (pcfgs (F := F)) admI (Ix := HIx 2) (Name := ℕ) (U := UU) (Lvl := ℕ)
      launch4.win launch4.arr_whole c (pdats W0 W2 W4) ((pdats W0 W2 W4 2 c).share_full fun _ => rfl)
      (Vof W4 c) (Vof (Wx4 W4) c) ((pdats W0 W2 W4 2 c).arrAt · cfg4.N) (hF4 W4 c) (hrest4 W4 c)
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro; exact wbelow_of_bound c 2 Wt hWt
    iexact HO

end Records

end Cert.Proof.KI

end
-- ==== Proof.RegionReadI.lean ====
/-
  Reading a buffer back through a TensorCore region: the contents a region leaves (`WxK W`) agree with the
  contents it was entered from (`W`) at every buffer the pipeline does not write — a buffer that is no window's
  array, or the array of an input window. These are the program's arguments and the intermediate buffers that the
  SparseCore calls and the later regions read.
-/
import proofs.«207928_g75127567942135_cont_9to1c4b_313_20_alg».proof.Proof.RegionRecsI

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section ReadBack

/-! ## Through region 0 -/

/-! Buffers that are no window's array of the pipeline: the exit contents are the entry contents there. -/
theorem Wx0_arg0 (W : Dev nD → Valuation τ sig (Elt F)) (c : Dev nD) :
    Wx0 W c (Proc.devRef .tc main_arg0) = W c (Proc.devRef .tc main_arg0) := Wx0_of_ne W c main_arg0 (by decide)
theorem Wx0_arg1 (W : Dev nD → Valuation τ sig (Elt F)) (c : Dev nD) :
    Wx0 W c (Proc.devRef .tc main_arg1) = W c (Proc.devRef .tc main_arg1) := Wx0_of_ne W c main_arg1 (by decide)
theorem Wx0_arg2 (W : Dev nD → Valuation τ sig (Elt F)) (c : Dev nD) :
    Wx0 W c (Proc.devRef .tc main_arg2) = W c (Proc.devRef .tc main_arg2) := Wx0_of_ne W c main_arg2 (by decide)
theorem Wx0_arg3 (W : Dev nD → Valuation τ sig (Elt F)) (c : Dev nD) :
    Wx0 W c (Proc.devRef .tc main_arg3) = W c (Proc.devRef .tc main_arg3) := Wx0_of_ne W c main_arg3 (by decide)
theorem Wx0_arg4 (W : Dev nD → Valuation τ sig (Elt F)) (c : Dev nD) :
    Wx0 W c (Proc.devRef .tc main_arg4) = W c (Proc.devRef .tc main_arg4) := Wx0_of_ne W c main_arg4 (by decide)
theorem Wx0_arg5 (W : Dev nD → Valuation τ sig (Elt F)) (c : Dev nD) :
    Wx0 W c (Proc.devRef .tc main_arg5) = W c (Proc.devRef .tc main_arg5) := Wx0_of_ne W c main_arg5 (by decide)
theorem Wx0_v6 (W : Dev nD → Valuation τ sig (Elt F)) (c : Dev nD) :
    Wx0 W c (Proc.devRef .tc main_v6) = W c (Proc.devRef .tc main_v6) := Wx0_of_ne W c main_v6 (by decide)
theorem Wx0_v7 (W : Dev nD → Valuation τ sig (Elt F)) (c : Dev nD) :
    Wx0 W c (Proc.devRef .tc main_v7) = W c (Proc.devRef .tc main_v7) := Wx0_of_ne W c main_v7 (by decide)
theorem Wx0_v32 (W : Dev nD → Valuation τ sig (Elt F)) (c : Dev nD) :
    Wx0 W c (Proc.devRef .tc main_v32) = W c (Proc.devRef .tc main_v32) := Wx0_of_ne W c main_v32 (by decide)

/-! Arrays of input windows: the pipeline only reads them, so after every point they hold what they held at entry. -/
theorem Wx0_v20 (W : Dev nD → Valuation τ sig (Elt F)) (c : Dev nD) :
    Wx0 W c (Proc.devRef .tc main_v20) = W c (Proc.devRef .tc main_v20) :=
  (Wx0_arr W c 1).trans (((dat0 (Vof W) ((K (F := F)).Otc c 0) (Bt F c 0) c).arrAt_in 1 rfl _).trans
    (A_eq0 (Vof W) ((K (F := F)).Otc c 0) (Bt F c 0) c 1))

/-! ## Through region 2 -/

/-! Buffers that are no window's array of the pipeline: the exit contents are the entry contents there. -/
theorem Wx2_arg0 (W : Dev nD → Valuation τ sig (Elt F)) (c : Dev nD) :
    Wx2 W c (Proc.devRef .tc main_arg0) = W c (Proc.devRef .tc main_arg0) := Wx2_of_ne W c main_arg0 (by decide)
theorem Wx2_arg1 (W : Dev nD → Valuation τ sig (Elt F)) (c : Dev nD) :
    Wx2 W c (Proc.devRef .tc main_arg1) = W c (Proc.devRef .tc main_arg1) := Wx2_of_ne W c main_arg1 (by decide)
theorem Wx2_arg3 (W : Dev nD → Valuation τ sig (Elt F)) (c : Dev nD) :
    Wx2 W c (Proc.devRef .tc main_arg3) = W c (Proc.devRef .tc main_arg3) := Wx2_of_ne W c main_arg3 (by decide)
theorem Wx2_arg4 (W : Dev nD → Valuation τ sig (Elt F)) (c : Dev nD) :
    Wx2 W c (Proc.devRef .tc main_arg4) = W c (Proc.devRef .tc main_arg4) := Wx2_of_ne W c main_arg4 (by decide)
theorem Wx2_arg5 (W : Dev nD → Valuation τ sig (Elt F)) (c : Dev nD) :
    Wx2 W c (Proc.devRef .tc main_arg5) = W c (Proc.devRef .tc main_arg5) := Wx2_of_ne W c main_arg5 (by decide)
theorem Wx2_v6 (W : Dev nD → Valuation τ sig (Elt F)) (c : Dev nD) :
    Wx2 W c (Proc.devRef .tc main_v6) = W c (Proc.devRef .tc main_v6) := Wx2_of_ne W c main_v6 (by decide)
theorem Wx2_v7 (W : Dev nD → Valuation τ sig (Elt F)) (c : Dev nD) :
    Wx2 W c (Proc.devRef .tc main_v7) = W c (Proc.devRef .tc main_v7) := Wx2_of_ne W c main_v7 (by decide)
theorem Wx2_v33 (W : Dev nD → Valuation τ sig (Elt F)) (c : Dev nD) :
    Wx2 W c (Proc.devRef .tc main_v33) = W c (Proc.devRef .tc main_v33) := Wx2_of_ne W c main_v33 (by decide)
theorem Wx2_v34 (W : Dev nD → Valuation τ sig (Elt F)) (c : Dev nD) :
    Wx2 W c (Proc.devRef .tc main_v34) = W c (Proc.devRef .tc main_v34) := Wx2_of_ne W c main_v34 (by decide)

/-! Arrays of input windows: the pipeline only reads them, so after every point they hold what they held at entry. -/
theorem Wx2_arg2 (W : Dev nD → Valuation τ sig (Elt F)) (c : Dev nD) :
    Wx2 W c (Proc.devRef .tc main_arg2) = W c (Proc.devRef .tc main_arg2) :=
  (Wx2_arr W c 2).trans (((dat2 (Vof W) ((K (F := F)).Otc c 1) (Bt F c 1) c).arrAt_in 2 rfl _).trans
    (A_eq2 (Vof W) ((K (F := F)).Otc c 1) (Bt F c 1) c 2))
theorem Wx2_v20 (W : Dev nD → Valuation τ sig (Elt F)) (c : Dev nD) :
    Wx2 W c (Proc.devRef .tc main_v20) = W c (Proc.devRef .tc main_v20) :=
  (Wx2_arr W c 4).trans (((dat2 (Vof W) ((K (F := F)).Otc c 1) (Bt F c 1) c).arrAt_in 4 rfl _).trans
    (A_eq2 (Vof W) ((K (F := F)).Otc c 1) (Bt F c 1) c 4))
theorem Wx2_v32 (W : Dev nD → Valuation τ sig (Elt F)) (c : Dev nD) :
    Wx2 W c (Proc.devRef .tc main_v32) = W c (Proc.devRef .tc main_v32) :=
  (Wx2_arr W c 1).trans (((dat2 (Vof W) ((K (F := F)).Otc c 1) (Bt F c 1) c).arrAt_in 1 rfl _).trans
    (A_eq2 (Vof W) ((K (F := F)).Otc c 1) (Bt F c 1) c 1))

/-! ## Through region 4 -/

/-! Buffers that are no window's array of the pipeline: the exit contents are the entry contents there. -/
theorem Wx4_arg0 (W : Dev nD → Valuation τ sig (Elt F)) (c : Dev nD) :
    Wx4 W c (Proc.devRef .tc main_arg0) = W c (Proc.devRef .tc main_arg0) := Wx4_of_ne W c main_arg0 (by decide)
theorem Wx4_arg1 (W : Dev nD → Valuation τ sig (Elt F)) (c : Dev nD) :
    Wx4 W c (Proc.devRef .tc main_arg1) = W c (Proc.devRef .tc main_arg1) := Wx4_of_ne W c main_arg1 (by decide)
theorem Wx4_arg2 (W : Dev nD → Valuation τ sig (Elt F)) (c : Dev nD) :
    Wx4 W c (Proc.devRef .tc main_arg2) = W c (Proc.devRef .tc main_arg2) := Wx4_of_ne W c main_arg2 (by decide)
theorem Wx4_arg3 (W : Dev nD → Valuation τ sig (Elt F)) (c : Dev nD) :
    Wx4 W c (Proc.devRef .tc main_arg3) = W c (Proc.devRef .tc main_arg3) := Wx4_of_ne W c main_arg3 (by decide)
theorem Wx4_arg5 (W : Dev nD → Valuation τ sig (Elt F)) (c : Dev nD) :
    Wx4 W c (Proc.devRef .tc main_arg5) = W c (Proc.devRef .tc main_arg5) := Wx4_of_ne W c main_arg5 (by decide)
theorem Wx4_v6 (W : Dev nD → Valuation τ sig (Elt F)) (c : Dev nD) :
    Wx4 W c (Proc.devRef .tc main_v6) = W c (Proc.devRef .tc main_v6) := Wx4_of_ne W c main_v6 (by decide)
theorem Wx4_v7 (W : Dev nD → Valuation τ sig (Elt F)) (c : Dev nD) :
    Wx4 W c (Proc.devRef .tc main_v7) = W c (Proc.devRef .tc main_v7) := Wx4_of_ne W c main_v7 (by decide)
theorem Wx4_v20 (W : Dev nD → Valuation τ sig (Elt F)) (c : Dev nD) :
    Wx4 W c (Proc.devRef .tc main_v20) = W c (Proc.devRef .tc main_v20) := Wx4_of_ne W c main_v20 (by decide)
theorem Wx4_v33 (W : Dev nD → Valuation τ sig (Elt F)) (c : Dev nD) :
    Wx4 W c (Proc.devRef .tc main_v33) = W c (Proc.devRef .tc main_v33) := Wx4_of_ne W c main_v33 (by decide)
theorem Wx4_v34 (W : Dev nD → Valuation τ sig (Elt F)) (c : Dev nD) :
    Wx4 W c (Proc.devRef .tc main_v34) = W c (Proc.devRef .tc main_v34) := Wx4_of_ne W c main_v34 (by decide)
theorem Wx4_v39 (W : Dev nD → Valuation τ sig (Elt F)) (c : Dev nD) :
    Wx4 W c (Proc.devRef .tc main_v39) = W c (Proc.devRef .tc main_v39) := Wx4_of_ne W c main_v39 (by decide)
theorem Wx4_v40 (W : Dev nD → Valuation τ sig (Elt F)) (c : Dev nD) :
    Wx4 W c (Proc.devRef .tc main_v40) = W c (Proc.devRef .tc main_v40) := Wx4_of_ne W c main_v40 (by decide)

/-! Arrays of input windows: the pipeline only reads them, so after every point they hold what they held at entry. -/
theorem Wx4_arg4 (W : Dev nD → Valuation τ sig (Elt F)) (c : Dev nD) :
    Wx4 W c (Proc.devRef .tc main_arg4) = W c (Proc.devRef .tc main_arg4) :=
  (Wx4_arr W c 2).trans (((dat4 (Vof W) ((K (F := F)).Otc c 2) (Bt F c 2) c).arrAt_in 2 rfl _).trans
    (A_eq4 (Vof W) ((K (F := F)).Otc c 2) (Bt F c 2) c 2))
theorem Wx4_v32 (W : Dev nD → Valuation τ sig (Elt F)) (c : Dev nD) :
    Wx4 W c (Proc.devRef .tc main_v32) = W c (Proc.devRef .tc main_v32) :=
  (Wx4_arr W c 1).trans (((dat4 (Vof W) ((K (F := F)).Otc c 2) (Bt F c 2) c).arrAt_in 1 rfl _).trans
    (A_eq4 (Vof W) ((K (F := F)).Otc c 2) (Bt F c 2) c 1))

end ReadBack

end Cert.Proof.KI

end
-- ==== Proof.MainShapeI.lean ====
import proofs.«207928_g75127567942135_cont_9to1c4b_313_20_alg».proof.Proof.SetupI

/-!
The kernel program's @main as straight lines of tensor operations around its launches. With the three
calls of outlined functions replaced by their bodies over each call's own buffers, @main is: a line of
fifty operations (the edge list's two rows padded to whole tiles, the features padded, the two degree
counts), the first TensorCore region and the first row-gather; five operations (the scatter-add of the
gathered rows, a bias reshaped); the second region and the second row-gather; five operations alike; the
third region; and the final slice back to the unpadded rows. Each line touches TensorCore buffers only,
determines its results, and writes none of the six argument arrays.
-/

noncomputable section

namespace Cert.Proof.KI

open Cert.KernelIdeal Cert.KernelIdeal.Gen Idealize.ShloMosaic Idealize.ShloMosaic.StableHlo Idealize.SL.Sem
open Idealize.ShloMosaic.TcCoe

variable {F : FTy → Type} [FloatOps F]

/-- The operations before the first region, in program order: the two rows of the edge list, each extended by
    7680 copies of the node count to a whole number of tiles; the features padded with zero rows (`_pad`: the
    pad value converted, the pad); and, for the sources and then the targets, the index clamped below by zero
    (`clip`: the bound converted, broadcast, the maximum), a negative one wrapped, ones scattered into the padded
    count, converted to float and reshaped to a column. -/
abbrev opsA : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_c (constantI S_ 32 10000#32),
    unary main_c main_v4 (broadcastInDim S7680 ![] bcast_S_S7680 : (⟨S_, .i32⟩ : BufTy).Contents (Elt F) → (⟨S7680, .i32⟩ : BufTy).Contents (Elt F)),
    binary main_v1 main_v4 main_v5 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    reshape main_v5 main_v6 rfl shapeCasts_S327680_S2560x128,
    binary main_v3 main_v4 main_v7 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    nullary main_c_0 (constantI S_ 32 0#32),
    TRef.unary (.of main_c_0 : TRef sig ⟨S_, .i32⟩) main_call0.v0 (sitofp .f32),
    TRef.binary (.of main_arg0 : TRef sig ⟨S10000x128, .f32⟩) main_call0.v0 main_call0.v1 (fun x v => pad S10240x128 ![0, 0] ![240, 0] ![0, 0] x v pads_S10000x128_S10240x128_02400_000 h_S_),
    nullary main_c_1 (constantI S_ 32 0#32),
    unary main_c_1 main_v9 (broadcastInDim S10240 ![] bcast_S_S10240 : (⟨S_, .i32⟩ : BufTy).Contents (Elt F) → (⟨S10240, .i32⟩ : BufTy).Contents (Elt F)),
    nullary main_c_2 (constantI S_ 32 0#32),
    TRef.unary (.of main_c_2 : TRef sig ⟨S_, .i32⟩) main_call1.v0 id,
    TRef.unary main_call1.v0 main_call1.v1 (broadcastInDim S320000 ![] bcast_S_S320000),
    TRef.binary main_call1.v1 (.of main_v1 : TRef sig ⟨S320000, .i32⟩) main_call1.v2 maxsi,
    nullary main_c_3 (constantI S_ 32 0#32),
    unary main_c_3 main_v11 (broadcastInDim S320000 ![] bcast_S_S320000 : (⟨S_, .i32⟩ : BufTy).Contents (Elt F) → (⟨S320000, .i32⟩ : BufTy).Contents (Elt F)),
    binary main_v10 main_v11 main_v12 (cmpi .slt : (⟨S320000, .i32⟩ : BufTy).Contents (Elt F) → (⟨S320000, .i32⟩ : BufTy).Contents (Elt F) → (⟨S320000, .i1⟩ : BufTy).Contents (Elt F)),
    nullary main_c_4 (constantI S_ 32 10240#32),
    unary main_c_4 main_v13 (broadcastInDim S320000 ![] bcast_S_S320000 : (⟨S_, .i32⟩ : BufTy).Contents (Elt F) → (⟨S320000, .i32⟩ : BufTy).Contents (Elt F)),
    binary main_v10 main_v13 main_v14 (addi : (⟨S320000, .i32⟩ : BufTy).Contents (Elt F) → (⟨S320000, .i32⟩ : BufTy).Contents (Elt F) → (⟨S320000, .i32⟩ : BufTy).Contents (Elt F)),
    ternary main_v12 main_v14 main_v10 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v15 main_v16 (broadcastInDim S320000x1 ![0] bcast_S320000_S320000x1_0 : (⟨S320000, .i32⟩ : BufTy).Contents (Elt F) → (⟨S320000x1, .i32⟩ : BufTy).Contents (Elt F)),
    nullary main_c_5 (constantI S_ 32 1#32),
    unary main_c_5 main_v17 (broadcastInDim S320000 ![] bcast_S_S320000 : (⟨S_, .i32⟩ : BufTy).Contents (Elt F) → (⟨S320000, .i32⟩ : BufTy).Contents (Elt F)),
    ternary main_v9 main_v16 main_v17 main_v18 ((fun x i u => Host.scatter scatter_S10240_S320000x1_S320000_n_0_0_1 IntOp.addi x i u) : (⟨S10240, .i32⟩ : BufTy).Contents (Elt F) → (⟨S320000x1, .i32⟩ : BufTy).Contents (Elt F) → (⟨S320000, .i32⟩ : BufTy).Contents (Elt F) → (⟨S10240, .i32⟩ : BufTy).Contents (Elt F)),
    unary main_v18 main_v19 (sitofp .f32 : (⟨S10240, .i32⟩ : BufTy).Contents (Elt F) → (⟨S10240, .f32⟩ : BufTy).Contents (Elt F)),
    reshape main_v19 main_v20 rfl shapeCasts_S10240_S10240x1,
    nullary main_c_6 (constantI S_ 32 0#32),
    unary main_c_6 main_v21 (broadcastInDim S10240 ![] bcast_S_S10240 : (⟨S_, .i32⟩ : BufTy).Contents (Elt F) → (⟨S10240, .i32⟩ : BufTy).Contents (Elt F)),
    nullary main_c_7 (constantI S_ 32 0#32),
    TRef.unary (.of main_c_7 : TRef sig ⟨S_, .i32⟩) main_call2.v0 id,
    TRef.unary main_call2.v0 main_call2.v1 (broadcastInDim S320000 ![] bcast_S_S320000),
    TRef.binary main_call2.v1 (.of main_v3 : TRef sig ⟨S320000, .i32⟩) main_call2.v2 maxsi,
    nullary main_c_8 (constantI S_ 32 0#32),
    unary main_c_8 main_v23 (broadcastInDim S320000 ![] bcast_S_S320000 : (⟨S_, .i32⟩ : BufTy).Contents (Elt F) → (⟨S320000, .i32⟩ : BufTy).Contents (Elt F)),
    binary main_v22 main_v23 main_v24 (cmpi .slt : (⟨S320000, .i32⟩ : BufTy).Contents (Elt F) → (⟨S320000, .i32⟩ : BufTy).Contents (Elt F) → (⟨S320000, .i1⟩ : BufTy).Contents (Elt F)),
    nullary main_c_9 (constantI S_ 32 10240#32),
    unary main_c_9 main_v25 (broadcastInDim S320000 ![] bcast_S_S320000 : (⟨S_, .i32⟩ : BufTy).Contents (Elt F) → (⟨S320000, .i32⟩ : BufTy).Contents (Elt F)),
    binary main_v22 main_v25 main_v26 (addi : (⟨S320000, .i32⟩ : BufTy).Contents (Elt F) → (⟨S320000, .i32⟩ : BufTy).Contents (Elt F) → (⟨S320000, .i32⟩ : BufTy).Contents (Elt F)),
    ternary main_v24 main_v26 main_v22 main_v27 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v27 main_v28 (broadcastInDim S320000x1 ![0] bcast_S320000_S320000x1_0 : (⟨S320000, .i32⟩ : BufTy).Contents (Elt F) → (⟨S320000x1, .i32⟩ : BufTy).Contents (Elt F)),
    nullary main_c_10 (constantI S_ 32 1#32),
    unary main_c_10 main_v29 (broadcastInDim S320000 ![] bcast_S_S320000 : (⟨S_, .i32⟩ : BufTy).Contents (Elt F) → (⟨S320000, .i32⟩ : BufTy).Contents (Elt F)),
    ternary main_v21 main_v28 main_v29 main_v30 ((fun x i u => Host.scatter scatter_S10240_S320000x1_S320000_n_0_0_1 IntOp.addi x i u) : (⟨S10240, .i32⟩ : BufTy).Contents (Elt F) → (⟨S320000x1, .i32⟩ : BufTy).Contents (Elt F) → (⟨S320000, .i32⟩ : BufTy).Contents (Elt F) → (⟨S10240, .i32⟩ : BufTy).Contents (Elt F)),
    unary main_v30 main_v31 (sitofp .f32 : (⟨S10240, .i32⟩ : BufTy).Contents (Elt F) → (⟨S10240, .f32⟩ : BufTy).Contents (Elt F)),
    reshape main_v31 main_v32 rfl shapeCasts_S10240_S10240x1 ]

/-- Between the first row-gather and the second region: a zero array, the padded targets as index
    column, the gathered rows summed into it, and the first bias as a row. -/
abbrev opsB : List (HloOp τ sig (Elt F)) :=
  [ nullary main_cst (constant S_ .f32 0x00000000#32),
    unary main_cst main_v35 (broadcastInDim S10240x128 ![] bcast_S_S10240x128 : (⟨S_, .f32⟩ : BufTy).Contents (Elt F) → (⟨S10240x128, .f32⟩ : BufTy).Contents (Elt F)),
    unary main_v7 main_v36 (broadcastInDim S327680x1 ![0] bcast_S327680_S327680x1_0 : (⟨S327680, .i32⟩ : BufTy).Contents (Elt F) → (⟨S327680x1, .i32⟩ : BufTy).Contents (Elt F)),
    ternary main_v35 main_v36 main_v34 main_v37 ((fun x i u => Host.scatterAdd scatter_S10240x128_S327680x1_S327680x128_1_0_0_1 x i u) : (⟨S10240x128, .f32⟩ : BufTy).Contents (Elt F) → (⟨S327680x1, .i32⟩ : BufTy).Contents (Elt F) → (⟨S327680x128, .f32⟩ : BufTy).Contents (Elt F) → (⟨S10240x128, .f32⟩ : BufTy).Contents (Elt F)),
    reshape main_arg3 main_v38 rfl shapeCasts_S128_S1x128 ]

/-- Between the second row-gather and the third region: the same four for the second layer, and the second
    bias as a row. -/
abbrev opsC : List (HloOp τ sig (Elt F)) :=
  [ nullary main_cst_11 (constant S_ .f32 0x00000000#32),
    unary main_cst_11 main_v41 (broadcastInDim S10240x128 ![] bcast_S_S10240x128 : (⟨S_, .f32⟩ : BufTy).Contents (Elt F) → (⟨S10240x128, .f32⟩ : BufTy).Contents (Elt F)),
    unary main_v7 main_v42 (broadcastInDim S327680x1 ![0] bcast_S327680_S327680x1_0 : (⟨S327680, .i32⟩ : BufTy).Contents (Elt F) → (⟨S327680x1, .i32⟩ : BufTy).Contents (Elt F)),
    ternary main_v41 main_v42 main_v40 main_v43 ((fun x i u => Host.scatterAdd scatter_S10240x128_S327680x1_S327680x128_1_0_0_1 x i u) : (⟨S10240x128, .f32⟩ : BufTy).Contents (Elt F) → (⟨S327680x1, .i32⟩ : BufTy).Contents (Elt F) → (⟨S327680x128, .f32⟩ : BufTy).Contents (Elt F) → (⟨S10240x128, .f32⟩ : BufTy).Contents (Elt F)),
    reshape main_arg5 main_v44 rfl shapeCasts_S128_S1x128 ]

/-- After the third region: the first 10000 rows of its result. -/
abbrev opsD : List (HloOp τ sig (Elt F)) :=
  [ unary main_v45 main_v46 ((extractStridedSlice S10000x128 ![0, 0] · slices_S10240x128_S10000x128_0_0) : (⟨S10240x128, .f32⟩ : BufTy).Contents (Elt F) → (⟨S10000x128, .f32⟩ : BufTy).Contents (Elt F)) ]

set_option maxRecDepth 16384 in
set_option maxHeartbeats 4000000 in
/-- @main is those four lines around the three regions and the two row-gathers: with the two windows and the
    functions' bodies unfolded at their calls, both sides are one chain of steps once sequencing is
    reassociated to the right and the callees' returns are dropped. -/
theorem main_eq (d : Dev nD) : main (F := F) d = ((do
      seq opsA
      Prog.lift (.customCall (SparseCore.inner (Pipeline.entry 0)) ())
      sc.run d 0
      seq opsB
      Prog.lift (.customCall (SparseCore.inner (Pipeline.entry 1)) ())
      sc.run d 1
      seq opsC
      Prog.lift (.customCall (SparseCore.inner (Pipeline.entry 2)) ())
      seq opsD) : Prog (TpuEff nD τ sig (Elt F) (SparseCore.Sig (Pipeline.Sig Λ₀ (Fin 3) fun p => (pcfgs (F := F) p).Adm) 2) .tc) PUnit) := by
  simp only [main, main_part0, main_part1, fn_pad.body, fn_clip.body, seq, bind_assoc, pure_bind]

/-! ## What each line touches, and what it leaves

Every operation's operands and result are TensorCore references; every operation determines its results (none
allocates a buffer of unspecified contents); and no operation's result buffer is an argument's, so the fold of
each line leaves the six argument arrays at their contents (at each operation the argument's reference differs
from the result's, a decidable comparison). -/

set_option maxRecDepth 8192 in
theorem opsA_forall : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., reshape_bufs_sub .., binary_bufs_sub .., nullary_bufs_sub .., unary_bufs_sub .., binary_bufs_sub ..,
    nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., unary_bufs_sub ..,
    reshape_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    unary_bufs_sub .., reshape_bufs_sub ..⟩

theorem opsA_sub : ∀ op ∈ (opsA : List (HloOp τ sig (Elt F))), op.bufs ⊆ tcRefs τ sig :=
  List.forall_iff_forall_mem.1 opsA_forall

set_option maxRecDepth 8192 in
set_option maxHeartbeats 2000000 in
theorem opsA_fresh : ∀ op ∈ (opsA : List (HloOp τ sig (Elt F))), op.fresh = ∅ := by
  intro _ h; (repeat (cases h with | head => rfl | tail _ h => ?_)); exact nomatch h

set_option maxRecDepth 8192 in
set_option maxHeartbeats 2000000 in
theorem opsA_arg0 (V : Valuation τ sig (Elt F)) :
    after opsA V (main_arg0 : DevRef τ sig) = V (main_arg0 : DevRef τ sig) := by
  after_results_simp

set_option maxRecDepth 8192 in
set_option maxHeartbeats 2000000 in
theorem opsA_arg1 (V : Valuation τ sig (Elt F)) :
    after opsA V (main_arg1 : DevRef τ sig) = V (main_arg1 : DevRef τ sig) := by
  after_results_simp

set_option maxRecDepth 8192 in
set_option maxHeartbeats 2000000 in
theorem opsA_arg2 (V : Valuation τ sig (Elt F)) :
    after opsA V (main_arg2 : DevRef τ sig) = V (main_arg2 : DevRef τ sig) := by
  after_results_simp

set_option maxRecDepth 8192 in
set_option maxHeartbeats 2000000 in
theorem opsA_arg3 (V : Valuation τ sig (Elt F)) :
    after opsA V (main_arg3 : DevRef τ sig) = V (main_arg3 : DevRef τ sig) := by
  after_results_simp

set_option maxRecDepth 8192 in
set_option maxHeartbeats 2000000 in
theorem opsA_arg4 (V : Valuation τ sig (Elt F)) :
    after opsA V (main_arg4 : DevRef τ sig) = V (main_arg4 : DevRef τ sig) := by
  after_results_simp

set_option maxRecDepth 8192 in
set_option maxHeartbeats 2000000 in
theorem opsA_arg5 (V : Valuation τ sig (Elt F)) :
    after opsA V (main_arg5 : DevRef τ sig) = V (main_arg5 : DevRef τ sig) := by
  after_results_simp

set_option maxRecDepth 8192 in
theorem opsB_forall : (opsB : List (HloOp τ sig (Elt F))).Forall fun op => op.bufs ⊆ tcRefs τ sig :=
  ⟨nullary_bufs_sub .., unary_bufs_sub .., unary_bufs_sub .., ternary_bufs_sub .., reshape_bufs_sub ..⟩

theorem opsB_sub : ∀ op ∈ (opsB : List (HloOp τ sig (Elt F))), op.bufs ⊆ tcRefs τ sig :=
  List.forall_iff_forall_mem.1 opsB_forall

set_option maxRecDepth 8192 in
set_option maxHeartbeats 2000000 in
theorem opsB_fresh : ∀ op ∈ (opsB : List (HloOp τ sig (Elt F))), op.fresh = ∅ := by
  intro _ h; (repeat (cases h with | head => rfl | tail _ h => ?_)); exact nomatch h

set_option maxRecDepth 8192 in
set_option maxHeartbeats 2000000 in
theorem opsB_arg0 (V : Valuation τ sig (Elt F)) :
    after opsB V (main_arg0 : DevRef τ sig) = V (main_arg0 : DevRef τ sig) := by
  after_results_simp

set_option maxRecDepth 8192 in
set_option maxHeartbeats 2000000 in
theorem opsB_arg1 (V : Valuation τ sig (Elt F)) :
    after opsB V (main_arg1 : DevRef τ sig) = V (main_arg1 : DevRef τ sig) := by
  after_results_simp

set_option maxRecDepth 8192 in
set_option maxHeartbeats 2000000 in
theorem opsB_arg2 (V : Valuation τ sig (Elt F)) :
    after opsB V (main_arg2 : DevRef τ sig) = V (main_arg2 : DevRef τ sig) := by
  after_results_simp

set_option maxRecDepth 8192 in
set_option maxHeartbeats 2000000 in
theorem opsB_arg3 (V : Valuation τ sig (Elt F)) :
    after opsB V (main_arg3 : DevRef τ sig) = V (main_arg3 : DevRef τ sig) := by
  after_results_simp

set_option maxRecDepth 8192 in
set_option maxHeartbeats 2000000 in
theorem opsB_arg4 (V : Valuation τ sig (Elt F)) :
    after opsB V (main_arg4 : DevRef τ sig) = V (main_arg4 : DevRef τ sig) := by
  after_results_simp

set_option maxRecDepth 8192 in
set_option maxHeartbeats 2000000 in
theorem opsB_arg5 (V : Valuation τ sig (Elt F)) :
    after opsB V (main_arg5 : DevRef τ sig) = V (main_arg5 : DevRef τ sig) := by
  after_results_simp

set_option maxRecDepth 8192 in
theorem opsC_forall : (opsC : List (HloOp τ sig (Elt F))).Forall fun op => op.bufs ⊆ tcRefs τ sig :=
  ⟨nullary_bufs_sub .., unary_bufs_sub .., unary_bufs_sub .., ternary_bufs_sub .., reshape_bufs_sub ..⟩

theorem opsC_sub : ∀ op ∈ (opsC : List (HloOp τ sig (Elt F))), op.bufs ⊆ tcRefs τ sig :=
  List.forall_iff_forall_mem.1 opsC_forall

set_option maxRecDepth 8192 in
set_option maxHeartbeats 2000000 in
theorem opsC_fresh : ∀ op ∈ (opsC : List (HloOp τ sig (Elt F))), op.fresh = ∅ := by
  intro _ h; (repeat (cases h with | head => rfl | tail _ h => ?_)); exact nomatch h

set_option maxRecDepth 8192 in
set_option maxHeartbeats 2000000 in
theorem opsC_arg0 (V : Valuation τ sig (Elt F)) :
    after opsC V (main_arg0 : DevRef τ sig) = V (main_arg0 : DevRef τ sig) := by
  after_results_simp

set_option maxRecDepth 8192 in
set_option maxHeartbeats 2000000 in
theorem opsC_arg1 (V : Valuation τ sig (Elt F)) :
    after opsC V (main_arg1 : DevRef τ sig) = V (main_arg1 : DevRef τ sig) := by
  after_results_simp

set_option maxRecDepth 8192 in
set_option maxHeartbeats 2000000 in
theorem opsC_arg2 (V : Valuation τ sig (Elt F)) :
    after opsC V (main_arg2 : DevRef τ sig) = V (main_arg2 : DevRef τ sig) := by
  after_results_simp

set_option maxRecDepth 8192 in
set_option maxHeartbeats 2000000 in
theorem opsC_arg3 (V : Valuation τ sig (Elt F)) :
    after opsC V (main_arg3 : DevRef τ sig) = V (main_arg3 : DevRef τ sig) := by
  after_results_simp

set_option maxRecDepth 8192 in
set_option maxHeartbeats 2000000 in
theorem opsC_arg4 (V : Valuation τ sig (Elt F)) :
    after opsC V (main_arg4 : DevRef τ sig) = V (main_arg4 : DevRef τ sig) := by
  after_results_simp

set_option maxRecDepth 8192 in
set_option maxHeartbeats 2000000 in
theorem opsC_arg5 (V : Valuation τ sig (Elt F)) :
    after opsC V (main_arg5 : DevRef τ sig) = V (main_arg5 : DevRef τ sig) := by
  after_results_simp

set_option maxRecDepth 8192 in
theorem opsD_forall : (opsD : List (HloOp τ sig (Elt F))).Forall fun op => op.bufs ⊆ tcRefs τ sig :=
  unary_bufs_sub ..

theorem opsD_sub : ∀ op ∈ (opsD : List (HloOp τ sig (Elt F))), op.bufs ⊆ tcRefs τ sig :=
  List.forall_iff_forall_mem.1 opsD_forall

set_option maxRecDepth 8192 in
set_option maxHeartbeats 2000000 in
theorem opsD_fresh : ∀ op ∈ (opsD : List (HloOp τ sig (Elt F))), op.fresh = ∅ := by
  intro _ h; (repeat (cases h with | head => rfl | tail _ h => ?_)); exact nomatch h

set_option maxRecDepth 8192 in
set_option maxHeartbeats 2000000 in
theorem opsD_arg0 (V : Valuation τ sig (Elt F)) :
    after opsD V (main_arg0 : DevRef τ sig) = V (main_arg0 : DevRef τ sig) := by
  after_results_simp

set_option maxRecDepth 8192 in
set_option maxHeartbeats 2000000 in
theorem opsD_arg1 (V : Valuation τ sig (Elt F)) :
    after opsD V (main_arg1 : DevRef τ sig) = V (main_arg1 : DevRef τ sig) := by
  after_results_simp

set_option maxRecDepth 8192 in
set_option maxHeartbeats 2000000 in
theorem opsD_arg2 (V : Valuation τ sig (Elt F)) :
    after opsD V (main_arg2 : DevRef τ sig) = V (main_arg2 : DevRef τ sig) := by
  after_results_simp

set_option maxRecDepth 8192 in
set_option maxHeartbeats 2000000 in
theorem opsD_arg3 (V : Valuation τ sig (Elt F)) :
    after opsD V (main_arg3 : DevRef τ sig) = V (main_arg3 : DevRef τ sig) := by
  after_results_simp

set_option maxRecDepth 8192 in
set_option maxHeartbeats 2000000 in
theorem opsD_arg4 (V : Valuation τ sig (Elt F)) :
    after opsD V (main_arg4 : DevRef τ sig) = V (main_arg4 : DevRef τ sig) := by
  after_results_simp

set_option maxRecDepth 8192 in
set_option maxHeartbeats 2000000 in
theorem opsD_arg5 (V : Valuation τ sig (Elt F)) :
    after opsD V (main_arg5 : DevRef τ sig) = V (main_arg5 : DevRef τ sig) := by
  after_results_simp

end Cert.Proof.KI

end
-- ==== Proof.ChainI.lean ====
/-
  The contents of every TensorCore buffer at each boundary of @main — between host stretches, kernel regions and gather
  calls —, as a fold from the launch memory; and the two gather calls' handshake payloads along that fold.
-/
import proofs.«207928_g75127567942135_cont_9to1c4b_313_20_alg».proof.Proof.CallI
import proofs.«207928_g75127567942135_cont_9to1c4b_313_20_alg».proof.Proof.RegionReadI
import proofs.«207928_g75127567942135_cont_9to1c4b_313_20_alg».proof.Proof.MainShapeI

noncomputable section

namespace Cert.Proof.KI

open Cert.KernelIdeal Cert.KernelIdeal.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)
  (g0 : (d : Dev nD) → Buf (Elt F) (oLoc0 d)) (g1 : (d : Dev nD) → Buf (Elt F) (oLoc1 d))

/-! ## The buffers' contents at each boundary of @main -/

/-- At launch; -/
abbrev Wa : Dev nD → Valuation τ sig (Elt F) := fun d b => m (d, b)
/-- after the first host stretch (the first region's entry); -/
abbrev Wb : Dev nD → Valuation τ sig (Elt F) := fun d => after opsA (Wa m d)
/-- after the first region (the scaled features written); -/
abbrev Wc : Dev nD → Valuation τ sig (Elt F) := fun d => Wx0 (Wb m) d
/-- after the first gather call (its output at `g0`); -/
abbrev Wd : Dev nD → Valuation τ sig (Elt F) := fun d => Function.update (Wc m d) o0' (g0 d)
/-- after the second host stretch (the second region's entry); -/
abbrev We : Dev nD → Valuation τ sig (Elt F) := fun d => after opsB (Wd m g0 d)
/-- after the second region (the hidden layer written); -/
abbrev Wf : Dev nD → Valuation τ sig (Elt F) := fun d => Wx2 (We m g0) d
/-- after the second gather call; -/
abbrev Wg : Dev nD → Valuation τ sig (Elt F) := fun d => Function.update (Wf m g0 d) o1' (g1 d)
/-- after the third host stretch (the third region's entry); -/
abbrev Wh : Dev nD → Valuation τ sig (Elt F) := fun d => after opsC (Wg m g0 g1 d)
/-- after the third region; -/
abbrev Wi : Dev nD → Valuation τ sig (Elt F) := fun d => Wx4 (Wh m g0 g1) d
/-- at the return. -/
abbrev Wj : Dev nD → Valuation τ sig (Elt F) := fun d => after opsD (Wi m g0 g1 d)

/-- The handshakes' payloads along that fold: each call's tables and output as the call finds them, its output at `g0` / `g1` after. -/
abbrev PP : (K (F := F)).Pay (nD := nD) (Val := Elt F) (Name := ℕ) (U := UU) :=
  P (fun d => Wc m d h0') (fun d => Wf m g0 d h1') (fun d => Wc m d s') (fun d => Wc m d o0') g0 (fun d => Wf m g0 d o1') g1

/-- What @main leaves: every unscoped buffer at the last contents. -/
abbrev FIN (d : Dev nD) : sProp 𝕄 := held (SparseCore.T d) (Pipeline.ucRefs τ sig) (Wj m g0 g1 d)

end Cert.Proof.KI

end
-- ==== Proof.RegionStepI.lean ====
/-
  Entering a TensorCore kernel region from @main of a program that also has SparseCore calls: the region's
  `customCall` is the inner program's lifted to the extended body table, so the pipeline library's region rule,
  stated under the inner table, applies through the lifting.
-/
import proofs.«207928_g75127567942135_cont_9to1c4b_313_20_alg».proof.Proof.LaunchI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (pdats : (p : Fin 3) → (c : Dev nD) → Pipeline.Dat τ (Elt F) (HIx 2) ℕ UU ℕ (Pipeline.pin (pcfgs (F := F)) adm p) c)

set_option maxHeartbeats 1000000 in
/-- A region under the inner body table: the pipeline library's rule with nothing after the region. -/
theorem region_inner {p : Fin 3} (R : Pipeline.RegionSeg (pcfgs (F := F)) adm pdats (none : HIx 2) defs₀ 𝒱₀ (K (F := F)).L (K (F := F)).lev p) (d : Dev nD)
    (Φ : PUnit.{1} → sProp 𝕄) :
    iprop((iprop(boundary (SparseCore.T d) ∗ R.post d) -∗ Φ PUnit.unit)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) 𝒱₀.lift (SparseCore.T d) none) Set.univ
          (Prog.op (TpuEff.customCall (Pipeline.entry p) ()) fun _ => Prog.ret PUnit.unit) Φ := by
  have h := Pipeline.RegionSeg.wp (pcfgs (F := F)) adm pdats (none : HIx 2) cellOf_inj EP defs₀ 𝒱₀ (K (F := F)).L (K (F := F)).lev R d none
    (fun u hu => nomatch hu) (fun _ => .ret PUnit.unit) Φ
  have hpre : iprop((iprop(boundary (SparseCore.T d) ∗ R.post d) -∗ Φ PUnit.unit)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ iprop((iprop(boundary (SparseCore.T d) ∗ R.post d) -∗ wp frame (wpE (Pipeline.defs (pcfgs (F := F)) defs₀) 𝒱₀.lift (SparseCore.T d) none) Set.univ
            (Prog.ret PUnit.unit) Φ)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) := by
    iintro ⟨Hk, Hb, Hpre, Hlv, Hg, Ht⟩
    isplitl [Hk]
    · iintro H
      rw [wp_ret]; imodintro
      iapply Hk; iexact H
    isplitl [Hb]; · iexact Hb
    isplitl [Hpre]; · iexact Hpre
    isplitl [Hlv]; · iexact Hlv
    isplitl [Hg]; · iexact Hg
    iexact Ht
  exact hpre.trans h

set_option maxHeartbeats 1000000 in
/-- A region of @main followed by `k`: from the boundary, the region's entry state, the level facts and the pipeline's staging cells'
    ghost state, the region runs to the boundary and its exit state, from which `k` goes on. -/
theorem region_step {p : Fin 3} (R : Pipeline.RegionSeg (pcfgs (F := F)) adm pdats (none : HIx 2) defs₀ 𝒱₀ (K (F := F)).L (K (F := F)).lev p) (d : Dev nD)
    {α : Type} (k : PUnit → Prog (TpuEff nD τ sig (Elt F) (SparseCore.Sig (ΛP (F := F)) 2) .tc) α) (Q : α → sProp 𝕄) :
    iprop((iprop(boundary (SparseCore.T d) ∗ R.post d) -∗ wp frame (wpE ((K (F := F)).defs (D (F := F))) 𝒱 (SparseCore.T d) none) Set.univ (k PUnit.unit) Q)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ()) >>= k) Q := by
  rw [wp_bind]
  change _ ⊢ wp _ _ _ (SparseCore.liftProg (Prog.lift (.customCall (Pipeline.entry p) ()))) _
  refine BI.Entails.trans ?_ ((K (F := F)).wp_liftProg (D (F := F)) 𝒱 (SparseCore.T d) Set.univ none _ _)
  exact region_inner pdats R d (fun a => wp frame (wpE ((K (F := F)).defs (D (F := F))) 𝒱 (SparseCore.T d) none) Set.univ (k a) Q)

end Cert.Proof.KI

end
-- ==== Proof.MainI.lean ====
/-
  @main of the idealized kernel program on a device's TensorCore, inside the launch: the contents of every buffer at
  each boundary between host stretches, kernel regions and gather calls (a fold from the launch memory), and the
  proof that @main runs through them: host stretches by the list rule, each region by the pipeline library's region
  rule through the lifting, each gather call by the handshake rule.
-/
import proofs.«207928_g75127567942135_cont_9to1c4b_313_20_alg».proof.Proof.ChainI
import proofs.«207928_g75127567942135_cont_9to1c4b_313_20_alg».proof.Proof.RegionStepI

noncomputable section

namespace Cert.Proof.KI

open Cert.KernelIdeal Cert.KernelIdeal.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)
  (g0 : (d : Dev nD) → Buf (Elt F) (oLoc0 d)) (g1 : (d : Dev nD) → Buf (Elt F) (oLoc1 d))

/-! ## The TensorCore's handshake state, its debt apart -/

/-- The TensorCore's handshake state before call `n` but what it owes: its position on its `done` cell, the rounds reached, the later calls' start tokens and credit. -/
def tcRestI (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRestI (F := F) d n) := rfl

/-- The three pipelines' staging cells' ghost state, pipeline by pipeline. -/
theorem G_eq (d : Dev nD) :
    (G (F := F) d : sProp 𝕄)
      = iprop((Pipeline.cellsGhost (Pipeline.pin (pcfgs (F := F)) adm) EP 0 d ∗ Pipeline.toksInit (Pipeline.pin (pcfgs (F := F)) adm) EP 0 d)
          ∗ (Pipeline.cellsGhost (Pipeline.pin (pcfgs (F := F)) adm) EP 1 d ∗ Pipeline.toksInit (Pipeline.pin (pcfgs (F := F)) adm) EP 1 d)
          ∗ (Pipeline.cellsGhost (Pipeline.pin (pcfgs (F := F)) adm) EP 2 d ∗ Pipeline.toksInit (Pipeline.pin (pcfgs (F := F)) adm) EP 2 d)) :=
  bigSep_univ_eq_bigSepL [(0 : Fin 3), (1 : Fin 3), (2 : Fin 3)] (by decide) (by decide) _

/-! ## @main -/

/-- The first gather call followed by `k`. -/
theorem call0_bind (κ : GSem nD τ sig → ℕ) (d : Dev nD) {α : Type} (k : PUnit → Prog (TpuEff nD τ sig (Elt F) (SparseCore.Sig (ΛP (F := F)) 2) .tc) α) (Q : α → sProp 𝕄) :
    iprop((K (F := F)).ctx EH (PP m g0 g1) κ ∗ (K (F := F)).tcSt EH d 0 ∗ held (SparseCore.T d) (Pipeline.ucRefs τ sig) (Wc m d)
        ∗ (((K (F := F)).tcSt EH d 1 ∗ held (SparseCore.T d) (Pipeline.ucRefs τ sig) (Wd m g0 d))
            -∗ wp frame (wpE ((K (F := F)).defs (D (F := F))) 𝒱 (SparseCore.T d) none) Set.univ (k PUnit.unit) Q))
      ⊢ wp frame (wpE ((K (F := F)).defs (D (F := F))) 𝒱 (SparseCore.T d) none) Set.univ ((K (F := F)).run d 0 >>= k) Q := by
  rw [wp_bind]
  exact call0 (fun d => Wc m d h0') (fun d => Wf m g0 d h1') (fun d => Wc m d s') (fun d => Wc m d o0') g0 (fun d => Wf m g0 d o1') g1 κ d (Wc m d) rfl rfl rfl
    (Φ := fun a => wp frame (wpE ((K (F := F)).defs (D (F := F))) 𝒱 (SparseCore.T d) none) Set.univ (k a) Q)

set_option maxRecDepth 8192 in
set_option maxHeartbeats 2000000 in
/-- The second host stretch does not write the index table. -/
theorem opsB_v6 (V : Valuation τ sig (Elt F)) : after opsB V s' = V s' := by
  after_results_simp

/-- The index table is the same when the second call reads it: neither the first call's output, nor the second host stretch, nor the second
    region writes it. -/
theorem Wf_s (d : Dev nD) : Wf m g0 d s' = Wc m d s' := by
  show Wx2 (We m g0) d s' = _
  rw [Wx2_v6]
  show after opsB (Wd m g0 d) s' = _
  rw [opsB_v6]
  exact Function.update_of_ne (show s' ≠ o0' by decide) _ _

/-- The second gather call followed by `k`. -/
theorem call1_bind (κ : GSem nD τ sig → ℕ) (d : Dev nD) {α : Type} (k : PUnit → Prog (TpuEff nD τ sig (Elt F) (SparseCore.Sig (ΛP (F := F)) 2) .tc) α) (Q : α → sProp 𝕄) :
    iprop((K (F := F)).ctx EH (PP m g0 g1) κ ∗ (K (F := F)).tcSt EH d 1 ∗ held (SparseCore.T d) (Pipeline.ucRefs τ sig) (Wf m g0 d)
        ∗ (((K (F := F)).tcSt EH d 2 ∗ held (SparseCore.T d) (Pipeline.ucRefs τ sig) (Wg m g0 g1 d))
            -∗ wp frame (wpE ((K (F := F)).defs (D (F := F))) 𝒱 (SparseCore.T d) none) Set.univ (k PUnit.unit) Q))
      ⊢ wp frame (wpE ((K (F := F)).defs (D (F := F))) 𝒱 (SparseCore.T d) none) Set.univ ((K (F := F)).run d 1 >>= k) Q := by
  rw [wp_bind]
  exact call1 (fun d => Wc m d h0') (fun d => Wf m g0 d h1') (fun d => Wc m d s') (fun d => Wc m d o0') g0 (fun d => Wf m g0 d o1') g1 κ d (Wf m g0 d) rfl (Wf_s m g0 d) rfl
    (Φ := fun a => wp frame (wpE ((K (F := F)).defs (D (F := F))) 𝒱 (SparseCore.T d) none) Set.univ (k a) Q)

/-- The last host stretch: nothing follows it. -/
theorem wp_seq_last (d : Dev nD) (ops : List (HloOp τ sig (Elt F))) (hS : ∀ op ∈ ops, op.bufs ⊆ Pipeline.ucRefs τ sig) (hf : ∀ op ∈ ops, op.fresh = ∅)
    (W : Valuation τ sig (Elt F)) (Q : PUnit → sProp 𝕄) :
    iprop(boundary (SparseCore.T d) ∗ held (SparseCore.T d) (Pipeline.ucRefs τ sig) W
        ∗ ((boundary (SparseCore.T d) ∗ held (SparseCore.T d) (Pipeline.ucRefs τ sig) (after ops W)) -∗ |={Set.univ}=> Q PUnit.unit))
      ⊢ wp frame (wpE ((K (F := F)).defs (D (F := F))) 𝒱 (SparseCore.T d) none) Set.univ (seq ops) Q := by
  rw [← bind_pure (seq ops)]
  iintro ⟨Hb, Hheld, Hk⟩
  iapply (wp_seq 𝒱 none Set.univ d (Pipeline.ucRefs τ sig) _ ops hS hf W) $$ [Hb Hheld]
  · isplitl [Hb] <;> iassumption
  iintro H
  rw [wp_pure]
  iapply Hk; iexact H

set_option maxHeartbeats 4000000 in
/-- @main on device `d`'s TensorCore: four host stretches, three regions, two gather calls, in the program's order. -/
theorem hmain (κ : GSem nD τ sig → ℕ) (d : Dev nD) :
    iprop((K (F := F)).ctx EH (PP m g0 g1) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m g0 g1 d) := by
  rw [main_eq, G_eq, tcSt_eq]
  unfold SparseCore.Cfg.tcRes
  rw [show (unscopedBufs d (fun b => m ((SparseCore.T d).loc b)) : sProp 𝕄) = held (SparseCore.T d) (Pipeline.ucRefs τ sig) (Wa m d)
    from Pipeline.unscopedBufs_held d (Wa m d)]
  iintro ⟨#Hctx, ⟨HO, Htr⟩, ⟨Hb, Hheld, -, Hp0⟩, ⟨⟨Hg0, Ht0⟩, ⟨Hg1, Ht1⟩, ⟨Hg2, Ht2⟩⟩⟩
  ihave #Hlv := (SparseCore.Cfg.ctx_levAts κ) $$ Hctx
  ihave Hp := (show (prngReg d (ρ d) : sProp 𝕄) ⊢ iprop(∃ r, prngReg d r) from by iintro H; iexists _; iexact H) $$ Hp0
  -- host stretch opsA
  iapply (wp_seq 𝒱 none Set.univ d (Pipeline.ucRefs τ sig) _ opsA (fun op h => Pipeline.sub_ucRefs op (opsA_sub op h)) opsA_fresh (Wa m d)) $$ [Hb Hheld]
  · isplitl [Hb] <;> iassumption
  iintro ⟨Hb, Hheld⟩
  -- region reg0
  iapply (region_step (pdats (Wb m) (We m g0) (Wh m g0 g1)) (reg0 (Wb m) (We m g0) (Wh m g0 g1)) d _ _)
  isplitr [Hb Hheld Hp HO Hg0 Ht0]
  swap
  · isplitl [Hb]; · iexact Hb
    isplitl [Hheld Hp HO]
    · iapply (show TS 0 (Wb m) d ⊢ ((reg0 (Wb m) (We m g0) (Wh m g0 g1)).pre d : sProp 𝕄) from .rfl)
      unfold TS
      isplitl [Hheld]; · iexact Hheld
      isplitl [Hp]; · iexact Hp
      iexact HO
    isplitr; · iexact Hlv
    isplitl [Hg0]; · iexact Hg0
    iexact Ht0
  iintro ⟨Hb, Hpost⟩
  ihave Hpost' := (show ((reg0 (Wb m) (We m g0) (Wh m g0 g1)).post d : sProp 𝕄) ⊢ TS 0 (Wc m) d from .rfl) $$ Hpost
  unfold TS
  icases Hpost' with ⟨Hheld, Hp, HO⟩
  -- gather call 0
  iapply (call0_bind m g0 g1 κ d _ _)
  isplitr; · iexact Hctx
  isplitl [HO Htr]
  · rw [tcSt_eq]; isplitl [HO]; · iexact HO
    iexact Htr
  isplitl [Hheld]; · iexact Hheld
  iintro ⟨Htc, Hheld⟩
  ihave Htc' := (Entails.of_eq (tcSt_eq (F := F) d 1)) $$ Htc
  icases Htc' with ⟨HO, Htr⟩
  -- host stretch opsB
  iapply (wp_seq 𝒱 none Set.univ d (Pipeline.ucRefs τ sig) _ opsB (fun op h => Pipeline.sub_ucRefs op (opsB_sub op h)) opsB_fresh (Wd m g0 d)) $$ [Hb Hheld]
  · isplitl [Hb] <;> iassumption
  iintro ⟨Hb, Hheld⟩
  -- region reg2
  iapply (region_step (pdats (Wb m) (We m g0) (Wh m g0 g1)) (reg2 (Wb m) (We m g0) (Wh m g0 g1)) d _ _)
  isplitr [Hb Hheld Hp HO Hg1 Ht1]
  swap
  · isplitl [Hb]; · iexact Hb
    isplitl [Hheld Hp HO]
    · iapply (show TS 1 (We m g0) d ⊢ ((reg2 (Wb m) (We m g0) (Wh m g0 g1)).pre d : sProp 𝕄) from .rfl)
      unfold TS
      isplitl [Hheld]; · iexact Hheld
      isplitl [Hp]; · iexact Hp
      iexact HO
    isplitr; · iexact Hlv
    isplitl [Hg1]; · iexact Hg1
    iexact Ht1
  iintro ⟨Hb, Hpost⟩
  ihave Hpost' := (show ((reg2 (Wb m) (We m g0) (Wh m g0 g1)).post d : sProp 𝕄) ⊢ TS 1 (Wf m g0) d from .rfl) $$ Hpost
  unfold TS
  icases Hpost' with ⟨Hheld, Hp, HO⟩
  -- gather call 1
  iapply (call1_bind m g0 g1 κ d _ _)
  isplitr; · iexact Hctx
  isplitl [HO Htr]
  · rw [tcSt_eq]; isplitl [HO]; · iexact HO
    iexact Htr
  isplitl [Hheld]; · iexact Hheld
  iintro ⟨Htc, Hheld⟩
  ihave Htc' := (Entails.of_eq (tcSt_eq (F := F) d 2)) $$ Htc
  icases Htc' with ⟨HO, Htr⟩
  -- host stretch opsC
  iapply (wp_seq 𝒱 none Set.univ d (Pipeline.ucRefs τ sig) _ opsC (fun op h => Pipeline.sub_ucRefs op (opsC_sub op h)) opsC_fresh (Wg m g0 g1 d)) $$ [Hb Hheld]
  · isplitl [Hb] <;> iassumption
  iintro ⟨Hb, Hheld⟩
  -- region reg4
  iapply (region_step (pdats (Wb m) (We m g0) (Wh m g0 g1)) (reg4 (Wb m) (We m g0) (Wh m g0 g1)) d _ _)
  isplitr [Hb Hheld Hp HO Hg2 Ht2]
  swap
  · isplitl [Hb]; · iexact Hb
    isplitl [Hheld Hp HO]
    · iapply (show TS 2 (Wh m g0 g1) d ⊢ ((reg4 (Wb m) (We m g0) (Wh m g0 g1)).pre d : sProp 𝕄) from .rfl)
      unfold TS
      isplitl [Hheld]; · iexact Hheld
      isplitl [Hp]; · iexact Hp
      iexact HO
    isplitr; · iexact Hlv
    isplitl [Hg2]; · iexact Hg2
    iexact Ht2
  iintro ⟨Hb, Hpost⟩
  ihave Hpost' := (show ((reg4 (Wb m) (We m g0) (Wh m g0 g1)).post d : sProp 𝕄) ⊢ TS 2 (Wi m g0 g1) d from .rfl) $$ Hpost
  unfold TS
  icases Hpost' with ⟨Hheld, Hp, HO⟩
  -- the last host stretch
  iapply (wp_seq_last d opsD (fun op h => Pipeline.sub_ucRefs op (opsD_sub op h)) opsD_fresh (Wi m g0 g1 d) _)
  isplitl [Hb]; · iexact Hb
  isplitl [Hheld]; · iexact Hheld
  iintro ⟨-, Hheld⟩
  imodintro
  isplitl [HO Htr]
  · rw [tcSt_eq]; isplitl [HO]; · iexact HO
    iexact Htr
  iexact Hheld

end Cert.Proof.KI

end
-- ==== Proof.RunI.lean ====
/-
  The run of the idealized kernel program's threads, from the launch theorem: every weakly fair execution ends, nothing
  faulting, with every TensorCore buffer at the last contents of the fold through @main — in particular the six
  argument arrays as launched (the frame) and the result at the fold's value there.
-/
import proofs.«207928_g75127567942135_cont_9to1c4b_313_20_alg».proof.Proof.MainI

noncomputable section

namespace Cert.Proof.KI

open Cert.KernelIdeal Cert.KernelIdeal.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)
  (g0 : (d : Dev nD) → Buf (Elt F) (oLoc0 d)) (g1 : (d : Dev nD) → Buf (Elt F) (oLoc1 d))

/-! ## The arguments through the fold: no host operation, region or call writes one -/

theorem Wj_arg0 (d : Dev nD) : Wj m g0 g1 d (Proc.devRef .tc main_arg0) = m ((SparseCore.T d).loc main_arg0) := by
  unfold Wj Wi Wh Wg Wf We Wd Wc Wb Wa
  rw [opsD_arg0, Wx4_arg0, opsC_arg0, Function.update_of_ne (show (Proc.devRef .tc main_arg0 : DevRef τ sig) ≠ o1' by decide),
    Wx2_arg0, opsB_arg0, Function.update_of_ne (show (Proc.devRef .tc main_arg0 : DevRef τ sig) ≠ o0' by decide), Wx0_arg0, opsA_arg0]

theorem Wj_arg1 (d : Dev nD) : Wj m g0 g1 d (Proc.devRef .tc main_arg1) = m ((SparseCore.T d).loc main_arg1) := by
  unfold Wj Wi Wh Wg Wf We Wd Wc Wb Wa
  rw [opsD_arg1, Wx4_arg1, opsC_arg1, Function.update_of_ne (show (Proc.devRef .tc main_arg1 : DevRef τ sig) ≠ o1' by decide),
    Wx2_arg1, opsB_arg1, Function.update_of_ne (show (Proc.devRef .tc main_arg1 : DevRef τ sig) ≠ o0' by decide), Wx0_arg1, opsA_arg1]

theorem Wj_arg2 (d : Dev nD) : Wj m g0 g1 d (Proc.devRef .tc main_arg2) = m ((SparseCore.T d).loc main_arg2) := by
  unfold Wj Wi Wh Wg Wf We Wd Wc Wb Wa
  rw [opsD_arg2, Wx4_arg2, opsC_arg2, Function.update_of_ne (show (Proc.devRef .tc main_arg2 : DevRef τ sig) ≠ o1' by decide),
    Wx2_arg2, opsB_arg2, Function.update_of_ne (show (Proc.devRef .tc main_arg2 : DevRef τ sig) ≠ o0' by decide), Wx0_arg2, opsA_arg2]

theorem Wj_arg3 (d : Dev nD) : Wj m g0 g1 d (Proc.devRef .tc main_arg3) = m ((SparseCore.T d).loc main_arg3) := by
  unfold Wj Wi Wh Wg Wf We Wd Wc Wb Wa
  rw [opsD_arg3, Wx4_arg3, opsC_arg3, Function.update_of_ne (show (Proc.devRef .tc main_arg3 : DevRef τ sig) ≠ o1' by decide),
    Wx2_arg3, opsB_arg3, Function.update_of_ne (show (Proc.devRef .tc main_arg3 : DevRef τ sig) ≠ o0' by decide), Wx0_arg3, opsA_arg3]

theorem Wj_arg4 (d : Dev nD) : Wj m g0 g1 d (Proc.devRef .tc main_arg4) = m ((SparseCore.T d).loc main_arg4) := by
  unfold Wj Wi Wh Wg Wf We Wd Wc Wb Wa
  rw [opsD_arg4, Wx4_arg4, opsC_arg4, Function.update_of_ne (show (Proc.devRef .tc main_arg4 : DevRef τ sig) ≠ o1' by decide),
    Wx2_arg4, opsB_arg4, Function.update_of_ne (show (Proc.devRef .tc main_arg4 : DevRef τ sig) ≠ o0' by decide), Wx0_arg4, opsA_arg4]

theorem Wj_arg5 (d : Dev nD) : Wj m g0 g1 d (Proc.devRef .tc main_arg5) = m ((SparseCore.T d).loc main_arg5) := by
  unfold Wj Wi Wh Wg Wf We Wd Wc Wb Wa
  rw [opsD_arg5, Wx4_arg5, opsC_arg5, Function.update_of_ne (show (Proc.devRef .tc main_arg5 : DevRef τ sig) ≠ o1' by decide),
    Wx2_arg5, opsB_arg5, Function.update_of_ne (show (Proc.devRef .tc main_arg5 : DevRef τ sig) ≠ o0' by decide), Wx0_arg5, opsA_arg5]

/-! ## Reading the final memory -/

/-- Every unscoped TensorCore buffer of the final state holds the fold's last contents. -/
abbrev fq (d : Dev nD) (s' : Phys nD τ sig (Elt F)) : Prop := ∀ b ∈ Pipeline.ucRefs τ sig, s'.mem.mem ((d, b) : Loc nD τ sig) = Wj m g0 g1 d b

theorem hfin (d : Dev nD) (s' : Phys nD τ sig (Elt F)) : iprop(FIN m g0 g1 d ∗ SI s') ⊢ (⌜fq m g0 g1 d s'⌝ : sProp 𝕄) := by
  show iprop((bigSep (Pipeline.ucRefs τ sig) fun b => (((d, b) : Loc nD τ sig) ↦{fullShare} Wj m g0 g1 d b : sProp 𝕄)) ∗ SI s') ⊢ _
  iintro ⟨Hh, HSI⟩
  ihave H := (pointsTo_read_all (Pipeline.ucRefs τ sig) (fun b => ((d, b) : Loc nD τ sig)) (Wj m g0 g1 d) s') $$ [Hh HSI]
  · isplitl [Hh] <;> iassumption
  icases H with ⟨%h, -⟩
  ipureintro; exact h

/-- The run's post: on every device every unscoped TensorCore buffer at the fold's last contents. -/
abbrev QC : PUnit × MemSt nD τ sig (Elt F) → Prop := fun r => ∀ (d : Dev nD), ∀ b ∈ Pipeline.ucRefs τ sig, r.2.mem ((d, b) : Loc nD τ sig) = Wj m g0 g1 d b

/-! ## The run -/

/-- From the two gather kernels' task obligations (at the payloads along the fold): every weakly fair execution of all the device's threads
    terminates, nothing faulting, in a state satisfying `QC`. -/
theorem run_main
    (htile0 : (K (F := F)).TileObl (D (F := F)) 𝒱 (PP m g0 g1) v₀ 0) (htile1 : (K (F := F)).TileObl (D (F := F)) 𝒱 (PP m g0 g1) v₀ 1) :
    θ_run (Cert.KernelIdeal.defs (F := F)) (Cert.KernelIdeal.threads (F := F)) ⟨m, fun _ => 0, ρ⟩ (QC m g0 g1) :=
  SparseCore.Cfg.θ_run_sc (K := K (F := F)) (D := D (F := F)) (𝒱 := 𝒱) (EH := EH) (P := PP m g0 g1) facts v₀
    (fun q hq => match q with | 0 => nomatch hq | 1 => nomatch hq)
    (fun q _ => match q with | 0 => htile0 | 1 => htile1)
    (fun q _ => match q with
      | 0 => SparseCore.Cfg.VecSplit.of_plain (vecSplit0 _ _ _ _ _ _ _)
      | 1 => SparseCore.Cfg.VecSplit.of_plain (vecSplit1 _ _ _ _ _ _ _))
    m ρ main (fun d => G (F := F) d) (FIN m g0 g1) (u₀ (F := F)) (sep_elim_left.trans (hu₀ _ _ _ _ _ _ _)) (hmain m ρ g0 g1) (fq m g0 g1) (hfin m g0 g1) (QC m g0 g1)
    (fun s' h d b hb => h d b hb)

/-- The frame: the six argument arrays end as launched. -/
theorem frame_of_run (r : PUnit × MemSt nD τ sig (Elt F)) (h : QC m g0 g1 r) (d : Dev nD) :
    r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_arg5) = m ((SparseCore.T d).loc main_arg5) :=
  ⟨(h d (Proc.devRef .tc main_arg0) (by decide)).trans (Wj_arg0 m g0 g1 d), (h d (Proc.devRef .tc main_arg1) (by decide)).trans (Wj_arg1 m g0 g1 d), (h d (Proc.devRef .tc main_arg2) (by decide)).trans (Wj_arg2 m g0 g1 d),
    (h d (Proc.devRef .tc main_arg3) (by decide)).trans (Wj_arg3 m g0 g1 d), (h d (Proc.devRef .tc main_arg4) (by decide)).trans (Wj_arg4 m g0 g1 d), (h d (Proc.devRef .tc main_arg5) (by decide)).trans (Wj_arg5 m g0 g1 d)⟩

end Cert.Proof.KI

end
-- ==== Proof.GatherSpecI.lean ====
/-
  The gather calls' specification: output row `e` is the table's row whose index the index table holds at `(e / 128, e % 128)`.
-/
import Idealize.ShloMosaic.PureOps
import Idealize.ShloMosaic.Lib.ValueIdx
import proofs.«207928_g75127567942135_cont_9to1c4b_313_20_alg».proof.KernelIdeal

noncomputable section

namespace Cert.Proof.KI

open Cert.KernelIdeal
open Idealize.ShloMosaic Idealize.ShloMosaic.ValueIdx

variable {F : FTy → Type}

/-- Row `e` of the result is row `fs[e / 128, e % 128]` of `fh` (an index past the table read modulo its height, so that the function is total:
    under the certificate's precondition every index is below 10240). -/
def gatherRows (fh : S10240x128.Idx → F .f32) (fs : S2560x128.Idx → BitVec 32) : S327680x128.Idx → F .f32 :=
  fun i => fh (ix2 (⟨(fs (ix2 (⟨(i 0).val / 128, by have h : (i 0).val < 327680 := (i 0).isLt; omega⟩ : Fin 2560)
      (⟨(i 0).val % 128, Nat.mod_lt _ (by decide)⟩ : Fin 128))).toNat % 10240, Nat.mod_lt _ (by decide)⟩ : Fin 10240) (i 1 : Fin 128))

end Cert.Proof.KI

end
-- ==== Proof.TileI.lean ====
/-
  One vector-subcore task of the row gather, at a symbolic place of the grid: tile w = 16·c + s stores the lane
  numbers 0 … 15 in its short index list, copies rows [80w, 80w + 80) of the index table into its long index list,
  and then alternates between its two row buffers: 128 rows of the source array, named by row k of the long list,
  are gathered into one buffer while the other buffer's 128 rows go out to rows [10240w + 128k, 10240w + 128k + 128)
  of the result. Every transfer has a counter of its own, at zero before it is issued and at zero again after its
  wait, and is waited for before the next is issued; so the task needs, beside read shares of the two arrays it
  reads, exactly the eighty result windows it writes, its five scratch buffers and its 162 counters, and hands all
  of them back.
-/
import proofs.«207928_g75127567942135_cont_9to1c4b_313_20_alg».proof.Proof.SetupI
import proofs.«207928_g75127567942135_cont_9to1c4b_313_20_alg».proof.Proof.GatherSpecI

noncomputable section

namespace Cert.Proof.KI

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
abbrev hV : Memref sig .scVector .hbm S10240x128 .f32 := Memref.whole main_v33_scv
abbrev sV : Memref sig .scVector .hbm S2560x128 .i32 := Memref.whole main_v6_scv
abbrev oV : Memref sig .scVector .hbm S327680x128 .f32 := Memref.whole main_v34_scv
abbrev oSl (L : grid1.Coords) (r : Fin 80) : Memref sig .scVector .hbm S128x128 .f32 :=
  (oV).slice (Rect.unit (s := S327680x128) (k1_off2 L (BitVec.ofNat 32 (128 * r.val))) S128x128.size (k1_off2_inb L r)) (fun _ => rfl)
abbrev thrV (d : Dev nD) (L : grid1.Coords) : Thread nD τ := V d (cV L) (jV L)

/-- Every word the index list holds after the table rows were copied into it names a row of the gathered array:
    whatever the list held before, whichever row window of it is read. -/
theorem idx_inb (fs : Buf (Elt F) (sV.view.loc (thrV d L))) (hfs : ∀ j, (fs j).toNat < 10240) :
    ∀ (g : Buf (Elt F) ((Memref.whole cc1_scratch0).view.loc (thrV d L))) (off : Fin 2 → ℕ)
      (hoff : ∀ a, off a + S1x128.size a ≤ S80x128.size a) (hst : ∀ a, (Rect.unit (s := S80x128) off S1x128.size hoff).stride a = 1)
      (hsq : S1x128.Squeezes S128) (x : S128.Idx),
      ((((Memref.whole cc1_scratch0).slice (Rect.unit (s := S80x128) off S1x128.size hoff) hst).squeeze S128 hsq).view.read (Elt F)
        ((Memref.whole cc1_scratch0).view.write (Elt F) g
          (ReadAs.same.apply ((sV.slice (Rect.unit (s := S2560x128) (k1_off1 L) S80x128.size (k1_off1_inb L)) (fun _ => rfl)).view.read (Elt F) fs))
          Finset.univ) x).toNat < 10240 := by
  intro g off hoff hst hsq x
  have e1 : (((Memref.whole cc1_scratch0).slice (Rect.unit (s := S80x128) off S1x128.size hoff) hst).squeeze S128 hsq).view.read (Elt F)
        ((Memref.whole cc1_scratch0).view.write (Elt F) g
          (ReadAs.same.apply ((sV.slice (Rect.unit (s := S2560x128) (k1_off1 L) S80x128.size (k1_off1_inb L)) (fun _ => rfl)).view.read (Elt F) fs))
          Finset.univ) x
      = (Memref.whole cc1_scratch0).view.read (Elt F) ((Memref.whole cc1_scratch0).view.write (Elt F) g
          (ReadAs.same.apply ((sV.slice (Rect.unit (s := S2560x128) (k1_off1 L) S80x128.size (k1_off1_inb L)) (fun _ => rfl)).view.read (Elt F) fs))
          Finset.univ) ((Rect.unit (s := S80x128) off S1x128.size hoff).emb (Shape.reshapeEquiv hsq.numel_eq x)) := rfl
  rw [e1, View.read_write_of_mem _ _ (Finset.mem_univ _)]
  exact hfs _

/-- The lane numbers stored in the sixteen-entry list name rows of the gathered array, whatever the list held before. -/
theorem iota_inb (inb : ∀ a, (![0] : Fin 1 → ℕ) a + S16.size a ≤ S16.size a) (x : S16.Idx) :
    ((Memref.whole cc1_scratch3).view.read (Elt F)
      ((Memref.whole cc1_scratch3).view.writes (Elt F) (Memref.whole cc1_scratch3).view.junk
        [⟨Rect.unit (s := S16) ![0] S16.size inb, shapeCast S16 (iota .scVector S16 32 [0] iota_S16_d0_w32_scVector) shapeCasts_S16_S16⟩]) x).toNat < 10240 := by
  have hx : (Rect.unit (s := S16) ![0] S16.size inb).emb x = x := by
    funext a; apply Fin.ext
    show (![0] : Fin 1 → ℕ) a + 1 * (x a : ℕ) = x a
    have h0 : (![0] : Fin 1 → ℕ) a = 0 := by fin_cases a; rfl
    omega
  have h := View.read_writes_cons_emb (Memref.whole cc1_scratch3).view (Val := Elt F) (Memref.whole cc1_scratch3).view.junk
    (Rect.unit (s := S16) ![0] S16.size inb) (shapeCast S16 (iota .scVector S16 32 [0] iota_S16_d0_w32_scVector) shapeCasts_S16_S16) [] x
  rw [hx] at h
  rw [h]
  show (BitVec.ofNat 32 (0 * S16.size 0 + ((Shape.reshapeEquiv shapeCasts_S16_S16 x) 0).val)).toNat < 10240
  have hlt : ((Shape.reshapeEquiv shapeCasts_S16_S16 x) 0 : Fin (S16.size 0)).val < 16 := ((Shape.reshapeEquiv shapeCasts_S16_S16 x) 0).isLt
  rw [BitVec.toNat_ofNat]
  refine Nat.lt_of_le_of_lt (Nat.mod_le _ _) ?_
  rw [Nat.zero_mul]; omega

/-- One more wait at the kernels' index keeps the record of waits within the launch's bound. -/
theorem waits_insert {W W' : Waits sig (HIx 2)} {sm : SemLoc sig} (h : ∀ p ∈ W', p ∈ W ∨ p.2 = none) :
    ∀ p ∈ insert (sm, (none : HIx 2)) W', p ∈ W ∨ p.2 = none := by
  intro p hp
  rcases Finset.mem_insert.mp hp with rfl | hp
  · exact Or.inr rfl
  · exact h p hp

/-! ## What a window holds after its copy

Window `kk` is written whole with what the row buffer held when it was copied out: the rows of the source array that
row `kk` of the long index list names; and that row is row `80w + kk` of the index table. -/

/-- A function of a rank-two index reads alike at two indices with the same coordinates. -/
theorem app2_congr {α : Type} {n0 n1 : ℕ} (f : (⟨2, ![n0, n1]⟩ : Shape).Idx → α) {i j : (⟨2, ![n0, n1]⟩ : Shape).Idx}
    (h0 : (i 0).val = (j 0).val) (h1 : (i 1).val = (j 1).val) : f i = f j :=
  congrArg f (funext fun a => Fin.ext (match a with | ⟨0, _⟩ => h0 | ⟨1, _⟩ => h1))

/-- Entry `z` of a 128-entry row seen as a 1×128 block is the block's entry `(0, z)`. -/
theorem squeeze_coords (hsq : S1x128.Squeezes S128) (z : S128.Idx) :
    ((Shape.reshapeEquiv hsq.numel_eq z) 0).val = 0 ∧ ((Shape.reshapeEquiv hsq.numel_eq z) 1).val = (z 0).val := by
  have hy := Shape.rowMajor_reshapeEquiv hsq.numel_eq z
  rw [Shape.rowMajor_val_two, Shape.rowMajor_val_one] at hy
  have hy' : ((Shape.reshapeEquiv hsq.numel_eq z) 0).val * 128 + ((Shape.reshapeEquiv hsq.numel_eq z) 1).val = (z 0).val := hy
  have h0 : ((Shape.reshapeEquiv hsq.numel_eq z) 0).val < 1 := ((Shape.reshapeEquiv hsq.numel_eq z) 0).isLt
  omega

/-- Entry `z` of row `kk` of the long index list, after the table's rows were copied into the list, is the table's
    entry `(80w + kk, z)`. -/
theorem list_word (fs : Buf (Elt F) (sV.view.loc (thrV d L))) (g0 : Buf (Elt F) ((Memref.whole cc1_scratch0).view.loc (thrV d L))) (kk : ℕ)
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128) (z : S128.Idx) :
    ∃ j : S2560x128.Idx, (j 0).val = 1280 * (L 0).val + 80 * (L 1).val + kk ∧ (j 1).val = (z 0).val ∧
      (((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) z = (fs : S2560x128.Idx → BitVec 32) j := by
  obtain ⟨hz0, hz1⟩ := squeeze_coords hsq z
  refine ⟨(Rect.unit (s := S2560x128) (k1_off1 L) S80x128.size (k1_off1_inb L)).emb
            ((Rect.unit (s := S80x128) ![kk, 0] S1x128.size hoff).emb (Shape.reshapeEquiv hsq.numel_eq z)), ?_, ?_, ?_⟩
  · show k1_off1 L 0 + 1 * ((![kk, 0] : Fin 2 → ℕ) 0 + 1 * ((Shape.reshapeEquiv hsq.numel_eq z) 0).val) = _
    rw [k1_off1_eq, hz0]
    show (1280 * (L 0).val + 80 * (L 1).val) + 1 * (kk + 1 * 0) = _
    omega
  · show k1_off1 L 1 + 1 * ((![kk, 0] : Fin 2 → ℕ) 1 + 1 * ((Shape.reshapeEquiv hsq.numel_eq z) 1).val) = _
    rw [k1_off1_eq, hz1]
    show 0 + 1 * (0 + 1 * (z 0).val) = _
    omega
  · have e1 : (((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) z
        = (Memref.whole cc1_scratch0).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)
            ((Rect.unit (s := S80x128) ![kk, 0] S1x128.size hoff).emb (Shape.reshapeEquiv hsq.numel_eq z)) := rfl
    rw [e1, View.read_write_of_mem _ _ (Finset.mem_univ _)]
    rfl

/-- What a list of writes whose last is of the whole shape leaves is read back as that write's payload. -/
theorem read_writes_whole_cons {sig' : RefSig} {κ : Kind} {sp : Space} {s : Shape} {e : EltTy} {Val : EltTy → Type}
    (v : View sig' κ sp s e) (f : v.ty.Contents Val) (w : (Rect.whole s).shape.Idx → Val e)
    (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- Window `kk` after its copy holds, at each of its own elements, the gathered rows: element `(x₀, x₁)` of the window
    is element `(10240w + 128·kk + x₀, x₁)` of the result, the row buffer held there the source's row named by entry `x₀`
    of row `kk` of the long index list, and that entry is the index table's at `(80w + kk, x₀)`. -/
theorem window_value (fh : Buf (Elt F) (hV.view.loc (thrV d L))) (fs : Buf (Elt F) (sV.view.loc (thrV d L)))
    (hfs : ∀ j, (fs j).toNat < 10240) (fo : Buf (Elt F) (oV.view.loc (thrV d L)))
    (kk : ℕ) (hk : kk < 80) (c : BitVec 32) (hc : c = BitVec.ofNat 32 (128 * kk))
    (inb2 : ∀ a, k1_off2 L c a + S128x128.size a ≤ S327680x128.size a)
    (hst2 : ∀ a, (Rect.unit (s := S327680x128) (k1_off2 L c) S128x128.size inb2).stride a = 1)
    (M : Memref sig .scVector .vmem S128x128 .f32) (base : M.view.ty.Contents (Elt F))
    (Lr : List (View.Piece (Elt F) S128x128 .f32))
    (g0 : Buf (Elt F) ((Memref.whole cc1_scratch0).view.loc (thrV d L)))
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128)
    (inbh : ∀ a, (![0, 0] : Fin 2 → ℕ) a + S10240x128.size a ≤ S10240x128.size a)
    (hsth : ∀ a, (Rect.unit (s := S10240x128) ![0, 0] S10240x128.size inbh).stride a = 1)
    (hn : S128.numel = S128x128.size gathers_S10240x128_S128x128.axis')
    (hinr : ∀ x, ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) x).toNat < S10240x128.size gathers_S10240x128_S128x128.axis) :
    ∀ i ∈ ((oV.slice (Rect.unit (s := S327680x128) (k1_off2 L c) S128x128.size inb2) hst2) : Memref sig .scVector .hbm S128x128 .f32).view.set,
      ((oV.slice (Rect.unit (s := S327680x128) (k1_off2 L c) S128x128.size inb2) hst2) : Memref sig .scVector .hbm S128x128 .f32).view.writes (Elt F) fo [⟨Rect.whole S128x128, (ReadAs.same.apply (M.view.read (Elt F) (M.view.writes (Elt F) base (⟨Rect.whole S128x128, (SparseCore.gatherPayload gathers_S10240x128_S128x128 ((hV.slice (Rect.unit (s := S10240x128) ![0, 0] S10240x128.size inbh) hsth).view.read (Elt F) fh) (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr))⟩ :: Lr))))⟩] i
        = (gatherRows (F := F) fh fs : Buf (Elt F) (oV.view.loc (thrV d L))) i := by
  intro i hi
  obtain ⟨x, -, rfl⟩ := Finset.mem_map.mp hi
  have key1 : ∀ f : ((oV.slice (Rect.unit (s := S327680x128) (k1_off2 L c) S128x128.size inb2) hst2) : Memref sig .scVector .hbm S128x128 .f32).view.ty.Contents (Elt F),
      f (((oV.slice (Rect.unit (s := S327680x128) (k1_off2 L c) S128x128.size inb2) hst2) : Memref sig .scVector .hbm S128x128 .f32).view.emb x) = ((oV.slice (Rect.unit (s := S327680x128) (k1_off2 L c) S128x128.size inb2) hst2) : Memref sig .scVector .hbm S128x128 .f32).view.read (Elt F) f x := fun f => rfl
  refine (key1 _).trans ?_
  refine (read_writes_whole_cons _ _ _ _ x).trans ?_
  refine (read_writes_whole_cons M.view _ _ _ x).trans ?_
  have key2 : ∀ y, (hV.slice (Rect.unit (s := S10240x128) ![0, 0] S10240x128.size inbh) hsth).view.read (Elt F) fh y = (fh : S10240x128.Idx → F .f32) ((hV.slice (Rect.unit (s := S10240x128) ![0, 0] S10240x128.size inbh) hsth).view.emb y) := fun y => rfl
  refine (key2 _).trans ?_
  -- the entry of the long list that names the row
  obtain ⟨j, hj0, hj1, hj⟩ := list_word d L fs g0 kk hoff hst hsq (S128.rowMajor.symm ((x 0).cast hn.symm))
  have hz : ((S128.rowMajor.symm ((x 0).cast hn.symm)) 0).val = (x 0).val := by
    have h := Shape.rowMajor_val_one (S128.rowMajor.symm ((x 0).cast hn.symm))
    rw [Equiv.apply_symm_apply] at h
    exact h.symm
  have e2 : k1_off2 L c = ![163840 * (L 0).val + 10240 * (L 1).val + 128 * kk, 0] := by
    rw [hc]; exact k1_off2_eq L ⟨kk, hk⟩
  have e20 : k1_off2 L c 0 = 163840 * (L 0).val + 10240 * (L 1).val + 128 * kk := congrFun e2 0
  have e21 : k1_off2 L c 1 = 0 := congrFun e2 1
  have hx0 : (x 0).val < 128 := (x 0).isLt
  have hi0 : ((((oV.slice (Rect.unit (s := S327680x128) (k1_off2 L c) S128x128.size inb2) hst2) : Memref sig .scVector .hbm S128x128 .f32).view.emb x) 0).val = 163840 * (L 0).val + 10240 * (L 1).val + 128 * kk + (x 0).val := by
    show k1_off2 L c 0 + 1 * (x 0).val = _
    omega
  have hi1 : ((((oV.slice (Rect.unit (s := S327680x128) (k1_off2 L c) S128x128.size inb2) hst2) : Memref sig .scVector .hbm S128x128 .f32).view.emb x) 1).val = (x 1).val := by
    show k1_off2 L c 1 + 1 * (x 1).val = _
    omega
  unfold gatherRows
  refine app2_congr (fh : S10240x128.Idx → F .f32) ?_ ?_
  · -- the row: the word the list holds there, below the source's height
    have e0 : gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 0
        = SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr (x 0) :=
      Shape.Gathers.idx_axis gathers_S10240x128_S128x128 _ x
    show (![0, 0] : Fin 2 → ℕ) 0 + 1 * (gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 0).val = _
    rw [e0]
    show 0 + 1 * ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) (S128.rowMajor.symm ((x 0).cast hn.symm))).toNat = _
    rw [hj]
    have hjj : (fs : S2560x128.Idx → BitVec 32) j = (fs : S2560x128.Idx → BitVec 32)
        (ValueIdx.ix2 (⟨((((oV.slice (Rect.unit (s := S327680x128) (k1_off2 L c) S128x128.size inb2) hst2) : Memref sig .scVector .hbm S128x128 .f32).view.emb x) 0).val / 128, by have h : ((((oV.slice (Rect.unit (s := S327680x128) (k1_off2 L c) S128x128.size inb2) hst2) : Memref sig .scVector .hbm S128x128 .f32).view.emb x) 0).val < 327680 := ((((oV.slice (Rect.unit (s := S327680x128) (k1_off2 L c) S128x128.size inb2) hst2) : Memref sig .scVector .hbm S128x128 .f32).view.emb x) 0).isLt; omega⟩ : Fin 2560)
          (⟨((((oV.slice (Rect.unit (s := S327680x128) (k1_off2 L c) S128x128.size inb2) hst2) : Memref sig .scVector .hbm S128x128 .f32).view.emb x) 0).val % 128, Nat.mod_lt _ (by decide)⟩ : Fin 128)) := by
      refine app2_congr (fs : S2560x128.Idx → BitVec 32) ?_ ?_
      · show (j 0).val = ((((oV.slice (Rect.unit (s := S327680x128) (k1_off2 L c) S128x128.size inb2) hst2) : Memref sig .scVector .hbm S128x128 .f32).view.emb x) 0).val / 128
        rw [hj0, hi0]; omega
      · show (j 1).val = ((((oV.slice (Rect.unit (s := S327680x128) (k1_off2 L c) S128x128.size inb2) hst2) : Memref sig .scVector .hbm S128x128 .f32).view.emb x) 0).val % 128
        rw [hj1, hz, hi0]; omega
    rw [hjj]
    have hlt := hfs (ValueIdx.ix2 (⟨((((oV.slice (Rect.unit (s := S327680x128) (k1_off2 L c) S128x128.size inb2) hst2) : Memref sig .scVector .hbm S128x128 .f32).view.emb x) 0).val / 128, by have h : ((((oV.slice (Rect.unit (s := S327680x128) (k1_off2 L c) S128x128.size inb2) hst2) : Memref sig .scVector .hbm S128x128 .f32).view.emb x) 0).val < 327680 := ((((oV.slice (Rect.unit (s := S327680x128) (k1_off2 L c) S128x128.size inb2) hst2) : Memref sig .scVector .hbm S128x128 .f32).view.emb x) 0).isLt; omega⟩ : Fin 2560)
          (⟨((((oV.slice (Rect.unit (s := S327680x128) (k1_off2 L c) S128x128.size inb2) hst2) : Memref sig .scVector .hbm S128x128 .f32).view.emb x) 0).val % 128, Nat.mod_lt _ (by decide)⟩ : Fin 128))
    show _ = _ % 10240
    rw [Nat.mod_eq_of_lt hlt]; omega
  · -- the column
    have e1 : (gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 1).val = (x 1).val :=
      Shape.Gathers.idx_of_ne gathers_S10240x128_S128x128 _ x 1 (by decide)
    show (![0, 0] : Fin 2 → ℕ) 1 + 1 * (gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 1).val = _
    rw [e1]
    show 0 + 1 * (x 1).val = ((((oV.slice (Rect.unit (s := S327680x128) (k1_off2 L c) S128x128.size inb2) hst2) : Memref sig .scVector .hbm S128x128 .f32).view.emb x) 1).val
    rw [hi1]; omega

/-! ## The task's run

The eighty result windows are held by exactly their own elements, spelt as the program slices them; each comes back
at the gathered rows. -/

set_option maxHeartbeats 16000000 in
/-- From the two read shares, the eighty result windows, the scratch buffers, the counters at zero and the thread's
    ledger, the task runs to its return and hands everything back: the shares unchanged, every window at the gathered
    rows, the scratch buffers at some contents, the counters at zero, and only waits at the kernels' own index added
    to the ledger. -/
theorem tile_run' (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oV.slice (Rect.unit (s := S327680x128) (k1_off2 L 0#32) S128x128.size (k1_off2_inb L 0)) (fun _ => rfl)).view.loc (thrV d L) ↦[(oV.slice (Rect.unit (s := S327680x128) (k1_off2 L 0#32) S128x128.size (k1_off2_inb L 0)) (fun _ => rfl)).view.set]{fullShare} fo)
      ∗ ((oV.slice (Rect.unit (s := S327680x128) (k1_off2 L 128#32) S128x128.size (k1_off2_inb L 1)) (fun _ => rfl)).view.loc (thrV d L) ↦[(oV.slice (Rect.unit (s := S327680x128) (k1_off2 L 128#32) S128x128.size (k1_off2_inb L 1)) (fun _ => rfl)).view.set]{fullShare} fo)
      ∗ ((oV.slice (Rect.unit (s := S327680x128) (k1_off2 L 256#32) S128x128.size (k1_off2_inb L 2)) (fun _ => rfl)).view.loc (thrV d L) ↦[(oV.slice (Rect.unit (s := S327680x128) (k1_off2 L 256#32) S128x128.size (k1_off2_inb L 2)) (fun _ => rfl)).view.set]{fullShare} fo)
      ∗ ((oV.slice (Rect.unit (s := S327680x128) (k1_off2 L 384#32) S128x128.size (k1_off2_inb L 3)) (fun _ => rfl)).view.loc (thrV d L) ↦[(oV.slice (Rect.unit (s := S327680x128) (k1_off2 L 384#32) S128x128.size (k1_off2_inb L 3)) (fun _ => rfl)).view.set]{fullShare} fo)
      ∗ ((oV.slice (Rect.unit (s := S327680x128) (k1_off2 L 512#32) S128x128.size (k1_off2_inb L 4)) (fun _ => rfl)).view.loc (thrV d L) ↦[(oV.slice (Rect.unit (s := S327680x128) (k1_off2 L 512#32) S128x128.size (k1_off2_inb L 4)) (fun _ => rfl)).view.set]{fullShare} fo)
      ∗ ((oV.slice (Rect.unit (s := S327680x128) (k1_off2 L 640#32) S128x128.size (k1_off2_inb L 5)) (fun _ => rfl)).view.loc (thrV d L) ↦[(oV.slice (Rect.unit (s := S327680x128) (k1_off2 L 640#32) S128x128.size (k1_off2_inb L 5)) (fun _ => rfl)).view.set]{fullShare} fo)
      ∗ ((oV.slice (Rect.unit (s := S327680x128) (k1_off2 L 768#32) S128x128.size (k1_off2_inb L 6)) (fun _ => rfl)).view.loc (thrV d L) ↦[(oV.slice (Rect.unit (s := S327680x128) (k1_off2 L 768#32) S128x128.size (k1_off2_inb L 6)) (fun _ => rfl)).view.set]{fullShare} fo)
      ∗ ((oV.slice (Rect.unit (s := S327680x128) (k1_off2 L 896#32) S128x128.size (k1_off2_inb L 7)) (fun _ => rfl)).view.loc (thrV d L) ↦[(oV.slice (Rect.unit (s := S327680x128) (k1_off2 L 896#32) S128x128.size (k1_off2_inb L 7)) (fun _ => rfl)).view.set]{fullShare} fo)
      ∗ ((oV.slice (Rect.unit (s := S327680x128) (k1_off2 L 1024#32) S128x128.size (k1_off2_inb L 8)) (fun _ => rfl)).view.loc (thrV d L) ↦[(oV.slice (Rect.unit (s := S327680x128) (k1_off2 L 1024#32) S128x128.size (k1_off2_inb L 8)) (fun _ => rfl)).view.set]{fullShare} fo)
      ∗ ((oV.slice (Rect.unit (s := S327680x128) (k1_off2 L 1152#32) S128x128.size (k1_off2_inb L 9)) (fun _ => rfl)).view.loc (thrV d L) ↦[(oV.slice (Rect.unit (s := S327680x128) (k1_off2 L 1152#32) S128x128.size (k1_off2_inb L 9)) (fun _ => rfl)).view.set]{fullShare} fo)
      ∗ ((oV.slice (Rect.unit (s := S327680x128) (k1_off2 L 1280#32) S128x128.size (k1_off2_inb L 10)) (fun _ => rfl)).view.loc (thrV d L) ↦[(oV.slice (Rect.unit (s := S327680x128) (k1_off2 L 1280#32) S128x128.size (k1_off2_inb L 10)) (fun _ => rfl)).view.set]{fullShare} fo)
      ∗ ((oV.slice (Rect.unit (s := S327680x128) (k1_off2 L 1408#32) S128x128.size (k1_off2_inb L 11)) (fun _ => rfl)).view.loc (thrV d L) ↦[(oV.slice (Rect.unit (s := S327680x128) (k1_off2 L 1408#32) S128x128.size (k1_off2_inb L 11)) (fun _ => rfl)).view.set]{fullShare} fo)
      ∗ ((oV.slice (Rect.unit (s := S327680x128) (k1_off2 L 1536#32) S128x128.size (k1_off2_inb L 12)) (fun _ => rfl)).view.loc (thrV d L) ↦[(oV.slice (Rect.unit (s := S327680x128) (k1_off2 L 1536#32) S128x128.size (k1_off2_inb L 12)) (fun _ => rfl)).view.set]{fullShare} fo)
      ∗ ((oV.slice (Rect.unit (s := S327680x128) (k1_off2 L 1664#32) S128x128.size (k1_off2_inb L 13)) (fun _ => rfl)).view.loc (thrV d L) ↦[(oV.slice (Rect.unit (s := S327680x128) (k1_off2 L 1664#32) S128x128.size (k1_off2_inb L 13)) (fun _ => rfl)).view.set]{fullShare} fo)
      ∗ ((oV.slice (Rect.unit (s := S327680x128) (k1_off2 L 1792#32) S128x128.size (k1_off2_inb L 14)) (fun _ => rfl)).view.loc (thrV d L) ↦[(oV.slice (Rect.unit (s := S327680x128) (k1_off2 L 1792#32) S128x128.size (k1_off2_inb L 14)) (fun _ => rfl)).view.set]{fullShare} fo)
      ∗ ((oV.slice (Rect.unit (s := S327680x128) (k1_off2 L 1920#32) S128x128.size (k1_off2_inb L 15)) (fun _ => rfl)).view.loc (thrV d L) ↦[(oV.slice (Rect.unit (s := S327680x128) (k1_off2 L 1920#32) S128x128.size (k1_off2_inb L 15)) (fun _ => rfl)).view.set]{fullShare} fo)
      ∗ ((oV.slice (Rect.unit (s := S327680x128) (k1_off2 L 2048#32) S128x128.size (k1_off2_inb L 16)) (fun _ => rfl)).view.loc (thrV d L) ↦[(oV.slice (Rect.unit (s := S327680x128) (k1_off2 L 2048#32) S128x128.size (k1_off2_inb L 16)) (fun _ => rfl)).view.set]{fullShare} fo)
      ∗ ((oV.slice (Rect.unit (s := S327680x128) (k1_off2 L 2176#32) S128x128.size (k1_off2_inb L 17)) (fun _ => rfl)).view.loc (thrV d L) ↦[(oV.slice (Rect.unit (s := S327680x128) (k1_off2 L 2176#32) S128x128.size (k1_off2_inb L 17)) (fun _ => rfl)).view.set]{fullShare} fo)
      ∗ ((oV.slice (Rect.unit (s := S327680x128) (k1_off2 L 2304#32) S128x128.size (k1_off2_inb L 18)) (fun _ => rfl)).view.loc (thrV d L) ↦[(oV.slice (Rect.unit (s := S327680x128) (k1_off2 L 2304#32) S128x128.size (k1_off2_inb L 18)) (fun _ => rfl)).view.set]{fullShare} fo)
      ∗ ((oV.slice (Rect.unit (s := S327680x128) (k1_off2 L 2432#32) S128x128.size (k1_off2_inb L 19)) (fun _ => rfl)).view.loc (thrV d L) ↦[(oV.slice (Rect.unit (s := S327680x128) (k1_off2 L 2432#32) S128x128.size (k1_off2_inb L 19)) (fun _ => rfl)).view.set]{fullShare} fo)
      ∗ ((oV.slice (Rect.unit (s := S327680x128) (k1_off2 L 2560#32) S128x128.size (k1_off2_inb L 20)) (fun _ => rfl)).view.loc (thrV d L) ↦[(oV.slice (Rect.unit (s := S327680x128) (k1_off2 L 2560#32) S128x128.size (k1_off2_inb L 20)) (fun _ => rfl)).view.set]{fullShare} fo)
      ∗ ((oV.slice (Rect.unit (s := S327680x128) (k1_off2 L 2688#32) S128x128.size (k1_off2_inb L 21)) (fun _ => rfl)).view.loc (thrV d L) ↦[(oV.slice (Rect.unit (s := S327680x128) (k1_off2 L 2688#32) S128x128.size (k1_off2_inb L 21)) (fun _ => rfl)).view.set]{fullShare} fo)
      ∗ ((oV.slice (Rect.unit (s := S327680x128) (k1_off2 L 2816#32) S128x128.size (k1_off2_inb L 22)) (fun _ => rfl)).view.loc (thrV d L) ↦[(oV.slice (Rect.unit (s := S327680x128) (k1_off2 L 2816#32) S128x128.size (k1_off2_inb L 22)) (fun _ => rfl)).view.set]{fullShare} fo)
      ∗ ((oV.slice (Rect.unit (s := S327680x128) (k1_off2 L 2944#32) S128x128.size (k1_off2_inb L 23)) (fun _ => rfl)).view.loc (thrV d L) ↦[(oV.slice (Rect.unit (s := S327680x128) (k1_off2 L 2944#32) S128x128.size (k1_off2_inb L 23)) (fun _ => rfl)).view.set]{fullShare} fo)
      ∗ ((oV.slice (Rect.unit (s := S327680x128) (k1_off2 L 3072#32) S128x128.size (k1_off2_inb L 24)) (fun _ => rfl)).view.loc (thrV d L) ↦[(oV.slice (Rect.unit (s := S327680x128) (k1_off2 L 3072#32) S128x128.size (k1_off2_inb L 24)) (fun _ => rfl)).view.set]{fullShare} fo)
      ∗ ((oV.slice (Rect.unit (s := S327680x128) (k1_off2 L 3200#32) S128x128.size (k1_off2_inb L 25)) (fun _ => rfl)).view.loc (thrV d L) ↦[(oV.slice (Rect.unit (s := S327680x128) (k1_off2 L 3200#32) S128x128.size (k1_off2_inb L 25)) (fun _ => rfl)).view.set]{fullShare} fo)
      ∗ ((oV.slice (Rect.unit (s := S327680x128) (k1_off2 L 3328#32) S128x128.size (k1_off2_inb L 26)) (fun _ => rfl)).view.loc (thrV d L) ↦[(oV.slice (Rect.unit (s := S327680x128) (k1_off2 L 3328#32) S128x128.size (k1_off2_inb L 26)) (fun _ => rfl)).view.set]{fullShare} fo)
      ∗ ((oV.slice (Rect.unit (s := S327680x128) (k1_off2 L 3456#32) S128x128.size (k1_off2_inb L 27)) (fun _ => rfl)).view.loc (thrV d L) ↦[(oV.slice (Rect.unit (s := S327680x128) (k1_off2 L 3456#32) S128x128.size (k1_off2_inb L 27)) (fun _ => rfl)).view.set]{fullShare} fo)
      ∗ ((oV.slice (Rect.unit (s := S327680x128) (k1_off2 L 3584#32) S128x128.size (k1_off2_inb L 28)) (fun _ => rfl)).view.loc (thrV d L) ↦[(oV.slice (Rect.unit (s := S327680x128) (k1_off2 L 3584#32) S128x128.size (k1_off2_inb L 28)) (fun _ => rfl)).view.set]{fullShare} fo)
      ∗ ((oV.slice (Rect.unit (s := S327680x128) (k1_off2 L 3712#32) S128x128.size (k1_off2_inb L 29)) (fun _ => rfl)).view.loc (thrV d L) ↦[(oV.slice (Rect.unit (s := S327680x128) (k1_off2 L 3712#32) S128x128.size (k1_off2_inb L 29)) (fun _ => rfl)).view.set]{fullShare} fo)
      ∗ ((oV.slice (Rect.unit (s := S327680x128) (k1_off2 L 3840#32) S128x128.size (k1_off2_inb L 30)) (fun _ => rfl)).view.loc (thrV d L) ↦[(oV.slice (Rect.unit (s := S327680x128) (k1_off2 L 3840#32) S128x128.size (k1_off2_inb L 30)) (fun _ => rfl)).view.set]{fullShare} fo)
      ∗ ((oV.slice (Rect.unit (s := S327680x128) (k1_off2 L 3968#32) S128x128.size (k1_off2_inb L 31)) (fun _ => rfl)).view.loc (thrV d L) ↦[(oV.slice (Rect.unit (s := S327680x128) (k1_off2 L 3968#32) S128x128.size (k1_off2_inb L 31)) (fun _ => rfl)).view.set]{fullShare} fo)
      ∗ ((oV.slice (Rect.unit (s := S327680x128) (k1_off2 L 4096#32) S128x128.size (k1_off2_inb L 32)) (fun _ => rfl)).view.loc (thrV d L) ↦[(oV.slice (Rect.unit (s := S327680x128) (k1_off2 L 4096#32) S128x128.size (k1_off2_inb L 32)) (fun _ => rfl)).view.set]{fullShare} fo)
      ∗ ((oV.slice (Rect.unit (s := S327680x128) (k1_off2 L 4224#32) S128x128.size (k1_off2_inb L 33)) (fun _ => rfl)).view.loc (thrV d L) ↦[(oV.slice (Rect.unit (s := S327680x128) (k1_off2 L 4224#32) S128x128.size (k1_off2_inb L 33)) (fun _ => rfl)).view.set]{fullShare} fo)
      ∗ ((oV.slice (Rect.unit (s := S327680x128) (k1_off2 L 4352#32) S128x128.size (k1_off2_inb L 34)) (fun _ => rfl)).view.loc (thrV d L) ↦[(oV.slice (Rect.unit (s := S327680x128) (k1_off2 L 4352#32) S128x128.size (k1_off2_inb L 34)) (fun _ => rfl)).view.set]{fullShare} fo)
      ∗ ((oV.slice (Rect.unit (s := S327680x128) (k1_off2 L 4480#32) S128x128.size (k1_off2_inb L 35)) (fun _ => rfl)).view.loc (thrV d L) ↦[(oV.slice (Rect.unit (s := S327680x128) (k1_off2 L 4480#32) S128x128.size (k1_off2_inb L 35)) (fun _ => rfl)).view.set]{fullShare} fo)
      ∗ ((oV.slice (Rect.unit (s := S327680x128) (k1_off2 L 4608#32) S128x128.size (k1_off2_inb L 36)) (fun _ => rfl)).view.loc (thrV d L) ↦[(oV.slice (Rect.unit (s := S327680x128) (k1_off2 L 4608#32) S128x128.size (k1_off2_inb L 36)) (fun _ => rfl)).view.set]{fullShare} fo)
      ∗ ((oV.slice (Rect.unit (s := S327680x128) (k1_off2 L 4736#32) S128x128.size (k1_off2_inb L 37)) (fun _ => rfl)).view.loc (thrV d L) ↦[(oV.slice (Rect.unit (s := S327680x128) (k1_off2 L 4736#32) S128x128.size (k1_off2_inb L 37)) (fun _ => rfl)).view.set]{fullShare} fo)
      ∗ ((oV.slice (Rect.unit (s := S327680x128) (k1_off2 L 4864#32) S128x128.size (k1_off2_inb L 38)) (fun _ => rfl)).view.loc (thrV d L) ↦[(oV.slice (Rect.unit (s := S327680x128) (k1_off2 L 4864#32) S128x128.size (k1_off2_inb L 38)) (fun _ => rfl)).view.set]{fullShare} fo)
      ∗ ((oV.slice (Rect.unit (s := S327680x128) (k1_off2 L 4992#32) S128x128.size (k1_off2_inb L 39)) (fun _ => rfl)).view.loc (thrV d L) ↦[(oV.slice (Rect.unit (s := S327680x128) (k1_off2 L 4992#32) S128x128.size (k1_off2_inb L 39)) (fun _ => rfl)).view.set]{fullShare} fo)
      ∗ ((oV.slice (Rect.unit (s := S327680x128) (k1_off2 L 5120#32) S128x128.size (k1_off2_inb L 40)) (fun _ => rfl)).view.loc (thrV d L) ↦[(oV.slice (Rect.unit (s := S327680x128) (k1_off2 L 5120#32) S128x128.size (k1_off2_inb L 40)) (fun _ => rfl)).view.set]{fullShare} fo)
      ∗ ((oV.slice (Rect.unit (s := S327680x128) (k1_off2 L 5248#32) S128x128.size (k1_off2_inb L 41)) (fun _ => rfl)).view.loc (thrV d L) ↦[(oV.slice (Rect.unit (s := S327680x128) (k1_off2 L 5248#32) S128x128.size (k1_off2_inb L 41)) (fun _ => rfl)).view.set]{fullShare} fo)
      ∗ ((oV.slice (Rect.unit (s := S327680x128) (k1_off2 L 5376#32) S128x128.size (k1_off2_inb L 42)) (fun _ => rfl)).view.loc (thrV d L) ↦[(oV.slice (Rect.unit (s := S327680x128) (k1_off2 L 5376#32) S128x128.size (k1_off2_inb L 42)) (fun _ => rfl)).view.set]{fullShare} fo)
      ∗ ((oV.slice (Rect.unit (s := S327680x128) (k1_off2 L 5504#32) S128x128.size (k1_off2_inb L 43)) (fun _ => rfl)).view.loc (thrV d L) ↦[(oV.slice (Rect.unit (s := S327680x128) (k1_off2 L 5504#32) S128x128.size (k1_off2_inb L 43)) (fun _ => rfl)).view.set]{fullShare} fo)
      ∗ ((oV.slice (Rect.unit (s := S327680x128) (k1_off2 L 5632#32) S128x128.size (k1_off2_inb L 44)) (fun _ => rfl)).view.loc (thrV d L) ↦[(oV.slice (Rect.unit (s := S327680x128) (k1_off2 L 5632#32) S128x128.size (k1_off2_inb L 44)) (fun _ => rfl)).view.set]{fullShare} fo)
      ∗ ((oV.slice (Rect.unit (s := S327680x128) (k1_off2 L 5760#32) S128x128.size (k1_off2_inb L 45)) (fun _ => rfl)).view.loc (thrV d L) ↦[(oV.slice (Rect.unit (s := S327680x128) (k1_off2 L 5760#32) S128x128.size (k1_off2_inb L 45)) (fun _ => rfl)).view.set]{fullShare} fo)
      ∗ ((oV.slice (Rect.unit (s := S327680x128) (k1_off2 L 5888#32) S128x128.size (k1_off2_inb L 46)) (fun _ => rfl)).view.loc (thrV d L) ↦[(oV.slice (Rect.unit (s := S327680x128) (k1_off2 L 5888#32) S128x128.size (k1_off2_inb L 46)) (fun _ => rfl)).view.set]{fullShare} fo)
      ∗ ((oV.slice (Rect.unit (s := S327680x128) (k1_off2 L 6016#32) S128x128.size (k1_off2_inb L 47)) (fun _ => rfl)).view.loc (thrV d L) ↦[(oV.slice (Rect.unit (s := S327680x128) (k1_off2 L 6016#32) S128x128.size (k1_off2_inb L 47)) (fun _ => rfl)).view.set]{fullShare} fo)
      ∗ ((oV.slice (Rect.unit (s := S327680x128) (k1_off2 L 6144#32) S128x128.size (k1_off2_inb L 48)) (fun _ => rfl)).view.loc (thrV d L) ↦[(oV.slice (Rect.unit (s := S327680x128) (k1_off2 L 6144#32) S128x128.size (k1_off2_inb L 48)) (fun _ => rfl)).view.set]{fullShare} fo)
      ∗ ((oV.slice (Rect.unit (s := S327680x128) (k1_off2 L 6272#32) S128x128.size (k1_off2_inb L 49)) (fun _ => rfl)).view.loc (thrV d L) ↦[(oV.slice (Rect.unit (s := S327680x128) (k1_off2 L 6272#32) S128x128.size (k1_off2_inb L 49)) (fun _ => rfl)).view.set]{fullShare} fo)
      ∗ ((oV.slice (Rect.unit (s := S327680x128) (k1_off2 L 6400#32) S128x128.size (k1_off2_inb L 50)) (fun _ => rfl)).view.loc (thrV d L) ↦[(oV.slice (Rect.unit (s := S327680x128) (k1_off2 L 6400#32) S128x128.size (k1_off2_inb L 50)) (fun _ => rfl)).view.set]{fullShare} fo)
      ∗ ((oV.slice (Rect.unit (s := S327680x128) (k1_off2 L 6528#32) S128x128.size (k1_off2_inb L 51)) (fun _ => rfl)).view.loc (thrV d L) ↦[(oV.slice (Rect.unit (s := S327680x128) (k1_off2 L 6528#32) S128x128.size (k1_off2_inb L 51)) (fun _ => rfl)).view.set]{fullShare} fo)
      ∗ ((oV.slice (Rect.unit (s := S327680x128) (k1_off2 L 6656#32) S128x128.size (k1_off2_inb L 52)) (fun _ => rfl)).view.loc (thrV d L) ↦[(oV.slice (Rect.unit (s := S327680x128) (k1_off2 L 6656#32) S128x128.size (k1_off2_inb L 52)) (fun _ => rfl)).view.set]{fullShare} fo)
      ∗ ((oV.slice (Rect.unit (s := S327680x128) (k1_off2 L 6784#32) S128x128.size (k1_off2_inb L 53)) (fun _ => rfl)).view.loc (thrV d L) ↦[(oV.slice (Rect.unit (s := S327680x128) (k1_off2 L 6784#32) S128x128.size (k1_off2_inb L 53)) (fun _ => rfl)).view.set]{fullShare} fo)
      ∗ ((oV.slice (Rect.unit (s := S327680x128) (k1_off2 L 6912#32) S128x128.size (k1_off2_inb L 54)) (fun _ => rfl)).view.loc (thrV d L) ↦[(oV.slice (Rect.unit (s := S327680x128) (k1_off2 L 6912#32) S128x128.size (k1_off2_inb L 54)) (fun _ => rfl)).view.set]{fullShare} fo)
      ∗ ((oV.slice (Rect.unit (s := S327680x128) (k1_off2 L 7040#32) S128x128.size (k1_off2_inb L 55)) (fun _ => rfl)).view.loc (thrV d L) ↦[(oV.slice (Rect.unit (s := S327680x128) (k1_off2 L 7040#32) S128x128.size (k1_off2_inb L 55)) (fun _ => rfl)).view.set]{fullShare} fo)
      ∗ ((oV.slice (Rect.unit (s := S327680x128) (k1_off2 L 7168#32) S128x128.size (k1_off2_inb L 56)) (fun _ => rfl)).view.loc (thrV d L) ↦[(oV.slice (Rect.unit (s := S327680x128) (k1_off2 L 7168#32) S128x128.size (k1_off2_inb L 56)) (fun _ => rfl)).view.set]{fullShare} fo)
      ∗ ((oV.slice (Rect.unit (s := S327680x128) (k1_off2 L 7296#32) S128x128.size (k1_off2_inb L 57)) (fun _ => rfl)).view.loc (thrV d L) ↦[(oV.slice (Rect.unit (s := S327680x128) (k1_off2 L 7296#32) S128x128.size (k1_off2_inb L 57)) (fun _ => rfl)).view.set]{fullShare} fo)
      ∗ ((oV.slice (Rect.unit (s := S327680x128) (k1_off2 L 7424#32) S128x128.size (k1_off2_inb L 58)) (fun _ => rfl)).view.loc (thrV d L) ↦[(oV.slice (Rect.unit (s := S327680x128) (k1_off2 L 7424#32) S128x128.size (k1_off2_inb L 58)) (fun _ => rfl)).view.set]{fullShare} fo)
      ∗ ((oV.slice (Rect.unit (s := S327680x128) (k1_off2 L 7552#32) S128x128.size (k1_off2_inb L 59)) (fun _ => rfl)).view.loc (thrV d L) ↦[(oV.slice (Rect.unit (s := S327680x128) (k1_off2 L 7552#32) S128x128.size (k1_off2_inb L 59)) (fun _ => rfl)).view.set]{fullShare} fo)
      ∗ ((oV.slice (Rect.unit (s := S327680x128) (k1_off2 L 7680#32) S128x128.size (k1_off2_inb L 60)) (fun _ => rfl)).view.loc (thrV d L) ↦[(oV.slice (Rect.unit (s := S327680x128) (k1_off2 L 7680#32) S128x128.size (k1_off2_inb L 60)) (fun _ => rfl)).view.set]{fullShare} fo)
      ∗ ((oV.slice (Rect.unit (s := S327680x128) (k1_off2 L 7808#32) S128x128.size (k1_off2_inb L 61)) (fun _ => rfl)).view.loc (thrV d L) ↦[(oV.slice (Rect.unit (s := S327680x128) (k1_off2 L 7808#32) S128x128.size (k1_off2_inb L 61)) (fun _ => rfl)).view.set]{fullShare} fo)
      ∗ ((oV.slice (Rect.unit (s := S327680x128) (k1_off2 L 7936#32) S128x128.size (k1_off2_inb L 62)) (fun _ => rfl)).view.loc (thrV d L) ↦[(oV.slice (Rect.unit (s := S327680x128) (k1_off2 L 7936#32) S128x128.size (k1_off2_inb L 62)) (fun _ => rfl)).view.set]{fullShare} fo)
      ∗ ((oV.slice (Rect.unit (s := S327680x128) (k1_off2 L 8064#32) S128x128.size (k1_off2_inb L 63)) (fun _ => rfl)).view.loc (thrV d L) ↦[(oV.slice (Rect.unit (s := S327680x128) (k1_off2 L 8064#32) S128x128.size (k1_off2_inb L 63)) (fun _ => rfl)).view.set]{fullShare} fo)
      ∗ ((oV.slice (Rect.unit (s := S327680x128) (k1_off2 L 8192#32) S128x128.size (k1_off2_inb L 64)) (fun _ => rfl)).view.loc (thrV d L) ↦[(oV.slice (Rect.unit (s := S327680x128) (k1_off2 L 8192#32) S128x128.size (k1_off2_inb L 64)) (fun _ => rfl)).view.set]{fullShare} fo)
      ∗ ((oV.slice (Rect.unit (s := S327680x128) (k1_off2 L 8320#32) S128x128.size (k1_off2_inb L 65)) (fun _ => rfl)).view.loc (thrV d L) ↦[(oV.slice (Rect.unit (s := S327680x128) (k1_off2 L 8320#32) S128x128.size (k1_off2_inb L 65)) (fun _ => rfl)).view.set]{fullShare} fo)
      ∗ ((oV.slice (Rect.unit (s := S327680x128) (k1_off2 L 8448#32) S128x128.size (k1_off2_inb L 66)) (fun _ => rfl)).view.loc (thrV d L) ↦[(oV.slice (Rect.unit (s := S327680x128) (k1_off2 L 8448#32) S128x128.size (k1_off2_inb L 66)) (fun _ => rfl)).view.set]{fullShare} fo)
      ∗ ((oV.slice (Rect.unit (s := S327680x128) (k1_off2 L 8576#32) S128x128.size (k1_off2_inb L 67)) (fun _ => rfl)).view.loc (thrV d L) ↦[(oV.slice (Rect.unit (s := S327680x128) (k1_off2 L 8576#32) S128x128.size (k1_off2_inb L 67)) (fun _ => rfl)).view.set]{fullShare} fo)
      ∗ ((oV.slice (Rect.unit (s := S327680x128) (k1_off2 L 8704#32) S128x128.size (k1_off2_inb L 68)) (fun _ => rfl)).view.loc (thrV d L) ↦[(oV.slice (Rect.unit (s := S327680x128) (k1_off2 L 8704#32) S128x128.size (k1_off2_inb L 68)) (fun _ => rfl)).view.set]{fullShare} fo)
      ∗ ((oV.slice (Rect.unit (s := S327680x128) (k1_off2 L 8832#32) S128x128.size (k1_off2_inb L 69)) (fun _ => rfl)).view.loc (thrV d L) ↦[(oV.slice (Rect.unit (s := S327680x128) (k1_off2 L 8832#32) S128x128.size (k1_off2_inb L 69)) (fun _ => rfl)).view.set]{fullShare} fo)
      ∗ ((oV.slice (Rect.unit (s := S327680x128) (k1_off2 L 8960#32) S128x128.size (k1_off2_inb L 70)) (fun _ => rfl)).view.loc (thrV d L) ↦[(oV.slice (Rect.unit (s := S327680x128) (k1_off2 L 8960#32) S128x128.size (k1_off2_inb L 70)) (fun _ => rfl)).view.set]{fullShare} fo)
      ∗ ((oV.slice (Rect.unit (s := S327680x128) (k1_off2 L 9088#32) S128x128.size (k1_off2_inb L 71)) (fun _ => rfl)).view.loc (thrV d L) ↦[(oV.slice (Rect.unit (s := S327680x128) (k1_off2 L 9088#32) S128x128.size (k1_off2_inb L 71)) (fun _ => rfl)).view.set]{fullShare} fo)
      ∗ ((oV.slice (Rect.unit (s := S327680x128) (k1_off2 L 9216#32) S128x128.size (k1_off2_inb L 72)) (fun _ => rfl)).view.loc (thrV d L) ↦[(oV.slice (Rect.unit (s := S327680x128) (k1_off2 L 9216#32) S128x128.size (k1_off2_inb L 72)) (fun _ => rfl)).view.set]{fullShare} fo)
      ∗ ((oV.slice (Rect.unit (s := S327680x128) (k1_off2 L 9344#32) S128x128.size (k1_off2_inb L 73)) (fun _ => rfl)).view.loc (thrV d L) ↦[(oV.slice (Rect.unit (s := S327680x128) (k1_off2 L 9344#32) S128x128.size (k1_off2_inb L 73)) (fun _ => rfl)).view.set]{fullShare} fo)
      ∗ ((oV.slice (Rect.unit (s := S327680x128) (k1_off2 L 9472#32) S128x128.size (k1_off2_inb L 74)) (fun _ => rfl)).view.loc (thrV d L) ↦[(oV.slice (Rect.unit (s := S327680x128) (k1_off2 L 9472#32) S128x128.size (k1_off2_inb L 74)) (fun _ => rfl)).view.set]{fullShare} fo)
      ∗ ((oV.slice (Rect.unit (s := S327680x128) (k1_off2 L 9600#32) S128x128.size (k1_off2_inb L 75)) (fun _ => rfl)).view.loc (thrV d L) ↦[(oV.slice (Rect.unit (s := S327680x128) (k1_off2 L 9600#32) S128x128.size (k1_off2_inb L 75)) (fun _ => rfl)).view.set]{fullShare} fo)
      ∗ ((oV.slice (Rect.unit (s := S327680x128) (k1_off2 L 9728#32) S128x128.size (k1_off2_inb L 76)) (fun _ => rfl)).view.loc (thrV d L) ↦[(oV.slice (Rect.unit (s := S327680x128) (k1_off2 L 9728#32) S128x128.size (k1_off2_inb L 76)) (fun _ => rfl)).view.set]{fullShare} fo)
      ∗ ((oV.slice (Rect.unit (s := S327680x128) (k1_off2 L 9856#32) S128x128.size (k1_off2_inb L 77)) (fun _ => rfl)).view.loc (thrV d L) ↦[(oV.slice (Rect.unit (s := S327680x128) (k1_off2 L 9856#32) S128x128.size (k1_off2_inb L 77)) (fun _ => rfl)).view.set]{fullShare} fo)
      ∗ ((oV.slice (Rect.unit (s := S327680x128) (k1_off2 L 9984#32) S128x128.size (k1_off2_inb L 78)) (fun _ => rfl)).view.loc (thrV d L) ↦[(oV.slice (Rect.unit (s := S327680x128) (k1_off2 L 9984#32) S128x128.size (k1_off2_inb L 78)) (fun _ => rfl)).view.set]{fullShare} fo)
      ∗ ((oV.slice (Rect.unit (s := S327680x128) (k1_off2 L 10112#32) S128x128.size (k1_off2_inb L 79)) (fun _ => rfl)).view.loc (thrV d L) ↦[(oV.slice (Rect.unit (s := S327680x128) (k1_off2 L 10112#32) S128x128.size (k1_off2_inb L 79)) (fun _ => rfl)).view.set]{fullShare} fo)
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ semVal ((thrV d L), SemLoc.dma cc1_scoped0.sem) 0
      ∗ semVal ((thrV d L), SemLoc.dma cc1_scoped1.sem) 0
      ∗ semVal ((thrV d L), SemLoc.dma cc1_scoped2.sem) 0
      ∗ semVal ((thrV d L), SemLoc.dma cc1_scoped3.sem) 0
      ∗ semVal ((thrV d L), SemLoc.dma cc1_scoped4.sem) 0
      ∗ semVal ((thrV d L), SemLoc.dma cc1_scoped5.sem) 0
      ∗ semVal ((thrV d L), SemLoc.dma cc1_scoped6.sem) 0
      ∗ semVal ((thrV d L), SemLoc.dma cc1_scoped7.sem) 0
      ∗ semVal ((thrV d L), SemLoc.dma cc1_scoped8.sem) 0
      ∗ semVal ((thrV d L), SemLoc.dma cc1_scoped9.sem) 0
      ∗ semVal ((thrV d L), SemLoc.dma cc1_scoped10.sem) 0
      ∗ semVal ((thrV d L), SemLoc.dma cc1_scoped11.sem) 0
      ∗ semVal ((thrV d L), SemLoc.dma cc1_scoped12.sem) 0
      ∗ semVal ((thrV d L), SemLoc.dma cc1_scoped13.sem) 0
      ∗ semVal ((thrV d L), SemLoc.dma cc1_scoped14.sem) 0
      ∗ semVal ((thrV d L), SemLoc.dma cc1_scoped15.sem) 0
      ∗ semVal ((thrV d L), SemLoc.dma cc1_scoped16.sem) 0
      ∗ semVal ((thrV d L), SemLoc.dma cc1_scoped17.sem) 0
      ∗ semVal ((thrV d L), SemLoc.dma cc1_scoped18.sem) 0
      ∗ semVal ((thrV d L), SemLoc.dma cc1_scoped19.sem) 0
      ∗ semVal ((thrV d L), SemLoc.dma cc1_scoped20.sem) 0
      ∗ semVal ((thrV d L), SemLoc.dma cc1_scoped21.sem) 0
      ∗ semVal ((thrV d L), SemLoc.dma cc1_scoped22.sem) 0
      ∗ semVal ((thrV d L), SemLoc.dma cc1_scoped23.sem) 0
      ∗ semVal ((thrV d L), SemLoc.dma cc1_scoped24.sem) 0
      ∗ semVal ((thrV d L), SemLoc.dma cc1_scoped25.sem) 0
      ∗ semVal ((thrV d L), SemLoc.dma cc1_scoped26.sem) 0
      ∗ semVal ((thrV d L), SemLoc.dma cc1_scoped27.sem) 0
      ∗ semVal ((thrV d L), SemLoc.dma cc1_scoped28.sem) 0
      ∗ semVal ((thrV d L), SemLoc.dma cc1_scoped29.sem) 0
      ∗ semVal ((thrV d L), SemLoc.dma cc1_scoped30.sem) 0
      ∗ semVal ((thrV d L), SemLoc.dma cc1_scoped31.sem) 0
      ∗ semVal ((thrV d L), SemLoc.dma cc1_scoped32.sem) 0
      ∗ semVal ((thrV d L), SemLoc.dma cc1_scoped33.sem) 0
      ∗ semVal ((thrV d L), SemLoc.dma cc1_scoped34.sem) 0
      ∗ semVal ((thrV d L), SemLoc.dma cc1_scoped35.sem) 0
      ∗ semVal ((thrV d L), SemLoc.dma cc1_scoped36.sem) 0
      ∗ semVal ((thrV d L), SemLoc.dma cc1_scoped37.sem) 0
      ∗ semVal ((thrV d L), SemLoc.dma cc1_scoped38.sem) 0
      ∗ semVal ((thrV d L), SemLoc.dma cc1_scoped39.sem) 0
      ∗ semVal ((thrV d L), SemLoc.dma cc1_scoped40.sem) 0
      ∗ semVal ((thrV d L), SemLoc.dma cc1_scoped41.sem) 0
      ∗ semVal ((thrV d L), SemLoc.dma cc1_scoped42.sem) 0
      ∗ semVal ((thrV d L), SemLoc.dma cc1_scoped43.sem) 0
      ∗ semVal ((thrV d L), SemLoc.dma cc1_scoped44.sem) 0
      ∗ semVal ((thrV d L), SemLoc.dma cc1_scoped45.sem) 0
      ∗ semVal ((thrV d L), SemLoc.dma cc1_scoped46.sem) 0
      ∗ semVal ((thrV d L), SemLoc.dma cc1_scoped47.sem) 0
      ∗ semVal ((thrV d L), SemLoc.dma cc1_scoped48.sem) 0
      ∗ semVal ((thrV d L), SemLoc.dma cc1_scoped49.sem) 0
      ∗ semVal ((thrV d L), SemLoc.dma cc1_scoped50.sem) 0
      ∗ semVal ((thrV d L), SemLoc.dma cc1_scoped51.sem) 0
      ∗ semVal ((thrV d L), SemLoc.dma cc1_scoped52.sem) 0
      ∗ semVal ((thrV d L), SemLoc.dma cc1_scoped53.sem) 0
      ∗ semVal ((thrV d L), SemLoc.dma cc1_scoped54.sem) 0
      ∗ semVal ((thrV d L), SemLoc.dma cc1_scoped55.sem) 0
      ∗ semVal ((thrV d L), SemLoc.dma cc1_scoped56.sem) 0
      ∗ semVal ((thrV d L), SemLoc.dma cc1_scoped57.sem) 0
      ∗ semVal ((thrV d L), SemLoc.dma cc1_scoped58.sem) 0
      ∗ semVal ((thrV d L), SemLoc.dma cc1_scoped59.sem) 0
      ∗ semVal ((thrV d L), SemLoc.dma cc1_scoped60.sem) 0
      ∗ semVal ((thrV d L), SemLoc.dma cc1_scoped61.sem) 0
      ∗ semVal ((thrV d L), SemLoc.dma cc1_scoped62.sem) 0
      ∗ semVal ((thrV d L), SemLoc.dma cc1_scoped63.sem) 0
      ∗ semVal ((thrV d L), SemLoc.dma cc1_scoped64.sem) 0
      ∗ semVal ((thrV d L), SemLoc.dma cc1_scoped65.sem) 0
      ∗ semVal ((thrV d L), SemLoc.dma cc1_scoped66.sem) 0
      ∗ semVal ((thrV d L), SemLoc.dma cc1_scoped67.sem) 0
      ∗ semVal ((thrV d L), SemLoc.dma cc1_scoped68.sem) 0
      ∗ semVal ((thrV d L), SemLoc.dma cc1_scoped69.sem) 0
      ∗ semVal ((thrV d L), SemLoc.dma cc1_scoped70.sem) 0
      ∗ semVal ((thrV d L), SemLoc.dma cc1_scoped71.sem) 0
      ∗ semVal ((thrV d L), SemLoc.dma cc1_scoped72.sem) 0
      ∗ semVal ((thrV d L), SemLoc.dma cc1_scoped73.sem) 0
      ∗ semVal ((thrV d L), SemLoc.dma cc1_scoped74.sem) 0
      ∗ semVal ((thrV d L), SemLoc.dma cc1_scoped75.sem) 0
      ∗ semVal ((thrV d L), SemLoc.dma cc1_scoped76.sem) 0
      ∗ semVal ((thrV d L), SemLoc.dma cc1_scoped77.sem) 0
      ∗ semVal ((thrV d L), SemLoc.dma cc1_scoped78.sem) 0
      ∗ semVal ((thrV d L), SemLoc.dma cc1_scoped79.sem) 0
      ∗ semVal ((thrV d L), SemLoc.dma cc1_scoped80.sem) 0
      ∗ semVal ((thrV d L), SemLoc.dma cc1_scoped81.sem) 0
      ∗ semVal ((thrV d L), SemLoc.dma cc1_scoped82.sem) 0
      ∗ semVal ((thrV d L), SemLoc.dma cc1_scoped83.sem) 0
      ∗ semVal ((thrV d L), SemLoc.dma cc1_scoped84.sem) 0
      ∗ semVal ((thrV d L), SemLoc.dma cc1_scoped85.sem) 0
      ∗ semVal ((thrV d L), SemLoc.dma cc1_scoped86.sem) 0
      ∗ semVal ((thrV d L), SemLoc.dma cc1_scoped87.sem) 0
      ∗ semVal ((thrV d L), SemLoc.dma cc1_scoped88.sem) 0
      ∗ semVal ((thrV d L), SemLoc.dma cc1_scoped89.sem) 0
      ∗ semVal ((thrV d L), SemLoc.dma cc1_scoped90.sem) 0
      ∗ semVal ((thrV d L), SemLoc.dma cc1_scoped91.sem) 0
      ∗ semVal ((thrV d L), SemLoc.dma cc1_scoped92.sem) 0
      ∗ semVal ((thrV d L), SemLoc.dma cc1_scoped93.sem) 0
      ∗ semVal ((thrV d L), SemLoc.dma cc1_scoped94.sem) 0
      ∗ semVal ((thrV d L), SemLoc.dma cc1_scoped95.sem) 0
      ∗ semVal ((thrV d L), SemLoc.dma cc1_scoped96.sem) 0
      ∗ semVal ((thrV d L), SemLoc.dma cc1_scoped97.sem) 0
      ∗ semVal ((thrV d L), SemLoc.dma cc1_scoped98.sem) 0
      ∗ semVal ((thrV d L), SemLoc.dma cc1_scoped99.sem) 0
      ∗ semVal ((thrV d L), SemLoc.dma cc1_scoped100.sem) 0
      ∗ semVal ((thrV d L), SemLoc.dma cc1_scoped101.sem) 0
      ∗ semVal ((thrV d L), SemLoc.dma cc1_scoped102.sem) 0
      ∗ semVal ((thrV d L), SemLoc.dma cc1_scoped103.sem) 0
      ∗ semVal ((thrV d L), SemLoc.dma cc1_scoped104.sem) 0
      ∗ semVal ((thrV d L), SemLoc.dma cc1_scoped105.sem) 0
      ∗ semVal ((thrV d L), SemLoc.dma cc1_scoped106.sem) 0
      ∗ semVal ((thrV d L), SemLoc.dma cc1_scoped107.sem) 0
      ∗ semVal ((thrV d L), SemLoc.dma cc1_scoped108.sem) 0
      ∗ semVal ((thrV d L), SemLoc.dma cc1_scoped109.sem) 0
      ∗ semVal ((thrV d L), SemLoc.dma cc1_scoped110.sem) 0
      ∗ semVal ((thrV d L), SemLoc.dma cc1_scoped111.sem) 0
      ∗ semVal ((thrV d L), SemLoc.dma cc1_scoped112.sem) 0
      ∗ semVal ((thrV d L), SemLoc.dma cc1_scoped113.sem) 0
      ∗ semVal ((thrV d L), SemLoc.dma cc1_scoped114.sem) 0
      ∗ semVal ((thrV d L), SemLoc.dma cc1_scoped115.sem) 0
      ∗ semVal ((thrV d L), SemLoc.dma cc1_scoped116.sem) 0
      ∗ semVal ((thrV d L), SemLoc.dma cc1_scoped117.sem) 0
      ∗ semVal ((thrV d L), SemLoc.dma cc1_scoped118.sem) 0
      ∗ semVal ((thrV d L), SemLoc.dma cc1_scoped119.sem) 0
      ∗ semVal ((thrV d L), SemLoc.dma cc1_scoped120.sem) 0
      ∗ semVal ((thrV d L), SemLoc.dma cc1_scoped121.sem) 0
      ∗ semVal ((thrV d L), SemLoc.dma cc1_scoped122.sem) 0
      ∗ semVal ((thrV d L), SemLoc.dma cc1_scoped123.sem) 0
      ∗ semVal ((thrV d L), SemLoc.dma cc1_scoped124.sem) 0
      ∗ semVal ((thrV d L), SemLoc.dma cc1_scoped125.sem) 0
      ∗ semVal ((thrV d L), SemLoc.dma cc1_scoped126.sem) 0
      ∗ semVal ((thrV d L), SemLoc.dma cc1_scoped127.sem) 0
      ∗ semVal ((thrV d L), SemLoc.dma cc1_scoped128.sem) 0
      ∗ semVal ((thrV d L), SemLoc.dma cc1_scoped129.sem) 0
      ∗ semVal ((thrV d L), SemLoc.dma cc1_scoped130.sem) 0
      ∗ semVal ((thrV d L), SemLoc.dma cc1_scoped131.sem) 0
      ∗ semVal ((thrV d L), SemLoc.dma cc1_scoped132.sem) 0
      ∗ semVal ((thrV d L), SemLoc.dma cc1_scoped133.sem) 0
      ∗ semVal ((thrV d L), SemLoc.dma cc1_scoped134.sem) 0
      ∗ semVal ((thrV d L), SemLoc.dma cc1_scoped135.sem) 0
      ∗ semVal ((thrV d L), SemLoc.dma cc1_scoped136.sem) 0
      ∗ semVal ((thrV d L), SemLoc.dma cc1_scoped137.sem) 0
      ∗ semVal ((thrV d L), SemLoc.dma cc1_scoped138.sem) 0
      ∗ semVal ((thrV d L), SemLoc.dma cc1_scoped139.sem) 0
      ∗ semVal ((thrV d L), SemLoc.dma cc1_scoped140.sem) 0
      ∗ semVal ((thrV d L), SemLoc.dma cc1_scoped141.sem) 0
      ∗ semVal ((thrV d L), SemLoc.dma cc1_scoped142.sem) 0
      ∗ semVal ((thrV d L), SemLoc.dma cc1_scoped143.sem) 0
      ∗ semVal ((thrV d L), SemLoc.dma cc1_scoped144.sem) 0
      ∗ semVal ((thrV d L), SemLoc.dma cc1_scoped145.sem) 0
      ∗ semVal ((thrV d L), SemLoc.dma cc1_scoped146.sem) 0
      ∗ semVal ((thrV d L), SemLoc.dma cc1_scoped147.sem) 0
      ∗ semVal ((thrV d L), SemLoc.dma cc1_scoped148.sem) 0
      ∗ semVal ((thrV d L), SemLoc.dma cc1_scoped149.sem) 0
      ∗ semVal ((thrV d L), SemLoc.dma cc1_scoped150.sem) 0
      ∗ semVal ((thrV d L), SemLoc.dma cc1_scoped151.sem) 0
      ∗ semVal ((thrV d L), SemLoc.dma cc1_scoped152.sem) 0
      ∗ semVal ((thrV d L), SemLoc.dma cc1_scoped153.sem) 0
      ∗ semVal ((thrV d L), SemLoc.dma cc1_scoped154.sem) 0
      ∗ semVal ((thrV d L), SemLoc.dma cc1_scoped155.sem) 0
      ∗ semVal ((thrV d L), SemLoc.dma cc1_scoped156.sem) 0
      ∗ semVal ((thrV d L), SemLoc.dma cc1_scoped157.sem) 0
      ∗ semVal ((thrV d L), SemLoc.dma cc1_scoped158.sem) 0
      ∗ semVal ((thrV d L), SemLoc.dma cc1_scoped159.sem) 0
      ∗ semVal ((thrV d L), SemLoc.dma cc1_scoped160.sem) 0
      ∗ semVal ((thrV d L), SemLoc.dma cc1_scoped161.sem) 0
      ∗ owes (thrV d L) O W
      ∗ (iprop((hV.view.loc (thrV d L) ↦{q} fh) ∗ (sV.view.loc (thrV d L) ↦{q} fs)
          ∗ ((oV.slice (Rect.unit (s := S327680x128) (k1_off2 L 0#32) S128x128.size (k1_off2_inb L 0)) (fun _ => rfl)).view.loc (thrV d L) ↦[(oV.slice (Rect.unit (s := S327680x128) (k1_off2 L 0#32) S128x128.size (k1_off2_inb L 0)) (fun _ => rfl)).view.set]{fullShare} (gatherRows (F := F) fh fs : Buf (Elt F) (oV.view.loc (thrV d L))))
          ∗ ((oV.slice (Rect.unit (s := S327680x128) (k1_off2 L 128#32) S128x128.size (k1_off2_inb L 1)) (fun _ => rfl)).view.loc (thrV d L) ↦[(oV.slice (Rect.unit (s := S327680x128) (k1_off2 L 128#32) S128x128.size (k1_off2_inb L 1)) (fun _ => rfl)).view.set]{fullShare} (gatherRows (F := F) fh fs : Buf (Elt F) (oV.view.loc (thrV d L))))
          ∗ ((oV.slice (Rect.unit (s := S327680x128) (k1_off2 L 256#32) S128x128.size (k1_off2_inb L 2)) (fun _ => rfl)).view.loc (thrV d L) ↦[(oV.slice (Rect.unit (s := S327680x128) (k1_off2 L 256#32) S128x128.size (k1_off2_inb L 2)) (fun _ => rfl)).view.set]{fullShare} (gatherRows (F := F) fh fs : Buf (Elt F) (oV.view.loc (thrV d L))))
          ∗ ((oV.slice (Rect.unit (s := S327680x128) (k1_off2 L 384#32) S128x128.size (k1_off2_inb L 3)) (fun _ => rfl)).view.loc (thrV d L) ↦[(oV.slice (Rect.unit (s := S327680x128) (k1_off2 L 384#32) S128x128.size (k1_off2_inb L 3)) (fun _ => rfl)).view.set]{fullShare} (gatherRows (F := F) fh fs : Buf (Elt F) (oV.view.loc (thrV d L))))
          ∗ ((oV.slice (Rect.unit (s := S327680x128) (k1_off2 L 512#32) S128x128.size (k1_off2_inb L 4)) (fun _ => rfl)).view.loc (thrV d L) ↦[(oV.slice (Rect.unit (s := S327680x128) (k1_off2 L 512#32) S128x128.size (k1_off2_inb L 4)) (fun _ => rfl)).view.set]{fullShare} (gatherRows (F := F) fh fs : Buf (Elt F) (oV.view.loc (thrV d L))))
          ∗ ((oV.slice (Rect.unit (s := S327680x128) (k1_off2 L 640#32) S128x128.size (k1_off2_inb L 5)) (fun _ => rfl)).view.loc (thrV d L) ↦[(oV.slice (Rect.unit (s := S327680x128) (k1_off2 L 640#32) S128x128.size (k1_off2_inb L 5)) (fun _ => rfl)).view.set]{fullShare} (gatherRows (F := F) fh fs : Buf (Elt F) (oV.view.loc (thrV d L))))
          ∗ ((oV.slice (Rect.unit (s := S327680x128) (k1_off2 L 768#32) S128x128.size (k1_off2_inb L 6)) (fun _ => rfl)).view.loc (thrV d L) ↦[(oV.slice (Rect.unit (s := S327680x128) (k1_off2 L 768#32) S128x128.size (k1_off2_inb L 6)) (fun _ => rfl)).view.set]{fullShare} (gatherRows (F := F) fh fs : Buf (Elt F) (oV.view.loc (thrV d L))))
          ∗ ((oV.slice (Rect.unit (s := S327680x128) (k1_off2 L 896#32) S128x128.size (k1_off2_inb L 7)) (fun _ => rfl)).view.loc (thrV d L) ↦[(oV.slice (Rect.unit (s := S327680x128) (k1_off2 L 896#32) S128x128.size (k1_off2_inb L 7)) (fun _ => rfl)).view.set]{fullShare} (gatherRows (F := F) fh fs : Buf (Elt F) (oV.view.loc (thrV d L))))
          ∗ ((oV.slice (Rect.unit (s := S327680x128) (k1_off2 L 1024#32) S128x128.size (k1_off2_inb L 8)) (fun _ => rfl)).view.loc (thrV d L) ↦[(oV.slice (Rect.unit (s := S327680x128) (k1_off2 L 1024#32) S128x128.size (k1_off2_inb L 8)) (fun _ => rfl)).view.set]{fullShare} (gatherRows (F := F) fh fs : Buf (Elt F) (oV.view.loc (thrV d L))))
          ∗ ((oV.slice (Rect.unit (s := S327680x128) (k1_off2 L 1152#32) S128x128.size (k1_off2_inb L 9)) (fun _ => rfl)).view.loc (thrV d L) ↦[(oV.slice (Rect.unit (s := S327680x128) (k1_off2 L 1152#32) S128x128.size (k1_off2_inb L 9)) (fun _ => rfl)).view.set]{fullShare} (gatherRows (F := F) fh fs : Buf (Elt F) (oV.view.loc (thrV d L))))
          ∗ ((oV.slice (Rect.unit (s := S327680x128) (k1_off2 L 1280#32) S128x128.size (k1_off2_inb L 10)) (fun _ => rfl)).view.loc (thrV d L) ↦[(oV.slice (Rect.unit (s := S327680x128) (k1_off2 L 1280#32) S128x128.size (k1_off2_inb L 10)) (fun _ => rfl)).view.set]{fullShare} (gatherRows (F := F) fh fs : Buf (Elt F) (oV.view.loc (thrV d L))))
          ∗ ((oV.slice (Rect.unit (s := S327680x128) (k1_off2 L 1408#32) S128x128.size (k1_off2_inb L 11)) (fun _ => rfl)).view.loc (thrV d L) ↦[(oV.slice (Rect.unit (s := S327680x128) (k1_off2 L 1408#32) S128x128.size (k1_off2_inb L 11)) (fun _ => rfl)).view.set]{fullShare} (gatherRows (F := F) fh fs : Buf (Elt F) (oV.view.loc (thrV d L))))
          ∗ ((oV.slice (Rect.unit (s := S327680x128) (k1_off2 L 1536#32) S128x128.size (k1_off2_inb L 12)) (fun _ => rfl)).view.loc (thrV d L) ↦[(oV.slice (Rect.unit (s := S327680x128) (k1_off2 L 1536#32) S128x128.size (k1_off2_inb L 12)) (fun _ => rfl)).view.set]{fullShare} (gatherRows (F := F) fh fs : Buf (Elt F) (oV.view.loc (thrV d L))))
          ∗ ((oV.slice (Rect.unit (s := S327680x128) (k1_off2 L 1664#32) S128x128.size (k1_off2_inb L 13)) (fun _ => rfl)).view.loc (thrV d L) ↦[(oV.slice (Rect.unit (s := S327680x128) (k1_off2 L 1664#32) S128x128.size (k1_off2_inb L 13)) (fun _ => rfl)).view.set]{fullShare} (gatherRows (F := F) fh fs : Buf (Elt F) (oV.view.loc (thrV d L))))
          ∗ ((oV.slice (Rect.unit (s := S327680x128) (k1_off2 L 1792#32) S128x128.size (k1_off2_inb L 14)) (fun _ => rfl)).view.loc (thrV d L) ↦[(oV.slice (Rect.unit (s := S327680x128) (k1_off2 L 1792#32) S128x128.size (k1_off2_inb L 14)) (fun _ => rfl)).view.set]{fullShare} (gatherRows (F := F) fh fs : Buf (Elt F) (oV.view.loc (thrV d L))))
          ∗ ((oV.slice (Rect.unit (s := S327680x128) (k1_off2 L 1920#32) S128x128.size (k1_off2_inb L 15)) (fun _ => rfl)).view.loc (thrV d L) ↦[(oV.slice (Rect.unit (s := S327680x128) (k1_off2 L 1920#32) S128x128.size (k1_off2_inb L 15)) (fun _ => rfl)).view.set]{fullShare} (gatherRows (F := F) fh fs : Buf (Elt F) (oV.view.loc (thrV d L))))
          ∗ ((oV.slice (Rect.unit (s := S327680x128) (k1_off2 L 2048#32) S128x128.size (k1_off2_inb L 16)) (fun _ => rfl)).view.loc (thrV d L) ↦[(oV.slice (Rect.unit (s := S327680x128) (k1_off2 L 2048#32) S128x128.size (k1_off2_inb L 16)) (fun _ => rfl)).view.set]{fullShare} (gatherRows (F := F) fh fs : Buf (Elt F) (oV.view.loc (thrV d L))))
          ∗ ((oV.slice (Rect.unit (s := S327680x128) (k1_off2 L 2176#32) S128x128.size (k1_off2_inb L 17)) (fun _ => rfl)).view.loc (thrV d L) ↦[(oV.slice (Rect.unit (s := S327680x128) (k1_off2 L 2176#32) S128x128.size (k1_off2_inb L 17)) (fun _ => rfl)).view.set]{fullShare} (gatherRows (F := F) fh fs : Buf (Elt F) (oV.view.loc (thrV d L))))
          ∗ ((oV.slice (Rect.unit (s := S327680x128) (k1_off2 L 2304#32) S128x128.size (k1_off2_inb L 18)) (fun _ => rfl)).view.loc (thrV d L) ↦[(oV.slice (Rect.unit (s := S327680x128) (k1_off2 L 2304#32) S128x128.size (k1_off2_inb L 18)) (fun _ => rfl)).view.set]{fullShare} (gatherRows (F := F) fh fs : Buf (Elt F) (oV.view.loc (thrV d L))))
          ∗ ((oV.slice (Rect.unit (s := S327680x128) (k1_off2 L 2432#32) S128x128.size (k1_off2_inb L 19)) (fun _ => rfl)).view.loc (thrV d L) ↦[(oV.slice (Rect.unit (s := S327680x128) (k1_off2 L 2432#32) S128x128.size (k1_off2_inb L 19)) (fun _ => rfl)).view.set]{fullShare} (gatherRows (F := F) fh fs : Buf (Elt F) (oV.view.loc (thrV d L))))
          ∗ ((oV.slice (Rect.unit (s := S327680x128) (k1_off2 L 2560#32) S128x128.size (k1_off2_inb L 20)) (fun _ => rfl)).view.loc (thrV d L) ↦[(oV.slice (Rect.unit (s := S327680x128) (k1_off2 L 2560#32) S128x128.size (k1_off2_inb L 20)) (fun _ => rfl)).view.set]{fullShare} (gatherRows (F := F) fh fs : Buf (Elt F) (oV.view.loc (thrV d L))))
          ∗ ((oV.slice (Rect.unit (s := S327680x128) (k1_off2 L 2688#32) S128x128.size (k1_off2_inb L 21)) (fun _ => rfl)).view.loc (thrV d L) ↦[(oV.slice (Rect.unit (s := S327680x128) (k1_off2 L 2688#32) S128x128.size (k1_off2_inb L 21)) (fun _ => rfl)).view.set]{fullShare} (gatherRows (F := F) fh fs : Buf (Elt F) (oV.view.loc (thrV d L))))
          ∗ ((oV.slice (Rect.unit (s := S327680x128) (k1_off2 L 2816#32) S128x128.size (k1_off2_inb L 22)) (fun _ => rfl)).view.loc (thrV d L) ↦[(oV.slice (Rect.unit (s := S327680x128) (k1_off2 L 2816#32) S128x128.size (k1_off2_inb L 22)) (fun _ => rfl)).view.set]{fullShare} (gatherRows (F := F) fh fs : Buf (Elt F) (oV.view.loc (thrV d L))))
          ∗ ((oV.slice (Rect.unit (s := S327680x128) (k1_off2 L 2944#32) S128x128.size (k1_off2_inb L 23)) (fun _ => rfl)).view.loc (thrV d L) ↦[(oV.slice (Rect.unit (s := S327680x128) (k1_off2 L 2944#32) S128x128.size (k1_off2_inb L 23)) (fun _ => rfl)).view.set]{fullShare} (gatherRows (F := F) fh fs : Buf (Elt F) (oV.view.loc (thrV d L))))
          ∗ ((oV.slice (Rect.unit (s := S327680x128) (k1_off2 L 3072#32) S128x128.size (k1_off2_inb L 24)) (fun _ => rfl)).view.loc (thrV d L) ↦[(oV.slice (Rect.unit (s := S327680x128) (k1_off2 L 3072#32) S128x128.size (k1_off2_inb L 24)) (fun _ => rfl)).view.set]{fullShare} (gatherRows (F := F) fh fs : Buf (Elt F) (oV.view.loc (thrV d L))))
          ∗ ((oV.slice (Rect.unit (s := S327680x128) (k1_off2 L 3200#32) S128x128.size (k1_off2_inb L 25)) (fun _ => rfl)).view.loc (thrV d L) ↦[(oV.slice (Rect.unit (s := S327680x128) (k1_off2 L 3200#32) S128x128.size (k1_off2_inb L 25)) (fun _ => rfl)).view.set]{fullShare} (gatherRows (F := F) fh fs : Buf (Elt F) (oV.view.loc (thrV d L))))
          ∗ ((oV.slice (Rect.unit (s := S327680x128) (k1_off2 L 3328#32) S128x128.size (k1_off2_inb L 26)) (fun _ => rfl)).view.loc (thrV d L) ↦[(oV.slice (Rect.unit (s := S327680x128) (k1_off2 L 3328#32) S128x128.size (k1_off2_inb L 26)) (fun _ => rfl)).view.set]{fullShare} (gatherRows (F := F) fh fs : Buf (Elt F) (oV.view.loc (thrV d L))))
          ∗ ((oV.slice (Rect.unit (s := S327680x128) (k1_off2 L 3456#32) S128x128.size (k1_off2_inb L 27)) (fun _ => rfl)).view.loc (thrV d L) ↦[(oV.slice (Rect.unit (s := S327680x128) (k1_off2 L 3456#32) S128x128.size (k1_off2_inb L 27)) (fun _ => rfl)).view.set]{fullShare} (gatherRows (F := F) fh fs : Buf (Elt F) (oV.view.loc (thrV d L))))
          ∗ ((oV.slice (Rect.unit (s := S327680x128) (k1_off2 L 3584#32) S128x128.size (k1_off2_inb L 28)) (fun _ => rfl)).view.loc (thrV d L) ↦[(oV.slice (Rect.unit (s := S327680x128) (k1_off2 L 3584#32) S128x128.size (k1_off2_inb L 28)) (fun _ => rfl)).view.set]{fullShare} (gatherRows (F := F) fh fs : Buf (Elt F) (oV.view.loc (thrV d L))))
          ∗ ((oV.slice (Rect.unit (s := S327680x128) (k1_off2 L 3712#32) S128x128.size (k1_off2_inb L 29)) (fun _ => rfl)).view.loc (thrV d L) ↦[(oV.slice (Rect.unit (s := S327680x128) (k1_off2 L 3712#32) S128x128.size (k1_off2_inb L 29)) (fun _ => rfl)).view.set]{fullShare} (gatherRows (F := F) fh fs : Buf (Elt F) (oV.view.loc (thrV d L))))
          ∗ ((oV.slice (Rect.unit (s := S327680x128) (k1_off2 L 3840#32) S128x128.size (k1_off2_inb L 30)) (fun _ => rfl)).view.loc (thrV d L) ↦[(oV.slice (Rect.unit (s := S327680x128) (k1_off2 L 3840#32) S128x128.size (k1_off2_inb L 30)) (fun _ => rfl)).view.set]{fullShare} (gatherRows (F := F) fh fs : Buf (Elt F) (oV.view.loc (thrV d L))))
          ∗ ((oV.slice (Rect.unit (s := S327680x128) (k1_off2 L 3968#32) S128x128.size (k1_off2_inb L 31)) (fun _ => rfl)).view.loc (thrV d L) ↦[(oV.slice (Rect.unit (s := S327680x128) (k1_off2 L 3968#32) S128x128.size (k1_off2_inb L 31)) (fun _ => rfl)).view.set]{fullShare} (gatherRows (F := F) fh fs : Buf (Elt F) (oV.view.loc (thrV d L))))
          ∗ ((oV.slice (Rect.unit (s := S327680x128) (k1_off2 L 4096#32) S128x128.size (k1_off2_inb L 32)) (fun _ => rfl)).view.loc (thrV d L) ↦[(oV.slice (Rect.unit (s := S327680x128) (k1_off2 L 4096#32) S128x128.size (k1_off2_inb L 32)) (fun _ => rfl)).view.set]{fullShare} (gatherRows (F := F) fh fs : Buf (Elt F) (oV.view.loc (thrV d L))))
          ∗ ((oV.slice (Rect.unit (s := S327680x128) (k1_off2 L 4224#32) S128x128.size (k1_off2_inb L 33)) (fun _ => rfl)).view.loc (thrV d L) ↦[(oV.slice (Rect.unit (s := S327680x128) (k1_off2 L 4224#32) S128x128.size (k1_off2_inb L 33)) (fun _ => rfl)).view.set]{fullShare} (gatherRows (F := F) fh fs : Buf (Elt F) (oV.view.loc (thrV d L))))
          ∗ ((oV.slice (Rect.unit (s := S327680x128) (k1_off2 L 4352#32) S128x128.size (k1_off2_inb L 34)) (fun _ => rfl)).view.loc (thrV d L) ↦[(oV.slice (Rect.unit (s := S327680x128) (k1_off2 L 4352#32) S128x128.size (k1_off2_inb L 34)) (fun _ => rfl)).view.set]{fullShare} (gatherRows (F := F) fh fs : Buf (Elt F) (oV.view.loc (thrV d L))))
          ∗ ((oV.slice (Rect.unit (s := S327680x128) (k1_off2 L 4480#32) S128x128.size (k1_off2_inb L 35)) (fun _ => rfl)).view.loc (thrV d L) ↦[(oV.slice (Rect.unit (s := S327680x128) (k1_off2 L 4480#32) S128x128.size (k1_off2_inb L 35)) (fun _ => rfl)).view.set]{fullShare} (gatherRows (F := F) fh fs : Buf (Elt F) (oV.view.loc (thrV d L))))
          ∗ ((oV.slice (Rect.unit (s := S327680x128) (k1_off2 L 4608#32) S128x128.size (k1_off2_inb L 36)) (fun _ => rfl)).view.loc (thrV d L) ↦[(oV.slice (Rect.unit (s := S327680x128) (k1_off2 L 4608#32) S128x128.size (k1_off2_inb L 36)) (fun _ => rfl)).view.set]{fullShare} (gatherRows (F := F) fh fs : Buf (Elt F) (oV.view.loc (thrV d L))))
          ∗ ((oV.slice (Rect.unit (s := S327680x128) (k1_off2 L 4736#32) S128x128.size (k1_off2_inb L 37)) (fun _ => rfl)).view.loc (thrV d L) ↦[(oV.slice (Rect.unit (s := S327680x128) (k1_off2 L 4736#32) S128x128.size (k1_off2_inb L 37)) (fun _ => rfl)).view.set]{fullShare} (gatherRows (F := F) fh fs : Buf (Elt F) (oV.view.loc (thrV d L))))
          ∗ ((oV.slice (Rect.unit (s := S327680x128) (k1_off2 L 4864#32) S128x128.size (k1_off2_inb L 38)) (fun _ => rfl)).view.loc (thrV d L) ↦[(oV.slice (Rect.unit (s := S327680x128) (k1_off2 L 4864#32) S128x128.size (k1_off2_inb L 38)) (fun _ => rfl)).view.set]{fullShare} (gatherRows (F := F) fh fs : Buf (Elt F) (oV.view.loc (thrV d L))))
          ∗ ((oV.slice (Rect.unit (s := S327680x128) (k1_off2 L 4992#32) S128x128.size (k1_off2_inb L 39)) (fun _ => rfl)).view.loc (thrV d L) ↦[(oV.slice (Rect.unit (s := S327680x128) (k1_off2 L 4992#32) S128x128.size (k1_off2_inb L 39)) (fun _ => rfl)).view.set]{fullShare} (gatherRows (F := F) fh fs : Buf (Elt F) (oV.view.loc (thrV d L))))
          ∗ ((oV.slice (Rect.unit (s := S327680x128) (k1_off2 L 5120#32) S128x128.size (k1_off2_inb L 40)) (fun _ => rfl)).view.loc (thrV d L) ↦[(oV.slice (Rect.unit (s := S327680x128) (k1_off2 L 5120#32) S128x128.size (k1_off2_inb L 40)) (fun _ => rfl)).view.set]{fullShare} (gatherRows (F := F) fh fs : Buf (Elt F) (oV.view.loc (thrV d L))))
          ∗ ((oV.slice (Rect.unit (s := S327680x128) (k1_off2 L 5248#32) S128x128.size (k1_off2_inb L 41)) (fun _ => rfl)).view.loc (thrV d L) ↦[(oV.slice (Rect.unit (s := S327680x128) (k1_off2 L 5248#32) S128x128.size (k1_off2_inb L 41)) (fun _ => rfl)).view.set]{fullShare} (gatherRows (F := F) fh fs : Buf (Elt F) (oV.view.loc (thrV d L))))
          ∗ ((oV.slice (Rect.unit (s := S327680x128) (k1_off2 L 5376#32) S128x128.size (k1_off2_inb L 42)) (fun _ => rfl)).view.loc (thrV d L) ↦[(oV.slice (Rect.unit (s := S327680x128) (k1_off2 L 5376#32) S128x128.size (k1_off2_inb L 42)) (fun _ => rfl)).view.set]{fullShare} (gatherRows (F := F) fh fs : Buf (Elt F) (oV.view.loc (thrV d L))))
          ∗ ((oV.slice (Rect.unit (s := S327680x128) (k1_off2 L 5504#32) S128x128.size (k1_off2_inb L 43)) (fun _ => rfl)).view.loc (thrV d L) ↦[(oV.slice (Rect.unit (s := S327680x128) (k1_off2 L 5504#32) S128x128.size (k1_off2_inb L 43)) (fun _ => rfl)).view.set]{fullShare} (gatherRows (F := F) fh fs : Buf (Elt F) (oV.view.loc (thrV d L))))
          ∗ ((oV.slice (Rect.unit (s := S327680x128) (k1_off2 L 5632#32) S128x128.size (k1_off2_inb L 44)) (fun _ => rfl)).view.loc (thrV d L) ↦[(oV.slice (Rect.unit (s := S327680x128) (k1_off2 L 5632#32) S128x128.size (k1_off2_inb L 44)) (fun _ => rfl)).view.set]{fullShare} (gatherRows (F := F) fh fs : Buf (Elt F) (oV.view.loc (thrV d L))))
          ∗ ((oV.slice (Rect.unit (s := S327680x128) (k1_off2 L 5760#32) S128x128.size (k1_off2_inb L 45)) (fun _ => rfl)).view.loc (thrV d L) ↦[(oV.slice (Rect.unit (s := S327680x128) (k1_off2 L 5760#32) S128x128.size (k1_off2_inb L 45)) (fun _ => rfl)).view.set]{fullShare} (gatherRows (F := F) fh fs : Buf (Elt F) (oV.view.loc (thrV d L))))
          ∗ ((oV.slice (Rect.unit (s := S327680x128) (k1_off2 L 5888#32) S128x128.size (k1_off2_inb L 46)) (fun _ => rfl)).view.loc (thrV d L) ↦[(oV.slice (Rect.unit (s := S327680x128) (k1_off2 L 5888#32) S128x128.size (k1_off2_inb L 46)) (fun _ => rfl)).view.set]{fullShare} (gatherRows (F := F) fh fs : Buf (Elt F) (oV.view.loc (thrV d L))))
          ∗ ((oV.slice (Rect.unit (s := S327680x128) (k1_off2 L 6016#32) S128x128.size (k1_off2_inb L 47)) (fun _ => rfl)).view.loc (thrV d L) ↦[(oV.slice (Rect.unit (s := S327680x128) (k1_off2 L 6016#32) S128x128.size (k1_off2_inb L 47)) (fun _ => rfl)).view.set]{fullShare} (gatherRows (F := F) fh fs : Buf (Elt F) (oV.view.loc (thrV d L))))
          ∗ ((oV.slice (Rect.unit (s := S327680x128) (k1_off2 L 6144#32) S128x128.size (k1_off2_inb L 48)) (fun _ => rfl)).view.loc (thrV d L) ↦[(oV.slice (Rect.unit (s := S327680x128) (k1_off2 L 6144#32) S128x128.size (k1_off2_inb L 48)) (fun _ => rfl)).view.set]{fullShare} (gatherRows (F := F) fh fs : Buf (Elt F) (oV.view.loc (thrV d L))))
          ∗ ((oV.slice (Rect.unit (s := S327680x128) (k1_off2 L 6272#32) S128x128.size (k1_off2_inb L 49)) (fun _ => rfl)).view.loc (thrV d L) ↦[(oV.slice (Rect.unit (s := S327680x128) (k1_off2 L 6272#32) S128x128.size (k1_off2_inb L 49)) (fun _ => rfl)).view.set]{fullShare} (gatherRows (F := F) fh fs : Buf (Elt F) (oV.view.loc (thrV d L))))
          ∗ ((oV.slice (Rect.unit (s := S327680x128) (k1_off2 L 6400#32) S128x128.size (k1_off2_inb L 50)) (fun _ => rfl)).view.loc (thrV d L) ↦[(oV.slice (Rect.unit (s := S327680x128) (k1_off2 L 6400#32) S128x128.size (k1_off2_inb L 50)) (fun _ => rfl)).view.set]{fullShare} (gatherRows (F := F) fh fs : Buf (Elt F) (oV.view.loc (thrV d L))))
          ∗ ((oV.slice (Rect.unit (s := S327680x128) (k1_off2 L 6528#32) S128x128.size (k1_off2_inb L 51)) (fun _ => rfl)).view.loc (thrV d L) ↦[(oV.slice (Rect.unit (s := S327680x128) (k1_off2 L 6528#32) S128x128.size (k1_off2_inb L 51)) (fun _ => rfl)).view.set]{fullShare} (gatherRows (F := F) fh fs : Buf (Elt F) (oV.view.loc (thrV d L))))
          ∗ ((oV.slice (Rect.unit (s := S327680x128) (k1_off2 L 6656#32) S128x128.size (k1_off2_inb L 52)) (fun _ => rfl)).view.loc (thrV d L) ↦[(oV.slice (Rect.unit (s := S327680x128) (k1_off2 L 6656#32) S128x128.size (k1_off2_inb L 52)) (fun _ => rfl)).view.set]{fullShare} (gatherRows (F := F) fh fs : Buf (Elt F) (oV.view.loc (thrV d L))))
          ∗ ((oV.slice (Rect.unit (s := S327680x128) (k1_off2 L 6784#32) S128x128.size (k1_off2_inb L 53)) (fun _ => rfl)).view.loc (thrV d L) ↦[(oV.slice (Rect.unit (s := S327680x128) (k1_off2 L 6784#32) S128x128.size (k1_off2_inb L 53)) (fun _ => rfl)).view.set]{fullShare} (gatherRows (F := F) fh fs : Buf (Elt F) (oV.view.loc (thrV d L))))
          ∗ ((oV.slice (Rect.unit (s := S327680x128) (k1_off2 L 6912#32) S128x128.size (k1_off2_inb L 54)) (fun _ => rfl)).view.loc (thrV d L) ↦[(oV.slice (Rect.unit (s := S327680x128) (k1_off2 L 6912#32) S128x128.size (k1_off2_inb L 54)) (fun _ => rfl)).view.set]{fullShare} (gatherRows (F := F) fh fs : Buf (Elt F) (oV.view.loc (thrV d L))))
          ∗ ((oV.slice (Rect.unit (s := S327680x128) (k1_off2 L 7040#32) S128x128.size (k1_off2_inb L 55)) (fun _ => rfl)).view.loc (thrV d L) ↦[(oV.slice (Rect.unit (s := S327680x128) (k1_off2 L 7040#32) S128x128.size (k1_off2_inb L 55)) (fun _ => rfl)).view.set]{fullShare} (gatherRows (F := F) fh fs : Buf (Elt F) (oV.view.loc (thrV d L))))
          ∗ ((oV.slice (Rect.unit (s := S327680x128) (k1_off2 L 7168#32) S128x128.size (k1_off2_inb L 56)) (fun _ => rfl)).view.loc (thrV d L) ↦[(oV.slice (Rect.unit (s := S327680x128) (k1_off2 L 7168#32) S128x128.size (k1_off2_inb L 56)) (fun _ => rfl)).view.set]{fullShare} (gatherRows (F := F) fh fs : Buf (Elt F) (oV.view.loc (thrV d L))))
          ∗ ((oV.slice (Rect.unit (s := S327680x128) (k1_off2 L 7296#32) S128x128.size (k1_off2_inb L 57)) (fun _ => rfl)).view.loc (thrV d L) ↦[(oV.slice (Rect.unit (s := S327680x128) (k1_off2 L 7296#32) S128x128.size (k1_off2_inb L 57)) (fun _ => rfl)).view.set]{fullShare} (gatherRows (F := F) fh fs : Buf (Elt F) (oV.view.loc (thrV d L))))
          ∗ ((oV.slice (Rect.unit (s := S327680x128) (k1_off2 L 7424#32) S128x128.size (k1_off2_inb L 58)) (fun _ => rfl)).view.loc (thrV d L) ↦[(oV.slice (Rect.unit (s := S327680x128) (k1_off2 L 7424#32) S128x128.size (k1_off2_inb L 58)) (fun _ => rfl)).view.set]{fullShare} (gatherRows (F := F) fh fs : Buf (Elt F) (oV.view.loc (thrV d L))))
          ∗ ((oV.slice (Rect.unit (s := S327680x128) (k1_off2 L 7552#32) S128x128.size (k1_off2_inb L 59)) (fun _ => rfl)).view.loc (thrV d L) ↦[(oV.slice (Rect.unit (s := S327680x128) (k1_off2 L 7552#32) S128x128.size (k1_off2_inb L 59)) (fun _ => rfl)).view.set]{fullShare} (gatherRows (F := F) fh fs : Buf (Elt F) (oV.view.loc (thrV d L))))
          ∗ ((oV.slice (Rect.unit (s := S327680x128) (k1_off2 L 7680#32) S128x128.size (k1_off2_inb L 60)) (fun _ => rfl)).view.loc (thrV d L) ↦[(oV.slice (Rect.unit (s := S327680x128) (k1_off2 L 7680#32) S128x128.size (k1_off2_inb L 60)) (fun _ => rfl)).view.set]{fullShare} (gatherRows (F := F) fh fs : Buf (Elt F) (oV.view.loc (thrV d L))))
          ∗ ((oV.slice (Rect.unit (s := S327680x128) (k1_off2 L 7808#32) S128x128.size (k1_off2_inb L 61)) (fun _ => rfl)).view.loc (thrV d L) ↦[(oV.slice (Rect.unit (s := S327680x128) (k1_off2 L 7808#32) S128x128.size (k1_off2_inb L 61)) (fun _ => rfl)).view.set]{fullShare} (gatherRows (F := F) fh fs : Buf (Elt F) (oV.view.loc (thrV d L))))
          ∗ ((oV.slice (Rect.unit (s := S327680x128) (k1_off2 L 7936#32) S128x128.size (k1_off2_inb L 62)) (fun _ => rfl)).view.loc (thrV d L) ↦[(oV.slice (Rect.unit (s := S327680x128) (k1_off2 L 7936#32) S128x128.size (k1_off2_inb L 62)) (fun _ => rfl)).view.set]{fullShare} (gatherRows (F := F) fh fs : Buf (Elt F) (oV.view.loc (thrV d L))))
          ∗ ((oV.slice (Rect.unit (s := S327680x128) (k1_off2 L 8064#32) S128x128.size (k1_off2_inb L 63)) (fun _ => rfl)).view.loc (thrV d L) ↦[(oV.slice (Rect.unit (s := S327680x128) (k1_off2 L 8064#32) S128x128.size (k1_off2_inb L 63)) (fun _ => rfl)).view.set]{fullShare} (gatherRows (F := F) fh fs : Buf (Elt F) (oV.view.loc (thrV d L))))
          ∗ ((oV.slice (Rect.unit (s := S327680x128) (k1_off2 L 8192#32) S128x128.size (k1_off2_inb L 64)) (fun _ => rfl)).view.loc (thrV d L) ↦[(oV.slice (Rect.unit (s := S327680x128) (k1_off2 L 8192#32) S128x128.size (k1_off2_inb L 64)) (fun _ => rfl)).view.set]{fullShare} (gatherRows (F := F) fh fs : Buf (Elt F) (oV.view.loc (thrV d L))))
          ∗ ((oV.slice (Rect.unit (s := S327680x128) (k1_off2 L 8320#32) S128x128.size (k1_off2_inb L 65)) (fun _ => rfl)).view.loc (thrV d L) ↦[(oV.slice (Rect.unit (s := S327680x128) (k1_off2 L 8320#32) S128x128.size (k1_off2_inb L 65)) (fun _ => rfl)).view.set]{fullShare} (gatherRows (F := F) fh fs : Buf (Elt F) (oV.view.loc (thrV d L))))
          ∗ ((oV.slice (Rect.unit (s := S327680x128) (k1_off2 L 8448#32) S128x128.size (k1_off2_inb L 66)) (fun _ => rfl)).view.loc (thrV d L) ↦[(oV.slice (Rect.unit (s := S327680x128) (k1_off2 L 8448#32) S128x128.size (k1_off2_inb L 66)) (fun _ => rfl)).view.set]{fullShare} (gatherRows (F := F) fh fs : Buf (Elt F) (oV.view.loc (thrV d L))))
          ∗ ((oV.slice (Rect.unit (s := S327680x128) (k1_off2 L 8576#32) S128x128.size (k1_off2_inb L 67)) (fun _ => rfl)).view.loc (thrV d L) ↦[(oV.slice (Rect.unit (s := S327680x128) (k1_off2 L 8576#32) S128x128.size (k1_off2_inb L 67)) (fun _ => rfl)).view.set]{fullShare} (gatherRows (F := F) fh fs : Buf (Elt F) (oV.view.loc (thrV d L))))
          ∗ ((oV.slice (Rect.unit (s := S327680x128) (k1_off2 L 8704#32) S128x128.size (k1_off2_inb L 68)) (fun _ => rfl)).view.loc (thrV d L) ↦[(oV.slice (Rect.unit (s := S327680x128) (k1_off2 L 8704#32) S128x128.size (k1_off2_inb L 68)) (fun _ => rfl)).view.set]{fullShare} (gatherRows (F := F) fh fs : Buf (Elt F) (oV.view.loc (thrV d L))))
          ∗ ((oV.slice (Rect.unit (s := S327680x128) (k1_off2 L 8832#32) S128x128.size (k1_off2_inb L 69)) (fun _ => rfl)).view.loc (thrV d L) ↦[(oV.slice (Rect.unit (s := S327680x128) (k1_off2 L 8832#32) S128x128.size (k1_off2_inb L 69)) (fun _ => rfl)).view.set]{fullShare} (gatherRows (F := F) fh fs : Buf (Elt F) (oV.view.loc (thrV d L))))
          ∗ ((oV.slice (Rect.unit (s := S327680x128) (k1_off2 L 8960#32) S128x128.size (k1_off2_inb L 70)) (fun _ => rfl)).view.loc (thrV d L) ↦[(oV.slice (Rect.unit (s := S327680x128) (k1_off2 L 8960#32) S128x128.size (k1_off2_inb L 70)) (fun _ => rfl)).view.set]{fullShare} (gatherRows (F := F) fh fs : Buf (Elt F) (oV.view.loc (thrV d L))))
          ∗ ((oV.slice (Rect.unit (s := S327680x128) (k1_off2 L 9088#32) S128x128.size (k1_off2_inb L 71)) (fun _ => rfl)).view.loc (thrV d L) ↦[(oV.slice (Rect.unit (s := S327680x128) (k1_off2 L 9088#32) S128x128.size (k1_off2_inb L 71)) (fun _ => rfl)).view.set]{fullShare} (gatherRows (F := F) fh fs : Buf (Elt F) (oV.view.loc (thrV d L))))
          ∗ ((oV.slice (Rect.unit (s := S327680x128) (k1_off2 L 9216#32) S128x128.size (k1_off2_inb L 72)) (fun _ => rfl)).view.loc (thrV d L) ↦[(oV.slice (Rect.unit (s := S327680x128) (k1_off2 L 9216#32) S128x128.size (k1_off2_inb L 72)) (fun _ => rfl)).view.set]{fullShare} (gatherRows (F := F) fh fs : Buf (Elt F) (oV.view.loc (thrV d L))))
          ∗ ((oV.slice (Rect.unit (s := S327680x128) (k1_off2 L 9344#32) S128x128.size (k1_off2_inb L 73)) (fun _ => rfl)).view.loc (thrV d L) ↦[(oV.slice (Rect.unit (s := S327680x128) (k1_off2 L 9344#32) S128x128.size (k1_off2_inb L 73)) (fun _ => rfl)).view.set]{fullShare} (gatherRows (F := F) fh fs : Buf (Elt F) (oV.view.loc (thrV d L))))
          ∗ ((oV.slice (Rect.unit (s := S327680x128) (k1_off2 L 9472#32) S128x128.size (k1_off2_inb L 74)) (fun _ => rfl)).view.loc (thrV d L) ↦[(oV.slice (Rect.unit (s := S327680x128) (k1_off2 L 9472#32) S128x128.size (k1_off2_inb L 74)) (fun _ => rfl)).view.set]{fullShare} (gatherRows (F := F) fh fs : Buf (Elt F) (oV.view.loc (thrV d L))))
          ∗ ((oV.slice (Rect.unit (s := S327680x128) (k1_off2 L 9600#32) S128x128.size (k1_off2_inb L 75)) (fun _ => rfl)).view.loc (thrV d L) ↦[(oV.slice (Rect.unit (s := S327680x128) (k1_off2 L 9600#32) S128x128.size (k1_off2_inb L 75)) (fun _ => rfl)).view.set]{fullShare} (gatherRows (F := F) fh fs : Buf (Elt F) (oV.view.loc (thrV d L))))
          ∗ ((oV.slice (Rect.unit (s := S327680x128) (k1_off2 L 9728#32) S128x128.size (k1_off2_inb L 76)) (fun _ => rfl)).view.loc (thrV d L) ↦[(oV.slice (Rect.unit (s := S327680x128) (k1_off2 L 9728#32) S128x128.size (k1_off2_inb L 76)) (fun _ => rfl)).view.set]{fullShare} (gatherRows (F := F) fh fs : Buf (Elt F) (oV.view.loc (thrV d L))))
          ∗ ((oV.slice (Rect.unit (s := S327680x128) (k1_off2 L 9856#32) S128x128.size (k1_off2_inb L 77)) (fun _ => rfl)).view.loc (thrV d L) ↦[(oV.slice (Rect.unit (s := S327680x128) (k1_off2 L 9856#32) S128x128.size (k1_off2_inb L 77)) (fun _ => rfl)).view.set]{fullShare} (gatherRows (F := F) fh fs : Buf (Elt F) (oV.view.loc (thrV d L))))
          ∗ ((oV.slice (Rect.unit (s := S327680x128) (k1_off2 L 9984#32) S128x128.size (k1_off2_inb L 78)) (fun _ => rfl)).view.loc (thrV d L) ↦[(oV.slice (Rect.unit (s := S327680x128) (k1_off2 L 9984#32) S128x128.size (k1_off2_inb L 78)) (fun _ => rfl)).view.set]{fullShare} (gatherRows (F := F) fh fs : Buf (Elt F) (oV.view.loc (thrV d L))))
          ∗ ((oV.slice (Rect.unit (s := S327680x128) (k1_off2 L 10112#32) S128x128.size (k1_off2_inb L 79)) (fun _ => rfl)).view.loc (thrV d L) ↦[(oV.slice (Rect.unit (s := S327680x128) (k1_off2 L 10112#32) S128x128.size (k1_off2_inb L 79)) (fun _ => rfl)).view.set]{fullShare} (gatherRows (F := F) fh fs : Buf (Elt F) (oV.view.loc (thrV d L))))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ semVal ((thrV d L), SemLoc.dma cc1_scoped0.sem) 0
          ∗ semVal ((thrV d L), SemLoc.dma cc1_scoped1.sem) 0
          ∗ semVal ((thrV d L), SemLoc.dma cc1_scoped2.sem) 0
          ∗ semVal ((thrV d L), SemLoc.dma cc1_scoped3.sem) 0
          ∗ semVal ((thrV d L), SemLoc.dma cc1_scoped4.sem) 0
          ∗ semVal ((thrV d L), SemLoc.dma cc1_scoped5.sem) 0
          ∗ semVal ((thrV d L), SemLoc.dma cc1_scoped6.sem) 0
          ∗ semVal ((thrV d L), SemLoc.dma cc1_scoped7.sem) 0
          ∗ semVal ((thrV d L), SemLoc.dma cc1_scoped8.sem) 0
          ∗ semVal ((thrV d L), SemLoc.dma cc1_scoped9.sem) 0
          ∗ semVal ((thrV d L), SemLoc.dma cc1_scoped10.sem) 0
          ∗ semVal ((thrV d L), SemLoc.dma cc1_scoped11.sem) 0
          ∗ semVal ((thrV d L), SemLoc.dma cc1_scoped12.sem) 0
          ∗ semVal ((thrV d L), SemLoc.dma cc1_scoped13.sem) 0
          ∗ semVal ((thrV d L), SemLoc.dma cc1_scoped14.sem) 0
          ∗ semVal ((thrV d L), SemLoc.dma cc1_scoped15.sem) 0
          ∗ semVal ((thrV d L), SemLoc.dma cc1_scoped16.sem) 0
          ∗ semVal ((thrV d L), SemLoc.dma cc1_scoped17.sem) 0
          ∗ semVal ((thrV d L), SemLoc.dma cc1_scoped18.sem) 0
          ∗ semVal ((thrV d L), SemLoc.dma cc1_scoped19.sem) 0
          ∗ semVal ((thrV d L), SemLoc.dma cc1_scoped20.sem) 0
          ∗ semVal ((thrV d L), SemLoc.dma cc1_scoped21.sem) 0
          ∗ semVal ((thrV d L), SemLoc.dma cc1_scoped22.sem) 0
          ∗ semVal ((thrV d L), SemLoc.dma cc1_scoped23.sem) 0
          ∗ semVal ((thrV d L), SemLoc.dma cc1_scoped24.sem) 0
          ∗ semVal ((thrV d L), SemLoc.dma cc1_scoped25.sem) 0
          ∗ semVal ((thrV d L), SemLoc.dma cc1_scoped26.sem) 0
          ∗ semVal ((thrV d L), SemLoc.dma cc1_scoped27.sem) 0
          ∗ semVal ((thrV d L), SemLoc.dma cc1_scoped28.sem) 0
          ∗ semVal ((thrV d L), SemLoc.dma cc1_scoped29.sem) 0
          ∗ semVal ((thrV d L), SemLoc.dma cc1_scoped30.sem) 0
          ∗ semVal ((thrV d L), SemLoc.dma cc1_scoped31.sem) 0
          ∗ semVal ((thrV d L), SemLoc.dma cc1_scoped32.sem) 0
          ∗ semVal ((thrV d L), SemLoc.dma cc1_scoped33.sem) 0
          ∗ semVal ((thrV d L), SemLoc.dma cc1_scoped34.sem) 0
          ∗ semVal ((thrV d L), SemLoc.dma cc1_scoped35.sem) 0
          ∗ semVal ((thrV d L), SemLoc.dma cc1_scoped36.sem) 0
          ∗ semVal ((thrV d L), SemLoc.dma cc1_scoped37.sem) 0
          ∗ semVal ((thrV d L), SemLoc.dma cc1_scoped38.sem) 0
          ∗ semVal ((thrV d L), SemLoc.dma cc1_scoped39.sem) 0
          ∗ semVal ((thrV d L), SemLoc.dma cc1_scoped40.sem) 0
          ∗ semVal ((thrV d L), SemLoc.dma cc1_scoped41.sem) 0
          ∗ semVal ((thrV d L), SemLoc.dma cc1_scoped42.sem) 0
          ∗ semVal ((thrV d L), SemLoc.dma cc1_scoped43.sem) 0
          ∗ semVal ((thrV d L), SemLoc.dma cc1_scoped44.sem) 0
          ∗ semVal ((thrV d L), SemLoc.dma cc1_scoped45.sem) 0
          ∗ semVal ((thrV d L), SemLoc.dma cc1_scoped46.sem) 0
          ∗ semVal ((thrV d L), SemLoc.dma cc1_scoped47.sem) 0
          ∗ semVal ((thrV d L), SemLoc.dma cc1_scoped48.sem) 0
          ∗ semVal ((thrV d L), SemLoc.dma cc1_scoped49.sem) 0
          ∗ semVal ((thrV d L), SemLoc.dma cc1_scoped50.sem) 0
          ∗ semVal ((thrV d L), SemLoc.dma cc1_scoped51.sem) 0
          ∗ semVal ((thrV d L), SemLoc.dma cc1_scoped52.sem) 0
          ∗ semVal ((thrV d L), SemLoc.dma cc1_scoped53.sem) 0
          ∗ semVal ((thrV d L), SemLoc.dma cc1_scoped54.sem) 0
          ∗ semVal ((thrV d L), SemLoc.dma cc1_scoped55.sem) 0
          ∗ semVal ((thrV d L), SemLoc.dma cc1_scoped56.sem) 0
          ∗ semVal ((thrV d L), SemLoc.dma cc1_scoped57.sem) 0
          ∗ semVal ((thrV d L), SemLoc.dma cc1_scoped58.sem) 0
          ∗ semVal ((thrV d L), SemLoc.dma cc1_scoped59.sem) 0
          ∗ semVal ((thrV d L), SemLoc.dma cc1_scoped60.sem) 0
          ∗ semVal ((thrV d L), SemLoc.dma cc1_scoped61.sem) 0
          ∗ semVal ((thrV d L), SemLoc.dma cc1_scoped62.sem) 0
          ∗ semVal ((thrV d L), SemLoc.dma cc1_scoped63.sem) 0
          ∗ semVal ((thrV d L), SemLoc.dma cc1_scoped64.sem) 0
          ∗ semVal ((thrV d L), SemLoc.dma cc1_scoped65.sem) 0
          ∗ semVal ((thrV d L), SemLoc.dma cc1_scoped66.sem) 0
          ∗ semVal ((thrV d L), SemLoc.dma cc1_scoped67.sem) 0
          ∗ semVal ((thrV d L), SemLoc.dma cc1_scoped68.sem) 0
          ∗ semVal ((thrV d L), SemLoc.dma cc1_scoped69.sem) 0
          ∗ semVal ((thrV d L), SemLoc.dma cc1_scoped70.sem) 0
          ∗ semVal ((thrV d L), SemLoc.dma cc1_scoped71.sem) 0
          ∗ semVal ((thrV d L), SemLoc.dma cc1_scoped72.sem) 0
          ∗ semVal ((thrV d L), SemLoc.dma cc1_scoped73.sem) 0
          ∗ semVal ((thrV d L), SemLoc.dma cc1_scoped74.sem) 0
          ∗ semVal ((thrV d L), SemLoc.dma cc1_scoped75.sem) 0
          ∗ semVal ((thrV d L), SemLoc.dma cc1_scoped76.sem) 0
          ∗ semVal ((thrV d L), SemLoc.dma cc1_scoped77.sem) 0
          ∗ semVal ((thrV d L), SemLoc.dma cc1_scoped78.sem) 0
          ∗ semVal ((thrV d L), SemLoc.dma cc1_scoped79.sem) 0
          ∗ semVal ((thrV d L), SemLoc.dma cc1_scoped80.sem) 0
          ∗ semVal ((thrV d L), SemLoc.dma cc1_scoped81.sem) 0
          ∗ semVal ((thrV d L), SemLoc.dma cc1_scoped82.sem) 0
          ∗ semVal ((thrV d L), SemLoc.dma cc1_scoped83.sem) 0
          ∗ semVal ((thrV d L), SemLoc.dma cc1_scoped84.sem) 0
          ∗ semVal ((thrV d L), SemLoc.dma cc1_scoped85.sem) 0
          ∗ semVal ((thrV d L), SemLoc.dma cc1_scoped86.sem) 0
          ∗ semVal ((thrV d L), SemLoc.dma cc1_scoped87.sem) 0
          ∗ semVal ((thrV d L), SemLoc.dma cc1_scoped88.sem) 0
          ∗ semVal ((thrV d L), SemLoc.dma cc1_scoped89.sem) 0
          ∗ semVal ((thrV d L), SemLoc.dma cc1_scoped90.sem) 0
          ∗ semVal ((thrV d L), SemLoc.dma cc1_scoped91.sem) 0
          ∗ semVal ((thrV d L), SemLoc.dma cc1_scoped92.sem) 0
          ∗ semVal ((thrV d L), SemLoc.dma cc1_scoped93.sem) 0
          ∗ semVal ((thrV d L), SemLoc.dma cc1_scoped94.sem) 0
          ∗ semVal ((thrV d L), SemLoc.dma cc1_scoped95.sem) 0
          ∗ semVal ((thrV d L), SemLoc.dma cc1_scoped96.sem) 0
          ∗ semVal ((thrV d L), SemLoc.dma cc1_scoped97.sem) 0
          ∗ semVal ((thrV d L), SemLoc.dma cc1_scoped98.sem) 0
          ∗ semVal ((thrV d L), SemLoc.dma cc1_scoped99.sem) 0
          ∗ semVal ((thrV d L), SemLoc.dma cc1_scoped100.sem) 0
          ∗ semVal ((thrV d L), SemLoc.dma cc1_scoped101.sem) 0
          ∗ semVal ((thrV d L), SemLoc.dma cc1_scoped102.sem) 0
          ∗ semVal ((thrV d L), SemLoc.dma cc1_scoped103.sem) 0
          ∗ semVal ((thrV d L), SemLoc.dma cc1_scoped104.sem) 0
          ∗ semVal ((thrV d L), SemLoc.dma cc1_scoped105.sem) 0
          ∗ semVal ((thrV d L), SemLoc.dma cc1_scoped106.sem) 0
          ∗ semVal ((thrV d L), SemLoc.dma cc1_scoped107.sem) 0
          ∗ semVal ((thrV d L), SemLoc.dma cc1_scoped108.sem) 0
          ∗ semVal ((thrV d L), SemLoc.dma cc1_scoped109.sem) 0
          ∗ semVal ((thrV d L), SemLoc.dma cc1_scoped110.sem) 0
          ∗ semVal ((thrV d L), SemLoc.dma cc1_scoped111.sem) 0
          ∗ semVal ((thrV d L), SemLoc.dma cc1_scoped112.sem) 0
          ∗ semVal ((thrV d L), SemLoc.dma cc1_scoped113.sem) 0
          ∗ semVal ((thrV d L), SemLoc.dma cc1_scoped114.sem) 0
          ∗ semVal ((thrV d L), SemLoc.dma cc1_scoped115.sem) 0
          ∗ semVal ((thrV d L), SemLoc.dma cc1_scoped116.sem) 0
          ∗ semVal ((thrV d L), SemLoc.dma cc1_scoped117.sem) 0
          ∗ semVal ((thrV d L), SemLoc.dma cc1_scoped118.sem) 0
          ∗ semVal ((thrV d L), SemLoc.dma cc1_scoped119.sem) 0
          ∗ semVal ((thrV d L), SemLoc.dma cc1_scoped120.sem) 0
          ∗ semVal ((thrV d L), SemLoc.dma cc1_scoped121.sem) 0
          ∗ semVal ((thrV d L), SemLoc.dma cc1_scoped122.sem) 0
          ∗ semVal ((thrV d L), SemLoc.dma cc1_scoped123.sem) 0
          ∗ semVal ((thrV d L), SemLoc.dma cc1_scoped124.sem) 0
          ∗ semVal ((thrV d L), SemLoc.dma cc1_scoped125.sem) 0
          ∗ semVal ((thrV d L), SemLoc.dma cc1_scoped126.sem) 0
          ∗ semVal ((thrV d L), SemLoc.dma cc1_scoped127.sem) 0
          ∗ semVal ((thrV d L), SemLoc.dma cc1_scoped128.sem) 0
          ∗ semVal ((thrV d L), SemLoc.dma cc1_scoped129.sem) 0
          ∗ semVal ((thrV d L), SemLoc.dma cc1_scoped130.sem) 0
          ∗ semVal ((thrV d L), SemLoc.dma cc1_scoped131.sem) 0
          ∗ semVal ((thrV d L), SemLoc.dma cc1_scoped132.sem) 0
          ∗ semVal ((thrV d L), SemLoc.dma cc1_scoped133.sem) 0
          ∗ semVal ((thrV d L), SemLoc.dma cc1_scoped134.sem) 0
          ∗ semVal ((thrV d L), SemLoc.dma cc1_scoped135.sem) 0
          ∗ semVal ((thrV d L), SemLoc.dma cc1_scoped136.sem) 0
          ∗ semVal ((thrV d L), SemLoc.dma cc1_scoped137.sem) 0
          ∗ semVal ((thrV d L), SemLoc.dma cc1_scoped138.sem) 0
          ∗ semVal ((thrV d L), SemLoc.dma cc1_scoped139.sem) 0
          ∗ semVal ((thrV d L), SemLoc.dma cc1_scoped140.sem) 0
          ∗ semVal ((thrV d L), SemLoc.dma cc1_scoped141.sem) 0
          ∗ semVal ((thrV d L), SemLoc.dma cc1_scoped142.sem) 0
          ∗ semVal ((thrV d L), SemLoc.dma cc1_scoped143.sem) 0
          ∗ semVal ((thrV d L), SemLoc.dma cc1_scoped144.sem) 0
          ∗ semVal ((thrV d L), SemLoc.dma cc1_scoped145.sem) 0
          ∗ semVal ((thrV d L), SemLoc.dma cc1_scoped146.sem) 0
          ∗ semVal ((thrV d L), SemLoc.dma cc1_scoped147.sem) 0
          ∗ semVal ((thrV d L), SemLoc.dma cc1_scoped148.sem) 0
          ∗ semVal ((thrV d L), SemLoc.dma cc1_scoped149.sem) 0
          ∗ semVal ((thrV d L), SemLoc.dma cc1_scoped150.sem) 0
          ∗ semVal ((thrV d L), SemLoc.dma cc1_scoped151.sem) 0
          ∗ semVal ((thrV d L), SemLoc.dma cc1_scoped152.sem) 0
          ∗ semVal ((thrV d L), SemLoc.dma cc1_scoped153.sem) 0
          ∗ semVal ((thrV d L), SemLoc.dma cc1_scoped154.sem) 0
          ∗ semVal ((thrV d L), SemLoc.dma cc1_scoped155.sem) 0
          ∗ semVal ((thrV d L), SemLoc.dma cc1_scoped156.sem) 0
          ∗ semVal ((thrV d L), SemLoc.dma cc1_scoped157.sem) 0
          ∗ semVal ((thrV d L), SemLoc.dma cc1_scoped158.sem) 0
          ∗ semVal ((thrV d L), SemLoc.dma cc1_scoped159.sem) 0
          ∗ semVal ((thrV d L), SemLoc.dma cc1_scoped160.sem) 0
          ∗ semVal ((thrV d L), SemLoc.dma cc1_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q := by
  iintro ⟨#Hmw, Hh, Hs, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Ho50, Ho51, Ho52, Ho53, Ho54, Ho55, Ho56, Ho57, Ho58, Ho59, Ho60, Ho61, Ho62, Ho63, Ho64, Ho65, Ho66, Ho67, Ho68, Ho69, Ho70, Ho71, Ho72, Ho73, Ho74, Ho75, Ho76, Ho77, Ho78, Ho79, H0, H1, H2, H3, H4, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56, Hc57, Hc58, Hc59, Hc60, Hc61, Hc62, Hc63, Hc64, Hc65, Hc66, Hc67, Hc68, Hc69, Hc70, Hc71, Hc72, Hc73, Hc74, Hc75, Hc76, Hc77, Hc78, Hc79, Hc80, Hc81, Hc82, Hc83, Hc84, Hc85, Hc86, Hc87, Hc88, Hc89, Hc90, Hc91, Hc92, Hc93, Hc94, Hc95, Hc96, Hc97, Hc98, Hc99, Hc100, Hc101, Hc102, Hc103, Hc104, Hc105, Hc106, Hc107, Hc108, Hc109, Hc110, Hc111, Hc112, Hc113, Hc114, Hc115, Hc116, Hc117, Hc118, Hc119, Hc120, Hc121, Hc122, Hc123, Hc124, Hc125, Hc126, Hc127, Hc128, Hc129, Hc130, Hc131, Hc132, Hc133, Hc134, Hc135, Hc136, Hc137, Hc138, Hc139, Hc140, Hc141, Hc142, Hc143, Hc144, Hc145, Hc146, Hc147, Hc148, Hc149, Hc150, Hc151, Hc152, Hc153, Hc154, Hc155, Hc156, Hc157, Hc158, Hc159, Hc160, Hc161, HO, Hk⟩
  have hin := idx_inb d L fs hfs
  have hio := iota_inb (F := F)
  sl_exec_parts!
  sl_step
  iapply Hk
  isplitl [Hh]; · iexact Hh
  isplitl [Hs]; · iexact Hs
  isplitl [Ho0]
  · iapply (Entails.of_eq (pointsTo_congr (window_value d L fh fs hfs fo 0 (by decide) 0#32 rfl _ _ _ _ _ _ _ _ _ _ _ _ _))) $$ Ho0
  isplitl [Ho1]
  · iapply (Entails.of_eq (pointsTo_congr (window_value d L fh fs hfs fo 1 (by decide) 128#32 rfl _ _ _ _ _ _ _ _ _ _ _ _ _))) $$ Ho1
  isplitl [Ho2]
  · iapply (Entails.of_eq (pointsTo_congr (window_value d L fh fs hfs fo 2 (by decide) 256#32 rfl _ _ _ _ _ _ _ _ _ _ _ _ _))) $$ Ho2
  isplitl [Ho3]
  · iapply (Entails.of_eq (pointsTo_congr (window_value d L fh fs hfs fo 3 (by decide) 384#32 rfl _ _ _ _ _ _ _ _ _ _ _ _ _))) $$ Ho3
  isplitl [Ho4]
  · iapply (Entails.of_eq (pointsTo_congr (window_value d L fh fs hfs fo 4 (by decide) 512#32 rfl _ _ _ _ _ _ _ _ _ _ _ _ _))) $$ Ho4
  isplitl [Ho5]
  · iapply (Entails.of_eq (pointsTo_congr (window_value d L fh fs hfs fo 5 (by decide) 640#32 rfl _ _ _ _ _ _ _ _ _ _ _ _ _))) $$ Ho5
  isplitl [Ho6]
  · iapply (Entails.of_eq (pointsTo_congr (window_value d L fh fs hfs fo 6 (by decide) 768#32 rfl _ _ _ _ _ _ _ _ _ _ _ _ _))) $$ Ho6
  isplitl [Ho7]
  · iapply (Entails.of_eq (pointsTo_congr (window_value d L fh fs hfs fo 7 (by decide) 896#32 rfl _ _ _ _ _ _ _ _ _ _ _ _ _))) $$ Ho7
  isplitl [Ho8]
  · iapply (Entails.of_eq (pointsTo_congr (window_value d L fh fs hfs fo 8 (by decide) 1024#32 rfl _ _ _ _ _ _ _ _ _ _ _ _ _))) $$ Ho8
  isplitl [Ho9]
  · iapply (Entails.of_eq (pointsTo_congr (window_value d L fh fs hfs fo 9 (by decide) 1152#32 rfl _ _ _ _ _ _ _ _ _ _ _ _ _))) $$ Ho9
  isplitl [Ho10]
  · iapply (Entails.of_eq (pointsTo_congr (window_value d L fh fs hfs fo 10 (by decide) 1280#32 rfl _ _ _ _ _ _ _ _ _ _ _ _ _))) $$ Ho10
  isplitl [Ho11]
  · iapply (Entails.of_eq (pointsTo_congr (window_value d L fh fs hfs fo 11 (by decide) 1408#32 rfl _ _ _ _ _ _ _ _ _ _ _ _ _))) $$ Ho11
  isplitl [Ho12]
  · iapply (Entails.of_eq (pointsTo_congr (window_value d L fh fs hfs fo 12 (by decide) 1536#32 rfl _ _ _ _ _ _ _ _ _ _ _ _ _))) $$ Ho12
  isplitl [Ho13]
  · iapply (Entails.of_eq (pointsTo_congr (window_value d L fh fs hfs fo 13 (by decide) 1664#32 rfl _ _ _ _ _ _ _ _ _ _ _ _ _))) $$ Ho13
  isplitl [Ho14]
  · iapply (Entails.of_eq (pointsTo_congr (window_value d L fh fs hfs fo 14 (by decide) 1792#32 rfl _ _ _ _ _ _ _ _ _ _ _ _ _))) $$ Ho14
  isplitl [Ho15]
  · iapply (Entails.of_eq (pointsTo_congr (window_value d L fh fs hfs fo 15 (by decide) 1920#32 rfl _ _ _ _ _ _ _ _ _ _ _ _ _))) $$ Ho15
  isplitl [Ho16]
  · iapply (Entails.of_eq (pointsTo_congr (window_value d L fh fs hfs fo 16 (by decide) 2048#32 rfl _ _ _ _ _ _ _ _ _ _ _ _ _))) $$ Ho16
  isplitl [Ho17]
  · iapply (Entails.of_eq (pointsTo_congr (window_value d L fh fs hfs fo 17 (by decide) 2176#32 rfl _ _ _ _ _ _ _ _ _ _ _ _ _))) $$ Ho17
  isplitl [Ho18]
  · iapply (Entails.of_eq (pointsTo_congr (window_value d L fh fs hfs fo 18 (by decide) 2304#32 rfl _ _ _ _ _ _ _ _ _ _ _ _ _))) $$ Ho18
  isplitl [Ho19]
  · iapply (Entails.of_eq (pointsTo_congr (window_value d L fh fs hfs fo 19 (by decide) 2432#32 rfl _ _ _ _ _ _ _ _ _ _ _ _ _))) $$ Ho19
  isplitl [Ho20]
  · iapply (Entails.of_eq (pointsTo_congr (window_value d L fh fs hfs fo 20 (by decide) 2560#32 rfl _ _ _ _ _ _ _ _ _ _ _ _ _))) $$ Ho20
  isplitl [Ho21]
  · iapply (Entails.of_eq (pointsTo_congr (window_value d L fh fs hfs fo 21 (by decide) 2688#32 rfl _ _ _ _ _ _ _ _ _ _ _ _ _))) $$ Ho21
  isplitl [Ho22]
  · iapply (Entails.of_eq (pointsTo_congr (window_value d L fh fs hfs fo 22 (by decide) 2816#32 rfl _ _ _ _ _ _ _ _ _ _ _ _ _))) $$ Ho22
  isplitl [Ho23]
  · iapply (Entails.of_eq (pointsTo_congr (window_value d L fh fs hfs fo 23 (by decide) 2944#32 rfl _ _ _ _ _ _ _ _ _ _ _ _ _))) $$ Ho23
  isplitl [Ho24]
  · iapply (Entails.of_eq (pointsTo_congr (window_value d L fh fs hfs fo 24 (by decide) 3072#32 rfl _ _ _ _ _ _ _ _ _ _ _ _ _))) $$ Ho24
  isplitl [Ho25]
  · iapply (Entails.of_eq (pointsTo_congr (window_value d L fh fs hfs fo 25 (by decide) 3200#32 rfl _ _ _ _ _ _ _ _ _ _ _ _ _))) $$ Ho25
  isplitl [Ho26]
  · iapply (Entails.of_eq (pointsTo_congr (window_value d L fh fs hfs fo 26 (by decide) 3328#32 rfl _ _ _ _ _ _ _ _ _ _ _ _ _))) $$ Ho26
  isplitl [Ho27]
  · iapply (Entails.of_eq (pointsTo_congr (window_value d L fh fs hfs fo 27 (by decide) 3456#32 rfl _ _ _ _ _ _ _ _ _ _ _ _ _))) $$ Ho27
  isplitl [Ho28]
  · iapply (Entails.of_eq (pointsTo_congr (window_value d L fh fs hfs fo 28 (by decide) 3584#32 rfl _ _ _ _ _ _ _ _ _ _ _ _ _))) $$ Ho28
  isplitl [Ho29]
  · iapply (Entails.of_eq (pointsTo_congr (window_value d L fh fs hfs fo 29 (by decide) 3712#32 rfl _ _ _ _ _ _ _ _ _ _ _ _ _))) $$ Ho29
  isplitl [Ho30]
  · iapply (Entails.of_eq (pointsTo_congr (window_value d L fh fs hfs fo 30 (by decide) 3840#32 rfl _ _ _ _ _ _ _ _ _ _ _ _ _))) $$ Ho30
  isplitl [Ho31]
  · iapply (Entails.of_eq (pointsTo_congr (window_value d L fh fs hfs fo 31 (by decide) 3968#32 rfl _ _ _ _ _ _ _ _ _ _ _ _ _))) $$ Ho31
  isplitl [Ho32]
  · iapply (Entails.of_eq (pointsTo_congr (window_value d L fh fs hfs fo 32 (by decide) 4096#32 rfl _ _ _ _ _ _ _ _ _ _ _ _ _))) $$ Ho32
  isplitl [Ho33]
  · iapply (Entails.of_eq (pointsTo_congr (window_value d L fh fs hfs fo 33 (by decide) 4224#32 rfl _ _ _ _ _ _ _ _ _ _ _ _ _))) $$ Ho33
  isplitl [Ho34]
  · iapply (Entails.of_eq (pointsTo_congr (window_value d L fh fs hfs fo 34 (by decide) 4352#32 rfl _ _ _ _ _ _ _ _ _ _ _ _ _))) $$ Ho34
  isplitl [Ho35]
  · iapply (Entails.of_eq (pointsTo_congr (window_value d L fh fs hfs fo 35 (by decide) 4480#32 rfl _ _ _ _ _ _ _ _ _ _ _ _ _))) $$ Ho35
  isplitl [Ho36]
  · iapply (Entails.of_eq (pointsTo_congr (window_value d L fh fs hfs fo 36 (by decide) 4608#32 rfl _ _ _ _ _ _ _ _ _ _ _ _ _))) $$ Ho36
  isplitl [Ho37]
  · iapply (Entails.of_eq (pointsTo_congr (window_value d L fh fs hfs fo 37 (by decide) 4736#32 rfl _ _ _ _ _ _ _ _ _ _ _ _ _))) $$ Ho37
  isplitl [Ho38]
  · iapply (Entails.of_eq (pointsTo_congr (window_value d L fh fs hfs fo 38 (by decide) 4864#32 rfl _ _ _ _ _ _ _ _ _ _ _ _ _))) $$ Ho38
  isplitl [Ho39]
  · iapply (Entails.of_eq (pointsTo_congr (window_value d L fh fs hfs fo 39 (by decide) 4992#32 rfl _ _ _ _ _ _ _ _ _ _ _ _ _))) $$ Ho39
  isplitl [Ho40]
  · iapply (Entails.of_eq (pointsTo_congr (window_value d L fh fs hfs fo 40 (by decide) 5120#32 rfl _ _ _ _ _ _ _ _ _ _ _ _ _))) $$ Ho40
  isplitl [Ho41]
  · iapply (Entails.of_eq (pointsTo_congr (window_value d L fh fs hfs fo 41 (by decide) 5248#32 rfl _ _ _ _ _ _ _ _ _ _ _ _ _))) $$ Ho41
  isplitl [Ho42]
  · iapply (Entails.of_eq (pointsTo_congr (window_value d L fh fs hfs fo 42 (by decide) 5376#32 rfl _ _ _ _ _ _ _ _ _ _ _ _ _))) $$ Ho42
  isplitl [Ho43]
  · iapply (Entails.of_eq (pointsTo_congr (window_value d L fh fs hfs fo 43 (by decide) 5504#32 rfl _ _ _ _ _ _ _ _ _ _ _ _ _))) $$ Ho43
  isplitl [Ho44]
  · iapply (Entails.of_eq (pointsTo_congr (window_value d L fh fs hfs fo 44 (by decide) 5632#32 rfl _ _ _ _ _ _ _ _ _ _ _ _ _))) $$ Ho44
  isplitl [Ho45]
  · iapply (Entails.of_eq (pointsTo_congr (window_value d L fh fs hfs fo 45 (by decide) 5760#32 rfl _ _ _ _ _ _ _ _ _ _ _ _ _))) $$ Ho45
  isplitl [Ho46]
  · iapply (Entails.of_eq (pointsTo_congr (window_value d L fh fs hfs fo 46 (by decide) 5888#32 rfl _ _ _ _ _ _ _ _ _ _ _ _ _))) $$ Ho46
  isplitl [Ho47]
  · iapply (Entails.of_eq (pointsTo_congr (window_value d L fh fs hfs fo 47 (by decide) 6016#32 rfl _ _ _ _ _ _ _ _ _ _ _ _ _))) $$ Ho47
  isplitl [Ho48]
  · iapply (Entails.of_eq (pointsTo_congr (window_value d L fh fs hfs fo 48 (by decide) 6144#32 rfl _ _ _ _ _ _ _ _ _ _ _ _ _))) $$ Ho48
  isplitl [Ho49]
  · iapply (Entails.of_eq (pointsTo_congr (window_value d L fh fs hfs fo 49 (by decide) 6272#32 rfl _ _ _ _ _ _ _ _ _ _ _ _ _))) $$ Ho49
  isplitl [Ho50]
  · iapply (Entails.of_eq (pointsTo_congr (window_value d L fh fs hfs fo 50 (by decide) 6400#32 rfl _ _ _ _ _ _ _ _ _ _ _ _ _))) $$ Ho50
  isplitl [Ho51]
  · iapply (Entails.of_eq (pointsTo_congr (window_value d L fh fs hfs fo 51 (by decide) 6528#32 rfl _ _ _ _ _ _ _ _ _ _ _ _ _))) $$ Ho51
  isplitl [Ho52]
  · iapply (Entails.of_eq (pointsTo_congr (window_value d L fh fs hfs fo 52 (by decide) 6656#32 rfl _ _ _ _ _ _ _ _ _ _ _ _ _))) $$ Ho52
  isplitl [Ho53]
  · iapply (Entails.of_eq (pointsTo_congr (window_value d L fh fs hfs fo 53 (by decide) 6784#32 rfl _ _ _ _ _ _ _ _ _ _ _ _ _))) $$ Ho53
  isplitl [Ho54]
  · iapply (Entails.of_eq (pointsTo_congr (window_value d L fh fs hfs fo 54 (by decide) 6912#32 rfl _ _ _ _ _ _ _ _ _ _ _ _ _))) $$ Ho54
  isplitl [Ho55]
  · iapply (Entails.of_eq (pointsTo_congr (window_value d L fh fs hfs fo 55 (by decide) 7040#32 rfl _ _ _ _ _ _ _ _ _ _ _ _ _))) $$ Ho55
  isplitl [Ho56]
  · iapply (Entails.of_eq (pointsTo_congr (window_value d L fh fs hfs fo 56 (by decide) 7168#32 rfl _ _ _ _ _ _ _ _ _ _ _ _ _))) $$ Ho56
  isplitl [Ho57]
  · iapply (Entails.of_eq (pointsTo_congr (window_value d L fh fs hfs fo 57 (by decide) 7296#32 rfl _ _ _ _ _ _ _ _ _ _ _ _ _))) $$ Ho57
  isplitl [Ho58]
  · iapply (Entails.of_eq (pointsTo_congr (window_value d L fh fs hfs fo 58 (by decide) 7424#32 rfl _ _ _ _ _ _ _ _ _ _ _ _ _))) $$ Ho58
  isplitl [Ho59]
  · iapply (Entails.of_eq (pointsTo_congr (window_value d L fh fs hfs fo 59 (by decide) 7552#32 rfl _ _ _ _ _ _ _ _ _ _ _ _ _))) $$ Ho59
  isplitl [Ho60]
  · iapply (Entails.of_eq (pointsTo_congr (window_value d L fh fs hfs fo 60 (by decide) 7680#32 rfl _ _ _ _ _ _ _ _ _ _ _ _ _))) $$ Ho60
  isplitl [Ho61]
  · iapply (Entails.of_eq (pointsTo_congr (window_value d L fh fs hfs fo 61 (by decide) 7808#32 rfl _ _ _ _ _ _ _ _ _ _ _ _ _))) $$ Ho61
  isplitl [Ho62]
  · iapply (Entails.of_eq (pointsTo_congr (window_value d L fh fs hfs fo 62 (by decide) 7936#32 rfl _ _ _ _ _ _ _ _ _ _ _ _ _))) $$ Ho62
  isplitl [Ho63]
  · iapply (Entails.of_eq (pointsTo_congr (window_value d L fh fs hfs fo 63 (by decide) 8064#32 rfl _ _ _ _ _ _ _ _ _ _ _ _ _))) $$ Ho63
  isplitl [Ho64]
  · iapply (Entails.of_eq (pointsTo_congr (window_value d L fh fs hfs fo 64 (by decide) 8192#32 rfl _ _ _ _ _ _ _ _ _ _ _ _ _))) $$ Ho64
  isplitl [Ho65]
  · iapply (Entails.of_eq (pointsTo_congr (window_value d L fh fs hfs fo 65 (by decide) 8320#32 rfl _ _ _ _ _ _ _ _ _ _ _ _ _))) $$ Ho65
  isplitl [Ho66]
  · iapply (Entails.of_eq (pointsTo_congr (window_value d L fh fs hfs fo 66 (by decide) 8448#32 rfl _ _ _ _ _ _ _ _ _ _ _ _ _))) $$ Ho66
  isplitl [Ho67]
  · iapply (Entails.of_eq (pointsTo_congr (window_value d L fh fs hfs fo 67 (by decide) 8576#32 rfl _ _ _ _ _ _ _ _ _ _ _ _ _))) $$ Ho67
  isplitl [Ho68]
  · iapply (Entails.of_eq (pointsTo_congr (window_value d L fh fs hfs fo 68 (by decide) 8704#32 rfl _ _ _ _ _ _ _ _ _ _ _ _ _))) $$ Ho68
  isplitl [Ho69]
  · iapply (Entails.of_eq (pointsTo_congr (window_value d L fh fs hfs fo 69 (by decide) 8832#32 rfl _ _ _ _ _ _ _ _ _ _ _ _ _))) $$ Ho69
  isplitl [Ho70]
  · iapply (Entails.of_eq (pointsTo_congr (window_value d L fh fs hfs fo 70 (by decide) 8960#32 rfl _ _ _ _ _ _ _ _ _ _ _ _ _))) $$ Ho70
  isplitl [Ho71]
  · iapply (Entails.of_eq (pointsTo_congr (window_value d L fh fs hfs fo 71 (by decide) 9088#32 rfl _ _ _ _ _ _ _ _ _ _ _ _ _))) $$ Ho71
  isplitl [Ho72]
  · iapply (Entails.of_eq (pointsTo_congr (window_value d L fh fs hfs fo 72 (by decide) 9216#32 rfl _ _ _ _ _ _ _ _ _ _ _ _ _))) $$ Ho72
  isplitl [Ho73]
  · iapply (Entails.of_eq (pointsTo_congr (window_value d L fh fs hfs fo 73 (by decide) 9344#32 rfl _ _ _ _ _ _ _ _ _ _ _ _ _))) $$ Ho73
  isplitl [Ho74]
  · iapply (Entails.of_eq (pointsTo_congr (window_value d L fh fs hfs fo 74 (by decide) 9472#32 rfl _ _ _ _ _ _ _ _ _ _ _ _ _))) $$ Ho74
  isplitl [Ho75]
  · iapply (Entails.of_eq (pointsTo_congr (window_value d L fh fs hfs fo 75 (by decide) 9600#32 rfl _ _ _ _ _ _ _ _ _ _ _ _ _))) $$ Ho75
  isplitl [Ho76]
  · iapply (Entails.of_eq (pointsTo_congr (window_value d L fh fs hfs fo 76 (by decide) 9728#32 rfl _ _ _ _ _ _ _ _ _ _ _ _ _))) $$ Ho76
  isplitl [Ho77]
  · iapply (Entails.of_eq (pointsTo_congr (window_value d L fh fs hfs fo 77 (by decide) 9856#32 rfl _ _ _ _ _ _ _ _ _ _ _ _ _))) $$ Ho77
  isplitl [Ho78]
  · iapply (Entails.of_eq (pointsTo_congr (window_value d L fh fs hfs fo 78 (by decide) 9984#32 rfl _ _ _ _ _ _ _ _ _ _ _ _ _))) $$ Ho78
  isplitl [Ho79]
  · iapply (Entails.of_eq (pointsTo_congr (window_value d L fh fs hfs fo 79 (by decide) 10112#32 rfl _ _ _ _ _ _ _ _ _ _ _ _ _))) $$ Ho79
  isplitl [H0]; · iexists _; iexact H0
  isplitl [H1]; · iexists _; iexact H1
  isplitl [H2]; · iexists _; iexact H2
  isplitl [H3]; · iexists _; iexact H3
  isplitl [H4]; · iexists _; iexact H4
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Hc26]; · iexact Hc26
  isplitl [Hc27]; · iexact Hc27
  isplitl [Hc28]; · iexact Hc28
  isplitl [Hc29]; · iexact Hc29
  isplitl [Hc30]; · iexact Hc30
  isplitl [Hc31]; · iexact Hc31
  isplitl [Hc32]; · iexact Hc32
  isplitl [Hc33]; · iexact Hc33
  isplitl [Hc34]; · iexact Hc34
  isplitl [Hc35]; · iexact Hc35
  isplitl [Hc36]; · iexact Hc36
  isplitl [Hc37]; · iexact Hc37
  isplitl [Hc38]; · iexact Hc38
  isplitl [Hc39]; · iexact Hc39
  isplitl [Hc40]; · iexact Hc40
  isplitl [Hc41]; · iexact Hc41
  isplitl [Hc42]; · iexact Hc42
  isplitl [Hc43]; · iexact Hc43
  isplitl [Hc44]; · iexact Hc44
  isplitl [Hc45]; · iexact Hc45
  isplitl [Hc46]; · iexact Hc46
  isplitl [Hc47]; · iexact Hc47
  isplitl [Hc48]; · iexact Hc48
  isplitl [Hc49]; · iexact Hc49
  isplitl [Hc50]; · iexact Hc50
  isplitl [Hc51]; · iexact Hc51
  isplitl [Hc52]; · iexact Hc52
  isplitl [Hc53]; · iexact Hc53
  isplitl [Hc54]; · iexact Hc54
  isplitl [Hc55]; · iexact Hc55
  isplitl [Hc56]; · iexact Hc56
  isplitl [Hc57]; · iexact Hc57
  isplitl [Hc58]; · iexact Hc58
  isplitl [Hc59]; · iexact Hc59
  isplitl [Hc60]; · iexact Hc60
  isplitl [Hc61]; · iexact Hc61
  isplitl [Hc62]; · iexact Hc62
  isplitl [Hc63]; · iexact Hc63
  isplitl [Hc64]; · iexact Hc64
  isplitl [Hc65]; · iexact Hc65
  isplitl [Hc66]; · iexact Hc66
  isplitl [Hc67]; · iexact Hc67
  isplitl [Hc68]; · iexact Hc68
  isplitl [Hc69]; · iexact Hc69
  isplitl [Hc70]; · iexact Hc70
  isplitl [Hc71]; · iexact Hc71
  isplitl [Hc72]; · iexact Hc72
  isplitl [Hc73]; · iexact Hc73
  isplitl [Hc74]; · iexact Hc74
  isplitl [Hc75]; · iexact Hc75
  isplitl [Hc76]; · iexact Hc76
  isplitl [Hc77]; · iexact Hc77
  isplitl [Hc78]; · iexact Hc78
  isplitl [Hc79]; · iexact Hc79
  isplitl [Hc80]; · iexact Hc80
  isplitl [Hc81]; · iexact Hc81
  isplitl [Hc82]; · iexact Hc82
  isplitl [Hc83]; · iexact Hc83
  isplitl [Hc84]; · iexact Hc84
  isplitl [Hc85]; · iexact Hc85
  isplitl [Hc86]; · iexact Hc86
  isplitl [Hc87]; · iexact Hc87
  isplitl [Hc88]; · iexact Hc88
  isplitl [Hc89]; · iexact Hc89
  isplitl [Hc90]; · iexact Hc90
  isplitl [Hc91]; · iexact Hc91
  isplitl [Hc92]; · iexact Hc92
  isplitl [Hc93]; · iexact Hc93
  isplitl [Hc94]; · iexact Hc94
  isplitl [Hc95]; · iexact Hc95
  isplitl [Hc96]; · iexact Hc96
  isplitl [Hc97]; · iexact Hc97
  isplitl [Hc98]; · iexact Hc98
  isplitl [Hc99]; · iexact Hc99
  isplitl [Hc100]; · iexact Hc100
  isplitl [Hc101]; · iexact Hc101
  isplitl [Hc102]; · iexact Hc102
  isplitl [Hc103]; · iexact Hc103
  isplitl [Hc104]; · iexact Hc104
  isplitl [Hc105]; · iexact Hc105
  isplitl [Hc106]; · iexact Hc106
  isplitl [Hc107]; · iexact Hc107
  isplitl [Hc108]; · iexact Hc108
  isplitl [Hc109]; · iexact Hc109
  isplitl [Hc110]; · iexact Hc110
  isplitl [Hc111]; · iexact Hc111
  isplitl [Hc112]; · iexact Hc112
  isplitl [Hc113]; · iexact Hc113
  isplitl [Hc114]; · iexact Hc114
  isplitl [Hc115]; · iexact Hc115
  isplitl [Hc116]; · iexact Hc116
  isplitl [Hc117]; · iexact Hc117
  isplitl [Hc118]; · iexact Hc118
  isplitl [Hc119]; · iexact Hc119
  isplitl [Hc120]; · iexact Hc120
  isplitl [Hc121]; · iexact Hc121
  isplitl [Hc122]; · iexact Hc122
  isplitl [Hc123]; · iexact Hc123
  isplitl [Hc124]; · iexact Hc124
  isplitl [Hc125]; · iexact Hc125
  isplitl [Hc126]; · iexact Hc126
  isplitl [Hc127]; · iexact Hc127
  isplitl [Hc128]; · iexact Hc128
  isplitl [Hc129]; · iexact Hc129
  isplitl [Hc130]; · iexact Hc130
  isplitl [Hc131]; · iexact Hc131
  isplitl [Hc132]; · iexact Hc132
  isplitl [Hc133]; · iexact Hc133
  isplitl [Hc134]; · iexact Hc134
  isplitl [Hc135]; · iexact Hc135
  isplitl [Hc136]; · iexact Hc136
  isplitl [Hc137]; · iexact Hc137
  isplitl [Hc138]; · iexact Hc138
  isplitl [Hc139]; · iexact Hc139
  isplitl [Hc140]; · iexact Hc140
  isplitl [Hc141]; · iexact Hc141
  isplitl [Hc142]; · iexact Hc142
  isplitl [Hc143]; · iexact Hc143
  isplitl [Hc144]; · iexact Hc144
  isplitl [Hc145]; · iexact Hc145
  isplitl [Hc146]; · iexact Hc146
  isplitl [Hc147]; · iexact Hc147
  isplitl [Hc148]; · iexact Hc148
  isplitl [Hc149]; · iexact Hc149
  isplitl [Hc150]; · iexact Hc150
  isplitl [Hc151]; · iexact Hc151
  isplitl [Hc152]; · iexact Hc152
  isplitl [Hc153]; · iexact Hc153
  isplitl [Hc154]; · iexact Hc154
  isplitl [Hc155]; · iexact Hc155
  isplitl [Hc156]; · iexact Hc156
  isplitl [Hc157]; · iexact Hc157
  isplitl [Hc158]; · iexact Hc158
  isplitl [Hc159]; · iexact Hc159
  isplitl [Hc160]; · iexact Hc160
  isplitl [Hc161]; · iexact Hc161
  iexists _
  isplitr
  rotate_left
  · iexact HO
  · ipureintro
    repeat (first | exact fun p hp => Or.inl hp | apply waits_insert)

set_option maxHeartbeats 4000000 in
/-- The same with the windows named by their number: window `r` is rows [10240w + 128r, 10240w + 128r + 128). -/
theorem tile_run (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oSl L 0).view.loc (thrV d L) ↦[(oSl L 0).view.set]{fullShare} fo)
      ∗ ((oSl L 1).view.loc (thrV d L) ↦[(oSl L 1).view.set]{fullShare} fo)
      ∗ ((oSl L 2).view.loc (thrV d L) ↦[(oSl L 2).view.set]{fullShare} fo)
      ∗ ((oSl L 3).view.loc (thrV d L) ↦[(oSl L 3).view.set]{fullShare} fo)
      ∗ ((oSl L 4).view.loc (thrV d L) ↦[(oSl L 4).view.set]{fullShare} fo)
      ∗ ((oSl L 5).view.loc (thrV d L) ↦[(oSl L 5).view.set]{fullShare} fo)
      ∗ ((oSl L 6).view.loc (thrV d L) ↦[(oSl L 6).view.set]{fullShare} fo)
      ∗ ((oSl L 7).view.loc (thrV d L) ↦[(oSl L 7).view.set]{fullShare} fo)
      ∗ ((oSl L 8).view.loc (thrV d L) ↦[(oSl L 8).view.set]{fullShare} fo)
      ∗ ((oSl L 9).view.loc (thrV d L) ↦[(oSl L 9).view.set]{fullShare} fo)
      ∗ ((oSl L 10).view.loc (thrV d L) ↦[(oSl L 10).view.set]{fullShare} fo)
      ∗ ((oSl L 11).view.loc (thrV d L) ↦[(oSl L 11).view.set]{fullShare} fo)
      ∗ ((oSl L 12).view.loc (thrV d L) ↦[(oSl L 12).view.set]{fullShare} fo)
      ∗ ((oSl L 13).view.loc (thrV d L) ↦[(oSl L 13).view.set]{fullShare} fo)
      ∗ ((oSl L 14).view.loc (thrV d L) ↦[(oSl L 14).view.set]{fullShare} fo)
      ∗ ((oSl L 15).view.loc (thrV d L) ↦[(oSl L 15).view.set]{fullShare} fo)
      ∗ ((oSl L 16).view.loc (thrV d L) ↦[(oSl L 16).view.set]{fullShare} fo)
      ∗ ((oSl L 17).view.loc (thrV d L) ↦[(oSl L 17).view.set]{fullShare} fo)
      ∗ ((oSl L 18).view.loc (thrV d L) ↦[(oSl L 18).view.set]{fullShare} fo)
      ∗ ((oSl L 19).view.loc (thrV d L) ↦[(oSl L 19).view.set]{fullShare} fo)
      ∗ ((oSl L 20).view.loc (thrV d L) ↦[(oSl L 20).view.set]{fullShare} fo)
      ∗ ((oSl L 21).view.loc (thrV d L) ↦[(oSl L 21).view.set]{fullShare} fo)
      ∗ ((oSl L 22).view.loc (thrV d L) ↦[(oSl L 22).view.set]{fullShare} fo)
      ∗ ((oSl L 23).view.loc (thrV d L) ↦[(oSl L 23).view.set]{fullShare} fo)
      ∗ ((oSl L 24).view.loc (thrV d L) ↦[(oSl L 24).view.set]{fullShare} fo)
      ∗ ((oSl L 25).view.loc (thrV d L) ↦[(oSl L 25).view.set]{fullShare} fo)
      ∗ ((oSl L 26).view.loc (thrV d L) ↦[(oSl L 26).view.set]{fullShare} fo)
      ∗ ((oSl L 27).view.loc (thrV d L) ↦[(oSl L 27).view.set]{fullShare} fo)
      ∗ ((oSl L 28).view.loc (thrV d L) ↦[(oSl L 28).view.set]{fullShare} fo)
      ∗ ((oSl L 29).view.loc (thrV d L) ↦[(oSl L 29).view.set]{fullShare} fo)
      ∗ ((oSl L 30).view.loc (thrV d L) ↦[(oSl L 30).view.set]{fullShare} fo)
      ∗ ((oSl L 31).view.loc (thrV d L) ↦[(oSl L 31).view.set]{fullShare} fo)
      ∗ ((oSl L 32).view.loc (thrV d L) ↦[(oSl L 32).view.set]{fullShare} fo)
      ∗ ((oSl L 33).view.loc (thrV d L) ↦[(oSl L 33).view.set]{fullShare} fo)
      ∗ ((oSl L 34).view.loc (thrV d L) ↦[(oSl L 34).view.set]{fullShare} fo)
      ∗ ((oSl L 35).view.loc (thrV d L) ↦[(oSl L 35).view.set]{fullShare} fo)
      ∗ ((oSl L 36).view.loc (thrV d L) ↦[(oSl L 36).view.set]{fullShare} fo)
      ∗ ((oSl L 37).view.loc (thrV d L) ↦[(oSl L 37).view.set]{fullShare} fo)
      ∗ ((oSl L 38).view.loc (thrV d L) ↦[(oSl L 38).view.set]{fullShare} fo)
      ∗ ((oSl L 39).view.loc (thrV d L) ↦[(oSl L 39).view.set]{fullShare} fo)
      ∗ ((oSl L 40).view.loc (thrV d L) ↦[(oSl L 40).view.set]{fullShare} fo)
      ∗ ((oSl L 41).view.loc (thrV d L) ↦[(oSl L 41).view.set]{fullShare} fo)
      ∗ ((oSl L 42).view.loc (thrV d L) ↦[(oSl L 42).view.set]{fullShare} fo)
      ∗ ((oSl L 43).view.loc (thrV d L) ↦[(oSl L 43).view.set]{fullShare} fo)
      ∗ ((oSl L 44).view.loc (thrV d L) ↦[(oSl L 44).view.set]{fullShare} fo)
      ∗ ((oSl L 45).view.loc (thrV d L) ↦[(oSl L 45).view.set]{fullShare} fo)
      ∗ ((oSl L 46).view.loc (thrV d L) ↦[(oSl L 46).view.set]{fullShare} fo)
      ∗ ((oSl L 47).view.loc (thrV d L) ↦[(oSl L 47).view.set]{fullShare} fo)
      ∗ ((oSl L 48).view.loc (thrV d L) ↦[(oSl L 48).view.set]{fullShare} fo)
      ∗ ((oSl L 49).view.loc (thrV d L) ↦[(oSl L 49).view.set]{fullShare} fo)
      ∗ ((oSl L 50).view.loc (thrV d L) ↦[(oSl L 50).view.set]{fullShare} fo)
      ∗ ((oSl L 51).view.loc (thrV d L) ↦[(oSl L 51).view.set]{fullShare} fo)
      ∗ ((oSl L 52).view.loc (thrV d L) ↦[(oSl L 52).view.set]{fullShare} fo)
      ∗ ((oSl L 53).view.loc (thrV d L) ↦[(oSl L 53).view.set]{fullShare} fo)
      ∗ ((oSl L 54).view.loc (thrV d L) ↦[(oSl L 54).view.set]{fullShare} fo)
      ∗ ((oSl L 55).view.loc (thrV d L) ↦[(oSl L 55).view.set]{fullShare} fo)
      ∗ ((oSl L 56).view.loc (thrV d L) ↦[(oSl L 56).view.set]{fullShare} fo)
      ∗ ((oSl L 57).view.loc (thrV d L) ↦[(oSl L 57).view.set]{fullShare} fo)
      ∗ ((oSl L 58).view.loc (thrV d L) ↦[(oSl L 58).view.set]{fullShare} fo)
      ∗ ((oSl L 59).view.loc (thrV d L) ↦[(oSl L 59).view.set]{fullShare} fo)
      ∗ ((oSl L 60).view.loc (thrV d L) ↦[(oSl L 60).view.set]{fullShare} fo)
      ∗ ((oSl L 61).view.loc (thrV d L) ↦[(oSl L 61).view.set]{fullShare} fo)
      ∗ ((oSl L 62).view.loc (thrV d L) ↦[(oSl L 62).view.set]{fullShare} fo)
      ∗ ((oSl L 63).view.loc (thrV d L) ↦[(oSl L 63).view.set]{fullShare} fo)
      ∗ ((oSl L 64).view.loc (thrV d L) ↦[(oSl L 64).view.set]{fullShare} fo)
      ∗ ((oSl L 65).view.loc (thrV d L) ↦[(oSl L 65).view.set]{fullShare} fo)
      ∗ ((oSl L 66).view.loc (thrV d L) ↦[(oSl L 66).view.set]{fullShare} fo)
      ∗ ((oSl L 67).view.loc (thrV d L) ↦[(oSl L 67).view.set]{fullShare} fo)
      ∗ ((oSl L 68).view.loc (thrV d L) ↦[(oSl L 68).view.set]{fullShare} fo)
      ∗ ((oSl L 69).view.loc (thrV d L) ↦[(oSl L 69).view.set]{fullShare} fo)
      ∗ ((oSl L 70).view.loc (thrV d L) ↦[(oSl L 70).view.set]{fullShare} fo)
      ∗ ((oSl L 71).view.loc (thrV d L) ↦[(oSl L 71).view.set]{fullShare} fo)
      ∗ ((oSl L 72).view.loc (thrV d L) ↦[(oSl L 72).view.set]{fullShare} fo)
      ∗ ((oSl L 73).view.loc (thrV d L) ↦[(oSl L 73).view.set]{fullShare} fo)
      ∗ ((oSl L 74).view.loc (thrV d L) ↦[(oSl L 74).view.set]{fullShare} fo)
      ∗ ((oSl L 75).view.loc (thrV d L) ↦[(oSl L 75).view.set]{fullShare} fo)
      ∗ ((oSl L 76).view.loc (thrV d L) ↦[(oSl L 76).view.set]{fullShare} fo)
      ∗ ((oSl L 77).view.loc (thrV d L) ↦[(oSl L 77).view.set]{fullShare} fo)
      ∗ ((oSl L 78).view.loc (thrV d L) ↦[(oSl L 78).view.set]{fullShare} fo)
      ∗ ((oSl L 79).view.loc (thrV d L) ↦[(oSl L 79).view.set]{fullShare} fo)
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ semVal ((thrV d L), SemLoc.dma cc1_scoped0.sem) 0
      ∗ semVal ((thrV d L), SemLoc.dma cc1_scoped1.sem) 0
      ∗ semVal ((thrV d L), SemLoc.dma cc1_scoped2.sem) 0
      ∗ semVal ((thrV d L), SemLoc.dma cc1_scoped3.sem) 0
      ∗ semVal ((thrV d L), SemLoc.dma cc1_scoped4.sem) 0
      ∗ semVal ((thrV d L), SemLoc.dma cc1_scoped5.sem) 0
      ∗ semVal ((thrV d L), SemLoc.dma cc1_scoped6.sem) 0
      ∗ semVal ((thrV d L), SemLoc.dma cc1_scoped7.sem) 0
      ∗ semVal ((thrV d L), SemLoc.dma cc1_scoped8.sem) 0
      ∗ semVal ((thrV d L), SemLoc.dma cc1_scoped9.sem) 0
      ∗ semVal ((thrV d L), SemLoc.dma cc1_scoped10.sem) 0
      ∗ semVal ((thrV d L), SemLoc.dma cc1_scoped11.sem) 0
      ∗ semVal ((thrV d L), SemLoc.dma cc1_scoped12.sem) 0
      ∗ semVal ((thrV d L), SemLoc.dma cc1_scoped13.sem) 0
      ∗ semVal ((thrV d L), SemLoc.dma cc1_scoped14.sem) 0
      ∗ semVal ((thrV d L), SemLoc.dma cc1_scoped15.sem) 0
      ∗ semVal ((thrV d L), SemLoc.dma cc1_scoped16.sem) 0
      ∗ semVal ((thrV d L), SemLoc.dma cc1_scoped17.sem) 0
      ∗ semVal ((thrV d L), SemLoc.dma cc1_scoped18.sem) 0
      ∗ semVal ((thrV d L), SemLoc.dma cc1_scoped19.sem) 0
      ∗ semVal ((thrV d L), SemLoc.dma cc1_scoped20.sem) 0
      ∗ semVal ((thrV d L), SemLoc.dma cc1_scoped21.sem) 0
      ∗ semVal ((thrV d L), SemLoc.dma cc1_scoped22.sem) 0
      ∗ semVal ((thrV d L), SemLoc.dma cc1_scoped23.sem) 0
      ∗ semVal ((thrV d L), SemLoc.dma cc1_scoped24.sem) 0
      ∗ semVal ((thrV d L), SemLoc.dma cc1_scoped25.sem) 0
      ∗ semVal ((thrV d L), SemLoc.dma cc1_scoped26.sem) 0
      ∗ semVal ((thrV d L), SemLoc.dma cc1_scoped27.sem) 0
      ∗ semVal ((thrV d L), SemLoc.dma cc1_scoped28.sem) 0
      ∗ semVal ((thrV d L), SemLoc.dma cc1_scoped29.sem) 0
      ∗ semVal ((thrV d L), SemLoc.dma cc1_scoped30.sem) 0
      ∗ semVal ((thrV d L), SemLoc.dma cc1_scoped31.sem) 0
      ∗ semVal ((thrV d L), SemLoc.dma cc1_scoped32.sem) 0
      ∗ semVal ((thrV d L), SemLoc.dma cc1_scoped33.sem) 0
      ∗ semVal ((thrV d L), SemLoc.dma cc1_scoped34.sem) 0
      ∗ semVal ((thrV d L), SemLoc.dma cc1_scoped35.sem) 0
      ∗ semVal ((thrV d L), SemLoc.dma cc1_scoped36.sem) 0
      ∗ semVal ((thrV d L), SemLoc.dma cc1_scoped37.sem) 0
      ∗ semVal ((thrV d L), SemLoc.dma cc1_scoped38.sem) 0
      ∗ semVal ((thrV d L), SemLoc.dma cc1_scoped39.sem) 0
      ∗ semVal ((thrV d L), SemLoc.dma cc1_scoped40.sem) 0
      ∗ semVal ((thrV d L), SemLoc.dma cc1_scoped41.sem) 0
      ∗ semVal ((thrV d L), SemLoc.dma cc1_scoped42.sem) 0
      ∗ semVal ((thrV d L), SemLoc.dma cc1_scoped43.sem) 0
      ∗ semVal ((thrV d L), SemLoc.dma cc1_scoped44.sem) 0
      ∗ semVal ((thrV d L), SemLoc.dma cc1_scoped45.sem) 0
      ∗ semVal ((thrV d L), SemLoc.dma cc1_scoped46.sem) 0
      ∗ semVal ((thrV d L), SemLoc.dma cc1_scoped47.sem) 0
      ∗ semVal ((thrV d L), SemLoc.dma cc1_scoped48.sem) 0
      ∗ semVal ((thrV d L), SemLoc.dma cc1_scoped49.sem) 0
      ∗ semVal ((thrV d L), SemLoc.dma cc1_scoped50.sem) 0
      ∗ semVal ((thrV d L), SemLoc.dma cc1_scoped51.sem) 0
      ∗ semVal ((thrV d L), SemLoc.dma cc1_scoped52.sem) 0
      ∗ semVal ((thrV d L), SemLoc.dma cc1_scoped53.sem) 0
      ∗ semVal ((thrV d L), SemLoc.dma cc1_scoped54.sem) 0
      ∗ semVal ((thrV d L), SemLoc.dma cc1_scoped55.sem) 0
      ∗ semVal ((thrV d L), SemLoc.dma cc1_scoped56.sem) 0
      ∗ semVal ((thrV d L), SemLoc.dma cc1_scoped57.sem) 0
      ∗ semVal ((thrV d L), SemLoc.dma cc1_scoped58.sem) 0
      ∗ semVal ((thrV d L), SemLoc.dma cc1_scoped59.sem) 0
      ∗ semVal ((thrV d L), SemLoc.dma cc1_scoped60.sem) 0
      ∗ semVal ((thrV d L), SemLoc.dma cc1_scoped61.sem) 0
      ∗ semVal ((thrV d L), SemLoc.dma cc1_scoped62.sem) 0
      ∗ semVal ((thrV d L), SemLoc.dma cc1_scoped63.sem) 0
      ∗ semVal ((thrV d L), SemLoc.dma cc1_scoped64.sem) 0
      ∗ semVal ((thrV d L), SemLoc.dma cc1_scoped65.sem) 0
      ∗ semVal ((thrV d L), SemLoc.dma cc1_scoped66.sem) 0
      ∗ semVal ((thrV d L), SemLoc.dma cc1_scoped67.sem) 0
      ∗ semVal ((thrV d L), SemLoc.dma cc1_scoped68.sem) 0
      ∗ semVal ((thrV d L), SemLoc.dma cc1_scoped69.sem) 0
      ∗ semVal ((thrV d L), SemLoc.dma cc1_scoped70.sem) 0
      ∗ semVal ((thrV d L), SemLoc.dma cc1_scoped71.sem) 0
      ∗ semVal ((thrV d L), SemLoc.dma cc1_scoped72.sem) 0
      ∗ semVal ((thrV d L), SemLoc.dma cc1_scoped73.sem) 0
      ∗ semVal ((thrV d L), SemLoc.dma cc1_scoped74.sem) 0
      ∗ semVal ((thrV d L), SemLoc.dma cc1_scoped75.sem) 0
      ∗ semVal ((thrV d L), SemLoc.dma cc1_scoped76.sem) 0
      ∗ semVal ((thrV d L), SemLoc.dma cc1_scoped77.sem) 0
      ∗ semVal ((thrV d L), SemLoc.dma cc1_scoped78.sem) 0
      ∗ semVal ((thrV d L), SemLoc.dma cc1_scoped79.sem) 0
      ∗ semVal ((thrV d L), SemLoc.dma cc1_scoped80.sem) 0
      ∗ semVal ((thrV d L), SemLoc.dma cc1_scoped81.sem) 0
      ∗ semVal ((thrV d L), SemLoc.dma cc1_scoped82.sem) 0
      ∗ semVal ((thrV d L), SemLoc.dma cc1_scoped83.sem) 0
      ∗ semVal ((thrV d L), SemLoc.dma cc1_scoped84.sem) 0
      ∗ semVal ((thrV d L), SemLoc.dma cc1_scoped85.sem) 0
      ∗ semVal ((thrV d L), SemLoc.dma cc1_scoped86.sem) 0
      ∗ semVal ((thrV d L), SemLoc.dma cc1_scoped87.sem) 0
      ∗ semVal ((thrV d L), SemLoc.dma cc1_scoped88.sem) 0
      ∗ semVal ((thrV d L), SemLoc.dma cc1_scoped89.sem) 0
      ∗ semVal ((thrV d L), SemLoc.dma cc1_scoped90.sem) 0
      ∗ semVal ((thrV d L), SemLoc.dma cc1_scoped91.sem) 0
      ∗ semVal ((thrV d L), SemLoc.dma cc1_scoped92.sem) 0
      ∗ semVal ((thrV d L), SemLoc.dma cc1_scoped93.sem) 0
      ∗ semVal ((thrV d L), SemLoc.dma cc1_scoped94.sem) 0
      ∗ semVal ((thrV d L), SemLoc.dma cc1_scoped95.sem) 0
      ∗ semVal ((thrV d L), SemLoc.dma cc1_scoped96.sem) 0
      ∗ semVal ((thrV d L), SemLoc.dma cc1_scoped97.sem) 0
      ∗ semVal ((thrV d L), SemLoc.dma cc1_scoped98.sem) 0
      ∗ semVal ((thrV d L), SemLoc.dma cc1_scoped99.sem) 0
      ∗ semVal ((thrV d L), SemLoc.dma cc1_scoped100.sem) 0
      ∗ semVal ((thrV d L), SemLoc.dma cc1_scoped101.sem) 0
      ∗ semVal ((thrV d L), SemLoc.dma cc1_scoped102.sem) 0
      ∗ semVal ((thrV d L), SemLoc.dma cc1_scoped103.sem) 0
      ∗ semVal ((thrV d L), SemLoc.dma cc1_scoped104.sem) 0
      ∗ semVal ((thrV d L), SemLoc.dma cc1_scoped105.sem) 0
      ∗ semVal ((thrV d L), SemLoc.dma cc1_scoped106.sem) 0
      ∗ semVal ((thrV d L), SemLoc.dma cc1_scoped107.sem) 0
      ∗ semVal ((thrV d L), SemLoc.dma cc1_scoped108.sem) 0
      ∗ semVal ((thrV d L), SemLoc.dma cc1_scoped109.sem) 0
      ∗ semVal ((thrV d L), SemLoc.dma cc1_scoped110.sem) 0
      ∗ semVal ((thrV d L), SemLoc.dma cc1_scoped111.sem) 0
      ∗ semVal ((thrV d L), SemLoc.dma cc1_scoped112.sem) 0
      ∗ semVal ((thrV d L), SemLoc.dma cc1_scoped113.sem) 0
      ∗ semVal ((thrV d L), SemLoc.dma cc1_scoped114.sem) 0
      ∗ semVal ((thrV d L), SemLoc.dma cc1_scoped115.sem) 0
      ∗ semVal ((thrV d L), SemLoc.dma cc1_scoped116.sem) 0
      ∗ semVal ((thrV d L), SemLoc.dma cc1_scoped117.sem) 0
      ∗ semVal ((thrV d L), SemLoc.dma cc1_scoped118.sem) 0
      ∗ semVal ((thrV d L), SemLoc.dma cc1_scoped119.sem) 0
      ∗ semVal ((thrV d L), SemLoc.dma cc1_scoped120.sem) 0
      ∗ semVal ((thrV d L), SemLoc.dma cc1_scoped121.sem) 0
      ∗ semVal ((thrV d L), SemLoc.dma cc1_scoped122.sem) 0
      ∗ semVal ((thrV d L), SemLoc.dma cc1_scoped123.sem) 0
      ∗ semVal ((thrV d L), SemLoc.dma cc1_scoped124.sem) 0
      ∗ semVal ((thrV d L), SemLoc.dma cc1_scoped125.sem) 0
      ∗ semVal ((thrV d L), SemLoc.dma cc1_scoped126.sem) 0
      ∗ semVal ((thrV d L), SemLoc.dma cc1_scoped127.sem) 0
      ∗ semVal ((thrV d L), SemLoc.dma cc1_scoped128.sem) 0
      ∗ semVal ((thrV d L), SemLoc.dma cc1_scoped129.sem) 0
      ∗ semVal ((thrV d L), SemLoc.dma cc1_scoped130.sem) 0
      ∗ semVal ((thrV d L), SemLoc.dma cc1_scoped131.sem) 0
      ∗ semVal ((thrV d L), SemLoc.dma cc1_scoped132.sem) 0
      ∗ semVal ((thrV d L), SemLoc.dma cc1_scoped133.sem) 0
      ∗ semVal ((thrV d L), SemLoc.dma cc1_scoped134.sem) 0
      ∗ semVal ((thrV d L), SemLoc.dma cc1_scoped135.sem) 0
      ∗ semVal ((thrV d L), SemLoc.dma cc1_scoped136.sem) 0
      ∗ semVal ((thrV d L), SemLoc.dma cc1_scoped137.sem) 0
      ∗ semVal ((thrV d L), SemLoc.dma cc1_scoped138.sem) 0
      ∗ semVal ((thrV d L), SemLoc.dma cc1_scoped139.sem) 0
      ∗ semVal ((thrV d L), SemLoc.dma cc1_scoped140.sem) 0
      ∗ semVal ((thrV d L), SemLoc.dma cc1_scoped141.sem) 0
      ∗ semVal ((thrV d L), SemLoc.dma cc1_scoped142.sem) 0
      ∗ semVal ((thrV d L), SemLoc.dma cc1_scoped143.sem) 0
      ∗ semVal ((thrV d L), SemLoc.dma cc1_scoped144.sem) 0
      ∗ semVal ((thrV d L), SemLoc.dma cc1_scoped145.sem) 0
      ∗ semVal ((thrV d L), SemLoc.dma cc1_scoped146.sem) 0
      ∗ semVal ((thrV d L), SemLoc.dma cc1_scoped147.sem) 0
      ∗ semVal ((thrV d L), SemLoc.dma cc1_scoped148.sem) 0
      ∗ semVal ((thrV d L), SemLoc.dma cc1_scoped149.sem) 0
      ∗ semVal ((thrV d L), SemLoc.dma cc1_scoped150.sem) 0
      ∗ semVal ((thrV d L), SemLoc.dma cc1_scoped151.sem) 0
      ∗ semVal ((thrV d L), SemLoc.dma cc1_scoped152.sem) 0
      ∗ semVal ((thrV d L), SemLoc.dma cc1_scoped153.sem) 0
      ∗ semVal ((thrV d L), SemLoc.dma cc1_scoped154.sem) 0
      ∗ semVal ((thrV d L), SemLoc.dma cc1_scoped155.sem) 0
      ∗ semVal ((thrV d L), SemLoc.dma cc1_scoped156.sem) 0
      ∗ semVal ((thrV d L), SemLoc.dma cc1_scoped157.sem) 0
      ∗ semVal ((thrV d L), SemLoc.dma cc1_scoped158.sem) 0
      ∗ semVal ((thrV d L), SemLoc.dma cc1_scoped159.sem) 0
      ∗ semVal ((thrV d L), SemLoc.dma cc1_scoped160.sem) 0
      ∗ semVal ((thrV d L), SemLoc.dma cc1_scoped161.sem) 0
      ∗ owes (thrV d L) O W
      ∗ (iprop((hV.view.loc (thrV d L) ↦{q} fh) ∗ (sV.view.loc (thrV d L) ↦{q} fs)
          ∗ ((oSl L 0).view.loc (thrV d L) ↦[(oSl L 0).view.set]{fullShare} (gatherRows (F := F) fh fs : Buf (Elt F) (oV.view.loc (thrV d L))))
          ∗ ((oSl L 1).view.loc (thrV d L) ↦[(oSl L 1).view.set]{fullShare} (gatherRows (F := F) fh fs : Buf (Elt F) (oV.view.loc (thrV d L))))
          ∗ ((oSl L 2).view.loc (thrV d L) ↦[(oSl L 2).view.set]{fullShare} (gatherRows (F := F) fh fs : Buf (Elt F) (oV.view.loc (thrV d L))))
          ∗ ((oSl L 3).view.loc (thrV d L) ↦[(oSl L 3).view.set]{fullShare} (gatherRows (F := F) fh fs : Buf (Elt F) (oV.view.loc (thrV d L))))
          ∗ ((oSl L 4).view.loc (thrV d L) ↦[(oSl L 4).view.set]{fullShare} (gatherRows (F := F) fh fs : Buf (Elt F) (oV.view.loc (thrV d L))))
          ∗ ((oSl L 5).view.loc (thrV d L) ↦[(oSl L 5).view.set]{fullShare} (gatherRows (F := F) fh fs : Buf (Elt F) (oV.view.loc (thrV d L))))
          ∗ ((oSl L 6).view.loc (thrV d L) ↦[(oSl L 6).view.set]{fullShare} (gatherRows (F := F) fh fs : Buf (Elt F) (oV.view.loc (thrV d L))))
          ∗ ((oSl L 7).view.loc (thrV d L) ↦[(oSl L 7).view.set]{fullShare} (gatherRows (F := F) fh fs : Buf (Elt F) (oV.view.loc (thrV d L))))
          ∗ ((oSl L 8).view.loc (thrV d L) ↦[(oSl L 8).view.set]{fullShare} (gatherRows (F := F) fh fs : Buf (Elt F) (oV.view.loc (thrV d L))))
          ∗ ((oSl L 9).view.loc (thrV d L) ↦[(oSl L 9).view.set]{fullShare} (gatherRows (F := F) fh fs : Buf (Elt F) (oV.view.loc (thrV d L))))
          ∗ ((oSl L 10).view.loc (thrV d L) ↦[(oSl L 10).view.set]{fullShare} (gatherRows (F := F) fh fs : Buf (Elt F) (oV.view.loc (thrV d L))))
          ∗ ((oSl L 11).view.loc (thrV d L) ↦[(oSl L 11).view.set]{fullShare} (gatherRows (F := F) fh fs : Buf (Elt F) (oV.view.loc (thrV d L))))
          ∗ ((oSl L 12).view.loc (thrV d L) ↦[(oSl L 12).view.set]{fullShare} (gatherRows (F := F) fh fs : Buf (Elt F) (oV.view.loc (thrV d L))))
          ∗ ((oSl L 13).view.loc (thrV d L) ↦[(oSl L 13).view.set]{fullShare} (gatherRows (F := F) fh fs : Buf (Elt F) (oV.view.loc (thrV d L))))
          ∗ ((oSl L 14).view.loc (thrV d L) ↦[(oSl L 14).view.set]{fullShare} (gatherRows (F := F) fh fs : Buf (Elt F) (oV.view.loc (thrV d L))))
          ∗ ((oSl L 15).view.loc (thrV d L) ↦[(oSl L 15).view.set]{fullShare} (gatherRows (F := F) fh fs : Buf (Elt F) (oV.view.loc (thrV d L))))
          ∗ ((oSl L 16).view.loc (thrV d L) ↦[(oSl L 16).view.set]{fullShare} (gatherRows (F := F) fh fs : Buf (Elt F) (oV.view.loc (thrV d L))))
          ∗ ((oSl L 17).view.loc (thrV d L) ↦[(oSl L 17).view.set]{fullShare} (gatherRows (F := F) fh fs : Buf (Elt F) (oV.view.loc (thrV d L))))
          ∗ ((oSl L 18).view.loc (thrV d L) ↦[(oSl L 18).view.set]{fullShare} (gatherRows (F := F) fh fs : Buf (Elt F) (oV.view.loc (thrV d L))))
          ∗ ((oSl L 19).view.loc (thrV d L) ↦[(oSl L 19).view.set]{fullShare} (gatherRows (F := F) fh fs : Buf (Elt F) (oV.view.loc (thrV d L))))
          ∗ ((oSl L 20).view.loc (thrV d L) ↦[(oSl L 20).view.set]{fullShare} (gatherRows (F := F) fh fs : Buf (Elt F) (oV.view.loc (thrV d L))))
          ∗ ((oSl L 21).view.loc (thrV d L) ↦[(oSl L 21).view.set]{fullShare} (gatherRows (F := F) fh fs : Buf (Elt F) (oV.view.loc (thrV d L))))
          ∗ ((oSl L 22).view.loc (thrV d L) ↦[(oSl L 22).view.set]{fullShare} (gatherRows (F := F) fh fs : Buf (Elt F) (oV.view.loc (thrV d L))))
          ∗ ((oSl L 23).view.loc (thrV d L) ↦[(oSl L 23).view.set]{fullShare} (gatherRows (F := F) fh fs : Buf (Elt F) (oV.view.loc (thrV d L))))
          ∗ ((oSl L 24).view.loc (thrV d L) ↦[(oSl L 24).view.set]{fullShare} (gatherRows (F := F) fh fs : Buf (Elt F) (oV.view.loc (thrV d L))))
          ∗ ((oSl L 25).view.loc (thrV d L) ↦[(oSl L 25).view.set]{fullShare} (gatherRows (F := F) fh fs : Buf (Elt F) (oV.view.loc (thrV d L))))
          ∗ ((oSl L 26).view.loc (thrV d L) ↦[(oSl L 26).view.set]{fullShare} (gatherRows (F := F) fh fs : Buf (Elt F) (oV.view.loc (thrV d L))))
          ∗ ((oSl L 27).view.loc (thrV d L) ↦[(oSl L 27).view.set]{fullShare} (gatherRows (F := F) fh fs : Buf (Elt F) (oV.view.loc (thrV d L))))
          ∗ ((oSl L 28).view.loc (thrV d L) ↦[(oSl L 28).view.set]{fullShare} (gatherRows (F := F) fh fs : Buf (Elt F) (oV.view.loc (thrV d L))))
          ∗ ((oSl L 29).view.loc (thrV d L) ↦[(oSl L 29).view.set]{fullShare} (gatherRows (F := F) fh fs : Buf (Elt F) (oV.view.loc (thrV d L))))
          ∗ ((oSl L 30).view.loc (thrV d L) ↦[(oSl L 30).view.set]{fullShare} (gatherRows (F := F) fh fs : Buf (Elt F) (oV.view.loc (thrV d L))))
          ∗ ((oSl L 31).view.loc (thrV d L) ↦[(oSl L 31).view.set]{fullShare} (gatherRows (F := F) fh fs : Buf (Elt F) (oV.view.loc (thrV d L))))
          ∗ ((oSl L 32).view.loc (thrV d L) ↦[(oSl L 32).view.set]{fullShare} (gatherRows (F := F) fh fs : Buf (Elt F) (oV.view.loc (thrV d L))))
          ∗ ((oSl L 33).view.loc (thrV d L) ↦[(oSl L 33).view.set]{fullShare} (gatherRows (F := F) fh fs : Buf (Elt F) (oV.view.loc (thrV d L))))
          ∗ ((oSl L 34).view.loc (thrV d L) ↦[(oSl L 34).view.set]{fullShare} (gatherRows (F := F) fh fs : Buf (Elt F) (oV.view.loc (thrV d L))))
          ∗ ((oSl L 35).view.loc (thrV d L) ↦[(oSl L 35).view.set]{fullShare} (gatherRows (F := F) fh fs : Buf (Elt F) (oV.view.loc (thrV d L))))
          ∗ ((oSl L 36).view.loc (thrV d L) ↦[(oSl L 36).view.set]{fullShare} (gatherRows (F := F) fh fs : Buf (Elt F) (oV.view.loc (thrV d L))))
          ∗ ((oSl L 37).view.loc (thrV d L) ↦[(oSl L 37).view.set]{fullShare} (gatherRows (F := F) fh fs : Buf (Elt F) (oV.view.loc (thrV d L))))
          ∗ ((oSl L 38).view.loc (thrV d L) ↦[(oSl L 38).view.set]{fullShare} (gatherRows (F := F) fh fs : Buf (Elt F) (oV.view.loc (thrV d L))))
          ∗ ((oSl L 39).view.loc (thrV d L) ↦[(oSl L 39).view.set]{fullShare} (gatherRows (F := F) fh fs : Buf (Elt F) (oV.view.loc (thrV d L))))
          ∗ ((oSl L 40).view.loc (thrV d L) ↦[(oSl L 40).view.set]{fullShare} (gatherRows (F := F) fh fs : Buf (Elt F) (oV.view.loc (thrV d L))))
          ∗ ((oSl L 41).view.loc (thrV d L) ↦[(oSl L 41).view.set]{fullShare} (gatherRows (F := F) fh fs : Buf (Elt F) (oV.view.loc (thrV d L))))
          ∗ ((oSl L 42).view.loc (thrV d L) ↦[(oSl L 42).view.set]{fullShare} (gatherRows (F := F) fh fs : Buf (Elt F) (oV.view.loc (thrV d L))))
          ∗ ((oSl L 43).view.loc (thrV d L) ↦[(oSl L 43).view.set]{fullShare} (gatherRows (F := F) fh fs : Buf (Elt F) (oV.view.loc (thrV d L))))
          ∗ ((oSl L 44).view.loc (thrV d L) ↦[(oSl L 44).view.set]{fullShare} (gatherRows (F := F) fh fs : Buf (Elt F) (oV.view.loc (thrV d L))))
          ∗ ((oSl L 45).view.loc (thrV d L) ↦[(oSl L 45).view.set]{fullShare} (gatherRows (F := F) fh fs : Buf (Elt F) (oV.view.loc (thrV d L))))
          ∗ ((oSl L 46).view.loc (thrV d L) ↦[(oSl L 46).view.set]{fullShare} (gatherRows (F := F) fh fs : Buf (Elt F) (oV.view.loc (thrV d L))))
          ∗ ((oSl L 47).view.loc (thrV d L) ↦[(oSl L 47).view.set]{fullShare} (gatherRows (F := F) fh fs : Buf (Elt F) (oV.view.loc (thrV d L))))
          ∗ ((oSl L 48).view.loc (thrV d L) ↦[(oSl L 48).view.set]{fullShare} (gatherRows (F := F) fh fs : Buf (Elt F) (oV.view.loc (thrV d L))))
          ∗ ((oSl L 49).view.loc (thrV d L) ↦[(oSl L 49).view.set]{fullShare} (gatherRows (F := F) fh fs : Buf (Elt F) (oV.view.loc (thrV d L))))
          ∗ ((oSl L 50).view.loc (thrV d L) ↦[(oSl L 50).view.set]{fullShare} (gatherRows (F := F) fh fs : Buf (Elt F) (oV.view.loc (thrV d L))))
          ∗ ((oSl L 51).view.loc (thrV d L) ↦[(oSl L 51).view.set]{fullShare} (gatherRows (F := F) fh fs : Buf (Elt F) (oV.view.loc (thrV d L))))
          ∗ ((oSl L 52).view.loc (thrV d L) ↦[(oSl L 52).view.set]{fullShare} (gatherRows (F := F) fh fs : Buf (Elt F) (oV.view.loc (thrV d L))))
          ∗ ((oSl L 53).view.loc (thrV d L) ↦[(oSl L 53).view.set]{fullShare} (gatherRows (F := F) fh fs : Buf (Elt F) (oV.view.loc (thrV d L))))
          ∗ ((oSl L 54).view.loc (thrV d L) ↦[(oSl L 54).view.set]{fullShare} (gatherRows (F := F) fh fs : Buf (Elt F) (oV.view.loc (thrV d L))))
          ∗ ((oSl L 55).view.loc (thrV d L) ↦[(oSl L 55).view.set]{fullShare} (gatherRows (F := F) fh fs : Buf (Elt F) (oV.view.loc (thrV d L))))
          ∗ ((oSl L 56).view.loc (thrV d L) ↦[(oSl L 56).view.set]{fullShare} (gatherRows (F := F) fh fs : Buf (Elt F) (oV.view.loc (thrV d L))))
          ∗ ((oSl L 57).view.loc (thrV d L) ↦[(oSl L 57).view.set]{fullShare} (gatherRows (F := F) fh fs : Buf (Elt F) (oV.view.loc (thrV d L))))
          ∗ ((oSl L 58).view.loc (thrV d L) ↦[(oSl L 58).view.set]{fullShare} (gatherRows (F := F) fh fs : Buf (Elt F) (oV.view.loc (thrV d L))))
          ∗ ((oSl L 59).view.loc (thrV d L) ↦[(oSl L 59).view.set]{fullShare} (gatherRows (F := F) fh fs : Buf (Elt F) (oV.view.loc (thrV d L))))
          ∗ ((oSl L 60).view.loc (thrV d L) ↦[(oSl L 60).view.set]{fullShare} (gatherRows (F := F) fh fs : Buf (Elt F) (oV.view.loc (thrV d L))))
          ∗ ((oSl L 61).view.loc (thrV d L) ↦[(oSl L 61).view.set]{fullShare} (gatherRows (F := F) fh fs : Buf (Elt F) (oV.view.loc (thrV d L))))
          ∗ ((oSl L 62).view.loc (thrV d L) ↦[(oSl L 62).view.set]{fullShare} (gatherRows (F := F) fh fs : Buf (Elt F) (oV.view.loc (thrV d L))))
          ∗ ((oSl L 63).view.loc (thrV d L) ↦[(oSl L 63).view.set]{fullShare} (gatherRows (F := F) fh fs : Buf (Elt F) (oV.view.loc (thrV d L))))
          ∗ ((oSl L 64).view.loc (thrV d L) ↦[(oSl L 64).view.set]{fullShare} (gatherRows (F := F) fh fs : Buf (Elt F) (oV.view.loc (thrV d L))))
          ∗ ((oSl L 65).view.loc (thrV d L) ↦[(oSl L 65).view.set]{fullShare} (gatherRows (F := F) fh fs : Buf (Elt F) (oV.view.loc (thrV d L))))
          ∗ ((oSl L 66).view.loc (thrV d L) ↦[(oSl L 66).view.set]{fullShare} (gatherRows (F := F) fh fs : Buf (Elt F) (oV.view.loc (thrV d L))))
          ∗ ((oSl L 67).view.loc (thrV d L) ↦[(oSl L 67).view.set]{fullShare} (gatherRows (F := F) fh fs : Buf (Elt F) (oV.view.loc (thrV d L))))
          ∗ ((oSl L 68).view.loc (thrV d L) ↦[(oSl L 68).view.set]{fullShare} (gatherRows (F := F) fh fs : Buf (Elt F) (oV.view.loc (thrV d L))))
          ∗ ((oSl L 69).view.loc (thrV d L) ↦[(oSl L 69).view.set]{fullShare} (gatherRows (F := F) fh fs : Buf (Elt F) (oV.view.loc (thrV d L))))
          ∗ ((oSl L 70).view.loc (thrV d L) ↦[(oSl L 70).view.set]{fullShare} (gatherRows (F := F) fh fs : Buf (Elt F) (oV.view.loc (thrV d L))))
          ∗ ((oSl L 71).view.loc (thrV d L) ↦[(oSl L 71).view.set]{fullShare} (gatherRows (F := F) fh fs : Buf (Elt F) (oV.view.loc (thrV d L))))
          ∗ ((oSl L 72).view.loc (thrV d L) ↦[(oSl L 72).view.set]{fullShare} (gatherRows (F := F) fh fs : Buf (Elt F) (oV.view.loc (thrV d L))))
          ∗ ((oSl L 73).view.loc (thrV d L) ↦[(oSl L 73).view.set]{fullShare} (gatherRows (F := F) fh fs : Buf (Elt F) (oV.view.loc (thrV d L))))
          ∗ ((oSl L 74).view.loc (thrV d L) ↦[(oSl L 74).view.set]{fullShare} (gatherRows (F := F) fh fs : Buf (Elt F) (oV.view.loc (thrV d L))))
          ∗ ((oSl L 75).view.loc (thrV d L) ↦[(oSl L 75).view.set]{fullShare} (gatherRows (F := F) fh fs : Buf (Elt F) (oV.view.loc (thrV d L))))
          ∗ ((oSl L 76).view.loc (thrV d L) ↦[(oSl L 76).view.set]{fullShare} (gatherRows (F := F) fh fs : Buf (Elt F) (oV.view.loc (thrV d L))))
          ∗ ((oSl L 77).view.loc (thrV d L) ↦[(oSl L 77).view.set]{fullShare} (gatherRows (F := F) fh fs : Buf (Elt F) (oV.view.loc (thrV d L))))
          ∗ ((oSl L 78).view.loc (thrV d L) ↦[(oSl L 78).view.set]{fullShare} (gatherRows (F := F) fh fs : Buf (Elt F) (oV.view.loc (thrV d L))))
          ∗ ((oSl L 79).view.loc (thrV d L) ↦[(oSl L 79).view.set]{fullShare} (gatherRows (F := F) fh fs : Buf (Elt F) (oV.view.loc (thrV d L))))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ semVal ((thrV d L), SemLoc.dma cc1_scoped0.sem) 0
          ∗ semVal ((thrV d L), SemLoc.dma cc1_scoped1.sem) 0
          ∗ semVal ((thrV d L), SemLoc.dma cc1_scoped2.sem) 0
          ∗ semVal ((thrV d L), SemLoc.dma cc1_scoped3.sem) 0
          ∗ semVal ((thrV d L), SemLoc.dma cc1_scoped4.sem) 0
          ∗ semVal ((thrV d L), SemLoc.dma cc1_scoped5.sem) 0
          ∗ semVal ((thrV d L), SemLoc.dma cc1_scoped6.sem) 0
          ∗ semVal ((thrV d L), SemLoc.dma cc1_scoped7.sem) 0
          ∗ semVal ((thrV d L), SemLoc.dma cc1_scoped8.sem) 0
          ∗ semVal ((thrV d L), SemLoc.dma cc1_scoped9.sem) 0
          ∗ semVal ((thrV d L), SemLoc.dma cc1_scoped10.sem) 0
          ∗ semVal ((thrV d L), SemLoc.dma cc1_scoped11.sem) 0
          ∗ semVal ((thrV d L), SemLoc.dma cc1_scoped12.sem) 0
          ∗ semVal ((thrV d L), SemLoc.dma cc1_scoped13.sem) 0
          ∗ semVal ((thrV d L), SemLoc.dma cc1_scoped14.sem) 0
          ∗ semVal ((thrV d L), SemLoc.dma cc1_scoped15.sem) 0
          ∗ semVal ((thrV d L), SemLoc.dma cc1_scoped16.sem) 0
          ∗ semVal ((thrV d L), SemLoc.dma cc1_scoped17.sem) 0
          ∗ semVal ((thrV d L), SemLoc.dma cc1_scoped18.sem) 0
          ∗ semVal ((thrV d L), SemLoc.dma cc1_scoped19.sem) 0
          ∗ semVal ((thrV d L), SemLoc.dma cc1_scoped20.sem) 0
          ∗ semVal ((thrV d L), SemLoc.dma cc1_scoped21.sem) 0
          ∗ semVal ((thrV d L), SemLoc.dma cc1_scoped22.sem) 0
          ∗ semVal ((thrV d L), SemLoc.dma cc1_scoped23.sem) 0
          ∗ semVal ((thrV d L), SemLoc.dma cc1_scoped24.sem) 0
          ∗ semVal ((thrV d L), SemLoc.dma cc1_scoped25.sem) 0
          ∗ semVal ((thrV d L), SemLoc.dma cc1_scoped26.sem) 0
          ∗ semVal ((thrV d L), SemLoc.dma cc1_scoped27.sem) 0
          ∗ semVal ((thrV d L), SemLoc.dma cc1_scoped28.sem) 0
          ∗ semVal ((thrV d L), SemLoc.dma cc1_scoped29.sem) 0
          ∗ semVal ((thrV d L), SemLoc.dma cc1_scoped30.sem) 0
          ∗ semVal ((thrV d L), SemLoc.dma cc1_scoped31.sem) 0
          ∗ semVal ((thrV d L), SemLoc.dma cc1_scoped32.sem) 0
          ∗ semVal ((thrV d L), SemLoc.dma cc1_scoped33.sem) 0
          ∗ semVal ((thrV d L), SemLoc.dma cc1_scoped34.sem) 0
          ∗ semVal ((thrV d L), SemLoc.dma cc1_scoped35.sem) 0
          ∗ semVal ((thrV d L), SemLoc.dma cc1_scoped36.sem) 0
          ∗ semVal ((thrV d L), SemLoc.dma cc1_scoped37.sem) 0
          ∗ semVal ((thrV d L), SemLoc.dma cc1_scoped38.sem) 0
          ∗ semVal ((thrV d L), SemLoc.dma cc1_scoped39.sem) 0
          ∗ semVal ((thrV d L), SemLoc.dma cc1_scoped40.sem) 0
          ∗ semVal ((thrV d L), SemLoc.dma cc1_scoped41.sem) 0
          ∗ semVal ((thrV d L), SemLoc.dma cc1_scoped42.sem) 0
          ∗ semVal ((thrV d L), SemLoc.dma cc1_scoped43.sem) 0
          ∗ semVal ((thrV d L), SemLoc.dma cc1_scoped44.sem) 0
          ∗ semVal ((thrV d L), SemLoc.dma cc1_scoped45.sem) 0
          ∗ semVal ((thrV d L), SemLoc.dma cc1_scoped46.sem) 0
          ∗ semVal ((thrV d L), SemLoc.dma cc1_scoped47.sem) 0
          ∗ semVal ((thrV d L), SemLoc.dma cc1_scoped48.sem) 0
          ∗ semVal ((thrV d L), SemLoc.dma cc1_scoped49.sem) 0
          ∗ semVal ((thrV d L), SemLoc.dma cc1_scoped50.sem) 0
          ∗ semVal ((thrV d L), SemLoc.dma cc1_scoped51.sem) 0
          ∗ semVal ((thrV d L), SemLoc.dma cc1_scoped52.sem) 0
          ∗ semVal ((thrV d L), SemLoc.dma cc1_scoped53.sem) 0
          ∗ semVal ((thrV d L), SemLoc.dma cc1_scoped54.sem) 0
          ∗ semVal ((thrV d L), SemLoc.dma cc1_scoped55.sem) 0
          ∗ semVal ((thrV d L), SemLoc.dma cc1_scoped56.sem) 0
          ∗ semVal ((thrV d L), SemLoc.dma cc1_scoped57.sem) 0
          ∗ semVal ((thrV d L), SemLoc.dma cc1_scoped58.sem) 0
          ∗ semVal ((thrV d L), SemLoc.dma cc1_scoped59.sem) 0
          ∗ semVal ((thrV d L), SemLoc.dma cc1_scoped60.sem) 0
          ∗ semVal ((thrV d L), SemLoc.dma cc1_scoped61.sem) 0
          ∗ semVal ((thrV d L), SemLoc.dma cc1_scoped62.sem) 0
          ∗ semVal ((thrV d L), SemLoc.dma cc1_scoped63.sem) 0
          ∗ semVal ((thrV d L), SemLoc.dma cc1_scoped64.sem) 0
          ∗ semVal ((thrV d L), SemLoc.dma cc1_scoped65.sem) 0
          ∗ semVal ((thrV d L), SemLoc.dma cc1_scoped66.sem) 0
          ∗ semVal ((thrV d L), SemLoc.dma cc1_scoped67.sem) 0
          ∗ semVal ((thrV d L), SemLoc.dma cc1_scoped68.sem) 0
          ∗ semVal ((thrV d L), SemLoc.dma cc1_scoped69.sem) 0
          ∗ semVal ((thrV d L), SemLoc.dma cc1_scoped70.sem) 0
          ∗ semVal ((thrV d L), SemLoc.dma cc1_scoped71.sem) 0
          ∗ semVal ((thrV d L), SemLoc.dma cc1_scoped72.sem) 0
          ∗ semVal ((thrV d L), SemLoc.dma cc1_scoped73.sem) 0
          ∗ semVal ((thrV d L), SemLoc.dma cc1_scoped74.sem) 0
          ∗ semVal ((thrV d L), SemLoc.dma cc1_scoped75.sem) 0
          ∗ semVal ((thrV d L), SemLoc.dma cc1_scoped76.sem) 0
          ∗ semVal ((thrV d L), SemLoc.dma cc1_scoped77.sem) 0
          ∗ semVal ((thrV d L), SemLoc.dma cc1_scoped78.sem) 0
          ∗ semVal ((thrV d L), SemLoc.dma cc1_scoped79.sem) 0
          ∗ semVal ((thrV d L), SemLoc.dma cc1_scoped80.sem) 0
          ∗ semVal ((thrV d L), SemLoc.dma cc1_scoped81.sem) 0
          ∗ semVal ((thrV d L), SemLoc.dma cc1_scoped82.sem) 0
          ∗ semVal ((thrV d L), SemLoc.dma cc1_scoped83.sem) 0
          ∗ semVal ((thrV d L), SemLoc.dma cc1_scoped84.sem) 0
          ∗ semVal ((thrV d L), SemLoc.dma cc1_scoped85.sem) 0
          ∗ semVal ((thrV d L), SemLoc.dma cc1_scoped86.sem) 0
          ∗ semVal ((thrV d L), SemLoc.dma cc1_scoped87.sem) 0
          ∗ semVal ((thrV d L), SemLoc.dma cc1_scoped88.sem) 0
          ∗ semVal ((thrV d L), SemLoc.dma cc1_scoped89.sem) 0
          ∗ semVal ((thrV d L), SemLoc.dma cc1_scoped90.sem) 0
          ∗ semVal ((thrV d L), SemLoc.dma cc1_scoped91.sem) 0
          ∗ semVal ((thrV d L), SemLoc.dma cc1_scoped92.sem) 0
          ∗ semVal ((thrV d L), SemLoc.dma cc1_scoped93.sem) 0
          ∗ semVal ((thrV d L), SemLoc.dma cc1_scoped94.sem) 0
          ∗ semVal ((thrV d L), SemLoc.dma cc1_scoped95.sem) 0
          ∗ semVal ((thrV d L), SemLoc.dma cc1_scoped96.sem) 0
          ∗ semVal ((thrV d L), SemLoc.dma cc1_scoped97.sem) 0
          ∗ semVal ((thrV d L), SemLoc.dma cc1_scoped98.sem) 0
          ∗ semVal ((thrV d L), SemLoc.dma cc1_scoped99.sem) 0
          ∗ semVal ((thrV d L), SemLoc.dma cc1_scoped100.sem) 0
          ∗ semVal ((thrV d L), SemLoc.dma cc1_scoped101.sem) 0
          ∗ semVal ((thrV d L), SemLoc.dma cc1_scoped102.sem) 0
          ∗ semVal ((thrV d L), SemLoc.dma cc1_scoped103.sem) 0
          ∗ semVal ((thrV d L), SemLoc.dma cc1_scoped104.sem) 0
          ∗ semVal ((thrV d L), SemLoc.dma cc1_scoped105.sem) 0
          ∗ semVal ((thrV d L), SemLoc.dma cc1_scoped106.sem) 0
          ∗ semVal ((thrV d L), SemLoc.dma cc1_scoped107.sem) 0
          ∗ semVal ((thrV d L), SemLoc.dma cc1_scoped108.sem) 0
          ∗ semVal ((thrV d L), SemLoc.dma cc1_scoped109.sem) 0
          ∗ semVal ((thrV d L), SemLoc.dma cc1_scoped110.sem) 0
          ∗ semVal ((thrV d L), SemLoc.dma cc1_scoped111.sem) 0
          ∗ semVal ((thrV d L), SemLoc.dma cc1_scoped112.sem) 0
          ∗ semVal ((thrV d L), SemLoc.dma cc1_scoped113.sem) 0
          ∗ semVal ((thrV d L), SemLoc.dma cc1_scoped114.sem) 0
          ∗ semVal ((thrV d L), SemLoc.dma cc1_scoped115.sem) 0
          ∗ semVal ((thrV d L), SemLoc.dma cc1_scoped116.sem) 0
          ∗ semVal ((thrV d L), SemLoc.dma cc1_scoped117.sem) 0
          ∗ semVal ((thrV d L), SemLoc.dma cc1_scoped118.sem) 0
          ∗ semVal ((thrV d L), SemLoc.dma cc1_scoped119.sem) 0
          ∗ semVal ((thrV d L), SemLoc.dma cc1_scoped120.sem) 0
          ∗ semVal ((thrV d L), SemLoc.dma cc1_scoped121.sem) 0
          ∗ semVal ((thrV d L), SemLoc.dma cc1_scoped122.sem) 0
          ∗ semVal ((thrV d L), SemLoc.dma cc1_scoped123.sem) 0
          ∗ semVal ((thrV d L), SemLoc.dma cc1_scoped124.sem) 0
          ∗ semVal ((thrV d L), SemLoc.dma cc1_scoped125.sem) 0
          ∗ semVal ((thrV d L), SemLoc.dma cc1_scoped126.sem) 0
          ∗ semVal ((thrV d L), SemLoc.dma cc1_scoped127.sem) 0
          ∗ semVal ((thrV d L), SemLoc.dma cc1_scoped128.sem) 0
          ∗ semVal ((thrV d L), SemLoc.dma cc1_scoped129.sem) 0
          ∗ semVal ((thrV d L), SemLoc.dma cc1_scoped130.sem) 0
          ∗ semVal ((thrV d L), SemLoc.dma cc1_scoped131.sem) 0
          ∗ semVal ((thrV d L), SemLoc.dma cc1_scoped132.sem) 0
          ∗ semVal ((thrV d L), SemLoc.dma cc1_scoped133.sem) 0
          ∗ semVal ((thrV d L), SemLoc.dma cc1_scoped134.sem) 0
          ∗ semVal ((thrV d L), SemLoc.dma cc1_scoped135.sem) 0
          ∗ semVal ((thrV d L), SemLoc.dma cc1_scoped136.sem) 0
          ∗ semVal ((thrV d L), SemLoc.dma cc1_scoped137.sem) 0
          ∗ semVal ((thrV d L), SemLoc.dma cc1_scoped138.sem) 0
          ∗ semVal ((thrV d L), SemLoc.dma cc1_scoped139.sem) 0
          ∗ semVal ((thrV d L), SemLoc.dma cc1_scoped140.sem) 0
          ∗ semVal ((thrV d L), SemLoc.dma cc1_scoped141.sem) 0
          ∗ semVal ((thrV d L), SemLoc.dma cc1_scoped142.sem) 0
          ∗ semVal ((thrV d L), SemLoc.dma cc1_scoped143.sem) 0
          ∗ semVal ((thrV d L), SemLoc.dma cc1_scoped144.sem) 0
          ∗ semVal ((thrV d L), SemLoc.dma cc1_scoped145.sem) 0
          ∗ semVal ((thrV d L), SemLoc.dma cc1_scoped146.sem) 0
          ∗ semVal ((thrV d L), SemLoc.dma cc1_scoped147.sem) 0
          ∗ semVal ((thrV d L), SemLoc.dma cc1_scoped148.sem) 0
          ∗ semVal ((thrV d L), SemLoc.dma cc1_scoped149.sem) 0
          ∗ semVal ((thrV d L), SemLoc.dma cc1_scoped150.sem) 0
          ∗ semVal ((thrV d L), SemLoc.dma cc1_scoped151.sem) 0
          ∗ semVal ((thrV d L), SemLoc.dma cc1_scoped152.sem) 0
          ∗ semVal ((thrV d L), SemLoc.dma cc1_scoped153.sem) 0
          ∗ semVal ((thrV d L), SemLoc.dma cc1_scoped154.sem) 0
          ∗ semVal ((thrV d L), SemLoc.dma cc1_scoped155.sem) 0
          ∗ semVal ((thrV d L), SemLoc.dma cc1_scoped156.sem) 0
          ∗ semVal ((thrV d L), SemLoc.dma cc1_scoped157.sem) 0
          ∗ semVal ((thrV d L), SemLoc.dma cc1_scoped158.sem) 0
          ∗ semVal ((thrV d L), SemLoc.dma cc1_scoped159.sem) 0
          ∗ semVal ((thrV d L), SemLoc.dma cc1_scoped160.sem) 0
          ∗ semVal ((thrV d L), SemLoc.dma cc1_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q :=
  tile_run' d L q fh fs hfs fo f0 f1 f2 f3 f4 O W hO Q

end Tile

end Cert.Proof.KI

end
-- ==== Proof.TileGroupI.lean ====
/-
  The gather kernel's task run with its eighty output chunks and its 162 transfer counters held as chains over lists,
  the form the launch's bookkeeping splits and joins; it is the flat statement regrouped.
-/
import proofs.«207928_g75127567942135_cont_9to1c4b_313_20_alg».proof.Proof.TileI
import proofs.«207928_g75127567942135_cont_9to1c4b_313_20_alg».proof.Proof.GatherSpecI

noncomputable section

namespace Cert.Proof.KI

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile

variable (d : Dev nD) (L : grid1.Coords)

/-- The eighty chunks of a task, listed. -/
abbrev l80 : List (Fin 80) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79]

/-- The kernel's own transfer semaphores at this call, listed: one per copy and per gather. -/
abbrev sems1 : List (SemLoc sig) := [SemLoc.dma cc1_scoped0.sem, SemLoc.dma cc1_scoped1.sem, SemLoc.dma cc1_scoped2.sem, SemLoc.dma cc1_scoped3.sem, SemLoc.dma cc1_scoped4.sem, SemLoc.dma cc1_scoped5.sem, SemLoc.dma cc1_scoped6.sem, SemLoc.dma cc1_scoped7.sem, SemLoc.dma cc1_scoped8.sem, SemLoc.dma cc1_scoped9.sem, SemLoc.dma cc1_scoped10.sem, SemLoc.dma cc1_scoped11.sem, SemLoc.dma cc1_scoped12.sem, SemLoc.dma cc1_scoped13.sem, SemLoc.dma cc1_scoped14.sem, SemLoc.dma cc1_scoped15.sem, SemLoc.dma cc1_scoped16.sem, SemLoc.dma cc1_scoped17.sem, SemLoc.dma cc1_scoped18.sem, SemLoc.dma cc1_scoped19.sem, SemLoc.dma cc1_scoped20.sem, SemLoc.dma cc1_scoped21.sem, SemLoc.dma cc1_scoped22.sem, SemLoc.dma cc1_scoped23.sem, SemLoc.dma cc1_scoped24.sem, SemLoc.dma cc1_scoped25.sem, SemLoc.dma cc1_scoped26.sem, SemLoc.dma cc1_scoped27.sem, SemLoc.dma cc1_scoped28.sem, SemLoc.dma cc1_scoped29.sem, SemLoc.dma cc1_scoped30.sem, SemLoc.dma cc1_scoped31.sem, SemLoc.dma cc1_scoped32.sem, SemLoc.dma cc1_scoped33.sem, SemLoc.dma cc1_scoped34.sem, SemLoc.dma cc1_scoped35.sem, SemLoc.dma cc1_scoped36.sem, SemLoc.dma cc1_scoped37.sem, SemLoc.dma cc1_scoped38.sem, SemLoc.dma cc1_scoped39.sem, SemLoc.dma cc1_scoped40.sem, SemLoc.dma cc1_scoped41.sem, SemLoc.dma cc1_scoped42.sem, SemLoc.dma cc1_scoped43.sem, SemLoc.dma cc1_scoped44.sem, SemLoc.dma cc1_scoped45.sem, SemLoc.dma cc1_scoped46.sem, SemLoc.dma cc1_scoped47.sem, SemLoc.dma cc1_scoped48.sem, SemLoc.dma cc1_scoped49.sem, SemLoc.dma cc1_scoped50.sem, SemLoc.dma cc1_scoped51.sem, SemLoc.dma cc1_scoped52.sem, SemLoc.dma cc1_scoped53.sem, SemLoc.dma cc1_scoped54.sem, SemLoc.dma cc1_scoped55.sem, SemLoc.dma cc1_scoped56.sem, SemLoc.dma cc1_scoped57.sem, SemLoc.dma cc1_scoped58.sem, SemLoc.dma cc1_scoped59.sem, SemLoc.dma cc1_scoped60.sem, SemLoc.dma cc1_scoped61.sem, SemLoc.dma cc1_scoped62.sem, SemLoc.dma cc1_scoped63.sem, SemLoc.dma cc1_scoped64.sem, SemLoc.dma cc1_scoped65.sem, SemLoc.dma cc1_scoped66.sem, SemLoc.dma cc1_scoped67.sem, SemLoc.dma cc1_scoped68.sem, SemLoc.dma cc1_scoped69.sem, SemLoc.dma cc1_scoped70.sem, SemLoc.dma cc1_scoped71.sem, SemLoc.dma cc1_scoped72.sem, SemLoc.dma cc1_scoped73.sem, SemLoc.dma cc1_scoped74.sem, SemLoc.dma cc1_scoped75.sem, SemLoc.dma cc1_scoped76.sem, SemLoc.dma cc1_scoped77.sem, SemLoc.dma cc1_scoped78.sem, SemLoc.dma cc1_scoped79.sem, SemLoc.dma cc1_scoped80.sem, SemLoc.dma cc1_scoped81.sem, SemLoc.dma cc1_scoped82.sem, SemLoc.dma cc1_scoped83.sem, SemLoc.dma cc1_scoped84.sem, SemLoc.dma cc1_scoped85.sem, SemLoc.dma cc1_scoped86.sem, SemLoc.dma cc1_scoped87.sem, SemLoc.dma cc1_scoped88.sem, SemLoc.dma cc1_scoped89.sem, SemLoc.dma cc1_scoped90.sem, SemLoc.dma cc1_scoped91.sem, SemLoc.dma cc1_scoped92.sem, SemLoc.dma cc1_scoped93.sem, SemLoc.dma cc1_scoped94.sem, SemLoc.dma cc1_scoped95.sem, SemLoc.dma cc1_scoped96.sem, SemLoc.dma cc1_scoped97.sem, SemLoc.dma cc1_scoped98.sem, SemLoc.dma cc1_scoped99.sem, SemLoc.dma cc1_scoped100.sem, SemLoc.dma cc1_scoped101.sem, SemLoc.dma cc1_scoped102.sem, SemLoc.dma cc1_scoped103.sem, SemLoc.dma cc1_scoped104.sem, SemLoc.dma cc1_scoped105.sem, SemLoc.dma cc1_scoped106.sem, SemLoc.dma cc1_scoped107.sem, SemLoc.dma cc1_scoped108.sem, SemLoc.dma cc1_scoped109.sem, SemLoc.dma cc1_scoped110.sem, SemLoc.dma cc1_scoped111.sem, SemLoc.dma cc1_scoped112.sem, SemLoc.dma cc1_scoped113.sem, SemLoc.dma cc1_scoped114.sem, SemLoc.dma cc1_scoped115.sem, SemLoc.dma cc1_scoped116.sem, SemLoc.dma cc1_scoped117.sem, SemLoc.dma cc1_scoped118.sem, SemLoc.dma cc1_scoped119.sem, SemLoc.dma cc1_scoped120.sem, SemLoc.dma cc1_scoped121.sem, SemLoc.dma cc1_scoped122.sem, SemLoc.dma cc1_scoped123.sem, SemLoc.dma cc1_scoped124.sem, SemLoc.dma cc1_scoped125.sem, SemLoc.dma cc1_scoped126.sem, SemLoc.dma cc1_scoped127.sem, SemLoc.dma cc1_scoped128.sem, SemLoc.dma cc1_scoped129.sem, SemLoc.dma cc1_scoped130.sem, SemLoc.dma cc1_scoped131.sem, SemLoc.dma cc1_scoped132.sem, SemLoc.dma cc1_scoped133.sem, SemLoc.dma cc1_scoped134.sem, SemLoc.dma cc1_scoped135.sem, SemLoc.dma cc1_scoped136.sem, SemLoc.dma cc1_scoped137.sem, SemLoc.dma cc1_scoped138.sem, SemLoc.dma cc1_scoped139.sem, SemLoc.dma cc1_scoped140.sem, SemLoc.dma cc1_scoped141.sem, SemLoc.dma cc1_scoped142.sem, SemLoc.dma cc1_scoped143.sem, SemLoc.dma cc1_scoped144.sem, SemLoc.dma cc1_scoped145.sem, SemLoc.dma cc1_scoped146.sem, SemLoc.dma cc1_scoped147.sem, SemLoc.dma cc1_scoped148.sem, SemLoc.dma cc1_scoped149.sem, SemLoc.dma cc1_scoped150.sem, SemLoc.dma cc1_scoped151.sem, SemLoc.dma cc1_scoped152.sem, SemLoc.dma cc1_scoped153.sem, SemLoc.dma cc1_scoped154.sem, SemLoc.dma cc1_scoped155.sem, SemLoc.dma cc1_scoped156.sem, SemLoc.dma cc1_scoped157.sem, SemLoc.dma cc1_scoped158.sem, SemLoc.dma cc1_scoped159.sem, SemLoc.dma cc1_scoped160.sem, SemLoc.dma cc1_scoped161.sem]

set_option maxHeartbeats 8000000 in
theorem tile_grouped_aux (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ (((oSl L 0).view.loc (thrV d L) ↦[(oSl L 0).view.set]{fullShare} fo) ∗ ((oSl L 1).view.loc (thrV d L) ↦[(oSl L 1).view.set]{fullShare} fo) ∗ ((oSl L 2).view.loc (thrV d L) ↦[(oSl L 2).view.set]{fullShare} fo) ∗ ((oSl L 3).view.loc (thrV d L) ↦[(oSl L 3).view.set]{fullShare} fo) ∗ ((oSl L 4).view.loc (thrV d L) ↦[(oSl L 4).view.set]{fullShare} fo) ∗ ((oSl L 5).view.loc (thrV d L) ↦[(oSl L 5).view.set]{fullShare} fo) ∗ ((oSl L 6).view.loc (thrV d L) ↦[(oSl L 6).view.set]{fullShare} fo) ∗ ((oSl L 7).view.loc (thrV d L) ↦[(oSl L 7).view.set]{fullShare} fo) ∗ ((oSl L 8).view.loc (thrV d L) ↦[(oSl L 8).view.set]{fullShare} fo) ∗ ((oSl L 9).view.loc (thrV d L) ↦[(oSl L 9).view.set]{fullShare} fo) ∗ ((oSl L 10).view.loc (thrV d L) ↦[(oSl L 10).view.set]{fullShare} fo) ∗ ((oSl L 11).view.loc (thrV d L) ↦[(oSl L 11).view.set]{fullShare} fo) ∗ ((oSl L 12).view.loc (thrV d L) ↦[(oSl L 12).view.set]{fullShare} fo) ∗ ((oSl L 13).view.loc (thrV d L) ↦[(oSl L 13).view.set]{fullShare} fo) ∗ ((oSl L 14).view.loc (thrV d L) ↦[(oSl L 14).view.set]{fullShare} fo) ∗ ((oSl L 15).view.loc (thrV d L) ↦[(oSl L 15).view.set]{fullShare} fo) ∗ ((oSl L 16).view.loc (thrV d L) ↦[(oSl L 16).view.set]{fullShare} fo) ∗ ((oSl L 17).view.loc (thrV d L) ↦[(oSl L 17).view.set]{fullShare} fo) ∗ ((oSl L 18).view.loc (thrV d L) ↦[(oSl L 18).view.set]{fullShare} fo) ∗ ((oSl L 19).view.loc (thrV d L) ↦[(oSl L 19).view.set]{fullShare} fo) ∗ ((oSl L 20).view.loc (thrV d L) ↦[(oSl L 20).view.set]{fullShare} fo) ∗ ((oSl L 21).view.loc (thrV d L) ↦[(oSl L 21).view.set]{fullShare} fo) ∗ ((oSl L 22).view.loc (thrV d L) ↦[(oSl L 22).view.set]{fullShare} fo) ∗ ((oSl L 23).view.loc (thrV d L) ↦[(oSl L 23).view.set]{fullShare} fo) ∗ ((oSl L 24).view.loc (thrV d L) ↦[(oSl L 24).view.set]{fullShare} fo) ∗ ((oSl L 25).view.loc (thrV d L) ↦[(oSl L 25).view.set]{fullShare} fo) ∗ ((oSl L 26).view.loc (thrV d L) ↦[(oSl L 26).view.set]{fullShare} fo) ∗ ((oSl L 27).view.loc (thrV d L) ↦[(oSl L 27).view.set]{fullShare} fo) ∗ ((oSl L 28).view.loc (thrV d L) ↦[(oSl L 28).view.set]{fullShare} fo) ∗ ((oSl L 29).view.loc (thrV d L) ↦[(oSl L 29).view.set]{fullShare} fo) ∗ ((oSl L 30).view.loc (thrV d L) ↦[(oSl L 30).view.set]{fullShare} fo) ∗ ((oSl L 31).view.loc (thrV d L) ↦[(oSl L 31).view.set]{fullShare} fo) ∗ ((oSl L 32).view.loc (thrV d L) ↦[(oSl L 32).view.set]{fullShare} fo) ∗ ((oSl L 33).view.loc (thrV d L) ↦[(oSl L 33).view.set]{fullShare} fo) ∗ ((oSl L 34).view.loc (thrV d L) ↦[(oSl L 34).view.set]{fullShare} fo) ∗ ((oSl L 35).view.loc (thrV d L) ↦[(oSl L 35).view.set]{fullShare} fo) ∗ ((oSl L 36).view.loc (thrV d L) ↦[(oSl L 36).view.set]{fullShare} fo) ∗ ((oSl L 37).view.loc (thrV d L) ↦[(oSl L 37).view.set]{fullShare} fo) ∗ ((oSl L 38).view.loc (thrV d L) ↦[(oSl L 38).view.set]{fullShare} fo) ∗ ((oSl L 39).view.loc (thrV d L) ↦[(oSl L 39).view.set]{fullShare} fo) ∗ ((oSl L 40).view.loc (thrV d L) ↦[(oSl L 40).view.set]{fullShare} fo) ∗ ((oSl L 41).view.loc (thrV d L) ↦[(oSl L 41).view.set]{fullShare} fo) ∗ ((oSl L 42).view.loc (thrV d L) ↦[(oSl L 42).view.set]{fullShare} fo) ∗ ((oSl L 43).view.loc (thrV d L) ↦[(oSl L 43).view.set]{fullShare} fo) ∗ ((oSl L 44).view.loc (thrV d L) ↦[(oSl L 44).view.set]{fullShare} fo) ∗ ((oSl L 45).view.loc (thrV d L) ↦[(oSl L 45).view.set]{fullShare} fo) ∗ ((oSl L 46).view.loc (thrV d L) ↦[(oSl L 46).view.set]{fullShare} fo) ∗ ((oSl L 47).view.loc (thrV d L) ↦[(oSl L 47).view.set]{fullShare} fo) ∗ ((oSl L 48).view.loc (thrV d L) ↦[(oSl L 48).view.set]{fullShare} fo) ∗ ((oSl L 49).view.loc (thrV d L) ↦[(oSl L 49).view.set]{fullShare} fo) ∗ ((oSl L 50).view.loc (thrV d L) ↦[(oSl L 50).view.set]{fullShare} fo) ∗ ((oSl L 51).view.loc (thrV d L) ↦[(oSl L 51).view.set]{fullShare} fo) ∗ ((oSl L 52).view.loc (thrV d L) ↦[(oSl L 52).view.set]{fullShare} fo) ∗ ((oSl L 53).view.loc (thrV d L) ↦[(oSl L 53).view.set]{fullShare} fo) ∗ ((oSl L 54).view.loc (thrV d L) ↦[(oSl L 54).view.set]{fullShare} fo) ∗ ((oSl L 55).view.loc (thrV d L) ↦[(oSl L 55).view.set]{fullShare} fo) ∗ ((oSl L 56).view.loc (thrV d L) ↦[(oSl L 56).view.set]{fullShare} fo) ∗ ((oSl L 57).view.loc (thrV d L) ↦[(oSl L 57).view.set]{fullShare} fo) ∗ ((oSl L 58).view.loc (thrV d L) ↦[(oSl L 58).view.set]{fullShare} fo) ∗ ((oSl L 59).view.loc (thrV d L) ↦[(oSl L 59).view.set]{fullShare} fo) ∗ ((oSl L 60).view.loc (thrV d L) ↦[(oSl L 60).view.set]{fullShare} fo) ∗ ((oSl L 61).view.loc (thrV d L) ↦[(oSl L 61).view.set]{fullShare} fo) ∗ ((oSl L 62).view.loc (thrV d L) ↦[(oSl L 62).view.set]{fullShare} fo) ∗ ((oSl L 63).view.loc (thrV d L) ↦[(oSl L 63).view.set]{fullShare} fo) ∗ ((oSl L 64).view.loc (thrV d L) ↦[(oSl L 64).view.set]{fullShare} fo) ∗ ((oSl L 65).view.loc (thrV d L) ↦[(oSl L 65).view.set]{fullShare} fo) ∗ ((oSl L 66).view.loc (thrV d L) ↦[(oSl L 66).view.set]{fullShare} fo) ∗ ((oSl L 67).view.loc (thrV d L) ↦[(oSl L 67).view.set]{fullShare} fo) ∗ ((oSl L 68).view.loc (thrV d L) ↦[(oSl L 68).view.set]{fullShare} fo) ∗ ((oSl L 69).view.loc (thrV d L) ↦[(oSl L 69).view.set]{fullShare} fo) ∗ ((oSl L 70).view.loc (thrV d L) ↦[(oSl L 70).view.set]{fullShare} fo) ∗ ((oSl L 71).view.loc (thrV d L) ↦[(oSl L 71).view.set]{fullShare} fo) ∗ ((oSl L 72).view.loc (thrV d L) ↦[(oSl L 72).view.set]{fullShare} fo) ∗ ((oSl L 73).view.loc (thrV d L) ↦[(oSl L 73).view.set]{fullShare} fo) ∗ ((oSl L 74).view.loc (thrV d L) ↦[(oSl L 74).view.set]{fullShare} fo) ∗ ((oSl L 75).view.loc (thrV d L) ↦[(oSl L 75).view.set]{fullShare} fo) ∗ ((oSl L 76).view.loc (thrV d L) ↦[(oSl L 76).view.set]{fullShare} fo) ∗ ((oSl L 77).view.loc (thrV d L) ↦[(oSl L 77).view.set]{fullShare} fo) ∗ ((oSl L 78).view.loc (thrV d L) ↦[(oSl L 78).view.set]{fullShare} fo) ∗ ((oSl L 79).view.loc (thrV d L) ↦[(oSl L 79).view.set]{fullShare} fo))
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ (semVal ((thrV d L), SemLoc.dma cc1_scoped0.sem) 0 ∗ semVal ((thrV d L), SemLoc.dma cc1_scoped1.sem) 0 ∗ semVal ((thrV d L), SemLoc.dma cc1_scoped2.sem) 0 ∗ semVal ((thrV d L), SemLoc.dma cc1_scoped3.sem) 0 ∗ semVal ((thrV d L), SemLoc.dma cc1_scoped4.sem) 0 ∗ semVal ((thrV d L), SemLoc.dma cc1_scoped5.sem) 0 ∗ semVal ((thrV d L), SemLoc.dma cc1_scoped6.sem) 0 ∗ semVal ((thrV d L), SemLoc.dma cc1_scoped7.sem) 0 ∗ semVal ((thrV d L), SemLoc.dma cc1_scoped8.sem) 0 ∗ semVal ((thrV d L), SemLoc.dma cc1_scoped9.sem) 0 ∗ semVal ((thrV d L), SemLoc.dma cc1_scoped10.sem) 0 ∗ semVal ((thrV d L), SemLoc.dma cc1_scoped11.sem) 0 ∗ semVal ((thrV d L), SemLoc.dma cc1_scoped12.sem) 0 ∗ semVal ((thrV d L), SemLoc.dma cc1_scoped13.sem) 0 ∗ semVal ((thrV d L), SemLoc.dma cc1_scoped14.sem) 0 ∗ semVal ((thrV d L), SemLoc.dma cc1_scoped15.sem) 0 ∗ semVal ((thrV d L), SemLoc.dma cc1_scoped16.sem) 0 ∗ semVal ((thrV d L), SemLoc.dma cc1_scoped17.sem) 0 ∗ semVal ((thrV d L), SemLoc.dma cc1_scoped18.sem) 0 ∗ semVal ((thrV d L), SemLoc.dma cc1_scoped19.sem) 0 ∗ semVal ((thrV d L), SemLoc.dma cc1_scoped20.sem) 0 ∗ semVal ((thrV d L), SemLoc.dma cc1_scoped21.sem) 0 ∗ semVal ((thrV d L), SemLoc.dma cc1_scoped22.sem) 0 ∗ semVal ((thrV d L), SemLoc.dma cc1_scoped23.sem) 0 ∗ semVal ((thrV d L), SemLoc.dma cc1_scoped24.sem) 0 ∗ semVal ((thrV d L), SemLoc.dma cc1_scoped25.sem) 0 ∗ semVal ((thrV d L), SemLoc.dma cc1_scoped26.sem) 0 ∗ semVal ((thrV d L), SemLoc.dma cc1_scoped27.sem) 0 ∗ semVal ((thrV d L), SemLoc.dma cc1_scoped28.sem) 0 ∗ semVal ((thrV d L), SemLoc.dma cc1_scoped29.sem) 0 ∗ semVal ((thrV d L), SemLoc.dma cc1_scoped30.sem) 0 ∗ semVal ((thrV d L), SemLoc.dma cc1_scoped31.sem) 0 ∗ semVal ((thrV d L), SemLoc.dma cc1_scoped32.sem) 0 ∗ semVal ((thrV d L), SemLoc.dma cc1_scoped33.sem) 0 ∗ semVal ((thrV d L), SemLoc.dma cc1_scoped34.sem) 0 ∗ semVal ((thrV d L), SemLoc.dma cc1_scoped35.sem) 0 ∗ semVal ((thrV d L), SemLoc.dma cc1_scoped36.sem) 0 ∗ semVal ((thrV d L), SemLoc.dma cc1_scoped37.sem) 0 ∗ semVal ((thrV d L), SemLoc.dma cc1_scoped38.sem) 0 ∗ semVal ((thrV d L), SemLoc.dma cc1_scoped39.sem) 0 ∗ semVal ((thrV d L), SemLoc.dma cc1_scoped40.sem) 0 ∗ semVal ((thrV d L), SemLoc.dma cc1_scoped41.sem) 0 ∗ semVal ((thrV d L), SemLoc.dma cc1_scoped42.sem) 0 ∗ semVal ((thrV d L), SemLoc.dma cc1_scoped43.sem) 0 ∗ semVal ((thrV d L), SemLoc.dma cc1_scoped44.sem) 0 ∗ semVal ((thrV d L), SemLoc.dma cc1_scoped45.sem) 0 ∗ semVal ((thrV d L), SemLoc.dma cc1_scoped46.sem) 0 ∗ semVal ((thrV d L), SemLoc.dma cc1_scoped47.sem) 0 ∗ semVal ((thrV d L), SemLoc.dma cc1_scoped48.sem) 0 ∗ semVal ((thrV d L), SemLoc.dma cc1_scoped49.sem) 0 ∗ semVal ((thrV d L), SemLoc.dma cc1_scoped50.sem) 0 ∗ semVal ((thrV d L), SemLoc.dma cc1_scoped51.sem) 0 ∗ semVal ((thrV d L), SemLoc.dma cc1_scoped52.sem) 0 ∗ semVal ((thrV d L), SemLoc.dma cc1_scoped53.sem) 0 ∗ semVal ((thrV d L), SemLoc.dma cc1_scoped54.sem) 0 ∗ semVal ((thrV d L), SemLoc.dma cc1_scoped55.sem) 0 ∗ semVal ((thrV d L), SemLoc.dma cc1_scoped56.sem) 0 ∗ semVal ((thrV d L), SemLoc.dma cc1_scoped57.sem) 0 ∗ semVal ((thrV d L), SemLoc.dma cc1_scoped58.sem) 0 ∗ semVal ((thrV d L), SemLoc.dma cc1_scoped59.sem) 0 ∗ semVal ((thrV d L), SemLoc.dma cc1_scoped60.sem) 0 ∗ semVal ((thrV d L), SemLoc.dma cc1_scoped61.sem) 0 ∗ semVal ((thrV d L), SemLoc.dma cc1_scoped62.sem) 0 ∗ semVal ((thrV d L), SemLoc.dma cc1_scoped63.sem) 0 ∗ semVal ((thrV d L), SemLoc.dma cc1_scoped64.sem) 0 ∗ semVal ((thrV d L), SemLoc.dma cc1_scoped65.sem) 0 ∗ semVal ((thrV d L), SemLoc.dma cc1_scoped66.sem) 0 ∗ semVal ((thrV d L), SemLoc.dma cc1_scoped67.sem) 0 ∗ semVal ((thrV d L), SemLoc.dma cc1_scoped68.sem) 0 ∗ semVal ((thrV d L), SemLoc.dma cc1_scoped69.sem) 0 ∗ semVal ((thrV d L), SemLoc.dma cc1_scoped70.sem) 0 ∗ semVal ((thrV d L), SemLoc.dma cc1_scoped71.sem) 0 ∗ semVal ((thrV d L), SemLoc.dma cc1_scoped72.sem) 0 ∗ semVal ((thrV d L), SemLoc.dma cc1_scoped73.sem) 0 ∗ semVal ((thrV d L), SemLoc.dma cc1_scoped74.sem) 0 ∗ semVal ((thrV d L), SemLoc.dma cc1_scoped75.sem) 0 ∗ semVal ((thrV d L), SemLoc.dma cc1_scoped76.sem) 0 ∗ semVal ((thrV d L), SemLoc.dma cc1_scoped77.sem) 0 ∗ semVal ((thrV d L), SemLoc.dma cc1_scoped78.sem) 0 ∗ semVal ((thrV d L), SemLoc.dma cc1_scoped79.sem) 0 ∗ semVal ((thrV d L), SemLoc.dma cc1_scoped80.sem) 0 ∗ semVal ((thrV d L), SemLoc.dma cc1_scoped81.sem) 0 ∗ semVal ((thrV d L), SemLoc.dma cc1_scoped82.sem) 0 ∗ semVal ((thrV d L), SemLoc.dma cc1_scoped83.sem) 0 ∗ semVal ((thrV d L), SemLoc.dma cc1_scoped84.sem) 0 ∗ semVal ((thrV d L), SemLoc.dma cc1_scoped85.sem) 0 ∗ semVal ((thrV d L), SemLoc.dma cc1_scoped86.sem) 0 ∗ semVal ((thrV d L), SemLoc.dma cc1_scoped87.sem) 0 ∗ semVal ((thrV d L), SemLoc.dma cc1_scoped88.sem) 0 ∗ semVal ((thrV d L), SemLoc.dma cc1_scoped89.sem) 0 ∗ semVal ((thrV d L), SemLoc.dma cc1_scoped90.sem) 0 ∗ semVal ((thrV d L), SemLoc.dma cc1_scoped91.sem) 0 ∗ semVal ((thrV d L), SemLoc.dma cc1_scoped92.sem) 0 ∗ semVal ((thrV d L), SemLoc.dma cc1_scoped93.sem) 0 ∗ semVal ((thrV d L), SemLoc.dma cc1_scoped94.sem) 0 ∗ semVal ((thrV d L), SemLoc.dma cc1_scoped95.sem) 0 ∗ semVal ((thrV d L), SemLoc.dma cc1_scoped96.sem) 0 ∗ semVal ((thrV d L), SemLoc.dma cc1_scoped97.sem) 0 ∗ semVal ((thrV d L), SemLoc.dma cc1_scoped98.sem) 0 ∗ semVal ((thrV d L), SemLoc.dma cc1_scoped99.sem) 0 ∗ semVal ((thrV d L), SemLoc.dma cc1_scoped100.sem) 0 ∗ semVal ((thrV d L), SemLoc.dma cc1_scoped101.sem) 0 ∗ semVal ((thrV d L), SemLoc.dma cc1_scoped102.sem) 0 ∗ semVal ((thrV d L), SemLoc.dma cc1_scoped103.sem) 0 ∗ semVal ((thrV d L), SemLoc.dma cc1_scoped104.sem) 0 ∗ semVal ((thrV d L), SemLoc.dma cc1_scoped105.sem) 0 ∗ semVal ((thrV d L), SemLoc.dma cc1_scoped106.sem) 0 ∗ semVal ((thrV d L), SemLoc.dma cc1_scoped107.sem) 0 ∗ semVal ((thrV d L), SemLoc.dma cc1_scoped108.sem) 0 ∗ semVal ((thrV d L), SemLoc.dma cc1_scoped109.sem) 0 ∗ semVal ((thrV d L), SemLoc.dma cc1_scoped110.sem) 0 ∗ semVal ((thrV d L), SemLoc.dma cc1_scoped111.sem) 0 ∗ semVal ((thrV d L), SemLoc.dma cc1_scoped112.sem) 0 ∗ semVal ((thrV d L), SemLoc.dma cc1_scoped113.sem) 0 ∗ semVal ((thrV d L), SemLoc.dma cc1_scoped114.sem) 0 ∗ semVal ((thrV d L), SemLoc.dma cc1_scoped115.sem) 0 ∗ semVal ((thrV d L), SemLoc.dma cc1_scoped116.sem) 0 ∗ semVal ((thrV d L), SemLoc.dma cc1_scoped117.sem) 0 ∗ semVal ((thrV d L), SemLoc.dma cc1_scoped118.sem) 0 ∗ semVal ((thrV d L), SemLoc.dma cc1_scoped119.sem) 0 ∗ semVal ((thrV d L), SemLoc.dma cc1_scoped120.sem) 0 ∗ semVal ((thrV d L), SemLoc.dma cc1_scoped121.sem) 0 ∗ semVal ((thrV d L), SemLoc.dma cc1_scoped122.sem) 0 ∗ semVal ((thrV d L), SemLoc.dma cc1_scoped123.sem) 0 ∗ semVal ((thrV d L), SemLoc.dma cc1_scoped124.sem) 0 ∗ semVal ((thrV d L), SemLoc.dma cc1_scoped125.sem) 0 ∗ semVal ((thrV d L), SemLoc.dma cc1_scoped126.sem) 0 ∗ semVal ((thrV d L), SemLoc.dma cc1_scoped127.sem) 0 ∗ semVal ((thrV d L), SemLoc.dma cc1_scoped128.sem) 0 ∗ semVal ((thrV d L), SemLoc.dma cc1_scoped129.sem) 0 ∗ semVal ((thrV d L), SemLoc.dma cc1_scoped130.sem) 0 ∗ semVal ((thrV d L), SemLoc.dma cc1_scoped131.sem) 0 ∗ semVal ((thrV d L), SemLoc.dma cc1_scoped132.sem) 0 ∗ semVal ((thrV d L), SemLoc.dma cc1_scoped133.sem) 0 ∗ semVal ((thrV d L), SemLoc.dma cc1_scoped134.sem) 0 ∗ semVal ((thrV d L), SemLoc.dma cc1_scoped135.sem) 0 ∗ semVal ((thrV d L), SemLoc.dma cc1_scoped136.sem) 0 ∗ semVal ((thrV d L), SemLoc.dma cc1_scoped137.sem) 0 ∗ semVal ((thrV d L), SemLoc.dma cc1_scoped138.sem) 0 ∗ semVal ((thrV d L), SemLoc.dma cc1_scoped139.sem) 0 ∗ semVal ((thrV d L), SemLoc.dma cc1_scoped140.sem) 0 ∗ semVal ((thrV d L), SemLoc.dma cc1_scoped141.sem) 0 ∗ semVal ((thrV d L), SemLoc.dma cc1_scoped142.sem) 0 ∗ semVal ((thrV d L), SemLoc.dma cc1_scoped143.sem) 0 ∗ semVal ((thrV d L), SemLoc.dma cc1_scoped144.sem) 0 ∗ semVal ((thrV d L), SemLoc.dma cc1_scoped145.sem) 0 ∗ semVal ((thrV d L), SemLoc.dma cc1_scoped146.sem) 0 ∗ semVal ((thrV d L), SemLoc.dma cc1_scoped147.sem) 0 ∗ semVal ((thrV d L), SemLoc.dma cc1_scoped148.sem) 0 ∗ semVal ((thrV d L), SemLoc.dma cc1_scoped149.sem) 0 ∗ semVal ((thrV d L), SemLoc.dma cc1_scoped150.sem) 0 ∗ semVal ((thrV d L), SemLoc.dma cc1_scoped151.sem) 0 ∗ semVal ((thrV d L), SemLoc.dma cc1_scoped152.sem) 0 ∗ semVal ((thrV d L), SemLoc.dma cc1_scoped153.sem) 0 ∗ semVal ((thrV d L), SemLoc.dma cc1_scoped154.sem) 0 ∗ semVal ((thrV d L), SemLoc.dma cc1_scoped155.sem) 0 ∗ semVal ((thrV d L), SemLoc.dma cc1_scoped156.sem) 0 ∗ semVal ((thrV d L), SemLoc.dma cc1_scoped157.sem) 0 ∗ semVal ((thrV d L), SemLoc.dma cc1_scoped158.sem) 0 ∗ semVal ((thrV d L), SemLoc.dma cc1_scoped159.sem) 0 ∗ semVal ((thrV d L), SemLoc.dma cc1_scoped160.sem) 0 ∗ semVal ((thrV d L), SemLoc.dma cc1_scoped161.sem) 0)
      ∗ owes (thrV d L) O W
      ∗ (iprop((hV.view.loc (thrV d L) ↦{q} fh) ∗ (sV.view.loc (thrV d L) ↦{q} fs)
          ∗ (((oSl L 0).view.loc (thrV d L) ↦[(oSl L 0).view.set]{fullShare} gatherRows fh fs) ∗ ((oSl L 1).view.loc (thrV d L) ↦[(oSl L 1).view.set]{fullShare} gatherRows fh fs) ∗ ((oSl L 2).view.loc (thrV d L) ↦[(oSl L 2).view.set]{fullShare} gatherRows fh fs) ∗ ((oSl L 3).view.loc (thrV d L) ↦[(oSl L 3).view.set]{fullShare} gatherRows fh fs) ∗ ((oSl L 4).view.loc (thrV d L) ↦[(oSl L 4).view.set]{fullShare} gatherRows fh fs) ∗ ((oSl L 5).view.loc (thrV d L) ↦[(oSl L 5).view.set]{fullShare} gatherRows fh fs) ∗ ((oSl L 6).view.loc (thrV d L) ↦[(oSl L 6).view.set]{fullShare} gatherRows fh fs) ∗ ((oSl L 7).view.loc (thrV d L) ↦[(oSl L 7).view.set]{fullShare} gatherRows fh fs) ∗ ((oSl L 8).view.loc (thrV d L) ↦[(oSl L 8).view.set]{fullShare} gatherRows fh fs) ∗ ((oSl L 9).view.loc (thrV d L) ↦[(oSl L 9).view.set]{fullShare} gatherRows fh fs) ∗ ((oSl L 10).view.loc (thrV d L) ↦[(oSl L 10).view.set]{fullShare} gatherRows fh fs) ∗ ((oSl L 11).view.loc (thrV d L) ↦[(oSl L 11).view.set]{fullShare} gatherRows fh fs) ∗ ((oSl L 12).view.loc (thrV d L) ↦[(oSl L 12).view.set]{fullShare} gatherRows fh fs) ∗ ((oSl L 13).view.loc (thrV d L) ↦[(oSl L 13).view.set]{fullShare} gatherRows fh fs) ∗ ((oSl L 14).view.loc (thrV d L) ↦[(oSl L 14).view.set]{fullShare} gatherRows fh fs) ∗ ((oSl L 15).view.loc (thrV d L) ↦[(oSl L 15).view.set]{fullShare} gatherRows fh fs) ∗ ((oSl L 16).view.loc (thrV d L) ↦[(oSl L 16).view.set]{fullShare} gatherRows fh fs) ∗ ((oSl L 17).view.loc (thrV d L) ↦[(oSl L 17).view.set]{fullShare} gatherRows fh fs) ∗ ((oSl L 18).view.loc (thrV d L) ↦[(oSl L 18).view.set]{fullShare} gatherRows fh fs) ∗ ((oSl L 19).view.loc (thrV d L) ↦[(oSl L 19).view.set]{fullShare} gatherRows fh fs) ∗ ((oSl L 20).view.loc (thrV d L) ↦[(oSl L 20).view.set]{fullShare} gatherRows fh fs) ∗ ((oSl L 21).view.loc (thrV d L) ↦[(oSl L 21).view.set]{fullShare} gatherRows fh fs) ∗ ((oSl L 22).view.loc (thrV d L) ↦[(oSl L 22).view.set]{fullShare} gatherRows fh fs) ∗ ((oSl L 23).view.loc (thrV d L) ↦[(oSl L 23).view.set]{fullShare} gatherRows fh fs) ∗ ((oSl L 24).view.loc (thrV d L) ↦[(oSl L 24).view.set]{fullShare} gatherRows fh fs) ∗ ((oSl L 25).view.loc (thrV d L) ↦[(oSl L 25).view.set]{fullShare} gatherRows fh fs) ∗ ((oSl L 26).view.loc (thrV d L) ↦[(oSl L 26).view.set]{fullShare} gatherRows fh fs) ∗ ((oSl L 27).view.loc (thrV d L) ↦[(oSl L 27).view.set]{fullShare} gatherRows fh fs) ∗ ((oSl L 28).view.loc (thrV d L) ↦[(oSl L 28).view.set]{fullShare} gatherRows fh fs) ∗ ((oSl L 29).view.loc (thrV d L) ↦[(oSl L 29).view.set]{fullShare} gatherRows fh fs) ∗ ((oSl L 30).view.loc (thrV d L) ↦[(oSl L 30).view.set]{fullShare} gatherRows fh fs) ∗ ((oSl L 31).view.loc (thrV d L) ↦[(oSl L 31).view.set]{fullShare} gatherRows fh fs) ∗ ((oSl L 32).view.loc (thrV d L) ↦[(oSl L 32).view.set]{fullShare} gatherRows fh fs) ∗ ((oSl L 33).view.loc (thrV d L) ↦[(oSl L 33).view.set]{fullShare} gatherRows fh fs) ∗ ((oSl L 34).view.loc (thrV d L) ↦[(oSl L 34).view.set]{fullShare} gatherRows fh fs) ∗ ((oSl L 35).view.loc (thrV d L) ↦[(oSl L 35).view.set]{fullShare} gatherRows fh fs) ∗ ((oSl L 36).view.loc (thrV d L) ↦[(oSl L 36).view.set]{fullShare} gatherRows fh fs) ∗ ((oSl L 37).view.loc (thrV d L) ↦[(oSl L 37).view.set]{fullShare} gatherRows fh fs) ∗ ((oSl L 38).view.loc (thrV d L) ↦[(oSl L 38).view.set]{fullShare} gatherRows fh fs) ∗ ((oSl L 39).view.loc (thrV d L) ↦[(oSl L 39).view.set]{fullShare} gatherRows fh fs) ∗ ((oSl L 40).view.loc (thrV d L) ↦[(oSl L 40).view.set]{fullShare} gatherRows fh fs) ∗ ((oSl L 41).view.loc (thrV d L) ↦[(oSl L 41).view.set]{fullShare} gatherRows fh fs) ∗ ((oSl L 42).view.loc (thrV d L) ↦[(oSl L 42).view.set]{fullShare} gatherRows fh fs) ∗ ((oSl L 43).view.loc (thrV d L) ↦[(oSl L 43).view.set]{fullShare} gatherRows fh fs) ∗ ((oSl L 44).view.loc (thrV d L) ↦[(oSl L 44).view.set]{fullShare} gatherRows fh fs) ∗ ((oSl L 45).view.loc (thrV d L) ↦[(oSl L 45).view.set]{fullShare} gatherRows fh fs) ∗ ((oSl L 46).view.loc (thrV d L) ↦[(oSl L 46).view.set]{fullShare} gatherRows fh fs) ∗ ((oSl L 47).view.loc (thrV d L) ↦[(oSl L 47).view.set]{fullShare} gatherRows fh fs) ∗ ((oSl L 48).view.loc (thrV d L) ↦[(oSl L 48).view.set]{fullShare} gatherRows fh fs) ∗ ((oSl L 49).view.loc (thrV d L) ↦[(oSl L 49).view.set]{fullShare} gatherRows fh fs) ∗ ((oSl L 50).view.loc (thrV d L) ↦[(oSl L 50).view.set]{fullShare} gatherRows fh fs) ∗ ((oSl L 51).view.loc (thrV d L) ↦[(oSl L 51).view.set]{fullShare} gatherRows fh fs) ∗ ((oSl L 52).view.loc (thrV d L) ↦[(oSl L 52).view.set]{fullShare} gatherRows fh fs) ∗ ((oSl L 53).view.loc (thrV d L) ↦[(oSl L 53).view.set]{fullShare} gatherRows fh fs) ∗ ((oSl L 54).view.loc (thrV d L) ↦[(oSl L 54).view.set]{fullShare} gatherRows fh fs) ∗ ((oSl L 55).view.loc (thrV d L) ↦[(oSl L 55).view.set]{fullShare} gatherRows fh fs) ∗ ((oSl L 56).view.loc (thrV d L) ↦[(oSl L 56).view.set]{fullShare} gatherRows fh fs) ∗ ((oSl L 57).view.loc (thrV d L) ↦[(oSl L 57).view.set]{fullShare} gatherRows fh fs) ∗ ((oSl L 58).view.loc (thrV d L) ↦[(oSl L 58).view.set]{fullShare} gatherRows fh fs) ∗ ((oSl L 59).view.loc (thrV d L) ↦[(oSl L 59).view.set]{fullShare} gatherRows fh fs) ∗ ((oSl L 60).view.loc (thrV d L) ↦[(oSl L 60).view.set]{fullShare} gatherRows fh fs) ∗ ((oSl L 61).view.loc (thrV d L) ↦[(oSl L 61).view.set]{fullShare} gatherRows fh fs) ∗ ((oSl L 62).view.loc (thrV d L) ↦[(oSl L 62).view.set]{fullShare} gatherRows fh fs) ∗ ((oSl L 63).view.loc (thrV d L) ↦[(oSl L 63).view.set]{fullShare} gatherRows fh fs) ∗ ((oSl L 64).view.loc (thrV d L) ↦[(oSl L 64).view.set]{fullShare} gatherRows fh fs) ∗ ((oSl L 65).view.loc (thrV d L) ↦[(oSl L 65).view.set]{fullShare} gatherRows fh fs) ∗ ((oSl L 66).view.loc (thrV d L) ↦[(oSl L 66).view.set]{fullShare} gatherRows fh fs) ∗ ((oSl L 67).view.loc (thrV d L) ↦[(oSl L 67).view.set]{fullShare} gatherRows fh fs) ∗ ((oSl L 68).view.loc (thrV d L) ↦[(oSl L 68).view.set]{fullShare} gatherRows fh fs) ∗ ((oSl L 69).view.loc (thrV d L) ↦[(oSl L 69).view.set]{fullShare} gatherRows fh fs) ∗ ((oSl L 70).view.loc (thrV d L) ↦[(oSl L 70).view.set]{fullShare} gatherRows fh fs) ∗ ((oSl L 71).view.loc (thrV d L) ↦[(oSl L 71).view.set]{fullShare} gatherRows fh fs) ∗ ((oSl L 72).view.loc (thrV d L) ↦[(oSl L 72).view.set]{fullShare} gatherRows fh fs) ∗ ((oSl L 73).view.loc (thrV d L) ↦[(oSl L 73).view.set]{fullShare} gatherRows fh fs) ∗ ((oSl L 74).view.loc (thrV d L) ↦[(oSl L 74).view.set]{fullShare} gatherRows fh fs) ∗ ((oSl L 75).view.loc (thrV d L) ↦[(oSl L 75).view.set]{fullShare} gatherRows fh fs) ∗ ((oSl L 76).view.loc (thrV d L) ↦[(oSl L 76).view.set]{fullShare} gatherRows fh fs) ∗ ((oSl L 77).view.loc (thrV d L) ↦[(oSl L 77).view.set]{fullShare} gatherRows fh fs) ∗ ((oSl L 78).view.loc (thrV d L) ↦[(oSl L 78).view.set]{fullShare} gatherRows fh fs) ∗ ((oSl L 79).view.loc (thrV d L) ↦[(oSl L 79).view.set]{fullShare} gatherRows fh fs))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ (semVal ((thrV d L), SemLoc.dma cc1_scoped0.sem) 0 ∗ semVal ((thrV d L), SemLoc.dma cc1_scoped1.sem) 0 ∗ semVal ((thrV d L), SemLoc.dma cc1_scoped2.sem) 0 ∗ semVal ((thrV d L), SemLoc.dma cc1_scoped3.sem) 0 ∗ semVal ((thrV d L), SemLoc.dma cc1_scoped4.sem) 0 ∗ semVal ((thrV d L), SemLoc.dma cc1_scoped5.sem) 0 ∗ semVal ((thrV d L), SemLoc.dma cc1_scoped6.sem) 0 ∗ semVal ((thrV d L), SemLoc.dma cc1_scoped7.sem) 0 ∗ semVal ((thrV d L), SemLoc.dma cc1_scoped8.sem) 0 ∗ semVal ((thrV d L), SemLoc.dma cc1_scoped9.sem) 0 ∗ semVal ((thrV d L), SemLoc.dma cc1_scoped10.sem) 0 ∗ semVal ((thrV d L), SemLoc.dma cc1_scoped11.sem) 0 ∗ semVal ((thrV d L), SemLoc.dma cc1_scoped12.sem) 0 ∗ semVal ((thrV d L), SemLoc.dma cc1_scoped13.sem) 0 ∗ semVal ((thrV d L), SemLoc.dma cc1_scoped14.sem) 0 ∗ semVal ((thrV d L), SemLoc.dma cc1_scoped15.sem) 0 ∗ semVal ((thrV d L), SemLoc.dma cc1_scoped16.sem) 0 ∗ semVal ((thrV d L), SemLoc.dma cc1_scoped17.sem) 0 ∗ semVal ((thrV d L), SemLoc.dma cc1_scoped18.sem) 0 ∗ semVal ((thrV d L), SemLoc.dma cc1_scoped19.sem) 0 ∗ semVal ((thrV d L), SemLoc.dma cc1_scoped20.sem) 0 ∗ semVal ((thrV d L), SemLoc.dma cc1_scoped21.sem) 0 ∗ semVal ((thrV d L), SemLoc.dma cc1_scoped22.sem) 0 ∗ semVal ((thrV d L), SemLoc.dma cc1_scoped23.sem) 0 ∗ semVal ((thrV d L), SemLoc.dma cc1_scoped24.sem) 0 ∗ semVal ((thrV d L), SemLoc.dma cc1_scoped25.sem) 0 ∗ semVal ((thrV d L), SemLoc.dma cc1_scoped26.sem) 0 ∗ semVal ((thrV d L), SemLoc.dma cc1_scoped27.sem) 0 ∗ semVal ((thrV d L), SemLoc.dma cc1_scoped28.sem) 0 ∗ semVal ((thrV d L), SemLoc.dma cc1_scoped29.sem) 0 ∗ semVal ((thrV d L), SemLoc.dma cc1_scoped30.sem) 0 ∗ semVal ((thrV d L), SemLoc.dma cc1_scoped31.sem) 0 ∗ semVal ((thrV d L), SemLoc.dma cc1_scoped32.sem) 0 ∗ semVal ((thrV d L), SemLoc.dma cc1_scoped33.sem) 0 ∗ semVal ((thrV d L), SemLoc.dma cc1_scoped34.sem) 0 ∗ semVal ((thrV d L), SemLoc.dma cc1_scoped35.sem) 0 ∗ semVal ((thrV d L), SemLoc.dma cc1_scoped36.sem) 0 ∗ semVal ((thrV d L), SemLoc.dma cc1_scoped37.sem) 0 ∗ semVal ((thrV d L), SemLoc.dma cc1_scoped38.sem) 0 ∗ semVal ((thrV d L), SemLoc.dma cc1_scoped39.sem) 0 ∗ semVal ((thrV d L), SemLoc.dma cc1_scoped40.sem) 0 ∗ semVal ((thrV d L), SemLoc.dma cc1_scoped41.sem) 0 ∗ semVal ((thrV d L), SemLoc.dma cc1_scoped42.sem) 0 ∗ semVal ((thrV d L), SemLoc.dma cc1_scoped43.sem) 0 ∗ semVal ((thrV d L), SemLoc.dma cc1_scoped44.sem) 0 ∗ semVal ((thrV d L), SemLoc.dma cc1_scoped45.sem) 0 ∗ semVal ((thrV d L), SemLoc.dma cc1_scoped46.sem) 0 ∗ semVal ((thrV d L), SemLoc.dma cc1_scoped47.sem) 0 ∗ semVal ((thrV d L), SemLoc.dma cc1_scoped48.sem) 0 ∗ semVal ((thrV d L), SemLoc.dma cc1_scoped49.sem) 0 ∗ semVal ((thrV d L), SemLoc.dma cc1_scoped50.sem) 0 ∗ semVal ((thrV d L), SemLoc.dma cc1_scoped51.sem) 0 ∗ semVal ((thrV d L), SemLoc.dma cc1_scoped52.sem) 0 ∗ semVal ((thrV d L), SemLoc.dma cc1_scoped53.sem) 0 ∗ semVal ((thrV d L), SemLoc.dma cc1_scoped54.sem) 0 ∗ semVal ((thrV d L), SemLoc.dma cc1_scoped55.sem) 0 ∗ semVal ((thrV d L), SemLoc.dma cc1_scoped56.sem) 0 ∗ semVal ((thrV d L), SemLoc.dma cc1_scoped57.sem) 0 ∗ semVal ((thrV d L), SemLoc.dma cc1_scoped58.sem) 0 ∗ semVal ((thrV d L), SemLoc.dma cc1_scoped59.sem) 0 ∗ semVal ((thrV d L), SemLoc.dma cc1_scoped60.sem) 0 ∗ semVal ((thrV d L), SemLoc.dma cc1_scoped61.sem) 0 ∗ semVal ((thrV d L), SemLoc.dma cc1_scoped62.sem) 0 ∗ semVal ((thrV d L), SemLoc.dma cc1_scoped63.sem) 0 ∗ semVal ((thrV d L), SemLoc.dma cc1_scoped64.sem) 0 ∗ semVal ((thrV d L), SemLoc.dma cc1_scoped65.sem) 0 ∗ semVal ((thrV d L), SemLoc.dma cc1_scoped66.sem) 0 ∗ semVal ((thrV d L), SemLoc.dma cc1_scoped67.sem) 0 ∗ semVal ((thrV d L), SemLoc.dma cc1_scoped68.sem) 0 ∗ semVal ((thrV d L), SemLoc.dma cc1_scoped69.sem) 0 ∗ semVal ((thrV d L), SemLoc.dma cc1_scoped70.sem) 0 ∗ semVal ((thrV d L), SemLoc.dma cc1_scoped71.sem) 0 ∗ semVal ((thrV d L), SemLoc.dma cc1_scoped72.sem) 0 ∗ semVal ((thrV d L), SemLoc.dma cc1_scoped73.sem) 0 ∗ semVal ((thrV d L), SemLoc.dma cc1_scoped74.sem) 0 ∗ semVal ((thrV d L), SemLoc.dma cc1_scoped75.sem) 0 ∗ semVal ((thrV d L), SemLoc.dma cc1_scoped76.sem) 0 ∗ semVal ((thrV d L), SemLoc.dma cc1_scoped77.sem) 0 ∗ semVal ((thrV d L), SemLoc.dma cc1_scoped78.sem) 0 ∗ semVal ((thrV d L), SemLoc.dma cc1_scoped79.sem) 0 ∗ semVal ((thrV d L), SemLoc.dma cc1_scoped80.sem) 0 ∗ semVal ((thrV d L), SemLoc.dma cc1_scoped81.sem) 0 ∗ semVal ((thrV d L), SemLoc.dma cc1_scoped82.sem) 0 ∗ semVal ((thrV d L), SemLoc.dma cc1_scoped83.sem) 0 ∗ semVal ((thrV d L), SemLoc.dma cc1_scoped84.sem) 0 ∗ semVal ((thrV d L), SemLoc.dma cc1_scoped85.sem) 0 ∗ semVal ((thrV d L), SemLoc.dma cc1_scoped86.sem) 0 ∗ semVal ((thrV d L), SemLoc.dma cc1_scoped87.sem) 0 ∗ semVal ((thrV d L), SemLoc.dma cc1_scoped88.sem) 0 ∗ semVal ((thrV d L), SemLoc.dma cc1_scoped89.sem) 0 ∗ semVal ((thrV d L), SemLoc.dma cc1_scoped90.sem) 0 ∗ semVal ((thrV d L), SemLoc.dma cc1_scoped91.sem) 0 ∗ semVal ((thrV d L), SemLoc.dma cc1_scoped92.sem) 0 ∗ semVal ((thrV d L), SemLoc.dma cc1_scoped93.sem) 0 ∗ semVal ((thrV d L), SemLoc.dma cc1_scoped94.sem) 0 ∗ semVal ((thrV d L), SemLoc.dma cc1_scoped95.sem) 0 ∗ semVal ((thrV d L), SemLoc.dma cc1_scoped96.sem) 0 ∗ semVal ((thrV d L), SemLoc.dma cc1_scoped97.sem) 0 ∗ semVal ((thrV d L), SemLoc.dma cc1_scoped98.sem) 0 ∗ semVal ((thrV d L), SemLoc.dma cc1_scoped99.sem) 0 ∗ semVal ((thrV d L), SemLoc.dma cc1_scoped100.sem) 0 ∗ semVal ((thrV d L), SemLoc.dma cc1_scoped101.sem) 0 ∗ semVal ((thrV d L), SemLoc.dma cc1_scoped102.sem) 0 ∗ semVal ((thrV d L), SemLoc.dma cc1_scoped103.sem) 0 ∗ semVal ((thrV d L), SemLoc.dma cc1_scoped104.sem) 0 ∗ semVal ((thrV d L), SemLoc.dma cc1_scoped105.sem) 0 ∗ semVal ((thrV d L), SemLoc.dma cc1_scoped106.sem) 0 ∗ semVal ((thrV d L), SemLoc.dma cc1_scoped107.sem) 0 ∗ semVal ((thrV d L), SemLoc.dma cc1_scoped108.sem) 0 ∗ semVal ((thrV d L), SemLoc.dma cc1_scoped109.sem) 0 ∗ semVal ((thrV d L), SemLoc.dma cc1_scoped110.sem) 0 ∗ semVal ((thrV d L), SemLoc.dma cc1_scoped111.sem) 0 ∗ semVal ((thrV d L), SemLoc.dma cc1_scoped112.sem) 0 ∗ semVal ((thrV d L), SemLoc.dma cc1_scoped113.sem) 0 ∗ semVal ((thrV d L), SemLoc.dma cc1_scoped114.sem) 0 ∗ semVal ((thrV d L), SemLoc.dma cc1_scoped115.sem) 0 ∗ semVal ((thrV d L), SemLoc.dma cc1_scoped116.sem) 0 ∗ semVal ((thrV d L), SemLoc.dma cc1_scoped117.sem) 0 ∗ semVal ((thrV d L), SemLoc.dma cc1_scoped118.sem) 0 ∗ semVal ((thrV d L), SemLoc.dma cc1_scoped119.sem) 0 ∗ semVal ((thrV d L), SemLoc.dma cc1_scoped120.sem) 0 ∗ semVal ((thrV d L), SemLoc.dma cc1_scoped121.sem) 0 ∗ semVal ((thrV d L), SemLoc.dma cc1_scoped122.sem) 0 ∗ semVal ((thrV d L), SemLoc.dma cc1_scoped123.sem) 0 ∗ semVal ((thrV d L), SemLoc.dma cc1_scoped124.sem) 0 ∗ semVal ((thrV d L), SemLoc.dma cc1_scoped125.sem) 0 ∗ semVal ((thrV d L), SemLoc.dma cc1_scoped126.sem) 0 ∗ semVal ((thrV d L), SemLoc.dma cc1_scoped127.sem) 0 ∗ semVal ((thrV d L), SemLoc.dma cc1_scoped128.sem) 0 ∗ semVal ((thrV d L), SemLoc.dma cc1_scoped129.sem) 0 ∗ semVal ((thrV d L), SemLoc.dma cc1_scoped130.sem) 0 ∗ semVal ((thrV d L), SemLoc.dma cc1_scoped131.sem) 0 ∗ semVal ((thrV d L), SemLoc.dma cc1_scoped132.sem) 0 ∗ semVal ((thrV d L), SemLoc.dma cc1_scoped133.sem) 0 ∗ semVal ((thrV d L), SemLoc.dma cc1_scoped134.sem) 0 ∗ semVal ((thrV d L), SemLoc.dma cc1_scoped135.sem) 0 ∗ semVal ((thrV d L), SemLoc.dma cc1_scoped136.sem) 0 ∗ semVal ((thrV d L), SemLoc.dma cc1_scoped137.sem) 0 ∗ semVal ((thrV d L), SemLoc.dma cc1_scoped138.sem) 0 ∗ semVal ((thrV d L), SemLoc.dma cc1_scoped139.sem) 0 ∗ semVal ((thrV d L), SemLoc.dma cc1_scoped140.sem) 0 ∗ semVal ((thrV d L), SemLoc.dma cc1_scoped141.sem) 0 ∗ semVal ((thrV d L), SemLoc.dma cc1_scoped142.sem) 0 ∗ semVal ((thrV d L), SemLoc.dma cc1_scoped143.sem) 0 ∗ semVal ((thrV d L), SemLoc.dma cc1_scoped144.sem) 0 ∗ semVal ((thrV d L), SemLoc.dma cc1_scoped145.sem) 0 ∗ semVal ((thrV d L), SemLoc.dma cc1_scoped146.sem) 0 ∗ semVal ((thrV d L), SemLoc.dma cc1_scoped147.sem) 0 ∗ semVal ((thrV d L), SemLoc.dma cc1_scoped148.sem) 0 ∗ semVal ((thrV d L), SemLoc.dma cc1_scoped149.sem) 0 ∗ semVal ((thrV d L), SemLoc.dma cc1_scoped150.sem) 0 ∗ semVal ((thrV d L), SemLoc.dma cc1_scoped151.sem) 0 ∗ semVal ((thrV d L), SemLoc.dma cc1_scoped152.sem) 0 ∗ semVal ((thrV d L), SemLoc.dma cc1_scoped153.sem) 0 ∗ semVal ((thrV d L), SemLoc.dma cc1_scoped154.sem) 0 ∗ semVal ((thrV d L), SemLoc.dma cc1_scoped155.sem) 0 ∗ semVal ((thrV d L), SemLoc.dma cc1_scoped156.sem) 0 ∗ semVal ((thrV d L), SemLoc.dma cc1_scoped157.sem) 0 ∗ semVal ((thrV d L), SemLoc.dma cc1_scoped158.sem) 0 ∗ semVal ((thrV d L), SemLoc.dma cc1_scoped159.sem) 0 ∗ semVal ((thrV d L), SemLoc.dma cc1_scoped160.sem) 0 ∗ semVal ((thrV d L), SemLoc.dma cc1_scoped161.sem) 0)
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q := by
  iintro ⟨Hmw, Hh, Hs, ⟨S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79⟩, B0, B1, B2, B3, B4, ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161⟩, HO, Hk⟩
  iapply (tile_run d L q fh fs hfs fo f0 f1 f2 f3 f4 O W hO Q)
  isplitl [Hmw]; · iexact Hmw
  isplitl [Hh]; · iexact Hh
  isplitl [Hs]; · iexact Hs
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [S40]; · iexact S40
  isplitl [S41]; · iexact S41
  isplitl [S42]; · iexact S42
  isplitl [S43]; · iexact S43
  isplitl [S44]; · iexact S44
  isplitl [S45]; · iexact S45
  isplitl [S46]; · iexact S46
  isplitl [S47]; · iexact S47
  isplitl [S48]; · iexact S48
  isplitl [S49]; · iexact S49
  isplitl [S50]; · iexact S50
  isplitl [S51]; · iexact S51
  isplitl [S52]; · iexact S52
  isplitl [S53]; · iexact S53
  isplitl [S54]; · iexact S54
  isplitl [S55]; · iexact S55
  isplitl [S56]; · iexact S56
  isplitl [S57]; · iexact S57
  isplitl [S58]; · iexact S58
  isplitl [S59]; · iexact S59
  isplitl [S60]; · iexact S60
  isplitl [S61]; · iexact S61
  isplitl [S62]; · iexact S62
  isplitl [S63]; · iexact S63
  isplitl [S64]; · iexact S64
  isplitl [S65]; · iexact S65
  isplitl [S66]; · iexact S66
  isplitl [S67]; · iexact S67
  isplitl [S68]; · iexact S68
  isplitl [S69]; · iexact S69
  isplitl [S70]; · iexact S70
  isplitl [S71]; · iexact S71
  isplitl [S72]; · iexact S72
  isplitl [S73]; · iexact S73
  isplitl [S74]; · iexact S74
  isplitl [S75]; · iexact S75
  isplitl [S76]; · iexact S76
  isplitl [S77]; · iexact S77
  isplitl [S78]; · iexact S78
  isplitl [S79]; · iexact S79
  isplitl [B0]; · iexact B0
  isplitl [B1]; · iexact B1
  isplitl [B2]; · iexact B2
  isplitl [B3]; · iexact B3
  isplitl [B4]; · iexact B4
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C56]; · iexact C56
  isplitl [C57]; · iexact C57
  isplitl [C58]; · iexact C58
  isplitl [C59]; · iexact C59
  isplitl [C60]; · iexact C60
  isplitl [C61]; · iexact C61
  isplitl [C62]; · iexact C62
  isplitl [C63]; · iexact C63
  isplitl [C64]; · iexact C64
  isplitl [C65]; · iexact C65
  isplitl [C66]; · iexact C66
  isplitl [C67]; · iexact C67
  isplitl [C68]; · iexact C68
  isplitl [C69]; · iexact C69
  isplitl [C70]; · iexact C70
  isplitl [C71]; · iexact C71
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  isplitl [C87]; · iexact C87
  isplitl [C88]; · iexact C88
  isplitl [C89]; · iexact C89
  isplitl [C90]; · iexact C90
  isplitl [C91]; · iexact C91
  isplitl [C92]; · iexact C92
  isplitl [C93]; · iexact C93
  isplitl [C94]; · iexact C94
  isplitl [C95]; · iexact C95
  isplitl [C96]; · iexact C96
  isplitl [C97]; · iexact C97
  isplitl [C98]; · iexact C98
  isplitl [C99]; · iexact C99
  isplitl [C100]; · iexact C100
  isplitl [C101]; · iexact C101
  isplitl [C102]; · iexact C102
  isplitl [C103]; · iexact C103
  isplitl [C104]; · iexact C104
  isplitl [C105]; · iexact C105
  isplitl [C106]; · iexact C106
  isplitl [C107]; · iexact C107
  isplitl [C108]; · iexact C108
  isplitl [C109]; · iexact C109
  isplitl [C110]; · iexact C110
  isplitl [C111]; · iexact C111
  isplitl [C112]; · iexact C112
  isplitl [C113]; · iexact C113
  isplitl [C114]; · iexact C114
  isplitl [C115]; · iexact C115
  isplitl [C116]; · iexact C116
  isplitl [C117]; · iexact C117
  isplitl [C118]; · iexact C118
  isplitl [C119]; · iexact C119
  isplitl [C120]; · iexact C120
  isplitl [C121]; · iexact C121
  isplitl [C122]; · iexact C122
  isplitl [C123]; · iexact C123
  isplitl [C124]; · iexact C124
  isplitl [C125]; · iexact C125
  isplitl [C126]; · iexact C126
  isplitl [C127]; · iexact C127
  isplitl [C128]; · iexact C128
  isplitl [C129]; · iexact C129
  isplitl [C130]; · iexact C130
  isplitl [C131]; · iexact C131
  isplitl [C132]; · iexact C132
  isplitl [C133]; · iexact C133
  isplitl [C134]; · iexact C134
  isplitl [C135]; · iexact C135
  isplitl [C136]; · iexact C136
  isplitl [C137]; · iexact C137
  isplitl [C138]; · iexact C138
  isplitl [C139]; · iexact C139
  isplitl [C140]; · iexact C140
  isplitl [C141]; · iexact C141
  isplitl [C142]; · iexact C142
  isplitl [C143]; · iexact C143
  isplitl [C144]; · iexact C144
  isplitl [C145]; · iexact C145
  isplitl [C146]; · iexact C146
  isplitl [C147]; · iexact C147
  isplitl [C148]; · iexact C148
  isplitl [C149]; · iexact C149
  isplitl [C150]; · iexact C150
  isplitl [C151]; · iexact C151
  isplitl [C152]; · iexact C152
  isplitl [C153]; · iexact C153
  isplitl [C154]; · iexact C154
  isplitl [C155]; · iexact C155
  isplitl [C156]; · iexact C156
  isplitl [C157]; · iexact C157
  isplitl [C158]; · iexact C158
  isplitl [C159]; · iexact C159
  isplitl [C160]; · iexact C160
  isplitl [C161]; · iexact C161
  isplitl [HO]; · iexact HO
  iintro ⟨Hh, Hs, S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79, B0, B1, B2, B3, B4, C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161, HO⟩
  iapply Hk
  isplitl [Hh]; · iexact Hh
  isplitl [Hs]; · iexact Hs
  isplitl [S0 S1 S2 S3 S4 S5 S6 S7 S8 S9 S10 S11 S12 S13 S14 S15 S16 S17 S18 S19 S20 S21 S22 S23 S24 S25 S26 S27 S28 S29 S30 S31 S32 S33 S34 S35 S36 S37 S38 S39 S40 S41 S42 S43 S44 S45 S46 S47 S48 S49 S50 S51 S52 S53 S54 S55 S56 S57 S58 S59 S60 S61 S62 S63 S64 S65 S66 S67 S68 S69 S70 S71 S72 S73 S74 S75 S76 S77 S78 S79]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    isplitl [S50]; · iexact S50
    isplitl [S51]; · iexact S51
    isplitl [S52]; · iexact S52
    isplitl [S53]; · iexact S53
    isplitl [S54]; · iexact S54
    isplitl [S55]; · iexact S55
    isplitl [S56]; · iexact S56
    isplitl [S57]; · iexact S57
    isplitl [S58]; · iexact S58
    isplitl [S59]; · iexact S59
    isplitl [S60]; · iexact S60
    isplitl [S61]; · iexact S61
    isplitl [S62]; · iexact S62
    isplitl [S63]; · iexact S63
    isplitl [S64]; · iexact S64
    isplitl [S65]; · iexact S65
    isplitl [S66]; · iexact S66
    isplitl [S67]; · iexact S67
    isplitl [S68]; · iexact S68
    isplitl [S69]; · iexact S69
    isplitl [S70]; · iexact S70
    isplitl [S71]; · iexact S71
    isplitl [S72]; · iexact S72
    isplitl [S73]; · iexact S73
    isplitl [S74]; · iexact S74
    isplitl [S75]; · iexact S75
    isplitl [S76]; · iexact S76
    isplitl [S77]; · iexact S77
    isplitl [S78]; · iexact S78
    iexact S79
  isplitl [B0]; · iexact B0
  isplitl [B1]; · iexact B1
  isplitl [B2]; · iexact B2
  isplitl [B3]; · iexact B3
  isplitl [B4]; · iexact B4
  isplitl [C0 C1 C2 C3 C4 C5 C6 C7 C8 C9 C10 C11 C12 C13 C14 C15 C16 C17 C18 C19 C20 C21 C22 C23 C24 C25 C26 C27 C28 C29 C30 C31 C32 C33 C34 C35 C36 C37 C38 C39 C40 C41 C42 C43 C44 C45 C46 C47 C48 C49 C50 C51 C52 C53 C54 C55 C56 C57 C58 C59 C60 C61 C62 C63 C64 C65 C66 C67 C68 C69 C70 C71 C72 C73 C74 C75 C76 C77 C78 C79 C80 C81 C82 C83 C84 C85 C86 C87 C88 C89 C90 C91 C92 C93 C94 C95 C96 C97 C98 C99 C100 C101 C102 C103 C104 C105 C106 C107 C108 C109 C110 C111 C112 C113 C114 C115 C116 C117 C118 C119 C120 C121 C122 C123 C124 C125 C126 C127 C128 C129 C130 C131 C132 C133 C134 C135 C136 C137 C138 C139 C140 C141 C142 C143 C144 C145 C146 C147 C148 C149 C150 C151 C152 C153 C154 C155 C156 C157 C158 C159 C160 C161]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    isplitl [C27]; · iexact C27
    isplitl [C28]; · iexact C28
    isplitl [C29]; · iexact C29
    isplitl [C30]; · iexact C30
    isplitl [C31]; · iexact C31
    isplitl [C32]; · iexact C32
    isplitl [C33]; · iexact C33
    isplitl [C34]; · iexact C34
    isplitl [C35]; · iexact C35
    isplitl [C36]; · iexact C36
    isplitl [C37]; · iexact C37
    isplitl [C38]; · iexact C38
    isplitl [C39]; · iexact C39
    isplitl [C40]; · iexact C40
    isplitl [C41]; · iexact C41
    isplitl [C42]; · iexact C42
    isplitl [C43]; · iexact C43
    isplitl [C44]; · iexact C44
    isplitl [C45]; · iexact C45
    isplitl [C46]; · iexact C46
    isplitl [C47]; · iexact C47
    isplitl [C48]; · iexact C48
    isplitl [C49]; · iexact C49
    isplitl [C50]; · iexact C50
    isplitl [C51]; · iexact C51
    isplitl [C52]; · iexact C52
    isplitl [C53]; · iexact C53
    isplitl [C54]; · iexact C54
    isplitl [C55]; · iexact C55
    isplitl [C56]; · iexact C56
    isplitl [C57]; · iexact C57
    isplitl [C58]; · iexact C58
    isplitl [C59]; · iexact C59
    isplitl [C60]; · iexact C60
    isplitl [C61]; · iexact C61
    isplitl [C62]; · iexact C62
    isplitl [C63]; · iexact C63
    isplitl [C64]; · iexact C64
    isplitl [C65]; · iexact C65
    isplitl [C66]; · iexact C66
    isplitl [C67]; · iexact C67
    isplitl [C68]; · iexact C68
    isplitl [C69]; · iexact C69
    isplitl [C70]; · iexact C70
    isplitl [C71]; · iexact C71
    isplitl [C72]; · iexact C72
    isplitl [C73]; · iexact C73
    isplitl [C74]; · iexact C74
    isplitl [C75]; · iexact C75
    isplitl [C76]; · iexact C76
    isplitl [C77]; · iexact C77
    isplitl [C78]; · iexact C78
    isplitl [C79]; · iexact C79
    isplitl [C80]; · iexact C80
    isplitl [C81]; · iexact C81
    isplitl [C82]; · iexact C82
    isplitl [C83]; · iexact C83
    isplitl [C84]; · iexact C84
    isplitl [C85]; · iexact C85
    isplitl [C86]; · iexact C86
    isplitl [C87]; · iexact C87
    isplitl [C88]; · iexact C88
    isplitl [C89]; · iexact C89
    isplitl [C90]; · iexact C90
    isplitl [C91]; · iexact C91
    isplitl [C92]; · iexact C92
    isplitl [C93]; · iexact C93
    isplitl [C94]; · iexact C94
    isplitl [C95]; · iexact C95
    isplitl [C96]; · iexact C96
    isplitl [C97]; · iexact C97
    isplitl [C98]; · iexact C98
    isplitl [C99]; · iexact C99
    isplitl [C100]; · iexact C100
    isplitl [C101]; · iexact C101
    isplitl [C102]; · iexact C102
    isplitl [C103]; · iexact C103
    isplitl [C104]; · iexact C104
    isplitl [C105]; · iexact C105
    isplitl [C106]; · iexact C106
    isplitl [C107]; · iexact C107
    isplitl [C108]; · iexact C108
    isplitl [C109]; · iexact C109
    isplitl [C110]; · iexact C110
    isplitl [C111]; · iexact C111
    isplitl [C112]; · iexact C112
    isplitl [C113]; · iexact C113
    isplitl [C114]; · iexact C114
    isplitl [C115]; · iexact C115
    isplitl [C116]; · iexact C116
    isplitl [C117]; · iexact C117
    isplitl [C118]; · iexact C118
    isplitl [C119]; · iexact C119
    isplitl [C120]; · iexact C120
    isplitl [C121]; · iexact C121
    isplitl [C122]; · iexact C122
    isplitl [C123]; · iexact C123
    isplitl [C124]; · iexact C124
    isplitl [C125]; · iexact C125
    isplitl [C126]; · iexact C126
    isplitl [C127]; · iexact C127
    isplitl [C128]; · iexact C128
    isplitl [C129]; · iexact C129
    isplitl [C130]; · iexact C130
    isplitl [C131]; · iexact C131
    isplitl [C132]; · iexact C132
    isplitl [C133]; · iexact C133
    isplitl [C134]; · iexact C134
    isplitl [C135]; · iexact C135
    isplitl [C136]; · iexact C136
    isplitl [C137]; · iexact C137
    isplitl [C138]; · iexact C138
    isplitl [C139]; · iexact C139
    isplitl [C140]; · iexact C140
    isplitl [C141]; · iexact C141
    isplitl [C142]; · iexact C142
    isplitl [C143]; · iexact C143
    isplitl [C144]; · iexact C144
    isplitl [C145]; · iexact C145
    isplitl [C146]; · iexact C146
    isplitl [C147]; · iexact C147
    isplitl [C148]; · iexact C148
    isplitl [C149]; · iexact C149
    isplitl [C150]; · iexact C150
    isplitl [C151]; · iexact C151
    isplitl [C152]; · iexact C152
    isplitl [C153]; · iexact C153
    isplitl [C154]; · iexact C154
    isplitl [C155]; · iexact C155
    isplitl [C156]; · iexact C156
    isplitl [C157]; · iexact C157
    isplitl [C158]; · iexact C158
    isplitl [C159]; · iexact C159
    isplitl [C160]; · iexact C160
    iexact C161
  iexact HO

set_option maxHeartbeats 8000000 in
theorem tile_grouped (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ bigSepL l80 (fun r : Fin 80 => ((oSl L r).view.loc (thrV d L) ↦[(oSl L r).view.set]{fullShare} fo : sProp 𝕄))
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ bigSepL sems1 (fun sm : SemLoc sig => (semVal ((thrV d L), sm) 0 : sProp 𝕄))
      ∗ owes (thrV d L) O W
      ∗ (iprop((hV.view.loc (thrV d L) ↦{q} fh) ∗ (sV.view.loc (thrV d L) ↦{q} fs)
          ∗ bigSepL l80 (fun r : Fin 80 => ((oSl L r).view.loc (thrV d L) ↦[(oSl L r).view.set]{fullShare} gatherRows fh fs : sProp 𝕄))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ bigSepL sems1 (fun sm : SemLoc sig => (semVal ((thrV d L), sm) 0 : sProp 𝕄))
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q :=
  tile_grouped_aux d L q fh fs hfs fo f0 f1 f2 f3 f4 O W hO Q

end Tile

end Cert.Proof.KI

end
-- ==== Proof.TileOblI.lean ====
/-
  A task of the first gather call in the launch theorem's form: what the handshake hands it (its shares of the two
  tables, its eighty blocks of the output), its own scratch buffers and transfer counters, in; the same out, the
  blocks at the gathered rows.
-/
import proofs.«207928_g75127567942135_cont_9to1c4b_313_20_alg».proof.Proof.TileGroupI
import proofs.«207928_g75127567942135_cont_9to1c4b_313_20_alg».proof.Proof.LaunchI
import proofs.«207928_g75127567942135_cont_9to1c4b_313_20_alg».proof.Proof.GatherSpecI

noncomputable section

namespace Cert.Proof.KI

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## A task's place, and its output chunks as blocks of the partition -/

/-- The grid coordinates of SparseCore `c`'s task `i`. -/
def coordsV (c : Fin (grid1.bound 0)) (s : Fin (grid1.bound 1)) : grid1.Coords :=
  fun | 0 => c | 1 => s | ⟨_ + 2, h⟩ => absurd h (Nat.not_lt.2 (Nat.le_add_left _ _))

theorem bound0 : grid1.bound 0 = 2 := rfl
theorem bound1 : grid1.bound 1 = 16 := rfl
abbrev cL (L : grid1.Coords) : Fin 2 := Fin.cast bound0 (L 0)
abbrev iL (L : grid1.Coords) : Fin 16 := Fin.cast bound1 (L 1)

/-- Chunk `r` of the task at `L` is block `1280 c + 80 i + r`: rows `163840 c + 10240 i + 128 r` on. -/
theorem oRect_eq (L : grid1.Coords) (r : Fin 80) :
    Rect.unit (s := S327680x128) (k1_off2 L (BitVec.ofNat 32 (128 * r.val))) S128x128.size (k1_off2_inb L r) = blk (blkIx (cL L) (iL L) r) := by
  unfold blk Rect.part Rect.block
  congr 1 <;> funext a
  · rw [k1_off2_eq]
    match a with
    | 0 => simp [Shape.partIx, Shape.partSize, blkIx]; omega
    | 1 => simp [Shape.partIx, Shape.partSize]
  · match a with
    | 0 => simp [Shape.partSize]
    | 1 => simp [Shape.partSize]

theorem oSl_set (L : grid1.Coords) (r : Fin 80) : (oSl L r).view.set = (blk (blkIx (cL L) (iL L) r)).set := by
  show ((View.whole (main_v34_scv : Ref sig .scVector)).slice (Rect.unit (s := S327680x128) (k1_off2 L (BitVec.ofNat 32 (128 * r.val))) S128x128.size (k1_off2_inb L r))).set = _
  rw [View.set_slice, oRect_eq]; exact Finset.map_refl

/-! ## The task's own scratch buffers and transfer counters -/

section Own

variable (d : Dev nD) (L : grid1.Coords)

/-- The five scratch buffers of this call are among the subcore's own: they are them, at some contents, and the rest. -/
theorem ownBufs_V1 :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (((((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3)).erase ((Proc.scVector (cV L) (jV L)).devRef cc1_scratch4)))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide),
      Finset.mem_erase.mpr ⟨fun e => absurd (Proc.devRef_injective _ e) (show (cc1_scratch4 : Ref sig .scVector) ≠ cc1_scratch2 by decide),
      Finset.mem_erase.mpr ⟨fun e => absurd (Proc.devRef_injective _ e) (show (cc1_scratch4 : Ref sig .scVector) ≠ cc1_scratch1 by decide),
      Finset.mem_erase.mpr ⟨fun e => absurd (Proc.devRef_injective _ e) (show (cc1_scratch4 : Ref sig .scVector) ≠ cc1_scratch0 by decide),
      SparseCore.Cfg.mem_ownRefs_of_owner (p := Proc.scVector (cV L) (jV L)) (b := (Proc.scVector (cV L) (jV L)).devRef cc1_scratch4) rfl⟩⟩⟩⟩)]

/-- The scoped semaphores of a vector subcore that are not this call's kernel's. -/
def restSems : Finset (SemLoc sig) := (Finset.univ.filter fun sm : SemLoc sig => sm.isScoped .scVector) \ (sems1 : List (SemLoc sig)).toFinset

theorem sems1_nodup : (sems1 : List (SemLoc sig)).Nodup := by decide +kernel
theorem sems1_sub : (sems1 : List (SemLoc sig)).toFinset ⊆ Finset.univ.filter fun sm : SemLoc sig => sm.isScoped .scVector := by decide +kernel

/-- The subcore's own transfer counters at zero: this call's kernel's, listed, and the rest. -/
theorem ownSems0_V1 :
    (ownSems0 (thrV d L) : sProp 𝕄)
      = iprop(bigSepL sems1 (fun sm : SemLoc sig => (semVal ((thrV d L), sm) 0 : sProp 𝕄)) ∗ bigSep restSems fun sm => semVal ((thrV d L), sm) 0) := by
  rw [SparseCore.Cfg.ownSems0_eq]
  show bigSep (Finset.univ.filter fun sm : SemLoc sig => sm.isScoped .scVector) _ = _
  conv_lhs => rw [← Finset.union_sdiff_of_subset sems1_sub]
  rw [bigSep_union Finset.disjoint_sdiff, bigSep_eq_bigSepL sems1 sems1_nodup]
  rfl

end Own

/-! ## The task's blocks as its chunks -/

section Blocks

variable (d : Dev nD) (c : Fin 2) (i : Fin 16)

theorem l80_univ : (Finset.univ : Finset (Fin 80)) = (l80 : List (Fin 80)).toFinset := by decide +kernel
theorem l80_nodup : (l80 : List (Fin 80)).Nodup := by decide +kernel

/-- The task's eighty blocks of the output, held block by block at `g`, are its eighty chunks as the kernel slices them. -/
theorem blocks_eq (g : Buf (Elt F) (oLoc0 d)) :
    (bigSep Finset.univ fun r : Fin 80 => (oLoc0 d ↦[(blk (blkIx c i r)).set]{fullShare} g : sProp 𝕄))
      = bigSepL l80 (fun r : Fin 80 => ((oSl (coordsV c i) r).view.loc (thrV d (coordsV c i)) ↦[(oSl (coordsV c i) r).view.set]{fullShare} g : sProp 𝕄)) := by
  rw [bigSep_univ_eq_bigSepL l80 l80_univ l80_nodup]
  exact congrArg (bigSepL l80) (funext fun r => by rw [oSl_set]; rfl)

end Blocks

/-! ## The task, from what the handshake hands it to what it hands back -/

section Body

variable (fh0 : (d : Dev nD) → Buf (Elt F) (hLoc0 d)) (fs : (d : Dev nD) → Buf (Elt F) (sLoc d)) (fo0 : (d : Dev nD) → Buf (Elt F) (oLoc0 d))

set_option maxHeartbeats 4000000 in
/-- One task of the first gather call: from its shares of the two tables and its eighty blocks at the output's prior contents, its own
    buffers and counters, and what it owes, the kernel runs to its end with the blocks at the gathered rows and everything else back. -/
theorem tile_body0 (d : Dev nD) (c : Fin 2) (i : Fin 16) (hfs : ∀ j, ((fs d) j).toNat < 10240)
    (O : CellTallies nD τ sig (HIx 2)) (W : Waits sig (HIx 2)) (hO : ∀ g, O g none = 0) :
    iprop(levAts (K (F := F)).L (K (F := F)).lev ∗ emp ∗ taskPay0 fh0 fs d c i (fo0 d)
        ∗ scopedBufs (thrV d (coordsV c i)) ∗ scopedSems0 (thrV d (coordsV c i)) ∗ owes (thrV d (coordsV c i)) O W)
      ⊢ wp frame (wpE (defs₀ (F := F)) 𝒱₀ (thrV d (coordsV c i)) none) Set.univ
          (cc1__gather_kernel (coordsV c i) hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161)
          fun _ => iprop(taskPay0 fh0 fs d c i (gatherRows (fh0 d) (fs d)) ∗ scopedBufs (thrV d (coordsV c i)) ∗ scopedSems0 (thrV d (coordsV c i))
            ∗ ∃ W', ⌜∀ p ∈ W', p ∈ W ∨ p.2 = none⌝ ∗ owes (thrV d (coordsV c i)) O W') := by
  rw [(K (F := F)).scopedBufs_V facts d (cV (coordsV c i)) (jV (coordsV c i)), SparseCore.Cfg.scopedSems0_V (Val := Elt F) d (cV (coordsV c i)) (jV (coordsV c i)),
    ownSems0_V1, ownBufs_V1]
  unfold taskPay0
  rw [blocks_eq d c i (fo0 d), blocks_eq d c i (gatherRows (fh0 d) (fs d))]
  iintro ⟨#Hlv, -, ⟨Hh, Hs, Hbl⟩, ⟨⟨%f0, B0⟩, ⟨%f1, B1⟩, ⟨%f2, B2⟩, ⟨%f3, B3⟩, ⟨%f4, B4⟩, Hbufs⟩, ⟨Hsems, Hsrest⟩, HO⟩
  ihave Hmw := ((K (F := F)).mayWaits_none (thr := thrV d (coordsV c i)) hO) $$ Hlv
  iapply (tile_grouped d (coordsV c i) (qT c i) (fh0 d) (fs d) hfs (fo0 d) f0 f1 f2 f3 f4 O W hO _)
  isplitl [Hmw]; · iexact Hmw
  isplitl [Hh]; · iexact Hh
  isplitl [Hs]; · iexact Hs
  isplitl [Hbl]; · iexact Hbl
  isplitl [B0]; · iexact B0
  isplitl [B1]; · iexact B1
  isplitl [B2]; · iexact B2
  isplitl [B3]; · iexact B3
  isplitl [B4]; · iexact B4
  isplitl [Hsems]; · iexact Hsems
  isplitl [HO]; · iexact HO
  iintro ⟨Hh, Hs, Hbl, ⟨%e0, B0⟩, ⟨%e1, B1⟩, ⟨%e2, B2⟩, ⟨%e3, B3⟩, ⟨%e4, B4⟩, Hsems, HO⟩
  isplitl [Hh Hs Hbl]
  · isplitl [Hh]; · iexact Hh
    isplitl [Hs]; · iexact Hs
    iexact Hbl
  isplitl [B0 B1 B2 B3 B4 Hbufs]
  · isplitl [B0]; · iexists _; iexact B0
    isplitl [B1]; · iexists _; iexact B1
    isplitl [B2]; · iexists _; iexact B2
    isplitl [B3]; · iexists _; iexact B3
    isplitl [B4]; · iexists _; iexact B4
    iexact Hbufs
  isplitl [Hsems Hsrest]
  · isplitl [Hsems]; · iexact Hsems
    iexact Hsrest
  iexact HO

end Body

/-! ## The launch theorem's obligation -/

section Obl

variable (fh0 : (d : Dev nD) → Buf (Elt F) (hLoc0 d)) (fh1 : (d : Dev nD) → Buf (Elt F) (hLoc1 d)) (fs : (d : Dev nD) → Buf (Elt F) (sLoc d))
  (fo0 : (d : Dev nD) → Buf (Elt F) (oLoc0 d)) (fo1 fo1' : (d : Dev nD) → Buf (Elt F) (oLoc1 d))

theorem defs₀_vector1 (c : Fin τ.nSC) (s : Fin τ.nSub) :
    defs₀ (F := F) (.scVector c s) 1 ()
      = SparseCore.onTile hcore1 hsub1 (fun c s => cc1__gather_kernel (coordsV c s) hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 4000000 in
/-- The first gather call's tasks, in the launch theorem's form, at payloads whose output comes back at the gathered rows. -/
theorem tileObl0 (hfs : ∀ d j, ((fs d) j).toNat < 10240) :
    (K (F := F)).TileObl (D (F := F)) 𝒱 (P fh0 fh1 fs fo0 (fun d => gatherRows (fh0 d) (fs d)) fo1 fo1') v₀ 0 := by
  intro d c i O W hO _ _
  simp only [show (P fh0 fh1 fs fo0 (fun d => gatherRows (fh0 d) (fs d)) fo1 fo1').ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (tile_body0 fh0 fs fo0 d c i (hfs d) O W hO).trans (wp_mono frame _ _ fun _ => obl_post)

end Obl

end Cert.Proof.KI

end
-- ==== Proof.TileI2.lean ====
/-
  One vector-subcore task of the row gather, at a symbolic place of the grid: tile w = 16·c + s stores the lane
  numbers 0 … 15 in its short index list, copies rows [80w, 80w + 80) of the index table into its long index list,
  and then alternates between its two row buffers: 128 rows of the source array, named by row k of the long list,
  are gathered into one buffer while the other buffer's 128 rows go out to rows [10240w + 128k, 10240w + 128k + 128)
  of the result. Every transfer has a counter of its own, at zero before it is issued and at zero again after its
  wait, and is waited for before the next is issued; so the task needs, beside read shares of the two arrays it
  reads, exactly the eighty result windows it writes, its five scratch buffers and its 162 counters, and hands all
  of them back.
-/
import proofs.«207928_g75127567942135_cont_9to1c4b_313_20_alg».proof.Proof.SetupI
import proofs.«207928_g75127567942135_cont_9to1c4b_313_20_alg».proof.Proof.GatherSpecI

noncomputable section

namespace Cert.Proof.KI

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

namespace Call1

section Tile

variable (d : Dev nD) (L : grid3.Coords)

abbrev cV (L : grid3.Coords) : Fin τ.nSC := (L 0).castLE hcore3
abbrev jV (L : grid3.Coords) : Fin τ.nSub := (L 1).castLE hsub3
abbrev hV : Memref sig .scVector .hbm S10240x128 .f32 := Memref.whole main_v39_scv
abbrev sV : Memref sig .scVector .hbm S2560x128 .i32 := Memref.whole main_v6_scv
abbrev oV : Memref sig .scVector .hbm S327680x128 .f32 := Memref.whole main_v40_scv
abbrev oSl (L : grid3.Coords) (r : Fin 80) : Memref sig .scVector .hbm S128x128 .f32 :=
  (oV).slice (Rect.unit (s := S327680x128) (k3_off2 L (BitVec.ofNat 32 (128 * r.val))) S128x128.size (k3_off2_inb L r)) (fun _ => rfl)
abbrev thrV (d : Dev nD) (L : grid3.Coords) : Thread nD τ := V d (cV L) (jV L)

/-- Every word the index list holds after the table rows were copied into it names a row of the gathered array:
    whatever the list held before, whichever row window of it is read. -/
theorem idx_inb (fs : Buf (Elt F) (sV.view.loc (thrV d L))) (hfs : ∀ j, (fs j).toNat < 10240) :
    ∀ (g : Buf (Elt F) ((Memref.whole cc3_scratch0).view.loc (thrV d L))) (off : Fin 2 → ℕ)
      (hoff : ∀ a, off a + S1x128.size a ≤ S80x128.size a) (hst : ∀ a, (Rect.unit (s := S80x128) off S1x128.size hoff).stride a = 1)
      (hsq : S1x128.Squeezes S128) (x : S128.Idx),
      ((((Memref.whole cc3_scratch0).slice (Rect.unit (s := S80x128) off S1x128.size hoff) hst).squeeze S128 hsq).view.read (Elt F)
        ((Memref.whole cc3_scratch0).view.write (Elt F) g
          (ReadAs.same.apply ((sV.slice (Rect.unit (s := S2560x128) (k3_off1 L) S80x128.size (k3_off1_inb L)) (fun _ => rfl)).view.read (Elt F) fs))
          Finset.univ) x).toNat < 10240 := by
  intro g off hoff hst hsq x
  have e1 : (((Memref.whole cc3_scratch0).slice (Rect.unit (s := S80x128) off S1x128.size hoff) hst).squeeze S128 hsq).view.read (Elt F)
        ((Memref.whole cc3_scratch0).view.write (Elt F) g
          (ReadAs.same.apply ((sV.slice (Rect.unit (s := S2560x128) (k3_off1 L) S80x128.size (k3_off1_inb L)) (fun _ => rfl)).view.read (Elt F) fs))
          Finset.univ) x
      = (Memref.whole cc3_scratch0).view.read (Elt F) ((Memref.whole cc3_scratch0).view.write (Elt F) g
          (ReadAs.same.apply ((sV.slice (Rect.unit (s := S2560x128) (k3_off1 L) S80x128.size (k3_off1_inb L)) (fun _ => rfl)).view.read (Elt F) fs))
          Finset.univ) ((Rect.unit (s := S80x128) off S1x128.size hoff).emb (Shape.reshapeEquiv hsq.numel_eq x)) := rfl
  rw [e1, View.read_write_of_mem _ _ (Finset.mem_univ _)]
  exact hfs _

/-- The lane numbers stored in the sixteen-entry list name rows of the gathered array, whatever the list held before. -/
theorem iota_inb (inb : ∀ a, (![0] : Fin 1 → ℕ) a + S16.size a ≤ S16.size a) (x : S16.Idx) :
    ((Memref.whole cc3_scratch3).view.read (Elt F)
      ((Memref.whole cc3_scratch3).view.writes (Elt F) (Memref.whole cc3_scratch3).view.junk
        [⟨Rect.unit (s := S16) ![0] S16.size inb, shapeCast S16 (iota .scVector S16 32 [0] iota_S16_d0_w32_scVector) shapeCasts_S16_S16⟩]) x).toNat < 10240 := by
  have hx : (Rect.unit (s := S16) ![0] S16.size inb).emb x = x := by
    funext a; apply Fin.ext
    show (![0] : Fin 1 → ℕ) a + 1 * (x a : ℕ) = x a
    have h0 : (![0] : Fin 1 → ℕ) a = 0 := by fin_cases a; rfl
    omega
  have h := View.read_writes_cons_emb (Memref.whole cc3_scratch3).view (Val := Elt F) (Memref.whole cc3_scratch3).view.junk
    (Rect.unit (s := S16) ![0] S16.size inb) (shapeCast S16 (iota .scVector S16 32 [0] iota_S16_d0_w32_scVector) shapeCasts_S16_S16) [] x
  rw [hx] at h
  rw [h]
  show (BitVec.ofNat 32 (0 * S16.size 0 + ((Shape.reshapeEquiv shapeCasts_S16_S16 x) 0).val)).toNat < 10240
  have hlt : ((Shape.reshapeEquiv shapeCasts_S16_S16 x) 0 : Fin (S16.size 0)).val < 16 := ((Shape.reshapeEquiv shapeCasts_S16_S16 x) 0).isLt
  rw [BitVec.toNat_ofNat]
  refine Nat.lt_of_le_of_lt (Nat.mod_le _ _) ?_
  rw [Nat.zero_mul]; omega

/-- One more wait at the kernels' index keeps the record of waits within the launch's bound. -/
theorem waits_insert {W W' : Waits sig (HIx 2)} {sm : SemLoc sig} (h : ∀ p ∈ W', p ∈ W ∨ p.2 = none) :
    ∀ p ∈ insert (sm, (none : HIx 2)) W', p ∈ W ∨ p.2 = none := by
  intro p hp
  rcases Finset.mem_insert.mp hp with rfl | hp
  · exact Or.inr rfl
  · exact h p hp

/-! ## What a window holds after its copy

Window `kk` is written whole with what the row buffer held when it was copied out: the rows of the source array that
row `kk` of the long index list names; and that row is row `80w + kk` of the index table. -/

/-- A function of a rank-two index reads alike at two indices with the same coordinates. -/
theorem app2_congr {α : Type} {n0 n1 : ℕ} (f : (⟨2, ![n0, n1]⟩ : Shape).Idx → α) {i j : (⟨2, ![n0, n1]⟩ : Shape).Idx}
    (h0 : (i 0).val = (j 0).val) (h1 : (i 1).val = (j 1).val) : f i = f j :=
  congrArg f (funext fun a => Fin.ext (match a with | ⟨0, _⟩ => h0 | ⟨1, _⟩ => h1))

/-- Entry `z` of a 128-entry row seen as a 1×128 block is the block's entry `(0, z)`. -/
theorem squeeze_coords (hsq : S1x128.Squeezes S128) (z : S128.Idx) :
    ((Shape.reshapeEquiv hsq.numel_eq z) 0).val = 0 ∧ ((Shape.reshapeEquiv hsq.numel_eq z) 1).val = (z 0).val := by
  have hy := Shape.rowMajor_reshapeEquiv hsq.numel_eq z
  rw [Shape.rowMajor_val_two, Shape.rowMajor_val_one] at hy
  have hy' : ((Shape.reshapeEquiv hsq.numel_eq z) 0).val * 128 + ((Shape.reshapeEquiv hsq.numel_eq z) 1).val = (z 0).val := hy
  have h0 : ((Shape.reshapeEquiv hsq.numel_eq z) 0).val < 1 := ((Shape.reshapeEquiv hsq.numel_eq z) 0).isLt
  omega

/-- Entry `z` of row `kk` of the long index list, after the table's rows were copied into the list, is the table's
    entry `(80w + kk, z)`. -/
theorem list_word (fs : Buf (Elt F) (sV.view.loc (thrV d L))) (g0 : Buf (Elt F) ((Memref.whole cc3_scratch0).view.loc (thrV d L))) (kk : ℕ)
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128) (z : S128.Idx) :
    ∃ j : S2560x128.Idx, (j 0).val = 1280 * (L 0).val + 80 * (L 1).val + kk ∧ (j 1).val = (z 0).val ∧
      (((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) z = (fs : S2560x128.Idx → BitVec 32) j := by
  obtain ⟨hz0, hz1⟩ := squeeze_coords hsq z
  refine ⟨(Rect.unit (s := S2560x128) (k3_off1 L) S80x128.size (k3_off1_inb L)).emb
            ((Rect.unit (s := S80x128) ![kk, 0] S1x128.size hoff).emb (Shape.reshapeEquiv hsq.numel_eq z)), ?_, ?_, ?_⟩
  · show k3_off1 L 0 + 1 * ((![kk, 0] : Fin 2 → ℕ) 0 + 1 * ((Shape.reshapeEquiv hsq.numel_eq z) 0).val) = _
    rw [k3_off1_eq, hz0]
    show (1280 * (L 0).val + 80 * (L 1).val) + 1 * (kk + 1 * 0) = _
    omega
  · show k3_off1 L 1 + 1 * ((![kk, 0] : Fin 2 → ℕ) 1 + 1 * ((Shape.reshapeEquiv hsq.numel_eq z) 1).val) = _
    rw [k3_off1_eq, hz1]
    show 0 + 1 * (0 + 1 * (z 0).val) = _
    omega
  · have e1 : (((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) z
        = (Memref.whole cc3_scratch0).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)
            ((Rect.unit (s := S80x128) ![kk, 0] S1x128.size hoff).emb (Shape.reshapeEquiv hsq.numel_eq z)) := rfl
    rw [e1, View.read_write_of_mem _ _ (Finset.mem_univ _)]
    rfl

/-- What a list of writes whose last is of the whole shape leaves is read back as that write's payload. -/
theorem read_writes_whole_cons {sig' : RefSig} {κ : Kind} {sp : Space} {s : Shape} {e : EltTy} {Val : EltTy → Type}
    (v : View sig' κ sp s e) (f : v.ty.Contents Val) (w : (Rect.whole s).shape.Idx → Val e)
    (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- Window `kk` after its copy holds, at each of its own elements, the gathered rows: element `(x₀, x₁)` of the window
    is element `(10240w + 128·kk + x₀, x₁)` of the result, the row buffer held there the source's row named by entry `x₀`
    of row `kk` of the long index list, and that entry is the index table's at `(80w + kk, x₀)`. -/
theorem window_value (fh : Buf (Elt F) (hV.view.loc (thrV d L))) (fs : Buf (Elt F) (sV.view.loc (thrV d L)))
    (hfs : ∀ j, (fs j).toNat < 10240) (fo : Buf (Elt F) (oV.view.loc (thrV d L)))
    (kk : ℕ) (hk : kk < 80) (c : BitVec 32) (hc : c = BitVec.ofNat 32 (128 * kk))
    (inb2 : ∀ a, k3_off2 L c a + S128x128.size a ≤ S327680x128.size a)
    (hst2 : ∀ a, (Rect.unit (s := S327680x128) (k3_off2 L c) S128x128.size inb2).stride a = 1)
    (M : Memref sig .scVector .vmem S128x128 .f32) (base : M.view.ty.Contents (Elt F))
    (Lr : List (View.Piece (Elt F) S128x128 .f32))
    (g0 : Buf (Elt F) ((Memref.whole cc3_scratch0).view.loc (thrV d L)))
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128)
    (inbh : ∀ a, (![0, 0] : Fin 2 → ℕ) a + S10240x128.size a ≤ S10240x128.size a)
    (hsth : ∀ a, (Rect.unit (s := S10240x128) ![0, 0] S10240x128.size inbh).stride a = 1)
    (hn : S128.numel = S128x128.size gathers_S10240x128_S128x128.axis')
    (hinr : ∀ x, ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) x).toNat < S10240x128.size gathers_S10240x128_S128x128.axis) :
    ∀ i ∈ ((oV.slice (Rect.unit (s := S327680x128) (k3_off2 L c) S128x128.size inb2) hst2) : Memref sig .scVector .hbm S128x128 .f32).view.set,
      ((oV.slice (Rect.unit (s := S327680x128) (k3_off2 L c) S128x128.size inb2) hst2) : Memref sig .scVector .hbm S128x128 .f32).view.writes (Elt F) fo [⟨Rect.whole S128x128, (ReadAs.same.apply (M.view.read (Elt F) (M.view.writes (Elt F) base (⟨Rect.whole S128x128, (SparseCore.gatherPayload gathers_S10240x128_S128x128 ((hV.slice (Rect.unit (s := S10240x128) ![0, 0] S10240x128.size inbh) hsth).view.read (Elt F) fh) (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr))⟩ :: Lr))))⟩] i
        = (gatherRows (F := F) fh fs : Buf (Elt F) (oV.view.loc (thrV d L))) i := by
  intro i hi
  obtain ⟨x, -, rfl⟩ := Finset.mem_map.mp hi
  have key1 : ∀ f : ((oV.slice (Rect.unit (s := S327680x128) (k3_off2 L c) S128x128.size inb2) hst2) : Memref sig .scVector .hbm S128x128 .f32).view.ty.Contents (Elt F),
      f (((oV.slice (Rect.unit (s := S327680x128) (k3_off2 L c) S128x128.size inb2) hst2) : Memref sig .scVector .hbm S128x128 .f32).view.emb x) = ((oV.slice (Rect.unit (s := S327680x128) (k3_off2 L c) S128x128.size inb2) hst2) : Memref sig .scVector .hbm S128x128 .f32).view.read (Elt F) f x := fun f => rfl
  refine (key1 _).trans ?_
  refine (read_writes_whole_cons _ _ _ _ x).trans ?_
  refine (read_writes_whole_cons M.view _ _ _ x).trans ?_
  have key2 : ∀ y, (hV.slice (Rect.unit (s := S10240x128) ![0, 0] S10240x128.size inbh) hsth).view.read (Elt F) fh y = (fh : S10240x128.Idx → F .f32) ((hV.slice (Rect.unit (s := S10240x128) ![0, 0] S10240x128.size inbh) hsth).view.emb y) := fun y => rfl
  refine (key2 _).trans ?_
  -- the entry of the long list that names the row
  obtain ⟨j, hj0, hj1, hj⟩ := list_word d L fs g0 kk hoff hst hsq (S128.rowMajor.symm ((x 0).cast hn.symm))
  have hz : ((S128.rowMajor.symm ((x 0).cast hn.symm)) 0).val = (x 0).val := by
    have h := Shape.rowMajor_val_one (S128.rowMajor.symm ((x 0).cast hn.symm))
    rw [Equiv.apply_symm_apply] at h
    exact h.symm
  have e2 : k3_off2 L c = ![163840 * (L 0).val + 10240 * (L 1).val + 128 * kk, 0] := by
    rw [hc]; exact k3_off2_eq L ⟨kk, hk⟩
  have e20 : k3_off2 L c 0 = 163840 * (L 0).val + 10240 * (L 1).val + 128 * kk := congrFun e2 0
  have e21 : k3_off2 L c 1 = 0 := congrFun e2 1
  have hx0 : (x 0).val < 128 := (x 0).isLt
  have hi0 : ((((oV.slice (Rect.unit (s := S327680x128) (k3_off2 L c) S128x128.size inb2) hst2) : Memref sig .scVector .hbm S128x128 .f32).view.emb x) 0).val = 163840 * (L 0).val + 10240 * (L 1).val + 128 * kk + (x 0).val := by
    show k3_off2 L c 0 + 1 * (x 0).val = _
    omega
  have hi1 : ((((oV.slice (Rect.unit (s := S327680x128) (k3_off2 L c) S128x128.size inb2) hst2) : Memref sig .scVector .hbm S128x128 .f32).view.emb x) 1).val = (x 1).val := by
    show k3_off2 L c 1 + 1 * (x 1).val = _
    omega
  unfold gatherRows
  refine app2_congr (fh : S10240x128.Idx → F .f32) ?_ ?_
  · -- the row: the word the list holds there, below the source's height
    have e0 : gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 0
        = SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr (x 0) :=
      Shape.Gathers.idx_axis gathers_S10240x128_S128x128 _ x
    show (![0, 0] : Fin 2 → ℕ) 0 + 1 * (gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 0).val = _
    rw [e0]
    show 0 + 1 * ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) (S128.rowMajor.symm ((x 0).cast hn.symm))).toNat = _
    rw [hj]
    have hjj : (fs : S2560x128.Idx → BitVec 32) j = (fs : S2560x128.Idx → BitVec 32)
        (ValueIdx.ix2 (⟨((((oV.slice (Rect.unit (s := S327680x128) (k3_off2 L c) S128x128.size inb2) hst2) : Memref sig .scVector .hbm S128x128 .f32).view.emb x) 0).val / 128, by have h : ((((oV.slice (Rect.unit (s := S327680x128) (k3_off2 L c) S128x128.size inb2) hst2) : Memref sig .scVector .hbm S128x128 .f32).view.emb x) 0).val < 327680 := ((((oV.slice (Rect.unit (s := S327680x128) (k3_off2 L c) S128x128.size inb2) hst2) : Memref sig .scVector .hbm S128x128 .f32).view.emb x) 0).isLt; omega⟩ : Fin 2560)
          (⟨((((oV.slice (Rect.unit (s := S327680x128) (k3_off2 L c) S128x128.size inb2) hst2) : Memref sig .scVector .hbm S128x128 .f32).view.emb x) 0).val % 128, Nat.mod_lt _ (by decide)⟩ : Fin 128)) := by
      refine app2_congr (fs : S2560x128.Idx → BitVec 32) ?_ ?_
      · show (j 0).val = ((((oV.slice (Rect.unit (s := S327680x128) (k3_off2 L c) S128x128.size inb2) hst2) : Memref sig .scVector .hbm S128x128 .f32).view.emb x) 0).val / 128
        rw [hj0, hi0]; omega
      · show (j 1).val = ((((oV.slice (Rect.unit (s := S327680x128) (k3_off2 L c) S128x128.size inb2) hst2) : Memref sig .scVector .hbm S128x128 .f32).view.emb x) 0).val % 128
        rw [hj1, hz, hi0]; omega
    rw [hjj]
    have hlt := hfs (ValueIdx.ix2 (⟨((((oV.slice (Rect.unit (s := S327680x128) (k3_off2 L c) S128x128.size inb2) hst2) : Memref sig .scVector .hbm S128x128 .f32).view.emb x) 0).val / 128, by have h : ((((oV.slice (Rect.unit (s := S327680x128) (k3_off2 L c) S128x128.size inb2) hst2) : Memref sig .scVector .hbm S128x128 .f32).view.emb x) 0).val < 327680 := ((((oV.slice (Rect.unit (s := S327680x128) (k3_off2 L c) S128x128.size inb2) hst2) : Memref sig .scVector .hbm S128x128 .f32).view.emb x) 0).isLt; omega⟩ : Fin 2560)
          (⟨((((oV.slice (Rect.unit (s := S327680x128) (k3_off2 L c) S128x128.size inb2) hst2) : Memref sig .scVector .hbm S128x128 .f32).view.emb x) 0).val % 128, Nat.mod_lt _ (by decide)⟩ : Fin 128))
    show _ = _ % 10240
    rw [Nat.mod_eq_of_lt hlt]; omega
  · -- the column
    have e1 : (gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 1).val = (x 1).val :=
      Shape.Gathers.idx_of_ne gathers_S10240x128_S128x128 _ x 1 (by decide)
    show (![0, 0] : Fin 2 → ℕ) 1 + 1 * (gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 1).val = _
    rw [e1]
    show 0 + 1 * (x 1).val = ((((oV.slice (Rect.unit (s := S327680x128) (k3_off2 L c) S128x128.size inb2) hst2) : Memref sig .scVector .hbm S128x128 .f32).view.emb x) 1).val
    rw [hi1]; omega

/-! ## The task's run

The eighty result windows are held by exactly their own elements, spelt as the program slices them; each comes back
at the gathered rows. -/

set_option maxHeartbeats 16000000 in
/-- From the two read shares, the eighty result windows, the scratch buffers, the counters at zero and the thread's
    ledger, the task runs to its return and hands everything back: the shares unchanged, every window at the gathered
    rows, the scratch buffers at some contents, the counters at zero, and only waits at the kernels' own index added
    to the ledger. -/
theorem tile_run' (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oV.slice (Rect.unit (s := S327680x128) (k3_off2 L 0#32) S128x128.size (k3_off2_inb L 0)) (fun _ => rfl)).view.loc (thrV d L) ↦[(oV.slice (Rect.unit (s := S327680x128) (k3_off2 L 0#32) S128x128.size (k3_off2_inb L 0)) (fun _ => rfl)).view.set]{fullShare} fo)
      ∗ ((oV.slice (Rect.unit (s := S327680x128) (k3_off2 L 128#32) S128x128.size (k3_off2_inb L 1)) (fun _ => rfl)).view.loc (thrV d L) ↦[(oV.slice (Rect.unit (s := S327680x128) (k3_off2 L 128#32) S128x128.size (k3_off2_inb L 1)) (fun _ => rfl)).view.set]{fullShare} fo)
      ∗ ((oV.slice (Rect.unit (s := S327680x128) (k3_off2 L 256#32) S128x128.size (k3_off2_inb L 2)) (fun _ => rfl)).view.loc (thrV d L) ↦[(oV.slice (Rect.unit (s := S327680x128) (k3_off2 L 256#32) S128x128.size (k3_off2_inb L 2)) (fun _ => rfl)).view.set]{fullShare} fo)
      ∗ ((oV.slice (Rect.unit (s := S327680x128) (k3_off2 L 384#32) S128x128.size (k3_off2_inb L 3)) (fun _ => rfl)).view.loc (thrV d L) ↦[(oV.slice (Rect.unit (s := S327680x128) (k3_off2 L 384#32) S128x128.size (k3_off2_inb L 3)) (fun _ => rfl)).view.set]{fullShare} fo)
      ∗ ((oV.slice (Rect.unit (s := S327680x128) (k3_off2 L 512#32) S128x128.size (k3_off2_inb L 4)) (fun _ => rfl)).view.loc (thrV d L) ↦[(oV.slice (Rect.unit (s := S327680x128) (k3_off2 L 512#32) S128x128.size (k3_off2_inb L 4)) (fun _ => rfl)).view.set]{fullShare} fo)
      ∗ ((oV.slice (Rect.unit (s := S327680x128) (k3_off2 L 640#32) S128x128.size (k3_off2_inb L 5)) (fun _ => rfl)).view.loc (thrV d L) ↦[(oV.slice (Rect.unit (s := S327680x128) (k3_off2 L 640#32) S128x128.size (k3_off2_inb L 5)) (fun _ => rfl)).view.set]{fullShare} fo)
      ∗ ((oV.slice (Rect.unit (s := S327680x128) (k3_off2 L 768#32) S128x128.size (k3_off2_inb L 6)) (fun _ => rfl)).view.loc (thrV d L) ↦[(oV.slice (Rect.unit (s := S327680x128) (k3_off2 L 768#32) S128x128.size (k3_off2_inb L 6)) (fun _ => rfl)).view.set]{fullShare} fo)
      ∗ ((oV.slice (Rect.unit (s := S327680x128) (k3_off2 L 896#32) S128x128.size (k3_off2_inb L 7)) (fun _ => rfl)).view.loc (thrV d L) ↦[(oV.slice (Rect.unit (s := S327680x128) (k3_off2 L 896#32) S128x128.size (k3_off2_inb L 7)) (fun _ => rfl)).view.set]{fullShare} fo)
      ∗ ((oV.slice (Rect.unit (s := S327680x128) (k3_off2 L 1024#32) S128x128.size (k3_off2_inb L 8)) (fun _ => rfl)).view.loc (thrV d L) ↦[(oV.slice (Rect.unit (s := S327680x128) (k3_off2 L 1024#32) S128x128.size (k3_off2_inb L 8)) (fun _ => rfl)).view.set]{fullShare} fo)
      ∗ ((oV.slice (Rect.unit (s := S327680x128) (k3_off2 L 1152#32) S128x128.size (k3_off2_inb L 9)) (fun _ => rfl)).view.loc (thrV d L) ↦[(oV.slice (Rect.unit (s := S327680x128) (k3_off2 L 1152#32) S128x128.size (k3_off2_inb L 9)) (fun _ => rfl)).view.set]{fullShare} fo)
      ∗ ((oV.slice (Rect.unit (s := S327680x128) (k3_off2 L 1280#32) S128x128.size (k3_off2_inb L 10)) (fun _ => rfl)).view.loc (thrV d L) ↦[(oV.slice (Rect.unit (s := S327680x128) (k3_off2 L 1280#32) S128x128.size (k3_off2_inb L 10)) (fun _ => rfl)).view.set]{fullShare} fo)
      ∗ ((oV.slice (Rect.unit (s := S327680x128) (k3_off2 L 1408#32) S128x128.size (k3_off2_inb L 11)) (fun _ => rfl)).view.loc (thrV d L) ↦[(oV.slice (Rect.unit (s := S327680x128) (k3_off2 L 1408#32) S128x128.size (k3_off2_inb L 11)) (fun _ => rfl)).view.set]{fullShare} fo)
      ∗ ((oV.slice (Rect.unit (s := S327680x128) (k3_off2 L 1536#32) S128x128.size (k3_off2_inb L 12)) (fun _ => rfl)).view.loc (thrV d L) ↦[(oV.slice (Rect.unit (s := S327680x128) (k3_off2 L 1536#32) S128x128.size (k3_off2_inb L 12)) (fun _ => rfl)).view.set]{fullShare} fo)
      ∗ ((oV.slice (Rect.unit (s := S327680x128) (k3_off2 L 1664#32) S128x128.size (k3_off2_inb L 13)) (fun _ => rfl)).view.loc (thrV d L) ↦[(oV.slice (Rect.unit (s := S327680x128) (k3_off2 L 1664#32) S128x128.size (k3_off2_inb L 13)) (fun _ => rfl)).view.set]{fullShare} fo)
      ∗ ((oV.slice (Rect.unit (s := S327680x128) (k3_off2 L 1792#32) S128x128.size (k3_off2_inb L 14)) (fun _ => rfl)).view.loc (thrV d L) ↦[(oV.slice (Rect.unit (s := S327680x128) (k3_off2 L 1792#32) S128x128.size (k3_off2_inb L 14)) (fun _ => rfl)).view.set]{fullShare} fo)
      ∗ ((oV.slice (Rect.unit (s := S327680x128) (k3_off2 L 1920#32) S128x128.size (k3_off2_inb L 15)) (fun _ => rfl)).view.loc (thrV d L) ↦[(oV.slice (Rect.unit (s := S327680x128) (k3_off2 L 1920#32) S128x128.size (k3_off2_inb L 15)) (fun _ => rfl)).view.set]{fullShare} fo)
      ∗ ((oV.slice (Rect.unit (s := S327680x128) (k3_off2 L 2048#32) S128x128.size (k3_off2_inb L 16)) (fun _ => rfl)).view.loc (thrV d L) ↦[(oV.slice (Rect.unit (s := S327680x128) (k3_off2 L 2048#32) S128x128.size (k3_off2_inb L 16)) (fun _ => rfl)).view.set]{fullShare} fo)
      ∗ ((oV.slice (Rect.unit (s := S327680x128) (k3_off2 L 2176#32) S128x128.size (k3_off2_inb L 17)) (fun _ => rfl)).view.loc (thrV d L) ↦[(oV.slice (Rect.unit (s := S327680x128) (k3_off2 L 2176#32) S128x128.size (k3_off2_inb L 17)) (fun _ => rfl)).view.set]{fullShare} fo)
      ∗ ((oV.slice (Rect.unit (s := S327680x128) (k3_off2 L 2304#32) S128x128.size (k3_off2_inb L 18)) (fun _ => rfl)).view.loc (thrV d L) ↦[(oV.slice (Rect.unit (s := S327680x128) (k3_off2 L 2304#32) S128x128.size (k3_off2_inb L 18)) (fun _ => rfl)).view.set]{fullShare} fo)
      ∗ ((oV.slice (Rect.unit (s := S327680x128) (k3_off2 L 2432#32) S128x128.size (k3_off2_inb L 19)) (fun _ => rfl)).view.loc (thrV d L) ↦[(oV.slice (Rect.unit (s := S327680x128) (k3_off2 L 2432#32) S128x128.size (k3_off2_inb L 19)) (fun _ => rfl)).view.set]{fullShare} fo)
      ∗ ((oV.slice (Rect.unit (s := S327680x128) (k3_off2 L 2560#32) S128x128.size (k3_off2_inb L 20)) (fun _ => rfl)).view.loc (thrV d L) ↦[(oV.slice (Rect.unit (s := S327680x128) (k3_off2 L 2560#32) S128x128.size (k3_off2_inb L 20)) (fun _ => rfl)).view.set]{fullShare} fo)
      ∗ ((oV.slice (Rect.unit (s := S327680x128) (k3_off2 L 2688#32) S128x128.size (k3_off2_inb L 21)) (fun _ => rfl)).view.loc (thrV d L) ↦[(oV.slice (Rect.unit (s := S327680x128) (k3_off2 L 2688#32) S128x128.size (k3_off2_inb L 21)) (fun _ => rfl)).view.set]{fullShare} fo)
      ∗ ((oV.slice (Rect.unit (s := S327680x128) (k3_off2 L 2816#32) S128x128.size (k3_off2_inb L 22)) (fun _ => rfl)).view.loc (thrV d L) ↦[(oV.slice (Rect.unit (s := S327680x128) (k3_off2 L 2816#32) S128x128.size (k3_off2_inb L 22)) (fun _ => rfl)).view.set]{fullShare} fo)
      ∗ ((oV.slice (Rect.unit (s := S327680x128) (k3_off2 L 2944#32) S128x128.size (k3_off2_inb L 23)) (fun _ => rfl)).view.loc (thrV d L) ↦[(oV.slice (Rect.unit (s := S327680x128) (k3_off2 L 2944#32) S128x128.size (k3_off2_inb L 23)) (fun _ => rfl)).view.set]{fullShare} fo)
      ∗ ((oV.slice (Rect.unit (s := S327680x128) (k3_off2 L 3072#32) S128x128.size (k3_off2_inb L 24)) (fun _ => rfl)).view.loc (thrV d L) ↦[(oV.slice (Rect.unit (s := S327680x128) (k3_off2 L 3072#32) S128x128.size (k3_off2_inb L 24)) (fun _ => rfl)).view.set]{fullShare} fo)
      ∗ ((oV.slice (Rect.unit (s := S327680x128) (k3_off2 L 3200#32) S128x128.size (k3_off2_inb L 25)) (fun _ => rfl)).view.loc (thrV d L) ↦[(oV.slice (Rect.unit (s := S327680x128) (k3_off2 L 3200#32) S128x128.size (k3_off2_inb L 25)) (fun _ => rfl)).view.set]{fullShare} fo)
      ∗ ((oV.slice (Rect.unit (s := S327680x128) (k3_off2 L 3328#32) S128x128.size (k3_off2_inb L 26)) (fun _ => rfl)).view.loc (thrV d L) ↦[(oV.slice (Rect.unit (s := S327680x128) (k3_off2 L 3328#32) S128x128.size (k3_off2_inb L 26)) (fun _ => rfl)).view.set]{fullShare} fo)
      ∗ ((oV.slice (Rect.unit (s := S327680x128) (k3_off2 L 3456#32) S128x128.size (k3_off2_inb L 27)) (fun _ => rfl)).view.loc (thrV d L) ↦[(oV.slice (Rect.unit (s := S327680x128) (k3_off2 L 3456#32) S128x128.size (k3_off2_inb L 27)) (fun _ => rfl)).view.set]{fullShare} fo)
      ∗ ((oV.slice (Rect.unit (s := S327680x128) (k3_off2 L 3584#32) S128x128.size (k3_off2_inb L 28)) (fun _ => rfl)).view.loc (thrV d L) ↦[(oV.slice (Rect.unit (s := S327680x128) (k3_off2 L 3584#32) S128x128.size (k3_off2_inb L 28)) (fun _ => rfl)).view.set]{fullShare} fo)
      ∗ ((oV.slice (Rect.unit (s := S327680x128) (k3_off2 L 3712#32) S128x128.size (k3_off2_inb L 29)) (fun _ => rfl)).view.loc (thrV d L) ↦[(oV.slice (Rect.unit (s := S327680x128) (k3_off2 L 3712#32) S128x128.size (k3_off2_inb L 29)) (fun _ => rfl)).view.set]{fullShare} fo)
      ∗ ((oV.slice (Rect.unit (s := S327680x128) (k3_off2 L 3840#32) S128x128.size (k3_off2_inb L 30)) (fun _ => rfl)).view.loc (thrV d L) ↦[(oV.slice (Rect.unit (s := S327680x128) (k3_off2 L 3840#32) S128x128.size (k3_off2_inb L 30)) (fun _ => rfl)).view.set]{fullShare} fo)
      ∗ ((oV.slice (Rect.unit (s := S327680x128) (k3_off2 L 3968#32) S128x128.size (k3_off2_inb L 31)) (fun _ => rfl)).view.loc (thrV d L) ↦[(oV.slice (Rect.unit (s := S327680x128) (k3_off2 L 3968#32) S128x128.size (k3_off2_inb L 31)) (fun _ => rfl)).view.set]{fullShare} fo)
      ∗ ((oV.slice (Rect.unit (s := S327680x128) (k3_off2 L 4096#32) S128x128.size (k3_off2_inb L 32)) (fun _ => rfl)).view.loc (thrV d L) ↦[(oV.slice (Rect.unit (s := S327680x128) (k3_off2 L 4096#32) S128x128.size (k3_off2_inb L 32)) (fun _ => rfl)).view.set]{fullShare} fo)
      ∗ ((oV.slice (Rect.unit (s := S327680x128) (k3_off2 L 4224#32) S128x128.size (k3_off2_inb L 33)) (fun _ => rfl)).view.loc (thrV d L) ↦[(oV.slice (Rect.unit (s := S327680x128) (k3_off2 L 4224#32) S128x128.size (k3_off2_inb L 33)) (fun _ => rfl)).view.set]{fullShare} fo)
      ∗ ((oV.slice (Rect.unit (s := S327680x128) (k3_off2 L 4352#32) S128x128.size (k3_off2_inb L 34)) (fun _ => rfl)).view.loc (thrV d L) ↦[(oV.slice (Rect.unit (s := S327680x128) (k3_off2 L 4352#32) S128x128.size (k3_off2_inb L 34)) (fun _ => rfl)).view.set]{fullShare} fo)
      ∗ ((oV.slice (Rect.unit (s := S327680x128) (k3_off2 L 4480#32) S128x128.size (k3_off2_inb L 35)) (fun _ => rfl)).view.loc (thrV d L) ↦[(oV.slice (Rect.unit (s := S327680x128) (k3_off2 L 4480#32) S128x128.size (k3_off2_inb L 35)) (fun _ => rfl)).view.set]{fullShare} fo)
      ∗ ((oV.slice (Rect.unit (s := S327680x128) (k3_off2 L 4608#32) S128x128.size (k3_off2_inb L 36)) (fun _ => rfl)).view.loc (thrV d L) ↦[(oV.slice (Rect.unit (s := S327680x128) (k3_off2 L 4608#32) S128x128.size (k3_off2_inb L 36)) (fun _ => rfl)).view.set]{fullShare} fo)
      ∗ ((oV.slice (Rect.unit (s := S327680x128) (k3_off2 L 4736#32) S128x128.size (k3_off2_inb L 37)) (fun _ => rfl)).view.loc (thrV d L) ↦[(oV.slice (Rect.unit (s := S327680x128) (k3_off2 L 4736#32) S128x128.size (k3_off2_inb L 37)) (fun _ => rfl)).view.set]{fullShare} fo)
      ∗ ((oV.slice (Rect.unit (s := S327680x128) (k3_off2 L 4864#32) S128x128.size (k3_off2_inb L 38)) (fun _ => rfl)).view.loc (thrV d L) ↦[(oV.slice (Rect.unit (s := S327680x128) (k3_off2 L 4864#32) S128x128.size (k3_off2_inb L 38)) (fun _ => rfl)).view.set]{fullShare} fo)
      ∗ ((oV.slice (Rect.unit (s := S327680x128) (k3_off2 L 4992#32) S128x128.size (k3_off2_inb L 39)) (fun _ => rfl)).view.loc (thrV d L) ↦[(oV.slice (Rect.unit (s := S327680x128) (k3_off2 L 4992#32) S128x128.size (k3_off2_inb L 39)) (fun _ => rfl)).view.set]{fullShare} fo)
      ∗ ((oV.slice (Rect.unit (s := S327680x128) (k3_off2 L 5120#32) S128x128.size (k3_off2_inb L 40)) (fun _ => rfl)).view.loc (thrV d L) ↦[(oV.slice (Rect.unit (s := S327680x128) (k3_off2 L 5120#32) S128x128.size (k3_off2_inb L 40)) (fun _ => rfl)).view.set]{fullShare} fo)
      ∗ ((oV.slice (Rect.unit (s := S327680x128) (k3_off2 L 5248#32) S128x128.size (k3_off2_inb L 41)) (fun _ => rfl)).view.loc (thrV d L) ↦[(oV.slice (Rect.unit (s := S327680x128) (k3_off2 L 5248#32) S128x128.size (k3_off2_inb L 41)) (fun _ => rfl)).view.set]{fullShare} fo)
      ∗ ((oV.slice (Rect.unit (s := S327680x128) (k3_off2 L 5376#32) S128x128.size (k3_off2_inb L 42)) (fun _ => rfl)).view.loc (thrV d L) ↦[(oV.slice (Rect.unit (s := S327680x128) (k3_off2 L 5376#32) S128x128.size (k3_off2_inb L 42)) (fun _ => rfl)).view.set]{fullShare} fo)
      ∗ ((oV.slice (Rect.unit (s := S327680x128) (k3_off2 L 5504#32) S128x128.size (k3_off2_inb L 43)) (fun _ => rfl)).view.loc (thrV d L) ↦[(oV.slice (Rect.unit (s := S327680x128) (k3_off2 L 5504#32) S128x128.size (k3_off2_inb L 43)) (fun _ => rfl)).view.set]{fullShare} fo)
      ∗ ((oV.slice (Rect.unit (s := S327680x128) (k3_off2 L 5632#32) S128x128.size (k3_off2_inb L 44)) (fun _ => rfl)).view.loc (thrV d L) ↦[(oV.slice (Rect.unit (s := S327680x128) (k3_off2 L 5632#32) S128x128.size (k3_off2_inb L 44)) (fun _ => rfl)).view.set]{fullShare} fo)
      ∗ ((oV.slice (Rect.unit (s := S327680x128) (k3_off2 L 5760#32) S128x128.size (k3_off2_inb L 45)) (fun _ => rfl)).view.loc (thrV d L) ↦[(oV.slice (Rect.unit (s := S327680x128) (k3_off2 L 5760#32) S128x128.size (k3_off2_inb L 45)) (fun _ => rfl)).view.set]{fullShare} fo)
      ∗ ((oV.slice (Rect.unit (s := S327680x128) (k3_off2 L 5888#32) S128x128.size (k3_off2_inb L 46)) (fun _ => rfl)).view.loc (thrV d L) ↦[(oV.slice (Rect.unit (s := S327680x128) (k3_off2 L 5888#32) S128x128.size (k3_off2_inb L 46)) (fun _ => rfl)).view.set]{fullShare} fo)
      ∗ ((oV.slice (Rect.unit (s := S327680x128) (k3_off2 L 6016#32) S128x128.size (k3_off2_inb L 47)) (fun _ => rfl)).view.loc (thrV d L) ↦[(oV.slice (Rect.unit (s := S327680x128) (k3_off2 L 6016#32) S128x128.size (k3_off2_inb L 47)) (fun _ => rfl)).view.set]{fullShare} fo)
      ∗ ((oV.slice (Rect.unit (s := S327680x128) (k3_off2 L 6144#32) S128x128.size (k3_off2_inb L 48)) (fun _ => rfl)).view.loc (thrV d L) ↦[(oV.slice (Rect.unit (s := S327680x128) (k3_off2 L 6144#32) S128x128.size (k3_off2_inb L 48)) (fun _ => rfl)).view.set]{fullShare} fo)
      ∗ ((oV.slice (Rect.unit (s := S327680x128) (k3_off2 L 6272#32) S128x128.size (k3_off2_inb L 49)) (fun _ => rfl)).view.loc (thrV d L) ↦[(oV.slice (Rect.unit (s := S327680x128) (k3_off2 L 6272#32) S128x128.size (k3_off2_inb L 49)) (fun _ => rfl)).view.set]{fullShare} fo)
      ∗ ((oV.slice (Rect.unit (s := S327680x128) (k3_off2 L 6400#32) S128x128.size (k3_off2_inb L 50)) (fun _ => rfl)).view.loc (thrV d L) ↦[(oV.slice (Rect.unit (s := S327680x128) (k3_off2 L 6400#32) S128x128.size (k3_off2_inb L 50)) (fun _ => rfl)).view.set]{fullShare} fo)
      ∗ ((oV.slice (Rect.unit (s := S327680x128) (k3_off2 L 6528#32) S128x128.size (k3_off2_inb L 51)) (fun _ => rfl)).view.loc (thrV d L) ↦[(oV.slice (Rect.unit (s := S327680x128) (k3_off2 L 6528#32) S128x128.size (k3_off2_inb L 51)) (fun _ => rfl)).view.set]{fullShare} fo)
      ∗ ((oV.slice (Rect.unit (s := S327680x128) (k3_off2 L 6656#32) S128x128.size (k3_off2_inb L 52)) (fun _ => rfl)).view.loc (thrV d L) ↦[(oV.slice (Rect.unit (s := S327680x128) (k3_off2 L 6656#32) S128x128.size (k3_off2_inb L 52)) (fun _ => rfl)).view.set]{fullShare} fo)
      ∗ ((oV.slice (Rect.unit (s := S327680x128) (k3_off2 L 6784#32) S128x128.size (k3_off2_inb L 53)) (fun _ => rfl)).view.loc (thrV d L) ↦[(oV.slice (Rect.unit (s := S327680x128) (k3_off2 L 6784#32) S128x128.size (k3_off2_inb L 53)) (fun _ => rfl)).view.set]{fullShare} fo)
      ∗ ((oV.slice (Rect.unit (s := S327680x128) (k3_off2 L 6912#32) S128x128.size (k3_off2_inb L 54)) (fun _ => rfl)).view.loc (thrV d L) ↦[(oV.slice (Rect.unit (s := S327680x128) (k3_off2 L 6912#32) S128x128.size (k3_off2_inb L 54)) (fun _ => rfl)).view.set]{fullShare} fo)
      ∗ ((oV.slice (Rect.unit (s := S327680x128) (k3_off2 L 7040#32) S128x128.size (k3_off2_inb L 55)) (fun _ => rfl)).view.loc (thrV d L) ↦[(oV.slice (Rect.unit (s := S327680x128) (k3_off2 L 7040#32) S128x128.size (k3_off2_inb L 55)) (fun _ => rfl)).view.set]{fullShare} fo)
      ∗ ((oV.slice (Rect.unit (s := S327680x128) (k3_off2 L 7168#32) S128x128.size (k3_off2_inb L 56)) (fun _ => rfl)).view.loc (thrV d L) ↦[(oV.slice (Rect.unit (s := S327680x128) (k3_off2 L 7168#32) S128x128.size (k3_off2_inb L 56)) (fun _ => rfl)).view.set]{fullShare} fo)
      ∗ ((oV.slice (Rect.unit (s := S327680x128) (k3_off2 L 7296#32) S128x128.size (k3_off2_inb L 57)) (fun _ => rfl)).view.loc (thrV d L) ↦[(oV.slice (Rect.unit (s := S327680x128) (k3_off2 L 7296#32) S128x128.size (k3_off2_inb L 57)) (fun _ => rfl)).view.set]{fullShare} fo)
      ∗ ((oV.slice (Rect.unit (s := S327680x128) (k3_off2 L 7424#32) S128x128.size (k3_off2_inb L 58)) (fun _ => rfl)).view.loc (thrV d L) ↦[(oV.slice (Rect.unit (s := S327680x128) (k3_off2 L 7424#32) S128x128.size (k3_off2_inb L 58)) (fun _ => rfl)).view.set]{fullShare} fo)
      ∗ ((oV.slice (Rect.unit (s := S327680x128) (k3_off2 L 7552#32) S128x128.size (k3_off2_inb L 59)) (fun _ => rfl)).view.loc (thrV d L) ↦[(oV.slice (Rect.unit (s := S327680x128) (k3_off2 L 7552#32) S128x128.size (k3_off2_inb L 59)) (fun _ => rfl)).view.set]{fullShare} fo)
      ∗ ((oV.slice (Rect.unit (s := S327680x128) (k3_off2 L 7680#32) S128x128.size (k3_off2_inb L 60)) (fun _ => rfl)).view.loc (thrV d L) ↦[(oV.slice (Rect.unit (s := S327680x128) (k3_off2 L 7680#32) S128x128.size (k3_off2_inb L 60)) (fun _ => rfl)).view.set]{fullShare} fo)
      ∗ ((oV.slice (Rect.unit (s := S327680x128) (k3_off2 L 7808#32) S128x128.size (k3_off2_inb L 61)) (fun _ => rfl)).view.loc (thrV d L) ↦[(oV.slice (Rect.unit (s := S327680x128) (k3_off2 L 7808#32) S128x128.size (k3_off2_inb L 61)) (fun _ => rfl)).view.set]{fullShare} fo)
      ∗ ((oV.slice (Rect.unit (s := S327680x128) (k3_off2 L 7936#32) S128x128.size (k3_off2_inb L 62)) (fun _ => rfl)).view.loc (thrV d L) ↦[(oV.slice (Rect.unit (s := S327680x128) (k3_off2 L 7936#32) S128x128.size (k3_off2_inb L 62)) (fun _ => rfl)).view.set]{fullShare} fo)
      ∗ ((oV.slice (Rect.unit (s := S327680x128) (k3_off2 L 8064#32) S128x128.size (k3_off2_inb L 63)) (fun _ => rfl)).view.loc (thrV d L) ↦[(oV.slice (Rect.unit (s := S327680x128) (k3_off2 L 8064#32) S128x128.size (k3_off2_inb L 63)) (fun _ => rfl)).view.set]{fullShare} fo)
      ∗ ((oV.slice (Rect.unit (s := S327680x128) (k3_off2 L 8192#32) S128x128.size (k3_off2_inb L 64)) (fun _ => rfl)).view.loc (thrV d L) ↦[(oV.slice (Rect.unit (s := S327680x128) (k3_off2 L 8192#32) S128x128.size (k3_off2_inb L 64)) (fun _ => rfl)).view.set]{fullShare} fo)
      ∗ ((oV.slice (Rect.unit (s := S327680x128) (k3_off2 L 8320#32) S128x128.size (k3_off2_inb L 65)) (fun _ => rfl)).view.loc (thrV d L) ↦[(oV.slice (Rect.unit (s := S327680x128) (k3_off2 L 8320#32) S128x128.size (k3_off2_inb L 65)) (fun _ => rfl)).view.set]{fullShare} fo)
      ∗ ((oV.slice (Rect.unit (s := S327680x128) (k3_off2 L 8448#32) S128x128.size (k3_off2_inb L 66)) (fun _ => rfl)).view.loc (thrV d L) ↦[(oV.slice (Rect.unit (s := S327680x128) (k3_off2 L 8448#32) S128x128.size (k3_off2_inb L 66)) (fun _ => rfl)).view.set]{fullShare} fo)
      ∗ ((oV.slice (Rect.unit (s := S327680x128) (k3_off2 L 8576#32) S128x128.size (k3_off2_inb L 67)) (fun _ => rfl)).view.loc (thrV d L) ↦[(oV.slice (Rect.unit (s := S327680x128) (k3_off2 L 8576#32) S128x128.size (k3_off2_inb L 67)) (fun _ => rfl)).view.set]{fullShare} fo)
      ∗ ((oV.slice (Rect.unit (s := S327680x128) (k3_off2 L 8704#32) S128x128.size (k3_off2_inb L 68)) (fun _ => rfl)).view.loc (thrV d L) ↦[(oV.slice (Rect.unit (s := S327680x128) (k3_off2 L 8704#32) S128x128.size (k3_off2_inb L 68)) (fun _ => rfl)).view.set]{fullShare} fo)
      ∗ ((oV.slice (Rect.unit (s := S327680x128) (k3_off2 L 8832#32) S128x128.size (k3_off2_inb L 69)) (fun _ => rfl)).view.loc (thrV d L) ↦[(oV.slice (Rect.unit (s := S327680x128) (k3_off2 L 8832#32) S128x128.size (k3_off2_inb L 69)) (fun _ => rfl)).view.set]{fullShare} fo)
      ∗ ((oV.slice (Rect.unit (s := S327680x128) (k3_off2 L 8960#32) S128x128.size (k3_off2_inb L 70)) (fun _ => rfl)).view.loc (thrV d L) ↦[(oV.slice (Rect.unit (s := S327680x128) (k3_off2 L 8960#32) S128x128.size (k3_off2_inb L 70)) (fun _ => rfl)).view.set]{fullShare} fo)
      ∗ ((oV.slice (Rect.unit (s := S327680x128) (k3_off2 L 9088#32) S128x128.size (k3_off2_inb L 71)) (fun _ => rfl)).view.loc (thrV d L) ↦[(oV.slice (Rect.unit (s := S327680x128) (k3_off2 L 9088#32) S128x128.size (k3_off2_inb L 71)) (fun _ => rfl)).view.set]{fullShare} fo)
      ∗ ((oV.slice (Rect.unit (s := S327680x128) (k3_off2 L 9216#32) S128x128.size (k3_off2_inb L 72)) (fun _ => rfl)).view.loc (thrV d L) ↦[(oV.slice (Rect.unit (s := S327680x128) (k3_off2 L 9216#32) S128x128.size (k3_off2_inb L 72)) (fun _ => rfl)).view.set]{fullShare} fo)
      ∗ ((oV.slice (Rect.unit (s := S327680x128) (k3_off2 L 9344#32) S128x128.size (k3_off2_inb L 73)) (fun _ => rfl)).view.loc (thrV d L) ↦[(oV.slice (Rect.unit (s := S327680x128) (k3_off2 L 9344#32) S128x128.size (k3_off2_inb L 73)) (fun _ => rfl)).view.set]{fullShare} fo)
      ∗ ((oV.slice (Rect.unit (s := S327680x128) (k3_off2 L 9472#32) S128x128.size (k3_off2_inb L 74)) (fun _ => rfl)).view.loc (thrV d L) ↦[(oV.slice (Rect.unit (s := S327680x128) (k3_off2 L 9472#32) S128x128.size (k3_off2_inb L 74)) (fun _ => rfl)).view.set]{fullShare} fo)
      ∗ ((oV.slice (Rect.unit (s := S327680x128) (k3_off2 L 9600#32) S128x128.size (k3_off2_inb L 75)) (fun _ => rfl)).view.loc (thrV d L) ↦[(oV.slice (Rect.unit (s := S327680x128) (k3_off2 L 9600#32) S128x128.size (k3_off2_inb L 75)) (fun _ => rfl)).view.set]{fullShare} fo)
      ∗ ((oV.slice (Rect.unit (s := S327680x128) (k3_off2 L 9728#32) S128x128.size (k3_off2_inb L 76)) (fun _ => rfl)).view.loc (thrV d L) ↦[(oV.slice (Rect.unit (s := S327680x128) (k3_off2 L 9728#32) S128x128.size (k3_off2_inb L 76)) (fun _ => rfl)).view.set]{fullShare} fo)
      ∗ ((oV.slice (Rect.unit (s := S327680x128) (k3_off2 L 9856#32) S128x128.size (k3_off2_inb L 77)) (fun _ => rfl)).view.loc (thrV d L) ↦[(oV.slice (Rect.unit (s := S327680x128) (k3_off2 L 9856#32) S128x128.size (k3_off2_inb L 77)) (fun _ => rfl)).view.set]{fullShare} fo)
      ∗ ((oV.slice (Rect.unit (s := S327680x128) (k3_off2 L 9984#32) S128x128.size (k3_off2_inb L 78)) (fun _ => rfl)).view.loc (thrV d L) ↦[(oV.slice (Rect.unit (s := S327680x128) (k3_off2 L 9984#32) S128x128.size (k3_off2_inb L 78)) (fun _ => rfl)).view.set]{fullShare} fo)
      ∗ ((oV.slice (Rect.unit (s := S327680x128) (k3_off2 L 10112#32) S128x128.size (k3_off2_inb L 79)) (fun _ => rfl)).view.loc (thrV d L) ↦[(oV.slice (Rect.unit (s := S327680x128) (k3_off2 L 10112#32) S128x128.size (k3_off2_inb L 79)) (fun _ => rfl)).view.set]{fullShare} fo)
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ semVal ((thrV d L), SemLoc.dma cc3_scoped0.sem) 0
      ∗ semVal ((thrV d L), SemLoc.dma cc3_scoped1.sem) 0
      ∗ semVal ((thrV d L), SemLoc.dma cc3_scoped2.sem) 0
      ∗ semVal ((thrV d L), SemLoc.dma cc3_scoped3.sem) 0
      ∗ semVal ((thrV d L), SemLoc.dma cc3_scoped4.sem) 0
      ∗ semVal ((thrV d L), SemLoc.dma cc3_scoped5.sem) 0
      ∗ semVal ((thrV d L), SemLoc.dma cc3_scoped6.sem) 0
      ∗ semVal ((thrV d L), SemLoc.dma cc3_scoped7.sem) 0
      ∗ semVal ((thrV d L), SemLoc.dma cc3_scoped8.sem) 0
      ∗ semVal ((thrV d L), SemLoc.dma cc3_scoped9.sem) 0
      ∗ semVal ((thrV d L), SemLoc.dma cc3_scoped10.sem) 0
      ∗ semVal ((thrV d L), SemLoc.dma cc3_scoped11.sem) 0
      ∗ semVal ((thrV d L), SemLoc.dma cc3_scoped12.sem) 0
      ∗ semVal ((thrV d L), SemLoc.dma cc3_scoped13.sem) 0
      ∗ semVal ((thrV d L), SemLoc.dma cc3_scoped14.sem) 0
      ∗ semVal ((thrV d L), SemLoc.dma cc3_scoped15.sem) 0
      ∗ semVal ((thrV d L), SemLoc.dma cc3_scoped16.sem) 0
      ∗ semVal ((thrV d L), SemLoc.dma cc3_scoped17.sem) 0
      ∗ semVal ((thrV d L), SemLoc.dma cc3_scoped18.sem) 0
      ∗ semVal ((thrV d L), SemLoc.dma cc3_scoped19.sem) 0
      ∗ semVal ((thrV d L), SemLoc.dma cc3_scoped20.sem) 0
      ∗ semVal ((thrV d L), SemLoc.dma cc3_scoped21.sem) 0
      ∗ semVal ((thrV d L), SemLoc.dma cc3_scoped22.sem) 0
      ∗ semVal ((thrV d L), SemLoc.dma cc3_scoped23.sem) 0
      ∗ semVal ((thrV d L), SemLoc.dma cc3_scoped24.sem) 0
      ∗ semVal ((thrV d L), SemLoc.dma cc3_scoped25.sem) 0
      ∗ semVal ((thrV d L), SemLoc.dma cc3_scoped26.sem) 0
      ∗ semVal ((thrV d L), SemLoc.dma cc3_scoped27.sem) 0
      ∗ semVal ((thrV d L), SemLoc.dma cc3_scoped28.sem) 0
      ∗ semVal ((thrV d L), SemLoc.dma cc3_scoped29.sem) 0
      ∗ semVal ((thrV d L), SemLoc.dma cc3_scoped30.sem) 0
      ∗ semVal ((thrV d L), SemLoc.dma cc3_scoped31.sem) 0
      ∗ semVal ((thrV d L), SemLoc.dma cc3_scoped32.sem) 0
      ∗ semVal ((thrV d L), SemLoc.dma cc3_scoped33.sem) 0
      ∗ semVal ((thrV d L), SemLoc.dma cc3_scoped34.sem) 0
      ∗ semVal ((thrV d L), SemLoc.dma cc3_scoped35.sem) 0
      ∗ semVal ((thrV d L), SemLoc.dma cc3_scoped36.sem) 0
      ∗ semVal ((thrV d L), SemLoc.dma cc3_scoped37.sem) 0
      ∗ semVal ((thrV d L), SemLoc.dma cc3_scoped38.sem) 0
      ∗ semVal ((thrV d L), SemLoc.dma cc3_scoped39.sem) 0
      ∗ semVal ((thrV d L), SemLoc.dma cc3_scoped40.sem) 0
      ∗ semVal ((thrV d L), SemLoc.dma cc3_scoped41.sem) 0
      ∗ semVal ((thrV d L), SemLoc.dma cc3_scoped42.sem) 0
      ∗ semVal ((thrV d L), SemLoc.dma cc3_scoped43.sem) 0
      ∗ semVal ((thrV d L), SemLoc.dma cc3_scoped44.sem) 0
      ∗ semVal ((thrV d L), SemLoc.dma cc3_scoped45.sem) 0
      ∗ semVal ((thrV d L), SemLoc.dma cc3_scoped46.sem) 0
      ∗ semVal ((thrV d L), SemLoc.dma cc3_scoped47.sem) 0
      ∗ semVal ((thrV d L), SemLoc.dma cc3_scoped48.sem) 0
      ∗ semVal ((thrV d L), SemLoc.dma cc3_scoped49.sem) 0
      ∗ semVal ((thrV d L), SemLoc.dma cc3_scoped50.sem) 0
      ∗ semVal ((thrV d L), SemLoc.dma cc3_scoped51.sem) 0
      ∗ semVal ((thrV d L), SemLoc.dma cc3_scoped52.sem) 0
      ∗ semVal ((thrV d L), SemLoc.dma cc3_scoped53.sem) 0
      ∗ semVal ((thrV d L), SemLoc.dma cc3_scoped54.sem) 0
      ∗ semVal ((thrV d L), SemLoc.dma cc3_scoped55.sem) 0
      ∗ semVal ((thrV d L), SemLoc.dma cc3_scoped56.sem) 0
      ∗ semVal ((thrV d L), SemLoc.dma cc3_scoped57.sem) 0
      ∗ semVal ((thrV d L), SemLoc.dma cc3_scoped58.sem) 0
      ∗ semVal ((thrV d L), SemLoc.dma cc3_scoped59.sem) 0
      ∗ semVal ((thrV d L), SemLoc.dma cc3_scoped60.sem) 0
      ∗ semVal ((thrV d L), SemLoc.dma cc3_scoped61.sem) 0
      ∗ semVal ((thrV d L), SemLoc.dma cc3_scoped62.sem) 0
      ∗ semVal ((thrV d L), SemLoc.dma cc3_scoped63.sem) 0
      ∗ semVal ((thrV d L), SemLoc.dma cc3_scoped64.sem) 0
      ∗ semVal ((thrV d L), SemLoc.dma cc3_scoped65.sem) 0
      ∗ semVal ((thrV d L), SemLoc.dma cc3_scoped66.sem) 0
      ∗ semVal ((thrV d L), SemLoc.dma cc3_scoped67.sem) 0
      ∗ semVal ((thrV d L), SemLoc.dma cc3_scoped68.sem) 0
      ∗ semVal ((thrV d L), SemLoc.dma cc3_scoped69.sem) 0
      ∗ semVal ((thrV d L), SemLoc.dma cc3_scoped70.sem) 0
      ∗ semVal ((thrV d L), SemLoc.dma cc3_scoped71.sem) 0
      ∗ semVal ((thrV d L), SemLoc.dma cc3_scoped72.sem) 0
      ∗ semVal ((thrV d L), SemLoc.dma cc3_scoped73.sem) 0
      ∗ semVal ((thrV d L), SemLoc.dma cc3_scoped74.sem) 0
      ∗ semVal ((thrV d L), SemLoc.dma cc3_scoped75.sem) 0
      ∗ semVal ((thrV d L), SemLoc.dma cc3_scoped76.sem) 0
      ∗ semVal ((thrV d L), SemLoc.dma cc3_scoped77.sem) 0
      ∗ semVal ((thrV d L), SemLoc.dma cc3_scoped78.sem) 0
      ∗ semVal ((thrV d L), SemLoc.dma cc3_scoped79.sem) 0
      ∗ semVal ((thrV d L), SemLoc.dma cc3_scoped80.sem) 0
      ∗ semVal ((thrV d L), SemLoc.dma cc3_scoped81.sem) 0
      ∗ semVal ((thrV d L), SemLoc.dma cc3_scoped82.sem) 0
      ∗ semVal ((thrV d L), SemLoc.dma cc3_scoped83.sem) 0
      ∗ semVal ((thrV d L), SemLoc.dma cc3_scoped84.sem) 0
      ∗ semVal ((thrV d L), SemLoc.dma cc3_scoped85.sem) 0
      ∗ semVal ((thrV d L), SemLoc.dma cc3_scoped86.sem) 0
      ∗ semVal ((thrV d L), SemLoc.dma cc3_scoped87.sem) 0
      ∗ semVal ((thrV d L), SemLoc.dma cc3_scoped88.sem) 0
      ∗ semVal ((thrV d L), SemLoc.dma cc3_scoped89.sem) 0
      ∗ semVal ((thrV d L), SemLoc.dma cc3_scoped90.sem) 0
      ∗ semVal ((thrV d L), SemLoc.dma cc3_scoped91.sem) 0
      ∗ semVal ((thrV d L), SemLoc.dma cc3_scoped92.sem) 0
      ∗ semVal ((thrV d L), SemLoc.dma cc3_scoped93.sem) 0
      ∗ semVal ((thrV d L), SemLoc.dma cc3_scoped94.sem) 0
      ∗ semVal ((thrV d L), SemLoc.dma cc3_scoped95.sem) 0
      ∗ semVal ((thrV d L), SemLoc.dma cc3_scoped96.sem) 0
      ∗ semVal ((thrV d L), SemLoc.dma cc3_scoped97.sem) 0
      ∗ semVal ((thrV d L), SemLoc.dma cc3_scoped98.sem) 0
      ∗ semVal ((thrV d L), SemLoc.dma cc3_scoped99.sem) 0
      ∗ semVal ((thrV d L), SemLoc.dma cc3_scoped100.sem) 0
      ∗ semVal ((thrV d L), SemLoc.dma cc3_scoped101.sem) 0
      ∗ semVal ((thrV d L), SemLoc.dma cc3_scoped102.sem) 0
      ∗ semVal ((thrV d L), SemLoc.dma cc3_scoped103.sem) 0
      ∗ semVal ((thrV d L), SemLoc.dma cc3_scoped104.sem) 0
      ∗ semVal ((thrV d L), SemLoc.dma cc3_scoped105.sem) 0
      ∗ semVal ((thrV d L), SemLoc.dma cc3_scoped106.sem) 0
      ∗ semVal ((thrV d L), SemLoc.dma cc3_scoped107.sem) 0
      ∗ semVal ((thrV d L), SemLoc.dma cc3_scoped108.sem) 0
      ∗ semVal ((thrV d L), SemLoc.dma cc3_scoped109.sem) 0
      ∗ semVal ((thrV d L), SemLoc.dma cc3_scoped110.sem) 0
      ∗ semVal ((thrV d L), SemLoc.dma cc3_scoped111.sem) 0
      ∗ semVal ((thrV d L), SemLoc.dma cc3_scoped112.sem) 0
      ∗ semVal ((thrV d L), SemLoc.dma cc3_scoped113.sem) 0
      ∗ semVal ((thrV d L), SemLoc.dma cc3_scoped114.sem) 0
      ∗ semVal ((thrV d L), SemLoc.dma cc3_scoped115.sem) 0
      ∗ semVal ((thrV d L), SemLoc.dma cc3_scoped116.sem) 0
      ∗ semVal ((thrV d L), SemLoc.dma cc3_scoped117.sem) 0
      ∗ semVal ((thrV d L), SemLoc.dma cc3_scoped118.sem) 0
      ∗ semVal ((thrV d L), SemLoc.dma cc3_scoped119.sem) 0
      ∗ semVal ((thrV d L), SemLoc.dma cc3_scoped120.sem) 0
      ∗ semVal ((thrV d L), SemLoc.dma cc3_scoped121.sem) 0
      ∗ semVal ((thrV d L), SemLoc.dma cc3_scoped122.sem) 0
      ∗ semVal ((thrV d L), SemLoc.dma cc3_scoped123.sem) 0
      ∗ semVal ((thrV d L), SemLoc.dma cc3_scoped124.sem) 0
      ∗ semVal ((thrV d L), SemLoc.dma cc3_scoped125.sem) 0
      ∗ semVal ((thrV d L), SemLoc.dma cc3_scoped126.sem) 0
      ∗ semVal ((thrV d L), SemLoc.dma cc3_scoped127.sem) 0
      ∗ semVal ((thrV d L), SemLoc.dma cc3_scoped128.sem) 0
      ∗ semVal ((thrV d L), SemLoc.dma cc3_scoped129.sem) 0
      ∗ semVal ((thrV d L), SemLoc.dma cc3_scoped130.sem) 0
      ∗ semVal ((thrV d L), SemLoc.dma cc3_scoped131.sem) 0
      ∗ semVal ((thrV d L), SemLoc.dma cc3_scoped132.sem) 0
      ∗ semVal ((thrV d L), SemLoc.dma cc3_scoped133.sem) 0
      ∗ semVal ((thrV d L), SemLoc.dma cc3_scoped134.sem) 0
      ∗ semVal ((thrV d L), SemLoc.dma cc3_scoped135.sem) 0
      ∗ semVal ((thrV d L), SemLoc.dma cc3_scoped136.sem) 0
      ∗ semVal ((thrV d L), SemLoc.dma cc3_scoped137.sem) 0
      ∗ semVal ((thrV d L), SemLoc.dma cc3_scoped138.sem) 0
      ∗ semVal ((thrV d L), SemLoc.dma cc3_scoped139.sem) 0
      ∗ semVal ((thrV d L), SemLoc.dma cc3_scoped140.sem) 0
      ∗ semVal ((thrV d L), SemLoc.dma cc3_scoped141.sem) 0
      ∗ semVal ((thrV d L), SemLoc.dma cc3_scoped142.sem) 0
      ∗ semVal ((thrV d L), SemLoc.dma cc3_scoped143.sem) 0
      ∗ semVal ((thrV d L), SemLoc.dma cc3_scoped144.sem) 0
      ∗ semVal ((thrV d L), SemLoc.dma cc3_scoped145.sem) 0
      ∗ semVal ((thrV d L), SemLoc.dma cc3_scoped146.sem) 0
      ∗ semVal ((thrV d L), SemLoc.dma cc3_scoped147.sem) 0
      ∗ semVal ((thrV d L), SemLoc.dma cc3_scoped148.sem) 0
      ∗ semVal ((thrV d L), SemLoc.dma cc3_scoped149.sem) 0
      ∗ semVal ((thrV d L), SemLoc.dma cc3_scoped150.sem) 0
      ∗ semVal ((thrV d L), SemLoc.dma cc3_scoped151.sem) 0
      ∗ semVal ((thrV d L), SemLoc.dma cc3_scoped152.sem) 0
      ∗ semVal ((thrV d L), SemLoc.dma cc3_scoped153.sem) 0
      ∗ semVal ((thrV d L), SemLoc.dma cc3_scoped154.sem) 0
      ∗ semVal ((thrV d L), SemLoc.dma cc3_scoped155.sem) 0
      ∗ semVal ((thrV d L), SemLoc.dma cc3_scoped156.sem) 0
      ∗ semVal ((thrV d L), SemLoc.dma cc3_scoped157.sem) 0
      ∗ semVal ((thrV d L), SemLoc.dma cc3_scoped158.sem) 0
      ∗ semVal ((thrV d L), SemLoc.dma cc3_scoped159.sem) 0
      ∗ semVal ((thrV d L), SemLoc.dma cc3_scoped160.sem) 0
      ∗ semVal ((thrV d L), SemLoc.dma cc3_scoped161.sem) 0
      ∗ owes (thrV d L) O W
      ∗ (iprop((hV.view.loc (thrV d L) ↦{q} fh) ∗ (sV.view.loc (thrV d L) ↦{q} fs)
          ∗ ((oV.slice (Rect.unit (s := S327680x128) (k3_off2 L 0#32) S128x128.size (k3_off2_inb L 0)) (fun _ => rfl)).view.loc (thrV d L) ↦[(oV.slice (Rect.unit (s := S327680x128) (k3_off2 L 0#32) S128x128.size (k3_off2_inb L 0)) (fun _ => rfl)).view.set]{fullShare} (gatherRows (F := F) fh fs : Buf (Elt F) (oV.view.loc (thrV d L))))
          ∗ ((oV.slice (Rect.unit (s := S327680x128) (k3_off2 L 128#32) S128x128.size (k3_off2_inb L 1)) (fun _ => rfl)).view.loc (thrV d L) ↦[(oV.slice (Rect.unit (s := S327680x128) (k3_off2 L 128#32) S128x128.size (k3_off2_inb L 1)) (fun _ => rfl)).view.set]{fullShare} (gatherRows (F := F) fh fs : Buf (Elt F) (oV.view.loc (thrV d L))))
          ∗ ((oV.slice (Rect.unit (s := S327680x128) (k3_off2 L 256#32) S128x128.size (k3_off2_inb L 2)) (fun _ => rfl)).view.loc (thrV d L) ↦[(oV.slice (Rect.unit (s := S327680x128) (k3_off2 L 256#32) S128x128.size (k3_off2_inb L 2)) (fun _ => rfl)).view.set]{fullShare} (gatherRows (F := F) fh fs : Buf (Elt F) (oV.view.loc (thrV d L))))
          ∗ ((oV.slice (Rect.unit (s := S327680x128) (k3_off2 L 384#32) S128x128.size (k3_off2_inb L 3)) (fun _ => rfl)).view.loc (thrV d L) ↦[(oV.slice (Rect.unit (s := S327680x128) (k3_off2 L 384#32) S128x128.size (k3_off2_inb L 3)) (fun _ => rfl)).view.set]{fullShare} (gatherRows (F := F) fh fs : Buf (Elt F) (oV.view.loc (thrV d L))))
          ∗ ((oV.slice (Rect.unit (s := S327680x128) (k3_off2 L 512#32) S128x128.size (k3_off2_inb L 4)) (fun _ => rfl)).view.loc (thrV d L) ↦[(oV.slice (Rect.unit (s := S327680x128) (k3_off2 L 512#32) S128x128.size (k3_off2_inb L 4)) (fun _ => rfl)).view.set]{fullShare} (gatherRows (F := F) fh fs : Buf (Elt F) (oV.view.loc (thrV d L))))
          ∗ ((oV.slice (Rect.unit (s := S327680x128) (k3_off2 L 640#32) S128x128.size (k3_off2_inb L 5)) (fun _ => rfl)).view.loc (thrV d L) ↦[(oV.slice (Rect.unit (s := S327680x128) (k3_off2 L 640#32) S128x128.size (k3_off2_inb L 5)) (fun _ => rfl)).view.set]{fullShare} (gatherRows (F := F) fh fs : Buf (Elt F) (oV.view.loc (thrV d L))))
          ∗ ((oV.slice (Rect.unit (s := S327680x128) (k3_off2 L 768#32) S128x128.size (k3_off2_inb L 6)) (fun _ => rfl)).view.loc (thrV d L) ↦[(oV.slice (Rect.unit (s := S327680x128) (k3_off2 L 768#32) S128x128.size (k3_off2_inb L 6)) (fun _ => rfl)).view.set]{fullShare} (gatherRows (F := F) fh fs : Buf (Elt F) (oV.view.loc (thrV d L))))
          ∗ ((oV.slice (Rect.unit (s := S327680x128) (k3_off2 L 896#32) S128x128.size (k3_off2_inb L 7)) (fun _ => rfl)).view.loc (thrV d L) ↦[(oV.slice (Rect.unit (s := S327680x128) (k3_off2 L 896#32) S128x128.size (k3_off2_inb L 7)) (fun _ => rfl)).view.set]{fullShare} (gatherRows (F := F) fh fs : Buf (Elt F) (oV.view.loc (thrV d L))))
          ∗ ((oV.slice (Rect.unit (s := S327680x128) (k3_off2 L 1024#32) S128x128.size (k3_off2_inb L 8)) (fun _ => rfl)).view.loc (thrV d L) ↦[(oV.slice (Rect.unit (s := S327680x128) (k3_off2 L 1024#32) S128x128.size (k3_off2_inb L 8)) (fun _ => rfl)).view.set]{fullShare} (gatherRows (F := F) fh fs : Buf (Elt F) (oV.view.loc (thrV d L))))
          ∗ ((oV.slice (Rect.unit (s := S327680x128) (k3_off2 L 1152#32) S128x128.size (k3_off2_inb L 9)) (fun _ => rfl)).view.loc (thrV d L) ↦[(oV.slice (Rect.unit (s := S327680x128) (k3_off2 L 1152#32) S128x128.size (k3_off2_inb L 9)) (fun _ => rfl)).view.set]{fullShare} (gatherRows (F := F) fh fs : Buf (Elt F) (oV.view.loc (thrV d L))))
          ∗ ((oV.slice (Rect.unit (s := S327680x128) (k3_off2 L 1280#32) S128x128.size (k3_off2_inb L 10)) (fun _ => rfl)).view.loc (thrV d L) ↦[(oV.slice (Rect.unit (s := S327680x128) (k3_off2 L 1280#32) S128x128.size (k3_off2_inb L 10)) (fun _ => rfl)).view.set]{fullShare} (gatherRows (F := F) fh fs : Buf (Elt F) (oV.view.loc (thrV d L))))
          ∗ ((oV.slice (Rect.unit (s := S327680x128) (k3_off2 L 1408#32) S128x128.size (k3_off2_inb L 11)) (fun _ => rfl)).view.loc (thrV d L) ↦[(oV.slice (Rect.unit (s := S327680x128) (k3_off2 L 1408#32) S128x128.size (k3_off2_inb L 11)) (fun _ => rfl)).view.set]{fullShare} (gatherRows (F := F) fh fs : Buf (Elt F) (oV.view.loc (thrV d L))))
          ∗ ((oV.slice (Rect.unit (s := S327680x128) (k3_off2 L 1536#32) S128x128.size (k3_off2_inb L 12)) (fun _ => rfl)).view.loc (thrV d L) ↦[(oV.slice (Rect.unit (s := S327680x128) (k3_off2 L 1536#32) S128x128.size (k3_off2_inb L 12)) (fun _ => rfl)).view.set]{fullShare} (gatherRows (F := F) fh fs : Buf (Elt F) (oV.view.loc (thrV d L))))
          ∗ ((oV.slice (Rect.unit (s := S327680x128) (k3_off2 L 1664#32) S128x128.size (k3_off2_inb L 13)) (fun _ => rfl)).view.loc (thrV d L) ↦[(oV.slice (Rect.unit (s := S327680x128) (k3_off2 L 1664#32) S128x128.size (k3_off2_inb L 13)) (fun _ => rfl)).view.set]{fullShare} (gatherRows (F := F) fh fs : Buf (Elt F) (oV.view.loc (thrV d L))))
          ∗ ((oV.slice (Rect.unit (s := S327680x128) (k3_off2 L 1792#32) S128x128.size (k3_off2_inb L 14)) (fun _ => rfl)).view.loc (thrV d L) ↦[(oV.slice (Rect.unit (s := S327680x128) (k3_off2 L 1792#32) S128x128.size (k3_off2_inb L 14)) (fun _ => rfl)).view.set]{fullShare} (gatherRows (F := F) fh fs : Buf (Elt F) (oV.view.loc (thrV d L))))
          ∗ ((oV.slice (Rect.unit (s := S327680x128) (k3_off2 L 1920#32) S128x128.size (k3_off2_inb L 15)) (fun _ => rfl)).view.loc (thrV d L) ↦[(oV.slice (Rect.unit (s := S327680x128) (k3_off2 L 1920#32) S128x128.size (k3_off2_inb L 15)) (fun _ => rfl)).view.set]{fullShare} (gatherRows (F := F) fh fs : Buf (Elt F) (oV.view.loc (thrV d L))))
          ∗ ((oV.slice (Rect.unit (s := S327680x128) (k3_off2 L 2048#32) S128x128.size (k3_off2_inb L 16)) (fun _ => rfl)).view.loc (thrV d L) ↦[(oV.slice (Rect.unit (s := S327680x128) (k3_off2 L 2048#32) S128x128.size (k3_off2_inb L 16)) (fun _ => rfl)).view.set]{fullShare} (gatherRows (F := F) fh fs : Buf (Elt F) (oV.view.loc (thrV d L))))
          ∗ ((oV.slice (Rect.unit (s := S327680x128) (k3_off2 L 2176#32) S128x128.size (k3_off2_inb L 17)) (fun _ => rfl)).view.loc (thrV d L) ↦[(oV.slice (Rect.unit (s := S327680x128) (k3_off2 L 2176#32) S128x128.size (k3_off2_inb L 17)) (fun _ => rfl)).view.set]{fullShare} (gatherRows (F := F) fh fs : Buf (Elt F) (oV.view.loc (thrV d L))))
          ∗ ((oV.slice (Rect.unit (s := S327680x128) (k3_off2 L 2304#32) S128x128.size (k3_off2_inb L 18)) (fun _ => rfl)).view.loc (thrV d L) ↦[(oV.slice (Rect.unit (s := S327680x128) (k3_off2 L 2304#32) S128x128.size (k3_off2_inb L 18)) (fun _ => rfl)).view.set]{fullShare} (gatherRows (F := F) fh fs : Buf (Elt F) (oV.view.loc (thrV d L))))
          ∗ ((oV.slice (Rect.unit (s := S327680x128) (k3_off2 L 2432#32) S128x128.size (k3_off2_inb L 19)) (fun _ => rfl)).view.loc (thrV d L) ↦[(oV.slice (Rect.unit (s := S327680x128) (k3_off2 L 2432#32) S128x128.size (k3_off2_inb L 19)) (fun _ => rfl)).view.set]{fullShare} (gatherRows (F := F) fh fs : Buf (Elt F) (oV.view.loc (thrV d L))))
          ∗ ((oV.slice (Rect.unit (s := S327680x128) (k3_off2 L 2560#32) S128x128.size (k3_off2_inb L 20)) (fun _ => rfl)).view.loc (thrV d L) ↦[(oV.slice (Rect.unit (s := S327680x128) (k3_off2 L 2560#32) S128x128.size (k3_off2_inb L 20)) (fun _ => rfl)).view.set]{fullShare} (gatherRows (F := F) fh fs : Buf (Elt F) (oV.view.loc (thrV d L))))
          ∗ ((oV.slice (Rect.unit (s := S327680x128) (k3_off2 L 2688#32) S128x128.size (k3_off2_inb L 21)) (fun _ => rfl)).view.loc (thrV d L) ↦[(oV.slice (Rect.unit (s := S327680x128) (k3_off2 L 2688#32) S128x128.size (k3_off2_inb L 21)) (fun _ => rfl)).view.set]{fullShare} (gatherRows (F := F) fh fs : Buf (Elt F) (oV.view.loc (thrV d L))))
          ∗ ((oV.slice (Rect.unit (s := S327680x128) (k3_off2 L 2816#32) S128x128.size (k3_off2_inb L 22)) (fun _ => rfl)).view.loc (thrV d L) ↦[(oV.slice (Rect.unit (s := S327680x128) (k3_off2 L 2816#32) S128x128.size (k3_off2_inb L 22)) (fun _ => rfl)).view.set]{fullShare} (gatherRows (F := F) fh fs : Buf (Elt F) (oV.view.loc (thrV d L))))
          ∗ ((oV.slice (Rect.unit (s := S327680x128) (k3_off2 L 2944#32) S128x128.size (k3_off2_inb L 23)) (fun _ => rfl)).view.loc (thrV d L) ↦[(oV.slice (Rect.unit (s := S327680x128) (k3_off2 L 2944#32) S128x128.size (k3_off2_inb L 23)) (fun _ => rfl)).view.set]{fullShare} (gatherRows (F := F) fh fs : Buf (Elt F) (oV.view.loc (thrV d L))))
          ∗ ((oV.slice (Rect.unit (s := S327680x128) (k3_off2 L 3072#32) S128x128.size (k3_off2_inb L 24)) (fun _ => rfl)).view.loc (thrV d L) ↦[(oV.slice (Rect.unit (s := S327680x128) (k3_off2 L 3072#32) S128x128.size (k3_off2_inb L 24)) (fun _ => rfl)).view.set]{fullShare} (gatherRows (F := F) fh fs : Buf (Elt F) (oV.view.loc (thrV d L))))
          ∗ ((oV.slice (Rect.unit (s := S327680x128) (k3_off2 L 3200#32) S128x128.size (k3_off2_inb L 25)) (fun _ => rfl)).view.loc (thrV d L) ↦[(oV.slice (Rect.unit (s := S327680x128) (k3_off2 L 3200#32) S128x128.size (k3_off2_inb L 25)) (fun _ => rfl)).view.set]{fullShare} (gatherRows (F := F) fh fs : Buf (Elt F) (oV.view.loc (thrV d L))))
          ∗ ((oV.slice (Rect.unit (s := S327680x128) (k3_off2 L 3328#32) S128x128.size (k3_off2_inb L 26)) (fun _ => rfl)).view.loc (thrV d L) ↦[(oV.slice (Rect.unit (s := S327680x128) (k3_off2 L 3328#32) S128x128.size (k3_off2_inb L 26)) (fun _ => rfl)).view.set]{fullShare} (gatherRows (F := F) fh fs : Buf (Elt F) (oV.view.loc (thrV d L))))
          ∗ ((oV.slice (Rect.unit (s := S327680x128) (k3_off2 L 3456#32) S128x128.size (k3_off2_inb L 27)) (fun _ => rfl)).view.loc (thrV d L) ↦[(oV.slice (Rect.unit (s := S327680x128) (k3_off2 L 3456#32) S128x128.size (k3_off2_inb L 27)) (fun _ => rfl)).view.set]{fullShare} (gatherRows (F := F) fh fs : Buf (Elt F) (oV.view.loc (thrV d L))))
          ∗ ((oV.slice (Rect.unit (s := S327680x128) (k3_off2 L 3584#32) S128x128.size (k3_off2_inb L 28)) (fun _ => rfl)).view.loc (thrV d L) ↦[(oV.slice (Rect.unit (s := S327680x128) (k3_off2 L 3584#32) S128x128.size (k3_off2_inb L 28)) (fun _ => rfl)).view.set]{fullShare} (gatherRows (F := F) fh fs : Buf (Elt F) (oV.view.loc (thrV d L))))
          ∗ ((oV.slice (Rect.unit (s := S327680x128) (k3_off2 L 3712#32) S128x128.size (k3_off2_inb L 29)) (fun _ => rfl)).view.loc (thrV d L) ↦[(oV.slice (Rect.unit (s := S327680x128) (k3_off2 L 3712#32) S128x128.size (k3_off2_inb L 29)) (fun _ => rfl)).view.set]{fullShare} (gatherRows (F := F) fh fs : Buf (Elt F) (oV.view.loc (thrV d L))))
          ∗ ((oV.slice (Rect.unit (s := S327680x128) (k3_off2 L 3840#32) S128x128.size (k3_off2_inb L 30)) (fun _ => rfl)).view.loc (thrV d L) ↦[(oV.slice (Rect.unit (s := S327680x128) (k3_off2 L 3840#32) S128x128.size (k3_off2_inb L 30)) (fun _ => rfl)).view.set]{fullShare} (gatherRows (F := F) fh fs : Buf (Elt F) (oV.view.loc (thrV d L))))
          ∗ ((oV.slice (Rect.unit (s := S327680x128) (k3_off2 L 3968#32) S128x128.size (k3_off2_inb L 31)) (fun _ => rfl)).view.loc (thrV d L) ↦[(oV.slice (Rect.unit (s := S327680x128) (k3_off2 L 3968#32) S128x128.size (k3_off2_inb L 31)) (fun _ => rfl)).view.set]{fullShare} (gatherRows (F := F) fh fs : Buf (Elt F) (oV.view.loc (thrV d L))))
          ∗ ((oV.slice (Rect.unit (s := S327680x128) (k3_off2 L 4096#32) S128x128.size (k3_off2_inb L 32)) (fun _ => rfl)).view.loc (thrV d L) ↦[(oV.slice (Rect.unit (s := S327680x128) (k3_off2 L 4096#32) S128x128.size (k3_off2_inb L 32)) (fun _ => rfl)).view.set]{fullShare} (gatherRows (F := F) fh fs : Buf (Elt F) (oV.view.loc (thrV d L))))
          ∗ ((oV.slice (Rect.unit (s := S327680x128) (k3_off2 L 4224#32) S128x128.size (k3_off2_inb L 33)) (fun _ => rfl)).view.loc (thrV d L) ↦[(oV.slice (Rect.unit (s := S327680x128) (k3_off2 L 4224#32) S128x128.size (k3_off2_inb L 33)) (fun _ => rfl)).view.set]{fullShare} (gatherRows (F := F) fh fs : Buf (Elt F) (oV.view.loc (thrV d L))))
          ∗ ((oV.slice (Rect.unit (s := S327680x128) (k3_off2 L 4352#32) S128x128.size (k3_off2_inb L 34)) (fun _ => rfl)).view.loc (thrV d L) ↦[(oV.slice (Rect.unit (s := S327680x128) (k3_off2 L 4352#32) S128x128.size (k3_off2_inb L 34)) (fun _ => rfl)).view.set]{fullShare} (gatherRows (F := F) fh fs : Buf (Elt F) (oV.view.loc (thrV d L))))
          ∗ ((oV.slice (Rect.unit (s := S327680x128) (k3_off2 L 4480#32) S128x128.size (k3_off2_inb L 35)) (fun _ => rfl)).view.loc (thrV d L) ↦[(oV.slice (Rect.unit (s := S327680x128) (k3_off2 L 4480#32) S128x128.size (k3_off2_inb L 35)) (fun _ => rfl)).view.set]{fullShare} (gatherRows (F := F) fh fs : Buf (Elt F) (oV.view.loc (thrV d L))))
          ∗ ((oV.slice (Rect.unit (s := S327680x128) (k3_off2 L 4608#32) S128x128.size (k3_off2_inb L 36)) (fun _ => rfl)).view.loc (thrV d L) ↦[(oV.slice (Rect.unit (s := S327680x128) (k3_off2 L 4608#32) S128x128.size (k3_off2_inb L 36)) (fun _ => rfl)).view.set]{fullShare} (gatherRows (F := F) fh fs : Buf (Elt F) (oV.view.loc (thrV d L))))
          ∗ ((oV.slice (Rect.unit (s := S327680x128) (k3_off2 L 4736#32) S128x128.size (k3_off2_inb L 37)) (fun _ => rfl)).view.loc (thrV d L) ↦[(oV.slice (Rect.unit (s := S327680x128) (k3_off2 L 4736#32) S128x128.size (k3_off2_inb L 37)) (fun _ => rfl)).view.set]{fullShare} (gatherRows (F := F) fh fs : Buf (Elt F) (oV.view.loc (thrV d L))))
          ∗ ((oV.slice (Rect.unit (s := S327680x128) (k3_off2 L 4864#32) S128x128.size (k3_off2_inb L 38)) (fun _ => rfl)).view.loc (thrV d L) ↦[(oV.slice (Rect.unit (s := S327680x128) (k3_off2 L 4864#32) S128x128.size (k3_off2_inb L 38)) (fun _ => rfl)).view.set]{fullShare} (gatherRows (F := F) fh fs : Buf (Elt F) (oV.view.loc (thrV d L))))
          ∗ ((oV.slice (Rect.unit (s := S327680x128) (k3_off2 L 4992#32) S128x128.size (k3_off2_inb L 39)) (fun _ => rfl)).view.loc (thrV d L) ↦[(oV.slice (Rect.unit (s := S327680x128) (k3_off2 L 4992#32) S128x128.size (k3_off2_inb L 39)) (fun _ => rfl)).view.set]{fullShare} (gatherRows (F := F) fh fs : Buf (Elt F) (oV.view.loc (thrV d L))))
          ∗ ((oV.slice (Rect.unit (s := S327680x128) (k3_off2 L 5120#32) S128x128.size (k3_off2_inb L 40)) (fun _ => rfl)).view.loc (thrV d L) ↦[(oV.slice (Rect.unit (s := S327680x128) (k3_off2 L 5120#32) S128x128.size (k3_off2_inb L 40)) (fun _ => rfl)).view.set]{fullShare} (gatherRows (F := F) fh fs : Buf (Elt F) (oV.view.loc (thrV d L))))
          ∗ ((oV.slice (Rect.unit (s := S327680x128) (k3_off2 L 5248#32) S128x128.size (k3_off2_inb L 41)) (fun _ => rfl)).view.loc (thrV d L) ↦[(oV.slice (Rect.unit (s := S327680x128) (k3_off2 L 5248#32) S128x128.size (k3_off2_inb L 41)) (fun _ => rfl)).view.set]{fullShare} (gatherRows (F := F) fh fs : Buf (Elt F) (oV.view.loc (thrV d L))))
          ∗ ((oV.slice (Rect.unit (s := S327680x128) (k3_off2 L 5376#32) S128x128.size (k3_off2_inb L 42)) (fun _ => rfl)).view.loc (thrV d L) ↦[(oV.slice (Rect.unit (s := S327680x128) (k3_off2 L 5376#32) S128x128.size (k3_off2_inb L 42)) (fun _ => rfl)).view.set]{fullShare} (gatherRows (F := F) fh fs : Buf (Elt F) (oV.view.loc (thrV d L))))
          ∗ ((oV.slice (Rect.unit (s := S327680x128) (k3_off2 L 5504#32) S128x128.size (k3_off2_inb L 43)) (fun _ => rfl)).view.loc (thrV d L) ↦[(oV.slice (Rect.unit (s := S327680x128) (k3_off2 L 5504#32) S128x128.size (k3_off2_inb L 43)) (fun _ => rfl)).view.set]{fullShare} (gatherRows (F := F) fh fs : Buf (Elt F) (oV.view.loc (thrV d L))))
          ∗ ((oV.slice (Rect.unit (s := S327680x128) (k3_off2 L 5632#32) S128x128.size (k3_off2_inb L 44)) (fun _ => rfl)).view.loc (thrV d L) ↦[(oV.slice (Rect.unit (s := S327680x128) (k3_off2 L 5632#32) S128x128.size (k3_off2_inb L 44)) (fun _ => rfl)).view.set]{fullShare} (gatherRows (F := F) fh fs : Buf (Elt F) (oV.view.loc (thrV d L))))
          ∗ ((oV.slice (Rect.unit (s := S327680x128) (k3_off2 L 5760#32) S128x128.size (k3_off2_inb L 45)) (fun _ => rfl)).view.loc (thrV d L) ↦[(oV.slice (Rect.unit (s := S327680x128) (k3_off2 L 5760#32) S128x128.size (k3_off2_inb L 45)) (fun _ => rfl)).view.set]{fullShare} (gatherRows (F := F) fh fs : Buf (Elt F) (oV.view.loc (thrV d L))))
          ∗ ((oV.slice (Rect.unit (s := S327680x128) (k3_off2 L 5888#32) S128x128.size (k3_off2_inb L 46)) (fun _ => rfl)).view.loc (thrV d L) ↦[(oV.slice (Rect.unit (s := S327680x128) (k3_off2 L 5888#32) S128x128.size (k3_off2_inb L 46)) (fun _ => rfl)).view.set]{fullShare} (gatherRows (F := F) fh fs : Buf (Elt F) (oV.view.loc (thrV d L))))
          ∗ ((oV.slice (Rect.unit (s := S327680x128) (k3_off2 L 6016#32) S128x128.size (k3_off2_inb L 47)) (fun _ => rfl)).view.loc (thrV d L) ↦[(oV.slice (Rect.unit (s := S327680x128) (k3_off2 L 6016#32) S128x128.size (k3_off2_inb L 47)) (fun _ => rfl)).view.set]{fullShare} (gatherRows (F := F) fh fs : Buf (Elt F) (oV.view.loc (thrV d L))))
          ∗ ((oV.slice (Rect.unit (s := S327680x128) (k3_off2 L 6144#32) S128x128.size (k3_off2_inb L 48)) (fun _ => rfl)).view.loc (thrV d L) ↦[(oV.slice (Rect.unit (s := S327680x128) (k3_off2 L 6144#32) S128x128.size (k3_off2_inb L 48)) (fun _ => rfl)).view.set]{fullShare} (gatherRows (F := F) fh fs : Buf (Elt F) (oV.view.loc (thrV d L))))
          ∗ ((oV.slice (Rect.unit (s := S327680x128) (k3_off2 L 6272#32) S128x128.size (k3_off2_inb L 49)) (fun _ => rfl)).view.loc (thrV d L) ↦[(oV.slice (Rect.unit (s := S327680x128) (k3_off2 L 6272#32) S128x128.size (k3_off2_inb L 49)) (fun _ => rfl)).view.set]{fullShare} (gatherRows (F := F) fh fs : Buf (Elt F) (oV.view.loc (thrV d L))))
          ∗ ((oV.slice (Rect.unit (s := S327680x128) (k3_off2 L 6400#32) S128x128.size (k3_off2_inb L 50)) (fun _ => rfl)).view.loc (thrV d L) ↦[(oV.slice (Rect.unit (s := S327680x128) (k3_off2 L 6400#32) S128x128.size (k3_off2_inb L 50)) (fun _ => rfl)).view.set]{fullShare} (gatherRows (F := F) fh fs : Buf (Elt F) (oV.view.loc (thrV d L))))
          ∗ ((oV.slice (Rect.unit (s := S327680x128) (k3_off2 L 6528#32) S128x128.size (k3_off2_inb L 51)) (fun _ => rfl)).view.loc (thrV d L) ↦[(oV.slice (Rect.unit (s := S327680x128) (k3_off2 L 6528#32) S128x128.size (k3_off2_inb L 51)) (fun _ => rfl)).view.set]{fullShare} (gatherRows (F := F) fh fs : Buf (Elt F) (oV.view.loc (thrV d L))))
          ∗ ((oV.slice (Rect.unit (s := S327680x128) (k3_off2 L 6656#32) S128x128.size (k3_off2_inb L 52)) (fun _ => rfl)).view.loc (thrV d L) ↦[(oV.slice (Rect.unit (s := S327680x128) (k3_off2 L 6656#32) S128x128.size (k3_off2_inb L 52)) (fun _ => rfl)).view.set]{fullShare} (gatherRows (F := F) fh fs : Buf (Elt F) (oV.view.loc (thrV d L))))
          ∗ ((oV.slice (Rect.unit (s := S327680x128) (k3_off2 L 6784#32) S128x128.size (k3_off2_inb L 53)) (fun _ => rfl)).view.loc (thrV d L) ↦[(oV.slice (Rect.unit (s := S327680x128) (k3_off2 L 6784#32) S128x128.size (k3_off2_inb L 53)) (fun _ => rfl)).view.set]{fullShare} (gatherRows (F := F) fh fs : Buf (Elt F) (oV.view.loc (thrV d L))))
          ∗ ((oV.slice (Rect.unit (s := S327680x128) (k3_off2 L 6912#32) S128x128.size (k3_off2_inb L 54)) (fun _ => rfl)).view.loc (thrV d L) ↦[(oV.slice (Rect.unit (s := S327680x128) (k3_off2 L 6912#32) S128x128.size (k3_off2_inb L 54)) (fun _ => rfl)).view.set]{fullShare} (gatherRows (F := F) fh fs : Buf (Elt F) (oV.view.loc (thrV d L))))
          ∗ ((oV.slice (Rect.unit (s := S327680x128) (k3_off2 L 7040#32) S128x128.size (k3_off2_inb L 55)) (fun _ => rfl)).view.loc (thrV d L) ↦[(oV.slice (Rect.unit (s := S327680x128) (k3_off2 L 7040#32) S128x128.size (k3_off2_inb L 55)) (fun _ => rfl)).view.set]{fullShare} (gatherRows (F := F) fh fs : Buf (Elt F) (oV.view.loc (thrV d L))))
          ∗ ((oV.slice (Rect.unit (s := S327680x128) (k3_off2 L 7168#32) S128x128.size (k3_off2_inb L 56)) (fun _ => rfl)).view.loc (thrV d L) ↦[(oV.slice (Rect.unit (s := S327680x128) (k3_off2 L 7168#32) S128x128.size (k3_off2_inb L 56)) (fun _ => rfl)).view.set]{fullShare} (gatherRows (F := F) fh fs : Buf (Elt F) (oV.view.loc (thrV d L))))
          ∗ ((oV.slice (Rect.unit (s := S327680x128) (k3_off2 L 7296#32) S128x128.size (k3_off2_inb L 57)) (fun _ => rfl)).view.loc (thrV d L) ↦[(oV.slice (Rect.unit (s := S327680x128) (k3_off2 L 7296#32) S128x128.size (k3_off2_inb L 57)) (fun _ => rfl)).view.set]{fullShare} (gatherRows (F := F) fh fs : Buf (Elt F) (oV.view.loc (thrV d L))))
          ∗ ((oV.slice (Rect.unit (s := S327680x128) (k3_off2 L 7424#32) S128x128.size (k3_off2_inb L 58)) (fun _ => rfl)).view.loc (thrV d L) ↦[(oV.slice (Rect.unit (s := S327680x128) (k3_off2 L 7424#32) S128x128.size (k3_off2_inb L 58)) (fun _ => rfl)).view.set]{fullShare} (gatherRows (F := F) fh fs : Buf (Elt F) (oV.view.loc (thrV d L))))
          ∗ ((oV.slice (Rect.unit (s := S327680x128) (k3_off2 L 7552#32) S128x128.size (k3_off2_inb L 59)) (fun _ => rfl)).view.loc (thrV d L) ↦[(oV.slice (Rect.unit (s := S327680x128) (k3_off2 L 7552#32) S128x128.size (k3_off2_inb L 59)) (fun _ => rfl)).view.set]{fullShare} (gatherRows (F := F) fh fs : Buf (Elt F) (oV.view.loc (thrV d L))))
          ∗ ((oV.slice (Rect.unit (s := S327680x128) (k3_off2 L 7680#32) S128x128.size (k3_off2_inb L 60)) (fun _ => rfl)).view.loc (thrV d L) ↦[(oV.slice (Rect.unit (s := S327680x128) (k3_off2 L 7680#32) S128x128.size (k3_off2_inb L 60)) (fun _ => rfl)).view.set]{fullShare} (gatherRows (F := F) fh fs : Buf (Elt F) (oV.view.loc (thrV d L))))
          ∗ ((oV.slice (Rect.unit (s := S327680x128) (k3_off2 L 7808#32) S128x128.size (k3_off2_inb L 61)) (fun _ => rfl)).view.loc (thrV d L) ↦[(oV.slice (Rect.unit (s := S327680x128) (k3_off2 L 7808#32) S128x128.size (k3_off2_inb L 61)) (fun _ => rfl)).view.set]{fullShare} (gatherRows (F := F) fh fs : Buf (Elt F) (oV.view.loc (thrV d L))))
          ∗ ((oV.slice (Rect.unit (s := S327680x128) (k3_off2 L 7936#32) S128x128.size (k3_off2_inb L 62)) (fun _ => rfl)).view.loc (thrV d L) ↦[(oV.slice (Rect.unit (s := S327680x128) (k3_off2 L 7936#32) S128x128.size (k3_off2_inb L 62)) (fun _ => rfl)).view.set]{fullShare} (gatherRows (F := F) fh fs : Buf (Elt F) (oV.view.loc (thrV d L))))
          ∗ ((oV.slice (Rect.unit (s := S327680x128) (k3_off2 L 8064#32) S128x128.size (k3_off2_inb L 63)) (fun _ => rfl)).view.loc (thrV d L) ↦[(oV.slice (Rect.unit (s := S327680x128) (k3_off2 L 8064#32) S128x128.size (k3_off2_inb L 63)) (fun _ => rfl)).view.set]{fullShare} (gatherRows (F := F) fh fs : Buf (Elt F) (oV.view.loc (thrV d L))))
          ∗ ((oV.slice (Rect.unit (s := S327680x128) (k3_off2 L 8192#32) S128x128.size (k3_off2_inb L 64)) (fun _ => rfl)).view.loc (thrV d L) ↦[(oV.slice (Rect.unit (s := S327680x128) (k3_off2 L 8192#32) S128x128.size (k3_off2_inb L 64)) (fun _ => rfl)).view.set]{fullShare} (gatherRows (F := F) fh fs : Buf (Elt F) (oV.view.loc (thrV d L))))
          ∗ ((oV.slice (Rect.unit (s := S327680x128) (k3_off2 L 8320#32) S128x128.size (k3_off2_inb L 65)) (fun _ => rfl)).view.loc (thrV d L) ↦[(oV.slice (Rect.unit (s := S327680x128) (k3_off2 L 8320#32) S128x128.size (k3_off2_inb L 65)) (fun _ => rfl)).view.set]{fullShare} (gatherRows (F := F) fh fs : Buf (Elt F) (oV.view.loc (thrV d L))))
          ∗ ((oV.slice (Rect.unit (s := S327680x128) (k3_off2 L 8448#32) S128x128.size (k3_off2_inb L 66)) (fun _ => rfl)).view.loc (thrV d L) ↦[(oV.slice (Rect.unit (s := S327680x128) (k3_off2 L 8448#32) S128x128.size (k3_off2_inb L 66)) (fun _ => rfl)).view.set]{fullShare} (gatherRows (F := F) fh fs : Buf (Elt F) (oV.view.loc (thrV d L))))
          ∗ ((oV.slice (Rect.unit (s := S327680x128) (k3_off2 L 8576#32) S128x128.size (k3_off2_inb L 67)) (fun _ => rfl)).view.loc (thrV d L) ↦[(oV.slice (Rect.unit (s := S327680x128) (k3_off2 L 8576#32) S128x128.size (k3_off2_inb L 67)) (fun _ => rfl)).view.set]{fullShare} (gatherRows (F := F) fh fs : Buf (Elt F) (oV.view.loc (thrV d L))))
          ∗ ((oV.slice (Rect.unit (s := S327680x128) (k3_off2 L 8704#32) S128x128.size (k3_off2_inb L 68)) (fun _ => rfl)).view.loc (thrV d L) ↦[(oV.slice (Rect.unit (s := S327680x128) (k3_off2 L 8704#32) S128x128.size (k3_off2_inb L 68)) (fun _ => rfl)).view.set]{fullShare} (gatherRows (F := F) fh fs : Buf (Elt F) (oV.view.loc (thrV d L))))
          ∗ ((oV.slice (Rect.unit (s := S327680x128) (k3_off2 L 8832#32) S128x128.size (k3_off2_inb L 69)) (fun _ => rfl)).view.loc (thrV d L) ↦[(oV.slice (Rect.unit (s := S327680x128) (k3_off2 L 8832#32) S128x128.size (k3_off2_inb L 69)) (fun _ => rfl)).view.set]{fullShare} (gatherRows (F := F) fh fs : Buf (Elt F) (oV.view.loc (thrV d L))))
          ∗ ((oV.slice (Rect.unit (s := S327680x128) (k3_off2 L 8960#32) S128x128.size (k3_off2_inb L 70)) (fun _ => rfl)).view.loc (thrV d L) ↦[(oV.slice (Rect.unit (s := S327680x128) (k3_off2 L 8960#32) S128x128.size (k3_off2_inb L 70)) (fun _ => rfl)).view.set]{fullShare} (gatherRows (F := F) fh fs : Buf (Elt F) (oV.view.loc (thrV d L))))
          ∗ ((oV.slice (Rect.unit (s := S327680x128) (k3_off2 L 9088#32) S128x128.size (k3_off2_inb L 71)) (fun _ => rfl)).view.loc (thrV d L) ↦[(oV.slice (Rect.unit (s := S327680x128) (k3_off2 L 9088#32) S128x128.size (k3_off2_inb L 71)) (fun _ => rfl)).view.set]{fullShare} (gatherRows (F := F) fh fs : Buf (Elt F) (oV.view.loc (thrV d L))))
          ∗ ((oV.slice (Rect.unit (s := S327680x128) (k3_off2 L 9216#32) S128x128.size (k3_off2_inb L 72)) (fun _ => rfl)).view.loc (thrV d L) ↦[(oV.slice (Rect.unit (s := S327680x128) (k3_off2 L 9216#32) S128x128.size (k3_off2_inb L 72)) (fun _ => rfl)).view.set]{fullShare} (gatherRows (F := F) fh fs : Buf (Elt F) (oV.view.loc (thrV d L))))
          ∗ ((oV.slice (Rect.unit (s := S327680x128) (k3_off2 L 9344#32) S128x128.size (k3_off2_inb L 73)) (fun _ => rfl)).view.loc (thrV d L) ↦[(oV.slice (Rect.unit (s := S327680x128) (k3_off2 L 9344#32) S128x128.size (k3_off2_inb L 73)) (fun _ => rfl)).view.set]{fullShare} (gatherRows (F := F) fh fs : Buf (Elt F) (oV.view.loc (thrV d L))))
          ∗ ((oV.slice (Rect.unit (s := S327680x128) (k3_off2 L 9472#32) S128x128.size (k3_off2_inb L 74)) (fun _ => rfl)).view.loc (thrV d L) ↦[(oV.slice (Rect.unit (s := S327680x128) (k3_off2 L 9472#32) S128x128.size (k3_off2_inb L 74)) (fun _ => rfl)).view.set]{fullShare} (gatherRows (F := F) fh fs : Buf (Elt F) (oV.view.loc (thrV d L))))
          ∗ ((oV.slice (Rect.unit (s := S327680x128) (k3_off2 L 9600#32) S128x128.size (k3_off2_inb L 75)) (fun _ => rfl)).view.loc (thrV d L) ↦[(oV.slice (Rect.unit (s := S327680x128) (k3_off2 L 9600#32) S128x128.size (k3_off2_inb L 75)) (fun _ => rfl)).view.set]{fullShare} (gatherRows (F := F) fh fs : Buf (Elt F) (oV.view.loc (thrV d L))))
          ∗ ((oV.slice (Rect.unit (s := S327680x128) (k3_off2 L 9728#32) S128x128.size (k3_off2_inb L 76)) (fun _ => rfl)).view.loc (thrV d L) ↦[(oV.slice (Rect.unit (s := S327680x128) (k3_off2 L 9728#32) S128x128.size (k3_off2_inb L 76)) (fun _ => rfl)).view.set]{fullShare} (gatherRows (F := F) fh fs : Buf (Elt F) (oV.view.loc (thrV d L))))
          ∗ ((oV.slice (Rect.unit (s := S327680x128) (k3_off2 L 9856#32) S128x128.size (k3_off2_inb L 77)) (fun _ => rfl)).view.loc (thrV d L) ↦[(oV.slice (Rect.unit (s := S327680x128) (k3_off2 L 9856#32) S128x128.size (k3_off2_inb L 77)) (fun _ => rfl)).view.set]{fullShare} (gatherRows (F := F) fh fs : Buf (Elt F) (oV.view.loc (thrV d L))))
          ∗ ((oV.slice (Rect.unit (s := S327680x128) (k3_off2 L 9984#32) S128x128.size (k3_off2_inb L 78)) (fun _ => rfl)).view.loc (thrV d L) ↦[(oV.slice (Rect.unit (s := S327680x128) (k3_off2 L 9984#32) S128x128.size (k3_off2_inb L 78)) (fun _ => rfl)).view.set]{fullShare} (gatherRows (F := F) fh fs : Buf (Elt F) (oV.view.loc (thrV d L))))
          ∗ ((oV.slice (Rect.unit (s := S327680x128) (k3_off2 L 10112#32) S128x128.size (k3_off2_inb L 79)) (fun _ => rfl)).view.loc (thrV d L) ↦[(oV.slice (Rect.unit (s := S327680x128) (k3_off2 L 10112#32) S128x128.size (k3_off2_inb L 79)) (fun _ => rfl)).view.set]{fullShare} (gatherRows (F := F) fh fs : Buf (Elt F) (oV.view.loc (thrV d L))))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ semVal ((thrV d L), SemLoc.dma cc3_scoped0.sem) 0
          ∗ semVal ((thrV d L), SemLoc.dma cc3_scoped1.sem) 0
          ∗ semVal ((thrV d L), SemLoc.dma cc3_scoped2.sem) 0
          ∗ semVal ((thrV d L), SemLoc.dma cc3_scoped3.sem) 0
          ∗ semVal ((thrV d L), SemLoc.dma cc3_scoped4.sem) 0
          ∗ semVal ((thrV d L), SemLoc.dma cc3_scoped5.sem) 0
          ∗ semVal ((thrV d L), SemLoc.dma cc3_scoped6.sem) 0
          ∗ semVal ((thrV d L), SemLoc.dma cc3_scoped7.sem) 0
          ∗ semVal ((thrV d L), SemLoc.dma cc3_scoped8.sem) 0
          ∗ semVal ((thrV d L), SemLoc.dma cc3_scoped9.sem) 0
          ∗ semVal ((thrV d L), SemLoc.dma cc3_scoped10.sem) 0
          ∗ semVal ((thrV d L), SemLoc.dma cc3_scoped11.sem) 0
          ∗ semVal ((thrV d L), SemLoc.dma cc3_scoped12.sem) 0
          ∗ semVal ((thrV d L), SemLoc.dma cc3_scoped13.sem) 0
          ∗ semVal ((thrV d L), SemLoc.dma cc3_scoped14.sem) 0
          ∗ semVal ((thrV d L), SemLoc.dma cc3_scoped15.sem) 0
          ∗ semVal ((thrV d L), SemLoc.dma cc3_scoped16.sem) 0
          ∗ semVal ((thrV d L), SemLoc.dma cc3_scoped17.sem) 0
          ∗ semVal ((thrV d L), SemLoc.dma cc3_scoped18.sem) 0
          ∗ semVal ((thrV d L), SemLoc.dma cc3_scoped19.sem) 0
          ∗ semVal ((thrV d L), SemLoc.dma cc3_scoped20.sem) 0
          ∗ semVal ((thrV d L), SemLoc.dma cc3_scoped21.sem) 0
          ∗ semVal ((thrV d L), SemLoc.dma cc3_scoped22.sem) 0
          ∗ semVal ((thrV d L), SemLoc.dma cc3_scoped23.sem) 0
          ∗ semVal ((thrV d L), SemLoc.dma cc3_scoped24.sem) 0
          ∗ semVal ((thrV d L), SemLoc.dma cc3_scoped25.sem) 0
          ∗ semVal ((thrV d L), SemLoc.dma cc3_scoped26.sem) 0
          ∗ semVal ((thrV d L), SemLoc.dma cc3_scoped27.sem) 0
          ∗ semVal ((thrV d L), SemLoc.dma cc3_scoped28.sem) 0
          ∗ semVal ((thrV d L), SemLoc.dma cc3_scoped29.sem) 0
          ∗ semVal ((thrV d L), SemLoc.dma cc3_scoped30.sem) 0
          ∗ semVal ((thrV d L), SemLoc.dma cc3_scoped31.sem) 0
          ∗ semVal ((thrV d L), SemLoc.dma cc3_scoped32.sem) 0
          ∗ semVal ((thrV d L), SemLoc.dma cc3_scoped33.sem) 0
          ∗ semVal ((thrV d L), SemLoc.dma cc3_scoped34.sem) 0
          ∗ semVal ((thrV d L), SemLoc.dma cc3_scoped35.sem) 0
          ∗ semVal ((thrV d L), SemLoc.dma cc3_scoped36.sem) 0
          ∗ semVal ((thrV d L), SemLoc.dma cc3_scoped37.sem) 0
          ∗ semVal ((thrV d L), SemLoc.dma cc3_scoped38.sem) 0
          ∗ semVal ((thrV d L), SemLoc.dma cc3_scoped39.sem) 0
          ∗ semVal ((thrV d L), SemLoc.dma cc3_scoped40.sem) 0
          ∗ semVal ((thrV d L), SemLoc.dma cc3_scoped41.sem) 0
          ∗ semVal ((thrV d L), SemLoc.dma cc3_scoped42.sem) 0
          ∗ semVal ((thrV d L), SemLoc.dma cc3_scoped43.sem) 0
          ∗ semVal ((thrV d L), SemLoc.dma cc3_scoped44.sem) 0
          ∗ semVal ((thrV d L), SemLoc.dma cc3_scoped45.sem) 0
          ∗ semVal ((thrV d L), SemLoc.dma cc3_scoped46.sem) 0
          ∗ semVal ((thrV d L), SemLoc.dma cc3_scoped47.sem) 0
          ∗ semVal ((thrV d L), SemLoc.dma cc3_scoped48.sem) 0
          ∗ semVal ((thrV d L), SemLoc.dma cc3_scoped49.sem) 0
          ∗ semVal ((thrV d L), SemLoc.dma cc3_scoped50.sem) 0
          ∗ semVal ((thrV d L), SemLoc.dma cc3_scoped51.sem) 0
          ∗ semVal ((thrV d L), SemLoc.dma cc3_scoped52.sem) 0
          ∗ semVal ((thrV d L), SemLoc.dma cc3_scoped53.sem) 0
          ∗ semVal ((thrV d L), SemLoc.dma cc3_scoped54.sem) 0
          ∗ semVal ((thrV d L), SemLoc.dma cc3_scoped55.sem) 0
          ∗ semVal ((thrV d L), SemLoc.dma cc3_scoped56.sem) 0
          ∗ semVal ((thrV d L), SemLoc.dma cc3_scoped57.sem) 0
          ∗ semVal ((thrV d L), SemLoc.dma cc3_scoped58.sem) 0
          ∗ semVal ((thrV d L), SemLoc.dma cc3_scoped59.sem) 0
          ∗ semVal ((thrV d L), SemLoc.dma cc3_scoped60.sem) 0
          ∗ semVal ((thrV d L), SemLoc.dma cc3_scoped61.sem) 0
          ∗ semVal ((thrV d L), SemLoc.dma cc3_scoped62.sem) 0
          ∗ semVal ((thrV d L), SemLoc.dma cc3_scoped63.sem) 0
          ∗ semVal ((thrV d L), SemLoc.dma cc3_scoped64.sem) 0
          ∗ semVal ((thrV d L), SemLoc.dma cc3_scoped65.sem) 0
          ∗ semVal ((thrV d L), SemLoc.dma cc3_scoped66.sem) 0
          ∗ semVal ((thrV d L), SemLoc.dma cc3_scoped67.sem) 0
          ∗ semVal ((thrV d L), SemLoc.dma cc3_scoped68.sem) 0
          ∗ semVal ((thrV d L), SemLoc.dma cc3_scoped69.sem) 0
          ∗ semVal ((thrV d L), SemLoc.dma cc3_scoped70.sem) 0
          ∗ semVal ((thrV d L), SemLoc.dma cc3_scoped71.sem) 0
          ∗ semVal ((thrV d L), SemLoc.dma cc3_scoped72.sem) 0
          ∗ semVal ((thrV d L), SemLoc.dma cc3_scoped73.sem) 0
          ∗ semVal ((thrV d L), SemLoc.dma cc3_scoped74.sem) 0
          ∗ semVal ((thrV d L), SemLoc.dma cc3_scoped75.sem) 0
          ∗ semVal ((thrV d L), SemLoc.dma cc3_scoped76.sem) 0
          ∗ semVal ((thrV d L), SemLoc.dma cc3_scoped77.sem) 0
          ∗ semVal ((thrV d L), SemLoc.dma cc3_scoped78.sem) 0
          ∗ semVal ((thrV d L), SemLoc.dma cc3_scoped79.sem) 0
          ∗ semVal ((thrV d L), SemLoc.dma cc3_scoped80.sem) 0
          ∗ semVal ((thrV d L), SemLoc.dma cc3_scoped81.sem) 0
          ∗ semVal ((thrV d L), SemLoc.dma cc3_scoped82.sem) 0
          ∗ semVal ((thrV d L), SemLoc.dma cc3_scoped83.sem) 0
          ∗ semVal ((thrV d L), SemLoc.dma cc3_scoped84.sem) 0
          ∗ semVal ((thrV d L), SemLoc.dma cc3_scoped85.sem) 0
          ∗ semVal ((thrV d L), SemLoc.dma cc3_scoped86.sem) 0
          ∗ semVal ((thrV d L), SemLoc.dma cc3_scoped87.sem) 0
          ∗ semVal ((thrV d L), SemLoc.dma cc3_scoped88.sem) 0
          ∗ semVal ((thrV d L), SemLoc.dma cc3_scoped89.sem) 0
          ∗ semVal ((thrV d L), SemLoc.dma cc3_scoped90.sem) 0
          ∗ semVal ((thrV d L), SemLoc.dma cc3_scoped91.sem) 0
          ∗ semVal ((thrV d L), SemLoc.dma cc3_scoped92.sem) 0
          ∗ semVal ((thrV d L), SemLoc.dma cc3_scoped93.sem) 0
          ∗ semVal ((thrV d L), SemLoc.dma cc3_scoped94.sem) 0
          ∗ semVal ((thrV d L), SemLoc.dma cc3_scoped95.sem) 0
          ∗ semVal ((thrV d L), SemLoc.dma cc3_scoped96.sem) 0
          ∗ semVal ((thrV d L), SemLoc.dma cc3_scoped97.sem) 0
          ∗ semVal ((thrV d L), SemLoc.dma cc3_scoped98.sem) 0
          ∗ semVal ((thrV d L), SemLoc.dma cc3_scoped99.sem) 0
          ∗ semVal ((thrV d L), SemLoc.dma cc3_scoped100.sem) 0
          ∗ semVal ((thrV d L), SemLoc.dma cc3_scoped101.sem) 0
          ∗ semVal ((thrV d L), SemLoc.dma cc3_scoped102.sem) 0
          ∗ semVal ((thrV d L), SemLoc.dma cc3_scoped103.sem) 0
          ∗ semVal ((thrV d L), SemLoc.dma cc3_scoped104.sem) 0
          ∗ semVal ((thrV d L), SemLoc.dma cc3_scoped105.sem) 0
          ∗ semVal ((thrV d L), SemLoc.dma cc3_scoped106.sem) 0
          ∗ semVal ((thrV d L), SemLoc.dma cc3_scoped107.sem) 0
          ∗ semVal ((thrV d L), SemLoc.dma cc3_scoped108.sem) 0
          ∗ semVal ((thrV d L), SemLoc.dma cc3_scoped109.sem) 0
          ∗ semVal ((thrV d L), SemLoc.dma cc3_scoped110.sem) 0
          ∗ semVal ((thrV d L), SemLoc.dma cc3_scoped111.sem) 0
          ∗ semVal ((thrV d L), SemLoc.dma cc3_scoped112.sem) 0
          ∗ semVal ((thrV d L), SemLoc.dma cc3_scoped113.sem) 0
          ∗ semVal ((thrV d L), SemLoc.dma cc3_scoped114.sem) 0
          ∗ semVal ((thrV d L), SemLoc.dma cc3_scoped115.sem) 0
          ∗ semVal ((thrV d L), SemLoc.dma cc3_scoped116.sem) 0
          ∗ semVal ((thrV d L), SemLoc.dma cc3_scoped117.sem) 0
          ∗ semVal ((thrV d L), SemLoc.dma cc3_scoped118.sem) 0
          ∗ semVal ((thrV d L), SemLoc.dma cc3_scoped119.sem) 0
          ∗ semVal ((thrV d L), SemLoc.dma cc3_scoped120.sem) 0
          ∗ semVal ((thrV d L), SemLoc.dma cc3_scoped121.sem) 0
          ∗ semVal ((thrV d L), SemLoc.dma cc3_scoped122.sem) 0
          ∗ semVal ((thrV d L), SemLoc.dma cc3_scoped123.sem) 0
          ∗ semVal ((thrV d L), SemLoc.dma cc3_scoped124.sem) 0
          ∗ semVal ((thrV d L), SemLoc.dma cc3_scoped125.sem) 0
          ∗ semVal ((thrV d L), SemLoc.dma cc3_scoped126.sem) 0
          ∗ semVal ((thrV d L), SemLoc.dma cc3_scoped127.sem) 0
          ∗ semVal ((thrV d L), SemLoc.dma cc3_scoped128.sem) 0
          ∗ semVal ((thrV d L), SemLoc.dma cc3_scoped129.sem) 0
          ∗ semVal ((thrV d L), SemLoc.dma cc3_scoped130.sem) 0
          ∗ semVal ((thrV d L), SemLoc.dma cc3_scoped131.sem) 0
          ∗ semVal ((thrV d L), SemLoc.dma cc3_scoped132.sem) 0
          ∗ semVal ((thrV d L), SemLoc.dma cc3_scoped133.sem) 0
          ∗ semVal ((thrV d L), SemLoc.dma cc3_scoped134.sem) 0
          ∗ semVal ((thrV d L), SemLoc.dma cc3_scoped135.sem) 0
          ∗ semVal ((thrV d L), SemLoc.dma cc3_scoped136.sem) 0
          ∗ semVal ((thrV d L), SemLoc.dma cc3_scoped137.sem) 0
          ∗ semVal ((thrV d L), SemLoc.dma cc3_scoped138.sem) 0
          ∗ semVal ((thrV d L), SemLoc.dma cc3_scoped139.sem) 0
          ∗ semVal ((thrV d L), SemLoc.dma cc3_scoped140.sem) 0
          ∗ semVal ((thrV d L), SemLoc.dma cc3_scoped141.sem) 0
          ∗ semVal ((thrV d L), SemLoc.dma cc3_scoped142.sem) 0
          ∗ semVal ((thrV d L), SemLoc.dma cc3_scoped143.sem) 0
          ∗ semVal ((thrV d L), SemLoc.dma cc3_scoped144.sem) 0
          ∗ semVal ((thrV d L), SemLoc.dma cc3_scoped145.sem) 0
          ∗ semVal ((thrV d L), SemLoc.dma cc3_scoped146.sem) 0
          ∗ semVal ((thrV d L), SemLoc.dma cc3_scoped147.sem) 0
          ∗ semVal ((thrV d L), SemLoc.dma cc3_scoped148.sem) 0
          ∗ semVal ((thrV d L), SemLoc.dma cc3_scoped149.sem) 0
          ∗ semVal ((thrV d L), SemLoc.dma cc3_scoped150.sem) 0
          ∗ semVal ((thrV d L), SemLoc.dma cc3_scoped151.sem) 0
          ∗ semVal ((thrV d L), SemLoc.dma cc3_scoped152.sem) 0
          ∗ semVal ((thrV d L), SemLoc.dma cc3_scoped153.sem) 0
          ∗ semVal ((thrV d L), SemLoc.dma cc3_scoped154.sem) 0
          ∗ semVal ((thrV d L), SemLoc.dma cc3_scoped155.sem) 0
          ∗ semVal ((thrV d L), SemLoc.dma cc3_scoped156.sem) 0
          ∗ semVal ((thrV d L), SemLoc.dma cc3_scoped157.sem) 0
          ∗ semVal ((thrV d L), SemLoc.dma cc3_scoped158.sem) 0
          ∗ semVal ((thrV d L), SemLoc.dma cc3_scoped159.sem) 0
          ∗ semVal ((thrV d L), SemLoc.dma cc3_scoped160.sem) 0
          ∗ semVal ((thrV d L), SemLoc.dma cc3_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q := by
  iintro ⟨#Hmw, Hh, Hs, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Ho50, Ho51, Ho52, Ho53, Ho54, Ho55, Ho56, Ho57, Ho58, Ho59, Ho60, Ho61, Ho62, Ho63, Ho64, Ho65, Ho66, Ho67, Ho68, Ho69, Ho70, Ho71, Ho72, Ho73, Ho74, Ho75, Ho76, Ho77, Ho78, Ho79, H0, H1, H2, H3, H4, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56, Hc57, Hc58, Hc59, Hc60, Hc61, Hc62, Hc63, Hc64, Hc65, Hc66, Hc67, Hc68, Hc69, Hc70, Hc71, Hc72, Hc73, Hc74, Hc75, Hc76, Hc77, Hc78, Hc79, Hc80, Hc81, Hc82, Hc83, Hc84, Hc85, Hc86, Hc87, Hc88, Hc89, Hc90, Hc91, Hc92, Hc93, Hc94, Hc95, Hc96, Hc97, Hc98, Hc99, Hc100, Hc101, Hc102, Hc103, Hc104, Hc105, Hc106, Hc107, Hc108, Hc109, Hc110, Hc111, Hc112, Hc113, Hc114, Hc115, Hc116, Hc117, Hc118, Hc119, Hc120, Hc121, Hc122, Hc123, Hc124, Hc125, Hc126, Hc127, Hc128, Hc129, Hc130, Hc131, Hc132, Hc133, Hc134, Hc135, Hc136, Hc137, Hc138, Hc139, Hc140, Hc141, Hc142, Hc143, Hc144, Hc145, Hc146, Hc147, Hc148, Hc149, Hc150, Hc151, Hc152, Hc153, Hc154, Hc155, Hc156, Hc157, Hc158, Hc159, Hc160, Hc161, HO, Hk⟩
  have hin := idx_inb d L fs hfs
  have hio := iota_inb (F := F)
  sl_exec_parts!
  sl_step
  iapply Hk
  isplitl [Hh]; · iexact Hh
  isplitl [Hs]; · iexact Hs
  isplitl [Ho0]
  · iapply (Entails.of_eq (pointsTo_congr (window_value d L fh fs hfs fo 0 (by decide) 0#32 rfl _ _ _ _ _ _ _ _ _ _ _ _ _))) $$ Ho0
  isplitl [Ho1]
  · iapply (Entails.of_eq (pointsTo_congr (window_value d L fh fs hfs fo 1 (by decide) 128#32 rfl _ _ _ _ _ _ _ _ _ _ _ _ _))) $$ Ho1
  isplitl [Ho2]
  · iapply (Entails.of_eq (pointsTo_congr (window_value d L fh fs hfs fo 2 (by decide) 256#32 rfl _ _ _ _ _ _ _ _ _ _ _ _ _))) $$ Ho2
  isplitl [Ho3]
  · iapply (Entails.of_eq (pointsTo_congr (window_value d L fh fs hfs fo 3 (by decide) 384#32 rfl _ _ _ _ _ _ _ _ _ _ _ _ _))) $$ Ho3
  isplitl [Ho4]
  · iapply (Entails.of_eq (pointsTo_congr (window_value d L fh fs hfs fo 4 (by decide) 512#32 rfl _ _ _ _ _ _ _ _ _ _ _ _ _))) $$ Ho4
  isplitl [Ho5]
  · iapply (Entails.of_eq (pointsTo_congr (window_value d L fh fs hfs fo 5 (by decide) 640#32 rfl _ _ _ _ _ _ _ _ _ _ _ _ _))) $$ Ho5
  isplitl [Ho6]
  · iapply (Entails.of_eq (pointsTo_congr (window_value d L fh fs hfs fo 6 (by decide) 768#32 rfl _ _ _ _ _ _ _ _ _ _ _ _ _))) $$ Ho6
  isplitl [Ho7]
  · iapply (Entails.of_eq (pointsTo_congr (window_value d L fh fs hfs fo 7 (by decide) 896#32 rfl _ _ _ _ _ _ _ _ _ _ _ _ _))) $$ Ho7
  isplitl [Ho8]
  · iapply (Entails.of_eq (pointsTo_congr (window_value d L fh fs hfs fo 8 (by decide) 1024#32 rfl _ _ _ _ _ _ _ _ _ _ _ _ _))) $$ Ho8
  isplitl [Ho9]
  · iapply (Entails.of_eq (pointsTo_congr (window_value d L fh fs hfs fo 9 (by decide) 1152#32 rfl _ _ _ _ _ _ _ _ _ _ _ _ _))) $$ Ho9
  isplitl [Ho10]
  · iapply (Entails.of_eq (pointsTo_congr (window_value d L fh fs hfs fo 10 (by decide) 1280#32 rfl _ _ _ _ _ _ _ _ _ _ _ _ _))) $$ Ho10
  isplitl [Ho11]
  · iapply (Entails.of_eq (pointsTo_congr (window_value d L fh fs hfs fo 11 (by decide) 1408#32 rfl _ _ _ _ _ _ _ _ _ _ _ _ _))) $$ Ho11
  isplitl [Ho12]
  · iapply (Entails.of_eq (pointsTo_congr (window_value d L fh fs hfs fo 12 (by decide) 1536#32 rfl _ _ _ _ _ _ _ _ _ _ _ _ _))) $$ Ho12
  isplitl [Ho13]
  · iapply (Entails.of_eq (pointsTo_congr (window_value d L fh fs hfs fo 13 (by decide) 1664#32 rfl _ _ _ _ _ _ _ _ _ _ _ _ _))) $$ Ho13
  isplitl [Ho14]
  · iapply (Entails.of_eq (pointsTo_congr (window_value d L fh fs hfs fo 14 (by decide) 1792#32 rfl _ _ _ _ _ _ _ _ _ _ _ _ _))) $$ Ho14
  isplitl [Ho15]
  · iapply (Entails.of_eq (pointsTo_congr (window_value d L fh fs hfs fo 15 (by decide) 1920#32 rfl _ _ _ _ _ _ _ _ _ _ _ _ _))) $$ Ho15
  isplitl [Ho16]
  · iapply (Entails.of_eq (pointsTo_congr (window_value d L fh fs hfs fo 16 (by decide) 2048#32 rfl _ _ _ _ _ _ _ _ _ _ _ _ _))) $$ Ho16
  isplitl [Ho17]
  · iapply (Entails.of_eq (pointsTo_congr (window_value d L fh fs hfs fo 17 (by decide) 2176#32 rfl _ _ _ _ _ _ _ _ _ _ _ _ _))) $$ Ho17
  isplitl [Ho18]
  · iapply (Entails.of_eq (pointsTo_congr (window_value d L fh fs hfs fo 18 (by decide) 2304#32 rfl _ _ _ _ _ _ _ _ _ _ _ _ _))) $$ Ho18
  isplitl [Ho19]
  · iapply (Entails.of_eq (pointsTo_congr (window_value d L fh fs hfs fo 19 (by decide) 2432#32 rfl _ _ _ _ _ _ _ _ _ _ _ _ _))) $$ Ho19
  isplitl [Ho20]
  · iapply (Entails.of_eq (pointsTo_congr (window_value d L fh fs hfs fo 20 (by decide) 2560#32 rfl _ _ _ _ _ _ _ _ _ _ _ _ _))) $$ Ho20
  isplitl [Ho21]
  · iapply (Entails.of_eq (pointsTo_congr (window_value d L fh fs hfs fo 21 (by decide) 2688#32 rfl _ _ _ _ _ _ _ _ _ _ _ _ _))) $$ Ho21
  isplitl [Ho22]
  · iapply (Entails.of_eq (pointsTo_congr (window_value d L fh fs hfs fo 22 (by decide) 2816#32 rfl _ _ _ _ _ _ _ _ _ _ _ _ _))) $$ Ho22
  isplitl [Ho23]
  · iapply (Entails.of_eq (pointsTo_congr (window_value d L fh fs hfs fo 23 (by decide) 2944#32 rfl _ _ _ _ _ _ _ _ _ _ _ _ _))) $$ Ho23
  isplitl [Ho24]
  · iapply (Entails.of_eq (pointsTo_congr (window_value d L fh fs hfs fo 24 (by decide) 3072#32 rfl _ _ _ _ _ _ _ _ _ _ _ _ _))) $$ Ho24
  isplitl [Ho25]
  · iapply (Entails.of_eq (pointsTo_congr (window_value d L fh fs hfs fo 25 (by decide) 3200#32 rfl _ _ _ _ _ _ _ _ _ _ _ _ _))) $$ Ho25
  isplitl [Ho26]
  · iapply (Entails.of_eq (pointsTo_congr (window_value d L fh fs hfs fo 26 (by decide) 3328#32 rfl _ _ _ _ _ _ _ _ _ _ _ _ _))) $$ Ho26
  isplitl [Ho27]
  · iapply (Entails.of_eq (pointsTo_congr (window_value d L fh fs hfs fo 27 (by decide) 3456#32 rfl _ _ _ _ _ _ _ _ _ _ _ _ _))) $$ Ho27
  isplitl [Ho28]
  · iapply (Entails.of_eq (pointsTo_congr (window_value d L fh fs hfs fo 28 (by decide) 3584#32 rfl _ _ _ _ _ _ _ _ _ _ _ _ _))) $$ Ho28
  isplitl [Ho29]
  · iapply (Entails.of_eq (pointsTo_congr (window_value d L fh fs hfs fo 29 (by decide) 3712#32 rfl _ _ _ _ _ _ _ _ _ _ _ _ _))) $$ Ho29
  isplitl [Ho30]
  · iapply (Entails.of_eq (pointsTo_congr (window_value d L fh fs hfs fo 30 (by decide) 3840#32 rfl _ _ _ _ _ _ _ _ _ _ _ _ _))) $$ Ho30
  isplitl [Ho31]
  · iapply (Entails.of_eq (pointsTo_congr (window_value d L fh fs hfs fo 31 (by decide) 3968#32 rfl _ _ _ _ _ _ _ _ _ _ _ _ _))) $$ Ho31
  isplitl [Ho32]
  · iapply (Entails.of_eq (pointsTo_congr (window_value d L fh fs hfs fo 32 (by decide) 4096#32 rfl _ _ _ _ _ _ _ _ _ _ _ _ _))) $$ Ho32
  isplitl [Ho33]
  · iapply (Entails.of_eq (pointsTo_congr (window_value d L fh fs hfs fo 33 (by decide) 4224#32 rfl _ _ _ _ _ _ _ _ _ _ _ _ _))) $$ Ho33
  isplitl [Ho34]
  · iapply (Entails.of_eq (pointsTo_congr (window_value d L fh fs hfs fo 34 (by decide) 4352#32 rfl _ _ _ _ _ _ _ _ _ _ _ _ _))) $$ Ho34
  isplitl [Ho35]
  · iapply (Entails.of_eq (pointsTo_congr (window_value d L fh fs hfs fo 35 (by decide) 4480#32 rfl _ _ _ _ _ _ _ _ _ _ _ _ _))) $$ Ho35
  isplitl [Ho36]
  · iapply (Entails.of_eq (pointsTo_congr (window_value d L fh fs hfs fo 36 (by decide) 4608#32 rfl _ _ _ _ _ _ _ _ _ _ _ _ _))) $$ Ho36
  isplitl [Ho37]
  · iapply (Entails.of_eq (pointsTo_congr (window_value d L fh fs hfs fo 37 (by decide) 4736#32 rfl _ _ _ _ _ _ _ _ _ _ _ _ _))) $$ Ho37
  isplitl [Ho38]
  · iapply (Entails.of_eq (pointsTo_congr (window_value d L fh fs hfs fo 38 (by decide) 4864#32 rfl _ _ _ _ _ _ _ _ _ _ _ _ _))) $$ Ho38
  isplitl [Ho39]
  · iapply (Entails.of_eq (pointsTo_congr (window_value d L fh fs hfs fo 39 (by decide) 4992#32 rfl _ _ _ _ _ _ _ _ _ _ _ _ _))) $$ Ho39
  isplitl [Ho40]
  · iapply (Entails.of_eq (pointsTo_congr (window_value d L fh fs hfs fo 40 (by decide) 5120#32 rfl _ _ _ _ _ _ _ _ _ _ _ _ _))) $$ Ho40
  isplitl [Ho41]
  · iapply (Entails.of_eq (pointsTo_congr (window_value d L fh fs hfs fo 41 (by decide) 5248#32 rfl _ _ _ _ _ _ _ _ _ _ _ _ _))) $$ Ho41
  isplitl [Ho42]
  · iapply (Entails.of_eq (pointsTo_congr (window_value d L fh fs hfs fo 42 (by decide) 5376#32 rfl _ _ _ _ _ _ _ _ _ _ _ _ _))) $$ Ho42
  isplitl [Ho43]
  · iapply (Entails.of_eq (pointsTo_congr (window_value d L fh fs hfs fo 43 (by decide) 5504#32 rfl _ _ _ _ _ _ _ _ _ _ _ _ _))) $$ Ho43
  isplitl [Ho44]
  · iapply (Entails.of_eq (pointsTo_congr (window_value d L fh fs hfs fo 44 (by decide) 5632#32 rfl _ _ _ _ _ _ _ _ _ _ _ _ _))) $$ Ho44
  isplitl [Ho45]
  · iapply (Entails.of_eq (pointsTo_congr (window_value d L fh fs hfs fo 45 (by decide) 5760#32 rfl _ _ _ _ _ _ _ _ _ _ _ _ _))) $$ Ho45
  isplitl [Ho46]
  · iapply (Entails.of_eq (pointsTo_congr (window_value d L fh fs hfs fo 46 (by decide) 5888#32 rfl _ _ _ _ _ _ _ _ _ _ _ _ _))) $$ Ho46
  isplitl [Ho47]
  · iapply (Entails.of_eq (pointsTo_congr (window_value d L fh fs hfs fo 47 (by decide) 6016#32 rfl _ _ _ _ _ _ _ _ _ _ _ _ _))) $$ Ho47
  isplitl [Ho48]
  · iapply (Entails.of_eq (pointsTo_congr (window_value d L fh fs hfs fo 48 (by decide) 6144#32 rfl _ _ _ _ _ _ _ _ _ _ _ _ _))) $$ Ho48
  isplitl [Ho49]
  · iapply (Entails.of_eq (pointsTo_congr (window_value d L fh fs hfs fo 49 (by decide) 6272#32 rfl _ _ _ _ _ _ _ _ _ _ _ _ _))) $$ Ho49
  isplitl [Ho50]
  · iapply (Entails.of_eq (pointsTo_congr (window_value d L fh fs hfs fo 50 (by decide) 6400#32 rfl _ _ _ _ _ _ _ _ _ _ _ _ _))) $$ Ho50
  isplitl [Ho51]
  · iapply (Entails.of_eq (pointsTo_congr (window_value d L fh fs hfs fo 51 (by decide) 6528#32 rfl _ _ _ _ _ _ _ _ _ _ _ _ _))) $$ Ho51
  isplitl [Ho52]
  · iapply (Entails.of_eq (pointsTo_congr (window_value d L fh fs hfs fo 52 (by decide) 6656#32 rfl _ _ _ _ _ _ _ _ _ _ _ _ _))) $$ Ho52
  isplitl [Ho53]
  · iapply (Entails.of_eq (pointsTo_congr (window_value d L fh fs hfs fo 53 (by decide) 6784#32 rfl _ _ _ _ _ _ _ _ _ _ _ _ _))) $$ Ho53
  isplitl [Ho54]
  · iapply (Entails.of_eq (pointsTo_congr (window_value d L fh fs hfs fo 54 (by decide) 6912#32 rfl _ _ _ _ _ _ _ _ _ _ _ _ _))) $$ Ho54
  isplitl [Ho55]
  · iapply (Entails.of_eq (pointsTo_congr (window_value d L fh fs hfs fo 55 (by decide) 7040#32 rfl _ _ _ _ _ _ _ _ _ _ _ _ _))) $$ Ho55
  isplitl [Ho56]
  · iapply (Entails.of_eq (pointsTo_congr (window_value d L fh fs hfs fo 56 (by decide) 7168#32 rfl _ _ _ _ _ _ _ _ _ _ _ _ _))) $$ Ho56
  isplitl [Ho57]
  · iapply (Entails.of_eq (pointsTo_congr (window_value d L fh fs hfs fo 57 (by decide) 7296#32 rfl _ _ _ _ _ _ _ _ _ _ _ _ _))) $$ Ho57
  isplitl [Ho58]
  · iapply (Entails.of_eq (pointsTo_congr (window_value d L fh fs hfs fo 58 (by decide) 7424#32 rfl _ _ _ _ _ _ _ _ _ _ _ _ _))) $$ Ho58
  isplitl [Ho59]
  · iapply (Entails.of_eq (pointsTo_congr (window_value d L fh fs hfs fo 59 (by decide) 7552#32 rfl _ _ _ _ _ _ _ _ _ _ _ _ _))) $$ Ho59
  isplitl [Ho60]
  · iapply (Entails.of_eq (pointsTo_congr (window_value d L fh fs hfs fo 60 (by decide) 7680#32 rfl _ _ _ _ _ _ _ _ _ _ _ _ _))) $$ Ho60
  isplitl [Ho61]
  · iapply (Entails.of_eq (pointsTo_congr (window_value d L fh fs hfs fo 61 (by decide) 7808#32 rfl _ _ _ _ _ _ _ _ _ _ _ _ _))) $$ Ho61
  isplitl [Ho62]
  · iapply (Entails.of_eq (pointsTo_congr (window_value d L fh fs hfs fo 62 (by decide) 7936#32 rfl _ _ _ _ _ _ _ _ _ _ _ _ _))) $$ Ho62
  isplitl [Ho63]
  · iapply (Entails.of_eq (pointsTo_congr (window_value d L fh fs hfs fo 63 (by decide) 8064#32 rfl _ _ _ _ _ _ _ _ _ _ _ _ _))) $$ Ho63
  isplitl [Ho64]
  · iapply (Entails.of_eq (pointsTo_congr (window_value d L fh fs hfs fo 64 (by decide) 8192#32 rfl _ _ _ _ _ _ _ _ _ _ _ _ _))) $$ Ho64
  isplitl [Ho65]
  · iapply (Entails.of_eq (pointsTo_congr (window_value d L fh fs hfs fo 65 (by decide) 8320#32 rfl _ _ _ _ _ _ _ _ _ _ _ _ _))) $$ Ho65
  isplitl [Ho66]
  · iapply (Entails.of_eq (pointsTo_congr (window_value d L fh fs hfs fo 66 (by decide) 8448#32 rfl _ _ _ _ _ _ _ _ _ _ _ _ _))) $$ Ho66
  isplitl [Ho67]
  · iapply (Entails.of_eq (pointsTo_congr (window_value d L fh fs hfs fo 67 (by decide) 8576#32 rfl _ _ _ _ _ _ _ _ _ _ _ _ _))) $$ Ho67
  isplitl [Ho68]
  · iapply (Entails.of_eq (pointsTo_congr (window_value d L fh fs hfs fo 68 (by decide) 8704#32 rfl _ _ _ _ _ _ _ _ _ _ _ _ _))) $$ Ho68
  isplitl [Ho69]
  · iapply (Entails.of_eq (pointsTo_congr (window_value d L fh fs hfs fo 69 (by decide) 8832#32 rfl _ _ _ _ _ _ _ _ _ _ _ _ _))) $$ Ho69
  isplitl [Ho70]
  · iapply (Entails.of_eq (pointsTo_congr (window_value d L fh fs hfs fo 70 (by decide) 8960#32 rfl _ _ _ _ _ _ _ _ _ _ _ _ _))) $$ Ho70
  isplitl [Ho71]
  · iapply (Entails.of_eq (pointsTo_congr (window_value d L fh fs hfs fo 71 (by decide) 9088#32 rfl _ _ _ _ _ _ _ _ _ _ _ _ _))) $$ Ho71
  isplitl [Ho72]
  · iapply (Entails.of_eq (pointsTo_congr (window_value d L fh fs hfs fo 72 (by decide) 9216#32 rfl _ _ _ _ _ _ _ _ _ _ _ _ _))) $$ Ho72
  isplitl [Ho73]
  · iapply (Entails.of_eq (pointsTo_congr (window_value d L fh fs hfs fo 73 (by decide) 9344#32 rfl _ _ _ _ _ _ _ _ _ _ _ _ _))) $$ Ho73
  isplitl [Ho74]
  · iapply (Entails.of_eq (pointsTo_congr (window_value d L fh fs hfs fo 74 (by decide) 9472#32 rfl _ _ _ _ _ _ _ _ _ _ _ _ _))) $$ Ho74
  isplitl [Ho75]
  · iapply (Entails.of_eq (pointsTo_congr (window_value d L fh fs hfs fo 75 (by decide) 9600#32 rfl _ _ _ _ _ _ _ _ _ _ _ _ _))) $$ Ho75
  isplitl [Ho76]
  · iapply (Entails.of_eq (pointsTo_congr (window_value d L fh fs hfs fo 76 (by decide) 9728#32 rfl _ _ _ _ _ _ _ _ _ _ _ _ _))) $$ Ho76
  isplitl [Ho77]
  · iapply (Entails.of_eq (pointsTo_congr (window_value d L fh fs hfs fo 77 (by decide) 9856#32 rfl _ _ _ _ _ _ _ _ _ _ _ _ _))) $$ Ho77
  isplitl [Ho78]
  · iapply (Entails.of_eq (pointsTo_congr (window_value d L fh fs hfs fo 78 (by decide) 9984#32 rfl _ _ _ _ _ _ _ _ _ _ _ _ _))) $$ Ho78
  isplitl [Ho79]
  · iapply (Entails.of_eq (pointsTo_congr (window_value d L fh fs hfs fo 79 (by decide) 10112#32 rfl _ _ _ _ _ _ _ _ _ _ _ _ _))) $$ Ho79
  isplitl [H0]; · iexists _; iexact H0
  isplitl [H1]; · iexists _; iexact H1
  isplitl [H2]; · iexists _; iexact H2
  isplitl [H3]; · iexists _; iexact H3
  isplitl [H4]; · iexists _; iexact H4
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Hc26]; · iexact Hc26
  isplitl [Hc27]; · iexact Hc27
  isplitl [Hc28]; · iexact Hc28
  isplitl [Hc29]; · iexact Hc29
  isplitl [Hc30]; · iexact Hc30
  isplitl [Hc31]; · iexact Hc31
  isplitl [Hc32]; · iexact Hc32
  isplitl [Hc33]; · iexact Hc33
  isplitl [Hc34]; · iexact Hc34
  isplitl [Hc35]; · iexact Hc35
  isplitl [Hc36]; · iexact Hc36
  isplitl [Hc37]; · iexact Hc37
  isplitl [Hc38]; · iexact Hc38
  isplitl [Hc39]; · iexact Hc39
  isplitl [Hc40]; · iexact Hc40
  isplitl [Hc41]; · iexact Hc41
  isplitl [Hc42]; · iexact Hc42
  isplitl [Hc43]; · iexact Hc43
  isplitl [Hc44]; · iexact Hc44
  isplitl [Hc45]; · iexact Hc45
  isplitl [Hc46]; · iexact Hc46
  isplitl [Hc47]; · iexact Hc47
  isplitl [Hc48]; · iexact Hc48
  isplitl [Hc49]; · iexact Hc49
  isplitl [Hc50]; · iexact Hc50
  isplitl [Hc51]; · iexact Hc51
  isplitl [Hc52]; · iexact Hc52
  isplitl [Hc53]; · iexact Hc53
  isplitl [Hc54]; · iexact Hc54
  isplitl [Hc55]; · iexact Hc55
  isplitl [Hc56]; · iexact Hc56
  isplitl [Hc57]; · iexact Hc57
  isplitl [Hc58]; · iexact Hc58
  isplitl [Hc59]; · iexact Hc59
  isplitl [Hc60]; · iexact Hc60
  isplitl [Hc61]; · iexact Hc61
  isplitl [Hc62]; · iexact Hc62
  isplitl [Hc63]; · iexact Hc63
  isplitl [Hc64]; · iexact Hc64
  isplitl [Hc65]; · iexact Hc65
  isplitl [Hc66]; · iexact Hc66
  isplitl [Hc67]; · iexact Hc67
  isplitl [Hc68]; · iexact Hc68
  isplitl [Hc69]; · iexact Hc69
  isplitl [Hc70]; · iexact Hc70
  isplitl [Hc71]; · iexact Hc71
  isplitl [Hc72]; · iexact Hc72
  isplitl [Hc73]; · iexact Hc73
  isplitl [Hc74]; · iexact Hc74
  isplitl [Hc75]; · iexact Hc75
  isplitl [Hc76]; · iexact Hc76
  isplitl [Hc77]; · iexact Hc77
  isplitl [Hc78]; · iexact Hc78
  isplitl [Hc79]; · iexact Hc79
  isplitl [Hc80]; · iexact Hc80
  isplitl [Hc81]; · iexact Hc81
  isplitl [Hc82]; · iexact Hc82
  isplitl [Hc83]; · iexact Hc83
  isplitl [Hc84]; · iexact Hc84
  isplitl [Hc85]; · iexact Hc85
  isplitl [Hc86]; · iexact Hc86
  isplitl [Hc87]; · iexact Hc87
  isplitl [Hc88]; · iexact Hc88
  isplitl [Hc89]; · iexact Hc89
  isplitl [Hc90]; · iexact Hc90
  isplitl [Hc91]; · iexact Hc91
  isplitl [Hc92]; · iexact Hc92
  isplitl [Hc93]; · iexact Hc93
  isplitl [Hc94]; · iexact Hc94
  isplitl [Hc95]; · iexact Hc95
  isplitl [Hc96]; · iexact Hc96
  isplitl [Hc97]; · iexact Hc97
  isplitl [Hc98]; · iexact Hc98
  isplitl [Hc99]; · iexact Hc99
  isplitl [Hc100]; · iexact Hc100
  isplitl [Hc101]; · iexact Hc101
  isplitl [Hc102]; · iexact Hc102
  isplitl [Hc103]; · iexact Hc103
  isplitl [Hc104]; · iexact Hc104
  isplitl [Hc105]; · iexact Hc105
  isplitl [Hc106]; · iexact Hc106
  isplitl [Hc107]; · iexact Hc107
  isplitl [Hc108]; · iexact Hc108
  isplitl [Hc109]; · iexact Hc109
  isplitl [Hc110]; · iexact Hc110
  isplitl [Hc111]; · iexact Hc111
  isplitl [Hc112]; · iexact Hc112
  isplitl [Hc113]; · iexact Hc113
  isplitl [Hc114]; · iexact Hc114
  isplitl [Hc115]; · iexact Hc115
  isplitl [Hc116]; · iexact Hc116
  isplitl [Hc117]; · iexact Hc117
  isplitl [Hc118]; · iexact Hc118
  isplitl [Hc119]; · iexact Hc119
  isplitl [Hc120]; · iexact Hc120
  isplitl [Hc121]; · iexact Hc121
  isplitl [Hc122]; · iexact Hc122
  isplitl [Hc123]; · iexact Hc123
  isplitl [Hc124]; · iexact Hc124
  isplitl [Hc125]; · iexact Hc125
  isplitl [Hc126]; · iexact Hc126
  isplitl [Hc127]; · iexact Hc127
  isplitl [Hc128]; · iexact Hc128
  isplitl [Hc129]; · iexact Hc129
  isplitl [Hc130]; · iexact Hc130
  isplitl [Hc131]; · iexact Hc131
  isplitl [Hc132]; · iexact Hc132
  isplitl [Hc133]; · iexact Hc133
  isplitl [Hc134]; · iexact Hc134
  isplitl [Hc135]; · iexact Hc135
  isplitl [Hc136]; · iexact Hc136
  isplitl [Hc137]; · iexact Hc137
  isplitl [Hc138]; · iexact Hc138
  isplitl [Hc139]; · iexact Hc139
  isplitl [Hc140]; · iexact Hc140
  isplitl [Hc141]; · iexact Hc141
  isplitl [Hc142]; · iexact Hc142
  isplitl [Hc143]; · iexact Hc143
  isplitl [Hc144]; · iexact Hc144
  isplitl [Hc145]; · iexact Hc145
  isplitl [Hc146]; · iexact Hc146
  isplitl [Hc147]; · iexact Hc147
  isplitl [Hc148]; · iexact Hc148
  isplitl [Hc149]; · iexact Hc149
  isplitl [Hc150]; · iexact Hc150
  isplitl [Hc151]; · iexact Hc151
  isplitl [Hc152]; · iexact Hc152
  isplitl [Hc153]; · iexact Hc153
  isplitl [Hc154]; · iexact Hc154
  isplitl [Hc155]; · iexact Hc155
  isplitl [Hc156]; · iexact Hc156
  isplitl [Hc157]; · iexact Hc157
  isplitl [Hc158]; · iexact Hc158
  isplitl [Hc159]; · iexact Hc159
  isplitl [Hc160]; · iexact Hc160
  isplitl [Hc161]; · iexact Hc161
  iexists _
  isplitr
  rotate_left
  · iexact HO
  · ipureintro
    repeat (first | exact fun p hp => Or.inl hp | apply waits_insert)

set_option maxHeartbeats 4000000 in
/-- The same with the windows named by their number: window `r` is rows [10240w + 128r, 10240w + 128r + 128). -/
theorem tile_run (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oSl L 0).view.loc (thrV d L) ↦[(oSl L 0).view.set]{fullShare} fo)
      ∗ ((oSl L 1).view.loc (thrV d L) ↦[(oSl L 1).view.set]{fullShare} fo)
      ∗ ((oSl L 2).view.loc (thrV d L) ↦[(oSl L 2).view.set]{fullShare} fo)
      ∗ ((oSl L 3).view.loc (thrV d L) ↦[(oSl L 3).view.set]{fullShare} fo)
      ∗ ((oSl L 4).view.loc (thrV d L) ↦[(oSl L 4).view.set]{fullShare} fo)
      ∗ ((oSl L 5).view.loc (thrV d L) ↦[(oSl L 5).view.set]{fullShare} fo)
      ∗ ((oSl L 6).view.loc (thrV d L) ↦[(oSl L 6).view.set]{fullShare} fo)
      ∗ ((oSl L 7).view.loc (thrV d L) ↦[(oSl L 7).view.set]{fullShare} fo)
      ∗ ((oSl L 8).view.loc (thrV d L) ↦[(oSl L 8).view.set]{fullShare} fo)
      ∗ ((oSl L 9).view.loc (thrV d L) ↦[(oSl L 9).view.set]{fullShare} fo)
      ∗ ((oSl L 10).view.loc (thrV d L) ↦[(oSl L 10).view.set]{fullShare} fo)
      ∗ ((oSl L 11).view.loc (thrV d L) ↦[(oSl L 11).view.set]{fullShare} fo)
      ∗ ((oSl L 12).view.loc (thrV d L) ↦[(oSl L 12).view.set]{fullShare} fo)
      ∗ ((oSl L 13).view.loc (thrV d L) ↦[(oSl L 13).view.set]{fullShare} fo)
      ∗ ((oSl L 14).view.loc (thrV d L) ↦[(oSl L 14).view.set]{fullShare} fo)
      ∗ ((oSl L 15).view.loc (thrV d L) ↦[(oSl L 15).view.set]{fullShare} fo)
      ∗ ((oSl L 16).view.loc (thrV d L) ↦[(oSl L 16).view.set]{fullShare} fo)
      ∗ ((oSl L 17).view.loc (thrV d L) ↦[(oSl L 17).view.set]{fullShare} fo)
      ∗ ((oSl L 18).view.loc (thrV d L) ↦[(oSl L 18).view.set]{fullShare} fo)
      ∗ ((oSl L 19).view.loc (thrV d L) ↦[(oSl L 19).view.set]{fullShare} fo)
      ∗ ((oSl L 20).view.loc (thrV d L) ↦[(oSl L 20).view.set]{fullShare} fo)
      ∗ ((oSl L 21).view.loc (thrV d L) ↦[(oSl L 21).view.set]{fullShare} fo)
      ∗ ((oSl L 22).view.loc (thrV d L) ↦[(oSl L 22).view.set]{fullShare} fo)
      ∗ ((oSl L 23).view.loc (thrV d L) ↦[(oSl L 23).view.set]{fullShare} fo)
      ∗ ((oSl L 24).view.loc (thrV d L) ↦[(oSl L 24).view.set]{fullShare} fo)
      ∗ ((oSl L 25).view.loc (thrV d L) ↦[(oSl L 25).view.set]{fullShare} fo)
      ∗ ((oSl L 26).view.loc (thrV d L) ↦[(oSl L 26).view.set]{fullShare} fo)
      ∗ ((oSl L 27).view.loc (thrV d L) ↦[(oSl L 27).view.set]{fullShare} fo)
      ∗ ((oSl L 28).view.loc (thrV d L) ↦[(oSl L 28).view.set]{fullShare} fo)
      ∗ ((oSl L 29).view.loc (thrV d L) ↦[(oSl L 29).view.set]{fullShare} fo)
      ∗ ((oSl L 30).view.loc (thrV d L) ↦[(oSl L 30).view.set]{fullShare} fo)
      ∗ ((oSl L 31).view.loc (thrV d L) ↦[(oSl L 31).view.set]{fullShare} fo)
      ∗ ((oSl L 32).view.loc (thrV d L) ↦[(oSl L 32).view.set]{fullShare} fo)
      ∗ ((oSl L 33).view.loc (thrV d L) ↦[(oSl L 33).view.set]{fullShare} fo)
      ∗ ((oSl L 34).view.loc (thrV d L) ↦[(oSl L 34).view.set]{fullShare} fo)
      ∗ ((oSl L 35).view.loc (thrV d L) ↦[(oSl L 35).view.set]{fullShare} fo)
      ∗ ((oSl L 36).view.loc (thrV d L) ↦[(oSl L 36).view.set]{fullShare} fo)
      ∗ ((oSl L 37).view.loc (thrV d L) ↦[(oSl L 37).view.set]{fullShare} fo)
      ∗ ((oSl L 38).view.loc (thrV d L) ↦[(oSl L 38).view.set]{fullShare} fo)
      ∗ ((oSl L 39).view.loc (thrV d L) ↦[(oSl L 39).view.set]{fullShare} fo)
      ∗ ((oSl L 40).view.loc (thrV d L) ↦[(oSl L 40).view.set]{fullShare} fo)
      ∗ ((oSl L 41).view.loc (thrV d L) ↦[(oSl L 41).view.set]{fullShare} fo)
      ∗ ((oSl L 42).view.loc (thrV d L) ↦[(oSl L 42).view.set]{fullShare} fo)
      ∗ ((oSl L 43).view.loc (thrV d L) ↦[(oSl L 43).view.set]{fullShare} fo)
      ∗ ((oSl L 44).view.loc (thrV d L) ↦[(oSl L 44).view.set]{fullShare} fo)
      ∗ ((oSl L 45).view.loc (thrV d L) ↦[(oSl L 45).view.set]{fullShare} fo)
      ∗ ((oSl L 46).view.loc (thrV d L) ↦[(oSl L 46).view.set]{fullShare} fo)
      ∗ ((oSl L 47).view.loc (thrV d L) ↦[(oSl L 47).view.set]{fullShare} fo)
      ∗ ((oSl L 48).view.loc (thrV d L) ↦[(oSl L 48).view.set]{fullShare} fo)
      ∗ ((oSl L 49).view.loc (thrV d L) ↦[(oSl L 49).view.set]{fullShare} fo)
      ∗ ((oSl L 50).view.loc (thrV d L) ↦[(oSl L 50).view.set]{fullShare} fo)
      ∗ ((oSl L 51).view.loc (thrV d L) ↦[(oSl L 51).view.set]{fullShare} fo)
      ∗ ((oSl L 52).view.loc (thrV d L) ↦[(oSl L 52).view.set]{fullShare} fo)
      ∗ ((oSl L 53).view.loc (thrV d L) ↦[(oSl L 53).view.set]{fullShare} fo)
      ∗ ((oSl L 54).view.loc (thrV d L) ↦[(oSl L 54).view.set]{fullShare} fo)
      ∗ ((oSl L 55).view.loc (thrV d L) ↦[(oSl L 55).view.set]{fullShare} fo)
      ∗ ((oSl L 56).view.loc (thrV d L) ↦[(oSl L 56).view.set]{fullShare} fo)
      ∗ ((oSl L 57).view.loc (thrV d L) ↦[(oSl L 57).view.set]{fullShare} fo)
      ∗ ((oSl L 58).view.loc (thrV d L) ↦[(oSl L 58).view.set]{fullShare} fo)
      ∗ ((oSl L 59).view.loc (thrV d L) ↦[(oSl L 59).view.set]{fullShare} fo)
      ∗ ((oSl L 60).view.loc (thrV d L) ↦[(oSl L 60).view.set]{fullShare} fo)
      ∗ ((oSl L 61).view.loc (thrV d L) ↦[(oSl L 61).view.set]{fullShare} fo)
      ∗ ((oSl L 62).view.loc (thrV d L) ↦[(oSl L 62).view.set]{fullShare} fo)
      ∗ ((oSl L 63).view.loc (thrV d L) ↦[(oSl L 63).view.set]{fullShare} fo)
      ∗ ((oSl L 64).view.loc (thrV d L) ↦[(oSl L 64).view.set]{fullShare} fo)
      ∗ ((oSl L 65).view.loc (thrV d L) ↦[(oSl L 65).view.set]{fullShare} fo)
      ∗ ((oSl L 66).view.loc (thrV d L) ↦[(oSl L 66).view.set]{fullShare} fo)
      ∗ ((oSl L 67).view.loc (thrV d L) ↦[(oSl L 67).view.set]{fullShare} fo)
      ∗ ((oSl L 68).view.loc (thrV d L) ↦[(oSl L 68).view.set]{fullShare} fo)
      ∗ ((oSl L 69).view.loc (thrV d L) ↦[(oSl L 69).view.set]{fullShare} fo)
      ∗ ((oSl L 70).view.loc (thrV d L) ↦[(oSl L 70).view.set]{fullShare} fo)
      ∗ ((oSl L 71).view.loc (thrV d L) ↦[(oSl L 71).view.set]{fullShare} fo)
      ∗ ((oSl L 72).view.loc (thrV d L) ↦[(oSl L 72).view.set]{fullShare} fo)
      ∗ ((oSl L 73).view.loc (thrV d L) ↦[(oSl L 73).view.set]{fullShare} fo)
      ∗ ((oSl L 74).view.loc (thrV d L) ↦[(oSl L 74).view.set]{fullShare} fo)
      ∗ ((oSl L 75).view.loc (thrV d L) ↦[(oSl L 75).view.set]{fullShare} fo)
      ∗ ((oSl L 76).view.loc (thrV d L) ↦[(oSl L 76).view.set]{fullShare} fo)
      ∗ ((oSl L 77).view.loc (thrV d L) ↦[(oSl L 77).view.set]{fullShare} fo)
      ∗ ((oSl L 78).view.loc (thrV d L) ↦[(oSl L 78).view.set]{fullShare} fo)
      ∗ ((oSl L 79).view.loc (thrV d L) ↦[(oSl L 79).view.set]{fullShare} fo)
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ semVal ((thrV d L), SemLoc.dma cc3_scoped0.sem) 0
      ∗ semVal ((thrV d L), SemLoc.dma cc3_scoped1.sem) 0
      ∗ semVal ((thrV d L), SemLoc.dma cc3_scoped2.sem) 0
      ∗ semVal ((thrV d L), SemLoc.dma cc3_scoped3.sem) 0
      ∗ semVal ((thrV d L), SemLoc.dma cc3_scoped4.sem) 0
      ∗ semVal ((thrV d L), SemLoc.dma cc3_scoped5.sem) 0
      ∗ semVal ((thrV d L), SemLoc.dma cc3_scoped6.sem) 0
      ∗ semVal ((thrV d L), SemLoc.dma cc3_scoped7.sem) 0
      ∗ semVal ((thrV d L), SemLoc.dma cc3_scoped8.sem) 0
      ∗ semVal ((thrV d L), SemLoc.dma cc3_scoped9.sem) 0
      ∗ semVal ((thrV d L), SemLoc.dma cc3_scoped10.sem) 0
      ∗ semVal ((thrV d L), SemLoc.dma cc3_scoped11.sem) 0
      ∗ semVal ((thrV d L), SemLoc.dma cc3_scoped12.sem) 0
      ∗ semVal ((thrV d L), SemLoc.dma cc3_scoped13.sem) 0
      ∗ semVal ((thrV d L), SemLoc.dma cc3_scoped14.sem) 0
      ∗ semVal ((thrV d L), SemLoc.dma cc3_scoped15.sem) 0
      ∗ semVal ((thrV d L), SemLoc.dma cc3_scoped16.sem) 0
      ∗ semVal ((thrV d L), SemLoc.dma cc3_scoped17.sem) 0
      ∗ semVal ((thrV d L), SemLoc.dma cc3_scoped18.sem) 0
      ∗ semVal ((thrV d L), SemLoc.dma cc3_scoped19.sem) 0
      ∗ semVal ((thrV d L), SemLoc.dma cc3_scoped20.sem) 0
      ∗ semVal ((thrV d L), SemLoc.dma cc3_scoped21.sem) 0
      ∗ semVal ((thrV d L), SemLoc.dma cc3_scoped22.sem) 0
      ∗ semVal ((thrV d L), SemLoc.dma cc3_scoped23.sem) 0
      ∗ semVal ((thrV d L), SemLoc.dma cc3_scoped24.sem) 0
      ∗ semVal ((thrV d L), SemLoc.dma cc3_scoped25.sem) 0
      ∗ semVal ((thrV d L), SemLoc.dma cc3_scoped26.sem) 0
      ∗ semVal ((thrV d L), SemLoc.dma cc3_scoped27.sem) 0
      ∗ semVal ((thrV d L), SemLoc.dma cc3_scoped28.sem) 0
      ∗ semVal ((thrV d L), SemLoc.dma cc3_scoped29.sem) 0
      ∗ semVal ((thrV d L), SemLoc.dma cc3_scoped30.sem) 0
      ∗ semVal ((thrV d L), SemLoc.dma cc3_scoped31.sem) 0
      ∗ semVal ((thrV d L), SemLoc.dma cc3_scoped32.sem) 0
      ∗ semVal ((thrV d L), SemLoc.dma cc3_scoped33.sem) 0
      ∗ semVal ((thrV d L), SemLoc.dma cc3_scoped34.sem) 0
      ∗ semVal ((thrV d L), SemLoc.dma cc3_scoped35.sem) 0
      ∗ semVal ((thrV d L), SemLoc.dma cc3_scoped36.sem) 0
      ∗ semVal ((thrV d L), SemLoc.dma cc3_scoped37.sem) 0
      ∗ semVal ((thrV d L), SemLoc.dma cc3_scoped38.sem) 0
      ∗ semVal ((thrV d L), SemLoc.dma cc3_scoped39.sem) 0
      ∗ semVal ((thrV d L), SemLoc.dma cc3_scoped40.sem) 0
      ∗ semVal ((thrV d L), SemLoc.dma cc3_scoped41.sem) 0
      ∗ semVal ((thrV d L), SemLoc.dma cc3_scoped42.sem) 0
      ∗ semVal ((thrV d L), SemLoc.dma cc3_scoped43.sem) 0
      ∗ semVal ((thrV d L), SemLoc.dma cc3_scoped44.sem) 0
      ∗ semVal ((thrV d L), SemLoc.dma cc3_scoped45.sem) 0
      ∗ semVal ((thrV d L), SemLoc.dma cc3_scoped46.sem) 0
      ∗ semVal ((thrV d L), SemLoc.dma cc3_scoped47.sem) 0
      ∗ semVal ((thrV d L), SemLoc.dma cc3_scoped48.sem) 0
      ∗ semVal ((thrV d L), SemLoc.dma cc3_scoped49.sem) 0
      ∗ semVal ((thrV d L), SemLoc.dma cc3_scoped50.sem) 0
      ∗ semVal ((thrV d L), SemLoc.dma cc3_scoped51.sem) 0
      ∗ semVal ((thrV d L), SemLoc.dma cc3_scoped52.sem) 0
      ∗ semVal ((thrV d L), SemLoc.dma cc3_scoped53.sem) 0
      ∗ semVal ((thrV d L), SemLoc.dma cc3_scoped54.sem) 0
      ∗ semVal ((thrV d L), SemLoc.dma cc3_scoped55.sem) 0
      ∗ semVal ((thrV d L), SemLoc.dma cc3_scoped56.sem) 0
      ∗ semVal ((thrV d L), SemLoc.dma cc3_scoped57.sem) 0
      ∗ semVal ((thrV d L), SemLoc.dma cc3_scoped58.sem) 0
      ∗ semVal ((thrV d L), SemLoc.dma cc3_scoped59.sem) 0
      ∗ semVal ((thrV d L), SemLoc.dma cc3_scoped60.sem) 0
      ∗ semVal ((thrV d L), SemLoc.dma cc3_scoped61.sem) 0
      ∗ semVal ((thrV d L), SemLoc.dma cc3_scoped62.sem) 0
      ∗ semVal ((thrV d L), SemLoc.dma cc3_scoped63.sem) 0
      ∗ semVal ((thrV d L), SemLoc.dma cc3_scoped64.sem) 0
      ∗ semVal ((thrV d L), SemLoc.dma cc3_scoped65.sem) 0
      ∗ semVal ((thrV d L), SemLoc.dma cc3_scoped66.sem) 0
      ∗ semVal ((thrV d L), SemLoc.dma cc3_scoped67.sem) 0
      ∗ semVal ((thrV d L), SemLoc.dma cc3_scoped68.sem) 0
      ∗ semVal ((thrV d L), SemLoc.dma cc3_scoped69.sem) 0
      ∗ semVal ((thrV d L), SemLoc.dma cc3_scoped70.sem) 0
      ∗ semVal ((thrV d L), SemLoc.dma cc3_scoped71.sem) 0
      ∗ semVal ((thrV d L), SemLoc.dma cc3_scoped72.sem) 0
      ∗ semVal ((thrV d L), SemLoc.dma cc3_scoped73.sem) 0
      ∗ semVal ((thrV d L), SemLoc.dma cc3_scoped74.sem) 0
      ∗ semVal ((thrV d L), SemLoc.dma cc3_scoped75.sem) 0
      ∗ semVal ((thrV d L), SemLoc.dma cc3_scoped76.sem) 0
      ∗ semVal ((thrV d L), SemLoc.dma cc3_scoped77.sem) 0
      ∗ semVal ((thrV d L), SemLoc.dma cc3_scoped78.sem) 0
      ∗ semVal ((thrV d L), SemLoc.dma cc3_scoped79.sem) 0
      ∗ semVal ((thrV d L), SemLoc.dma cc3_scoped80.sem) 0
      ∗ semVal ((thrV d L), SemLoc.dma cc3_scoped81.sem) 0
      ∗ semVal ((thrV d L), SemLoc.dma cc3_scoped82.sem) 0
      ∗ semVal ((thrV d L), SemLoc.dma cc3_scoped83.sem) 0
      ∗ semVal ((thrV d L), SemLoc.dma cc3_scoped84.sem) 0
      ∗ semVal ((thrV d L), SemLoc.dma cc3_scoped85.sem) 0
      ∗ semVal ((thrV d L), SemLoc.dma cc3_scoped86.sem) 0
      ∗ semVal ((thrV d L), SemLoc.dma cc3_scoped87.sem) 0
      ∗ semVal ((thrV d L), SemLoc.dma cc3_scoped88.sem) 0
      ∗ semVal ((thrV d L), SemLoc.dma cc3_scoped89.sem) 0
      ∗ semVal ((thrV d L), SemLoc.dma cc3_scoped90.sem) 0
      ∗ semVal ((thrV d L), SemLoc.dma cc3_scoped91.sem) 0
      ∗ semVal ((thrV d L), SemLoc.dma cc3_scoped92.sem) 0
      ∗ semVal ((thrV d L), SemLoc.dma cc3_scoped93.sem) 0
      ∗ semVal ((thrV d L), SemLoc.dma cc3_scoped94.sem) 0
      ∗ semVal ((thrV d L), SemLoc.dma cc3_scoped95.sem) 0
      ∗ semVal ((thrV d L), SemLoc.dma cc3_scoped96.sem) 0
      ∗ semVal ((thrV d L), SemLoc.dma cc3_scoped97.sem) 0
      ∗ semVal ((thrV d L), SemLoc.dma cc3_scoped98.sem) 0
      ∗ semVal ((thrV d L), SemLoc.dma cc3_scoped99.sem) 0
      ∗ semVal ((thrV d L), SemLoc.dma cc3_scoped100.sem) 0
      ∗ semVal ((thrV d L), SemLoc.dma cc3_scoped101.sem) 0
      ∗ semVal ((thrV d L), SemLoc.dma cc3_scoped102.sem) 0
      ∗ semVal ((thrV d L), SemLoc.dma cc3_scoped103.sem) 0
      ∗ semVal ((thrV d L), SemLoc.dma cc3_scoped104.sem) 0
      ∗ semVal ((thrV d L), SemLoc.dma cc3_scoped105.sem) 0
      ∗ semVal ((thrV d L), SemLoc.dma cc3_scoped106.sem) 0
      ∗ semVal ((thrV d L), SemLoc.dma cc3_scoped107.sem) 0
      ∗ semVal ((thrV d L), SemLoc.dma cc3_scoped108.sem) 0
      ∗ semVal ((thrV d L), SemLoc.dma cc3_scoped109.sem) 0
      ∗ semVal ((thrV d L), SemLoc.dma cc3_scoped110.sem) 0
      ∗ semVal ((thrV d L), SemLoc.dma cc3_scoped111.sem) 0
      ∗ semVal ((thrV d L), SemLoc.dma cc3_scoped112.sem) 0
      ∗ semVal ((thrV d L), SemLoc.dma cc3_scoped113.sem) 0
      ∗ semVal ((thrV d L), SemLoc.dma cc3_scoped114.sem) 0
      ∗ semVal ((thrV d L), SemLoc.dma cc3_scoped115.sem) 0
      ∗ semVal ((thrV d L), SemLoc.dma cc3_scoped116.sem) 0
      ∗ semVal ((thrV d L), SemLoc.dma cc3_scoped117.sem) 0
      ∗ semVal ((thrV d L), SemLoc.dma cc3_scoped118.sem) 0
      ∗ semVal ((thrV d L), SemLoc.dma cc3_scoped119.sem) 0
      ∗ semVal ((thrV d L), SemLoc.dma cc3_scoped120.sem) 0
      ∗ semVal ((thrV d L), SemLoc.dma cc3_scoped121.sem) 0
      ∗ semVal ((thrV d L), SemLoc.dma cc3_scoped122.sem) 0
      ∗ semVal ((thrV d L), SemLoc.dma cc3_scoped123.sem) 0
      ∗ semVal ((thrV d L), SemLoc.dma cc3_scoped124.sem) 0
      ∗ semVal ((thrV d L), SemLoc.dma cc3_scoped125.sem) 0
      ∗ semVal ((thrV d L), SemLoc.dma cc3_scoped126.sem) 0
      ∗ semVal ((thrV d L), SemLoc.dma cc3_scoped127.sem) 0
      ∗ semVal ((thrV d L), SemLoc.dma cc3_scoped128.sem) 0
      ∗ semVal ((thrV d L), SemLoc.dma cc3_scoped129.sem) 0
      ∗ semVal ((thrV d L), SemLoc.dma cc3_scoped130.sem) 0
      ∗ semVal ((thrV d L), SemLoc.dma cc3_scoped131.sem) 0
      ∗ semVal ((thrV d L), SemLoc.dma cc3_scoped132.sem) 0
      ∗ semVal ((thrV d L), SemLoc.dma cc3_scoped133.sem) 0
      ∗ semVal ((thrV d L), SemLoc.dma cc3_scoped134.sem) 0
      ∗ semVal ((thrV d L), SemLoc.dma cc3_scoped135.sem) 0
      ∗ semVal ((thrV d L), SemLoc.dma cc3_scoped136.sem) 0
      ∗ semVal ((thrV d L), SemLoc.dma cc3_scoped137.sem) 0
      ∗ semVal ((thrV d L), SemLoc.dma cc3_scoped138.sem) 0
      ∗ semVal ((thrV d L), SemLoc.dma cc3_scoped139.sem) 0
      ∗ semVal ((thrV d L), SemLoc.dma cc3_scoped140.sem) 0
      ∗ semVal ((thrV d L), SemLoc.dma cc3_scoped141.sem) 0
      ∗ semVal ((thrV d L), SemLoc.dma cc3_scoped142.sem) 0
      ∗ semVal ((thrV d L), SemLoc.dma cc3_scoped143.sem) 0
      ∗ semVal ((thrV d L), SemLoc.dma cc3_scoped144.sem) 0
      ∗ semVal ((thrV d L), SemLoc.dma cc3_scoped145.sem) 0
      ∗ semVal ((thrV d L), SemLoc.dma cc3_scoped146.sem) 0
      ∗ semVal ((thrV d L), SemLoc.dma cc3_scoped147.sem) 0
      ∗ semVal ((thrV d L), SemLoc.dma cc3_scoped148.sem) 0
      ∗ semVal ((thrV d L), SemLoc.dma cc3_scoped149.sem) 0
      ∗ semVal ((thrV d L), SemLoc.dma cc3_scoped150.sem) 0
      ∗ semVal ((thrV d L), SemLoc.dma cc3_scoped151.sem) 0
      ∗ semVal ((thrV d L), SemLoc.dma cc3_scoped152.sem) 0
      ∗ semVal ((thrV d L), SemLoc.dma cc3_scoped153.sem) 0
      ∗ semVal ((thrV d L), SemLoc.dma cc3_scoped154.sem) 0
      ∗ semVal ((thrV d L), SemLoc.dma cc3_scoped155.sem) 0
      ∗ semVal ((thrV d L), SemLoc.dma cc3_scoped156.sem) 0
      ∗ semVal ((thrV d L), SemLoc.dma cc3_scoped157.sem) 0
      ∗ semVal ((thrV d L), SemLoc.dma cc3_scoped158.sem) 0
      ∗ semVal ((thrV d L), SemLoc.dma cc3_scoped159.sem) 0
      ∗ semVal ((thrV d L), SemLoc.dma cc3_scoped160.sem) 0
      ∗ semVal ((thrV d L), SemLoc.dma cc3_scoped161.sem) 0
      ∗ owes (thrV d L) O W
      ∗ (iprop((hV.view.loc (thrV d L) ↦{q} fh) ∗ (sV.view.loc (thrV d L) ↦{q} fs)
          ∗ ((oSl L 0).view.loc (thrV d L) ↦[(oSl L 0).view.set]{fullShare} (gatherRows (F := F) fh fs : Buf (Elt F) (oV.view.loc (thrV d L))))
          ∗ ((oSl L 1).view.loc (thrV d L) ↦[(oSl L 1).view.set]{fullShare} (gatherRows (F := F) fh fs : Buf (Elt F) (oV.view.loc (thrV d L))))
          ∗ ((oSl L 2).view.loc (thrV d L) ↦[(oSl L 2).view.set]{fullShare} (gatherRows (F := F) fh fs : Buf (Elt F) (oV.view.loc (thrV d L))))
          ∗ ((oSl L 3).view.loc (thrV d L) ↦[(oSl L 3).view.set]{fullShare} (gatherRows (F := F) fh fs : Buf (Elt F) (oV.view.loc (thrV d L))))
          ∗ ((oSl L 4).view.loc (thrV d L) ↦[(oSl L 4).view.set]{fullShare} (gatherRows (F := F) fh fs : Buf (Elt F) (oV.view.loc (thrV d L))))
          ∗ ((oSl L 5).view.loc (thrV d L) ↦[(oSl L 5).view.set]{fullShare} (gatherRows (F := F) fh fs : Buf (Elt F) (oV.view.loc (thrV d L))))
          ∗ ((oSl L 6).view.loc (thrV d L) ↦[(oSl L 6).view.set]{fullShare} (gatherRows (F := F) fh fs : Buf (Elt F) (oV.view.loc (thrV d L))))
          ∗ ((oSl L 7).view.loc (thrV d L) ↦[(oSl L 7).view.set]{fullShare} (gatherRows (F := F) fh fs : Buf (Elt F) (oV.view.loc (thrV d L))))
          ∗ ((oSl L 8).view.loc (thrV d L) ↦[(oSl L 8).view.set]{fullShare} (gatherRows (F := F) fh fs : Buf (Elt F) (oV.view.loc (thrV d L))))
          ∗ ((oSl L 9).view.loc (thrV d L) ↦[(oSl L 9).view.set]{fullShare} (gatherRows (F := F) fh fs : Buf (Elt F) (oV.view.loc (thrV d L))))
          ∗ ((oSl L 10).view.loc (thrV d L) ↦[(oSl L 10).view.set]{fullShare} (gatherRows (F := F) fh fs : Buf (Elt F) (oV.view.loc (thrV d L))))
          ∗ ((oSl L 11).view.loc (thrV d L) ↦[(oSl L 11).view.set]{fullShare} (gatherRows (F := F) fh fs : Buf (Elt F) (oV.view.loc (thrV d L))))
          ∗ ((oSl L 12).view.loc (thrV d L) ↦[(oSl L 12).view.set]{fullShare} (gatherRows (F := F) fh fs : Buf (Elt F) (oV.view.loc (thrV d L))))
          ∗ ((oSl L 13).view.loc (thrV d L) ↦[(oSl L 13).view.set]{fullShare} (gatherRows (F := F) fh fs : Buf (Elt F) (oV.view.loc (thrV d L))))
          ∗ ((oSl L 14).view.loc (thrV d L) ↦[(oSl L 14).view.set]{fullShare} (gatherRows (F := F) fh fs : Buf (Elt F) (oV.view.loc (thrV d L))))
          ∗ ((oSl L 15).view.loc (thrV d L) ↦[(oSl L 15).view.set]{fullShare} (gatherRows (F := F) fh fs : Buf (Elt F) (oV.view.loc (thrV d L))))
          ∗ ((oSl L 16).view.loc (thrV d L) ↦[(oSl L 16).view.set]{fullShare} (gatherRows (F := F) fh fs : Buf (Elt F) (oV.view.loc (thrV d L))))
          ∗ ((oSl L 17).view.loc (thrV d L) ↦[(oSl L 17).view.set]{fullShare} (gatherRows (F := F) fh fs : Buf (Elt F) (oV.view.loc (thrV d L))))
          ∗ ((oSl L 18).view.loc (thrV d L) ↦[(oSl L 18).view.set]{fullShare} (gatherRows (F := F) fh fs : Buf (Elt F) (oV.view.loc (thrV d L))))
          ∗ ((oSl L 19).view.loc (thrV d L) ↦[(oSl L 19).view.set]{fullShare} (gatherRows (F := F) fh fs : Buf (Elt F) (oV.view.loc (thrV d L))))
          ∗ ((oSl L 20).view.loc (thrV d L) ↦[(oSl L 20).view.set]{fullShare} (gatherRows (F := F) fh fs : Buf (Elt F) (oV.view.loc (thrV d L))))
          ∗ ((oSl L 21).view.loc (thrV d L) ↦[(oSl L 21).view.set]{fullShare} (gatherRows (F := F) fh fs : Buf (Elt F) (oV.view.loc (thrV d L))))
          ∗ ((oSl L 22).view.loc (thrV d L) ↦[(oSl L 22).view.set]{fullShare} (gatherRows (F := F) fh fs : Buf (Elt F) (oV.view.loc (thrV d L))))
          ∗ ((oSl L 23).view.loc (thrV d L) ↦[(oSl L 23).view.set]{fullShare} (gatherRows (F := F) fh fs : Buf (Elt F) (oV.view.loc (thrV d L))))
          ∗ ((oSl L 24).view.loc (thrV d L) ↦[(oSl L 24).view.set]{fullShare} (gatherRows (F := F) fh fs : Buf (Elt F) (oV.view.loc (thrV d L))))
          ∗ ((oSl L 25).view.loc (thrV d L) ↦[(oSl L 25).view.set]{fullShare} (gatherRows (F := F) fh fs : Buf (Elt F) (oV.view.loc (thrV d L))))
          ∗ ((oSl L 26).view.loc (thrV d L) ↦[(oSl L 26).view.set]{fullShare} (gatherRows (F := F) fh fs : Buf (Elt F) (oV.view.loc (thrV d L))))
          ∗ ((oSl L 27).view.loc (thrV d L) ↦[(oSl L 27).view.set]{fullShare} (gatherRows (F := F) fh fs : Buf (Elt F) (oV.view.loc (thrV d L))))
          ∗ ((oSl L 28).view.loc (thrV d L) ↦[(oSl L 28).view.set]{fullShare} (gatherRows (F := F) fh fs : Buf (Elt F) (oV.view.loc (thrV d L))))
          ∗ ((oSl L 29).view.loc (thrV d L) ↦[(oSl L 29).view.set]{fullShare} (gatherRows (F := F) fh fs : Buf (Elt F) (oV.view.loc (thrV d L))))
          ∗ ((oSl L 30).view.loc (thrV d L) ↦[(oSl L 30).view.set]{fullShare} (gatherRows (F := F) fh fs : Buf (Elt F) (oV.view.loc (thrV d L))))
          ∗ ((oSl L 31).view.loc (thrV d L) ↦[(oSl L 31).view.set]{fullShare} (gatherRows (F := F) fh fs : Buf (Elt F) (oV.view.loc (thrV d L))))
          ∗ ((oSl L 32).view.loc (thrV d L) ↦[(oSl L 32).view.set]{fullShare} (gatherRows (F := F) fh fs : Buf (Elt F) (oV.view.loc (thrV d L))))
          ∗ ((oSl L 33).view.loc (thrV d L) ↦[(oSl L 33).view.set]{fullShare} (gatherRows (F := F) fh fs : Buf (Elt F) (oV.view.loc (thrV d L))))
          ∗ ((oSl L 34).view.loc (thrV d L) ↦[(oSl L 34).view.set]{fullShare} (gatherRows (F := F) fh fs : Buf (Elt F) (oV.view.loc (thrV d L))))
          ∗ ((oSl L 35).view.loc (thrV d L) ↦[(oSl L 35).view.set]{fullShare} (gatherRows (F := F) fh fs : Buf (Elt F) (oV.view.loc (thrV d L))))
          ∗ ((oSl L 36).view.loc (thrV d L) ↦[(oSl L 36).view.set]{fullShare} (gatherRows (F := F) fh fs : Buf (Elt F) (oV.view.loc (thrV d L))))
          ∗ ((oSl L 37).view.loc (thrV d L) ↦[(oSl L 37).view.set]{fullShare} (gatherRows (F := F) fh fs : Buf (Elt F) (oV.view.loc (thrV d L))))
          ∗ ((oSl L 38).view.loc (thrV d L) ↦[(oSl L 38).view.set]{fullShare} (gatherRows (F := F) fh fs : Buf (Elt F) (oV.view.loc (thrV d L))))
          ∗ ((oSl L 39).view.loc (thrV d L) ↦[(oSl L 39).view.set]{fullShare} (gatherRows (F := F) fh fs : Buf (Elt F) (oV.view.loc (thrV d L))))
          ∗ ((oSl L 40).view.loc (thrV d L) ↦[(oSl L 40).view.set]{fullShare} (gatherRows (F := F) fh fs : Buf (Elt F) (oV.view.loc (thrV d L))))
          ∗ ((oSl L 41).view.loc (thrV d L) ↦[(oSl L 41).view.set]{fullShare} (gatherRows (F := F) fh fs : Buf (Elt F) (oV.view.loc (thrV d L))))
          ∗ ((oSl L 42).view.loc (thrV d L) ↦[(oSl L 42).view.set]{fullShare} (gatherRows (F := F) fh fs : Buf (Elt F) (oV.view.loc (thrV d L))))
          ∗ ((oSl L 43).view.loc (thrV d L) ↦[(oSl L 43).view.set]{fullShare} (gatherRows (F := F) fh fs : Buf (Elt F) (oV.view.loc (thrV d L))))
          ∗ ((oSl L 44).view.loc (thrV d L) ↦[(oSl L 44).view.set]{fullShare} (gatherRows (F := F) fh fs : Buf (Elt F) (oV.view.loc (thrV d L))))
          ∗ ((oSl L 45).view.loc (thrV d L) ↦[(oSl L 45).view.set]{fullShare} (gatherRows (F := F) fh fs : Buf (Elt F) (oV.view.loc (thrV d L))))
          ∗ ((oSl L 46).view.loc (thrV d L) ↦[(oSl L 46).view.set]{fullShare} (gatherRows (F := F) fh fs : Buf (Elt F) (oV.view.loc (thrV d L))))
          ∗ ((oSl L 47).view.loc (thrV d L) ↦[(oSl L 47).view.set]{fullShare} (gatherRows (F := F) fh fs : Buf (Elt F) (oV.view.loc (thrV d L))))
          ∗ ((oSl L 48).view.loc (thrV d L) ↦[(oSl L 48).view.set]{fullShare} (gatherRows (F := F) fh fs : Buf (Elt F) (oV.view.loc (thrV d L))))
          ∗ ((oSl L 49).view.loc (thrV d L) ↦[(oSl L 49).view.set]{fullShare} (gatherRows (F := F) fh fs : Buf (Elt F) (oV.view.loc (thrV d L))))
          ∗ ((oSl L 50).view.loc (thrV d L) ↦[(oSl L 50).view.set]{fullShare} (gatherRows (F := F) fh fs : Buf (Elt F) (oV.view.loc (thrV d L))))
          ∗ ((oSl L 51).view.loc (thrV d L) ↦[(oSl L 51).view.set]{fullShare} (gatherRows (F := F) fh fs : Buf (Elt F) (oV.view.loc (thrV d L))))
          ∗ ((oSl L 52).view.loc (thrV d L) ↦[(oSl L 52).view.set]{fullShare} (gatherRows (F := F) fh fs : Buf (Elt F) (oV.view.loc (thrV d L))))
          ∗ ((oSl L 53).view.loc (thrV d L) ↦[(oSl L 53).view.set]{fullShare} (gatherRows (F := F) fh fs : Buf (Elt F) (oV.view.loc (thrV d L))))
          ∗ ((oSl L 54).view.loc (thrV d L) ↦[(oSl L 54).view.set]{fullShare} (gatherRows (F := F) fh fs : Buf (Elt F) (oV.view.loc (thrV d L))))
          ∗ ((oSl L 55).view.loc (thrV d L) ↦[(oSl L 55).view.set]{fullShare} (gatherRows (F := F) fh fs : Buf (Elt F) (oV.view.loc (thrV d L))))
          ∗ ((oSl L 56).view.loc (thrV d L) ↦[(oSl L 56).view.set]{fullShare} (gatherRows (F := F) fh fs : Buf (Elt F) (oV.view.loc (thrV d L))))
          ∗ ((oSl L 57).view.loc (thrV d L) ↦[(oSl L 57).view.set]{fullShare} (gatherRows (F := F) fh fs : Buf (Elt F) (oV.view.loc (thrV d L))))
          ∗ ((oSl L 58).view.loc (thrV d L) ↦[(oSl L 58).view.set]{fullShare} (gatherRows (F := F) fh fs : Buf (Elt F) (oV.view.loc (thrV d L))))
          ∗ ((oSl L 59).view.loc (thrV d L) ↦[(oSl L 59).view.set]{fullShare} (gatherRows (F := F) fh fs : Buf (Elt F) (oV.view.loc (thrV d L))))
          ∗ ((oSl L 60).view.loc (thrV d L) ↦[(oSl L 60).view.set]{fullShare} (gatherRows (F := F) fh fs : Buf (Elt F) (oV.view.loc (thrV d L))))
          ∗ ((oSl L 61).view.loc (thrV d L) ↦[(oSl L 61).view.set]{fullShare} (gatherRows (F := F) fh fs : Buf (Elt F) (oV.view.loc (thrV d L))))
          ∗ ((oSl L 62).view.loc (thrV d L) ↦[(oSl L 62).view.set]{fullShare} (gatherRows (F := F) fh fs : Buf (Elt F) (oV.view.loc (thrV d L))))
          ∗ ((oSl L 63).view.loc (thrV d L) ↦[(oSl L 63).view.set]{fullShare} (gatherRows (F := F) fh fs : Buf (Elt F) (oV.view.loc (thrV d L))))
          ∗ ((oSl L 64).view.loc (thrV d L) ↦[(oSl L 64).view.set]{fullShare} (gatherRows (F := F) fh fs : Buf (Elt F) (oV.view.loc (thrV d L))))
          ∗ ((oSl L 65).view.loc (thrV d L) ↦[(oSl L 65).view.set]{fullShare} (gatherRows (F := F) fh fs : Buf (Elt F) (oV.view.loc (thrV d L))))
          ∗ ((oSl L 66).view.loc (thrV d L) ↦[(oSl L 66).view.set]{fullShare} (gatherRows (F := F) fh fs : Buf (Elt F) (oV.view.loc (thrV d L))))
          ∗ ((oSl L 67).view.loc (thrV d L) ↦[(oSl L 67).view.set]{fullShare} (gatherRows (F := F) fh fs : Buf (Elt F) (oV.view.loc (thrV d L))))
          ∗ ((oSl L 68).view.loc (thrV d L) ↦[(oSl L 68).view.set]{fullShare} (gatherRows (F := F) fh fs : Buf (Elt F) (oV.view.loc (thrV d L))))
          ∗ ((oSl L 69).view.loc (thrV d L) ↦[(oSl L 69).view.set]{fullShare} (gatherRows (F := F) fh fs : Buf (Elt F) (oV.view.loc (thrV d L))))
          ∗ ((oSl L 70).view.loc (thrV d L) ↦[(oSl L 70).view.set]{fullShare} (gatherRows (F := F) fh fs : Buf (Elt F) (oV.view.loc (thrV d L))))
          ∗ ((oSl L 71).view.loc (thrV d L) ↦[(oSl L 71).view.set]{fullShare} (gatherRows (F := F) fh fs : Buf (Elt F) (oV.view.loc (thrV d L))))
          ∗ ((oSl L 72).view.loc (thrV d L) ↦[(oSl L 72).view.set]{fullShare} (gatherRows (F := F) fh fs : Buf (Elt F) (oV.view.loc (thrV d L))))
          ∗ ((oSl L 73).view.loc (thrV d L) ↦[(oSl L 73).view.set]{fullShare} (gatherRows (F := F) fh fs : Buf (Elt F) (oV.view.loc (thrV d L))))
          ∗ ((oSl L 74).view.loc (thrV d L) ↦[(oSl L 74).view.set]{fullShare} (gatherRows (F := F) fh fs : Buf (Elt F) (oV.view.loc (thrV d L))))
          ∗ ((oSl L 75).view.loc (thrV d L) ↦[(oSl L 75).view.set]{fullShare} (gatherRows (F := F) fh fs : Buf (Elt F) (oV.view.loc (thrV d L))))
          ∗ ((oSl L 76).view.loc (thrV d L) ↦[(oSl L 76).view.set]{fullShare} (gatherRows (F := F) fh fs : Buf (Elt F) (oV.view.loc (thrV d L))))
          ∗ ((oSl L 77).view.loc (thrV d L) ↦[(oSl L 77).view.set]{fullShare} (gatherRows (F := F) fh fs : Buf (Elt F) (oV.view.loc (thrV d L))))
          ∗ ((oSl L 78).view.loc (thrV d L) ↦[(oSl L 78).view.set]{fullShare} (gatherRows (F := F) fh fs : Buf (Elt F) (oV.view.loc (thrV d L))))
          ∗ ((oSl L 79).view.loc (thrV d L) ↦[(oSl L 79).view.set]{fullShare} (gatherRows (F := F) fh fs : Buf (Elt F) (oV.view.loc (thrV d L))))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ semVal ((thrV d L), SemLoc.dma cc3_scoped0.sem) 0
          ∗ semVal ((thrV d L), SemLoc.dma cc3_scoped1.sem) 0
          ∗ semVal ((thrV d L), SemLoc.dma cc3_scoped2.sem) 0
          ∗ semVal ((thrV d L), SemLoc.dma cc3_scoped3.sem) 0
          ∗ semVal ((thrV d L), SemLoc.dma cc3_scoped4.sem) 0
          ∗ semVal ((thrV d L), SemLoc.dma cc3_scoped5.sem) 0
          ∗ semVal ((thrV d L), SemLoc.dma cc3_scoped6.sem) 0
          ∗ semVal ((thrV d L), SemLoc.dma cc3_scoped7.sem) 0
          ∗ semVal ((thrV d L), SemLoc.dma cc3_scoped8.sem) 0
          ∗ semVal ((thrV d L), SemLoc.dma cc3_scoped9.sem) 0
          ∗ semVal ((thrV d L), SemLoc.dma cc3_scoped10.sem) 0
          ∗ semVal ((thrV d L), SemLoc.dma cc3_scoped11.sem) 0
          ∗ semVal ((thrV d L), SemLoc.dma cc3_scoped12.sem) 0
          ∗ semVal ((thrV d L), SemLoc.dma cc3_scoped13.sem) 0
          ∗ semVal ((thrV d L), SemLoc.dma cc3_scoped14.sem) 0
          ∗ semVal ((thrV d L), SemLoc.dma cc3_scoped15.sem) 0
          ∗ semVal ((thrV d L), SemLoc.dma cc3_scoped16.sem) 0
          ∗ semVal ((thrV d L), SemLoc.dma cc3_scoped17.sem) 0
          ∗ semVal ((thrV d L), SemLoc.dma cc3_scoped18.sem) 0
          ∗ semVal ((thrV d L), SemLoc.dma cc3_scoped19.sem) 0
          ∗ semVal ((thrV d L), SemLoc.dma cc3_scoped20.sem) 0
          ∗ semVal ((thrV d L), SemLoc.dma cc3_scoped21.sem) 0
          ∗ semVal ((thrV d L), SemLoc.dma cc3_scoped22.sem) 0
          ∗ semVal ((thrV d L), SemLoc.dma cc3_scoped23.sem) 0
          ∗ semVal ((thrV d L), SemLoc.dma cc3_scoped24.sem) 0
          ∗ semVal ((thrV d L), SemLoc.dma cc3_scoped25.sem) 0
          ∗ semVal ((thrV d L), SemLoc.dma cc3_scoped26.sem) 0
          ∗ semVal ((thrV d L), SemLoc.dma cc3_scoped27.sem) 0
          ∗ semVal ((thrV d L), SemLoc.dma cc3_scoped28.sem) 0
          ∗ semVal ((thrV d L), SemLoc.dma cc3_scoped29.sem) 0
          ∗ semVal ((thrV d L), SemLoc.dma cc3_scoped30.sem) 0
          ∗ semVal ((thrV d L), SemLoc.dma cc3_scoped31.sem) 0
          ∗ semVal ((thrV d L), SemLoc.dma cc3_scoped32.sem) 0
          ∗ semVal ((thrV d L), SemLoc.dma cc3_scoped33.sem) 0
          ∗ semVal ((thrV d L), SemLoc.dma cc3_scoped34.sem) 0
          ∗ semVal ((thrV d L), SemLoc.dma cc3_scoped35.sem) 0
          ∗ semVal ((thrV d L), SemLoc.dma cc3_scoped36.sem) 0
          ∗ semVal ((thrV d L), SemLoc.dma cc3_scoped37.sem) 0
          ∗ semVal ((thrV d L), SemLoc.dma cc3_scoped38.sem) 0
          ∗ semVal ((thrV d L), SemLoc.dma cc3_scoped39.sem) 0
          ∗ semVal ((thrV d L), SemLoc.dma cc3_scoped40.sem) 0
          ∗ semVal ((thrV d L), SemLoc.dma cc3_scoped41.sem) 0
          ∗ semVal ((thrV d L), SemLoc.dma cc3_scoped42.sem) 0
          ∗ semVal ((thrV d L), SemLoc.dma cc3_scoped43.sem) 0
          ∗ semVal ((thrV d L), SemLoc.dma cc3_scoped44.sem) 0
          ∗ semVal ((thrV d L), SemLoc.dma cc3_scoped45.sem) 0
          ∗ semVal ((thrV d L), SemLoc.dma cc3_scoped46.sem) 0
          ∗ semVal ((thrV d L), SemLoc.dma cc3_scoped47.sem) 0
          ∗ semVal ((thrV d L), SemLoc.dma cc3_scoped48.sem) 0
          ∗ semVal ((thrV d L), SemLoc.dma cc3_scoped49.sem) 0
          ∗ semVal ((thrV d L), SemLoc.dma cc3_scoped50.sem) 0
          ∗ semVal ((thrV d L), SemLoc.dma cc3_scoped51.sem) 0
          ∗ semVal ((thrV d L), SemLoc.dma cc3_scoped52.sem) 0
          ∗ semVal ((thrV d L), SemLoc.dma cc3_scoped53.sem) 0
          ∗ semVal ((thrV d L), SemLoc.dma cc3_scoped54.sem) 0
          ∗ semVal ((thrV d L), SemLoc.dma cc3_scoped55.sem) 0
          ∗ semVal ((thrV d L), SemLoc.dma cc3_scoped56.sem) 0
          ∗ semVal ((thrV d L), SemLoc.dma cc3_scoped57.sem) 0
          ∗ semVal ((thrV d L), SemLoc.dma cc3_scoped58.sem) 0
          ∗ semVal ((thrV d L), SemLoc.dma cc3_scoped59.sem) 0
          ∗ semVal ((thrV d L), SemLoc.dma cc3_scoped60.sem) 0
          ∗ semVal ((thrV d L), SemLoc.dma cc3_scoped61.sem) 0
          ∗ semVal ((thrV d L), SemLoc.dma cc3_scoped62.sem) 0
          ∗ semVal ((thrV d L), SemLoc.dma cc3_scoped63.sem) 0
          ∗ semVal ((thrV d L), SemLoc.dma cc3_scoped64.sem) 0
          ∗ semVal ((thrV d L), SemLoc.dma cc3_scoped65.sem) 0
          ∗ semVal ((thrV d L), SemLoc.dma cc3_scoped66.sem) 0
          ∗ semVal ((thrV d L), SemLoc.dma cc3_scoped67.sem) 0
          ∗ semVal ((thrV d L), SemLoc.dma cc3_scoped68.sem) 0
          ∗ semVal ((thrV d L), SemLoc.dma cc3_scoped69.sem) 0
          ∗ semVal ((thrV d L), SemLoc.dma cc3_scoped70.sem) 0
          ∗ semVal ((thrV d L), SemLoc.dma cc3_scoped71.sem) 0
          ∗ semVal ((thrV d L), SemLoc.dma cc3_scoped72.sem) 0
          ∗ semVal ((thrV d L), SemLoc.dma cc3_scoped73.sem) 0
          ∗ semVal ((thrV d L), SemLoc.dma cc3_scoped74.sem) 0
          ∗ semVal ((thrV d L), SemLoc.dma cc3_scoped75.sem) 0
          ∗ semVal ((thrV d L), SemLoc.dma cc3_scoped76.sem) 0
          ∗ semVal ((thrV d L), SemLoc.dma cc3_scoped77.sem) 0
          ∗ semVal ((thrV d L), SemLoc.dma cc3_scoped78.sem) 0
          ∗ semVal ((thrV d L), SemLoc.dma cc3_scoped79.sem) 0
          ∗ semVal ((thrV d L), SemLoc.dma cc3_scoped80.sem) 0
          ∗ semVal ((thrV d L), SemLoc.dma cc3_scoped81.sem) 0
          ∗ semVal ((thrV d L), SemLoc.dma cc3_scoped82.sem) 0
          ∗ semVal ((thrV d L), SemLoc.dma cc3_scoped83.sem) 0
          ∗ semVal ((thrV d L), SemLoc.dma cc3_scoped84.sem) 0
          ∗ semVal ((thrV d L), SemLoc.dma cc3_scoped85.sem) 0
          ∗ semVal ((thrV d L), SemLoc.dma cc3_scoped86.sem) 0
          ∗ semVal ((thrV d L), SemLoc.dma cc3_scoped87.sem) 0
          ∗ semVal ((thrV d L), SemLoc.dma cc3_scoped88.sem) 0
          ∗ semVal ((thrV d L), SemLoc.dma cc3_scoped89.sem) 0
          ∗ semVal ((thrV d L), SemLoc.dma cc3_scoped90.sem) 0
          ∗ semVal ((thrV d L), SemLoc.dma cc3_scoped91.sem) 0
          ∗ semVal ((thrV d L), SemLoc.dma cc3_scoped92.sem) 0
          ∗ semVal ((thrV d L), SemLoc.dma cc3_scoped93.sem) 0
          ∗ semVal ((thrV d L), SemLoc.dma cc3_scoped94.sem) 0
          ∗ semVal ((thrV d L), SemLoc.dma cc3_scoped95.sem) 0
          ∗ semVal ((thrV d L), SemLoc.dma cc3_scoped96.sem) 0
          ∗ semVal ((thrV d L), SemLoc.dma cc3_scoped97.sem) 0
          ∗ semVal ((thrV d L), SemLoc.dma cc3_scoped98.sem) 0
          ∗ semVal ((thrV d L), SemLoc.dma cc3_scoped99.sem) 0
          ∗ semVal ((thrV d L), SemLoc.dma cc3_scoped100.sem) 0
          ∗ semVal ((thrV d L), SemLoc.dma cc3_scoped101.sem) 0
          ∗ semVal ((thrV d L), SemLoc.dma cc3_scoped102.sem) 0
          ∗ semVal ((thrV d L), SemLoc.dma cc3_scoped103.sem) 0
          ∗ semVal ((thrV d L), SemLoc.dma cc3_scoped104.sem) 0
          ∗ semVal ((thrV d L), SemLoc.dma cc3_scoped105.sem) 0
          ∗ semVal ((thrV d L), SemLoc.dma cc3_scoped106.sem) 0
          ∗ semVal ((thrV d L), SemLoc.dma cc3_scoped107.sem) 0
          ∗ semVal ((thrV d L), SemLoc.dma cc3_scoped108.sem) 0
          ∗ semVal ((thrV d L), SemLoc.dma cc3_scoped109.sem) 0
          ∗ semVal ((thrV d L), SemLoc.dma cc3_scoped110.sem) 0
          ∗ semVal ((thrV d L), SemLoc.dma cc3_scoped111.sem) 0
          ∗ semVal ((thrV d L), SemLoc.dma cc3_scoped112.sem) 0
          ∗ semVal ((thrV d L), SemLoc.dma cc3_scoped113.sem) 0
          ∗ semVal ((thrV d L), SemLoc.dma cc3_scoped114.sem) 0
          ∗ semVal ((thrV d L), SemLoc.dma cc3_scoped115.sem) 0
          ∗ semVal ((thrV d L), SemLoc.dma cc3_scoped116.sem) 0
          ∗ semVal ((thrV d L), SemLoc.dma cc3_scoped117.sem) 0
          ∗ semVal ((thrV d L), SemLoc.dma cc3_scoped118.sem) 0
          ∗ semVal ((thrV d L), SemLoc.dma cc3_scoped119.sem) 0
          ∗ semVal ((thrV d L), SemLoc.dma cc3_scoped120.sem) 0
          ∗ semVal ((thrV d L), SemLoc.dma cc3_scoped121.sem) 0
          ∗ semVal ((thrV d L), SemLoc.dma cc3_scoped122.sem) 0
          ∗ semVal ((thrV d L), SemLoc.dma cc3_scoped123.sem) 0
          ∗ semVal ((thrV d L), SemLoc.dma cc3_scoped124.sem) 0
          ∗ semVal ((thrV d L), SemLoc.dma cc3_scoped125.sem) 0
          ∗ semVal ((thrV d L), SemLoc.dma cc3_scoped126.sem) 0
          ∗ semVal ((thrV d L), SemLoc.dma cc3_scoped127.sem) 0
          ∗ semVal ((thrV d L), SemLoc.dma cc3_scoped128.sem) 0
          ∗ semVal ((thrV d L), SemLoc.dma cc3_scoped129.sem) 0
          ∗ semVal ((thrV d L), SemLoc.dma cc3_scoped130.sem) 0
          ∗ semVal ((thrV d L), SemLoc.dma cc3_scoped131.sem) 0
          ∗ semVal ((thrV d L), SemLoc.dma cc3_scoped132.sem) 0
          ∗ semVal ((thrV d L), SemLoc.dma cc3_scoped133.sem) 0
          ∗ semVal ((thrV d L), SemLoc.dma cc3_scoped134.sem) 0
          ∗ semVal ((thrV d L), SemLoc.dma cc3_scoped135.sem) 0
          ∗ semVal ((thrV d L), SemLoc.dma cc3_scoped136.sem) 0
          ∗ semVal ((thrV d L), SemLoc.dma cc3_scoped137.sem) 0
          ∗ semVal ((thrV d L), SemLoc.dma cc3_scoped138.sem) 0
          ∗ semVal ((thrV d L), SemLoc.dma cc3_scoped139.sem) 0
          ∗ semVal ((thrV d L), SemLoc.dma cc3_scoped140.sem) 0
          ∗ semVal ((thrV d L), SemLoc.dma cc3_scoped141.sem) 0
          ∗ semVal ((thrV d L), SemLoc.dma cc3_scoped142.sem) 0
          ∗ semVal ((thrV d L), SemLoc.dma cc3_scoped143.sem) 0
          ∗ semVal ((thrV d L), SemLoc.dma cc3_scoped144.sem) 0
          ∗ semVal ((thrV d L), SemLoc.dma cc3_scoped145.sem) 0
          ∗ semVal ((thrV d L), SemLoc.dma cc3_scoped146.sem) 0
          ∗ semVal ((thrV d L), SemLoc.dma cc3_scoped147.sem) 0
          ∗ semVal ((thrV d L), SemLoc.dma cc3_scoped148.sem) 0
          ∗ semVal ((thrV d L), SemLoc.dma cc3_scoped149.sem) 0
          ∗ semVal ((thrV d L), SemLoc.dma cc3_scoped150.sem) 0
          ∗ semVal ((thrV d L), SemLoc.dma cc3_scoped151.sem) 0
          ∗ semVal ((thrV d L), SemLoc.dma cc3_scoped152.sem) 0
          ∗ semVal ((thrV d L), SemLoc.dma cc3_scoped153.sem) 0
          ∗ semVal ((thrV d L), SemLoc.dma cc3_scoped154.sem) 0
          ∗ semVal ((thrV d L), SemLoc.dma cc3_scoped155.sem) 0
          ∗ semVal ((thrV d L), SemLoc.dma cc3_scoped156.sem) 0
          ∗ semVal ((thrV d L), SemLoc.dma cc3_scoped157.sem) 0
          ∗ semVal ((thrV d L), SemLoc.dma cc3_scoped158.sem) 0
          ∗ semVal ((thrV d L), SemLoc.dma cc3_scoped159.sem) 0
          ∗ semVal ((thrV d L), SemLoc.dma cc3_scoped160.sem) 0
          ∗ semVal ((thrV d L), SemLoc.dma cc3_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q :=
  tile_run' d L q fh fs hfs fo f0 f1 f2 f3 f4 O W hO Q

end Tile

end Call1

end Cert.Proof.KI

end
-- ==== Proof.TileGroupI2.lean ====
/-
  The gather kernel's task run with its eighty output chunks and its 162 transfer counters held as chains over lists,
  the form the launch's bookkeeping splits and joins; it is the flat statement regrouped.
-/
import proofs.«207928_g75127567942135_cont_9to1c4b_313_20_alg».proof.Proof.TileI2
import proofs.«207928_g75127567942135_cont_9to1c4b_313_20_alg».proof.Proof.GatherSpecI

noncomputable section

namespace Cert.Proof.KI.Call1

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile

variable (d : Dev nD) (L : grid3.Coords)

/-- The eighty chunks of a task, listed. -/
abbrev l80 : List (Fin 80) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79]

/-- The kernel's own transfer semaphores at this call, listed: one per copy and per gather. -/
abbrev sems1 : List (SemLoc sig) := [SemLoc.dma cc3_scoped0.sem, SemLoc.dma cc3_scoped1.sem, SemLoc.dma cc3_scoped2.sem, SemLoc.dma cc3_scoped3.sem, SemLoc.dma cc3_scoped4.sem, SemLoc.dma cc3_scoped5.sem, SemLoc.dma cc3_scoped6.sem, SemLoc.dma cc3_scoped7.sem, SemLoc.dma cc3_scoped8.sem, SemLoc.dma cc3_scoped9.sem, SemLoc.dma cc3_scoped10.sem, SemLoc.dma cc3_scoped11.sem, SemLoc.dma cc3_scoped12.sem, SemLoc.dma cc3_scoped13.sem, SemLoc.dma cc3_scoped14.sem, SemLoc.dma cc3_scoped15.sem, SemLoc.dma cc3_scoped16.sem, SemLoc.dma cc3_scoped17.sem, SemLoc.dma cc3_scoped18.sem, SemLoc.dma cc3_scoped19.sem, SemLoc.dma cc3_scoped20.sem, SemLoc.dma cc3_scoped21.sem, SemLoc.dma cc3_scoped22.sem, SemLoc.dma cc3_scoped23.sem, SemLoc.dma cc3_scoped24.sem, SemLoc.dma cc3_scoped25.sem, SemLoc.dma cc3_scoped26.sem, SemLoc.dma cc3_scoped27.sem, SemLoc.dma cc3_scoped28.sem, SemLoc.dma cc3_scoped29.sem, SemLoc.dma cc3_scoped30.sem, SemLoc.dma cc3_scoped31.sem, SemLoc.dma cc3_scoped32.sem, SemLoc.dma cc3_scoped33.sem, SemLoc.dma cc3_scoped34.sem, SemLoc.dma cc3_scoped35.sem, SemLoc.dma cc3_scoped36.sem, SemLoc.dma cc3_scoped37.sem, SemLoc.dma cc3_scoped38.sem, SemLoc.dma cc3_scoped39.sem, SemLoc.dma cc3_scoped40.sem, SemLoc.dma cc3_scoped41.sem, SemLoc.dma cc3_scoped42.sem, SemLoc.dma cc3_scoped43.sem, SemLoc.dma cc3_scoped44.sem, SemLoc.dma cc3_scoped45.sem, SemLoc.dma cc3_scoped46.sem, SemLoc.dma cc3_scoped47.sem, SemLoc.dma cc3_scoped48.sem, SemLoc.dma cc3_scoped49.sem, SemLoc.dma cc3_scoped50.sem, SemLoc.dma cc3_scoped51.sem, SemLoc.dma cc3_scoped52.sem, SemLoc.dma cc3_scoped53.sem, SemLoc.dma cc3_scoped54.sem, SemLoc.dma cc3_scoped55.sem, SemLoc.dma cc3_scoped56.sem, SemLoc.dma cc3_scoped57.sem, SemLoc.dma cc3_scoped58.sem, SemLoc.dma cc3_scoped59.sem, SemLoc.dma cc3_scoped60.sem, SemLoc.dma cc3_scoped61.sem, SemLoc.dma cc3_scoped62.sem, SemLoc.dma cc3_scoped63.sem, SemLoc.dma cc3_scoped64.sem, SemLoc.dma cc3_scoped65.sem, SemLoc.dma cc3_scoped66.sem, SemLoc.dma cc3_scoped67.sem, SemLoc.dma cc3_scoped68.sem, SemLoc.dma cc3_scoped69.sem, SemLoc.dma cc3_scoped70.sem, SemLoc.dma cc3_scoped71.sem, SemLoc.dma cc3_scoped72.sem, SemLoc.dma cc3_scoped73.sem, SemLoc.dma cc3_scoped74.sem, SemLoc.dma cc3_scoped75.sem, SemLoc.dma cc3_scoped76.sem, SemLoc.dma cc3_scoped77.sem, SemLoc.dma cc3_scoped78.sem, SemLoc.dma cc3_scoped79.sem, SemLoc.dma cc3_scoped80.sem, SemLoc.dma cc3_scoped81.sem, SemLoc.dma cc3_scoped82.sem, SemLoc.dma cc3_scoped83.sem, SemLoc.dma cc3_scoped84.sem, SemLoc.dma cc3_scoped85.sem, SemLoc.dma cc3_scoped86.sem, SemLoc.dma cc3_scoped87.sem, SemLoc.dma cc3_scoped88.sem, SemLoc.dma cc3_scoped89.sem, SemLoc.dma cc3_scoped90.sem, SemLoc.dma cc3_scoped91.sem, SemLoc.dma cc3_scoped92.sem, SemLoc.dma cc3_scoped93.sem, SemLoc.dma cc3_scoped94.sem, SemLoc.dma cc3_scoped95.sem, SemLoc.dma cc3_scoped96.sem, SemLoc.dma cc3_scoped97.sem, SemLoc.dma cc3_scoped98.sem, SemLoc.dma cc3_scoped99.sem, SemLoc.dma cc3_scoped100.sem, SemLoc.dma cc3_scoped101.sem, SemLoc.dma cc3_scoped102.sem, SemLoc.dma cc3_scoped103.sem, SemLoc.dma cc3_scoped104.sem, SemLoc.dma cc3_scoped105.sem, SemLoc.dma cc3_scoped106.sem, SemLoc.dma cc3_scoped107.sem, SemLoc.dma cc3_scoped108.sem, SemLoc.dma cc3_scoped109.sem, SemLoc.dma cc3_scoped110.sem, SemLoc.dma cc3_scoped111.sem, SemLoc.dma cc3_scoped112.sem, SemLoc.dma cc3_scoped113.sem, SemLoc.dma cc3_scoped114.sem, SemLoc.dma cc3_scoped115.sem, SemLoc.dma cc3_scoped116.sem, SemLoc.dma cc3_scoped117.sem, SemLoc.dma cc3_scoped118.sem, SemLoc.dma cc3_scoped119.sem, SemLoc.dma cc3_scoped120.sem, SemLoc.dma cc3_scoped121.sem, SemLoc.dma cc3_scoped122.sem, SemLoc.dma cc3_scoped123.sem, SemLoc.dma cc3_scoped124.sem, SemLoc.dma cc3_scoped125.sem, SemLoc.dma cc3_scoped126.sem, SemLoc.dma cc3_scoped127.sem, SemLoc.dma cc3_scoped128.sem, SemLoc.dma cc3_scoped129.sem, SemLoc.dma cc3_scoped130.sem, SemLoc.dma cc3_scoped131.sem, SemLoc.dma cc3_scoped132.sem, SemLoc.dma cc3_scoped133.sem, SemLoc.dma cc3_scoped134.sem, SemLoc.dma cc3_scoped135.sem, SemLoc.dma cc3_scoped136.sem, SemLoc.dma cc3_scoped137.sem, SemLoc.dma cc3_scoped138.sem, SemLoc.dma cc3_scoped139.sem, SemLoc.dma cc3_scoped140.sem, SemLoc.dma cc3_scoped141.sem, SemLoc.dma cc3_scoped142.sem, SemLoc.dma cc3_scoped143.sem, SemLoc.dma cc3_scoped144.sem, SemLoc.dma cc3_scoped145.sem, SemLoc.dma cc3_scoped146.sem, SemLoc.dma cc3_scoped147.sem, SemLoc.dma cc3_scoped148.sem, SemLoc.dma cc3_scoped149.sem, SemLoc.dma cc3_scoped150.sem, SemLoc.dma cc3_scoped151.sem, SemLoc.dma cc3_scoped152.sem, SemLoc.dma cc3_scoped153.sem, SemLoc.dma cc3_scoped154.sem, SemLoc.dma cc3_scoped155.sem, SemLoc.dma cc3_scoped156.sem, SemLoc.dma cc3_scoped157.sem, SemLoc.dma cc3_scoped158.sem, SemLoc.dma cc3_scoped159.sem, SemLoc.dma cc3_scoped160.sem, SemLoc.dma cc3_scoped161.sem]

set_option maxHeartbeats 8000000 in
theorem tile_grouped_aux (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ (((oSl L 0).view.loc (thrV d L) ↦[(oSl L 0).view.set]{fullShare} fo) ∗ ((oSl L 1).view.loc (thrV d L) ↦[(oSl L 1).view.set]{fullShare} fo) ∗ ((oSl L 2).view.loc (thrV d L) ↦[(oSl L 2).view.set]{fullShare} fo) ∗ ((oSl L 3).view.loc (thrV d L) ↦[(oSl L 3).view.set]{fullShare} fo) ∗ ((oSl L 4).view.loc (thrV d L) ↦[(oSl L 4).view.set]{fullShare} fo) ∗ ((oSl L 5).view.loc (thrV d L) ↦[(oSl L 5).view.set]{fullShare} fo) ∗ ((oSl L 6).view.loc (thrV d L) ↦[(oSl L 6).view.set]{fullShare} fo) ∗ ((oSl L 7).view.loc (thrV d L) ↦[(oSl L 7).view.set]{fullShare} fo) ∗ ((oSl L 8).view.loc (thrV d L) ↦[(oSl L 8).view.set]{fullShare} fo) ∗ ((oSl L 9).view.loc (thrV d L) ↦[(oSl L 9).view.set]{fullShare} fo) ∗ ((oSl L 10).view.loc (thrV d L) ↦[(oSl L 10).view.set]{fullShare} fo) ∗ ((oSl L 11).view.loc (thrV d L) ↦[(oSl L 11).view.set]{fullShare} fo) ∗ ((oSl L 12).view.loc (thrV d L) ↦[(oSl L 12).view.set]{fullShare} fo) ∗ ((oSl L 13).view.loc (thrV d L) ↦[(oSl L 13).view.set]{fullShare} fo) ∗ ((oSl L 14).view.loc (thrV d L) ↦[(oSl L 14).view.set]{fullShare} fo) ∗ ((oSl L 15).view.loc (thrV d L) ↦[(oSl L 15).view.set]{fullShare} fo) ∗ ((oSl L 16).view.loc (thrV d L) ↦[(oSl L 16).view.set]{fullShare} fo) ∗ ((oSl L 17).view.loc (thrV d L) ↦[(oSl L 17).view.set]{fullShare} fo) ∗ ((oSl L 18).view.loc (thrV d L) ↦[(oSl L 18).view.set]{fullShare} fo) ∗ ((oSl L 19).view.loc (thrV d L) ↦[(oSl L 19).view.set]{fullShare} fo) ∗ ((oSl L 20).view.loc (thrV d L) ↦[(oSl L 20).view.set]{fullShare} fo) ∗ ((oSl L 21).view.loc (thrV d L) ↦[(oSl L 21).view.set]{fullShare} fo) ∗ ((oSl L 22).view.loc (thrV d L) ↦[(oSl L 22).view.set]{fullShare} fo) ∗ ((oSl L 23).view.loc (thrV d L) ↦[(oSl L 23).view.set]{fullShare} fo) ∗ ((oSl L 24).view.loc (thrV d L) ↦[(oSl L 24).view.set]{fullShare} fo) ∗ ((oSl L 25).view.loc (thrV d L) ↦[(oSl L 25).view.set]{fullShare} fo) ∗ ((oSl L 26).view.loc (thrV d L) ↦[(oSl L 26).view.set]{fullShare} fo) ∗ ((oSl L 27).view.loc (thrV d L) ↦[(oSl L 27).view.set]{fullShare} fo) ∗ ((oSl L 28).view.loc (thrV d L) ↦[(oSl L 28).view.set]{fullShare} fo) ∗ ((oSl L 29).view.loc (thrV d L) ↦[(oSl L 29).view.set]{fullShare} fo) ∗ ((oSl L 30).view.loc (thrV d L) ↦[(oSl L 30).view.set]{fullShare} fo) ∗ ((oSl L 31).view.loc (thrV d L) ↦[(oSl L 31).view.set]{fullShare} fo) ∗ ((oSl L 32).view.loc (thrV d L) ↦[(oSl L 32).view.set]{fullShare} fo) ∗ ((oSl L 33).view.loc (thrV d L) ↦[(oSl L 33).view.set]{fullShare} fo) ∗ ((oSl L 34).view.loc (thrV d L) ↦[(oSl L 34).view.set]{fullShare} fo) ∗ ((oSl L 35).view.loc (thrV d L) ↦[(oSl L 35).view.set]{fullShare} fo) ∗ ((oSl L 36).view.loc (thrV d L) ↦[(oSl L 36).view.set]{fullShare} fo) ∗ ((oSl L 37).view.loc (thrV d L) ↦[(oSl L 37).view.set]{fullShare} fo) ∗ ((oSl L 38).view.loc (thrV d L) ↦[(oSl L 38).view.set]{fullShare} fo) ∗ ((oSl L 39).view.loc (thrV d L) ↦[(oSl L 39).view.set]{fullShare} fo) ∗ ((oSl L 40).view.loc (thrV d L) ↦[(oSl L 40).view.set]{fullShare} fo) ∗ ((oSl L 41).view.loc (thrV d L) ↦[(oSl L 41).view.set]{fullShare} fo) ∗ ((oSl L 42).view.loc (thrV d L) ↦[(oSl L 42).view.set]{fullShare} fo) ∗ ((oSl L 43).view.loc (thrV d L) ↦[(oSl L 43).view.set]{fullShare} fo) ∗ ((oSl L 44).view.loc (thrV d L) ↦[(oSl L 44).view.set]{fullShare} fo) ∗ ((oSl L 45).view.loc (thrV d L) ↦[(oSl L 45).view.set]{fullShare} fo) ∗ ((oSl L 46).view.loc (thrV d L) ↦[(oSl L 46).view.set]{fullShare} fo) ∗ ((oSl L 47).view.loc (thrV d L) ↦[(oSl L 47).view.set]{fullShare} fo) ∗ ((oSl L 48).view.loc (thrV d L) ↦[(oSl L 48).view.set]{fullShare} fo) ∗ ((oSl L 49).view.loc (thrV d L) ↦[(oSl L 49).view.set]{fullShare} fo) ∗ ((oSl L 50).view.loc (thrV d L) ↦[(oSl L 50).view.set]{fullShare} fo) ∗ ((oSl L 51).view.loc (thrV d L) ↦[(oSl L 51).view.set]{fullShare} fo) ∗ ((oSl L 52).view.loc (thrV d L) ↦[(oSl L 52).view.set]{fullShare} fo) ∗ ((oSl L 53).view.loc (thrV d L) ↦[(oSl L 53).view.set]{fullShare} fo) ∗ ((oSl L 54).view.loc (thrV d L) ↦[(oSl L 54).view.set]{fullShare} fo) ∗ ((oSl L 55).view.loc (thrV d L) ↦[(oSl L 55).view.set]{fullShare} fo) ∗ ((oSl L 56).view.loc (thrV d L) ↦[(oSl L 56).view.set]{fullShare} fo) ∗ ((oSl L 57).view.loc (thrV d L) ↦[(oSl L 57).view.set]{fullShare} fo) ∗ ((oSl L 58).view.loc (thrV d L) ↦[(oSl L 58).view.set]{fullShare} fo) ∗ ((oSl L 59).view.loc (thrV d L) ↦[(oSl L 59).view.set]{fullShare} fo) ∗ ((oSl L 60).view.loc (thrV d L) ↦[(oSl L 60).view.set]{fullShare} fo) ∗ ((oSl L 61).view.loc (thrV d L) ↦[(oSl L 61).view.set]{fullShare} fo) ∗ ((oSl L 62).view.loc (thrV d L) ↦[(oSl L 62).view.set]{fullShare} fo) ∗ ((oSl L 63).view.loc (thrV d L) ↦[(oSl L 63).view.set]{fullShare} fo) ∗ ((oSl L 64).view.loc (thrV d L) ↦[(oSl L 64).view.set]{fullShare} fo) ∗ ((oSl L 65).view.loc (thrV d L) ↦[(oSl L 65).view.set]{fullShare} fo) ∗ ((oSl L 66).view.loc (thrV d L) ↦[(oSl L 66).view.set]{fullShare} fo) ∗ ((oSl L 67).view.loc (thrV d L) ↦[(oSl L 67).view.set]{fullShare} fo) ∗ ((oSl L 68).view.loc (thrV d L) ↦[(oSl L 68).view.set]{fullShare} fo) ∗ ((oSl L 69).view.loc (thrV d L) ↦[(oSl L 69).view.set]{fullShare} fo) ∗ ((oSl L 70).view.loc (thrV d L) ↦[(oSl L 70).view.set]{fullShare} fo) ∗ ((oSl L 71).view.loc (thrV d L) ↦[(oSl L 71).view.set]{fullShare} fo) ∗ ((oSl L 72).view.loc (thrV d L) ↦[(oSl L 72).view.set]{fullShare} fo) ∗ ((oSl L 73).view.loc (thrV d L) ↦[(oSl L 73).view.set]{fullShare} fo) ∗ ((oSl L 74).view.loc (thrV d L) ↦[(oSl L 74).view.set]{fullShare} fo) ∗ ((oSl L 75).view.loc (thrV d L) ↦[(oSl L 75).view.set]{fullShare} fo) ∗ ((oSl L 76).view.loc (thrV d L) ↦[(oSl L 76).view.set]{fullShare} fo) ∗ ((oSl L 77).view.loc (thrV d L) ↦[(oSl L 77).view.set]{fullShare} fo) ∗ ((oSl L 78).view.loc (thrV d L) ↦[(oSl L 78).view.set]{fullShare} fo) ∗ ((oSl L 79).view.loc (thrV d L) ↦[(oSl L 79).view.set]{fullShare} fo))
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ (semVal ((thrV d L), SemLoc.dma cc3_scoped0.sem) 0 ∗ semVal ((thrV d L), SemLoc.dma cc3_scoped1.sem) 0 ∗ semVal ((thrV d L), SemLoc.dma cc3_scoped2.sem) 0 ∗ semVal ((thrV d L), SemLoc.dma cc3_scoped3.sem) 0 ∗ semVal ((thrV d L), SemLoc.dma cc3_scoped4.sem) 0 ∗ semVal ((thrV d L), SemLoc.dma cc3_scoped5.sem) 0 ∗ semVal ((thrV d L), SemLoc.dma cc3_scoped6.sem) 0 ∗ semVal ((thrV d L), SemLoc.dma cc3_scoped7.sem) 0 ∗ semVal ((thrV d L), SemLoc.dma cc3_scoped8.sem) 0 ∗ semVal ((thrV d L), SemLoc.dma cc3_scoped9.sem) 0 ∗ semVal ((thrV d L), SemLoc.dma cc3_scoped10.sem) 0 ∗ semVal ((thrV d L), SemLoc.dma cc3_scoped11.sem) 0 ∗ semVal ((thrV d L), SemLoc.dma cc3_scoped12.sem) 0 ∗ semVal ((thrV d L), SemLoc.dma cc3_scoped13.sem) 0 ∗ semVal ((thrV d L), SemLoc.dma cc3_scoped14.sem) 0 ∗ semVal ((thrV d L), SemLoc.dma cc3_scoped15.sem) 0 ∗ semVal ((thrV d L), SemLoc.dma cc3_scoped16.sem) 0 ∗ semVal ((thrV d L), SemLoc.dma cc3_scoped17.sem) 0 ∗ semVal ((thrV d L), SemLoc.dma cc3_scoped18.sem) 0 ∗ semVal ((thrV d L), SemLoc.dma cc3_scoped19.sem) 0 ∗ semVal ((thrV d L), SemLoc.dma cc3_scoped20.sem) 0 ∗ semVal ((thrV d L), SemLoc.dma cc3_scoped21.sem) 0 ∗ semVal ((thrV d L), SemLoc.dma cc3_scoped22.sem) 0 ∗ semVal ((thrV d L), SemLoc.dma cc3_scoped23.sem) 0 ∗ semVal ((thrV d L), SemLoc.dma cc3_scoped24.sem) 0 ∗ semVal ((thrV d L), SemLoc.dma cc3_scoped25.sem) 0 ∗ semVal ((thrV d L), SemLoc.dma cc3_scoped26.sem) 0 ∗ semVal ((thrV d L), SemLoc.dma cc3_scoped27.sem) 0 ∗ semVal ((thrV d L), SemLoc.dma cc3_scoped28.sem) 0 ∗ semVal ((thrV d L), SemLoc.dma cc3_scoped29.sem) 0 ∗ semVal ((thrV d L), SemLoc.dma cc3_scoped30.sem) 0 ∗ semVal ((thrV d L), SemLoc.dma cc3_scoped31.sem) 0 ∗ semVal ((thrV d L), SemLoc.dma cc3_scoped32.sem) 0 ∗ semVal ((thrV d L), SemLoc.dma cc3_scoped33.sem) 0 ∗ semVal ((thrV d L), SemLoc.dma cc3_scoped34.sem) 0 ∗ semVal ((thrV d L), SemLoc.dma cc3_scoped35.sem) 0 ∗ semVal ((thrV d L), SemLoc.dma cc3_scoped36.sem) 0 ∗ semVal ((thrV d L), SemLoc.dma cc3_scoped37.sem) 0 ∗ semVal ((thrV d L), SemLoc.dma cc3_scoped38.sem) 0 ∗ semVal ((thrV d L), SemLoc.dma cc3_scoped39.sem) 0 ∗ semVal ((thrV d L), SemLoc.dma cc3_scoped40.sem) 0 ∗ semVal ((thrV d L), SemLoc.dma cc3_scoped41.sem) 0 ∗ semVal ((thrV d L), SemLoc.dma cc3_scoped42.sem) 0 ∗ semVal ((thrV d L), SemLoc.dma cc3_scoped43.sem) 0 ∗ semVal ((thrV d L), SemLoc.dma cc3_scoped44.sem) 0 ∗ semVal ((thrV d L), SemLoc.dma cc3_scoped45.sem) 0 ∗ semVal ((thrV d L), SemLoc.dma cc3_scoped46.sem) 0 ∗ semVal ((thrV d L), SemLoc.dma cc3_scoped47.sem) 0 ∗ semVal ((thrV d L), SemLoc.dma cc3_scoped48.sem) 0 ∗ semVal ((thrV d L), SemLoc.dma cc3_scoped49.sem) 0 ∗ semVal ((thrV d L), SemLoc.dma cc3_scoped50.sem) 0 ∗ semVal ((thrV d L), SemLoc.dma cc3_scoped51.sem) 0 ∗ semVal ((thrV d L), SemLoc.dma cc3_scoped52.sem) 0 ∗ semVal ((thrV d L), SemLoc.dma cc3_scoped53.sem) 0 ∗ semVal ((thrV d L), SemLoc.dma cc3_scoped54.sem) 0 ∗ semVal ((thrV d L), SemLoc.dma cc3_scoped55.sem) 0 ∗ semVal ((thrV d L), SemLoc.dma cc3_scoped56.sem) 0 ∗ semVal ((thrV d L), SemLoc.dma cc3_scoped57.sem) 0 ∗ semVal ((thrV d L), SemLoc.dma cc3_scoped58.sem) 0 ∗ semVal ((thrV d L), SemLoc.dma cc3_scoped59.sem) 0 ∗ semVal ((thrV d L), SemLoc.dma cc3_scoped60.sem) 0 ∗ semVal ((thrV d L), SemLoc.dma cc3_scoped61.sem) 0 ∗ semVal ((thrV d L), SemLoc.dma cc3_scoped62.sem) 0 ∗ semVal ((thrV d L), SemLoc.dma cc3_scoped63.sem) 0 ∗ semVal ((thrV d L), SemLoc.dma cc3_scoped64.sem) 0 ∗ semVal ((thrV d L), SemLoc.dma cc3_scoped65.sem) 0 ∗ semVal ((thrV d L), SemLoc.dma cc3_scoped66.sem) 0 ∗ semVal ((thrV d L), SemLoc.dma cc3_scoped67.sem) 0 ∗ semVal ((thrV d L), SemLoc.dma cc3_scoped68.sem) 0 ∗ semVal ((thrV d L), SemLoc.dma cc3_scoped69.sem) 0 ∗ semVal ((thrV d L), SemLoc.dma cc3_scoped70.sem) 0 ∗ semVal ((thrV d L), SemLoc.dma cc3_scoped71.sem) 0 ∗ semVal ((thrV d L), SemLoc.dma cc3_scoped72.sem) 0 ∗ semVal ((thrV d L), SemLoc.dma cc3_scoped73.sem) 0 ∗ semVal ((thrV d L), SemLoc.dma cc3_scoped74.sem) 0 ∗ semVal ((thrV d L), SemLoc.dma cc3_scoped75.sem) 0 ∗ semVal ((thrV d L), SemLoc.dma cc3_scoped76.sem) 0 ∗ semVal ((thrV d L), SemLoc.dma cc3_scoped77.sem) 0 ∗ semVal ((thrV d L), SemLoc.dma cc3_scoped78.sem) 0 ∗ semVal ((thrV d L), SemLoc.dma cc3_scoped79.sem) 0 ∗ semVal ((thrV d L), SemLoc.dma cc3_scoped80.sem) 0 ∗ semVal ((thrV d L), SemLoc.dma cc3_scoped81.sem) 0 ∗ semVal ((thrV d L), SemLoc.dma cc3_scoped82.sem) 0 ∗ semVal ((thrV d L), SemLoc.dma cc3_scoped83.sem) 0 ∗ semVal ((thrV d L), SemLoc.dma cc3_scoped84.sem) 0 ∗ semVal ((thrV d L), SemLoc.dma cc3_scoped85.sem) 0 ∗ semVal ((thrV d L), SemLoc.dma cc3_scoped86.sem) 0 ∗ semVal ((thrV d L), SemLoc.dma cc3_scoped87.sem) 0 ∗ semVal ((thrV d L), SemLoc.dma cc3_scoped88.sem) 0 ∗ semVal ((thrV d L), SemLoc.dma cc3_scoped89.sem) 0 ∗ semVal ((thrV d L), SemLoc.dma cc3_scoped90.sem) 0 ∗ semVal ((thrV d L), SemLoc.dma cc3_scoped91.sem) 0 ∗ semVal ((thrV d L), SemLoc.dma cc3_scoped92.sem) 0 ∗ semVal ((thrV d L), SemLoc.dma cc3_scoped93.sem) 0 ∗ semVal ((thrV d L), SemLoc.dma cc3_scoped94.sem) 0 ∗ semVal ((thrV d L), SemLoc.dma cc3_scoped95.sem) 0 ∗ semVal ((thrV d L), SemLoc.dma cc3_scoped96.sem) 0 ∗ semVal ((thrV d L), SemLoc.dma cc3_scoped97.sem) 0 ∗ semVal ((thrV d L), SemLoc.dma cc3_scoped98.sem) 0 ∗ semVal ((thrV d L), SemLoc.dma cc3_scoped99.sem) 0 ∗ semVal ((thrV d L), SemLoc.dma cc3_scoped100.sem) 0 ∗ semVal ((thrV d L), SemLoc.dma cc3_scoped101.sem) 0 ∗ semVal ((thrV d L), SemLoc.dma cc3_scoped102.sem) 0 ∗ semVal ((thrV d L), SemLoc.dma cc3_scoped103.sem) 0 ∗ semVal ((thrV d L), SemLoc.dma cc3_scoped104.sem) 0 ∗ semVal ((thrV d L), SemLoc.dma cc3_scoped105.sem) 0 ∗ semVal ((thrV d L), SemLoc.dma cc3_scoped106.sem) 0 ∗ semVal ((thrV d L), SemLoc.dma cc3_scoped107.sem) 0 ∗ semVal ((thrV d L), SemLoc.dma cc3_scoped108.sem) 0 ∗ semVal ((thrV d L), SemLoc.dma cc3_scoped109.sem) 0 ∗ semVal ((thrV d L), SemLoc.dma cc3_scoped110.sem) 0 ∗ semVal ((thrV d L), SemLoc.dma cc3_scoped111.sem) 0 ∗ semVal ((thrV d L), SemLoc.dma cc3_scoped112.sem) 0 ∗ semVal ((thrV d L), SemLoc.dma cc3_scoped113.sem) 0 ∗ semVal ((thrV d L), SemLoc.dma cc3_scoped114.sem) 0 ∗ semVal ((thrV d L), SemLoc.dma cc3_scoped115.sem) 0 ∗ semVal ((thrV d L), SemLoc.dma cc3_scoped116.sem) 0 ∗ semVal ((thrV d L), SemLoc.dma cc3_scoped117.sem) 0 ∗ semVal ((thrV d L), SemLoc.dma cc3_scoped118.sem) 0 ∗ semVal ((thrV d L), SemLoc.dma cc3_scoped119.sem) 0 ∗ semVal ((thrV d L), SemLoc.dma cc3_scoped120.sem) 0 ∗ semVal ((thrV d L), SemLoc.dma cc3_scoped121.sem) 0 ∗ semVal ((thrV d L), SemLoc.dma cc3_scoped122.sem) 0 ∗ semVal ((thrV d L), SemLoc.dma cc3_scoped123.sem) 0 ∗ semVal ((thrV d L), SemLoc.dma cc3_scoped124.sem) 0 ∗ semVal ((thrV d L), SemLoc.dma cc3_scoped125.sem) 0 ∗ semVal ((thrV d L), SemLoc.dma cc3_scoped126.sem) 0 ∗ semVal ((thrV d L), SemLoc.dma cc3_scoped127.sem) 0 ∗ semVal ((thrV d L), SemLoc.dma cc3_scoped128.sem) 0 ∗ semVal ((thrV d L), SemLoc.dma cc3_scoped129.sem) 0 ∗ semVal ((thrV d L), SemLoc.dma cc3_scoped130.sem) 0 ∗ semVal ((thrV d L), SemLoc.dma cc3_scoped131.sem) 0 ∗ semVal ((thrV d L), SemLoc.dma cc3_scoped132.sem) 0 ∗ semVal ((thrV d L), SemLoc.dma cc3_scoped133.sem) 0 ∗ semVal ((thrV d L), SemLoc.dma cc3_scoped134.sem) 0 ∗ semVal ((thrV d L), SemLoc.dma cc3_scoped135.sem) 0 ∗ semVal ((thrV d L), SemLoc.dma cc3_scoped136.sem) 0 ∗ semVal ((thrV d L), SemLoc.dma cc3_scoped137.sem) 0 ∗ semVal ((thrV d L), SemLoc.dma cc3_scoped138.sem) 0 ∗ semVal ((thrV d L), SemLoc.dma cc3_scoped139.sem) 0 ∗ semVal ((thrV d L), SemLoc.dma cc3_scoped140.sem) 0 ∗ semVal ((thrV d L), SemLoc.dma cc3_scoped141.sem) 0 ∗ semVal ((thrV d L), SemLoc.dma cc3_scoped142.sem) 0 ∗ semVal ((thrV d L), SemLoc.dma cc3_scoped143.sem) 0 ∗ semVal ((thrV d L), SemLoc.dma cc3_scoped144.sem) 0 ∗ semVal ((thrV d L), SemLoc.dma cc3_scoped145.sem) 0 ∗ semVal ((thrV d L), SemLoc.dma cc3_scoped146.sem) 0 ∗ semVal ((thrV d L), SemLoc.dma cc3_scoped147.sem) 0 ∗ semVal ((thrV d L), SemLoc.dma cc3_scoped148.sem) 0 ∗ semVal ((thrV d L), SemLoc.dma cc3_scoped149.sem) 0 ∗ semVal ((thrV d L), SemLoc.dma cc3_scoped150.sem) 0 ∗ semVal ((thrV d L), SemLoc.dma cc3_scoped151.sem) 0 ∗ semVal ((thrV d L), SemLoc.dma cc3_scoped152.sem) 0 ∗ semVal ((thrV d L), SemLoc.dma cc3_scoped153.sem) 0 ∗ semVal ((thrV d L), SemLoc.dma cc3_scoped154.sem) 0 ∗ semVal ((thrV d L), SemLoc.dma cc3_scoped155.sem) 0 ∗ semVal ((thrV d L), SemLoc.dma cc3_scoped156.sem) 0 ∗ semVal ((thrV d L), SemLoc.dma cc3_scoped157.sem) 0 ∗ semVal ((thrV d L), SemLoc.dma cc3_scoped158.sem) 0 ∗ semVal ((thrV d L), SemLoc.dma cc3_scoped159.sem) 0 ∗ semVal ((thrV d L), SemLoc.dma cc3_scoped160.sem) 0 ∗ semVal ((thrV d L), SemLoc.dma cc3_scoped161.sem) 0)
      ∗ owes (thrV d L) O W
      ∗ (iprop((hV.view.loc (thrV d L) ↦{q} fh) ∗ (sV.view.loc (thrV d L) ↦{q} fs)
          ∗ (((oSl L 0).view.loc (thrV d L) ↦[(oSl L 0).view.set]{fullShare} gatherRows fh fs) ∗ ((oSl L 1).view.loc (thrV d L) ↦[(oSl L 1).view.set]{fullShare} gatherRows fh fs) ∗ ((oSl L 2).view.loc (thrV d L) ↦[(oSl L 2).view.set]{fullShare} gatherRows fh fs) ∗ ((oSl L 3).view.loc (thrV d L) ↦[(oSl L 3).view.set]{fullShare} gatherRows fh fs) ∗ ((oSl L 4).view.loc (thrV d L) ↦[(oSl L 4).view.set]{fullShare} gatherRows fh fs) ∗ ((oSl L 5).view.loc (thrV d L) ↦[(oSl L 5).view.set]{fullShare} gatherRows fh fs) ∗ ((oSl L 6).view.loc (thrV d L) ↦[(oSl L 6).view.set]{fullShare} gatherRows fh fs) ∗ ((oSl L 7).view.loc (thrV d L) ↦[(oSl L 7).view.set]{fullShare} gatherRows fh fs) ∗ ((oSl L 8).view.loc (thrV d L) ↦[(oSl L 8).view.set]{fullShare} gatherRows fh fs) ∗ ((oSl L 9).view.loc (thrV d L) ↦[(oSl L 9).view.set]{fullShare} gatherRows fh fs) ∗ ((oSl L 10).view.loc (thrV d L) ↦[(oSl L 10).view.set]{fullShare} gatherRows fh fs) ∗ ((oSl L 11).view.loc (thrV d L) ↦[(oSl L 11).view.set]{fullShare} gatherRows fh fs) ∗ ((oSl L 12).view.loc (thrV d L) ↦[(oSl L 12).view.set]{fullShare} gatherRows fh fs) ∗ ((oSl L 13).view.loc (thrV d L) ↦[(oSl L 13).view.set]{fullShare} gatherRows fh fs) ∗ ((oSl L 14).view.loc (thrV d L) ↦[(oSl L 14).view.set]{fullShare} gatherRows fh fs) ∗ ((oSl L 15).view.loc (thrV d L) ↦[(oSl L 15).view.set]{fullShare} gatherRows fh fs) ∗ ((oSl L 16).view.loc (thrV d L) ↦[(oSl L 16).view.set]{fullShare} gatherRows fh fs) ∗ ((oSl L 17).view.loc (thrV d L) ↦[(oSl L 17).view.set]{fullShare} gatherRows fh fs) ∗ ((oSl L 18).view.loc (thrV d L) ↦[(oSl L 18).view.set]{fullShare} gatherRows fh fs) ∗ ((oSl L 19).view.loc (thrV d L) ↦[(oSl L 19).view.set]{fullShare} gatherRows fh fs) ∗ ((oSl L 20).view.loc (thrV d L) ↦[(oSl L 20).view.set]{fullShare} gatherRows fh fs) ∗ ((oSl L 21).view.loc (thrV d L) ↦[(oSl L 21).view.set]{fullShare} gatherRows fh fs) ∗ ((oSl L 22).view.loc (thrV d L) ↦[(oSl L 22).view.set]{fullShare} gatherRows fh fs) ∗ ((oSl L 23).view.loc (thrV d L) ↦[(oSl L 23).view.set]{fullShare} gatherRows fh fs) ∗ ((oSl L 24).view.loc (thrV d L) ↦[(oSl L 24).view.set]{fullShare} gatherRows fh fs) ∗ ((oSl L 25).view.loc (thrV d L) ↦[(oSl L 25).view.set]{fullShare} gatherRows fh fs) ∗ ((oSl L 26).view.loc (thrV d L) ↦[(oSl L 26).view.set]{fullShare} gatherRows fh fs) ∗ ((oSl L 27).view.loc (thrV d L) ↦[(oSl L 27).view.set]{fullShare} gatherRows fh fs) ∗ ((oSl L 28).view.loc (thrV d L) ↦[(oSl L 28).view.set]{fullShare} gatherRows fh fs) ∗ ((oSl L 29).view.loc (thrV d L) ↦[(oSl L 29).view.set]{fullShare} gatherRows fh fs) ∗ ((oSl L 30).view.loc (thrV d L) ↦[(oSl L 30).view.set]{fullShare} gatherRows fh fs) ∗ ((oSl L 31).view.loc (thrV d L) ↦[(oSl L 31).view.set]{fullShare} gatherRows fh fs) ∗ ((oSl L 32).view.loc (thrV d L) ↦[(oSl L 32).view.set]{fullShare} gatherRows fh fs) ∗ ((oSl L 33).view.loc (thrV d L) ↦[(oSl L 33).view.set]{fullShare} gatherRows fh fs) ∗ ((oSl L 34).view.loc (thrV d L) ↦[(oSl L 34).view.set]{fullShare} gatherRows fh fs) ∗ ((oSl L 35).view.loc (thrV d L) ↦[(oSl L 35).view.set]{fullShare} gatherRows fh fs) ∗ ((oSl L 36).view.loc (thrV d L) ↦[(oSl L 36).view.set]{fullShare} gatherRows fh fs) ∗ ((oSl L 37).view.loc (thrV d L) ↦[(oSl L 37).view.set]{fullShare} gatherRows fh fs) ∗ ((oSl L 38).view.loc (thrV d L) ↦[(oSl L 38).view.set]{fullShare} gatherRows fh fs) ∗ ((oSl L 39).view.loc (thrV d L) ↦[(oSl L 39).view.set]{fullShare} gatherRows fh fs) ∗ ((oSl L 40).view.loc (thrV d L) ↦[(oSl L 40).view.set]{fullShare} gatherRows fh fs) ∗ ((oSl L 41).view.loc (thrV d L) ↦[(oSl L 41).view.set]{fullShare} gatherRows fh fs) ∗ ((oSl L 42).view.loc (thrV d L) ↦[(oSl L 42).view.set]{fullShare} gatherRows fh fs) ∗ ((oSl L 43).view.loc (thrV d L) ↦[(oSl L 43).view.set]{fullShare} gatherRows fh fs) ∗ ((oSl L 44).view.loc (thrV d L) ↦[(oSl L 44).view.set]{fullShare} gatherRows fh fs) ∗ ((oSl L 45).view.loc (thrV d L) ↦[(oSl L 45).view.set]{fullShare} gatherRows fh fs) ∗ ((oSl L 46).view.loc (thrV d L) ↦[(oSl L 46).view.set]{fullShare} gatherRows fh fs) ∗ ((oSl L 47).view.loc (thrV d L) ↦[(oSl L 47).view.set]{fullShare} gatherRows fh fs) ∗ ((oSl L 48).view.loc (thrV d L) ↦[(oSl L 48).view.set]{fullShare} gatherRows fh fs) ∗ ((oSl L 49).view.loc (thrV d L) ↦[(oSl L 49).view.set]{fullShare} gatherRows fh fs) ∗ ((oSl L 50).view.loc (thrV d L) ↦[(oSl L 50).view.set]{fullShare} gatherRows fh fs) ∗ ((oSl L 51).view.loc (thrV d L) ↦[(oSl L 51).view.set]{fullShare} gatherRows fh fs) ∗ ((oSl L 52).view.loc (thrV d L) ↦[(oSl L 52).view.set]{fullShare} gatherRows fh fs) ∗ ((oSl L 53).view.loc (thrV d L) ↦[(oSl L 53).view.set]{fullShare} gatherRows fh fs) ∗ ((oSl L 54).view.loc (thrV d L) ↦[(oSl L 54).view.set]{fullShare} gatherRows fh fs) ∗ ((oSl L 55).view.loc (thrV d L) ↦[(oSl L 55).view.set]{fullShare} gatherRows fh fs) ∗ ((oSl L 56).view.loc (thrV d L) ↦[(oSl L 56).view.set]{fullShare} gatherRows fh fs) ∗ ((oSl L 57).view.loc (thrV d L) ↦[(oSl L 57).view.set]{fullShare} gatherRows fh fs) ∗ ((oSl L 58).view.loc (thrV d L) ↦[(oSl L 58).view.set]{fullShare} gatherRows fh fs) ∗ ((oSl L 59).view.loc (thrV d L) ↦[(oSl L 59).view.set]{fullShare} gatherRows fh fs) ∗ ((oSl L 60).view.loc (thrV d L) ↦[(oSl L 60).view.set]{fullShare} gatherRows fh fs) ∗ ((oSl L 61).view.loc (thrV d L) ↦[(oSl L 61).view.set]{fullShare} gatherRows fh fs) ∗ ((oSl L 62).view.loc (thrV d L) ↦[(oSl L 62).view.set]{fullShare} gatherRows fh fs) ∗ ((oSl L 63).view.loc (thrV d L) ↦[(oSl L 63).view.set]{fullShare} gatherRows fh fs) ∗ ((oSl L 64).view.loc (thrV d L) ↦[(oSl L 64).view.set]{fullShare} gatherRows fh fs) ∗ ((oSl L 65).view.loc (thrV d L) ↦[(oSl L 65).view.set]{fullShare} gatherRows fh fs) ∗ ((oSl L 66).view.loc (thrV d L) ↦[(oSl L 66).view.set]{fullShare} gatherRows fh fs) ∗ ((oSl L 67).view.loc (thrV d L) ↦[(oSl L 67).view.set]{fullShare} gatherRows fh fs) ∗ ((oSl L 68).view.loc (thrV d L) ↦[(oSl L 68).view.set]{fullShare} gatherRows fh fs) ∗ ((oSl L 69).view.loc (thrV d L) ↦[(oSl L 69).view.set]{fullShare} gatherRows fh fs) ∗ ((oSl L 70).view.loc (thrV d L) ↦[(oSl L 70).view.set]{fullShare} gatherRows fh fs) ∗ ((oSl L 71).view.loc (thrV d L) ↦[(oSl L 71).view.set]{fullShare} gatherRows fh fs) ∗ ((oSl L 72).view.loc (thrV d L) ↦[(oSl L 72).view.set]{fullShare} gatherRows fh fs) ∗ ((oSl L 73).view.loc (thrV d L) ↦[(oSl L 73).view.set]{fullShare} gatherRows fh fs) ∗ ((oSl L 74).view.loc (thrV d L) ↦[(oSl L 74).view.set]{fullShare} gatherRows fh fs) ∗ ((oSl L 75).view.loc (thrV d L) ↦[(oSl L 75).view.set]{fullShare} gatherRows fh fs) ∗ ((oSl L 76).view.loc (thrV d L) ↦[(oSl L 76).view.set]{fullShare} gatherRows fh fs) ∗ ((oSl L 77).view.loc (thrV d L) ↦[(oSl L 77).view.set]{fullShare} gatherRows fh fs) ∗ ((oSl L 78).view.loc (thrV d L) ↦[(oSl L 78).view.set]{fullShare} gatherRows fh fs) ∗ ((oSl L 79).view.loc (thrV d L) ↦[(oSl L 79).view.set]{fullShare} gatherRows fh fs))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ (semVal ((thrV d L), SemLoc.dma cc3_scoped0.sem) 0 ∗ semVal ((thrV d L), SemLoc.dma cc3_scoped1.sem) 0 ∗ semVal ((thrV d L), SemLoc.dma cc3_scoped2.sem) 0 ∗ semVal ((thrV d L), SemLoc.dma cc3_scoped3.sem) 0 ∗ semVal ((thrV d L), SemLoc.dma cc3_scoped4.sem) 0 ∗ semVal ((thrV d L), SemLoc.dma cc3_scoped5.sem) 0 ∗ semVal ((thrV d L), SemLoc.dma cc3_scoped6.sem) 0 ∗ semVal ((thrV d L), SemLoc.dma cc3_scoped7.sem) 0 ∗ semVal ((thrV d L), SemLoc.dma cc3_scoped8.sem) 0 ∗ semVal ((thrV d L), SemLoc.dma cc3_scoped9.sem) 0 ∗ semVal ((thrV d L), SemLoc.dma cc3_scoped10.sem) 0 ∗ semVal ((thrV d L), SemLoc.dma cc3_scoped11.sem) 0 ∗ semVal ((thrV d L), SemLoc.dma cc3_scoped12.sem) 0 ∗ semVal ((thrV d L), SemLoc.dma cc3_scoped13.sem) 0 ∗ semVal ((thrV d L), SemLoc.dma cc3_scoped14.sem) 0 ∗ semVal ((thrV d L), SemLoc.dma cc3_scoped15.sem) 0 ∗ semVal ((thrV d L), SemLoc.dma cc3_scoped16.sem) 0 ∗ semVal ((thrV d L), SemLoc.dma cc3_scoped17.sem) 0 ∗ semVal ((thrV d L), SemLoc.dma cc3_scoped18.sem) 0 ∗ semVal ((thrV d L), SemLoc.dma cc3_scoped19.sem) 0 ∗ semVal ((thrV d L), SemLoc.dma cc3_scoped20.sem) 0 ∗ semVal ((thrV d L), SemLoc.dma cc3_scoped21.sem) 0 ∗ semVal ((thrV d L), SemLoc.dma cc3_scoped22.sem) 0 ∗ semVal ((thrV d L), SemLoc.dma cc3_scoped23.sem) 0 ∗ semVal ((thrV d L), SemLoc.dma cc3_scoped24.sem) 0 ∗ semVal ((thrV d L), SemLoc.dma cc3_scoped25.sem) 0 ∗ semVal ((thrV d L), SemLoc.dma cc3_scoped26.sem) 0 ∗ semVal ((thrV d L), SemLoc.dma cc3_scoped27.sem) 0 ∗ semVal ((thrV d L), SemLoc.dma cc3_scoped28.sem) 0 ∗ semVal ((thrV d L), SemLoc.dma cc3_scoped29.sem) 0 ∗ semVal ((thrV d L), SemLoc.dma cc3_scoped30.sem) 0 ∗ semVal ((thrV d L), SemLoc.dma cc3_scoped31.sem) 0 ∗ semVal ((thrV d L), SemLoc.dma cc3_scoped32.sem) 0 ∗ semVal ((thrV d L), SemLoc.dma cc3_scoped33.sem) 0 ∗ semVal ((thrV d L), SemLoc.dma cc3_scoped34.sem) 0 ∗ semVal ((thrV d L), SemLoc.dma cc3_scoped35.sem) 0 ∗ semVal ((thrV d L), SemLoc.dma cc3_scoped36.sem) 0 ∗ semVal ((thrV d L), SemLoc.dma cc3_scoped37.sem) 0 ∗ semVal ((thrV d L), SemLoc.dma cc3_scoped38.sem) 0 ∗ semVal ((thrV d L), SemLoc.dma cc3_scoped39.sem) 0 ∗ semVal ((thrV d L), SemLoc.dma cc3_scoped40.sem) 0 ∗ semVal ((thrV d L), SemLoc.dma cc3_scoped41.sem) 0 ∗ semVal ((thrV d L), SemLoc.dma cc3_scoped42.sem) 0 ∗ semVal ((thrV d L), SemLoc.dma cc3_scoped43.sem) 0 ∗ semVal ((thrV d L), SemLoc.dma cc3_scoped44.sem) 0 ∗ semVal ((thrV d L), SemLoc.dma cc3_scoped45.sem) 0 ∗ semVal ((thrV d L), SemLoc.dma cc3_scoped46.sem) 0 ∗ semVal ((thrV d L), SemLoc.dma cc3_scoped47.sem) 0 ∗ semVal ((thrV d L), SemLoc.dma cc3_scoped48.sem) 0 ∗ semVal ((thrV d L), SemLoc.dma cc3_scoped49.sem) 0 ∗ semVal ((thrV d L), SemLoc.dma cc3_scoped50.sem) 0 ∗ semVal ((thrV d L), SemLoc.dma cc3_scoped51.sem) 0 ∗ semVal ((thrV d L), SemLoc.dma cc3_scoped52.sem) 0 ∗ semVal ((thrV d L), SemLoc.dma cc3_scoped53.sem) 0 ∗ semVal ((thrV d L), SemLoc.dma cc3_scoped54.sem) 0 ∗ semVal ((thrV d L), SemLoc.dma cc3_scoped55.sem) 0 ∗ semVal ((thrV d L), SemLoc.dma cc3_scoped56.sem) 0 ∗ semVal ((thrV d L), SemLoc.dma cc3_scoped57.sem) 0 ∗ semVal ((thrV d L), SemLoc.dma cc3_scoped58.sem) 0 ∗ semVal ((thrV d L), SemLoc.dma cc3_scoped59.sem) 0 ∗ semVal ((thrV d L), SemLoc.dma cc3_scoped60.sem) 0 ∗ semVal ((thrV d L), SemLoc.dma cc3_scoped61.sem) 0 ∗ semVal ((thrV d L), SemLoc.dma cc3_scoped62.sem) 0 ∗ semVal ((thrV d L), SemLoc.dma cc3_scoped63.sem) 0 ∗ semVal ((thrV d L), SemLoc.dma cc3_scoped64.sem) 0 ∗ semVal ((thrV d L), SemLoc.dma cc3_scoped65.sem) 0 ∗ semVal ((thrV d L), SemLoc.dma cc3_scoped66.sem) 0 ∗ semVal ((thrV d L), SemLoc.dma cc3_scoped67.sem) 0 ∗ semVal ((thrV d L), SemLoc.dma cc3_scoped68.sem) 0 ∗ semVal ((thrV d L), SemLoc.dma cc3_scoped69.sem) 0 ∗ semVal ((thrV d L), SemLoc.dma cc3_scoped70.sem) 0 ∗ semVal ((thrV d L), SemLoc.dma cc3_scoped71.sem) 0 ∗ semVal ((thrV d L), SemLoc.dma cc3_scoped72.sem) 0 ∗ semVal ((thrV d L), SemLoc.dma cc3_scoped73.sem) 0 ∗ semVal ((thrV d L), SemLoc.dma cc3_scoped74.sem) 0 ∗ semVal ((thrV d L), SemLoc.dma cc3_scoped75.sem) 0 ∗ semVal ((thrV d L), SemLoc.dma cc3_scoped76.sem) 0 ∗ semVal ((thrV d L), SemLoc.dma cc3_scoped77.sem) 0 ∗ semVal ((thrV d L), SemLoc.dma cc3_scoped78.sem) 0 ∗ semVal ((thrV d L), SemLoc.dma cc3_scoped79.sem) 0 ∗ semVal ((thrV d L), SemLoc.dma cc3_scoped80.sem) 0 ∗ semVal ((thrV d L), SemLoc.dma cc3_scoped81.sem) 0 ∗ semVal ((thrV d L), SemLoc.dma cc3_scoped82.sem) 0 ∗ semVal ((thrV d L), SemLoc.dma cc3_scoped83.sem) 0 ∗ semVal ((thrV d L), SemLoc.dma cc3_scoped84.sem) 0 ∗ semVal ((thrV d L), SemLoc.dma cc3_scoped85.sem) 0 ∗ semVal ((thrV d L), SemLoc.dma cc3_scoped86.sem) 0 ∗ semVal ((thrV d L), SemLoc.dma cc3_scoped87.sem) 0 ∗ semVal ((thrV d L), SemLoc.dma cc3_scoped88.sem) 0 ∗ semVal ((thrV d L), SemLoc.dma cc3_scoped89.sem) 0 ∗ semVal ((thrV d L), SemLoc.dma cc3_scoped90.sem) 0 ∗ semVal ((thrV d L), SemLoc.dma cc3_scoped91.sem) 0 ∗ semVal ((thrV d L), SemLoc.dma cc3_scoped92.sem) 0 ∗ semVal ((thrV d L), SemLoc.dma cc3_scoped93.sem) 0 ∗ semVal ((thrV d L), SemLoc.dma cc3_scoped94.sem) 0 ∗ semVal ((thrV d L), SemLoc.dma cc3_scoped95.sem) 0 ∗ semVal ((thrV d L), SemLoc.dma cc3_scoped96.sem) 0 ∗ semVal ((thrV d L), SemLoc.dma cc3_scoped97.sem) 0 ∗ semVal ((thrV d L), SemLoc.dma cc3_scoped98.sem) 0 ∗ semVal ((thrV d L), SemLoc.dma cc3_scoped99.sem) 0 ∗ semVal ((thrV d L), SemLoc.dma cc3_scoped100.sem) 0 ∗ semVal ((thrV d L), SemLoc.dma cc3_scoped101.sem) 0 ∗ semVal ((thrV d L), SemLoc.dma cc3_scoped102.sem) 0 ∗ semVal ((thrV d L), SemLoc.dma cc3_scoped103.sem) 0 ∗ semVal ((thrV d L), SemLoc.dma cc3_scoped104.sem) 0 ∗ semVal ((thrV d L), SemLoc.dma cc3_scoped105.sem) 0 ∗ semVal ((thrV d L), SemLoc.dma cc3_scoped106.sem) 0 ∗ semVal ((thrV d L), SemLoc.dma cc3_scoped107.sem) 0 ∗ semVal ((thrV d L), SemLoc.dma cc3_scoped108.sem) 0 ∗ semVal ((thrV d L), SemLoc.dma cc3_scoped109.sem) 0 ∗ semVal ((thrV d L), SemLoc.dma cc3_scoped110.sem) 0 ∗ semVal ((thrV d L), SemLoc.dma cc3_scoped111.sem) 0 ∗ semVal ((thrV d L), SemLoc.dma cc3_scoped112.sem) 0 ∗ semVal ((thrV d L), SemLoc.dma cc3_scoped113.sem) 0 ∗ semVal ((thrV d L), SemLoc.dma cc3_scoped114.sem) 0 ∗ semVal ((thrV d L), SemLoc.dma cc3_scoped115.sem) 0 ∗ semVal ((thrV d L), SemLoc.dma cc3_scoped116.sem) 0 ∗ semVal ((thrV d L), SemLoc.dma cc3_scoped117.sem) 0 ∗ semVal ((thrV d L), SemLoc.dma cc3_scoped118.sem) 0 ∗ semVal ((thrV d L), SemLoc.dma cc3_scoped119.sem) 0 ∗ semVal ((thrV d L), SemLoc.dma cc3_scoped120.sem) 0 ∗ semVal ((thrV d L), SemLoc.dma cc3_scoped121.sem) 0 ∗ semVal ((thrV d L), SemLoc.dma cc3_scoped122.sem) 0 ∗ semVal ((thrV d L), SemLoc.dma cc3_scoped123.sem) 0 ∗ semVal ((thrV d L), SemLoc.dma cc3_scoped124.sem) 0 ∗ semVal ((thrV d L), SemLoc.dma cc3_scoped125.sem) 0 ∗ semVal ((thrV d L), SemLoc.dma cc3_scoped126.sem) 0 ∗ semVal ((thrV d L), SemLoc.dma cc3_scoped127.sem) 0 ∗ semVal ((thrV d L), SemLoc.dma cc3_scoped128.sem) 0 ∗ semVal ((thrV d L), SemLoc.dma cc3_scoped129.sem) 0 ∗ semVal ((thrV d L), SemLoc.dma cc3_scoped130.sem) 0 ∗ semVal ((thrV d L), SemLoc.dma cc3_scoped131.sem) 0 ∗ semVal ((thrV d L), SemLoc.dma cc3_scoped132.sem) 0 ∗ semVal ((thrV d L), SemLoc.dma cc3_scoped133.sem) 0 ∗ semVal ((thrV d L), SemLoc.dma cc3_scoped134.sem) 0 ∗ semVal ((thrV d L), SemLoc.dma cc3_scoped135.sem) 0 ∗ semVal ((thrV d L), SemLoc.dma cc3_scoped136.sem) 0 ∗ semVal ((thrV d L), SemLoc.dma cc3_scoped137.sem) 0 ∗ semVal ((thrV d L), SemLoc.dma cc3_scoped138.sem) 0 ∗ semVal ((thrV d L), SemLoc.dma cc3_scoped139.sem) 0 ∗ semVal ((thrV d L), SemLoc.dma cc3_scoped140.sem) 0 ∗ semVal ((thrV d L), SemLoc.dma cc3_scoped141.sem) 0 ∗ semVal ((thrV d L), SemLoc.dma cc3_scoped142.sem) 0 ∗ semVal ((thrV d L), SemLoc.dma cc3_scoped143.sem) 0 ∗ semVal ((thrV d L), SemLoc.dma cc3_scoped144.sem) 0 ∗ semVal ((thrV d L), SemLoc.dma cc3_scoped145.sem) 0 ∗ semVal ((thrV d L), SemLoc.dma cc3_scoped146.sem) 0 ∗ semVal ((thrV d L), SemLoc.dma cc3_scoped147.sem) 0 ∗ semVal ((thrV d L), SemLoc.dma cc3_scoped148.sem) 0 ∗ semVal ((thrV d L), SemLoc.dma cc3_scoped149.sem) 0 ∗ semVal ((thrV d L), SemLoc.dma cc3_scoped150.sem) 0 ∗ semVal ((thrV d L), SemLoc.dma cc3_scoped151.sem) 0 ∗ semVal ((thrV d L), SemLoc.dma cc3_scoped152.sem) 0 ∗ semVal ((thrV d L), SemLoc.dma cc3_scoped153.sem) 0 ∗ semVal ((thrV d L), SemLoc.dma cc3_scoped154.sem) 0 ∗ semVal ((thrV d L), SemLoc.dma cc3_scoped155.sem) 0 ∗ semVal ((thrV d L), SemLoc.dma cc3_scoped156.sem) 0 ∗ semVal ((thrV d L), SemLoc.dma cc3_scoped157.sem) 0 ∗ semVal ((thrV d L), SemLoc.dma cc3_scoped158.sem) 0 ∗ semVal ((thrV d L), SemLoc.dma cc3_scoped159.sem) 0 ∗ semVal ((thrV d L), SemLoc.dma cc3_scoped160.sem) 0 ∗ semVal ((thrV d L), SemLoc.dma cc3_scoped161.sem) 0)
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q := by
  iintro ⟨Hmw, Hh, Hs, ⟨S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79⟩, B0, B1, B2, B3, B4, ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161⟩, HO, Hk⟩
  iapply (tile_run d L q fh fs hfs fo f0 f1 f2 f3 f4 O W hO Q)
  isplitl [Hmw]; · iexact Hmw
  isplitl [Hh]; · iexact Hh
  isplitl [Hs]; · iexact Hs
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [S40]; · iexact S40
  isplitl [S41]; · iexact S41
  isplitl [S42]; · iexact S42
  isplitl [S43]; · iexact S43
  isplitl [S44]; · iexact S44
  isplitl [S45]; · iexact S45
  isplitl [S46]; · iexact S46
  isplitl [S47]; · iexact S47
  isplitl [S48]; · iexact S48
  isplitl [S49]; · iexact S49
  isplitl [S50]; · iexact S50
  isplitl [S51]; · iexact S51
  isplitl [S52]; · iexact S52
  isplitl [S53]; · iexact S53
  isplitl [S54]; · iexact S54
  isplitl [S55]; · iexact S55
  isplitl [S56]; · iexact S56
  isplitl [S57]; · iexact S57
  isplitl [S58]; · iexact S58
  isplitl [S59]; · iexact S59
  isplitl [S60]; · iexact S60
  isplitl [S61]; · iexact S61
  isplitl [S62]; · iexact S62
  isplitl [S63]; · iexact S63
  isplitl [S64]; · iexact S64
  isplitl [S65]; · iexact S65
  isplitl [S66]; · iexact S66
  isplitl [S67]; · iexact S67
  isplitl [S68]; · iexact S68
  isplitl [S69]; · iexact S69
  isplitl [S70]; · iexact S70
  isplitl [S71]; · iexact S71
  isplitl [S72]; · iexact S72
  isplitl [S73]; · iexact S73
  isplitl [S74]; · iexact S74
  isplitl [S75]; · iexact S75
  isplitl [S76]; · iexact S76
  isplitl [S77]; · iexact S77
  isplitl [S78]; · iexact S78
  isplitl [S79]; · iexact S79
  isplitl [B0]; · iexact B0
  isplitl [B1]; · iexact B1
  isplitl [B2]; · iexact B2
  isplitl [B3]; · iexact B3
  isplitl [B4]; · iexact B4
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C56]; · iexact C56
  isplitl [C57]; · iexact C57
  isplitl [C58]; · iexact C58
  isplitl [C59]; · iexact C59
  isplitl [C60]; · iexact C60
  isplitl [C61]; · iexact C61
  isplitl [C62]; · iexact C62
  isplitl [C63]; · iexact C63
  isplitl [C64]; · iexact C64
  isplitl [C65]; · iexact C65
  isplitl [C66]; · iexact C66
  isplitl [C67]; · iexact C67
  isplitl [C68]; · iexact C68
  isplitl [C69]; · iexact C69
  isplitl [C70]; · iexact C70
  isplitl [C71]; · iexact C71
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  isplitl [C87]; · iexact C87
  isplitl [C88]; · iexact C88
  isplitl [C89]; · iexact C89
  isplitl [C90]; · iexact C90
  isplitl [C91]; · iexact C91
  isplitl [C92]; · iexact C92
  isplitl [C93]; · iexact C93
  isplitl [C94]; · iexact C94
  isplitl [C95]; · iexact C95
  isplitl [C96]; · iexact C96
  isplitl [C97]; · iexact C97
  isplitl [C98]; · iexact C98
  isplitl [C99]; · iexact C99
  isplitl [C100]; · iexact C100
  isplitl [C101]; · iexact C101
  isplitl [C102]; · iexact C102
  isplitl [C103]; · iexact C103
  isplitl [C104]; · iexact C104
  isplitl [C105]; · iexact C105
  isplitl [C106]; · iexact C106
  isplitl [C107]; · iexact C107
  isplitl [C108]; · iexact C108
  isplitl [C109]; · iexact C109
  isplitl [C110]; · iexact C110
  isplitl [C111]; · iexact C111
  isplitl [C112]; · iexact C112
  isplitl [C113]; · iexact C113
  isplitl [C114]; · iexact C114
  isplitl [C115]; · iexact C115
  isplitl [C116]; · iexact C116
  isplitl [C117]; · iexact C117
  isplitl [C118]; · iexact C118
  isplitl [C119]; · iexact C119
  isplitl [C120]; · iexact C120
  isplitl [C121]; · iexact C121
  isplitl [C122]; · iexact C122
  isplitl [C123]; · iexact C123
  isplitl [C124]; · iexact C124
  isplitl [C125]; · iexact C125
  isplitl [C126]; · iexact C126
  isplitl [C127]; · iexact C127
  isplitl [C128]; · iexact C128
  isplitl [C129]; · iexact C129
  isplitl [C130]; · iexact C130
  isplitl [C131]; · iexact C131
  isplitl [C132]; · iexact C132
  isplitl [C133]; · iexact C133
  isplitl [C134]; · iexact C134
  isplitl [C135]; · iexact C135
  isplitl [C136]; · iexact C136
  isplitl [C137]; · iexact C137
  isplitl [C138]; · iexact C138
  isplitl [C139]; · iexact C139
  isplitl [C140]; · iexact C140
  isplitl [C141]; · iexact C141
  isplitl [C142]; · iexact C142
  isplitl [C143]; · iexact C143
  isplitl [C144]; · iexact C144
  isplitl [C145]; · iexact C145
  isplitl [C146]; · iexact C146
  isplitl [C147]; · iexact C147
  isplitl [C148]; · iexact C148
  isplitl [C149]; · iexact C149
  isplitl [C150]; · iexact C150
  isplitl [C151]; · iexact C151
  isplitl [C152]; · iexact C152
  isplitl [C153]; · iexact C153
  isplitl [C154]; · iexact C154
  isplitl [C155]; · iexact C155
  isplitl [C156]; · iexact C156
  isplitl [C157]; · iexact C157
  isplitl [C158]; · iexact C158
  isplitl [C159]; · iexact C159
  isplitl [C160]; · iexact C160
  isplitl [C161]; · iexact C161
  isplitl [HO]; · iexact HO
  iintro ⟨Hh, Hs, S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79, B0, B1, B2, B3, B4, C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161, HO⟩
  iapply Hk
  isplitl [Hh]; · iexact Hh
  isplitl [Hs]; · iexact Hs
  isplitl [S0 S1 S2 S3 S4 S5 S6 S7 S8 S9 S10 S11 S12 S13 S14 S15 S16 S17 S18 S19 S20 S21 S22 S23 S24 S25 S26 S27 S28 S29 S30 S31 S32 S33 S34 S35 S36 S37 S38 S39 S40 S41 S42 S43 S44 S45 S46 S47 S48 S49 S50 S51 S52 S53 S54 S55 S56 S57 S58 S59 S60 S61 S62 S63 S64 S65 S66 S67 S68 S69 S70 S71 S72 S73 S74 S75 S76 S77 S78 S79]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    isplitl [S50]; · iexact S50
    isplitl [S51]; · iexact S51
    isplitl [S52]; · iexact S52
    isplitl [S53]; · iexact S53
    isplitl [S54]; · iexact S54
    isplitl [S55]; · iexact S55
    isplitl [S56]; · iexact S56
    isplitl [S57]; · iexact S57
    isplitl [S58]; · iexact S58
    isplitl [S59]; · iexact S59
    isplitl [S60]; · iexact S60
    isplitl [S61]; · iexact S61
    isplitl [S62]; · iexact S62
    isplitl [S63]; · iexact S63
    isplitl [S64]; · iexact S64
    isplitl [S65]; · iexact S65
    isplitl [S66]; · iexact S66
    isplitl [S67]; · iexact S67
    isplitl [S68]; · iexact S68
    isplitl [S69]; · iexact S69
    isplitl [S70]; · iexact S70
    isplitl [S71]; · iexact S71
    isplitl [S72]; · iexact S72
    isplitl [S73]; · iexact S73
    isplitl [S74]; · iexact S74
    isplitl [S75]; · iexact S75
    isplitl [S76]; · iexact S76
    isplitl [S77]; · iexact S77
    isplitl [S78]; · iexact S78
    iexact S79
  isplitl [B0]; · iexact B0
  isplitl [B1]; · iexact B1
  isplitl [B2]; · iexact B2
  isplitl [B3]; · iexact B3
  isplitl [B4]; · iexact B4
  isplitl [C0 C1 C2 C3 C4 C5 C6 C7 C8 C9 C10 C11 C12 C13 C14 C15 C16 C17 C18 C19 C20 C21 C22 C23 C24 C25 C26 C27 C28 C29 C30 C31 C32 C33 C34 C35 C36 C37 C38 C39 C40 C41 C42 C43 C44 C45 C46 C47 C48 C49 C50 C51 C52 C53 C54 C55 C56 C57 C58 C59 C60 C61 C62 C63 C64 C65 C66 C67 C68 C69 C70 C71 C72 C73 C74 C75 C76 C77 C78 C79 C80 C81 C82 C83 C84 C85 C86 C87 C88 C89 C90 C91 C92 C93 C94 C95 C96 C97 C98 C99 C100 C101 C102 C103 C104 C105 C106 C107 C108 C109 C110 C111 C112 C113 C114 C115 C116 C117 C118 C119 C120 C121 C122 C123 C124 C125 C126 C127 C128 C129 C130 C131 C132 C133 C134 C135 C136 C137 C138 C139 C140 C141 C142 C143 C144 C145 C146 C147 C148 C149 C150 C151 C152 C153 C154 C155 C156 C157 C158 C159 C160 C161]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    isplitl [C27]; · iexact C27
    isplitl [C28]; · iexact C28
    isplitl [C29]; · iexact C29
    isplitl [C30]; · iexact C30
    isplitl [C31]; · iexact C31
    isplitl [C32]; · iexact C32
    isplitl [C33]; · iexact C33
    isplitl [C34]; · iexact C34
    isplitl [C35]; · iexact C35
    isplitl [C36]; · iexact C36
    isplitl [C37]; · iexact C37
    isplitl [C38]; · iexact C38
    isplitl [C39]; · iexact C39
    isplitl [C40]; · iexact C40
    isplitl [C41]; · iexact C41
    isplitl [C42]; · iexact C42
    isplitl [C43]; · iexact C43
    isplitl [C44]; · iexact C44
    isplitl [C45]; · iexact C45
    isplitl [C46]; · iexact C46
    isplitl [C47]; · iexact C47
    isplitl [C48]; · iexact C48
    isplitl [C49]; · iexact C49
    isplitl [C50]; · iexact C50
    isplitl [C51]; · iexact C51
    isplitl [C52]; · iexact C52
    isplitl [C53]; · iexact C53
    isplitl [C54]; · iexact C54
    isplitl [C55]; · iexact C55
    isplitl [C56]; · iexact C56
    isplitl [C57]; · iexact C57
    isplitl [C58]; · iexact C58
    isplitl [C59]; · iexact C59
    isplitl [C60]; · iexact C60
    isplitl [C61]; · iexact C61
    isplitl [C62]; · iexact C62
    isplitl [C63]; · iexact C63
    isplitl [C64]; · iexact C64
    isplitl [C65]; · iexact C65
    isplitl [C66]; · iexact C66
    isplitl [C67]; · iexact C67
    isplitl [C68]; · iexact C68
    isplitl [C69]; · iexact C69
    isplitl [C70]; · iexact C70
    isplitl [C71]; · iexact C71
    isplitl [C72]; · iexact C72
    isplitl [C73]; · iexact C73
    isplitl [C74]; · iexact C74
    isplitl [C75]; · iexact C75
    isplitl [C76]; · iexact C76
    isplitl [C77]; · iexact C77
    isplitl [C78]; · iexact C78
    isplitl [C79]; · iexact C79
    isplitl [C80]; · iexact C80
    isplitl [C81]; · iexact C81
    isplitl [C82]; · iexact C82
    isplitl [C83]; · iexact C83
    isplitl [C84]; · iexact C84
    isplitl [C85]; · iexact C85
    isplitl [C86]; · iexact C86
    isplitl [C87]; · iexact C87
    isplitl [C88]; · iexact C88
    isplitl [C89]; · iexact C89
    isplitl [C90]; · iexact C90
    isplitl [C91]; · iexact C91
    isplitl [C92]; · iexact C92
    isplitl [C93]; · iexact C93
    isplitl [C94]; · iexact C94
    isplitl [C95]; · iexact C95
    isplitl [C96]; · iexact C96
    isplitl [C97]; · iexact C97
    isplitl [C98]; · iexact C98
    isplitl [C99]; · iexact C99
    isplitl [C100]; · iexact C100
    isplitl [C101]; · iexact C101
    isplitl [C102]; · iexact C102
    isplitl [C103]; · iexact C103
    isplitl [C104]; · iexact C104
    isplitl [C105]; · iexact C105
    isplitl [C106]; · iexact C106
    isplitl [C107]; · iexact C107
    isplitl [C108]; · iexact C108
    isplitl [C109]; · iexact C109
    isplitl [C110]; · iexact C110
    isplitl [C111]; · iexact C111
    isplitl [C112]; · iexact C112
    isplitl [C113]; · iexact C113
    isplitl [C114]; · iexact C114
    isplitl [C115]; · iexact C115
    isplitl [C116]; · iexact C116
    isplitl [C117]; · iexact C117
    isplitl [C118]; · iexact C118
    isplitl [C119]; · iexact C119
    isplitl [C120]; · iexact C120
    isplitl [C121]; · iexact C121
    isplitl [C122]; · iexact C122
    isplitl [C123]; · iexact C123
    isplitl [C124]; · iexact C124
    isplitl [C125]; · iexact C125
    isplitl [C126]; · iexact C126
    isplitl [C127]; · iexact C127
    isplitl [C128]; · iexact C128
    isplitl [C129]; · iexact C129
    isplitl [C130]; · iexact C130
    isplitl [C131]; · iexact C131
    isplitl [C132]; · iexact C132
    isplitl [C133]; · iexact C133
    isplitl [C134]; · iexact C134
    isplitl [C135]; · iexact C135
    isplitl [C136]; · iexact C136
    isplitl [C137]; · iexact C137
    isplitl [C138]; · iexact C138
    isplitl [C139]; · iexact C139
    isplitl [C140]; · iexact C140
    isplitl [C141]; · iexact C141
    isplitl [C142]; · iexact C142
    isplitl [C143]; · iexact C143
    isplitl [C144]; · iexact C144
    isplitl [C145]; · iexact C145
    isplitl [C146]; · iexact C146
    isplitl [C147]; · iexact C147
    isplitl [C148]; · iexact C148
    isplitl [C149]; · iexact C149
    isplitl [C150]; · iexact C150
    isplitl [C151]; · iexact C151
    isplitl [C152]; · iexact C152
    isplitl [C153]; · iexact C153
    isplitl [C154]; · iexact C154
    isplitl [C155]; · iexact C155
    isplitl [C156]; · iexact C156
    isplitl [C157]; · iexact C157
    isplitl [C158]; · iexact C158
    isplitl [C159]; · iexact C159
    isplitl [C160]; · iexact C160
    iexact C161
  iexact HO

set_option maxHeartbeats 8000000 in
theorem tile_grouped (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ bigSepL l80 (fun r : Fin 80 => ((oSl L r).view.loc (thrV d L) ↦[(oSl L r).view.set]{fullShare} fo : sProp 𝕄))
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ bigSepL sems1 (fun sm : SemLoc sig => (semVal ((thrV d L), sm) 0 : sProp 𝕄))
      ∗ owes (thrV d L) O W
      ∗ (iprop((hV.view.loc (thrV d L) ↦{q} fh) ∗ (sV.view.loc (thrV d L) ↦{q} fs)
          ∗ bigSepL l80 (fun r : Fin 80 => ((oSl L r).view.loc (thrV d L) ↦[(oSl L r).view.set]{fullShare} gatherRows fh fs : sProp 𝕄))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ bigSepL sems1 (fun sm : SemLoc sig => (semVal ((thrV d L), sm) 0 : sProp 𝕄))
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q :=
  tile_grouped_aux d L q fh fs hfs fo f0 f1 f2 f3 f4 O W hO Q

end Tile

end Cert.Proof.KI.Call1

end
-- ==== Proof.TileOblI2.lean ====
/-
  A task of the second gather call in the launch theorem's form: what the handshake hands it (its shares of the two
  tables, its eighty blocks of the output), its own scratch buffers and transfer counters, in; the same out, the
  blocks at the gathered rows.
-/
import proofs.«207928_g75127567942135_cont_9to1c4b_313_20_alg».proof.Proof.TileGroupI2
import proofs.«207928_g75127567942135_cont_9to1c4b_313_20_alg».proof.Proof.LaunchI
import proofs.«207928_g75127567942135_cont_9to1c4b_313_20_alg».proof.Proof.GatherSpecI

noncomputable section

namespace Cert.Proof.KI.Call1

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## A task's place, and its output chunks as blocks of the partition -/

/-- The grid coordinates of SparseCore `c`'s task `i`. -/
def coordsV (c : Fin (grid3.bound 0)) (s : Fin (grid3.bound 1)) : grid3.Coords :=
  fun | 0 => c | 1 => s | ⟨_ + 2, h⟩ => absurd h (Nat.not_lt.2 (Nat.le_add_left _ _))

theorem bound0 : grid3.bound 0 = 2 := rfl
theorem bound1 : grid3.bound 1 = 16 := rfl
abbrev cL (L : grid3.Coords) : Fin 2 := Fin.cast bound0 (L 0)
abbrev iL (L : grid3.Coords) : Fin 16 := Fin.cast bound1 (L 1)

/-- Chunk `r` of the task at `L` is block `1280 c + 80 i + r`: rows `163840 c + 10240 i + 128 r` on. -/
theorem oRect_eq (L : grid3.Coords) (r : Fin 80) :
    Rect.unit (s := S327680x128) (k3_off2 L (BitVec.ofNat 32 (128 * r.val))) S128x128.size (k3_off2_inb L r) = blk (blkIx (cL L) (iL L) r) := by
  unfold blk Rect.part Rect.block
  congr 1 <;> funext a
  · rw [k3_off2_eq]
    match a with
    | 0 => simp [Shape.partIx, Shape.partSize, blkIx]; omega
    | 1 => simp [Shape.partIx, Shape.partSize]
  · match a with
    | 0 => simp [Shape.partSize]
    | 1 => simp [Shape.partSize]

theorem oSl_set (L : grid3.Coords) (r : Fin 80) : (oSl L r).view.set = (blk (blkIx (cL L) (iL L) r)).set := by
  show ((View.whole (main_v40_scv : Ref sig .scVector)).slice (Rect.unit (s := S327680x128) (k3_off2 L (BitVec.ofNat 32 (128 * r.val))) S128x128.size (k3_off2_inb L r))).set = _
  rw [View.set_slice, oRect_eq]; exact Finset.map_refl

/-! ## The task's own scratch buffers and transfer counters -/

section Own

variable (d : Dev nD) (L : grid3.Coords)

/-- The five scratch buffers of this call are among the subcore's own: they are them, at some contents, and the rest. -/
theorem ownBufs_V1 :
    (ownBufs (thrV d L) : sProp 𝕄)
      = iprop((∃ f, (thrV d L).loc cc3_scratch0 ↦{fullShare} f) ∗ (∃ f, (thrV d L).loc cc3_scratch1 ↦{fullShare} f)
          ∗ (∃ f, (thrV d L).loc cc3_scratch2 ↦{fullShare} f) ∗ (∃ f, (thrV d L).loc cc3_scratch3 ↦{fullShare} f)
          ∗ (∃ f, (thrV d L).loc cc3_scratch4 ↦{fullShare} f)
          ∗ bigSep (((((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2)).erase
              ((Proc.scVector (cV L) (jV L)).devRef cc3_scratch3)).erase ((Proc.scVector (cV L) (jV L)).devRef cc3_scratch4)))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := Proc.scVector (cV L) (jV L)) (b := (Proc.scVector (cV L) (jV L)).devRef cc3_scratch2) rfl⟩⟩),
    SparseCore.bigSep_erase' (Finset.mem_erase.mpr ⟨fun e => absurd (Proc.devRef_injective _ e) (show (cc3_scratch3 : Ref sig .scVector) ≠ cc3_scratch2 by decide),
      Finset.mem_erase.mpr ⟨fun e => absurd (Proc.devRef_injective _ e) (show (cc3_scratch3 : Ref sig .scVector) ≠ cc3_scratch1 by decide),
      Finset.mem_erase.mpr ⟨fun e => absurd (Proc.devRef_injective _ e) (show (cc3_scratch3 : Ref sig .scVector) ≠ cc3_scratch0 by decide),
      SparseCore.Cfg.mem_ownRefs_of_owner (p := Proc.scVector (cV L) (jV L)) (b := (Proc.scVector (cV L) (jV L)).devRef cc3_scratch3) rfl⟩⟩⟩),
    SparseCore.bigSep_erase' (Finset.mem_erase.mpr ⟨fun e => absurd (Proc.devRef_injective _ e) (show (cc3_scratch4 : Ref sig .scVector) ≠ cc3_scratch3 by decide),
      Finset.mem_erase.mpr ⟨fun e => absurd (Proc.devRef_injective _ e) (show (cc3_scratch4 : Ref sig .scVector) ≠ cc3_scratch2 by decide),
      Finset.mem_erase.mpr ⟨fun e => absurd (Proc.devRef_injective _ e) (show (cc3_scratch4 : Ref sig .scVector) ≠ cc3_scratch1 by decide),
      Finset.mem_erase.mpr ⟨fun e => absurd (Proc.devRef_injective _ e) (show (cc3_scratch4 : Ref sig .scVector) ≠ cc3_scratch0 by decide),
      SparseCore.Cfg.mem_ownRefs_of_owner (p := Proc.scVector (cV L) (jV L)) (b := (Proc.scVector (cV L) (jV L)).devRef cc3_scratch4) rfl⟩⟩⟩⟩)]

/-- The scoped semaphores of a vector subcore that are not this call's kernel's. -/
def restSems : Finset (SemLoc sig) := (Finset.univ.filter fun sm : SemLoc sig => sm.isScoped .scVector) \ (sems1 : List (SemLoc sig)).toFinset

theorem sems1_nodup : (sems1 : List (SemLoc sig)).Nodup := by decide +kernel
theorem sems1_sub : (sems1 : List (SemLoc sig)).toFinset ⊆ Finset.univ.filter fun sm : SemLoc sig => sm.isScoped .scVector := by decide +kernel

/-- The subcore's own transfer counters at zero: this call's kernel's, listed, and the rest. -/
theorem ownSems0_V1 :
    (ownSems0 (thrV d L) : sProp 𝕄)
      = iprop(bigSepL sems1 (fun sm : SemLoc sig => (semVal ((thrV d L), sm) 0 : sProp 𝕄)) ∗ bigSep restSems fun sm => semVal ((thrV d L), sm) 0) := by
  rw [SparseCore.Cfg.ownSems0_eq]
  show bigSep (Finset.univ.filter fun sm : SemLoc sig => sm.isScoped .scVector) _ = _
  conv_lhs => rw [← Finset.union_sdiff_of_subset sems1_sub]
  rw [bigSep_union Finset.disjoint_sdiff, bigSep_eq_bigSepL sems1 sems1_nodup]
  rfl

end Own

/-! ## The task's blocks as its chunks -/

section Blocks

variable (d : Dev nD) (c : Fin 2) (i : Fin 16)

theorem l80_univ : (Finset.univ : Finset (Fin 80)) = (l80 : List (Fin 80)).toFinset := by decide +kernel
theorem l80_nodup : (l80 : List (Fin 80)).Nodup := by decide +kernel

/-- The task's eighty blocks of the output, held block by block at `g`, are its eighty chunks as the kernel slices them. -/
theorem blocks_eq (g : Buf (Elt F) (oLoc1 d)) :
    (bigSep Finset.univ fun r : Fin 80 => (oLoc1 d ↦[(blk (blkIx c i r)).set]{fullShare} g : sProp 𝕄))
      = bigSepL l80 (fun r : Fin 80 => ((oSl (coordsV c i) r).view.loc (thrV d (coordsV c i)) ↦[(oSl (coordsV c i) r).view.set]{fullShare} g : sProp 𝕄)) := by
  rw [bigSep_univ_eq_bigSepL l80 l80_univ l80_nodup]
  exact congrArg (bigSepL l80) (funext fun r => by rw [oSl_set]; rfl)

end Blocks

/-! ## The task, from what the handshake hands it to what it hands back -/

section Body

variable (fh1 : (d : Dev nD) → Buf (Elt F) (hLoc1 d)) (fs : (d : Dev nD) → Buf (Elt F) (sLoc d)) (fo1 : (d : Dev nD) → Buf (Elt F) (oLoc1 d))

set_option maxHeartbeats 4000000 in
/-- One task of the second gather call: from its shares of the two tables and its eighty blocks at the output's prior contents, its own
    buffers and counters, and what it owes, the kernel runs to its end with the blocks at the gathered rows and everything else back. -/
theorem tile_body1 (d : Dev nD) (c : Fin 2) (i : Fin 16) (hfs : ∀ j, ((fs d) j).toNat < 10240)
    (O : CellTallies nD τ sig (HIx 2)) (W : Waits sig (HIx 2)) (hO : ∀ g, O g none = 0) :
    iprop(levAts (K (F := F)).L (K (F := F)).lev ∗ emp ∗ taskPay1 fh1 fs d c i (fo1 d)
        ∗ scopedBufs (thrV d (coordsV c i)) ∗ scopedSems0 (thrV d (coordsV c i)) ∗ owes (thrV d (coordsV c i)) O W)
      ⊢ wp frame (wpE (defs₀ (F := F)) 𝒱₀ (thrV d (coordsV c i)) none) Set.univ
          (cc3__gather_kernel (coordsV c i) hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161)
          fun _ => iprop(taskPay1 fh1 fs d c i (gatherRows (fh1 d) (fs d)) ∗ scopedBufs (thrV d (coordsV c i)) ∗ scopedSems0 (thrV d (coordsV c i))
            ∗ ∃ W', ⌜∀ p ∈ W', p ∈ W ∨ p.2 = none⌝ ∗ owes (thrV d (coordsV c i)) O W') := by
  rw [(K (F := F)).scopedBufs_V facts d (cV (coordsV c i)) (jV (coordsV c i)), SparseCore.Cfg.scopedSems0_V (Val := Elt F) d (cV (coordsV c i)) (jV (coordsV c i)),
    ownSems0_V1, ownBufs_V1]
  unfold taskPay1
  rw [blocks_eq d c i (fo1 d), blocks_eq d c i (gatherRows (fh1 d) (fs d))]
  iintro ⟨#Hlv, -, ⟨Hh, Hs, Hbl⟩, ⟨⟨%f0, B0⟩, ⟨%f1, B1⟩, ⟨%f2, B2⟩, ⟨%f3, B3⟩, ⟨%f4, B4⟩, Hbufs⟩, ⟨Hsems, Hsrest⟩, HO⟩
  ihave Hmw := ((K (F := F)).mayWaits_none (thr := thrV d (coordsV c i)) hO) $$ Hlv
  iapply (tile_grouped d (coordsV c i) (qT c i) (fh1 d) (fs d) hfs (fo1 d) f0 f1 f2 f3 f4 O W hO _)
  isplitl [Hmw]; · iexact Hmw
  isplitl [Hh]; · iexact Hh
  isplitl [Hs]; · iexact Hs
  isplitl [Hbl]; · iexact Hbl
  isplitl [B0]; · iexact B0
  isplitl [B1]; · iexact B1
  isplitl [B2]; · iexact B2
  isplitl [B3]; · iexact B3
  isplitl [B4]; · iexact B4
  isplitl [Hsems]; · iexact Hsems
  isplitl [HO]; · iexact HO
  iintro ⟨Hh, Hs, Hbl, ⟨%e0, B0⟩, ⟨%e1, B1⟩, ⟨%e2, B2⟩, ⟨%e3, B3⟩, ⟨%e4, B4⟩, Hsems, HO⟩
  isplitl [Hh Hs Hbl]
  · isplitl [Hh]; · iexact Hh
    isplitl [Hs]; · iexact Hs
    iexact Hbl
  isplitl [B0 B1 B2 B3 B4 Hbufs]
  · isplitl [B0]; · iexists _; iexact B0
    isplitl [B1]; · iexists _; iexact B1
    isplitl [B2]; · iexists _; iexact B2
    isplitl [B3]; · iexists _; iexact B3
    isplitl [B4]; · iexists _; iexact B4
    iexact Hbufs
  isplitl [Hsems Hsrest]
  · isplitl [Hsems]; · iexact Hsems
    iexact Hsrest
  iexact HO

end Body

/-! ## The launch theorem's obligation -/

section Obl

variable (fh0 : (d : Dev nD) → Buf (Elt F) (Cert.Proof.KI.hLoc0 d)) (fh1 : (d : Dev nD) → Buf (Elt F) (hLoc1 d)) (fs : (d : Dev nD) → Buf (Elt F) (sLoc d))
  (fo0 fo0' : (d : Dev nD) → Buf (Elt F) (Cert.Proof.KI.oLoc0 d)) (fo1 : (d : Dev nD) → Buf (Elt F) (oLoc1 d))

theorem defs₀_vector3 (c : Fin τ.nSC) (s : Fin τ.nSub) :
    defs₀ (F := F) (.scVector c s) 3 ()
      = SparseCore.onTile hcore3 hsub3 (fun c s => cc3__gather_kernel (coordsV c s) hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 4000000 in
/-- The second gather call's tasks, in the launch theorem's form, at payloads whose output comes back at the gathered rows. -/
theorem tileObl1 (hfs : ∀ d j, ((fs d) j).toNat < 10240) :
    (K (F := F)).TileObl (D (F := F)) 𝒱 (P fh0 fh1 fs fo0 fo0' fo1 (fun d => gatherRows (fh1 d) (fs d))) v₀ 1 := by
  intro d c i O W hO _ _
  simp only [show (P fh0 fh1 fs fo0 fo0' fo1 (fun d => gatherRows (fh1 d) (fs d))).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  exact (tile_body1 fh1 fs fo1 d c i (hfs d) O W hO).trans (wp_mono frame _ _ fun _ => obl_post)

end Obl

end Cert.Proof.KI.Call1

end
-- ==== Proof.IndexRangeI.lean ====
/-
  Two integer facts about the idealized kernel's edge words, at any float instance. The certificate's precondition ends
  in "every entry of the edge table is at least 0 and at most 9999", the comparisons signed: read back, every entry
  read unsigned is at most 9999. And the source table the gather calls read — the first row of the edge table,
  followed by 7680 copies of the word 10000, reshaped to 2560 x 128 — then holds only words below 10240.
-/
import proofs.«207928_g75127567942135_cont_9to1c4b_313_20_alg».proof.Proof.MainShapeI
import proofs.«207928_g75127567942135_cont_9to1c4b_313_20_alg».proof.Pre_input_domain
import Idealize.ShloMosaic.Lib.ReduceAll
import Idealize.ShloMosaic.Lib.StableHlo.Run
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]

/-! ## A word between 0 and 9999, read signed, is at most 9999 read unsigned -/

theorem toNat_le_of_toInt {b : BitVec 32} (h0 : (0 : ℤ) ≤ b.toInt) (h1 : b.toInt ≤ 9999) : b.toNat ≤ 9999 := by
  rw [BitVec.toInt_eq_toNat_cond] at h0 h1
  have hlt := b.isLt
  by_cases hc : 2 * b.toNat < 2 ^ 32
  · rw [if_pos hc] at h1; omega
  · rw [if_neg hc] at h0; omega

/-! ## The precondition's last conjunct, read back -/

/-- Under the certificate's precondition every entry of the edge table, read unsigned, is at most 9999: the
    predicate's result is the conjunction of its parts; the last part is an "all" over the table of "entry ≥ 0 and
    entry ≤ 9999", signed. -/
theorem arg1_le_of_pre [Cert.Pre_input_domain.Facts] (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1))
    (c : Dev nD) : ∀ j, ((m ((c.tc : Thread nD τ).loc main_arg1) : IVec S2x320000 32) j).toNat ≤ 9999 := by
  intro j
  have h := congrFun (hpre c) (fun a => a.elim0)
  unfold Cert.Pre_input_domain.fn Cert.Pre_input_domain.fn_part1 at h
  change IntOp.andi _ _ = 1#1 at h
  have h29 := (IntOp.andi_eq_one.1 h).2
  have h28 := Host.reduce_andi_all _ _ _ _ _ h29 j
  change IntOp.andi _ _ = 1#1 at h28
  obtain ⟨hge, hle⟩ := IntOp.andi_eq_one.1 h28
  have h0 : (0#32 : BitVec 32).toInt ≤ ((m ((c.tc : Thread nD τ).loc main_arg1) : IVec S2x320000 32) j).toInt := IntOp.cmpi_sge.1 hge
  have h1 : ((m ((c.tc : Thread nD τ).loc main_arg1) : IVec S2x320000 32) j).toInt ≤ (9999#32 : BitVec 32).toInt := IntOp.cmpi_sle.1 hle
  have e0 : (0 : ℤ) = (0#32 : BitVec 32).toInt := by decide
  have e1 : (9999#32 : BitVec 32).toInt = 9999 := by decide
  exact toNat_le_of_toInt (le_trans (le_of_eq e0) h0) (le_trans h1 (le_of_eq e1))

/-! ## Two arrays laid end to end, read at an index -/

/-- The 320000 words `a` followed by the 7680 words `b`, at position `j`: `a` at `j` below 320000, `b` at `j - 320000`
    from there on. -/
theorem concat2_apply {α : Type} (a : S320000.Idx → α) (b : S7680.Idx → α) (j : S327680.Idx) :
    concatenate S327680 0 [⟨S320000, a⟩, ⟨S7680, b⟩] concatenates_S320000_S7680_S327680_d0 j
      = if hlt : (j 0).val < 320000 then a (ix1 (⟨(j 0).val, hlt⟩ : Fin 320000))
        else b (ix1 (⟨(j 0).val - 320000, by have := (j 0).isLt; have h : (j 0).val < 327680 := this; omega⟩ : Fin 7680)) := by
  split
  · rename_i hlt
    exact concatenate_apply_piece (t := S327680) (0 : Fin S327680.rank) [⟨S320000, a⟩, ⟨S7680, b⟩] concatenates_S320000_S7680_S327680_d0 j 0 (by simp) S320000 a rfl rfl 0 rfl
      (ix1 (⟨(j 0).val, hlt⟩ : Fin 320000)) (fun b hb => absurd (Subsingleton.elim _ _) hb) (by simp)
  · rename_i hlt
    exact concatenate_apply_piece (t := S327680) (0 : Fin S327680.rank) [⟨S320000, a⟩, ⟨S7680, b⟩] concatenates_S320000_S7680_S327680_d0 j 1 (by simp) S7680 b rfl rfl 320000 rfl
      (ix1 (⟨(j 0).val - 320000, by have := (j 0).isLt; have h : (j 0).val < 327680 := this; omega⟩ : Fin 7680))
      (fun b hb => absurd (Subsingleton.elim _ _) hb) (by show 320000 + ((j 0).val - 320000) = (j 0).val; omega)

/-! ## The source table -/

/-- Words at most 9999 followed by copies of the word 10000: every entry is below 10240. -/
theorem concat2_lt (a : S320000.Idx → BitVec 32) (b : S7680.Idx → BitVec 32) (ha : ∀ i, (a i).toNat ≤ 9999)
    (hb : ∀ i, b i = 10000#32) (j : S327680.Idx) :
    (concatenate S327680 0 [⟨S320000, a⟩, ⟨S7680, b⟩] concatenates_S320000_S7680_S327680_d0 j).toNat < 10240 := by
  rw [concat2_apply]
  split
  · exact lt_of_le_of_lt (ha _) (by decide)
  · rw [hb]; decide

set_option maxHeartbeats 4000000 in
/-- What the first host stretch leaves in the source table, as a term over the edge table. -/
theorem opsA_v6 (V : Valuation τ sig (Elt F)) :
    after (opsA (F := F)) V (Proc.devRef .tc main_v6 : DevRef τ sig)
      = shapeCast S2560x128
          (concatenate S327680 0
            [⟨S320000, shapeCast S320000 (extractStridedSlice S1x320000 ![0, 0] (V (Proc.devRef .tc main_arg1 : DevRef τ sig) : IVec S2x320000 32)
                slices_S2x320000_S1x320000_0_0) shapeCasts_S1x320000_S320000⟩,
             ⟨S7680, broadcastInDim S7680 ![] bcast_S_S7680 (constantI S_ 32 10000#32)⟩]
            concatenates_S320000_S7680_S327680_d0) shapeCasts_S327680_S2560x128 := by
  after_results; all_goals rfl

/-- Every entry of the source table is below 10240, where every entry of the edge table is at most 9999: an entry is
    an edge word or the word 10000. -/
theorem opsA_v6_lt (V : Valuation τ sig (Elt F))
    (h : ∀ j, ((V (Proc.devRef .tc main_arg1 : DevRef τ sig) : IVec S2x320000 32) j).toNat ≤ 9999) :
    ∀ j, ((after (opsA (F := F)) V (Proc.devRef .tc main_v6 : DevRef τ sig) : IVec S2560x128 32) j).toNat < 10240 := by
  intro j
  rw [opsA_v6]
  exact concat2_lt _ _ (fun i => h _) (fun i => rfl) _

end Cert.Proof.KI

end
-- ==== Proof.FramesI.lean ====
/-
  The idealized kernel program's run in the claims' shapes: the two gather calls leave the gathered rows, the padded
  index table is in range under the certificate's precondition, so the launch applies; the six arguments end as
  launched (the frame), and the result buffer ends at the fold's value.
-/
import proofs.«207928_g75127567942135_cont_9to1c4b_313_20_alg».proof.Proof.RunI
import proofs.«207928_g75127567942135_cont_9to1c4b_313_20_alg».proof.Proof.TileOblI
import proofs.«207928_g75127567942135_cont_9to1c4b_313_20_alg».proof.Proof.TileOblI2
import proofs.«207928_g75127567942135_cont_9to1c4b_313_20_alg».proof.Proof.IndexRangeI

noncomputable section

namespace Cert.Proof.KI

open Cert.KernelIdeal Cert.KernelIdeal.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.Sem

variable {F : FTy → Type} [FloatOps F] [∀ e, Nonempty (Elt F e)] [Cert.Pre_input_domain.Facts]

variable (m : (ℓ : Loc nD τ sig) → Buf (Elt F) ℓ) (ρ : Dev nD → PrngReg)

/-- What the first gather call leaves: the rows of the scaled features at the padded index table; -/
abbrev g0v (d : Dev nD) : Buf (Elt F) (oLoc0 d) := gatherRows (Wc m d h0') (Wc m d s')
/-- and the second: the rows of the hidden layer at the same table. -/
abbrev g1v (d : Dev nD) : Buf (Elt F) (oLoc1 d) := gatherRows (Wf m (g0v m) d h1') (Wc m d s')

/-- Under the precondition every entry of the padded index table names a row of the 10240-row tables: an edge word is at most 9999, a padding
    entry is 10000. -/
theorem Wc_s_lt (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) (d : Dev nD) : ∀ j, ((Wc m d s') j).toNat < 10240 := by
  have h2 := opsA_v6_lt (Wa m d) (arg1_le_of_pre m hpre d)
  show ∀ j, ((Wx0 (Wb m) d s') j).toNat < 10240
  rw [Wx0_v6]; exact h2

/-- The run: every weakly fair execution of the device's threads ends, nothing faulting, with every TensorCore buffer at the fold's last contents. -/
theorem run (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) :
    θ_run (Cert.KernelIdeal.defs (F := F)) (Cert.KernelIdeal.threads (F := F)) ⟨m, fun _ => 0, ρ⟩ (QC m (g0v m) (g1v m)) :=
  run_main m ρ (g0v m) (g1v m)
    (tileObl0 (fun d => Wc m d h0') (fun d => Wf m (g0v m) d h1') (fun d => Wc m d s') (fun d => Wc m d o0') (fun d => Wf m (g0v m) d o1') (g1v m) (Wc_s_lt m hpre))
    (Call1.tileObl1 (fun d => Wc m d h0') (fun d => Wf m (g0v m) d h1') (fun d => Wc m d s') (fun d => Wc m d o0') (g0v m) (fun d => Wf m (g0v m) d o1') (Wc_s_lt m hpre))

/-- The frame: the six argument arrays end as launched. -/
theorem frame (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.KernelIdeal.defs _ _).mono (fun r h c => frame_of_run m (g0v m) (g1v m) r h c) (run m ρ hpre)

end Cert.Proof.KI

end
-- ==== Proof.SetupB.lean ====
/-
  The word-level kernel program as the SparseCore launch theorem reads it: two vector-subcore calls (the same
  row-gather, once per layer) beside three TensorCore pipelines, one body table over both, and the resource
  algebra of the proof: the handshakes' rounds beside plain transfer counters (every transfer of the gather
  kernel is local to its tile, alone on its semaphore and waited for before the next is issued, so the kernel's
  own semaphores need no schedule).
-/
import proofs.«207928_g75127567942135_cont_9to1c4b_313_20_alg».proof.Defs
import Idealize.ShloMosaic.Lib.SparseCore.Launch
import Idealize.ShloMosaic.Lib.SparseCore.Ops
import Idealize.ShloMosaic.Lib.StableHlo.Run
import Idealize.ShloMosaic.Lib.Tactic
import proofs.«207928_g75127567942135_cont_9to1c4b_313_20_alg».proof.Proof.Gen.Kernel
import proofs.«207928_g75127567942135_cont_9to1c4b_313_20_alg».proof.Proof.Gen.Kernel.Skeleton
import proofs.«207928_g75127567942135_cont_9to1c4b_313_20_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nSub_zero : (K (F := F)).nSub 0 = 16 := rfl
theorem nSub_one : (K (F := F)).nSub 1 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := UR sig nD τ
abbrev UU : Type := UH × (UP × Counters)

/-- The handshakes' component: the left factor. -/
abbrev EH : Emb UH (MT nD τ sig (HIx 2) (Elt F) ℕ UU ℕ) := embL

/-- The three pipelines' staging cells' component: the left of the right factor (the counters are the right of it, found by instance). -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP (MT nD τ sig (HIx 2) (Elt F) ℕ UU ℕ)).LandsIn (upEmb : UEmb _ (MT nD τ sig (HIx 2) (Elt F) ℕ UU ℕ)) := by
  unfold EP embR; infer_instance

end Cert.Proof.KB

end
-- ==== Proof.LaunchB.lean ====
/-
  The launch of the word-level kernel program: what the two gather calls' handshakes carry (each SparseCore a read
  share of the table of rows and of the index table, and the output rows its sixteen tasks write; each task its
  share and its eighty blocks of 128 output rows), the launch element (the handshakes' rounds, the three pipelines'
  staging cells' ghost state, nothing for the gather kernel's own semaphores: its transfers need no schedule),
  and the run of every thread from it.
-/
import proofs.«207928_g75127567942135_cont_9to1c4b_313_20_alg».proof.Proof.SetupB
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The arrays the two gather calls read and write -/

abbrev sLoc (d : Dev nD) : Loc nD τ sig := (SparseCore.T d).loc main_v6

/-- Block `b` of 128 consecutive output rows, `b < 2560`: task `(c, i)` writes blocks `1280 c + 80 i + r`, `r < 80`. -/
theorem hdiv : 2560 ∣ S327680x128.size 0 := ⟨128, rfl⟩
abbrev blk (b : Fin 2560) : Rect S327680x128 := Rect.part (s := S327680x128) (a₀ := 0) hdiv b

theorem blkIx_lt (c : Fin 2) (i : Fin 16) (r : Fin 80) : 1280 * c.val + 80 * i.val + r.val < 2560 := by omega
abbrev blkIx (c : Fin 2) (i : Fin 16) (r : Fin 80) : Fin 2560 := ⟨1280 * c.val + 80 * i.val + r.val, blkIx_lt c i r⟩

/-- A SparseCore's read share of an array the TensorCore holds whole, and a task's share of that. -/
abbrev qC (c : Fin 2) : PosShare TreeShare := Transfers.shareTok fullShare 2 c
abbrev qT (c : Fin 2) (i : Fin 16) : PosShare TreeShare := Transfers.shareTok (qC c) 16 i

/-! ### Call 0: rows of `main_v33` gathered into `main_v34` -/

abbrev hLoc0 (d : Dev nD) : Loc nD τ sig := (SparseCore.T d).loc main_v33
abbrev oLoc0 (d : Dev nD) : Loc nD τ sig := (SparseCore.T d).loc main_v34

/-- What a task holds of the call's arrays: its shares of the two tables, and its eighty blocks of the output at `g`. -/
def taskPay0 (fh : (d : Dev nD) → Buf (Elt F) (hLoc0 d)) (fs : (d : Dev nD) → Buf (Elt F) (sLoc d))
    (d : Dev nD) (c : Fin 2) (i : Fin 16) (g : Buf (Elt F) (oLoc0 d)) : sProp 𝕄 :=
  iprop((hLoc0 d ↦{qT c i} fh d) ∗ (sLoc d ↦{qT c i} fs d)
    ∗ bigSep Finset.univ fun r : Fin 80 => oLoc0 d ↦[(blk (blkIx c i r)).set]{fullShare} g)

/-- What a SparseCore holds of them: its shares, and its sixteen tasks' blocks. -/
def corePay0 (fh : (d : Dev nD) → Buf (Elt F) (hLoc0 d)) (fs : (d : Dev nD) → Buf (Elt F) (sLoc d))
    (d : Dev nD) (c : Fin 2) (g : Buf (Elt F) (oLoc0 d)) : sProp 𝕄 :=
  iprop((hLoc0 d ↦{qC c} fh d) ∗ (sLoc d ↦{qC c} fs d)
    ∗ bigSep Finset.univ fun i : Fin 16 => bigSep Finset.univ fun r : Fin 80 => oLoc0 d ↦[(blk (blkIx c i r)).set]{fullShare} g)

/-! ### Call 1: rows of `main_v39` gathered into `main_v40` -/

abbrev hLoc1 (d : Dev nD) : Loc nD τ sig := (SparseCore.T d).loc main_v39
abbrev oLoc1 (d : Dev nD) : Loc nD τ sig := (SparseCore.T d).loc main_v40

/-- What a task holds of the call's arrays: its shares of the two tables, and its eighty blocks of the output at `g`. -/
def taskPay1 (fh : (d : Dev nD) → Buf (Elt F) (hLoc1 d)) (fs : (d : Dev nD) → Buf (Elt F) (sLoc d))
    (d : Dev nD) (c : Fin 2) (i : Fin 16) (g : Buf (Elt F) (oLoc1 d)) : sProp 𝕄 :=
  iprop((hLoc1 d ↦{qT c i} fh d) ∗ (sLoc d ↦{qT c i} fs d)
    ∗ bigSep Finset.univ fun r : Fin 80 => oLoc1 d ↦[(blk (blkIx c i r)).set]{fullShare} g)

/-- What a SparseCore holds of them: its shares, and its sixteen tasks' blocks. -/
def corePay1 (fh : (d : Dev nD) → Buf (Elt F) (hLoc1 d)) (fs : (d : Dev nD) → Buf (Elt F) (sLoc d))
    (d : Dev nD) (c : Fin 2) (g : Buf (Elt F) (oLoc1 d)) : sProp 𝕄 :=
  iprop((hLoc1 d ↦{qC c} fh d) ∗ (sLoc d ↦{qC c} fs d)
    ∗ bigSep Finset.univ fun i : Fin 16 => bigSep Finset.univ fun r : Fin 80 => oLoc1 d ↦[(blk (blkIx c i r)).set]{fullShare} g)

section Pay

variable (fh0 : (d : Dev nD) → Buf (Elt F) (hLoc0 d)) (fh1 : (d : Dev nD) → Buf (Elt F) (hLoc1 d)) (fs : (d : Dev nD) → Buf (Elt F) (sLoc d))
  (fo0 fo0' : (d : Dev nD) → Buf (Elt F) (oLoc0 d)) (fo1 fo1' : (d : Dev nD) → Buf (Elt F) (oLoc1 d))

theorem nCore_eq (q : Fin 2) : (K (F := F)).nCore q = 2 := by fin_cases q <;> rfl
theorem nSub_eq (q : Fin 2) : (K (F := F)).nSub q = 16 := by fin_cases q <;> rfl

/-- The handshakes' payloads: each call's output at `fo` going in, at `fo'` coming back; nothing for the kernel's own semaphores. -/
def P : (K (F := F)).Pay (nD := nD) (Val := Elt F) (Name := ℕ) (U := UU) where
  st := fun q d c => match q with
    | 0 => corePay0 fh0 fs d c (fo0 d)
    | 1 => corePay1 fh1 fs d c (fo1 d)
  dn := fun q d c => match q with
    | 0 => corePay0 fh0 fs d c (fo0' d)
    | 1 => corePay1 fh1 fs d c (fo1' d)
  go := fun q d c i => match q with
    | 0 => taskPay0 fh0 fs d c i (fo0 d)
    | 1 => taskPay1 fh1 fs d c i (fo1 d)
  td := fun q d c i => match q with
    | 0 => taskPay0 fh0 fs d c i (fo0' d)
    | 1 => taskPay1 fh1 fs d c i (fo1' d)
  x := fun _ _ => iprop(emp)

instance P_storable : (P (F := F) fh0 fh1 fs fo0 fo0' fo1 fo1').IsStorable where
  st q d c := match q with
    | 0 => by unfold P corePay0; infer_instance
    | 1 => by unfold P corePay1; infer_instance
  dn q d c := match q with
    | 0 => by unfold P corePay0; infer_instance
    | 1 => by unfold P corePay1; infer_instance
  go q d c i := match q with
    | 0 => by unfold P taskPay0; infer_instance
    | 1 => by unfold P taskPay1; infer_instance
  td q d c i := match q with
    | 0 => by unfold P taskPay0; infer_instance
    | 1 => by unfold P taskPay1; infer_instance

/-- Call 0: a SparseCore's shares split sixteen ways among its tasks (the remainders wait in the hand that will put them back), its blocks
    task by task; the tasks' shares and blocks join back the same way. -/
theorem vecSplit0 : (K (F := F)).VecSplit' (P fh0 fh1 fs fo0 fo0' fo1 fo1') 0 := by
  intro d c
  show corePay0 fh0 fs d c (fo0 d) ⊢ |={Set.univ}=> iprop((bigSep Finset.univ fun i : Fin 16 => taskPay0 fh0 fs d c i (fo0 d))
    ∗ ((bigSep Finset.univ fun i : Fin 16 => taskPay0 fh0 fs d c i (fo0' d)) -∗ corePay0 fh0 fs d c (fo0' d)))
  unfold corePay0 taskPay0
  rw [bigSep_sep', bigSep_sep', bigSep_sep', bigSep_sep']
  iintro ⟨Hh, Hs, Ho⟩
  ihave Hh' := (Transfers.pointsTo_toks_split (qC c) 16) $$ Hh
  icases Hh' with ⟨Hhr, Hht⟩
  ihave Hs' := (Transfers.pointsTo_toks_split (qC c) 16) $$ Hs
  icases Hs' with ⟨Hsr, Hst⟩
  imodintro
  isplitl [Hht Hst Ho]
  · isplitl [Hht]; · iexact Hht
    isplitl [Hst]; · iexact Hst
    iexact Ho
  iintro ⟨Hht, Hst, Ho⟩
  isplitl [Hhr Hht]
  · iapply (Transfers.pointsTo_toks_join (qC c) 16); isplitl [Hhr] <;> iassumption
  isplitl [Hsr Hst]
  · iapply (Transfers.pointsTo_toks_join (qC c) 16); isplitl [Hsr] <;> iassumption
  iexact Ho

/-- Call 1: a SparseCore's shares split sixteen ways among its tasks (the remainders wait in the hand that will put them back), its blocks
    task by task; the tasks' shares and blocks join back the same way. -/
theorem vecSplit1 : (K (F := F)).VecSplit' (P fh0 fh1 fs fo0 fo0' fo1 fo1') 1 := by
  intro d c
  show corePay1 fh1 fs d c (fo1 d) ⊢ |={Set.univ}=> iprop((bigSep Finset.univ fun i : Fin 16 => taskPay1 fh1 fs d c i (fo1 d))
    ∗ ((bigSep Finset.univ fun i : Fin 16 => taskPay1 fh1 fs d c i (fo1' d)) -∗ corePay1 fh1 fs d c (fo1' d)))
  unfold corePay1 taskPay1
  rw [bigSep_sep', bigSep_sep', bigSep_sep', bigSep_sep']
  iintro ⟨Hh, Hs, Ho⟩
  ihave Hh' := (Transfers.pointsTo_toks_split (qC c) 16) $$ Hh
  icases Hh' with ⟨Hhr, Hht⟩
  ihave Hs' := (Transfers.pointsTo_toks_split (qC c) 16) $$ Hs
  icases Hs' with ⟨Hsr, Hst⟩
  imodintro
  isplitl [Hht Hst Ho]
  · isplitl [Hht]; · iexact Hht
    isplitl [Hst]; · iexact Hst
    iexact Ho
  iintro ⟨Hht, Hst, Ho⟩
  isplitl [Hhr Hht]
  · iapply (Transfers.pointsTo_toks_join (qC c) 16); isplitl [Hhr] <;> iassumption
  isplitl [Hsr Hst]
  · iapply (Transfers.pointsTo_toks_join (qC c) 16); isplitl [Hsr] <;> iassumption
  iexact Ho

/-! ## The launch element -/

/-- No pipeline has a prefetched table. -/
abbrev adm : (p : Fin 3) → (pcfgs (F := F) p).Adm := fun p => (cfgs p).toPCfg_adm

/-- The handshakes' rounds at their launch state; the three pipelines' staging cells' rounds at theirs; the transfers' counters' unit. -/
def u₀ : UU := (initOf (K (F := F)).hsCells (K (F := F)).hsToks, (initOf (Pipeline.cells cfgs cellOf_inj) (Pipeline.launchToks cfgs cellOf_inj), 1))

/-- What @main's proof starts from beside the launch's deal: each pipeline's staging cells' ghost state and duty tokens, from which a
    region allocates its cells' invariants when it is entered. -/
def G (d : Dev nD) : sProp 𝕄 :=
  bigSep Finset.univ fun p : Fin 3 => iprop(Pipeline.cellsGhost (Pipeline.pin (pcfgs (F := F)) adm) EP p d ∗ Pipeline.toksInit (Pipeline.pin (pcfgs (F := F)) adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P fh0 fh1 fs fo0 fo0' fo1 fo1').x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (show (BI.own (((Emb.inl : Emb UP (UP × Counters)).trans (embR : Emb (UP × Counters) 𝕄))
        (initOf (Pipeline.cells cfgs cellOf_inj) (Pipeline.launchToks cfgs cellOf_inj))) : sProp 𝕄)
      ⊢ BI.own ((EP (F := F)) (initOf (Pipeline.cells cfgs cellOf_inj) (Pipeline.launchToks cfgs cellOf_inj))) from .rfl) $$ HP
  imod (Pipeline.fund_ghost (cfgs) (EP (F := F)) cellOf_inj) $$ HP' with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Pay

end Cert.Proof.KB

end
-- ==== Proof.BlocksB.lean ====
/-
  An array of 327680 rows held whole is its 2560 blocks of 128 consecutive rows held block by block; block
  `1280 c + 80 i + r` is chunk `r` of task `i` of SparseCore `c`, and `(c, i, r) ↦ 1280 c + 80 i + r` is a
  bijection from `2 × 16 × 80` onto the blocks, so the blocks regroup by SparseCore, task and chunk.
-/
import proofs.«207928_g75127567942135_cont_9to1c4b_313_20_alg».proof.Proof.LaunchB

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

theorem blks_disjoint : ∀ a ∈ (Finset.univ : Finset (Fin 2560)), ∀ b ∈ (Finset.univ : Finset (Fin 2560)), a ≠ b → Disjoint (blk a).set (blk b).set :=
  fun _ _ _ _ h => Rect.part_disjoint hdiv h

theorem blks_cover : (Finset.univ : Finset (Fin 2560)).biUnion (fun b => (blk b).set) = Finset.univ := Rect.biUnion_part hdiv

/-- The index of a block from its SparseCore, task and chunk, as one function of the triple. -/
def blkOf (x : Fin 2 × Fin 16 × Fin 80) : Fin 2560 := blkIx x.1 x.2.1 x.2.2

theorem blkOf_injective : Function.Injective blkOf := by
  rintro ⟨c, i, r⟩ ⟨c', i', r'⟩ h
  have h' : 1280 * c.val + 80 * i.val + r.val = 1280 * c'.val + 80 * i'.val + r'.val := congrArg Fin.val h
  have hc : c.val = c'.val := by omega
  have hi : i.val = i'.val := by omega
  have hr : r.val = r'.val := by omega
  exact Prod.ext (Fin.ext hc) (Prod.ext (Fin.ext hi) (Fin.ext hr))

theorem blkOf_image : (Finset.univ : Finset (Fin 2 × Fin 16 × Fin 80)).image blkOf = Finset.univ :=
  Finset.eq_univ_of_card _ (by rw [Finset.card_image_of_injective _ blkOf_injective]; simp)

/-- A family over the blocks, regrouped by SparseCore, task and chunk. -/
theorem bigSep_blks (Φ : Fin 2560 → sProp 𝕄) :
    bigSep Finset.univ Φ = bigSep Finset.univ fun c : Fin 2 => bigSep Finset.univ fun i : Fin 16 => bigSep Finset.univ fun r : Fin 80 => Φ (blkIx c i r) := by
  rw [← blkOf_image, SparseCore.bigSep_image_of_injOn (blkOf_injective.injOn) Φ,
    show (Finset.univ : Finset (Fin 2 × Fin 16 × Fin 80)) = Finset.univ ×ˢ Finset.univ from Finset.univ_product_univ.symm,
    SparseCore.bigSep_product]
  refine bigSep_congr fun c _ => ?_
  rw [show (Finset.univ : Finset (Fin 16 × Fin 80)) = Finset.univ ×ˢ Finset.univ from Finset.univ_product_univ.symm, SparseCore.bigSep_product]
  rfl

/-- The first call's output held whole at `g` is its blocks held by SparseCore, task and chunk at `g`; -/
theorem oPts_blks0 (d : Dev nD) (g : Buf (Elt F) (oLoc0 d)) :
    (oLoc0 d ↦{fullShare} g : sProp 𝕄)
      = bigSep Finset.univ fun c : Fin 2 => bigSep Finset.univ fun i : Fin 16 => bigSep Finset.univ fun r : Fin 80 => oLoc0 d ↦[(blk (blkIx c i r)).set]{fullShare} g := by
  rw [← bigSep_blks (fun b => (oLoc0 d ↦[(blk b).set]{fullShare} g : sProp 𝕄)),
    ← pointsTo_biUnion Finset.univ (ℓ := oLoc0 d) (fun b => (blk b).set) blks_disjoint, blks_cover]; try rfl

/-- and so is the second's. -/
theorem oPts_blks1 (d : Dev nD) (g : Buf (Elt F) (oLoc1 d)) :
    (oLoc1 d ↦{fullShare} g : sProp 𝕄)
      = bigSep Finset.univ fun c : Fin 2 => bigSep Finset.univ fun i : Fin 16 => bigSep Finset.univ fun r : Fin 80 => oLoc1 d ↦[(blk (blkIx c i r)).set]{fullShare} g := by
  rw [← bigSep_blks (fun b => (oLoc1 d ↦[(blk b).set]{fullShare} g : sProp 𝕄)),
    ← pointsTo_biUnion Finset.univ (ℓ := oLoc1 d) (fun b => (blk b).set) blks_disjoint, blks_cover]; try rfl

end Cert.Proof.KB

end
-- ==== Proof.CallB.lean ====
/-
  A gather call as the TensorCore sees it: holding every one of its arrays at contents `W`, it hands the call's three
  arrays to the two SparseCores and gets them back with the output at the gathered rows.
-/
import proofs.«207928_g75127567942135_cont_9to1c4b_313_20_alg».proof.Proof.BlocksB
import Idealize.ShloMosaic.Lib.Pipeline.Frame

noncomputable section

namespace Cert.Proof.KB

open Cert.Kernel Cert.Kernel.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (fh0 : (d : Dev nD) → Buf (Elt F) (hLoc0 d)) (fh1 : (d : Dev nD) → Buf (Elt F) (hLoc1 d)) (fs : (d : Dev nD) → Buf (Elt F) (sLoc d))
  (fo0 fo0' : (d : Dev nD) → Buf (Elt F) (oLoc0 d)) (fo1 fo1' : (d : Dev nD) → Buf (Elt F) (oLoc1 d))

/-- The index table, read by both calls. -/
abbrev s' : DevRef τ sig := Proc.devRef .tc (main_v6 : Ref sig .tc)

/-! ### Call 0 -/

abbrev h0' : DevRef τ sig := Proc.devRef .tc (main_v33 : Ref sig .tc)
abbrev o0' : DevRef τ sig := Proc.devRef .tc (main_v34 : Ref sig .tc)
/-- The three arrays the call touches. -/
abbrev C0 : Finset (DevRef τ sig) := {h0', s', o0'}

omit [FloatOps F] in
theorem C0_sub : (C0 : Finset (DevRef τ sig)) ⊆ Pipeline.ucRefs τ sig := by decide

omit [FloatOps F] in
theorem held_C0 (d : Dev nD) (W : Valuation τ sig (Elt F)) :
    (held (T d) C0 W : sProp 𝕄) = iprop((hLoc0 d ↦{fullShare} W h0') ∗ (sLoc d ↦{fullShare} W s') ∗ (oLoc0 d ↦{fullShare} W o0')) := by
  unfold held C0
  rw [SparseCore.bigSep_insert' (by decide), SparseCore.bigSep_insert' (by decide), bigSep_singleton]

omit [FloatOps F] in
theorem held_rest0 (d : Dev nD) (W : Valuation τ sig (Elt F)) (g : Buf (Elt F) (oLoc0 d)) :
    (held (T d) (Pipeline.ucRefs τ sig \ C0) (Function.update W o0' g) : sProp 𝕄) = held (T d) (Pipeline.ucRefs τ sig \ C0) W :=
  held_congr (T d) fun b hb => Function.update_of_ne (fun e => (Finset.mem_sdiff.mp hb).2 (by rw [e]; decide)) _ _

/-- What the call hands the two SparseCores, regrouped: the two tables' shares and the output's blocks. -/
theorem st0_eq (d : Dev nD) (g : (d : Dev nD) → Buf (Elt F) (oLoc0 d)) :
    (bigSep Finset.univ fun c : Fin 2 => corePay0 fh0 fs d c (g d) : sProp 𝕄)
      = iprop((bigSep Finset.univ fun c : Fin 2 => hLoc0 d ↦{qC c} fh0 d) ∗ (bigSep Finset.univ fun c : Fin 2 => sLoc d ↦{qC c} fs d)
          ∗ bigSep Finset.univ fun c : Fin 2 => bigSep Finset.univ fun i : Fin 16 => bigSep Finset.univ fun r : Fin 80 =>
              oLoc0 d ↦[(blk (blkIx c i r)).set]{fullShare} g d) := by
  unfold corePay0
  rw [bigSep_sep', bigSep_sep']

/-- The call on the TensorCore: the three arrays go out — the two tables as read shares, a half to each SparseCore, the output block by
    block — and come back, the output at the gathered rows; every other buffer is untouched. -/
theorem call0 (κ : GSem nD τ sig → ℕ) (d : Dev nD) (W : Valuation τ sig (Elt F)) (hh : W h0' = fh0 d) (hs : W s' = fs d) (ho : W o0' = fo0 d)
    {Φ : PUnit → sProp 𝕄} :
    iprop((K (F := F)).ctx EH (P fh0 fh1 fs fo0 fo0' fo1 fo1') κ ∗ (K (F := F)).tcSt EH d 0 ∗ held (T d) (Pipeline.ucRefs τ sig) W
        ∗ (((K (F := F)).tcSt EH d 1 ∗ held (T d) (Pipeline.ucRefs τ sig) (Function.update W o0' (fo0' d))) -∗ Φ ⟨⟩))
      ⊢ wp frame (wpE ((K (F := F)).defs (D (F := F))) 𝒱 (SparseCore.T d) none) Set.univ ((K (F := F)).run d 0) Φ := by
  rw [held_sub_split (T d) C0_sub W, held_C0, hh, hs, ho]
  iintro ⟨#Hctx, Htc, ⟨⟨Hh, Hs, Ho⟩, Hrest⟩, Hk⟩
  ihave Hh' := (Transfers.pointsTo_toks_split fullShare 2) $$ Hh
  icases Hh' with ⟨Hhr, Hht⟩
  ihave Hs' := (Transfers.pointsTo_toks_split fullShare 2) $$ Hs
  icases Hs' with ⟨Hsr, Hsk⟩
  ihave Ho' := (Entails.of_eq (oPts_blks0 (F := F) d (fo0 d))) $$ Ho
  iapply ((K (F := F)).wp_run (D (F := F)) 𝒱 (EH := EH) (P := P fh0 fh1 fs fo0 fo0' fo1 fo1') κ d 0) $$ [Htc Hht Hsk Ho' Hhr Hsr Hrest Hk]
  isplitr; · iexact Hctx
  isplitl [Htc]; · iexact Htc
  isplitl [Hht Hsk Ho']
  · iapply (show iprop((bigSep Finset.univ fun c : Fin 2 => hLoc0 d ↦{qC c} fh0 d) ∗ (bigSep Finset.univ fun c : Fin 2 => sLoc d ↦{qC c} fs d)
          ∗ bigSep Finset.univ fun c : Fin 2 => bigSep Finset.univ fun i : Fin 16 => bigSep Finset.univ fun r : Fin 80 =>
              oLoc0 d ↦[(blk (blkIx c i r)).set]{fullShare} fo0 d)
        ⊢ (bigSep Finset.univ fun c : Fin ((K (F := F)).nCore 0) => (P fh0 fh1 fs fo0 fo0' fo1 fo1').st 0 d c : sProp 𝕄)
        from Entails.of_eq (st0_eq fh0 fs d fo0).symm)
    isplitl [Hht]; · iexact Hht
    isplitl [Hsk]; · iexact Hsk
    iexact Ho'
  iintro ⟨Htc, Hdn⟩
  ihave Hdn' := (show (bigSep Finset.univ fun c : Fin ((K (F := F)).nCore 0) => (P fh0 fh1 fs fo0 fo0' fo1 fo1').dn 0 d c)
      ⊢ iprop((bigSep Finset.univ fun c : Fin 2 => hLoc0 d ↦{qC c} fh0 d) ∗ (bigSep Finset.univ fun c : Fin 2 => sLoc d ↦{qC c} fs d)
          ∗ bigSep Finset.univ fun c : Fin 2 => bigSep Finset.univ fun i : Fin 16 => bigSep Finset.univ fun r : Fin 80 =>
              oLoc0 d ↦[(blk (blkIx c i r)).set]{fullShare} fo0' d) from by
    exact Entails.of_eq (st0_eq fh0 fs d fo0')) $$ Hdn
  icases Hdn' with ⟨Hht, Hsk, Ho'⟩
  iapply Hk
  isplitl [Htc]; · iexact Htc
  rw [held_sub_split (T d) C0_sub (Function.update W o0' (fo0' d)), held_C0, held_rest0,
    Function.update_of_ne (show h0' ≠ o0' by decide), Function.update_of_ne (show s' ≠ o0' by decide), Function.update_self, hh, hs]
  isplitr [Hrest]
  · isplitl [Hhr Hht]
    · iapply (Transfers.pointsTo_toks_join fullShare 2); isplitl [Hhr] <;> iassumption
    isplitl [Hsr Hsk]
    · iapply (Transfers.pointsTo_toks_join fullShare 2); isplitl [Hsr] <;> iassumption
    iapply (Entails.of_eq (oPts_blks0 (F := F) d (fo0' d)).symm); iexact Ho'
  iexact Hrest

/-! ### Call 1 -/

abbrev h1' : DevRef τ sig := Proc.devRef .tc (main_v39 : Ref sig .tc)
abbrev o1' : DevRef τ sig := Proc.devRef .tc (main_v40 : Ref sig .tc)
/-- The three arrays the call touches. -/
abbrev C1 : Finset (DevRef τ sig) := {h1', s', o1'}

omit [FloatOps F] in
theorem C1_sub : (C1 : Finset (DevRef τ sig)) ⊆ Pipeline.ucRefs τ sig := by decide

omit [FloatOps F] in
theorem held_C1 (d : Dev nD) (W : Valuation τ sig (Elt F)) :
    (held (T d) C1 W : sProp 𝕄) = iprop((hLoc1 d ↦{fullShare} W h1') ∗ (sLoc d ↦{fullShare} W s') ∗ (oLoc1 d ↦{fullShare} W o1')) := by
  unfold held C1
  rw [SparseCore.bigSep_insert' (by decide), SparseCore.bigSep_insert' (by decide), bigSep_singleton]

omit [FloatOps F] in
theorem held_rest1 (d : Dev nD) (W : Valuation τ sig (Elt F)) (g : Buf (Elt F) (oLoc1 d)) :
    (held (T d) (Pipeline.ucRefs τ sig \ C1) (Function.update W o1' g) : sProp 𝕄) = held (T d) (Pipeline.ucRefs τ sig \ C1) W :=
  held_congr (T d) fun b hb => Function.update_of_ne (fun e => (Finset.mem_sdiff.mp hb).2 (by rw [e]; decide)) _ _

/-- What the call hands the two SparseCores, regrouped: the two tables' shares and the output's blocks. -/
theorem st1_eq (d : Dev nD) (g : (d : Dev nD) → Buf (Elt F) (oLoc1 d)) :
    (bigSep Finset.univ fun c : Fin 2 => corePay1 fh1 fs d c (g d) : sProp 𝕄)
      = iprop((bigSep Finset.univ fun c : Fin 2 => hLoc1 d ↦{qC c} fh1 d) ∗ (bigSep Finset.univ fun c : Fin 2 => sLoc d ↦{qC c} fs d)
          ∗ bigSep Finset.univ fun c : Fin 2 => bigSep Finset.univ fun i : Fin 16 => bigSep Finset.univ fun r : Fin 80 =>
              oLoc1 d ↦[(blk (blkIx c i r)).set]{fullShare} g d) := by
  unfold corePay1
  rw [bigSep_sep', bigSep_sep']

/-- The call on the TensorCore: the three arrays go out — the two tables as read shares, a half to each SparseCore, the output block by
    block — and come back, the output at the gathered rows; every other buffer is untouched. -/
theorem call1 (κ : GSem nD τ sig → ℕ) (d : Dev nD) (W : Valuation τ sig (Elt F)) (hh : W h1' = fh1 d) (hs : W s' = fs d) (ho : W o1' = fo1 d)
    {Φ : PUnit → sProp 𝕄} :
    iprop((K (F := F)).ctx EH (P fh0 fh1 fs fo0 fo0' fo1 fo1') κ ∗ (K (F := F)).tcSt EH d 1 ∗ held (T d) (Pipeline.ucRefs τ sig) W
        ∗ (((K (F := F)).tcSt EH d 2 ∗ held (T d) (Pipeline.ucRefs τ sig) (Function.update W o1' (fo1' d))) -∗ Φ ⟨⟩))
      ⊢ wp frame (wpE ((K (F := F)).defs (D (F := F))) 𝒱 (SparseCore.T d) none) Set.univ ((K (F := F)).run d 1) Φ := by
  rw [held_sub_split (T d) C1_sub W, held_C1, hh, hs, ho]
  iintro ⟨#Hctx, Htc, ⟨⟨Hh, Hs, Ho⟩, Hrest⟩, Hk⟩
  ihave Hh' := (Transfers.pointsTo_toks_split fullShare 2) $$ Hh
  icases Hh' with ⟨Hhr, Hht⟩
  ihave Hs' := (Transfers.pointsTo_toks_split fullShare 2) $$ Hs
  icases Hs' with ⟨Hsr, Hsk⟩
  ihave Ho' := (Entails.of_eq (oPts_blks1 (F := F) d (fo1 d))) $$ Ho
  iapply ((K (F := F)).wp_run (D (F := F)) 𝒱 (EH := EH) (P := P fh0 fh1 fs fo0 fo0' fo1 fo1') κ d 1) $$ [Htc Hht Hsk Ho' Hhr Hsr Hrest Hk]
  isplitr; · iexact Hctx
  isplitl [Htc]; · iexact Htc
  isplitl [Hht Hsk Ho']
  · iapply (show iprop((bigSep Finset.univ fun c : Fin 2 => hLoc1 d ↦{qC c} fh1 d) ∗ (bigSep Finset.univ fun c : Fin 2 => sLoc d ↦{qC c} fs d)
          ∗ bigSep Finset.univ fun c : Fin 2 => bigSep Finset.univ fun i : Fin 16 => bigSep Finset.univ fun r : Fin 80 =>
              oLoc1 d ↦[(blk (blkIx c i r)).set]{fullShare} fo1 d)
        ⊢ (bigSep Finset.univ fun c : Fin ((K (F := F)).nCore 1) => (P fh0 fh1 fs fo0 fo0' fo1 fo1').st 1 d c : sProp 𝕄)
        from Entails.of_eq (st1_eq fh1 fs d fo1).symm)
    isplitl [Hht]; · iexact Hht
    isplitl [Hsk]; · iexact Hsk
    iexact Ho'
  iintro ⟨Htc, Hdn⟩
  ihave Hdn' := (show (bigSep Finset.univ fun c : Fin ((K (F := F)).nCore 1) => (P fh0 fh1 fs fo0 fo0' fo1 fo1').dn 1 d c)
      ⊢ iprop((bigSep Finset.univ fun c : Fin 2 => hLoc1 d ↦{qC c} fh1 d) ∗ (bigSep Finset.univ fun c : Fin 2 => sLoc d ↦{qC c} fs d)
          ∗ bigSep Finset.univ fun c : Fin 2 => bigSep Finset.univ fun i : Fin 16 => bigSep Finset.univ fun r : Fin 80 =>
              oLoc1 d ↦[(blk (blkIx c i r)).set]{fullShare} fo1' d) from by
    exact Entails.of_eq (st1_eq fh1 fs d fo1')) $$ Hdn
  icases Hdn' with ⟨Hht, Hsk, Ho'⟩
  iapply Hk
  isplitl [Htc]; · iexact Htc
  rw [held_sub_split (T d) C1_sub (Function.update W o1' (fo1' d)), held_C1, held_rest1,
    Function.update_of_ne (show h1' ≠ o1' by decide), Function.update_of_ne (show s' ≠ o1' by decide), Function.update_self, hh, hs]
  isplitr [Hrest]
  · isplitl [Hhr Hht]
    · iapply (Transfers.pointsTo_toks_join fullShare 2); isplitl [Hhr] <;> iassumption
    isplitl [Hsr Hsk]
    · iapply (Transfers.pointsTo_toks_join fullShare 2); isplitl [Hsr] <;> iassumption
    iapply (Entails.of_eq (oPts_blks1 (F := F) d (fo1' d)).symm); iexact Ho'
  iexact Hrest

end Cert.Proof.KB

end
-- ==== Proof.RegionBaseB.lean ====
/-
  What the three TensorCore pipelines of the word-level kernel share: the invariant a pipeline carries from one
  grid point to the next. A body of this program reads and writes its windows' staging buffers only, so the
  invariant is everything else the core holds privately: its scoped buffers that are no staging buffer of the
  pipeline, each whole at some contents, and its generator register at some state. The bodies never open it.
-/
import proofs.«207928_g75127567942135_cont_9to1c4b_313_20_alg».proof.Proof.SetupB
import proofs.«207928_g75127567942135_cont_9to1c4b_313_20_alg».proof.Proof.Gen.Kernel.Points
import Idealize.ShloMosaic.Lib.Pipeline.FrameBody
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The invariant of a pipeline with windows `win` on core `c`, in the model whose index type is the handshakes'
    (`HIx 2`) and whose user algebra is `UU`: the scoped rest at some contents and the generator register at some
    state. -/
def ΦI {gr : Nat} {W : Nat} (win : Fin W → Pipeline.WinSpec sig gr) (c : Dev nD) : sProp 𝕄 :=
  iprop(Pipeline.scopedRest (Ix := HIx 2) (Name := ℕ) (U := UU) (Lvl := ℕ) (Val := Elt F) win c ∗ ∃ r, prngReg c r)

end Cert.Proof.KB

end
-- ==== Proof.Region0B.lean ====
/-
  REGION 0 of the word-level kernel's @main: the first TensorCore pipeline (configuration `cfg0`, 40 grid points,
  three windows). At every point its body loads a 256x128 block x of the features and the matching 256x1 block g of
  the degrees, and stores x * rsqrt(max(1, g)) whole into the output window's buffer (it also loads the output's buffer
  once, a value nothing uses). Stated at parameters: `V`, the TensorCore's buffer contents when the region is
  entered; `O`, the tallies the TensorCore owes throughout the region (the body pays none and takes on none); and
  `B`, a bound on the (cell, index) pairs the core's waits recorded before the region (the body waits on nothing).
-/
import proofs.«207928_g75127567942135_cont_9to1c4b_313_20_alg».proof.Proof.RegionBaseB
import proofs.«207928_g75127567942135_cont_9to1c4b_313_20_alg».proof.Proof.Gen.Kernel.Skeleton
import proofs.«207928_g75127567942135_cont_9to1c4b_313_20_alg».proof.Proof.Gen.Kernel.Launch
import proofs.«207928_g75127567942135_cont_9to1c4b_313_20_alg».proof.Proof.Gen.Kernel.Points

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region0

variable (V : (c : Dev nD) → (b : Ref sig .tc) → Buf (Elt F) ((c : Thread nD τ).loc b))
variable (O : CellTallies nD τ sig (HIx 2))
variable (B : Set (SemLoc sig × HIx 2))

/-! ## The windows' blocks -/

/-- The block of window `w` at grid point `t`: the window's rectangle there, read off the window's array at the
    contents the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' window (0) holds its block whenever the body is called: for any proof data whose array is `V`'s and
    whose body leaves the block where it found it, a point that does not refetch has not moved the block index, so
    what stayed in the buffer is this point's block as well. The window is uncut and has no idle point. -/
theorem before0_0_of {c : Dev nD} (dat : Dat τ (Elt F) (HIx 2) ℕ UU ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The degrees' window (1), likewise. -/
theorem before0_1_of {c : Dev nD} (dat : Dat τ (Elt F) (HIx 2) ℕ UU ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## What the body leaves in the output window's buffer -/

/-- The whole 256x128 rectangle, the one the body stores through, -/
abbrev rX0 : Rect S256x128 := Rect.unit (s := S256x128) ![0, 0] S256x128.size inb_S256x128_S256x128_0_0
/-- and the whole 256x1 rectangle of the degrees' block. -/
abbrev rG0 : Rect S256x1 := Rect.unit (s := S256x1) ![0, 0] S256x1.size inb_S256x1_S256x1_0_0

/-- The output window's buffer after the body, as a function of the two input blocks: its one store, of the
    skeleton's payload at the two loaded values, read back as a function of the buffer's index. -/
def out0 (x : Vec F S256x128 .f32) (g : Vec F S256x1 .f32) : Vec F S256x128 .f32 :=
  View.canon [⟨rX0, k0_pay1 (View.ld g rG0) (View.ld x rX0)⟩]

/-- The one store is of the whole buffer, so it covers every index. -/
theorem cover0 (p : rX0.shape.Idx → Elt F .f32) (y : S256x128.Idx) :
    ∃ pc ∈ ([⟨rX0, p⟩] : List (View.Piece (Elt F) S256x128 .f32)), y ∈ pc.1.set :=
  View.cover_of_tiled [⟨rX0, p⟩] S256x128.size (by rfl) y

/-! ## The body's triple -/

set_option maxHeartbeats 1000000 in
/-- The body on whole staging memrefs — the inputs' at contents `x`, `g`, the output's at anything — runs to a
    continuation that holds the inputs' as they were and the output's at `out0 x g`, at any grid coordinate (the
    body does not read it) and under any mask. -/
theorem sound_kernel0 (c : Dev nD) (E : Set ℕ) (i : grid0.Coords)
    (a0 : Memref sig .tc .vmem S256x128 .f32) (h0 : a0.IsWhole) (a1 : Memref sig .tc .vmem S256x1 .f32) (h1 : a1.IsWhole)
    (a2 : Memref sig .tc .vmem S256x128 .f32) (h2 : a2.IsWhole)
    (x : Vec F S256x128 .f32) (g : Vec F S256x1 .f32) (K : PUnit → sProp 𝕄) :
    iprop(owns (c : Thread nD τ) a0 fullShare x ∗ owns (c : Thread nD τ) a1 fullShare g ∗ (∃ d, owns (c : Thread nD τ) a2 fullShare d)
        ∗ (iprop(owns (c : Thread nD τ) a0 fullShare x ∗ owns (c : Thread nD τ) a1 fullShare g
              ∗ owns (c : Thread nD τ) a2 fullShare (out0 x g)) -∗ K ⟨⟩))
      ⊢ wp frame (wpE (defs₀ (F := F)) Variants.none c none) E (cc0_body i a0 h0 a1 h1 a2 h2) K := by
  simp only [cc0_body_eq_skeleton]; unfold cc0_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of the pipeline on core `c`: the windows' arrays at the region's starting contents; after the
    body at point `t` each input's buffer still at its block and the output's at `out0` of the two blocks; the
    invariant `ΦI`, the same at every point; full shares; the owed tallies `O` and the bound `B` on the recorded pairs, the same at every point. -/
def dat0 (c : Dev nD) : Dat τ (Elt F) (HIx 2) ℕ UU ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := ΦI spec0 c
  q _ := fullShare
  owed _ := O
  recorded _ := B

/-- The arrays of the proof data are the starting contents (the structure's field projected). -/
theorem A_eq0 (c : Dev nD) (w : Fin cfg0.W) : (dat0 V O B c).A w = V c (Pipeline.arrRef spec0 w) := by
  dsimp only [dat0]

/-- What the body leaves, window by window (the `match` on the window reduced). -/
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) :
    (dat0 V O B c).after 2 t = out0 (iblk0 V c 0 t) (iblk0 V c 1 t) := by dsimp only [dat0]

/-- Each input's current buffer holds its block when the body is called at `t`, fetched there or not. -/
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

/-! ## The body obligation, at a generic point -/

/-- What the body is handed at point `t`: the invariant, the owed tallies, and each window's current buffer at what
    it then holds (the obligation's precondition with its three windows written out), -/
def bodyPre0 (c : Dev nD) (t : Fin cfg0.N) : sProp 𝕄 :=
  iprop((dat0 V O B c).Φ t.castSucc ∗ (dat0 V O B c).owesAt (none : HIx 2) t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

/-- and what it hands back. -/
def bodyPost0 (c : Dev nD) (t : Fin cfg0.N) : sProp 𝕄 :=
  iprop((dat0 V O B c).Φ t.succ ∗ (dat0 V O B c).owesAt (none : HIx 2) t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

/-- The body at any point: the inputs' buffers hold their blocks, so the body's triple applies; the invariant and
    the owed tallies, constant over the points, pass through untouched. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt (none : HIx 2) t.succ = (dat0 V O B c).owesAt (none : HIx 2) t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the pipeline, at every point. -/
theorem body_obligation0 (c : Dev nD) :
    BodyObligation (dat0 (F := F) V O B c) (defs₀ (F := F)) Variants.none (none : HIx 2) Set.univ := fun t => by
  rw [bigSep_W0, bigSep_W0]
  exact sound_body0 V O B c t

end Region0

end Cert.Proof.KB

end
-- ==== Proof.Region2B.lean ====
/-
  REGION 2 of the word-level kernel's @main: the second TensorCore pipeline (configuration `cfg2`, 40 grid points,
  six windows). At every point its body loads a 256x128 block a of the aggregated features with the matching 256x1
  block d of in-degrees, the 128x128 weight matrix W and the 1x128 bias b (both fetched once, at the first point),
  and the matching 256x1 block e of out-degrees, and stores relu((a * rsqrt(max(1, d))) W + b) * rsqrt(max(1, e))
  whole into the output window's buffer (it also loads the output's buffer once, a value nothing uses). Stated at
  parameters: `V`, the TensorCore's buffer contents when the region is entered; `O`, the tallies the TensorCore
  owes throughout the region (the body pays none and takes on none); and `B`, a bound on the (cell, index) pairs the
  core's waits recorded before the region (the body waits on nothing).
-/
import proofs.«207928_g75127567942135_cont_9to1c4b_313_20_alg».proof.Proof.RegionBaseB
import proofs.«207928_g75127567942135_cont_9to1c4b_313_20_alg».proof.Proof.Gen.Kernel.Skeleton
import proofs.«207928_g75127567942135_cont_9to1c4b_313_20_alg».proof.Proof.Gen.Kernel.Launch
import proofs.«207928_g75127567942135_cont_9to1c4b_313_20_alg».proof.Proof.Gen.Kernel.Points

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region2

variable (V : (c : Dev nD) → (b : Ref sig .tc) → Buf (Elt F) ((c : Thread nD τ).loc b))
variable (O : CellTallies nD τ sig (HIx 2))
variable (B : Set (SemLoc sig × HIx 2))

/-! ## The windows' blocks -/

/-- The block of window `w` at grid point `t`: the window's rectangle there, read off the window's array at the
    contents the region starts from. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window holds its block whenever the body is called: for any proof data whose array is `V`'s and
    whose body leaves the block where it found it, a point that does not refetch the window has not moved its block
    index, so what stayed in the buffer is this point's block as well. This covers the windows whose index map is
    constant, fetched at the first point only, exactly as it covers those fetched at every point. The windows are
    uncut and have no idle point. -/

/-- Window 0 (the aggregated features) holds its block whenever the body is called, fetched at that point or not. -/
theorem before2_0_of {c : Dev nD} (dat : Dat τ (Elt F) (HIx 2) ℕ UU ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  refine (dat.before_in_eq_fetched 0 rfl (fun _ => rfl) (fun _ _ _ => rfl) hkeep t d).trans ?_
  unfold Dat.fetched Dat.blockOf iblk2; rw [hA]; try rfl

/-- Window 1 (the in-degrees) holds its block whenever the body is called, fetched at that point or not. -/
theorem before2_1_of {c : Dev nD} (dat : Dat τ (Elt F) (HIx 2) ℕ UU ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  refine (dat.before_in_eq_fetched 1 rfl (fun _ => rfl) (fun _ _ _ => rfl) hkeep t d).trans ?_
  unfold Dat.fetched Dat.blockOf iblk2; rw [hA]; try rfl

/-- Window 2 (the weights, fetched at the first point only) holds its block whenever the body is called, fetched at that point or not. -/
theorem before2_2_of {c : Dev nD} (dat : Dat τ (Elt F) (HIx 2) ℕ UU ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  refine (dat.before_in_eq_fetched 2 rfl (fun _ => rfl) (fun _ _ _ => rfl) hkeep t d).trans ?_
  unfold Dat.fetched Dat.blockOf iblk2; rw [hA]; try rfl

/-- Window 3 (the bias, fetched at the first point only) holds its block whenever the body is called, fetched at that point or not. -/
theorem before2_3_of {c : Dev nD} (dat : Dat τ (Elt F) (HIx 2) ℕ UU ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  refine (dat.before_in_eq_fetched 3 rfl (fun _ => rfl) (fun _ _ _ => rfl) hkeep t d).trans ?_
  unfold Dat.fetched Dat.blockOf iblk2; rw [hA]; try rfl

/-- Window 4 (the out-degrees) holds its block whenever the body is called, fetched at that point or not. -/
theorem before2_4_of {c : Dev nD} (dat : Dat τ (Elt F) (HIx 2) ℕ UU ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  refine (dat.before_in_eq_fetched 4 rfl (fun _ => rfl) (fun _ _ _ => rfl) hkeep t d).trans ?_
  unfold Dat.fetched Dat.blockOf iblk2; rw [hA]; try rfl

/-! ## What the body leaves in the output window's buffer -/

/-- The whole rectangle of each block shape: what the body loads and stores through. -/
abbrev r256x128_2 : Rect S256x128 := Rect.unit (s := S256x128) ![0, 0] S256x128.size inb_S256x128_S256x128_0_0
abbrev r256x1_2 : Rect S256x1 := Rect.unit (s := S256x1) ![0, 0] S256x1.size inb_S256x1_S256x1_0_0
abbrev r128x128_2 : Rect S128x128 := Rect.unit (s := S128x128) ![0, 0] S128x128.size inb_S128x128_S128x128_0_0
abbrev r1x128_2 : Rect S1x128 := Rect.unit (s := S1x128) ![0, 0] S1x128.size inb_S1x128_S1x128_0_0

/-- The output window's buffer after the body, as a function of the input blocks: its one store, of the skeleton's
    payload at the loaded values, read back as a function of the buffer's index. -/
def out2 (x : Vec F S256x128 .f32) (g : Vec F S256x1 .f32) (wt : Vec F S128x128 .f32) (bs : Vec F S1x128 .f32) (go : Vec F S256x1 .f32) : Vec F S256x128 .f32 :=
  View.canon [⟨r256x128_2, k2_pay1 (View.ld g r256x1_2) (View.ld x r256x128_2) (View.ld wt r128x128_2) (View.ld bs r1x128_2) (View.ld go r256x1_2)⟩]

/-- The one store is of the whole buffer, so it covers every index. -/
theorem cover2 (p : r256x128_2.shape.Idx → Elt F .f32) (y : S256x128.Idx) :
    ∃ pc ∈ ([⟨r256x128_2, p⟩] : List (View.Piece (Elt F) S256x128 .f32)), y ∈ pc.1.set :=
  View.cover_of_tiled [⟨r256x128_2, p⟩] S256x128.size (by rfl) y

/-! ## The body's triple -/

set_option maxHeartbeats 1000000 in
/-- The body on whole staging memrefs — the inputs' at the given contents, the output's at anything — runs to a
    continuation that holds the inputs' as they were and the output's at `out2` of the inputs', at any grid
    coordinate (the body does not read it) and under any mask. The matrix product is one more pure value of the
    loaded blocks; the body's memory operations are its loads and its one store. -/
theorem sound_kernel2 (c : Dev nD) (E : Set ℕ) (i : grid2.Coords)
    (a0 : Memref sig .tc .vmem S256x128 .f32) (h0 : a0.IsWhole)
    (a1 : Memref sig .tc .vmem S256x1 .f32) (h1 : a1.IsWhole)
    (a2 : Memref sig .tc .vmem S128x128 .f32) (h2 : a2.IsWhole)
    (a3 : Memref sig .tc .vmem S1x128 .f32) (h3 : a3.IsWhole)
    (a4 : Memref sig .tc .vmem S256x1 .f32) (h4 : a4.IsWhole)
    (a5 : Memref sig .tc .vmem S256x128 .f32) (h5 : a5.IsWhole)
    (x : Vec F S256x128 .f32) (g : Vec F S256x1 .f32) (wt : Vec F S128x128 .f32) (bs : Vec F S1x128 .f32) (go : Vec F S256x1 .f32) (K : PUnit → sProp 𝕄) :
    iprop(owns (c : Thread nD τ) a0 fullShare x
        ∗ owns (c : Thread nD τ) a1 fullShare g
        ∗ owns (c : Thread nD τ) a2 fullShare wt
        ∗ owns (c : Thread nD τ) a3 fullShare bs
        ∗ owns (c : Thread nD τ) a4 fullShare go
        ∗ (∃ d, owns (c : Thread nD τ) a5 fullShare d)
        ∗ (iprop(owns (c : Thread nD τ) a0 fullShare x
              ∗ owns (c : Thread nD τ) a1 fullShare g
              ∗ owns (c : Thread nD τ) a2 fullShare wt
              ∗ owns (c : Thread nD τ) a3 fullShare bs
              ∗ owns (c : Thread nD τ) a4 fullShare go
              ∗ owns (c : Thread nD τ) a5 fullShare (out2 x g wt bs go)) -∗ K ⟨⟩))
      ⊢ wp frame (wpE (defs₀ (F := F)) Variants.none c none) E (cc2_body i a0 h0 a1 h1 a2 h2 a3 h3 a4 h4 a5 h5) K := by
  simp only [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of the pipeline on core `c`: the windows' arrays at the region's starting contents; after the
    body at point `t` each input's buffer still at its block and the output's at `out2` of the input blocks; the
    invariant `ΦI`, the same at every point; full shares; the owed tallies `O` and the bound `B` on the recorded
    pairs, the same at every point. -/
def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := ΦI spec2 c
  q _ := fullShare
  owed _ := O
  recorded _ := B

/-- The arrays of the proof data are the starting contents (the structure's field projected). -/
theorem A_eq2 (c : Dev nD) (w : Fin cfg2.W) : (dat2 V O B c).A w = V c (Pipeline.arrRef spec2 w) := by
  dsimp only [dat2]

/-- What the body leaves, window by window (the `match` on the window reduced). -/
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) :
    (dat2 V O B c).after 5 t = out2 (iblk2 V c 0 t) (iblk2 V c 1 t) (iblk2 V c 2 t) (iblk2 V c 3 t) (iblk2 V c 4 t) := by dsimp only [dat2]

/-- Each input's current buffer holds its block when the body is called at `t`, fetched there or not. -/
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d

/-! ## The body obligation, at a generic point -/

/-- What the body is handed at point `t`: the invariant, the owed tallies, and each window's current buffer at what
    it then holds (the obligation's precondition with its windows written out), -/
def bodyPre2 (c : Dev nD) (t : Fin cfg2.N) : sProp 𝕄 :=
  iprop((dat2 V O B c).Φ t.castSucc ∗ (dat2 V O B c).owesAt (none : HIx 2) t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d)))

/-- and what it hands back. -/
def bodyPost2 (c : Dev nD) (t : Fin cfg2.N) : sProp 𝕄 :=
  iprop((dat2 V O B c).Φ t.succ ∗ (dat2 V O B c).owesAt (none : HIx 2) t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t))

/-- The body at any point: the inputs' buffers hold their blocks, so the body's triple applies; the invariant and
    the owed tallies, constant over the points, pass through untouched. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4]
  rw [show (dat2 V O B c).Φ t.succ = (dat2 V O B c).Φ t.castSucc from rfl,
    show (dat2 V O B c).owesAt (none : HIx 2) t.succ = (dat2 V O B c).owesAt (none : HIx 2) t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the pipeline, at every point. -/
theorem body_obligation2 (c : Dev nD) :
    BodyObligation (dat2 (F := F) V O B c) (defs₀ (F := F)) Variants.none (none : HIx 2) Set.univ := fun t => by
  rw [bigSep_W2, bigSep_W2]
  exact sound_body2 V O B c t

end Region2

end Cert.Proof.KB

end
-- ==== Proof.Region4B.lean ====
/-
  REGION 4 of the word-level kernel's @main: the third TensorCore pipeline (configuration `cfg4`, 40 grid points,
  five windows). At every point its body loads a 256x128 block a of the aggregated features with the matching 256x1
  block d of in-degrees, the 128x128 weight matrix W and the 1x128 bias b (both fetched once, at the first point),
  and stores (a * rsqrt(max(1, d))) W + b whole into the output window's buffer (it also loads the output's buffer
  once, a value nothing uses). Stated at parameters: `V`, the TensorCore's buffer contents when the region is
  entered; `O`, the tallies the TensorCore owes throughout the region (the body pays none and takes on none); and
  `B`, a bound on the (cell, index) pairs the core's waits recorded before the region (the body waits on nothing).
-/
import proofs.«207928_g75127567942135_cont_9to1c4b_313_20_alg».proof.Proof.RegionBaseB
import proofs.«207928_g75127567942135_cont_9to1c4b_313_20_alg».proof.Proof.Gen.Kernel.Skeleton
import proofs.«207928_g75127567942135_cont_9to1c4b_313_20_alg».proof.Proof.Gen.Kernel.Launch
import proofs.«207928_g75127567942135_cont_9to1c4b_313_20_alg».proof.Proof.Gen.Kernel.Points

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region4

variable (V : (c : Dev nD) → (b : Ref sig .tc) → Buf (Elt F) ((c : Thread nD τ).loc b))
variable (O : CellTallies nD τ sig (HIx 2))
variable (B : Set (SemLoc sig × HIx 2))

/-! ## The windows' blocks -/

/-- The block of window `w` at grid point `t`: the window's rectangle there, read off the window's array at the
    contents the region starts from. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window holds its block whenever the body is called: for any proof data whose array is `V`'s and
    whose body leaves the block where it found it, a point that does not refetch the window has not moved its block
    index, so what stayed in the buffer is this point's block as well. This covers the windows whose index map is
    constant, fetched at the first point only, exactly as it covers those fetched at every point. The windows are
    uncut and have no idle point. -/

/-- Window 0 (the aggregated features) holds its block whenever the body is called, fetched at that point or not. -/
theorem before4_0_of {c : Dev nD} (dat : Dat τ (Elt F) (HIx 2) ℕ UU ℕ cfg4 c) (hA : dat.A 0 = V c (Pipeline.arrRef spec4 0))
    (hafter : ∀ t, dat.after 0 t = iblk4 V c 0 t) (t : Fin cfg4.N) (d) : dat.before 0 t d = iblk4 V c 0 t := by
  have hkeep : ∀ t, (cfg4.win 0).cut (cfg4.grid.coords t) (dat.after 0 t) = dat.blockOf 0 t := fun t => by
    rw [hafter]; unfold Dat.blockOf iblk4; rw [hA]; try rfl
  refine (dat.before_in_eq_fetched 0 rfl (fun _ => rfl) (fun _ _ _ => rfl) hkeep t d).trans ?_
  unfold Dat.fetched Dat.blockOf iblk4; rw [hA]; try rfl

/-- Window 1 (the in-degrees) holds its block whenever the body is called, fetched at that point or not. -/
theorem before4_1_of {c : Dev nD} (dat : Dat τ (Elt F) (HIx 2) ℕ UU ℕ cfg4 c) (hA : dat.A 1 = V c (Pipeline.arrRef spec4 1))
    (hafter : ∀ t, dat.after 1 t = iblk4 V c 1 t) (t : Fin cfg4.N) (d) : dat.before 1 t d = iblk4 V c 1 t := by
  have hkeep : ∀ t, (cfg4.win 1).cut (cfg4.grid.coords t) (dat.after 1 t) = dat.blockOf 1 t := fun t => by
    rw [hafter]; unfold Dat.blockOf iblk4; rw [hA]; try rfl
  refine (dat.before_in_eq_fetched 1 rfl (fun _ => rfl) (fun _ _ _ => rfl) hkeep t d).trans ?_
  unfold Dat.fetched Dat.blockOf iblk4; rw [hA]; try rfl

/-- Window 2 (the weights, fetched at the first point only) holds its block whenever the body is called, fetched at that point or not. -/
theorem before4_2_of {c : Dev nD} (dat : Dat τ (Elt F) (HIx 2) ℕ UU ℕ cfg4 c) (hA : dat.A 2 = V c (Pipeline.arrRef spec4 2))
    (hafter : ∀ t, dat.after 2 t = iblk4 V c 2 t) (t : Fin cfg4.N) (d) : dat.before 2 t d = iblk4 V c 2 t := by
  have hkeep : ∀ t, (cfg4.win 2).cut (cfg4.grid.coords t) (dat.after 2 t) = dat.blockOf 2 t := fun t => by
    rw [hafter]; unfold Dat.blockOf iblk4; rw [hA]; try rfl
  refine (dat.before_in_eq_fetched 2 rfl (fun _ => rfl) (fun _ _ _ => rfl) hkeep t d).trans ?_
  unfold Dat.fetched Dat.blockOf iblk4; rw [hA]; try rfl

/-- Window 3 (the bias, fetched at the first point only) holds its block whenever the body is called, fetched at that point or not. -/
theorem before4_3_of {c : Dev nD} (dat : Dat τ (Elt F) (HIx 2) ℕ UU ℕ cfg4 c) (hA : dat.A 3 = V c (Pipeline.arrRef spec4 3))
    (hafter : ∀ t, dat.after 3 t = iblk4 V c 3 t) (t : Fin cfg4.N) (d) : dat.before 3 t d = iblk4 V c 3 t := by
  have hkeep : ∀ t, (cfg4.win 3).cut (cfg4.grid.coords t) (dat.after 3 t) = dat.blockOf 3 t := fun t => by
    rw [hafter]; unfold Dat.blockOf iblk4; rw [hA]; try rfl
  refine (dat.before_in_eq_fetched 3 rfl (fun _ => rfl) (fun _ _ _ => rfl) hkeep t d).trans ?_
  unfold Dat.fetched Dat.blockOf iblk4; rw [hA]; try rfl

/-! ## What the body leaves in the output window's buffer -/

/-- The whole rectangle of each block shape: what the body loads and stores through. -/
abbrev r256x128_4 : Rect S256x128 := Rect.unit (s := S256x128) ![0, 0] S256x128.size inb_S256x128_S256x128_0_0
abbrev r256x1_4 : Rect S256x1 := Rect.unit (s := S256x1) ![0, 0] S256x1.size inb_S256x1_S256x1_0_0
abbrev r128x128_4 : Rect S128x128 := Rect.unit (s := S128x128) ![0, 0] S128x128.size inb_S128x128_S128x128_0_0
abbrev r1x128_4 : Rect S1x128 := Rect.unit (s := S1x128) ![0, 0] S1x128.size inb_S1x128_S1x128_0_0

/-- The output window's buffer after the body, as a function of the input blocks: its one store, of the skeleton's
    payload at the loaded values, read back as a function of the buffer's index. -/
def out4 (x : Vec F S256x128 .f32) (g : Vec F S256x1 .f32) (wt : Vec F S128x128 .f32) (bs : Vec F S1x128 .f32) : Vec F S256x128 .f32 :=
  View.canon [⟨r256x128_4, k4_pay1 (View.ld g r256x1_4) (View.ld x r256x128_4) (View.ld wt r128x128_4) (View.ld bs r1x128_4)⟩]

/-- The one store is of the whole buffer, so it covers every index. -/
theorem cover4 (p : r256x128_4.shape.Idx → Elt F .f32) (y : S256x128.Idx) :
    ∃ pc ∈ ([⟨r256x128_4, p⟩] : List (View.Piece (Elt F) S256x128 .f32)), y ∈ pc.1.set :=
  View.cover_of_tiled [⟨r256x128_4, p⟩] S256x128.size (by rfl) y

/-! ## The body's triple -/

set_option maxHeartbeats 1000000 in
/-- The body on whole staging memrefs — the inputs' at the given contents, the output's at anything — runs to a
    continuation that holds the inputs' as they were and the output's at `out4` of the inputs', at any grid
    coordinate (the body does not read it) and under any mask. The matrix product is one more pure value of the
    loaded blocks; the body's memory operations are its loads and its one store. -/
theorem sound_kernel4 (c : Dev nD) (E : Set ℕ) (i : grid4.Coords)
    (a0 : Memref sig .tc .vmem S256x128 .f32) (h0 : a0.IsWhole)
    (a1 : Memref sig .tc .vmem S256x1 .f32) (h1 : a1.IsWhole)
    (a2 : Memref sig .tc .vmem S128x128 .f32) (h2 : a2.IsWhole)
    (a3 : Memref sig .tc .vmem S1x128 .f32) (h3 : a3.IsWhole)
    (a4 : Memref sig .tc .vmem S256x128 .f32) (h4 : a4.IsWhole)
    (x : Vec F S256x128 .f32) (g : Vec F S256x1 .f32) (wt : Vec F S128x128 .f32) (bs : Vec F S1x128 .f32) (K : PUnit → sProp 𝕄) :
    iprop(owns (c : Thread nD τ) a0 fullShare x
        ∗ owns (c : Thread nD τ) a1 fullShare g
        ∗ owns (c : Thread nD τ) a2 fullShare wt
        ∗ owns (c : Thread nD τ) a3 fullShare bs
        ∗ (∃ d, owns (c : Thread nD τ) a4 fullShare d)
        ∗ (iprop(owns (c : Thread nD τ) a0 fullShare x
              ∗ owns (c : Thread nD τ) a1 fullShare g
              ∗ owns (c : Thread nD τ) a2 fullShare wt
              ∗ owns (c : Thread nD τ) a3 fullShare bs
              ∗ owns (c : Thread nD τ) a4 fullShare (out4 x g wt bs)) -∗ K ⟨⟩))
      ⊢ wp frame (wpE (defs₀ (F := F)) Variants.none c none) E (cc4_body i a0 h0 a1 h1 a2 h2 a3 h3 a4 h4) K := by
  simp only [cc4_body_eq_skeleton]; unfold cc4_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of the pipeline on core `c`: the windows' arrays at the region's starting contents; after the
    body at point `t` each input's buffer still at its block and the output's at `out4` of the input blocks; the
    invariant `ΦI`, the same at every point; full shares; the owed tallies `O` and the bound `B` on the recorded
    pairs, the same at every point. -/
def dat4 (c : Dev nD) : Dat τ (Elt F) (HIx 2) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := ΦI spec4 c
  q _ := fullShare
  owed _ := O
  recorded _ := B

/-- The arrays of the proof data are the starting contents (the structure's field projected). -/
theorem A_eq4 (c : Dev nD) (w : Fin cfg4.W) : (dat4 V O B c).A w = V c (Pipeline.arrRef spec4 w) := by
  dsimp only [dat4]

/-- What the body leaves, window by window (the `match` on the window reduced). -/
theorem after4_0 (c : Dev nD) (t : Fin cfg4.N) : (dat4 V O B c).after 0 t = iblk4 V c 0 t := by dsimp only [dat4]
theorem after4_1 (c : Dev nD) (t : Fin cfg4.N) : (dat4 V O B c).after 1 t = iblk4 V c 1 t := by dsimp only [dat4]
theorem after4_2 (c : Dev nD) (t : Fin cfg4.N) : (dat4 V O B c).after 2 t = iblk4 V c 2 t := by dsimp only [dat4]
theorem after4_3 (c : Dev nD) (t : Fin cfg4.N) : (dat4 V O B c).after 3 t = iblk4 V c 3 t := by dsimp only [dat4]
theorem after4_4 (c : Dev nD) (t : Fin cfg4.N) :
    (dat4 V O B c).after 4 t = out4 (iblk4 V c 0 t) (iblk4 V c 1 t) (iblk4 V c 2 t) (iblk4 V c 3 t) := by dsimp only [dat4]

/-- Each input's current buffer holds its block when the body is called at `t`, fetched there or not. -/
theorem before4_0 (c : Dev nD) (t : Fin cfg4.N) (d) : (dat4 V O B c).before 0 t d = iblk4 V c 0 t :=
  before4_0_of V (dat4 V O B c) (A_eq4 V O B c 0) (after4_0 V O B c) t d
theorem before4_1 (c : Dev nD) (t : Fin cfg4.N) (d) : (dat4 V O B c).before 1 t d = iblk4 V c 1 t :=
  before4_1_of V (dat4 V O B c) (A_eq4 V O B c 1) (after4_1 V O B c) t d
theorem before4_2 (c : Dev nD) (t : Fin cfg4.N) (d) : (dat4 V O B c).before 2 t d = iblk4 V c 2 t :=
  before4_2_of V (dat4 V O B c) (A_eq4 V O B c 2) (after4_2 V O B c) t d
theorem before4_3 (c : Dev nD) (t : Fin cfg4.N) (d) : (dat4 V O B c).before 3 t d = iblk4 V c 3 t :=
  before4_3_of V (dat4 V O B c) (A_eq4 V O B c 3) (after4_3 V O B c) t d

/-! ## The body obligation, at a generic point -/

/-- What the body is handed at point `t`: the invariant, the owed tallies, and each window's current buffer at what
    it then holds (the obligation's precondition with its windows written out), -/
def bodyPre4 (c : Dev nD) (t : Fin cfg4.N) : sProp 𝕄 :=
  iprop((dat4 V O B c).Φ t.castSucc ∗ (dat4 V O B c).owesAt (none : HIx 2) t.castSucc
    ∗ (∃ d, owns (c : Thread nD τ) (st4_0 t) fullShare ((dat4 V O B c).before 0 t d))
    ∗ (∃ d, owns (c : Thread nD τ) (st4_1 t) fullShare ((dat4 V O B c).before 1 t d))
    ∗ (∃ d, owns (c : Thread nD τ) (st4_2 t) fullShare ((dat4 V O B c).before 2 t d))
    ∗ (∃ d, owns (c : Thread nD τ) (st4_3 t) fullShare ((dat4 V O B c).before 3 t d))
    ∗ (∃ d, owns (c : Thread nD τ) (st4_4 t) fullShare ((dat4 V O B c).before 4 t d)))

/-- and what it hands back. -/
def bodyPost4 (c : Dev nD) (t : Fin cfg4.N) : sProp 𝕄 :=
  iprop((dat4 V O B c).Φ t.succ ∗ (dat4 V O B c).owesAt (none : HIx 2) t.succ
    ∗ owns (c : Thread nD τ) (st4_0 t) fullShare ((dat4 V O B c).after 0 t)
    ∗ owns (c : Thread nD τ) (st4_1 t) fullShare ((dat4 V O B c).after 1 t)
    ∗ owns (c : Thread nD τ) (st4_2 t) fullShare ((dat4 V O B c).after 2 t)
    ∗ owns (c : Thread nD τ) (st4_3 t) fullShare ((dat4 V O B c).after 3 t)
    ∗ owns (c : Thread nD τ) (st4_4 t) fullShare ((dat4 V O B c).after 4 t))

/-- The body at any point: the inputs' buffers hold their blocks, so the body's triple applies; the invariant and
    the owed tallies, constant over the points, pass through untouched. -/
theorem sound_body4 (c : Dev nD) (t : Fin cfg4.N) :
    bodyPre4 V O B c t ⊢ wp frame (wpE (defs₀ (F := F)) Variants.none c none) Set.univ (bodyAt4 t) (fun _ => bodyPost4 V O B c t) := by
  unfold bodyPre4 bodyPost4 bodyAt4
  simp only [before4_0, before4_1, before4_2, before4_3]
  rw [show (dat4 V O B c).Φ t.succ = (dat4 V O B c).Φ t.castSucc from rfl,
    show (dat4 V O B c).owesAt (none : HIx 2) t.succ = (dat4 V O B c).owesAt (none : HIx 2) t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the pipeline, at every point. -/
theorem body_obligation4 (c : Dev nD) :
    BodyObligation (dat4 (F := F) V O B c) (defs₀ (F := F)) Variants.none (none : HIx 2) Set.univ := fun t => by
  rw [bigSep_W4, bigSep_W4]
  exact sound_body4 V O B c t

end Region4

end Cert.Proof.KB

end
-- ==== Proof.RegionsB.lean ====
/-
  The three TensorCore pipelines of the word-level kernel, region by region: each region's proof data at its entry
  contents and its body obligation at every grid point.
-/
import proofs.«207928_g75127567942135_cont_9to1c4b_313_20_alg».proof.Proof.Region0B
import proofs.«207928_g75127567942135_cont_9to1c4b_313_20_alg».proof.Proof.Region2B
import proofs.«207928_g75127567942135_cont_9to1c4b_313_20_alg».proof.Proof.Region4B
-- ==== Proof.RegionRecsB.lean ====
/-
  The three TensorCore regions of the word-level kernel's @main as segments over the TensorCore's thread state. The
  TensorCore runs inside a launch that also makes two SparseCore calls: throughout region K it owes the start
  signals of the calls still to come (none of them at the index of a pipeline's own waits), and the pairs its waits
  have recorded sit at levels the calls already made allow. Each record says how the region's arrays are split
  out of the core's unscoped buffers at entry and put back at exit, and that the pipeline's own waits sit below
  everything the core owes.
-/
import proofs.«207928_g75127567942135_cont_9to1c4b_313_20_alg».proof.Proof.RegionsB
import Idealize.ShloMosaic.Lib.Pipeline.Regions
import Idealize.ShloMosaic.Lib.Pipeline.RegionsLoop
import Idealize.ShloMosaic.Lib.Pipeline.FrameSuffix
import Idealize.ShloMosaic.Lib.SparseCore.Threads

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Records

/-! ## What the three records share -/

/-- No pipeline of the program has a prefetched table: the admissible contents of the (empty) tables. -/
abbrev admI : (p : Fin 3) → (pcfgs (F := F) p).Adm := fun p => (cfgs p).toPCfg_adm

/-- A core's buffer contents, read at the TensorCore's references: what a region's proof data take. -/
abbrev Vof (W : Dev nD → Valuation τ sig (Elt F)) : (c : Dev nD) → (b : Ref sig .tc) → Buf (Elt F) ((c : Thread nD τ).loc b) :=
  fun c b => W c b

/-- The bound on the TensorCore's recorded pairs before call `n`: every pair at level at most `8 n`. -/
abbrev Bt (F : FTy → Type) (c : Dev nD) (n : ℕ) : Set (SemLoc sig × HIx 2) :=
  {p | (K (F := F)).lev (SparseCore.T c, p.1) p.2 ≤ 8 * n}

/-- Before call `n` the TensorCore owes only start signals of later calls, each at its call's index: nothing at
    the index `none` of a kernel's own waits (what it owes sits at level at least `8 n + 1`; index `none` is level 0). -/
theorem Otc_none (c : Dev nD) (n : ℕ) (g : GSem nD τ sig) : (K (F := F)).Otc c n g none = 0 :=
  Nat.eq_zero_of_not_pos fun h => by
    have h' := SparseCore.Cfg.lev_of_Otc_pos (K := K (F := F)) h
    rw [SparseCore.Cfg.lev_none] at h'
    omega

/-- Recorded pairs within the bound before call `n`, or among a pipeline's own wait pairs at index `none` (level 0),
    all sit at level at most `8 n`. -/
theorem wbelow_of_bound {cfg : Pipeline.Cfg sig Λ₀} (c : Dev nD) (n : ℕ) (Wt : Waits sig (HIx 2))
    (h : (↑Wt : Set (SemLoc sig × HIx 2)) ⊆ Bt F c n ∪ cfg.waitPairs (none : HIx 2)) :
    (K (F := F)).WBelow (SparseCore.T c) Wt (8 * n) := by
  intro p hp
  rcases h (Finset.mem_coe.mpr hp) with hB | ⟨w, s, rfl⟩
  · exact hB
  · show (K (F := F)).lev _ none ≤ _
    rw [SparseCore.Cfg.lev_none]; exact Nat.zero_le _

/-- The TensorCore's thread state around a region entered before call `n` from the contents `W`: every unscoped
    buffer at `W`, the generator register at some state, and what it owes before call `n` with its recorded pairs
    at level at most `8 n`. -/
def TS (n : ℕ) (W : Dev nD → Valuation τ sig (Elt F)) (c : Dev nD) : sProp 𝕄 :=
  iprop(StableHlo.held (c : Thread nD τ) (Pipeline.ucRefs τ sig) (W c) ∗ (∃ r, prngReg c r)
    ∗ ∃ Wt, ⌜(K (F := F)).WBelow (SparseCore.T c) Wt (8 * n)⌝ ∗ owes (SparseCore.T c) ((K (F := F)).Otc c n) Wt)

/-! ## Region 0: the contents it leaves -/

/-- Core `c`'s buffers when region 0, entered from `W`, is left: the pipeline's arrays at what its write-backs leave
    (the inputs as entered, the output's blocks folded in), every other buffer as entered. -/
def Wx0 (W : Dev nD → Valuation τ sig (Elt F)) (c : Dev nD) : Valuation τ sig (Elt F) :=
  Pipeline.withArrays spec0 c (W c) fun w => (dat0 (Vof W) ((K (F := F)).Otc c 0) (Bt F c 0) c).arrAt w cfg0.N
theorem Wx0_arr (W : Dev nD → Valuation τ sig (Elt F)) (c : Dev nD) (w : Fin cfg0.W) :
    Wx0 W c (Proc.devRef .tc (Pipeline.arrRef spec0 w)) = (dat0 (Vof W) ((K (F := F)).Otc c 0) (Bt F c 0) c).arrAt w cfg0.N := by
  unfold Wx0; exact Pipeline.withArrays_arr spec0 launch0.win.arr_inj c _ _ w
theorem Wx0_of_ne (W : Dev nD → Valuation τ sig (Elt F)) (c : Dev nD) (b : Ref sig .tc) (hb : ∀ w, Pipeline.arrRef spec0 w ≠ b) :
    Wx0 W c (Proc.devRef .tc b) = W c (Proc.devRef .tc b) := by
  unfold Wx0; exact Pipeline.withArrays_of_ne spec0 c _ _ b hb
/-- At the exit each array of the pipeline holds what the pipeline leaves, and every other buffer what it held at entry. -/
theorem hF0 (W : Dev nD → Valuation τ sig (Elt F)) (c : Dev nD) (w : Fin cfg0.W) :
    (dat0 (Vof W) ((K (F := F)).Otc c 0) (Bt F c 0) c).arrAt w cfg0.N = Vof (Wx0 W) c (Pipeline.arrRef spec0 w) :=
  (Wx0_arr W c w).symm
theorem hrest0 (W : Dev nD → Valuation τ sig (Elt F)) (c : Dev nD) :
    ∀ b, b ∉ Finset.univ.image (Pipeline.arrRef spec0) → Vof (Wx0 W) c b = Vof W c b :=
  fun b hb => Wx0_of_ne W c b fun w e => hb (Finset.mem_image.mpr ⟨w, Finset.mem_univ _, e⟩)

/-! ## Region 2: the contents it leaves -/

/-- Core `c`'s buffers when region 2, entered from `W`, is left: the pipeline's arrays at what its write-backs leave
    (the inputs as entered, the output's blocks folded in), every other buffer as entered. -/
def Wx2 (W : Dev nD → Valuation τ sig (Elt F)) (c : Dev nD) : Valuation τ sig (Elt F) :=
  Pipeline.withArrays spec2 c (W c) fun w => (dat2 (Vof W) ((K (F := F)).Otc c 1) (Bt F c 1) c).arrAt w cfg2.N
theorem Wx2_arr (W : Dev nD → Valuation τ sig (Elt F)) (c : Dev nD) (w : Fin cfg2.W) :
    Wx2 W c (Proc.devRef .tc (Pipeline.arrRef spec2 w)) = (dat2 (Vof W) ((K (F := F)).Otc c 1) (Bt F c 1) c).arrAt w cfg2.N := by
  unfold Wx2; exact Pipeline.withArrays_arr spec2 launch2.win.arr_inj c _ _ w
theorem Wx2_of_ne (W : Dev nD → Valuation τ sig (Elt F)) (c : Dev nD) (b : Ref sig .tc) (hb : ∀ w, Pipeline.arrRef spec2 w ≠ b) :
    Wx2 W c (Proc.devRef .tc b) = W c (Proc.devRef .tc b) := by
  unfold Wx2; exact Pipeline.withArrays_of_ne spec2 c _ _ b hb
/-- At the exit each array of the pipeline holds what the pipeline leaves, and every other buffer what it held at entry. -/
theorem hF2 (W : Dev nD → Valuation τ sig (Elt F)) (c : Dev nD) (w : Fin cfg2.W) :
    (dat2 (Vof W) ((K (F := F)).Otc c 1) (Bt F c 1) c).arrAt w cfg2.N = Vof (Wx2 W) c (Pipeline.arrRef spec2 w) :=
  (Wx2_arr W c w).symm
theorem hrest2 (W : Dev nD → Valuation τ sig (Elt F)) (c : Dev nD) :
    ∀ b, b ∉ Finset.univ.image (Pipeline.arrRef spec2) → Vof (Wx2 W) c b = Vof W c b :=
  fun b hb => Wx2_of_ne W c b fun w e => hb (Finset.mem_image.mpr ⟨w, Finset.mem_univ _, e⟩)

/-! ## Region 4: the contents it leaves -/

/-- Core `c`'s buffers when region 4, entered from `W`, is left: the pipeline's arrays at what its write-backs leave
    (the inputs as entered, the output's blocks folded in), every other buffer as entered. -/
def Wx4 (W : Dev nD → Valuation τ sig (Elt F)) (c : Dev nD) : Valuation τ sig (Elt F) :=
  Pipeline.withArrays spec4 c (W c) fun w => (dat4 (Vof W) ((K (F := F)).Otc c 2) (Bt F c 2) c).arrAt w cfg4.N
theorem Wx4_arr (W : Dev nD → Valuation τ sig (Elt F)) (c : Dev nD) (w : Fin cfg4.W) :
    Wx4 W c (Proc.devRef .tc (Pipeline.arrRef spec4 w)) = (dat4 (Vof W) ((K (F := F)).Otc c 2) (Bt F c 2) c).arrAt w cfg4.N := by
  unfold Wx4; exact Pipeline.withArrays_arr spec4 launch4.win.arr_inj c _ _ w
theorem Wx4_of_ne (W : Dev nD → Valuation τ sig (Elt F)) (c : Dev nD) (b : Ref sig .tc) (hb : ∀ w, Pipeline.arrRef spec4 w ≠ b) :
    Wx4 W c (Proc.devRef .tc b) = W c (Proc.devRef .tc b) := by
  unfold Wx4; exact Pipeline.withArrays_of_ne spec4 c _ _ b hb
/-- At the exit each array of the pipeline holds what the pipeline leaves, and every other buffer what it held at entry. -/
theorem hF4 (W : Dev nD → Valuation τ sig (Elt F)) (c : Dev nD) (w : Fin cfg4.W) :
    (dat4 (Vof W) ((K (F := F)).Otc c 2) (Bt F c 2) c).arrAt w cfg4.N = Vof (Wx4 W) c (Pipeline.arrRef spec4 w) :=
  (Wx4_arr W c w).symm
theorem hrest4 (W : Dev nD → Valuation τ sig (Elt F)) (c : Dev nD) :
    ∀ b, b ∉ Finset.univ.image (Pipeline.arrRef spec4) → Vof (Wx4 W) c b = Vof W c b :=
  fun b hb => Wx4_of_ne W c b fun w e => hb (Finset.mem_image.mpr ⟨w, Finset.mem_univ _, e⟩)

/-! ## The proof data family -/

variable (W0 W2 W4 : Dev nD → Valuation τ sig (Elt F))

/-- Every pipeline's proof data, each at its region's entry contents, owing what the TensorCore owes before the
    call that follows the region's predecessors (0, 1, 2 calls made), its recorded pairs bounded accordingly: a
    literal `match` on the pipeline, so that the pinned configuration at a numeral reduces to the printed one. -/
def pdats : (p : Fin 3) → (c : Dev nD) → Dat τ (Elt F) (HIx 2) ℕ UU ℕ (Pipeline.pin (pcfgs (F := F)) admI p) c
  | ⟨0, _⟩ => fun c => dat0 (Vof W0) ((K (F := F)).Otc c 0) (Bt F c 0) c
  | ⟨1, _⟩ => fun c => dat2 (Vof W2) ((K (F := F)).Otc c 1) (Bt F c 1) c
  | ⟨2, _⟩ => fun c => dat4 (Vof W4) ((K (F := F)).Otc c 2) (Bt F c 2) c

/-! ## Region 0 as a segment of @main -/

set_option backward.isDefEq.respectTransparency.types false in
/-- REGION 0 (pipeline 0) over the TensorCore's thread state, entered before call 0 from every unscoped buffer at
    `W0` and left at `Wx0 W0`: its arrays split out of the unscoped buffers and put back at the exit contents; the
    generator register into the invariant and out; what the core owes unchanged, its recorded pairs growing by the
    pipeline's own wait pairs only, all at level 0; no semaphore of the kernel's own. The pipeline's waits, at index
    `none`, sit below everything the core owes (start signals of later calls, at their calls' indices). -/
def reg0 : Pipeline.RegionSeg (pcfgs (F := F)) admI (pdats W0 W2 W4) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (Vof W0) ((K (F := F)).Otc c 0) (Bt F c 0) c).loose
  hwaits c := Pipeline.cellsWaits_intro (Pipeline.pin (pcfgs (F := F)) admI) (pdats W0 W2 W4) (none : HIx 2) 0 c fun w s t =>
    (K (F := F)).mayWait_none _ (Otc_none c 0)
  pre c := TS 0 W0 c
  post c := TS 0 (Wx0 W0) c
  X c := iprop(∃ r, prngReg c r)
  Y c := iprop(∃ r, prngReg c r)
  Z c := Pipeline.unscopedRest (Ix := HIx 2) (Name := ℕ) (U := UU) (Lvl := ℕ) spec0 c (Vof W0 c)
  hentry c := by
    rw [Pipeline.ownSems0_none]
    have hsplit := Pipeline.arrays_of_unscopedBufs (p := 0) (pcfgs (F := F)) admI (pdats W0 W2 W4) launch0.win launch0.arr_whole c
      ((pdats W0 W2 W4 0 c).share_full fun _ => rfl) (Vof W0 c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr
      · ipureintro; exact fun q hq => Or.inl (hWt q (Finset.mem_coe.mp hq))
      iexact HO
    isplitl [Hp]; · iexact Hp
    iexact Hrest
  hin c := by
    rw [show (pdats W0 W2 W4 0 c).Φ 0 = ΦI spec0 c from rfl]; unfold ΦI
    iintro ⟨Hp, -, Hr⟩
    isplitl [Hr]; · iexact Hr
    iexact Hp
  hout c := by
    rw [Pipeline.ownSems0_none, show (pdats W0 W2 W4 0 c).Φ (Fin.last _) = ΦI spec0 c from rfl]; unfold ΦI
    iintro ⟨Hr, Hp⟩
    isplitl [Hp]; · iexact Hp
    isplitr; · iempintro
    iexact Hr
  hexit c := by
    have hjoin := Pipeline.unscopedBufs_of_arrays (p := 0) (pcfgs (F := F)) admI (Ix := HIx 2) (Name := ℕ) (U := UU) (Lvl := ℕ)
      launch0.win launch0.arr_whole c (pdats W0 W2 W4) ((pdats W0 W2 W4 0 c).share_full fun _ => rfl)
      (Vof W0 c) (Vof (Wx0 W0) c) ((pdats W0 W2 W4 0 c).arrAt · cfg0.N) (hF0 W0 c) (hrest0 W0 c)
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro; exact wbelow_of_bound c 0 Wt hWt
    iexact HO

/-! ## Region 2 as a segment of @main -/

set_option backward.isDefEq.respectTransparency.types false in
/-- REGION 2 (pipeline 1) over the TensorCore's thread state, entered before call 1 from every unscoped buffer at
    `W2` and left at `Wx2 W2`: its arrays split out of the unscoped buffers and put back at the exit contents; the
    generator register into the invariant and out; what the core owes unchanged, its recorded pairs growing by the
    pipeline's own wait pairs only, all at level 0; no semaphore of the kernel's own. The pipeline's waits, at index
    `none`, sit below everything the core owes (start signals of later calls, at their calls' indices). -/
def reg2 : Pipeline.RegionSeg (pcfgs (F := F)) admI (pdats W0 W2 W4) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vof W2) ((K (F := F)).Otc c 1) (Bt F c 1) c).loose
  hwaits c := Pipeline.cellsWaits_intro (Pipeline.pin (pcfgs (F := F)) admI) (pdats W0 W2 W4) (none : HIx 2) 1 c fun w s t =>
    (K (F := F)).mayWait_none _ (Otc_none c 1)
  pre c := TS 1 W2 c
  post c := TS 1 (Wx2 W2) c
  X c := iprop(∃ r, prngReg c r)
  Y c := iprop(∃ r, prngReg c r)
  Z c := Pipeline.unscopedRest (Ix := HIx 2) (Name := ℕ) (U := UU) (Lvl := ℕ) spec2 c (Vof W2 c)
  hentry c := by
    rw [Pipeline.ownSems0_none]
    have hsplit := Pipeline.arrays_of_unscopedBufs (p := 1) (pcfgs (F := F)) admI (pdats W0 W2 W4) launch2.win launch2.arr_whole c
      ((pdats W0 W2 W4 1 c).share_full fun _ => rfl) (Vof W2 c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr
      · ipureintro; exact fun q hq => Or.inl (hWt q (Finset.mem_coe.mp hq))
      iexact HO
    isplitl [Hp]; · iexact Hp
    iexact Hrest
  hin c := by
    rw [show (pdats W0 W2 W4 1 c).Φ 0 = ΦI spec2 c from rfl]; unfold ΦI
    iintro ⟨Hp, -, Hr⟩
    isplitl [Hr]; · iexact Hr
    iexact Hp
  hout c := by
    rw [Pipeline.ownSems0_none, show (pdats W0 W2 W4 1 c).Φ (Fin.last _) = ΦI spec2 c from rfl]; unfold ΦI
    iintro ⟨Hr, Hp⟩
    isplitl [Hp]; · iexact Hp
    isplitr; · iempintro
    iexact Hr
  hexit c := by
    have hjoin := Pipeline.unscopedBufs_of_arrays (p := 1) (pcfgs (F := F)) admI (Ix := HIx 2) (Name := ℕ) (U := UU) (Lvl := ℕ)
      launch2.win launch2.arr_whole c (pdats W0 W2 W4) ((pdats W0 W2 W4 1 c).share_full fun _ => rfl)
      (Vof W2 c) (Vof (Wx2 W2) c) ((pdats W0 W2 W4 1 c).arrAt · cfg2.N) (hF2 W2 c) (hrest2 W2 c)
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro; exact wbelow_of_bound c 1 Wt hWt
    iexact HO

/-! ## Region 4 as a segment of @main -/

set_option backward.isDefEq.respectTransparency.types false in
/-- REGION 4 (pipeline 2) over the TensorCore's thread state, entered before call 2 from every unscoped buffer at
    `W4` and left at `Wx4 W4`: its arrays split out of the unscoped buffers and put back at the exit contents; the
    generator register into the invariant and out; what the core owes unchanged, its recorded pairs growing by the
    pipeline's own wait pairs only, all at level 0; no semaphore of the kernel's own. The pipeline's waits, at index
    `none`, sit below everything the core owes (start signals of later calls, at their calls' indices). -/
def reg4 : Pipeline.RegionSeg (pcfgs (F := F)) admI (pdats W0 W2 W4) (none : HIx 2) defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 (Vof W4) ((K (F := F)).Otc c 2) (Bt F c 2) c).loose
  hwaits c := Pipeline.cellsWaits_intro (Pipeline.pin (pcfgs (F := F)) admI) (pdats W0 W2 W4) (none : HIx 2) 2 c fun w s t =>
    (K (F := F)).mayWait_none _ (Otc_none c 2)
  pre c := TS 2 W4 c
  post c := TS 2 (Wx4 W4) c
  X c := iprop(∃ r, prngReg c r)
  Y c := iprop(∃ r, prngReg c r)
  Z c := Pipeline.unscopedRest (Ix := HIx 2) (Name := ℕ) (U := UU) (Lvl := ℕ) spec4 c (Vof W4 c)
  hentry c := by
    rw [Pipeline.ownSems0_none]
    have hsplit := Pipeline.arrays_of_unscopedBufs (p := 2) (pcfgs (F := F)) admI (pdats W0 W2 W4) launch4.win launch4.arr_whole c
      ((pdats W0 W2 W4 2 c).share_full fun _ => rfl) (Vof W4 c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr
      · ipureintro; exact fun q hq => Or.inl (hWt q (Finset.mem_coe.mp hq))
      iexact HO
    isplitl [Hp]; · iexact Hp
    iexact Hrest
  hin c := by
    rw [show (pdats W0 W2 W4 2 c).Φ 0 = ΦI spec4 c from rfl]; unfold ΦI
    iintro ⟨Hp, -, Hr⟩
    isplitl [Hr]; · iexact Hr
    iexact Hp
  hout c := by
    rw [Pipeline.ownSems0_none, show (pdats W0 W2 W4 2 c).Φ (Fin.last _) = ΦI spec4 c from rfl]; unfold ΦI
    iintro ⟨Hr, Hp⟩
    isplitl [Hp]; · iexact Hp
    isplitr; · iempintro
    iexact Hr
  hexit c := by
    have hjoin := Pipeline.unscopedBufs_of_arrays (p := 2) (pcfgs (F := F)) admI (Ix := HIx 2) (Name := ℕ) (U := UU) (Lvl := ℕ)
      launch4.win launch4.arr_whole c (pdats W0 W2 W4) ((pdats W0 W2 W4 2 c).share_full fun _ => rfl)
      (Vof W4 c) (Vof (Wx4 W4) c) ((pdats W0 W2 W4 2 c).arrAt · cfg4.N) (hF4 W4 c) (hrest4 W4 c)
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro; exact wbelow_of_bound c 2 Wt hWt
    iexact HO

end Records

end Cert.Proof.KB

end
-- ==== Proof.RegionReadB.lean ====
/-
  Reading a buffer back through a TensorCore region: the contents a region leaves (`WxK W`) agree with the
  contents it was entered from (`W`) at every buffer the pipeline does not write — a buffer that is no window's
  array, or the array of an input window. These are the program's arguments and the intermediate buffers that the
  SparseCore calls and the later regions read.
-/
import proofs.«207928_g75127567942135_cont_9to1c4b_313_20_alg».proof.Proof.RegionRecsB

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section ReadBack

/-! ## Through region 0 -/

/-! Buffers that are no window's array of the pipeline: the exit contents are the entry contents there. -/
theorem Wx0_arg0 (W : Dev nD → Valuation τ sig (Elt F)) (c : Dev nD) :
    Wx0 W c (Proc.devRef .tc main_arg0) = W c (Proc.devRef .tc main_arg0) := Wx0_of_ne W c main_arg0 (by decide)
theorem Wx0_arg1 (W : Dev nD → Valuation τ sig (Elt F)) (c : Dev nD) :
    Wx0 W c (Proc.devRef .tc main_arg1) = W c (Proc.devRef .tc main_arg1) := Wx0_of_ne W c main_arg1 (by decide)
theorem Wx0_arg2 (W : Dev nD → Valuation τ sig (Elt F)) (c : Dev nD) :
    Wx0 W c (Proc.devRef .tc main_arg2) = W c (Proc.devRef .tc main_arg2) := Wx0_of_ne W c main_arg2 (by decide)
theorem Wx0_arg3 (W : Dev nD → Valuation τ sig (Elt F)) (c : Dev nD) :
    Wx0 W c (Proc.devRef .tc main_arg3) = W c (Proc.devRef .tc main_arg3) := Wx0_of_ne W c main_arg3 (by decide)
theorem Wx0_arg4 (W : Dev nD → Valuation τ sig (Elt F)) (c : Dev nD) :
    Wx0 W c (Proc.devRef .tc main_arg4) = W c (Proc.devRef .tc main_arg4) := Wx0_of_ne W c main_arg4 (by decide)
theorem Wx0_arg5 (W : Dev nD → Valuation τ sig (Elt F)) (c : Dev nD) :
    Wx0 W c (Proc.devRef .tc main_arg5) = W c (Proc.devRef .tc main_arg5) := Wx0_of_ne W c main_arg5 (by decide)
theorem Wx0_v6 (W : Dev nD → Valuation τ sig (Elt F)) (c : Dev nD) :
    Wx0 W c (Proc.devRef .tc main_v6) = W c (Proc.devRef .tc main_v6) := Wx0_of_ne W c main_v6 (by decide)
theorem Wx0_v7 (W : Dev nD → Valuation τ sig (Elt F)) (c : Dev nD) :
    Wx0 W c (Proc.devRef .tc main_v7) = W c (Proc.devRef .tc main_v7) := Wx0_of_ne W c main_v7 (by decide)
theorem Wx0_v32 (W : Dev nD → Valuation τ sig (Elt F)) (c : Dev nD) :
    Wx0 W c (Proc.devRef .tc main_v32) = W c (Proc.devRef .tc main_v32) := Wx0_of_ne W c main_v32 (by decide)

/-! Arrays of input windows: the pipeline only reads them, so after every point they hold what they held at entry. -/
theorem Wx0_v20 (W : Dev nD → Valuation τ sig (Elt F)) (c : Dev nD) :
    Wx0 W c (Proc.devRef .tc main_v20) = W c (Proc.devRef .tc main_v20) :=
  (Wx0_arr W c 1).trans (((dat0 (Vof W) ((K (F := F)).Otc c 0) (Bt F c 0) c).arrAt_in 1 rfl _).trans
    (A_eq0 (Vof W) ((K (F := F)).Otc c 0) (Bt F c 0) c 1))

/-! ## Through region 2 -/

/-! Buffers that are no window's array of the pipeline: the exit contents are the entry contents there. -/
theorem Wx2_arg0 (W : Dev nD → Valuation τ sig (Elt F)) (c : Dev nD) :
    Wx2 W c (Proc.devRef .tc main_arg0) = W c (Proc.devRef .tc main_arg0) := Wx2_of_ne W c main_arg0 (by decide)
theorem Wx2_arg1 (W : Dev nD → Valuation τ sig (Elt F)) (c : Dev nD) :
    Wx2 W c (Proc.devRef .tc main_arg1) = W c (Proc.devRef .tc main_arg1) := Wx2_of_ne W c main_arg1 (by decide)
theorem Wx2_arg3 (W : Dev nD → Valuation τ sig (Elt F)) (c : Dev nD) :
    Wx2 W c (Proc.devRef .tc main_arg3) = W c (Proc.devRef .tc main_arg3) := Wx2_of_ne W c main_arg3 (by decide)
theorem Wx2_arg4 (W : Dev nD → Valuation τ sig (Elt F)) (c : Dev nD) :
    Wx2 W c (Proc.devRef .tc main_arg4) = W c (Proc.devRef .tc main_arg4) := Wx2_of_ne W c main_arg4 (by decide)
theorem Wx2_arg5 (W : Dev nD → Valuation τ sig (Elt F)) (c : Dev nD) :
    Wx2 W c (Proc.devRef .tc main_arg5) = W c (Proc.devRef .tc main_arg5) := Wx2_of_ne W c main_arg5 (by decide)
theorem Wx2_v6 (W : Dev nD → Valuation τ sig (Elt F)) (c : Dev nD) :
    Wx2 W c (Proc.devRef .tc main_v6) = W c (Proc.devRef .tc main_v6) := Wx2_of_ne W c main_v6 (by decide)
theorem Wx2_v7 (W : Dev nD → Valuation τ sig (Elt F)) (c : Dev nD) :
    Wx2 W c (Proc.devRef .tc main_v7) = W c (Proc.devRef .tc main_v7) := Wx2_of_ne W c main_v7 (by decide)
theorem Wx2_v33 (W : Dev nD → Valuation τ sig (Elt F)) (c : Dev nD) :
    Wx2 W c (Proc.devRef .tc main_v33) = W c (Proc.devRef .tc main_v33) := Wx2_of_ne W c main_v33 (by decide)
theorem Wx2_v34 (W : Dev nD → Valuation τ sig (Elt F)) (c : Dev nD) :
    Wx2 W c (Proc.devRef .tc main_v34) = W c (Proc.devRef .tc main_v34) := Wx2_of_ne W c main_v34 (by decide)

/-! Arrays of input windows: the pipeline only reads them, so after every point they hold what they held at entry. -/
theorem Wx2_arg2 (W : Dev nD → Valuation τ sig (Elt F)) (c : Dev nD) :
    Wx2 W c (Proc.devRef .tc main_arg2) = W c (Proc.devRef .tc main_arg2) :=
  (Wx2_arr W c 2).trans (((dat2 (Vof W) ((K (F := F)).Otc c 1) (Bt F c 1) c).arrAt_in 2 rfl _).trans
    (A_eq2 (Vof W) ((K (F := F)).Otc c 1) (Bt F c 1) c 2))
theorem Wx2_v20 (W : Dev nD → Valuation τ sig (Elt F)) (c : Dev nD) :
    Wx2 W c (Proc.devRef .tc main_v20) = W c (Proc.devRef .tc main_v20) :=
  (Wx2_arr W c 4).trans (((dat2 (Vof W) ((K (F := F)).Otc c 1) (Bt F c 1) c).arrAt_in 4 rfl _).trans
    (A_eq2 (Vof W) ((K (F := F)).Otc c 1) (Bt F c 1) c 4))
theorem Wx2_v32 (W : Dev nD → Valuation τ sig (Elt F)) (c : Dev nD) :
    Wx2 W c (Proc.devRef .tc main_v32) = W c (Proc.devRef .tc main_v32) :=
  (Wx2_arr W c 1).trans (((dat2 (Vof W) ((K (F := F)).Otc c 1) (Bt F c 1) c).arrAt_in 1 rfl _).trans
    (A_eq2 (Vof W) ((K (F := F)).Otc c 1) (Bt F c 1) c 1))

/-! ## Through region 4 -/

/-! Buffers that are no window's array of the pipeline: the exit contents are the entry contents there. -/
theorem Wx4_arg0 (W : Dev nD → Valuation τ sig (Elt F)) (c : Dev nD) :
    Wx4 W c (Proc.devRef .tc main_arg0) = W c (Proc.devRef .tc main_arg0) := Wx4_of_ne W c main_arg0 (by decide)
theorem Wx4_arg1 (W : Dev nD → Valuation τ sig (Elt F)) (c : Dev nD) :
    Wx4 W c (Proc.devRef .tc main_arg1) = W c (Proc.devRef .tc main_arg1) := Wx4_of_ne W c main_arg1 (by decide)
theorem Wx4_arg2 (W : Dev nD → Valuation τ sig (Elt F)) (c : Dev nD) :
    Wx4 W c (Proc.devRef .tc main_arg2) = W c (Proc.devRef .tc main_arg2) := Wx4_of_ne W c main_arg2 (by decide)
theorem Wx4_arg3 (W : Dev nD → Valuation τ sig (Elt F)) (c : Dev nD) :
    Wx4 W c (Proc.devRef .tc main_arg3) = W c (Proc.devRef .tc main_arg3) := Wx4_of_ne W c main_arg3 (by decide)
theorem Wx4_arg5 (W : Dev nD → Valuation τ sig (Elt F)) (c : Dev nD) :
    Wx4 W c (Proc.devRef .tc main_arg5) = W c (Proc.devRef .tc main_arg5) := Wx4_of_ne W c main_arg5 (by decide)
theorem Wx4_v6 (W : Dev nD → Valuation τ sig (Elt F)) (c : Dev nD) :
    Wx4 W c (Proc.devRef .tc main_v6) = W c (Proc.devRef .tc main_v6) := Wx4_of_ne W c main_v6 (by decide)
theorem Wx4_v7 (W : Dev nD → Valuation τ sig (Elt F)) (c : Dev nD) :
    Wx4 W c (Proc.devRef .tc main_v7) = W c (Proc.devRef .tc main_v7) := Wx4_of_ne W c main_v7 (by decide)
theorem Wx4_v20 (W : Dev nD → Valuation τ sig (Elt F)) (c : Dev nD) :
    Wx4 W c (Proc.devRef .tc main_v20) = W c (Proc.devRef .tc main_v20) := Wx4_of_ne W c main_v20 (by decide)
theorem Wx4_v33 (W : Dev nD → Valuation τ sig (Elt F)) (c : Dev nD) :
    Wx4 W c (Proc.devRef .tc main_v33) = W c (Proc.devRef .tc main_v33) := Wx4_of_ne W c main_v33 (by decide)
theorem Wx4_v34 (W : Dev nD → Valuation τ sig (Elt F)) (c : Dev nD) :
    Wx4 W c (Proc.devRef .tc main_v34) = W c (Proc.devRef .tc main_v34) := Wx4_of_ne W c main_v34 (by decide)
theorem Wx4_v39 (W : Dev nD → Valuation τ sig (Elt F)) (c : Dev nD) :
    Wx4 W c (Proc.devRef .tc main_v39) = W c (Proc.devRef .tc main_v39) := Wx4_of_ne W c main_v39 (by decide)
theorem Wx4_v40 (W : Dev nD → Valuation τ sig (Elt F)) (c : Dev nD) :
    Wx4 W c (Proc.devRef .tc main_v40) = W c (Proc.devRef .tc main_v40) := Wx4_of_ne W c main_v40 (by decide)

/-! Arrays of input windows: the pipeline only reads them, so after every point they hold what they held at entry. -/
theorem Wx4_arg4 (W : Dev nD → Valuation τ sig (Elt F)) (c : Dev nD) :
    Wx4 W c (Proc.devRef .tc main_arg4) = W c (Proc.devRef .tc main_arg4) :=
  (Wx4_arr W c 2).trans (((dat4 (Vof W) ((K (F := F)).Otc c 2) (Bt F c 2) c).arrAt_in 2 rfl _).trans
    (A_eq4 (Vof W) ((K (F := F)).Otc c 2) (Bt F c 2) c 2))
theorem Wx4_v32 (W : Dev nD → Valuation τ sig (Elt F)) (c : Dev nD) :
    Wx4 W c (Proc.devRef .tc main_v32) = W c (Proc.devRef .tc main_v32) :=
  (Wx4_arr W c 1).trans (((dat4 (Vof W) ((K (F := F)).Otc c 2) (Bt F c 2) c).arrAt_in 1 rfl _).trans
    (A_eq4 (Vof W) ((K (F := F)).Otc c 2) (Bt F c 2) c 1))

end ReadBack

end Cert.Proof.KB

end
-- ==== Proof.MainShapeB.lean ====
import proofs.«207928_g75127567942135_cont_9to1c4b_313_20_alg».proof.Proof.SetupB

/-!
The kernel program's @main as straight lines of tensor operations around its launches. With the three
calls of outlined functions replaced by their bodies over each call's own buffers, @main is: a line of
fifty operations (the edge list's two rows padded to whole tiles, the features padded, the two degree
counts), the first TensorCore region and the first row-gather; five operations (the scatter-add of the
gathered rows, a bias reshaped); the second region and the second row-gather; five operations alike; the
third region; and the final slice back to the unpadded rows. Each line touches TensorCore buffers only,
determines its results, and writes none of the six argument arrays.
-/

noncomputable section

namespace Cert.Proof.KB

open Cert.Kernel Cert.Kernel.Gen Idealize.ShloMosaic Idealize.ShloMosaic.StableHlo Idealize.SL.Sem
open Idealize.ShloMosaic.TcCoe

variable {F : FTy → Type} [FloatOps F]

/-- The operations before the first region, in program order: the two rows of the edge list, each extended by
    7680 copies of the node count to a whole number of tiles; the features padded with zero rows (`_pad`: the
    pad value converted, the pad); and, for the sources and then the targets, the index clamped below by zero
    (`clip`: the bound converted, broadcast, the maximum), a negative one wrapped, ones scattered into the padded
    count, converted to float and reshaped to a column. -/
abbrev opsA : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_c (constantI S_ 32 10000#32),
    unary main_c main_v4 (broadcastInDim S7680 ![] bcast_S_S7680 : (⟨S_, .i32⟩ : BufTy).Contents (Elt F) → (⟨S7680, .i32⟩ : BufTy).Contents (Elt F)),
    binary main_v1 main_v4 main_v5 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    reshape main_v5 main_v6 rfl shapeCasts_S327680_S2560x128,
    binary main_v3 main_v4 main_v7 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    nullary main_c_0 (constantI S_ 32 0#32),
    TRef.unary (.of main_c_0 : TRef sig ⟨S_, .i32⟩) main_call0.v0 (sitofp .f32),
    TRef.binary (.of main_arg0 : TRef sig ⟨S10000x128, .f32⟩) main_call0.v0 main_call0.v1 (fun x v => pad S10240x128 ![0, 0] ![240, 0] ![0, 0] x v pads_S10000x128_S10240x128_02400_000 h_S_),
    nullary main_c_1 (constantI S_ 32 0#32),
    unary main_c_1 main_v9 (broadcastInDim S10240 ![] bcast_S_S10240 : (⟨S_, .i32⟩ : BufTy).Contents (Elt F) → (⟨S10240, .i32⟩ : BufTy).Contents (Elt F)),
    nullary main_c_2 (constantI S_ 32 0#32),
    TRef.unary (.of main_c_2 : TRef sig ⟨S_, .i32⟩) main_call1.v0 id,
    TRef.unary main_call1.v0 main_call1.v1 (broadcastInDim S320000 ![] bcast_S_S320000),
    TRef.binary main_call1.v1 (.of main_v1 : TRef sig ⟨S320000, .i32⟩) main_call1.v2 maxsi,
    nullary main_c_3 (constantI S_ 32 0#32),
    unary main_c_3 main_v11 (broadcastInDim S320000 ![] bcast_S_S320000 : (⟨S_, .i32⟩ : BufTy).Contents (Elt F) → (⟨S320000, .i32⟩ : BufTy).Contents (Elt F)),
    binary main_v10 main_v11 main_v12 (cmpi .slt : (⟨S320000, .i32⟩ : BufTy).Contents (Elt F) → (⟨S320000, .i32⟩ : BufTy).Contents (Elt F) → (⟨S320000, .i1⟩ : BufTy).Contents (Elt F)),
    nullary main_c_4 (constantI S_ 32 10240#32),
    unary main_c_4 main_v13 (broadcastInDim S320000 ![] bcast_S_S320000 : (⟨S_, .i32⟩ : BufTy).Contents (Elt F) → (⟨S320000, .i32⟩ : BufTy).Contents (Elt F)),
    binary main_v10 main_v13 main_v14 (addi : (⟨S320000, .i32⟩ : BufTy).Contents (Elt F) → (⟨S320000, .i32⟩ : BufTy).Contents (Elt F) → (⟨S320000, .i32⟩ : BufTy).Contents (Elt F)),
    ternary main_v12 main_v14 main_v10 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v15 main_v16 (broadcastInDim S320000x1 ![0] bcast_S320000_S320000x1_0 : (⟨S320000, .i32⟩ : BufTy).Contents (Elt F) → (⟨S320000x1, .i32⟩ : BufTy).Contents (Elt F)),
    nullary main_c_5 (constantI S_ 32 1#32),
    unary main_c_5 main_v17 (broadcastInDim S320000 ![] bcast_S_S320000 : (⟨S_, .i32⟩ : BufTy).Contents (Elt F) → (⟨S320000, .i32⟩ : BufTy).Contents (Elt F)),
    ternary main_v9 main_v16 main_v17 main_v18 ((fun x i u => Host.scatter scatter_S10240_S320000x1_S320000_n_0_0_1 IntOp.addi x i u) : (⟨S10240, .i32⟩ : BufTy).Contents (Elt F) → (⟨S320000x1, .i32⟩ : BufTy).Contents (Elt F) → (⟨S320000, .i32⟩ : BufTy).Contents (Elt F) → (⟨S10240, .i32⟩ : BufTy).Contents (Elt F)),
    unary main_v18 main_v19 (sitofp .f32 : (⟨S10240, .i32⟩ : BufTy).Contents (Elt F) → (⟨S10240, .f32⟩ : BufTy).Contents (Elt F)),
    reshape main_v19 main_v20 rfl shapeCasts_S10240_S10240x1,
    nullary main_c_6 (constantI S_ 32 0#32),
    unary main_c_6 main_v21 (broadcastInDim S10240 ![] bcast_S_S10240 : (⟨S_, .i32⟩ : BufTy).Contents (Elt F) → (⟨S10240, .i32⟩ : BufTy).Contents (Elt F)),
    nullary main_c_7 (constantI S_ 32 0#32),
    TRef.unary (.of main_c_7 : TRef sig ⟨S_, .i32⟩) main_call2.v0 id,
    TRef.unary main_call2.v0 main_call2.v1 (broadcastInDim S320000 ![] bcast_S_S320000),
    TRef.binary main_call2.v1 (.of main_v3 : TRef sig ⟨S320000, .i32⟩) main_call2.v2 maxsi,
    nullary main_c_8 (constantI S_ 32 0#32),
    unary main_c_8 main_v23 (broadcastInDim S320000 ![] bcast_S_S320000 : (⟨S_, .i32⟩ : BufTy).Contents (Elt F) → (⟨S320000, .i32⟩ : BufTy).Contents (Elt F)),
    binary main_v22 main_v23 main_v24 (cmpi .slt : (⟨S320000, .i32⟩ : BufTy).Contents (Elt F) → (⟨S320000, .i32⟩ : BufTy).Contents (Elt F) → (⟨S320000, .i1⟩ : BufTy).Contents (Elt F)),
    nullary main_c_9 (constantI S_ 32 10240#32),
    unary main_c_9 main_v25 (broadcastInDim S320000 ![] bcast_S_S320000 : (⟨S_, .i32⟩ : BufTy).Contents (Elt F) → (⟨S320000, .i32⟩ : BufTy).Contents (Elt F)),
    binary main_v22 main_v25 main_v26 (addi : (⟨S320000, .i32⟩ : BufTy).Contents (Elt F) → (⟨S320000, .i32⟩ : BufTy).Contents (Elt F) → (⟨S320000, .i32⟩ : BufTy).Contents (Elt F)),
    ternary main_v24 main_v26 main_v22 main_v27 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v27 main_v28 (broadcastInDim S320000x1 ![0] bcast_S320000_S320000x1_0 : (⟨S320000, .i32⟩ : BufTy).Contents (Elt F) → (⟨S320000x1, .i32⟩ : BufTy).Contents (Elt F)),
    nullary main_c_10 (constantI S_ 32 1#32),
    unary main_c_10 main_v29 (broadcastInDim S320000 ![] bcast_S_S320000 : (⟨S_, .i32⟩ : BufTy).Contents (Elt F) → (⟨S320000, .i32⟩ : BufTy).Contents (Elt F)),
    ternary main_v21 main_v28 main_v29 main_v30 ((fun x i u => Host.scatter scatter_S10240_S320000x1_S320000_n_0_0_1 IntOp.addi x i u) : (⟨S10240, .i32⟩ : BufTy).Contents (Elt F) → (⟨S320000x1, .i32⟩ : BufTy).Contents (Elt F) → (⟨S320000, .i32⟩ : BufTy).Contents (Elt F) → (⟨S10240, .i32⟩ : BufTy).Contents (Elt F)),
    unary main_v30 main_v31 (sitofp .f32 : (⟨S10240, .i32⟩ : BufTy).Contents (Elt F) → (⟨S10240, .f32⟩ : BufTy).Contents (Elt F)),
    reshape main_v31 main_v32 rfl shapeCasts_S10240_S10240x1 ]

/-- Between the first row-gather and the second region: a zero array, the padded targets as index
    column, the gathered rows summed into it, and the first bias as a row. -/
abbrev opsB : List (HloOp τ sig (Elt F)) :=
  [ nullary main_cst (constant S_ .f32 0x00000000#32),
    unary main_cst main_v35 (broadcastInDim S10240x128 ![] bcast_S_S10240x128 : (⟨S_, .f32⟩ : BufTy).Contents (Elt F) → (⟨S10240x128, .f32⟩ : BufTy).Contents (Elt F)),
    unary main_v7 main_v36 (broadcastInDim S327680x1 ![0] bcast_S327680_S327680x1_0 : (⟨S327680, .i32⟩ : BufTy).Contents (Elt F) → (⟨S327680x1, .i32⟩ : BufTy).Contents (Elt F)),
    ternary main_v35 main_v36 main_v34 main_v37 ((fun x i u => Host.scatterAdd scatter_S10240x128_S327680x1_S327680x128_1_0_0_1 x i u) : (⟨S10240x128, .f32⟩ : BufTy).Contents (Elt F) → (⟨S327680x1, .i32⟩ : BufTy).Contents (Elt F) → (⟨S327680x128, .f32⟩ : BufTy).Contents (Elt F) → (⟨S10240x128, .f32⟩ : BufTy).Contents (Elt F)),
    reshape main_arg3 main_v38 rfl shapeCasts_S128_S1x128 ]

/-- Between the second row-gather and the third region: the same four for the second layer, and the second
    bias as a row. -/
abbrev opsC : List (HloOp τ sig (Elt F)) :=
  [ nullary main_cst_11 (constant S_ .f32 0x00000000#32),
    unary main_cst_11 main_v41 (broadcastInDim S10240x128 ![] bcast_S_S10240x128 : (⟨S_, .f32⟩ : BufTy).Contents (Elt F) → (⟨S10240x128, .f32⟩ : BufTy).Contents (Elt F)),
    unary main_v7 main_v42 (broadcastInDim S327680x1 ![0] bcast_S327680_S327680x1_0 : (⟨S327680, .i32⟩ : BufTy).Contents (Elt F) → (⟨S327680x1, .i32⟩ : BufTy).Contents (Elt F)),
    ternary main_v41 main_v42 main_v40 main_v43 ((fun x i u => Host.scatterAdd scatter_S10240x128_S327680x1_S327680x128_1_0_0_1 x i u) : (⟨S10240x128, .f32⟩ : BufTy).Contents (Elt F) → (⟨S327680x1, .i32⟩ : BufTy).Contents (Elt F) → (⟨S327680x128, .f32⟩ : BufTy).Contents (Elt F) → (⟨S10240x128, .f32⟩ : BufTy).Contents (Elt F)),
    reshape main_arg5 main_v44 rfl shapeCasts_S128_S1x128 ]

/-- After the third region: the first 10000 rows of its result. -/
abbrev opsD : List (HloOp τ sig (Elt F)) :=
  [ unary main_v45 main_v46 ((extractStridedSlice S10000x128 ![0, 0] · slices_S10240x128_S10000x128_0_0) : (⟨S10240x128, .f32⟩ : BufTy).Contents (Elt F) → (⟨S10000x128, .f32⟩ : BufTy).Contents (Elt F)) ]

set_option maxRecDepth 16384 in
set_option maxHeartbeats 4000000 in
/-- @main is those four lines around the three regions and the two row-gathers: with the two windows and the
    functions' bodies unfolded at their calls, both sides are one chain of steps once sequencing is
    reassociated to the right and the callees' returns are dropped. -/
theorem main_eq (d : Dev nD) : main (F := F) d = ((do
      seq opsA
      Prog.lift (.customCall (SparseCore.inner (Pipeline.entry 0)) ())
      sc.run d 0
      seq opsB
      Prog.lift (.customCall (SparseCore.inner (Pipeline.entry 1)) ())
      sc.run d 1
      seq opsC
      Prog.lift (.customCall (SparseCore.inner (Pipeline.entry 2)) ())
      seq opsD) : Prog (TpuEff nD τ sig (Elt F) (SparseCore.Sig (Pipeline.Sig Λ₀ (Fin 3) fun p => (pcfgs (F := F) p).Adm) 2) .tc) PUnit) := by
  simp only [main, main_part0, main_part1, fn_pad.body, fn_clip.body, seq, bind_assoc, pure_bind]

/-! ## What each line touches, and what it leaves

Every operation's operands and result are TensorCore references; every operation determines its results (none
allocates a buffer of unspecified contents); and no operation's result buffer is an argument's, so the fold of
each line leaves the six argument arrays at their contents (at each operation the argument's reference differs
from the result's, a decidable comparison). -/

set_option maxRecDepth 8192 in
theorem opsA_forall : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., reshape_bufs_sub .., binary_bufs_sub .., nullary_bufs_sub .., unary_bufs_sub .., binary_bufs_sub ..,
    nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., unary_bufs_sub ..,
    reshape_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    unary_bufs_sub .., reshape_bufs_sub ..⟩

theorem opsA_sub : ∀ op ∈ (opsA : List (HloOp τ sig (Elt F))), op.bufs ⊆ tcRefs τ sig :=
  List.forall_iff_forall_mem.1 opsA_forall

set_option maxRecDepth 8192 in
set_option maxHeartbeats 2000000 in
theorem opsA_fresh : ∀ op ∈ (opsA : List (HloOp τ sig (Elt F))), op.fresh = ∅ := by
  intro _ h; (repeat (cases h with | head => rfl | tail _ h => ?_)); exact nomatch h

set_option maxRecDepth 8192 in
set_option maxHeartbeats 2000000 in
theorem opsA_arg0 (V : Valuation τ sig (Elt F)) :
    after opsA V (main_arg0 : DevRef τ sig) = V (main_arg0 : DevRef τ sig) := by
  after_results_simp

set_option maxRecDepth 8192 in
set_option maxHeartbeats 2000000 in
theorem opsA_arg1 (V : Valuation τ sig (Elt F)) :
    after opsA V (main_arg1 : DevRef τ sig) = V (main_arg1 : DevRef τ sig) := by
  after_results_simp

set_option maxRecDepth 8192 in
set_option maxHeartbeats 2000000 in
theorem opsA_arg2 (V : Valuation τ sig (Elt F)) :
    after opsA V (main_arg2 : DevRef τ sig) = V (main_arg2 : DevRef τ sig) := by
  after_results_simp

set_option maxRecDepth 8192 in
set_option maxHeartbeats 2000000 in
theorem opsA_arg3 (V : Valuation τ sig (Elt F)) :
    after opsA V (main_arg3 : DevRef τ sig) = V (main_arg3 : DevRef τ sig) := by
  after_results_simp

set_option maxRecDepth 8192 in
set_option maxHeartbeats 2000000 in
theorem opsA_arg4 (V : Valuation τ sig (Elt F)) :
    after opsA V (main_arg4 : DevRef τ sig) = V (main_arg4 : DevRef τ sig) := by
  after_results_simp

set_option maxRecDepth 8192 in
set_option maxHeartbeats 2000000 in
theorem opsA_arg5 (V : Valuation τ sig (Elt F)) :
    after opsA V (main_arg5 : DevRef τ sig) = V (main_arg5 : DevRef τ sig) := by
  after_results_simp

set_option maxRecDepth 8192 in
theorem opsB_forall : (opsB : List (HloOp τ sig (Elt F))).Forall fun op => op.bufs ⊆ tcRefs τ sig :=
  ⟨nullary_bufs_sub .., unary_bufs_sub .., unary_bufs_sub .., ternary_bufs_sub .., reshape_bufs_sub ..⟩

theorem opsB_sub : ∀ op ∈ (opsB : List (HloOp τ sig (Elt F))), op.bufs ⊆ tcRefs τ sig :=
  List.forall_iff_forall_mem.1 opsB_forall

set_option maxRecDepth 8192 in
set_option maxHeartbeats 2000000 in
theorem opsB_fresh : ∀ op ∈ (opsB : List (HloOp τ sig (Elt F))), op.fresh = ∅ := by
  intro _ h; (repeat (cases h with | head => rfl | tail _ h => ?_)); exact nomatch h

set_option maxRecDepth 8192 in
set_option maxHeartbeats 2000000 in
theorem opsB_arg0 (V : Valuation τ sig (Elt F)) :
    after opsB V (main_arg0 : DevRef τ sig) = V (main_arg0 : DevRef τ sig) := by
  after_results_simp

set_option maxRecDepth 8192 in
set_option maxHeartbeats 2000000 in
theorem opsB_arg1 (V : Valuation τ sig (Elt F)) :
    after opsB V (main_arg1 : DevRef τ sig) = V (main_arg1 : DevRef τ sig) := by
  after_results_simp

set_option maxRecDepth 8192 in
set_option maxHeartbeats 2000000 in
theorem opsB_arg2 (V : Valuation τ sig (Elt F)) :
    after opsB V (main_arg2 : DevRef τ sig) = V (main_arg2 : DevRef τ sig) := by
  after_results_simp

set_option maxRecDepth 8192 in
set_option maxHeartbeats 2000000 in
theorem opsB_arg3 (V : Valuation τ sig (Elt F)) :
    after opsB V (main_arg3 : DevRef τ sig) = V (main_arg3 : DevRef τ sig) := by
  after_results_simp

set_option maxRecDepth 8192 in
set_option maxHeartbeats 2000000 in
theorem opsB_arg4 (V : Valuation τ sig (Elt F)) :
    after opsB V (main_arg4 : DevRef τ sig) = V (main_arg4 : DevRef τ sig) := by
  after_results_simp

set_option maxRecDepth 8192 in
set_option maxHeartbeats 2000000 in
theorem opsB_arg5 (V : Valuation τ sig (Elt F)) :
    after opsB V (main_arg5 : DevRef τ sig) = V (main_arg5 : DevRef τ sig) := by
  after_results_simp

set_option maxRecDepth 8192 in
theorem opsC_forall : (opsC : List (HloOp τ sig (Elt F))).Forall fun op => op.bufs ⊆ tcRefs τ sig :=
  ⟨nullary_bufs_sub .., unary_bufs_sub .., unary_bufs_sub .., ternary_bufs_sub .., reshape_bufs_sub ..⟩

theorem opsC_sub : ∀ op ∈ (opsC : List (HloOp τ sig (Elt F))), op.bufs ⊆ tcRefs τ sig :=
  List.forall_iff_forall_mem.1 opsC_forall

set_option maxRecDepth 8192 in
set_option maxHeartbeats 2000000 in
theorem opsC_fresh : ∀ op ∈ (opsC : List (HloOp τ sig (Elt F))), op.fresh = ∅ := by
  intro _ h; (repeat (cases h with | head => rfl | tail _ h => ?_)); exact nomatch h

set_option maxRecDepth 8192 in
set_option maxHeartbeats 2000000 in
theorem opsC_arg0 (V : Valuation τ sig (Elt F)) :
    after opsC V (main_arg0 : DevRef τ sig) = V (main_arg0 : DevRef τ sig) := by
  after_results_simp

set_option maxRecDepth 8192 in
set_option maxHeartbeats 2000000 in
theorem opsC_arg1 (V : Valuation τ sig (Elt F)) :
    after opsC V (main_arg1 : DevRef τ sig) = V (main_arg1 : DevRef τ sig) := by
  after_results_simp

set_option maxRecDepth 8192 in
set_option maxHeartbeats 2000000 in
theorem opsC_arg2 (V : Valuation τ sig (Elt F)) :
    after opsC V (main_arg2 : DevRef τ sig) = V (main_arg2 : DevRef τ sig) := by
  after_results_simp

set_option maxRecDepth 8192 in
set_option maxHeartbeats 2000000 in
theorem opsC_arg3 (V : Valuation τ sig (Elt F)) :
    after opsC V (main_arg3 : DevRef τ sig) = V (main_arg3 : DevRef τ sig) := by
  after_results_simp

set_option maxRecDepth 8192 in
set_option maxHeartbeats 2000000 in
theorem opsC_arg4 (V : Valuation τ sig (Elt F)) :
    after opsC V (main_arg4 : DevRef τ sig) = V (main_arg4 : DevRef τ sig) := by
  after_results_simp

set_option maxRecDepth 8192 in
set_option maxHeartbeats 2000000 in
theorem opsC_arg5 (V : Valuation τ sig (Elt F)) :
    after opsC V (main_arg5 : DevRef τ sig) = V (main_arg5 : DevRef τ sig) := by
  after_results_simp

set_option maxRecDepth 8192 in
theorem opsD_forall : (opsD : List (HloOp τ sig (Elt F))).Forall fun op => op.bufs ⊆ tcRefs τ sig :=
  unary_bufs_sub ..

theorem opsD_sub : ∀ op ∈ (opsD : List (HloOp τ sig (Elt F))), op.bufs ⊆ tcRefs τ sig :=
  List.forall_iff_forall_mem.1 opsD_forall

set_option maxRecDepth 8192 in
set_option maxHeartbeats 2000000 in
theorem opsD_fresh : ∀ op ∈ (opsD : List (HloOp τ sig (Elt F))), op.fresh = ∅ := by
  intro _ h; (repeat (cases h with | head => rfl | tail _ h => ?_)); exact nomatch h

set_option maxRecDepth 8192 in
set_option maxHeartbeats 2000000 in
theorem opsD_arg0 (V : Valuation τ sig (Elt F)) :
    after opsD V (main_arg0 : DevRef τ sig) = V (main_arg0 : DevRef τ sig) := by
  after_results_simp

set_option maxRecDepth 8192 in
set_option maxHeartbeats 2000000 in
theorem opsD_arg1 (V : Valuation τ sig (Elt F)) :
    after opsD V (main_arg1 : DevRef τ sig) = V (main_arg1 : DevRef τ sig) := by
  after_results_simp

set_option maxRecDepth 8192 in
set_option maxHeartbeats 2000000 in
theorem opsD_arg2 (V : Valuation τ sig (Elt F)) :
    after opsD V (main_arg2 : DevRef τ sig) = V (main_arg2 : DevRef τ sig) := by
  after_results_simp

set_option maxRecDepth 8192 in
set_option maxHeartbeats 2000000 in
theorem opsD_arg3 (V : Valuation τ sig (Elt F)) :
    after opsD V (main_arg3 : DevRef τ sig) = V (main_arg3 : DevRef τ sig) := by
  after_results_simp

set_option maxRecDepth 8192 in
set_option maxHeartbeats 2000000 in
theorem opsD_arg4 (V : Valuation τ sig (Elt F)) :
    after opsD V (main_arg4 : DevRef τ sig) = V (main_arg4 : DevRef τ sig) := by
  after_results_simp

set_option maxRecDepth 8192 in
set_option maxHeartbeats 2000000 in
theorem opsD_arg5 (V : Valuation τ sig (Elt F)) :
    after opsD V (main_arg5 : DevRef τ sig) = V (main_arg5 : DevRef τ sig) := by
  after_results_simp

end Cert.Proof.KB

end
-- ==== Proof.ChainB.lean ====
/-
  The contents of every TensorCore buffer at each boundary of @main — between host stretches, kernel regions and gather
  calls —, as a fold from the launch memory; and the two gather calls' handshake payloads along that fold.
-/
import proofs.«207928_g75127567942135_cont_9to1c4b_313_20_alg».proof.Proof.CallB
import proofs.«207928_g75127567942135_cont_9to1c4b_313_20_alg».proof.Proof.RegionReadB
import proofs.«207928_g75127567942135_cont_9to1c4b_313_20_alg».proof.Proof.MainShapeB

noncomputable section

namespace Cert.Proof.KB

open Cert.Kernel Cert.Kernel.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)
  (g0 : (d : Dev nD) → Buf (Elt F) (oLoc0 d)) (g1 : (d : Dev nD) → Buf (Elt F) (oLoc1 d))

/-! ## The buffers' contents at each boundary of @main -/

/-- At launch; -/
abbrev Wa : Dev nD → Valuation τ sig (Elt F) := fun d b => m (d, b)
/-- after the first host stretch (the first region's entry); -/
abbrev Wb : Dev nD → Valuation τ sig (Elt F) := fun d => after opsA (Wa m d)
/-- after the first region (the scaled features written); -/
abbrev Wc : Dev nD → Valuation τ sig (Elt F) := fun d => Wx0 (Wb m) d
/-- after the first gather call (its output at `g0`); -/
abbrev Wd : Dev nD → Valuation τ sig (Elt F) := fun d => Function.update (Wc m d) o0' (g0 d)
/-- after the second host stretch (the second region's entry); -/
abbrev We : Dev nD → Valuation τ sig (Elt F) := fun d => after opsB (Wd m g0 d)
/-- after the second region (the hidden layer written); -/
abbrev Wf : Dev nD → Valuation τ sig (Elt F) := fun d => Wx2 (We m g0) d
/-- after the second gather call; -/
abbrev Wg : Dev nD → Valuation τ sig (Elt F) := fun d => Function.update (Wf m g0 d) o1' (g1 d)
/-- after the third host stretch (the third region's entry); -/
abbrev Wh : Dev nD → Valuation τ sig (Elt F) := fun d => after opsC (Wg m g0 g1 d)
/-- after the third region; -/
abbrev Wi : Dev nD → Valuation τ sig (Elt F) := fun d => Wx4 (Wh m g0 g1) d
/-- at the return. -/
abbrev Wj : Dev nD → Valuation τ sig (Elt F) := fun d => after opsD (Wi m g0 g1 d)

/-- The handshakes' payloads along that fold: each call's tables and output as the call finds them, its output at `g0` / `g1` after. -/
abbrev PP : (K (F := F)).Pay (nD := nD) (Val := Elt F) (Name := ℕ) (U := UU) :=
  P (fun d => Wc m d h0') (fun d => Wf m g0 d h1') (fun d => Wc m d s') (fun d => Wc m d o0') g0 (fun d => Wf m g0 d o1') g1

/-- What @main leaves: every unscoped buffer at the last contents. -/
abbrev FIN (d : Dev nD) : sProp 𝕄 := held (SparseCore.T d) (Pipeline.ucRefs τ sig) (Wj m g0 g1 d)

end Cert.Proof.KB

end
-- ==== Proof.RegionStepB.lean ====
/-
  Entering a TensorCore kernel region from @main of a program that also has SparseCore calls: the region's
  `customCall` is the inner program's lifted to the extended body table, so the pipeline library's region rule,
  stated under the inner table, applies through the lifting.
-/
import proofs.«207928_g75127567942135_cont_9to1c4b_313_20_alg».proof.Proof.LaunchB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (pdats : (p : Fin 3) → (c : Dev nD) → Pipeline.Dat τ (Elt F) (HIx 2) ℕ UU ℕ (Pipeline.pin (pcfgs (F := F)) adm p) c)

set_option maxHeartbeats 1000000 in
/-- A region under the inner body table: the pipeline library's rule with nothing after the region. -/
theorem region_inner {p : Fin 3} (R : Pipeline.RegionSeg (pcfgs (F := F)) adm pdats (none : HIx 2) defs₀ 𝒱₀ (K (F := F)).L (K (F := F)).lev p) (d : Dev nD)
    (Φ : PUnit.{1} → sProp 𝕄) :
    iprop((iprop(boundary (SparseCore.T d) ∗ R.post d) -∗ Φ PUnit.unit)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) 𝒱₀.lift (SparseCore.T d) none) Set.univ
          (Prog.op (TpuEff.customCall (Pipeline.entry p) ()) fun _ => Prog.ret PUnit.unit) Φ := by
  have h := Pipeline.RegionSeg.wp (pcfgs (F := F)) adm pdats (none : HIx 2) cellOf_inj EP defs₀ 𝒱₀ (K (F := F)).L (K (F := F)).lev R d none
    (fun u hu => nomatch hu) (fun _ => .ret PUnit.unit) Φ
  have hpre : iprop((iprop(boundary (SparseCore.T d) ∗ R.post d) -∗ Φ PUnit.unit)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ iprop((iprop(boundary (SparseCore.T d) ∗ R.post d) -∗ wp frame (wpE (Pipeline.defs (pcfgs (F := F)) defs₀) 𝒱₀.lift (SparseCore.T d) none) Set.univ
            (Prog.ret PUnit.unit) Φ)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) := by
    iintro ⟨Hk, Hb, Hpre, Hlv, Hg, Ht⟩
    isplitl [Hk]
    · iintro H
      rw [wp_ret]; imodintro
      iapply Hk; iexact H
    isplitl [Hb]; · iexact Hb
    isplitl [Hpre]; · iexact Hpre
    isplitl [Hlv]; · iexact Hlv
    isplitl [Hg]; · iexact Hg
    iexact Ht
  exact hpre.trans h

set_option maxHeartbeats 1000000 in
/-- A region of @main followed by `k`: from the boundary, the region's entry state, the level facts and the pipeline's staging cells'
    ghost state, the region runs to the boundary and its exit state, from which `k` goes on. -/
theorem region_step {p : Fin 3} (R : Pipeline.RegionSeg (pcfgs (F := F)) adm pdats (none : HIx 2) defs₀ 𝒱₀ (K (F := F)).L (K (F := F)).lev p) (d : Dev nD)
    {α : Type} (k : PUnit → Prog (TpuEff nD τ sig (Elt F) (SparseCore.Sig (ΛP (F := F)) 2) .tc) α) (Q : α → sProp 𝕄) :
    iprop((iprop(boundary (SparseCore.T d) ∗ R.post d) -∗ wp frame (wpE ((K (F := F)).defs (D (F := F))) 𝒱 (SparseCore.T d) none) Set.univ (k PUnit.unit) Q)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ()) >>= k) Q := by
  rw [wp_bind]
  change _ ⊢ wp _ _ _ (SparseCore.liftProg (Prog.lift (.customCall (Pipeline.entry p) ()))) _
  refine BI.Entails.trans ?_ ((K (F := F)).wp_liftProg (D (F := F)) 𝒱 (SparseCore.T d) Set.univ none _ _)
  exact region_inner pdats R d (fun a => wp frame (wpE ((K (F := F)).defs (D (F := F))) 𝒱 (SparseCore.T d) none) Set.univ (k a) Q)

end Cert.Proof.KB

end
-- ==== Proof.MainB.lean ====
/-
  @main of the word-level kernel program on a device's TensorCore, inside the launch: the contents of every buffer at
  each boundary between host stretches, kernel regions and gather calls (a fold from the launch memory), and the
  proof that @main runs through them: host stretches by the list rule, each region by the pipeline library's region
  rule through the lifting, each gather call by the handshake rule.
-/
import proofs.«207928_g75127567942135_cont_9to1c4b_313_20_alg».proof.Proof.ChainB
import proofs.«207928_g75127567942135_cont_9to1c4b_313_20_alg».proof.Proof.RegionStepB

noncomputable section

namespace Cert.Proof.KB

open Cert.Kernel Cert.Kernel.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)
  (g0 : (d : Dev nD) → Buf (Elt F) (oLoc0 d)) (g1 : (d : Dev nD) → Buf (Elt F) (oLoc1 d))

/-! ## The TensorCore's handshake state, its debt apart -/

/-- The TensorCore's handshake state before call `n` but what it owes: its position on its `done` cell, the rounds reached, the later calls' start tokens and credit. -/
def tcRestI (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRestI (F := F) d n) := rfl

/-- The three pipelines' staging cells' ghost state, pipeline by pipeline. -/
theorem G_eq (d : Dev nD) :
    (G (F := F) d : sProp 𝕄)
      = iprop((Pipeline.cellsGhost (Pipeline.pin (pcfgs (F := F)) adm) EP 0 d ∗ Pipeline.toksInit (Pipeline.pin (pcfgs (F := F)) adm) EP 0 d)
          ∗ (Pipeline.cellsGhost (Pipeline.pin (pcfgs (F := F)) adm) EP 1 d ∗ Pipeline.toksInit (Pipeline.pin (pcfgs (F := F)) adm) EP 1 d)
          ∗ (Pipeline.cellsGhost (Pipeline.pin (pcfgs (F := F)) adm) EP 2 d ∗ Pipeline.toksInit (Pipeline.pin (pcfgs (F := F)) adm) EP 2 d)) :=
  bigSep_univ_eq_bigSepL [(0 : Fin 3), (1 : Fin 3), (2 : Fin 3)] (by decide) (by decide) _

/-! ## @main -/

/-- The first gather call followed by `k`. -/
theorem call0_bind (κ : GSem nD τ sig → ℕ) (d : Dev nD) {α : Type} (k : PUnit → Prog (TpuEff nD τ sig (Elt F) (SparseCore.Sig (ΛP (F := F)) 2) .tc) α) (Q : α → sProp 𝕄) :
    iprop((K (F := F)).ctx EH (PP m g0 g1) κ ∗ (K (F := F)).tcSt EH d 0 ∗ held (SparseCore.T d) (Pipeline.ucRefs τ sig) (Wc m d)
        ∗ (((K (F := F)).tcSt EH d 1 ∗ held (SparseCore.T d) (Pipeline.ucRefs τ sig) (Wd m g0 d))
            -∗ wp frame (wpE ((K (F := F)).defs (D (F := F))) 𝒱 (SparseCore.T d) none) Set.univ (k PUnit.unit) Q))
      ⊢ wp frame (wpE ((K (F := F)).defs (D (F := F))) 𝒱 (SparseCore.T d) none) Set.univ ((K (F := F)).run d 0 >>= k) Q := by
  rw [wp_bind]
  exact call0 (fun d => Wc m d h0') (fun d => Wf m g0 d h1') (fun d => Wc m d s') (fun d => Wc m d o0') g0 (fun d => Wf m g0 d o1') g1 κ d (Wc m d) rfl rfl rfl
    (Φ := fun a => wp frame (wpE ((K (F := F)).defs (D (F := F))) 𝒱 (SparseCore.T d) none) Set.univ (k a) Q)

set_option maxRecDepth 8192 in
set_option maxHeartbeats 2000000 in
/-- The second host stretch does not write the index table. -/
theorem opsB_v6 (V : Valuation τ sig (Elt F)) : after opsB V s' = V s' := by
  after_results_simp

/-- The index table is the same when the second call reads it: neither the first call's output, nor the second host stretch, nor the second
    region writes it. -/
theorem Wf_s (d : Dev nD) : Wf m g0 d s' = Wc m d s' := by
  show Wx2 (We m g0) d s' = _
  rw [Wx2_v6]
  show after opsB (Wd m g0 d) s' = _
  rw [opsB_v6]
  exact Function.update_of_ne (show s' ≠ o0' by decide) _ _

/-- The second gather call followed by `k`. -/
theorem call1_bind (κ : GSem nD τ sig → ℕ) (d : Dev nD) {α : Type} (k : PUnit → Prog (TpuEff nD τ sig (Elt F) (SparseCore.Sig (ΛP (F := F)) 2) .tc) α) (Q : α → sProp 𝕄) :
    iprop((K (F := F)).ctx EH (PP m g0 g1) κ ∗ (K (F := F)).tcSt EH d 1 ∗ held (SparseCore.T d) (Pipeline.ucRefs τ sig) (Wf m g0 d)
        ∗ (((K (F := F)).tcSt EH d 2 ∗ held (SparseCore.T d) (Pipeline.ucRefs τ sig) (Wg m g0 g1 d))
            -∗ wp frame (wpE ((K (F := F)).defs (D (F := F))) 𝒱 (SparseCore.T d) none) Set.univ (k PUnit.unit) Q))
      ⊢ wp frame (wpE ((K (F := F)).defs (D (F := F))) 𝒱 (SparseCore.T d) none) Set.univ ((K (F := F)).run d 1 >>= k) Q := by
  rw [wp_bind]
  exact call1 (fun d => Wc m d h0') (fun d => Wf m g0 d h1') (fun d => Wc m d s') (fun d => Wc m d o0') g0 (fun d => Wf m g0 d o1') g1 κ d (Wf m g0 d) rfl (Wf_s m g0 d) rfl
    (Φ := fun a => wp frame (wpE ((K (F := F)).defs (D (F := F))) 𝒱 (SparseCore.T d) none) Set.univ (k a) Q)

/-- The last host stretch: nothing follows it. -/
theorem wp_seq_last (d : Dev nD) (ops : List (HloOp τ sig (Elt F))) (hS : ∀ op ∈ ops, op.bufs ⊆ Pipeline.ucRefs τ sig) (hf : ∀ op ∈ ops, op.fresh = ∅)
    (W : Valuation τ sig (Elt F)) (Q : PUnit → sProp 𝕄) :
    iprop(boundary (SparseCore.T d) ∗ held (SparseCore.T d) (Pipeline.ucRefs τ sig) W
        ∗ ((boundary (SparseCore.T d) ∗ held (SparseCore.T d) (Pipeline.ucRefs τ sig) (after ops W)) -∗ |={Set.univ}=> Q PUnit.unit))
      ⊢ wp frame (wpE ((K (F := F)).defs (D (F := F))) 𝒱 (SparseCore.T d) none) Set.univ (seq ops) Q := by
  rw [← bind_pure (seq ops)]
  iintro ⟨Hb, Hheld, Hk⟩
  iapply (wp_seq 𝒱 none Set.univ d (Pipeline.ucRefs τ sig) _ ops hS hf W) $$ [Hb Hheld]
  · isplitl [Hb] <;> iassumption
  iintro H
  rw [wp_pure]
  iapply Hk; iexact H

set_option maxHeartbeats 4000000 in
/-- @main on device `d`'s TensorCore: four host stretches, three regions, two gather calls, in the program's order. -/
theorem hmain (κ : GSem nD τ sig → ℕ) (d : Dev nD) :
    iprop((K (F := F)).ctx EH (PP m g0 g1) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m g0 g1 d) := by
  rw [main_eq, G_eq, tcSt_eq]
  unfold SparseCore.Cfg.tcRes
  rw [show (unscopedBufs d (fun b => m ((SparseCore.T d).loc b)) : sProp 𝕄) = held (SparseCore.T d) (Pipeline.ucRefs τ sig) (Wa m d)
    from Pipeline.unscopedBufs_held d (Wa m d)]
  iintro ⟨#Hctx, ⟨HO, Htr⟩, ⟨Hb, Hheld, -, Hp0⟩, ⟨⟨Hg0, Ht0⟩, ⟨Hg1, Ht1⟩, ⟨Hg2, Ht2⟩⟩⟩
  ihave #Hlv := (SparseCore.Cfg.ctx_levAts κ) $$ Hctx
  ihave Hp := (show (prngReg d (ρ d) : sProp 𝕄) ⊢ iprop(∃ r, prngReg d r) from by iintro H; iexists _; iexact H) $$ Hp0
  -- host stretch opsA
  iapply (wp_seq 𝒱 none Set.univ d (Pipeline.ucRefs τ sig) _ opsA (fun op h => Pipeline.sub_ucRefs op (opsA_sub op h)) opsA_fresh (Wa m d)) $$ [Hb Hheld]
  · isplitl [Hb] <;> iassumption
  iintro ⟨Hb, Hheld⟩
  -- region reg0
  iapply (region_step (pdats (Wb m) (We m g0) (Wh m g0 g1)) (reg0 (Wb m) (We m g0) (Wh m g0 g1)) d _ _)
  isplitr [Hb Hheld Hp HO Hg0 Ht0]
  swap
  · isplitl [Hb]; · iexact Hb
    isplitl [Hheld Hp HO]
    · iapply (show TS 0 (Wb m) d ⊢ ((reg0 (Wb m) (We m g0) (Wh m g0 g1)).pre d : sProp 𝕄) from .rfl)
      unfold TS
      isplitl [Hheld]; · iexact Hheld
      isplitl [Hp]; · iexact Hp
      iexact HO
    isplitr; · iexact Hlv
    isplitl [Hg0]; · iexact Hg0
    iexact Ht0
  iintro ⟨Hb, Hpost⟩
  ihave Hpost' := (show ((reg0 (Wb m) (We m g0) (Wh m g0 g1)).post d : sProp 𝕄) ⊢ TS 0 (Wc m) d from .rfl) $$ Hpost
  unfold TS
  icases Hpost' with ⟨Hheld, Hp, HO⟩
  -- gather call 0
  iapply (call0_bind m g0 g1 κ d _ _)
  isplitr; · iexact Hctx
  isplitl [HO Htr]
  · rw [tcSt_eq]; isplitl [HO]; · iexact HO
    iexact Htr
  isplitl [Hheld]; · iexact Hheld
  iintro ⟨Htc, Hheld⟩
  ihave Htc' := (Entails.of_eq (tcSt_eq (F := F) d 1)) $$ Htc
  icases Htc' with ⟨HO, Htr⟩
  -- host stretch opsB
  iapply (wp_seq 𝒱 none Set.univ d (Pipeline.ucRefs τ sig) _ opsB (fun op h => Pipeline.sub_ucRefs op (opsB_sub op h)) opsB_fresh (Wd m g0 d)) $$ [Hb Hheld]
  · isplitl [Hb] <;> iassumption
  iintro ⟨Hb, Hheld⟩
  -- region reg2
  iapply (region_step (pdats (Wb m) (We m g0) (Wh m g0 g1)) (reg2 (Wb m) (We m g0) (Wh m g0 g1)) d _ _)
  isplitr [Hb Hheld Hp HO Hg1 Ht1]
  swap
  · isplitl [Hb]; · iexact Hb
    isplitl [Hheld Hp HO]
    · iapply (show TS 1 (We m g0) d ⊢ ((reg2 (Wb m) (We m g0) (Wh m g0 g1)).pre d : sProp 𝕄) from .rfl)
      unfold TS
      isplitl [Hheld]; · iexact Hheld
      isplitl [Hp]; · iexact Hp
      iexact HO
    isplitr; · iexact Hlv
    isplitl [Hg1]; · iexact Hg1
    iexact Ht1
  iintro ⟨Hb, Hpost⟩
  ihave Hpost' := (show ((reg2 (Wb m) (We m g0) (Wh m g0 g1)).post d : sProp 𝕄) ⊢ TS 1 (Wf m g0) d from .rfl) $$ Hpost
  unfold TS
  icases Hpost' with ⟨Hheld, Hp, HO⟩
  -- gather call 1
  iapply (call1_bind m g0 g1 κ d _ _)
  isplitr; · iexact Hctx
  isplitl [HO Htr]
  · rw [tcSt_eq]; isplitl [HO]; · iexact HO
    iexact Htr
  isplitl [Hheld]; · iexact Hheld
  iintro ⟨Htc, Hheld⟩
  ihave Htc' := (Entails.of_eq (tcSt_eq (F := F) d 2)) $$ Htc
  icases Htc' with ⟨HO, Htr⟩
  -- host stretch opsC
  iapply (wp_seq 𝒱 none Set.univ d (Pipeline.ucRefs τ sig) _ opsC (fun op h => Pipeline.sub_ucRefs op (opsC_sub op h)) opsC_fresh (Wg m g0 g1 d)) $$ [Hb Hheld]
  · isplitl [Hb] <;> iassumption
  iintro ⟨Hb, Hheld⟩
  -- region reg4
  iapply (region_step (pdats (Wb m) (We m g0) (Wh m g0 g1)) (reg4 (Wb m) (We m g0) (Wh m g0 g1)) d _ _)
  isplitr [Hb Hheld Hp HO Hg2 Ht2]
  swap
  · isplitl [Hb]; · iexact Hb
    isplitl [Hheld Hp HO]
    · iapply (show TS 2 (Wh m g0 g1) d ⊢ ((reg4 (Wb m) (We m g0) (Wh m g0 g1)).pre d : sProp 𝕄) from .rfl)
      unfold TS
      isplitl [Hheld]; · iexact Hheld
      isplitl [Hp]; · iexact Hp
      iexact HO
    isplitr; · iexact Hlv
    isplitl [Hg2]; · iexact Hg2
    iexact Ht2
  iintro ⟨Hb, Hpost⟩
  ihave Hpost' := (show ((reg4 (Wb m) (We m g0) (Wh m g0 g1)).post d : sProp 𝕄) ⊢ TS 2 (Wi m g0 g1) d from .rfl) $$ Hpost
  unfold TS
  icases Hpost' with ⟨Hheld, Hp, HO⟩
  -- the last host stretch
  iapply (wp_seq_last d opsD (fun op h => Pipeline.sub_ucRefs op (opsD_sub op h)) opsD_fresh (Wi m g0 g1 d) _)
  isplitl [Hb]; · iexact Hb
  isplitl [Hheld]; · iexact Hheld
  iintro ⟨-, Hheld⟩
  imodintro
  isplitl [HO Htr]
  · rw [tcSt_eq]; isplitl [HO]; · iexact HO
    iexact Htr
  iexact Hheld

end Cert.Proof.KB

end
-- ==== Proof.RunB.lean ====
/-
  The run of the word-level kernel program's threads, from the launch theorem: every weakly fair execution ends, nothing
  faulting, with every TensorCore buffer at the last contents of the fold through @main — in particular the six
  argument arrays as launched (the frame) and the result at the fold's value there.
-/
import proofs.«207928_g75127567942135_cont_9to1c4b_313_20_alg».proof.Proof.MainB

noncomputable section

namespace Cert.Proof.KB

open Cert.Kernel Cert.Kernel.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)
  (g0 : (d : Dev nD) → Buf (Elt F) (oLoc0 d)) (g1 : (d : Dev nD) → Buf (Elt F) (oLoc1 d))

/-! ## The arguments through the fold: no host operation, region or call writes one -/

theorem Wj_arg0 (d : Dev nD) : Wj m g0 g1 d (Proc.devRef .tc main_arg0) = m ((SparseCore.T d).loc main_arg0) := by
  unfold Wj Wi Wh Wg Wf We Wd Wc Wb Wa
  rw [opsD_arg0, Wx4_arg0, opsC_arg0, Function.update_of_ne (show (Proc.devRef .tc main_arg0 : DevRef τ sig) ≠ o1' by decide),
    Wx2_arg0, opsB_arg0, Function.update_of_ne (show (Proc.devRef .tc main_arg0 : DevRef τ sig) ≠ o0' by decide), Wx0_arg0, opsA_arg0]

theorem Wj_arg1 (d : Dev nD) : Wj m g0 g1 d (Proc.devRef .tc main_arg1) = m ((SparseCore.T d).loc main_arg1) := by
  unfold Wj Wi Wh Wg Wf We Wd Wc Wb Wa
  rw [opsD_arg1, Wx4_arg1, opsC_arg1, Function.update_of_ne (show (Proc.devRef .tc main_arg1 : DevRef τ sig) ≠ o1' by decide),
    Wx2_arg1, opsB_arg1, Function.update_of_ne (show (Proc.devRef .tc main_arg1 : DevRef τ sig) ≠ o0' by decide), Wx0_arg1, opsA_arg1]

theorem Wj_arg2 (d : Dev nD) : Wj m g0 g1 d (Proc.devRef .tc main_arg2) = m ((SparseCore.T d).loc main_arg2) := by
  unfold Wj Wi Wh Wg Wf We Wd Wc Wb Wa
  rw [opsD_arg2, Wx4_arg2, opsC_arg2, Function.update_of_ne (show (Proc.devRef .tc main_arg2 : DevRef τ sig) ≠ o1' by decide),
    Wx2_arg2, opsB_arg2, Function.update_of_ne (show (Proc.devRef .tc main_arg2 : DevRef τ sig) ≠ o0' by decide), Wx0_arg2, opsA_arg2]

theorem Wj_arg3 (d : Dev nD) : Wj m g0 g1 d (Proc.devRef .tc main_arg3) = m ((SparseCore.T d).loc main_arg3) := by
  unfold Wj Wi Wh Wg Wf We Wd Wc Wb Wa
  rw [opsD_arg3, Wx4_arg3, opsC_arg3, Function.update_of_ne (show (Proc.devRef .tc main_arg3 : DevRef τ sig) ≠ o1' by decide),
    Wx2_arg3, opsB_arg3, Function.update_of_ne (show (Proc.devRef .tc main_arg3 : DevRef τ sig) ≠ o0' by decide), Wx0_arg3, opsA_arg3]

theorem Wj_arg4 (d : Dev nD) : Wj m g0 g1 d (Proc.devRef .tc main_arg4) = m ((SparseCore.T d).loc main_arg4) := by
  unfold Wj Wi Wh Wg Wf We Wd Wc Wb Wa
  rw [opsD_arg4, Wx4_arg4, opsC_arg4, Function.update_of_ne (show (Proc.devRef .tc main_arg4 : DevRef τ sig) ≠ o1' by decide),
    Wx2_arg4, opsB_arg4, Function.update_of_ne (show (Proc.devRef .tc main_arg4 : DevRef τ sig) ≠ o0' by decide), Wx0_arg4, opsA_arg4]

theorem Wj_arg5 (d : Dev nD) : Wj m g0 g1 d (Proc.devRef .tc main_arg5) = m ((SparseCore.T d).loc main_arg5) := by
  unfold Wj Wi Wh Wg Wf We Wd Wc Wb Wa
  rw [opsD_arg5, Wx4_arg5, opsC_arg5, Function.update_of_ne (show (Proc.devRef .tc main_arg5 : DevRef τ sig) ≠ o1' by decide),
    Wx2_arg5, opsB_arg5, Function.update_of_ne (show (Proc.devRef .tc main_arg5 : DevRef τ sig) ≠ o0' by decide), Wx0_arg5, opsA_arg5]

/-! ## Reading the final memory -/

/-- Every unscoped TensorCore buffer of the final state holds the fold's last contents. -/
abbrev fq (d : Dev nD) (s' : Phys nD τ sig (Elt F)) : Prop := ∀ b ∈ Pipeline.ucRefs τ sig, s'.mem.mem ((d, b) : Loc nD τ sig) = Wj m g0 g1 d b

theorem hfin (d : Dev nD) (s' : Phys nD τ sig (Elt F)) : iprop(FIN m g0 g1 d ∗ SI s') ⊢ (⌜fq m g0 g1 d s'⌝ : sProp 𝕄) := by
  show iprop((bigSep (Pipeline.ucRefs τ sig) fun b => (((d, b) : Loc nD τ sig) ↦{fullShare} Wj m g0 g1 d b : sProp 𝕄)) ∗ SI s') ⊢ _
  iintro ⟨Hh, HSI⟩
  ihave H := (pointsTo_read_all (Pipeline.ucRefs τ sig) (fun b => ((d, b) : Loc nD τ sig)) (Wj m g0 g1 d) s') $$ [Hh HSI]
  · isplitl [Hh] <;> iassumption
  icases H with ⟨%h, -⟩
  ipureintro; exact h

/-- The run's post: on every device every unscoped TensorCore buffer at the fold's last contents. -/
abbrev QC : PUnit × MemSt nD τ sig (Elt F) → Prop := fun r => ∀ (d : Dev nD), ∀ b ∈ Pipeline.ucRefs τ sig, r.2.mem ((d, b) : Loc nD τ sig) = Wj m g0 g1 d b

/-! ## The run -/

/-- From the two gather kernels' task obligations (at the payloads along the fold): every weakly fair execution of all the device's threads
    terminates, nothing faulting, in a state satisfying `QC`. -/
theorem run_main
    (htile0 : (K (F := F)).TileObl (D (F := F)) 𝒱 (PP m g0 g1) v₀ 0) (htile1 : (K (F := F)).TileObl (D (F := F)) 𝒱 (PP m g0 g1) v₀ 1) :
    θ_run (Cert.Kernel.defs (F := F)) (Cert.Kernel.threads (F := F)) ⟨m, fun _ => 0, ρ⟩ (QC m g0 g1) :=
  SparseCore.Cfg.θ_run_sc (K := K (F := F)) (D := D (F := F)) (𝒱 := 𝒱) (EH := EH) (P := PP m g0 g1) facts v₀
    (fun q hq => match q with | 0 => nomatch hq | 1 => nomatch hq)
    (fun q _ => match q with | 0 => htile0 | 1 => htile1)
    (fun q _ => match q with
      | 0 => SparseCore.Cfg.VecSplit.of_plain (vecSplit0 _ _ _ _ _ _ _)
      | 1 => SparseCore.Cfg.VecSplit.of_plain (vecSplit1 _ _ _ _ _ _ _))
    m ρ main (fun d => G (F := F) d) (FIN m g0 g1) (u₀ (F := F)) (sep_elim_left.trans (hu₀ _ _ _ _ _ _ _)) (hmain m ρ g0 g1) (fq m g0 g1) (hfin m g0 g1) (QC m g0 g1)
    (fun s' h d b hb => h d b hb)

/-- The frame: the six argument arrays end as launched. -/
theorem frame_of_run (r : PUnit × MemSt nD τ sig (Elt F)) (h : QC m g0 g1 r) (d : Dev nD) :
    r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_arg5) = m ((SparseCore.T d).loc main_arg5) :=
  ⟨(h d (Proc.devRef .tc main_arg0) (by decide)).trans (Wj_arg0 m g0 g1 d), (h d (Proc.devRef .tc main_arg1) (by decide)).trans (Wj_arg1 m g0 g1 d), (h d (Proc.devRef .tc main_arg2) (by decide)).trans (Wj_arg2 m g0 g1 d),
    (h d (Proc.devRef .tc main_arg3) (by decide)).trans (Wj_arg3 m g0 g1 d), (h d (Proc.devRef .tc main_arg4) (by decide)).trans (Wj_arg4 m g0 g1 d), (h d (Proc.devRef .tc main_arg5) (by decide)).trans (Wj_arg5 m g0 g1 d)⟩

end Cert.Proof.KB

end
-- ==== Proof.GatherSpecB.lean ====
/-
  The gather calls' specification: output row `e` is the table's row whose index the index table holds at `(e / 128, e % 128)`.
-/
import Idealize.ShloMosaic.PureOps
import Idealize.ShloMosaic.Lib.ValueIdx
import proofs.«207928_g75127567942135_cont_9to1c4b_313_20_alg».proof.Kernel

noncomputable section

namespace Cert.Proof.KB

open Cert.Kernel
open Idealize.ShloMosaic Idealize.ShloMosaic.ValueIdx

variable {F : FTy → Type}

/-- Row `e` of the result is row `fs[e / 128, e % 128]` of `fh` (an index past the table read modulo its height, so that the function is total:
    under the certificate's precondition every index is below 10240). -/
def gatherRows (fh : S10240x128.Idx → F .f32) (fs : S2560x128.Idx → BitVec 32) : S327680x128.Idx → F .f32 :=
  fun i => fh (ix2 (⟨(fs (ix2 (⟨(i 0).val / 128, by have h : (i 0).val < 327680 := (i 0).isLt; omega⟩ : Fin 2560)
      (⟨(i 0).val % 128, Nat.mod_lt _ (by decide)⟩ : Fin 128))).toNat % 10240, Nat.mod_lt _ (by decide)⟩ : Fin 10240) (i 1 : Fin 128))

end Cert.Proof.KB

end
-- ==== Proof.TileB.lean ====
/-
  One vector-subcore task of the row gather, at a symbolic place of the grid: tile w = 16·c + s stores the lane
  numbers 0 … 15 in its short index list, copies rows [80w, 80w + 80) of the index table into its long index list,
  and then alternates between its two row buffers: 128 rows of the source array, named by row k of the long list,
  are gathered into one buffer while the other buffer's 128 rows go out to rows [10240w + 128k, 10240w + 128k + 128)
  of the result. Every transfer has a counter of its own, at zero before it is issued and at zero again after its
  wait, and is waited for before the next is issued; so the task needs, beside read shares of the two arrays it
  reads, exactly the eighty result windows it writes, its five scratch buffers and its 162 counters, and hands all
  of them back.
-/
import proofs.«207928_g75127567942135_cont_9to1c4b_313_20_alg».proof.Proof.SetupB
import proofs.«207928_g75127567942135_cont_9to1c4b_313_20_alg».proof.Proof.GatherSpecB

noncomputable section

namespace Cert.Proof.KB

open Cert.Kernel Cert.Kernel.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
abbrev hV : Memref sig .scVector .hbm S10240x128 .f32 := Memref.whole main_v33_scv
abbrev sV : Memref sig .scVector .hbm S2560x128 .i32 := Memref.whole main_v6_scv
abbrev oV : Memref sig .scVector .hbm S327680x128 .f32 := Memref.whole main_v34_scv
abbrev oSl (L : grid1.Coords) (r : Fin 80) : Memref sig .scVector .hbm S128x128 .f32 :=
  (oV).slice (Rect.unit (s := S327680x128) (k1_off2 L (BitVec.ofNat 32 (128 * r.val))) S128x128.size (k1_off2_inb L r)) (fun _ => rfl)
abbrev thrV (d : Dev nD) (L : grid1.Coords) : Thread nD τ := V d (cV L) (jV L)

/-- Every word the index list holds after the table rows were copied into it names a row of the gathered array:
    whatever the list held before, whichever row window of it is read. -/
theorem idx_inb (fs : Buf (Elt F) (sV.view.loc (thrV d L))) (hfs : ∀ j, (fs j).toNat < 10240) :
    ∀ (g : Buf (Elt F) ((Memref.whole cc1_scratch0).view.loc (thrV d L))) (off : Fin 2 → ℕ)
      (hoff : ∀ a, off a + S1x128.size a ≤ S80x128.size a) (hst : ∀ a, (Rect.unit (s := S80x128) off S1x128.size hoff).stride a = 1)
      (hsq : S1x128.Squeezes S128) (x : S128.Idx),
      ((((Memref.whole cc1_scratch0).slice (Rect.unit (s := S80x128) off S1x128.size hoff) hst).squeeze S128 hsq).view.read (Elt F)
        ((Memref.whole cc1_scratch0).view.write (Elt F) g
          (ReadAs.same.apply ((sV.slice (Rect.unit (s := S2560x128) (k1_off1 L) S80x128.size (k1_off1_inb L)) (fun _ => rfl)).view.read (Elt F) fs))
          Finset.univ) x).toNat < 10240 := by
  intro g off hoff hst hsq x
  have e1 : (((Memref.whole cc1_scratch0).slice (Rect.unit (s := S80x128) off S1x128.size hoff) hst).squeeze S128 hsq).view.read (Elt F)
        ((Memref.whole cc1_scratch0).view.write (Elt F) g
          (ReadAs.same.apply ((sV.slice (Rect.unit (s := S2560x128) (k1_off1 L) S80x128.size (k1_off1_inb L)) (fun _ => rfl)).view.read (Elt F) fs))
          Finset.univ) x
      = (Memref.whole cc1_scratch0).view.read (Elt F) ((Memref.whole cc1_scratch0).view.write (Elt F) g
          (ReadAs.same.apply ((sV.slice (Rect.unit (s := S2560x128) (k1_off1 L) S80x128.size (k1_off1_inb L)) (fun _ => rfl)).view.read (Elt F) fs))
          Finset.univ) ((Rect.unit (s := S80x128) off S1x128.size hoff).emb (Shape.reshapeEquiv hsq.numel_eq x)) := rfl
  rw [e1, View.read_write_of_mem _ _ (Finset.mem_univ _)]
  exact hfs _

/-- The lane numbers stored in the sixteen-entry list name rows of the gathered array, whatever the list held before. -/
theorem iota_inb (inb : ∀ a, (![0] : Fin 1 → ℕ) a + S16.size a ≤ S16.size a) (x : S16.Idx) :
    ((Memref.whole cc1_scratch3).view.read (Elt F)
      ((Memref.whole cc1_scratch3).view.writes (Elt F) (Memref.whole cc1_scratch3).view.junk
        [⟨Rect.unit (s := S16) ![0] S16.size inb, shapeCast S16 (iota .scVector S16 32 [0] iota_S16_d0_w32_scVector) shapeCasts_S16_S16⟩]) x).toNat < 10240 := by
  have hx : (Rect.unit (s := S16) ![0] S16.size inb).emb x = x := by
    funext a; apply Fin.ext
    show (![0] : Fin 1 → ℕ) a + 1 * (x a : ℕ) = x a
    have h0 : (![0] : Fin 1 → ℕ) a = 0 := by fin_cases a; rfl
    omega
  have h := View.read_writes_cons_emb (Memref.whole cc1_scratch3).view (Val := Elt F) (Memref.whole cc1_scratch3).view.junk
    (Rect.unit (s := S16) ![0] S16.size inb) (shapeCast S16 (iota .scVector S16 32 [0] iota_S16_d0_w32_scVector) shapeCasts_S16_S16) [] x
  rw [hx] at h
  rw [h]
  show (BitVec.ofNat 32 (0 * S16.size 0 + ((Shape.reshapeEquiv shapeCasts_S16_S16 x) 0).val)).toNat < 10240
  have hlt : ((Shape.reshapeEquiv shapeCasts_S16_S16 x) 0 : Fin (S16.size 0)).val < 16 := ((Shape.reshapeEquiv shapeCasts_S16_S16 x) 0).isLt
  rw [BitVec.toNat_ofNat]
  refine Nat.lt_of_le_of_lt (Nat.mod_le _ _) ?_
  rw [Nat.zero_mul]; omega

/-- One more wait at the kernels' index keeps the record of waits within the launch's bound. -/
theorem waits_insert {W W' : Waits sig (HIx 2)} {sm : SemLoc sig} (h : ∀ p ∈ W', p ∈ W ∨ p.2 = none) :
    ∀ p ∈ insert (sm, (none : HIx 2)) W', p ∈ W ∨ p.2 = none := by
  intro p hp
  rcases Finset.mem_insert.mp hp with rfl | hp
  · exact Or.inr rfl
  · exact h p hp

/-! ## What a window holds after its copy

Window `kk` is written whole with what the row buffer held when it was copied out: the rows of the source array that
row `kk` of the long index list names; and that row is row `80w + kk` of the index table. -/

/-- A function of a rank-two index reads alike at two indices with the same coordinates. -/
theorem app2_congr {α : Type} {n0 n1 : ℕ} (f : (⟨2, ![n0, n1]⟩ : Shape).Idx → α) {i j : (⟨2, ![n0, n1]⟩ : Shape).Idx}
    (h0 : (i 0).val = (j 0).val) (h1 : (i 1).val = (j 1).val) : f i = f j :=
  congrArg f (funext fun a => Fin.ext (match a with | ⟨0, _⟩ => h0 | ⟨1, _⟩ => h1))

/-- Entry `z` of a 128-entry row seen as a 1×128 block is the block's entry `(0, z)`. -/
theorem squeeze_coords (hsq : S1x128.Squeezes S128) (z : S128.Idx) :
    ((Shape.reshapeEquiv hsq.numel_eq z) 0).val = 0 ∧ ((Shape.reshapeEquiv hsq.numel_eq z) 1).val = (z 0).val := by
  have hy := Shape.rowMajor_reshapeEquiv hsq.numel_eq z
  rw [Shape.rowMajor_val_two, Shape.rowMajor_val_one] at hy
  have hy' : ((Shape.reshapeEquiv hsq.numel_eq z) 0).val * 128 + ((Shape.reshapeEquiv hsq.numel_eq z) 1).val = (z 0).val := hy
  have h0 : ((Shape.reshapeEquiv hsq.numel_eq z) 0).val < 1 := ((Shape.reshapeEquiv hsq.numel_eq z) 0).isLt
  omega

/-- Entry `z` of row `kk` of the long index list, after the table's rows were copied into the list, is the table's
    entry `(80w + kk, z)`. -/
theorem list_word (fs : Buf (Elt F) (sV.view.loc (thrV d L))) (g0 : Buf (Elt F) ((Memref.whole cc1_scratch0).view.loc (thrV d L))) (kk : ℕ)
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128) (z : S128.Idx) :
    ∃ j : S2560x128.Idx, (j 0).val = 1280 * (L 0).val + 80 * (L 1).val + kk ∧ (j 1).val = (z 0).val ∧
      (((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) z = (fs : S2560x128.Idx → BitVec 32) j := by
  obtain ⟨hz0, hz1⟩ := squeeze_coords hsq z
  refine ⟨(Rect.unit (s := S2560x128) (k1_off1 L) S80x128.size (k1_off1_inb L)).emb
            ((Rect.unit (s := S80x128) ![kk, 0] S1x128.size hoff).emb (Shape.reshapeEquiv hsq.numel_eq z)), ?_, ?_, ?_⟩
  · show k1_off1 L 0 + 1 * ((![kk, 0] : Fin 2 → ℕ) 0 + 1 * ((Shape.reshapeEquiv hsq.numel_eq z) 0).val) = _
    rw [k1_off1_eq, hz0]
    show (1280 * (L 0).val + 80 * (L 1).val) + 1 * (kk + 1 * 0) = _
    omega
  · show k1_off1 L 1 + 1 * ((![kk, 0] : Fin 2 → ℕ) 1 + 1 * ((Shape.reshapeEquiv hsq.numel_eq z) 1).val) = _
    rw [k1_off1_eq, hz1]
    show 0 + 1 * (0 + 1 * (z 0).val) = _
    omega
  · have e1 : (((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) z
        = (Memref.whole cc1_scratch0).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)
            ((Rect.unit (s := S80x128) ![kk, 0] S1x128.size hoff).emb (Shape.reshapeEquiv hsq.numel_eq z)) := rfl
    rw [e1, View.read_write_of_mem _ _ (Finset.mem_univ _)]
    rfl

/-- What a list of writes whose last is of the whole shape leaves is read back as that write's payload. -/
theorem read_writes_whole_cons {sig' : RefSig} {κ : Kind} {sp : Space} {s : Shape} {e : EltTy} {Val : EltTy → Type}
    (v : View sig' κ sp s e) (f : v.ty.Contents Val) (w : (Rect.whole s).shape.Idx → Val e)
    (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- Window `kk` after its copy holds, at each of its own elements, the gathered rows: element `(x₀, x₁)` of the window
    is element `(10240w + 128·kk + x₀, x₁)` of the result, the row buffer held there the source's row named by entry `x₀`
    of row `kk` of the long index list, and that entry is the index table's at `(80w + kk, x₀)`. -/
theorem window_value (fh : Buf (Elt F) (hV.view.loc (thrV d L))) (fs : Buf (Elt F) (sV.view.loc (thrV d L)))
    (hfs : ∀ j, (fs j).toNat < 10240) (fo : Buf (Elt F) (oV.view.loc (thrV d L)))
    (kk : ℕ) (hk : kk < 80) (c : BitVec 32) (hc : c = BitVec.ofNat 32 (128 * kk))
    (inb2 : ∀ a, k1_off2 L c a + S128x128.size a ≤ S327680x128.size a)
    (hst2 : ∀ a, (Rect.unit (s := S327680x128) (k1_off2 L c) S128x128.size inb2).stride a = 1)
    (M : Memref sig .scVector .vmem S128x128 .f32) (base : M.view.ty.Contents (Elt F))
    (Lr : List (View.Piece (Elt F) S128x128 .f32))
    (g0 : Buf (Elt F) ((Memref.whole cc1_scratch0).view.loc (thrV d L)))
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128)
    (inbh : ∀ a, (![0, 0] : Fin 2 → ℕ) a + S10240x128.size a ≤ S10240x128.size a)
    (hsth : ∀ a, (Rect.unit (s := S10240x128) ![0, 0] S10240x128.size inbh).stride a = 1)
    (hn : S128.numel = S128x128.size gathers_S10240x128_S128x128.axis')
    (hinr : ∀ x, ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) x).toNat < S10240x128.size gathers_S10240x128_S128x128.axis) :
    ∀ i ∈ ((oV.slice (Rect.unit (s := S327680x128) (k1_off2 L c) S128x128.size inb2) hst2) : Memref sig .scVector .hbm S128x128 .f32).view.set,
      ((oV.slice (Rect.unit (s := S327680x128) (k1_off2 L c) S128x128.size inb2) hst2) : Memref sig .scVector .hbm S128x128 .f32).view.writes (Elt F) fo [⟨Rect.whole S128x128, (ReadAs.same.apply (M.view.read (Elt F) (M.view.writes (Elt F) base (⟨Rect.whole S128x128, (SparseCore.gatherPayload gathers_S10240x128_S128x128 ((hV.slice (Rect.unit (s := S10240x128) ![0, 0] S10240x128.size inbh) hsth).view.read (Elt F) fh) (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr))⟩ :: Lr))))⟩] i
        = (gatherRows (F := F) fh fs : Buf (Elt F) (oV.view.loc (thrV d L))) i := by
  intro i hi
  obtain ⟨x, -, rfl⟩ := Finset.mem_map.mp hi
  have key1 : ∀ f : ((oV.slice (Rect.unit (s := S327680x128) (k1_off2 L c) S128x128.size inb2) hst2) : Memref sig .scVector .hbm S128x128 .f32).view.ty.Contents (Elt F),
      f (((oV.slice (Rect.unit (s := S327680x128) (k1_off2 L c) S128x128.size inb2) hst2) : Memref sig .scVector .hbm S128x128 .f32).view.emb x) = ((oV.slice (Rect.unit (s := S327680x128) (k1_off2 L c) S128x128.size inb2) hst2) : Memref sig .scVector .hbm S128x128 .f32).view.read (Elt F) f x := fun f => rfl
  refine (key1 _).trans ?_
  refine (read_writes_whole_cons _ _ _ _ x).trans ?_
  refine (read_writes_whole_cons M.view _ _ _ x).trans ?_
  have key2 : ∀ y, (hV.slice (Rect.unit (s := S10240x128) ![0, 0] S10240x128.size inbh) hsth).view.read (Elt F) fh y = (fh : S10240x128.Idx → F .f32) ((hV.slice (Rect.unit (s := S10240x128) ![0, 0] S10240x128.size inbh) hsth).view.emb y) := fun y => rfl
  refine (key2 _).trans ?_
  -- the entry of the long list that names the row
  obtain ⟨j, hj0, hj1, hj⟩ := list_word d L fs g0 kk hoff hst hsq (S128.rowMajor.symm ((x 0).cast hn.symm))
  have hz : ((S128.rowMajor.symm ((x 0).cast hn.symm)) 0).val = (x 0).val := by
    have h := Shape.rowMajor_val_one (S128.rowMajor.symm ((x 0).cast hn.symm))
    rw [Equiv.apply_symm_apply] at h
    exact h.symm
  have e2 : k1_off2 L c = ![163840 * (L 0).val + 10240 * (L 1).val + 128 * kk, 0] := by
    rw [hc]; exact k1_off2_eq L ⟨kk, hk⟩
  have e20 : k1_off2 L c 0 = 163840 * (L 0).val + 10240 * (L 1).val + 128 * kk := congrFun e2 0
  have e21 : k1_off2 L c 1 = 0 := congrFun e2 1
  have hx0 : (x 0).val < 128 := (x 0).isLt
  have hi0 : ((((oV.slice (Rect.unit (s := S327680x128) (k1_off2 L c) S128x128.size inb2) hst2) : Memref sig .scVector .hbm S128x128 .f32).view.emb x) 0).val = 163840 * (L 0).val + 10240 * (L 1).val + 128 * kk + (x 0).val := by
    show k1_off2 L c 0 + 1 * (x 0).val = _
    omega
  have hi1 : ((((oV.slice (Rect.unit (s := S327680x128) (k1_off2 L c) S128x128.size inb2) hst2) : Memref sig .scVector .hbm S128x128 .f32).view.emb x) 1).val = (x 1).val := by
    show k1_off2 L c 1 + 1 * (x 1).val = _
    omega
  unfold gatherRows
  refine app2_congr (fh : S10240x128.Idx → F .f32) ?_ ?_
  · -- the row: the word the list holds there, below the source's height
    have e0 : gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 0
        = SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr (x 0) :=
      Shape.Gathers.idx_axis gathers_S10240x128_S128x128 _ x
    show (![0, 0] : Fin 2 → ℕ) 0 + 1 * (gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 0).val = _
    rw [e0]
    show 0 + 1 * ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ) (S128.rowMajor.symm ((x 0).cast hn.symm))).toNat = _
    rw [hj]
    have hjj : (fs : S2560x128.Idx → BitVec 32) j = (fs : S2560x128.Idx → BitVec 32)
        (ValueIdx.ix2 (⟨((((oV.slice (Rect.unit (s := S327680x128) (k1_off2 L c) S128x128.size inb2) hst2) : Memref sig .scVector .hbm S128x128 .f32).view.emb x) 0).val / 128, by have h : ((((oV.slice (Rect.unit (s := S327680x128) (k1_off2 L c) S128x128.size inb2) hst2) : Memref sig .scVector .hbm S128x128 .f32).view.emb x) 0).val < 327680 := ((((oV.slice (Rect.unit (s := S327680x128) (k1_off2 L c) S128x128.size inb2) hst2) : Memref sig .scVector .hbm S128x128 .f32).view.emb x) 0).isLt; omega⟩ : Fin 2560)
          (⟨((((oV.slice (Rect.unit (s := S327680x128) (k1_off2 L c) S128x128.size inb2) hst2) : Memref sig .scVector .hbm S128x128 .f32).view.emb x) 0).val % 128, Nat.mod_lt _ (by decide)⟩ : Fin 128)) := by
      refine app2_congr (fs : S2560x128.Idx → BitVec 32) ?_ ?_
      · show (j 0).val = ((((oV.slice (Rect.unit (s := S327680x128) (k1_off2 L c) S128x128.size inb2) hst2) : Memref sig .scVector .hbm S128x128 .f32).view.emb x) 0).val / 128
        rw [hj0, hi0]; omega
      · show (j 1).val = ((((oV.slice (Rect.unit (s := S327680x128) (k1_off2 L c) S128x128.size inb2) hst2) : Memref sig .scVector .hbm S128x128 .f32).view.emb x) 0).val % 128
        rw [hj1, hz, hi0]; omega
    rw [hjj]
    have hlt := hfs (ValueIdx.ix2 (⟨((((oV.slice (Rect.unit (s := S327680x128) (k1_off2 L c) S128x128.size inb2) hst2) : Memref sig .scVector .hbm S128x128 .f32).view.emb x) 0).val / 128, by have h : ((((oV.slice (Rect.unit (s := S327680x128) (k1_off2 L c) S128x128.size inb2) hst2) : Memref sig .scVector .hbm S128x128 .f32).view.emb x) 0).val < 327680 := ((((oV.slice (Rect.unit (s := S327680x128) (k1_off2 L c) S128x128.size inb2) hst2) : Memref sig .scVector .hbm S128x128 .f32).view.emb x) 0).isLt; omega⟩ : Fin 2560)
          (⟨((((oV.slice (Rect.unit (s := S327680x128) (k1_off2 L c) S128x128.size inb2) hst2) : Memref sig .scVector .hbm S128x128 .f32).view.emb x) 0).val % 128, Nat.mod_lt _ (by decide)⟩ : Fin 128))
    show _ = _ % 10240
    rw [Nat.mod_eq_of_lt hlt]; omega
  · -- the column
    have e1 : (gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 1).val = (x 1).val :=
      Shape.Gathers.idx_of_ne gathers_S10240x128_S128x128 _ x 1 (by decide)
    show (![0, 0] : Fin 2 → ℕ) 1 + 1 * (gathers_S10240x128_S128x128.idx (SparseCore.rows ((((Memref.whole cc1_scratch0).slice (Rect.unit (s := S80x128) ![kk, 0] S1x128.size hoff) hst).squeeze S128 hsq).view.read (Elt F) ((Memref.whole cc1_scratch0).view.write (Elt F) g0 (ReadAs.same.apply ((sV.slice (Rect.unit (s := S2560x128) (k1_off1 L) S80x128.size (k1_off1_inb L)) (fun _ => rfl)).view.read (Elt F) fs)) Finset.univ)) hn hinr) x 1).val = _
    rw [e1]
    show 0 + 1 * (x 1).val = ((((oV.slice (Rect.unit (s := S327680x128) (k1_off2 L c) S128x128.size inb2) hst2) : Memref sig .scVector .hbm S128x128 .f32).view.emb x) 1).val
    rw [hi1]; omega

/-! ## The task's run

The eighty result windows are held by exactly their own elements, spelt as the program slices them; each comes back
at the gathered rows. -/

set_option maxHeartbeats 16000000 in
/-- From the two read shares, the eighty result windows, the scratch buffers, the counters at zero and the thread's
    ledger, the task runs to its return and hands everything back: the shares unchanged, every window at the gathered
    rows, the scratch buffers at some contents, the counters at zero, and only waits at the kernels' own index added
    to the ledger. -/
theorem tile_run' (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oV.slice (Rect.unit (s := S327680x128) (k1_off2 L 0#32) S128x128.size (k1_off2_inb L 0)) (fun _ => rfl)).view.loc (thrV d L) ↦[(oV.slice (Rect.unit (s := S327680x128) (k1_off2 L 0#32) S128x128.size (k1_off2_inb L 0)) (fun _ => rfl)).view.set]{fullShare} fo)
      ∗ ((oV.slice (Rect.unit (s := S327680x128) (k1_off2 L 128#32) S128x128.size (k1_off2_inb L 1)) (fun _ => rfl)).view.loc (thrV d L) ↦[(oV.slice (Rect.unit (s := S327680x128) (k1_off2 L 128#32) S128x128.size (k1_off2_inb L 1)) (fun _ => rfl)).view.set]{fullShare} fo)
      ∗ ((oV.slice (Rect.unit (s := S327680x128) (k1_off2 L 256#32) S128x128.size (k1_off2_inb L 2)) (fun _ => rfl)).view.loc (thrV d L) ↦[(oV.slice (Rect.unit (s := S327680x128) (k1_off2 L 256#32) S128x128.size (k1_off2_inb L 2)) (fun _ => rfl)).view.set]{fullShare} fo)
      ∗ ((oV.slice (Rect.unit (s := S327680x128) (k1_off2 L 384#32) S128x128.size (k1_off2_inb L 3)) (fun _ => rfl)).view.loc (thrV d L) ↦[(oV.slice (Rect.unit (s := S327680x128) (k1_off2 L 384#32) S128x128.size (k1_off2_inb L 3)) (fun _ => rfl)).view.set]{fullShare} fo)
      ∗ ((oV.slice (Rect.unit (s := S327680x128) (k1_off2 L 512#32) S128x128.size (k1_off2_inb L 4)) (fun _ => rfl)).view.loc (thrV d L) ↦[(oV.slice (Rect.unit (s := S327680x128) (k1_off2 L 512#32) S128x128.size (k1_off2_inb L 4)) (fun _ => rfl)).view.set]{fullShare} fo)
      ∗ ((oV.slice (Rect.unit (s := S327680x128) (k1_off2 L 640#32) S128x128.size (k1_off2_inb L 5)) (fun _ => rfl)).view.loc (thrV d L) ↦[(oV.slice (Rect.unit (s := S327680x128) (k1_off2 L 640#32) S128x128.size (k1_off2_inb L 5)) (fun _ => rfl)).view.set]{fullShare} fo)
      ∗ ((oV.slice (Rect.unit (s := S327680x128) (k1_off2 L 768#32) S128x128.size (k1_off2_inb L 6)) (fun _ => rfl)).view.loc (thrV d L) ↦[(oV.slice (Rect.unit (s := S327680x128) (k1_off2 L 768#32) S128x128.size (k1_off2_inb L 6)) (fun _ => rfl)).view.set]{fullShare} fo)
      ∗ ((oV.slice (Rect.unit (s := S327680x128) (k1_off2 L 896#32) S128x128.size (k1_off2_inb L 7)) (fun _ => rfl)).view.loc (thrV d L) ↦[(oV.slice (Rect.unit (s := S327680x128) (k1_off2 L 896#32) S128x128.size (k1_off2_inb L 7)) (fun _ => rfl)).view.set]{fullShare} fo)
      ∗ ((oV.slice (Rect.unit (s := S327680x128) (k1_off2 L 1024#32) S128x128.size (k1_off2_inb L 8)) (fun _ => rfl)).view.loc (thrV d L) ↦[(oV.slice (Rect.unit (s := S327680x128) (k1_off2 L 1024#32) S128x128.size (k1_off2_inb L 8)) (fun _ => rfl)).view.set]{fullShare} fo)
      ∗ ((oV.slice (Rect.unit (s := S327680x128) (k1_off2 L 1152#32) S128x128.size (k1_off2_inb L 9)) (fun _ => rfl)).view.loc (thrV d L) ↦[(oV.slice (Rect.unit (s := S327680x128) (k1_off2 L 1152#32) S128x128.size (k1_off2_inb L 9)) (fun _ => rfl)).view.set]{fullShare} fo)
      ∗ ((oV.slice (Rect.unit (s := S327680x128) (k1_off2 L 1280#32) S128x128.size (k1_off2_inb L 10)) (fun _ => rfl)).view.loc (thrV d L) ↦[(oV.slice (Rect.unit (s := S327680x128) (k1_off2 L 1280#32) S128x128.size (k1_off2_inb L 10)) (fun _ => rfl)).view.set]{fullShare} fo)
      ∗ ((oV.slice (Rect.unit (s := S327680x128) (k1_off2 L 1408#32) S128x128.size (k1_off2_inb L 11)) (fun _ => rfl)).view.loc (thrV d L) ↦[(oV.slice (Rect.unit (s := S327680x128) (k1_off2 L 1408#32) S128x128.size (k1_off2_inb L 11)) (fun _ => rfl)).view.set]{fullShare} fo)
      ∗ ((oV.slice (Rect.unit (s := S327680x128) (k1_off2 L 1536#32) S128x128.size (k1_off2_inb L 12)) (fun _ => rfl)).view.loc (thrV d L) ↦[(oV.slice (Rect.unit (s := S327680x128) (k1_off2 L 1536#32) S128x128.size (k1_off2_inb L 12)) (fun _ => rfl)).view.set]{fullShare} fo)
      ∗ ((oV.slice (Rect.unit (s := S327680x128) (k1_off2 L 1664#32) S128x128.size (k1_off2_inb L 13)) (fun _ => rfl)).view.loc (thrV d L) ↦[(oV.slice (Rect.unit (s := S327680x128) (k1_off2 L 1664#32) S128x128.size (k1_off2_inb L 13)) (fun _ => rfl)).view.set]{fullShare} fo)
      ∗ ((oV.slice (Rect.unit (s := S327680x128) (k1_off2 L 1792#32) S128x128.size (k1_off2_inb L 14)) (fun _ => rfl)).view.loc (thrV d L) ↦[(oV.slice (Rect.unit (s := S327680x128) (k1_off2 L 1792#32) S128x128.size (k1_off2_inb L 14)) (fun _ => rfl)).view.set]{fullShare} fo)
      ∗ ((oV.slice (Rect.unit (s := S327680x128) (k1_off2 L 1920#32) S128x128.size (k1_off2_inb L 15)) (fun _ => rfl)).view.loc (thrV d L) ↦[(oV.slice (Rect.unit (s := S327680x128) (k1_off2 L 1920#32) S128x128.size (k1_off2_inb L 15)) (fun _ => rfl)).view.set]{fullShare} fo)
      ∗ ((oV.slice (Rect.unit (s := S327680x128) (k1_off2 L 2048#32) S128x128.size (k1_off2_inb L 16)) (fun _ => rfl)).view.loc (thrV d L) ↦[(oV.slice (Rect.unit (s := S327680x128) (k1_off2 L 2048#32) S128x128.size (k1_off2_inb L 16)) (fun _ => rfl)).view.set]{fullShare} fo)
      ∗ ((oV.slice (Rect.unit (s := S327680x128) (k1_off2 L 2176#32) S128x128.size (k1_off2_inb L 17)) (fun _ => rfl)).view.loc (thrV d L) ↦[(oV.slice (Rect.unit (s := S327680x128) (k1_off2 L 2176#32) S128x128.size (k1_off2_inb L 17)) (fun _ => rfl)).view.set]{fullShare} fo)
      ∗ ((oV.slice (Rect.unit (s := S327680x128) (k1_off2 L 2304#32) S128x128.size (k1_off2_inb L 18)) (fun _ => rfl)).view.loc (thrV d L) ↦[(oV.slice (Rect.unit (s := S327680x128) (k1_off2 L 2304#32) S128x128.size (k1_off2_inb L 18)) (fun _ => rfl)).view.set]{fullShare} fo)
      ∗ ((oV.slice (Rect.unit (s := S327680x128) (k1_off2 L 2432#32) S128x128.size (k1_off2_inb L 19)) (fun _ => rfl)).view.loc (thrV d L) ↦[(oV.slice (Rect.unit (s := S327680x128) (k1_off2 L 2432#32) S128x128.size (k1_off2_inb L 19)) (fun _ => rfl)).view.set]{fullShare} fo)
      ∗ ((oV.slice (Rect.unit (s := S327680x128) (k1_off2 L 2560#32) S128x128.size (k1_off2_inb L 20)) (fun _ => rfl)).view.loc (thrV d L) ↦[(oV.slice (Rect.unit (s := S327680x128) (k1_off2 L 2560#32) S128x128.size (k1_off2_inb L 20)) (fun _ => rfl)).view.set]{fullShare} fo)
      ∗ ((oV.slice (Rect.unit (s := S327680x128) (k1_off2 L 2688#32) S128x128.size (k1_off2_inb L 21)) (fun _ => rfl)).view.loc (thrV d L) ↦[(oV.slice (Rect.unit (s := S327680x128) (k1_off2 L 2688#32) S128x128.size (k1_off2_inb L 21)) (fun _ => rfl)).view.set]{fullShare} fo)
      ∗ ((oV.slice (Rect.unit (s := S327680x128) (k1_off2 L 2816#32) S128x128.size (k1_off2_inb L 22)) (fun _ => rfl)).view.loc (thrV d L) ↦[(oV.slice (Rect.unit (s := S327680x128) (k1_off2 L 2816#32) S128x128.size (k1_off2_inb L 22)) (fun _ => rfl)).view.set]{fullShare} fo)
      ∗ ((oV.slice (Rect.unit (s := S327680x128) (k1_off2 L 2944#32) S128x128.size (k1_off2_inb L 23)) (fun _ => rfl)).view.loc (thrV d L) ↦[(oV.slice (Rect.unit (s := S327680x128) (k1_off2 L 2944#32) S128x128.size (k1_off2_inb L 23)) (fun _ => rfl)).view.set]{fullShare} fo)
      ∗ ((oV.slice (Rect.unit (s := S327680x128) (k1_off2 L 3072#32) S128x128.size (k1_off2_inb L 24)) (fun _ => rfl)).view.loc (thrV d L) ↦[(oV.slice (Rect.unit (s := S327680x128) (k1_off2 L 3072#32) S128x128.size (k1_off2_inb L 24)) (fun _ => rfl)).view.set]{fullShare} fo)
      ∗ ((oV.slice (Rect.unit (s := S327680x128) (k1_off2 L 3200#32) S128x128.size (k1_off2_inb L 25)) (fun _ => rfl)).view.loc (thrV d L) ↦[(oV.slice (Rect.unit (s := S327680x128) (k1_off2 L 3200#32) S128x128.size (k1_off2_inb L 25)) (fun _ => rfl)).view.set]{fullShare} fo)
      ∗ ((oV.slice (Rect.unit (s := S327680x128) (k1_off2 L 3328#32) S128x128.size (k1_off2_inb L 26)) (fun _ => rfl)).view.loc (thrV d L) ↦[(oV.slice (Rect.unit (s := S327680x128) (k1_off2 L 3328#32) S128x128.size (k1_off2_inb L 26)) (fun _ => rfl)).view.set]{fullShare} fo)
      ∗ ((oV.slice (Rect.unit (s := S327680x128) (k1_off2 L 3456#32) S128x128.size (k1_off2_inb L 27)) (fun _ => rfl)).view.loc (thrV d L) ↦[(oV.slice (Rect.unit (s := S327680x128) (k1_off2 L 3456#32) S128x128.size (k1_off2_inb L 27)) (fun _ => rfl)).view.set]{fullShare} fo)
      ∗ ((oV.slice (Rect.unit (s := S327680x128) (k1_off2 L 3584#32) S128x128.size (k1_off2_inb L 28)) (fun _ => rfl)).view.loc (thrV d L) ↦[(oV.slice (Rect.unit (s := S327680x128) (k1_off2 L 3584#32) S128x128.size (k1_off2_inb L 28)) (fun _ => rfl)).view.set]{fullShare} fo)
      ∗ ((oV.slice (Rect.unit (s := S327680x128) (k1_off2 L 3712#32) S128x128.size (k1_off2_inb L 29)) (fun _ => rfl)).view.loc (thrV d L) ↦[(oV.slice (Rect.unit (s := S327680x128) (k1_off2 L 3712#32) S128x128.size (k1_off2_inb L 29)) (fun _ => rfl)).view.set]{fullShare} fo)
      ∗ ((oV.slice (Rect.unit (s := S327680x128) (k1_off2 L 3840#32) S128x128.size (k1_off2_inb L 30)) (fun _ => rfl)).view.loc (thrV d L) ↦[(oV.slice (Rect.unit (s := S327680x128) (k1_off2 L 3840#32) S128x128.size (k1_off2_inb L 30)) (fun _ => rfl)).view.set]{fullShare} fo)
      ∗ ((oV.slice (Rect.unit (s := S327680x128) (k1_off2 L 3968#32) S128x128.size (k1_off2_inb L 31)) (fun _ => rfl)).view.loc (thrV d L) ↦[(oV.slice (Rect.unit (s := S327680x128) (k1_off2 L 3968#32) S128x128.size (k1_off2_inb L 31)) (fun _ => rfl)).view.set]{fullShare} fo)
      ∗ ((oV.slice (Rect.unit (s := S327680x128) (k1_off2 L 4096#32) S128x128.size (k1_off2_inb L 32)) (fun _ => rfl)).view.loc (thrV d L) ↦[(oV.slice (Rect.unit (s := S327680x128) (k1_off2 L 4096#32) S128x128.size (k1_off2_inb L 32)) (fun _ => rfl)).view.set]{fullShare} fo)
      ∗ ((oV.slice (Rect.unit (s := S327680x128) (k1_off2 L 4224#32) S128x128.size (k1_off2_inb L 33)) (fun _ => rfl)).view.loc (thrV d L) ↦[(oV.slice (Rect.unit (s := S327680x128) (k1_off2 L 4224#32) S128x128.size (k1_off2_inb L 33)) (fun _ => rfl)).view.set]{fullShare} fo)
      ∗ ((oV.slice (Rect.unit (s := S327680x128) (k1_off2 L 4352#32) S128x128.size (k1_off2_inb L 34)) (fun _ => rfl)).view.loc (thrV d L) ↦[(oV.slice (Rect.unit (s := S327680x128) (k1_off2 L 4352#32) S128x128.size (k1_off2_inb L 34)) (fun _ => rfl)).view.set]{fullShare} fo)
      ∗ ((oV.slice (Rect.unit (s := S327680x128) (k1_off2 L 4480#32) S128x128.size (k1_off2_inb L 35)) (fun _ => rfl)).view.loc (thrV d L) ↦[(oV.slice (Rect.unit (s := S327680x128) (k1_off2 L 4480#32) S128x128.size (k1_off2_inb L 35)) (fun _ => rfl)).view.set]{fullShare} fo)
      ∗ ((oV.slice (Rect.unit (s := S327680x128) (k1_off2 L 4608#32) S128x128.size (k1_off2_inb L 36)) (fun _ => rfl)).view.loc (thrV d L) ↦[(oV.slice (Rect.unit (s := S327680x128) (k1_off2 L 4608#32) S128x128.size (k1_off2_inb L 36)) (fun _ => rfl)).view.set]{fullShare} fo)
      ∗ ((oV.slice (Rect.unit (s := S327680x128) (k1_off2 L 4736#32) S128x128.size (k1_off2_inb L 37)) (fun _ => rfl)).view.loc (thrV d L) ↦[(oV.slice (Rect.unit (s := S327680x128) (k1_off2 L 4736#32) S128x128.size (k1_off2_inb L 37)) (fun _ => rfl)).view.set]{fullShare} fo)
      ∗ ((oV.slice (Rect.unit (s := S327680x128) (k1_off2 L 4864#32) S128x128.size (k1_off2_inb L 38)) (fun _ => rfl)).view.loc (thrV d L) ↦[(oV.slice (Rect.unit (s := S327680x128) (k1_off2 L 4864#32) S128x128.size (k1_off2_inb L 38)) (fun _ => rfl)).view.set]{fullShare} fo)
      ∗ ((oV.slice (Rect.unit (s := S327680x128) (k1_off2 L 4992#32) S128x128.size (k1_off2_inb L 39)) (fun _ => rfl)).view.loc (thrV d L) ↦[(oV.slice (Rect.unit (s := S327680x128) (k1_off2 L 4992#32) S128x128.size (k1_off2_inb L 39)) (fun _ => rfl)).view.set]{fullShare} fo)
      ∗ ((oV.slice (Rect.unit (s := S327680x128) (k1_off2 L 5120#32) S128x128.size (k1_off2_inb L 40)) (fun _ => rfl)).view.loc (thrV d L) ↦[(oV.slice (Rect.unit (s := S327680x128) (k1_off2 L 5120#32) S128x128.size (k1_off2_inb L 40)) (fun _ => rfl)).view.set]{fullShare} fo)
      ∗ ((oV.slice (Rect.unit (s := S327680x128) (k1_off2 L 5248#32) S128x128.size (k1_off2_inb L 41)) (fun _ => rfl)).view.loc (thrV d L) ↦[(oV.slice (Rect.unit (s := S327680x128) (k1_off2 L 5248#32) S128x128.size (k1_off2_inb L 41)) (fun _ => rfl)).view.set]{fullShare} fo)
      ∗ ((oV.slice (Rect.unit (s := S327680x128) (k1_off2 L 5376#32) S128x128.size (k1_off2_inb L 42)) (fun _ => rfl)).view.loc (thrV d L) ↦[(oV.slice (Rect.unit (s := S327680x128) (k1_off2 L 5376#32) S128x128.size (k1_off2_inb L 42)) (fun _ => rfl)).view.set]{fullShare} fo)
      ∗ ((oV.slice (Rect.unit (s := S327680x128) (k1_off2 L 5504#32) S128x128.size (k1_off2_inb L 43)) (fun _ => rfl)).view.loc (thrV d L) ↦[(oV.slice (Rect.unit (s := S327680x128) (k1_off2 L 5504#32) S128x128.size (k1_off2_inb L 43)) (fun _ => rfl)).view.set]{fullShare} fo)
      ∗ ((oV.slice (Rect.unit (s := S327680x128) (k1_off2 L 5632#32) S128x128.size (k1_off2_inb L 44)) (fun _ => rfl)).view.loc (thrV d L) ↦[(oV.slice (Rect.unit (s := S327680x128) (k1_off2 L 5632#32) S128x128.size (k1_off2_inb L 44)) (fun _ => rfl)).view.set]{fullShare} fo)
      ∗ ((oV.slice (Rect.unit (s := S327680x128) (k1_off2 L 5760#32) S128x128.size (k1_off2_inb L 45)) (fun _ => rfl)).view.loc (thrV d L) ↦[(oV.slice (Rect.unit (s := S327680x128) (k1_off2 L 5760#32) S128x128.size (k1_off2_inb L 45)) (fun _ => rfl)).view.set]{fullShare} fo)
      ∗ ((oV.slice (Rect.unit (s := S327680x128) (k1_off2 L 5888#32) S128x128.size (k1_off2_inb L 46)) (fun _ => rfl)).view.loc (thrV d L) ↦[(oV.slice (Rect.unit (s := S327680x128) (k1_off2 L 5888#32) S128x128.size (k1_off2_inb L 46)) (fun _ => rfl)).view.set]{fullShare} fo)
      ∗ ((oV.slice (Rect.unit (s := S327680x128) (k1_off2 L 6016#32) S128x128.size (k1_off2_inb L 47)) (fun _ => rfl)).view.loc (thrV d L) ↦[(oV.slice (Rect.unit (s := S327680x128) (k1_off2 L 6016#32) S128x128.size (k1_off2_inb L 47)) (fun _ => rfl)).view.set]{fullShare} fo)
      ∗ ((oV.slice (Rect.unit (s := S327680x128) (k1_off2 L 6144#32) S128x128.size (k1_off2_inb L 48)) (fun _ => rfl)).view.loc (thrV d L) ↦[(oV.slice (Rect.unit (s := S327680x128) (k1_off2 L 6144#32) S128x128.size (k1_off2_inb L 48)) (fun _ => rfl)).view.set]{fullShare} fo)
      ∗ ((oV.slice (Rect.unit (s := S327680x128) (k1_off2 L 6272#32) S128x128.size (k1_off2_inb L 49)) (fun _ => rfl)).view.loc (thrV d L) ↦[(oV.slice (Rect.unit (s := S327680x128) (k1_off2 L 6272#32) S128x128.size (k1_off2_inb L 49)) (fun _ => rfl)).view.set]{fullShare} fo)
      ∗ ((oV.slice (Rect.unit (s := S327680x128) (k1_off2 L 6400#32) S128x128.size (k1_off2_inb L 50)) (fun _ => rfl)).view.loc (thrV d L) ↦[(oV.slice (Rect.unit (s := S327680x128) (k1_off2 L 6400#32) S128x128.size (k1_off2_inb L 50)) (fun _ => rfl)).view.set]{fullShare} fo)
      ∗ ((oV.slice (Rect.unit (s := S327680x128) (k1_off2 L 6528#32) S128x128.size (k1_off2_inb L 51)) (fun _ => rfl)).view.loc (thrV d L) ↦[(oV.slice (Rect.unit (s := S327680x128) (k1_off2 L 6528#32) S128x128.size (k1_off2_inb L 51)) (fun _ => rfl)).view.set]{fullShare} fo)
      ∗ ((oV.slice (Rect.unit (s := S327680x128) (k1_off2 L 6656#32) S128x128.size (k1_off2_inb L 52)) (fun _ => rfl)).view.loc (thrV d L) ↦[(oV.slice (Rect.unit (s := S327680x128) (k1_off2 L 6656#32) S128x128.size (k1_off2_inb L 52)) (fun _ => rfl)).view.set]{fullShare} fo)
      ∗ ((oV.slice (Rect.unit (s := S327680x128) (k1_off2 L 6784#32) S128x128.size (k1_off2_inb L 53)) (fun _ => rfl)).view.loc (thrV d L) ↦[(oV.slice (Rect.unit (s := S327680x128) (k1_off2 L 6784#32) S128x128.size (k1_off2_inb L 53)) (fun _ => rfl)).view.set]{fullShare} fo)
      ∗ ((oV.slice (Rect.unit (s := S327680x128) (k1_off2 L 6912#32) S128x128.size (k1_off2_inb L 54)) (fun _ => rfl)).view.loc (thrV d L) ↦[(oV.slice (Rect.unit (s := S327680x128) (k1_off2 L 6912#32) S128x128.size (k1_off2_inb L 54)) (fun _ => rfl)).view.set]{fullShare} fo)
      ∗ ((oV.slice (Rect.unit (s := S327680x128) (k1_off2 L 7040#32) S128x128.size (k1_off2_inb L 55)) (fun _ => rfl)).view.loc (thrV d L) ↦[(oV.slice (Rect.unit (s := S327680x128) (k1_off2 L 7040#32) S128x128.size (k1_off2_inb L 55)) (fun _ => rfl)).view.set]{fullShare} fo)
      ∗ ((oV.slice (Rect.unit (s := S327680x128) (k1_off2 L 7168#32) S128x128.size (k1_off2_inb L 56)) (fun _ => rfl)).view.loc (thrV d L) ↦[(oV.slice (Rect.unit (s := S327680x128) (k1_off2 L 7168#32) S128x128.size (k1_off2_inb L 56)) (fun _ => rfl)).view.set]{fullShare} fo)
      ∗ ((oV.slice (Rect.unit (s := S327680x128) (k1_off2 L 7296#32) S128x128.size (k1_off2_inb L 57)) (fun _ => rfl)).view.loc (thrV d L) ↦[(oV.slice (Rect.unit (s := S327680x128) (k1_off2 L 7296#32) S128x128.size (k1_off2_inb L 57)) (fun _ => rfl)).view.set]{fullShare} fo)
      ∗ ((oV.slice (Rect.unit (s := S327680x128) (k1_off2 L 7424#32) S128x128.size (k1_off2_inb L 58)) (fun _ => rfl)).view.loc (thrV d L) ↦[(oV.slice (Rect.unit (s := S327680x128) (k1_off2 L 7424#32) S128x128.size (k1_off2_inb L 58)) (fun _ => rfl)).view.set]{fullShare} fo)
      ∗ ((oV.slice (Rect.unit (s := S327680x128) (k1_off2 L 7552#32) S128x128.size (k1_off2_inb L 59)) (fun _ => rfl)).view.loc (thrV d L) ↦[(oV.slice (Rect.unit (s := S327680x128) (k1_off2 L 7552#32) S128x128.size (k1_off2_inb L 59)) (fun _ => rfl)).view.set]{fullShare} fo)
      ∗ ((oV.slice (Rect.unit (s := S327680x128) (k1_off2 L 7680#32) S128x128.size (k1_off2_inb L 60)) (fun _ => rfl)).view.loc (thrV d L) ↦[(oV.slice (Rect.unit (s := S327680x128) (k1_off2 L 7680#32) S128x128.size (k1_off2_inb L 60)) (fun _ => rfl)).view.set]{fullShare} fo)
      ∗ ((oV.slice (Rect.unit (s := S327680x128) (k1_off2 L 7808#32) S128x128.size (k1_off2_inb L 61)) (fun _ => rfl)).view.loc (thrV d L) ↦[(oV.slice (Rect.unit (s := S327680x128) (k1_off2 L 7808#32) S128x128.size (k1_off2_inb L 61)) (fun _ => rfl)).view.set]{fullShare} fo)
      ∗ ((oV.slice (Rect.unit (s := S327680x128) (k1_off2 L 7936#32) S128x128.size (k1_off2_inb L 62)) (fun _ => rfl)).view.loc (thrV d L) ↦[(oV.slice (Rect.unit (s := S327680x128) (k1_off2 L 7936#32) S128x128.size (k1_off2_inb L 62)) (fun _ => rfl)).view.set]{fullShare} fo)
      ∗ ((oV.slice (Rect.unit (s := S327680x128) (k1_off2 L 8064#32) S128x128.size (k1_off2_inb L 63)) (fun _ => rfl)).view.loc (thrV d L) ↦[(oV.slice (Rect.unit (s := S327680x128) (k1_off2 L 8064#32) S128x128.size (k1_off2_inb L 63)) (fun _ => rfl)).view.set]{fullShare} fo)
      ∗ ((oV.slice (Rect.unit (s := S327680x128) (k1_off2 L 8192#32) S128x128.size (k1_off2_inb L 64)) (fun _ => rfl)).view.loc (thrV d L) ↦[(oV.slice (Rect.unit (s := S327680x128) (k1_off2 L 8192#32) S128x128.size (k1_off2_inb L 64)) (fun _ => rfl)).view.set]{fullShare} fo)
      ∗ ((oV.slice (Rect.unit (s := S327680x128) (k1_off2 L 8320#32) S128x128.size (k1_off2_inb L 65)) (fun _ => rfl)).view.loc (thrV d L) ↦[(oV.slice (Rect.unit (s := S327680x128) (k1_off2 L 8320#32) S128x128.size (k1_off2_inb L 65)) (fun _ => rfl)).view.set]{fullShare} fo)
      ∗ ((oV.slice (Rect.unit (s := S327680x128) (k1_off2 L 8448#32) S128x128.size (k1_off2_inb L 66)) (fun _ => rfl)).view.loc (thrV d L) ↦[(oV.slice (Rect.unit (s := S327680x128) (k1_off2 L 8448#32) S128x128.size (k1_off2_inb L 66)) (fun _ => rfl)).view.set]{fullShare} fo)
      ∗ ((oV.slice (Rect.unit (s := S327680x128) (k1_off2 L 8576#32) S128x128.size (k1_off2_inb L 67)) (fun _ => rfl)).view.loc (thrV d L) ↦[(oV.slice (Rect.unit (s := S327680x128) (k1_off2 L 8576#32) S128x128.size (k1_off2_inb L 67)) (fun _ => rfl)).view.set]{fullShare} fo)
      ∗ ((oV.slice (Rect.unit (s := S327680x128) (k1_off2 L 8704#32) S128x128.size (k1_off2_inb L 68)) (fun _ => rfl)).view.loc (thrV d L) ↦[(oV.slice (Rect.unit (s := S327680x128) (k1_off2 L 8704#32) S128x128.size (k1_off2_inb L 68)) (fun _ => rfl)).view.set]{fullShare} fo)
      ∗ ((oV.slice (Rect.unit (s := S327680x128) (k1_off2 L 8832#32) S128x128.size (k1_off2_inb L 69)) (fun _ => rfl)).view.loc (thrV d L) ↦[(oV.slice (Rect.unit (s := S327680x128) (k1_off2 L 8832#32) S128x128.size (k1_off2_inb L 69)) (fun _ => rfl)).view.set]{fullShare} fo)
      ∗ ((oV.slice (Rect.unit (s := S327680x128) (k1_off2 L 8960#32) S128x128.size (k1_off2_inb L 70)) (fun _ => rfl)).view.loc (thrV d L) ↦[(oV.slice (Rect.unit (s := S327680x128) (k1_off2 L 8960#32) S128x128.size (k1_off2_inb L 70)) (fun _ => rfl)).view.set]{fullShare} fo)
      ∗ ((oV.slice (Rect.unit (s := S327680x128) (k1_off2 L 9088#32) S128x128.size (k1_off2_inb L 71)) (fun _ => rfl)).view.loc (thrV d L) ↦[(oV.slice (Rect.unit (s := S327680x128) (k1_off2 L 9088#32) S128x128.size (k1_off2_inb L 71)) (fun _ => rfl)).view.set]{fullShare} fo)
      ∗ ((oV.slice (Rect.unit (s := S327680x128) (k1_off2 L 9216#32) S128x128.size (k1_off2_inb L 72)) (fun _ => rfl)).view.loc (thrV d L) ↦[(oV.slice (Rect.unit (s := S327680x128) (k1_off2 L 9216#32) S128x128.size (k1_off2_inb L 72)) (fun _ => rfl)).view.set]{fullShare} fo)
      ∗ ((oV.slice (Rect.unit (s := S327680x128) (k1_off2 L 9344#32) S128x128.size (k1_off2_inb L 73)) (fun _ => rfl)).view.loc (thrV d L) ↦[(oV.slice (Rect.unit (s := S327680x128) (k1_off2 L 9344#32) S128x128.size (k1_off2_inb L 73)) (fun _ => rfl)).view.set]{fullShare} fo)
      ∗ ((oV.slice (Rect.unit (s := S327680x128) (k1_off2 L 9472#32) S128x128.size (k1_off2_inb L 74)) (fun _ => rfl)).view.loc (thrV d L) ↦[(oV.slice (Rect.unit (s := S327680x128) (k1_off2 L 9472#32) S128x128.size (k1_off2_inb L 74)) (fun _ => rfl)).view.set]{fullShare} fo)
      ∗ ((oV.slice (Rect.unit (s := S327680x128) (k1_off2 L 9600#32) S128x128.size (k1_off2_inb L 75)) (fun _ => rfl)).view.loc (thrV d L) ↦[(oV.slice (Rect.unit (s := S327680x128) (k1_off2 L 9600#32) S128x128.size (k1_off2_inb L 75)) (fun _ => rfl)).view.set]{fullShare} fo)
      ∗ ((oV.slice (Rect.unit (s := S327680x128) (k1_off2 L 9728#32) S128x128.size (k1_off2_inb L 76)) (fun _ => rfl)).view.loc (thrV d L) ↦[(oV.slice (Rect.unit (s := S327680x128) (k1_off2 L 9728#32) S128x128.size (k1_off2_inb L 76)) (fun _ => rfl)).view.set]{fullShare} fo)
      ∗ ((oV.slice (Rect.unit (s := S327680x128) (k1_off2 L 9856#32) S128x128.size (k1_off2_inb L 77)) (fun _ => rfl)).view.loc (thrV d L) ↦[(oV.slice (Rect.unit (s := S327680x128) (k1_off2 L 9856#32) S128x128.size (k1_off2_inb L 77)) (fun _ => rfl)).view.set]{fullShare} fo)
      ∗ ((oV.slice (Rect.unit (s := S327680x128) (k1_off2 L 9984#32) S128x128.size (k1_off2_inb L 78)) (fun _ => rfl)).view.loc (thrV d L) ↦[(oV.slice (Rect.unit (s := S327680x128) (k1_off2 L 9984#32) S128x128.size (k1_off2_inb L 78)) (fun _ => rfl)).view.set]{fullShare} fo)
      ∗ ((oV.slice (Rect.unit (s := S327680x128) (k1_off2 L 10112#32) S128x128.size (k1_off2_inb L 79)) (fun _ => rfl)).view.loc (thrV d L) ↦[(oV.slice (Rect.unit (s := S327680x128) (k1_off2 L 10112#32) S128x128.size (k1_off2_inb L 79)) (fun _ => rfl)).view.set]{fullShare} fo)
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ semVal ((thrV d L), SemLoc.dma cc1_scoped0.sem) 0
      ∗ semVal ((thrV d L), SemLoc.dma cc1_scoped1.sem) 0
      ∗ semVal ((thrV d L), SemLoc.dma cc1_scoped2.sem) 0
      ∗ semVal ((thrV d L), SemLoc.dma cc1_scoped3.sem) 0
      ∗ semVal ((thrV d L), SemLoc.dma cc1_scoped4.sem) 0
      ∗ semVal ((thrV d L), SemLoc.dma cc1_scoped5.sem) 0
      ∗ semVal ((thrV d L), SemLoc.dma cc1_scoped6.sem) 0
      ∗ semVal ((thrV d L), SemLoc.dma cc1_scoped7.sem) 0
      ∗ semVal ((thrV d L), SemLoc.dma cc1_scoped8.sem) 0
      ∗ semVal ((thrV d L), SemLoc.dma cc1_scoped9.sem) 0
      ∗ semVal ((thrV d L), SemLoc.dma cc1_scoped10.sem) 0
      ∗ semVal ((thrV d L), SemLoc.dma cc1_scoped11.sem) 0
      ∗ semVal ((thrV d L), SemLoc.dma cc1_scoped12.sem) 0
      ∗ semVal ((thrV d L), SemLoc.dma cc1_scoped13.sem) 0
      ∗ semVal ((thrV d L), SemLoc.dma cc1_scoped14.sem) 0
      ∗ semVal ((thrV d L), SemLoc.dma cc1_scoped15.sem) 0
      ∗ semVal ((thrV d L), SemLoc.dma cc1_scoped16.sem) 0
      ∗ semVal ((thrV d L), SemLoc.dma cc1_scoped17.sem) 0
      ∗ semVal ((thrV d L), SemLoc.dma cc1_scoped18.sem) 0
      ∗ semVal ((thrV d L), SemLoc.dma cc1_scoped19.sem) 0
      ∗ semVal ((thrV d L), SemLoc.dma cc1_scoped20.sem) 0
      ∗ semVal ((thrV d L), SemLoc.dma cc1_scoped21.sem) 0
      ∗ semVal ((thrV d L), SemLoc.dma cc1_scoped22.sem) 0
      ∗ semVal ((thrV d L), SemLoc.dma cc1_scoped23.sem) 0
      ∗ semVal ((thrV d L), SemLoc.dma cc1_scoped24.sem) 0
      ∗ semVal ((thrV d L), SemLoc.dma cc1_scoped25.sem) 0
      ∗ semVal ((thrV d L), SemLoc.dma cc1_scoped26.sem) 0
      ∗ semVal ((thrV d L), SemLoc.dma cc1_scoped27.sem) 0
      ∗ semVal ((thrV d L), SemLoc.dma cc1_scoped28.sem) 0
      ∗ semVal ((thrV d L), SemLoc.dma cc1_scoped29.sem) 0
      ∗ semVal ((thrV d L), SemLoc.dma cc1_scoped30.sem) 0
      ∗ semVal ((thrV d L), SemLoc.dma cc1_scoped31.sem) 0
      ∗ semVal ((thrV d L), SemLoc.dma cc1_scoped32.sem) 0
      ∗ semVal ((thrV d L), SemLoc.dma cc1_scoped33.sem) 0
      ∗ semVal ((thrV d L), SemLoc.dma cc1_scoped34.sem) 0
      ∗ semVal ((thrV d L), SemLoc.dma cc1_scoped35.sem) 0
      ∗ semVal ((thrV d L), SemLoc.dma cc1_scoped36.sem) 0
      ∗ semVal ((thrV d L), SemLoc.dma cc1_scoped37.sem) 0
      ∗ semVal ((thrV d L), SemLoc.dma cc1_scoped38.sem) 0
      ∗ semVal ((thrV d L), SemLoc.dma cc1_scoped39.sem) 0
      ∗ semVal ((thrV d L), SemLoc.dma cc1_scoped40.sem) 0
      ∗ semVal ((thrV d L), SemLoc.dma cc1_scoped41.sem) 0
      ∗ semVal ((thrV d L), SemLoc.dma cc1_scoped42.sem) 0
      ∗ semVal ((thrV d L), SemLoc.dma cc1_scoped43.sem) 0
      ∗ semVal ((thrV d L), SemLoc.dma cc1_scoped44.sem) 0
      ∗ semVal ((thrV d L), SemLoc.dma cc1_scoped45.sem) 0
      ∗ semVal ((thrV d L), SemLoc.dma cc1_scoped46.sem) 0
      ∗ semVal ((thrV d L), SemLoc.dma cc1_scoped47.sem) 0
      ∗ semVal ((thrV d L), SemLoc.dma cc1_scoped48.sem) 0
      ∗ semVal ((thrV d L), SemLoc.dma cc1_scoped49.sem) 0
      ∗ semVal ((thrV d L), SemLoc.dma cc1_scoped50.sem) 0
      ∗ semVal ((thrV d L), SemLoc.dma cc1_scoped51.sem) 0
      ∗ semVal ((thrV d L), SemLoc.dma cc1_scoped52.sem) 0
      ∗ semVal ((thrV d L), SemLoc.dma cc1_scoped53.sem) 0
      ∗ semVal ((thrV d L), SemLoc.dma cc1_scoped54.sem) 0
      ∗ semVal ((thrV d L), SemLoc.dma cc1_scoped55.sem) 0
      ∗ semVal ((thrV d L), SemLoc.dma cc1_scoped56.sem) 0
      ∗ semVal ((thrV d L), SemLoc.dma cc1_scoped57.sem) 0
      ∗ semVal ((thrV d L), SemLoc.dma cc1_scoped58.sem) 0
      ∗ semVal ((thrV d L), SemLoc.dma cc1_scoped59.sem) 0
      ∗ semVal ((thrV d L), SemLoc.dma cc1_scoped60.sem) 0
      ∗ semVal ((thrV d L), SemLoc.dma cc1_scoped61.sem) 0
      ∗ semVal ((thrV d L), SemLoc.dma cc1_scoped62.sem) 0
      ∗ semVal ((thrV d L), SemLoc.dma cc1_scoped63.sem) 0
      ∗ semVal ((thrV d L), SemLoc.dma cc1_scoped64.sem) 0
      ∗ semVal ((thrV d L), SemLoc.dma cc1_scoped65.sem) 0
      ∗ semVal ((thrV d L), SemLoc.dma cc1_scoped66.sem) 0
      ∗ semVal ((thrV d L), SemLoc.dma cc1_scoped67.sem) 0
      ∗ semVal ((thrV d L), SemLoc.dma cc1_scoped68.sem) 0
      ∗ semVal ((thrV d L), SemLoc.dma cc1_scoped69.sem) 0
      ∗ semVal ((thrV d L), SemLoc.dma cc1_scoped70.sem) 0
      ∗ semVal ((thrV d L), SemLoc.dma cc1_scoped71.sem) 0
      ∗ semVal ((thrV d L), SemLoc.dma cc1_scoped72.sem) 0
      ∗ semVal ((thrV d L), SemLoc.dma cc1_scoped73.sem) 0
      ∗ semVal ((thrV d L), SemLoc.dma cc1_scoped74.sem) 0
      ∗ semVal ((thrV d L), SemLoc.dma cc1_scoped75.sem) 0
      ∗ semVal ((thrV d L), SemLoc.dma cc1_scoped76.sem) 0
      ∗ semVal ((thrV d L), SemLoc.dma cc1_scoped77.sem) 0
      ∗ semVal ((thrV d L), SemLoc.dma cc1_scoped78.sem) 0
      ∗ semVal ((thrV d L), SemLoc.dma cc1_scoped79.sem) 0
      ∗ semVal ((thrV d L), SemLoc.dma cc1_scoped80.sem) 0
      ∗ semVal ((thrV d L), SemLoc.dma cc1_scoped81.sem) 0
      ∗ semVal ((thrV d L), SemLoc.dma cc1_scoped82.sem) 0
      ∗ semVal ((thrV d L), SemLoc.dma cc1_scoped83.sem) 0
      ∗ semVal ((thrV d L), SemLoc.dma cc1_scoped84.sem) 0
      ∗ semVal ((thrV d L), SemLoc.dma cc1_scoped85.sem) 0
      ∗ semVal ((thrV d L), SemLoc.dma cc1_scoped86.sem) 0
      ∗ semVal ((thrV d L), SemLoc.dma cc1_scoped87.sem) 0
      ∗ semVal ((thrV d L), SemLoc.dma cc1_scoped88.sem) 0
      ∗ semVal ((thrV d L), SemLoc.dma cc1_scoped89.sem) 0
      ∗ semVal ((thrV d L), SemLoc.dma cc1_scoped90.sem) 0
      ∗ semVal ((thrV d L), SemLoc.dma cc1_scoped91.sem) 0
      ∗ semVal ((thrV d L), SemLoc.dma cc1_scoped92.sem) 0
      ∗ semVal ((thrV d L), SemLoc.dma cc1_scoped93.sem) 0
      ∗ semVal ((thrV d L), SemLoc.dma cc1_scoped94.sem) 0
      ∗ semVal ((thrV d L), SemLoc.dma cc1_scoped95.sem) 0
      ∗ semVal ((thrV d L), SemLoc.dma cc1_scoped96.sem) 0
      ∗ semVal ((thrV d L), SemLoc.dma cc1_scoped97.sem) 0
      ∗ semVal ((thrV d L), SemLoc.dma cc1_scoped98.sem) 0
      ∗ semVal ((thrV d L), SemLoc.dma cc1_scoped99.sem) 0
      ∗ semVal ((thrV d L), SemLoc.dma cc1_scoped100.sem) 0
      ∗ semVal ((thrV d L), SemLoc.dma cc1_scoped101.sem) 0
      ∗ semVal ((thrV d L), SemLoc.dma cc1_scoped102.sem) 0
      ∗ semVal ((thrV d L), SemLoc.dma cc1_scoped103.sem) 0
      ∗ semVal ((thrV d L), SemLoc.dma cc1_scoped104.sem) 0
      ∗ semVal ((thrV d L), SemLoc.dma cc1_scoped105.sem) 0
      ∗ semVal ((thrV d L), SemLoc.dma cc1_scoped106.sem) 0
      ∗ semVal ((thrV d L), SemLoc.dma cc1_scoped107.sem) 0
      ∗ semVal ((thrV d L), SemLoc.dma cc1_scoped108.sem) 0
      ∗ semVal ((thrV d L), SemLoc.dma cc1_scoped109.sem) 0
      ∗ semVal ((thrV d L), SemLoc.dma cc1_scoped110.sem) 0
      ∗ semVal ((thrV d L), SemLoc.dma cc1_scoped111.sem) 0
      ∗ semVal ((thrV d L), SemLoc.dma cc1_scoped112.sem) 0
      ∗ semVal ((thrV d L), SemLoc.dma cc1_scoped113.sem) 0
      ∗ semVal ((thrV d L), SemLoc.dma cc1_scoped114.sem) 0
      ∗ semVal ((thrV d L), SemLoc.dma cc1_scoped115.sem) 0
      ∗ semVal ((thrV d L), SemLoc.dma cc1_scoped116.sem) 0
      ∗ semVal ((thrV d L), SemLoc.dma cc1_scoped117.sem) 0
      ∗ semVal ((thrV d L), SemLoc.dma cc1_scoped118.sem) 0
      ∗ semVal ((thrV d L), SemLoc.dma cc1_scoped119.sem) 0
      ∗ semVal ((thrV d L), SemLoc.dma cc1_scoped120.sem) 0
      ∗ semVal ((thrV d L), SemLoc.dma cc1_scoped121.sem) 0
      ∗ semVal ((thrV d L), SemLoc.dma cc1_scoped122.sem) 0
      ∗ semVal ((thrV d L), SemLoc.dma cc1_scoped123.sem) 0
      ∗ semVal ((thrV d L), SemLoc.dma cc1_scoped124.sem) 0
      ∗ semVal ((thrV d L), SemLoc.dma cc1_scoped125.sem) 0
      ∗ semVal ((thrV d L), SemLoc.dma cc1_scoped126.sem) 0
      ∗ semVal ((thrV d L), SemLoc.dma cc1_scoped127.sem) 0
      ∗ semVal ((thrV d L), SemLoc.dma cc1_scoped128.sem) 0
      ∗ semVal ((thrV d L), SemLoc.dma cc1_scoped129.sem) 0
      ∗ semVal ((thrV d L), SemLoc.dma cc1_scoped130.sem) 0
      ∗ semVal ((thrV d L), SemLoc.dma cc1_scoped131.sem) 0
      ∗ semVal ((thrV d L), SemLoc.dma cc1_scoped132.sem) 0
      ∗ semVal ((thrV d L), SemLoc.dma cc1_scoped133.sem) 0
      ∗ semVal ((thrV d L), SemLoc.dma cc1_scoped134.sem) 0
      ∗ semVal ((thrV d L), SemLoc.dma cc1_scoped135.sem) 0
      ∗ semVal ((thrV d L), SemLoc.dma cc1_scoped136.sem) 0
      ∗ semVal ((thrV d L), SemLoc.dma cc1_scoped137.sem) 0
      ∗ semVal ((thrV d L), SemLoc.dma cc1_scoped138.sem) 0
      ∗ semVal ((thrV d L), SemLoc.dma cc1_scoped139.sem) 0
      ∗ semVal ((thrV d L), SemLoc.dma cc1_scoped140.sem) 0
      ∗ semVal ((thrV d L), SemLoc.dma cc1_scoped141.sem) 0
      ∗ semVal ((thrV d L), SemLoc.dma cc1_scoped142.sem) 0
      ∗ semVal ((thrV d L), SemLoc.dma cc1_scoped143.sem) 0
      ∗ semVal ((thrV d L), SemLoc.dma cc1_scoped144.sem) 0
      ∗ semVal ((thrV d L), SemLoc.dma cc1_scoped145.sem) 0
      ∗ semVal ((thrV d L), SemLoc.dma cc1_scoped146.sem) 0
      ∗ semVal ((thrV d L), SemLoc.dma cc1_scoped147.sem) 0
      ∗ semVal ((thrV d L), SemLoc.dma cc1_scoped148.sem) 0
      ∗ semVal ((thrV d L), SemLoc.dma cc1_scoped149.sem) 0
      ∗ semVal ((thrV d L), SemLoc.dma cc1_scoped150.sem) 0
      ∗ semVal ((thrV d L), SemLoc.dma cc1_scoped151.sem) 0
      ∗ semVal ((thrV d L), SemLoc.dma cc1_scoped152.sem) 0
      ∗ semVal ((thrV d L), SemLoc.dma cc1_scoped153.sem) 0
      ∗ semVal ((thrV d L), SemLoc.dma cc1_scoped154.sem) 0
      ∗ semVal ((thrV d L), SemLoc.dma cc1_scoped155.sem) 0
      ∗ semVal ((thrV d L), SemLoc.dma cc1_scoped156.sem) 0
      ∗ semVal ((thrV d L), SemLoc.dma cc1_scoped157.sem) 0
      ∗ semVal ((thrV d L), SemLoc.dma cc1_scoped158.sem) 0
      ∗ semVal ((thrV d L), SemLoc.dma cc1_scoped159.sem) 0
      ∗ semVal ((thrV d L), SemLoc.dma cc1_scoped160.sem) 0
      ∗ semVal ((thrV d L), SemLoc.dma cc1_scoped161.sem) 0
      ∗ owes (thrV d L) O W
      ∗ (iprop((hV.view.loc (thrV d L) ↦{q} fh) ∗ (sV.view.loc (thrV d L) ↦{q} fs)
          ∗ ((oV.slice (Rect.unit (s := S327680x128) (k1_off2 L 0#32) S128x128.size (k1_off2_inb L 0)) (fun _ => rfl)).view.loc (thrV d L) ↦[(oV.slice (Rect.unit (s := S327680x128) (k1_off2 L 0#32) S128x128.size (k1_off2_inb L 0)) (fun _ => rfl)).view.set]{fullShare} (gatherRows (F := F) fh fs : Buf (Elt F) (oV.view.loc (thrV d L))))
          ∗ ((oV.slice (Rect.unit (s := S327680x128) (k1_off2 L 128#32) S128x128.size (k1_off2_inb L 1)) (fun _ => rfl)).view.loc (thrV d L) ↦[(oV.slice (Rect.unit (s := S327680x128) (k1_off2 L 128#32) S128x128.size (k1_off2_inb L 1)) (fun _ => rfl)).view.set]{fullShare} (gatherRows (F := F) fh fs : Buf (Elt F) (oV.view.loc (thrV d L))))
          ∗ ((oV.slice (Rect.unit (s := S327680x128) (k1_off2 L 256#32) S128x128.size (k1_off2_inb L 2)) (fun _ => rfl)).view.loc (thrV d L) ↦[(oV.slice (Rect.unit (s := S327680x128) (k1_off2 L 256#32) S128x128.size (k1_off2_inb L 2)) (fun _ => rfl)).view.set]{fullShare} (gatherRows (F := F) fh fs : Buf (Elt F) (oV.view.loc (thrV d L))))
          ∗ ((oV.slice (Rect.unit (s := S327680x128) (k1_off2 L 384#32) S128x128.size (k1_off2_inb L 3)) (fun _ => rfl)).view.loc (thrV d L) ↦[(oV.slice (Rect.unit (s := S327680x128) (k1_off2 L 384#32) S128x128.size (k1_off2_inb L 3)) (fun _ => rfl)).view.set]{fullShare} (gatherRows (F := F) fh fs : Buf (Elt F) (oV.view.loc (thrV d L))))
          ∗ ((oV.slice (Rect.unit (s := S327680x128) (k1_off2 L 512#32) S128x128.size (k1_off2_inb L 4)) (fun _ => rfl)).view.loc (thrV d L) ↦[(oV.slice (Rect.unit (s := S327680x128) (k1_off2 L 512#32) S128x128.size (k1_off2_inb L 4)) (fun _ => rfl)).view.set]{fullShare} (gatherRows (F := F) fh fs : Buf (Elt F) (oV.view.loc (thrV d L))))
          ∗ ((oV.slice (Rect.unit (s := S327680x128) (k1_off2 L 640#32) S128x128.size (k1_off2_inb L 5)) (fun _ => rfl)).view.loc (thrV d L) ↦[(oV.slice (Rect.unit (s := S327680x128) (k1_off2 L 640#32) S128x128.size (k1_off2_inb L 5)) (fun _ => rfl)).view.set]{fullShare} (gatherRows (F := F) fh fs : Buf (Elt F) (oV.view.loc (thrV d L))))
          ∗ ((oV.slice (Rect.unit (s := S327680x128) (k1_off2 L 768#32) S128x128.size (k1_off2_inb L 6)) (fun _ => rfl)).view.loc (thrV d L) ↦[(oV.slice (Rect.unit (s := S327680x128) (k1_off2 L 768#32) S128x128.size (k1_off2_inb L 6)) (fun _ => rfl)).view.set]{fullShare} (gatherRows (F := F) fh fs : Buf (Elt F) (oV.view.loc (thrV d L))))
          ∗ ((oV.slice (Rect.unit (s := S327680x128) (k1_off2 L 896#32) S128x128.size (k1_off2_inb L 7)) (fun _ => rfl)).view.loc (thrV d L) ↦[(oV.slice (Rect.unit (s := S327680x128) (k1_off2 L 896#32) S128x128.size (k1_off2_inb L 7)) (fun _ => rfl)).view.set]{fullShare} (gatherRows (F := F) fh fs : Buf (Elt F) (oV.view.loc (thrV d L))))
          ∗ ((oV.slice (Rect.unit (s := S327680x128) (k1_off2 L 1024#32) S128x128.size (k1_off2_inb L 8)) (fun _ => rfl)).view.loc (thrV d L) ↦[(oV.slice (Rect.unit (s := S327680x128) (k1_off2 L 1024#32) S128x128.size (k1_off2_inb L 8)) (fun _ => rfl)).view.set]{fullShare} (gatherRows (F := F) fh fs : Buf (Elt F) (oV.view.loc (thrV d L))))
          ∗ ((oV.slice (Rect.unit (s := S327680x128) (k1_off2 L 1152#32) S128x128.size (k1_off2_inb L 9)) (fun _ => rfl)).view.loc (thrV d L) ↦[(oV.slice (Rect.unit (s := S327680x128) (k1_off2 L 1152#32) S128x128.size (k1_off2_inb L 9)) (fun _ => rfl)).view.set]{fullShare} (gatherRows (F := F) fh fs : Buf (Elt F) (oV.view.loc (thrV d L))))
          ∗ ((oV.slice (Rect.unit (s := S327680x128) (k1_off2 L 1280#32) S128x128.size (k1_off2_inb L 10)) (fun _ => rfl)).view.loc (thrV d L) ↦[(oV.slice (Rect.unit (s := S327680x128) (k1_off2 L 1280#32) S128x128.size (k1_off2_inb L 10)) (fun _ => rfl)).view.set]{fullShare} (gatherRows (F := F) fh fs : Buf (Elt F) (oV.view.loc (thrV d L))))
          ∗ ((oV.slice (Rect.unit (s := S327680x128) (k1_off2 L 1408#32) S128x128.size (k1_off2_inb L 11)) (fun _ => rfl)).view.loc (thrV d L) ↦[(oV.slice (Rect.unit (s := S327680x128) (k1_off2 L 1408#32) S128x128.size (k1_off2_inb L 11)) (fun _ => rfl)).view.set]{fullShare} (gatherRows (F := F) fh fs : Buf (Elt F) (oV.view.loc (thrV d L))))
          ∗ ((oV.slice (Rect.unit (s := S327680x128) (k1_off2 L 1536#32) S128x128.size (k1_off2_inb L 12)) (fun _ => rfl)).view.loc (thrV d L) ↦[(oV.slice (Rect.unit (s := S327680x128) (k1_off2 L 1536#32) S128x128.size (k1_off2_inb L 12)) (fun _ => rfl)).view.set]{fullShare} (gatherRows (F := F) fh fs : Buf (Elt F) (oV.view.loc (thrV d L))))
          ∗ ((oV.slice (Rect.unit (s := S327680x128) (k1_off2 L 1664#32) S128x128.size (k1_off2_inb L 13)) (fun _ => rfl)).view.loc (thrV d L) ↦[(oV.slice (Rect.unit (s := S327680x128) (k1_off2 L 1664#32) S128x128.size (k1_off2_inb L 13)) (fun _ => rfl)).view.set]{fullShare} (gatherRows (F := F) fh fs : Buf (Elt F) (oV.view.loc (thrV d L))))
          ∗ ((oV.slice (Rect.unit (s := S327680x128) (k1_off2 L 1792#32) S128x128.size (k1_off2_inb L 14)) (fun _ => rfl)).view.loc (thrV d L) ↦[(oV.slice (Rect.unit (s := S327680x128) (k1_off2 L 1792#32) S128x128.size (k1_off2_inb L 14)) (fun _ => rfl)).view.set]{fullShare} (gatherRows (F := F) fh fs : Buf (Elt F) (oV.view.loc (thrV d L))))
          ∗ ((oV.slice (Rect.unit (s := S327680x128) (k1_off2 L 1920#32) S128x128.size (k1_off2_inb L 15)) (fun _ => rfl)).view.loc (thrV d L) ↦[(oV.slice (Rect.unit (s := S327680x128) (k1_off2 L 1920#32) S128x128.size (k1_off2_inb L 15)) (fun _ => rfl)).view.set]{fullShare} (gatherRows (F := F) fh fs : Buf (Elt F) (oV.view.loc (thrV d L))))
          ∗ ((oV.slice (Rect.unit (s := S327680x128) (k1_off2 L 2048#32) S128x128.size (k1_off2_inb L 16)) (fun _ => rfl)).view.loc (thrV d L) ↦[(oV.slice (Rect.unit (s := S327680x128) (k1_off2 L 2048#32) S128x128.size (k1_off2_inb L 16)) (fun _ => rfl)).view.set]{fullShare} (gatherRows (F := F) fh fs : Buf (Elt F) (oV.view.loc (thrV d L))))
          ∗ ((oV.slice (Rect.unit (s := S327680x128) (k1_off2 L 2176#32) S128x128.size (k1_off2_inb L 17)) (fun _ => rfl)).view.loc (thrV d L) ↦[(oV.slice (Rect.unit (s := S327680x128) (k1_off2 L 2176#32) S128x128.size (k1_off2_inb L 17)) (fun _ => rfl)).view.set]{fullShare} (gatherRows (F := F) fh fs : Buf (Elt F) (oV.view.loc (thrV d L))))
          ∗ ((oV.slice (Rect.unit (s := S327680x128) (k1_off2 L 2304#32) S128x128.size (k1_off2_inb L 18)) (fun _ => rfl)).view.loc (thrV d L) ↦[(oV.slice (Rect.unit (s := S327680x128) (k1_off2 L 2304#32) S128x128.size (k1_off2_inb L 18)) (fun _ => rfl)).view.set]{fullShare} (gatherRows (F := F) fh fs : Buf (Elt F) (oV.view.loc (thrV d L))))
          ∗ ((oV.slice (Rect.unit (s := S327680x128) (k1_off2 L 2432#32) S128x128.size (k1_off2_inb L 19)) (fun _ => rfl)).view.loc (thrV d L) ↦[(oV.slice (Rect.unit (s := S327680x128) (k1_off2 L 2432#32) S128x128.size (k1_off2_inb L 19)) (fun _ => rfl)).view.set]{fullShare} (gatherRows (F := F) fh fs : Buf (Elt F) (oV.view.loc (thrV d L))))
          ∗ ((oV.slice (Rect.unit (s := S327680x128) (k1_off2 L 2560#32) S128x128.size (k1_off2_inb L 20)) (fun _ => rfl)).view.loc (thrV d L) ↦[(oV.slice (Rect.unit (s := S327680x128) (k1_off2 L 2560#32) S128x128.size (k1_off2_inb L 20)) (fun _ => rfl)).view.set]{fullShare} (gatherRows (F := F) fh fs : Buf (Elt F) (oV.view.loc (thrV d L))))
          ∗ ((oV.slice (Rect.unit (s := S327680x128) (k1_off2 L 2688#32) S128x128.size (k1_off2_inb L 21)) (fun _ => rfl)).view.loc (thrV d L) ↦[(oV.slice (Rect.unit (s := S327680x128) (k1_off2 L 2688#32) S128x128.size (k1_off2_inb L 21)) (fun _ => rfl)).view.set]{fullShare} (gatherRows (F := F) fh fs : Buf (Elt F) (oV.view.loc (thrV d L))))
          ∗ ((oV.slice (Rect.unit (s := S327680x128) (k1_off2 L 2816#32) S128x128.size (k1_off2_inb L 22)) (fun _ => rfl)).view.loc (thrV d L) ↦[(oV.slice (Rect.unit (s := S327680x128) (k1_off2 L 2816#32) S128x128.size (k1_off2_inb L 22)) (fun _ => rfl)).view.set]{fullShare} (gatherRows (F := F) fh fs : Buf (Elt F) (oV.view.loc (thrV d L))))
          ∗ ((oV.slice (Rect.unit (s := S327680x128) (k1_off2 L 2944#32) S128x128.size (k1_off2_inb L 23)) (fun _ => rfl)).view.loc (thrV d L) ↦[(oV.slice (Rect.unit (s := S327680x128) (k1_off2 L 2944#32) S128x128.size (k1_off2_inb L 23)) (fun _ => rfl)).view.set]{fullShare} (gatherRows (F := F) fh fs : Buf (Elt F) (oV.view.loc (thrV d L))))
          ∗ ((oV.slice (Rect.unit (s := S327680x128) (k1_off2 L 3072#32) S128x128.size (k1_off2_inb L 24)) (fun _ => rfl)).view.loc (thrV d L) ↦[(oV.slice (Rect.unit (s := S327680x128) (k1_off2 L 3072#32) S128x128.size (k1_off2_inb L 24)) (fun _ => rfl)).view.set]{fullShare} (gatherRows (F := F) fh fs : Buf (Elt F) (oV.view.loc (thrV d L))))
          ∗ ((oV.slice (Rect.unit (s := S327680x128) (k1_off2 L 3200#32) S128x128.size (k1_off2_inb L 25)) (fun _ => rfl)).view.loc (thrV d L) ↦[(oV.slice (Rect.unit (s := S327680x128) (k1_off2 L 3200#32) S128x128.size (k1_off2_inb L 25)) (fun _ => rfl)).view.set]{fullShare} (gatherRows (F := F) fh fs : Buf (Elt F) (oV.view.loc (thrV d L))))
          ∗ ((oV.slice (Rect.unit (s := S327680x128) (k1_off2 L 3328#32) S128x128.size (k1_off2_inb L 26)) (fun _ => rfl)).view.loc (thrV d L) ↦[(oV.slice (Rect.unit (s := S327680x128) (k1_off2 L 3328#32) S128x128.size (k1_off2_inb L 26)) (fun _ => rfl)).view.set]{fullShare} (gatherRows (F := F) fh fs : Buf (Elt F) (oV.view.loc (thrV d L))))
          ∗ ((oV.slice (Rect.unit (s := S327680x128) (k1_off2 L 3456#32) S128x128.size (k1_off2_inb L 27)) (fun _ => rfl)).view.loc (thrV d L) ↦[(oV.slice (Rect.unit (s := S327680x128) (k1_off2 L 3456#32) S128x128.size (k1_off2_inb L 27)) (fun _ => rfl)).view.set]{fullShare} (gatherRows (F := F) fh fs : Buf (Elt F) (oV.view.loc (thrV d L))))
          ∗ ((oV.slice (Rect.unit (s := S327680x128) (k1_off2 L 3584#32) S128x128.size (k1_off2_inb L 28)) (fun _ => rfl)).view.loc (thrV d L) ↦[(oV.slice (Rect.unit (s := S327680x128) (k1_off2 L 3584#32) S128x128.size (k1_off2_inb L 28)) (fun _ => rfl)).view.set]{fullShare} (gatherRows (F := F) fh fs : Buf (Elt F) (oV.view.loc (thrV d L))))
          ∗ ((oV.slice (Rect.unit (s := S327680x128) (k1_off2 L 3712#32) S128x128.size (k1_off2_inb L 29)) (fun _ => rfl)).view.loc (thrV d L) ↦[(oV.slice (Rect.unit (s := S327680x128) (k1_off2 L 3712#32) S128x128.size (k1_off2_inb L 29)) (fun _ => rfl)).view.set]{fullShare} (gatherRows (F := F) fh fs : Buf (Elt F) (oV.view.loc (thrV d L))))
          ∗ ((oV.slice (Rect.unit (s := S327680x128) (k1_off2 L 3840#32) S128x128.size (k1_off2_inb L 30)) (fun _ => rfl)).view.loc (thrV d L) ↦[(oV.slice (Rect.unit (s := S327680x128) (k1_off2 L 3840#32) S128x128.size (k1_off2_inb L 30)) (fun _ => rfl)).view.set]{fullShare} (gatherRows (F := F) fh fs : Buf (Elt F) (oV.view.loc (thrV d L))))
          ∗ ((oV.slice (Rect.unit (s := S327680x128) (k1_off2 L 3968#32) S128x128.size (k1_off2_inb L 31)) (fun _ => rfl)).view.loc (thrV d L) ↦[(oV.slice (Rect.unit (s := S327680x128) (k1_off2 L 3968#32) S128x128.size (k1_off2_inb L 31)) (fun _ => rfl)).view.set]{fullShare} (gatherRows (F := F) fh fs : Buf (Elt F) (oV.view.loc (thrV d L))))
          ∗ ((oV.slice (Rect.unit (s := S327680x128) (k1_off2 L 4096#32) S128x128.size (k1_off2_inb L 32)) (fun _ => rfl)).view.loc (thrV d L) ↦[(oV.slice (Rect.unit (s := S327680x128) (k1_off2 L 4096#32) S128x128.size (k1_off2_inb L 32)) (fun _ => rfl)).view.set]{fullShare} (gatherRows (F := F) fh fs : Buf (Elt F) (oV.view.loc (thrV d L))))
          ∗ ((oV.slice (Rect.unit (s := S327680x128) (k1_off2 L 4224#32) S128x128.size (k1_off2_inb L 33)) (fun _ => rfl)).view.loc (thrV d L) ↦[(oV.slice (Rect.unit (s := S327680x128) (k1_off2 L 4224#32) S128x128.size (k1_off2_inb L 33)) (fun _ => rfl)).view.set]{fullShare} (gatherRows (F := F) fh fs : Buf (Elt F) (oV.view.loc (thrV d L))))
          ∗ ((oV.slice (Rect.unit (s := S327680x128) (k1_off2 L 4352#32) S128x128.size (k1_off2_inb L 34)) (fun _ => rfl)).view.loc (thrV d L) ↦[(oV.slice (Rect.unit (s := S327680x128) (k1_off2 L 4352#32) S128x128.size (k1_off2_inb L 34)) (fun _ => rfl)).view.set]{fullShare} (gatherRows (F := F) fh fs : Buf (Elt F) (oV.view.loc (thrV d L))))
          ∗ ((oV.slice (Rect.unit (s := S327680x128) (k1_off2 L 4480#32) S128x128.size (k1_off2_inb L 35)) (fun _ => rfl)).view.loc (thrV d L) ↦[(oV.slice (Rect.unit (s := S327680x128) (k1_off2 L 4480#32) S128x128.size (k1_off2_inb L 35)) (fun _ => rfl)).view.set]{fullShare} (gatherRows (F := F) fh fs : Buf (Elt F) (oV.view.loc (thrV d L))))
          ∗ ((oV.slice (Rect.unit (s := S327680x128) (k1_off2 L 4608#32) S128x128.size (k1_off2_inb L 36)) (fun _ => rfl)).view.loc (thrV d L) ↦[(oV.slice (Rect.unit (s := S327680x128) (k1_off2 L 4608#32) S128x128.size (k1_off2_inb L 36)) (fun _ => rfl)).view.set]{fullShare} (gatherRows (F := F) fh fs : Buf (Elt F) (oV.view.loc (thrV d L))))
          ∗ ((oV.slice (Rect.unit (s := S327680x128) (k1_off2 L 4736#32) S128x128.size (k1_off2_inb L 37)) (fun _ => rfl)).view.loc (thrV d L) ↦[(oV.slice (Rect.unit (s := S327680x128) (k1_off2 L 4736#32) S128x128.size (k1_off2_inb L 37)) (fun _ => rfl)).view.set]{fullShare} (gatherRows (F := F) fh fs : Buf (Elt F) (oV.view.loc (thrV d L))))
          ∗ ((oV.slice (Rect.unit (s := S327680x128) (k1_off2 L 4864#32) S128x128.size (k1_off2_inb L 38)) (fun _ => rfl)).view.loc (thrV d L) ↦[(oV.slice (Rect.unit (s := S327680x128) (k1_off2 L 4864#32) S128x128.size (k1_off2_inb L 38)) (fun _ => rfl)).view.set]{fullShare} (gatherRows (F := F) fh fs : Buf (Elt F) (oV.view.loc (thrV d L))))
          ∗ ((oV.slice (Rect.unit (s := S327680x128) (k1_off2 L 4992#32) S128x128.size (k1_off2_inb L 39)) (fun _ => rfl)).view.loc (thrV d L) ↦[(oV.slice (Rect.unit (s := S327680x128) (k1_off2 L 4992#32) S128x128.size (k1_off2_inb L 39)) (fun _ => rfl)).view.set]{fullShare} (gatherRows (F := F) fh fs : Buf (Elt F) (oV.view.loc (thrV d L))))
          ∗ ((oV.slice (Rect.unit (s := S327680x128) (k1_off2 L 5120#32) S128x128.size (k1_off2_inb L 40)) (fun _ => rfl)).view.loc (thrV d L) ↦[(oV.slice (Rect.unit (s := S327680x128) (k1_off2 L 5120#32) S128x128.size (k1_off2_inb L 40)) (fun _ => rfl)).view.set]{fullShare} (gatherRows (F := F) fh fs : Buf (Elt F) (oV.view.loc (thrV d L))))
          ∗ ((oV.slice (Rect.unit (s := S327680x128) (k1_off2 L 5248#32) S128x128.size (k1_off2_inb L 41)) (fun _ => rfl)).view.loc (thrV d L) ↦[(oV.slice (Rect.unit (s := S327680x128) (k1_off2 L 5248#32) S128x128.size (k1_off2_inb L 41)) (fun _ => rfl)).view.set]{fullShare} (gatherRows (F := F) fh fs : Buf (Elt F) (oV.view.loc (thrV d L))))
          ∗ ((oV.slice (Rect.unit (s := S327680x128) (k1_off2 L 5376#32) S128x128.size (k1_off2_inb L 42)) (fun _ => rfl)).view.loc (thrV d L) ↦[(oV.slice (Rect.unit (s := S327680x128) (k1_off2 L 5376#32) S128x128.size (k1_off2_inb L 42)) (fun _ => rfl)).view.set]{fullShare} (gatherRows (F := F) fh fs : Buf (Elt F) (oV.view.loc (thrV d L))))
          ∗ ((oV.slice (Rect.unit (s := S327680x128) (k1_off2 L 5504#32) S128x128.size (k1_off2_inb L 43)) (fun _ => rfl)).view.loc (thrV d L) ↦[(oV.slice (Rect.unit (s := S327680x128) (k1_off2 L 5504#32) S128x128.size (k1_off2_inb L 43)) (fun _ => rfl)).view.set]{fullShare} (gatherRows (F := F) fh fs : Buf (Elt F) (oV.view.loc (thrV d L))))
          ∗ ((oV.slice (Rect.unit (s := S327680x128) (k1_off2 L 5632#32) S128x128.size (k1_off2_inb L 44)) (fun _ => rfl)).view.loc (thrV d L) ↦[(oV.slice (Rect.unit (s := S327680x128) (k1_off2 L 5632#32) S128x128.size (k1_off2_inb L 44)) (fun _ => rfl)).view.set]{fullShare} (gatherRows (F := F) fh fs : Buf (Elt F) (oV.view.loc (thrV d L))))
          ∗ ((oV.slice (Rect.unit (s := S327680x128) (k1_off2 L 5760#32) S128x128.size (k1_off2_inb L 45)) (fun _ => rfl)).view.loc (thrV d L) ↦[(oV.slice (Rect.unit (s := S327680x128) (k1_off2 L 5760#32) S128x128.size (k1_off2_inb L 45)) (fun _ => rfl)).view.set]{fullShare} (gatherRows (F := F) fh fs : Buf (Elt F) (oV.view.loc (thrV d L))))
          ∗ ((oV.slice (Rect.unit (s := S327680x128) (k1_off2 L 5888#32) S128x128.size (k1_off2_inb L 46)) (fun _ => rfl)).view.loc (thrV d L) ↦[(oV.slice (Rect.unit (s := S327680x128) (k1_off2 L 5888#32) S128x128.size (k1_off2_inb L 46)) (fun _ => rfl)).view.set]{fullShare} (gatherRows (F := F) fh fs : Buf (Elt F) (oV.view.loc (thrV d L))))
          ∗ ((oV.slice (Rect.unit (s := S327680x128) (k1_off2 L 6016#32) S128x128.size (k1_off2_inb L 47)) (fun _ => rfl)).view.loc (thrV d L) ↦[(oV.slice (Rect.unit (s := S327680x128) (k1_off2 L 6016#32) S128x128.size (k1_off2_inb L 47)) (fun _ => rfl)).view.set]{fullShare} (gatherRows (F := F) fh fs : Buf (Elt F) (oV.view.loc (thrV d L))))
          ∗ ((oV.slice (Rect.unit (s := S327680x128) (k1_off2 L 6144#32) S128x128.size (k1_off2_inb L 48)) (fun _ => rfl)).view.loc (thrV d L) ↦[(oV.slice (Rect.unit (s := S327680x128) (k1_off2 L 6144#32) S128x128.size (k1_off2_inb L 48)) (fun _ => rfl)).view.set]{fullShare} (gatherRows (F := F) fh fs : Buf (Elt F) (oV.view.loc (thrV d L))))
          ∗ ((oV.slice (Rect.unit (s := S327680x128) (k1_off2 L 6272#32) S128x128.size (k1_off2_inb L 49)) (fun _ => rfl)).view.loc (thrV d L) ↦[(oV.slice (Rect.unit (s := S327680x128) (k1_off2 L 6272#32) S128x128.size (k1_off2_inb L 49)) (fun _ => rfl)).view.set]{fullShare} (gatherRows (F := F) fh fs : Buf (Elt F) (oV.view.loc (thrV d L))))
          ∗ ((oV.slice (Rect.unit (s := S327680x128) (k1_off2 L 6400#32) S128x128.size (k1_off2_inb L 50)) (fun _ => rfl)).view.loc (thrV d L) ↦[(oV.slice (Rect.unit (s := S327680x128) (k1_off2 L 6400#32) S128x128.size (k1_off2_inb L 50)) (fun _ => rfl)).view.set]{fullShare} (gatherRows (F := F) fh fs : Buf (Elt F) (oV.view.loc (thrV d L))))
          ∗ ((oV.slice (Rect.unit (s := S327680x128) (k1_off2 L 6528#32) S128x128.size (k1_off2_inb L 51)) (fun _ => rfl)).view.loc (thrV d L) ↦[(oV.slice (Rect.unit (s := S327680x128) (k1_off2 L 6528#32) S128x128.size (k1_off2_inb L 51)) (fun _ => rfl)).view.set]{fullShare} (gatherRows (F := F) fh fs : Buf (Elt F) (oV.view.loc (thrV d L))))
          ∗ ((oV.slice (Rect.unit (s := S327680x128) (k1_off2 L 6656#32) S128x128.size (k1_off2_inb L 52)) (fun _ => rfl)).view.loc (thrV d L) ↦[(oV.slice (Rect.unit (s := S327680x128) (k1_off2 L 6656#32) S128x128.size (k1_off2_inb L 52)) (fun _ => rfl)).view.set]{fullShare} (gatherRows (F := F) fh fs : Buf (Elt F) (oV.view.loc (thrV d L))))
          ∗ ((oV.slice (Rect.unit (s := S327680x128) (k1_off2 L 6784#32) S128x128.size (k1_off2_inb L 53)) (fun _ => rfl)).view.loc (thrV d L) ↦[(oV.slice (Rect.unit (s := S327680x128) (k1_off2 L 6784#32) S128x128.size (k1_off2_inb L 53)) (fun _ => rfl)).view.set]{fullShare} (gatherRows (F := F) fh fs : Buf (Elt F) (oV.view.loc (thrV d L))))
          ∗ ((oV.slice (Rect.unit (s := S327680x128) (k1_off2 L 6912#32) S128x128.size (k1_off2_inb L 54)) (fun _ => rfl)).view.loc (thrV d L) ↦[(oV.slice (Rect.unit (s := S327680x128) (k1_off2 L 6912#32) S128x128.size (k1_off2_inb L 54)) (fun _ => rfl)).view.set]{fullShare} (gatherRows (F := F) fh fs : Buf (Elt F) (oV.view.loc (thrV d L))))
          ∗ ((oV.slice (Rect.unit (s := S327680x128) (k1_off2 L 7040#32) S128x128.size (k1_off2_inb L 55)) (fun _ => rfl)).view.loc (thrV d L) ↦[(oV.slice (Rect.unit (s := S327680x128) (k1_off2 L 7040#32) S128x128.size (k1_off2_inb L 55)) (fun _ => rfl)).view.set]{fullShare} (gatherRows (F := F) fh fs : Buf (Elt F) (oV.view.loc (thrV d L))))
          ∗ ((oV.slice (Rect.unit (s := S327680x128) (k1_off2 L 7168#32) S128x128.size (k1_off2_inb L 56)) (fun _ => rfl)).view.loc (thrV d L) ↦[(oV.slice (Rect.unit (s := S327680x128) (k1_off2 L 7168#32) S128x128.size (k1_off2_inb L 56)) (fun _ => rfl)).view.set]{fullShare} (gatherRows (F := F) fh fs : Buf (Elt F) (oV.view.loc (thrV d L))))
          ∗ ((oV.slice (Rect.unit (s := S327680x128) (k1_off2 L 7296#32) S128x128.size (k1_off2_inb L 57)) (fun _ => rfl)).view.loc (thrV d L) ↦[(oV.slice (Rect.unit (s := S327680x128) (k1_off2 L 7296#32) S128x128.size (k1_off2_inb L 57)) (fun _ => rfl)).view.set]{fullShare} (gatherRows (F := F) fh fs : Buf (Elt F) (oV.view.loc (thrV d L))))
          ∗ ((oV.slice (Rect.unit (s := S327680x128) (k1_off2 L 7424#32) S128x128.size (k1_off2_inb L 58)) (fun _ => rfl)).view.loc (thrV d L) ↦[(oV.slice (Rect.unit (s := S327680x128) (k1_off2 L 7424#32) S128x128.size (k1_off2_inb L 58)) (fun _ => rfl)).view.set]{fullShare} (gatherRows (F := F) fh fs : Buf (Elt F) (oV.view.loc (thrV d L))))
          ∗ ((oV.slice (Rect.unit (s := S327680x128) (k1_off2 L 7552#32) S128x128.size (k1_off2_inb L 59)) (fun _ => rfl)).view.loc (thrV d L) ↦[(oV.slice (Rect.unit (s := S327680x128) (k1_off2 L 7552#32) S128x128.size (k1_off2_inb L 59)) (fun _ => rfl)).view.set]{fullShare} (gatherRows (F := F) fh fs : Buf (Elt F) (oV.view.loc (thrV d L))))
          ∗ ((oV.slice (Rect.unit (s := S327680x128) (k1_off2 L 7680#32) S128x128.size (k1_off2_inb L 60)) (fun _ => rfl)).view.loc (thrV d L) ↦[(oV.slice (Rect.unit (s := S327680x128) (k1_off2 L 7680#32) S128x128.size (k1_off2_inb L 60)) (fun _ => rfl)).view.set]{fullShare} (gatherRows (F := F) fh fs : Buf (Elt F) (oV.view.loc (thrV d L))))
          ∗ ((oV.slice (Rect.unit (s := S327680x128) (k1_off2 L 7808#32) S128x128.size (k1_off2_inb L 61)) (fun _ => rfl)).view.loc (thrV d L) ↦[(oV.slice (Rect.unit (s := S327680x128) (k1_off2 L 7808#32) S128x128.size (k1_off2_inb L 61)) (fun _ => rfl)).view.set]{fullShare} (gatherRows (F := F) fh fs : Buf (Elt F) (oV.view.loc (thrV d L))))
          ∗ ((oV.slice (Rect.unit (s := S327680x128) (k1_off2 L 7936#32) S128x128.size (k1_off2_inb L 62)) (fun _ => rfl)).view.loc (thrV d L) ↦[(oV.slice (Rect.unit (s := S327680x128) (k1_off2 L 7936#32) S128x128.size (k1_off2_inb L 62)) (fun _ => rfl)).view.set]{fullShare} (gatherRows (F := F) fh fs : Buf (Elt F) (oV.view.loc (thrV d L))))
          ∗ ((oV.slice (Rect.unit (s := S327680x128) (k1_off2 L 8064#32) S128x128.size (k1_off2_inb L 63)) (fun _ => rfl)).view.loc (thrV d L) ↦[(oV.slice (Rect.unit (s := S327680x128) (k1_off2 L 8064#32) S128x128.size (k1_off2_inb L 63)) (fun _ => rfl)).view.set]{fullShare} (gatherRows (F := F) fh fs : Buf (Elt F) (oV.view.loc (thrV d L))))
          ∗ ((oV.slice (Rect.unit (s := S327680x128) (k1_off2 L 8192#32) S128x128.size (k1_off2_inb L 64)) (fun _ => rfl)).view.loc (thrV d L) ↦[(oV.slice (Rect.unit (s := S327680x128) (k1_off2 L 8192#32) S128x128.size (k1_off2_inb L 64)) (fun _ => rfl)).view.set]{fullShare} (gatherRows (F := F) fh fs : Buf (Elt F) (oV.view.loc (thrV d L))))
          ∗ ((oV.slice (Rect.unit (s := S327680x128) (k1_off2 L 8320#32) S128x128.size (k1_off2_inb L 65)) (fun _ => rfl)).view.loc (thrV d L) ↦[(oV.slice (Rect.unit (s := S327680x128) (k1_off2 L 8320#32) S128x128.size (k1_off2_inb L 65)) (fun _ => rfl)).view.set]{fullShare} (gatherRows (F := F) fh fs : Buf (Elt F) (oV.view.loc (thrV d L))))
          ∗ ((oV.slice (Rect.unit (s := S327680x128) (k1_off2 L 8448#32) S128x128.size (k1_off2_inb L 66)) (fun _ => rfl)).view.loc (thrV d L) ↦[(oV.slice (Rect.unit (s := S327680x128) (k1_off2 L 8448#32) S128x128.size (k1_off2_inb L 66)) (fun _ => rfl)).view.set]{fullShare} (gatherRows (F := F) fh fs : Buf (Elt F) (oV.view.loc (thrV d L))))
          ∗ ((oV.slice (Rect.unit (s := S327680x128) (k1_off2 L 8576#32) S128x128.size (k1_off2_inb L 67)) (fun _ => rfl)).view.loc (thrV d L) ↦[(oV.slice (Rect.unit (s := S327680x128) (k1_off2 L 8576#32) S128x128.size (k1_off2_inb L 67)) (fun _ => rfl)).view.set]{fullShare} (gatherRows (F := F) fh fs : Buf (Elt F) (oV.view.loc (thrV d L))))
          ∗ ((oV.slice (Rect.unit (s := S327680x128) (k1_off2 L 8704#32) S128x128.size (k1_off2_inb L 68)) (fun _ => rfl)).view.loc (thrV d L) ↦[(oV.slice (Rect.unit (s := S327680x128) (k1_off2 L 8704#32) S128x128.size (k1_off2_inb L 68)) (fun _ => rfl)).view.set]{fullShare} (gatherRows (F := F) fh fs : Buf (Elt F) (oV.view.loc (thrV d L))))
          ∗ ((oV.slice (Rect.unit (s := S327680x128) (k1_off2 L 8832#32) S128x128.size (k1_off2_inb L 69)) (fun _ => rfl)).view.loc (thrV d L) ↦[(oV.slice (Rect.unit (s := S327680x128) (k1_off2 L 8832#32) S128x128.size (k1_off2_inb L 69)) (fun _ => rfl)).view.set]{fullShare} (gatherRows (F := F) fh fs : Buf (Elt F) (oV.view.loc (thrV d L))))
          ∗ ((oV.slice (Rect.unit (s := S327680x128) (k1_off2 L 8960#32) S128x128.size (k1_off2_inb L 70)) (fun _ => rfl)).view.loc (thrV d L) ↦[(oV.slice (Rect.unit (s := S327680x128) (k1_off2 L 8960#32) S128x128.size (k1_off2_inb L 70)) (fun _ => rfl)).view.set]{fullShare} (gatherRows (F := F) fh fs : Buf (Elt F) (oV.view.loc (thrV d L))))
          ∗ ((oV.slice (Rect.unit (s := S327680x128) (k1_off2 L 9088#32) S128x128.size (k1_off2_inb L 71)) (fun _ => rfl)).view.loc (thrV d L) ↦[(oV.slice (Rect.unit (s := S327680x128) (k1_off2 L 9088#32) S128x128.size (k1_off2_inb L 71)) (fun _ => rfl)).view.set]{fullShare} (gatherRows (F := F) fh fs : Buf (Elt F) (oV.view.loc (thrV d L))))
          ∗ ((oV.slice (Rect.unit (s := S327680x128) (k1_off2 L 9216#32) S128x128.size (k1_off2_inb L 72)) (fun _ => rfl)).view.loc (thrV d L) ↦[(oV.slice (Rect.unit (s := S327680x128) (k1_off2 L 9216#32) S128x128.size (k1_off2_inb L 72)) (fun _ => rfl)).view.set]{fullShare} (gatherRows (F := F) fh fs : Buf (Elt F) (oV.view.loc (thrV d L))))
          ∗ ((oV.slice (Rect.unit (s := S327680x128) (k1_off2 L 9344#32) S128x128.size (k1_off2_inb L 73)) (fun _ => rfl)).view.loc (thrV d L) ↦[(oV.slice (Rect.unit (s := S327680x128) (k1_off2 L 9344#32) S128x128.size (k1_off2_inb L 73)) (fun _ => rfl)).view.set]{fullShare} (gatherRows (F := F) fh fs : Buf (Elt F) (oV.view.loc (thrV d L))))
          ∗ ((oV.slice (Rect.unit (s := S327680x128) (k1_off2 L 9472#32) S128x128.size (k1_off2_inb L 74)) (fun _ => rfl)).view.loc (thrV d L) ↦[(oV.slice (Rect.unit (s := S327680x128) (k1_off2 L 9472#32) S128x128.size (k1_off2_inb L 74)) (fun _ => rfl)).view.set]{fullShare} (gatherRows (F := F) fh fs : Buf (Elt F) (oV.view.loc (thrV d L))))
          ∗ ((oV.slice (Rect.unit (s := S327680x128) (k1_off2 L 9600#32) S128x128.size (k1_off2_inb L 75)) (fun _ => rfl)).view.loc (thrV d L) ↦[(oV.slice (Rect.unit (s := S327680x128) (k1_off2 L 9600#32) S128x128.size (k1_off2_inb L 75)) (fun _ => rfl)).view.set]{fullShare} (gatherRows (F := F) fh fs : Buf (Elt F) (oV.view.loc (thrV d L))))
          ∗ ((oV.slice (Rect.unit (s := S327680x128) (k1_off2 L 9728#32) S128x128.size (k1_off2_inb L 76)) (fun _ => rfl)).view.loc (thrV d L) ↦[(oV.slice (Rect.unit (s := S327680x128) (k1_off2 L 9728#32) S128x128.size (k1_off2_inb L 76)) (fun _ => rfl)).view.set]{fullShare} (gatherRows (F := F) fh fs : Buf (Elt F) (oV.view.loc (thrV d L))))
          ∗ ((oV.slice (Rect.unit (s := S327680x128) (k1_off2 L 9856#32) S128x128.size (k1_off2_inb L 77)) (fun _ => rfl)).view.loc (thrV d L) ↦[(oV.slice (Rect.unit (s := S327680x128) (k1_off2 L 9856#32) S128x128.size (k1_off2_inb L 77)) (fun _ => rfl)).view.set]{fullShare} (gatherRows (F := F) fh fs : Buf (Elt F) (oV.view.loc (thrV d L))))
          ∗ ((oV.slice (Rect.unit (s := S327680x128) (k1_off2 L 9984#32) S128x128.size (k1_off2_inb L 78)) (fun _ => rfl)).view.loc (thrV d L) ↦[(oV.slice (Rect.unit (s := S327680x128) (k1_off2 L 9984#32) S128x128.size (k1_off2_inb L 78)) (fun _ => rfl)).view.set]{fullShare} (gatherRows (F := F) fh fs : Buf (Elt F) (oV.view.loc (thrV d L))))
          ∗ ((oV.slice (Rect.unit (s := S327680x128) (k1_off2 L 10112#32) S128x128.size (k1_off2_inb L 79)) (fun _ => rfl)).view.loc (thrV d L) ↦[(oV.slice (Rect.unit (s := S327680x128) (k1_off2 L 10112#32) S128x128.size (k1_off2_inb L 79)) (fun _ => rfl)).view.set]{fullShare} (gatherRows (F := F) fh fs : Buf (Elt F) (oV.view.loc (thrV d L))))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ semVal ((thrV d L), SemLoc.dma cc1_scoped0.sem) 0
          ∗ semVal ((thrV d L), SemLoc.dma cc1_scoped1.sem) 0
          ∗ semVal ((thrV d L), SemLoc.dma cc1_scoped2.sem) 0
          ∗ semVal ((thrV d L), SemLoc.dma cc1_scoped3.sem) 0
          ∗ semVal ((thrV d L), SemLoc.dma cc1_scoped4.sem) 0
          ∗ semVal ((thrV d L), SemLoc.dma cc1_scoped5.sem) 0
          ∗ semVal ((thrV d L), SemLoc.dma cc1_scoped6.sem) 0
          ∗ semVal ((thrV d L), SemLoc.dma cc1_scoped7.sem) 0
          ∗ semVal ((thrV d L), SemLoc.dma cc1_scoped8.sem) 0
          ∗ semVal ((thrV d L), SemLoc.dma cc1_scoped9.sem) 0
          ∗ semVal ((thrV d L), SemLoc.dma cc1_scoped10.sem) 0
          ∗ semVal ((thrV d L), SemLoc.dma cc1_scoped11.sem) 0
          ∗ semVal ((thrV d L), SemLoc.dma cc1_scoped12.sem) 0
          ∗ semVal ((thrV d L), SemLoc.dma cc1_scoped13.sem) 0
          ∗ semVal ((thrV d L), SemLoc.dma cc1_scoped14.sem) 0
          ∗ semVal ((thrV d L), SemLoc.dma cc1_scoped15.sem) 0
          ∗ semVal ((thrV d L), SemLoc.dma cc1_scoped16.sem) 0
          ∗ semVal ((thrV d L), SemLoc.dma cc1_scoped17.sem) 0
          ∗ semVal ((thrV d L), SemLoc.dma cc1_scoped18.sem) 0
          ∗ semVal ((thrV d L), SemLoc.dma cc1_scoped19.sem) 0
          ∗ semVal ((thrV d L), SemLoc.dma cc1_scoped20.sem) 0
          ∗ semVal ((thrV d L), SemLoc.dma cc1_scoped21.sem) 0
          ∗ semVal ((thrV d L), SemLoc.dma cc1_scoped22.sem) 0
          ∗ semVal ((thrV d L), SemLoc.dma cc1_scoped23.sem) 0
          ∗ semVal ((thrV d L), SemLoc.dma cc1_scoped24.sem) 0
          ∗ semVal ((thrV d L), SemLoc.dma cc1_scoped25.sem) 0
          ∗ semVal ((thrV d L), SemLoc.dma cc1_scoped26.sem) 0
          ∗ semVal ((thrV d L), SemLoc.dma cc1_scoped27.sem) 0
          ∗ semVal ((thrV d L), SemLoc.dma cc1_scoped28.sem) 0
          ∗ semVal ((thrV d L), SemLoc.dma cc1_scoped29.sem) 0
          ∗ semVal ((thrV d L), SemLoc.dma cc1_scoped30.sem) 0
          ∗ semVal ((thrV d L), SemLoc.dma cc1_scoped31.sem) 0
          ∗ semVal ((thrV d L), SemLoc.dma cc1_scoped32.sem) 0
          ∗ semVal ((thrV d L), SemLoc.dma cc1_scoped33.sem) 0
          ∗ semVal ((thrV d L), SemLoc.dma cc1_scoped34.sem) 0
          ∗ semVal ((thrV d L), SemLoc.dma cc1_scoped35.sem) 0
          ∗ semVal ((thrV d L), SemLoc.dma cc1_scoped36.sem) 0
          ∗ semVal ((thrV d L), SemLoc.dma cc1_scoped37.sem) 0
          ∗ semVal ((thrV d L), SemLoc.dma cc1_scoped38.sem) 0
          ∗ semVal ((thrV d L), SemLoc.dma cc1_scoped39.sem) 0
          ∗ semVal ((thrV d L), SemLoc.dma cc1_scoped40.sem) 0
          ∗ semVal ((thrV d L), SemLoc.dma cc1_scoped41.sem) 0
          ∗ semVal ((thrV d L), SemLoc.dma cc1_scoped42.sem) 0
          ∗ semVal ((thrV d L), SemLoc.dma cc1_scoped43.sem) 0
          ∗ semVal ((thrV d L), SemLoc.dma cc1_scoped44.sem) 0
          ∗ semVal ((thrV d L), SemLoc.dma cc1_scoped45.sem) 0
          ∗ semVal ((thrV d L), SemLoc.dma cc1_scoped46.sem) 0
          ∗ semVal ((thrV d L), SemLoc.dma cc1_scoped47.sem) 0
          ∗ semVal ((thrV d L), SemLoc.dma cc1_scoped48.sem) 0
          ∗ semVal ((thrV d L), SemLoc.dma cc1_scoped49.sem) 0
          ∗ semVal ((thrV d L), SemLoc.dma cc1_scoped50.sem) 0
          ∗ semVal ((thrV d L), SemLoc.dma cc1_scoped51.sem) 0
          ∗ semVal ((thrV d L), SemLoc.dma cc1_scoped52.sem) 0
          ∗ semVal ((thrV d L), SemLoc.dma cc1_scoped53.sem) 0
          ∗ semVal ((thrV d L), SemLoc.dma cc1_scoped54.sem) 0
          ∗ semVal ((thrV d L), SemLoc.dma cc1_scoped55.sem) 0
          ∗ semVal ((thrV d L), SemLoc.dma cc1_scoped56.sem) 0
          ∗ semVal ((thrV d L), SemLoc.dma cc1_scoped57.sem) 0
          ∗ semVal ((thrV d L), SemLoc.dma cc1_scoped58.sem) 0
          ∗ semVal ((thrV d L), SemLoc.dma cc1_scoped59.sem) 0
          ∗ semVal ((thrV d L), SemLoc.dma cc1_scoped60.sem) 0
          ∗ semVal ((thrV d L), SemLoc.dma cc1_scoped61.sem) 0
          ∗ semVal ((thrV d L), SemLoc.dma cc1_scoped62.sem) 0
          ∗ semVal ((thrV d L), SemLoc.dma cc1_scoped63.sem) 0
          ∗ semVal ((thrV d L), SemLoc.dma cc1_scoped64.sem) 0
          ∗ semVal ((thrV d L), SemLoc.dma cc1_scoped65.sem) 0
          ∗ semVal ((thrV d L), SemLoc.dma cc1_scoped66.sem) 0
          ∗ semVal ((thrV d L), SemLoc.dma cc1_scoped67.sem) 0
          ∗ semVal ((thrV d L), SemLoc.dma cc1_scoped68.sem) 0
          ∗ semVal ((thrV d L), SemLoc.dma cc1_scoped69.sem) 0
          ∗ semVal ((thrV d L), SemLoc.dma cc1_scoped70.sem) 0
          ∗ semVal ((thrV d L), SemLoc.dma cc1_scoped71.sem) 0
          ∗ semVal ((thrV d L), SemLoc.dma cc1_scoped72.sem) 0
          ∗ semVal ((thrV d L), SemLoc.dma cc1_scoped73.sem) 0
          ∗ semVal ((thrV d L), SemLoc.dma cc1_scoped74.sem) 0
          ∗ semVal ((thrV d L), SemLoc.dma cc1_scoped75.sem) 0
          ∗ semVal ((thrV d L), SemLoc.dma cc1_scoped76.sem) 0
          ∗ semVal ((thrV d L), SemLoc.dma cc1_scoped77.sem) 0
          ∗ semVal ((thrV d L), SemLoc.dma cc1_scoped78.sem) 0
          ∗ semVal ((thrV d L), SemLoc.dma cc1_scoped79.sem) 0
          ∗ semVal ((thrV d L), SemLoc.dma cc1_scoped80.sem) 0
          ∗ semVal ((thrV d L), SemLoc.dma cc1_scoped81.sem) 0
          ∗ semVal ((thrV d L), SemLoc.dma cc1_scoped82.sem) 0
          ∗ semVal ((thrV d L), SemLoc.dma cc1_scoped83.sem) 0
          ∗ semVal ((thrV d L), SemLoc.dma cc1_scoped84.sem) 0
          ∗ semVal ((thrV d L), SemLoc.dma cc1_scoped85.sem) 0
          ∗ semVal ((thrV d L), SemLoc.dma cc1_scoped86.sem) 0
          ∗ semVal ((thrV d L), SemLoc.dma cc1_scoped87.sem) 0
          ∗ semVal ((thrV d L), SemLoc.dma cc1_scoped88.sem) 0
          ∗ semVal ((thrV d L), SemLoc.dma cc1_scoped89.sem) 0
          ∗ semVal ((thrV d L), SemLoc.dma cc1_scoped90.sem) 0
          ∗ semVal ((thrV d L), SemLoc.dma cc1_scoped91.sem) 0
          ∗ semVal ((thrV d L), SemLoc.dma cc1_scoped92.sem) 0
          ∗ semVal ((thrV d L), SemLoc.dma cc1_scoped93.sem) 0
          ∗ semVal ((thrV d L), SemLoc.dma cc1_scoped94.sem) 0
          ∗ semVal ((thrV d L), SemLoc.dma cc1_scoped95.sem) 0
          ∗ semVal ((thrV d L), SemLoc.dma cc1_scoped96.sem) 0
          ∗ semVal ((thrV d L), SemLoc.dma cc1_scoped97.sem) 0
          ∗ semVal ((thrV d L), SemLoc.dma cc1_scoped98.sem) 0
          ∗ semVal ((thrV d L), SemLoc.dma cc1_scoped99.sem) 0
          ∗ semVal ((thrV d L), SemLoc.dma cc1_scoped100.sem) 0
          ∗ semVal ((thrV d L), SemLoc.dma cc1_scoped101.sem) 0
          ∗ semVal ((thrV d L), SemLoc.dma cc1_scoped102.sem) 0
          ∗ semVal ((thrV d L), SemLoc.dma cc1_scoped103.sem) 0
          ∗ semVal ((thrV d L), SemLoc.dma cc1_scoped104.sem) 0
          ∗ semVal ((thrV d L), SemLoc.dma cc1_scoped105.sem) 0
          ∗ semVal ((thrV d L), SemLoc.dma cc1_scoped106.sem) 0
          ∗ semVal ((thrV d L), SemLoc.dma cc1_scoped107.sem) 0
          ∗ semVal ((thrV d L), SemLoc.dma cc1_scoped108.sem) 0
          ∗ semVal ((thrV d L), SemLoc.dma cc1_scoped109.sem) 0
          ∗ semVal ((thrV d L), SemLoc.dma cc1_scoped110.sem) 0
          ∗ semVal ((thrV d L), SemLoc.dma cc1_scoped111.sem) 0
          ∗ semVal ((thrV d L), SemLoc.dma cc1_scoped112.sem) 0
          ∗ semVal ((thrV d L), SemLoc.dma cc1_scoped113.sem) 0
          ∗ semVal ((thrV d L), SemLoc.dma cc1_scoped114.sem) 0
          ∗ semVal ((thrV d L), SemLoc.dma cc1_scoped115.sem) 0
          ∗ semVal ((thrV d L), SemLoc.dma cc1_scoped116.sem) 0
          ∗ semVal ((thrV d L), SemLoc.dma cc1_scoped117.sem) 0
          ∗ semVal ((thrV d L), SemLoc.dma cc1_scoped118.sem) 0
          ∗ semVal ((thrV d L), SemLoc.dma cc1_scoped119.sem) 0
          ∗ semVal ((thrV d L), SemLoc.dma cc1_scoped120.sem) 0
          ∗ semVal ((thrV d L), SemLoc.dma cc1_scoped121.sem) 0
          ∗ semVal ((thrV d L), SemLoc.dma cc1_scoped122.sem) 0
          ∗ semVal ((thrV d L), SemLoc.dma cc1_scoped123.sem) 0
          ∗ semVal ((thrV d L), SemLoc.dma cc1_scoped124.sem) 0
          ∗ semVal ((thrV d L), SemLoc.dma cc1_scoped125.sem) 0
          ∗ semVal ((thrV d L), SemLoc.dma cc1_scoped126.sem) 0
          ∗ semVal ((thrV d L), SemLoc.dma cc1_scoped127.sem) 0
          ∗ semVal ((thrV d L), SemLoc.dma cc1_scoped128.sem) 0
          ∗ semVal ((thrV d L), SemLoc.dma cc1_scoped129.sem) 0
          ∗ semVal ((thrV d L), SemLoc.dma cc1_scoped130.sem) 0
          ∗ semVal ((thrV d L), SemLoc.dma cc1_scoped131.sem) 0
          ∗ semVal ((thrV d L), SemLoc.dma cc1_scoped132.sem) 0
          ∗ semVal ((thrV d L), SemLoc.dma cc1_scoped133.sem) 0
          ∗ semVal ((thrV d L), SemLoc.dma cc1_scoped134.sem) 0
          ∗ semVal ((thrV d L), SemLoc.dma cc1_scoped135.sem) 0
          ∗ semVal ((thrV d L), SemLoc.dma cc1_scoped136.sem) 0
          ∗ semVal ((thrV d L), SemLoc.dma cc1_scoped137.sem) 0
          ∗ semVal ((thrV d L), SemLoc.dma cc1_scoped138.sem) 0
          ∗ semVal ((thrV d L), SemLoc.dma cc1_scoped139.sem) 0
          ∗ semVal ((thrV d L), SemLoc.dma cc1_scoped140.sem) 0
          ∗ semVal ((thrV d L), SemLoc.dma cc1_scoped141.sem) 0
          ∗ semVal ((thrV d L), SemLoc.dma cc1_scoped142.sem) 0
          ∗ semVal ((thrV d L), SemLoc.dma cc1_scoped143.sem) 0
          ∗ semVal ((thrV d L), SemLoc.dma cc1_scoped144.sem) 0
          ∗ semVal ((thrV d L), SemLoc.dma cc1_scoped145.sem) 0
          ∗ semVal ((thrV d L), SemLoc.dma cc1_scoped146.sem) 0
          ∗ semVal ((thrV d L), SemLoc.dma cc1_scoped147.sem) 0
          ∗ semVal ((thrV d L), SemLoc.dma cc1_scoped148.sem) 0
          ∗ semVal ((thrV d L), SemLoc.dma cc1_scoped149.sem) 0
          ∗ semVal ((thrV d L), SemLoc.dma cc1_scoped150.sem) 0
          ∗ semVal ((thrV d L), SemLoc.dma cc1_scoped151.sem) 0
          ∗ semVal ((thrV d L), SemLoc.dma cc1_scoped152.sem) 0
          ∗ semVal ((thrV d L), SemLoc.dma cc1_scoped153.sem) 0
          ∗ semVal ((thrV d L), SemLoc.dma cc1_scoped154.sem) 0
          ∗ semVal ((thrV d L), SemLoc.dma cc1_scoped155.sem) 0
          ∗ semVal ((thrV d L), SemLoc.dma cc1_scoped156.sem) 0
          ∗ semVal ((thrV d L), SemLoc.dma cc1_scoped157.sem) 0
          ∗ semVal ((thrV d L), SemLoc.dma cc1_scoped158.sem) 0
          ∗ semVal ((thrV d L), SemLoc.dma cc1_scoped159.sem) 0
          ∗ semVal ((thrV d L), SemLoc.dma cc1_scoped160.sem) 0
          ∗ semVal ((thrV d L), SemLoc.dma cc1_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q := by
  iintro ⟨#Hmw, Hh, Hs, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Ho50, Ho51, Ho52, Ho53, Ho54, Ho55, Ho56, Ho57, Ho58, Ho59, Ho60, Ho61, Ho62, Ho63, Ho64, Ho65, Ho66, Ho67, Ho68, Ho69, Ho70, Ho71, Ho72, Ho73, Ho74, Ho75, Ho76, Ho77, Ho78, Ho79, H0, H1, H2, H3, H4, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56, Hc57, Hc58, Hc59, Hc60, Hc61, Hc62, Hc63, Hc64, Hc65, Hc66, Hc67, Hc68, Hc69, Hc70, Hc71, Hc72, Hc73, Hc74, Hc75, Hc76, Hc77, Hc78, Hc79, Hc80, Hc81, Hc82, Hc83, Hc84, Hc85, Hc86, Hc87, Hc88, Hc89, Hc90, Hc91, Hc92, Hc93, Hc94, Hc95, Hc96, Hc97, Hc98, Hc99, Hc100, Hc101, Hc102, Hc103, Hc104, Hc105, Hc106, Hc107, Hc108, Hc109, Hc110, Hc111, Hc112, Hc113, Hc114, Hc115, Hc116, Hc117, Hc118, Hc119, Hc120, Hc121, Hc122, Hc123, Hc124, Hc125, Hc126, Hc127, Hc128, Hc129, Hc130, Hc131, Hc132, Hc133, Hc134, Hc135, Hc136, Hc137, Hc138, Hc139, Hc140, Hc141, Hc142, Hc143, Hc144, Hc145, Hc146, Hc147, Hc148, Hc149, Hc150, Hc151, Hc152, Hc153, Hc154, Hc155, Hc156, Hc157, Hc158, Hc159, Hc160, Hc161, HO, Hk⟩
  have hin := idx_inb d L fs hfs
  have hio := iota_inb (F := F)
  sl_exec_parts!
  sl_step
  iapply Hk
  isplitl [Hh]; · iexact Hh
  isplitl [Hs]; · iexact Hs
  isplitl [Ho0]
  · iapply (Entails.of_eq (pointsTo_congr (window_value d L fh fs hfs fo 0 (by decide) 0#32 rfl _ _ _ _ _ _ _ _ _ _ _ _ _))) $$ Ho0
  isplitl [Ho1]
  · iapply (Entails.of_eq (pointsTo_congr (window_value d L fh fs hfs fo 1 (by decide) 128#32 rfl _ _ _ _ _ _ _ _ _ _ _ _ _))) $$ Ho1
  isplitl [Ho2]
  · iapply (Entails.of_eq (pointsTo_congr (window_value d L fh fs hfs fo 2 (by decide) 256#32 rfl _ _ _ _ _ _ _ _ _ _ _ _ _))) $$ Ho2
  isplitl [Ho3]
  · iapply (Entails.of_eq (pointsTo_congr (window_value d L fh fs hfs fo 3 (by decide) 384#32 rfl _ _ _ _ _ _ _ _ _ _ _ _ _))) $$ Ho3
  isplitl [Ho4]
  · iapply (Entails.of_eq (pointsTo_congr (window_value d L fh fs hfs fo 4 (by decide) 512#32 rfl _ _ _ _ _ _ _ _ _ _ _ _ _))) $$ Ho4
  isplitl [Ho5]
  · iapply (Entails.of_eq (pointsTo_congr (window_value d L fh fs hfs fo 5 (by decide) 640#32 rfl _ _ _ _ _ _ _ _ _ _ _ _ _))) $$ Ho5
  isplitl [Ho6]
  · iapply (Entails.of_eq (pointsTo_congr (window_value d L fh fs hfs fo 6 (by decide) 768#32 rfl _ _ _ _ _ _ _ _ _ _ _ _ _))) $$ Ho6
  isplitl [Ho7]
  · iapply (Entails.of_eq (pointsTo_congr (window_value d L fh fs hfs fo 7 (by decide) 896#32 rfl _ _ _ _ _ _ _ _ _ _ _ _ _))) $$ Ho7
  isplitl [Ho8]
  · iapply (Entails.of_eq (pointsTo_congr (window_value d L fh fs hfs fo 8 (by decide) 1024#32 rfl _ _ _ _ _ _ _ _ _ _ _ _ _))) $$ Ho8
  isplitl [Ho9]
  · iapply (Entails.of_eq (pointsTo_congr (window_value d L fh fs hfs fo 9 (by decide) 1152#32 rfl _ _ _ _ _ _ _ _ _ _ _ _ _))) $$ Ho9
  isplitl [Ho10]
  · iapply (Entails.of_eq (pointsTo_congr (window_value d L fh fs hfs fo 10 (by decide) 1280#32 rfl _ _ _ _ _ _ _ _ _ _ _ _ _))) $$ Ho10
  isplitl [Ho11]
  · iapply (Entails.of_eq (pointsTo_congr (window_value d L fh fs hfs fo 11 (by decide) 1408#32 rfl _ _ _ _ _ _ _ _ _ _ _ _ _))) $$ Ho11
  isplitl [Ho12]
  · iapply (Entails.of_eq (pointsTo_congr (window_value d L fh fs hfs fo 12 (by decide) 1536#32 rfl _ _ _ _ _ _ _ _ _ _ _ _ _))) $$ Ho12
  isplitl [Ho13]
  · iapply (Entails.of_eq (pointsTo_congr (window_value d L fh fs hfs fo 13 (by decide) 1664#32 rfl _ _ _ _ _ _ _ _ _ _ _ _ _))) $$ Ho13
  isplitl [Ho14]
  · iapply (Entails.of_eq (pointsTo_congr (window_value d L fh fs hfs fo 14 (by decide) 1792#32 rfl _ _ _ _ _ _ _ _ _ _ _ _ _))) $$ Ho14
  isplitl [Ho15]
  · iapply (Entails.of_eq (pointsTo_congr (window_value d L fh fs hfs fo 15 (by decide) 1920#32 rfl _ _ _ _ _ _ _ _ _ _ _ _ _))) $$ Ho15
  isplitl [Ho16]
  · iapply (Entails.of_eq (pointsTo_congr (window_value d L fh fs hfs fo 16 (by decide) 2048#32 rfl _ _ _ _ _ _ _ _ _ _ _ _ _))) $$ Ho16
  isplitl [Ho17]
  · iapply (Entails.of_eq (pointsTo_congr (window_value d L fh fs hfs fo 17 (by decide) 2176#32 rfl _ _ _ _ _ _ _ _ _ _ _ _ _))) $$ Ho17
  isplitl [Ho18]
  · iapply (Entails.of_eq (pointsTo_congr (window_value d L fh fs hfs fo 18 (by decide) 2304#32 rfl _ _ _ _ _ _ _ _ _ _ _ _ _))) $$ Ho18
  isplitl [Ho19]
  · iapply (Entails.of_eq (pointsTo_congr (window_value d L fh fs hfs fo 19 (by decide) 2432#32 rfl _ _ _ _ _ _ _ _ _ _ _ _ _))) $$ Ho19
  isplitl [Ho20]
  · iapply (Entails.of_eq (pointsTo_congr (window_value d L fh fs hfs fo 20 (by decide) 2560#32 rfl _ _ _ _ _ _ _ _ _ _ _ _ _))) $$ Ho20
  isplitl [Ho21]
  · iapply (Entails.of_eq (pointsTo_congr (window_value d L fh fs hfs fo 21 (by decide) 2688#32 rfl _ _ _ _ _ _ _ _ _ _ _ _ _))) $$ Ho21
  isplitl [Ho22]
  · iapply (Entails.of_eq (pointsTo_congr (window_value d L fh fs hfs fo 22 (by decide) 2816#32 rfl _ _ _ _ _ _ _ _ _ _ _ _ _))) $$ Ho22
  isplitl [Ho23]
  · iapply (Entails.of_eq (pointsTo_congr (window_value d L fh fs hfs fo 23 (by decide) 2944#32 rfl _ _ _ _ _ _ _ _ _ _ _ _ _))) $$ Ho23
  isplitl [Ho24]
  · iapply (Entails.of_eq (pointsTo_congr (window_value d L fh fs hfs fo 24 (by decide) 3072#32 rfl _ _ _ _ _ _ _ _ _ _ _ _ _))) $$ Ho24
  isplitl [Ho25]
  · iapply (Entails.of_eq (pointsTo_congr (window_value d L fh fs hfs fo 25 (by decide) 3200#32 rfl _ _ _ _ _ _ _ _ _ _ _ _ _))) $$ Ho25
  isplitl [Ho26]
  · iapply (Entails.of_eq (pointsTo_congr (window_value d L fh fs hfs fo 26 (by decide) 3328#32 rfl _ _ _ _ _ _ _ _ _ _ _ _ _))) $$ Ho26
  isplitl [Ho27]
  · iapply (Entails.of_eq (pointsTo_congr (window_value d L fh fs hfs fo 27 (by decide) 3456#32 rfl _ _ _ _ _ _ _ _ _ _ _ _ _))) $$ Ho27
  isplitl [Ho28]
  · iapply (Entails.of_eq (pointsTo_congr (window_value d L fh fs hfs fo 28 (by decide) 3584#32 rfl _ _ _ _ _ _ _ _ _ _ _ _ _))) $$ Ho28
  isplitl [Ho29]
  · iapply (Entails.of_eq (pointsTo_congr (window_value d L fh fs hfs fo 29 (by decide) 3712#32 rfl _ _ _ _ _ _ _ _ _ _ _ _ _))) $$ Ho29
  isplitl [Ho30]
  · iapply (Entails.of_eq (pointsTo_congr (window_value d L fh fs hfs fo 30 (by decide) 3840#32 rfl _ _ _ _ _ _ _ _ _ _ _ _ _))) $$ Ho30
  isplitl [Ho31]
  · iapply (Entails.of_eq (pointsTo_congr (window_value d L fh fs hfs fo 31 (by decide) 3968#32 rfl _ _ _ _ _ _ _ _ _ _ _ _ _))) $$ Ho31
  isplitl [Ho32]
  · iapply (Entails.of_eq (pointsTo_congr (window_value d L fh fs hfs fo 32 (by decide) 4096#32 rfl _ _ _ _ _ _ _ _ _ _ _ _ _))) $$ Ho32
  isplitl [Ho33]
  · iapply (Entails.of_eq (pointsTo_congr (window_value d L fh fs hfs fo 33 (by decide) 4224#32 rfl _ _ _ _ _ _ _ _ _ _ _ _ _))) $$ Ho33
  isplitl [Ho34]
  · iapply (Entails.of_eq (pointsTo_congr (window_value d L fh fs hfs fo 34 (by decide) 4352#32 rfl _ _ _ _ _ _ _ _ _ _ _ _ _))) $$ Ho34
  isplitl [Ho35]
  · iapply (Entails.of_eq (pointsTo_congr (window_value d L fh fs hfs fo 35 (by decide) 4480#32 rfl _ _ _ _ _ _ _ _ _ _ _ _ _))) $$ Ho35
  isplitl [Ho36]
  · iapply (Entails.of_eq (pointsTo_congr (window_value d L fh fs hfs fo 36 (by decide) 4608#32 rfl _ _ _ _ _ _ _ _ _ _ _ _ _))) $$ Ho36
  isplitl [Ho37]
  · iapply (Entails.of_eq (pointsTo_congr (window_value d L fh fs hfs fo 37 (by decide) 4736#32 rfl _ _ _ _ _ _ _ _ _ _ _ _ _))) $$ Ho37
  isplitl [Ho38]
  · iapply (Entails.of_eq (pointsTo_congr (window_value d L fh fs hfs fo 38 (by decide) 4864#32 rfl _ _ _ _ _ _ _ _ _ _ _ _ _))) $$ Ho38
  isplitl [Ho39]
  · iapply (Entails.of_eq (pointsTo_congr (window_value d L fh fs hfs fo 39 (by decide) 4992#32 rfl _ _ _ _ _ _ _ _ _ _ _ _ _))) $$ Ho39
  isplitl [Ho40]
  · iapply (Entails.of_eq (pointsTo_congr (window_value d L fh fs hfs fo 40 (by decide) 5120#32 rfl _ _ _ _ _ _ _ _ _ _ _ _ _))) $$ Ho40
  isplitl [Ho41]
  · iapply (Entails.of_eq (pointsTo_congr (window_value d L fh fs hfs fo 41 (by decide) 5248#32 rfl _ _ _ _ _ _ _ _ _ _ _ _ _))) $$ Ho41
  isplitl [Ho42]
  · iapply (Entails.of_eq (pointsTo_congr (window_value d L fh fs hfs fo 42 (by decide) 5376#32 rfl _ _ _ _ _ _ _ _ _ _ _ _ _))) $$ Ho42
  isplitl [Ho43]
  · iapply (Entails.of_eq (pointsTo_congr (window_value d L fh fs hfs fo 43 (by decide) 5504#32 rfl _ _ _ _ _ _ _ _ _ _ _ _ _))) $$ Ho43
  isplitl [Ho44]
  · iapply (Entails.of_eq (pointsTo_congr (window_value d L fh fs hfs fo 44 (by decide) 5632#32 rfl _ _ _ _ _ _ _ _ _ _ _ _ _))) $$ Ho44
  isplitl [Ho45]
  · iapply (Entails.of_eq (pointsTo_congr (window_value d L fh fs hfs fo 45 (by decide) 5760#32 rfl _ _ _ _ _ _ _ _ _ _ _ _ _))) $$ Ho45
  isplitl [Ho46]
  · iapply (Entails.of_eq (pointsTo_congr (window_value d L fh fs hfs fo 46 (by decide) 5888#32 rfl _ _ _ _ _ _ _ _ _ _ _ _ _))) $$ Ho46
  isplitl [Ho47]
  · iapply (Entails.of_eq (pointsTo_congr (window_value d L fh fs hfs fo 47 (by decide) 6016#32 rfl _ _ _ _ _ _ _ _ _ _ _ _ _))) $$ Ho47
  isplitl [Ho48]
  · iapply (Entails.of_eq (pointsTo_congr (window_value d L fh fs hfs fo 48 (by decide) 6144#32 rfl _ _ _ _ _ _ _ _ _ _ _ _ _))) $$ Ho48
  isplitl [Ho49]
  · iapply (Entails.of_eq (pointsTo_congr (window_value d L fh fs hfs fo 49 (by decide) 6272#32 rfl _ _ _ _ _ _ _ _ _ _ _ _ _))) $$ Ho49
  isplitl [Ho50]
  · iapply (Entails.of_eq (pointsTo_congr (window_value d L fh fs hfs fo 50 (by decide) 6400#32 rfl _ _ _ _ _ _ _ _ _ _ _ _ _))) $$ Ho50
  isplitl [Ho51]
  · iapply (Entails.of_eq (pointsTo_congr (window_value d L fh fs hfs fo 51 (by decide) 6528#32 rfl _ _ _ _ _ _ _ _ _ _ _ _ _))) $$ Ho51
  isplitl [Ho52]
  · iapply (Entails.of_eq (pointsTo_congr (window_value d L fh fs hfs fo 52 (by decide) 6656#32 rfl _ _ _ _ _ _ _ _ _ _ _ _ _))) $$ Ho52
  isplitl [Ho53]
  · iapply (Entails.of_eq (pointsTo_congr (window_value d L fh fs hfs fo 53 (by decide) 6784#32 rfl _ _ _ _ _ _ _ _ _ _ _ _ _))) $$ Ho53
  isplitl [Ho54]
  · iapply (Entails.of_eq (pointsTo_congr (window_value d L fh fs hfs fo 54 (by decide) 6912#32 rfl _ _ _ _ _ _ _ _ _ _ _ _ _))) $$ Ho54
  isplitl [Ho55]
  · iapply (Entails.of_eq (pointsTo_congr (window_value d L fh fs hfs fo 55 (by decide) 7040#32 rfl _ _ _ _ _ _ _ _ _ _ _ _ _))) $$ Ho55
  isplitl [Ho56]
  · iapply (Entails.of_eq (pointsTo_congr (window_value d L fh fs hfs fo 56 (by decide) 7168#32 rfl _ _ _ _ _ _ _ _ _ _ _ _ _))) $$ Ho56
  isplitl [Ho57]
  · iapply (Entails.of_eq (pointsTo_congr (window_value d L fh fs hfs fo 57 (by decide) 7296#32 rfl _ _ _ _ _ _ _ _ _ _ _ _ _))) $$ Ho57
  isplitl [Ho58]
  · iapply (Entails.of_eq (pointsTo_congr (window_value d L fh fs hfs fo 58 (by decide) 7424#32 rfl _ _ _ _ _ _ _ _ _ _ _ _ _))) $$ Ho58
  isplitl [Ho59]
  · iapply (Entails.of_eq (pointsTo_congr (window_value d L fh fs hfs fo 59 (by decide) 7552#32 rfl _ _ _ _ _ _ _ _ _ _ _ _ _))) $$ Ho59
  isplitl [Ho60]
  · iapply (Entails.of_eq (pointsTo_congr (window_value d L fh fs hfs fo 60 (by decide) 7680#32 rfl _ _ _ _ _ _ _ _ _ _ _ _ _))) $$ Ho60
  isplitl [Ho61]
  · iapply (Entails.of_eq (pointsTo_congr (window_value d L fh fs hfs fo 61 (by decide) 7808#32 rfl _ _ _ _ _ _ _ _ _ _ _ _ _))) $$ Ho61
  isplitl [Ho62]
  · iapply (Entails.of_eq (pointsTo_congr (window_value d L fh fs hfs fo 62 (by decide) 7936#32 rfl _ _ _ _ _ _ _ _ _ _ _ _ _))) $$ Ho62
  isplitl [Ho63]
  · iapply (Entails.of_eq (pointsTo_congr (window_value d L fh fs hfs fo 63 (by decide) 8064#32 rfl _ _ _ _ _ _ _ _ _ _ _ _ _))) $$ Ho63
  isplitl [Ho64]
  · iapply (Entails.of_eq (pointsTo_congr (window_value d L fh fs hfs fo 64 (by decide) 8192#32 rfl _ _ _ _ _ _ _ _ _ _ _ _ _))) $$ Ho64
  isplitl [Ho65]
  · iapply (Entails.of_eq (pointsTo_congr (window_value d L fh fs hfs fo 65 (by decide) 8320#32 rfl _ _ _ _ _ _ _ _ _ _ _ _ _))) $$ Ho65
  isplitl [Ho66]
  · iapply (Entails.of_eq (pointsTo_congr (window_value d L fh fs hfs fo 66 (by decide) 8448#32 rfl _ _ _ _ _ _ _ _ _ _ _ _ _))) $$ Ho66
  isplitl [Ho67]
  · iapply (Entails.of_eq (pointsTo_congr (window_value d L fh fs hfs fo 67 (by decide) 8576#32 rfl _ _ _ _ _ _ _ _ _ _ _ _ _))) $$ Ho67
  isplitl [Ho68]
  · iapply (Entails.of_eq (pointsTo_congr (window_value d L fh fs hfs fo 68 (by decide) 8704#32 rfl _ _ _ _ _ _ _ _ _ _ _ _ _))) $$ Ho68
  isplitl [Ho69]
  · iapply (Entails.of_eq (pointsTo_congr (window_value d L fh fs hfs fo 69 (by decide) 8832#32 rfl _ _ _ _ _ _ _ _ _ _ _ _ _))) $$ Ho69
  isplitl [Ho70]
  · iapply (Entails.of_eq (pointsTo_congr (window_value d L fh fs hfs fo 70 (by decide) 8960#32 rfl _ _ _ _ _ _ _ _ _ _ _ _ _))) $$ Ho70
  isplitl [Ho71]
  · iapply (Entails.of_eq (pointsTo_congr (window_value d L fh fs hfs fo 71 (by decide) 9088#32 rfl _ _ _ _ _ _ _ _ _ _ _ _ _))) $$ Ho71
  isplitl [Ho72]
  · iapply (Entails.of_eq (pointsTo_congr (window_value d L fh fs hfs fo 72 (by decide) 9216#32 rfl _ _ _ _ _ _ _ _ _ _ _ _ _))) $$ Ho72
  isplitl [Ho73]
  · iapply (Entails.of_eq (pointsTo_congr (window_value d L fh fs hfs fo 73 (by decide) 9344#32 rfl _ _ _ _ _ _ _ _ _ _ _ _ _))) $$ Ho73
  isplitl [Ho74]
  · iapply (Entails.of_eq (pointsTo_congr (window_value d L fh fs hfs fo 74 (by decide) 9472#32 rfl _ _ _ _ _ _ _ _ _ _ _ _ _))) $$ Ho74
  isplitl [Ho75]
  · iapply (Entails.of_eq (pointsTo_congr (window_value d L fh fs hfs fo 75 (by decide) 9600#32 rfl _ _ _ _ _ _ _ _ _ _ _ _ _))) $$ Ho75
  isplitl [Ho76]
  · iapply (Entails.of_eq (pointsTo_congr (window_value d L fh fs hfs fo 76 (by decide) 9728#32 rfl _ _ _ _ _ _ _ _ _ _ _ _ _))) $$ Ho76
  isplitl [Ho77]
  · iapply (Entails.of_eq (pointsTo_congr (window_value d L fh fs hfs fo 77 (by decide) 9856#32 rfl _ _ _ _ _ _ _ _ _ _ _ _ _))) $$ Ho77
  isplitl [Ho78]
  · iapply (Entails.of_eq (pointsTo_congr (window_value d L fh fs hfs fo 78 (by decide) 9984#32 rfl _ _ _ _ _ _ _ _ _ _ _ _ _))) $$ Ho78
  isplitl [Ho79]
  · iapply (Entails.of_eq (pointsTo_congr (window_value d L fh fs hfs fo 79 (by decide) 10112#32 rfl _ _ _ _ _ _ _ _ _ _ _ _ _))) $$ Ho79
  isplitl [H0]; · iexists _; iexact H0
  isplitl [H1]; · iexists _; iexact H1
  isplitl [H2]; · iexists _; iexact H2
  isplitl [H3]; · iexists _; iexact H3
  isplitl [H4]; · iexists _; iexact H4
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Hc26]; · iexact Hc26
  isplitl [Hc27]; · iexact Hc27
  isplitl [Hc28]; · iexact Hc28
  isplitl [Hc29]; · iexact Hc29
  isplitl [Hc30]; · iexact Hc30
  isplitl [Hc31]; · iexact Hc31
  isplitl [Hc32]; · iexact Hc32
  isplitl [Hc33]; · iexact Hc33
  isplitl [Hc34]; · iexact Hc34
  isplitl [Hc35]; · iexact Hc35
  isplitl [Hc36]; · iexact Hc36
  isplitl [Hc37]; · iexact Hc37
  isplitl [Hc38]; · iexact Hc38
  isplitl [Hc39]; · iexact Hc39
  isplitl [Hc40]; · iexact Hc40
  isplitl [Hc41]; · iexact Hc41
  isplitl [Hc42]; · iexact Hc42
  isplitl [Hc43]; · iexact Hc43
  isplitl [Hc44]; · iexact Hc44
  isplitl [Hc45]; · iexact Hc45
  isplitl [Hc46]; · iexact Hc46
  isplitl [Hc47]; · iexact Hc47
  isplitl [Hc48]; · iexact Hc48
  isplitl [Hc49]; · iexact Hc49
  isplitl [Hc50]; · iexact Hc50
  isplitl [Hc51]; · iexact Hc51
  isplitl [Hc52]; · iexact Hc52
  isplitl [Hc53]; · iexact Hc53
  isplitl [Hc54]; · iexact Hc54
  isplitl [Hc55]; · iexact Hc55
  isplitl [Hc56]; · iexact Hc56
  isplitl [Hc57]; · iexact Hc57
  isplitl [Hc58]; · iexact Hc58
  isplitl [Hc59]; · iexact Hc59
  isplitl [Hc60]; · iexact Hc60
  isplitl [Hc61]; · iexact Hc61
  isplitl [Hc62]; · iexact Hc62
  isplitl [Hc63]; · iexact Hc63
  isplitl [Hc64]; · iexact Hc64
  isplitl [Hc65]; · iexact Hc65
  isplitl [Hc66]; · iexact Hc66
  isplitl [Hc67]; · iexact Hc67
  isplitl [Hc68]; · iexact Hc68
  isplitl [Hc69]; · iexact Hc69
  isplitl [Hc70]; · iexact Hc70
  isplitl [Hc71]; · iexact Hc71
  isplitl [Hc72]; · iexact Hc72
  isplitl [Hc73]; · iexact Hc73
  isplitl [Hc74]; · iexact Hc74
  isplitl [Hc75]; · iexact Hc75
  isplitl [Hc76]; · iexact Hc76
  isplitl [Hc77]; · iexact Hc77
  isplitl [Hc78]; · iexact Hc78
  isplitl [Hc79]; · iexact Hc79
  isplitl [Hc80]; · iexact Hc80
  isplitl [Hc81]; · iexact Hc81
  isplitl [Hc82]; · iexact Hc82
  isplitl [Hc83]; · iexact Hc83
  isplitl [Hc84]; · iexact Hc84
  isplitl [Hc85]; · iexact Hc85
  isplitl [Hc86]; · iexact Hc86
  isplitl [Hc87]; · iexact Hc87
  isplitl [Hc88]; · iexact Hc88
  isplitl [Hc89]; · iexact Hc89
  isplitl [Hc90]; · iexact Hc90
  isplitl [Hc91]; · iexact Hc91
  isplitl [Hc92]; · iexact Hc92
  isplitl [Hc93]; · iexact Hc93
  isplitl [Hc94]; · iexact Hc94
  isplitl [Hc95]; · iexact Hc95
  isplitl [Hc96]; · iexact Hc96
  isplitl [Hc97]; · iexact Hc97
  isplitl [Hc98]; · iexact Hc98
  isplitl [Hc99]; · iexact Hc99
  isplitl [Hc100]; · iexact Hc100
  isplitl [Hc101]; · iexact Hc101
  isplitl [Hc102]; · iexact Hc102
  isplitl [Hc103]; · iexact Hc103
  isplitl [Hc104]; · iexact Hc104
  isplitl [Hc105]; · iexact Hc105
  isplitl [Hc106]; · iexact Hc106
  isplitl [Hc107]; · iexact Hc107
  isplitl [Hc108]; · iexact Hc108
  isplitl [Hc109]; · iexact Hc109
  isplitl [Hc110]; · iexact Hc110
  isplitl [Hc111]; · iexact Hc111
  isplitl [Hc112]; · iexact Hc112
  isplitl [Hc113]; · iexact Hc113
  isplitl [Hc114]; · iexact Hc114
  isplitl [Hc115]; · iexact Hc115
  isplitl [Hc116]; · iexact Hc116
  isplitl [Hc117]; · iexact Hc117
  isplitl [Hc118]; · iexact Hc118
  isplitl [Hc119]; · iexact Hc119
  isplitl [Hc120]; · iexact Hc120
  isplitl [Hc121]; · iexact Hc121
  isplitl [Hc122]; · iexact Hc122
  isplitl [Hc123]; · iexact Hc123
  isplitl [Hc124]; · iexact Hc124
  isplitl [Hc125]; · iexact Hc125
  isplitl [Hc126]; · iexact Hc126
  isplitl [Hc127]; · iexact Hc127
  isplitl [Hc128]; · iexact Hc128
  isplitl [Hc129]; · iexact Hc129
  isplitl [Hc130]; · iexact Hc130
  isplitl [Hc131]; · iexact Hc131
  isplitl [Hc132]; · iexact Hc132
  isplitl [Hc133]; · iexact Hc133
  isplitl [Hc134]; · iexact Hc134
  isplitl [Hc135]; · iexact Hc135
  isplitl [Hc136]; · iexact Hc136
  isplitl [Hc137]; · iexact Hc137
  isplitl [Hc138]; · iexact Hc138
  isplitl [Hc139]; · iexact Hc139
  isplitl [Hc140]; · iexact Hc140
  isplitl [Hc141]; · iexact Hc141
  isplitl [Hc142]; · iexact Hc142
  isplitl [Hc143]; · iexact Hc143
  isplitl [Hc144]; · iexact Hc144
  isplitl [Hc145]; · iexact Hc145
  isplitl [Hc146]; · iexact Hc146
  isplitl [Hc147]; · iexact Hc147
  isplitl [Hc148]; · iexact Hc148
  isplitl [Hc149]; · iexact Hc149
  isplitl [Hc150]; · iexact Hc150
  isplitl [Hc151]; · iexact Hc151
  isplitl [Hc152]; · iexact Hc152
  isplitl [Hc153]; · iexact Hc153
  isplitl [Hc154]; · iexact Hc154
  isplitl [Hc155]; · iexact Hc155
  isplitl [Hc156]; · iexact Hc156
  isplitl [Hc157]; · iexact Hc157
  isplitl [Hc158]; · iexact Hc158
  isplitl [Hc159]; · iexact Hc159
  isplitl [Hc160]; · iexact Hc160
  isplitl [Hc161]; · iexact Hc161
  iexists _
  isplitr
  rotate_left
  · iexact HO
  · ipureintro
    repeat (first | exact fun p hp => Or.inl hp | apply waits_insert)

set_option maxHeartbeats 4000000 in
/-- The same with the windows named by their number: window `r` is rows [10240w + 128r, 10240w + 128r + 128). -/
theorem tile_run (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oSl L 0).view.loc (thrV d L) ↦[(oSl L 0).view.set]{fullShare} fo)
      ∗ ((oSl L 1).view.loc (thrV d L) ↦[(oSl L 1).view.set]{fullShare} fo)
      ∗ ((oSl L 2).view.loc (thrV d L) ↦[(oSl L 2).view.set]{fullShare} fo)
      ∗ ((oSl L 3).view.loc (thrV d L) ↦[(oSl L 3).view.set]{fullShare} fo)
      ∗ ((oSl L 4).view.loc (thrV d L) ↦[(oSl L 4).view.set]{fullShare} fo)
      ∗ ((oSl L 5).view.loc (thrV d L) ↦[(oSl L 5).view.set]{fullShare} fo)
      ∗ ((oSl L 6).view.loc (thrV d L) ↦[(oSl L 6).view.set]{fullShare} fo)
      ∗ ((oSl L 7).view.loc (thrV d L) ↦[(oSl L 7).view.set]{fullShare} fo)
      ∗ ((oSl L 8).view.loc (thrV d L) ↦[(oSl L 8).view.set]{fullShare} fo)
      ∗ ((oSl L 9).view.loc (thrV d L) ↦[(oSl L 9).view.set]{fullShare} fo)
      ∗ ((oSl L 10).view.loc (thrV d L) ↦[(oSl L 10).view.set]{fullShare} fo)
      ∗ ((oSl L 11).view.loc (thrV d L) ↦[(oSl L 11).view.set]{fullShare} fo)
      ∗ ((oSl L 12).view.loc (thrV d L) ↦[(oSl L 12).view.set]{fullShare} fo)
      ∗ ((oSl L 13).view.loc (thrV d L) ↦[(oSl L 13).view.set]{fullShare} fo)
      ∗ ((oSl L 14).view.loc (thrV d L) ↦[(oSl L 14).view.set]{fullShare} fo)
      ∗ ((oSl L 15).view.loc (thrV d L) ↦[(oSl L 15).view.set]{fullShare} fo)
      ∗ ((oSl L 16).view.loc (thrV d L) ↦[(oSl L 16).view.set]{fullShare} fo)
      ∗ ((oSl L 17).view.loc (thrV d L) ↦[(oSl L 17).view.set]{fullShare} fo)
      ∗ ((oSl L 18).view.loc (thrV d L) ↦[(oSl L 18).view.set]{fullShare} fo)
      ∗ ((oSl L 19).view.loc (thrV d L) ↦[(oSl L 19).view.set]{fullShare} fo)
      ∗ ((oSl L 20).view.loc (thrV d L) ↦[(oSl L 20).view.set]{fullShare} fo)
      ∗ ((oSl L 21).view.loc (thrV d L) ↦[(oSl L 21).view.set]{fullShare} fo)
      ∗ ((oSl L 22).view.loc (thrV d L) ↦[(oSl L 22).view.set]{fullShare} fo)
      ∗ ((oSl L 23).view.loc (thrV d L) ↦[(oSl L 23).view.set]{fullShare} fo)
      ∗ ((oSl L 24).view.loc (thrV d L) ↦[(oSl L 24).view.set]{fullShare} fo)
      ∗ ((oSl L 25).view.loc (thrV d L) ↦[(oSl L 25).view.set]{fullShare} fo)
      ∗ ((oSl L 26).view.loc (thrV d L) ↦[(oSl L 26).view.set]{fullShare} fo)
      ∗ ((oSl L 27).view.loc (thrV d L) ↦[(oSl L 27).view.set]{fullShare} fo)
      ∗ ((oSl L 28).view.loc (thrV d L) ↦[(oSl L 28).view.set]{fullShare} fo)
      ∗ ((oSl L 29).view.loc (thrV d L) ↦[(oSl L 29).view.set]{fullShare} fo)
      ∗ ((oSl L 30).view.loc (thrV d L) ↦[(oSl L 30).view.set]{fullShare} fo)
      ∗ ((oSl L 31).view.loc (thrV d L) ↦[(oSl L 31).view.set]{fullShare} fo)
      ∗ ((oSl L 32).view.loc (thrV d L) ↦[(oSl L 32).view.set]{fullShare} fo)
      ∗ ((oSl L 33).view.loc (thrV d L) ↦[(oSl L 33).view.set]{fullShare} fo)
      ∗ ((oSl L 34).view.loc (thrV d L) ↦[(oSl L 34).view.set]{fullShare} fo)
      ∗ ((oSl L 35).view.loc (thrV d L) ↦[(oSl L 35).view.set]{fullShare} fo)
      ∗ ((oSl L 36).view.loc (thrV d L) ↦[(oSl L 36).view.set]{fullShare} fo)
      ∗ ((oSl L 37).view.loc (thrV d L) ↦[(oSl L 37).view.set]{fullShare} fo)
      ∗ ((oSl L 38).view.loc (thrV d L) ↦[(oSl L 38).view.set]{fullShare} fo)
      ∗ ((oSl L 39).view.loc (thrV d L) ↦[(oSl L 39).view.set]{fullShare} fo)
      ∗ ((oSl L 40).view.loc (thrV d L) ↦[(oSl L 40).view.set]{fullShare} fo)
      ∗ ((oSl L 41).view.loc (thrV d L) ↦[(oSl L 41).view.set]{fullShare} fo)
      ∗ ((oSl L 42).view.loc (thrV d L) ↦[(oSl L 42).view.set]{fullShare} fo)
      ∗ ((oSl L 43).view.loc (thrV d L) ↦[(oSl L 43).view.set]{fullShare} fo)
      ∗ ((oSl L 44).view.loc (thrV d L) ↦[(oSl L 44).view.set]{fullShare} fo)
      ∗ ((oSl L 45).view.loc (thrV d L) ↦[(oSl L 45).view.set]{fullShare} fo)
      ∗ ((oSl L 46).view.loc (thrV d L) ↦[(oSl L 46).view.set]{fullShare} fo)
      ∗ ((oSl L 47).view.loc (thrV d L) ↦[(oSl L 47).view.set]{fullShare} fo)
      ∗ ((oSl L 48).view.loc (thrV d L) ↦[(oSl L 48).view.set]{fullShare} fo)
      ∗ ((oSl L 49).view.loc (thrV d L) ↦[(oSl L 49).view.set]{fullShare} fo)
      ∗ ((oSl L 50).view.loc (thrV d L) ↦[(oSl L 50).view.set]{fullShare} fo)
      ∗ ((oSl L 51).view.loc (thrV d L) ↦[(oSl L 51).view.set]{fullShare} fo)
      ∗ ((oSl L 52).view.loc (thrV d L) ↦[(oSl L 52).view.set]{fullShare} fo)
      ∗ ((oSl L 53).view.loc (thrV d L) ↦[(oSl L 53).view.set]{fullShare} fo)
      ∗ ((oSl L 54).view.loc (thrV d L) ↦[(oSl L 54).view.set]{fullShare} fo)
      ∗ ((oSl L 55).view.loc (thrV d L) ↦[(oSl L 55).view.set]{fullShare} fo)
      ∗ ((oSl L 56).view.loc (thrV d L) ↦[(oSl L 56).view.set]{fullShare} fo)
      ∗ ((oSl L 57).view.loc (thrV d L) ↦[(oSl L 57).view.set]{fullShare} fo)
      ∗ ((oSl L 58).view.loc (thrV d L) ↦[(oSl L 58).view.set]{fullShare} fo)
      ∗ ((oSl L 59).view.loc (thrV d L) ↦[(oSl L 59).view.set]{fullShare} fo)
      ∗ ((oSl L 60).view.loc (thrV d L) ↦[(oSl L 60).view.set]{fullShare} fo)
      ∗ ((oSl L 61).view.loc (thrV d L) ↦[(oSl L 61).view.set]{fullShare} fo)
      ∗ ((oSl L 62).view.loc (thrV d L) ↦[(oSl L 62).view.set]{fullShare} fo)
      ∗ ((oSl L 63).view.loc (thrV d L) ↦[(oSl L 63).view.set]{fullShare} fo)
      ∗ ((oSl L 64).view.loc (thrV d L) ↦[(oSl L 64).view.set]{fullShare} fo)
      ∗ ((oSl L 65).view.loc (thrV d L) ↦[(oSl L 65).view.set]{fullShare} fo)
      ∗ ((oSl L 66).view.loc (thrV d L) ↦[(oSl L 66).view.set]{fullShare} fo)
      ∗ ((oSl L 67).view.loc (thrV d L) ↦[(oSl L 67).view.set]{fullShare} fo)
      ∗ ((oSl L 68).view.loc (thrV d L) ↦[(oSl L 68).view.set]{fullShare} fo)
      ∗ ((oSl L 69).view.loc (thrV d L) ↦[(oSl L 69).view.set]{fullShare} fo)
      ∗ ((oSl L 70).view.loc (thrV d L) ↦[(oSl L 70).view.set]{fullShare} fo)
      ∗ ((oSl L 71).view.loc (thrV d L) ↦[(oSl L 71).view.set]{fullShare} fo)
      ∗ ((oSl L 72).view.loc (thrV d L) ↦[(oSl L 72).view.set]{fullShare} fo)
      ∗ ((oSl L 73).view.loc (thrV d L) ↦[(oSl L 73).view.set]{fullShare} fo)
      ∗ ((oSl L 74).view.loc (thrV d L) ↦[(oSl L 74).view.set]{fullShare} fo)
      ∗ ((oSl L 75).view.loc (thrV d L) ↦[(oSl L 75).view.set]{fullShare} fo)
      ∗ ((oSl L 76).view.loc (thrV d L) ↦[(oSl L 76).view.set]{fullShare} fo)
      ∗ ((oSl L 77).view.loc (thrV d L) ↦[(oSl L 77).view.set]{fullShare} fo)
      ∗ ((oSl L 78).view.loc (thrV d L) ↦[(oSl L 78).view.set]{fullShare} fo)
      ∗ ((oSl L 79).view.loc (thrV d L) ↦[(oSl L 79).view.set]{fullShare} fo)
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ semVal ((thrV d L), SemLoc.dma cc1_scoped0.sem) 0
      ∗ semVal ((thrV d L), SemLoc.dma cc1_scoped1.sem) 0
      ∗ semVal ((thrV d L), SemLoc.dma cc1_scoped2.sem) 0
      ∗ semVal ((thrV d L), SemLoc.dma cc1_scoped3.sem) 0
      ∗ semVal ((thrV d L), SemLoc.dma cc1_scoped4.sem) 0
      ∗ semVal ((thrV d L), SemLoc.dma cc1_scoped5.sem) 0
      ∗ semVal ((thrV d L), SemLoc.dma cc1_scoped6.sem) 0
      ∗ semVal ((thrV d L), SemLoc.dma cc1_scoped7.sem) 0
      ∗ semVal ((thrV d L), SemLoc.dma cc1_scoped8.sem) 0
      ∗ semVal ((thrV d L), SemLoc.dma cc1_scoped9.sem) 0
      ∗ semVal ((thrV d L), SemLoc.dma cc1_scoped10.sem) 0
      ∗ semVal ((thrV d L), SemLoc.dma cc1_scoped11.sem) 0
      ∗ semVal ((thrV d L), SemLoc.dma cc1_scoped12.sem) 0
      ∗ semVal ((thrV d L), SemLoc.dma cc1_scoped13.sem) 0
      ∗ semVal ((thrV d L), SemLoc.dma cc1_scoped14.sem) 0
      ∗ semVal ((thrV d L), SemLoc.dma cc1_scoped15.sem) 0
      ∗ semVal ((thrV d L), SemLoc.dma cc1_scoped16.sem) 0
      ∗ semVal ((thrV d L), SemLoc.dma cc1_scoped17.sem) 0
      ∗ semVal ((thrV d L), SemLoc.dma cc1_scoped18.sem) 0
      ∗ semVal ((thrV d L), SemLoc.dma cc1_scoped19.sem) 0
      ∗ semVal ((thrV d L), SemLoc.dma cc1_scoped20.sem) 0
      ∗ semVal ((thrV d L), SemLoc.dma cc1_scoped21.sem) 0
      ∗ semVal ((thrV d L), SemLoc.dma cc1_scoped22.sem) 0
      ∗ semVal ((thrV d L), SemLoc.dma cc1_scoped23.sem) 0
      ∗ semVal ((thrV d L), SemLoc.dma cc1_scoped24.sem) 0
      ∗ semVal ((thrV d L), SemLoc.dma cc1_scoped25.sem) 0
      ∗ semVal ((thrV d L), SemLoc.dma cc1_scoped26.sem) 0
      ∗ semVal ((thrV d L), SemLoc.dma cc1_scoped27.sem) 0
      ∗ semVal ((thrV d L), SemLoc.dma cc1_scoped28.sem) 0
      ∗ semVal ((thrV d L), SemLoc.dma cc1_scoped29.sem) 0
      ∗ semVal ((thrV d L), SemLoc.dma cc1_scoped30.sem) 0
      ∗ semVal ((thrV d L), SemLoc.dma cc1_scoped31.sem) 0
      ∗ semVal ((thrV d L), SemLoc.dma cc1_scoped32.sem) 0
      ∗ semVal ((thrV d L), SemLoc.dma cc1_scoped33.sem) 0
      ∗ semVal ((thrV d L), SemLoc.dma cc1_scoped34.sem) 0
      ∗ semVal ((thrV d L), SemLoc.dma cc1_scoped35.sem) 0
      ∗ semVal ((thrV d L), SemLoc.dma cc1_scoped36.sem) 0
      ∗ semVal ((thrV d L), SemLoc.dma cc1_scoped37.sem) 0
      ∗ semVal ((thrV d L), SemLoc.dma cc1_scoped38.sem) 0
      ∗ semVal ((thrV d L), SemLoc.dma cc1_scoped39.sem) 0
      ∗ semVal ((thrV d L), SemLoc.dma cc1_scoped40.sem) 0
      ∗ semVal ((thrV d L), SemLoc.dma cc1_scoped41.sem) 0
      ∗ semVal ((thrV d L), SemLoc.dma cc1_scoped42.sem) 0
      ∗ semVal ((thrV d L), SemLoc.dma cc1_scoped43.sem) 0
      ∗ semVal ((thrV d L), SemLoc.dma cc1_scoped44.sem) 0
      ∗ semVal ((thrV d L), SemLoc.dma cc1_scoped45.sem) 0
      ∗ semVal ((thrV d L), SemLoc.dma cc1_scoped46.sem) 0
      ∗ semVal ((thrV d L), SemLoc.dma cc1_scoped47.sem) 0
      ∗ semVal ((thrV d L), SemLoc.dma cc1_scoped48.sem) 0
      ∗ semVal ((thrV d L), SemLoc.dma cc1_scoped49.sem) 0
      ∗ semVal ((thrV d L), SemLoc.dma cc1_scoped50.sem) 0
      ∗ semVal ((thrV d L), SemLoc.dma cc1_scoped51.sem) 0
      ∗ semVal ((thrV d L), SemLoc.dma cc1_scoped52.sem) 0
      ∗ semVal ((thrV d L), SemLoc.dma cc1_scoped53.sem) 0
      ∗ semVal ((thrV d L), SemLoc.dma cc1_scoped54.sem) 0
      ∗ semVal ((thrV d L), SemLoc.dma cc1_scoped55.sem) 0
      ∗ semVal ((thrV d L), SemLoc.dma cc1_scoped56.sem) 0
      ∗ semVal ((thrV d L), SemLoc.dma cc1_scoped57.sem) 0
      ∗ semVal ((thrV d L), SemLoc.dma cc1_scoped58.sem) 0
      ∗ semVal ((thrV d L), SemLoc.dma cc1_scoped59.sem) 0
      ∗ semVal ((thrV d L), SemLoc.dma cc1_scoped60.sem) 0
      ∗ semVal ((thrV d L), SemLoc.dma cc1_scoped61.sem) 0
      ∗ semVal ((thrV d L), SemLoc.dma cc1_scoped62.sem) 0
      ∗ semVal ((thrV d L), SemLoc.dma cc1_scoped63.sem) 0
      ∗ semVal ((thrV d L), SemLoc.dma cc1_scoped64.sem) 0
      ∗ semVal ((thrV d L), SemLoc.dma cc1_scoped65.sem) 0
      ∗ semVal ((thrV d L), SemLoc.dma cc1_scoped66.sem) 0
      ∗ semVal ((thrV d L), SemLoc.dma cc1_scoped67.sem) 0
      ∗ semVal ((thrV d L), SemLoc.dma cc1_scoped68.sem) 0
      ∗ semVal ((thrV d L), SemLoc.dma cc1_scoped69.sem) 0
      ∗ semVal ((thrV d L), SemLoc.dma cc1_scoped70.sem) 0
      ∗ semVal ((thrV d L), SemLoc.dma cc1_scoped71.sem) 0
      ∗ semVal ((thrV d L), SemLoc.dma cc1_scoped72.sem) 0
      ∗ semVal ((thrV d L), SemLoc.dma cc1_scoped73.sem) 0
      ∗ semVal ((thrV d L), SemLoc.dma cc1_scoped74.sem) 0
      ∗ semVal ((thrV d L), SemLoc.dma cc1_scoped75.sem) 0
      ∗ semVal ((thrV d L), SemLoc.dma cc1_scoped76.sem) 0
      ∗ semVal ((thrV d L), SemLoc.dma cc1_scoped77.sem) 0
      ∗ semVal ((thrV d L), SemLoc.dma cc1_scoped78.sem) 0
      ∗ semVal ((thrV d L), SemLoc.dma cc1_scoped79.sem) 0
      ∗ semVal ((thrV d L), SemLoc.dma cc1_scoped80.sem) 0
      ∗ semVal ((thrV d L), SemLoc.dma cc1_scoped81.sem) 0
      ∗ semVal ((thrV d L), SemLoc.dma cc1_scoped82.sem) 0
      ∗ semVal ((thrV d L), SemLoc.dma cc1_scoped83.sem) 0
      ∗ semVal ((thrV d L), SemLoc.dma cc1_scoped84.sem) 0
      ∗ semVal ((thrV d L), SemLoc.dma cc1_scoped85.sem) 0
      ∗ semVal ((thrV d L), SemLoc.dma cc1_scoped86.sem) 0
      ∗ semVal ((thrV d L), SemLoc.dma cc1_scoped87.sem) 0
      ∗ semVal ((thrV d L), SemLoc.dma cc1_scoped88.sem) 0
      ∗ semVal ((thrV d L), SemLoc.dma cc1_scoped89.sem) 0
      ∗ semVal ((thrV d L), SemLoc.dma cc1_scoped90.sem) 0
      ∗ semVal ((thrV d L), SemLoc.dma cc1_scoped91.sem) 0
      ∗ semVal ((thrV d L), SemLoc.dma cc1_scoped92.sem) 0
      ∗ semVal ((thrV d L), SemLoc.dma cc1_scoped93.sem) 0
      ∗ semVal ((thrV d L), SemLoc.dma cc1_scoped94.sem) 0
      ∗ semVal ((thrV d L), SemLoc.dma cc1_scoped95.sem) 0
      ∗ semVal ((thrV d L), SemLoc.dma cc1_scoped96.sem) 0
      ∗ semVal ((thrV d L), SemLoc.dma cc1_scoped97.sem) 0
      ∗ semVal ((thrV d L), SemLoc.dma cc1_scoped98.sem) 0
      ∗ semVal ((thrV d L), SemLoc.dma cc1_scoped99.sem) 0
      ∗ semVal ((thrV d L), SemLoc.dma cc1_scoped100.sem) 0
      ∗ semVal ((thrV d L), SemLoc.dma cc1_scoped101.sem) 0
      ∗ semVal ((thrV d L), SemLoc.dma cc1_scoped102.sem) 0
      ∗ semVal ((thrV d L), SemLoc.dma cc1_scoped103.sem) 0
      ∗ semVal ((thrV d L), SemLoc.dma cc1_scoped104.sem) 0
      ∗ semVal ((thrV d L), SemLoc.dma cc1_scoped105.sem) 0
      ∗ semVal ((thrV d L), SemLoc.dma cc1_scoped106.sem) 0
      ∗ semVal ((thrV d L), SemLoc.dma cc1_scoped107.sem) 0
      ∗ semVal ((thrV d L), SemLoc.dma cc1_scoped108.sem) 0
      ∗ semVal ((thrV d L), SemLoc.dma cc1_scoped109.sem) 0
      ∗ semVal ((thrV d L), SemLoc.dma cc1_scoped110.sem) 0
      ∗ semVal ((thrV d L), SemLoc.dma cc1_scoped111.sem) 0
      ∗ semVal ((thrV d L), SemLoc.dma cc1_scoped112.sem) 0
      ∗ semVal ((thrV d L), SemLoc.dma cc1_scoped113.sem) 0
      ∗ semVal ((thrV d L), SemLoc.dma cc1_scoped114.sem) 0
      ∗ semVal ((thrV d L), SemLoc.dma cc1_scoped115.sem) 0
      ∗ semVal ((thrV d L), SemLoc.dma cc1_scoped116.sem) 0
      ∗ semVal ((thrV d L), SemLoc.dma cc1_scoped117.sem) 0
      ∗ semVal ((thrV d L), SemLoc.dma cc1_scoped118.sem) 0
      ∗ semVal ((thrV d L), SemLoc.dma cc1_scoped119.sem) 0
      ∗ semVal ((thrV d L), SemLoc.dma cc1_scoped120.sem) 0
      ∗ semVal ((thrV d L), SemLoc.dma cc1_scoped121.sem) 0
      ∗ semVal ((thrV d L), SemLoc.dma cc1_scoped122.sem) 0
      ∗ semVal ((thrV d L), SemLoc.dma cc1_scoped123.sem) 0
      ∗ semVal ((thrV d L), SemLoc.dma cc1_scoped124.sem) 0
      ∗ semVal ((thrV d L), SemLoc.dma cc1_scoped125.sem) 0
      ∗ semVal ((thrV d L), SemLoc.dma cc1_scoped126.sem) 0
      ∗ semVal ((thrV d L), SemLoc.dma cc1_scoped127.sem) 0
      ∗ semVal ((thrV d L), SemLoc.dma cc1_scoped128.sem) 0
      ∗ semVal ((thrV d L), SemLoc.dma cc1_scoped129.sem) 0
      ∗ semVal ((thrV d L), SemLoc.dma cc1_scoped130.sem) 0
      ∗ semVal ((thrV d L), SemLoc.dma cc1_scoped131.sem) 0
      ∗ semVal ((thrV d L), SemLoc.dma cc1_scoped132.sem) 0
      ∗ semVal ((thrV d L), SemLoc.dma cc1_scoped133.sem) 0
      ∗ semVal ((thrV d L), SemLoc.dma cc1_scoped134.sem) 0
      ∗ semVal ((thrV d L), SemLoc.dma cc1_scoped135.sem) 0
      ∗ semVal ((thrV d L), SemLoc.dma cc1_scoped136.sem) 0
      ∗ semVal ((thrV d L), SemLoc.dma cc1_scoped137.sem) 0
      ∗ semVal ((thrV d L), SemLoc.dma cc1_scoped138.sem) 0
      ∗ semVal ((thrV d L), SemLoc.dma cc1_scoped139.sem) 0
      ∗ semVal ((thrV d L), SemLoc.dma cc1_scoped140.sem) 0
      ∗ semVal ((thrV d L), SemLoc.dma cc1_scoped141.sem) 0
      ∗ semVal ((thrV d L), SemLoc.dma cc1_scoped142.sem) 0
      ∗ semVal ((thrV d L), SemLoc.dma cc1_scoped143.sem) 0
      ∗ semVal ((thrV d L), SemLoc.dma cc1_scoped144.sem) 0
      ∗ semVal ((thrV d L), SemLoc.dma cc1_scoped145.sem) 0
      ∗ semVal ((thrV d L), SemLoc.dma cc1_scoped146.sem) 0
      ∗ semVal ((thrV d L), SemLoc.dma cc1_scoped147.sem) 0
      ∗ semVal ((thrV d L), SemLoc.dma cc1_scoped148.sem) 0
      ∗ semVal ((thrV d L), SemLoc.dma cc1_scoped149.sem) 0
      ∗ semVal ((thrV d L), SemLoc.dma cc1_scoped150.sem) 0
      ∗ semVal ((thrV d L), SemLoc.dma cc1_scoped151.sem) 0
      ∗ semVal ((thrV d L), SemLoc.dma cc1_scoped152.sem) 0
      ∗ semVal ((thrV d L), SemLoc.dma cc1_scoped153.sem) 0
      ∗ semVal ((thrV d L), SemLoc.dma cc1_scoped154.sem) 0
      ∗ semVal ((thrV d L), SemLoc.dma cc1_scoped155.sem) 0
      ∗ semVal ((thrV d L), SemLoc.dma cc1_scoped156.sem) 0
      ∗ semVal ((thrV d L), SemLoc.dma cc1_scoped157.sem) 0
      ∗ semVal ((thrV d L), SemLoc.dma cc1_scoped158.sem) 0
      ∗ semVal ((thrV d L), SemLoc.dma cc1_scoped159.sem) 0
      ∗ semVal ((thrV d L), SemLoc.dma cc1_scoped160.sem) 0
      ∗ semVal ((thrV d L), SemLoc.dma cc1_scoped161.sem) 0
      ∗ owes (thrV d L) O W
      ∗ (iprop((hV.view.loc (thrV d L) ↦{q} fh) ∗ (sV.view.loc (thrV d L) ↦{q} fs)
          ∗ ((oSl L 0).view.loc (thrV d L) ↦[(oSl L 0).view.set]{fullShare} (gatherRows (F := F) fh fs : Buf (Elt F) (oV.view.loc (thrV d L))))
          ∗ ((oSl L 1).view.loc (thrV d L) ↦[(oSl L 1).view.set]{fullShare} (gatherRows (F := F) fh fs : Buf (Elt F) (oV.view.loc (thrV d L))))
          ∗ ((oSl L 2).view.loc (thrV d L) ↦[(oSl L 2).view.set]{fullShare} (gatherRows (F := F) fh fs : Buf (Elt F) (oV.view.loc (thrV d L))))
          ∗ ((oSl L 3).view.loc (thrV d L) ↦[(oSl L 3).view.set]{fullShare} (gatherRows (F := F) fh fs : Buf (Elt F) (oV.view.loc (thrV d L))))
          ∗ ((oSl L 4).view.loc (thrV d L) ↦[(oSl L 4).view.set]{fullShare} (gatherRows (F := F) fh fs : Buf (Elt F) (oV.view.loc (thrV d L))))
          ∗ ((oSl L 5).view.loc (thrV d L) ↦[(oSl L 5).view.set]{fullShare} (gatherRows (F := F) fh fs : Buf (Elt F) (oV.view.loc (thrV d L))))
          ∗ ((oSl L 6).view.loc (thrV d L) ↦[(oSl L 6).view.set]{fullShare} (gatherRows (F := F) fh fs : Buf (Elt F) (oV.view.loc (thrV d L))))
          ∗ ((oSl L 7).view.loc (thrV d L) ↦[(oSl L 7).view.set]{fullShare} (gatherRows (F := F) fh fs : Buf (Elt F) (oV.view.loc (thrV d L))))
          ∗ ((oSl L 8).view.loc (thrV d L) ↦[(oSl L 8).view.set]{fullShare} (gatherRows (F := F) fh fs : Buf (Elt F) (oV.view.loc (thrV d L))))
          ∗ ((oSl L 9).view.loc (thrV d L) ↦[(oSl L 9).view.set]{fullShare} (gatherRows (F := F) fh fs : Buf (Elt F) (oV.view.loc (thrV d L))))
          ∗ ((oSl L 10).view.loc (thrV d L) ↦[(oSl L 10).view.set]{fullShare} (gatherRows (F := F) fh fs : Buf (Elt F) (oV.view.loc (thrV d L))))
          ∗ ((oSl L 11).view.loc (thrV d L) ↦[(oSl L 11).view.set]{fullShare} (gatherRows (F := F) fh fs : Buf (Elt F) (oV.view.loc (thrV d L))))
          ∗ ((oSl L 12).view.loc (thrV d L) ↦[(oSl L 12).view.set]{fullShare} (gatherRows (F := F) fh fs : Buf (Elt F) (oV.view.loc (thrV d L))))
          ∗ ((oSl L 13).view.loc (thrV d L) ↦[(oSl L 13).view.set]{fullShare} (gatherRows (F := F) fh fs : Buf (Elt F) (oV.view.loc (thrV d L))))
          ∗ ((oSl L 14).view.loc (thrV d L) ↦[(oSl L 14).view.set]{fullShare} (gatherRows (F := F) fh fs : Buf (Elt F) (oV.view.loc (thrV d L))))
          ∗ ((oSl L 15).view.loc (thrV d L) ↦[(oSl L 15).view.set]{fullShare} (gatherRows (F := F) fh fs : Buf (Elt F) (oV.view.loc (thrV d L))))
          ∗ ((oSl L 16).view.loc (thrV d L) ↦[(oSl L 16).view.set]{fullShare} (gatherRows (F := F) fh fs : Buf (Elt F) (oV.view.loc (thrV d L))))
          ∗ ((oSl L 17).view.loc (thrV d L) ↦[(oSl L 17).view.set]{fullShare} (gatherRows (F := F) fh fs : Buf (Elt F) (oV.view.loc (thrV d L))))
          ∗ ((oSl L 18).view.loc (thrV d L) ↦[(oSl L 18).view.set]{fullShare} (gatherRows (F := F) fh fs : Buf (Elt F) (oV.view.loc (thrV d L))))
          ∗ ((oSl L 19).view.loc (thrV d L) ↦[(oSl L 19).view.set]{fullShare} (gatherRows (F := F) fh fs : Buf (Elt F) (oV.view.loc (thrV d L))))
          ∗ ((oSl L 20).view.loc (thrV d L) ↦[(oSl L 20).view.set]{fullShare} (gatherRows (F := F) fh fs : Buf (Elt F) (oV.view.loc (thrV d L))))
          ∗ ((oSl L 21).view.loc (thrV d L) ↦[(oSl L 21).view.set]{fullShare} (gatherRows (F := F) fh fs : Buf (Elt F) (oV.view.loc (thrV d L))))
          ∗ ((oSl L 22).view.loc (thrV d L) ↦[(oSl L 22).view.set]{fullShare} (gatherRows (F := F) fh fs : Buf (Elt F) (oV.view.loc (thrV d L))))
          ∗ ((oSl L 23).view.loc (thrV d L) ↦[(oSl L 23).view.set]{fullShare} (gatherRows (F := F) fh fs : Buf (Elt F) (oV.view.loc (thrV d L))))
          ∗ ((oSl L 24).view.loc (thrV d L) ↦[(oSl L 24).view.set]{fullShare} (gatherRows (F := F) fh fs : Buf (Elt F) (oV.view.loc (thrV d L))))
          ∗ ((oSl L 25).view.loc (thrV d L) ↦[(oSl L 25).view.set]{fullShare} (gatherRows (F := F) fh fs : Buf (Elt F) (oV.view.loc (thrV d L))))
          ∗ ((oSl L 26).view.loc (thrV d L) ↦[(oSl L 26).view.set]{fullShare} (gatherRows (F := F) fh fs : Buf (Elt F) (oV.view.loc (thrV d L))))
          ∗ ((oSl L 27).view.loc (thrV d L) ↦[(oSl L 27).view.set]{fullShare} (gatherRows (F := F) fh fs : Buf (Elt F) (oV.view.loc (thrV d L))))
          ∗ ((oSl L 28).view.loc (thrV d L) ↦[(oSl L 28).view.set]{fullShare} (gatherRows (F := F) fh fs : Buf (Elt F) (oV.view.loc (thrV d L))))
          ∗ ((oSl L 29).view.loc (thrV d L) ↦[(oSl L 29).view.set]{fullShare} (gatherRows (F := F) fh fs : Buf (Elt F) (oV.view.loc (thrV d L))))
          ∗ ((oSl L 30).view.loc (thrV d L) ↦[(oSl L 30).view.set]{fullShare} (gatherRows (F := F) fh fs : Buf (Elt F) (oV.view.loc (thrV d L))))
          ∗ ((oSl L 31).view.loc (thrV d L) ↦[(oSl L 31).view.set]{fullShare} (gatherRows (F := F) fh fs : Buf (Elt F) (oV.view.loc (thrV d L))))
          ∗ ((oSl L 32).view.loc (thrV d L) ↦[(oSl L 32).view.set]{fullShare} (gatherRows (F := F) fh fs : Buf (Elt F) (oV.view.loc (thrV d L))))
          ∗ ((oSl L 33).view.loc (thrV d L) ↦[(oSl L 33).view.set]{fullShare} (gatherRows (F := F) fh fs : Buf (Elt F) (oV.view.loc (thrV d L))))
          ∗ ((oSl L 34).view.loc (thrV d L) ↦[(oSl L 34).view.set]{fullShare} (gatherRows (F := F) fh fs : Buf (Elt F) (oV.view.loc (thrV d L))))
          ∗ ((oSl L 35).view.loc (thrV d L) ↦[(oSl L 35).view.set]{fullShare} (gatherRows (F := F) fh fs : Buf (Elt F) (oV.view.loc (thrV d L))))
          ∗ ((oSl L 36).view.loc (thrV d L) ↦[(oSl L 36).view.set]{fullShare} (gatherRows (F := F) fh fs : Buf (Elt F) (oV.view.loc (thrV d L))))
          ∗ ((oSl L 37).view.loc (thrV d L) ↦[(oSl L 37).view.set]{fullShare} (gatherRows (F := F) fh fs : Buf (Elt F) (oV.view.loc (thrV d L))))
          ∗ ((oSl L 38).view.loc (thrV d L) ↦[(oSl L 38).view.set]{fullShare} (gatherRows (F := F) fh fs : Buf (Elt F) (oV.view.loc (thrV d L))))
          ∗ ((oSl L 39).view.loc (thrV d L) ↦[(oSl L 39).view.set]{fullShare} (gatherRows (F := F) fh fs : Buf (Elt F) (oV.view.loc (thrV d L))))
          ∗ ((oSl L 40).view.loc (thrV d L) ↦[(oSl L 40).view.set]{fullShare} (gatherRows (F := F) fh fs : Buf (Elt F) (oV.view.loc (thrV d L))))
          ∗ ((oSl L 41).view.loc (thrV d L) ↦[(oSl L 41).view.set]{fullShare} (gatherRows (F := F) fh fs : Buf (Elt F) (oV.view.loc (thrV d L))))
          ∗ ((oSl L 42).view.loc (thrV d L) ↦[(oSl L 42).view.set]{fullShare} (gatherRows (F := F) fh fs : Buf (Elt F) (oV.view.loc (thrV d L))))
          ∗ ((oSl L 43).view.loc (thrV d L) ↦[(oSl L 43).view.set]{fullShare} (gatherRows (F := F) fh fs : Buf (Elt F) (oV.view.loc (thrV d L))))
          ∗ ((oSl L 44).view.loc (thrV d L) ↦[(oSl L 44).view.set]{fullShare} (gatherRows (F := F) fh fs : Buf (Elt F) (oV.view.loc (thrV d L))))
          ∗ ((oSl L 45).view.loc (thrV d L) ↦[(oSl L 45).view.set]{fullShare} (gatherRows (F := F) fh fs : Buf (Elt F) (oV.view.loc (thrV d L))))
          ∗ ((oSl L 46).view.loc (thrV d L) ↦[(oSl L 46).view.set]{fullShare} (gatherRows (F := F) fh fs : Buf (Elt F) (oV.view.loc (thrV d L))))
          ∗ ((oSl L 47).view.loc (thrV d L) ↦[(oSl L 47).view.set]{fullShare} (gatherRows (F := F) fh fs : Buf (Elt F) (oV.view.loc (thrV d L))))
          ∗ ((oSl L 48).view.loc (thrV d L) ↦[(oSl L 48).view.set]{fullShare} (gatherRows (F := F) fh fs : Buf (Elt F) (oV.view.loc (thrV d L))))
          ∗ ((oSl L 49).view.loc (thrV d L) ↦[(oSl L 49).view.set]{fullShare} (gatherRows (F := F) fh fs : Buf (Elt F) (oV.view.loc (thrV d L))))
          ∗ ((oSl L 50).view.loc (thrV d L) ↦[(oSl L 50).view.set]{fullShare} (gatherRows (F := F) fh fs : Buf (Elt F) (oV.view.loc (thrV d L))))
          ∗ ((oSl L 51).view.loc (thrV d L) ↦[(oSl L 51).view.set]{fullShare} (gatherRows (F := F) fh fs : Buf (Elt F) (oV.view.loc (thrV d L))))
          ∗ ((oSl L 52).view.loc (thrV d L) ↦[(oSl L 52).view.set]{fullShare} (gatherRows (F := F) fh fs : Buf (Elt F) (oV.view.loc (thrV d L))))
          ∗ ((oSl L 53).view.loc (thrV d L) ↦[(oSl L 53).view.set]{fullShare} (gatherRows (F := F) fh fs : Buf (Elt F) (oV.view.loc (thrV d L))))
          ∗ ((oSl L 54).view.loc (thrV d L) ↦[(oSl L 54).view.set]{fullShare} (gatherRows (F := F) fh fs : Buf (Elt F) (oV.view.loc (thrV d L))))
          ∗ ((oSl L 55).view.loc (thrV d L) ↦[(oSl L 55).view.set]{fullShare} (gatherRows (F := F) fh fs : Buf (Elt F) (oV.view.loc (thrV d L))))
          ∗ ((oSl L 56).view.loc (thrV d L) ↦[(oSl L 56).view.set]{fullShare} (gatherRows (F := F) fh fs : Buf (Elt F) (oV.view.loc (thrV d L))))
          ∗ ((oSl L 57).view.loc (thrV d L) ↦[(oSl L 57).view.set]{fullShare} (gatherRows (F := F) fh fs : Buf (Elt F) (oV.view.loc (thrV d L))))
          ∗ ((oSl L 58).view.loc (thrV d L) ↦[(oSl L 58).view.set]{fullShare} (gatherRows (F := F) fh fs : Buf (Elt F) (oV.view.loc (thrV d L))))
          ∗ ((oSl L 59).view.loc (thrV d L) ↦[(oSl L 59).view.set]{fullShare} (gatherRows (F := F) fh fs : Buf (Elt F) (oV.view.loc (thrV d L))))
          ∗ ((oSl L 60).view.loc (thrV d L) ↦[(oSl L 60).view.set]{fullShare} (gatherRows (F := F) fh fs : Buf (Elt F) (oV.view.loc (thrV d L))))
          ∗ ((oSl L 61).view.loc (thrV d L) ↦[(oSl L 61).view.set]{fullShare} (gatherRows (F := F) fh fs : Buf (Elt F) (oV.view.loc (thrV d L))))
          ∗ ((oSl L 62).view.loc (thrV d L) ↦[(oSl L 62).view.set]{fullShare} (gatherRows (F := F) fh fs : Buf (Elt F) (oV.view.loc (thrV d L))))
          ∗ ((oSl L 63).view.loc (thrV d L) ↦[(oSl L 63).view.set]{fullShare} (gatherRows (F := F) fh fs : Buf (Elt F) (oV.view.loc (thrV d L))))
          ∗ ((oSl L 64).view.loc (thrV d L) ↦[(oSl L 64).view.set]{fullShare} (gatherRows (F := F) fh fs : Buf (Elt F) (oV.view.loc (thrV d L))))
          ∗ ((oSl L 65).view.loc (thrV d L) ↦[(oSl L 65).view.set]{fullShare} (gatherRows (F := F) fh fs : Buf (Elt F) (oV.view.loc (thrV d L))))
          ∗ ((oSl L 66).view.loc (thrV d L) ↦[(oSl L 66).view.set]{fullShare} (gatherRows (F := F) fh fs : Buf (Elt F) (oV.view.loc (thrV d L))))
          ∗ ((oSl L 67).view.loc (thrV d L) ↦[(oSl L 67).view.set]{fullShare} (gatherRows (F := F) fh fs : Buf (Elt F) (oV.view.loc (thrV d L))))
          ∗ ((oSl L 68).view.loc (thrV d L) ↦[(oSl L 68).view.set]{fullShare} (gatherRows (F := F) fh fs : Buf (Elt F) (oV.view.loc (thrV d L))))
          ∗ ((oSl L 69).view.loc (thrV d L) ↦[(oSl L 69).view.set]{fullShare} (gatherRows (F := F) fh fs : Buf (Elt F) (oV.view.loc (thrV d L))))
          ∗ ((oSl L 70).view.loc (thrV d L) ↦[(oSl L 70).view.set]{fullShare} (gatherRows (F := F) fh fs : Buf (Elt F) (oV.view.loc (thrV d L))))
          ∗ ((oSl L 71).view.loc (thrV d L) ↦[(oSl L 71).view.set]{fullShare} (gatherRows (F := F) fh fs : Buf (Elt F) (oV.view.loc (thrV d L))))
          ∗ ((oSl L 72).view.loc (thrV d L) ↦[(oSl L 72).view.set]{fullShare} (gatherRows (F := F) fh fs : Buf (Elt F) (oV.view.loc (thrV d L))))
          ∗ ((oSl L 73).view.loc (thrV d L) ↦[(oSl L 73).view.set]{fullShare} (gatherRows (F := F) fh fs : Buf (Elt F) (oV.view.loc (thrV d L))))
          ∗ ((oSl L 74).view.loc (thrV d L) ↦[(oSl L 74).view.set]{fullShare} (gatherRows (F := F) fh fs : Buf (Elt F) (oV.view.loc (thrV d L))))
          ∗ ((oSl L 75).view.loc (thrV d L) ↦[(oSl L 75).view.set]{fullShare} (gatherRows (F := F) fh fs : Buf (Elt F) (oV.view.loc (thrV d L))))
          ∗ ((oSl L 76).view.loc (thrV d L) ↦[(oSl L 76).view.set]{fullShare} (gatherRows (F := F) fh fs : Buf (Elt F) (oV.view.loc (thrV d L))))
          ∗ ((oSl L 77).view.loc (thrV d L) ↦[(oSl L 77).view.set]{fullShare} (gatherRows (F := F) fh fs : Buf (Elt F) (oV.view.loc (thrV d L))))
          ∗ ((oSl L 78).view.loc (thrV d L) ↦[(oSl L 78).view.set]{fullShare} (gatherRows (F := F) fh fs : Buf (Elt F) (oV.view.loc (thrV d L))))
          ∗ ((oSl L 79).view.loc (thrV d L) ↦[(oSl L 79).view.set]{fullShare} (gatherRows (F := F) fh fs : Buf (Elt F) (oV.view.loc (thrV d L))))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ semVal ((thrV d L), SemLoc.dma cc1_scoped0.sem) 0
          ∗ semVal ((thrV d L), SemLoc.dma cc1_scoped1.sem) 0
          ∗ semVal ((thrV d L), SemLoc.dma cc1_scoped2.sem) 0
          ∗ semVal ((thrV d L), SemLoc.dma cc1_scoped3.sem) 0
          ∗ semVal ((thrV d L), SemLoc.dma cc1_scoped4.sem) 0
          ∗ semVal ((thrV d L), SemLoc.dma cc1_scoped5.sem) 0
          ∗ semVal ((thrV d L), SemLoc.dma cc1_scoped6.sem) 0
          ∗ semVal ((thrV d L), SemLoc.dma cc1_scoped7.sem) 0
          ∗ semVal ((thrV d L), SemLoc.dma cc1_scoped8.sem) 0
          ∗ semVal ((thrV d L), SemLoc.dma cc1_scoped9.sem) 0
          ∗ semVal ((thrV d L), SemLoc.dma cc1_scoped10.sem) 0
          ∗ semVal ((thrV d L), SemLoc.dma cc1_scoped11.sem) 0
          ∗ semVal ((thrV d L), SemLoc.dma cc1_scoped12.sem) 0
          ∗ semVal ((thrV d L), SemLoc.dma cc1_scoped13.sem) 0
          ∗ semVal ((thrV d L), SemLoc.dma cc1_scoped14.sem) 0
          ∗ semVal ((thrV d L), SemLoc.dma cc1_scoped15.sem) 0
          ∗ semVal ((thrV d L), SemLoc.dma cc1_scoped16.sem) 0
          ∗ semVal ((thrV d L), SemLoc.dma cc1_scoped17.sem) 0
          ∗ semVal ((thrV d L), SemLoc.dma cc1_scoped18.sem) 0
          ∗ semVal ((thrV d L), SemLoc.dma cc1_scoped19.sem) 0
          ∗ semVal ((thrV d L), SemLoc.dma cc1_scoped20.sem) 0
          ∗ semVal ((thrV d L), SemLoc.dma cc1_scoped21.sem) 0
          ∗ semVal ((thrV d L), SemLoc.dma cc1_scoped22.sem) 0
          ∗ semVal ((thrV d L), SemLoc.dma cc1_scoped23.sem) 0
          ∗ semVal ((thrV d L), SemLoc.dma cc1_scoped24.sem) 0
          ∗ semVal ((thrV d L), SemLoc.dma cc1_scoped25.sem) 0
          ∗ semVal ((thrV d L), SemLoc.dma cc1_scoped26.sem) 0
          ∗ semVal ((thrV d L), SemLoc.dma cc1_scoped27.sem) 0
          ∗ semVal ((thrV d L), SemLoc.dma cc1_scoped28.sem) 0
          ∗ semVal ((thrV d L), SemLoc.dma cc1_scoped29.sem) 0
          ∗ semVal ((thrV d L), SemLoc.dma cc1_scoped30.sem) 0
          ∗ semVal ((thrV d L), SemLoc.dma cc1_scoped31.sem) 0
          ∗ semVal ((thrV d L), SemLoc.dma cc1_scoped32.sem) 0
          ∗ semVal ((thrV d L), SemLoc.dma cc1_scoped33.sem) 0
          ∗ semVal ((thrV d L), SemLoc.dma cc1_scoped34.sem) 0
          ∗ semVal ((thrV d L), SemLoc.dma cc1_scoped35.sem) 0
          ∗ semVal ((thrV d L), SemLoc.dma cc1_scoped36.sem) 0
          ∗ semVal ((thrV d L), SemLoc.dma cc1_scoped37.sem) 0
          ∗ semVal ((thrV d L), SemLoc.dma cc1_scoped38.sem) 0
          ∗ semVal ((thrV d L), SemLoc.dma cc1_scoped39.sem) 0
          ∗ semVal ((thrV d L), SemLoc.dma cc1_scoped40.sem) 0
          ∗ semVal ((thrV d L), SemLoc.dma cc1_scoped41.sem) 0
          ∗ semVal ((thrV d L), SemLoc.dma cc1_scoped42.sem) 0
          ∗ semVal ((thrV d L), SemLoc.dma cc1_scoped43.sem) 0
          ∗ semVal ((thrV d L), SemLoc.dma cc1_scoped44.sem) 0
          ∗ semVal ((thrV d L), SemLoc.dma cc1_scoped45.sem) 0
          ∗ semVal ((thrV d L), SemLoc.dma cc1_scoped46.sem) 0
          ∗ semVal ((thrV d L), SemLoc.dma cc1_scoped47.sem) 0
          ∗ semVal ((thrV d L), SemLoc.dma cc1_scoped48.sem) 0
          ∗ semVal ((thrV d L), SemLoc.dma cc1_scoped49.sem) 0
          ∗ semVal ((thrV d L), SemLoc.dma cc1_scoped50.sem) 0
          ∗ semVal ((thrV d L), SemLoc.dma cc1_scoped51.sem) 0
          ∗ semVal ((thrV d L), SemLoc.dma cc1_scoped52.sem) 0
          ∗ semVal ((thrV d L), SemLoc.dma cc1_scoped53.sem) 0
          ∗ semVal ((thrV d L), SemLoc.dma cc1_scoped54.sem) 0
          ∗ semVal ((thrV d L), SemLoc.dma cc1_scoped55.sem) 0
          ∗ semVal ((thrV d L), SemLoc.dma cc1_scoped56.sem) 0
          ∗ semVal ((thrV d L), SemLoc.dma cc1_scoped57.sem) 0
          ∗ semVal ((thrV d L), SemLoc.dma cc1_scoped58.sem) 0
          ∗ semVal ((thrV d L), SemLoc.dma cc1_scoped59.sem) 0
          ∗ semVal ((thrV d L), SemLoc.dma cc1_scoped60.sem) 0
          ∗ semVal ((thrV d L), SemLoc.dma cc1_scoped61.sem) 0
          ∗ semVal ((thrV d L), SemLoc.dma cc1_scoped62.sem) 0
          ∗ semVal ((thrV d L), SemLoc.dma cc1_scoped63.sem) 0
          ∗ semVal ((thrV d L), SemLoc.dma cc1_scoped64.sem) 0
          ∗ semVal ((thrV d L), SemLoc.dma cc1_scoped65.sem) 0
          ∗ semVal ((thrV d L), SemLoc.dma cc1_scoped66.sem) 0
          ∗ semVal ((thrV d L), SemLoc.dma cc1_scoped67.sem) 0
          ∗ semVal ((thrV d L), SemLoc.dma cc1_scoped68.sem) 0
          ∗ semVal ((thrV d L), SemLoc.dma cc1_scoped69.sem) 0
          ∗ semVal ((thrV d L), SemLoc.dma cc1_scoped70.sem) 0
          ∗ semVal ((thrV d L), SemLoc.dma cc1_scoped71.sem) 0
          ∗ semVal ((thrV d L), SemLoc.dma cc1_scoped72.sem) 0
          ∗ semVal ((thrV d L), SemLoc.dma cc1_scoped73.sem) 0
          ∗ semVal ((thrV d L), SemLoc.dma cc1_scoped74.sem) 0
          ∗ semVal ((thrV d L), SemLoc.dma cc1_scoped75.sem) 0
          ∗ semVal ((thrV d L), SemLoc.dma cc1_scoped76.sem) 0
          ∗ semVal ((thrV d L), SemLoc.dma cc1_scoped77.sem) 0
          ∗ semVal ((thrV d L), SemLoc.dma cc1_scoped78.sem) 0
          ∗ semVal ((thrV d L), SemLoc.dma cc1_scoped79.sem) 0
          ∗ semVal ((thrV d L), SemLoc.dma cc1_scoped80.sem) 0
          ∗ semVal ((thrV d L), SemLoc.dma cc1_scoped81.sem) 0
          ∗ semVal ((thrV d L), SemLoc.dma cc1_scoped82.sem) 0
          ∗ semVal ((thrV d L), SemLoc.dma cc1_scoped83.sem) 0
          ∗ semVal ((thrV d L), SemLoc.dma cc1_scoped84.sem) 0
          ∗ semVal ((thrV d L), SemLoc.dma cc1_scoped85.sem) 0
          ∗ semVal ((thrV d L), SemLoc.dma cc1_scoped86.sem) 0
          ∗ semVal ((thrV d L), SemLoc.dma cc1_scoped87.sem) 0
          ∗ semVal ((thrV d L), SemLoc.dma cc1_scoped88.sem) 0
          ∗ semVal ((thrV d L), SemLoc.dma cc1_scoped89.sem) 0
          ∗ semVal ((thrV d L), SemLoc.dma cc1_scoped90.sem) 0
          ∗ semVal ((thrV d L), SemLoc.dma cc1_scoped91.sem) 0
          ∗ semVal ((thrV d L), SemLoc.dma cc1_scoped92.sem) 0
          ∗ semVal ((thrV d L), SemLoc.dma cc1_scoped93.sem) 0
          ∗ semVal ((thrV d L), SemLoc.dma cc1_scoped94.sem) 0
          ∗ semVal ((thrV d L), SemLoc.dma cc1_scoped95.sem) 0
          ∗ semVal ((thrV d L), SemLoc.dma cc1_scoped96.sem) 0
          ∗ semVal ((thrV d L), SemLoc.dma cc1_scoped97.sem) 0
          ∗ semVal ((thrV d L), SemLoc.dma cc1_scoped98.sem) 0
          ∗ semVal ((thrV d L), SemLoc.dma cc1_scoped99.sem) 0
          ∗ semVal ((thrV d L), SemLoc.dma cc1_scoped100.sem) 0
          ∗ semVal ((thrV d L), SemLoc.dma cc1_scoped101.sem) 0
          ∗ semVal ((thrV d L), SemLoc.dma cc1_scoped102.sem) 0
          ∗ semVal ((thrV d L), SemLoc.dma cc1_scoped103.sem) 0
          ∗ semVal ((thrV d L), SemLoc.dma cc1_scoped104.sem) 0
          ∗ semVal ((thrV d L), SemLoc.dma cc1_scoped105.sem) 0
          ∗ semVal ((thrV d L), SemLoc.dma cc1_scoped106.sem) 0
          ∗ semVal ((thrV d L), SemLoc.dma cc1_scoped107.sem) 0
          ∗ semVal ((thrV d L), SemLoc.dma cc1_scoped108.sem) 0
          ∗ semVal ((thrV d L), SemLoc.dma cc1_scoped109.sem) 0
          ∗ semVal ((thrV d L), SemLoc.dma cc1_scoped110.sem) 0
          ∗ semVal ((thrV d L), SemLoc.dma cc1_scoped111.sem) 0
          ∗ semVal ((thrV d L), SemLoc.dma cc1_scoped112.sem) 0
          ∗ semVal ((thrV d L), SemLoc.dma cc1_scoped113.sem) 0
          ∗ semVal ((thrV d L), SemLoc.dma cc1_scoped114.sem) 0
          ∗ semVal ((thrV d L), SemLoc.dma cc1_scoped115.sem) 0
          ∗ semVal ((thrV d L), SemLoc.dma cc1_scoped116.sem) 0
          ∗ semVal ((thrV d L), SemLoc.dma cc1_scoped117.sem) 0
          ∗ semVal ((thrV d L), SemLoc.dma cc1_scoped118.sem) 0
          ∗ semVal ((thrV d L), SemLoc.dma cc1_scoped119.sem) 0
          ∗ semVal ((thrV d L), SemLoc.dma cc1_scoped120.sem) 0
          ∗ semVal ((thrV d L), SemLoc.dma cc1_scoped121.sem) 0
          ∗ semVal ((thrV d L), SemLoc.dma cc1_scoped122.sem) 0
          ∗ semVal ((thrV d L), SemLoc.dma cc1_scoped123.sem) 0
          ∗ semVal ((thrV d L), SemLoc.dma cc1_scoped124.sem) 0
          ∗ semVal ((thrV d L), SemLoc.dma cc1_scoped125.sem) 0
          ∗ semVal ((thrV d L), SemLoc.dma cc1_scoped126.sem) 0
          ∗ semVal ((thrV d L), SemLoc.dma cc1_scoped127.sem) 0
          ∗ semVal ((thrV d L), SemLoc.dma cc1_scoped128.sem) 0
          ∗ semVal ((thrV d L), SemLoc.dma cc1_scoped129.sem) 0
          ∗ semVal ((thrV d L), SemLoc.dma cc1_scoped130.sem) 0
          ∗ semVal ((thrV d L), SemLoc.dma cc1_scoped131.sem) 0
          ∗ semVal ((thrV d L), SemLoc.dma cc1_scoped132.sem) 0
          ∗ semVal ((thrV d L), SemLoc.dma cc1_scoped133.sem) 0
          ∗ semVal ((thrV d L), SemLoc.dma cc1_scoped134.sem) 0
          ∗ semVal ((thrV d L), SemLoc.dma cc1_scoped135.sem) 0
          ∗ semVal ((thrV d L), SemLoc.dma cc1_scoped136.sem) 0
          ∗ semVal ((thrV d L), SemLoc.dma cc1_scoped137.sem) 0
          ∗ semVal ((thrV d L), SemLoc.dma cc1_scoped138.sem) 0
          ∗ semVal ((thrV d L), SemLoc.dma cc1_scoped139.sem) 0
          ∗ semVal ((thrV d L), SemLoc.dma cc1_scoped140.sem) 0
          ∗ semVal ((thrV d L), SemLoc.dma cc1_scoped141.sem) 0
          ∗ semVal ((thrV d L), SemLoc.dma cc1_scoped142.sem) 0
          ∗ semVal ((thrV d L), SemLoc.dma cc1_scoped143.sem) 0
          ∗ semVal ((thrV d L), SemLoc.dma cc1_scoped144.sem) 0
          ∗ semVal ((thrV d L), SemLoc.dma cc1_scoped145.sem) 0
          ∗ semVal ((thrV d L), SemLoc.dma cc1_scoped146.sem) 0
          ∗ semVal ((thrV d L), SemLoc.dma cc1_scoped147.sem) 0
          ∗ semVal ((thrV d L), SemLoc.dma cc1_scoped148.sem) 0
          ∗ semVal ((thrV d L), SemLoc.dma cc1_scoped149.sem) 0
          ∗ semVal ((thrV d L), SemLoc.dma cc1_scoped150.sem) 0
          ∗ semVal ((thrV d L), SemLoc.dma cc1_scoped151.sem) 0
          ∗ semVal ((thrV d L), SemLoc.dma cc1_scoped152.sem) 0
          ∗ semVal ((thrV d L), SemLoc.dma cc1_scoped153.sem) 0
          ∗ semVal ((thrV d L), SemLoc.dma cc1_scoped154.sem) 0
          ∗ semVal ((thrV d L), SemLoc.dma cc1_scoped155.sem) 0
          ∗ semVal ((thrV d L), SemLoc.dma cc1_scoped156.sem) 0
          ∗ semVal ((thrV d L), SemLoc.dma cc1_scoped157.sem) 0
          ∗ semVal ((thrV d L), SemLoc.dma cc1_scoped158.sem) 0
          ∗ semVal ((thrV d L), SemLoc.dma cc1_scoped159.sem) 0
          ∗ semVal ((thrV d L), SemLoc.dma cc1_scoped160.sem) 0
          ∗ semVal ((thrV d L), SemLoc.dma cc1_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q :=
  tile_run' d L q fh fs hfs fo f0 f1 f2 f3 f4 O W hO Q

end Tile

end Cert.Proof.KB

end
-- ==== Proof.TileGroupB.lean ====
/-
  The gather kernel's task run with its eighty output chunks and its 162 transfer counters held as chains over lists,
  the form the launch's bookkeeping splits and joins; it is the flat statement regrouped.
-/
import proofs.«207928_g75127567942135_cont_9to1c4b_313_20_alg».proof.Proof.TileB
import proofs.«207928_g75127567942135_cont_9to1c4b_313_20_alg».proof.Proof.GatherSpecB

noncomputable section

namespace Cert.Proof.KB

open Cert.Kernel Cert.Kernel.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile

variable (d : Dev nD) (L : grid1.Coords)

/-- The eighty chunks of a task, listed. -/
abbrev l80 : List (Fin 80) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79]

/-- The kernel's own transfer semaphores at this call, listed: one per copy and per gather. -/
abbrev sems1 : List (SemLoc sig) := [SemLoc.dma cc1_scoped0.sem, SemLoc.dma cc1_scoped1.sem, SemLoc.dma cc1_scoped2.sem, SemLoc.dma cc1_scoped3.sem, SemLoc.dma cc1_scoped4.sem, SemLoc.dma cc1_scoped5.sem, SemLoc.dma cc1_scoped6.sem, SemLoc.dma cc1_scoped7.sem, SemLoc.dma cc1_scoped8.sem, SemLoc.dma cc1_scoped9.sem, SemLoc.dma cc1_scoped10.sem, SemLoc.dma cc1_scoped11.sem, SemLoc.dma cc1_scoped12.sem, SemLoc.dma cc1_scoped13.sem, SemLoc.dma cc1_scoped14.sem, SemLoc.dma cc1_scoped15.sem, SemLoc.dma cc1_scoped16.sem, SemLoc.dma cc1_scoped17.sem, SemLoc.dma cc1_scoped18.sem, SemLoc.dma cc1_scoped19.sem, SemLoc.dma cc1_scoped20.sem, SemLoc.dma cc1_scoped21.sem, SemLoc.dma cc1_scoped22.sem, SemLoc.dma cc1_scoped23.sem, SemLoc.dma cc1_scoped24.sem, SemLoc.dma cc1_scoped25.sem, SemLoc.dma cc1_scoped26.sem, SemLoc.dma cc1_scoped27.sem, SemLoc.dma cc1_scoped28.sem, SemLoc.dma cc1_scoped29.sem, SemLoc.dma cc1_scoped30.sem, SemLoc.dma cc1_scoped31.sem, SemLoc.dma cc1_scoped32.sem, SemLoc.dma cc1_scoped33.sem, SemLoc.dma cc1_scoped34.sem, SemLoc.dma cc1_scoped35.sem, SemLoc.dma cc1_scoped36.sem, SemLoc.dma cc1_scoped37.sem, SemLoc.dma cc1_scoped38.sem, SemLoc.dma cc1_scoped39.sem, SemLoc.dma cc1_scoped40.sem, SemLoc.dma cc1_scoped41.sem, SemLoc.dma cc1_scoped42.sem, SemLoc.dma cc1_scoped43.sem, SemLoc.dma cc1_scoped44.sem, SemLoc.dma cc1_scoped45.sem, SemLoc.dma cc1_scoped46.sem, SemLoc.dma cc1_scoped47.sem, SemLoc.dma cc1_scoped48.sem, SemLoc.dma cc1_scoped49.sem, SemLoc.dma cc1_scoped50.sem, SemLoc.dma cc1_scoped51.sem, SemLoc.dma cc1_scoped52.sem, SemLoc.dma cc1_scoped53.sem, SemLoc.dma cc1_scoped54.sem, SemLoc.dma cc1_scoped55.sem, SemLoc.dma cc1_scoped56.sem, SemLoc.dma cc1_scoped57.sem, SemLoc.dma cc1_scoped58.sem, SemLoc.dma cc1_scoped59.sem, SemLoc.dma cc1_scoped60.sem, SemLoc.dma cc1_scoped61.sem, SemLoc.dma cc1_scoped62.sem, SemLoc.dma cc1_scoped63.sem, SemLoc.dma cc1_scoped64.sem, SemLoc.dma cc1_scoped65.sem, SemLoc.dma cc1_scoped66.sem, SemLoc.dma cc1_scoped67.sem, SemLoc.dma cc1_scoped68.sem, SemLoc.dma cc1_scoped69.sem, SemLoc.dma cc1_scoped70.sem, SemLoc.dma cc1_scoped71.sem, SemLoc.dma cc1_scoped72.sem, SemLoc.dma cc1_scoped73.sem, SemLoc.dma cc1_scoped74.sem, SemLoc.dma cc1_scoped75.sem, SemLoc.dma cc1_scoped76.sem, SemLoc.dma cc1_scoped77.sem, SemLoc.dma cc1_scoped78.sem, SemLoc.dma cc1_scoped79.sem, SemLoc.dma cc1_scoped80.sem, SemLoc.dma cc1_scoped81.sem, SemLoc.dma cc1_scoped82.sem, SemLoc.dma cc1_scoped83.sem, SemLoc.dma cc1_scoped84.sem, SemLoc.dma cc1_scoped85.sem, SemLoc.dma cc1_scoped86.sem, SemLoc.dma cc1_scoped87.sem, SemLoc.dma cc1_scoped88.sem, SemLoc.dma cc1_scoped89.sem, SemLoc.dma cc1_scoped90.sem, SemLoc.dma cc1_scoped91.sem, SemLoc.dma cc1_scoped92.sem, SemLoc.dma cc1_scoped93.sem, SemLoc.dma cc1_scoped94.sem, SemLoc.dma cc1_scoped95.sem, SemLoc.dma cc1_scoped96.sem, SemLoc.dma cc1_scoped97.sem, SemLoc.dma cc1_scoped98.sem, SemLoc.dma cc1_scoped99.sem, SemLoc.dma cc1_scoped100.sem, SemLoc.dma cc1_scoped101.sem, SemLoc.dma cc1_scoped102.sem, SemLoc.dma cc1_scoped103.sem, SemLoc.dma cc1_scoped104.sem, SemLoc.dma cc1_scoped105.sem, SemLoc.dma cc1_scoped106.sem, SemLoc.dma cc1_scoped107.sem, SemLoc.dma cc1_scoped108.sem, SemLoc.dma cc1_scoped109.sem, SemLoc.dma cc1_scoped110.sem, SemLoc.dma cc1_scoped111.sem, SemLoc.dma cc1_scoped112.sem, SemLoc.dma cc1_scoped113.sem, SemLoc.dma cc1_scoped114.sem, SemLoc.dma cc1_scoped115.sem, SemLoc.dma cc1_scoped116.sem, SemLoc.dma cc1_scoped117.sem, SemLoc.dma cc1_scoped118.sem, SemLoc.dma cc1_scoped119.sem, SemLoc.dma cc1_scoped120.sem, SemLoc.dma cc1_scoped121.sem, SemLoc.dma cc1_scoped122.sem, SemLoc.dma cc1_scoped123.sem, SemLoc.dma cc1_scoped124.sem, SemLoc.dma cc1_scoped125.sem, SemLoc.dma cc1_scoped126.sem, SemLoc.dma cc1_scoped127.sem, SemLoc.dma cc1_scoped128.sem, SemLoc.dma cc1_scoped129.sem, SemLoc.dma cc1_scoped130.sem, SemLoc.dma cc1_scoped131.sem, SemLoc.dma cc1_scoped132.sem, SemLoc.dma cc1_scoped133.sem, SemLoc.dma cc1_scoped134.sem, SemLoc.dma cc1_scoped135.sem, SemLoc.dma cc1_scoped136.sem, SemLoc.dma cc1_scoped137.sem, SemLoc.dma cc1_scoped138.sem, SemLoc.dma cc1_scoped139.sem, SemLoc.dma cc1_scoped140.sem, SemLoc.dma cc1_scoped141.sem, SemLoc.dma cc1_scoped142.sem, SemLoc.dma cc1_scoped143.sem, SemLoc.dma cc1_scoped144.sem, SemLoc.dma cc1_scoped145.sem, SemLoc.dma cc1_scoped146.sem, SemLoc.dma cc1_scoped147.sem, SemLoc.dma cc1_scoped148.sem, SemLoc.dma cc1_scoped149.sem, SemLoc.dma cc1_scoped150.sem, SemLoc.dma cc1_scoped151.sem, SemLoc.dma cc1_scoped152.sem, SemLoc.dma cc1_scoped153.sem, SemLoc.dma cc1_scoped154.sem, SemLoc.dma cc1_scoped155.sem, SemLoc.dma cc1_scoped156.sem, SemLoc.dma cc1_scoped157.sem, SemLoc.dma cc1_scoped158.sem, SemLoc.dma cc1_scoped159.sem, SemLoc.dma cc1_scoped160.sem, SemLoc.dma cc1_scoped161.sem]

set_option maxHeartbeats 8000000 in
theorem tile_grouped_aux (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ (((oSl L 0).view.loc (thrV d L) ↦[(oSl L 0).view.set]{fullShare} fo) ∗ ((oSl L 1).view.loc (thrV d L) ↦[(oSl L 1).view.set]{fullShare} fo) ∗ ((oSl L 2).view.loc (thrV d L) ↦[(oSl L 2).view.set]{fullShare} fo) ∗ ((oSl L 3).view.loc (thrV d L) ↦[(oSl L 3).view.set]{fullShare} fo) ∗ ((oSl L 4).view.loc (thrV d L) ↦[(oSl L 4).view.set]{fullShare} fo) ∗ ((oSl L 5).view.loc (thrV d L) ↦[(oSl L 5).view.set]{fullShare} fo) ∗ ((oSl L 6).view.loc (thrV d L) ↦[(oSl L 6).view.set]{fullShare} fo) ∗ ((oSl L 7).view.loc (thrV d L) ↦[(oSl L 7).view.set]{fullShare} fo) ∗ ((oSl L 8).view.loc (thrV d L) ↦[(oSl L 8).view.set]{fullShare} fo) ∗ ((oSl L 9).view.loc (thrV d L) ↦[(oSl L 9).view.set]{fullShare} fo) ∗ ((oSl L 10).view.loc (thrV d L) ↦[(oSl L 10).view.set]{fullShare} fo) ∗ ((oSl L 11).view.loc (thrV d L) ↦[(oSl L 11).view.set]{fullShare} fo) ∗ ((oSl L 12).view.loc (thrV d L) ↦[(oSl L 12).view.set]{fullShare} fo) ∗ ((oSl L 13).view.loc (thrV d L) ↦[(oSl L 13).view.set]{fullShare} fo) ∗ ((oSl L 14).view.loc (thrV d L) ↦[(oSl L 14).view.set]{fullShare} fo) ∗ ((oSl L 15).view.loc (thrV d L) ↦[(oSl L 15).view.set]{fullShare} fo) ∗ ((oSl L 16).view.loc (thrV d L) ↦[(oSl L 16).view.set]{fullShare} fo) ∗ ((oSl L 17).view.loc (thrV d L) ↦[(oSl L 17).view.set]{fullShare} fo) ∗ ((oSl L 18).view.loc (thrV d L) ↦[(oSl L 18).view.set]{fullShare} fo) ∗ ((oSl L 19).view.loc (thrV d L) ↦[(oSl L 19).view.set]{fullShare} fo) ∗ ((oSl L 20).view.loc (thrV d L) ↦[(oSl L 20).view.set]{fullShare} fo) ∗ ((oSl L 21).view.loc (thrV d L) ↦[(oSl L 21).view.set]{fullShare} fo) ∗ ((oSl L 22).view.loc (thrV d L) ↦[(oSl L 22).view.set]{fullShare} fo) ∗ ((oSl L 23).view.loc (thrV d L) ↦[(oSl L 23).view.set]{fullShare} fo) ∗ ((oSl L 24).view.loc (thrV d L) ↦[(oSl L 24).view.set]{fullShare} fo) ∗ ((oSl L 25).view.loc (thrV d L) ↦[(oSl L 25).view.set]{fullShare} fo) ∗ ((oSl L 26).view.loc (thrV d L) ↦[(oSl L 26).view.set]{fullShare} fo) ∗ ((oSl L 27).view.loc (thrV d L) ↦[(oSl L 27).view.set]{fullShare} fo) ∗ ((oSl L 28).view.loc (thrV d L) ↦[(oSl L 28).view.set]{fullShare} fo) ∗ ((oSl L 29).view.loc (thrV d L) ↦[(oSl L 29).view.set]{fullShare} fo) ∗ ((oSl L 30).view.loc (thrV d L) ↦[(oSl L 30).view.set]{fullShare} fo) ∗ ((oSl L 31).view.loc (thrV d L) ↦[(oSl L 31).view.set]{fullShare} fo) ∗ ((oSl L 32).view.loc (thrV d L) ↦[(oSl L 32).view.set]{fullShare} fo) ∗ ((oSl L 33).view.loc (thrV d L) ↦[(oSl L 33).view.set]{fullShare} fo) ∗ ((oSl L 34).view.loc (thrV d L) ↦[(oSl L 34).view.set]{fullShare} fo) ∗ ((oSl L 35).view.loc (thrV d L) ↦[(oSl L 35).view.set]{fullShare} fo) ∗ ((oSl L 36).view.loc (thrV d L) ↦[(oSl L 36).view.set]{fullShare} fo) ∗ ((oSl L 37).view.loc (thrV d L) ↦[(oSl L 37).view.set]{fullShare} fo) ∗ ((oSl L 38).view.loc (thrV d L) ↦[(oSl L 38).view.set]{fullShare} fo) ∗ ((oSl L 39).view.loc (thrV d L) ↦[(oSl L 39).view.set]{fullShare} fo) ∗ ((oSl L 40).view.loc (thrV d L) ↦[(oSl L 40).view.set]{fullShare} fo) ∗ ((oSl L 41).view.loc (thrV d L) ↦[(oSl L 41).view.set]{fullShare} fo) ∗ ((oSl L 42).view.loc (thrV d L) ↦[(oSl L 42).view.set]{fullShare} fo) ∗ ((oSl L 43).view.loc (thrV d L) ↦[(oSl L 43).view.set]{fullShare} fo) ∗ ((oSl L 44).view.loc (thrV d L) ↦[(oSl L 44).view.set]{fullShare} fo) ∗ ((oSl L 45).view.loc (thrV d L) ↦[(oSl L 45).view.set]{fullShare} fo) ∗ ((oSl L 46).view.loc (thrV d L) ↦[(oSl L 46).view.set]{fullShare} fo) ∗ ((oSl L 47).view.loc (thrV d L) ↦[(oSl L 47).view.set]{fullShare} fo) ∗ ((oSl L 48).view.loc (thrV d L) ↦[(oSl L 48).view.set]{fullShare} fo) ∗ ((oSl L 49).view.loc (thrV d L) ↦[(oSl L 49).view.set]{fullShare} fo) ∗ ((oSl L 50).view.loc (thrV d L) ↦[(oSl L 50).view.set]{fullShare} fo) ∗ ((oSl L 51).view.loc (thrV d L) ↦[(oSl L 51).view.set]{fullShare} fo) ∗ ((oSl L 52).view.loc (thrV d L) ↦[(oSl L 52).view.set]{fullShare} fo) ∗ ((oSl L 53).view.loc (thrV d L) ↦[(oSl L 53).view.set]{fullShare} fo) ∗ ((oSl L 54).view.loc (thrV d L) ↦[(oSl L 54).view.set]{fullShare} fo) ∗ ((oSl L 55).view.loc (thrV d L) ↦[(oSl L 55).view.set]{fullShare} fo) ∗ ((oSl L 56).view.loc (thrV d L) ↦[(oSl L 56).view.set]{fullShare} fo) ∗ ((oSl L 57).view.loc (thrV d L) ↦[(oSl L 57).view.set]{fullShare} fo) ∗ ((oSl L 58).view.loc (thrV d L) ↦[(oSl L 58).view.set]{fullShare} fo) ∗ ((oSl L 59).view.loc (thrV d L) ↦[(oSl L 59).view.set]{fullShare} fo) ∗ ((oSl L 60).view.loc (thrV d L) ↦[(oSl L 60).view.set]{fullShare} fo) ∗ ((oSl L 61).view.loc (thrV d L) ↦[(oSl L 61).view.set]{fullShare} fo) ∗ ((oSl L 62).view.loc (thrV d L) ↦[(oSl L 62).view.set]{fullShare} fo) ∗ ((oSl L 63).view.loc (thrV d L) ↦[(oSl L 63).view.set]{fullShare} fo) ∗ ((oSl L 64).view.loc (thrV d L) ↦[(oSl L 64).view.set]{fullShare} fo) ∗ ((oSl L 65).view.loc (thrV d L) ↦[(oSl L 65).view.set]{fullShare} fo) ∗ ((oSl L 66).view.loc (thrV d L) ↦[(oSl L 66).view.set]{fullShare} fo) ∗ ((oSl L 67).view.loc (thrV d L) ↦[(oSl L 67).view.set]{fullShare} fo) ∗ ((oSl L 68).view.loc (thrV d L) ↦[(oSl L 68).view.set]{fullShare} fo) ∗ ((oSl L 69).view.loc (thrV d L) ↦[(oSl L 69).view.set]{fullShare} fo) ∗ ((oSl L 70).view.loc (thrV d L) ↦[(oSl L 70).view.set]{fullShare} fo) ∗ ((oSl L 71).view.loc (thrV d L) ↦[(oSl L 71).view.set]{fullShare} fo) ∗ ((oSl L 72).view.loc (thrV d L) ↦[(oSl L 72).view.set]{fullShare} fo) ∗ ((oSl L 73).view.loc (thrV d L) ↦[(oSl L 73).view.set]{fullShare} fo) ∗ ((oSl L 74).view.loc (thrV d L) ↦[(oSl L 74).view.set]{fullShare} fo) ∗ ((oSl L 75).view.loc (thrV d L) ↦[(oSl L 75).view.set]{fullShare} fo) ∗ ((oSl L 76).view.loc (thrV d L) ↦[(oSl L 76).view.set]{fullShare} fo) ∗ ((oSl L 77).view.loc (thrV d L) ↦[(oSl L 77).view.set]{fullShare} fo) ∗ ((oSl L 78).view.loc (thrV d L) ↦[(oSl L 78).view.set]{fullShare} fo) ∗ ((oSl L 79).view.loc (thrV d L) ↦[(oSl L 79).view.set]{fullShare} fo))
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ (semVal ((thrV d L), SemLoc.dma cc1_scoped0.sem) 0 ∗ semVal ((thrV d L), SemLoc.dma cc1_scoped1.sem) 0 ∗ semVal ((thrV d L), SemLoc.dma cc1_scoped2.sem) 0 ∗ semVal ((thrV d L), SemLoc.dma cc1_scoped3.sem) 0 ∗ semVal ((thrV d L), SemLoc.dma cc1_scoped4.sem) 0 ∗ semVal ((thrV d L), SemLoc.dma cc1_scoped5.sem) 0 ∗ semVal ((thrV d L), SemLoc.dma cc1_scoped6.sem) 0 ∗ semVal ((thrV d L), SemLoc.dma cc1_scoped7.sem) 0 ∗ semVal ((thrV d L), SemLoc.dma cc1_scoped8.sem) 0 ∗ semVal ((thrV d L), SemLoc.dma cc1_scoped9.sem) 0 ∗ semVal ((thrV d L), SemLoc.dma cc1_scoped10.sem) 0 ∗ semVal ((thrV d L), SemLoc.dma cc1_scoped11.sem) 0 ∗ semVal ((thrV d L), SemLoc.dma cc1_scoped12.sem) 0 ∗ semVal ((thrV d L), SemLoc.dma cc1_scoped13.sem) 0 ∗ semVal ((thrV d L), SemLoc.dma cc1_scoped14.sem) 0 ∗ semVal ((thrV d L), SemLoc.dma cc1_scoped15.sem) 0 ∗ semVal ((thrV d L), SemLoc.dma cc1_scoped16.sem) 0 ∗ semVal ((thrV d L), SemLoc.dma cc1_scoped17.sem) 0 ∗ semVal ((thrV d L), SemLoc.dma cc1_scoped18.sem) 0 ∗ semVal ((thrV d L), SemLoc.dma cc1_scoped19.sem) 0 ∗ semVal ((thrV d L), SemLoc.dma cc1_scoped20.sem) 0 ∗ semVal ((thrV d L), SemLoc.dma cc1_scoped21.sem) 0 ∗ semVal ((thrV d L), SemLoc.dma cc1_scoped22.sem) 0 ∗ semVal ((thrV d L), SemLoc.dma cc1_scoped23.sem) 0 ∗ semVal ((thrV d L), SemLoc.dma cc1_scoped24.sem) 0 ∗ semVal ((thrV d L), SemLoc.dma cc1_scoped25.sem) 0 ∗ semVal ((thrV d L), SemLoc.dma cc1_scoped26.sem) 0 ∗ semVal ((thrV d L), SemLoc.dma cc1_scoped27.sem) 0 ∗ semVal ((thrV d L), SemLoc.dma cc1_scoped28.sem) 0 ∗ semVal ((thrV d L), SemLoc.dma cc1_scoped29.sem) 0 ∗ semVal ((thrV d L), SemLoc.dma cc1_scoped30.sem) 0 ∗ semVal ((thrV d L), SemLoc.dma cc1_scoped31.sem) 0 ∗ semVal ((thrV d L), SemLoc.dma cc1_scoped32.sem) 0 ∗ semVal ((thrV d L), SemLoc.dma cc1_scoped33.sem) 0 ∗ semVal ((thrV d L), SemLoc.dma cc1_scoped34.sem) 0 ∗ semVal ((thrV d L), SemLoc.dma cc1_scoped35.sem) 0 ∗ semVal ((thrV d L), SemLoc.dma cc1_scoped36.sem) 0 ∗ semVal ((thrV d L), SemLoc.dma cc1_scoped37.sem) 0 ∗ semVal ((thrV d L), SemLoc.dma cc1_scoped38.sem) 0 ∗ semVal ((thrV d L), SemLoc.dma cc1_scoped39.sem) 0 ∗ semVal ((thrV d L), SemLoc.dma cc1_scoped40.sem) 0 ∗ semVal ((thrV d L), SemLoc.dma cc1_scoped41.sem) 0 ∗ semVal ((thrV d L), SemLoc.dma cc1_scoped42.sem) 0 ∗ semVal ((thrV d L), SemLoc.dma cc1_scoped43.sem) 0 ∗ semVal ((thrV d L), SemLoc.dma cc1_scoped44.sem) 0 ∗ semVal ((thrV d L), SemLoc.dma cc1_scoped45.sem) 0 ∗ semVal ((thrV d L), SemLoc.dma cc1_scoped46.sem) 0 ∗ semVal ((thrV d L), SemLoc.dma cc1_scoped47.sem) 0 ∗ semVal ((thrV d L), SemLoc.dma cc1_scoped48.sem) 0 ∗ semVal ((thrV d L), SemLoc.dma cc1_scoped49.sem) 0 ∗ semVal ((thrV d L), SemLoc.dma cc1_scoped50.sem) 0 ∗ semVal ((thrV d L), SemLoc.dma cc1_scoped51.sem) 0 ∗ semVal ((thrV d L), SemLoc.dma cc1_scoped52.sem) 0 ∗ semVal ((thrV d L), SemLoc.dma cc1_scoped53.sem) 0 ∗ semVal ((thrV d L), SemLoc.dma cc1_scoped54.sem) 0 ∗ semVal ((thrV d L), SemLoc.dma cc1_scoped55.sem) 0 ∗ semVal ((thrV d L), SemLoc.dma cc1_scoped56.sem) 0 ∗ semVal ((thrV d L), SemLoc.dma cc1_scoped57.sem) 0 ∗ semVal ((thrV d L), SemLoc.dma cc1_scoped58.sem) 0 ∗ semVal ((thrV d L), SemLoc.dma cc1_scoped59.sem) 0 ∗ semVal ((thrV d L), SemLoc.dma cc1_scoped60.sem) 0 ∗ semVal ((thrV d L), SemLoc.dma cc1_scoped61.sem) 0 ∗ semVal ((thrV d L), SemLoc.dma cc1_scoped62.sem) 0 ∗ semVal ((thrV d L), SemLoc.dma cc1_scoped63.sem) 0 ∗ semVal ((thrV d L), SemLoc.dma cc1_scoped64.sem) 0 ∗ semVal ((thrV d L), SemLoc.dma cc1_scoped65.sem) 0 ∗ semVal ((thrV d L), SemLoc.dma cc1_scoped66.sem) 0 ∗ semVal ((thrV d L), SemLoc.dma cc1_scoped67.sem) 0 ∗ semVal ((thrV d L), SemLoc.dma cc1_scoped68.sem) 0 ∗ semVal ((thrV d L), SemLoc.dma cc1_scoped69.sem) 0 ∗ semVal ((thrV d L), SemLoc.dma cc1_scoped70.sem) 0 ∗ semVal ((thrV d L), SemLoc.dma cc1_scoped71.sem) 0 ∗ semVal ((thrV d L), SemLoc.dma cc1_scoped72.sem) 0 ∗ semVal ((thrV d L), SemLoc.dma cc1_scoped73.sem) 0 ∗ semVal ((thrV d L), SemLoc.dma cc1_scoped74.sem) 0 ∗ semVal ((thrV d L), SemLoc.dma cc1_scoped75.sem) 0 ∗ semVal ((thrV d L), SemLoc.dma cc1_scoped76.sem) 0 ∗ semVal ((thrV d L), SemLoc.dma cc1_scoped77.sem) 0 ∗ semVal ((thrV d L), SemLoc.dma cc1_scoped78.sem) 0 ∗ semVal ((thrV d L), SemLoc.dma cc1_scoped79.sem) 0 ∗ semVal ((thrV d L), SemLoc.dma cc1_scoped80.sem) 0 ∗ semVal ((thrV d L), SemLoc.dma cc1_scoped81.sem) 0 ∗ semVal ((thrV d L), SemLoc.dma cc1_scoped82.sem) 0 ∗ semVal ((thrV d L), SemLoc.dma cc1_scoped83.sem) 0 ∗ semVal ((thrV d L), SemLoc.dma cc1_scoped84.sem) 0 ∗ semVal ((thrV d L), SemLoc.dma cc1_scoped85.sem) 0 ∗ semVal ((thrV d L), SemLoc.dma cc1_scoped86.sem) 0 ∗ semVal ((thrV d L), SemLoc.dma cc1_scoped87.sem) 0 ∗ semVal ((thrV d L), SemLoc.dma cc1_scoped88.sem) 0 ∗ semVal ((thrV d L), SemLoc.dma cc1_scoped89.sem) 0 ∗ semVal ((thrV d L), SemLoc.dma cc1_scoped90.sem) 0 ∗ semVal ((thrV d L), SemLoc.dma cc1_scoped91.sem) 0 ∗ semVal ((thrV d L), SemLoc.dma cc1_scoped92.sem) 0 ∗ semVal ((thrV d L), SemLoc.dma cc1_scoped93.sem) 0 ∗ semVal ((thrV d L), SemLoc.dma cc1_scoped94.sem) 0 ∗ semVal ((thrV d L), SemLoc.dma cc1_scoped95.sem) 0 ∗ semVal ((thrV d L), SemLoc.dma cc1_scoped96.sem) 0 ∗ semVal ((thrV d L), SemLoc.dma cc1_scoped97.sem) 0 ∗ semVal ((thrV d L), SemLoc.dma cc1_scoped98.sem) 0 ∗ semVal ((thrV d L), SemLoc.dma cc1_scoped99.sem) 0 ∗ semVal ((thrV d L), SemLoc.dma cc1_scoped100.sem) 0 ∗ semVal ((thrV d L), SemLoc.dma cc1_scoped101.sem) 0 ∗ semVal ((thrV d L), SemLoc.dma cc1_scoped102.sem) 0 ∗ semVal ((thrV d L), SemLoc.dma cc1_scoped103.sem) 0 ∗ semVal ((thrV d L), SemLoc.dma cc1_scoped104.sem) 0 ∗ semVal ((thrV d L), SemLoc.dma cc1_scoped105.sem) 0 ∗ semVal ((thrV d L), SemLoc.dma cc1_scoped106.sem) 0 ∗ semVal ((thrV d L), SemLoc.dma cc1_scoped107.sem) 0 ∗ semVal ((thrV d L), SemLoc.dma cc1_scoped108.sem) 0 ∗ semVal ((thrV d L), SemLoc.dma cc1_scoped109.sem) 0 ∗ semVal ((thrV d L), SemLoc.dma cc1_scoped110.sem) 0 ∗ semVal ((thrV d L), SemLoc.dma cc1_scoped111.sem) 0 ∗ semVal ((thrV d L), SemLoc.dma cc1_scoped112.sem) 0 ∗ semVal ((thrV d L), SemLoc.dma cc1_scoped113.sem) 0 ∗ semVal ((thrV d L), SemLoc.dma cc1_scoped114.sem) 0 ∗ semVal ((thrV d L), SemLoc.dma cc1_scoped115.sem) 0 ∗ semVal ((thrV d L), SemLoc.dma cc1_scoped116.sem) 0 ∗ semVal ((thrV d L), SemLoc.dma cc1_scoped117.sem) 0 ∗ semVal ((thrV d L), SemLoc.dma cc1_scoped118.sem) 0 ∗ semVal ((thrV d L), SemLoc.dma cc1_scoped119.sem) 0 ∗ semVal ((thrV d L), SemLoc.dma cc1_scoped120.sem) 0 ∗ semVal ((thrV d L), SemLoc.dma cc1_scoped121.sem) 0 ∗ semVal ((thrV d L), SemLoc.dma cc1_scoped122.sem) 0 ∗ semVal ((thrV d L), SemLoc.dma cc1_scoped123.sem) 0 ∗ semVal ((thrV d L), SemLoc.dma cc1_scoped124.sem) 0 ∗ semVal ((thrV d L), SemLoc.dma cc1_scoped125.sem) 0 ∗ semVal ((thrV d L), SemLoc.dma cc1_scoped126.sem) 0 ∗ semVal ((thrV d L), SemLoc.dma cc1_scoped127.sem) 0 ∗ semVal ((thrV d L), SemLoc.dma cc1_scoped128.sem) 0 ∗ semVal ((thrV d L), SemLoc.dma cc1_scoped129.sem) 0 ∗ semVal ((thrV d L), SemLoc.dma cc1_scoped130.sem) 0 ∗ semVal ((thrV d L), SemLoc.dma cc1_scoped131.sem) 0 ∗ semVal ((thrV d L), SemLoc.dma cc1_scoped132.sem) 0 ∗ semVal ((thrV d L), SemLoc.dma cc1_scoped133.sem) 0 ∗ semVal ((thrV d L), SemLoc.dma cc1_scoped134.sem) 0 ∗ semVal ((thrV d L), SemLoc.dma cc1_scoped135.sem) 0 ∗ semVal ((thrV d L), SemLoc.dma cc1_scoped136.sem) 0 ∗ semVal ((thrV d L), SemLoc.dma cc1_scoped137.sem) 0 ∗ semVal ((thrV d L), SemLoc.dma cc1_scoped138.sem) 0 ∗ semVal ((thrV d L), SemLoc.dma cc1_scoped139.sem) 0 ∗ semVal ((thrV d L), SemLoc.dma cc1_scoped140.sem) 0 ∗ semVal ((thrV d L), SemLoc.dma cc1_scoped141.sem) 0 ∗ semVal ((thrV d L), SemLoc.dma cc1_scoped142.sem) 0 ∗ semVal ((thrV d L), SemLoc.dma cc1_scoped143.sem) 0 ∗ semVal ((thrV d L), SemLoc.dma cc1_scoped144.sem) 0 ∗ semVal ((thrV d L), SemLoc.dma cc1_scoped145.sem) 0 ∗ semVal ((thrV d L), SemLoc.dma cc1_scoped146.sem) 0 ∗ semVal ((thrV d L), SemLoc.dma cc1_scoped147.sem) 0 ∗ semVal ((thrV d L), SemLoc.dma cc1_scoped148.sem) 0 ∗ semVal ((thrV d L), SemLoc.dma cc1_scoped149.sem) 0 ∗ semVal ((thrV d L), SemLoc.dma cc1_scoped150.sem) 0 ∗ semVal ((thrV d L), SemLoc.dma cc1_scoped151.sem) 0 ∗ semVal ((thrV d L), SemLoc.dma cc1_scoped152.sem) 0 ∗ semVal ((thrV d L), SemLoc.dma cc1_scoped153.sem) 0 ∗ semVal ((thrV d L), SemLoc.dma cc1_scoped154.sem) 0 ∗ semVal ((thrV d L), SemLoc.dma cc1_scoped155.sem) 0 ∗ semVal ((thrV d L), SemLoc.dma cc1_scoped156.sem) 0 ∗ semVal ((thrV d L), SemLoc.dma cc1_scoped157.sem) 0 ∗ semVal ((thrV d L), SemLoc.dma cc1_scoped158.sem) 0 ∗ semVal ((thrV d L), SemLoc.dma cc1_scoped159.sem) 0 ∗ semVal ((thrV d L), SemLoc.dma cc1_scoped160.sem) 0 ∗ semVal ((thrV d L), SemLoc.dma cc1_scoped161.sem) 0)
      ∗ owes (thrV d L) O W
      ∗ (iprop((hV.view.loc (thrV d L) ↦{q} fh) ∗ (sV.view.loc (thrV d L) ↦{q} fs)
          ∗ (((oSl L 0).view.loc (thrV d L) ↦[(oSl L 0).view.set]{fullShare} gatherRows fh fs) ∗ ((oSl L 1).view.loc (thrV d L) ↦[(oSl L 1).view.set]{fullShare} gatherRows fh fs) ∗ ((oSl L 2).view.loc (thrV d L) ↦[(oSl L 2).view.set]{fullShare} gatherRows fh fs) ∗ ((oSl L 3).view.loc (thrV d L) ↦[(oSl L 3).view.set]{fullShare} gatherRows fh fs) ∗ ((oSl L 4).view.loc (thrV d L) ↦[(oSl L 4).view.set]{fullShare} gatherRows fh fs) ∗ ((oSl L 5).view.loc (thrV d L) ↦[(oSl L 5).view.set]{fullShare} gatherRows fh fs) ∗ ((oSl L 6).view.loc (thrV d L) ↦[(oSl L 6).view.set]{fullShare} gatherRows fh fs) ∗ ((oSl L 7).view.loc (thrV d L) ↦[(oSl L 7).view.set]{fullShare} gatherRows fh fs) ∗ ((oSl L 8).view.loc (thrV d L) ↦[(oSl L 8).view.set]{fullShare} gatherRows fh fs) ∗ ((oSl L 9).view.loc (thrV d L) ↦[(oSl L 9).view.set]{fullShare} gatherRows fh fs) ∗ ((oSl L 10).view.loc (thrV d L) ↦[(oSl L 10).view.set]{fullShare} gatherRows fh fs) ∗ ((oSl L 11).view.loc (thrV d L) ↦[(oSl L 11).view.set]{fullShare} gatherRows fh fs) ∗ ((oSl L 12).view.loc (thrV d L) ↦[(oSl L 12).view.set]{fullShare} gatherRows fh fs) ∗ ((oSl L 13).view.loc (thrV d L) ↦[(oSl L 13).view.set]{fullShare} gatherRows fh fs) ∗ ((oSl L 14).view.loc (thrV d L) ↦[(oSl L 14).view.set]{fullShare} gatherRows fh fs) ∗ ((oSl L 15).view.loc (thrV d L) ↦[(oSl L 15).view.set]{fullShare} gatherRows fh fs) ∗ ((oSl L 16).view.loc (thrV d L) ↦[(oSl L 16).view.set]{fullShare} gatherRows fh fs) ∗ ((oSl L 17).view.loc (thrV d L) ↦[(oSl L 17).view.set]{fullShare} gatherRows fh fs) ∗ ((oSl L 18).view.loc (thrV d L) ↦[(oSl L 18).view.set]{fullShare} gatherRows fh fs) ∗ ((oSl L 19).view.loc (thrV d L) ↦[(oSl L 19).view.set]{fullShare} gatherRows fh fs) ∗ ((oSl L 20).view.loc (thrV d L) ↦[(oSl L 20).view.set]{fullShare} gatherRows fh fs) ∗ ((oSl L 21).view.loc (thrV d L) ↦[(oSl L 21).view.set]{fullShare} gatherRows fh fs) ∗ ((oSl L 22).view.loc (thrV d L) ↦[(oSl L 22).view.set]{fullShare} gatherRows fh fs) ∗ ((oSl L 23).view.loc (thrV d L) ↦[(oSl L 23).view.set]{fullShare} gatherRows fh fs) ∗ ((oSl L 24).view.loc (thrV d L) ↦[(oSl L 24).view.set]{fullShare} gatherRows fh fs) ∗ ((oSl L 25).view.loc (thrV d L) ↦[(oSl L 25).view.set]{fullShare} gatherRows fh fs) ∗ ((oSl L 26).view.loc (thrV d L) ↦[(oSl L 26).view.set]{fullShare} gatherRows fh fs) ∗ ((oSl L 27).view.loc (thrV d L) ↦[(oSl L 27).view.set]{fullShare} gatherRows fh fs) ∗ ((oSl L 28).view.loc (thrV d L) ↦[(oSl L 28).view.set]{fullShare} gatherRows fh fs) ∗ ((oSl L 29).view.loc (thrV d L) ↦[(oSl L 29).view.set]{fullShare} gatherRows fh fs) ∗ ((oSl L 30).view.loc (thrV d L) ↦[(oSl L 30).view.set]{fullShare} gatherRows fh fs) ∗ ((oSl L 31).view.loc (thrV d L) ↦[(oSl L 31).view.set]{fullShare} gatherRows fh fs) ∗ ((oSl L 32).view.loc (thrV d L) ↦[(oSl L 32).view.set]{fullShare} gatherRows fh fs) ∗ ((oSl L 33).view.loc (thrV d L) ↦[(oSl L 33).view.set]{fullShare} gatherRows fh fs) ∗ ((oSl L 34).view.loc (thrV d L) ↦[(oSl L 34).view.set]{fullShare} gatherRows fh fs) ∗ ((oSl L 35).view.loc (thrV d L) ↦[(oSl L 35).view.set]{fullShare} gatherRows fh fs) ∗ ((oSl L 36).view.loc (thrV d L) ↦[(oSl L 36).view.set]{fullShare} gatherRows fh fs) ∗ ((oSl L 37).view.loc (thrV d L) ↦[(oSl L 37).view.set]{fullShare} gatherRows fh fs) ∗ ((oSl L 38).view.loc (thrV d L) ↦[(oSl L 38).view.set]{fullShare} gatherRows fh fs) ∗ ((oSl L 39).view.loc (thrV d L) ↦[(oSl L 39).view.set]{fullShare} gatherRows fh fs) ∗ ((oSl L 40).view.loc (thrV d L) ↦[(oSl L 40).view.set]{fullShare} gatherRows fh fs) ∗ ((oSl L 41).view.loc (thrV d L) ↦[(oSl L 41).view.set]{fullShare} gatherRows fh fs) ∗ ((oSl L 42).view.loc (thrV d L) ↦[(oSl L 42).view.set]{fullShare} gatherRows fh fs) ∗ ((oSl L 43).view.loc (thrV d L) ↦[(oSl L 43).view.set]{fullShare} gatherRows fh fs) ∗ ((oSl L 44).view.loc (thrV d L) ↦[(oSl L 44).view.set]{fullShare} gatherRows fh fs) ∗ ((oSl L 45).view.loc (thrV d L) ↦[(oSl L 45).view.set]{fullShare} gatherRows fh fs) ∗ ((oSl L 46).view.loc (thrV d L) ↦[(oSl L 46).view.set]{fullShare} gatherRows fh fs) ∗ ((oSl L 47).view.loc (thrV d L) ↦[(oSl L 47).view.set]{fullShare} gatherRows fh fs) ∗ ((oSl L 48).view.loc (thrV d L) ↦[(oSl L 48).view.set]{fullShare} gatherRows fh fs) ∗ ((oSl L 49).view.loc (thrV d L) ↦[(oSl L 49).view.set]{fullShare} gatherRows fh fs) ∗ ((oSl L 50).view.loc (thrV d L) ↦[(oSl L 50).view.set]{fullShare} gatherRows fh fs) ∗ ((oSl L 51).view.loc (thrV d L) ↦[(oSl L 51).view.set]{fullShare} gatherRows fh fs) ∗ ((oSl L 52).view.loc (thrV d L) ↦[(oSl L 52).view.set]{fullShare} gatherRows fh fs) ∗ ((oSl L 53).view.loc (thrV d L) ↦[(oSl L 53).view.set]{fullShare} gatherRows fh fs) ∗ ((oSl L 54).view.loc (thrV d L) ↦[(oSl L 54).view.set]{fullShare} gatherRows fh fs) ∗ ((oSl L 55).view.loc (thrV d L) ↦[(oSl L 55).view.set]{fullShare} gatherRows fh fs) ∗ ((oSl L 56).view.loc (thrV d L) ↦[(oSl L 56).view.set]{fullShare} gatherRows fh fs) ∗ ((oSl L 57).view.loc (thrV d L) ↦[(oSl L 57).view.set]{fullShare} gatherRows fh fs) ∗ ((oSl L 58).view.loc (thrV d L) ↦[(oSl L 58).view.set]{fullShare} gatherRows fh fs) ∗ ((oSl L 59).view.loc (thrV d L) ↦[(oSl L 59).view.set]{fullShare} gatherRows fh fs) ∗ ((oSl L 60).view.loc (thrV d L) ↦[(oSl L 60).view.set]{fullShare} gatherRows fh fs) ∗ ((oSl L 61).view.loc (thrV d L) ↦[(oSl L 61).view.set]{fullShare} gatherRows fh fs) ∗ ((oSl L 62).view.loc (thrV d L) ↦[(oSl L 62).view.set]{fullShare} gatherRows fh fs) ∗ ((oSl L 63).view.loc (thrV d L) ↦[(oSl L 63).view.set]{fullShare} gatherRows fh fs) ∗ ((oSl L 64).view.loc (thrV d L) ↦[(oSl L 64).view.set]{fullShare} gatherRows fh fs) ∗ ((oSl L 65).view.loc (thrV d L) ↦[(oSl L 65).view.set]{fullShare} gatherRows fh fs) ∗ ((oSl L 66).view.loc (thrV d L) ↦[(oSl L 66).view.set]{fullShare} gatherRows fh fs) ∗ ((oSl L 67).view.loc (thrV d L) ↦[(oSl L 67).view.set]{fullShare} gatherRows fh fs) ∗ ((oSl L 68).view.loc (thrV d L) ↦[(oSl L 68).view.set]{fullShare} gatherRows fh fs) ∗ ((oSl L 69).view.loc (thrV d L) ↦[(oSl L 69).view.set]{fullShare} gatherRows fh fs) ∗ ((oSl L 70).view.loc (thrV d L) ↦[(oSl L 70).view.set]{fullShare} gatherRows fh fs) ∗ ((oSl L 71).view.loc (thrV d L) ↦[(oSl L 71).view.set]{fullShare} gatherRows fh fs) ∗ ((oSl L 72).view.loc (thrV d L) ↦[(oSl L 72).view.set]{fullShare} gatherRows fh fs) ∗ ((oSl L 73).view.loc (thrV d L) ↦[(oSl L 73).view.set]{fullShare} gatherRows fh fs) ∗ ((oSl L 74).view.loc (thrV d L) ↦[(oSl L 74).view.set]{fullShare} gatherRows fh fs) ∗ ((oSl L 75).view.loc (thrV d L) ↦[(oSl L 75).view.set]{fullShare} gatherRows fh fs) ∗ ((oSl L 76).view.loc (thrV d L) ↦[(oSl L 76).view.set]{fullShare} gatherRows fh fs) ∗ ((oSl L 77).view.loc (thrV d L) ↦[(oSl L 77).view.set]{fullShare} gatherRows fh fs) ∗ ((oSl L 78).view.loc (thrV d L) ↦[(oSl L 78).view.set]{fullShare} gatherRows fh fs) ∗ ((oSl L 79).view.loc (thrV d L) ↦[(oSl L 79).view.set]{fullShare} gatherRows fh fs))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ (semVal ((thrV d L), SemLoc.dma cc1_scoped0.sem) 0 ∗ semVal ((thrV d L), SemLoc.dma cc1_scoped1.sem) 0 ∗ semVal ((thrV d L), SemLoc.dma cc1_scoped2.sem) 0 ∗ semVal ((thrV d L), SemLoc.dma cc1_scoped3.sem) 0 ∗ semVal ((thrV d L), SemLoc.dma cc1_scoped4.sem) 0 ∗ semVal ((thrV d L), SemLoc.dma cc1_scoped5.sem) 0 ∗ semVal ((thrV d L), SemLoc.dma cc1_scoped6.sem) 0 ∗ semVal ((thrV d L), SemLoc.dma cc1_scoped7.sem) 0 ∗ semVal ((thrV d L), SemLoc.dma cc1_scoped8.sem) 0 ∗ semVal ((thrV d L), SemLoc.dma cc1_scoped9.sem) 0 ∗ semVal ((thrV d L), SemLoc.dma cc1_scoped10.sem) 0 ∗ semVal ((thrV d L), SemLoc.dma cc1_scoped11.sem) 0 ∗ semVal ((thrV d L), SemLoc.dma cc1_scoped12.sem) 0 ∗ semVal ((thrV d L), SemLoc.dma cc1_scoped13.sem) 0 ∗ semVal ((thrV d L), SemLoc.dma cc1_scoped14.sem) 0 ∗ semVal ((thrV d L), SemLoc.dma cc1_scoped15.sem) 0 ∗ semVal ((thrV d L), SemLoc.dma cc1_scoped16.sem) 0 ∗ semVal ((thrV d L), SemLoc.dma cc1_scoped17.sem) 0 ∗ semVal ((thrV d L), SemLoc.dma cc1_scoped18.sem) 0 ∗ semVal ((thrV d L), SemLoc.dma cc1_scoped19.sem) 0 ∗ semVal ((thrV d L), SemLoc.dma cc1_scoped20.sem) 0 ∗ semVal ((thrV d L), SemLoc.dma cc1_scoped21.sem) 0 ∗ semVal ((thrV d L), SemLoc.dma cc1_scoped22.sem) 0 ∗ semVal ((thrV d L), SemLoc.dma cc1_scoped23.sem) 0 ∗ semVal ((thrV d L), SemLoc.dma cc1_scoped24.sem) 0 ∗ semVal ((thrV d L), SemLoc.dma cc1_scoped25.sem) 0 ∗ semVal ((thrV d L), SemLoc.dma cc1_scoped26.sem) 0 ∗ semVal ((thrV d L), SemLoc.dma cc1_scoped27.sem) 0 ∗ semVal ((thrV d L), SemLoc.dma cc1_scoped28.sem) 0 ∗ semVal ((thrV d L), SemLoc.dma cc1_scoped29.sem) 0 ∗ semVal ((thrV d L), SemLoc.dma cc1_scoped30.sem) 0 ∗ semVal ((thrV d L), SemLoc.dma cc1_scoped31.sem) 0 ∗ semVal ((thrV d L), SemLoc.dma cc1_scoped32.sem) 0 ∗ semVal ((thrV d L), SemLoc.dma cc1_scoped33.sem) 0 ∗ semVal ((thrV d L), SemLoc.dma cc1_scoped34.sem) 0 ∗ semVal ((thrV d L), SemLoc.dma cc1_scoped35.sem) 0 ∗ semVal ((thrV d L), SemLoc.dma cc1_scoped36.sem) 0 ∗ semVal ((thrV d L), SemLoc.dma cc1_scoped37.sem) 0 ∗ semVal ((thrV d L), SemLoc.dma cc1_scoped38.sem) 0 ∗ semVal ((thrV d L), SemLoc.dma cc1_scoped39.sem) 0 ∗ semVal ((thrV d L), SemLoc.dma cc1_scoped40.sem) 0 ∗ semVal ((thrV d L), SemLoc.dma cc1_scoped41.sem) 0 ∗ semVal ((thrV d L), SemLoc.dma cc1_scoped42.sem) 0 ∗ semVal ((thrV d L), SemLoc.dma cc1_scoped43.sem) 0 ∗ semVal ((thrV d L), SemLoc.dma cc1_scoped44.sem) 0 ∗ semVal ((thrV d L), SemLoc.dma cc1_scoped45.sem) 0 ∗ semVal ((thrV d L), SemLoc.dma cc1_scoped46.sem) 0 ∗ semVal ((thrV d L), SemLoc.dma cc1_scoped47.sem) 0 ∗ semVal ((thrV d L), SemLoc.dma cc1_scoped48.sem) 0 ∗ semVal ((thrV d L), SemLoc.dma cc1_scoped49.sem) 0 ∗ semVal ((thrV d L), SemLoc.dma cc1_scoped50.sem) 0 ∗ semVal ((thrV d L), SemLoc.dma cc1_scoped51.sem) 0 ∗ semVal ((thrV d L), SemLoc.dma cc1_scoped52.sem) 0 ∗ semVal ((thrV d L), SemLoc.dma cc1_scoped53.sem) 0 ∗ semVal ((thrV d L), SemLoc.dma cc1_scoped54.sem) 0 ∗ semVal ((thrV d L), SemLoc.dma cc1_scoped55.sem) 0 ∗ semVal ((thrV d L), SemLoc.dma cc1_scoped56.sem) 0 ∗ semVal ((thrV d L), SemLoc.dma cc1_scoped57.sem) 0 ∗ semVal ((thrV d L), SemLoc.dma cc1_scoped58.sem) 0 ∗ semVal ((thrV d L), SemLoc.dma cc1_scoped59.sem) 0 ∗ semVal ((thrV d L), SemLoc.dma cc1_scoped60.sem) 0 ∗ semVal ((thrV d L), SemLoc.dma cc1_scoped61.sem) 0 ∗ semVal ((thrV d L), SemLoc.dma cc1_scoped62.sem) 0 ∗ semVal ((thrV d L), SemLoc.dma cc1_scoped63.sem) 0 ∗ semVal ((thrV d L), SemLoc.dma cc1_scoped64.sem) 0 ∗ semVal ((thrV d L), SemLoc.dma cc1_scoped65.sem) 0 ∗ semVal ((thrV d L), SemLoc.dma cc1_scoped66.sem) 0 ∗ semVal ((thrV d L), SemLoc.dma cc1_scoped67.sem) 0 ∗ semVal ((thrV d L), SemLoc.dma cc1_scoped68.sem) 0 ∗ semVal ((thrV d L), SemLoc.dma cc1_scoped69.sem) 0 ∗ semVal ((thrV d L), SemLoc.dma cc1_scoped70.sem) 0 ∗ semVal ((thrV d L), SemLoc.dma cc1_scoped71.sem) 0 ∗ semVal ((thrV d L), SemLoc.dma cc1_scoped72.sem) 0 ∗ semVal ((thrV d L), SemLoc.dma cc1_scoped73.sem) 0 ∗ semVal ((thrV d L), SemLoc.dma cc1_scoped74.sem) 0 ∗ semVal ((thrV d L), SemLoc.dma cc1_scoped75.sem) 0 ∗ semVal ((thrV d L), SemLoc.dma cc1_scoped76.sem) 0 ∗ semVal ((thrV d L), SemLoc.dma cc1_scoped77.sem) 0 ∗ semVal ((thrV d L), SemLoc.dma cc1_scoped78.sem) 0 ∗ semVal ((thrV d L), SemLoc.dma cc1_scoped79.sem) 0 ∗ semVal ((thrV d L), SemLoc.dma cc1_scoped80.sem) 0 ∗ semVal ((thrV d L), SemLoc.dma cc1_scoped81.sem) 0 ∗ semVal ((thrV d L), SemLoc.dma cc1_scoped82.sem) 0 ∗ semVal ((thrV d L), SemLoc.dma cc1_scoped83.sem) 0 ∗ semVal ((thrV d L), SemLoc.dma cc1_scoped84.sem) 0 ∗ semVal ((thrV d L), SemLoc.dma cc1_scoped85.sem) 0 ∗ semVal ((thrV d L), SemLoc.dma cc1_scoped86.sem) 0 ∗ semVal ((thrV d L), SemLoc.dma cc1_scoped87.sem) 0 ∗ semVal ((thrV d L), SemLoc.dma cc1_scoped88.sem) 0 ∗ semVal ((thrV d L), SemLoc.dma cc1_scoped89.sem) 0 ∗ semVal ((thrV d L), SemLoc.dma cc1_scoped90.sem) 0 ∗ semVal ((thrV d L), SemLoc.dma cc1_scoped91.sem) 0 ∗ semVal ((thrV d L), SemLoc.dma cc1_scoped92.sem) 0 ∗ semVal ((thrV d L), SemLoc.dma cc1_scoped93.sem) 0 ∗ semVal ((thrV d L), SemLoc.dma cc1_scoped94.sem) 0 ∗ semVal ((thrV d L), SemLoc.dma cc1_scoped95.sem) 0 ∗ semVal ((thrV d L), SemLoc.dma cc1_scoped96.sem) 0 ∗ semVal ((thrV d L), SemLoc.dma cc1_scoped97.sem) 0 ∗ semVal ((thrV d L), SemLoc.dma cc1_scoped98.sem) 0 ∗ semVal ((thrV d L), SemLoc.dma cc1_scoped99.sem) 0 ∗ semVal ((thrV d L), SemLoc.dma cc1_scoped100.sem) 0 ∗ semVal ((thrV d L), SemLoc.dma cc1_scoped101.sem) 0 ∗ semVal ((thrV d L), SemLoc.dma cc1_scoped102.sem) 0 ∗ semVal ((thrV d L), SemLoc.dma cc1_scoped103.sem) 0 ∗ semVal ((thrV d L), SemLoc.dma cc1_scoped104.sem) 0 ∗ semVal ((thrV d L), SemLoc.dma cc1_scoped105.sem) 0 ∗ semVal ((thrV d L), SemLoc.dma cc1_scoped106.sem) 0 ∗ semVal ((thrV d L), SemLoc.dma cc1_scoped107.sem) 0 ∗ semVal ((thrV d L), SemLoc.dma cc1_scoped108.sem) 0 ∗ semVal ((thrV d L), SemLoc.dma cc1_scoped109.sem) 0 ∗ semVal ((thrV d L), SemLoc.dma cc1_scoped110.sem) 0 ∗ semVal ((thrV d L), SemLoc.dma cc1_scoped111.sem) 0 ∗ semVal ((thrV d L), SemLoc.dma cc1_scoped112.sem) 0 ∗ semVal ((thrV d L), SemLoc.dma cc1_scoped113.sem) 0 ∗ semVal ((thrV d L), SemLoc.dma cc1_scoped114.sem) 0 ∗ semVal ((thrV d L), SemLoc.dma cc1_scoped115.sem) 0 ∗ semVal ((thrV d L), SemLoc.dma cc1_scoped116.sem) 0 ∗ semVal ((thrV d L), SemLoc.dma cc1_scoped117.sem) 0 ∗ semVal ((thrV d L), SemLoc.dma cc1_scoped118.sem) 0 ∗ semVal ((thrV d L), SemLoc.dma cc1_scoped119.sem) 0 ∗ semVal ((thrV d L), SemLoc.dma cc1_scoped120.sem) 0 ∗ semVal ((thrV d L), SemLoc.dma cc1_scoped121.sem) 0 ∗ semVal ((thrV d L), SemLoc.dma cc1_scoped122.sem) 0 ∗ semVal ((thrV d L), SemLoc.dma cc1_scoped123.sem) 0 ∗ semVal ((thrV d L), SemLoc.dma cc1_scoped124.sem) 0 ∗ semVal ((thrV d L), SemLoc.dma cc1_scoped125.sem) 0 ∗ semVal ((thrV d L), SemLoc.dma cc1_scoped126.sem) 0 ∗ semVal ((thrV d L), SemLoc.dma cc1_scoped127.sem) 0 ∗ semVal ((thrV d L), SemLoc.dma cc1_scoped128.sem) 0 ∗ semVal ((thrV d L), SemLoc.dma cc1_scoped129.sem) 0 ∗ semVal ((thrV d L), SemLoc.dma cc1_scoped130.sem) 0 ∗ semVal ((thrV d L), SemLoc.dma cc1_scoped131.sem) 0 ∗ semVal ((thrV d L), SemLoc.dma cc1_scoped132.sem) 0 ∗ semVal ((thrV d L), SemLoc.dma cc1_scoped133.sem) 0 ∗ semVal ((thrV d L), SemLoc.dma cc1_scoped134.sem) 0 ∗ semVal ((thrV d L), SemLoc.dma cc1_scoped135.sem) 0 ∗ semVal ((thrV d L), SemLoc.dma cc1_scoped136.sem) 0 ∗ semVal ((thrV d L), SemLoc.dma cc1_scoped137.sem) 0 ∗ semVal ((thrV d L), SemLoc.dma cc1_scoped138.sem) 0 ∗ semVal ((thrV d L), SemLoc.dma cc1_scoped139.sem) 0 ∗ semVal ((thrV d L), SemLoc.dma cc1_scoped140.sem) 0 ∗ semVal ((thrV d L), SemLoc.dma cc1_scoped141.sem) 0 ∗ semVal ((thrV d L), SemLoc.dma cc1_scoped142.sem) 0 ∗ semVal ((thrV d L), SemLoc.dma cc1_scoped143.sem) 0 ∗ semVal ((thrV d L), SemLoc.dma cc1_scoped144.sem) 0 ∗ semVal ((thrV d L), SemLoc.dma cc1_scoped145.sem) 0 ∗ semVal ((thrV d L), SemLoc.dma cc1_scoped146.sem) 0 ∗ semVal ((thrV d L), SemLoc.dma cc1_scoped147.sem) 0 ∗ semVal ((thrV d L), SemLoc.dma cc1_scoped148.sem) 0 ∗ semVal ((thrV d L), SemLoc.dma cc1_scoped149.sem) 0 ∗ semVal ((thrV d L), SemLoc.dma cc1_scoped150.sem) 0 ∗ semVal ((thrV d L), SemLoc.dma cc1_scoped151.sem) 0 ∗ semVal ((thrV d L), SemLoc.dma cc1_scoped152.sem) 0 ∗ semVal ((thrV d L), SemLoc.dma cc1_scoped153.sem) 0 ∗ semVal ((thrV d L), SemLoc.dma cc1_scoped154.sem) 0 ∗ semVal ((thrV d L), SemLoc.dma cc1_scoped155.sem) 0 ∗ semVal ((thrV d L), SemLoc.dma cc1_scoped156.sem) 0 ∗ semVal ((thrV d L), SemLoc.dma cc1_scoped157.sem) 0 ∗ semVal ((thrV d L), SemLoc.dma cc1_scoped158.sem) 0 ∗ semVal ((thrV d L), SemLoc.dma cc1_scoped159.sem) 0 ∗ semVal ((thrV d L), SemLoc.dma cc1_scoped160.sem) 0 ∗ semVal ((thrV d L), SemLoc.dma cc1_scoped161.sem) 0)
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q := by
  iintro ⟨Hmw, Hh, Hs, ⟨S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79⟩, B0, B1, B2, B3, B4, ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161⟩, HO, Hk⟩
  iapply (tile_run d L q fh fs hfs fo f0 f1 f2 f3 f4 O W hO Q)
  isplitl [Hmw]; · iexact Hmw
  isplitl [Hh]; · iexact Hh
  isplitl [Hs]; · iexact Hs
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [S40]; · iexact S40
  isplitl [S41]; · iexact S41
  isplitl [S42]; · iexact S42
  isplitl [S43]; · iexact S43
  isplitl [S44]; · iexact S44
  isplitl [S45]; · iexact S45
  isplitl [S46]; · iexact S46
  isplitl [S47]; · iexact S47
  isplitl [S48]; · iexact S48
  isplitl [S49]; · iexact S49
  isplitl [S50]; · iexact S50
  isplitl [S51]; · iexact S51
  isplitl [S52]; · iexact S52
  isplitl [S53]; · iexact S53
  isplitl [S54]; · iexact S54
  isplitl [S55]; · iexact S55
  isplitl [S56]; · iexact S56
  isplitl [S57]; · iexact S57
  isplitl [S58]; · iexact S58
  isplitl [S59]; · iexact S59
  isplitl [S60]; · iexact S60
  isplitl [S61]; · iexact S61
  isplitl [S62]; · iexact S62
  isplitl [S63]; · iexact S63
  isplitl [S64]; · iexact S64
  isplitl [S65]; · iexact S65
  isplitl [S66]; · iexact S66
  isplitl [S67]; · iexact S67
  isplitl [S68]; · iexact S68
  isplitl [S69]; · iexact S69
  isplitl [S70]; · iexact S70
  isplitl [S71]; · iexact S71
  isplitl [S72]; · iexact S72
  isplitl [S73]; · iexact S73
  isplitl [S74]; · iexact S74
  isplitl [S75]; · iexact S75
  isplitl [S76]; · iexact S76
  isplitl [S77]; · iexact S77
  isplitl [S78]; · iexact S78
  isplitl [S79]; · iexact S79
  isplitl [B0]; · iexact B0
  isplitl [B1]; · iexact B1
  isplitl [B2]; · iexact B2
  isplitl [B3]; · iexact B3
  isplitl [B4]; · iexact B4
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C56]; · iexact C56
  isplitl [C57]; · iexact C57
  isplitl [C58]; · iexact C58
  isplitl [C59]; · iexact C59
  isplitl [C60]; · iexact C60
  isplitl [C61]; · iexact C61
  isplitl [C62]; · iexact C62
  isplitl [C63]; · iexact C63
  isplitl [C64]; · iexact C64
  isplitl [C65]; · iexact C65
  isplitl [C66]; · iexact C66
  isplitl [C67]; · iexact C67
  isplitl [C68]; · iexact C68
  isplitl [C69]; · iexact C69
  isplitl [C70]; · iexact C70
  isplitl [C71]; · iexact C71
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  isplitl [C87]; · iexact C87
  isplitl [C88]; · iexact C88
  isplitl [C89]; · iexact C89
  isplitl [C90]; · iexact C90
  isplitl [C91]; · iexact C91
  isplitl [C92]; · iexact C92
  isplitl [C93]; · iexact C93
  isplitl [C94]; · iexact C94
  isplitl [C95]; · iexact C95
  isplitl [C96]; · iexact C96
  isplitl [C97]; · iexact C97
  isplitl [C98]; · iexact C98
  isplitl [C99]; · iexact C99
  isplitl [C100]; · iexact C100
  isplitl [C101]; · iexact C101
  isplitl [C102]; · iexact C102
  isplitl [C103]; · iexact C103
  isplitl [C104]; · iexact C104
  isplitl [C105]; · iexact C105
  isplitl [C106]; · iexact C106
  isplitl [C107]; · iexact C107
  isplitl [C108]; · iexact C108
  isplitl [C109]; · iexact C109
  isplitl [C110]; · iexact C110
  isplitl [C111]; · iexact C111
  isplitl [C112]; · iexact C112
  isplitl [C113]; · iexact C113
  isplitl [C114]; · iexact C114
  isplitl [C115]; · iexact C115
  isplitl [C116]; · iexact C116
  isplitl [C117]; · iexact C117
  isplitl [C118]; · iexact C118
  isplitl [C119]; · iexact C119
  isplitl [C120]; · iexact C120
  isplitl [C121]; · iexact C121
  isplitl [C122]; · iexact C122
  isplitl [C123]; · iexact C123
  isplitl [C124]; · iexact C124
  isplitl [C125]; · iexact C125
  isplitl [C126]; · iexact C126
  isplitl [C127]; · iexact C127
  isplitl [C128]; · iexact C128
  isplitl [C129]; · iexact C129
  isplitl [C130]; · iexact C130
  isplitl [C131]; · iexact C131
  isplitl [C132]; · iexact C132
  isplitl [C133]; · iexact C133
  isplitl [C134]; · iexact C134
  isplitl [C135]; · iexact C135
  isplitl [C136]; · iexact C136
  isplitl [C137]; · iexact C137
  isplitl [C138]; · iexact C138
  isplitl [C139]; · iexact C139
  isplitl [C140]; · iexact C140
  isplitl [C141]; · iexact C141
  isplitl [C142]; · iexact C142
  isplitl [C143]; · iexact C143
  isplitl [C144]; · iexact C144
  isplitl [C145]; · iexact C145
  isplitl [C146]; · iexact C146
  isplitl [C147]; · iexact C147
  isplitl [C148]; · iexact C148
  isplitl [C149]; · iexact C149
  isplitl [C150]; · iexact C150
  isplitl [C151]; · iexact C151
  isplitl [C152]; · iexact C152
  isplitl [C153]; · iexact C153
  isplitl [C154]; · iexact C154
  isplitl [C155]; · iexact C155
  isplitl [C156]; · iexact C156
  isplitl [C157]; · iexact C157
  isplitl [C158]; · iexact C158
  isplitl [C159]; · iexact C159
  isplitl [C160]; · iexact C160
  isplitl [C161]; · iexact C161
  isplitl [HO]; · iexact HO
  iintro ⟨Hh, Hs, S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79, B0, B1, B2, B3, B4, C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161, HO⟩
  iapply Hk
  isplitl [Hh]; · iexact Hh
  isplitl [Hs]; · iexact Hs
  isplitl [S0 S1 S2 S3 S4 S5 S6 S7 S8 S9 S10 S11 S12 S13 S14 S15 S16 S17 S18 S19 S20 S21 S22 S23 S24 S25 S26 S27 S28 S29 S30 S31 S32 S33 S34 S35 S36 S37 S38 S39 S40 S41 S42 S43 S44 S45 S46 S47 S48 S49 S50 S51 S52 S53 S54 S55 S56 S57 S58 S59 S60 S61 S62 S63 S64 S65 S66 S67 S68 S69 S70 S71 S72 S73 S74 S75 S76 S77 S78 S79]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    isplitl [S50]; · iexact S50
    isplitl [S51]; · iexact S51
    isplitl [S52]; · iexact S52
    isplitl [S53]; · iexact S53
    isplitl [S54]; · iexact S54
    isplitl [S55]; · iexact S55
    isplitl [S56]; · iexact S56
    isplitl [S57]; · iexact S57
    isplitl [S58]; · iexact S58
    isplitl [S59]; · iexact S59
    isplitl [S60]; · iexact S60
    isplitl [S61]; · iexact S61
    isplitl [S62]; · iexact S62
    isplitl [S63]; · iexact S63
    isplitl [S64]; · iexact S64
    isplitl [S65]; · iexact S65
    isplitl [S66]; · iexact S66
    isplitl [S67]; · iexact S67
    isplitl [S68]; · iexact S68
    isplitl [S69]; · iexact S69
    isplitl [S70]; · iexact S70
    isplitl [S71]; · iexact S71
    isplitl [S72]; · iexact S72
    isplitl [S73]; · iexact S73
    isplitl [S74]; · iexact S74
    isplitl [S75]; · iexact S75
    isplitl [S76]; · iexact S76
    isplitl [S77]; · iexact S77
    isplitl [S78]; · iexact S78
    iexact S79
  isplitl [B0]; · iexact B0
  isplitl [B1]; · iexact B1
  isplitl [B2]; · iexact B2
  isplitl [B3]; · iexact B3
  isplitl [B4]; · iexact B4
  isplitl [C0 C1 C2 C3 C4 C5 C6 C7 C8 C9 C10 C11 C12 C13 C14 C15 C16 C17 C18 C19 C20 C21 C22 C23 C24 C25 C26 C27 C28 C29 C30 C31 C32 C33 C34 C35 C36 C37 C38 C39 C40 C41 C42 C43 C44 C45 C46 C47 C48 C49 C50 C51 C52 C53 C54 C55 C56 C57 C58 C59 C60 C61 C62 C63 C64 C65 C66 C67 C68 C69 C70 C71 C72 C73 C74 C75 C76 C77 C78 C79 C80 C81 C82 C83 C84 C85 C86 C87 C88 C89 C90 C91 C92 C93 C94 C95 C96 C97 C98 C99 C100 C101 C102 C103 C104 C105 C106 C107 C108 C109 C110 C111 C112 C113 C114 C115 C116 C117 C118 C119 C120 C121 C122 C123 C124 C125 C126 C127 C128 C129 C130 C131 C132 C133 C134 C135 C136 C137 C138 C139 C140 C141 C142 C143 C144 C145 C146 C147 C148 C149 C150 C151 C152 C153 C154 C155 C156 C157 C158 C159 C160 C161]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    isplitl [C27]; · iexact C27
    isplitl [C28]; · iexact C28
    isplitl [C29]; · iexact C29
    isplitl [C30]; · iexact C30
    isplitl [C31]; · iexact C31
    isplitl [C32]; · iexact C32
    isplitl [C33]; · iexact C33
    isplitl [C34]; · iexact C34
    isplitl [C35]; · iexact C35
    isplitl [C36]; · iexact C36
    isplitl [C37]; · iexact C37
    isplitl [C38]; · iexact C38
    isplitl [C39]; · iexact C39
    isplitl [C40]; · iexact C40
    isplitl [C41]; · iexact C41
    isplitl [C42]; · iexact C42
    isplitl [C43]; · iexact C43
    isplitl [C44]; · iexact C44
    isplitl [C45]; · iexact C45
    isplitl [C46]; · iexact C46
    isplitl [C47]; · iexact C47
    isplitl [C48]; · iexact C48
    isplitl [C49]; · iexact C49
    isplitl [C50]; · iexact C50
    isplitl [C51]; · iexact C51
    isplitl [C52]; · iexact C52
    isplitl [C53]; · iexact C53
    isplitl [C54]; · iexact C54
    isplitl [C55]; · iexact C55
    isplitl [C56]; · iexact C56
    isplitl [C57]; · iexact C57
    isplitl [C58]; · iexact C58
    isplitl [C59]; · iexact C59
    isplitl [C60]; · iexact C60
    isplitl [C61]; · iexact C61
    isplitl [C62]; · iexact C62
    isplitl [C63]; · iexact C63
    isplitl [C64]; · iexact C64
    isplitl [C65]; · iexact C65
    isplitl [C66]; · iexact C66
    isplitl [C67]; · iexact C67
    isplitl [C68]; · iexact C68
    isplitl [C69]; · iexact C69
    isplitl [C70]; · iexact C70
    isplitl [C71]; · iexact C71
    isplitl [C72]; · iexact C72
    isplitl [C73]; · iexact C73
    isplitl [C74]; · iexact C74
    isplitl [C75]; · iexact C75
    isplitl [C76]; · iexact C76
    isplitl [C77]; · iexact C77
    isplitl [C78]; · iexact C78
    isplitl [C79]; · iexact C79
    isplitl [C80]; · iexact C80
    isplitl [C81]; · iexact C81
    isplitl [C82]; · iexact C82
    isplitl [C83]; · iexact C83
    isplitl [C84]; · iexact C84
    isplitl [C85]; · iexact C85
    isplitl [C86]; · iexact C86
    isplitl [C87]; · iexact C87
    isplitl [C88]; · iexact C88
    isplitl [C89]; · iexact C89
    isplitl [C90]; · iexact C90
    isplitl [C91]; · iexact C91
    isplitl [C92]; · iexact C92
    isplitl [C93]; · iexact C93
    isplitl [C94]; · iexact C94
    isplitl [C95]; · iexact C95
    isplitl [C96]; · iexact C96
    isplitl [C97]; · iexact C97
    isplitl [C98]; · iexact C98
    isplitl [C99]; · iexact C99
    isplitl [C100]; · iexact C100
    isplitl [C101]; · iexact C101
    isplitl [C102]; · iexact C102
    isplitl [C103]; · iexact C103
    isplitl [C104]; · iexact C104
    isplitl [C105]; · iexact C105
    isplitl [C106]; · iexact C106
    isplitl [C107]; · iexact C107
    isplitl [C108]; · iexact C108
    isplitl [C109]; · iexact C109
    isplitl [C110]; · iexact C110
    isplitl [C111]; · iexact C111
    isplitl [C112]; · iexact C112
    isplitl [C113]; · iexact C113
    isplitl [C114]; · iexact C114
    isplitl [C115]; · iexact C115
    isplitl [C116]; · iexact C116
    isplitl [C117]; · iexact C117
    isplitl [C118]; · iexact C118
    isplitl [C119]; · iexact C119
    isplitl [C120]; · iexact C120
    isplitl [C121]; · iexact C121
    isplitl [C122]; · iexact C122
    isplitl [C123]; · iexact C123
    isplitl [C124]; · iexact C124
    isplitl [C125]; · iexact C125
    isplitl [C126]; · iexact C126
    isplitl [C127]; · iexact C127
    isplitl [C128]; · iexact C128
    isplitl [C129]; · iexact C129
    isplitl [C130]; · iexact C130
    isplitl [C131]; · iexact C131
    isplitl [C132]; · iexact C132
    isplitl [C133]; · iexact C133
    isplitl [C134]; · iexact C134
    isplitl [C135]; · iexact C135
    isplitl [C136]; · iexact C136
    isplitl [C137]; · iexact C137
    isplitl [C138]; · iexact C138
    isplitl [C139]; · iexact C139
    isplitl [C140]; · iexact C140
    isplitl [C141]; · iexact C141
    isplitl [C142]; · iexact C142
    isplitl [C143]; · iexact C143
    isplitl [C144]; · iexact C144
    isplitl [C145]; · iexact C145
    isplitl [C146]; · iexact C146
    isplitl [C147]; · iexact C147
    isplitl [C148]; · iexact C148
    isplitl [C149]; · iexact C149
    isplitl [C150]; · iexact C150
    isplitl [C151]; · iexact C151
    isplitl [C152]; · iexact C152
    isplitl [C153]; · iexact C153
    isplitl [C154]; · iexact C154
    isplitl [C155]; · iexact C155
    isplitl [C156]; · iexact C156
    isplitl [C157]; · iexact C157
    isplitl [C158]; · iexact C158
    isplitl [C159]; · iexact C159
    isplitl [C160]; · iexact C160
    iexact C161
  iexact HO

set_option maxHeartbeats 8000000 in
theorem tile_grouped (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc1_scratch0).view.loc (thrV d L)))
    (f1 : Buf (Elt F) ((Memref.whole cc1_scratch1).view.loc (thrV d L)))
    (f2 : Buf (Elt F) ((Memref.whole cc1_scratch2).view.loc (thrV d L)))
    (f3 : Buf (Elt F) ((Memref.whole cc1_scratch3).view.loc (thrV d L)))
    (f4 : Buf (Elt F) ((Memref.whole cc1_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ bigSepL l80 (fun r : Fin 80 => ((oSl L r).view.loc (thrV d L) ↦[(oSl L r).view.set]{fullShare} fo : sProp 𝕄))
      ∗ ((Memref.whole cc1_scratch0).view.loc (thrV d L) ↦{fullShare} f0)
      ∗ ((Memref.whole cc1_scratch1).view.loc (thrV d L) ↦{fullShare} f1)
      ∗ ((Memref.whole cc1_scratch2).view.loc (thrV d L) ↦{fullShare} f2)
      ∗ ((Memref.whole cc1_scratch3).view.loc (thrV d L) ↦{fullShare} f3)
      ∗ ((Memref.whole cc1_scratch4).view.loc (thrV d L) ↦{fullShare} f4)
      ∗ bigSepL sems1 (fun sm : SemLoc sig => (semVal ((thrV d L), sm) 0 : sProp 𝕄))
      ∗ owes (thrV d L) O W
      ∗ (iprop((hV.view.loc (thrV d L) ↦{q} fh) ∗ (sV.view.loc (thrV d L) ↦{q} fs)
          ∗ bigSepL l80 (fun r : Fin 80 => ((oSl L r).view.loc (thrV d L) ↦[(oSl L r).view.set]{fullShare} gatherRows fh fs : sProp 𝕄))
          ∗ (∃ f, (Memref.whole cc1_scratch0).view.loc (thrV d L) ↦{fullShare} f)
          ∗ (∃ f, (Memref.whole cc1_scratch1).view.loc (thrV d L) ↦{fullShare} f)
          ∗ (∃ f, (Memref.whole cc1_scratch2).view.loc (thrV d L) ↦{fullShare} f)
          ∗ (∃ f, (Memref.whole cc1_scratch3).view.loc (thrV d L) ↦{fullShare} f)
          ∗ (∃ f, (Memref.whole cc1_scratch4).view.loc (thrV d L) ↦{fullShare} f)
          ∗ bigSepL sems1 (fun sm : SemLoc sig => (semVal ((thrV d L), sm) 0 : sProp 𝕄))
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc1__gather_kernel L hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) Q :=
  tile_grouped_aux d L q fh fs hfs fo f0 f1 f2 f3 f4 O W hO Q

end Tile

end Cert.Proof.KB

end
-- ==== Proof.TileOblB.lean ====
/-
  A task of the first gather call in the launch theorem's form: what the handshake hands it (its shares of the two
  tables, its eighty blocks of the output), its own scratch buffers and transfer counters, in; the same out, the
  blocks at the gathered rows.
-/
import proofs.«207928_g75127567942135_cont_9to1c4b_313_20_alg».proof.Proof.TileGroupB
import proofs.«207928_g75127567942135_cont_9to1c4b_313_20_alg».proof.Proof.LaunchB
import proofs.«207928_g75127567942135_cont_9to1c4b_313_20_alg».proof.Proof.GatherSpecB

noncomputable section

namespace Cert.Proof.KB

open Cert.Kernel Cert.Kernel.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## A task's place, and its output chunks as blocks of the partition -/

/-- The grid coordinates of SparseCore `c`'s task `i`. -/
def coordsV (c : Fin (grid1.bound 0)) (s : Fin (grid1.bound 1)) : grid1.Coords :=
  fun | 0 => c | 1 => s | ⟨_ + 2, h⟩ => absurd h (Nat.not_lt.2 (Nat.le_add_left _ _))

theorem bound0 : grid1.bound 0 = 2 := rfl
theorem bound1 : grid1.bound 1 = 16 := rfl
abbrev cL (L : grid1.Coords) : Fin 2 := Fin.cast bound0 (L 0)
abbrev iL (L : grid1.Coords) : Fin 16 := Fin.cast bound1 (L 1)

/-- Chunk `r` of the task at `L` is block `1280 c + 80 i + r`: rows `163840 c + 10240 i + 128 r` on. -/
theorem oRect_eq (L : grid1.Coords) (r : Fin 80) :
    Rect.unit (s := S327680x128) (k1_off2 L (BitVec.ofNat 32 (128 * r.val))) S128x128.size (k1_off2_inb L r) = blk (blkIx (cL L) (iL L) r) := by
  unfold blk Rect.part Rect.block
  congr 1 <;> funext a
  · rw [k1_off2_eq]
    match a with
    | 0 => simp [Shape.partIx, Shape.partSize, blkIx]; omega
    | 1 => simp [Shape.partIx, Shape.partSize]
  · match a with
    | 0 => simp [Shape.partSize]
    | 1 => simp [Shape.partSize]

theorem oSl_set (L : grid1.Coords) (r : Fin 80) : (oSl L r).view.set = (blk (blkIx (cL L) (iL L) r)).set := by
  show ((View.whole (main_v34_scv : Ref sig .scVector)).slice (Rect.unit (s := S327680x128) (k1_off2 L (BitVec.ofNat 32 (128 * r.val))) S128x128.size (k1_off2_inb L r))).set = _
  rw [View.set_slice, oRect_eq]; exact Finset.map_refl

/-! ## The task's own scratch buffers and transfer counters -/

section Own

variable (d : Dev nD) (L : grid1.Coords)

/-- The five scratch buffers of this call are among the subcore's own: they are them, at some contents, and the rest. -/
theorem ownBufs_V1 :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (((((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3)).erase ((Proc.scVector (cV L) (jV L)).devRef cc1_scratch4)))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide),
      Finset.mem_erase.mpr ⟨fun e => absurd (Proc.devRef_injective _ e) (show (cc1_scratch4 : Ref sig .scVector) ≠ cc1_scratch2 by decide),
      Finset.mem_erase.mpr ⟨fun e => absurd (Proc.devRef_injective _ e) (show (cc1_scratch4 : Ref sig .scVector) ≠ cc1_scratch1 by decide),
      Finset.mem_erase.mpr ⟨fun e => absurd (Proc.devRef_injective _ e) (show (cc1_scratch4 : Ref sig .scVector) ≠ cc1_scratch0 by decide),
      SparseCore.Cfg.mem_ownRefs_of_owner (p := Proc.scVector (cV L) (jV L)) (b := (Proc.scVector (cV L) (jV L)).devRef cc1_scratch4) rfl⟩⟩⟩⟩)]

/-- The scoped semaphores of a vector subcore that are not this call's kernel's. -/
def restSems : Finset (SemLoc sig) := (Finset.univ.filter fun sm : SemLoc sig => sm.isScoped .scVector) \ (sems1 : List (SemLoc sig)).toFinset

theorem sems1_nodup : (sems1 : List (SemLoc sig)).Nodup := by decide +kernel
theorem sems1_sub : (sems1 : List (SemLoc sig)).toFinset ⊆ Finset.univ.filter fun sm : SemLoc sig => sm.isScoped .scVector := by decide +kernel

/-- The subcore's own transfer counters at zero: this call's kernel's, listed, and the rest. -/
theorem ownSems0_V1 :
    (ownSems0 (thrV d L) : sProp 𝕄)
      = iprop(bigSepL sems1 (fun sm : SemLoc sig => (semVal ((thrV d L), sm) 0 : sProp 𝕄)) ∗ bigSep restSems fun sm => semVal ((thrV d L), sm) 0) := by
  rw [SparseCore.Cfg.ownSems0_eq]
  show bigSep (Finset.univ.filter fun sm : SemLoc sig => sm.isScoped .scVector) _ = _
  conv_lhs => rw [← Finset.union_sdiff_of_subset sems1_sub]
  rw [bigSep_union Finset.disjoint_sdiff, bigSep_eq_bigSepL sems1 sems1_nodup]
  rfl

end Own

/-! ## The task's blocks as its chunks -/

section Blocks

variable (d : Dev nD) (c : Fin 2) (i : Fin 16)

theorem l80_univ : (Finset.univ : Finset (Fin 80)) = (l80 : List (Fin 80)).toFinset := by decide +kernel
theorem l80_nodup : (l80 : List (Fin 80)).Nodup := by decide +kernel

/-- The task's eighty blocks of the output, held block by block at `g`, are its eighty chunks as the kernel slices them. -/
theorem blocks_eq (g : Buf (Elt F) (oLoc0 d)) :
    (bigSep Finset.univ fun r : Fin 80 => (oLoc0 d ↦[(blk (blkIx c i r)).set]{fullShare} g : sProp 𝕄))
      = bigSepL l80 (fun r : Fin 80 => ((oSl (coordsV c i) r).view.loc (thrV d (coordsV c i)) ↦[(oSl (coordsV c i) r).view.set]{fullShare} g : sProp 𝕄)) := by
  rw [bigSep_univ_eq_bigSepL l80 l80_univ l80_nodup]
  exact congrArg (bigSepL l80) (funext fun r => by rw [oSl_set]; rfl)

end Blocks

/-! ## The task, from what the handshake hands it to what it hands back -/

section Body

variable (fh0 : (d : Dev nD) → Buf (Elt F) (hLoc0 d)) (fs : (d : Dev nD) → Buf (Elt F) (sLoc d)) (fo0 : (d : Dev nD) → Buf (Elt F) (oLoc0 d))

set_option maxHeartbeats 4000000 in
/-- One task of the first gather call: from its shares of the two tables and its eighty blocks at the output's prior contents, its own
    buffers and counters, and what it owes, the kernel runs to its end with the blocks at the gathered rows and everything else back. -/
theorem tile_body0 (d : Dev nD) (c : Fin 2) (i : Fin 16) (hfs : ∀ j, ((fs d) j).toNat < 10240)
    (O : CellTallies nD τ sig (HIx 2)) (W : Waits sig (HIx 2)) (hO : ∀ g, O g none = 0) :
    iprop(levAts (K (F := F)).L (K (F := F)).lev ∗ emp ∗ taskPay0 fh0 fs d c i (fo0 d)
        ∗ scopedBufs (thrV d (coordsV c i)) ∗ scopedSems0 (thrV d (coordsV c i)) ∗ owes (thrV d (coordsV c i)) O W)
      ⊢ wp frame (wpE (defs₀ (F := F)) 𝒱₀ (thrV d (coordsV c i)) none) Set.univ
          (cc1__gather_kernel (coordsV c i) hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161)
          fun _ => iprop(taskPay0 fh0 fs d c i (gatherRows (fh0 d) (fs d)) ∗ scopedBufs (thrV d (coordsV c i)) ∗ scopedSems0 (thrV d (coordsV c i))
            ∗ ∃ W', ⌜∀ p ∈ W', p ∈ W ∨ p.2 = none⌝ ∗ owes (thrV d (coordsV c i)) O W') := by
  rw [(K (F := F)).scopedBufs_V facts d (cV (coordsV c i)) (jV (coordsV c i)), SparseCore.Cfg.scopedSems0_V (Val := Elt F) d (cV (coordsV c i)) (jV (coordsV c i)),
    ownSems0_V1, ownBufs_V1]
  unfold taskPay0
  rw [blocks_eq d c i (fo0 d), blocks_eq d c i (gatherRows (fh0 d) (fs d))]
  iintro ⟨#Hlv, -, ⟨Hh, Hs, Hbl⟩, ⟨⟨%f0, B0⟩, ⟨%f1, B1⟩, ⟨%f2, B2⟩, ⟨%f3, B3⟩, ⟨%f4, B4⟩, Hbufs⟩, ⟨Hsems, Hsrest⟩, HO⟩
  ihave Hmw := ((K (F := F)).mayWaits_none (thr := thrV d (coordsV c i)) hO) $$ Hlv
  iapply (tile_grouped d (coordsV c i) (qT c i) (fh0 d) (fs d) hfs (fo0 d) f0 f1 f2 f3 f4 O W hO _)
  isplitl [Hmw]; · iexact Hmw
  isplitl [Hh]; · iexact Hh
  isplitl [Hs]; · iexact Hs
  isplitl [Hbl]; · iexact Hbl
  isplitl [B0]; · iexact B0
  isplitl [B1]; · iexact B1
  isplitl [B2]; · iexact B2
  isplitl [B3]; · iexact B3
  isplitl [B4]; · iexact B4
  isplitl [Hsems]; · iexact Hsems
  isplitl [HO]; · iexact HO
  iintro ⟨Hh, Hs, Hbl, ⟨%e0, B0⟩, ⟨%e1, B1⟩, ⟨%e2, B2⟩, ⟨%e3, B3⟩, ⟨%e4, B4⟩, Hsems, HO⟩
  isplitl [Hh Hs Hbl]
  · isplitl [Hh]; · iexact Hh
    isplitl [Hs]; · iexact Hs
    iexact Hbl
  isplitl [B0 B1 B2 B3 B4 Hbufs]
  · isplitl [B0]; · iexists _; iexact B0
    isplitl [B1]; · iexists _; iexact B1
    isplitl [B2]; · iexists _; iexact B2
    isplitl [B3]; · iexists _; iexact B3
    isplitl [B4]; · iexists _; iexact B4
    iexact Hbufs
  isplitl [Hsems Hsrest]
  · isplitl [Hsems]; · iexact Hsems
    iexact Hsrest
  iexact HO

end Body

/-! ## The launch theorem's obligation -/

section Obl

variable (fh0 : (d : Dev nD) → Buf (Elt F) (hLoc0 d)) (fh1 : (d : Dev nD) → Buf (Elt F) (hLoc1 d)) (fs : (d : Dev nD) → Buf (Elt F) (sLoc d))
  (fo0 : (d : Dev nD) → Buf (Elt F) (oLoc0 d)) (fo1 fo1' : (d : Dev nD) → Buf (Elt F) (oLoc1 d))

theorem defs₀_vector1 (c : Fin τ.nSC) (s : Fin τ.nSub) :
    defs₀ (F := F) (.scVector c s) 1 ()
      = SparseCore.onTile hcore1 hsub1 (fun c s => cc1__gather_kernel (coordsV c s) hV (Memref.isWhole_whole _) sV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109 cc1_scoped110 cc1_scoped111 cc1_scoped112 cc1_scoped113 cc1_scoped114 cc1_scoped115 cc1_scoped116 cc1_scoped117 cc1_scoped118 cc1_scoped119 cc1_scoped120 cc1_scoped121 cc1_scoped122 cc1_scoped123 cc1_scoped124 cc1_scoped125 cc1_scoped126 cc1_scoped127 cc1_scoped128 cc1_scoped129 cc1_scoped130 cc1_scoped131 cc1_scoped132 cc1_scoped133 cc1_scoped134 cc1_scoped135 cc1_scoped136 cc1_scoped137 cc1_scoped138 cc1_scoped139 cc1_scoped140 cc1_scoped141 cc1_scoped142 cc1_scoped143 cc1_scoped144 cc1_scoped145 cc1_scoped146 cc1_scoped147 cc1_scoped148 cc1_scoped149 cc1_scoped150 cc1_scoped151 cc1_scoped152 cc1_scoped153 cc1_scoped154 cc1_scoped155 cc1_scoped156 cc1_scoped157 cc1_scoped158 cc1_scoped159 cc1_scoped160 cc1_scoped161) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 4000000 in
/-- The first gather call's tasks, in the launch theorem's form, at payloads whose output comes back at the gathered rows. -/
theorem tileObl0 (hfs : ∀ d j, ((fs d) j).toNat < 10240) :
    (K (F := F)).TileObl (D (F := F)) 𝒱 (P fh0 fh1 fs fo0 (fun d => gatherRows (fh0 d) (fs d)) fo1 fo1') v₀ 0 := by
  intro d c i O W hO _ _
  simp only [show (P fh0 fh1 fs fo0 (fun d => gatherRows (fh0 d) (fs d)) fo1 fo1').ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (tile_body0 fh0 fs fo0 d c i (hfs d) O W hO).trans (wp_mono frame _ _ fun _ => obl_post)

end Obl

end Cert.Proof.KB

end
-- ==== Proof.TileB2.lean ====
/-
  One vector-subcore task of the row gather, at a symbolic place of the grid: tile w = 16·c + s stores the lane
  numbers 0 … 15 in its short index list, copies rows [80w, 80w + 80) of the index table into its long index list,
  and then alternates between its two row buffers: 128 rows of the source array, named by row k of the long list,
  are gathered into one buffer while the other buffer's 128 rows go out to rows [10240w + 128k, 10240w + 128k + 128)
  of the result. Every transfer has a counter of its own, at zero before it is issued and at zero again after its
  wait, and is waited for before the next is issued; so the task needs, beside read shares of the two arrays it
  reads, exactly the eighty result windows it writes, its five scratch buffers and its 162 counters, and hands all
  of them back.
-/
import proofs.«207928_g75127567942135_cont_9to1c4b_313_20_alg».proof.Proof.SetupB
import proofs.«207928_g75127567942135_cont_9to1c4b_313_20_alg».proof.Proof.GatherSpecB

noncomputable section

namespace Cert.Proof.KB

open Cert.Kernel Cert.Kernel.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

namespace Call1

section Tile

variable (d : Dev nD) (L : grid3.Coords)

abbrev cV (L : grid3.Coords) : Fin τ.nSC := (L 0).castLE hcore3
abbrev jV (L : grid3.Coords) : Fin τ.nSub := (L 1).castLE hsub3
abbrev hV : Memref sig .scVector .hbm S10240x128 .f32 := Memref.whole main_v39_scv
abbrev sV : Memref sig .scVector .hbm S2560x128 .i32 := Memref.whole main_v6_scv
abbrev oV : Memref sig .scVector .hbm S327680x128 .f32 := Memref.whole main_v40_scv
abbrev oSl (L : grid3.Coords) (r : Fin 80) : Memref sig .scVector .hbm S128x128 .f32 :=
  (oV).slice (Rect.unit (s := S327680x128) (k3_off2 L (BitVec.ofNat 32 (128 * r.val))) S128x128.size (k3_off2_inb L r)) (fun _ => rfl)
abbrev thrV (d : Dev nD) (L : grid3.Coords) : Thread nD τ := V d (cV L) (jV L)

/-- Every word the index list holds after the table rows were copied into it names a row of the gathered array:
    whatever the list held before, whichever row window of it is read. -/
theorem idx_inb (fs : Buf (Elt F) (sV.view.loc (thrV d L))) (hfs : ∀ j, (fs j).toNat < 10240) :
    ∀ (g : Buf (Elt F) ((Memref.whole cc3_scratch0).view.loc (thrV d L))) (off : Fin 2 → ℕ)
      (hoff : ∀ a, off a + S1x128.size a ≤ S80x128.size a) (hst : ∀ a, (Rect.unit (s := S80x128) off S1x128.size hoff).stride a = 1)
      (hsq : S1x128.Squeezes S128) (x : S128.Idx),
      ((((Memref.whole cc3_scratch0).slice (Rect.unit (s := S80x128) off S1x128.size hoff) hst).squeeze S128 hsq).view.read (Elt F)
        ((Memref.whole cc3_scratch0).view.write (Elt F) g
          (ReadAs.same.apply ((sV.slice (Rect.unit (s := S2560x128) (k3_off1 L) S80x128.size (k3_off1_inb L)) (fun _ => rfl)).view.read (Elt F) fs))
          Finset.univ) x).toNat < 10240 := by
  intro g off hoff hst hsq x
  have e1 : (((Memref.whole cc3_scratch0).slice (Rect.unit (s := S80x128) off S1x128.size hoff) hst).squeeze S128 hsq).view.read (Elt F)
        ((Memref.whole cc3_scratch0).view.write (Elt F) g
          (ReadAs.same.apply ((sV.slice (Rect.unit (s := S2560x128) (k3_off1 L) S80x128.size (k3_off1_inb L)) (fun _ => rfl)).view.read (Elt F) fs))
          Finset.univ) x
      = (Memref.whole cc3_scratch0).view.read (Elt F) ((Memref.whole cc3_scratch0).view.write (Elt F) g
          (ReadAs.same.apply ((sV.slice (Rect.unit (s := S2560x128) (k3_off1 L) S80x128.size (k3_off1_inb L)) (fun _ => rfl)).view.read (Elt F) fs))
          Finset.univ) ((Rect.unit (s := S80x128) off S1x128.size hoff).emb (Shape.reshapeEquiv hsq.numel_eq x)) := rfl
  rw [e1, View.read_write_of_mem _ _ (Finset.mem_univ _)]
  exact hfs _

/-- The lane numbers stored in the sixteen-entry list name rows of the gathered array, whatever the list held before. -/
theorem iota_inb (inb : ∀ a, (![0] : Fin 1 → ℕ) a + S16.size a ≤ S16.size a) (x : S16.Idx) :
    ((Memref.whole cc3_scratch3).view.read (Elt F)
      ((Memref.whole cc3_scratch3).view.writes (Elt F) (Memref.whole cc3_scratch3).view.junk
        [⟨Rect.unit (s := S16) ![0] S16.size inb, shapeCast S16 (iota .scVector S16 32 [0] iota_S16_d0_w32_scVector) shapeCasts_S16_S16⟩]) x).toNat < 10240 := by
  have hx : (Rect.unit (s := S16) ![0] S16.size inb).emb x = x := by
    funext a; apply Fin.ext
    show (![0] : Fin 1 → ℕ) a + 1 * (x a : ℕ) = x a
    have h0 : (![0] : Fin 1 → ℕ) a = 0 := by fin_cases a; rfl
    omega
  have h := View.read_writes_cons_emb (Memref.whole cc3_scratch3).view (Val := Elt F) (Memref.whole cc3_scratch3).view.junk
    (Rect.unit (s := S16) ![0] S16.size inb) (shapeCast S16 (iota .scVector S16 32 [0] iota_S16_d0_w32_scVector) shapeCasts_S16_S16) [] x
  rw [hx] at h
  rw [h]
  show (BitVec.ofNat 32 (0 * S16.size 0 + ((Shape.reshapeEquiv shapeCasts_S16_S16 x) 0).val)).toNat < 10240
  have hlt : ((Shape.reshapeEquiv shapeCasts_S16_S16 x) 0 : Fin (S16.size 0)).val < 16 := ((Shape.reshapeEquiv shapeCasts_S16_S16 x) 0).isLt
  rw [BitVec.toNat_ofNat]
  refine Nat.lt_of_le_of_lt (Nat.mod_le _ _) ?_
  rw [Nat.zero_mul]; omega

/-- One more wait at the kernels' index keeps the record of waits within the launch's bound. -/
theorem waits_insert {W W' : Waits sig (HIx 2)} {sm : SemLoc sig} (h : ∀ p ∈ W', p ∈ W ∨ p.2 = none) :
    ∀ p ∈ insert (sm, (none : HIx 2)) W', p ∈ W ∨ p.2 = none := by
  intro p hp
  rcases Finset.mem_insert.mp hp with rfl | hp
  · exact Or.inr rfl
  · exact h p hp

/-! ## What a window holds after its copy

Window `kk` is written whole with what the row buffer held when it was copied out: the rows of the source array that
row `kk` of the long index list names; and that row is row `80w + kk` of the index table. -/

/-- A function of a rank-two index reads alike at two indices with the same coordinates. -/
theorem app2_congr {α : Type} {n0 n1 : ℕ} (f : (⟨2, ![n0, n1]⟩ : Shape).Idx → α) {i j : (⟨2, ![n0, n1]⟩ : Shape).Idx}
    (h0 : (i 0).val = (j 0).val) (h1 : (i 1).val = (j 1).val) : f i = f j :=
  congrArg f (funext fun a => Fin.ext (match a with | ⟨0, _⟩ => h0 | ⟨1, _⟩ => h1))

/-- Entry `z` of a 128-entry row seen as a 1×128 block is the block's entry `(0, z)`. -/
theorem squeeze_coords (hsq : S1x128.Squeezes S128) (z : S128.Idx) :
    ((Shape.reshapeEquiv hsq.numel_eq z) 0).val = 0 ∧ ((Shape.reshapeEquiv hsq.numel_eq z) 1).val = (z 0).val := by
  have hy := Shape.rowMajor_reshapeEquiv hsq.numel_eq z
  rw [Shape.rowMajor_val_two, Shape.rowMajor_val_one] at hy
  have hy' : ((Shape.reshapeEquiv hsq.numel_eq z) 0).val * 128 + ((Shape.reshapeEquiv hsq.numel_eq z) 1).val = (z 0).val := hy
  have h0 : ((Shape.reshapeEquiv hsq.numel_eq z) 0).val < 1 := ((Shape.reshapeEquiv hsq.numel_eq z) 0).isLt
  omega

/-- Entry `z` of row `kk` of the long index list, after the table's rows were copied into the list, is the table's
    entry `(80w + kk, z)`. -/
theorem list_word (fs : Buf (Elt F) (sV.view.loc (thrV d L))) (g0 : Buf (Elt F) ((Memref.whole cc3_scratch0).view.loc (thrV d L))) (kk : ℕ)
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128) (z : S128.Idx) :
    ∃ j : S2560x128.Idx, (j 0).val = 1280 * (L 0).val + 80 * (L 1).val + kk ∧ (j 1).val = (z 0).val ∧
      (((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) z = (fs : S2560x128.Idx → BitVec 32) j := by
  obtain ⟨hz0, hz1⟩ := squeeze_coords hsq z
  refine ⟨(Rect.unit (s := S2560x128) (k3_off1 L) S80x128.size (k3_off1_inb L)).emb
            ((Rect.unit (s := S80x128) ![kk, 0] S1x128.size hoff).emb (Shape.reshapeEquiv hsq.numel_eq z)), ?_, ?_, ?_⟩
  · show k3_off1 L 0 + 1 * ((![kk, 0] : Fin 2 → ℕ) 0 + 1 * ((Shape.reshapeEquiv hsq.numel_eq z) 0).val) = _
    rw [k3_off1_eq, hz0]
    show (1280 * (L 0).val + 80 * (L 1).val) + 1 * (kk + 1 * 0) = _
    omega
  · show k3_off1 L 1 + 1 * ((![kk, 0] : Fin 2 → ℕ) 1 + 1 * ((Shape.reshapeEquiv hsq.numel_eq z) 1).val) = _
    rw [k3_off1_eq, hz1]
    show 0 + 1 * (0 + 1 * (z 0).val) = _
    omega
  · have e1 : (((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) z
        = (Memref.whole cc3_scratch0).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)
            ((Rect.unit (s := S80x128) ![kk, 0] S1x128.size hoff).emb (Shape.reshapeEquiv hsq.numel_eq z)) := rfl
    rw [e1, View.read_write_of_mem _ _ (Finset.mem_univ _)]
    rfl

/-- What a list of writes whose last is of the whole shape leaves is read back as that write's payload. -/
theorem read_writes_whole_cons {sig' : RefSig} {κ : Kind} {sp : Space} {s : Shape} {e : EltTy} {Val : EltTy → Type}
    (v : View sig' κ sp s e) (f : v.ty.Contents Val) (w : (Rect.whole s).shape.Idx → Val e)
    (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- Window `kk` after its copy holds, at each of its own elements, the gathered rows: element `(x₀, x₁)` of the window
    is element `(10240w + 128·kk + x₀, x₁)` of the result, the row buffer held there the source's row named by entry `x₀`
    of row `kk` of the long index list, and that entry is the index table's at `(80w + kk, x₀)`. -/
theorem window_value (fh : Buf (Elt F) (hV.view.loc (thrV d L))) (fs : Buf (Elt F) (sV.view.loc (thrV d L)))
    (hfs : ∀ j, (fs j).toNat < 10240) (fo : Buf (Elt F) (oV.view.loc (thrV d L)))
    (kk : ℕ) (hk : kk < 80) (c : BitVec 32) (hc : c = BitVec.ofNat 32 (128 * kk))
    (inb2 : ∀ a, k3_off2 L c a + S128x128.size a ≤ S327680x128.size a)
    (hst2 : ∀ a, (Rect.unit (s := S327680x128) (k3_off2 L c) S128x128.size inb2).stride a = 1)
    (M : Memref sig .scVector .vmem S128x128 .f32) (base : M.view.ty.Contents (Elt F))
    (Lr : List (View.Piece (Elt F) S128x128 .f32))
    (g0 : Buf (Elt F) ((Memref.whole cc3_scratch0).view.loc (thrV d L)))
    (hoff : ∀ a, (![kk, 0] : Fin 2 → ℕ) a + S1x128.size a ≤ S80x128.size a)
    (hst : ∀ a, (Rect.unit (s := S80x128) ![kk, 0] S1x128.size hoff).stride a = 1)
    (hsq : S1x128.Squeezes S128)
    (inbh : ∀ a, (![0, 0] : Fin 2 → ℕ) a + S10240x128.size a ≤ S10240x128.size a)
    (hsth : ∀ a, (Rect.unit (s := S10240x128) ![0, 0] S10240x128.size inbh).stride a = 1)
    (hn : S128.numel = S128x128.size gathers_S10240x128_S128x128.axis')
    (hinr : ∀ x, ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) x).toNat < S10240x128.size gathers_S10240x128_S128x128.axis) :
    ∀ i ∈ ((oV.slice (Rect.unit (s := S327680x128) (k3_off2 L c) S128x128.size inb2) hst2) : Memref sig .scVector .hbm S128x128 .f32).view.set,
      ((oV.slice (Rect.unit (s := S327680x128) (k3_off2 L c) S128x128.size inb2) hst2) : Memref sig .scVector .hbm S128x128 .f32).view.writes (Elt F) fo [⟨Rect.whole S128x128, (ReadAs.same.apply (M.view.read (Elt F) (M.view.writes (Elt F) base (⟨Rect.whole S128x128, (SparseCore.gatherPayload gathers_S10240x128_S128x128 ((hV.slice (Rect.unit (s := S10240x128) ![0, 0] S10240x128.size inbh) hsth).view.read (Elt F) fh) (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr))⟩ :: Lr))))⟩] i
        = (gatherRows (F := F) fh fs : Buf (Elt F) (oV.view.loc (thrV d L))) i := by
  intro i hi
  obtain ⟨x, -, rfl⟩ := Finset.mem_map.mp hi
  have key1 : ∀ f : ((oV.slice (Rect.unit (s := S327680x128) (k3_off2 L c) S128x128.size inb2) hst2) : Memref sig .scVector .hbm S128x128 .f32).view.ty.Contents (Elt F),
      f (((oV.slice (Rect.unit (s := S327680x128) (k3_off2 L c) S128x128.size inb2) hst2) : Memref sig .scVector .hbm S128x128 .f32).view.emb x) = ((oV.slice (Rect.unit (s := S327680x128) (k3_off2 L c) S128x128.size inb2) hst2) : Memref sig .scVector .hbm S128x128 .f32).view.read (Elt F) f x := fun f => rfl
  refine (key1 _).trans ?_
  refine (read_writes_whole_cons _ _ _ _ x).trans ?_
  refine (read_writes_whole_cons M.view _ _ _ x).trans ?_
  have key2 : ∀ y, (hV.slice (Rect.unit (s := S10240x128) ![0, 0] S10240x128.size inbh) hsth).view.read (Elt F) fh y = (fh : S10240x128.Idx → F .f32) ((hV.slice (Rect.unit (s := S10240x128) ![0, 0] S10240x128.size inbh) hsth).view.emb y) := fun y => rfl
  refine (key2 _).trans ?_
  -- the entry of the long list that names the row
  obtain ⟨j, hj0, hj1, hj⟩ := list_word d L fs g0 kk hoff hst hsq (S128.rowMajor.symm ((x 0).cast hn.symm))
  have hz : ((S128.rowMajor.symm ((x 0).cast hn.symm)) 0).val = (x 0).val := by
    have h := Shape.rowMajor_val_one (S128.rowMajor.symm ((x 0).cast hn.symm))
    rw [Equiv.apply_symm_apply] at h
    exact h.symm
  have e2 : k3_off2 L c = ![163840 * (L 0).val + 10240 * (L 1).val + 128 * kk, 0] := by
    rw [hc]; exact k3_off2_eq L ⟨kk, hk⟩
  have e20 : k3_off2 L c 0 = 163840 * (L 0).val + 10240 * (L 1).val + 128 * kk := congrFun e2 0
  have e21 : k3_off2 L c 1 = 0 := congrFun e2 1
  have hx0 : (x 0).val < 128 := (x 0).isLt
  have hi0 : ((((oV.slice (Rect.unit (s := S327680x128) (k3_off2 L c) S128x128.size inb2) hst2) : Memref sig .scVector .hbm S128x128 .f32).view.emb x) 0).val = 163840 * (L 0).val + 10240 * (L 1).val + 128 * kk + (x 0).val := by
    show k3_off2 L c 0 + 1 * (x 0).val = _
    omega
  have hi1 : ((((oV.slice (Rect.unit (s := S327680x128) (k3_off2 L c) S128x128.size inb2) hst2) : Memref sig .scVector .hbm S128x128 .f32).view.emb x) 1).val = (x 1).val := by
    show k3_off2 L c 1 + 1 * (x 1).val = _
    omega
  unfold gatherRows
  refine app2_congr (fh : S10240x128.Idx → F .f32) ?_ ?_
  · -- the row: the word the list holds there, below the source's height
    have e0 : gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 0
        = SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr (x 0) :=
      Shape.Gathers.idx_axis gathers_S10240x128_S128x128 _ x
    show (![0, 0] : Fin 2 → ℕ) 0 + 1 * (gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 0).val = _
    rw [e0]
    show 0 + 1 * ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ) (S128.rowMajor.symm ((x 0).cast hn.symm))).toNat = _
    rw [hj]
    have hjj : (fs : S2560x128.Idx → BitVec 32) j = (fs : S2560x128.Idx → BitVec 32)
        (ValueIdx.ix2 (⟨((((oV.slice (Rect.unit (s := S327680x128) (k3_off2 L c) S128x128.size inb2) hst2) : Memref sig .scVector .hbm S128x128 .f32).view.emb x) 0).val / 128, by have h : ((((oV.slice (Rect.unit (s := S327680x128) (k3_off2 L c) S128x128.size inb2) hst2) : Memref sig .scVector .hbm S128x128 .f32).view.emb x) 0).val < 327680 := ((((oV.slice (Rect.unit (s := S327680x128) (k3_off2 L c) S128x128.size inb2) hst2) : Memref sig .scVector .hbm S128x128 .f32).view.emb x) 0).isLt; omega⟩ : Fin 2560)
          (⟨((((oV.slice (Rect.unit (s := S327680x128) (k3_off2 L c) S128x128.size inb2) hst2) : Memref sig .scVector .hbm S128x128 .f32).view.emb x) 0).val % 128, Nat.mod_lt _ (by decide)⟩ : Fin 128)) := by
      refine app2_congr (fs : S2560x128.Idx → BitVec 32) ?_ ?_
      · show (j 0).val = ((((oV.slice (Rect.unit (s := S327680x128) (k3_off2 L c) S128x128.size inb2) hst2) : Memref sig .scVector .hbm S128x128 .f32).view.emb x) 0).val / 128
        rw [hj0, hi0]; omega
      · show (j 1).val = ((((oV.slice (Rect.unit (s := S327680x128) (k3_off2 L c) S128x128.size inb2) hst2) : Memref sig .scVector .hbm S128x128 .f32).view.emb x) 0).val % 128
        rw [hj1, hz, hi0]; omega
    rw [hjj]
    have hlt := hfs (ValueIdx.ix2 (⟨((((oV.slice (Rect.unit (s := S327680x128) (k3_off2 L c) S128x128.size inb2) hst2) : Memref sig .scVector .hbm S128x128 .f32).view.emb x) 0).val / 128, by have h : ((((oV.slice (Rect.unit (s := S327680x128) (k3_off2 L c) S128x128.size inb2) hst2) : Memref sig .scVector .hbm S128x128 .f32).view.emb x) 0).val < 327680 := ((((oV.slice (Rect.unit (s := S327680x128) (k3_off2 L c) S128x128.size inb2) hst2) : Memref sig .scVector .hbm S128x128 .f32).view.emb x) 0).isLt; omega⟩ : Fin 2560)
          (⟨((((oV.slice (Rect.unit (s := S327680x128) (k3_off2 L c) S128x128.size inb2) hst2) : Memref sig .scVector .hbm S128x128 .f32).view.emb x) 0).val % 128, Nat.mod_lt _ (by decide)⟩ : Fin 128))
    show _ = _ % 10240
    rw [Nat.mod_eq_of_lt hlt]; omega
  · -- the column
    have e1 : (gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 1).val = (x 1).val :=
      Shape.Gathers.idx_of_ne gathers_S10240x128_S128x128 _ x 1 (by decide)
    show (![0, 0] : Fin 2 → ℕ) 1 + 1 * (gathers_S10240x128_S128x128.idx (SparseCore.rows ((((Memref.whole cc3_scratch0).slice (Rect.unit (s := S80x128) ![kk, 0] S1x128.size hoff) hst).squeeze S128 hsq).view.read (Elt F) ((Memref.whole cc3_scratch0).view.write (Elt F) g0 (ReadAs.same.apply ((sV.slice (Rect.unit (s := S2560x128) (k3_off1 L) S80x128.size (k3_off1_inb L)) (fun _ => rfl)).view.read (Elt F) fs)) Finset.univ)) hn hinr) x 1).val = _
    rw [e1]
    show 0 + 1 * (x 1).val = ((((oV.slice (Rect.unit (s := S327680x128) (k3_off2 L c) S128x128.size inb2) hst2) : Memref sig .scVector .hbm S128x128 .f32).view.emb x) 1).val
    rw [hi1]; omega

/-! ## The task's run

The eighty result windows are held by exactly their own elements, spelt as the program slices them; each comes back
at the gathered rows. -/

set_option maxHeartbeats 16000000 in
/-- From the two read shares, the eighty result windows, the scratch buffers, the counters at zero and the thread's
    ledger, the task runs to its return and hands everything back: the shares unchanged, every window at the gathered
    rows, the scratch buffers at some contents, the counters at zero, and only waits at the kernels' own index added
    to the ledger. -/
theorem tile_run' (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oV.slice (Rect.unit (s := S327680x128) (k3_off2 L 0#32) S128x128.size (k3_off2_inb L 0)) (fun _ => rfl)).view.loc (thrV d L) ↦[(oV.slice (Rect.unit (s := S327680x128) (k3_off2 L 0#32) S128x128.size (k3_off2_inb L 0)) (fun _ => rfl)).view.set]{fullShare} fo)
      ∗ ((oV.slice (Rect.unit (s := S327680x128) (k3_off2 L 128#32) S128x128.size (k3_off2_inb L 1)) (fun _ => rfl)).view.loc (thrV d L) ↦[(oV.slice (Rect.unit (s := S327680x128) (k3_off2 L 128#32) S128x128.size (k3_off2_inb L 1)) (fun _ => rfl)).view.set]{fullShare} fo)
      ∗ ((oV.slice (Rect.unit (s := S327680x128) (k3_off2 L 256#32) S128x128.size (k3_off2_inb L 2)) (fun _ => rfl)).view.loc (thrV d L) ↦[(oV.slice (Rect.unit (s := S327680x128) (k3_off2 L 256#32) S128x128.size (k3_off2_inb L 2)) (fun _ => rfl)).view.set]{fullShare} fo)
      ∗ ((oV.slice (Rect.unit (s := S327680x128) (k3_off2 L 384#32) S128x128.size (k3_off2_inb L 3)) (fun _ => rfl)).view.loc (thrV d L) ↦[(oV.slice (Rect.unit (s := S327680x128) (k3_off2 L 384#32) S128x128.size (k3_off2_inb L 3)) (fun _ => rfl)).view.set]{fullShare} fo)
      ∗ ((oV.slice (Rect.unit (s := S327680x128) (k3_off2 L 512#32) S128x128.size (k3_off2_inb L 4)) (fun _ => rfl)).view.loc (thrV d L) ↦[(oV.slice (Rect.unit (s := S327680x128) (k3_off2 L 512#32) S128x128.size (k3_off2_inb L 4)) (fun _ => rfl)).view.set]{fullShare} fo)
      ∗ ((oV.slice (Rect.unit (s := S327680x128) (k3_off2 L 640#32) S128x128.size (k3_off2_inb L 5)) (fun _ => rfl)).view.loc (thrV d L) ↦[(oV.slice (Rect.unit (s := S327680x128) (k3_off2 L 640#32) S128x128.size (k3_off2_inb L 5)) (fun _ => rfl)).view.set]{fullShare} fo)
      ∗ ((oV.slice (Rect.unit (s := S327680x128) (k3_off2 L 768#32) S128x128.size (k3_off2_inb L 6)) (fun _ => rfl)).view.loc (thrV d L) ↦[(oV.slice (Rect.unit (s := S327680x128) (k3_off2 L 768#32) S128x128.size (k3_off2_inb L 6)) (fun _ => rfl)).view.set]{fullShare} fo)
      ∗ ((oV.slice (Rect.unit (s := S327680x128) (k3_off2 L 896#32) S128x128.size (k3_off2_inb L 7)) (fun _ => rfl)).view.loc (thrV d L) ↦[(oV.slice (Rect.unit (s := S327680x128) (k3_off2 L 896#32) S128x128.size (k3_off2_inb L 7)) (fun _ => rfl)).view.set]{fullShare} fo)
      ∗ ((oV.slice (Rect.unit (s := S327680x128) (k3_off2 L 1024#32) S128x128.size (k3_off2_inb L 8)) (fun _ => rfl)).view.loc (thrV d L) ↦[(oV.slice (Rect.unit (s := S327680x128) (k3_off2 L 1024#32) S128x128.size (k3_off2_inb L 8)) (fun _ => rfl)).view.set]{fullShare} fo)
      ∗ ((oV.slice (Rect.unit (s := S327680x128) (k3_off2 L 1152#32) S128x128.size (k3_off2_inb L 9)) (fun _ => rfl)).view.loc (thrV d L) ↦[(oV.slice (Rect.unit (s := S327680x128) (k3_off2 L 1152#32) S128x128.size (k3_off2_inb L 9)) (fun _ => rfl)).view.set]{fullShare} fo)
      ∗ ((oV.slice (Rect.unit (s := S327680x128) (k3_off2 L 1280#32) S128x128.size (k3_off2_inb L 10)) (fun _ => rfl)).view.loc (thrV d L) ↦[(oV.slice (Rect.unit (s := S327680x128) (k3_off2 L 1280#32) S128x128.size (k3_off2_inb L 10)) (fun _ => rfl)).view.set]{fullShare} fo)
      ∗ ((oV.slice (Rect.unit (s := S327680x128) (k3_off2 L 1408#32) S128x128.size (k3_off2_inb L 11)) (fun _ => rfl)).view.loc (thrV d L) ↦[(oV.slice (Rect.unit (s := S327680x128) (k3_off2 L 1408#32) S128x128.size (k3_off2_inb L 11)) (fun _ => rfl)).view.set]{fullShare} fo)
      ∗ ((oV.slice (Rect.unit (s := S327680x128) (k3_off2 L 1536#32) S128x128.size (k3_off2_inb L 12)) (fun _ => rfl)).view.loc (thrV d L) ↦[(oV.slice (Rect.unit (s := S327680x128) (k3_off2 L 1536#32) S128x128.size (k3_off2_inb L 12)) (fun _ => rfl)).view.set]{fullShare} fo)
      ∗ ((oV.slice (Rect.unit (s := S327680x128) (k3_off2 L 1664#32) S128x128.size (k3_off2_inb L 13)) (fun _ => rfl)).view.loc (thrV d L) ↦[(oV.slice (Rect.unit (s := S327680x128) (k3_off2 L 1664#32) S128x128.size (k3_off2_inb L 13)) (fun _ => rfl)).view.set]{fullShare} fo)
      ∗ ((oV.slice (Rect.unit (s := S327680x128) (k3_off2 L 1792#32) S128x128.size (k3_off2_inb L 14)) (fun _ => rfl)).view.loc (thrV d L) ↦[(oV.slice (Rect.unit (s := S327680x128) (k3_off2 L 1792#32) S128x128.size (k3_off2_inb L 14)) (fun _ => rfl)).view.set]{fullShare} fo)
      ∗ ((oV.slice (Rect.unit (s := S327680x128) (k3_off2 L 1920#32) S128x128.size (k3_off2_inb L 15)) (fun _ => rfl)).view.loc (thrV d L) ↦[(oV.slice (Rect.unit (s := S327680x128) (k3_off2 L 1920#32) S128x128.size (k3_off2_inb L 15)) (fun _ => rfl)).view.set]{fullShare} fo)
      ∗ ((oV.slice (Rect.unit (s := S327680x128) (k3_off2 L 2048#32) S128x128.size (k3_off2_inb L 16)) (fun _ => rfl)).view.loc (thrV d L) ↦[(oV.slice (Rect.unit (s := S327680x128) (k3_off2 L 2048#32) S128x128.size (k3_off2_inb L 16)) (fun _ => rfl)).view.set]{fullShare} fo)
      ∗ ((oV.slice (Rect.unit (s := S327680x128) (k3_off2 L 2176#32) S128x128.size (k3_off2_inb L 17)) (fun _ => rfl)).view.loc (thrV d L) ↦[(oV.slice (Rect.unit (s := S327680x128) (k3_off2 L 2176#32) S128x128.size (k3_off2_inb L 17)) (fun _ => rfl)).view.set]{fullShare} fo)
      ∗ ((oV.slice (Rect.unit (s := S327680x128) (k3_off2 L 2304#32) S128x128.size (k3_off2_inb L 18)) (fun _ => rfl)).view.loc (thrV d L) ↦[(oV.slice (Rect.unit (s := S327680x128) (k3_off2 L 2304#32) S128x128.size (k3_off2_inb L 18)) (fun _ => rfl)).view.set]{fullShare} fo)
      ∗ ((oV.slice (Rect.unit (s := S327680x128) (k3_off2 L 2432#32) S128x128.size (k3_off2_inb L 19)) (fun _ => rfl)).view.loc (thrV d L) ↦[(oV.slice (Rect.unit (s := S327680x128) (k3_off2 L 2432#32) S128x128.size (k3_off2_inb L 19)) (fun _ => rfl)).view.set]{fullShare} fo)
      ∗ ((oV.slice (Rect.unit (s := S327680x128) (k3_off2 L 2560#32) S128x128.size (k3_off2_inb L 20)) (fun _ => rfl)).view.loc (thrV d L) ↦[(oV.slice (Rect.unit (s := S327680x128) (k3_off2 L 2560#32) S128x128.size (k3_off2_inb L 20)) (fun _ => rfl)).view.set]{fullShare} fo)
      ∗ ((oV.slice (Rect.unit (s := S327680x128) (k3_off2 L 2688#32) S128x128.size (k3_off2_inb L 21)) (fun _ => rfl)).view.loc (thrV d L) ↦[(oV.slice (Rect.unit (s := S327680x128) (k3_off2 L 2688#32) S128x128.size (k3_off2_inb L 21)) (fun _ => rfl)).view.set]{fullShare} fo)
      ∗ ((oV.slice (Rect.unit (s := S327680x128) (k3_off2 L 2816#32) S128x128.size (k3_off2_inb L 22)) (fun _ => rfl)).view.loc (thrV d L) ↦[(oV.slice (Rect.unit (s := S327680x128) (k3_off2 L 2816#32) S128x128.size (k3_off2_inb L 22)) (fun _ => rfl)).view.set]{fullShare} fo)
      ∗ ((oV.slice (Rect.unit (s := S327680x128) (k3_off2 L 2944#32) S128x128.size (k3_off2_inb L 23)) (fun _ => rfl)).view.loc (thrV d L) ↦[(oV.slice (Rect.unit (s := S327680x128) (k3_off2 L 2944#32) S128x128.size (k3_off2_inb L 23)) (fun _ => rfl)).view.set]{fullShare} fo)
      ∗ ((oV.slice (Rect.unit (s := S327680x128) (k3_off2 L 3072#32) S128x128.size (k3_off2_inb L 24)) (fun _ => rfl)).view.loc (thrV d L) ↦[(oV.slice (Rect.unit (s := S327680x128) (k3_off2 L 3072#32) S128x128.size (k3_off2_inb L 24)) (fun _ => rfl)).view.set]{fullShare} fo)
      ∗ ((oV.slice (Rect.unit (s := S327680x128) (k3_off2 L 3200#32) S128x128.size (k3_off2_inb L 25)) (fun _ => rfl)).view.loc (thrV d L) ↦[(oV.slice (Rect.unit (s := S327680x128) (k3_off2 L 3200#32) S128x128.size (k3_off2_inb L 25)) (fun _ => rfl)).view.set]{fullShare} fo)
      ∗ ((oV.slice (Rect.unit (s := S327680x128) (k3_off2 L 3328#32) S128x128.size (k3_off2_inb L 26)) (fun _ => rfl)).view.loc (thrV d L) ↦[(oV.slice (Rect.unit (s := S327680x128) (k3_off2 L 3328#32) S128x128.size (k3_off2_inb L 26)) (fun _ => rfl)).view.set]{fullShare} fo)
      ∗ ((oV.slice (Rect.unit (s := S327680x128) (k3_off2 L 3456#32) S128x128.size (k3_off2_inb L 27)) (fun _ => rfl)).view.loc (thrV d L) ↦[(oV.slice (Rect.unit (s := S327680x128) (k3_off2 L 3456#32) S128x128.size (k3_off2_inb L 27)) (fun _ => rfl)).view.set]{fullShare} fo)
      ∗ ((oV.slice (Rect.unit (s := S327680x128) (k3_off2 L 3584#32) S128x128.size (k3_off2_inb L 28)) (fun _ => rfl)).view.loc (thrV d L) ↦[(oV.slice (Rect.unit (s := S327680x128) (k3_off2 L 3584#32) S128x128.size (k3_off2_inb L 28)) (fun _ => rfl)).view.set]{fullShare} fo)
      ∗ ((oV.slice (Rect.unit (s := S327680x128) (k3_off2 L 3712#32) S128x128.size (k3_off2_inb L 29)) (fun _ => rfl)).view.loc (thrV d L) ↦[(oV.slice (Rect.unit (s := S327680x128) (k3_off2 L 3712#32) S128x128.size (k3_off2_inb L 29)) (fun _ => rfl)).view.set]{fullShare} fo)
      ∗ ((oV.slice (Rect.unit (s := S327680x128) (k3_off2 L 3840#32) S128x128.size (k3_off2_inb L 30)) (fun _ => rfl)).view.loc (thrV d L) ↦[(oV.slice (Rect.unit (s := S327680x128) (k3_off2 L 3840#32) S128x128.size (k3_off2_inb L 30)) (fun _ => rfl)).view.set]{fullShare} fo)
      ∗ ((oV.slice (Rect.unit (s := S327680x128) (k3_off2 L 3968#32) S128x128.size (k3_off2_inb L 31)) (fun _ => rfl)).view.loc (thrV d L) ↦[(oV.slice (Rect.unit (s := S327680x128) (k3_off2 L 3968#32) S128x128.size (k3_off2_inb L 31)) (fun _ => rfl)).view.set]{fullShare} fo)
      ∗ ((oV.slice (Rect.unit (s := S327680x128) (k3_off2 L 4096#32) S128x128.size (k3_off2_inb L 32)) (fun _ => rfl)).view.loc (thrV d L) ↦[(oV.slice (Rect.unit (s := S327680x128) (k3_off2 L 4096#32) S128x128.size (k3_off2_inb L 32)) (fun _ => rfl)).view.set]{fullShare} fo)
      ∗ ((oV.slice (Rect.unit (s := S327680x128) (k3_off2 L 4224#32) S128x128.size (k3_off2_inb L 33)) (fun _ => rfl)).view.loc (thrV d L) ↦[(oV.slice (Rect.unit (s := S327680x128) (k3_off2 L 4224#32) S128x128.size (k3_off2_inb L 33)) (fun _ => rfl)).view.set]{fullShare} fo)
      ∗ ((oV.slice (Rect.unit (s := S327680x128) (k3_off2 L 4352#32) S128x128.size (k3_off2_inb L 34)) (fun _ => rfl)).view.loc (thrV d L) ↦[(oV.slice (Rect.unit (s := S327680x128) (k3_off2 L 4352#32) S128x128.size (k3_off2_inb L 34)) (fun _ => rfl)).view.set]{fullShare} fo)
      ∗ ((oV.slice (Rect.unit (s := S327680x128) (k3_off2 L 4480#32) S128x128.size (k3_off2_inb L 35)) (fun _ => rfl)).view.loc (thrV d L) ↦[(oV.slice (Rect.unit (s := S327680x128) (k3_off2 L 4480#32) S128x128.size (k3_off2_inb L 35)) (fun _ => rfl)).view.set]{fullShare} fo)
      ∗ ((oV.slice (Rect.unit (s := S327680x128) (k3_off2 L 4608#32) S128x128.size (k3_off2_inb L 36)) (fun _ => rfl)).view.loc (thrV d L) ↦[(oV.slice (Rect.unit (s := S327680x128) (k3_off2 L 4608#32) S128x128.size (k3_off2_inb L 36)) (fun _ => rfl)).view.set]{fullShare} fo)
      ∗ ((oV.slice (Rect.unit (s := S327680x128) (k3_off2 L 4736#32) S128x128.size (k3_off2_inb L 37)) (fun _ => rfl)).view.loc (thrV d L) ↦[(oV.slice (Rect.unit (s := S327680x128) (k3_off2 L 4736#32) S128x128.size (k3_off2_inb L 37)) (fun _ => rfl)).view.set]{fullShare} fo)
      ∗ ((oV.slice (Rect.unit (s := S327680x128) (k3_off2 L 4864#32) S128x128.size (k3_off2_inb L 38)) (fun _ => rfl)).view.loc (thrV d L) ↦[(oV.slice (Rect.unit (s := S327680x128) (k3_off2 L 4864#32) S128x128.size (k3_off2_inb L 38)) (fun _ => rfl)).view.set]{fullShare} fo)
      ∗ ((oV.slice (Rect.unit (s := S327680x128) (k3_off2 L 4992#32) S128x128.size (k3_off2_inb L 39)) (fun _ => rfl)).view.loc (thrV d L) ↦[(oV.slice (Rect.unit (s := S327680x128) (k3_off2 L 4992#32) S128x128.size (k3_off2_inb L 39)) (fun _ => rfl)).view.set]{fullShare} fo)
      ∗ ((oV.slice (Rect.unit (s := S327680x128) (k3_off2 L 5120#32) S128x128.size (k3_off2_inb L 40)) (fun _ => rfl)).view.loc (thrV d L) ↦[(oV.slice (Rect.unit (s := S327680x128) (k3_off2 L 5120#32) S128x128.size (k3_off2_inb L 40)) (fun _ => rfl)).view.set]{fullShare} fo)
      ∗ ((oV.slice (Rect.unit (s := S327680x128) (k3_off2 L 5248#32) S128x128.size (k3_off2_inb L 41)) (fun _ => rfl)).view.loc (thrV d L) ↦[(oV.slice (Rect.unit (s := S327680x128) (k3_off2 L 5248#32) S128x128.size (k3_off2_inb L 41)) (fun _ => rfl)).view.set]{fullShare} fo)
      ∗ ((oV.slice (Rect.unit (s := S327680x128) (k3_off2 L 5376#32) S128x128.size (k3_off2_inb L 42)) (fun _ => rfl)).view.loc (thrV d L) ↦[(oV.slice (Rect.unit (s := S327680x128) (k3_off2 L 5376#32) S128x128.size (k3_off2_inb L 42)) (fun _ => rfl)).view.set]{fullShare} fo)
      ∗ ((oV.slice (Rect.unit (s := S327680x128) (k3_off2 L 5504#32) S128x128.size (k3_off2_inb L 43)) (fun _ => rfl)).view.loc (thrV d L) ↦[(oV.slice (Rect.unit (s := S327680x128) (k3_off2 L 5504#32) S128x128.size (k3_off2_inb L 43)) (fun _ => rfl)).view.set]{fullShare} fo)
      ∗ ((oV.slice (Rect.unit (s := S327680x128) (k3_off2 L 5632#32) S128x128.size (k3_off2_inb L 44)) (fun _ => rfl)).view.loc (thrV d L) ↦[(oV.slice (Rect.unit (s := S327680x128) (k3_off2 L 5632#32) S128x128.size (k3_off2_inb L 44)) (fun _ => rfl)).view.set]{fullShare} fo)
      ∗ ((oV.slice (Rect.unit (s := S327680x128) (k3_off2 L 5760#32) S128x128.size (k3_off2_inb L 45)) (fun _ => rfl)).view.loc (thrV d L) ↦[(oV.slice (Rect.unit (s := S327680x128) (k3_off2 L 5760#32) S128x128.size (k3_off2_inb L 45)) (fun _ => rfl)).view.set]{fullShare} fo)
      ∗ ((oV.slice (Rect.unit (s := S327680x128) (k3_off2 L 5888#32) S128x128.size (k3_off2_inb L 46)) (fun _ => rfl)).view.loc (thrV d L) ↦[(oV.slice (Rect.unit (s := S327680x128) (k3_off2 L 5888#32) S128x128.size (k3_off2_inb L 46)) (fun _ => rfl)).view.set]{fullShare} fo)
      ∗ ((oV.slice (Rect.unit (s := S327680x128) (k3_off2 L 6016#32) S128x128.size (k3_off2_inb L 47)) (fun _ => rfl)).view.loc (thrV d L) ↦[(oV.slice (Rect.unit (s := S327680x128) (k3_off2 L 6016#32) S128x128.size (k3_off2_inb L 47)) (fun _ => rfl)).view.set]{fullShare} fo)
      ∗ ((oV.slice (Rect.unit (s := S327680x128) (k3_off2 L 6144#32) S128x128.size (k3_off2_inb L 48)) (fun _ => rfl)).view.loc (thrV d L) ↦[(oV.slice (Rect.unit (s := S327680x128) (k3_off2 L 6144#32) S128x128.size (k3_off2_inb L 48)) (fun _ => rfl)).view.set]{fullShare} fo)
      ∗ ((oV.slice (Rect.unit (s := S327680x128) (k3_off2 L 6272#32) S128x128.size (k3_off2_inb L 49)) (fun _ => rfl)).view.loc (thrV d L) ↦[(oV.slice (Rect.unit (s := S327680x128) (k3_off2 L 6272#32) S128x128.size (k3_off2_inb L 49)) (fun _ => rfl)).view.set]{fullShare} fo)
      ∗ ((oV.slice (Rect.unit (s := S327680x128) (k3_off2 L 6400#32) S128x128.size (k3_off2_inb L 50)) (fun _ => rfl)).view.loc (thrV d L) ↦[(oV.slice (Rect.unit (s := S327680x128) (k3_off2 L 6400#32) S128x128.size (k3_off2_inb L 50)) (fun _ => rfl)).view.set]{fullShare} fo)
      ∗ ((oV.slice (Rect.unit (s := S327680x128) (k3_off2 L 6528#32) S128x128.size (k3_off2_inb L 51)) (fun _ => rfl)).view.loc (thrV d L) ↦[(oV.slice (Rect.unit (s := S327680x128) (k3_off2 L 6528#32) S128x128.size (k3_off2_inb L 51)) (fun _ => rfl)).view.set]{fullShare} fo)
      ∗ ((oV.slice (Rect.unit (s := S327680x128) (k3_off2 L 6656#32) S128x128.size (k3_off2_inb L 52)) (fun _ => rfl)).view.loc (thrV d L) ↦[(oV.slice (Rect.unit (s := S327680x128) (k3_off2 L 6656#32) S128x128.size (k3_off2_inb L 52)) (fun _ => rfl)).view.set]{fullShare} fo)
      ∗ ((oV.slice (Rect.unit (s := S327680x128) (k3_off2 L 6784#32) S128x128.size (k3_off2_inb L 53)) (fun _ => rfl)).view.loc (thrV d L) ↦[(oV.slice (Rect.unit (s := S327680x128) (k3_off2 L 6784#32) S128x128.size (k3_off2_inb L 53)) (fun _ => rfl)).view.set]{fullShare} fo)
      ∗ ((oV.slice (Rect.unit (s := S327680x128) (k3_off2 L 6912#32) S128x128.size (k3_off2_inb L 54)) (fun _ => rfl)).view.loc (thrV d L) ↦[(oV.slice (Rect.unit (s := S327680x128) (k3_off2 L 6912#32) S128x128.size (k3_off2_inb L 54)) (fun _ => rfl)).view.set]{fullShare} fo)
      ∗ ((oV.slice (Rect.unit (s := S327680x128) (k3_off2 L 7040#32) S128x128.size (k3_off2_inb L 55)) (fun _ => rfl)).view.loc (thrV d L) ↦[(oV.slice (Rect.unit (s := S327680x128) (k3_off2 L 7040#32) S128x128.size (k3_off2_inb L 55)) (fun _ => rfl)).view.set]{fullShare} fo)
      ∗ ((oV.slice (Rect.unit (s := S327680x128) (k3_off2 L 7168#32) S128x128.size (k3_off2_inb L 56)) (fun _ => rfl)).view.loc (thrV d L) ↦[(oV.slice (Rect.unit (s := S327680x128) (k3_off2 L 7168#32) S128x128.size (k3_off2_inb L 56)) (fun _ => rfl)).view.set]{fullShare} fo)
      ∗ ((oV.slice (Rect.unit (s := S327680x128) (k3_off2 L 7296#32) S128x128.size (k3_off2_inb L 57)) (fun _ => rfl)).view.loc (thrV d L) ↦[(oV.slice (Rect.unit (s := S327680x128) (k3_off2 L 7296#32) S128x128.size (k3_off2_inb L 57)) (fun _ => rfl)).view.set]{fullShare} fo)
      ∗ ((oV.slice (Rect.unit (s := S327680x128) (k3_off2 L 7424#32) S128x128.size (k3_off2_inb L 58)) (fun _ => rfl)).view.loc (thrV d L) ↦[(oV.slice (Rect.unit (s := S327680x128) (k3_off2 L 7424#32) S128x128.size (k3_off2_inb L 58)) (fun _ => rfl)).view.set]{fullShare} fo)
      ∗ ((oV.slice (Rect.unit (s := S327680x128) (k3_off2 L 7552#32) S128x128.size (k3_off2_inb L 59)) (fun _ => rfl)).view.loc (thrV d L) ↦[(oV.slice (Rect.unit (s := S327680x128) (k3_off2 L 7552#32) S128x128.size (k3_off2_inb L 59)) (fun _ => rfl)).view.set]{fullShare} fo)
      ∗ ((oV.slice (Rect.unit (s := S327680x128) (k3_off2 L 7680#32) S128x128.size (k3_off2_inb L 60)) (fun _ => rfl)).view.loc (thrV d L) ↦[(oV.slice (Rect.unit (s := S327680x128) (k3_off2 L 7680#32) S128x128.size (k3_off2_inb L 60)) (fun _ => rfl)).view.set]{fullShare} fo)
      ∗ ((oV.slice (Rect.unit (s := S327680x128) (k3_off2 L 7808#32) S128x128.size (k3_off2_inb L 61)) (fun _ => rfl)).view.loc (thrV d L) ↦[(oV.slice (Rect.unit (s := S327680x128) (k3_off2 L 7808#32) S128x128.size (k3_off2_inb L 61)) (fun _ => rfl)).view.set]{fullShare} fo)
      ∗ ((oV.slice (Rect.unit (s := S327680x128) (k3_off2 L 7936#32) S128x128.size (k3_off2_inb L 62)) (fun _ => rfl)).view.loc (thrV d L) ↦[(oV.slice (Rect.unit (s := S327680x128) (k3_off2 L 7936#32) S128x128.size (k3_off2_inb L 62)) (fun _ => rfl)).view.set]{fullShare} fo)
      ∗ ((oV.slice (Rect.unit (s := S327680x128) (k3_off2 L 8064#32) S128x128.size (k3_off2_inb L 63)) (fun _ => rfl)).view.loc (thrV d L) ↦[(oV.slice (Rect.unit (s := S327680x128) (k3_off2 L 8064#32) S128x128.size (k3_off2_inb L 63)) (fun _ => rfl)).view.set]{fullShare} fo)
      ∗ ((oV.slice (Rect.unit (s := S327680x128) (k3_off2 L 8192#32) S128x128.size (k3_off2_inb L 64)) (fun _ => rfl)).view.loc (thrV d L) ↦[(oV.slice (Rect.unit (s := S327680x128) (k3_off2 L 8192#32) S128x128.size (k3_off2_inb L 64)) (fun _ => rfl)).view.set]{fullShare} fo)
      ∗ ((oV.slice (Rect.unit (s := S327680x128) (k3_off2 L 8320#32) S128x128.size (k3_off2_inb L 65)) (fun _ => rfl)).view.loc (thrV d L) ↦[(oV.slice (Rect.unit (s := S327680x128) (k3_off2 L 8320#32) S128x128.size (k3_off2_inb L 65)) (fun _ => rfl)).view.set]{fullShare} fo)
      ∗ ((oV.slice (Rect.unit (s := S327680x128) (k3_off2 L 8448#32) S128x128.size (k3_off2_inb L 66)) (fun _ => rfl)).view.loc (thrV d L) ↦[(oV.slice (Rect.unit (s := S327680x128) (k3_off2 L 8448#32) S128x128.size (k3_off2_inb L 66)) (fun _ => rfl)).view.set]{fullShare} fo)
      ∗ ((oV.slice (Rect.unit (s := S327680x128) (k3_off2 L 8576#32) S128x128.size (k3_off2_inb L 67)) (fun _ => rfl)).view.loc (thrV d L) ↦[(oV.slice (Rect.unit (s := S327680x128) (k3_off2 L 8576#32) S128x128.size (k3_off2_inb L 67)) (fun _ => rfl)).view.set]{fullShare} fo)
      ∗ ((oV.slice (Rect.unit (s := S327680x128) (k3_off2 L 8704#32) S128x128.size (k3_off2_inb L 68)) (fun _ => rfl)).view.loc (thrV d L) ↦[(oV.slice (Rect.unit (s := S327680x128) (k3_off2 L 8704#32) S128x128.size (k3_off2_inb L 68)) (fun _ => rfl)).view.set]{fullShare} fo)
      ∗ ((oV.slice (Rect.unit (s := S327680x128) (k3_off2 L 8832#32) S128x128.size (k3_off2_inb L 69)) (fun _ => rfl)).view.loc (thrV d L) ↦[(oV.slice (Rect.unit (s := S327680x128) (k3_off2 L 8832#32) S128x128.size (k3_off2_inb L 69)) (fun _ => rfl)).view.set]{fullShare} fo)
      ∗ ((oV.slice (Rect.unit (s := S327680x128) (k3_off2 L 8960#32) S128x128.size (k3_off2_inb L 70)) (fun _ => rfl)).view.loc (thrV d L) ↦[(oV.slice (Rect.unit (s := S327680x128) (k3_off2 L 8960#32) S128x128.size (k3_off2_inb L 70)) (fun _ => rfl)).view.set]{fullShare} fo)
      ∗ ((oV.slice (Rect.unit (s := S327680x128) (k3_off2 L 9088#32) S128x128.size (k3_off2_inb L 71)) (fun _ => rfl)).view.loc (thrV d L) ↦[(oV.slice (Rect.unit (s := S327680x128) (k3_off2 L 9088#32) S128x128.size (k3_off2_inb L 71)) (fun _ => rfl)).view.set]{fullShare} fo)
      ∗ ((oV.slice (Rect.unit (s := S327680x128) (k3_off2 L 9216#32) S128x128.size (k3_off2_inb L 72)) (fun _ => rfl)).view.loc (thrV d L) ↦[(oV.slice (Rect.unit (s := S327680x128) (k3_off2 L 9216#32) S128x128.size (k3_off2_inb L 72)) (fun _ => rfl)).view.set]{fullShare} fo)
      ∗ ((oV.slice (Rect.unit (s := S327680x128) (k3_off2 L 9344#32) S128x128.size (k3_off2_inb L 73)) (fun _ => rfl)).view.loc (thrV d L) ↦[(oV.slice (Rect.unit (s := S327680x128) (k3_off2 L 9344#32) S128x128.size (k3_off2_inb L 73)) (fun _ => rfl)).view.set]{fullShare} fo)
      ∗ ((oV.slice (Rect.unit (s := S327680x128) (k3_off2 L 9472#32) S128x128.size (k3_off2_inb L 74)) (fun _ => rfl)).view.loc (thrV d L) ↦[(oV.slice (Rect.unit (s := S327680x128) (k3_off2 L 9472#32) S128x128.size (k3_off2_inb L 74)) (fun _ => rfl)).view.set]{fullShare} fo)
      ∗ ((oV.slice (Rect.unit (s := S327680x128) (k3_off2 L 9600#32) S128x128.size (k3_off2_inb L 75)) (fun _ => rfl)).view.loc (thrV d L) ↦[(oV.slice (Rect.unit (s := S327680x128) (k3_off2 L 9600#32) S128x128.size (k3_off2_inb L 75)) (fun _ => rfl)).view.set]{fullShare} fo)
      ∗ ((oV.slice (Rect.unit (s := S327680x128) (k3_off2 L 9728#32) S128x128.size (k3_off2_inb L 76)) (fun _ => rfl)).view.loc (thrV d L) ↦[(oV.slice (Rect.unit (s := S327680x128) (k3_off2 L 9728#32) S128x128.size (k3_off2_inb L 76)) (fun _ => rfl)).view.set]{fullShare} fo)
      ∗ ((oV.slice (Rect.unit (s := S327680x128) (k3_off2 L 9856#32) S128x128.size (k3_off2_inb L 77)) (fun _ => rfl)).view.loc (thrV d L) ↦[(oV.slice (Rect.unit (s := S327680x128) (k3_off2 L 9856#32) S128x128.size (k3_off2_inb L 77)) (fun _ => rfl)).view.set]{fullShare} fo)
      ∗ ((oV.slice (Rect.unit (s := S327680x128) (k3_off2 L 9984#32) S128x128.size (k3_off2_inb L 78)) (fun _ => rfl)).view.loc (thrV d L) ↦[(oV.slice (Rect.unit (s := S327680x128) (k3_off2 L 9984#32) S128x128.size (k3_off2_inb L 78)) (fun _ => rfl)).view.set]{fullShare} fo)
      ∗ ((oV.slice (Rect.unit (s := S327680x128) (k3_off2 L 10112#32) S128x128.size (k3_off2_inb L 79)) (fun _ => rfl)).view.loc (thrV d L) ↦[(oV.slice (Rect.unit (s := S327680x128) (k3_off2 L 10112#32) S128x128.size (k3_off2_inb L 79)) (fun _ => rfl)).view.set]{fullShare} fo)
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ semVal ((thrV d L), SemLoc.dma cc3_scoped0.sem) 0
      ∗ semVal ((thrV d L), SemLoc.dma cc3_scoped1.sem) 0
      ∗ semVal ((thrV d L), SemLoc.dma cc3_scoped2.sem) 0
      ∗ semVal ((thrV d L), SemLoc.dma cc3_scoped3.sem) 0
      ∗ semVal ((thrV d L), SemLoc.dma cc3_scoped4.sem) 0
      ∗ semVal ((thrV d L), SemLoc.dma cc3_scoped5.sem) 0
      ∗ semVal ((thrV d L), SemLoc.dma cc3_scoped6.sem) 0
      ∗ semVal ((thrV d L), SemLoc.dma cc3_scoped7.sem) 0
      ∗ semVal ((thrV d L), SemLoc.dma cc3_scoped8.sem) 0
      ∗ semVal ((thrV d L), SemLoc.dma cc3_scoped9.sem) 0
      ∗ semVal ((thrV d L), SemLoc.dma cc3_scoped10.sem) 0
      ∗ semVal ((thrV d L), SemLoc.dma cc3_scoped11.sem) 0
      ∗ semVal ((thrV d L), SemLoc.dma cc3_scoped12.sem) 0
      ∗ semVal ((thrV d L), SemLoc.dma cc3_scoped13.sem) 0
      ∗ semVal ((thrV d L), SemLoc.dma cc3_scoped14.sem) 0
      ∗ semVal ((thrV d L), SemLoc.dma cc3_scoped15.sem) 0
      ∗ semVal ((thrV d L), SemLoc.dma cc3_scoped16.sem) 0
      ∗ semVal ((thrV d L), SemLoc.dma cc3_scoped17.sem) 0
      ∗ semVal ((thrV d L), SemLoc.dma cc3_scoped18.sem) 0
      ∗ semVal ((thrV d L), SemLoc.dma cc3_scoped19.sem) 0
      ∗ semVal ((thrV d L), SemLoc.dma cc3_scoped20.sem) 0
      ∗ semVal ((thrV d L), SemLoc.dma cc3_scoped21.sem) 0
      ∗ semVal ((thrV d L), SemLoc.dma cc3_scoped22.sem) 0
      ∗ semVal ((thrV d L), SemLoc.dma cc3_scoped23.sem) 0
      ∗ semVal ((thrV d L), SemLoc.dma cc3_scoped24.sem) 0
      ∗ semVal ((thrV d L), SemLoc.dma cc3_scoped25.sem) 0
      ∗ semVal ((thrV d L), SemLoc.dma cc3_scoped26.sem) 0
      ∗ semVal ((thrV d L), SemLoc.dma cc3_scoped27.sem) 0
      ∗ semVal ((thrV d L), SemLoc.dma cc3_scoped28.sem) 0
      ∗ semVal ((thrV d L), SemLoc.dma cc3_scoped29.sem) 0
      ∗ semVal ((thrV d L), SemLoc.dma cc3_scoped30.sem) 0
      ∗ semVal ((thrV d L), SemLoc.dma cc3_scoped31.sem) 0
      ∗ semVal ((thrV d L), SemLoc.dma cc3_scoped32.sem) 0
      ∗ semVal ((thrV d L), SemLoc.dma cc3_scoped33.sem) 0
      ∗ semVal ((thrV d L), SemLoc.dma cc3_scoped34.sem) 0
      ∗ semVal ((thrV d L), SemLoc.dma cc3_scoped35.sem) 0
      ∗ semVal ((thrV d L), SemLoc.dma cc3_scoped36.sem) 0
      ∗ semVal ((thrV d L), SemLoc.dma cc3_scoped37.sem) 0
      ∗ semVal ((thrV d L), SemLoc.dma cc3_scoped38.sem) 0
      ∗ semVal ((thrV d L), SemLoc.dma cc3_scoped39.sem) 0
      ∗ semVal ((thrV d L), SemLoc.dma cc3_scoped40.sem) 0
      ∗ semVal ((thrV d L), SemLoc.dma cc3_scoped41.sem) 0
      ∗ semVal ((thrV d L), SemLoc.dma cc3_scoped42.sem) 0
      ∗ semVal ((thrV d L), SemLoc.dma cc3_scoped43.sem) 0
      ∗ semVal ((thrV d L), SemLoc.dma cc3_scoped44.sem) 0
      ∗ semVal ((thrV d L), SemLoc.dma cc3_scoped45.sem) 0
      ∗ semVal ((thrV d L), SemLoc.dma cc3_scoped46.sem) 0
      ∗ semVal ((thrV d L), SemLoc.dma cc3_scoped47.sem) 0
      ∗ semVal ((thrV d L), SemLoc.dma cc3_scoped48.sem) 0
      ∗ semVal ((thrV d L), SemLoc.dma cc3_scoped49.sem) 0
      ∗ semVal ((thrV d L), SemLoc.dma cc3_scoped50.sem) 0
      ∗ semVal ((thrV d L), SemLoc.dma cc3_scoped51.sem) 0
      ∗ semVal ((thrV d L), SemLoc.dma cc3_scoped52.sem) 0
      ∗ semVal ((thrV d L), SemLoc.dma cc3_scoped53.sem) 0
      ∗ semVal ((thrV d L), SemLoc.dma cc3_scoped54.sem) 0
      ∗ semVal ((thrV d L), SemLoc.dma cc3_scoped55.sem) 0
      ∗ semVal ((thrV d L), SemLoc.dma cc3_scoped56.sem) 0
      ∗ semVal ((thrV d L), SemLoc.dma cc3_scoped57.sem) 0
      ∗ semVal ((thrV d L), SemLoc.dma cc3_scoped58.sem) 0
      ∗ semVal ((thrV d L), SemLoc.dma cc3_scoped59.sem) 0
      ∗ semVal ((thrV d L), SemLoc.dma cc3_scoped60.sem) 0
      ∗ semVal ((thrV d L), SemLoc.dma cc3_scoped61.sem) 0
      ∗ semVal ((thrV d L), SemLoc.dma cc3_scoped62.sem) 0
      ∗ semVal ((thrV d L), SemLoc.dma cc3_scoped63.sem) 0
      ∗ semVal ((thrV d L), SemLoc.dma cc3_scoped64.sem) 0
      ∗ semVal ((thrV d L), SemLoc.dma cc3_scoped65.sem) 0
      ∗ semVal ((thrV d L), SemLoc.dma cc3_scoped66.sem) 0
      ∗ semVal ((thrV d L), SemLoc.dma cc3_scoped67.sem) 0
      ∗ semVal ((thrV d L), SemLoc.dma cc3_scoped68.sem) 0
      ∗ semVal ((thrV d L), SemLoc.dma cc3_scoped69.sem) 0
      ∗ semVal ((thrV d L), SemLoc.dma cc3_scoped70.sem) 0
      ∗ semVal ((thrV d L), SemLoc.dma cc3_scoped71.sem) 0
      ∗ semVal ((thrV d L), SemLoc.dma cc3_scoped72.sem) 0
      ∗ semVal ((thrV d L), SemLoc.dma cc3_scoped73.sem) 0
      ∗ semVal ((thrV d L), SemLoc.dma cc3_scoped74.sem) 0
      ∗ semVal ((thrV d L), SemLoc.dma cc3_scoped75.sem) 0
      ∗ semVal ((thrV d L), SemLoc.dma cc3_scoped76.sem) 0
      ∗ semVal ((thrV d L), SemLoc.dma cc3_scoped77.sem) 0
      ∗ semVal ((thrV d L), SemLoc.dma cc3_scoped78.sem) 0
      ∗ semVal ((thrV d L), SemLoc.dma cc3_scoped79.sem) 0
      ∗ semVal ((thrV d L), SemLoc.dma cc3_scoped80.sem) 0
      ∗ semVal ((thrV d L), SemLoc.dma cc3_scoped81.sem) 0
      ∗ semVal ((thrV d L), SemLoc.dma cc3_scoped82.sem) 0
      ∗ semVal ((thrV d L), SemLoc.dma cc3_scoped83.sem) 0
      ∗ semVal ((thrV d L), SemLoc.dma cc3_scoped84.sem) 0
      ∗ semVal ((thrV d L), SemLoc.dma cc3_scoped85.sem) 0
      ∗ semVal ((thrV d L), SemLoc.dma cc3_scoped86.sem) 0
      ∗ semVal ((thrV d L), SemLoc.dma cc3_scoped87.sem) 0
      ∗ semVal ((thrV d L), SemLoc.dma cc3_scoped88.sem) 0
      ∗ semVal ((thrV d L), SemLoc.dma cc3_scoped89.sem) 0
      ∗ semVal ((thrV d L), SemLoc.dma cc3_scoped90.sem) 0
      ∗ semVal ((thrV d L), SemLoc.dma cc3_scoped91.sem) 0
      ∗ semVal ((thrV d L), SemLoc.dma cc3_scoped92.sem) 0
      ∗ semVal ((thrV d L), SemLoc.dma cc3_scoped93.sem) 0
      ∗ semVal ((thrV d L), SemLoc.dma cc3_scoped94.sem) 0
      ∗ semVal ((thrV d L), SemLoc.dma cc3_scoped95.sem) 0
      ∗ semVal ((thrV d L), SemLoc.dma cc3_scoped96.sem) 0
      ∗ semVal ((thrV d L), SemLoc.dma cc3_scoped97.sem) 0
      ∗ semVal ((thrV d L), SemLoc.dma cc3_scoped98.sem) 0
      ∗ semVal ((thrV d L), SemLoc.dma cc3_scoped99.sem) 0
      ∗ semVal ((thrV d L), SemLoc.dma cc3_scoped100.sem) 0
      ∗ semVal ((thrV d L), SemLoc.dma cc3_scoped101.sem) 0
      ∗ semVal ((thrV d L), SemLoc.dma cc3_scoped102.sem) 0
      ∗ semVal ((thrV d L), SemLoc.dma cc3_scoped103.sem) 0
      ∗ semVal ((thrV d L), SemLoc.dma cc3_scoped104.sem) 0
      ∗ semVal ((thrV d L), SemLoc.dma cc3_scoped105.sem) 0
      ∗ semVal ((thrV d L), SemLoc.dma cc3_scoped106.sem) 0
      ∗ semVal ((thrV d L), SemLoc.dma cc3_scoped107.sem) 0
      ∗ semVal ((thrV d L), SemLoc.dma cc3_scoped108.sem) 0
      ∗ semVal ((thrV d L), SemLoc.dma cc3_scoped109.sem) 0
      ∗ semVal ((thrV d L), SemLoc.dma cc3_scoped110.sem) 0
      ∗ semVal ((thrV d L), SemLoc.dma cc3_scoped111.sem) 0
      ∗ semVal ((thrV d L), SemLoc.dma cc3_scoped112.sem) 0
      ∗ semVal ((thrV d L), SemLoc.dma cc3_scoped113.sem) 0
      ∗ semVal ((thrV d L), SemLoc.dma cc3_scoped114.sem) 0
      ∗ semVal ((thrV d L), SemLoc.dma cc3_scoped115.sem) 0
      ∗ semVal ((thrV d L), SemLoc.dma cc3_scoped116.sem) 0
      ∗ semVal ((thrV d L), SemLoc.dma cc3_scoped117.sem) 0
      ∗ semVal ((thrV d L), SemLoc.dma cc3_scoped118.sem) 0
      ∗ semVal ((thrV d L), SemLoc.dma cc3_scoped119.sem) 0
      ∗ semVal ((thrV d L), SemLoc.dma cc3_scoped120.sem) 0
      ∗ semVal ((thrV d L), SemLoc.dma cc3_scoped121.sem) 0
      ∗ semVal ((thrV d L), SemLoc.dma cc3_scoped122.sem) 0
      ∗ semVal ((thrV d L), SemLoc.dma cc3_scoped123.sem) 0
      ∗ semVal ((thrV d L), SemLoc.dma cc3_scoped124.sem) 0
      ∗ semVal ((thrV d L), SemLoc.dma cc3_scoped125.sem) 0
      ∗ semVal ((thrV d L), SemLoc.dma cc3_scoped126.sem) 0
      ∗ semVal ((thrV d L), SemLoc.dma cc3_scoped127.sem) 0
      ∗ semVal ((thrV d L), SemLoc.dma cc3_scoped128.sem) 0
      ∗ semVal ((thrV d L), SemLoc.dma cc3_scoped129.sem) 0
      ∗ semVal ((thrV d L), SemLoc.dma cc3_scoped130.sem) 0
      ∗ semVal ((thrV d L), SemLoc.dma cc3_scoped131.sem) 0
      ∗ semVal ((thrV d L), SemLoc.dma cc3_scoped132.sem) 0
      ∗ semVal ((thrV d L), SemLoc.dma cc3_scoped133.sem) 0
      ∗ semVal ((thrV d L), SemLoc.dma cc3_scoped134.sem) 0
      ∗ semVal ((thrV d L), SemLoc.dma cc3_scoped135.sem) 0
      ∗ semVal ((thrV d L), SemLoc.dma cc3_scoped136.sem) 0
      ∗ semVal ((thrV d L), SemLoc.dma cc3_scoped137.sem) 0
      ∗ semVal ((thrV d L), SemLoc.dma cc3_scoped138.sem) 0
      ∗ semVal ((thrV d L), SemLoc.dma cc3_scoped139.sem) 0
      ∗ semVal ((thrV d L), SemLoc.dma cc3_scoped140.sem) 0
      ∗ semVal ((thrV d L), SemLoc.dma cc3_scoped141.sem) 0
      ∗ semVal ((thrV d L), SemLoc.dma cc3_scoped142.sem) 0
      ∗ semVal ((thrV d L), SemLoc.dma cc3_scoped143.sem) 0
      ∗ semVal ((thrV d L), SemLoc.dma cc3_scoped144.sem) 0
      ∗ semVal ((thrV d L), SemLoc.dma cc3_scoped145.sem) 0
      ∗ semVal ((thrV d L), SemLoc.dma cc3_scoped146.sem) 0
      ∗ semVal ((thrV d L), SemLoc.dma cc3_scoped147.sem) 0
      ∗ semVal ((thrV d L), SemLoc.dma cc3_scoped148.sem) 0
      ∗ semVal ((thrV d L), SemLoc.dma cc3_scoped149.sem) 0
      ∗ semVal ((thrV d L), SemLoc.dma cc3_scoped150.sem) 0
      ∗ semVal ((thrV d L), SemLoc.dma cc3_scoped151.sem) 0
      ∗ semVal ((thrV d L), SemLoc.dma cc3_scoped152.sem) 0
      ∗ semVal ((thrV d L), SemLoc.dma cc3_scoped153.sem) 0
      ∗ semVal ((thrV d L), SemLoc.dma cc3_scoped154.sem) 0
      ∗ semVal ((thrV d L), SemLoc.dma cc3_scoped155.sem) 0
      ∗ semVal ((thrV d L), SemLoc.dma cc3_scoped156.sem) 0
      ∗ semVal ((thrV d L), SemLoc.dma cc3_scoped157.sem) 0
      ∗ semVal ((thrV d L), SemLoc.dma cc3_scoped158.sem) 0
      ∗ semVal ((thrV d L), SemLoc.dma cc3_scoped159.sem) 0
      ∗ semVal ((thrV d L), SemLoc.dma cc3_scoped160.sem) 0
      ∗ semVal ((thrV d L), SemLoc.dma cc3_scoped161.sem) 0
      ∗ owes (thrV d L) O W
      ∗ (iprop((hV.view.loc (thrV d L) ↦{q} fh) ∗ (sV.view.loc (thrV d L) ↦{q} fs)
          ∗ ((oV.slice (Rect.unit (s := S327680x128) (k3_off2 L 0#32) S128x128.size (k3_off2_inb L 0)) (fun _ => rfl)).view.loc (thrV d L) ↦[(oV.slice (Rect.unit (s := S327680x128) (k3_off2 L 0#32) S128x128.size (k3_off2_inb L 0)) (fun _ => rfl)).view.set]{fullShare} (gatherRows (F := F) fh fs : Buf (Elt F) (oV.view.loc (thrV d L))))
          ∗ ((oV.slice (Rect.unit (s := S327680x128) (k3_off2 L 128#32) S128x128.size (k3_off2_inb L 1)) (fun _ => rfl)).view.loc (thrV d L) ↦[(oV.slice (Rect.unit (s := S327680x128) (k3_off2 L 128#32) S128x128.size (k3_off2_inb L 1)) (fun _ => rfl)).view.set]{fullShare} (gatherRows (F := F) fh fs : Buf (Elt F) (oV.view.loc (thrV d L))))
          ∗ ((oV.slice (Rect.unit (s := S327680x128) (k3_off2 L 256#32) S128x128.size (k3_off2_inb L 2)) (fun _ => rfl)).view.loc (thrV d L) ↦[(oV.slice (Rect.unit (s := S327680x128) (k3_off2 L 256#32) S128x128.size (k3_off2_inb L 2)) (fun _ => rfl)).view.set]{fullShare} (gatherRows (F := F) fh fs : Buf (Elt F) (oV.view.loc (thrV d L))))
          ∗ ((oV.slice (Rect.unit (s := S327680x128) (k3_off2 L 384#32) S128x128.size (k3_off2_inb L 3)) (fun _ => rfl)).view.loc (thrV d L) ↦[(oV.slice (Rect.unit (s := S327680x128) (k3_off2 L 384#32) S128x128.size (k3_off2_inb L 3)) (fun _ => rfl)).view.set]{fullShare} (gatherRows (F := F) fh fs : Buf (Elt F) (oV.view.loc (thrV d L))))
          ∗ ((oV.slice (Rect.unit (s := S327680x128) (k3_off2 L 512#32) S128x128.size (k3_off2_inb L 4)) (fun _ => rfl)).view.loc (thrV d L) ↦[(oV.slice (Rect.unit (s := S327680x128) (k3_off2 L 512#32) S128x128.size (k3_off2_inb L 4)) (fun _ => rfl)).view.set]{fullShare} (gatherRows (F := F) fh fs : Buf (Elt F) (oV.view.loc (thrV d L))))
          ∗ ((oV.slice (Rect.unit (s := S327680x128) (k3_off2 L 640#32) S128x128.size (k3_off2_inb L 5)) (fun _ => rfl)).view.loc (thrV d L) ↦[(oV.slice (Rect.unit (s := S327680x128) (k3_off2 L 640#32) S128x128.size (k3_off2_inb L 5)) (fun _ => rfl)).view.set]{fullShare} (gatherRows (F := F) fh fs : Buf (Elt F) (oV.view.loc (thrV d L))))
          ∗ ((oV.slice (Rect.unit (s := S327680x128) (k3_off2 L 768#32) S128x128.size (k3_off2_inb L 6)) (fun _ => rfl)).view.loc (thrV d L) ↦[(oV.slice (Rect.unit (s := S327680x128) (k3_off2 L 768#32) S128x128.size (k3_off2_inb L 6)) (fun _ => rfl)).view.set]{fullShare} (gatherRows (F := F) fh fs : Buf (Elt F) (oV.view.loc (thrV d L))))
          ∗ ((oV.slice (Rect.unit (s := S327680x128) (k3_off2 L 896#32) S128x128.size (k3_off2_inb L 7)) (fun _ => rfl)).view.loc (thrV d L) ↦[(oV.slice (Rect.unit (s := S327680x128) (k3_off2 L 896#32) S128x128.size (k3_off2_inb L 7)) (fun _ => rfl)).view.set]{fullShare} (gatherRows (F := F) fh fs : Buf (Elt F) (oV.view.loc (thrV d L))))
          ∗ ((oV.slice (Rect.unit (s := S327680x128) (k3_off2 L 1024#32) S128x128.size (k3_off2_inb L 8)) (fun _ => rfl)).view.loc (thrV d L) ↦[(oV.slice (Rect.unit (s := S327680x128) (k3_off2 L 1024#32) S128x128.size (k3_off2_inb L 8)) (fun _ => rfl)).view.set]{fullShare} (gatherRows (F := F) fh fs : Buf (Elt F) (oV.view.loc (thrV d L))))
          ∗ ((oV.slice (Rect.unit (s := S327680x128) (k3_off2 L 1152#32) S128x128.size (k3_off2_inb L 9)) (fun _ => rfl)).view.loc (thrV d L) ↦[(oV.slice (Rect.unit (s := S327680x128) (k3_off2 L 1152#32) S128x128.size (k3_off2_inb L 9)) (fun _ => rfl)).view.set]{fullShare} (gatherRows (F := F) fh fs : Buf (Elt F) (oV.view.loc (thrV d L))))
          ∗ ((oV.slice (Rect.unit (s := S327680x128) (k3_off2 L 1280#32) S128x128.size (k3_off2_inb L 10)) (fun _ => rfl)).view.loc (thrV d L) ↦[(oV.slice (Rect.unit (s := S327680x128) (k3_off2 L 1280#32) S128x128.size (k3_off2_inb L 10)) (fun _ => rfl)).view.set]{fullShare} (gatherRows (F := F) fh fs : Buf (Elt F) (oV.view.loc (thrV d L))))
          ∗ ((oV.slice (Rect.unit (s := S327680x128) (k3_off2 L 1408#32) S128x128.size (k3_off2_inb L 11)) (fun _ => rfl)).view.loc (thrV d L) ↦[(oV.slice (Rect.unit (s := S327680x128) (k3_off2 L 1408#32) S128x128.size (k3_off2_inb L 11)) (fun _ => rfl)).view.set]{fullShare} (gatherRows (F := F) fh fs : Buf (Elt F) (oV.view.loc (thrV d L))))
          ∗ ((oV.slice (Rect.unit (s := S327680x128) (k3_off2 L 1536#32) S128x128.size (k3_off2_inb L 12)) (fun _ => rfl)).view.loc (thrV d L) ↦[(oV.slice (Rect.unit (s := S327680x128) (k3_off2 L 1536#32) S128x128.size (k3_off2_inb L 12)) (fun _ => rfl)).view.set]{fullShare} (gatherRows (F := F) fh fs : Buf (Elt F) (oV.view.loc (thrV d L))))
          ∗ ((oV.slice (Rect.unit (s := S327680x128) (k3_off2 L 1664#32) S128x128.size (k3_off2_inb L 13)) (fun _ => rfl)).view.loc (thrV d L) ↦[(oV.slice (Rect.unit (s := S327680x128) (k3_off2 L 1664#32) S128x128.size (k3_off2_inb L 13)) (fun _ => rfl)).view.set]{fullShare} (gatherRows (F := F) fh fs : Buf (Elt F) (oV.view.loc (thrV d L))))
          ∗ ((oV.slice (Rect.unit (s := S327680x128) (k3_off2 L 1792#32) S128x128.size (k3_off2_inb L 14)) (fun _ => rfl)).view.loc (thrV d L) ↦[(oV.slice (Rect.unit (s := S327680x128) (k3_off2 L 1792#32) S128x128.size (k3_off2_inb L 14)) (fun _ => rfl)).view.set]{fullShare} (gatherRows (F := F) fh fs : Buf (Elt F) (oV.view.loc (thrV d L))))
          ∗ ((oV.slice (Rect.unit (s := S327680x128) (k3_off2 L 1920#32) S128x128.size (k3_off2_inb L 15)) (fun _ => rfl)).view.loc (thrV d L) ↦[(oV.slice (Rect.unit (s := S327680x128) (k3_off2 L 1920#32) S128x128.size (k3_off2_inb L 15)) (fun _ => rfl)).view.set]{fullShare} (gatherRows (F := F) fh fs : Buf (Elt F) (oV.view.loc (thrV d L))))
          ∗ ((oV.slice (Rect.unit (s := S327680x128) (k3_off2 L 2048#32) S128x128.size (k3_off2_inb L 16)) (fun _ => rfl)).view.loc (thrV d L) ↦[(oV.slice (Rect.unit (s := S327680x128) (k3_off2 L 2048#32) S128x128.size (k3_off2_inb L 16)) (fun _ => rfl)).view.set]{fullShare} (gatherRows (F := F) fh fs : Buf (Elt F) (oV.view.loc (thrV d L))))
          ∗ ((oV.slice (Rect.unit (s := S327680x128) (k3_off2 L 2176#32) S128x128.size (k3_off2_inb L 17)) (fun _ => rfl)).view.loc (thrV d L) ↦[(oV.slice (Rect.unit (s := S327680x128) (k3_off2 L 2176#32) S128x128.size (k3_off2_inb L 17)) (fun _ => rfl)).view.set]{fullShare} (gatherRows (F := F) fh fs : Buf (Elt F) (oV.view.loc (thrV d L))))
          ∗ ((oV.slice (Rect.unit (s := S327680x128) (k3_off2 L 2304#32) S128x128.size (k3_off2_inb L 18)) (fun _ => rfl)).view.loc (thrV d L) ↦[(oV.slice (Rect.unit (s := S327680x128) (k3_off2 L 2304#32) S128x128.size (k3_off2_inb L 18)) (fun _ => rfl)).view.set]{fullShare} (gatherRows (F := F) fh fs : Buf (Elt F) (oV.view.loc (thrV d L))))
          ∗ ((oV.slice (Rect.unit (s := S327680x128) (k3_off2 L 2432#32) S128x128.size (k3_off2_inb L 19)) (fun _ => rfl)).view.loc (thrV d L) ↦[(oV.slice (Rect.unit (s := S327680x128) (k3_off2 L 2432#32) S128x128.size (k3_off2_inb L 19)) (fun _ => rfl)).view.set]{fullShare} (gatherRows (F := F) fh fs : Buf (Elt F) (oV.view.loc (thrV d L))))
          ∗ ((oV.slice (Rect.unit (s := S327680x128) (k3_off2 L 2560#32) S128x128.size (k3_off2_inb L 20)) (fun _ => rfl)).view.loc (thrV d L) ↦[(oV.slice (Rect.unit (s := S327680x128) (k3_off2 L 2560#32) S128x128.size (k3_off2_inb L 20)) (fun _ => rfl)).view.set]{fullShare} (gatherRows (F := F) fh fs : Buf (Elt F) (oV.view.loc (thrV d L))))
          ∗ ((oV.slice (Rect.unit (s := S327680x128) (k3_off2 L 2688#32) S128x128.size (k3_off2_inb L 21)) (fun _ => rfl)).view.loc (thrV d L) ↦[(oV.slice (Rect.unit (s := S327680x128) (k3_off2 L 2688#32) S128x128.size (k3_off2_inb L 21)) (fun _ => rfl)).view.set]{fullShare} (gatherRows (F := F) fh fs : Buf (Elt F) (oV.view.loc (thrV d L))))
          ∗ ((oV.slice (Rect.unit (s := S327680x128) (k3_off2 L 2816#32) S128x128.size (k3_off2_inb L 22)) (fun _ => rfl)).view.loc (thrV d L) ↦[(oV.slice (Rect.unit (s := S327680x128) (k3_off2 L 2816#32) S128x128.size (k3_off2_inb L 22)) (fun _ => rfl)).view.set]{fullShare} (gatherRows (F := F) fh fs : Buf (Elt F) (oV.view.loc (thrV d L))))
          ∗ ((oV.slice (Rect.unit (s := S327680x128) (k3_off2 L 2944#32) S128x128.size (k3_off2_inb L 23)) (fun _ => rfl)).view.loc (thrV d L) ↦[(oV.slice (Rect.unit (s := S327680x128) (k3_off2 L 2944#32) S128x128.size (k3_off2_inb L 23)) (fun _ => rfl)).view.set]{fullShare} (gatherRows (F := F) fh fs : Buf (Elt F) (oV.view.loc (thrV d L))))
          ∗ ((oV.slice (Rect.unit (s := S327680x128) (k3_off2 L 3072#32) S128x128.size (k3_off2_inb L 24)) (fun _ => rfl)).view.loc (thrV d L) ↦[(oV.slice (Rect.unit (s := S327680x128) (k3_off2 L 3072#32) S128x128.size (k3_off2_inb L 24)) (fun _ => rfl)).view.set]{fullShare} (gatherRows (F := F) fh fs : Buf (Elt F) (oV.view.loc (thrV d L))))
          ∗ ((oV.slice (Rect.unit (s := S327680x128) (k3_off2 L 3200#32) S128x128.size (k3_off2_inb L 25)) (fun _ => rfl)).view.loc (thrV d L) ↦[(oV.slice (Rect.unit (s := S327680x128) (k3_off2 L 3200#32) S128x128.size (k3_off2_inb L 25)) (fun _ => rfl)).view.set]{fullShare} (gatherRows (F := F) fh fs : Buf (Elt F) (oV.view.loc (thrV d L))))
          ∗ ((oV.slice (Rect.unit (s := S327680x128) (k3_off2 L 3328#32) S128x128.size (k3_off2_inb L 26)) (fun _ => rfl)).view.loc (thrV d L) ↦[(oV.slice (Rect.unit (s := S327680x128) (k3_off2 L 3328#32) S128x128.size (k3_off2_inb L 26)) (fun _ => rfl)).view.set]{fullShare} (gatherRows (F := F) fh fs : Buf (Elt F) (oV.view.loc (thrV d L))))
          ∗ ((oV.slice (Rect.unit (s := S327680x128) (k3_off2 L 3456#32) S128x128.size (k3_off2_inb L 27)) (fun _ => rfl)).view.loc (thrV d L) ↦[(oV.slice (Rect.unit (s := S327680x128) (k3_off2 L 3456#32) S128x128.size (k3_off2_inb L 27)) (fun _ => rfl)).view.set]{fullShare} (gatherRows (F := F) fh fs : Buf (Elt F) (oV.view.loc (thrV d L))))
          ∗ ((oV.slice (Rect.unit (s := S327680x128) (k3_off2 L 3584#32) S128x128.size (k3_off2_inb L 28)) (fun _ => rfl)).view.loc (thrV d L) ↦[(oV.slice (Rect.unit (s := S327680x128) (k3_off2 L 3584#32) S128x128.size (k3_off2_inb L 28)) (fun _ => rfl)).view.set]{fullShare} (gatherRows (F := F) fh fs : Buf (Elt F) (oV.view.loc (thrV d L))))
          ∗ ((oV.slice (Rect.unit (s := S327680x128) (k3_off2 L 3712#32) S128x128.size (k3_off2_inb L 29)) (fun _ => rfl)).view.loc (thrV d L) ↦[(oV.slice (Rect.unit (s := S327680x128) (k3_off2 L 3712#32) S128x128.size (k3_off2_inb L 29)) (fun _ => rfl)).view.set]{fullShare} (gatherRows (F := F) fh fs : Buf (Elt F) (oV.view.loc (thrV d L))))
          ∗ ((oV.slice (Rect.unit (s := S327680x128) (k3_off2 L 3840#32) S128x128.size (k3_off2_inb L 30)) (fun _ => rfl)).view.loc (thrV d L) ↦[(oV.slice (Rect.unit (s := S327680x128) (k3_off2 L 3840#32) S128x128.size (k3_off2_inb L 30)) (fun _ => rfl)).view.set]{fullShare} (gatherRows (F := F) fh fs : Buf (Elt F) (oV.view.loc (thrV d L))))
          ∗ ((oV.slice (Rect.unit (s := S327680x128) (k3_off2 L 3968#32) S128x128.size (k3_off2_inb L 31)) (fun _ => rfl)).view.loc (thrV d L) ↦[(oV.slice (Rect.unit (s := S327680x128) (k3_off2 L 3968#32) S128x128.size (k3_off2_inb L 31)) (fun _ => rfl)).view.set]{fullShare} (gatherRows (F := F) fh fs : Buf (Elt F) (oV.view.loc (thrV d L))))
          ∗ ((oV.slice (Rect.unit (s := S327680x128) (k3_off2 L 4096#32) S128x128.size (k3_off2_inb L 32)) (fun _ => rfl)).view.loc (thrV d L) ↦[(oV.slice (Rect.unit (s := S327680x128) (k3_off2 L 4096#32) S128x128.size (k3_off2_inb L 32)) (fun _ => rfl)).view.set]{fullShare} (gatherRows (F := F) fh fs : Buf (Elt F) (oV.view.loc (thrV d L))))
          ∗ ((oV.slice (Rect.unit (s := S327680x128) (k3_off2 L 4224#32) S128x128.size (k3_off2_inb L 33)) (fun _ => rfl)).view.loc (thrV d L) ↦[(oV.slice (Rect.unit (s := S327680x128) (k3_off2 L 4224#32) S128x128.size (k3_off2_inb L 33)) (fun _ => rfl)).view.set]{fullShare} (gatherRows (F := F) fh fs : Buf (Elt F) (oV.view.loc (thrV d L))))
          ∗ ((oV.slice (Rect.unit (s := S327680x128) (k3_off2 L 4352#32) S128x128.size (k3_off2_inb L 34)) (fun _ => rfl)).view.loc (thrV d L) ↦[(oV.slice (Rect.unit (s := S327680x128) (k3_off2 L 4352#32) S128x128.size (k3_off2_inb L 34)) (fun _ => rfl)).view.set]{fullShare} (gatherRows (F := F) fh fs : Buf (Elt F) (oV.view.loc (thrV d L))))
          ∗ ((oV.slice (Rect.unit (s := S327680x128) (k3_off2 L 4480#32) S128x128.size (k3_off2_inb L 35)) (fun _ => rfl)).view.loc (thrV d L) ↦[(oV.slice (Rect.unit (s := S327680x128) (k3_off2 L 4480#32) S128x128.size (k3_off2_inb L 35)) (fun _ => rfl)).view.set]{fullShare} (gatherRows (F := F) fh fs : Buf (Elt F) (oV.view.loc (thrV d L))))
          ∗ ((oV.slice (Rect.unit (s := S327680x128) (k3_off2 L 4608#32) S128x128.size (k3_off2_inb L 36)) (fun _ => rfl)).view.loc (thrV d L) ↦[(oV.slice (Rect.unit (s := S327680x128) (k3_off2 L 4608#32) S128x128.size (k3_off2_inb L 36)) (fun _ => rfl)).view.set]{fullShare} (gatherRows (F := F) fh fs : Buf (Elt F) (oV.view.loc (thrV d L))))
          ∗ ((oV.slice (Rect.unit (s := S327680x128) (k3_off2 L 4736#32) S128x128.size (k3_off2_inb L 37)) (fun _ => rfl)).view.loc (thrV d L) ↦[(oV.slice (Rect.unit (s := S327680x128) (k3_off2 L 4736#32) S128x128.size (k3_off2_inb L 37)) (fun _ => rfl)).view.set]{fullShare} (gatherRows (F := F) fh fs : Buf (Elt F) (oV.view.loc (thrV d L))))
          ∗ ((oV.slice (Rect.unit (s := S327680x128) (k3_off2 L 4864#32) S128x128.size (k3_off2_inb L 38)) (fun _ => rfl)).view.loc (thrV d L) ↦[(oV.slice (Rect.unit (s := S327680x128) (k3_off2 L 4864#32) S128x128.size (k3_off2_inb L 38)) (fun _ => rfl)).view.set]{fullShare} (gatherRows (F := F) fh fs : Buf (Elt F) (oV.view.loc (thrV d L))))
          ∗ ((oV.slice (Rect.unit (s := S327680x128) (k3_off2 L 4992#32) S128x128.size (k3_off2_inb L 39)) (fun _ => rfl)).view.loc (thrV d L) ↦[(oV.slice (Rect.unit (s := S327680x128) (k3_off2 L 4992#32) S128x128.size (k3_off2_inb L 39)) (fun _ => rfl)).view.set]{fullShare} (gatherRows (F := F) fh fs : Buf (Elt F) (oV.view.loc (thrV d L))))
          ∗ ((oV.slice (Rect.unit (s := S327680x128) (k3_off2 L 5120#32) S128x128.size (k3_off2_inb L 40)) (fun _ => rfl)).view.loc (thrV d L) ↦[(oV.slice (Rect.unit (s := S327680x128) (k3_off2 L 5120#32) S128x128.size (k3_off2_inb L 40)) (fun _ => rfl)).view.set]{fullShare} (gatherRows (F := F) fh fs : Buf (Elt F) (oV.view.loc (thrV d L))))
          ∗ ((oV.slice (Rect.unit (s := S327680x128) (k3_off2 L 5248#32) S128x128.size (k3_off2_inb L 41)) (fun _ => rfl)).view.loc (thrV d L) ↦[(oV.slice (Rect.unit (s := S327680x128) (k3_off2 L 5248#32) S128x128.size (k3_off2_inb L 41)) (fun _ => rfl)).view.set]{fullShare} (gatherRows (F := F) fh fs : Buf (Elt F) (oV.view.loc (thrV d L))))
          ∗ ((oV.slice (Rect.unit (s := S327680x128) (k3_off2 L 5376#32) S128x128.size (k3_off2_inb L 42)) (fun _ => rfl)).view.loc (thrV d L) ↦[(oV.slice (Rect.unit (s := S327680x128) (k3_off2 L 5376#32) S128x128.size (k3_off2_inb L 42)) (fun _ => rfl)).view.set]{fullShare} (gatherRows (F := F) fh fs : Buf (Elt F) (oV.view.loc (thrV d L))))
          ∗ ((oV.slice (Rect.unit (s := S327680x128) (k3_off2 L 5504#32) S128x128.size (k3_off2_inb L 43)) (fun _ => rfl)).view.loc (thrV d L) ↦[(oV.slice (Rect.unit (s := S327680x128) (k3_off2 L 5504#32) S128x128.size (k3_off2_inb L 43)) (fun _ => rfl)).view.set]{fullShare} (gatherRows (F := F) fh fs : Buf (Elt F) (oV.view.loc (thrV d L))))
          ∗ ((oV.slice (Rect.unit (s := S327680x128) (k3_off2 L 5632#32) S128x128.size (k3_off2_inb L 44)) (fun _ => rfl)).view.loc (thrV d L) ↦[(oV.slice (Rect.unit (s := S327680x128) (k3_off2 L 5632#32) S128x128.size (k3_off2_inb L 44)) (fun _ => rfl)).view.set]{fullShare} (gatherRows (F := F) fh fs : Buf (Elt F) (oV.view.loc (thrV d L))))
          ∗ ((oV.slice (Rect.unit (s := S327680x128) (k3_off2 L 5760#32) S128x128.size (k3_off2_inb L 45)) (fun _ => rfl)).view.loc (thrV d L) ↦[(oV.slice (Rect.unit (s := S327680x128) (k3_off2 L 5760#32) S128x128.size (k3_off2_inb L 45)) (fun _ => rfl)).view.set]{fullShare} (gatherRows (F := F) fh fs : Buf (Elt F) (oV.view.loc (thrV d L))))
          ∗ ((oV.slice (Rect.unit (s := S327680x128) (k3_off2 L 5888#32) S128x128.size (k3_off2_inb L 46)) (fun _ => rfl)).view.loc (thrV d L) ↦[(oV.slice (Rect.unit (s := S327680x128) (k3_off2 L 5888#32) S128x128.size (k3_off2_inb L 46)) (fun _ => rfl)).view.set]{fullShare} (gatherRows (F := F) fh fs : Buf (Elt F) (oV.view.loc (thrV d L))))
          ∗ ((oV.slice (Rect.unit (s := S327680x128) (k3_off2 L 6016#32) S128x128.size (k3_off2_inb L 47)) (fun _ => rfl)).view.loc (thrV d L) ↦[(oV.slice (Rect.unit (s := S327680x128) (k3_off2 L 6016#32) S128x128.size (k3_off2_inb L 47)) (fun _ => rfl)).view.set]{fullShare} (gatherRows (F := F) fh fs : Buf (Elt F) (oV.view.loc (thrV d L))))
          ∗ ((oV.slice (Rect.unit (s := S327680x128) (k3_off2 L 6144#32) S128x128.size (k3_off2_inb L 48)) (fun _ => rfl)).view.loc (thrV d L) ↦[(oV.slice (Rect.unit (s := S327680x128) (k3_off2 L 6144#32) S128x128.size (k3_off2_inb L 48)) (fun _ => rfl)).view.set]{fullShare} (gatherRows (F := F) fh fs : Buf (Elt F) (oV.view.loc (thrV d L))))
          ∗ ((oV.slice (Rect.unit (s := S327680x128) (k3_off2 L 6272#32) S128x128.size (k3_off2_inb L 49)) (fun _ => rfl)).view.loc (thrV d L) ↦[(oV.slice (Rect.unit (s := S327680x128) (k3_off2 L 6272#32) S128x128.size (k3_off2_inb L 49)) (fun _ => rfl)).view.set]{fullShare} (gatherRows (F := F) fh fs : Buf (Elt F) (oV.view.loc (thrV d L))))
          ∗ ((oV.slice (Rect.unit (s := S327680x128) (k3_off2 L 6400#32) S128x128.size (k3_off2_inb L 50)) (fun _ => rfl)).view.loc (thrV d L) ↦[(oV.slice (Rect.unit (s := S327680x128) (k3_off2 L 6400#32) S128x128.size (k3_off2_inb L 50)) (fun _ => rfl)).view.set]{fullShare} (gatherRows (F := F) fh fs : Buf (Elt F) (oV.view.loc (thrV d L))))
          ∗ ((oV.slice (Rect.unit (s := S327680x128) (k3_off2 L 6528#32) S128x128.size (k3_off2_inb L 51)) (fun _ => rfl)).view.loc (thrV d L) ↦[(oV.slice (Rect.unit (s := S327680x128) (k3_off2 L 6528#32) S128x128.size (k3_off2_inb L 51)) (fun _ => rfl)).view.set]{fullShare} (gatherRows (F := F) fh fs : Buf (Elt F) (oV.view.loc (thrV d L))))
          ∗ ((oV.slice (Rect.unit (s := S327680x128) (k3_off2 L 6656#32) S128x128.size (k3_off2_inb L 52)) (fun _ => rfl)).view.loc (thrV d L) ↦[(oV.slice (Rect.unit (s := S327680x128) (k3_off2 L 6656#32) S128x128.size (k3_off2_inb L 52)) (fun _ => rfl)).view.set]{fullShare} (gatherRows (F := F) fh fs : Buf (Elt F) (oV.view.loc (thrV d L))))
          ∗ ((oV.slice (Rect.unit (s := S327680x128) (k3_off2 L 6784#32) S128x128.size (k3_off2_inb L 53)) (fun _ => rfl)).view.loc (thrV d L) ↦[(oV.slice (Rect.unit (s := S327680x128) (k3_off2 L 6784#32) S128x128.size (k3_off2_inb L 53)) (fun _ => rfl)).view.set]{fullShare} (gatherRows (F := F) fh fs : Buf (Elt F) (oV.view.loc (thrV d L))))
          ∗ ((oV.slice (Rect.unit (s := S327680x128) (k3_off2 L 6912#32) S128x128.size (k3_off2_inb L 54)) (fun _ => rfl)).view.loc (thrV d L) ↦[(oV.slice (Rect.unit (s := S327680x128) (k3_off2 L 6912#32) S128x128.size (k3_off2_inb L 54)) (fun _ => rfl)).view.set]{fullShare} (gatherRows (F := F) fh fs : Buf (Elt F) (oV.view.loc (thrV d L))))
          ∗ ((oV.slice (Rect.unit (s := S327680x128) (k3_off2 L 7040#32) S128x128.size (k3_off2_inb L 55)) (fun _ => rfl)).view.loc (thrV d L) ↦[(oV.slice (Rect.unit (s := S327680x128) (k3_off2 L 7040#32) S128x128.size (k3_off2_inb L 55)) (fun _ => rfl)).view.set]{fullShare} (gatherRows (F := F) fh fs : Buf (Elt F) (oV.view.loc (thrV d L))))
          ∗ ((oV.slice (Rect.unit (s := S327680x128) (k3_off2 L 7168#32) S128x128.size (k3_off2_inb L 56)) (fun _ => rfl)).view.loc (thrV d L) ↦[(oV.slice (Rect.unit (s := S327680x128) (k3_off2 L 7168#32) S128x128.size (k3_off2_inb L 56)) (fun _ => rfl)).view.set]{fullShare} (gatherRows (F := F) fh fs : Buf (Elt F) (oV.view.loc (thrV d L))))
          ∗ ((oV.slice (Rect.unit (s := S327680x128) (k3_off2 L 7296#32) S128x128.size (k3_off2_inb L 57)) (fun _ => rfl)).view.loc (thrV d L) ↦[(oV.slice (Rect.unit (s := S327680x128) (k3_off2 L 7296#32) S128x128.size (k3_off2_inb L 57)) (fun _ => rfl)).view.set]{fullShare} (gatherRows (F := F) fh fs : Buf (Elt F) (oV.view.loc (thrV d L))))
          ∗ ((oV.slice (Rect.unit (s := S327680x128) (k3_off2 L 7424#32) S128x128.size (k3_off2_inb L 58)) (fun _ => rfl)).view.loc (thrV d L) ↦[(oV.slice (Rect.unit (s := S327680x128) (k3_off2 L 7424#32) S128x128.size (k3_off2_inb L 58)) (fun _ => rfl)).view.set]{fullShare} (gatherRows (F := F) fh fs : Buf (Elt F) (oV.view.loc (thrV d L))))
          ∗ ((oV.slice (Rect.unit (s := S327680x128) (k3_off2 L 7552#32) S128x128.size (k3_off2_inb L 59)) (fun _ => rfl)).view.loc (thrV d L) ↦[(oV.slice (Rect.unit (s := S327680x128) (k3_off2 L 7552#32) S128x128.size (k3_off2_inb L 59)) (fun _ => rfl)).view.set]{fullShare} (gatherRows (F := F) fh fs : Buf (Elt F) (oV.view.loc (thrV d L))))
          ∗ ((oV.slice (Rect.unit (s := S327680x128) (k3_off2 L 7680#32) S128x128.size (k3_off2_inb L 60)) (fun _ => rfl)).view.loc (thrV d L) ↦[(oV.slice (Rect.unit (s := S327680x128) (k3_off2 L 7680#32) S128x128.size (k3_off2_inb L 60)) (fun _ => rfl)).view.set]{fullShare} (gatherRows (F := F) fh fs : Buf (Elt F) (oV.view.loc (thrV d L))))
          ∗ ((oV.slice (Rect.unit (s := S327680x128) (k3_off2 L 7808#32) S128x128.size (k3_off2_inb L 61)) (fun _ => rfl)).view.loc (thrV d L) ↦[(oV.slice (Rect.unit (s := S327680x128) (k3_off2 L 7808#32) S128x128.size (k3_off2_inb L 61)) (fun _ => rfl)).view.set]{fullShare} (gatherRows (F := F) fh fs : Buf (Elt F) (oV.view.loc (thrV d L))))
          ∗ ((oV.slice (Rect.unit (s := S327680x128) (k3_off2 L 7936#32) S128x128.size (k3_off2_inb L 62)) (fun _ => rfl)).view.loc (thrV d L) ↦[(oV.slice (Rect.unit (s := S327680x128) (k3_off2 L 7936#32) S128x128.size (k3_off2_inb L 62)) (fun _ => rfl)).view.set]{fullShare} (gatherRows (F := F) fh fs : Buf (Elt F) (oV.view.loc (thrV d L))))
          ∗ ((oV.slice (Rect.unit (s := S327680x128) (k3_off2 L 8064#32) S128x128.size (k3_off2_inb L 63)) (fun _ => rfl)).view.loc (thrV d L) ↦[(oV.slice (Rect.unit (s := S327680x128) (k3_off2 L 8064#32) S128x128.size (k3_off2_inb L 63)) (fun _ => rfl)).view.set]{fullShare} (gatherRows (F := F) fh fs : Buf (Elt F) (oV.view.loc (thrV d L))))
          ∗ ((oV.slice (Rect.unit (s := S327680x128) (k3_off2 L 8192#32) S128x128.size (k3_off2_inb L 64)) (fun _ => rfl)).view.loc (thrV d L) ↦[(oV.slice (Rect.unit (s := S327680x128) (k3_off2 L 8192#32) S128x128.size (k3_off2_inb L 64)) (fun _ => rfl)).view.set]{fullShare} (gatherRows (F := F) fh fs : Buf (Elt F) (oV.view.loc (thrV d L))))
          ∗ ((oV.slice (Rect.unit (s := S327680x128) (k3_off2 L 8320#32) S128x128.size (k3_off2_inb L 65)) (fun _ => rfl)).view.loc (thrV d L) ↦[(oV.slice (Rect.unit (s := S327680x128) (k3_off2 L 8320#32) S128x128.size (k3_off2_inb L 65)) (fun _ => rfl)).view.set]{fullShare} (gatherRows (F := F) fh fs : Buf (Elt F) (oV.view.loc (thrV d L))))
          ∗ ((oV.slice (Rect.unit (s := S327680x128) (k3_off2 L 8448#32) S128x128.size (k3_off2_inb L 66)) (fun _ => rfl)).view.loc (thrV d L) ↦[(oV.slice (Rect.unit (s := S327680x128) (k3_off2 L 8448#32) S128x128.size (k3_off2_inb L 66)) (fun _ => rfl)).view.set]{fullShare} (gatherRows (F := F) fh fs : Buf (Elt F) (oV.view.loc (thrV d L))))
          ∗ ((oV.slice (Rect.unit (s := S327680x128) (k3_off2 L 8576#32) S128x128.size (k3_off2_inb L 67)) (fun _ => rfl)).view.loc (thrV d L) ↦[(oV.slice (Rect.unit (s := S327680x128) (k3_off2 L 8576#32) S128x128.size (k3_off2_inb L 67)) (fun _ => rfl)).view.set]{fullShare} (gatherRows (F := F) fh fs : Buf (Elt F) (oV.view.loc (thrV d L))))
          ∗ ((oV.slice (Rect.unit (s := S327680x128) (k3_off2 L 8704#32) S128x128.size (k3_off2_inb L 68)) (fun _ => rfl)).view.loc (thrV d L) ↦[(oV.slice (Rect.unit (s := S327680x128) (k3_off2 L 8704#32) S128x128.size (k3_off2_inb L 68)) (fun _ => rfl)).view.set]{fullShare} (gatherRows (F := F) fh fs : Buf (Elt F) (oV.view.loc (thrV d L))))
          ∗ ((oV.slice (Rect.unit (s := S327680x128) (k3_off2 L 8832#32) S128x128.size (k3_off2_inb L 69)) (fun _ => rfl)).view.loc (thrV d L) ↦[(oV.slice (Rect.unit (s := S327680x128) (k3_off2 L 8832#32) S128x128.size (k3_off2_inb L 69)) (fun _ => rfl)).view.set]{fullShare} (gatherRows (F := F) fh fs : Buf (Elt F) (oV.view.loc (thrV d L))))
          ∗ ((oV.slice (Rect.unit (s := S327680x128) (k3_off2 L 8960#32) S128x128.size (k3_off2_inb L 70)) (fun _ => rfl)).view.loc (thrV d L) ↦[(oV.slice (Rect.unit (s := S327680x128) (k3_off2 L 8960#32) S128x128.size (k3_off2_inb L 70)) (fun _ => rfl)).view.set]{fullShare} (gatherRows (F := F) fh fs : Buf (Elt F) (oV.view.loc (thrV d L))))
          ∗ ((oV.slice (Rect.unit (s := S327680x128) (k3_off2 L 9088#32) S128x128.size (k3_off2_inb L 71)) (fun _ => rfl)).view.loc (thrV d L) ↦[(oV.slice (Rect.unit (s := S327680x128) (k3_off2 L 9088#32) S128x128.size (k3_off2_inb L 71)) (fun _ => rfl)).view.set]{fullShare} (gatherRows (F := F) fh fs : Buf (Elt F) (oV.view.loc (thrV d L))))
          ∗ ((oV.slice (Rect.unit (s := S327680x128) (k3_off2 L 9216#32) S128x128.size (k3_off2_inb L 72)) (fun _ => rfl)).view.loc (thrV d L) ↦[(oV.slice (Rect.unit (s := S327680x128) (k3_off2 L 9216#32) S128x128.size (k3_off2_inb L 72)) (fun _ => rfl)).view.set]{fullShare} (gatherRows (F := F) fh fs : Buf (Elt F) (oV.view.loc (thrV d L))))
          ∗ ((oV.slice (Rect.unit (s := S327680x128) (k3_off2 L 9344#32) S128x128.size (k3_off2_inb L 73)) (fun _ => rfl)).view.loc (thrV d L) ↦[(oV.slice (Rect.unit (s := S327680x128) (k3_off2 L 9344#32) S128x128.size (k3_off2_inb L 73)) (fun _ => rfl)).view.set]{fullShare} (gatherRows (F := F) fh fs : Buf (Elt F) (oV.view.loc (thrV d L))))
          ∗ ((oV.slice (Rect.unit (s := S327680x128) (k3_off2 L 9472#32) S128x128.size (k3_off2_inb L 74)) (fun _ => rfl)).view.loc (thrV d L) ↦[(oV.slice (Rect.unit (s := S327680x128) (k3_off2 L 9472#32) S128x128.size (k3_off2_inb L 74)) (fun _ => rfl)).view.set]{fullShare} (gatherRows (F := F) fh fs : Buf (Elt F) (oV.view.loc (thrV d L))))
          ∗ ((oV.slice (Rect.unit (s := S327680x128) (k3_off2 L 9600#32) S128x128.size (k3_off2_inb L 75)) (fun _ => rfl)).view.loc (thrV d L) ↦[(oV.slice (Rect.unit (s := S327680x128) (k3_off2 L 9600#32) S128x128.size (k3_off2_inb L 75)) (fun _ => rfl)).view.set]{fullShare} (gatherRows (F := F) fh fs : Buf (Elt F) (oV.view.loc (thrV d L))))
          ∗ ((oV.slice (Rect.unit (s := S327680x128) (k3_off2 L 9728#32) S128x128.size (k3_off2_inb L 76)) (fun _ => rfl)).view.loc (thrV d L) ↦[(oV.slice (Rect.unit (s := S327680x128) (k3_off2 L 9728#32) S128x128.size (k3_off2_inb L 76)) (fun _ => rfl)).view.set]{fullShare} (gatherRows (F := F) fh fs : Buf (Elt F) (oV.view.loc (thrV d L))))
          ∗ ((oV.slice (Rect.unit (s := S327680x128) (k3_off2 L 9856#32) S128x128.size (k3_off2_inb L 77)) (fun _ => rfl)).view.loc (thrV d L) ↦[(oV.slice (Rect.unit (s := S327680x128) (k3_off2 L 9856#32) S128x128.size (k3_off2_inb L 77)) (fun _ => rfl)).view.set]{fullShare} (gatherRows (F := F) fh fs : Buf (Elt F) (oV.view.loc (thrV d L))))
          ∗ ((oV.slice (Rect.unit (s := S327680x128) (k3_off2 L 9984#32) S128x128.size (k3_off2_inb L 78)) (fun _ => rfl)).view.loc (thrV d L) ↦[(oV.slice (Rect.unit (s := S327680x128) (k3_off2 L 9984#32) S128x128.size (k3_off2_inb L 78)) (fun _ => rfl)).view.set]{fullShare} (gatherRows (F := F) fh fs : Buf (Elt F) (oV.view.loc (thrV d L))))
          ∗ ((oV.slice (Rect.unit (s := S327680x128) (k3_off2 L 10112#32) S128x128.size (k3_off2_inb L 79)) (fun _ => rfl)).view.loc (thrV d L) ↦[(oV.slice (Rect.unit (s := S327680x128) (k3_off2 L 10112#32) S128x128.size (k3_off2_inb L 79)) (fun _ => rfl)).view.set]{fullShare} (gatherRows (F := F) fh fs : Buf (Elt F) (oV.view.loc (thrV d L))))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ semVal ((thrV d L), SemLoc.dma cc3_scoped0.sem) 0
          ∗ semVal ((thrV d L), SemLoc.dma cc3_scoped1.sem) 0
          ∗ semVal ((thrV d L), SemLoc.dma cc3_scoped2.sem) 0
          ∗ semVal ((thrV d L), SemLoc.dma cc3_scoped3.sem) 0
          ∗ semVal ((thrV d L), SemLoc.dma cc3_scoped4.sem) 0
          ∗ semVal ((thrV d L), SemLoc.dma cc3_scoped5.sem) 0
          ∗ semVal ((thrV d L), SemLoc.dma cc3_scoped6.sem) 0
          ∗ semVal ((thrV d L), SemLoc.dma cc3_scoped7.sem) 0
          ∗ semVal ((thrV d L), SemLoc.dma cc3_scoped8.sem) 0
          ∗ semVal ((thrV d L), SemLoc.dma cc3_scoped9.sem) 0
          ∗ semVal ((thrV d L), SemLoc.dma cc3_scoped10.sem) 0
          ∗ semVal ((thrV d L), SemLoc.dma cc3_scoped11.sem) 0
          ∗ semVal ((thrV d L), SemLoc.dma cc3_scoped12.sem) 0
          ∗ semVal ((thrV d L), SemLoc.dma cc3_scoped13.sem) 0
          ∗ semVal ((thrV d L), SemLoc.dma cc3_scoped14.sem) 0
          ∗ semVal ((thrV d L), SemLoc.dma cc3_scoped15.sem) 0
          ∗ semVal ((thrV d L), SemLoc.dma cc3_scoped16.sem) 0
          ∗ semVal ((thrV d L), SemLoc.dma cc3_scoped17.sem) 0
          ∗ semVal ((thrV d L), SemLoc.dma cc3_scoped18.sem) 0
          ∗ semVal ((thrV d L), SemLoc.dma cc3_scoped19.sem) 0
          ∗ semVal ((thrV d L), SemLoc.dma cc3_scoped20.sem) 0
          ∗ semVal ((thrV d L), SemLoc.dma cc3_scoped21.sem) 0
          ∗ semVal ((thrV d L), SemLoc.dma cc3_scoped22.sem) 0
          ∗ semVal ((thrV d L), SemLoc.dma cc3_scoped23.sem) 0
          ∗ semVal ((thrV d L), SemLoc.dma cc3_scoped24.sem) 0
          ∗ semVal ((thrV d L), SemLoc.dma cc3_scoped25.sem) 0
          ∗ semVal ((thrV d L), SemLoc.dma cc3_scoped26.sem) 0
          ∗ semVal ((thrV d L), SemLoc.dma cc3_scoped27.sem) 0
          ∗ semVal ((thrV d L), SemLoc.dma cc3_scoped28.sem) 0
          ∗ semVal ((thrV d L), SemLoc.dma cc3_scoped29.sem) 0
          ∗ semVal ((thrV d L), SemLoc.dma cc3_scoped30.sem) 0
          ∗ semVal ((thrV d L), SemLoc.dma cc3_scoped31.sem) 0
          ∗ semVal ((thrV d L), SemLoc.dma cc3_scoped32.sem) 0
          ∗ semVal ((thrV d L), SemLoc.dma cc3_scoped33.sem) 0
          ∗ semVal ((thrV d L), SemLoc.dma cc3_scoped34.sem) 0
          ∗ semVal ((thrV d L), SemLoc.dma cc3_scoped35.sem) 0
          ∗ semVal ((thrV d L), SemLoc.dma cc3_scoped36.sem) 0
          ∗ semVal ((thrV d L), SemLoc.dma cc3_scoped37.sem) 0
          ∗ semVal ((thrV d L), SemLoc.dma cc3_scoped38.sem) 0
          ∗ semVal ((thrV d L), SemLoc.dma cc3_scoped39.sem) 0
          ∗ semVal ((thrV d L), SemLoc.dma cc3_scoped40.sem) 0
          ∗ semVal ((thrV d L), SemLoc.dma cc3_scoped41.sem) 0
          ∗ semVal ((thrV d L), SemLoc.dma cc3_scoped42.sem) 0
          ∗ semVal ((thrV d L), SemLoc.dma cc3_scoped43.sem) 0
          ∗ semVal ((thrV d L), SemLoc.dma cc3_scoped44.sem) 0
          ∗ semVal ((thrV d L), SemLoc.dma cc3_scoped45.sem) 0
          ∗ semVal ((thrV d L), SemLoc.dma cc3_scoped46.sem) 0
          ∗ semVal ((thrV d L), SemLoc.dma cc3_scoped47.sem) 0
          ∗ semVal ((thrV d L), SemLoc.dma cc3_scoped48.sem) 0
          ∗ semVal ((thrV d L), SemLoc.dma cc3_scoped49.sem) 0
          ∗ semVal ((thrV d L), SemLoc.dma cc3_scoped50.sem) 0
          ∗ semVal ((thrV d L), SemLoc.dma cc3_scoped51.sem) 0
          ∗ semVal ((thrV d L), SemLoc.dma cc3_scoped52.sem) 0
          ∗ semVal ((thrV d L), SemLoc.dma cc3_scoped53.sem) 0
          ∗ semVal ((thrV d L), SemLoc.dma cc3_scoped54.sem) 0
          ∗ semVal ((thrV d L), SemLoc.dma cc3_scoped55.sem) 0
          ∗ semVal ((thrV d L), SemLoc.dma cc3_scoped56.sem) 0
          ∗ semVal ((thrV d L), SemLoc.dma cc3_scoped57.sem) 0
          ∗ semVal ((thrV d L), SemLoc.dma cc3_scoped58.sem) 0
          ∗ semVal ((thrV d L), SemLoc.dma cc3_scoped59.sem) 0
          ∗ semVal ((thrV d L), SemLoc.dma cc3_scoped60.sem) 0
          ∗ semVal ((thrV d L), SemLoc.dma cc3_scoped61.sem) 0
          ∗ semVal ((thrV d L), SemLoc.dma cc3_scoped62.sem) 0
          ∗ semVal ((thrV d L), SemLoc.dma cc3_scoped63.sem) 0
          ∗ semVal ((thrV d L), SemLoc.dma cc3_scoped64.sem) 0
          ∗ semVal ((thrV d L), SemLoc.dma cc3_scoped65.sem) 0
          ∗ semVal ((thrV d L), SemLoc.dma cc3_scoped66.sem) 0
          ∗ semVal ((thrV d L), SemLoc.dma cc3_scoped67.sem) 0
          ∗ semVal ((thrV d L), SemLoc.dma cc3_scoped68.sem) 0
          ∗ semVal ((thrV d L), SemLoc.dma cc3_scoped69.sem) 0
          ∗ semVal ((thrV d L), SemLoc.dma cc3_scoped70.sem) 0
          ∗ semVal ((thrV d L), SemLoc.dma cc3_scoped71.sem) 0
          ∗ semVal ((thrV d L), SemLoc.dma cc3_scoped72.sem) 0
          ∗ semVal ((thrV d L), SemLoc.dma cc3_scoped73.sem) 0
          ∗ semVal ((thrV d L), SemLoc.dma cc3_scoped74.sem) 0
          ∗ semVal ((thrV d L), SemLoc.dma cc3_scoped75.sem) 0
          ∗ semVal ((thrV d L), SemLoc.dma cc3_scoped76.sem) 0
          ∗ semVal ((thrV d L), SemLoc.dma cc3_scoped77.sem) 0
          ∗ semVal ((thrV d L), SemLoc.dma cc3_scoped78.sem) 0
          ∗ semVal ((thrV d L), SemLoc.dma cc3_scoped79.sem) 0
          ∗ semVal ((thrV d L), SemLoc.dma cc3_scoped80.sem) 0
          ∗ semVal ((thrV d L), SemLoc.dma cc3_scoped81.sem) 0
          ∗ semVal ((thrV d L), SemLoc.dma cc3_scoped82.sem) 0
          ∗ semVal ((thrV d L), SemLoc.dma cc3_scoped83.sem) 0
          ∗ semVal ((thrV d L), SemLoc.dma cc3_scoped84.sem) 0
          ∗ semVal ((thrV d L), SemLoc.dma cc3_scoped85.sem) 0
          ∗ semVal ((thrV d L), SemLoc.dma cc3_scoped86.sem) 0
          ∗ semVal ((thrV d L), SemLoc.dma cc3_scoped87.sem) 0
          ∗ semVal ((thrV d L), SemLoc.dma cc3_scoped88.sem) 0
          ∗ semVal ((thrV d L), SemLoc.dma cc3_scoped89.sem) 0
          ∗ semVal ((thrV d L), SemLoc.dma cc3_scoped90.sem) 0
          ∗ semVal ((thrV d L), SemLoc.dma cc3_scoped91.sem) 0
          ∗ semVal ((thrV d L), SemLoc.dma cc3_scoped92.sem) 0
          ∗ semVal ((thrV d L), SemLoc.dma cc3_scoped93.sem) 0
          ∗ semVal ((thrV d L), SemLoc.dma cc3_scoped94.sem) 0
          ∗ semVal ((thrV d L), SemLoc.dma cc3_scoped95.sem) 0
          ∗ semVal ((thrV d L), SemLoc.dma cc3_scoped96.sem) 0
          ∗ semVal ((thrV d L), SemLoc.dma cc3_scoped97.sem) 0
          ∗ semVal ((thrV d L), SemLoc.dma cc3_scoped98.sem) 0
          ∗ semVal ((thrV d L), SemLoc.dma cc3_scoped99.sem) 0
          ∗ semVal ((thrV d L), SemLoc.dma cc3_scoped100.sem) 0
          ∗ semVal ((thrV d L), SemLoc.dma cc3_scoped101.sem) 0
          ∗ semVal ((thrV d L), SemLoc.dma cc3_scoped102.sem) 0
          ∗ semVal ((thrV d L), SemLoc.dma cc3_scoped103.sem) 0
          ∗ semVal ((thrV d L), SemLoc.dma cc3_scoped104.sem) 0
          ∗ semVal ((thrV d L), SemLoc.dma cc3_scoped105.sem) 0
          ∗ semVal ((thrV d L), SemLoc.dma cc3_scoped106.sem) 0
          ∗ semVal ((thrV d L), SemLoc.dma cc3_scoped107.sem) 0
          ∗ semVal ((thrV d L), SemLoc.dma cc3_scoped108.sem) 0
          ∗ semVal ((thrV d L), SemLoc.dma cc3_scoped109.sem) 0
          ∗ semVal ((thrV d L), SemLoc.dma cc3_scoped110.sem) 0
          ∗ semVal ((thrV d L), SemLoc.dma cc3_scoped111.sem) 0
          ∗ semVal ((thrV d L), SemLoc.dma cc3_scoped112.sem) 0
          ∗ semVal ((thrV d L), SemLoc.dma cc3_scoped113.sem) 0
          ∗ semVal ((thrV d L), SemLoc.dma cc3_scoped114.sem) 0
          ∗ semVal ((thrV d L), SemLoc.dma cc3_scoped115.sem) 0
          ∗ semVal ((thrV d L), SemLoc.dma cc3_scoped116.sem) 0
          ∗ semVal ((thrV d L), SemLoc.dma cc3_scoped117.sem) 0
          ∗ semVal ((thrV d L), SemLoc.dma cc3_scoped118.sem) 0
          ∗ semVal ((thrV d L), SemLoc.dma cc3_scoped119.sem) 0
          ∗ semVal ((thrV d L), SemLoc.dma cc3_scoped120.sem) 0
          ∗ semVal ((thrV d L), SemLoc.dma cc3_scoped121.sem) 0
          ∗ semVal ((thrV d L), SemLoc.dma cc3_scoped122.sem) 0
          ∗ semVal ((thrV d L), SemLoc.dma cc3_scoped123.sem) 0
          ∗ semVal ((thrV d L), SemLoc.dma cc3_scoped124.sem) 0
          ∗ semVal ((thrV d L), SemLoc.dma cc3_scoped125.sem) 0
          ∗ semVal ((thrV d L), SemLoc.dma cc3_scoped126.sem) 0
          ∗ semVal ((thrV d L), SemLoc.dma cc3_scoped127.sem) 0
          ∗ semVal ((thrV d L), SemLoc.dma cc3_scoped128.sem) 0
          ∗ semVal ((thrV d L), SemLoc.dma cc3_scoped129.sem) 0
          ∗ semVal ((thrV d L), SemLoc.dma cc3_scoped130.sem) 0
          ∗ semVal ((thrV d L), SemLoc.dma cc3_scoped131.sem) 0
          ∗ semVal ((thrV d L), SemLoc.dma cc3_scoped132.sem) 0
          ∗ semVal ((thrV d L), SemLoc.dma cc3_scoped133.sem) 0
          ∗ semVal ((thrV d L), SemLoc.dma cc3_scoped134.sem) 0
          ∗ semVal ((thrV d L), SemLoc.dma cc3_scoped135.sem) 0
          ∗ semVal ((thrV d L), SemLoc.dma cc3_scoped136.sem) 0
          ∗ semVal ((thrV d L), SemLoc.dma cc3_scoped137.sem) 0
          ∗ semVal ((thrV d L), SemLoc.dma cc3_scoped138.sem) 0
          ∗ semVal ((thrV d L), SemLoc.dma cc3_scoped139.sem) 0
          ∗ semVal ((thrV d L), SemLoc.dma cc3_scoped140.sem) 0
          ∗ semVal ((thrV d L), SemLoc.dma cc3_scoped141.sem) 0
          ∗ semVal ((thrV d L), SemLoc.dma cc3_scoped142.sem) 0
          ∗ semVal ((thrV d L), SemLoc.dma cc3_scoped143.sem) 0
          ∗ semVal ((thrV d L), SemLoc.dma cc3_scoped144.sem) 0
          ∗ semVal ((thrV d L), SemLoc.dma cc3_scoped145.sem) 0
          ∗ semVal ((thrV d L), SemLoc.dma cc3_scoped146.sem) 0
          ∗ semVal ((thrV d L), SemLoc.dma cc3_scoped147.sem) 0
          ∗ semVal ((thrV d L), SemLoc.dma cc3_scoped148.sem) 0
          ∗ semVal ((thrV d L), SemLoc.dma cc3_scoped149.sem) 0
          ∗ semVal ((thrV d L), SemLoc.dma cc3_scoped150.sem) 0
          ∗ semVal ((thrV d L), SemLoc.dma cc3_scoped151.sem) 0
          ∗ semVal ((thrV d L), SemLoc.dma cc3_scoped152.sem) 0
          ∗ semVal ((thrV d L), SemLoc.dma cc3_scoped153.sem) 0
          ∗ semVal ((thrV d L), SemLoc.dma cc3_scoped154.sem) 0
          ∗ semVal ((thrV d L), SemLoc.dma cc3_scoped155.sem) 0
          ∗ semVal ((thrV d L), SemLoc.dma cc3_scoped156.sem) 0
          ∗ semVal ((thrV d L), SemLoc.dma cc3_scoped157.sem) 0
          ∗ semVal ((thrV d L), SemLoc.dma cc3_scoped158.sem) 0
          ∗ semVal ((thrV d L), SemLoc.dma cc3_scoped159.sem) 0
          ∗ semVal ((thrV d L), SemLoc.dma cc3_scoped160.sem) 0
          ∗ semVal ((thrV d L), SemLoc.dma cc3_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q := by
  iintro ⟨#Hmw, Hh, Hs, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Ho50, Ho51, Ho52, Ho53, Ho54, Ho55, Ho56, Ho57, Ho58, Ho59, Ho60, Ho61, Ho62, Ho63, Ho64, Ho65, Ho66, Ho67, Ho68, Ho69, Ho70, Ho71, Ho72, Ho73, Ho74, Ho75, Ho76, Ho77, Ho78, Ho79, H0, H1, H2, H3, H4, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56, Hc57, Hc58, Hc59, Hc60, Hc61, Hc62, Hc63, Hc64, Hc65, Hc66, Hc67, Hc68, Hc69, Hc70, Hc71, Hc72, Hc73, Hc74, Hc75, Hc76, Hc77, Hc78, Hc79, Hc80, Hc81, Hc82, Hc83, Hc84, Hc85, Hc86, Hc87, Hc88, Hc89, Hc90, Hc91, Hc92, Hc93, Hc94, Hc95, Hc96, Hc97, Hc98, Hc99, Hc100, Hc101, Hc102, Hc103, Hc104, Hc105, Hc106, Hc107, Hc108, Hc109, Hc110, Hc111, Hc112, Hc113, Hc114, Hc115, Hc116, Hc117, Hc118, Hc119, Hc120, Hc121, Hc122, Hc123, Hc124, Hc125, Hc126, Hc127, Hc128, Hc129, Hc130, Hc131, Hc132, Hc133, Hc134, Hc135, Hc136, Hc137, Hc138, Hc139, Hc140, Hc141, Hc142, Hc143, Hc144, Hc145, Hc146, Hc147, Hc148, Hc149, Hc150, Hc151, Hc152, Hc153, Hc154, Hc155, Hc156, Hc157, Hc158, Hc159, Hc160, Hc161, HO, Hk⟩
  have hin := idx_inb d L fs hfs
  have hio := iota_inb (F := F)
  sl_exec_parts!
  sl_step
  iapply Hk
  isplitl [Hh]; · iexact Hh
  isplitl [Hs]; · iexact Hs
  isplitl [Ho0]
  · iapply (Entails.of_eq (pointsTo_congr (window_value d L fh fs hfs fo 0 (by decide) 0#32 rfl _ _ _ _ _ _ _ _ _ _ _ _ _))) $$ Ho0
  isplitl [Ho1]
  · iapply (Entails.of_eq (pointsTo_congr (window_value d L fh fs hfs fo 1 (by decide) 128#32 rfl _ _ _ _ _ _ _ _ _ _ _ _ _))) $$ Ho1
  isplitl [Ho2]
  · iapply (Entails.of_eq (pointsTo_congr (window_value d L fh fs hfs fo 2 (by decide) 256#32 rfl _ _ _ _ _ _ _ _ _ _ _ _ _))) $$ Ho2
  isplitl [Ho3]
  · iapply (Entails.of_eq (pointsTo_congr (window_value d L fh fs hfs fo 3 (by decide) 384#32 rfl _ _ _ _ _ _ _ _ _ _ _ _ _))) $$ Ho3
  isplitl [Ho4]
  · iapply (Entails.of_eq (pointsTo_congr (window_value d L fh fs hfs fo 4 (by decide) 512#32 rfl _ _ _ _ _ _ _ _ _ _ _ _ _))) $$ Ho4
  isplitl [Ho5]
  · iapply (Entails.of_eq (pointsTo_congr (window_value d L fh fs hfs fo 5 (by decide) 640#32 rfl _ _ _ _ _ _ _ _ _ _ _ _ _))) $$ Ho5
  isplitl [Ho6]
  · iapply (Entails.of_eq (pointsTo_congr (window_value d L fh fs hfs fo 6 (by decide) 768#32 rfl _ _ _ _ _ _ _ _ _ _ _ _ _))) $$ Ho6
  isplitl [Ho7]
  · iapply (Entails.of_eq (pointsTo_congr (window_value d L fh fs hfs fo 7 (by decide) 896#32 rfl _ _ _ _ _ _ _ _ _ _ _ _ _))) $$ Ho7
  isplitl [Ho8]
  · iapply (Entails.of_eq (pointsTo_congr (window_value d L fh fs hfs fo 8 (by decide) 1024#32 rfl _ _ _ _ _ _ _ _ _ _ _ _ _))) $$ Ho8
  isplitl [Ho9]
  · iapply (Entails.of_eq (pointsTo_congr (window_value d L fh fs hfs fo 9 (by decide) 1152#32 rfl _ _ _ _ _ _ _ _ _ _ _ _ _))) $$ Ho9
  isplitl [Ho10]
  · iapply (Entails.of_eq (pointsTo_congr (window_value d L fh fs hfs fo 10 (by decide) 1280#32 rfl _ _ _ _ _ _ _ _ _ _ _ _ _))) $$ Ho10
  isplitl [Ho11]
  · iapply (Entails.of_eq (pointsTo_congr (window_value d L fh fs hfs fo 11 (by decide) 1408#32 rfl _ _ _ _ _ _ _ _ _ _ _ _ _))) $$ Ho11
  isplitl [Ho12]
  · iapply (Entails.of_eq (pointsTo_congr (window_value d L fh fs hfs fo 12 (by decide) 1536#32 rfl _ _ _ _ _ _ _ _ _ _ _ _ _))) $$ Ho12
  isplitl [Ho13]
  · iapply (Entails.of_eq (pointsTo_congr (window_value d L fh fs hfs fo 13 (by decide) 1664#32 rfl _ _ _ _ _ _ _ _ _ _ _ _ _))) $$ Ho13
  isplitl [Ho14]
  · iapply (Entails.of_eq (pointsTo_congr (window_value d L fh fs hfs fo 14 (by decide) 1792#32 rfl _ _ _ _ _ _ _ _ _ _ _ _ _))) $$ Ho14
  isplitl [Ho15]
  · iapply (Entails.of_eq (pointsTo_congr (window_value d L fh fs hfs fo 15 (by decide) 1920#32 rfl _ _ _ _ _ _ _ _ _ _ _ _ _))) $$ Ho15
  isplitl [Ho16]
  · iapply (Entails.of_eq (pointsTo_congr (window_value d L fh fs hfs fo 16 (by decide) 2048#32 rfl _ _ _ _ _ _ _ _ _ _ _ _ _))) $$ Ho16
  isplitl [Ho17]
  · iapply (Entails.of_eq (pointsTo_congr (window_value d L fh fs hfs fo 17 (by decide) 2176#32 rfl _ _ _ _ _ _ _ _ _ _ _ _ _))) $$ Ho17
  isplitl [Ho18]
  · iapply (Entails.of_eq (pointsTo_congr (window_value d L fh fs hfs fo 18 (by decide) 2304#32 rfl _ _ _ _ _ _ _ _ _ _ _ _ _))) $$ Ho18
  isplitl [Ho19]
  · iapply (Entails.of_eq (pointsTo_congr (window_value d L fh fs hfs fo 19 (by decide) 2432#32 rfl _ _ _ _ _ _ _ _ _ _ _ _ _))) $$ Ho19
  isplitl [Ho20]
  · iapply (Entails.of_eq (pointsTo_congr (window_value d L fh fs hfs fo 20 (by decide) 2560#32 rfl _ _ _ _ _ _ _ _ _ _ _ _ _))) $$ Ho20
  isplitl [Ho21]
  · iapply (Entails.of_eq (pointsTo_congr (window_value d L fh fs hfs fo 21 (by decide) 2688#32 rfl _ _ _ _ _ _ _ _ _ _ _ _ _))) $$ Ho21
  isplitl [Ho22]
  · iapply (Entails.of_eq (pointsTo_congr (window_value d L fh fs hfs fo 22 (by decide) 2816#32 rfl _ _ _ _ _ _ _ _ _ _ _ _ _))) $$ Ho22
  isplitl [Ho23]
  · iapply (Entails.of_eq (pointsTo_congr (window_value d L fh fs hfs fo 23 (by decide) 2944#32 rfl _ _ _ _ _ _ _ _ _ _ _ _ _))) $$ Ho23
  isplitl [Ho24]
  · iapply (Entails.of_eq (pointsTo_congr (window_value d L fh fs hfs fo 24 (by decide) 3072#32 rfl _ _ _ _ _ _ _ _ _ _ _ _ _))) $$ Ho24
  isplitl [Ho25]
  · iapply (Entails.of_eq (pointsTo_congr (window_value d L fh fs hfs fo 25 (by decide) 3200#32 rfl _ _ _ _ _ _ _ _ _ _ _ _ _))) $$ Ho25
  isplitl [Ho26]
  · iapply (Entails.of_eq (pointsTo_congr (window_value d L fh fs hfs fo 26 (by decide) 3328#32 rfl _ _ _ _ _ _ _ _ _ _ _ _ _))) $$ Ho26
  isplitl [Ho27]
  · iapply (Entails.of_eq (pointsTo_congr (window_value d L fh fs hfs fo 27 (by decide) 3456#32 rfl _ _ _ _ _ _ _ _ _ _ _ _ _))) $$ Ho27
  isplitl [Ho28]
  · iapply (Entails.of_eq (pointsTo_congr (window_value d L fh fs hfs fo 28 (by decide) 3584#32 rfl _ _ _ _ _ _ _ _ _ _ _ _ _))) $$ Ho28
  isplitl [Ho29]
  · iapply (Entails.of_eq (pointsTo_congr (window_value d L fh fs hfs fo 29 (by decide) 3712#32 rfl _ _ _ _ _ _ _ _ _ _ _ _ _))) $$ Ho29
  isplitl [Ho30]
  · iapply (Entails.of_eq (pointsTo_congr (window_value d L fh fs hfs fo 30 (by decide) 3840#32 rfl _ _ _ _ _ _ _ _ _ _ _ _ _))) $$ Ho30
  isplitl [Ho31]
  · iapply (Entails.of_eq (pointsTo_congr (window_value d L fh fs hfs fo 31 (by decide) 3968#32 rfl _ _ _ _ _ _ _ _ _ _ _ _ _))) $$ Ho31
  isplitl [Ho32]
  · iapply (Entails.of_eq (pointsTo_congr (window_value d L fh fs hfs fo 32 (by decide) 4096#32 rfl _ _ _ _ _ _ _ _ _ _ _ _ _))) $$ Ho32
  isplitl [Ho33]
  · iapply (Entails.of_eq (pointsTo_congr (window_value d L fh fs hfs fo 33 (by decide) 4224#32 rfl _ _ _ _ _ _ _ _ _ _ _ _ _))) $$ Ho33
  isplitl [Ho34]
  · iapply (Entails.of_eq (pointsTo_congr (window_value d L fh fs hfs fo 34 (by decide) 4352#32 rfl _ _ _ _ _ _ _ _ _ _ _ _ _))) $$ Ho34
  isplitl [Ho35]
  · iapply (Entails.of_eq (pointsTo_congr (window_value d L fh fs hfs fo 35 (by decide) 4480#32 rfl _ _ _ _ _ _ _ _ _ _ _ _ _))) $$ Ho35
  isplitl [Ho36]
  · iapply (Entails.of_eq (pointsTo_congr (window_value d L fh fs hfs fo 36 (by decide) 4608#32 rfl _ _ _ _ _ _ _ _ _ _ _ _ _))) $$ Ho36
  isplitl [Ho37]
  · iapply (Entails.of_eq (pointsTo_congr (window_value d L fh fs hfs fo 37 (by decide) 4736#32 rfl _ _ _ _ _ _ _ _ _ _ _ _ _))) $$ Ho37
  isplitl [Ho38]
  · iapply (Entails.of_eq (pointsTo_congr (window_value d L fh fs hfs fo 38 (by decide) 4864#32 rfl _ _ _ _ _ _ _ _ _ _ _ _ _))) $$ Ho38
  isplitl [Ho39]
  · iapply (Entails.of_eq (pointsTo_congr (window_value d L fh fs hfs fo 39 (by decide) 4992#32 rfl _ _ _ _ _ _ _ _ _ _ _ _ _))) $$ Ho39
  isplitl [Ho40]
  · iapply (Entails.of_eq (pointsTo_congr (window_value d L fh fs hfs fo 40 (by decide) 5120#32 rfl _ _ _ _ _ _ _ _ _ _ _ _ _))) $$ Ho40
  isplitl [Ho41]
  · iapply (Entails.of_eq (pointsTo_congr (window_value d L fh fs hfs fo 41 (by decide) 5248#32 rfl _ _ _ _ _ _ _ _ _ _ _ _ _))) $$ Ho41
  isplitl [Ho42]
  · iapply (Entails.of_eq (pointsTo_congr (window_value d L fh fs hfs fo 42 (by decide) 5376#32 rfl _ _ _ _ _ _ _ _ _ _ _ _ _))) $$ Ho42
  isplitl [Ho43]
  · iapply (Entails.of_eq (pointsTo_congr (window_value d L fh fs hfs fo 43 (by decide) 5504#32 rfl _ _ _ _ _ _ _ _ _ _ _ _ _))) $$ Ho43
  isplitl [Ho44]
  · iapply (Entails.of_eq (pointsTo_congr (window_value d L fh fs hfs fo 44 (by decide) 5632#32 rfl _ _ _ _ _ _ _ _ _ _ _ _ _))) $$ Ho44
  isplitl [Ho45]
  · iapply (Entails.of_eq (pointsTo_congr (window_value d L fh fs hfs fo 45 (by decide) 5760#32 rfl _ _ _ _ _ _ _ _ _ _ _ _ _))) $$ Ho45
  isplitl [Ho46]
  · iapply (Entails.of_eq (pointsTo_congr (window_value d L fh fs hfs fo 46 (by decide) 5888#32 rfl _ _ _ _ _ _ _ _ _ _ _ _ _))) $$ Ho46
  isplitl [Ho47]
  · iapply (Entails.of_eq (pointsTo_congr (window_value d L fh fs hfs fo 47 (by decide) 6016#32 rfl _ _ _ _ _ _ _ _ _ _ _ _ _))) $$ Ho47
  isplitl [Ho48]
  · iapply (Entails.of_eq (pointsTo_congr (window_value d L fh fs hfs fo 48 (by decide) 6144#32 rfl _ _ _ _ _ _ _ _ _ _ _ _ _))) $$ Ho48
  isplitl [Ho49]
  · iapply (Entails.of_eq (pointsTo_congr (window_value d L fh fs hfs fo 49 (by decide) 6272#32 rfl _ _ _ _ _ _ _ _ _ _ _ _ _))) $$ Ho49
  isplitl [Ho50]
  · iapply (Entails.of_eq (pointsTo_congr (window_value d L fh fs hfs fo 50 (by decide) 6400#32 rfl _ _ _ _ _ _ _ _ _ _ _ _ _))) $$ Ho50
  isplitl [Ho51]
  · iapply (Entails.of_eq (pointsTo_congr (window_value d L fh fs hfs fo 51 (by decide) 6528#32 rfl _ _ _ _ _ _ _ _ _ _ _ _ _))) $$ Ho51
  isplitl [Ho52]
  · iapply (Entails.of_eq (pointsTo_congr (window_value d L fh fs hfs fo 52 (by decide) 6656#32 rfl _ _ _ _ _ _ _ _ _ _ _ _ _))) $$ Ho52
  isplitl [Ho53]
  · iapply (Entails.of_eq (pointsTo_congr (window_value d L fh fs hfs fo 53 (by decide) 6784#32 rfl _ _ _ _ _ _ _ _ _ _ _ _ _))) $$ Ho53
  isplitl [Ho54]
  · iapply (Entails.of_eq (pointsTo_congr (window_value d L fh fs hfs fo 54 (by decide) 6912#32 rfl _ _ _ _ _ _ _ _ _ _ _ _ _))) $$ Ho54
  isplitl [Ho55]
  · iapply (Entails.of_eq (pointsTo_congr (window_value d L fh fs hfs fo 55 (by decide) 7040#32 rfl _ _ _ _ _ _ _ _ _ _ _ _ _))) $$ Ho55
  isplitl [Ho56]
  · iapply (Entails.of_eq (pointsTo_congr (window_value d L fh fs hfs fo 56 (by decide) 7168#32 rfl _ _ _ _ _ _ _ _ _ _ _ _ _))) $$ Ho56
  isplitl [Ho57]
  · iapply (Entails.of_eq (pointsTo_congr (window_value d L fh fs hfs fo 57 (by decide) 7296#32 rfl _ _ _ _ _ _ _ _ _ _ _ _ _))) $$ Ho57
  isplitl [Ho58]
  · iapply (Entails.of_eq (pointsTo_congr (window_value d L fh fs hfs fo 58 (by decide) 7424#32 rfl _ _ _ _ _ _ _ _ _ _ _ _ _))) $$ Ho58
  isplitl [Ho59]
  · iapply (Entails.of_eq (pointsTo_congr (window_value d L fh fs hfs fo 59 (by decide) 7552#32 rfl _ _ _ _ _ _ _ _ _ _ _ _ _))) $$ Ho59
  isplitl [Ho60]
  · iapply (Entails.of_eq (pointsTo_congr (window_value d L fh fs hfs fo 60 (by decide) 7680#32 rfl _ _ _ _ _ _ _ _ _ _ _ _ _))) $$ Ho60
  isplitl [Ho61]
  · iapply (Entails.of_eq (pointsTo_congr (window_value d L fh fs hfs fo 61 (by decide) 7808#32 rfl _ _ _ _ _ _ _ _ _ _ _ _ _))) $$ Ho61
  isplitl [Ho62]
  · iapply (Entails.of_eq (pointsTo_congr (window_value d L fh fs hfs fo 62 (by decide) 7936#32 rfl _ _ _ _ _ _ _ _ _ _ _ _ _))) $$ Ho62
  isplitl [Ho63]
  · iapply (Entails.of_eq (pointsTo_congr (window_value d L fh fs hfs fo 63 (by decide) 8064#32 rfl _ _ _ _ _ _ _ _ _ _ _ _ _))) $$ Ho63
  isplitl [Ho64]
  · iapply (Entails.of_eq (pointsTo_congr (window_value d L fh fs hfs fo 64 (by decide) 8192#32 rfl _ _ _ _ _ _ _ _ _ _ _ _ _))) $$ Ho64
  isplitl [Ho65]
  · iapply (Entails.of_eq (pointsTo_congr (window_value d L fh fs hfs fo 65 (by decide) 8320#32 rfl _ _ _ _ _ _ _ _ _ _ _ _ _))) $$ Ho65
  isplitl [Ho66]
  · iapply (Entails.of_eq (pointsTo_congr (window_value d L fh fs hfs fo 66 (by decide) 8448#32 rfl _ _ _ _ _ _ _ _ _ _ _ _ _))) $$ Ho66
  isplitl [Ho67]
  · iapply (Entails.of_eq (pointsTo_congr (window_value d L fh fs hfs fo 67 (by decide) 8576#32 rfl _ _ _ _ _ _ _ _ _ _ _ _ _))) $$ Ho67
  isplitl [Ho68]
  · iapply (Entails.of_eq (pointsTo_congr (window_value d L fh fs hfs fo 68 (by decide) 8704#32 rfl _ _ _ _ _ _ _ _ _ _ _ _ _))) $$ Ho68
  isplitl [Ho69]
  · iapply (Entails.of_eq (pointsTo_congr (window_value d L fh fs hfs fo 69 (by decide) 8832#32 rfl _ _ _ _ _ _ _ _ _ _ _ _ _))) $$ Ho69
  isplitl [Ho70]
  · iapply (Entails.of_eq (pointsTo_congr (window_value d L fh fs hfs fo 70 (by decide) 8960#32 rfl _ _ _ _ _ _ _ _ _ _ _ _ _))) $$ Ho70
  isplitl [Ho71]
  · iapply (Entails.of_eq (pointsTo_congr (window_value d L fh fs hfs fo 71 (by decide) 9088#32 rfl _ _ _ _ _ _ _ _ _ _ _ _ _))) $$ Ho71
  isplitl [Ho72]
  · iapply (Entails.of_eq (pointsTo_congr (window_value d L fh fs hfs fo 72 (by decide) 9216#32 rfl _ _ _ _ _ _ _ _ _ _ _ _ _))) $$ Ho72
  isplitl [Ho73]
  · iapply (Entails.of_eq (pointsTo_congr (window_value d L fh fs hfs fo 73 (by decide) 9344#32 rfl _ _ _ _ _ _ _ _ _ _ _ _ _))) $$ Ho73
  isplitl [Ho74]
  · iapply (Entails.of_eq (pointsTo_congr (window_value d L fh fs hfs fo 74 (by decide) 9472#32 rfl _ _ _ _ _ _ _ _ _ _ _ _ _))) $$ Ho74
  isplitl [Ho75]
  · iapply (Entails.of_eq (pointsTo_congr (window_value d L fh fs hfs fo 75 (by decide) 9600#32 rfl _ _ _ _ _ _ _ _ _ _ _ _ _))) $$ Ho75
  isplitl [Ho76]
  · iapply (Entails.of_eq (pointsTo_congr (window_value d L fh fs hfs fo 76 (by decide) 9728#32 rfl _ _ _ _ _ _ _ _ _ _ _ _ _))) $$ Ho76
  isplitl [Ho77]
  · iapply (Entails.of_eq (pointsTo_congr (window_value d L fh fs hfs fo 77 (by decide) 9856#32 rfl _ _ _ _ _ _ _ _ _ _ _ _ _))) $$ Ho77
  isplitl [Ho78]
  · iapply (Entails.of_eq (pointsTo_congr (window_value d L fh fs hfs fo 78 (by decide) 9984#32 rfl _ _ _ _ _ _ _ _ _ _ _ _ _))) $$ Ho78
  isplitl [Ho79]
  · iapply (Entails.of_eq (pointsTo_congr (window_value d L fh fs hfs fo 79 (by decide) 10112#32 rfl _ _ _ _ _ _ _ _ _ _ _ _ _))) $$ Ho79
  isplitl [H0]; · iexists _; iexact H0
  isplitl [H1]; · iexists _; iexact H1
  isplitl [H2]; · iexists _; iexact H2
  isplitl [H3]; · iexists _; iexact H3
  isplitl [H4]; · iexists _; iexact H4
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Hc26]; · iexact Hc26
  isplitl [Hc27]; · iexact Hc27
  isplitl [Hc28]; · iexact Hc28
  isplitl [Hc29]; · iexact Hc29
  isplitl [Hc30]; · iexact Hc30
  isplitl [Hc31]; · iexact Hc31
  isplitl [Hc32]; · iexact Hc32
  isplitl [Hc33]; · iexact Hc33
  isplitl [Hc34]; · iexact Hc34
  isplitl [Hc35]; · iexact Hc35
  isplitl [Hc36]; · iexact Hc36
  isplitl [Hc37]; · iexact Hc37
  isplitl [Hc38]; · iexact Hc38
  isplitl [Hc39]; · iexact Hc39
  isplitl [Hc40]; · iexact Hc40
  isplitl [Hc41]; · iexact Hc41
  isplitl [Hc42]; · iexact Hc42
  isplitl [Hc43]; · iexact Hc43
  isplitl [Hc44]; · iexact Hc44
  isplitl [Hc45]; · iexact Hc45
  isplitl [Hc46]; · iexact Hc46
  isplitl [Hc47]; · iexact Hc47
  isplitl [Hc48]; · iexact Hc48
  isplitl [Hc49]; · iexact Hc49
  isplitl [Hc50]; · iexact Hc50
  isplitl [Hc51]; · iexact Hc51
  isplitl [Hc52]; · iexact Hc52
  isplitl [Hc53]; · iexact Hc53
  isplitl [Hc54]; · iexact Hc54
  isplitl [Hc55]; · iexact Hc55
  isplitl [Hc56]; · iexact Hc56
  isplitl [Hc57]; · iexact Hc57
  isplitl [Hc58]; · iexact Hc58
  isplitl [Hc59]; · iexact Hc59
  isplitl [Hc60]; · iexact Hc60
  isplitl [Hc61]; · iexact Hc61
  isplitl [Hc62]; · iexact Hc62
  isplitl [Hc63]; · iexact Hc63
  isplitl [Hc64]; · iexact Hc64
  isplitl [Hc65]; · iexact Hc65
  isplitl [Hc66]; · iexact Hc66
  isplitl [Hc67]; · iexact Hc67
  isplitl [Hc68]; · iexact Hc68
  isplitl [Hc69]; · iexact Hc69
  isplitl [Hc70]; · iexact Hc70
  isplitl [Hc71]; · iexact Hc71
  isplitl [Hc72]; · iexact Hc72
  isplitl [Hc73]; · iexact Hc73
  isplitl [Hc74]; · iexact Hc74
  isplitl [Hc75]; · iexact Hc75
  isplitl [Hc76]; · iexact Hc76
  isplitl [Hc77]; · iexact Hc77
  isplitl [Hc78]; · iexact Hc78
  isplitl [Hc79]; · iexact Hc79
  isplitl [Hc80]; · iexact Hc80
  isplitl [Hc81]; · iexact Hc81
  isplitl [Hc82]; · iexact Hc82
  isplitl [Hc83]; · iexact Hc83
  isplitl [Hc84]; · iexact Hc84
  isplitl [Hc85]; · iexact Hc85
  isplitl [Hc86]; · iexact Hc86
  isplitl [Hc87]; · iexact Hc87
  isplitl [Hc88]; · iexact Hc88
  isplitl [Hc89]; · iexact Hc89
  isplitl [Hc90]; · iexact Hc90
  isplitl [Hc91]; · iexact Hc91
  isplitl [Hc92]; · iexact Hc92
  isplitl [Hc93]; · iexact Hc93
  isplitl [Hc94]; · iexact Hc94
  isplitl [Hc95]; · iexact Hc95
  isplitl [Hc96]; · iexact Hc96
  isplitl [Hc97]; · iexact Hc97
  isplitl [Hc98]; · iexact Hc98
  isplitl [Hc99]; · iexact Hc99
  isplitl [Hc100]; · iexact Hc100
  isplitl [Hc101]; · iexact Hc101
  isplitl [Hc102]; · iexact Hc102
  isplitl [Hc103]; · iexact Hc103
  isplitl [Hc104]; · iexact Hc104
  isplitl [Hc105]; · iexact Hc105
  isplitl [Hc106]; · iexact Hc106
  isplitl [Hc107]; · iexact Hc107
  isplitl [Hc108]; · iexact Hc108
  isplitl [Hc109]; · iexact Hc109
  isplitl [Hc110]; · iexact Hc110
  isplitl [Hc111]; · iexact Hc111
  isplitl [Hc112]; · iexact Hc112
  isplitl [Hc113]; · iexact Hc113
  isplitl [Hc114]; · iexact Hc114
  isplitl [Hc115]; · iexact Hc115
  isplitl [Hc116]; · iexact Hc116
  isplitl [Hc117]; · iexact Hc117
  isplitl [Hc118]; · iexact Hc118
  isplitl [Hc119]; · iexact Hc119
  isplitl [Hc120]; · iexact Hc120
  isplitl [Hc121]; · iexact Hc121
  isplitl [Hc122]; · iexact Hc122
  isplitl [Hc123]; · iexact Hc123
  isplitl [Hc124]; · iexact Hc124
  isplitl [Hc125]; · iexact Hc125
  isplitl [Hc126]; · iexact Hc126
  isplitl [Hc127]; · iexact Hc127
  isplitl [Hc128]; · iexact Hc128
  isplitl [Hc129]; · iexact Hc129
  isplitl [Hc130]; · iexact Hc130
  isplitl [Hc131]; · iexact Hc131
  isplitl [Hc132]; · iexact Hc132
  isplitl [Hc133]; · iexact Hc133
  isplitl [Hc134]; · iexact Hc134
  isplitl [Hc135]; · iexact Hc135
  isplitl [Hc136]; · iexact Hc136
  isplitl [Hc137]; · iexact Hc137
  isplitl [Hc138]; · iexact Hc138
  isplitl [Hc139]; · iexact Hc139
  isplitl [Hc140]; · iexact Hc140
  isplitl [Hc141]; · iexact Hc141
  isplitl [Hc142]; · iexact Hc142
  isplitl [Hc143]; · iexact Hc143
  isplitl [Hc144]; · iexact Hc144
  isplitl [Hc145]; · iexact Hc145
  isplitl [Hc146]; · iexact Hc146
  isplitl [Hc147]; · iexact Hc147
  isplitl [Hc148]; · iexact Hc148
  isplitl [Hc149]; · iexact Hc149
  isplitl [Hc150]; · iexact Hc150
  isplitl [Hc151]; · iexact Hc151
  isplitl [Hc152]; · iexact Hc152
  isplitl [Hc153]; · iexact Hc153
  isplitl [Hc154]; · iexact Hc154
  isplitl [Hc155]; · iexact Hc155
  isplitl [Hc156]; · iexact Hc156
  isplitl [Hc157]; · iexact Hc157
  isplitl [Hc158]; · iexact Hc158
  isplitl [Hc159]; · iexact Hc159
  isplitl [Hc160]; · iexact Hc160
  isplitl [Hc161]; · iexact Hc161
  iexists _
  isplitr
  rotate_left
  · iexact HO
  · ipureintro
    repeat (first | exact fun p hp => Or.inl hp | apply waits_insert)

set_option maxHeartbeats 4000000 in
/-- The same with the windows named by their number: window `r` is rows [10240w + 128r, 10240w + 128r + 128). -/
theorem tile_run (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ ((oSl L 0).view.loc (thrV d L) ↦[(oSl L 0).view.set]{fullShare} fo)
      ∗ ((oSl L 1).view.loc (thrV d L) ↦[(oSl L 1).view.set]{fullShare} fo)
      ∗ ((oSl L 2).view.loc (thrV d L) ↦[(oSl L 2).view.set]{fullShare} fo)
      ∗ ((oSl L 3).view.loc (thrV d L) ↦[(oSl L 3).view.set]{fullShare} fo)
      ∗ ((oSl L 4).view.loc (thrV d L) ↦[(oSl L 4).view.set]{fullShare} fo)
      ∗ ((oSl L 5).view.loc (thrV d L) ↦[(oSl L 5).view.set]{fullShare} fo)
      ∗ ((oSl L 6).view.loc (thrV d L) ↦[(oSl L 6).view.set]{fullShare} fo)
      ∗ ((oSl L 7).view.loc (thrV d L) ↦[(oSl L 7).view.set]{fullShare} fo)
      ∗ ((oSl L 8).view.loc (thrV d L) ↦[(oSl L 8).view.set]{fullShare} fo)
      ∗ ((oSl L 9).view.loc (thrV d L) ↦[(oSl L 9).view.set]{fullShare} fo)
      ∗ ((oSl L 10).view.loc (thrV d L) ↦[(oSl L 10).view.set]{fullShare} fo)
      ∗ ((oSl L 11).view.loc (thrV d L) ↦[(oSl L 11).view.set]{fullShare} fo)
      ∗ ((oSl L 12).view.loc (thrV d L) ↦[(oSl L 12).view.set]{fullShare} fo)
      ∗ ((oSl L 13).view.loc (thrV d L) ↦[(oSl L 13).view.set]{fullShare} fo)
      ∗ ((oSl L 14).view.loc (thrV d L) ↦[(oSl L 14).view.set]{fullShare} fo)
      ∗ ((oSl L 15).view.loc (thrV d L) ↦[(oSl L 15).view.set]{fullShare} fo)
      ∗ ((oSl L 16).view.loc (thrV d L) ↦[(oSl L 16).view.set]{fullShare} fo)
      ∗ ((oSl L 17).view.loc (thrV d L) ↦[(oSl L 17).view.set]{fullShare} fo)
      ∗ ((oSl L 18).view.loc (thrV d L) ↦[(oSl L 18).view.set]{fullShare} fo)
      ∗ ((oSl L 19).view.loc (thrV d L) ↦[(oSl L 19).view.set]{fullShare} fo)
      ∗ ((oSl L 20).view.loc (thrV d L) ↦[(oSl L 20).view.set]{fullShare} fo)
      ∗ ((oSl L 21).view.loc (thrV d L) ↦[(oSl L 21).view.set]{fullShare} fo)
      ∗ ((oSl L 22).view.loc (thrV d L) ↦[(oSl L 22).view.set]{fullShare} fo)
      ∗ ((oSl L 23).view.loc (thrV d L) ↦[(oSl L 23).view.set]{fullShare} fo)
      ∗ ((oSl L 24).view.loc (thrV d L) ↦[(oSl L 24).view.set]{fullShare} fo)
      ∗ ((oSl L 25).view.loc (thrV d L) ↦[(oSl L 25).view.set]{fullShare} fo)
      ∗ ((oSl L 26).view.loc (thrV d L) ↦[(oSl L 26).view.set]{fullShare} fo)
      ∗ ((oSl L 27).view.loc (thrV d L) ↦[(oSl L 27).view.set]{fullShare} fo)
      ∗ ((oSl L 28).view.loc (thrV d L) ↦[(oSl L 28).view.set]{fullShare} fo)
      ∗ ((oSl L 29).view.loc (thrV d L) ↦[(oSl L 29).view.set]{fullShare} fo)
      ∗ ((oSl L 30).view.loc (thrV d L) ↦[(oSl L 30).view.set]{fullShare} fo)
      ∗ ((oSl L 31).view.loc (thrV d L) ↦[(oSl L 31).view.set]{fullShare} fo)
      ∗ ((oSl L 32).view.loc (thrV d L) ↦[(oSl L 32).view.set]{fullShare} fo)
      ∗ ((oSl L 33).view.loc (thrV d L) ↦[(oSl L 33).view.set]{fullShare} fo)
      ∗ ((oSl L 34).view.loc (thrV d L) ↦[(oSl L 34).view.set]{fullShare} fo)
      ∗ ((oSl L 35).view.loc (thrV d L) ↦[(oSl L 35).view.set]{fullShare} fo)
      ∗ ((oSl L 36).view.loc (thrV d L) ↦[(oSl L 36).view.set]{fullShare} fo)
      ∗ ((oSl L 37).view.loc (thrV d L) ↦[(oSl L 37).view.set]{fullShare} fo)
      ∗ ((oSl L 38).view.loc (thrV d L) ↦[(oSl L 38).view.set]{fullShare} fo)
      ∗ ((oSl L 39).view.loc (thrV d L) ↦[(oSl L 39).view.set]{fullShare} fo)
      ∗ ((oSl L 40).view.loc (thrV d L) ↦[(oSl L 40).view.set]{fullShare} fo)
      ∗ ((oSl L 41).view.loc (thrV d L) ↦[(oSl L 41).view.set]{fullShare} fo)
      ∗ ((oSl L 42).view.loc (thrV d L) ↦[(oSl L 42).view.set]{fullShare} fo)
      ∗ ((oSl L 43).view.loc (thrV d L) ↦[(oSl L 43).view.set]{fullShare} fo)
      ∗ ((oSl L 44).view.loc (thrV d L) ↦[(oSl L 44).view.set]{fullShare} fo)
      ∗ ((oSl L 45).view.loc (thrV d L) ↦[(oSl L 45).view.set]{fullShare} fo)
      ∗ ((oSl L 46).view.loc (thrV d L) ↦[(oSl L 46).view.set]{fullShare} fo)
      ∗ ((oSl L 47).view.loc (thrV d L) ↦[(oSl L 47).view.set]{fullShare} fo)
      ∗ ((oSl L 48).view.loc (thrV d L) ↦[(oSl L 48).view.set]{fullShare} fo)
      ∗ ((oSl L 49).view.loc (thrV d L) ↦[(oSl L 49).view.set]{fullShare} fo)
      ∗ ((oSl L 50).view.loc (thrV d L) ↦[(oSl L 50).view.set]{fullShare} fo)
      ∗ ((oSl L 51).view.loc (thrV d L) ↦[(oSl L 51).view.set]{fullShare} fo)
      ∗ ((oSl L 52).view.loc (thrV d L) ↦[(oSl L 52).view.set]{fullShare} fo)
      ∗ ((oSl L 53).view.loc (thrV d L) ↦[(oSl L 53).view.set]{fullShare} fo)
      ∗ ((oSl L 54).view.loc (thrV d L) ↦[(oSl L 54).view.set]{fullShare} fo)
      ∗ ((oSl L 55).view.loc (thrV d L) ↦[(oSl L 55).view.set]{fullShare} fo)
      ∗ ((oSl L 56).view.loc (thrV d L) ↦[(oSl L 56).view.set]{fullShare} fo)
      ∗ ((oSl L 57).view.loc (thrV d L) ↦[(oSl L 57).view.set]{fullShare} fo)
      ∗ ((oSl L 58).view.loc (thrV d L) ↦[(oSl L 58).view.set]{fullShare} fo)
      ∗ ((oSl L 59).view.loc (thrV d L) ↦[(oSl L 59).view.set]{fullShare} fo)
      ∗ ((oSl L 60).view.loc (thrV d L) ↦[(oSl L 60).view.set]{fullShare} fo)
      ∗ ((oSl L 61).view.loc (thrV d L) ↦[(oSl L 61).view.set]{fullShare} fo)
      ∗ ((oSl L 62).view.loc (thrV d L) ↦[(oSl L 62).view.set]{fullShare} fo)
      ∗ ((oSl L 63).view.loc (thrV d L) ↦[(oSl L 63).view.set]{fullShare} fo)
      ∗ ((oSl L 64).view.loc (thrV d L) ↦[(oSl L 64).view.set]{fullShare} fo)
      ∗ ((oSl L 65).view.loc (thrV d L) ↦[(oSl L 65).view.set]{fullShare} fo)
      ∗ ((oSl L 66).view.loc (thrV d L) ↦[(oSl L 66).view.set]{fullShare} fo)
      ∗ ((oSl L 67).view.loc (thrV d L) ↦[(oSl L 67).view.set]{fullShare} fo)
      ∗ ((oSl L 68).view.loc (thrV d L) ↦[(oSl L 68).view.set]{fullShare} fo)
      ∗ ((oSl L 69).view.loc (thrV d L) ↦[(oSl L 69).view.set]{fullShare} fo)
      ∗ ((oSl L 70).view.loc (thrV d L) ↦[(oSl L 70).view.set]{fullShare} fo)
      ∗ ((oSl L 71).view.loc (thrV d L) ↦[(oSl L 71).view.set]{fullShare} fo)
      ∗ ((oSl L 72).view.loc (thrV d L) ↦[(oSl L 72).view.set]{fullShare} fo)
      ∗ ((oSl L 73).view.loc (thrV d L) ↦[(oSl L 73).view.set]{fullShare} fo)
      ∗ ((oSl L 74).view.loc (thrV d L) ↦[(oSl L 74).view.set]{fullShare} fo)
      ∗ ((oSl L 75).view.loc (thrV d L) ↦[(oSl L 75).view.set]{fullShare} fo)
      ∗ ((oSl L 76).view.loc (thrV d L) ↦[(oSl L 76).view.set]{fullShare} fo)
      ∗ ((oSl L 77).view.loc (thrV d L) ↦[(oSl L 77).view.set]{fullShare} fo)
      ∗ ((oSl L 78).view.loc (thrV d L) ↦[(oSl L 78).view.set]{fullShare} fo)
      ∗ ((oSl L 79).view.loc (thrV d L) ↦[(oSl L 79).view.set]{fullShare} fo)
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ semVal ((thrV d L), SemLoc.dma cc3_scoped0.sem) 0
      ∗ semVal ((thrV d L), SemLoc.dma cc3_scoped1.sem) 0
      ∗ semVal ((thrV d L), SemLoc.dma cc3_scoped2.sem) 0
      ∗ semVal ((thrV d L), SemLoc.dma cc3_scoped3.sem) 0
      ∗ semVal ((thrV d L), SemLoc.dma cc3_scoped4.sem) 0
      ∗ semVal ((thrV d L), SemLoc.dma cc3_scoped5.sem) 0
      ∗ semVal ((thrV d L), SemLoc.dma cc3_scoped6.sem) 0
      ∗ semVal ((thrV d L), SemLoc.dma cc3_scoped7.sem) 0
      ∗ semVal ((thrV d L), SemLoc.dma cc3_scoped8.sem) 0
      ∗ semVal ((thrV d L), SemLoc.dma cc3_scoped9.sem) 0
      ∗ semVal ((thrV d L), SemLoc.dma cc3_scoped10.sem) 0
      ∗ semVal ((thrV d L), SemLoc.dma cc3_scoped11.sem) 0
      ∗ semVal ((thrV d L), SemLoc.dma cc3_scoped12.sem) 0
      ∗ semVal ((thrV d L), SemLoc.dma cc3_scoped13.sem) 0
      ∗ semVal ((thrV d L), SemLoc.dma cc3_scoped14.sem) 0
      ∗ semVal ((thrV d L), SemLoc.dma cc3_scoped15.sem) 0
      ∗ semVal ((thrV d L), SemLoc.dma cc3_scoped16.sem) 0
      ∗ semVal ((thrV d L), SemLoc.dma cc3_scoped17.sem) 0
      ∗ semVal ((thrV d L), SemLoc.dma cc3_scoped18.sem) 0
      ∗ semVal ((thrV d L), SemLoc.dma cc3_scoped19.sem) 0
      ∗ semVal ((thrV d L), SemLoc.dma cc3_scoped20.sem) 0
      ∗ semVal ((thrV d L), SemLoc.dma cc3_scoped21.sem) 0
      ∗ semVal ((thrV d L), SemLoc.dma cc3_scoped22.sem) 0
      ∗ semVal ((thrV d L), SemLoc.dma cc3_scoped23.sem) 0
      ∗ semVal ((thrV d L), SemLoc.dma cc3_scoped24.sem) 0
      ∗ semVal ((thrV d L), SemLoc.dma cc3_scoped25.sem) 0
      ∗ semVal ((thrV d L), SemLoc.dma cc3_scoped26.sem) 0
      ∗ semVal ((thrV d L), SemLoc.dma cc3_scoped27.sem) 0
      ∗ semVal ((thrV d L), SemLoc.dma cc3_scoped28.sem) 0
      ∗ semVal ((thrV d L), SemLoc.dma cc3_scoped29.sem) 0
      ∗ semVal ((thrV d L), SemLoc.dma cc3_scoped30.sem) 0
      ∗ semVal ((thrV d L), SemLoc.dma cc3_scoped31.sem) 0
      ∗ semVal ((thrV d L), SemLoc.dma cc3_scoped32.sem) 0
      ∗ semVal ((thrV d L), SemLoc.dma cc3_scoped33.sem) 0
      ∗ semVal ((thrV d L), SemLoc.dma cc3_scoped34.sem) 0
      ∗ semVal ((thrV d L), SemLoc.dma cc3_scoped35.sem) 0
      ∗ semVal ((thrV d L), SemLoc.dma cc3_scoped36.sem) 0
      ∗ semVal ((thrV d L), SemLoc.dma cc3_scoped37.sem) 0
      ∗ semVal ((thrV d L), SemLoc.dma cc3_scoped38.sem) 0
      ∗ semVal ((thrV d L), SemLoc.dma cc3_scoped39.sem) 0
      ∗ semVal ((thrV d L), SemLoc.dma cc3_scoped40.sem) 0
      ∗ semVal ((thrV d L), SemLoc.dma cc3_scoped41.sem) 0
      ∗ semVal ((thrV d L), SemLoc.dma cc3_scoped42.sem) 0
      ∗ semVal ((thrV d L), SemLoc.dma cc3_scoped43.sem) 0
      ∗ semVal ((thrV d L), SemLoc.dma cc3_scoped44.sem) 0
      ∗ semVal ((thrV d L), SemLoc.dma cc3_scoped45.sem) 0
      ∗ semVal ((thrV d L), SemLoc.dma cc3_scoped46.sem) 0
      ∗ semVal ((thrV d L), SemLoc.dma cc3_scoped47.sem) 0
      ∗ semVal ((thrV d L), SemLoc.dma cc3_scoped48.sem) 0
      ∗ semVal ((thrV d L), SemLoc.dma cc3_scoped49.sem) 0
      ∗ semVal ((thrV d L), SemLoc.dma cc3_scoped50.sem) 0
      ∗ semVal ((thrV d L), SemLoc.dma cc3_scoped51.sem) 0
      ∗ semVal ((thrV d L), SemLoc.dma cc3_scoped52.sem) 0
      ∗ semVal ((thrV d L), SemLoc.dma cc3_scoped53.sem) 0
      ∗ semVal ((thrV d L), SemLoc.dma cc3_scoped54.sem) 0
      ∗ semVal ((thrV d L), SemLoc.dma cc3_scoped55.sem) 0
      ∗ semVal ((thrV d L), SemLoc.dma cc3_scoped56.sem) 0
      ∗ semVal ((thrV d L), SemLoc.dma cc3_scoped57.sem) 0
      ∗ semVal ((thrV d L), SemLoc.dma cc3_scoped58.sem) 0
      ∗ semVal ((thrV d L), SemLoc.dma cc3_scoped59.sem) 0
      ∗ semVal ((thrV d L), SemLoc.dma cc3_scoped60.sem) 0
      ∗ semVal ((thrV d L), SemLoc.dma cc3_scoped61.sem) 0
      ∗ semVal ((thrV d L), SemLoc.dma cc3_scoped62.sem) 0
      ∗ semVal ((thrV d L), SemLoc.dma cc3_scoped63.sem) 0
      ∗ semVal ((thrV d L), SemLoc.dma cc3_scoped64.sem) 0
      ∗ semVal ((thrV d L), SemLoc.dma cc3_scoped65.sem) 0
      ∗ semVal ((thrV d L), SemLoc.dma cc3_scoped66.sem) 0
      ∗ semVal ((thrV d L), SemLoc.dma cc3_scoped67.sem) 0
      ∗ semVal ((thrV d L), SemLoc.dma cc3_scoped68.sem) 0
      ∗ semVal ((thrV d L), SemLoc.dma cc3_scoped69.sem) 0
      ∗ semVal ((thrV d L), SemLoc.dma cc3_scoped70.sem) 0
      ∗ semVal ((thrV d L), SemLoc.dma cc3_scoped71.sem) 0
      ∗ semVal ((thrV d L), SemLoc.dma cc3_scoped72.sem) 0
      ∗ semVal ((thrV d L), SemLoc.dma cc3_scoped73.sem) 0
      ∗ semVal ((thrV d L), SemLoc.dma cc3_scoped74.sem) 0
      ∗ semVal ((thrV d L), SemLoc.dma cc3_scoped75.sem) 0
      ∗ semVal ((thrV d L), SemLoc.dma cc3_scoped76.sem) 0
      ∗ semVal ((thrV d L), SemLoc.dma cc3_scoped77.sem) 0
      ∗ semVal ((thrV d L), SemLoc.dma cc3_scoped78.sem) 0
      ∗ semVal ((thrV d L), SemLoc.dma cc3_scoped79.sem) 0
      ∗ semVal ((thrV d L), SemLoc.dma cc3_scoped80.sem) 0
      ∗ semVal ((thrV d L), SemLoc.dma cc3_scoped81.sem) 0
      ∗ semVal ((thrV d L), SemLoc.dma cc3_scoped82.sem) 0
      ∗ semVal ((thrV d L), SemLoc.dma cc3_scoped83.sem) 0
      ∗ semVal ((thrV d L), SemLoc.dma cc3_scoped84.sem) 0
      ∗ semVal ((thrV d L), SemLoc.dma cc3_scoped85.sem) 0
      ∗ semVal ((thrV d L), SemLoc.dma cc3_scoped86.sem) 0
      ∗ semVal ((thrV d L), SemLoc.dma cc3_scoped87.sem) 0
      ∗ semVal ((thrV d L), SemLoc.dma cc3_scoped88.sem) 0
      ∗ semVal ((thrV d L), SemLoc.dma cc3_scoped89.sem) 0
      ∗ semVal ((thrV d L), SemLoc.dma cc3_scoped90.sem) 0
      ∗ semVal ((thrV d L), SemLoc.dma cc3_scoped91.sem) 0
      ∗ semVal ((thrV d L), SemLoc.dma cc3_scoped92.sem) 0
      ∗ semVal ((thrV d L), SemLoc.dma cc3_scoped93.sem) 0
      ∗ semVal ((thrV d L), SemLoc.dma cc3_scoped94.sem) 0
      ∗ semVal ((thrV d L), SemLoc.dma cc3_scoped95.sem) 0
      ∗ semVal ((thrV d L), SemLoc.dma cc3_scoped96.sem) 0
      ∗ semVal ((thrV d L), SemLoc.dma cc3_scoped97.sem) 0
      ∗ semVal ((thrV d L), SemLoc.dma cc3_scoped98.sem) 0
      ∗ semVal ((thrV d L), SemLoc.dma cc3_scoped99.sem) 0
      ∗ semVal ((thrV d L), SemLoc.dma cc3_scoped100.sem) 0
      ∗ semVal ((thrV d L), SemLoc.dma cc3_scoped101.sem) 0
      ∗ semVal ((thrV d L), SemLoc.dma cc3_scoped102.sem) 0
      ∗ semVal ((thrV d L), SemLoc.dma cc3_scoped103.sem) 0
      ∗ semVal ((thrV d L), SemLoc.dma cc3_scoped104.sem) 0
      ∗ semVal ((thrV d L), SemLoc.dma cc3_scoped105.sem) 0
      ∗ semVal ((thrV d L), SemLoc.dma cc3_scoped106.sem) 0
      ∗ semVal ((thrV d L), SemLoc.dma cc3_scoped107.sem) 0
      ∗ semVal ((thrV d L), SemLoc.dma cc3_scoped108.sem) 0
      ∗ semVal ((thrV d L), SemLoc.dma cc3_scoped109.sem) 0
      ∗ semVal ((thrV d L), SemLoc.dma cc3_scoped110.sem) 0
      ∗ semVal ((thrV d L), SemLoc.dma cc3_scoped111.sem) 0
      ∗ semVal ((thrV d L), SemLoc.dma cc3_scoped112.sem) 0
      ∗ semVal ((thrV d L), SemLoc.dma cc3_scoped113.sem) 0
      ∗ semVal ((thrV d L), SemLoc.dma cc3_scoped114.sem) 0
      ∗ semVal ((thrV d L), SemLoc.dma cc3_scoped115.sem) 0
      ∗ semVal ((thrV d L), SemLoc.dma cc3_scoped116.sem) 0
      ∗ semVal ((thrV d L), SemLoc.dma cc3_scoped117.sem) 0
      ∗ semVal ((thrV d L), SemLoc.dma cc3_scoped118.sem) 0
      ∗ semVal ((thrV d L), SemLoc.dma cc3_scoped119.sem) 0
      ∗ semVal ((thrV d L), SemLoc.dma cc3_scoped120.sem) 0
      ∗ semVal ((thrV d L), SemLoc.dma cc3_scoped121.sem) 0
      ∗ semVal ((thrV d L), SemLoc.dma cc3_scoped122.sem) 0
      ∗ semVal ((thrV d L), SemLoc.dma cc3_scoped123.sem) 0
      ∗ semVal ((thrV d L), SemLoc.dma cc3_scoped124.sem) 0
      ∗ semVal ((thrV d L), SemLoc.dma cc3_scoped125.sem) 0
      ∗ semVal ((thrV d L), SemLoc.dma cc3_scoped126.sem) 0
      ∗ semVal ((thrV d L), SemLoc.dma cc3_scoped127.sem) 0
      ∗ semVal ((thrV d L), SemLoc.dma cc3_scoped128.sem) 0
      ∗ semVal ((thrV d L), SemLoc.dma cc3_scoped129.sem) 0
      ∗ semVal ((thrV d L), SemLoc.dma cc3_scoped130.sem) 0
      ∗ semVal ((thrV d L), SemLoc.dma cc3_scoped131.sem) 0
      ∗ semVal ((thrV d L), SemLoc.dma cc3_scoped132.sem) 0
      ∗ semVal ((thrV d L), SemLoc.dma cc3_scoped133.sem) 0
      ∗ semVal ((thrV d L), SemLoc.dma cc3_scoped134.sem) 0
      ∗ semVal ((thrV d L), SemLoc.dma cc3_scoped135.sem) 0
      ∗ semVal ((thrV d L), SemLoc.dma cc3_scoped136.sem) 0
      ∗ semVal ((thrV d L), SemLoc.dma cc3_scoped137.sem) 0
      ∗ semVal ((thrV d L), SemLoc.dma cc3_scoped138.sem) 0
      ∗ semVal ((thrV d L), SemLoc.dma cc3_scoped139.sem) 0
      ∗ semVal ((thrV d L), SemLoc.dma cc3_scoped140.sem) 0
      ∗ semVal ((thrV d L), SemLoc.dma cc3_scoped141.sem) 0
      ∗ semVal ((thrV d L), SemLoc.dma cc3_scoped142.sem) 0
      ∗ semVal ((thrV d L), SemLoc.dma cc3_scoped143.sem) 0
      ∗ semVal ((thrV d L), SemLoc.dma cc3_scoped144.sem) 0
      ∗ semVal ((thrV d L), SemLoc.dma cc3_scoped145.sem) 0
      ∗ semVal ((thrV d L), SemLoc.dma cc3_scoped146.sem) 0
      ∗ semVal ((thrV d L), SemLoc.dma cc3_scoped147.sem) 0
      ∗ semVal ((thrV d L), SemLoc.dma cc3_scoped148.sem) 0
      ∗ semVal ((thrV d L), SemLoc.dma cc3_scoped149.sem) 0
      ∗ semVal ((thrV d L), SemLoc.dma cc3_scoped150.sem) 0
      ∗ semVal ((thrV d L), SemLoc.dma cc3_scoped151.sem) 0
      ∗ semVal ((thrV d L), SemLoc.dma cc3_scoped152.sem) 0
      ∗ semVal ((thrV d L), SemLoc.dma cc3_scoped153.sem) 0
      ∗ semVal ((thrV d L), SemLoc.dma cc3_scoped154.sem) 0
      ∗ semVal ((thrV d L), SemLoc.dma cc3_scoped155.sem) 0
      ∗ semVal ((thrV d L), SemLoc.dma cc3_scoped156.sem) 0
      ∗ semVal ((thrV d L), SemLoc.dma cc3_scoped157.sem) 0
      ∗ semVal ((thrV d L), SemLoc.dma cc3_scoped158.sem) 0
      ∗ semVal ((thrV d L), SemLoc.dma cc3_scoped159.sem) 0
      ∗ semVal ((thrV d L), SemLoc.dma cc3_scoped160.sem) 0
      ∗ semVal ((thrV d L), SemLoc.dma cc3_scoped161.sem) 0
      ∗ owes (thrV d L) O W
      ∗ (iprop((hV.view.loc (thrV d L) ↦{q} fh) ∗ (sV.view.loc (thrV d L) ↦{q} fs)
          ∗ ((oSl L 0).view.loc (thrV d L) ↦[(oSl L 0).view.set]{fullShare} (gatherRows (F := F) fh fs : Buf (Elt F) (oV.view.loc (thrV d L))))
          ∗ ((oSl L 1).view.loc (thrV d L) ↦[(oSl L 1).view.set]{fullShare} (gatherRows (F := F) fh fs : Buf (Elt F) (oV.view.loc (thrV d L))))
          ∗ ((oSl L 2).view.loc (thrV d L) ↦[(oSl L 2).view.set]{fullShare} (gatherRows (F := F) fh fs : Buf (Elt F) (oV.view.loc (thrV d L))))
          ∗ ((oSl L 3).view.loc (thrV d L) ↦[(oSl L 3).view.set]{fullShare} (gatherRows (F := F) fh fs : Buf (Elt F) (oV.view.loc (thrV d L))))
          ∗ ((oSl L 4).view.loc (thrV d L) ↦[(oSl L 4).view.set]{fullShare} (gatherRows (F := F) fh fs : Buf (Elt F) (oV.view.loc (thrV d L))))
          ∗ ((oSl L 5).view.loc (thrV d L) ↦[(oSl L 5).view.set]{fullShare} (gatherRows (F := F) fh fs : Buf (Elt F) (oV.view.loc (thrV d L))))
          ∗ ((oSl L 6).view.loc (thrV d L) ↦[(oSl L 6).view.set]{fullShare} (gatherRows (F := F) fh fs : Buf (Elt F) (oV.view.loc (thrV d L))))
          ∗ ((oSl L 7).view.loc (thrV d L) ↦[(oSl L 7).view.set]{fullShare} (gatherRows (F := F) fh fs : Buf (Elt F) (oV.view.loc (thrV d L))))
          ∗ ((oSl L 8).view.loc (thrV d L) ↦[(oSl L 8).view.set]{fullShare} (gatherRows (F := F) fh fs : Buf (Elt F) (oV.view.loc (thrV d L))))
          ∗ ((oSl L 9).view.loc (thrV d L) ↦[(oSl L 9).view.set]{fullShare} (gatherRows (F := F) fh fs : Buf (Elt F) (oV.view.loc (thrV d L))))
          ∗ ((oSl L 10).view.loc (thrV d L) ↦[(oSl L 10).view.set]{fullShare} (gatherRows (F := F) fh fs : Buf (Elt F) (oV.view.loc (thrV d L))))
          ∗ ((oSl L 11).view.loc (thrV d L) ↦[(oSl L 11).view.set]{fullShare} (gatherRows (F := F) fh fs : Buf (Elt F) (oV.view.loc (thrV d L))))
          ∗ ((oSl L 12).view.loc (thrV d L) ↦[(oSl L 12).view.set]{fullShare} (gatherRows (F := F) fh fs : Buf (Elt F) (oV.view.loc (thrV d L))))
          ∗ ((oSl L 13).view.loc (thrV d L) ↦[(oSl L 13).view.set]{fullShare} (gatherRows (F := F) fh fs : Buf (Elt F) (oV.view.loc (thrV d L))))
          ∗ ((oSl L 14).view.loc (thrV d L) ↦[(oSl L 14).view.set]{fullShare} (gatherRows (F := F) fh fs : Buf (Elt F) (oV.view.loc (thrV d L))))
          ∗ ((oSl L 15).view.loc (thrV d L) ↦[(oSl L 15).view.set]{fullShare} (gatherRows (F := F) fh fs : Buf (Elt F) (oV.view.loc (thrV d L))))
          ∗ ((oSl L 16).view.loc (thrV d L) ↦[(oSl L 16).view.set]{fullShare} (gatherRows (F := F) fh fs : Buf (Elt F) (oV.view.loc (thrV d L))))
          ∗ ((oSl L 17).view.loc (thrV d L) ↦[(oSl L 17).view.set]{fullShare} (gatherRows (F := F) fh fs : Buf (Elt F) (oV.view.loc (thrV d L))))
          ∗ ((oSl L 18).view.loc (thrV d L) ↦[(oSl L 18).view.set]{fullShare} (gatherRows (F := F) fh fs : Buf (Elt F) (oV.view.loc (thrV d L))))
          ∗ ((oSl L 19).view.loc (thrV d L) ↦[(oSl L 19).view.set]{fullShare} (gatherRows (F := F) fh fs : Buf (Elt F) (oV.view.loc (thrV d L))))
          ∗ ((oSl L 20).view.loc (thrV d L) ↦[(oSl L 20).view.set]{fullShare} (gatherRows (F := F) fh fs : Buf (Elt F) (oV.view.loc (thrV d L))))
          ∗ ((oSl L 21).view.loc (thrV d L) ↦[(oSl L 21).view.set]{fullShare} (gatherRows (F := F) fh fs : Buf (Elt F) (oV.view.loc (thrV d L))))
          ∗ ((oSl L 22).view.loc (thrV d L) ↦[(oSl L 22).view.set]{fullShare} (gatherRows (F := F) fh fs : Buf (Elt F) (oV.view.loc (thrV d L))))
          ∗ ((oSl L 23).view.loc (thrV d L) ↦[(oSl L 23).view.set]{fullShare} (gatherRows (F := F) fh fs : Buf (Elt F) (oV.view.loc (thrV d L))))
          ∗ ((oSl L 24).view.loc (thrV d L) ↦[(oSl L 24).view.set]{fullShare} (gatherRows (F := F) fh fs : Buf (Elt F) (oV.view.loc (thrV d L))))
          ∗ ((oSl L 25).view.loc (thrV d L) ↦[(oSl L 25).view.set]{fullShare} (gatherRows (F := F) fh fs : Buf (Elt F) (oV.view.loc (thrV d L))))
          ∗ ((oSl L 26).view.loc (thrV d L) ↦[(oSl L 26).view.set]{fullShare} (gatherRows (F := F) fh fs : Buf (Elt F) (oV.view.loc (thrV d L))))
          ∗ ((oSl L 27).view.loc (thrV d L) ↦[(oSl L 27).view.set]{fullShare} (gatherRows (F := F) fh fs : Buf (Elt F) (oV.view.loc (thrV d L))))
          ∗ ((oSl L 28).view.loc (thrV d L) ↦[(oSl L 28).view.set]{fullShare} (gatherRows (F := F) fh fs : Buf (Elt F) (oV.view.loc (thrV d L))))
          ∗ ((oSl L 29).view.loc (thrV d L) ↦[(oSl L 29).view.set]{fullShare} (gatherRows (F := F) fh fs : Buf (Elt F) (oV.view.loc (thrV d L))))
          ∗ ((oSl L 30).view.loc (thrV d L) ↦[(oSl L 30).view.set]{fullShare} (gatherRows (F := F) fh fs : Buf (Elt F) (oV.view.loc (thrV d L))))
          ∗ ((oSl L 31).view.loc (thrV d L) ↦[(oSl L 31).view.set]{fullShare} (gatherRows (F := F) fh fs : Buf (Elt F) (oV.view.loc (thrV d L))))
          ∗ ((oSl L 32).view.loc (thrV d L) ↦[(oSl L 32).view.set]{fullShare} (gatherRows (F := F) fh fs : Buf (Elt F) (oV.view.loc (thrV d L))))
          ∗ ((oSl L 33).view.loc (thrV d L) ↦[(oSl L 33).view.set]{fullShare} (gatherRows (F := F) fh fs : Buf (Elt F) (oV.view.loc (thrV d L))))
          ∗ ((oSl L 34).view.loc (thrV d L) ↦[(oSl L 34).view.set]{fullShare} (gatherRows (F := F) fh fs : Buf (Elt F) (oV.view.loc (thrV d L))))
          ∗ ((oSl L 35).view.loc (thrV d L) ↦[(oSl L 35).view.set]{fullShare} (gatherRows (F := F) fh fs : Buf (Elt F) (oV.view.loc (thrV d L))))
          ∗ ((oSl L 36).view.loc (thrV d L) ↦[(oSl L 36).view.set]{fullShare} (gatherRows (F := F) fh fs : Buf (Elt F) (oV.view.loc (thrV d L))))
          ∗ ((oSl L 37).view.loc (thrV d L) ↦[(oSl L 37).view.set]{fullShare} (gatherRows (F := F) fh fs : Buf (Elt F) (oV.view.loc (thrV d L))))
          ∗ ((oSl L 38).view.loc (thrV d L) ↦[(oSl L 38).view.set]{fullShare} (gatherRows (F := F) fh fs : Buf (Elt F) (oV.view.loc (thrV d L))))
          ∗ ((oSl L 39).view.loc (thrV d L) ↦[(oSl L 39).view.set]{fullShare} (gatherRows (F := F) fh fs : Buf (Elt F) (oV.view.loc (thrV d L))))
          ∗ ((oSl L 40).view.loc (thrV d L) ↦[(oSl L 40).view.set]{fullShare} (gatherRows (F := F) fh fs : Buf (Elt F) (oV.view.loc (thrV d L))))
          ∗ ((oSl L 41).view.loc (thrV d L) ↦[(oSl L 41).view.set]{fullShare} (gatherRows (F := F) fh fs : Buf (Elt F) (oV.view.loc (thrV d L))))
          ∗ ((oSl L 42).view.loc (thrV d L) ↦[(oSl L 42).view.set]{fullShare} (gatherRows (F := F) fh fs : Buf (Elt F) (oV.view.loc (thrV d L))))
          ∗ ((oSl L 43).view.loc (thrV d L) ↦[(oSl L 43).view.set]{fullShare} (gatherRows (F := F) fh fs : Buf (Elt F) (oV.view.loc (thrV d L))))
          ∗ ((oSl L 44).view.loc (thrV d L) ↦[(oSl L 44).view.set]{fullShare} (gatherRows (F := F) fh fs : Buf (Elt F) (oV.view.loc (thrV d L))))
          ∗ ((oSl L 45).view.loc (thrV d L) ↦[(oSl L 45).view.set]{fullShare} (gatherRows (F := F) fh fs : Buf (Elt F) (oV.view.loc (thrV d L))))
          ∗ ((oSl L 46).view.loc (thrV d L) ↦[(oSl L 46).view.set]{fullShare} (gatherRows (F := F) fh fs : Buf (Elt F) (oV.view.loc (thrV d L))))
          ∗ ((oSl L 47).view.loc (thrV d L) ↦[(oSl L 47).view.set]{fullShare} (gatherRows (F := F) fh fs : Buf (Elt F) (oV.view.loc (thrV d L))))
          ∗ ((oSl L 48).view.loc (thrV d L) ↦[(oSl L 48).view.set]{fullShare} (gatherRows (F := F) fh fs : Buf (Elt F) (oV.view.loc (thrV d L))))
          ∗ ((oSl L 49).view.loc (thrV d L) ↦[(oSl L 49).view.set]{fullShare} (gatherRows (F := F) fh fs : Buf (Elt F) (oV.view.loc (thrV d L))))
          ∗ ((oSl L 50).view.loc (thrV d L) ↦[(oSl L 50).view.set]{fullShare} (gatherRows (F := F) fh fs : Buf (Elt F) (oV.view.loc (thrV d L))))
          ∗ ((oSl L 51).view.loc (thrV d L) ↦[(oSl L 51).view.set]{fullShare} (gatherRows (F := F) fh fs : Buf (Elt F) (oV.view.loc (thrV d L))))
          ∗ ((oSl L 52).view.loc (thrV d L) ↦[(oSl L 52).view.set]{fullShare} (gatherRows (F := F) fh fs : Buf (Elt F) (oV.view.loc (thrV d L))))
          ∗ ((oSl L 53).view.loc (thrV d L) ↦[(oSl L 53).view.set]{fullShare} (gatherRows (F := F) fh fs : Buf (Elt F) (oV.view.loc (thrV d L))))
          ∗ ((oSl L 54).view.loc (thrV d L) ↦[(oSl L 54).view.set]{fullShare} (gatherRows (F := F) fh fs : Buf (Elt F) (oV.view.loc (thrV d L))))
          ∗ ((oSl L 55).view.loc (thrV d L) ↦[(oSl L 55).view.set]{fullShare} (gatherRows (F := F) fh fs : Buf (Elt F) (oV.view.loc (thrV d L))))
          ∗ ((oSl L 56).view.loc (thrV d L) ↦[(oSl L 56).view.set]{fullShare} (gatherRows (F := F) fh fs : Buf (Elt F) (oV.view.loc (thrV d L))))
          ∗ ((oSl L 57).view.loc (thrV d L) ↦[(oSl L 57).view.set]{fullShare} (gatherRows (F := F) fh fs : Buf (Elt F) (oV.view.loc (thrV d L))))
          ∗ ((oSl L 58).view.loc (thrV d L) ↦[(oSl L 58).view.set]{fullShare} (gatherRows (F := F) fh fs : Buf (Elt F) (oV.view.loc (thrV d L))))
          ∗ ((oSl L 59).view.loc (thrV d L) ↦[(oSl L 59).view.set]{fullShare} (gatherRows (F := F) fh fs : Buf (Elt F) (oV.view.loc (thrV d L))))
          ∗ ((oSl L 60).view.loc (thrV d L) ↦[(oSl L 60).view.set]{fullShare} (gatherRows (F := F) fh fs : Buf (Elt F) (oV.view.loc (thrV d L))))
          ∗ ((oSl L 61).view.loc (thrV d L) ↦[(oSl L 61).view.set]{fullShare} (gatherRows (F := F) fh fs : Buf (Elt F) (oV.view.loc (thrV d L))))
          ∗ ((oSl L 62).view.loc (thrV d L) ↦[(oSl L 62).view.set]{fullShare} (gatherRows (F := F) fh fs : Buf (Elt F) (oV.view.loc (thrV d L))))
          ∗ ((oSl L 63).view.loc (thrV d L) ↦[(oSl L 63).view.set]{fullShare} (gatherRows (F := F) fh fs : Buf (Elt F) (oV.view.loc (thrV d L))))
          ∗ ((oSl L 64).view.loc (thrV d L) ↦[(oSl L 64).view.set]{fullShare} (gatherRows (F := F) fh fs : Buf (Elt F) (oV.view.loc (thrV d L))))
          ∗ ((oSl L 65).view.loc (thrV d L) ↦[(oSl L 65).view.set]{fullShare} (gatherRows (F := F) fh fs : Buf (Elt F) (oV.view.loc (thrV d L))))
          ∗ ((oSl L 66).view.loc (thrV d L) ↦[(oSl L 66).view.set]{fullShare} (gatherRows (F := F) fh fs : Buf (Elt F) (oV.view.loc (thrV d L))))
          ∗ ((oSl L 67).view.loc (thrV d L) ↦[(oSl L 67).view.set]{fullShare} (gatherRows (F := F) fh fs : Buf (Elt F) (oV.view.loc (thrV d L))))
          ∗ ((oSl L 68).view.loc (thrV d L) ↦[(oSl L 68).view.set]{fullShare} (gatherRows (F := F) fh fs : Buf (Elt F) (oV.view.loc (thrV d L))))
          ∗ ((oSl L 69).view.loc (thrV d L) ↦[(oSl L 69).view.set]{fullShare} (gatherRows (F := F) fh fs : Buf (Elt F) (oV.view.loc (thrV d L))))
          ∗ ((oSl L 70).view.loc (thrV d L) ↦[(oSl L 70).view.set]{fullShare} (gatherRows (F := F) fh fs : Buf (Elt F) (oV.view.loc (thrV d L))))
          ∗ ((oSl L 71).view.loc (thrV d L) ↦[(oSl L 71).view.set]{fullShare} (gatherRows (F := F) fh fs : Buf (Elt F) (oV.view.loc (thrV d L))))
          ∗ ((oSl L 72).view.loc (thrV d L) ↦[(oSl L 72).view.set]{fullShare} (gatherRows (F := F) fh fs : Buf (Elt F) (oV.view.loc (thrV d L))))
          ∗ ((oSl L 73).view.loc (thrV d L) ↦[(oSl L 73).view.set]{fullShare} (gatherRows (F := F) fh fs : Buf (Elt F) (oV.view.loc (thrV d L))))
          ∗ ((oSl L 74).view.loc (thrV d L) ↦[(oSl L 74).view.set]{fullShare} (gatherRows (F := F) fh fs : Buf (Elt F) (oV.view.loc (thrV d L))))
          ∗ ((oSl L 75).view.loc (thrV d L) ↦[(oSl L 75).view.set]{fullShare} (gatherRows (F := F) fh fs : Buf (Elt F) (oV.view.loc (thrV d L))))
          ∗ ((oSl L 76).view.loc (thrV d L) ↦[(oSl L 76).view.set]{fullShare} (gatherRows (F := F) fh fs : Buf (Elt F) (oV.view.loc (thrV d L))))
          ∗ ((oSl L 77).view.loc (thrV d L) ↦[(oSl L 77).view.set]{fullShare} (gatherRows (F := F) fh fs : Buf (Elt F) (oV.view.loc (thrV d L))))
          ∗ ((oSl L 78).view.loc (thrV d L) ↦[(oSl L 78).view.set]{fullShare} (gatherRows (F := F) fh fs : Buf (Elt F) (oV.view.loc (thrV d L))))
          ∗ ((oSl L 79).view.loc (thrV d L) ↦[(oSl L 79).view.set]{fullShare} (gatherRows (F := F) fh fs : Buf (Elt F) (oV.view.loc (thrV d L))))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ semVal ((thrV d L), SemLoc.dma cc3_scoped0.sem) 0
          ∗ semVal ((thrV d L), SemLoc.dma cc3_scoped1.sem) 0
          ∗ semVal ((thrV d L), SemLoc.dma cc3_scoped2.sem) 0
          ∗ semVal ((thrV d L), SemLoc.dma cc3_scoped3.sem) 0
          ∗ semVal ((thrV d L), SemLoc.dma cc3_scoped4.sem) 0
          ∗ semVal ((thrV d L), SemLoc.dma cc3_scoped5.sem) 0
          ∗ semVal ((thrV d L), SemLoc.dma cc3_scoped6.sem) 0
          ∗ semVal ((thrV d L), SemLoc.dma cc3_scoped7.sem) 0
          ∗ semVal ((thrV d L), SemLoc.dma cc3_scoped8.sem) 0
          ∗ semVal ((thrV d L), SemLoc.dma cc3_scoped9.sem) 0
          ∗ semVal ((thrV d L), SemLoc.dma cc3_scoped10.sem) 0
          ∗ semVal ((thrV d L), SemLoc.dma cc3_scoped11.sem) 0
          ∗ semVal ((thrV d L), SemLoc.dma cc3_scoped12.sem) 0
          ∗ semVal ((thrV d L), SemLoc.dma cc3_scoped13.sem) 0
          ∗ semVal ((thrV d L), SemLoc.dma cc3_scoped14.sem) 0
          ∗ semVal ((thrV d L), SemLoc.dma cc3_scoped15.sem) 0
          ∗ semVal ((thrV d L), SemLoc.dma cc3_scoped16.sem) 0
          ∗ semVal ((thrV d L), SemLoc.dma cc3_scoped17.sem) 0
          ∗ semVal ((thrV d L), SemLoc.dma cc3_scoped18.sem) 0
          ∗ semVal ((thrV d L), SemLoc.dma cc3_scoped19.sem) 0
          ∗ semVal ((thrV d L), SemLoc.dma cc3_scoped20.sem) 0
          ∗ semVal ((thrV d L), SemLoc.dma cc3_scoped21.sem) 0
          ∗ semVal ((thrV d L), SemLoc.dma cc3_scoped22.sem) 0
          ∗ semVal ((thrV d L), SemLoc.dma cc3_scoped23.sem) 0
          ∗ semVal ((thrV d L), SemLoc.dma cc3_scoped24.sem) 0
          ∗ semVal ((thrV d L), SemLoc.dma cc3_scoped25.sem) 0
          ∗ semVal ((thrV d L), SemLoc.dma cc3_scoped26.sem) 0
          ∗ semVal ((thrV d L), SemLoc.dma cc3_scoped27.sem) 0
          ∗ semVal ((thrV d L), SemLoc.dma cc3_scoped28.sem) 0
          ∗ semVal ((thrV d L), SemLoc.dma cc3_scoped29.sem) 0
          ∗ semVal ((thrV d L), SemLoc.dma cc3_scoped30.sem) 0
          ∗ semVal ((thrV d L), SemLoc.dma cc3_scoped31.sem) 0
          ∗ semVal ((thrV d L), SemLoc.dma cc3_scoped32.sem) 0
          ∗ semVal ((thrV d L), SemLoc.dma cc3_scoped33.sem) 0
          ∗ semVal ((thrV d L), SemLoc.dma cc3_scoped34.sem) 0
          ∗ semVal ((thrV d L), SemLoc.dma cc3_scoped35.sem) 0
          ∗ semVal ((thrV d L), SemLoc.dma cc3_scoped36.sem) 0
          ∗ semVal ((thrV d L), SemLoc.dma cc3_scoped37.sem) 0
          ∗ semVal ((thrV d L), SemLoc.dma cc3_scoped38.sem) 0
          ∗ semVal ((thrV d L), SemLoc.dma cc3_scoped39.sem) 0
          ∗ semVal ((thrV d L), SemLoc.dma cc3_scoped40.sem) 0
          ∗ semVal ((thrV d L), SemLoc.dma cc3_scoped41.sem) 0
          ∗ semVal ((thrV d L), SemLoc.dma cc3_scoped42.sem) 0
          ∗ semVal ((thrV d L), SemLoc.dma cc3_scoped43.sem) 0
          ∗ semVal ((thrV d L), SemLoc.dma cc3_scoped44.sem) 0
          ∗ semVal ((thrV d L), SemLoc.dma cc3_scoped45.sem) 0
          ∗ semVal ((thrV d L), SemLoc.dma cc3_scoped46.sem) 0
          ∗ semVal ((thrV d L), SemLoc.dma cc3_scoped47.sem) 0
          ∗ semVal ((thrV d L), SemLoc.dma cc3_scoped48.sem) 0
          ∗ semVal ((thrV d L), SemLoc.dma cc3_scoped49.sem) 0
          ∗ semVal ((thrV d L), SemLoc.dma cc3_scoped50.sem) 0
          ∗ semVal ((thrV d L), SemLoc.dma cc3_scoped51.sem) 0
          ∗ semVal ((thrV d L), SemLoc.dma cc3_scoped52.sem) 0
          ∗ semVal ((thrV d L), SemLoc.dma cc3_scoped53.sem) 0
          ∗ semVal ((thrV d L), SemLoc.dma cc3_scoped54.sem) 0
          ∗ semVal ((thrV d L), SemLoc.dma cc3_scoped55.sem) 0
          ∗ semVal ((thrV d L), SemLoc.dma cc3_scoped56.sem) 0
          ∗ semVal ((thrV d L), SemLoc.dma cc3_scoped57.sem) 0
          ∗ semVal ((thrV d L), SemLoc.dma cc3_scoped58.sem) 0
          ∗ semVal ((thrV d L), SemLoc.dma cc3_scoped59.sem) 0
          ∗ semVal ((thrV d L), SemLoc.dma cc3_scoped60.sem) 0
          ∗ semVal ((thrV d L), SemLoc.dma cc3_scoped61.sem) 0
          ∗ semVal ((thrV d L), SemLoc.dma cc3_scoped62.sem) 0
          ∗ semVal ((thrV d L), SemLoc.dma cc3_scoped63.sem) 0
          ∗ semVal ((thrV d L), SemLoc.dma cc3_scoped64.sem) 0
          ∗ semVal ((thrV d L), SemLoc.dma cc3_scoped65.sem) 0
          ∗ semVal ((thrV d L), SemLoc.dma cc3_scoped66.sem) 0
          ∗ semVal ((thrV d L), SemLoc.dma cc3_scoped67.sem) 0
          ∗ semVal ((thrV d L), SemLoc.dma cc3_scoped68.sem) 0
          ∗ semVal ((thrV d L), SemLoc.dma cc3_scoped69.sem) 0
          ∗ semVal ((thrV d L), SemLoc.dma cc3_scoped70.sem) 0
          ∗ semVal ((thrV d L), SemLoc.dma cc3_scoped71.sem) 0
          ∗ semVal ((thrV d L), SemLoc.dma cc3_scoped72.sem) 0
          ∗ semVal ((thrV d L), SemLoc.dma cc3_scoped73.sem) 0
          ∗ semVal ((thrV d L), SemLoc.dma cc3_scoped74.sem) 0
          ∗ semVal ((thrV d L), SemLoc.dma cc3_scoped75.sem) 0
          ∗ semVal ((thrV d L), SemLoc.dma cc3_scoped76.sem) 0
          ∗ semVal ((thrV d L), SemLoc.dma cc3_scoped77.sem) 0
          ∗ semVal ((thrV d L), SemLoc.dma cc3_scoped78.sem) 0
          ∗ semVal ((thrV d L), SemLoc.dma cc3_scoped79.sem) 0
          ∗ semVal ((thrV d L), SemLoc.dma cc3_scoped80.sem) 0
          ∗ semVal ((thrV d L), SemLoc.dma cc3_scoped81.sem) 0
          ∗ semVal ((thrV d L), SemLoc.dma cc3_scoped82.sem) 0
          ∗ semVal ((thrV d L), SemLoc.dma cc3_scoped83.sem) 0
          ∗ semVal ((thrV d L), SemLoc.dma cc3_scoped84.sem) 0
          ∗ semVal ((thrV d L), SemLoc.dma cc3_scoped85.sem) 0
          ∗ semVal ((thrV d L), SemLoc.dma cc3_scoped86.sem) 0
          ∗ semVal ((thrV d L), SemLoc.dma cc3_scoped87.sem) 0
          ∗ semVal ((thrV d L), SemLoc.dma cc3_scoped88.sem) 0
          ∗ semVal ((thrV d L), SemLoc.dma cc3_scoped89.sem) 0
          ∗ semVal ((thrV d L), SemLoc.dma cc3_scoped90.sem) 0
          ∗ semVal ((thrV d L), SemLoc.dma cc3_scoped91.sem) 0
          ∗ semVal ((thrV d L), SemLoc.dma cc3_scoped92.sem) 0
          ∗ semVal ((thrV d L), SemLoc.dma cc3_scoped93.sem) 0
          ∗ semVal ((thrV d L), SemLoc.dma cc3_scoped94.sem) 0
          ∗ semVal ((thrV d L), SemLoc.dma cc3_scoped95.sem) 0
          ∗ semVal ((thrV d L), SemLoc.dma cc3_scoped96.sem) 0
          ∗ semVal ((thrV d L), SemLoc.dma cc3_scoped97.sem) 0
          ∗ semVal ((thrV d L), SemLoc.dma cc3_scoped98.sem) 0
          ∗ semVal ((thrV d L), SemLoc.dma cc3_scoped99.sem) 0
          ∗ semVal ((thrV d L), SemLoc.dma cc3_scoped100.sem) 0
          ∗ semVal ((thrV d L), SemLoc.dma cc3_scoped101.sem) 0
          ∗ semVal ((thrV d L), SemLoc.dma cc3_scoped102.sem) 0
          ∗ semVal ((thrV d L), SemLoc.dma cc3_scoped103.sem) 0
          ∗ semVal ((thrV d L), SemLoc.dma cc3_scoped104.sem) 0
          ∗ semVal ((thrV d L), SemLoc.dma cc3_scoped105.sem) 0
          ∗ semVal ((thrV d L), SemLoc.dma cc3_scoped106.sem) 0
          ∗ semVal ((thrV d L), SemLoc.dma cc3_scoped107.sem) 0
          ∗ semVal ((thrV d L), SemLoc.dma cc3_scoped108.sem) 0
          ∗ semVal ((thrV d L), SemLoc.dma cc3_scoped109.sem) 0
          ∗ semVal ((thrV d L), SemLoc.dma cc3_scoped110.sem) 0
          ∗ semVal ((thrV d L), SemLoc.dma cc3_scoped111.sem) 0
          ∗ semVal ((thrV d L), SemLoc.dma cc3_scoped112.sem) 0
          ∗ semVal ((thrV d L), SemLoc.dma cc3_scoped113.sem) 0
          ∗ semVal ((thrV d L), SemLoc.dma cc3_scoped114.sem) 0
          ∗ semVal ((thrV d L), SemLoc.dma cc3_scoped115.sem) 0
          ∗ semVal ((thrV d L), SemLoc.dma cc3_scoped116.sem) 0
          ∗ semVal ((thrV d L), SemLoc.dma cc3_scoped117.sem) 0
          ∗ semVal ((thrV d L), SemLoc.dma cc3_scoped118.sem) 0
          ∗ semVal ((thrV d L), SemLoc.dma cc3_scoped119.sem) 0
          ∗ semVal ((thrV d L), SemLoc.dma cc3_scoped120.sem) 0
          ∗ semVal ((thrV d L), SemLoc.dma cc3_scoped121.sem) 0
          ∗ semVal ((thrV d L), SemLoc.dma cc3_scoped122.sem) 0
          ∗ semVal ((thrV d L), SemLoc.dma cc3_scoped123.sem) 0
          ∗ semVal ((thrV d L), SemLoc.dma cc3_scoped124.sem) 0
          ∗ semVal ((thrV d L), SemLoc.dma cc3_scoped125.sem) 0
          ∗ semVal ((thrV d L), SemLoc.dma cc3_scoped126.sem) 0
          ∗ semVal ((thrV d L), SemLoc.dma cc3_scoped127.sem) 0
          ∗ semVal ((thrV d L), SemLoc.dma cc3_scoped128.sem) 0
          ∗ semVal ((thrV d L), SemLoc.dma cc3_scoped129.sem) 0
          ∗ semVal ((thrV d L), SemLoc.dma cc3_scoped130.sem) 0
          ∗ semVal ((thrV d L), SemLoc.dma cc3_scoped131.sem) 0
          ∗ semVal ((thrV d L), SemLoc.dma cc3_scoped132.sem) 0
          ∗ semVal ((thrV d L), SemLoc.dma cc3_scoped133.sem) 0
          ∗ semVal ((thrV d L), SemLoc.dma cc3_scoped134.sem) 0
          ∗ semVal ((thrV d L), SemLoc.dma cc3_scoped135.sem) 0
          ∗ semVal ((thrV d L), SemLoc.dma cc3_scoped136.sem) 0
          ∗ semVal ((thrV d L), SemLoc.dma cc3_scoped137.sem) 0
          ∗ semVal ((thrV d L), SemLoc.dma cc3_scoped138.sem) 0
          ∗ semVal ((thrV d L), SemLoc.dma cc3_scoped139.sem) 0
          ∗ semVal ((thrV d L), SemLoc.dma cc3_scoped140.sem) 0
          ∗ semVal ((thrV d L), SemLoc.dma cc3_scoped141.sem) 0
          ∗ semVal ((thrV d L), SemLoc.dma cc3_scoped142.sem) 0
          ∗ semVal ((thrV d L), SemLoc.dma cc3_scoped143.sem) 0
          ∗ semVal ((thrV d L), SemLoc.dma cc3_scoped144.sem) 0
          ∗ semVal ((thrV d L), SemLoc.dma cc3_scoped145.sem) 0
          ∗ semVal ((thrV d L), SemLoc.dma cc3_scoped146.sem) 0
          ∗ semVal ((thrV d L), SemLoc.dma cc3_scoped147.sem) 0
          ∗ semVal ((thrV d L), SemLoc.dma cc3_scoped148.sem) 0
          ∗ semVal ((thrV d L), SemLoc.dma cc3_scoped149.sem) 0
          ∗ semVal ((thrV d L), SemLoc.dma cc3_scoped150.sem) 0
          ∗ semVal ((thrV d L), SemLoc.dma cc3_scoped151.sem) 0
          ∗ semVal ((thrV d L), SemLoc.dma cc3_scoped152.sem) 0
          ∗ semVal ((thrV d L), SemLoc.dma cc3_scoped153.sem) 0
          ∗ semVal ((thrV d L), SemLoc.dma cc3_scoped154.sem) 0
          ∗ semVal ((thrV d L), SemLoc.dma cc3_scoped155.sem) 0
          ∗ semVal ((thrV d L), SemLoc.dma cc3_scoped156.sem) 0
          ∗ semVal ((thrV d L), SemLoc.dma cc3_scoped157.sem) 0
          ∗ semVal ((thrV d L), SemLoc.dma cc3_scoped158.sem) 0
          ∗ semVal ((thrV d L), SemLoc.dma cc3_scoped159.sem) 0
          ∗ semVal ((thrV d L), SemLoc.dma cc3_scoped160.sem) 0
          ∗ semVal ((thrV d L), SemLoc.dma cc3_scoped161.sem) 0
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q :=
  tile_run' d L q fh fs hfs fo f0 f1 f2 f3 f4 O W hO Q

end Tile

end Call1

end Cert.Proof.KB

end
-- ==== Proof.TileGroupB2.lean ====
/-
  The gather kernel's task run with its eighty output chunks and its 162 transfer counters held as chains over lists,
  the form the launch's bookkeeping splits and joins; it is the flat statement regrouped.
-/
import proofs.«207928_g75127567942135_cont_9to1c4b_313_20_alg».proof.Proof.TileB2
import proofs.«207928_g75127567942135_cont_9to1c4b_313_20_alg».proof.Proof.GatherSpecB

noncomputable section

namespace Cert.Proof.KB.Call1

open Cert.Kernel Cert.Kernel.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile

variable (d : Dev nD) (L : grid3.Coords)

/-- The eighty chunks of a task, listed. -/
abbrev l80 : List (Fin 80) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79]

/-- The kernel's own transfer semaphores at this call, listed: one per copy and per gather. -/
abbrev sems1 : List (SemLoc sig) := [SemLoc.dma cc3_scoped0.sem, SemLoc.dma cc3_scoped1.sem, SemLoc.dma cc3_scoped2.sem, SemLoc.dma cc3_scoped3.sem, SemLoc.dma cc3_scoped4.sem, SemLoc.dma cc3_scoped5.sem, SemLoc.dma cc3_scoped6.sem, SemLoc.dma cc3_scoped7.sem, SemLoc.dma cc3_scoped8.sem, SemLoc.dma cc3_scoped9.sem, SemLoc.dma cc3_scoped10.sem, SemLoc.dma cc3_scoped11.sem, SemLoc.dma cc3_scoped12.sem, SemLoc.dma cc3_scoped13.sem, SemLoc.dma cc3_scoped14.sem, SemLoc.dma cc3_scoped15.sem, SemLoc.dma cc3_scoped16.sem, SemLoc.dma cc3_scoped17.sem, SemLoc.dma cc3_scoped18.sem, SemLoc.dma cc3_scoped19.sem, SemLoc.dma cc3_scoped20.sem, SemLoc.dma cc3_scoped21.sem, SemLoc.dma cc3_scoped22.sem, SemLoc.dma cc3_scoped23.sem, SemLoc.dma cc3_scoped24.sem, SemLoc.dma cc3_scoped25.sem, SemLoc.dma cc3_scoped26.sem, SemLoc.dma cc3_scoped27.sem, SemLoc.dma cc3_scoped28.sem, SemLoc.dma cc3_scoped29.sem, SemLoc.dma cc3_scoped30.sem, SemLoc.dma cc3_scoped31.sem, SemLoc.dma cc3_scoped32.sem, SemLoc.dma cc3_scoped33.sem, SemLoc.dma cc3_scoped34.sem, SemLoc.dma cc3_scoped35.sem, SemLoc.dma cc3_scoped36.sem, SemLoc.dma cc3_scoped37.sem, SemLoc.dma cc3_scoped38.sem, SemLoc.dma cc3_scoped39.sem, SemLoc.dma cc3_scoped40.sem, SemLoc.dma cc3_scoped41.sem, SemLoc.dma cc3_scoped42.sem, SemLoc.dma cc3_scoped43.sem, SemLoc.dma cc3_scoped44.sem, SemLoc.dma cc3_scoped45.sem, SemLoc.dma cc3_scoped46.sem, SemLoc.dma cc3_scoped47.sem, SemLoc.dma cc3_scoped48.sem, SemLoc.dma cc3_scoped49.sem, SemLoc.dma cc3_scoped50.sem, SemLoc.dma cc3_scoped51.sem, SemLoc.dma cc3_scoped52.sem, SemLoc.dma cc3_scoped53.sem, SemLoc.dma cc3_scoped54.sem, SemLoc.dma cc3_scoped55.sem, SemLoc.dma cc3_scoped56.sem, SemLoc.dma cc3_scoped57.sem, SemLoc.dma cc3_scoped58.sem, SemLoc.dma cc3_scoped59.sem, SemLoc.dma cc3_scoped60.sem, SemLoc.dma cc3_scoped61.sem, SemLoc.dma cc3_scoped62.sem, SemLoc.dma cc3_scoped63.sem, SemLoc.dma cc3_scoped64.sem, SemLoc.dma cc3_scoped65.sem, SemLoc.dma cc3_scoped66.sem, SemLoc.dma cc3_scoped67.sem, SemLoc.dma cc3_scoped68.sem, SemLoc.dma cc3_scoped69.sem, SemLoc.dma cc3_scoped70.sem, SemLoc.dma cc3_scoped71.sem, SemLoc.dma cc3_scoped72.sem, SemLoc.dma cc3_scoped73.sem, SemLoc.dma cc3_scoped74.sem, SemLoc.dma cc3_scoped75.sem, SemLoc.dma cc3_scoped76.sem, SemLoc.dma cc3_scoped77.sem, SemLoc.dma cc3_scoped78.sem, SemLoc.dma cc3_scoped79.sem, SemLoc.dma cc3_scoped80.sem, SemLoc.dma cc3_scoped81.sem, SemLoc.dma cc3_scoped82.sem, SemLoc.dma cc3_scoped83.sem, SemLoc.dma cc3_scoped84.sem, SemLoc.dma cc3_scoped85.sem, SemLoc.dma cc3_scoped86.sem, SemLoc.dma cc3_scoped87.sem, SemLoc.dma cc3_scoped88.sem, SemLoc.dma cc3_scoped89.sem, SemLoc.dma cc3_scoped90.sem, SemLoc.dma cc3_scoped91.sem, SemLoc.dma cc3_scoped92.sem, SemLoc.dma cc3_scoped93.sem, SemLoc.dma cc3_scoped94.sem, SemLoc.dma cc3_scoped95.sem, SemLoc.dma cc3_scoped96.sem, SemLoc.dma cc3_scoped97.sem, SemLoc.dma cc3_scoped98.sem, SemLoc.dma cc3_scoped99.sem, SemLoc.dma cc3_scoped100.sem, SemLoc.dma cc3_scoped101.sem, SemLoc.dma cc3_scoped102.sem, SemLoc.dma cc3_scoped103.sem, SemLoc.dma cc3_scoped104.sem, SemLoc.dma cc3_scoped105.sem, SemLoc.dma cc3_scoped106.sem, SemLoc.dma cc3_scoped107.sem, SemLoc.dma cc3_scoped108.sem, SemLoc.dma cc3_scoped109.sem, SemLoc.dma cc3_scoped110.sem, SemLoc.dma cc3_scoped111.sem, SemLoc.dma cc3_scoped112.sem, SemLoc.dma cc3_scoped113.sem, SemLoc.dma cc3_scoped114.sem, SemLoc.dma cc3_scoped115.sem, SemLoc.dma cc3_scoped116.sem, SemLoc.dma cc3_scoped117.sem, SemLoc.dma cc3_scoped118.sem, SemLoc.dma cc3_scoped119.sem, SemLoc.dma cc3_scoped120.sem, SemLoc.dma cc3_scoped121.sem, SemLoc.dma cc3_scoped122.sem, SemLoc.dma cc3_scoped123.sem, SemLoc.dma cc3_scoped124.sem, SemLoc.dma cc3_scoped125.sem, SemLoc.dma cc3_scoped126.sem, SemLoc.dma cc3_scoped127.sem, SemLoc.dma cc3_scoped128.sem, SemLoc.dma cc3_scoped129.sem, SemLoc.dma cc3_scoped130.sem, SemLoc.dma cc3_scoped131.sem, SemLoc.dma cc3_scoped132.sem, SemLoc.dma cc3_scoped133.sem, SemLoc.dma cc3_scoped134.sem, SemLoc.dma cc3_scoped135.sem, SemLoc.dma cc3_scoped136.sem, SemLoc.dma cc3_scoped137.sem, SemLoc.dma cc3_scoped138.sem, SemLoc.dma cc3_scoped139.sem, SemLoc.dma cc3_scoped140.sem, SemLoc.dma cc3_scoped141.sem, SemLoc.dma cc3_scoped142.sem, SemLoc.dma cc3_scoped143.sem, SemLoc.dma cc3_scoped144.sem, SemLoc.dma cc3_scoped145.sem, SemLoc.dma cc3_scoped146.sem, SemLoc.dma cc3_scoped147.sem, SemLoc.dma cc3_scoped148.sem, SemLoc.dma cc3_scoped149.sem, SemLoc.dma cc3_scoped150.sem, SemLoc.dma cc3_scoped151.sem, SemLoc.dma cc3_scoped152.sem, SemLoc.dma cc3_scoped153.sem, SemLoc.dma cc3_scoped154.sem, SemLoc.dma cc3_scoped155.sem, SemLoc.dma cc3_scoped156.sem, SemLoc.dma cc3_scoped157.sem, SemLoc.dma cc3_scoped158.sem, SemLoc.dma cc3_scoped159.sem, SemLoc.dma cc3_scoped160.sem, SemLoc.dma cc3_scoped161.sem]

set_option maxHeartbeats 8000000 in
theorem tile_grouped_aux (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ (((oSl L 0).view.loc (thrV d L) ↦[(oSl L 0).view.set]{fullShare} fo) ∗ ((oSl L 1).view.loc (thrV d L) ↦[(oSl L 1).view.set]{fullShare} fo) ∗ ((oSl L 2).view.loc (thrV d L) ↦[(oSl L 2).view.set]{fullShare} fo) ∗ ((oSl L 3).view.loc (thrV d L) ↦[(oSl L 3).view.set]{fullShare} fo) ∗ ((oSl L 4).view.loc (thrV d L) ↦[(oSl L 4).view.set]{fullShare} fo) ∗ ((oSl L 5).view.loc (thrV d L) ↦[(oSl L 5).view.set]{fullShare} fo) ∗ ((oSl L 6).view.loc (thrV d L) ↦[(oSl L 6).view.set]{fullShare} fo) ∗ ((oSl L 7).view.loc (thrV d L) ↦[(oSl L 7).view.set]{fullShare} fo) ∗ ((oSl L 8).view.loc (thrV d L) ↦[(oSl L 8).view.set]{fullShare} fo) ∗ ((oSl L 9).view.loc (thrV d L) ↦[(oSl L 9).view.set]{fullShare} fo) ∗ ((oSl L 10).view.loc (thrV d L) ↦[(oSl L 10).view.set]{fullShare} fo) ∗ ((oSl L 11).view.loc (thrV d L) ↦[(oSl L 11).view.set]{fullShare} fo) ∗ ((oSl L 12).view.loc (thrV d L) ↦[(oSl L 12).view.set]{fullShare} fo) ∗ ((oSl L 13).view.loc (thrV d L) ↦[(oSl L 13).view.set]{fullShare} fo) ∗ ((oSl L 14).view.loc (thrV d L) ↦[(oSl L 14).view.set]{fullShare} fo) ∗ ((oSl L 15).view.loc (thrV d L) ↦[(oSl L 15).view.set]{fullShare} fo) ∗ ((oSl L 16).view.loc (thrV d L) ↦[(oSl L 16).view.set]{fullShare} fo) ∗ ((oSl L 17).view.loc (thrV d L) ↦[(oSl L 17).view.set]{fullShare} fo) ∗ ((oSl L 18).view.loc (thrV d L) ↦[(oSl L 18).view.set]{fullShare} fo) ∗ ((oSl L 19).view.loc (thrV d L) ↦[(oSl L 19).view.set]{fullShare} fo) ∗ ((oSl L 20).view.loc (thrV d L) ↦[(oSl L 20).view.set]{fullShare} fo) ∗ ((oSl L 21).view.loc (thrV d L) ↦[(oSl L 21).view.set]{fullShare} fo) ∗ ((oSl L 22).view.loc (thrV d L) ↦[(oSl L 22).view.set]{fullShare} fo) ∗ ((oSl L 23).view.loc (thrV d L) ↦[(oSl L 23).view.set]{fullShare} fo) ∗ ((oSl L 24).view.loc (thrV d L) ↦[(oSl L 24).view.set]{fullShare} fo) ∗ ((oSl L 25).view.loc (thrV d L) ↦[(oSl L 25).view.set]{fullShare} fo) ∗ ((oSl L 26).view.loc (thrV d L) ↦[(oSl L 26).view.set]{fullShare} fo) ∗ ((oSl L 27).view.loc (thrV d L) ↦[(oSl L 27).view.set]{fullShare} fo) ∗ ((oSl L 28).view.loc (thrV d L) ↦[(oSl L 28).view.set]{fullShare} fo) ∗ ((oSl L 29).view.loc (thrV d L) ↦[(oSl L 29).view.set]{fullShare} fo) ∗ ((oSl L 30).view.loc (thrV d L) ↦[(oSl L 30).view.set]{fullShare} fo) ∗ ((oSl L 31).view.loc (thrV d L) ↦[(oSl L 31).view.set]{fullShare} fo) ∗ ((oSl L 32).view.loc (thrV d L) ↦[(oSl L 32).view.set]{fullShare} fo) ∗ ((oSl L 33).view.loc (thrV d L) ↦[(oSl L 33).view.set]{fullShare} fo) ∗ ((oSl L 34).view.loc (thrV d L) ↦[(oSl L 34).view.set]{fullShare} fo) ∗ ((oSl L 35).view.loc (thrV d L) ↦[(oSl L 35).view.set]{fullShare} fo) ∗ ((oSl L 36).view.loc (thrV d L) ↦[(oSl L 36).view.set]{fullShare} fo) ∗ ((oSl L 37).view.loc (thrV d L) ↦[(oSl L 37).view.set]{fullShare} fo) ∗ ((oSl L 38).view.loc (thrV d L) ↦[(oSl L 38).view.set]{fullShare} fo) ∗ ((oSl L 39).view.loc (thrV d L) ↦[(oSl L 39).view.set]{fullShare} fo) ∗ ((oSl L 40).view.loc (thrV d L) ↦[(oSl L 40).view.set]{fullShare} fo) ∗ ((oSl L 41).view.loc (thrV d L) ↦[(oSl L 41).view.set]{fullShare} fo) ∗ ((oSl L 42).view.loc (thrV d L) ↦[(oSl L 42).view.set]{fullShare} fo) ∗ ((oSl L 43).view.loc (thrV d L) ↦[(oSl L 43).view.set]{fullShare} fo) ∗ ((oSl L 44).view.loc (thrV d L) ↦[(oSl L 44).view.set]{fullShare} fo) ∗ ((oSl L 45).view.loc (thrV d L) ↦[(oSl L 45).view.set]{fullShare} fo) ∗ ((oSl L 46).view.loc (thrV d L) ↦[(oSl L 46).view.set]{fullShare} fo) ∗ ((oSl L 47).view.loc (thrV d L) ↦[(oSl L 47).view.set]{fullShare} fo) ∗ ((oSl L 48).view.loc (thrV d L) ↦[(oSl L 48).view.set]{fullShare} fo) ∗ ((oSl L 49).view.loc (thrV d L) ↦[(oSl L 49).view.set]{fullShare} fo) ∗ ((oSl L 50).view.loc (thrV d L) ↦[(oSl L 50).view.set]{fullShare} fo) ∗ ((oSl L 51).view.loc (thrV d L) ↦[(oSl L 51).view.set]{fullShare} fo) ∗ ((oSl L 52).view.loc (thrV d L) ↦[(oSl L 52).view.set]{fullShare} fo) ∗ ((oSl L 53).view.loc (thrV d L) ↦[(oSl L 53).view.set]{fullShare} fo) ∗ ((oSl L 54).view.loc (thrV d L) ↦[(oSl L 54).view.set]{fullShare} fo) ∗ ((oSl L 55).view.loc (thrV d L) ↦[(oSl L 55).view.set]{fullShare} fo) ∗ ((oSl L 56).view.loc (thrV d L) ↦[(oSl L 56).view.set]{fullShare} fo) ∗ ((oSl L 57).view.loc (thrV d L) ↦[(oSl L 57).view.set]{fullShare} fo) ∗ ((oSl L 58).view.loc (thrV d L) ↦[(oSl L 58).view.set]{fullShare} fo) ∗ ((oSl L 59).view.loc (thrV d L) ↦[(oSl L 59).view.set]{fullShare} fo) ∗ ((oSl L 60).view.loc (thrV d L) ↦[(oSl L 60).view.set]{fullShare} fo) ∗ ((oSl L 61).view.loc (thrV d L) ↦[(oSl L 61).view.set]{fullShare} fo) ∗ ((oSl L 62).view.loc (thrV d L) ↦[(oSl L 62).view.set]{fullShare} fo) ∗ ((oSl L 63).view.loc (thrV d L) ↦[(oSl L 63).view.set]{fullShare} fo) ∗ ((oSl L 64).view.loc (thrV d L) ↦[(oSl L 64).view.set]{fullShare} fo) ∗ ((oSl L 65).view.loc (thrV d L) ↦[(oSl L 65).view.set]{fullShare} fo) ∗ ((oSl L 66).view.loc (thrV d L) ↦[(oSl L 66).view.set]{fullShare} fo) ∗ ((oSl L 67).view.loc (thrV d L) ↦[(oSl L 67).view.set]{fullShare} fo) ∗ ((oSl L 68).view.loc (thrV d L) ↦[(oSl L 68).view.set]{fullShare} fo) ∗ ((oSl L 69).view.loc (thrV d L) ↦[(oSl L 69).view.set]{fullShare} fo) ∗ ((oSl L 70).view.loc (thrV d L) ↦[(oSl L 70).view.set]{fullShare} fo) ∗ ((oSl L 71).view.loc (thrV d L) ↦[(oSl L 71).view.set]{fullShare} fo) ∗ ((oSl L 72).view.loc (thrV d L) ↦[(oSl L 72).view.set]{fullShare} fo) ∗ ((oSl L 73).view.loc (thrV d L) ↦[(oSl L 73).view.set]{fullShare} fo) ∗ ((oSl L 74).view.loc (thrV d L) ↦[(oSl L 74).view.set]{fullShare} fo) ∗ ((oSl L 75).view.loc (thrV d L) ↦[(oSl L 75).view.set]{fullShare} fo) ∗ ((oSl L 76).view.loc (thrV d L) ↦[(oSl L 76).view.set]{fullShare} fo) ∗ ((oSl L 77).view.loc (thrV d L) ↦[(oSl L 77).view.set]{fullShare} fo) ∗ ((oSl L 78).view.loc (thrV d L) ↦[(oSl L 78).view.set]{fullShare} fo) ∗ ((oSl L 79).view.loc (thrV d L) ↦[(oSl L 79).view.set]{fullShare} fo))
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ (semVal ((thrV d L), SemLoc.dma cc3_scoped0.sem) 0 ∗ semVal ((thrV d L), SemLoc.dma cc3_scoped1.sem) 0 ∗ semVal ((thrV d L), SemLoc.dma cc3_scoped2.sem) 0 ∗ semVal ((thrV d L), SemLoc.dma cc3_scoped3.sem) 0 ∗ semVal ((thrV d L), SemLoc.dma cc3_scoped4.sem) 0 ∗ semVal ((thrV d L), SemLoc.dma cc3_scoped5.sem) 0 ∗ semVal ((thrV d L), SemLoc.dma cc3_scoped6.sem) 0 ∗ semVal ((thrV d L), SemLoc.dma cc3_scoped7.sem) 0 ∗ semVal ((thrV d L), SemLoc.dma cc3_scoped8.sem) 0 ∗ semVal ((thrV d L), SemLoc.dma cc3_scoped9.sem) 0 ∗ semVal ((thrV d L), SemLoc.dma cc3_scoped10.sem) 0 ∗ semVal ((thrV d L), SemLoc.dma cc3_scoped11.sem) 0 ∗ semVal ((thrV d L), SemLoc.dma cc3_scoped12.sem) 0 ∗ semVal ((thrV d L), SemLoc.dma cc3_scoped13.sem) 0 ∗ semVal ((thrV d L), SemLoc.dma cc3_scoped14.sem) 0 ∗ semVal ((thrV d L), SemLoc.dma cc3_scoped15.sem) 0 ∗ semVal ((thrV d L), SemLoc.dma cc3_scoped16.sem) 0 ∗ semVal ((thrV d L), SemLoc.dma cc3_scoped17.sem) 0 ∗ semVal ((thrV d L), SemLoc.dma cc3_scoped18.sem) 0 ∗ semVal ((thrV d L), SemLoc.dma cc3_scoped19.sem) 0 ∗ semVal ((thrV d L), SemLoc.dma cc3_scoped20.sem) 0 ∗ semVal ((thrV d L), SemLoc.dma cc3_scoped21.sem) 0 ∗ semVal ((thrV d L), SemLoc.dma cc3_scoped22.sem) 0 ∗ semVal ((thrV d L), SemLoc.dma cc3_scoped23.sem) 0 ∗ semVal ((thrV d L), SemLoc.dma cc3_scoped24.sem) 0 ∗ semVal ((thrV d L), SemLoc.dma cc3_scoped25.sem) 0 ∗ semVal ((thrV d L), SemLoc.dma cc3_scoped26.sem) 0 ∗ semVal ((thrV d L), SemLoc.dma cc3_scoped27.sem) 0 ∗ semVal ((thrV d L), SemLoc.dma cc3_scoped28.sem) 0 ∗ semVal ((thrV d L), SemLoc.dma cc3_scoped29.sem) 0 ∗ semVal ((thrV d L), SemLoc.dma cc3_scoped30.sem) 0 ∗ semVal ((thrV d L), SemLoc.dma cc3_scoped31.sem) 0 ∗ semVal ((thrV d L), SemLoc.dma cc3_scoped32.sem) 0 ∗ semVal ((thrV d L), SemLoc.dma cc3_scoped33.sem) 0 ∗ semVal ((thrV d L), SemLoc.dma cc3_scoped34.sem) 0 ∗ semVal ((thrV d L), SemLoc.dma cc3_scoped35.sem) 0 ∗ semVal ((thrV d L), SemLoc.dma cc3_scoped36.sem) 0 ∗ semVal ((thrV d L), SemLoc.dma cc3_scoped37.sem) 0 ∗ semVal ((thrV d L), SemLoc.dma cc3_scoped38.sem) 0 ∗ semVal ((thrV d L), SemLoc.dma cc3_scoped39.sem) 0 ∗ semVal ((thrV d L), SemLoc.dma cc3_scoped40.sem) 0 ∗ semVal ((thrV d L), SemLoc.dma cc3_scoped41.sem) 0 ∗ semVal ((thrV d L), SemLoc.dma cc3_scoped42.sem) 0 ∗ semVal ((thrV d L), SemLoc.dma cc3_scoped43.sem) 0 ∗ semVal ((thrV d L), SemLoc.dma cc3_scoped44.sem) 0 ∗ semVal ((thrV d L), SemLoc.dma cc3_scoped45.sem) 0 ∗ semVal ((thrV d L), SemLoc.dma cc3_scoped46.sem) 0 ∗ semVal ((thrV d L), SemLoc.dma cc3_scoped47.sem) 0 ∗ semVal ((thrV d L), SemLoc.dma cc3_scoped48.sem) 0 ∗ semVal ((thrV d L), SemLoc.dma cc3_scoped49.sem) 0 ∗ semVal ((thrV d L), SemLoc.dma cc3_scoped50.sem) 0 ∗ semVal ((thrV d L), SemLoc.dma cc3_scoped51.sem) 0 ∗ semVal ((thrV d L), SemLoc.dma cc3_scoped52.sem) 0 ∗ semVal ((thrV d L), SemLoc.dma cc3_scoped53.sem) 0 ∗ semVal ((thrV d L), SemLoc.dma cc3_scoped54.sem) 0 ∗ semVal ((thrV d L), SemLoc.dma cc3_scoped55.sem) 0 ∗ semVal ((thrV d L), SemLoc.dma cc3_scoped56.sem) 0 ∗ semVal ((thrV d L), SemLoc.dma cc3_scoped57.sem) 0 ∗ semVal ((thrV d L), SemLoc.dma cc3_scoped58.sem) 0 ∗ semVal ((thrV d L), SemLoc.dma cc3_scoped59.sem) 0 ∗ semVal ((thrV d L), SemLoc.dma cc3_scoped60.sem) 0 ∗ semVal ((thrV d L), SemLoc.dma cc3_scoped61.sem) 0 ∗ semVal ((thrV d L), SemLoc.dma cc3_scoped62.sem) 0 ∗ semVal ((thrV d L), SemLoc.dma cc3_scoped63.sem) 0 ∗ semVal ((thrV d L), SemLoc.dma cc3_scoped64.sem) 0 ∗ semVal ((thrV d L), SemLoc.dma cc3_scoped65.sem) 0 ∗ semVal ((thrV d L), SemLoc.dma cc3_scoped66.sem) 0 ∗ semVal ((thrV d L), SemLoc.dma cc3_scoped67.sem) 0 ∗ semVal ((thrV d L), SemLoc.dma cc3_scoped68.sem) 0 ∗ semVal ((thrV d L), SemLoc.dma cc3_scoped69.sem) 0 ∗ semVal ((thrV d L), SemLoc.dma cc3_scoped70.sem) 0 ∗ semVal ((thrV d L), SemLoc.dma cc3_scoped71.sem) 0 ∗ semVal ((thrV d L), SemLoc.dma cc3_scoped72.sem) 0 ∗ semVal ((thrV d L), SemLoc.dma cc3_scoped73.sem) 0 ∗ semVal ((thrV d L), SemLoc.dma cc3_scoped74.sem) 0 ∗ semVal ((thrV d L), SemLoc.dma cc3_scoped75.sem) 0 ∗ semVal ((thrV d L), SemLoc.dma cc3_scoped76.sem) 0 ∗ semVal ((thrV d L), SemLoc.dma cc3_scoped77.sem) 0 ∗ semVal ((thrV d L), SemLoc.dma cc3_scoped78.sem) 0 ∗ semVal ((thrV d L), SemLoc.dma cc3_scoped79.sem) 0 ∗ semVal ((thrV d L), SemLoc.dma cc3_scoped80.sem) 0 ∗ semVal ((thrV d L), SemLoc.dma cc3_scoped81.sem) 0 ∗ semVal ((thrV d L), SemLoc.dma cc3_scoped82.sem) 0 ∗ semVal ((thrV d L), SemLoc.dma cc3_scoped83.sem) 0 ∗ semVal ((thrV d L), SemLoc.dma cc3_scoped84.sem) 0 ∗ semVal ((thrV d L), SemLoc.dma cc3_scoped85.sem) 0 ∗ semVal ((thrV d L), SemLoc.dma cc3_scoped86.sem) 0 ∗ semVal ((thrV d L), SemLoc.dma cc3_scoped87.sem) 0 ∗ semVal ((thrV d L), SemLoc.dma cc3_scoped88.sem) 0 ∗ semVal ((thrV d L), SemLoc.dma cc3_scoped89.sem) 0 ∗ semVal ((thrV d L), SemLoc.dma cc3_scoped90.sem) 0 ∗ semVal ((thrV d L), SemLoc.dma cc3_scoped91.sem) 0 ∗ semVal ((thrV d L), SemLoc.dma cc3_scoped92.sem) 0 ∗ semVal ((thrV d L), SemLoc.dma cc3_scoped93.sem) 0 ∗ semVal ((thrV d L), SemLoc.dma cc3_scoped94.sem) 0 ∗ semVal ((thrV d L), SemLoc.dma cc3_scoped95.sem) 0 ∗ semVal ((thrV d L), SemLoc.dma cc3_scoped96.sem) 0 ∗ semVal ((thrV d L), SemLoc.dma cc3_scoped97.sem) 0 ∗ semVal ((thrV d L), SemLoc.dma cc3_scoped98.sem) 0 ∗ semVal ((thrV d L), SemLoc.dma cc3_scoped99.sem) 0 ∗ semVal ((thrV d L), SemLoc.dma cc3_scoped100.sem) 0 ∗ semVal ((thrV d L), SemLoc.dma cc3_scoped101.sem) 0 ∗ semVal ((thrV d L), SemLoc.dma cc3_scoped102.sem) 0 ∗ semVal ((thrV d L), SemLoc.dma cc3_scoped103.sem) 0 ∗ semVal ((thrV d L), SemLoc.dma cc3_scoped104.sem) 0 ∗ semVal ((thrV d L), SemLoc.dma cc3_scoped105.sem) 0 ∗ semVal ((thrV d L), SemLoc.dma cc3_scoped106.sem) 0 ∗ semVal ((thrV d L), SemLoc.dma cc3_scoped107.sem) 0 ∗ semVal ((thrV d L), SemLoc.dma cc3_scoped108.sem) 0 ∗ semVal ((thrV d L), SemLoc.dma cc3_scoped109.sem) 0 ∗ semVal ((thrV d L), SemLoc.dma cc3_scoped110.sem) 0 ∗ semVal ((thrV d L), SemLoc.dma cc3_scoped111.sem) 0 ∗ semVal ((thrV d L), SemLoc.dma cc3_scoped112.sem) 0 ∗ semVal ((thrV d L), SemLoc.dma cc3_scoped113.sem) 0 ∗ semVal ((thrV d L), SemLoc.dma cc3_scoped114.sem) 0 ∗ semVal ((thrV d L), SemLoc.dma cc3_scoped115.sem) 0 ∗ semVal ((thrV d L), SemLoc.dma cc3_scoped116.sem) 0 ∗ semVal ((thrV d L), SemLoc.dma cc3_scoped117.sem) 0 ∗ semVal ((thrV d L), SemLoc.dma cc3_scoped118.sem) 0 ∗ semVal ((thrV d L), SemLoc.dma cc3_scoped119.sem) 0 ∗ semVal ((thrV d L), SemLoc.dma cc3_scoped120.sem) 0 ∗ semVal ((thrV d L), SemLoc.dma cc3_scoped121.sem) 0 ∗ semVal ((thrV d L), SemLoc.dma cc3_scoped122.sem) 0 ∗ semVal ((thrV d L), SemLoc.dma cc3_scoped123.sem) 0 ∗ semVal ((thrV d L), SemLoc.dma cc3_scoped124.sem) 0 ∗ semVal ((thrV d L), SemLoc.dma cc3_scoped125.sem) 0 ∗ semVal ((thrV d L), SemLoc.dma cc3_scoped126.sem) 0 ∗ semVal ((thrV d L), SemLoc.dma cc3_scoped127.sem) 0 ∗ semVal ((thrV d L), SemLoc.dma cc3_scoped128.sem) 0 ∗ semVal ((thrV d L), SemLoc.dma cc3_scoped129.sem) 0 ∗ semVal ((thrV d L), SemLoc.dma cc3_scoped130.sem) 0 ∗ semVal ((thrV d L), SemLoc.dma cc3_scoped131.sem) 0 ∗ semVal ((thrV d L), SemLoc.dma cc3_scoped132.sem) 0 ∗ semVal ((thrV d L), SemLoc.dma cc3_scoped133.sem) 0 ∗ semVal ((thrV d L), SemLoc.dma cc3_scoped134.sem) 0 ∗ semVal ((thrV d L), SemLoc.dma cc3_scoped135.sem) 0 ∗ semVal ((thrV d L), SemLoc.dma cc3_scoped136.sem) 0 ∗ semVal ((thrV d L), SemLoc.dma cc3_scoped137.sem) 0 ∗ semVal ((thrV d L), SemLoc.dma cc3_scoped138.sem) 0 ∗ semVal ((thrV d L), SemLoc.dma cc3_scoped139.sem) 0 ∗ semVal ((thrV d L), SemLoc.dma cc3_scoped140.sem) 0 ∗ semVal ((thrV d L), SemLoc.dma cc3_scoped141.sem) 0 ∗ semVal ((thrV d L), SemLoc.dma cc3_scoped142.sem) 0 ∗ semVal ((thrV d L), SemLoc.dma cc3_scoped143.sem) 0 ∗ semVal ((thrV d L), SemLoc.dma cc3_scoped144.sem) 0 ∗ semVal ((thrV d L), SemLoc.dma cc3_scoped145.sem) 0 ∗ semVal ((thrV d L), SemLoc.dma cc3_scoped146.sem) 0 ∗ semVal ((thrV d L), SemLoc.dma cc3_scoped147.sem) 0 ∗ semVal ((thrV d L), SemLoc.dma cc3_scoped148.sem) 0 ∗ semVal ((thrV d L), SemLoc.dma cc3_scoped149.sem) 0 ∗ semVal ((thrV d L), SemLoc.dma cc3_scoped150.sem) 0 ∗ semVal ((thrV d L), SemLoc.dma cc3_scoped151.sem) 0 ∗ semVal ((thrV d L), SemLoc.dma cc3_scoped152.sem) 0 ∗ semVal ((thrV d L), SemLoc.dma cc3_scoped153.sem) 0 ∗ semVal ((thrV d L), SemLoc.dma cc3_scoped154.sem) 0 ∗ semVal ((thrV d L), SemLoc.dma cc3_scoped155.sem) 0 ∗ semVal ((thrV d L), SemLoc.dma cc3_scoped156.sem) 0 ∗ semVal ((thrV d L), SemLoc.dma cc3_scoped157.sem) 0 ∗ semVal ((thrV d L), SemLoc.dma cc3_scoped158.sem) 0 ∗ semVal ((thrV d L), SemLoc.dma cc3_scoped159.sem) 0 ∗ semVal ((thrV d L), SemLoc.dma cc3_scoped160.sem) 0 ∗ semVal ((thrV d L), SemLoc.dma cc3_scoped161.sem) 0)
      ∗ owes (thrV d L) O W
      ∗ (iprop((hV.view.loc (thrV d L) ↦{q} fh) ∗ (sV.view.loc (thrV d L) ↦{q} fs)
          ∗ (((oSl L 0).view.loc (thrV d L) ↦[(oSl L 0).view.set]{fullShare} gatherRows fh fs) ∗ ((oSl L 1).view.loc (thrV d L) ↦[(oSl L 1).view.set]{fullShare} gatherRows fh fs) ∗ ((oSl L 2).view.loc (thrV d L) ↦[(oSl L 2).view.set]{fullShare} gatherRows fh fs) ∗ ((oSl L 3).view.loc (thrV d L) ↦[(oSl L 3).view.set]{fullShare} gatherRows fh fs) ∗ ((oSl L 4).view.loc (thrV d L) ↦[(oSl L 4).view.set]{fullShare} gatherRows fh fs) ∗ ((oSl L 5).view.loc (thrV d L) ↦[(oSl L 5).view.set]{fullShare} gatherRows fh fs) ∗ ((oSl L 6).view.loc (thrV d L) ↦[(oSl L 6).view.set]{fullShare} gatherRows fh fs) ∗ ((oSl L 7).view.loc (thrV d L) ↦[(oSl L 7).view.set]{fullShare} gatherRows fh fs) ∗ ((oSl L 8).view.loc (thrV d L) ↦[(oSl L 8).view.set]{fullShare} gatherRows fh fs) ∗ ((oSl L 9).view.loc (thrV d L) ↦[(oSl L 9).view.set]{fullShare} gatherRows fh fs) ∗ ((oSl L 10).view.loc (thrV d L) ↦[(oSl L 10).view.set]{fullShare} gatherRows fh fs) ∗ ((oSl L 11).view.loc (thrV d L) ↦[(oSl L 11).view.set]{fullShare} gatherRows fh fs) ∗ ((oSl L 12).view.loc (thrV d L) ↦[(oSl L 12).view.set]{fullShare} gatherRows fh fs) ∗ ((oSl L 13).view.loc (thrV d L) ↦[(oSl L 13).view.set]{fullShare} gatherRows fh fs) ∗ ((oSl L 14).view.loc (thrV d L) ↦[(oSl L 14).view.set]{fullShare} gatherRows fh fs) ∗ ((oSl L 15).view.loc (thrV d L) ↦[(oSl L 15).view.set]{fullShare} gatherRows fh fs) ∗ ((oSl L 16).view.loc (thrV d L) ↦[(oSl L 16).view.set]{fullShare} gatherRows fh fs) ∗ ((oSl L 17).view.loc (thrV d L) ↦[(oSl L 17).view.set]{fullShare} gatherRows fh fs) ∗ ((oSl L 18).view.loc (thrV d L) ↦[(oSl L 18).view.set]{fullShare} gatherRows fh fs) ∗ ((oSl L 19).view.loc (thrV d L) ↦[(oSl L 19).view.set]{fullShare} gatherRows fh fs) ∗ ((oSl L 20).view.loc (thrV d L) ↦[(oSl L 20).view.set]{fullShare} gatherRows fh fs) ∗ ((oSl L 21).view.loc (thrV d L) ↦[(oSl L 21).view.set]{fullShare} gatherRows fh fs) ∗ ((oSl L 22).view.loc (thrV d L) ↦[(oSl L 22).view.set]{fullShare} gatherRows fh fs) ∗ ((oSl L 23).view.loc (thrV d L) ↦[(oSl L 23).view.set]{fullShare} gatherRows fh fs) ∗ ((oSl L 24).view.loc (thrV d L) ↦[(oSl L 24).view.set]{fullShare} gatherRows fh fs) ∗ ((oSl L 25).view.loc (thrV d L) ↦[(oSl L 25).view.set]{fullShare} gatherRows fh fs) ∗ ((oSl L 26).view.loc (thrV d L) ↦[(oSl L 26).view.set]{fullShare} gatherRows fh fs) ∗ ((oSl L 27).view.loc (thrV d L) ↦[(oSl L 27).view.set]{fullShare} gatherRows fh fs) ∗ ((oSl L 28).view.loc (thrV d L) ↦[(oSl L 28).view.set]{fullShare} gatherRows fh fs) ∗ ((oSl L 29).view.loc (thrV d L) ↦[(oSl L 29).view.set]{fullShare} gatherRows fh fs) ∗ ((oSl L 30).view.loc (thrV d L) ↦[(oSl L 30).view.set]{fullShare} gatherRows fh fs) ∗ ((oSl L 31).view.loc (thrV d L) ↦[(oSl L 31).view.set]{fullShare} gatherRows fh fs) ∗ ((oSl L 32).view.loc (thrV d L) ↦[(oSl L 32).view.set]{fullShare} gatherRows fh fs) ∗ ((oSl L 33).view.loc (thrV d L) ↦[(oSl L 33).view.set]{fullShare} gatherRows fh fs) ∗ ((oSl L 34).view.loc (thrV d L) ↦[(oSl L 34).view.set]{fullShare} gatherRows fh fs) ∗ ((oSl L 35).view.loc (thrV d L) ↦[(oSl L 35).view.set]{fullShare} gatherRows fh fs) ∗ ((oSl L 36).view.loc (thrV d L) ↦[(oSl L 36).view.set]{fullShare} gatherRows fh fs) ∗ ((oSl L 37).view.loc (thrV d L) ↦[(oSl L 37).view.set]{fullShare} gatherRows fh fs) ∗ ((oSl L 38).view.loc (thrV d L) ↦[(oSl L 38).view.set]{fullShare} gatherRows fh fs) ∗ ((oSl L 39).view.loc (thrV d L) ↦[(oSl L 39).view.set]{fullShare} gatherRows fh fs) ∗ ((oSl L 40).view.loc (thrV d L) ↦[(oSl L 40).view.set]{fullShare} gatherRows fh fs) ∗ ((oSl L 41).view.loc (thrV d L) ↦[(oSl L 41).view.set]{fullShare} gatherRows fh fs) ∗ ((oSl L 42).view.loc (thrV d L) ↦[(oSl L 42).view.set]{fullShare} gatherRows fh fs) ∗ ((oSl L 43).view.loc (thrV d L) ↦[(oSl L 43).view.set]{fullShare} gatherRows fh fs) ∗ ((oSl L 44).view.loc (thrV d L) ↦[(oSl L 44).view.set]{fullShare} gatherRows fh fs) ∗ ((oSl L 45).view.loc (thrV d L) ↦[(oSl L 45).view.set]{fullShare} gatherRows fh fs) ∗ ((oSl L 46).view.loc (thrV d L) ↦[(oSl L 46).view.set]{fullShare} gatherRows fh fs) ∗ ((oSl L 47).view.loc (thrV d L) ↦[(oSl L 47).view.set]{fullShare} gatherRows fh fs) ∗ ((oSl L 48).view.loc (thrV d L) ↦[(oSl L 48).view.set]{fullShare} gatherRows fh fs) ∗ ((oSl L 49).view.loc (thrV d L) ↦[(oSl L 49).view.set]{fullShare} gatherRows fh fs) ∗ ((oSl L 50).view.loc (thrV d L) ↦[(oSl L 50).view.set]{fullShare} gatherRows fh fs) ∗ ((oSl L 51).view.loc (thrV d L) ↦[(oSl L 51).view.set]{fullShare} gatherRows fh fs) ∗ ((oSl L 52).view.loc (thrV d L) ↦[(oSl L 52).view.set]{fullShare} gatherRows fh fs) ∗ ((oSl L 53).view.loc (thrV d L) ↦[(oSl L 53).view.set]{fullShare} gatherRows fh fs) ∗ ((oSl L 54).view.loc (thrV d L) ↦[(oSl L 54).view.set]{fullShare} gatherRows fh fs) ∗ ((oSl L 55).view.loc (thrV d L) ↦[(oSl L 55).view.set]{fullShare} gatherRows fh fs) ∗ ((oSl L 56).view.loc (thrV d L) ↦[(oSl L 56).view.set]{fullShare} gatherRows fh fs) ∗ ((oSl L 57).view.loc (thrV d L) ↦[(oSl L 57).view.set]{fullShare} gatherRows fh fs) ∗ ((oSl L 58).view.loc (thrV d L) ↦[(oSl L 58).view.set]{fullShare} gatherRows fh fs) ∗ ((oSl L 59).view.loc (thrV d L) ↦[(oSl L 59).view.set]{fullShare} gatherRows fh fs) ∗ ((oSl L 60).view.loc (thrV d L) ↦[(oSl L 60).view.set]{fullShare} gatherRows fh fs) ∗ ((oSl L 61).view.loc (thrV d L) ↦[(oSl L 61).view.set]{fullShare} gatherRows fh fs) ∗ ((oSl L 62).view.loc (thrV d L) ↦[(oSl L 62).view.set]{fullShare} gatherRows fh fs) ∗ ((oSl L 63).view.loc (thrV d L) ↦[(oSl L 63).view.set]{fullShare} gatherRows fh fs) ∗ ((oSl L 64).view.loc (thrV d L) ↦[(oSl L 64).view.set]{fullShare} gatherRows fh fs) ∗ ((oSl L 65).view.loc (thrV d L) ↦[(oSl L 65).view.set]{fullShare} gatherRows fh fs) ∗ ((oSl L 66).view.loc (thrV d L) ↦[(oSl L 66).view.set]{fullShare} gatherRows fh fs) ∗ ((oSl L 67).view.loc (thrV d L) ↦[(oSl L 67).view.set]{fullShare} gatherRows fh fs) ∗ ((oSl L 68).view.loc (thrV d L) ↦[(oSl L 68).view.set]{fullShare} gatherRows fh fs) ∗ ((oSl L 69).view.loc (thrV d L) ↦[(oSl L 69).view.set]{fullShare} gatherRows fh fs) ∗ ((oSl L 70).view.loc (thrV d L) ↦[(oSl L 70).view.set]{fullShare} gatherRows fh fs) ∗ ((oSl L 71).view.loc (thrV d L) ↦[(oSl L 71).view.set]{fullShare} gatherRows fh fs) ∗ ((oSl L 72).view.loc (thrV d L) ↦[(oSl L 72).view.set]{fullShare} gatherRows fh fs) ∗ ((oSl L 73).view.loc (thrV d L) ↦[(oSl L 73).view.set]{fullShare} gatherRows fh fs) ∗ ((oSl L 74).view.loc (thrV d L) ↦[(oSl L 74).view.set]{fullShare} gatherRows fh fs) ∗ ((oSl L 75).view.loc (thrV d L) ↦[(oSl L 75).view.set]{fullShare} gatherRows fh fs) ∗ ((oSl L 76).view.loc (thrV d L) ↦[(oSl L 76).view.set]{fullShare} gatherRows fh fs) ∗ ((oSl L 77).view.loc (thrV d L) ↦[(oSl L 77).view.set]{fullShare} gatherRows fh fs) ∗ ((oSl L 78).view.loc (thrV d L) ↦[(oSl L 78).view.set]{fullShare} gatherRows fh fs) ∗ ((oSl L 79).view.loc (thrV d L) ↦[(oSl L 79).view.set]{fullShare} gatherRows fh fs))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ (semVal ((thrV d L), SemLoc.dma cc3_scoped0.sem) 0 ∗ semVal ((thrV d L), SemLoc.dma cc3_scoped1.sem) 0 ∗ semVal ((thrV d L), SemLoc.dma cc3_scoped2.sem) 0 ∗ semVal ((thrV d L), SemLoc.dma cc3_scoped3.sem) 0 ∗ semVal ((thrV d L), SemLoc.dma cc3_scoped4.sem) 0 ∗ semVal ((thrV d L), SemLoc.dma cc3_scoped5.sem) 0 ∗ semVal ((thrV d L), SemLoc.dma cc3_scoped6.sem) 0 ∗ semVal ((thrV d L), SemLoc.dma cc3_scoped7.sem) 0 ∗ semVal ((thrV d L), SemLoc.dma cc3_scoped8.sem) 0 ∗ semVal ((thrV d L), SemLoc.dma cc3_scoped9.sem) 0 ∗ semVal ((thrV d L), SemLoc.dma cc3_scoped10.sem) 0 ∗ semVal ((thrV d L), SemLoc.dma cc3_scoped11.sem) 0 ∗ semVal ((thrV d L), SemLoc.dma cc3_scoped12.sem) 0 ∗ semVal ((thrV d L), SemLoc.dma cc3_scoped13.sem) 0 ∗ semVal ((thrV d L), SemLoc.dma cc3_scoped14.sem) 0 ∗ semVal ((thrV d L), SemLoc.dma cc3_scoped15.sem) 0 ∗ semVal ((thrV d L), SemLoc.dma cc3_scoped16.sem) 0 ∗ semVal ((thrV d L), SemLoc.dma cc3_scoped17.sem) 0 ∗ semVal ((thrV d L), SemLoc.dma cc3_scoped18.sem) 0 ∗ semVal ((thrV d L), SemLoc.dma cc3_scoped19.sem) 0 ∗ semVal ((thrV d L), SemLoc.dma cc3_scoped20.sem) 0 ∗ semVal ((thrV d L), SemLoc.dma cc3_scoped21.sem) 0 ∗ semVal ((thrV d L), SemLoc.dma cc3_scoped22.sem) 0 ∗ semVal ((thrV d L), SemLoc.dma cc3_scoped23.sem) 0 ∗ semVal ((thrV d L), SemLoc.dma cc3_scoped24.sem) 0 ∗ semVal ((thrV d L), SemLoc.dma cc3_scoped25.sem) 0 ∗ semVal ((thrV d L), SemLoc.dma cc3_scoped26.sem) 0 ∗ semVal ((thrV d L), SemLoc.dma cc3_scoped27.sem) 0 ∗ semVal ((thrV d L), SemLoc.dma cc3_scoped28.sem) 0 ∗ semVal ((thrV d L), SemLoc.dma cc3_scoped29.sem) 0 ∗ semVal ((thrV d L), SemLoc.dma cc3_scoped30.sem) 0 ∗ semVal ((thrV d L), SemLoc.dma cc3_scoped31.sem) 0 ∗ semVal ((thrV d L), SemLoc.dma cc3_scoped32.sem) 0 ∗ semVal ((thrV d L), SemLoc.dma cc3_scoped33.sem) 0 ∗ semVal ((thrV d L), SemLoc.dma cc3_scoped34.sem) 0 ∗ semVal ((thrV d L), SemLoc.dma cc3_scoped35.sem) 0 ∗ semVal ((thrV d L), SemLoc.dma cc3_scoped36.sem) 0 ∗ semVal ((thrV d L), SemLoc.dma cc3_scoped37.sem) 0 ∗ semVal ((thrV d L), SemLoc.dma cc3_scoped38.sem) 0 ∗ semVal ((thrV d L), SemLoc.dma cc3_scoped39.sem) 0 ∗ semVal ((thrV d L), SemLoc.dma cc3_scoped40.sem) 0 ∗ semVal ((thrV d L), SemLoc.dma cc3_scoped41.sem) 0 ∗ semVal ((thrV d L), SemLoc.dma cc3_scoped42.sem) 0 ∗ semVal ((thrV d L), SemLoc.dma cc3_scoped43.sem) 0 ∗ semVal ((thrV d L), SemLoc.dma cc3_scoped44.sem) 0 ∗ semVal ((thrV d L), SemLoc.dma cc3_scoped45.sem) 0 ∗ semVal ((thrV d L), SemLoc.dma cc3_scoped46.sem) 0 ∗ semVal ((thrV d L), SemLoc.dma cc3_scoped47.sem) 0 ∗ semVal ((thrV d L), SemLoc.dma cc3_scoped48.sem) 0 ∗ semVal ((thrV d L), SemLoc.dma cc3_scoped49.sem) 0 ∗ semVal ((thrV d L), SemLoc.dma cc3_scoped50.sem) 0 ∗ semVal ((thrV d L), SemLoc.dma cc3_scoped51.sem) 0 ∗ semVal ((thrV d L), SemLoc.dma cc3_scoped52.sem) 0 ∗ semVal ((thrV d L), SemLoc.dma cc3_scoped53.sem) 0 ∗ semVal ((thrV d L), SemLoc.dma cc3_scoped54.sem) 0 ∗ semVal ((thrV d L), SemLoc.dma cc3_scoped55.sem) 0 ∗ semVal ((thrV d L), SemLoc.dma cc3_scoped56.sem) 0 ∗ semVal ((thrV d L), SemLoc.dma cc3_scoped57.sem) 0 ∗ semVal ((thrV d L), SemLoc.dma cc3_scoped58.sem) 0 ∗ semVal ((thrV d L), SemLoc.dma cc3_scoped59.sem) 0 ∗ semVal ((thrV d L), SemLoc.dma cc3_scoped60.sem) 0 ∗ semVal ((thrV d L), SemLoc.dma cc3_scoped61.sem) 0 ∗ semVal ((thrV d L), SemLoc.dma cc3_scoped62.sem) 0 ∗ semVal ((thrV d L), SemLoc.dma cc3_scoped63.sem) 0 ∗ semVal ((thrV d L), SemLoc.dma cc3_scoped64.sem) 0 ∗ semVal ((thrV d L), SemLoc.dma cc3_scoped65.sem) 0 ∗ semVal ((thrV d L), SemLoc.dma cc3_scoped66.sem) 0 ∗ semVal ((thrV d L), SemLoc.dma cc3_scoped67.sem) 0 ∗ semVal ((thrV d L), SemLoc.dma cc3_scoped68.sem) 0 ∗ semVal ((thrV d L), SemLoc.dma cc3_scoped69.sem) 0 ∗ semVal ((thrV d L), SemLoc.dma cc3_scoped70.sem) 0 ∗ semVal ((thrV d L), SemLoc.dma cc3_scoped71.sem) 0 ∗ semVal ((thrV d L), SemLoc.dma cc3_scoped72.sem) 0 ∗ semVal ((thrV d L), SemLoc.dma cc3_scoped73.sem) 0 ∗ semVal ((thrV d L), SemLoc.dma cc3_scoped74.sem) 0 ∗ semVal ((thrV d L), SemLoc.dma cc3_scoped75.sem) 0 ∗ semVal ((thrV d L), SemLoc.dma cc3_scoped76.sem) 0 ∗ semVal ((thrV d L), SemLoc.dma cc3_scoped77.sem) 0 ∗ semVal ((thrV d L), SemLoc.dma cc3_scoped78.sem) 0 ∗ semVal ((thrV d L), SemLoc.dma cc3_scoped79.sem) 0 ∗ semVal ((thrV d L), SemLoc.dma cc3_scoped80.sem) 0 ∗ semVal ((thrV d L), SemLoc.dma cc3_scoped81.sem) 0 ∗ semVal ((thrV d L), SemLoc.dma cc3_scoped82.sem) 0 ∗ semVal ((thrV d L), SemLoc.dma cc3_scoped83.sem) 0 ∗ semVal ((thrV d L), SemLoc.dma cc3_scoped84.sem) 0 ∗ semVal ((thrV d L), SemLoc.dma cc3_scoped85.sem) 0 ∗ semVal ((thrV d L), SemLoc.dma cc3_scoped86.sem) 0 ∗ semVal ((thrV d L), SemLoc.dma cc3_scoped87.sem) 0 ∗ semVal ((thrV d L), SemLoc.dma cc3_scoped88.sem) 0 ∗ semVal ((thrV d L), SemLoc.dma cc3_scoped89.sem) 0 ∗ semVal ((thrV d L), SemLoc.dma cc3_scoped90.sem) 0 ∗ semVal ((thrV d L), SemLoc.dma cc3_scoped91.sem) 0 ∗ semVal ((thrV d L), SemLoc.dma cc3_scoped92.sem) 0 ∗ semVal ((thrV d L), SemLoc.dma cc3_scoped93.sem) 0 ∗ semVal ((thrV d L), SemLoc.dma cc3_scoped94.sem) 0 ∗ semVal ((thrV d L), SemLoc.dma cc3_scoped95.sem) 0 ∗ semVal ((thrV d L), SemLoc.dma cc3_scoped96.sem) 0 ∗ semVal ((thrV d L), SemLoc.dma cc3_scoped97.sem) 0 ∗ semVal ((thrV d L), SemLoc.dma cc3_scoped98.sem) 0 ∗ semVal ((thrV d L), SemLoc.dma cc3_scoped99.sem) 0 ∗ semVal ((thrV d L), SemLoc.dma cc3_scoped100.sem) 0 ∗ semVal ((thrV d L), SemLoc.dma cc3_scoped101.sem) 0 ∗ semVal ((thrV d L), SemLoc.dma cc3_scoped102.sem) 0 ∗ semVal ((thrV d L), SemLoc.dma cc3_scoped103.sem) 0 ∗ semVal ((thrV d L), SemLoc.dma cc3_scoped104.sem) 0 ∗ semVal ((thrV d L), SemLoc.dma cc3_scoped105.sem) 0 ∗ semVal ((thrV d L), SemLoc.dma cc3_scoped106.sem) 0 ∗ semVal ((thrV d L), SemLoc.dma cc3_scoped107.sem) 0 ∗ semVal ((thrV d L), SemLoc.dma cc3_scoped108.sem) 0 ∗ semVal ((thrV d L), SemLoc.dma cc3_scoped109.sem) 0 ∗ semVal ((thrV d L), SemLoc.dma cc3_scoped110.sem) 0 ∗ semVal ((thrV d L), SemLoc.dma cc3_scoped111.sem) 0 ∗ semVal ((thrV d L), SemLoc.dma cc3_scoped112.sem) 0 ∗ semVal ((thrV d L), SemLoc.dma cc3_scoped113.sem) 0 ∗ semVal ((thrV d L), SemLoc.dma cc3_scoped114.sem) 0 ∗ semVal ((thrV d L), SemLoc.dma cc3_scoped115.sem) 0 ∗ semVal ((thrV d L), SemLoc.dma cc3_scoped116.sem) 0 ∗ semVal ((thrV d L), SemLoc.dma cc3_scoped117.sem) 0 ∗ semVal ((thrV d L), SemLoc.dma cc3_scoped118.sem) 0 ∗ semVal ((thrV d L), SemLoc.dma cc3_scoped119.sem) 0 ∗ semVal ((thrV d L), SemLoc.dma cc3_scoped120.sem) 0 ∗ semVal ((thrV d L), SemLoc.dma cc3_scoped121.sem) 0 ∗ semVal ((thrV d L), SemLoc.dma cc3_scoped122.sem) 0 ∗ semVal ((thrV d L), SemLoc.dma cc3_scoped123.sem) 0 ∗ semVal ((thrV d L), SemLoc.dma cc3_scoped124.sem) 0 ∗ semVal ((thrV d L), SemLoc.dma cc3_scoped125.sem) 0 ∗ semVal ((thrV d L), SemLoc.dma cc3_scoped126.sem) 0 ∗ semVal ((thrV d L), SemLoc.dma cc3_scoped127.sem) 0 ∗ semVal ((thrV d L), SemLoc.dma cc3_scoped128.sem) 0 ∗ semVal ((thrV d L), SemLoc.dma cc3_scoped129.sem) 0 ∗ semVal ((thrV d L), SemLoc.dma cc3_scoped130.sem) 0 ∗ semVal ((thrV d L), SemLoc.dma cc3_scoped131.sem) 0 ∗ semVal ((thrV d L), SemLoc.dma cc3_scoped132.sem) 0 ∗ semVal ((thrV d L), SemLoc.dma cc3_scoped133.sem) 0 ∗ semVal ((thrV d L), SemLoc.dma cc3_scoped134.sem) 0 ∗ semVal ((thrV d L), SemLoc.dma cc3_scoped135.sem) 0 ∗ semVal ((thrV d L), SemLoc.dma cc3_scoped136.sem) 0 ∗ semVal ((thrV d L), SemLoc.dma cc3_scoped137.sem) 0 ∗ semVal ((thrV d L), SemLoc.dma cc3_scoped138.sem) 0 ∗ semVal ((thrV d L), SemLoc.dma cc3_scoped139.sem) 0 ∗ semVal ((thrV d L), SemLoc.dma cc3_scoped140.sem) 0 ∗ semVal ((thrV d L), SemLoc.dma cc3_scoped141.sem) 0 ∗ semVal ((thrV d L), SemLoc.dma cc3_scoped142.sem) 0 ∗ semVal ((thrV d L), SemLoc.dma cc3_scoped143.sem) 0 ∗ semVal ((thrV d L), SemLoc.dma cc3_scoped144.sem) 0 ∗ semVal ((thrV d L), SemLoc.dma cc3_scoped145.sem) 0 ∗ semVal ((thrV d L), SemLoc.dma cc3_scoped146.sem) 0 ∗ semVal ((thrV d L), SemLoc.dma cc3_scoped147.sem) 0 ∗ semVal ((thrV d L), SemLoc.dma cc3_scoped148.sem) 0 ∗ semVal ((thrV d L), SemLoc.dma cc3_scoped149.sem) 0 ∗ semVal ((thrV d L), SemLoc.dma cc3_scoped150.sem) 0 ∗ semVal ((thrV d L), SemLoc.dma cc3_scoped151.sem) 0 ∗ semVal ((thrV d L), SemLoc.dma cc3_scoped152.sem) 0 ∗ semVal ((thrV d L), SemLoc.dma cc3_scoped153.sem) 0 ∗ semVal ((thrV d L), SemLoc.dma cc3_scoped154.sem) 0 ∗ semVal ((thrV d L), SemLoc.dma cc3_scoped155.sem) 0 ∗ semVal ((thrV d L), SemLoc.dma cc3_scoped156.sem) 0 ∗ semVal ((thrV d L), SemLoc.dma cc3_scoped157.sem) 0 ∗ semVal ((thrV d L), SemLoc.dma cc3_scoped158.sem) 0 ∗ semVal ((thrV d L), SemLoc.dma cc3_scoped159.sem) 0 ∗ semVal ((thrV d L), SemLoc.dma cc3_scoped160.sem) 0 ∗ semVal ((thrV d L), SemLoc.dma cc3_scoped161.sem) 0)
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q := by
  iintro ⟨Hmw, Hh, Hs, ⟨S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79⟩, B0, B1, B2, B3, B4, ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161⟩, HO, Hk⟩
  iapply (tile_run d L q fh fs hfs fo f0 f1 f2 f3 f4 O W hO Q)
  isplitl [Hmw]; · iexact Hmw
  isplitl [Hh]; · iexact Hh
  isplitl [Hs]; · iexact Hs
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [S40]; · iexact S40
  isplitl [S41]; · iexact S41
  isplitl [S42]; · iexact S42
  isplitl [S43]; · iexact S43
  isplitl [S44]; · iexact S44
  isplitl [S45]; · iexact S45
  isplitl [S46]; · iexact S46
  isplitl [S47]; · iexact S47
  isplitl [S48]; · iexact S48
  isplitl [S49]; · iexact S49
  isplitl [S50]; · iexact S50
  isplitl [S51]; · iexact S51
  isplitl [S52]; · iexact S52
  isplitl [S53]; · iexact S53
  isplitl [S54]; · iexact S54
  isplitl [S55]; · iexact S55
  isplitl [S56]; · iexact S56
  isplitl [S57]; · iexact S57
  isplitl [S58]; · iexact S58
  isplitl [S59]; · iexact S59
  isplitl [S60]; · iexact S60
  isplitl [S61]; · iexact S61
  isplitl [S62]; · iexact S62
  isplitl [S63]; · iexact S63
  isplitl [S64]; · iexact S64
  isplitl [S65]; · iexact S65
  isplitl [S66]; · iexact S66
  isplitl [S67]; · iexact S67
  isplitl [S68]; · iexact S68
  isplitl [S69]; · iexact S69
  isplitl [S70]; · iexact S70
  isplitl [S71]; · iexact S71
  isplitl [S72]; · iexact S72
  isplitl [S73]; · iexact S73
  isplitl [S74]; · iexact S74
  isplitl [S75]; · iexact S75
  isplitl [S76]; · iexact S76
  isplitl [S77]; · iexact S77
  isplitl [S78]; · iexact S78
  isplitl [S79]; · iexact S79
  isplitl [B0]; · iexact B0
  isplitl [B1]; · iexact B1
  isplitl [B2]; · iexact B2
  isplitl [B3]; · iexact B3
  isplitl [B4]; · iexact B4
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C56]; · iexact C56
  isplitl [C57]; · iexact C57
  isplitl [C58]; · iexact C58
  isplitl [C59]; · iexact C59
  isplitl [C60]; · iexact C60
  isplitl [C61]; · iexact C61
  isplitl [C62]; · iexact C62
  isplitl [C63]; · iexact C63
  isplitl [C64]; · iexact C64
  isplitl [C65]; · iexact C65
  isplitl [C66]; · iexact C66
  isplitl [C67]; · iexact C67
  isplitl [C68]; · iexact C68
  isplitl [C69]; · iexact C69
  isplitl [C70]; · iexact C70
  isplitl [C71]; · iexact C71
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  isplitl [C87]; · iexact C87
  isplitl [C88]; · iexact C88
  isplitl [C89]; · iexact C89
  isplitl [C90]; · iexact C90
  isplitl [C91]; · iexact C91
  isplitl [C92]; · iexact C92
  isplitl [C93]; · iexact C93
  isplitl [C94]; · iexact C94
  isplitl [C95]; · iexact C95
  isplitl [C96]; · iexact C96
  isplitl [C97]; · iexact C97
  isplitl [C98]; · iexact C98
  isplitl [C99]; · iexact C99
  isplitl [C100]; · iexact C100
  isplitl [C101]; · iexact C101
  isplitl [C102]; · iexact C102
  isplitl [C103]; · iexact C103
  isplitl [C104]; · iexact C104
  isplitl [C105]; · iexact C105
  isplitl [C106]; · iexact C106
  isplitl [C107]; · iexact C107
  isplitl [C108]; · iexact C108
  isplitl [C109]; · iexact C109
  isplitl [C110]; · iexact C110
  isplitl [C111]; · iexact C111
  isplitl [C112]; · iexact C112
  isplitl [C113]; · iexact C113
  isplitl [C114]; · iexact C114
  isplitl [C115]; · iexact C115
  isplitl [C116]; · iexact C116
  isplitl [C117]; · iexact C117
  isplitl [C118]; · iexact C118
  isplitl [C119]; · iexact C119
  isplitl [C120]; · iexact C120
  isplitl [C121]; · iexact C121
  isplitl [C122]; · iexact C122
  isplitl [C123]; · iexact C123
  isplitl [C124]; · iexact C124
  isplitl [C125]; · iexact C125
  isplitl [C126]; · iexact C126
  isplitl [C127]; · iexact C127
  isplitl [C128]; · iexact C128
  isplitl [C129]; · iexact C129
  isplitl [C130]; · iexact C130
  isplitl [C131]; · iexact C131
  isplitl [C132]; · iexact C132
  isplitl [C133]; · iexact C133
  isplitl [C134]; · iexact C134
  isplitl [C135]; · iexact C135
  isplitl [C136]; · iexact C136
  isplitl [C137]; · iexact C137
  isplitl [C138]; · iexact C138
  isplitl [C139]; · iexact C139
  isplitl [C140]; · iexact C140
  isplitl [C141]; · iexact C141
  isplitl [C142]; · iexact C142
  isplitl [C143]; · iexact C143
  isplitl [C144]; · iexact C144
  isplitl [C145]; · iexact C145
  isplitl [C146]; · iexact C146
  isplitl [C147]; · iexact C147
  isplitl [C148]; · iexact C148
  isplitl [C149]; · iexact C149
  isplitl [C150]; · iexact C150
  isplitl [C151]; · iexact C151
  isplitl [C152]; · iexact C152
  isplitl [C153]; · iexact C153
  isplitl [C154]; · iexact C154
  isplitl [C155]; · iexact C155
  isplitl [C156]; · iexact C156
  isplitl [C157]; · iexact C157
  isplitl [C158]; · iexact C158
  isplitl [C159]; · iexact C159
  isplitl [C160]; · iexact C160
  isplitl [C161]; · iexact C161
  isplitl [HO]; · iexact HO
  iintro ⟨Hh, Hs, S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79, B0, B1, B2, B3, B4, C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, C132, C133, C134, C135, C136, C137, C138, C139, C140, C141, C142, C143, C144, C145, C146, C147, C148, C149, C150, C151, C152, C153, C154, C155, C156, C157, C158, C159, C160, C161, HO⟩
  iapply Hk
  isplitl [Hh]; · iexact Hh
  isplitl [Hs]; · iexact Hs
  isplitl [S0 S1 S2 S3 S4 S5 S6 S7 S8 S9 S10 S11 S12 S13 S14 S15 S16 S17 S18 S19 S20 S21 S22 S23 S24 S25 S26 S27 S28 S29 S30 S31 S32 S33 S34 S35 S36 S37 S38 S39 S40 S41 S42 S43 S44 S45 S46 S47 S48 S49 S50 S51 S52 S53 S54 S55 S56 S57 S58 S59 S60 S61 S62 S63 S64 S65 S66 S67 S68 S69 S70 S71 S72 S73 S74 S75 S76 S77 S78 S79]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    isplitl [S50]; · iexact S50
    isplitl [S51]; · iexact S51
    isplitl [S52]; · iexact S52
    isplitl [S53]; · iexact S53
    isplitl [S54]; · iexact S54
    isplitl [S55]; · iexact S55
    isplitl [S56]; · iexact S56
    isplitl [S57]; · iexact S57
    isplitl [S58]; · iexact S58
    isplitl [S59]; · iexact S59
    isplitl [S60]; · iexact S60
    isplitl [S61]; · iexact S61
    isplitl [S62]; · iexact S62
    isplitl [S63]; · iexact S63
    isplitl [S64]; · iexact S64
    isplitl [S65]; · iexact S65
    isplitl [S66]; · iexact S66
    isplitl [S67]; · iexact S67
    isplitl [S68]; · iexact S68
    isplitl [S69]; · iexact S69
    isplitl [S70]; · iexact S70
    isplitl [S71]; · iexact S71
    isplitl [S72]; · iexact S72
    isplitl [S73]; · iexact S73
    isplitl [S74]; · iexact S74
    isplitl [S75]; · iexact S75
    isplitl [S76]; · iexact S76
    isplitl [S77]; · iexact S77
    isplitl [S78]; · iexact S78
    iexact S79
  isplitl [B0]; · iexact B0
  isplitl [B1]; · iexact B1
  isplitl [B2]; · iexact B2
  isplitl [B3]; · iexact B3
  isplitl [B4]; · iexact B4
  isplitl [C0 C1 C2 C3 C4 C5 C6 C7 C8 C9 C10 C11 C12 C13 C14 C15 C16 C17 C18 C19 C20 C21 C22 C23 C24 C25 C26 C27 C28 C29 C30 C31 C32 C33 C34 C35 C36 C37 C38 C39 C40 C41 C42 C43 C44 C45 C46 C47 C48 C49 C50 C51 C52 C53 C54 C55 C56 C57 C58 C59 C60 C61 C62 C63 C64 C65 C66 C67 C68 C69 C70 C71 C72 C73 C74 C75 C76 C77 C78 C79 C80 C81 C82 C83 C84 C85 C86 C87 C88 C89 C90 C91 C92 C93 C94 C95 C96 C97 C98 C99 C100 C101 C102 C103 C104 C105 C106 C107 C108 C109 C110 C111 C112 C113 C114 C115 C116 C117 C118 C119 C120 C121 C122 C123 C124 C125 C126 C127 C128 C129 C130 C131 C132 C133 C134 C135 C136 C137 C138 C139 C140 C141 C142 C143 C144 C145 C146 C147 C148 C149 C150 C151 C152 C153 C154 C155 C156 C157 C158 C159 C160 C161]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    isplitl [C27]; · iexact C27
    isplitl [C28]; · iexact C28
    isplitl [C29]; · iexact C29
    isplitl [C30]; · iexact C30
    isplitl [C31]; · iexact C31
    isplitl [C32]; · iexact C32
    isplitl [C33]; · iexact C33
    isplitl [C34]; · iexact C34
    isplitl [C35]; · iexact C35
    isplitl [C36]; · iexact C36
    isplitl [C37]; · iexact C37
    isplitl [C38]; · iexact C38
    isplitl [C39]; · iexact C39
    isplitl [C40]; · iexact C40
    isplitl [C41]; · iexact C41
    isplitl [C42]; · iexact C42
    isplitl [C43]; · iexact C43
    isplitl [C44]; · iexact C44
    isplitl [C45]; · iexact C45
    isplitl [C46]; · iexact C46
    isplitl [C47]; · iexact C47
    isplitl [C48]; · iexact C48
    isplitl [C49]; · iexact C49
    isplitl [C50]; · iexact C50
    isplitl [C51]; · iexact C51
    isplitl [C52]; · iexact C52
    isplitl [C53]; · iexact C53
    isplitl [C54]; · iexact C54
    isplitl [C55]; · iexact C55
    isplitl [C56]; · iexact C56
    isplitl [C57]; · iexact C57
    isplitl [C58]; · iexact C58
    isplitl [C59]; · iexact C59
    isplitl [C60]; · iexact C60
    isplitl [C61]; · iexact C61
    isplitl [C62]; · iexact C62
    isplitl [C63]; · iexact C63
    isplitl [C64]; · iexact C64
    isplitl [C65]; · iexact C65
    isplitl [C66]; · iexact C66
    isplitl [C67]; · iexact C67
    isplitl [C68]; · iexact C68
    isplitl [C69]; · iexact C69
    isplitl [C70]; · iexact C70
    isplitl [C71]; · iexact C71
    isplitl [C72]; · iexact C72
    isplitl [C73]; · iexact C73
    isplitl [C74]; · iexact C74
    isplitl [C75]; · iexact C75
    isplitl [C76]; · iexact C76
    isplitl [C77]; · iexact C77
    isplitl [C78]; · iexact C78
    isplitl [C79]; · iexact C79
    isplitl [C80]; · iexact C80
    isplitl [C81]; · iexact C81
    isplitl [C82]; · iexact C82
    isplitl [C83]; · iexact C83
    isplitl [C84]; · iexact C84
    isplitl [C85]; · iexact C85
    isplitl [C86]; · iexact C86
    isplitl [C87]; · iexact C87
    isplitl [C88]; · iexact C88
    isplitl [C89]; · iexact C89
    isplitl [C90]; · iexact C90
    isplitl [C91]; · iexact C91
    isplitl [C92]; · iexact C92
    isplitl [C93]; · iexact C93
    isplitl [C94]; · iexact C94
    isplitl [C95]; · iexact C95
    isplitl [C96]; · iexact C96
    isplitl [C97]; · iexact C97
    isplitl [C98]; · iexact C98
    isplitl [C99]; · iexact C99
    isplitl [C100]; · iexact C100
    isplitl [C101]; · iexact C101
    isplitl [C102]; · iexact C102
    isplitl [C103]; · iexact C103
    isplitl [C104]; · iexact C104
    isplitl [C105]; · iexact C105
    isplitl [C106]; · iexact C106
    isplitl [C107]; · iexact C107
    isplitl [C108]; · iexact C108
    isplitl [C109]; · iexact C109
    isplitl [C110]; · iexact C110
    isplitl [C111]; · iexact C111
    isplitl [C112]; · iexact C112
    isplitl [C113]; · iexact C113
    isplitl [C114]; · iexact C114
    isplitl [C115]; · iexact C115
    isplitl [C116]; · iexact C116
    isplitl [C117]; · iexact C117
    isplitl [C118]; · iexact C118
    isplitl [C119]; · iexact C119
    isplitl [C120]; · iexact C120
    isplitl [C121]; · iexact C121
    isplitl [C122]; · iexact C122
    isplitl [C123]; · iexact C123
    isplitl [C124]; · iexact C124
    isplitl [C125]; · iexact C125
    isplitl [C126]; · iexact C126
    isplitl [C127]; · iexact C127
    isplitl [C128]; · iexact C128
    isplitl [C129]; · iexact C129
    isplitl [C130]; · iexact C130
    isplitl [C131]; · iexact C131
    isplitl [C132]; · iexact C132
    isplitl [C133]; · iexact C133
    isplitl [C134]; · iexact C134
    isplitl [C135]; · iexact C135
    isplitl [C136]; · iexact C136
    isplitl [C137]; · iexact C137
    isplitl [C138]; · iexact C138
    isplitl [C139]; · iexact C139
    isplitl [C140]; · iexact C140
    isplitl [C141]; · iexact C141
    isplitl [C142]; · iexact C142
    isplitl [C143]; · iexact C143
    isplitl [C144]; · iexact C144
    isplitl [C145]; · iexact C145
    isplitl [C146]; · iexact C146
    isplitl [C147]; · iexact C147
    isplitl [C148]; · iexact C148
    isplitl [C149]; · iexact C149
    isplitl [C150]; · iexact C150
    isplitl [C151]; · iexact C151
    isplitl [C152]; · iexact C152
    isplitl [C153]; · iexact C153
    isplitl [C154]; · iexact C154
    isplitl [C155]; · iexact C155
    isplitl [C156]; · iexact C156
    isplitl [C157]; · iexact C157
    isplitl [C158]; · iexact C158
    isplitl [C159]; · iexact C159
    isplitl [C160]; · iexact C160
    iexact C161
  iexact HO

set_option maxHeartbeats 8000000 in
theorem tile_grouped (q : PosShare TreeShare)
    (fh : Buf (Elt F) (hV.view.loc (thrV d L))) (fs : Buf (Elt F) (sV.view.loc (thrV d L)))
    (hfs : ∀ j, (fs j).toNat < 10240)
    (fo : Buf (Elt F) (oV.view.loc (thrV d L)))
    (f0 : Buf (Elt F) ((Memref.whole cc3_scratch0).view.loc (thrV d L)))
    (f1 : Buf (Elt F) ((Memref.whole cc3_scratch1).view.loc (thrV d L)))
    (f2 : Buf (Elt F) ((Memref.whole cc3_scratch2).view.loc (thrV d L)))
    (f3 : Buf (Elt F) ((Memref.whole cc3_scratch3).view.loc (thrV d L)))
    (f4 : Buf (Elt F) ((Memref.whole cc3_scratch4).view.loc (thrV d L)))
    (O : CellTallies nD τ sig (HIx 2)) (W : Waits sig (HIx 2)) (hO : ∀ g, O g none = 0)
    (Q : PUnit → sProp 𝕄) :
    iprop(Transfers.MayWaits (thrV d L) (none : HIx 2) O
      ∗ (hV.view.loc (thrV d L) ↦{q} fh) ∗ (sV.view.loc (thrV d L) ↦{q} fs)
      ∗ bigSepL l80 (fun r : Fin 80 => ((oSl L r).view.loc (thrV d L) ↦[(oSl L r).view.set]{fullShare} fo : sProp 𝕄))
      ∗ ((Memref.whole cc3_scratch0).view.loc (thrV d L) ↦{fullShare} f0)
      ∗ ((Memref.whole cc3_scratch1).view.loc (thrV d L) ↦{fullShare} f1)
      ∗ ((Memref.whole cc3_scratch2).view.loc (thrV d L) ↦{fullShare} f2)
      ∗ ((Memref.whole cc3_scratch3).view.loc (thrV d L) ↦{fullShare} f3)
      ∗ ((Memref.whole cc3_scratch4).view.loc (thrV d L) ↦{fullShare} f4)
      ∗ bigSepL sems1 (fun sm : SemLoc sig => (semVal ((thrV d L), sm) 0 : sProp 𝕄))
      ∗ owes (thrV d L) O W
      ∗ (iprop((hV.view.loc (thrV d L) ↦{q} fh) ∗ (sV.view.loc (thrV d L) ↦{q} fs)
          ∗ bigSepL l80 (fun r : Fin 80 => ((oSl L r).view.loc (thrV d L) ↦[(oSl L r).view.set]{fullShare} gatherRows fh fs : sProp 𝕄))
          ∗ (∃ f, (Memref.whole cc3_scratch0).view.loc (thrV d L) ↦{fullShare} f)
          ∗ (∃ f, (Memref.whole cc3_scratch1).view.loc (thrV d L) ↦{fullShare} f)
          ∗ (∃ f, (Memref.whole cc3_scratch2).view.loc (thrV d L) ↦{fullShare} f)
          ∗ (∃ f, (Memref.whole cc3_scratch3).view.loc (thrV d L) ↦{fullShare} f)
          ∗ (∃ f, (Memref.whole cc3_scratch4).view.loc (thrV d L) ↦{fullShare} f)
          ∗ bigSepL sems1 (fun sm : SemLoc sig => (semVal ((thrV d L), sm) 0 : sProp 𝕄))
          ∗ (∃ W', ⌜∀ p ∈ W', p ∈ W ∨ p.2 = none⌝ ∗ owes (thrV d L) O W')) -∗ Q ⟨⟩))
    ⊢ wp frame (wpE (defs₀ (F := F)) 𝒱₀ (thrV d L) none) Set.univ
        (cc3__gather_kernel L hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) Q :=
  tile_grouped_aux d L q fh fs hfs fo f0 f1 f2 f3 f4 O W hO Q

end Tile

end Cert.Proof.KB.Call1

end
-- ==== Proof.TileOblB2.lean ====
/-
  A task of the second gather call in the launch theorem's form: what the handshake hands it (its shares of the two
  tables, its eighty blocks of the output), its own scratch buffers and transfer counters, in; the same out, the
  blocks at the gathered rows.
-/
import proofs.«207928_g75127567942135_cont_9to1c4b_313_20_alg».proof.Proof.TileGroupB2
import proofs.«207928_g75127567942135_cont_9to1c4b_313_20_alg».proof.Proof.LaunchB
import proofs.«207928_g75127567942135_cont_9to1c4b_313_20_alg».proof.Proof.GatherSpecB

noncomputable section

namespace Cert.Proof.KB.Call1

open Cert.Kernel Cert.Kernel.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## A task's place, and its output chunks as blocks of the partition -/

/-- The grid coordinates of SparseCore `c`'s task `i`. -/
def coordsV (c : Fin (grid3.bound 0)) (s : Fin (grid3.bound 1)) : grid3.Coords :=
  fun | 0 => c | 1 => s | ⟨_ + 2, h⟩ => absurd h (Nat.not_lt.2 (Nat.le_add_left _ _))

theorem bound0 : grid3.bound 0 = 2 := rfl
theorem bound1 : grid3.bound 1 = 16 := rfl
abbrev cL (L : grid3.Coords) : Fin 2 := Fin.cast bound0 (L 0)
abbrev iL (L : grid3.Coords) : Fin 16 := Fin.cast bound1 (L 1)

/-- Chunk `r` of the task at `L` is block `1280 c + 80 i + r`: rows `163840 c + 10240 i + 128 r` on. -/
theorem oRect_eq (L : grid3.Coords) (r : Fin 80) :
    Rect.unit (s := S327680x128) (k3_off2 L (BitVec.ofNat 32 (128 * r.val))) S128x128.size (k3_off2_inb L r) = blk (blkIx (cL L) (iL L) r) := by
  unfold blk Rect.part Rect.block
  congr 1 <;> funext a
  · rw [k3_off2_eq]
    match a with
    | 0 => simp [Shape.partIx, Shape.partSize, blkIx]; omega
    | 1 => simp [Shape.partIx, Shape.partSize]
  · match a with
    | 0 => simp [Shape.partSize]
    | 1 => simp [Shape.partSize]

theorem oSl_set (L : grid3.Coords) (r : Fin 80) : (oSl L r).view.set = (blk (blkIx (cL L) (iL L) r)).set := by
  show ((View.whole (main_v40_scv : Ref sig .scVector)).slice (Rect.unit (s := S327680x128) (k3_off2 L (BitVec.ofNat 32 (128 * r.val))) S128x128.size (k3_off2_inb L r))).set = _
  rw [View.set_slice, oRect_eq]; exact Finset.map_refl

/-! ## The task's own scratch buffers and transfer counters -/

section Own

variable (d : Dev nD) (L : grid3.Coords)

/-- The five scratch buffers of this call are among the subcore's own: they are them, at some contents, and the rest. -/
theorem ownBufs_V1 :
    (ownBufs (thrV d L) : sProp 𝕄)
      = iprop((∃ f, (thrV d L).loc cc3_scratch0 ↦{fullShare} f) ∗ (∃ f, (thrV d L).loc cc3_scratch1 ↦{fullShare} f)
          ∗ (∃ f, (thrV d L).loc cc3_scratch2 ↦{fullShare} f) ∗ (∃ f, (thrV d L).loc cc3_scratch3 ↦{fullShare} f)
          ∗ (∃ f, (thrV d L).loc cc3_scratch4 ↦{fullShare} f)
          ∗ bigSep (((((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2)).erase
              ((Proc.scVector (cV L) (jV L)).devRef cc3_scratch3)).erase ((Proc.scVector (cV L) (jV L)).devRef cc3_scratch4)))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := Proc.scVector (cV L) (jV L)) (b := (Proc.scVector (cV L) (jV L)).devRef cc3_scratch2) rfl⟩⟩),
    SparseCore.bigSep_erase' (Finset.mem_erase.mpr ⟨fun e => absurd (Proc.devRef_injective _ e) (show (cc3_scratch3 : Ref sig .scVector) ≠ cc3_scratch2 by decide),
      Finset.mem_erase.mpr ⟨fun e => absurd (Proc.devRef_injective _ e) (show (cc3_scratch3 : Ref sig .scVector) ≠ cc3_scratch1 by decide),
      Finset.mem_erase.mpr ⟨fun e => absurd (Proc.devRef_injective _ e) (show (cc3_scratch3 : Ref sig .scVector) ≠ cc3_scratch0 by decide),
      SparseCore.Cfg.mem_ownRefs_of_owner (p := Proc.scVector (cV L) (jV L)) (b := (Proc.scVector (cV L) (jV L)).devRef cc3_scratch3) rfl⟩⟩⟩),
    SparseCore.bigSep_erase' (Finset.mem_erase.mpr ⟨fun e => absurd (Proc.devRef_injective _ e) (show (cc3_scratch4 : Ref sig .scVector) ≠ cc3_scratch3 by decide),
      Finset.mem_erase.mpr ⟨fun e => absurd (Proc.devRef_injective _ e) (show (cc3_scratch4 : Ref sig .scVector) ≠ cc3_scratch2 by decide),
      Finset.mem_erase.mpr ⟨fun e => absurd (Proc.devRef_injective _ e) (show (cc3_scratch4 : Ref sig .scVector) ≠ cc3_scratch1 by decide),
      Finset.mem_erase.mpr ⟨fun e => absurd (Proc.devRef_injective _ e) (show (cc3_scratch4 : Ref sig .scVector) ≠ cc3_scratch0 by decide),
      SparseCore.Cfg.mem_ownRefs_of_owner (p := Proc.scVector (cV L) (jV L)) (b := (Proc.scVector (cV L) (jV L)).devRef cc3_scratch4) rfl⟩⟩⟩⟩)]

/-- The scoped semaphores of a vector subcore that are not this call's kernel's. -/
def restSems : Finset (SemLoc sig) := (Finset.univ.filter fun sm : SemLoc sig => sm.isScoped .scVector) \ (sems1 : List (SemLoc sig)).toFinset

theorem sems1_nodup : (sems1 : List (SemLoc sig)).Nodup := by decide +kernel
theorem sems1_sub : (sems1 : List (SemLoc sig)).toFinset ⊆ Finset.univ.filter fun sm : SemLoc sig => sm.isScoped .scVector := by decide +kernel

/-- The subcore's own transfer counters at zero: this call's kernel's, listed, and the rest. -/
theorem ownSems0_V1 :
    (ownSems0 (thrV d L) : sProp 𝕄)
      = iprop(bigSepL sems1 (fun sm : SemLoc sig => (semVal ((thrV d L), sm) 0 : sProp 𝕄)) ∗ bigSep restSems fun sm => semVal ((thrV d L), sm) 0) := by
  rw [SparseCore.Cfg.ownSems0_eq]
  show bigSep (Finset.univ.filter fun sm : SemLoc sig => sm.isScoped .scVector) _ = _
  conv_lhs => rw [← Finset.union_sdiff_of_subset sems1_sub]
  rw [bigSep_union Finset.disjoint_sdiff, bigSep_eq_bigSepL sems1 sems1_nodup]
  rfl

end Own

/-! ## The task's blocks as its chunks -/

section Blocks

variable (d : Dev nD) (c : Fin 2) (i : Fin 16)

theorem l80_univ : (Finset.univ : Finset (Fin 80)) = (l80 : List (Fin 80)).toFinset := by decide +kernel
theorem l80_nodup : (l80 : List (Fin 80)).Nodup := by decide +kernel

/-- The task's eighty blocks of the output, held block by block at `g`, are its eighty chunks as the kernel slices them. -/
theorem blocks_eq (g : Buf (Elt F) (oLoc1 d)) :
    (bigSep Finset.univ fun r : Fin 80 => (oLoc1 d ↦[(blk (blkIx c i r)).set]{fullShare} g : sProp 𝕄))
      = bigSepL l80 (fun r : Fin 80 => ((oSl (coordsV c i) r).view.loc (thrV d (coordsV c i)) ↦[(oSl (coordsV c i) r).view.set]{fullShare} g : sProp 𝕄)) := by
  rw [bigSep_univ_eq_bigSepL l80 l80_univ l80_nodup]
  exact congrArg (bigSepL l80) (funext fun r => by rw [oSl_set]; rfl)

end Blocks

/-! ## The task, from what the handshake hands it to what it hands back -/

section Body

variable (fh1 : (d : Dev nD) → Buf (Elt F) (hLoc1 d)) (fs : (d : Dev nD) → Buf (Elt F) (sLoc d)) (fo1 : (d : Dev nD) → Buf (Elt F) (oLoc1 d))

set_option maxHeartbeats 4000000 in
/-- One task of the second gather call: from its shares of the two tables and its eighty blocks at the output's prior contents, its own
    buffers and counters, and what it owes, the kernel runs to its end with the blocks at the gathered rows and everything else back. -/
theorem tile_body1 (d : Dev nD) (c : Fin 2) (i : Fin 16) (hfs : ∀ j, ((fs d) j).toNat < 10240)
    (O : CellTallies nD τ sig (HIx 2)) (W : Waits sig (HIx 2)) (hO : ∀ g, O g none = 0) :
    iprop(levAts (K (F := F)).L (K (F := F)).lev ∗ emp ∗ taskPay1 fh1 fs d c i (fo1 d)
        ∗ scopedBufs (thrV d (coordsV c i)) ∗ scopedSems0 (thrV d (coordsV c i)) ∗ owes (thrV d (coordsV c i)) O W)
      ⊢ wp frame (wpE (defs₀ (F := F)) 𝒱₀ (thrV d (coordsV c i)) none) Set.univ
          (cc3__gather_kernel (coordsV c i) hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161)
          fun _ => iprop(taskPay1 fh1 fs d c i (gatherRows (fh1 d) (fs d)) ∗ scopedBufs (thrV d (coordsV c i)) ∗ scopedSems0 (thrV d (coordsV c i))
            ∗ ∃ W', ⌜∀ p ∈ W', p ∈ W ∨ p.2 = none⌝ ∗ owes (thrV d (coordsV c i)) O W') := by
  rw [(K (F := F)).scopedBufs_V facts d (cV (coordsV c i)) (jV (coordsV c i)), SparseCore.Cfg.scopedSems0_V (Val := Elt F) d (cV (coordsV c i)) (jV (coordsV c i)),
    ownSems0_V1, ownBufs_V1]
  unfold taskPay1
  rw [blocks_eq d c i (fo1 d), blocks_eq d c i (gatherRows (fh1 d) (fs d))]
  iintro ⟨#Hlv, -, ⟨Hh, Hs, Hbl⟩, ⟨⟨%f0, B0⟩, ⟨%f1, B1⟩, ⟨%f2, B2⟩, ⟨%f3, B3⟩, ⟨%f4, B4⟩, Hbufs⟩, ⟨Hsems, Hsrest⟩, HO⟩
  ihave Hmw := ((K (F := F)).mayWaits_none (thr := thrV d (coordsV c i)) hO) $$ Hlv
  iapply (tile_grouped d (coordsV c i) (qT c i) (fh1 d) (fs d) hfs (fo1 d) f0 f1 f2 f3 f4 O W hO _)
  isplitl [Hmw]; · iexact Hmw
  isplitl [Hh]; · iexact Hh
  isplitl [Hs]; · iexact Hs
  isplitl [Hbl]; · iexact Hbl
  isplitl [B0]; · iexact B0
  isplitl [B1]; · iexact B1
  isplitl [B2]; · iexact B2
  isplitl [B3]; · iexact B3
  isplitl [B4]; · iexact B4
  isplitl [Hsems]; · iexact Hsems
  isplitl [HO]; · iexact HO
  iintro ⟨Hh, Hs, Hbl, ⟨%e0, B0⟩, ⟨%e1, B1⟩, ⟨%e2, B2⟩, ⟨%e3, B3⟩, ⟨%e4, B4⟩, Hsems, HO⟩
  isplitl [Hh Hs Hbl]
  · isplitl [Hh]; · iexact Hh
    isplitl [Hs]; · iexact Hs
    iexact Hbl
  isplitl [B0 B1 B2 B3 B4 Hbufs]
  · isplitl [B0]; · iexists _; iexact B0
    isplitl [B1]; · iexists _; iexact B1
    isplitl [B2]; · iexists _; iexact B2
    isplitl [B3]; · iexists _; iexact B3
    isplitl [B4]; · iexists _; iexact B4
    iexact Hbufs
  isplitl [Hsems Hsrest]
  · isplitl [Hsems]; · iexact Hsems
    iexact Hsrest
  iexact HO

end Body

/-! ## The launch theorem's obligation -/

section Obl

variable (fh0 : (d : Dev nD) → Buf (Elt F) (Cert.Proof.KB.hLoc0 d)) (fh1 : (d : Dev nD) → Buf (Elt F) (hLoc1 d)) (fs : (d : Dev nD) → Buf (Elt F) (sLoc d))
  (fo0 fo0' : (d : Dev nD) → Buf (Elt F) (Cert.Proof.KB.oLoc0 d)) (fo1 : (d : Dev nD) → Buf (Elt F) (oLoc1 d))

theorem defs₀_vector3 (c : Fin τ.nSC) (s : Fin τ.nSub) :
    defs₀ (F := F) (.scVector c s) 3 ()
      = SparseCore.onTile hcore3 hsub3 (fun c s => cc3__gather_kernel (coordsV c s) hV (Memref.isWhole_whole _) sV (Memref.isWhole_whole _) oV (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17 cc3_scoped18 cc3_scoped19 cc3_scoped20 cc3_scoped21 cc3_scoped22 cc3_scoped23 cc3_scoped24 cc3_scoped25 cc3_scoped26 cc3_scoped27 cc3_scoped28 cc3_scoped29 cc3_scoped30 cc3_scoped31 cc3_scoped32 cc3_scoped33 cc3_scoped34 cc3_scoped35 cc3_scoped36 cc3_scoped37 cc3_scoped38 cc3_scoped39 cc3_scoped40 cc3_scoped41 cc3_scoped42 cc3_scoped43 cc3_scoped44 cc3_scoped45 cc3_scoped46 cc3_scoped47 cc3_scoped48 cc3_scoped49 cc3_scoped50 cc3_scoped51 cc3_scoped52 cc3_scoped53 cc3_scoped54 cc3_scoped55 cc3_scoped56 cc3_scoped57 cc3_scoped58 cc3_scoped59 cc3_scoped60 cc3_scoped61 cc3_scoped62 cc3_scoped63 cc3_scoped64 cc3_scoped65 cc3_scoped66 cc3_scoped67 cc3_scoped68 cc3_scoped69 cc3_scoped70 cc3_scoped71 cc3_scoped72 cc3_scoped73 cc3_scoped74 cc3_scoped75 cc3_scoped76 cc3_scoped77 cc3_scoped78 cc3_scoped79 cc3_scoped80 cc3_scoped81 cc3_scoped82 cc3_scoped83 cc3_scoped84 cc3_scoped85 cc3_scoped86 cc3_scoped87 cc3_scoped88 cc3_scoped89 cc3_scoped90 cc3_scoped91 cc3_scoped92 cc3_scoped93 cc3_scoped94 cc3_scoped95 cc3_scoped96 cc3_scoped97 cc3_scoped98 cc3_scoped99 cc3_scoped100 cc3_scoped101 cc3_scoped102 cc3_scoped103 cc3_scoped104 cc3_scoped105 cc3_scoped106 cc3_scoped107 cc3_scoped108 cc3_scoped109 cc3_scoped110 cc3_scoped111 cc3_scoped112 cc3_scoped113 cc3_scoped114 cc3_scoped115 cc3_scoped116 cc3_scoped117 cc3_scoped118 cc3_scoped119 cc3_scoped120 cc3_scoped121 cc3_scoped122 cc3_scoped123 cc3_scoped124 cc3_scoped125 cc3_scoped126 cc3_scoped127 cc3_scoped128 cc3_scoped129 cc3_scoped130 cc3_scoped131 cc3_scoped132 cc3_scoped133 cc3_scoped134 cc3_scoped135 cc3_scoped136 cc3_scoped137 cc3_scoped138 cc3_scoped139 cc3_scoped140 cc3_scoped141 cc3_scoped142 cc3_scoped143 cc3_scoped144 cc3_scoped145 cc3_scoped146 cc3_scoped147 cc3_scoped148 cc3_scoped149 cc3_scoped150 cc3_scoped151 cc3_scoped152 cc3_scoped153 cc3_scoped154 cc3_scoped155 cc3_scoped156 cc3_scoped157 cc3_scoped158 cc3_scoped159 cc3_scoped160 cc3_scoped161) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 4000000 in
/-- The second gather call's tasks, in the launch theorem's form, at payloads whose output comes back at the gathered rows. -/
theorem tileObl1 (hfs : ∀ d j, ((fs d) j).toNat < 10240) :
    (K (F := F)).TileObl (D (F := F)) 𝒱 (P fh0 fh1 fs fo0 fo0' fo1 (fun d => gatherRows (fh1 d) (fs d))) v₀ 1 := by
  intro d c i O W hO _ _
  simp only [show (P fh0 fh1 fs fo0 fo0' fo1 (fun d => gatherRows (fh1 d) (fs d))).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  exact (tile_body1 fh1 fs fo1 d c i (hfs d) O W hO).trans (wp_mono frame _ _ fun _ => obl_post)

end Obl

end Cert.Proof.KB.Call1

end
-- ==== Proof.IndexRangeB.lean ====
/-
  Two integer facts about the word-level kernel's edge words, at any float instance. The certificate's precondition ends
  in "every entry of the edge table is at least 0 and at most 9999", the comparisons signed: read back, every entry
  read unsigned is at most 9999. And the source table the gather calls read — the first row of the edge table,
  followed by 7680 copies of the word 10000, reshaped to 2560 x 128 — then holds only words below 10240.
-/
import proofs.«207928_g75127567942135_cont_9to1c4b_313_20_alg».proof.Proof.MainShapeB
import proofs.«207928_g75127567942135_cont_9to1c4b_313_20_alg».proof.Pre_input_domain
import Idealize.ShloMosaic.Lib.ReduceAll
import Idealize.ShloMosaic.Lib.StableHlo.Run
import Idealize.ShloMosaic.Lib.Pipeline.Value
import Idealize.ShloMosaic.Lib.ValueIdx

set_option maxRecDepth 16384

noncomputable section

namespace Cert.Proof.KB

open Cert.Kernel Cert.Kernel.Gen
open Idealize.ShloMosaic Idealize.ShloMosaic.TcCoe Idealize.ShloMosaic.ValueIdx Idealize.ShloMosaic.StableHlo
open Idealize.SL.Sem

variable {F : FTy → Type} [FloatOps F]

/-! ## A word between 0 and 9999, read signed, is at most 9999 read unsigned -/

theorem toNat_le_of_toInt {b : BitVec 32} (h0 : (0 : ℤ) ≤ b.toInt) (h1 : b.toInt ≤ 9999) : b.toNat ≤ 9999 := by
  rw [BitVec.toInt_eq_toNat_cond] at h0 h1
  have hlt := b.isLt
  by_cases hc : 2 * b.toNat < 2 ^ 32
  · rw [if_pos hc] at h1; omega
  · rw [if_neg hc] at h0; omega

/-! ## The precondition's last conjunct, read back -/

/-- Under the certificate's precondition every entry of the edge table, read unsigned, is at most 9999: the
    predicate's result is the conjunction of its parts; the last part is an "all" over the table of "entry ≥ 0 and
    entry ≤ 9999", signed. -/
theorem arg1_le_of_pre [Cert.Pre_input_domain.Facts] (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1))
    (c : Dev nD) : ∀ j, ((m ((c.tc : Thread nD τ).loc main_arg1) : IVec S2x320000 32) j).toNat ≤ 9999 := by
  intro j
  have h := congrFun (hpre c) (fun a => a.elim0)
  unfold Cert.Pre_input_domain.fn Cert.Pre_input_domain.fn_part1 at h
  change IntOp.andi _ _ = 1#1 at h
  have h29 := (IntOp.andi_eq_one.1 h).2
  have h28 := Host.reduce_andi_all _ _ _ _ _ h29 j
  change IntOp.andi _ _ = 1#1 at h28
  obtain ⟨hge, hle⟩ := IntOp.andi_eq_one.1 h28
  have h0 : (0#32 : BitVec 32).toInt ≤ ((m ((c.tc : Thread nD τ).loc main_arg1) : IVec S2x320000 32) j).toInt := IntOp.cmpi_sge.1 hge
  have h1 : ((m ((c.tc : Thread nD τ).loc main_arg1) : IVec S2x320000 32) j).toInt ≤ (9999#32 : BitVec 32).toInt := IntOp.cmpi_sle.1 hle
  have e0 : (0 : ℤ) = (0#32 : BitVec 32).toInt := by decide
  have e1 : (9999#32 : BitVec 32).toInt = 9999 := by decide
  exact toNat_le_of_toInt (le_trans (le_of_eq e0) h0) (le_trans h1 (le_of_eq e1))

/-! ## Two arrays laid end to end, read at an index -/

/-- The 320000 words `a` followed by the 7680 words `b`, at position `j`: `a` at `j` below 320000, `b` at `j - 320000`
    from there on. -/
theorem concat2_apply {α : Type} (a : S320000.Idx → α) (b : S7680.Idx → α) (j : S327680.Idx) :
    concatenate S327680 0 [⟨S320000, a⟩, ⟨S7680, b⟩] concatenates_S320000_S7680_S327680_d0 j
      = if hlt : (j 0).val < 320000 then a (ix1 (⟨(j 0).val, hlt⟩ : Fin 320000))
        else b (ix1 (⟨(j 0).val - 320000, by have := (j 0).isLt; have h : (j 0).val < 327680 := this; omega⟩ : Fin 7680)) := by
  split
  · rename_i hlt
    exact concatenate_apply_piece (t := S327680) (0 : Fin S327680.rank) [⟨S320000, a⟩, ⟨S7680, b⟩] concatenates_S320000_S7680_S327680_d0 j 0 (by simp) S320000 a rfl rfl 0 rfl
      (ix1 (⟨(j 0).val, hlt⟩ : Fin 320000)) (fun b hb => absurd (Subsingleton.elim _ _) hb) (by simp)
  · rename_i hlt
    exact concatenate_apply_piece (t := S327680) (0 : Fin S327680.rank) [⟨S320000, a⟩, ⟨S7680, b⟩] concatenates_S320000_S7680_S327680_d0 j 1 (by simp) S7680 b rfl rfl 320000 rfl
      (ix1 (⟨(j 0).val - 320000, by have := (j 0).isLt; have h : (j 0).val < 327680 := this; omega⟩ : Fin 7680))
      (fun b hb => absurd (Subsingleton.elim _ _) hb) (by show 320000 + ((j 0).val - 320000) = (j 0).val; omega)

/-! ## The source table -/

/-- Words at most 9999 followed by copies of the word 10000: every entry is below 10240. -/
theorem concat2_lt (a : S320000.Idx → BitVec 32) (b : S7680.Idx → BitVec 32) (ha : ∀ i, (a i).toNat ≤ 9999)
    (hb : ∀ i, b i = 10000#32) (j : S327680.Idx) :
    (concatenate S327680 0 [⟨S320000, a⟩, ⟨S7680, b⟩] concatenates_S320000_S7680_S327680_d0 j).toNat < 10240 := by
  rw [concat2_apply]
  split
  · exact lt_of_le_of_lt (ha _) (by decide)
  · rw [hb]; decide

set_option maxHeartbeats 4000000 in
/-- What the first host stretch leaves in the source table, as a term over the edge table. -/
theorem opsA_v6 (V : Valuation τ sig (Elt F)) :
    after (opsA (F := F)) V (Proc.devRef .tc main_v6 : DevRef τ sig)
      = shapeCast S2560x128
          (concatenate S327680 0
            [⟨S320000, shapeCast S320000 (extractStridedSlice S1x320000 ![0, 0] (V (Proc.devRef .tc main_arg1 : DevRef τ sig) : IVec S2x320000 32)
                slices_S2x320000_S1x320000_0_0) shapeCasts_S1x320000_S320000⟩,
             ⟨S7680, broadcastInDim S7680 ![] bcast_S_S7680 (constantI S_ 32 10000#32)⟩]
            concatenates_S320000_S7680_S327680_d0) shapeCasts_S327680_S2560x128 := by
  after_results; all_goals rfl

/-- Every entry of the source table is below 10240, where every entry of the edge table is at most 9999: an entry is
    an edge word or the word 10000. -/
theorem opsA_v6_lt (V : Valuation τ sig (Elt F))
    (h : ∀ j, ((V (Proc.devRef .tc main_arg1 : DevRef τ sig) : IVec S2x320000 32) j).toNat ≤ 9999) :
    ∀ j, ((after (opsA (F := F)) V (Proc.devRef .tc main_v6 : DevRef τ sig) : IVec S2560x128 32) j).toNat < 10240 := by
  intro j
  rw [opsA_v6]
  exact concat2_lt _ _ (fun i => h _) (fun i => rfl) _

end Cert.Proof.KB

end
-- ==== Proof.FramesB.lean ====
/-
  The word-level kernel program's run in the claims' shapes: the two gather calls leave the gathered rows, the padded
  index table is in range under the certificate's precondition, so the launch applies; the six arguments end as
  launched (the frame), and the result buffer ends at the fold's value.
-/
import proofs.«207928_g75127567942135_cont_9to1c4b_313_20_alg».proof.Proof.RunB
import proofs.«207928_g75127567942135_cont_9to1c4b_313_20_alg».proof.Proof.TileOblB
import proofs.«207928_g75127567942135_cont_9to1c4b_313_20_alg».proof.Proof.TileOblB2
import proofs.«207928_g75127567942135_cont_9to1c4b_313_20_alg».proof.Proof.IndexRangeB

noncomputable section

namespace Cert.Proof.KB

open Cert.Kernel Cert.Kernel.Gen

open Idealize.ShloMosaic Idealize.ShloMosaic.StableHlo Idealize.ShloMosaic.TcCoe
open Idealize.ShloMosaic.SparseCore (S V T)
open Idealize.ShloMosaic.SparseCore.Cfg (HIx Pay)
open Idealize.SL Idealize.SL.Sem

variable {F : FTy → Type} [FloatOps F] [∀ e, Nonempty (Elt F e)] [Cert.Pre_input_domain.Facts]

variable (m : (ℓ : Loc nD τ sig) → Buf (Elt F) ℓ) (ρ : Dev nD → PrngReg)

/-- What the first gather call leaves: the rows of the scaled features at the padded index table; -/
abbrev g0v (d : Dev nD) : Buf (Elt F) (oLoc0 d) := gatherRows (Wc m d h0') (Wc m d s')
/-- and the second: the rows of the hidden layer at the same table. -/
abbrev g1v (d : Dev nD) : Buf (Elt F) (oLoc1 d) := gatherRows (Wf m (g0v m) d h1') (Wc m d s')

/-- Under the precondition every entry of the padded index table names a row of the 10240-row tables: an edge word is at most 9999, a padding
    entry is 10000. -/
theorem Wc_s_lt (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) (d : Dev nD) : ∀ j, ((Wc m d s') j).toNat < 10240 := by
  have h2 := opsA_v6_lt (Wa m d) (arg1_le_of_pre m hpre d)
  show ∀ j, ((Wx0 (Wb m) d s') j).toNat < 10240
  rw [Wx0_v6]; exact h2

/-- The run: every weakly fair execution of the device's threads ends, nothing faulting, with every TensorCore buffer at the fold's last contents. -/
theorem run (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) :
    θ_run (Cert.Kernel.defs (F := F)) (Cert.Kernel.threads (F := F)) ⟨m, fun _ => 0, ρ⟩ (QC m (g0v m) (g1v m)) :=
  run_main m ρ (g0v m) (g1v m)
    (tileObl0 (fun d => Wc m d h0') (fun d => Wf m (g0v m) d h1') (fun d => Wc m d s') (fun d => Wc m d o0') (fun d => Wf m (g0v m) d o1') (g1v m) (Wc_s_lt m hpre))
    (Call1.tileObl1 (fun d => Wc m d h0') (fun d => Wf m (g0v m) d h1') (fun d => Wc m d s') (fun d => Wc m d o0') (g0v m) (fun d => Wf m (g0v m) d o1') (Wc_s_lt m hpre))

/-- The frame: the six argument arrays end as launched. -/
theorem frame (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.Kernel.defs _ _).mono (fun r h c => frame_of_run m (g0v m) (g1v m) r h c) (run m ρ hpre)

end Cert.Proof.KB

end
-- ==== Proof.RegionVal0I.lean ====
/-
  The value region 0 leaves, at the ideal arithmetic: after the first TensorCore pipeline the whole 10240x128 output
  array is ONE function of the two arrays it reads, index by index: out[r, j] = x[r, j] * rsqrt(max(1, deg[r, 0])).
  The body's payload is read at an index; what a grid point writes back is the point's block of that function (a
  block's row r' at point t is the array's row 256 t + r'); the 40 blocks cover the array, row r lying in block
  r / 256.
-/
import proofs.«207928_g75127567942135_cont_9to1c4b_313_20_alg».proof.Proof.RegionRecsI
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

section Value0

/-! ## The specification -/

/-- Region 0's result as one function of the features `x` and the degrees `d`: each row of `x` scaled by the inverse
    square root of the row's degree, the degree taken at least 1. -/
def G0 (x : FVec Ideal S10240x128 .f32) (d : FVec Ideal S10240x1 .f32) : FVec Ideal S10240x128 .f32 :=
  fun i => x i * Ideal.rsqrt (max (Ideal.ofBits .f32 0x3F800000#32) (d (ix2 (i 0 : Fin 10240) (0 : Fin 1))))

theorem G0_apply (x : FVec Ideal S10240x128 .f32) (d : FVec Ideal S10240x1 .f32) (i : S10240x128.Idx) :
    G0 x d i = x i * Ideal.rsqrt (max (Ideal.ofBits .f32 0x3F800000#32) (d (ix2 (i 0 : Fin 10240) (0 : Fin 1)))) := rfl

/-! ## The body's payload at an index -/

/-- The payload at row `p`, column `q` of a block: the feature there times the inverse square root of the larger of
    1 and the row's degree (the degree column is broadcast along the row). -/
theorem pay0_apply (g : Vec Ideal S256x1 .f32) (x : Vec Ideal S256x128 .f32) (p : Fin 256) (q : Fin 128) :
    k0_pay1 g x (ix2 p q) = x (ix2 p q) * Ideal.rsqrt (max (Ideal.ofBits .f32 0x3F800000#32) (g (ix2 p 0))) := by
  dsimp only [k0_pay1]
  rw [mulf_apply, broadcastTo_apply _ broadcasts_S256x1_S256x128 (ix2 p q) (ix2 p (0 : Fin 1))
    (fun a => by match a with | ⟨0, _⟩ => rfl | ⟨1, _⟩ => rfl), shapeCast_self, shapeCast_self]
  rfl

/-! ## From blocks to the array -/

variable (V : (c : Dev nD) → (b : Ref sig .tc) → Buf (Elt Ideal) ((c : Thread nD τ).loc b))
variable (O : CellTallies nD τ sig (HIx 2)) (B : Set (SemLoc sig × HIx 2))

theorem hz0 : (![0, 0] : Fin 2 → Nat) = fun _ => 0 := funext fun a => by fin_cases a <;> rfl

/-- The printed index maps, decided over the 40 grid points: at point `t` each of the three windows is at block row
    `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G0` of the two arrays as the region finds them: the element at row
    `p`, column `q` of the block is the payload there, whose feature and degree are the arrays' at row `256 t + p`. -/
theorem flushed0_eq (c : Dev nD) (t : Fin cfg0.N) :
    (dat0 V O B c).flushed 2 t = ((cfg0.win 2).blk t).view.read (Elt Ideal) (G0 (V c main_v8) (V c main_v20)) := by
  show (cfg0.win 2).cut (grid0.coords t) ((dat0 V O B c).after 2 t) = _
  rw [after0_2]
  unfold out0
  rw [View.canon_unit_zero hz0]
  simp only [View.ld_unit_zero (S := S256x128) hz0, View.ld_unit_zero (S := S256x1) hz0]
  obtain ⟨e0, e1, e2, e3, e4, e5⟩ := idx_facts0 t
  funext j
  obtain ⟨p, q, rfl⟩ : ∃ (p : Fin 256) (q : Fin 128), j = ix2 p q := ⟨j 0, j 1, eq_ix2 j⟩
  show k0_pay1 (iblk0 V c 1 t) (iblk0 V c 0 t) (ix2 p q) = G0 (V c main_v8) (V c main_v20) (((cfg0.win 2).blk t).view.emb (ix2 p q))
  rw [pay0_apply]
  have h0 : ((cfg0.win 0).blk t).view.emb (ix2 p q) = ((cfg0.win 2).blk t).view.emb (ix2 p q) := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1))
      = ix2 ((((cfg0.win 2).blk t).view.emb (ix2 p q)) 0 : Fin 10240) (0 : Fin 1) := by
    funext a; apply Fin.ext
    match a with
    | ⟨0, _⟩ => show win0_1.index t (0 : Fin 2) * 256 + 1 * p.val = win0_2.index t (0 : Fin 2) * 256 + 1 * p.val; omega
    | ⟨1, _⟩ => show win0_1.index t (1 : Fin 2) * 1 + 1 * 0 = 0; omega
  have hx : iblk0 V c 0 t (ix2 p q) = V c main_v8 (((cfg0.win 2).blk t).view.emb (ix2 p q)) := by
    exact congrArg (V c main_v8) h0
  have hg : iblk0 V c 1 t (ix2 p (0 : Fin 1))
      = V c main_v20 (ix2 ((((cfg0.win 2).blk t).view.emb (ix2 p q)) 0 : Fin 10240) (0 : Fin 1)) := by
    exact congrArg (V c main_v20) h1
  rw [G0_apply, hx, hg]

/-- An index of the output array is in point `t`'s block iff each coordinate is in the block's range on its axis. -/
theorem mem_blk0 (t : Fin cfg0.N) (i : S10240x128.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v33).slice (win0_2.rect t)).set ↔ _
  rw [View.set_slice_whole, Rect.mem_set_unit]
  exact Iff.rfl

/-- The 40 blocks cover the output array: row `r` lies in the block of point `r / 256`, and every point writes back. -/
theorem covered0 (i : S10240x128.Idx) :
    ∃ t : Fin cfg0.N, (cfg0.win 2).flush t = true ∧ i ∈ ((cfg0.win 2).blk t).view.set := by
  have hi0 : (i 0).val < 10240 := (i 0).isLt
  have hi1 : (i 1).val < 128 := (i 1).isLt
  have ht : (i 0).val / 256 < 40 := by omega
  refine ⟨⟨(i 0).val / 256, ht⟩, flush0_2 _, ?_⟩
  obtain ⟨-, -, -, -, e4, e5⟩ := idx_facts0 ⟨(i 0).val / 256, ht⟩
  rw [mem_blk0]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 128 ≤ (i 1).val
      ∧ (i 1).val < win0_2.index ⟨(i 0).val / 256, ht⟩ (1 : Fin 2) * 128 + 128
    rw [e5]; omega

/-- The output array after the region: `G0` of the two arrays as the region finds them, at every index. -/
theorem final0 (c : Dev nD) : (dat0 V O B c).arrAt 2 cfg0.N = G0 (V c main_v8) (V c main_v20) :=
  (dat0 V O B c).arrAt_eq_of_cover 2 _ (fun t _ => flushed0_eq V O B c t) covered0

end Value0

/-! ## Through the region's exit contents -/

/-- Region 0, entered from `W`, leaves its output array at `G0` of the features' and the degrees' arrays of `W`. -/
theorem Wx0_v33 (W : Dev nD → Valuation τ sig (Elt Ideal)) (c : Dev nD) :
    Wx0 W c (Proc.devRef .tc main_v33) = G0 (W c (Proc.devRef .tc main_v8)) (W c (Proc.devRef .tc main_v20)) :=
  (Wx0_arr W c 2).trans (final0 (Vof W) _ _ c)

end Cert.Proof.KI

end
-- ==== Proof.RegionValMatI.lean ====
/-
  The tile product of the idealized kernel's second and third pipelines read at an index, at the ideal arithmetic:
  a 256x128 block times the 128x128 weights, accumulated into zeros, is at row p, column q the sum over the
  contracted coordinate k of the products of the entries (p, k) and (k, q).
-/
import proofs.«207928_g75127567942135_cont_9to1c4b_313_20_alg».proof.Proof.Gen.KernelIdeal
import Idealize.ShloMosaic.Lib.Pipeline.Value
import Idealize.ShloMosaic.Lib.ValueIdx
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

/-- The 256x128 by 128x128 product into the zero accumulator, at an index: the contraction's one axis re-indexed by its
    coordinate, the two operand indices read off the dimension numbers. -/
theorem matmul_ix (A : FVec Ideal S256x128 .f32) (M : FVec Ideal S128x128 .f32) (p : Fin 256) (q : Fin 128) :
    matmul dot_S256x128_S128x128_S256x128_1_0_0_1_n_n none A M (constant (F := Ideal) S256x128 .f32 0x00000000#32) (ix2 p q)
      = ∑ k : Fin 128, A (ix2 p k) * M (ix2 k q) := by
  show FloatOps.matmul _ none A M _ (ix2 p q) = _
  rw [Ideal.matmul_constant_zero_apply,
    ← Equiv.sum_comp (contrEquiv1 dot_S256x128_S128x128_S256x128_1_0_0_1_n_n 128 rfl rfl).symm]
  refine Finset.sum_congr rfl fun k _ => ?_
  have c2 := contrEquiv1_symm_val dot_S256x128_S128x128_S256x128_1_0_0_1_n_n 128 rfl rfl k
  have l2 : dot_S256x128_S128x128_S256x128_1_0_0_1_n_n.lhsIdx (ix2 p q) ((contrEquiv1 _ 128 rfl rfl).symm k) = ix2 p k := by
    funext ax; apply Fin.ext
    match ax with
    | ⟨0, _⟩ => simp [DotDims.lhsIdx, dot_S256x128_S128x128_S256x128_1_0_0_1_n_n]; rfl
    | ⟨1, _⟩ => simp [DotDims.lhsIdx, dot_S256x128_S128x128_S256x128_1_0_0_1_n_n]; exact c2
  have r2 : dot_S256x128_S128x128_S256x128_1_0_0_1_n_n.rhsIdx (ix2 p q) ((contrEquiv1 _ 128 rfl rfl).symm k) = ix2 k q := by
    funext ax; apply Fin.ext
    match ax with
    | ⟨0, _⟩ => simp [DotDims.rhsIdx, dot_S256x128_S128x128_S256x128_1_0_0_1_n_n]; exact c2
    | ⟨1, _⟩ => simp [DotDims.rhsIdx, dot_S256x128_S128x128_S256x128_1_0_0_1_n_n]; rfl
  rw [l2, r2]

end Cert.Proof.KI

end
-- ==== Proof.RegionVal2I.lean ====
/-
  The value region 2 leaves, at the ideal arithmetic: after the second TensorCore pipeline the whole 10240x128
  output array is ONE function of the five arrays it reads, index by index:
  out[r, j] = max(0, sum_k (a[r, k] * rsqrt(max(1, d[r, 0]))) * W[k, j] + b[0, j]) * rsqrt(max(1, e[r, 0])).
  The body's payload is read at an index; what a grid point writes back is the point's block of that function (a
  block's row r' at point t is the array's row 256 t + r'; the weights and the bias are read whole at every point);
  the 40 blocks cover the array, row r lying in block r / 256.
-/
import proofs.«207928_g75127567942135_cont_9to1c4b_313_20_alg».proof.Proof.RegionVal0I
import proofs.«207928_g75127567942135_cont_9to1c4b_313_20_alg».proof.Proof.RegionValMatI

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

section Value2

/-! ## The specification -/

/-- Region 2's result as one function of the arrays it reads, index by index. -/
def G2 (a : FVec Ideal S10240x128 .f32) (d : FVec Ideal S10240x1 .f32) (wt : FVec Ideal S128x128 .f32) (bs : FVec Ideal S1x128 .f32) (e : FVec Ideal S10240x1 .f32) : FVec Ideal S10240x128 .f32 :=
  fun i => max ((∑ k : Fin 128, (a (ix2 (i 0 : Fin 10240) k) * Ideal.rsqrt (max (Ideal.ofBits .f32 0x3F800000#32) (d (ix2 (i 0 : Fin 10240) (0 : Fin 1))))) * wt (ix2 k (i 1 : Fin 128))) + bs (ix2 (0 : Fin 1) (i 1 : Fin 128))) (Ideal.ofBits .f32 0x00000000#32) * Ideal.rsqrt (max (Ideal.ofBits .f32 0x3F800000#32) (e (ix2 (i 0 : Fin 10240) (0 : Fin 1))))

theorem G2_apply (a : FVec Ideal S10240x128 .f32) (d : FVec Ideal S10240x1 .f32) (wt : FVec Ideal S128x128 .f32) (bs : FVec Ideal S1x128 .f32) (e : FVec Ideal S10240x1 .f32) (i : S10240x128.Idx) :
    G2 a d wt bs e i = max ((∑ k : Fin 128, (a (ix2 (i 0 : Fin 10240) k) * Ideal.rsqrt (max (Ideal.ofBits .f32 0x3F800000#32) (d (ix2 (i 0 : Fin 10240) (0 : Fin 1))))) * wt (ix2 k (i 1 : Fin 128))) + bs (ix2 (0 : Fin 1) (i 1 : Fin 128))) (Ideal.ofBits .f32 0x00000000#32) * Ideal.rsqrt (max (Ideal.ofBits .f32 0x3F800000#32) (e (ix2 (i 0 : Fin 10240) (0 : Fin 1)))) := rfl

/-! ## The body's payload at an index -/

/-- The payload at row `p`, column `q` of a block. The scaled block inside it is region 0's payload at the same two
    blocks, so its value at an index is that lemma's; the product is the sum over the contracted coordinate; the bias
    row and the degree column are broadcast along the other axis. -/
theorem pay2_apply (g : Vec Ideal S256x1 .f32) (x : Vec Ideal S256x128 .f32) (wt : Vec Ideal S128x128 .f32) (bs : Vec Ideal S1x128 .f32) (go : Vec Ideal S256x1 .f32) (p : Fin 256) (q : Fin 128) :
    k2_pay1 g x wt bs go (ix2 p q) = max ((∑ k : Fin 128, (x (ix2 p k) * Ideal.rsqrt (max (Ideal.ofBits .f32 0x3F800000#32) (g (ix2 p (0 : Fin 1))))) * wt (ix2 k q)) + bs (ix2 (0 : Fin 1) q)) (Ideal.ofBits .f32 0x00000000#32) * Ideal.rsqrt (max (Ideal.ofBits .f32 0x3F800000#32) (go (ix2 p (0 : Fin 1)))) := by
  show mulf (maximumf (addf (matmul dot_S256x128_S128x128_S256x128_1_0_0_1_n_n none (k0_pay1 g x) wt (constant (F := Ideal) S256x128 .f32 0x00000000#32))
          (broadcastTo S256x128 (shapeCast S1x128 bs shapeCasts_S1x128_S1x128) broadcasts_S1x128_S256x128))
        (broadcast S256x128 (Scalar.ofBits (F := Ideal) .f32 0x00000000#32)))
      (broadcastTo S256x128 (rsqrt (maximumf (broadcast S256x1 (Scalar.ofBits (F := Ideal) .f32 0x3F800000#32)) (shapeCast S256x1 go shapeCasts_S256x1_S256x1)))
        broadcasts_S256x1_S256x128) (ix2 p q) = _
  rw [mulf_apply, maximumf_apply, addf_apply, matmul_ix, broadcast_apply,
    broadcastTo_apply _ broadcasts_S1x128_S256x128 (ix2 p q) (ix2 (0 : Fin 1) q)
      (fun a => by match a with | ⟨0, _⟩ => rfl | ⟨1, _⟩ => rfl),
    broadcastTo_apply _ broadcasts_S256x1_S256x128 (ix2 p q) (ix2 p (0 : Fin 1))
      (fun a => by match a with | ⟨0, _⟩ => rfl | ⟨1, _⟩ => rfl),
    shapeCast_self, shapeCast_self]
  simp only [pay0_apply]
  rfl

/-! ## From blocks to the array -/

variable (V : (c : Dev nD) → (b : Ref sig .tc) → Buf (Elt Ideal) ((c : Thread nD τ).loc b))
variable (O : CellTallies nD τ sig (HIx 2)) (B : Set (SemLoc sig × HIx 2))

theorem hz2 : (![0, 0] : Fin 2 → Nat) = fun _ => 0 := funext fun a => by fin_cases a <;> rfl

/-- The printed index maps, decided over the 40 grid points: at point `t` the row windows are at block row `t`, block
    column 0; the weights' and the bias's windows stay at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

set_option maxHeartbeats 1600000 in
/-- What point `t` writes back is block `t` of `G2` of the arrays as the region finds them: a block's row `p` is the
    arrays' row `256 t + p`; the weights and the bias are read whole. -/
theorem flushed2_eq (c : Dev nD) (t : Fin cfg2.N) :
    (dat2 V O B c).flushed 5 t = ((cfg2.win 5).blk t).view.read (Elt Ideal) (G2 (V c main_v37) (V c main_v32) (V c main_arg2) (V c main_v38) (V c main_v20)) := by
  show (cfg2.win 5).cut (grid2.coords t) ((dat2 V O B c).after 5 t) = _
  rw [after2_5]
  unfold out2
  rw [View.canon_unit_zero hz2]
  simp only [View.ld_unit_zero (S := S256x128) hz2, View.ld_unit_zero (S := S256x1) hz2, View.ld_unit_zero (S := S128x128) hz2, View.ld_unit_zero (S := S1x128) hz2]
  obtain ⟨e0, e1, e2, e3, e4, e5, e6, e7, e8, e9, e10, e11⟩ := idx_facts2 t
  funext j
  obtain ⟨p, q, rfl⟩ : ∃ (p : Fin 256) (q : Fin 128), j = ix2 p q := ⟨j 0, j 1, eq_ix2 j⟩
  show k2_pay1 (iblk2 V c 1 t) (iblk2 V c 0 t) (iblk2 V c 2 t) (iblk2 V c 3 t) (iblk2 V c 4 t) (ix2 p q) = G2 (V c main_v37) (V c main_v32) (V c main_arg2) (V c main_v38) (V c main_v20) (((cfg2.win 5).blk t).view.emb (ix2 p q))
  rw [pay2_apply, G2_apply]
  have hx : ∀ k : Fin 128, iblk2 V c 0 t (ix2 p k) = V c main_v37 (ix2 ((((cfg2.win 5).blk t).view.emb (ix2 p q)) 0 : Fin 10240) k) := fun k =>
    congrArg (V c main_v37) (show ((cfg2.win 0).blk t).view.emb (ix2 p k) = ix2 ((((cfg2.win 5).blk t).view.emb (ix2 p q)) 0 : Fin 10240) k from by
      funext ax; apply Fin.ext
      match ax with
      | ⟨0, _⟩ => show win2_0.index t (0 : Fin 2) * 256 + 1 * p.val = win2_5.index t (0 : Fin 2) * 256 + 1 * p.val; omega
      | ⟨1, _⟩ => show win2_0.index t (1 : Fin 2) * 128 + 1 * k.val = k.val; omega)
  have hg : iblk2 V c 1 t (ix2 p (0 : Fin 1)) = V c main_v32 (ix2 ((((cfg2.win 5).blk t).view.emb (ix2 p q)) 0 : Fin 10240) (0 : Fin 1)) :=
    congrArg (V c main_v32) (show ((cfg2.win 1).blk t).view.emb (ix2 p (0 : Fin 1)) = ix2 ((((cfg2.win 5).blk t).view.emb (ix2 p q)) 0 : Fin 10240) (0 : Fin 1) from by
      funext ax; apply Fin.ext
      match ax with
      | ⟨0, _⟩ => show win2_1.index t (0 : Fin 2) * 256 + 1 * p.val = win2_5.index t (0 : Fin 2) * 256 + 1 * p.val; omega
      | ⟨1, _⟩ => show win2_1.index t (1 : Fin 2) * 1 + 1 * 0 = 0; omega)
  have hw : ∀ k : Fin 128, iblk2 V c 2 t (ix2 k q) = V c main_arg2 (ix2 k ((((cfg2.win 5).blk t).view.emb (ix2 p q)) 1 : Fin 128)) := fun k =>
    congrArg (V c main_arg2) (show ((cfg2.win 2).blk t).view.emb (ix2 k q) = ix2 k ((((cfg2.win 5).blk t).view.emb (ix2 p q)) 1 : Fin 128) from by
      funext ax; apply Fin.ext
      match ax with
      | ⟨0, _⟩ => show win2_2.index t (0 : Fin 2) * 128 + 1 * k.val = k.val; omega
      | ⟨1, _⟩ => show win2_2.index t (1 : Fin 2) * 128 + 1 * q.val = win2_5.index t (1 : Fin 2) * 128 + 1 * q.val; omega)
  have hb : iblk2 V c 3 t (ix2 (0 : Fin 1) q) = V c main_v38 (ix2 (0 : Fin 1) ((((cfg2.win 5).blk t).view.emb (ix2 p q)) 1 : Fin 128)) :=
    congrArg (V c main_v38) (show ((cfg2.win 3).blk t).view.emb (ix2 (0 : Fin 1) q) = ix2 (0 : Fin 1) ((((cfg2.win 5).blk t).view.emb (ix2 p q)) 1 : Fin 128) from by
      funext ax; apply Fin.ext
      match ax with
      | ⟨0, _⟩ => show win2_3.index t (0 : Fin 2) * 1 + 1 * 0 = 0; omega
      | ⟨1, _⟩ => show win2_3.index t (1 : Fin 2) * 128 + 1 * q.val = win2_5.index t (1 : Fin 2) * 128 + 1 * q.val; omega)
  have he : iblk2 V c 4 t (ix2 p (0 : Fin 1)) = V c main_v20 (ix2 ((((cfg2.win 5).blk t).view.emb (ix2 p q)) 0 : Fin 10240) (0 : Fin 1)) :=
    congrArg (V c main_v20) (show ((cfg2.win 4).blk t).view.emb (ix2 p (0 : Fin 1)) = ix2 ((((cfg2.win 5).blk t).view.emb (ix2 p q)) 0 : Fin 10240) (0 : Fin 1) from by
      funext ax; apply Fin.ext
      match ax with
      | ⟨0, _⟩ => show win2_4.index t (0 : Fin 2) * 256 + 1 * p.val = win2_5.index t (0 : Fin 2) * 256 + 1 * p.val; omega
      | ⟨1, _⟩ => show win2_4.index t (1 : Fin 2) * 1 + 1 * 0 = 0; omega)
  simp only [hx, hw]
  rw [hg, hb, he]

/-- An index of the output array is in point `t`'s block iff each coordinate is in the block's range on its axis. -/
theorem mem_blk2 (t : Fin cfg2.N) (i : S10240x128.Idx) :
    i ∈ ((cfg2.win 5).blk t).view.set ↔ ∀ a : Fin 2, win2_5.index t a * S256x128.size a ≤ (i a).val
      ∧ (i a).val < win2_5.index t a * S256x128.size a + S256x128.size a := by
  show i ∈ ((View.whole main_v39).slice (win2_5.rect t)).set ↔ _
  rw [View.set_slice_whole, Rect.mem_set_unit]
  exact Iff.rfl

/-- The 40 blocks cover the output array: row `r` lies in the block of point `r / 256`, and every point writes back. -/
theorem covered2 (i : S10240x128.Idx) :
    ∃ t : Fin cfg2.N, (cfg2.win 5).flush t = true ∧ i ∈ ((cfg2.win 5).blk t).view.set := by
  have hi0 : (i 0).val < 10240 := (i 0).isLt
  have hi1 : (i 1).val < 128 := (i 1).isLt
  have ht : (i 0).val / 256 < 40 := by omega
  refine ⟨⟨(i 0).val / 256, ht⟩, flush2_5 _, ?_⟩
  obtain ⟨e0, e1, e2, e3, e4, e5, e6, e7, e8, e9, e10, e11⟩ := idx_facts2 ⟨(i 0).val / 256, ht⟩
  rw [mem_blk2]
  intro a
  match a with
  | ⟨0, _⟩ =>
    show win2_5.index ⟨(i 0).val / 256, ht⟩ (0 : Fin 2) * 256 ≤ (i 0).val
      ∧ (i 0).val < win2_5.index ⟨(i 0).val / 256, ht⟩ (0 : Fin 2) * 256 + 256
    rw [e6]; show (i 0).val / 256 * 256 ≤ (i 0).val ∧ (i 0).val < (i 0).val / 256 * 256 + 256; omega
  | ⟨1, _⟩ =>
    show win2_5.index ⟨(i 0).val / 256, ht⟩ (1 : Fin 2) * 128 ≤ (i 1).val
      ∧ (i 1).val < win2_5.index ⟨(i 0).val / 256, ht⟩ (1 : Fin 2) * 128 + 128
    rw [e7]; omega

/-- The output array after the region: `G2` of the arrays as the region finds them, at every index. -/
theorem final2 (c : Dev nD) : (dat2 V O B c).arrAt 5 cfg2.N = G2 (V c main_v37) (V c main_v32) (V c main_arg2) (V c main_v38) (V c main_v20) :=
  (dat2 V O B c).arrAt_eq_of_cover 5 _ (fun t _ => flushed2_eq V O B c t) covered2

end Value2

/-! ## Through the region's exit contents -/

/-- Region 2, entered from `W`, leaves its output array at `G2` of the arrays of `W` it reads. -/
theorem Wx2_v39 (W : Dev nD → Valuation τ sig (Elt Ideal)) (c : Dev nD) :
    Wx2 W c (Proc.devRef .tc main_v39) = G2 (W c (Proc.devRef .tc main_v37)) (W c (Proc.devRef .tc main_v32)) (W c (Proc.devRef .tc main_arg2)) (W c (Proc.devRef .tc main_v38)) (W c (Proc.devRef .tc main_v20)) :=
  (Wx2_arr W c 5).trans (final2 (Vof W) _ _ c)

end Cert.Proof.KI

end
-- ==== Proof.RegionVal4I.lean ====
/-
  The value region 4 leaves, at the ideal arithmetic: after the third TensorCore pipeline the whole 10240x128
  output array is ONE function of the four arrays it reads, index by index:
  out[r, j] = sum_k (a[r, k] * rsqrt(max(1, d[r, 0]))) * W[k, j] + b[0, j].
  The body's payload is read at an index; what a grid point writes back is the point's block of that function (a
  block's row r' at point t is the array's row 256 t + r'; the weights and the bias are read whole at every point);
  the 40 blocks cover the array, row r lying in block r / 256.
-/
import proofs.«207928_g75127567942135_cont_9to1c4b_313_20_alg».proof.Proof.RegionVal0I
import proofs.«207928_g75127567942135_cont_9to1c4b_313_20_alg».proof.Proof.RegionValMatI

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

section Value4

/-! ## The specification -/

/-- Region 4's result as one function of the arrays it reads, index by index. -/
def G4 (a : FVec Ideal S10240x128 .f32) (d : FVec Ideal S10240x1 .f32) (wt : FVec Ideal S128x128 .f32) (bs : FVec Ideal S1x128 .f32) : FVec Ideal S10240x128 .f32 :=
  fun i => (∑ k : Fin 128, (a (ix2 (i 0 : Fin 10240) k) * Ideal.rsqrt (max (Ideal.ofBits .f32 0x3F800000#32) (d (ix2 (i 0 : Fin 10240) (0 : Fin 1))))) * wt (ix2 k (i 1 : Fin 128))) + bs (ix2 (0 : Fin 1) (i 1 : Fin 128))

theorem G4_apply (a : FVec Ideal S10240x128 .f32) (d : FVec Ideal S10240x1 .f32) (wt : FVec Ideal S128x128 .f32) (bs : FVec Ideal S1x128 .f32) (i : S10240x128.Idx) :
    G4 a d wt bs i = (∑ k : Fin 128, (a (ix2 (i 0 : Fin 10240) k) * Ideal.rsqrt (max (Ideal.ofBits .f32 0x3F800000#32) (d (ix2 (i 0 : Fin 10240) (0 : Fin 1))))) * wt (ix2 k (i 1 : Fin 128))) + bs (ix2 (0 : Fin 1) (i 1 : Fin 128)) := rfl

/-! ## The body's payload at an index -/

/-- The payload at row `p`, column `q` of a block. The scaled block inside it is region 0's payload at the same two
    blocks, so its value at an index is that lemma's; the product is the sum over the contracted coordinate; the bias
    row and the degree column are broadcast along the other axis. -/
theorem pay4_apply (g : Vec Ideal S256x1 .f32) (x : Vec Ideal S256x128 .f32) (wt : Vec Ideal S128x128 .f32) (bs : Vec Ideal S1x128 .f32) (p : Fin 256) (q : Fin 128) :
    k4_pay1 g x wt bs (ix2 p q) = (∑ k : Fin 128, (x (ix2 p k) * Ideal.rsqrt (max (Ideal.ofBits .f32 0x3F800000#32) (g (ix2 p (0 : Fin 1))))) * wt (ix2 k q)) + bs (ix2 (0 : Fin 1) q) := by
  show addf (matmul dot_S256x128_S128x128_S256x128_1_0_0_1_n_n none (k0_pay1 g x) wt (constant (F := Ideal) S256x128 .f32 0x00000000#32))
        (broadcastTo S256x128 (shapeCast S1x128 bs shapeCasts_S1x128_S1x128) broadcasts_S1x128_S256x128) (ix2 p q) = _
  rw [addf_apply, matmul_ix,
    broadcastTo_apply _ broadcasts_S1x128_S256x128 (ix2 p q) (ix2 (0 : Fin 1) q)
      (fun a => by match a with | ⟨0, _⟩ => rfl | ⟨1, _⟩ => rfl),
    shapeCast_self]
  simp only [pay0_apply]

/-! ## From blocks to the array -/

variable (V : (c : Dev nD) → (b : Ref sig .tc) → Buf (Elt Ideal) ((c : Thread nD τ).loc b))
variable (O : CellTallies nD τ sig (HIx 2)) (B : Set (SemLoc sig × HIx 2))

theorem hz4 : (![0, 0] : Fin 2 → Nat) = fun _ => 0 := funext fun a => by fin_cases a <;> rfl

/-- The printed index maps, decided over the 40 grid points: at point `t` the row windows are at block row `t`, block
    column 0; the weights' and the bias's windows stay at block (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_4.index t (0 : Fin 2) = t.val ∧ win4_4.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What point `t` writes back is block `t` of `G4` of the arrays as the region finds them: a block's row `p` is the
    arrays' row `256 t + p`; the weights and the bias are read whole. -/
theorem flushed4_eq (c : Dev nD) (t : Fin cfg4.N) :
    (dat4 V O B c).flushed 4 t = ((cfg4.win 4).blk t).view.read (Elt Ideal) (G4 (V c main_v43) (V c main_v32) (V c main_arg4) (V c main_v44)) := by
  show (cfg4.win 4).cut (grid4.coords t) ((dat4 V O B c).after 4 t) = _
  rw [after4_4]
  unfold out4
  rw [View.canon_unit_zero hz4]
  simp only [View.ld_unit_zero (S := S256x128) hz4, View.ld_unit_zero (S := S256x1) hz4, View.ld_unit_zero (S := S128x128) hz4, View.ld_unit_zero (S := S1x128) hz4]
  obtain ⟨e0, e1, e2, e3, e4, e5, e6, e7, e8, e9⟩ := idx_facts4 t
  funext j
  obtain ⟨p, q, rfl⟩ : ∃ (p : Fin 256) (q : Fin 128), j = ix2 p q := ⟨j 0, j 1, eq_ix2 j⟩
  show k4_pay1 (iblk4 V c 1 t) (iblk4 V c 0 t) (iblk4 V c 2 t) (iblk4 V c 3 t) (ix2 p q) = G4 (V c main_v43) (V c main_v32) (V c main_arg4) (V c main_v44) (((cfg4.win 4).blk t).view.emb (ix2 p q))
  rw [pay4_apply, G4_apply]
  have hx : ∀ k : Fin 128, iblk4 V c 0 t (ix2 p k) = V c main_v43 (ix2 ((((cfg4.win 4).blk t).view.emb (ix2 p q)) 0 : Fin 10240) k) := fun k =>
    congrArg (V c main_v43) (show ((cfg4.win 0).blk t).view.emb (ix2 p k) = ix2 ((((cfg4.win 4).blk t).view.emb (ix2 p q)) 0 : Fin 10240) k from by
      funext ax; apply Fin.ext
      match ax with
      | ⟨0, _⟩ => show win4_0.index t (0 : Fin 2) * 256 + 1 * p.val = win4_4.index t (0 : Fin 2) * 256 + 1 * p.val; omega
      | ⟨1, _⟩ => show win4_0.index t (1 : Fin 2) * 128 + 1 * k.val = k.val; omega)
  have hg : iblk4 V c 1 t (ix2 p (0 : Fin 1)) = V c main_v32 (ix2 ((((cfg4.win 4).blk t).view.emb (ix2 p q)) 0 : Fin 10240) (0 : Fin 1)) :=
    congrArg (V c main_v32) (show ((cfg4.win 1).blk t).view.emb (ix2 p (0 : Fin 1)) = ix2 ((((cfg4.win 4).blk t).view.emb (ix2 p q)) 0 : Fin 10240) (0 : Fin 1) from by
      funext ax; apply Fin.ext
      match ax with
      | ⟨0, _⟩ => show win4_1.index t (0 : Fin 2) * 256 + 1 * p.val = win4_4.index t (0 : Fin 2) * 256 + 1 * p.val; omega
      | ⟨1, _⟩ => show win4_1.index t (1 : Fin 2) * 1 + 1 * 0 = 0; omega)
  have hw : ∀ k : Fin 128, iblk4 V c 2 t (ix2 k q) = V c main_arg4 (ix2 k ((((cfg4.win 4).blk t).view.emb (ix2 p q)) 1 : Fin 128)) := fun k =>
    congrArg (V c main_arg4) (show ((cfg4.win 2).blk t).view.emb (ix2 k q) = ix2 k ((((cfg4.win 4).blk t).view.emb (ix2 p q)) 1 : Fin 128) from by
      funext ax; apply Fin.ext
      match ax with
      | ⟨0, _⟩ => show win4_2.index t (0 : Fin 2) * 128 + 1 * k.val = k.val; omega
      | ⟨1, _⟩ => show win4_2.index t (1 : Fin 2) * 128 + 1 * q.val = win4_4.index t (1 : Fin 2) * 128 + 1 * q.val; omega)
  have hb : iblk4 V c 3 t (ix2 (0 : Fin 1) q) = V c main_v44 (ix2 (0 : Fin 1) ((((cfg4.win 4).blk t).view.emb (ix2 p q)) 1 : Fin 128)) :=
    congrArg (V c main_v44) (show ((cfg4.win 3).blk t).view.emb (ix2 (0 : Fin 1) q) = ix2 (0 : Fin 1) ((((cfg4.win 4).blk t).view.emb (ix2 p q)) 1 : Fin 128) from by
      funext ax; apply Fin.ext
      match ax with
      | ⟨0, _⟩ => show win4_3.index t (0 : Fin 2) * 1 + 1 * 0 = 0; omega
      | ⟨1, _⟩ => show win4_3.index t (1 : Fin 2) * 128 + 1 * q.val = win4_4.index t (1 : Fin 2) * 128 + 1 * q.val; omega)
  simp only [hx, hw]
  rw [hg, hb]

/-- An index of the output array is in point `t`'s block iff each coordinate is in the block's range on its axis. -/
theorem mem_blk4 (t : Fin cfg4.N) (i : S10240x128.Idx) :
    i ∈ ((cfg4.win 4).blk t).view.set ↔ ∀ a : Fin 2, win4_4.index t a * S256x128.size a ≤ (i a).val
      ∧ (i a).val < win4_4.index t a * S256x128.size a + S256x128.size a := by
  show i ∈ ((View.whole main_v45).slice (win4_4.rect t)).set ↔ _
  rw [View.set_slice_whole, Rect.mem_set_unit]
  exact Iff.rfl

/-- The 40 blocks cover the output array: row `r` lies in the block of point `r / 256`, and every point writes back. -/
theorem covered4 (i : S10240x128.Idx) :
    ∃ t : Fin cfg4.N, (cfg4.win 4).flush t = true ∧ i ∈ ((cfg4.win 4).blk t).view.set := by
  have hi0 : (i 0).val < 10240 := (i 0).isLt
  have hi1 : (i 1).val < 128 := (i 1).isLt
  have ht : (i 0).val / 256 < 40 := by omega
  refine ⟨⟨(i 0).val / 256, ht⟩, flush4_4 _, ?_⟩
  obtain ⟨e0, e1, e2, e3, e4, e5, e6, e7, e8, e9⟩ := idx_facts4 ⟨(i 0).val / 256, ht⟩
  rw [mem_blk4]
  intro a
  match a with
  | ⟨0, _⟩ =>
    show win4_4.index ⟨(i 0).val / 256, ht⟩ (0 : Fin 2) * 256 ≤ (i 0).val
      ∧ (i 0).val < win4_4.index ⟨(i 0).val / 256, ht⟩ (0 : Fin 2) * 256 + 256
    rw [e4]; show (i 0).val / 256 * 256 ≤ (i 0).val ∧ (i 0).val < (i 0).val / 256 * 256 + 256; omega
  | ⟨1, _⟩ =>
    show win4_4.index ⟨(i 0).val / 256, ht⟩ (1 : Fin 2) * 128 ≤ (i 1).val
      ∧ (i 1).val < win4_4.index ⟨(i 0).val / 256, ht⟩ (1 : Fin 2) * 128 + 128
    rw [e5]; omega

/-- The output array after the region: `G4` of the arrays as the region finds them, at every index. -/
theorem final4 (c : Dev nD) : (dat4 V O B c).arrAt 4 cfg4.N = G4 (V c main_v43) (V c main_v32) (V c main_arg4) (V c main_v44) :=
  (dat4 V O B c).arrAt_eq_of_cover 4 _ (fun t _ => flushed4_eq V O B c t) covered4

end Value4

/-! ## Through the region's exit contents -/

/-- Region 4, entered from `W`, leaves its output array at `G4` of the arrays of `W` it reads. -/
theorem Wx4_v45 (W : Dev nD → Valuation τ sig (Elt Ideal)) (c : Dev nD) :
    Wx4 W c (Proc.devRef .tc main_v45) = G4 (W c (Proc.devRef .tc main_v43)) (W c (Proc.devRef .tc main_v32)) (W c (Proc.devRef .tc main_arg4)) (W c (Proc.devRef .tc main_v44)) :=
  (Wx4_arr W c 4).trans (final4 (Vof W) _ _ c)

end Cert.Proof.KI

end
-- ==== Proof.RegionValsI.lean ====
/-
  What the three TensorCore regions of the idealized kernel leave, together: every buffer a region does not write
  read back through its exit contents, and each region's output array as one function of the arrays it reads, at the
  ideal arithmetic.
-/
import proofs.«207928_g75127567942135_cont_9to1c4b_313_20_alg».proof.Proof.RegionReadI
import proofs.«207928_g75127567942135_cont_9to1c4b_313_20_alg».proof.Proof.RegionVal0I
import proofs.«207928_g75127567942135_cont_9to1c4b_313_20_alg».proof.Proof.RegionVal2I
import proofs.«207928_g75127567942135_cont_9to1c4b_313_20_alg».proof.Proof.RegionVal4I
-- ==== Proof.KernelWalkI.lean ====
/-
  The fold of buffer contents through the idealized kernel's @main, read at the buffers the result depends on, at the
  ideal arithmetic: each host stretch between regions at the buffers it writes and at those it leaves alone; each
  gather call's output; each region's output and the buffers it does not write. Composed, the third region's output
  array is the three regions' functions and two aggregations applied to what the first host stretch leaves.
-/
import proofs.«207928_g75127567942135_cont_9to1c4b_313_20_alg».proof.Proof.ChainI
import proofs.«207928_g75127567942135_cont_9to1c4b_313_20_alg».proof.Proof.GatherSpecI
import proofs.«207928_g75127567942135_cont_9to1c4b_313_20_alg».proof.Proof.RegionValsI
import Idealize.ShloMosaic.Lib.StableHlo.Run

set_option maxRecDepth 16384

noncomputable section

namespace Cert.Proof.KI

open Cert.KernelIdeal Cert.KernelIdeal.Gen
open Idealize.ShloMosaic Idealize.ShloMosaic.TcCoe Idealize.ShloMosaic.ValueIdx Idealize.ShloMosaic.StableHlo
open Idealize.ShloMosaic.SparseCore.Cfg (HIx)
open Idealize.SL.Sem
open Idealize.ShloMosaic.Pipeline (Dat)

/-! ## The host stretches between the regions, at any starting contents -/

section Stretches

variable (V : Valuation τ sig (Elt Ideal))

/-- The second stretch writes the first aggregation: the first gather's rows summed by destination into zeros; -/
theorem opsB_v37 : after (opsB (F := Ideal)) V (Proc.devRef .tc main_v37 : DevRef τ sig)
    = Host.scatterAdd (F := Ideal) scatter_S10240x128_S327680x1_S327680x128_1_0_0_1 (broadcastInDim S10240x128 ![] bcast_S_S10240x128 (constant (F := Ideal) S_ .f32 0x00000000#32)) (broadcastInDim S327680x1 ![0] bcast_S327680_S327680x1_0 (V (Proc.devRef .tc main_v7 : DevRef τ sig))) (V (Proc.devRef .tc main_v34 : DevRef τ sig)) := by
  after_results; all_goals rfl
/-- and the first bias as a row; -/
theorem opsB_v38 : after (opsB (F := Ideal)) V (Proc.devRef .tc main_v38 : DevRef τ sig) = shapeCast S1x128 (V (Proc.devRef .tc main_arg3 : DevRef τ sig)) shapeCasts_S128_S1x128 := by
  after_results; all_goals rfl
/-- it leaves the degree columns, the edge tables and the weights alone. -/
theorem opsB_v32 : after (opsB (F := Ideal)) V (Proc.devRef .tc main_v32 : DevRef τ sig) = V (Proc.devRef .tc main_v32 : DevRef τ sig) := by
  after_results; all_goals rfl
theorem opsB_v20 : after (opsB (F := Ideal)) V (Proc.devRef .tc main_v20 : DevRef τ sig) = V (Proc.devRef .tc main_v20 : DevRef τ sig) := by
  after_results; all_goals rfl
theorem opsB_v7 : after (opsB (F := Ideal)) V (Proc.devRef .tc main_v7 : DevRef τ sig) = V (Proc.devRef .tc main_v7 : DevRef τ sig) := by
  after_results; all_goals rfl
theorem opsB_v6I : after (opsB (F := Ideal)) V (Proc.devRef .tc main_v6 : DevRef τ sig) = V (Proc.devRef .tc main_v6 : DevRef τ sig) := by
  after_results; all_goals rfl

/-- The third stretch writes the second aggregation -/
theorem opsC_v43 : after (opsC (F := Ideal)) V (Proc.devRef .tc main_v43 : DevRef τ sig)
    = Host.scatterAdd (F := Ideal) scatter_S10240x128_S327680x1_S327680x128_1_0_0_1 (broadcastInDim S10240x128 ![] bcast_S_S10240x128 (constant (F := Ideal) S_ .f32 0x00000000#32)) (broadcastInDim S327680x1 ![0] bcast_S327680_S327680x1_0 (V (Proc.devRef .tc main_v7 : DevRef τ sig))) (V (Proc.devRef .tc main_v40 : DevRef τ sig)) := by
  after_results; all_goals rfl
/-- and the second bias as a row, -/
theorem opsC_v44 : after (opsC (F := Ideal)) V (Proc.devRef .tc main_v44 : DevRef τ sig) = shapeCast S1x128 (V (Proc.devRef .tc main_arg5 : DevRef τ sig)) shapeCasts_S128_S1x128 := by
  after_results; all_goals rfl
/-- and leaves the in-degree column and the edge tables alone. -/
theorem opsC_v32 : after (opsC (F := Ideal)) V (Proc.devRef .tc main_v32 : DevRef τ sig) = V (Proc.devRef .tc main_v32 : DevRef τ sig) := by
  after_results; all_goals rfl
theorem opsC_v7 : after (opsC (F := Ideal)) V (Proc.devRef .tc main_v7 : DevRef τ sig) = V (Proc.devRef .tc main_v7 : DevRef τ sig) := by
  after_results; all_goals rfl
theorem opsC_v6 : after (opsC (F := Ideal)) V (Proc.devRef .tc main_v6 : DevRef τ sig) = V (Proc.devRef .tc main_v6 : DevRef τ sig) := by
  after_results; all_goals rfl

/-- The last stretch: the first 10000 rows of the third region's output. -/
theorem opsD_v46 : after (opsD (F := Ideal)) V (Proc.devRef .tc main_v46 : DevRef τ sig)
    = extractStridedSlice S10000x128 ![0, 0] (V (Proc.devRef .tc main_v45 : DevRef τ sig)) slices_S10240x128_S10000x128_0_0 := by
  after_results; all_goals rfl

end Stretches

/-! ## Along the fold -/

section Fold

variable (m : (ℓ : Loc nD τ sig) → Buf (Elt Ideal) ℓ)
  (g0 : (d : Dev nD) → Buf (Elt Ideal) (oLoc0 d)) (g1 : (d : Dev nD) → Buf (Elt Ideal) (oLoc1 d)) (d : Dev nD)

/-- After the first gather call: its output buffer holds the gathered rows, every other buffer what the first region left. -/
theorem Wd_v34 : Wd m g0 d (Proc.devRef .tc main_v34 : DevRef τ sig) = g0 d := Function.update_self _ _ _
theorem Wd_of_ne (b : DevRef τ sig) (hb : b ≠ o0') : Wd m g0 d b = Wc m d b := Function.update_of_ne hb _ _
/-- After the second gather call, likewise. -/
theorem Wg_v40 : Wg m g0 g1 d (Proc.devRef .tc main_v40 : DevRef τ sig) = g1 d := Function.update_self _ _ _
theorem Wg_of_ne (b : DevRef τ sig) (hb : b ≠ o1') : Wg m g0 g1 d b = Wf m g0 d b := Function.update_of_ne hb _ _

/-- What the first host stretch leaves, by name: the padded features, the two degree columns, the source table, the
    padded destinations. -/
abbrev x8 : FVec Ideal S10240x128 .f32 := Wb m d (Proc.devRef .tc main_v8 : DevRef τ sig)
abbrev d20 : FVec Ideal S10240x1 .f32 := Wb m d (Proc.devRef .tc main_v20 : DevRef τ sig)
abbrev d32 : FVec Ideal S10240x1 .f32 := Wb m d (Proc.devRef .tc main_v32 : DevRef τ sig)
abbrev t6 : S2560x128.Idx → BitVec 32 := Wb m d (Proc.devRef .tc main_v6 : DevRef τ sig)
abbrev i7 : IVec S327680 32 := Wb m d (Proc.devRef .tc main_v7 : DevRef τ sig)

/-- The first region's output, along the fold. -/
theorem Wc_v33 : Wc m d (Proc.devRef .tc main_v33 : DevRef τ sig) = G0 (x8 m d) (d20 m d) := Wx0_v33 (Wb m) d

/-- The first aggregation, along the fold. -/
theorem We_v37 (hg0 : g0 d = gatherRows (F := Ideal) (Wc m d h0') (Wc m d s')) :
    We m g0 d (Proc.devRef .tc main_v37 : DevRef τ sig)
      = Host.scatterAdd (F := Ideal) scatter_S10240x128_S327680x1_S327680x128_1_0_0_1 (broadcastInDim S10240x128 ![] bcast_S_S10240x128 (constant (F := Ideal) S_ .f32 0x00000000#32)) (broadcastInDim S327680x1 ![0] bcast_S327680_S327680x1_0 (i7 m d)) (gatherRows (F := Ideal) (G0 (x8 m d) (d20 m d)) (t6 m d)) := by
  show after (opsB (F := Ideal)) (Wd m g0 d) _ = _
  rw [opsB_v37, Wd_v34, Wd_of_ne m g0 d (Proc.devRef .tc main_v7 : DevRef τ sig) (by decide), hg0]
  show Host.scatterAdd (F := Ideal) scatter_S10240x128_S327680x1_S327680x128_1_0_0_1 _ (broadcastInDim S327680x1 ![0] bcast_S327680_S327680x1_0 (Wx0 (Wb m) d (Proc.devRef .tc main_v7 : DevRef τ sig)))
      (gatherRows (F := Ideal) (Wx0 (Wb m) d (Proc.devRef .tc main_v33 : DevRef τ sig)) (Wx0 (Wb m) d (Proc.devRef .tc main_v6 : DevRef τ sig))) = _
  rw [Wx0_v7, Wx0_v33, Wx0_v6]

/-- The buffers the second region reads besides the aggregation, along the fold. -/
theorem We_v32 : We m g0 d (Proc.devRef .tc main_v32 : DevRef τ sig) = d32 m d := by
  show after (opsB (F := Ideal)) (Wd m g0 d) _ = _
  rw [opsB_v32, Wd_of_ne m g0 d _ (by decide)]; exact Wx0_v32 (Wb m) d
theorem We_v20 : We m g0 d (Proc.devRef .tc main_v20 : DevRef τ sig) = d20 m d := by
  show after (opsB (F := Ideal)) (Wd m g0 d) _ = _
  rw [opsB_v20, Wd_of_ne m g0 d _ (by decide)]; exact Wx0_v20 (Wb m) d
theorem We_v7 : We m g0 d (Proc.devRef .tc main_v7 : DevRef τ sig) = i7 m d := by
  show after (opsB (F := Ideal)) (Wd m g0 d) _ = _
  rw [opsB_v7, Wd_of_ne m g0 d _ (by decide)]; exact Wx0_v7 (Wb m) d
theorem We_v6 : We m g0 d (Proc.devRef .tc main_v6 : DevRef τ sig) = t6 m d := by
  show after (opsB (F := Ideal)) (Wd m g0 d) _ = _
  rw [opsB_v6I, Wd_of_ne m g0 d _ (by decide)]; exact Wx0_v6 (Wb m) d
theorem We_arg2 : We m g0 d (Proc.devRef .tc main_arg2 : DevRef τ sig) = Wb m d (Proc.devRef .tc main_arg2 : DevRef τ sig) := by
  show after (opsB (F := Ideal)) (Wd m g0 d) _ = _
  rw [opsB_arg2, Wd_of_ne m g0 d _ (by decide)]; exact Wx0_arg2 (Wb m) d
theorem We_v38 : We m g0 d (Proc.devRef .tc main_v38 : DevRef τ sig) = shapeCast S1x128 (Wb m d (Proc.devRef .tc main_arg3 : DevRef τ sig)) shapeCasts_S128_S1x128 := by
  show after (opsB (F := Ideal)) (Wd m g0 d) _ = _
  rw [opsB_v38, Wd_of_ne m g0 d _ (by decide)]
  exact congrArg (fun x => shapeCast S1x128 x shapeCasts_S128_S1x128) (Wx0_arg3 (Wb m) d)
theorem We_arg4 : We m g0 d (Proc.devRef .tc main_arg4 : DevRef τ sig) = Wb m d (Proc.devRef .tc main_arg4 : DevRef τ sig) := by
  rw [show We m g0 d (Proc.devRef .tc main_arg4 : DevRef τ sig) = Wd m g0 d (Proc.devRef .tc main_arg4 : DevRef τ sig) from opsB_arg4 _, Wd_of_ne m g0 d _ (by decide)]
  exact Wx0_arg4 (Wb m) d
theorem We_arg5 : We m g0 d (Proc.devRef .tc main_arg5 : DevRef τ sig) = Wb m d (Proc.devRef .tc main_arg5 : DevRef τ sig) := by
  rw [show We m g0 d (Proc.devRef .tc main_arg5 : DevRef τ sig) = Wd m g0 d (Proc.devRef .tc main_arg5 : DevRef τ sig) from opsB_arg5 _, Wd_of_ne m g0 d _ (by decide)]
  exact Wx0_arg5 (Wb m) d

/-- The second region's output, along the fold. -/
theorem Wf_v39 (hg0 : g0 d = gatherRows (F := Ideal) (Wc m d h0') (Wc m d s')) :
    Wf m g0 d (Proc.devRef .tc main_v39 : DevRef τ sig)
      = G2 (Host.scatterAdd (F := Ideal) scatter_S10240x128_S327680x1_S327680x128_1_0_0_1 (broadcastInDim S10240x128 ![] bcast_S_S10240x128 (constant (F := Ideal) S_ .f32 0x00000000#32)) (broadcastInDim S327680x1 ![0] bcast_S327680_S327680x1_0 (i7 m d)) (gatherRows (F := Ideal) (G0 (x8 m d) (d20 m d)) (t6 m d)))
          (d32 m d) (Wb m d (Proc.devRef .tc main_arg2 : DevRef τ sig)) (shapeCast S1x128 (Wb m d (Proc.devRef .tc main_arg3 : DevRef τ sig)) shapeCasts_S128_S1x128) (d20 m d) := by
  rw [show Wf m g0 d (Proc.devRef .tc main_v39 : DevRef τ sig) = _ from Wx2_v39 (We m g0) d, We_v37 m g0 d hg0, We_v32, We_arg2, We_v38, We_v20]

/-- THE THIRD REGION'S OUTPUT, along the fold: the composition over what the first host stretch leaves. -/
theorem Wi_v45 (hg0 : g0 d = gatherRows (F := Ideal) (Wc m d h0') (Wc m d s'))
    (hg1 : g1 d = gatherRows (F := Ideal) (Wf m g0 d h1') (Wf m g0 d s')) :
    Wi m g0 g1 d (Proc.devRef .tc main_v45 : DevRef τ sig)
      = G4 (Host.scatterAdd (F := Ideal) scatter_S10240x128_S327680x1_S327680x128_1_0_0_1 (broadcastInDim S10240x128 ![] bcast_S_S10240x128 (constant (F := Ideal) S_ .f32 0x00000000#32)) (broadcastInDim S327680x1 ![0] bcast_S327680_S327680x1_0 (i7 m d))
            (gatherRows (F := Ideal)
              (G2 (Host.scatterAdd (F := Ideal) scatter_S10240x128_S327680x1_S327680x128_1_0_0_1 (broadcastInDim S10240x128 ![] bcast_S_S10240x128 (constant (F := Ideal) S_ .f32 0x00000000#32)) (broadcastInDim S327680x1 ![0] bcast_S327680_S327680x1_0 (i7 m d)) (gatherRows (F := Ideal) (G0 (x8 m d) (d20 m d)) (t6 m d)))
                (d32 m d) (Wb m d (Proc.devRef .tc main_arg2 : DevRef τ sig)) (shapeCast S1x128 (Wb m d (Proc.devRef .tc main_arg3 : DevRef τ sig)) shapeCasts_S128_S1x128) (d20 m d))
              (t6 m d)))
          (d32 m d) (Wb m d (Proc.devRef .tc main_arg4 : DevRef τ sig)) (shapeCast S1x128 (Wb m d (Proc.devRef .tc main_arg5 : DevRef τ sig)) shapeCasts_S128_S1x128) := by
  rw [show Wi m g0 g1 d (Proc.devRef .tc main_v45 : DevRef τ sig) = _ from Wx4_v45 (Wh m g0 g1) d]
  have h43 : Wh m g0 g1 d (Proc.devRef .tc main_v43 : DevRef τ sig)
      = Host.scatterAdd (F := Ideal) scatter_S10240x128_S327680x1_S327680x128_1_0_0_1 (broadcastInDim S10240x128 ![] bcast_S_S10240x128 (constant (F := Ideal) S_ .f32 0x00000000#32)) (broadcastInDim S327680x1 ![0] bcast_S327680_S327680x1_0 (i7 m d))
          (gatherRows (F := Ideal) (Wf m g0 d (Proc.devRef .tc main_v39 : DevRef τ sig)) (t6 m d)) := by
    show after (opsC (F := Ideal)) (Wg m g0 g1 d) _ = _
    rw [opsC_v43, Wg_v40, Wg_of_ne m g0 g1 d (Proc.devRef .tc main_v7 : DevRef τ sig) (by decide), hg1]
    show Host.scatterAdd (F := Ideal) scatter_S10240x128_S327680x1_S327680x128_1_0_0_1 _ (broadcastInDim S327680x1 ![0] bcast_S327680_S327680x1_0 (Wx2 (We m g0) d (Proc.devRef .tc main_v7 : DevRef τ sig)))
        (gatherRows (F := Ideal) (Wf m g0 d (Proc.devRef .tc main_v39 : DevRef τ sig)) (Wx2 (We m g0) d (Proc.devRef .tc main_v6 : DevRef τ sig))) = _
    rw [Wx2_v7, Wx2_v6, We_v7, We_v6]
  have h32 : Wh m g0 g1 d (Proc.devRef .tc main_v32 : DevRef τ sig) = d32 m d := by
    show after (opsC (F := Ideal)) (Wg m g0 g1 d) _ = _
    rw [opsC_v32, Wg_of_ne m g0 g1 d _ (by decide)]
    exact (Wx2_v32 (We m g0) d).trans (We_v32 m g0 d)
  have ha4 : Wh m g0 g1 d (Proc.devRef .tc main_arg4 : DevRef τ sig) = Wb m d (Proc.devRef .tc main_arg4 : DevRef τ sig) := by
    rw [show Wh m g0 g1 d (Proc.devRef .tc main_arg4 : DevRef τ sig) = Wg m g0 g1 d (Proc.devRef .tc main_arg4 : DevRef τ sig) from opsC_arg4 _, Wg_of_ne m g0 g1 d _ (by decide)]
    exact (Wx2_arg4 (We m g0) d).trans (We_arg4 m g0 d)
  have h44 : Wh m g0 g1 d (Proc.devRef .tc main_v44 : DevRef τ sig) = shapeCast S1x128 (Wb m d (Proc.devRef .tc main_arg5 : DevRef τ sig)) shapeCasts_S128_S1x128 := by
    show after (opsC (F := Ideal)) (Wg m g0 g1 d) _ = _
    rw [opsC_v44, Wg_of_ne m g0 g1 d _ (by decide)]
    exact congrArg (fun x => shapeCast S1x128 x shapeCasts_S128_S1x128) ((Wx2_arg5 (We m g0) d).trans (We_arg5 m g0 d))
  rw [h43, h32, ha4, h44, Wf_v39 m g0 d hg0]

/-- The result buffer, along the fold: the first 10000 rows of that. -/
theorem Wj_v46 : Wj m g0 g1 d (Proc.devRef .tc main_v46 : DevRef τ sig)
    = extractStridedSlice S10000x128 ![0, 0] (Wi m g0 g1 d (Proc.devRef .tc main_v45 : DevRef τ sig)) slices_S10240x128_S10000x128_0_0 :=
  opsD_v46 _

end Fold

end Cert.Proof.KI

end
-- ==== Proof.SpecI.lean ====
/-
  THE CERTIFIED FUNCTION, stated once over literal shapes, at the ideal arithmetic: two graph-convolution layers with
  symmetric degree normalisation over a graph of 10000 nodes and 320000 directed edges.

  For an edge e, src e and dst e are its endpoints (rows 0 and 1 of the edge table). A node's out-degree is the number
  of edges leaving it, its in-degree the number entering it, and the normaliser of a degree c is
  rs c = 1 / sqrt (max 1 c). One layer takes node features H (10000 x 128), weights W (128 x 128) and a bias b (128):
      h[r, k]   = H[r, k] * rs (outdeg r)                                  (scale by the source's out-degree)
      agg[n, k] = sum over the edges e with dst e = n of h[src e, k]       (sum the messages arriving at n)
      y[n, j]   = (sum_k (agg[n, k] * rs (indeg n)) * W[k, j]) + b[j]      (scale by the in-degree, multiply, add)
  and the function is layer 2 applied to max (layer 1 applied to X) 0. The order of the operations is the order both
  programs compute in, so that reading either program at an index needs no algebraic law beyond re-indexing sums: in
  particular the second layer's pre-scaling is written  max (y1[r, k]) 0 * rs (outdeg r).

  A node index read off an edge word is taken modulo 10000, which makes the function total; where every edge word is
  at most 9999 the reduction is the identity.
-/
import Idealize.ShloMosaic.PureOps.Ideal
import Idealize.ShloMosaic.Lib.ValueIdx
import Mathlib

noncomputable section

open scoped BigOperators

namespace Cert.Proof.Spec

open Idealize.ShloMosaic Idealize.ShloMosaic.ValueIdx

/-! ## The arguments' shapes -/

/-- The node features: 10000 nodes, 128 features. -/
abbrev SX : Shape := ⟨2, ![10000, 128]⟩
/-- The edge table: row 0 the sources, row 1 the destinations, of 320000 edges. -/
abbrev SE : Shape := ⟨2, ![2, 320000]⟩
/-- A layer's weights. -/
abbrev SW : Shape := ⟨2, ![128, 128]⟩
/-- A layer's bias. -/
abbrev SB : Shape := ⟨1, ![128]⟩

/-- The words 1.0 and 0.0 of the 32-bit format, as the extended reals they encode (never evaluated: the same word
    stands on both sides of every equation they occur in). -/
abbrev one : EReal := Ideal.ofBits .f32 0x3F800000#32
abbrev zero : EReal := Ideal.ofBits .f32 0x00000000#32

/-! ## Edges, degrees, the normaliser -/

section Graph

variable (EI : IVec SE 32)

/-- The source word of edge `e`. -/
def src (e : Fin 320000) : BitVec 32 := EI (ix2 (0 : Fin 2) e)
/-- The destination word of edge `e`. -/
def dst (e : Fin 320000) : BitVec 32 := EI (ix2 (1 : Fin 2) e)

/-- The node a word names (modulo the number of nodes: the identity on words at most 9999). -/
def node (b : BitVec 32) : Fin 10000 := ⟨b.toNat % 10000, Nat.mod_lt _ (by decide)⟩

theorem node_val_of_le {b : BitVec 32} (h : b.toNat ≤ 9999) : (node b).val = b.toNat :=
  Nat.mod_eq_of_lt (by omega)

/-- How many edges the endpoint map `f` sends to node number `n`. -/
def cnt (f : Fin 320000 → BitVec 32) (n : ℕ) : ℕ := (Finset.univ.filter fun e : Fin 320000 => (f e).toNat = n).card

/-- The normaliser of a degree `c`: the inverse square root of the larger of 1 and `c`, the count read as the
    extended real it is. -/
def rs (c : ℕ) : EReal := Ideal.rsqrt (max one (((c : ℝ) : EReal)))

/-- The messages arriving at node `n`, summed: over the edges into `n`, the row of `h` at the edge's source. -/
def agg (h : Fin 10000 → Fin 128 → EReal) (n : Fin 10000) (k : Fin 128) : EReal :=
  ∑ e ∈ Finset.univ.filter (fun e : Fin 320000 => (dst EI e).toNat = n.val), h (node (src EI e)) k

/-- One layer on pre-scaled features `h`: aggregate, scale by the in-degree, multiply by the weights, add the bias. -/
def layer (W : FVec Ideal SW .f32) (b : FVec Ideal SB .f32) (h : Fin 10000 → Fin 128 → EReal) (n : Fin 10000) (j : Fin 128) : EReal :=
  (∑ k : Fin 128, (agg EI h n k * rs (cnt (dst EI) n.val)) * W (ix2 k j)) + b (ix1 j)

end Graph

/-! ## The two layers -/

section Out

variable (X : FVec Ideal SX .f32) (EI : IVec SE 32) (W1 : FVec Ideal SW .f32) (b1 : FVec Ideal SB .f32)
  (W2 : FVec Ideal SW .f32) (b2 : FVec Ideal SB .f32)

/-- The features scaled by the source's out-degree. -/
def h1 (r : Fin 10000) (k : Fin 128) : EReal := X (ix2 r k) * rs (cnt (src EI) r.val)

/-- The first layer's result. -/
def y1 (n : Fin 10000) (j : Fin 128) : EReal := layer EI W1 b1 (h1 X EI) n j

/-- Its positive part, scaled by the source's out-degree: what the second layer aggregates. -/
def h2 (r : Fin 10000) (k : Fin 128) : EReal := max (y1 X EI W1 b1 r k) zero * rs (cnt (src EI) r.val)

/-- The second layer's result. -/
def y2 (n : Fin 10000) (j : Fin 128) : EReal := layer EI W2 b2 (h2 X EI W1 b1) n j

/-- THE FUNCTION: the second layer's result as an array over the nodes and the features. -/
def out : FVec Ideal SX .f32 := fun i => y2 X EI W1 b1 W2 b2 (i 0 : Fin 10000) (i 1 : Fin 128)

theorem out_apply (r : Fin 10000) (j : Fin 128) : out X EI W1 b1 W2 b2 (ix2 r j) = y2 X EI W1 b1 W2 b2 r j := rfl

end Out

end Cert.Proof.Spec

end
-- ==== Proof.KernelAggI.lean ====
/-
  The aggregation of the idealized kernel, at the ideal arithmetic: where an update of the accumulating row scatter
  lands; the scatter read at an element as a sum over the update rows with that row index; and the step both layers
  share — rows gathered by the source table and summed by the padded destination column into zeros hold, at every
  node below 10000, the specification's sum over the edges into the node. The 7680 padding rows carry the word 10000
  in both tables: they are gathered from row 10000 and summed into row 10000, which no node below 10000 reads.
-/
import proofs.«207928_g75127567942135_cont_9to1c4b_313_20_alg».proof.Proof.Gen.KernelIdeal
import proofs.«207928_g75127567942135_cont_9to1c4b_313_20_alg».proof.Proof.GatherSpecI
import proofs.«207928_g75127567942135_cont_9to1c4b_313_20_alg».proof.Proof.SpecI
import Idealize.ShloMosaic.Lib.ValueIdx
import Idealize.ShloMosaic.PureOps.Ideal.Laws
import Mathlib

set_option maxRecDepth 16384

noncomputable section

namespace Cert.Proof.KI

open Cert.KernelIdeal Cert.KernelIdeal.Gen
open Idealize.ShloMosaic Idealize.ShloMosaic.TcCoe Idealize.ShloMosaic.ValueIdx
open scoped BigOperators

/-! ## Where an update of the row scatter lands -/
theorem startB0 (idx : IVec S327680x1 32) (e : Fin 327680) (k' : Fin 128) :
    ScatterDims.start scatter_S10240x128_S327680x1_S327680x128_1_0_0_1 (ix2 e k') idx (0 : Fin 2) = (idx (ix2 e (0 : Fin 1))).toInt := by
  unfold ScatterDims.start
  have hmem : (0 : Fin 2) ∈ scatter_S10240x128_S327680x1_S327680x128_1_0_0_1.scatterDimsToOperandDims := by decide
  rw [dif_pos hmem]
  congr 1
  apply congrArg idx
  funext b
  match b with
  | ⟨0, _⟩ => simp [ScatterDims.siIdx, ScatterDims.siCoord, scatter_S10240x128_S327680x1_S327680x128_1_0_0_1]; rfl
  | ⟨1, _⟩ => simp [ScatterDims.siIdx, scatter_S10240x128_S327680x1_S327680x128_1_0_0_1]; rfl

theorem startB1 (idx : IVec S327680x1 32) (e : Fin 327680) (k' : Fin 128) :
    ScatterDims.start scatter_S10240x128_S327680x1_S327680x128_1_0_0_1 (ix2 e k') idx (1 : Fin 2) = 0 := by
  unfold ScatterDims.start
  have hmem : ¬ (1 : Fin 2) ∈ scatter_S10240x128_S327680x1_S327680x128_1_0_0_1.scatterDimsToOperandDims := by decide
  rw [dif_neg hmem]

theorem windowB0 (e : Fin 327680) (k' : Fin 128) : ScatterDims.window scatter_S10240x128_S327680x1_S327680x128_1_0_0_1 (ix2 e k') (0 : Fin 2) = 0 := by
  unfold ScatterDims.window
  have hmem : ¬ (0 : Fin 2) ∈ scatter_S10240x128_S327680x1_S327680x128_1_0_0_1.sKept := by decide
  rw [dif_neg hmem]

theorem windowB1 (e : Fin 327680) (k' : Fin 128) : ScatterDims.window scatter_S10240x128_S327680x1_S327680x128_1_0_0_1 (ix2 e k') (1 : Fin 2) = k'.val := by
  unfold ScatterDims.window
  have hmem : (1 : Fin 2) ∈ scatter_S10240x128_S327680x1_S327680x128_1_0_0_1.sKept := by decide
  rw [dif_pos hmem]
  simp [scatter_S10240x128_S327680x1_S327680x128_1_0_0_1]
  rfl

/-- Where an update lands: update `(e, k')` of the row scatter lands on element `(n, k)` exactly when the index word of
    row `e`, read signed, is `n`, and `k' = k` (the row index comes from the index column, the feature coordinate is
    the update's own; an index outside the operand's rows lands nowhere). -/
theorem resultIdxB_iff (idx : IVec S327680x1 32) (e : Fin 327680) (k' : Fin 128) (n : Fin 10240) (k : Fin 128) :
    ScatterDims.resultIdx? scatter_S10240x128_S327680x1_S327680x128_1_0_0_1 (ix2 e k') idx = some (ix2 n k)
      ↔ (idx (ix2 e (0 : Fin 1))).toInt = (n.val : ℤ) ∧ k' = k := by
  unfold ScatterDims.resultIdx?
  split
  · rename_i h
    rw [Option.some.injEq]
    constructor
    · intro heq
      have h0 := congrArg (fun f => (f (0 : Fin 2)).val) heq
      have h1 := congrArg (fun f => (f (1 : Fin 2)).val) heq
      simp only [startB0, startB1, windowB0, windowB1] at h0 h1
      have hb := (h 0).1
      rw [startB0, windowB0] at hb
      refine ⟨?_, Fin.ext ?_⟩
      · have : ((idx (ix2 e (0 : Fin 1))).toInt + ((0 : ℕ) : ℤ)).toNat = n.val := h0
        omega
      · have : ((0 : ℤ) + (k'.val : ℤ)).toNat = k.val := h1
        omega
    · rintro ⟨hn, rfl⟩
      funext a
      apply Fin.ext
      match a with
      | ⟨0, _⟩ =>
        show ((ScatterDims.start scatter_S10240x128_S327680x1_S327680x128_1_0_0_1 (ix2 e k') idx (0 : Fin 2)) + ((ScatterDims.window scatter_S10240x128_S327680x1_S327680x128_1_0_0_1 (ix2 e k') (0 : Fin 2) : ℕ) : ℤ)).toNat = n.val
        rw [startB0, windowB0, hn]; omega
      | ⟨1, _⟩ =>
        show ((ScatterDims.start scatter_S10240x128_S327680x1_S327680x128_1_0_0_1 (ix2 e k') idx (1 : Fin 2)) + ((ScatterDims.window scatter_S10240x128_S327680x1_S327680x128_1_0_0_1 (ix2 e k') (1 : Fin 2) : ℕ) : ℤ)).toNat = k'.val
        rw [startB1, windowB1]; omega
  · rename_i h
    constructor
    · intro heq; exact absurd heq (by simp)
    · rintro ⟨hn, rfl⟩
      exfalso
      apply h
      intro a
      match a with
      | ⟨0, _⟩ =>
        show 0 ≤ ScatterDims.start scatter_S10240x128_S327680x1_S327680x128_1_0_0_1 (ix2 e k') idx (0 : Fin 2) + ((ScatterDims.window scatter_S10240x128_S327680x1_S327680x128_1_0_0_1 (ix2 e k') (0 : Fin 2) : ℕ) : ℤ)
          ∧ ScatterDims.start scatter_S10240x128_S327680x1_S327680x128_1_0_0_1 (ix2 e k') idx (0 : Fin 2) + ((ScatterDims.window scatter_S10240x128_S327680x1_S327680x128_1_0_0_1 (ix2 e k') (0 : Fin 2) : ℕ) : ℤ) < ((10240 : ℕ) : ℤ)
        rw [startB0, windowB0, hn]; have := n.isLt; omega
      | ⟨1, _⟩ =>
        show 0 ≤ ScatterDims.start scatter_S10240x128_S327680x1_S327680x128_1_0_0_1 (ix2 e k') idx (1 : Fin 2) + ((ScatterDims.window scatter_S10240x128_S327680x1_S327680x128_1_0_0_1 (ix2 e k') (1 : Fin 2) : ℕ) : ℤ)
          ∧ ScatterDims.start scatter_S10240x128_S327680x1_S327680x128_1_0_0_1 (ix2 e k') idx (1 : Fin 2) + ((ScatterDims.window scatter_S10240x128_S327680x1_S327680x128_1_0_0_1 (ix2 e k') (1 : Fin 2) : ℕ) : ℤ) < ((128 : ℕ) : ℤ)
        rw [startB1, windowB1]; have := k'.isLt; omega

/-! ## The row scatter-add at an element -/

/-- The accumulating row scatter at element `(n, k)`, at the ideal arithmetic: the operand's element plus the sum, over
    the update rows `e` whose index word read signed is `n`, of the update's element `(e, k)`. -/
theorem scatterAddB_apply (x : FVec Ideal S10240x128 .f32) (idx : IVec S327680x1 32) (upd : FVec Ideal S327680x128 .f32)
    (n : Fin 10240) (k : Fin 128) :
    Host.scatterAdd (F := Ideal) scatter_S10240x128_S327680x1_S327680x128_1_0_0_1 x idx upd (ix2 n k)
      = x (ix2 n k) + ∑ e ∈ Finset.univ.filter (fun e : Fin 327680 => (idx (ix2 e (0 : Fin 1))).toInt = (n.val : ℤ)), upd (ix2 e k) := by
  show Ideal.hostScatterAdd scatter_S10240x128_S327680x1_S327680x128_1_0_0_1 x idx upd (ix2 n k) = _
  unfold Ideal.hostScatterAdd
  refine congrArg (x (ix2 n k) + ·) ?_
  rw [Finset.sum_filter, sum_idx2, Finset.sum_filter]
  refine Finset.sum_congr rfl fun e _ => ?_
  simp only [resultIdxB_iff]
  by_cases hQ : (idx (ix2 e (0 : Fin 1))).toInt = (n.val : ℤ)
  · simp [hQ]
  · simp [hQ]

/-! ## One aggregation: gathered rows summed into zeros -/

section Agg

variable (EI : IVec Spec.SE 32)

/-- Edge `e` as a row of the padded edge arrays. -/
abbrev edgeRow (e : Fin 320000) : Fin 327680 := Fin.castLE (by decide) e

/-- A word at most 9999 read signed is the word read unsigned. -/
theorem toInt_of_le {b : BitVec 32} (h : b.toNat ≤ 9999) : b.toInt = (b.toNat : ℤ) :=
  BitVec.toInt_eq_toNat_of_lt (by omega)

/-- THE AGGREGATION STEP. Let `h` be a padded 10240-row table whose rows below 10000 are `hs`; let the index table hold
    each edge's source word at the edge's position, and the index column each edge's destination word at the edge's
    row and the word 10000 at every padding row; let every edge word be at most 9999. Then the gathered rows, summed by
    destination into zeros, hold at node `n` below 10000 the sum over the edges into `n` of `hs` at the edge's source:
    a padding row lands on row 10000, never on `n`. -/
theorem agg_step (hsrc : ∀ e, (Spec.src EI e).toNat ≤ 9999) (hdst : ∀ e, (Spec.dst EI e).toNat ≤ 9999)
    (t6 : S2560x128.Idx → BitVec 32)
    (ht6 : ∀ e : Fin 320000, t6 (ix2 (⟨e.val / 128, by have := e.isLt; omega⟩ : Fin 2560) (⟨e.val % 128, Nat.mod_lt _ (by decide)⟩ : Fin 128)) = Spec.src EI e)
    (idx : IVec S327680x1 32)
    (hidxa : ∀ e : Fin 320000, idx (ix2 (edgeRow e) (0 : Fin 1)) = Spec.dst EI e)
    (hidxb : ∀ e : Fin 327680, 320000 ≤ e.val → idx (ix2 e (0 : Fin 1)) = 10000#32)
    (x : FVec Ideal S10240x128 .f32) (hx : ∀ i, x i = Ideal.ofBits .f32 0x00000000#32)
    (h : FVec Ideal S10240x128 .f32) (hs : Fin 10000 → Fin 128 → EReal)
    (hh : ∀ (r : Fin 10000) (k : Fin 128), h (ix2 (Fin.castLE (by decide) r : Fin 10240) k) = hs r k)
    (n : Fin 10000) (k : Fin 128) :
    Host.scatterAdd (F := Ideal) scatter_S10240x128_S327680x1_S327680x128_1_0_0_1 x idx (gatherRows (F := Ideal) h t6) (ix2 (Fin.castLE (by decide) n : Fin 10240) k)
      = Spec.agg EI hs n k := by
  rw [scatterAddB_apply, hx, Ideal.ofBits_zero_f32, zero_add]
  unfold Spec.agg
  have hset : (Finset.univ.filter fun e : Fin 327680 => (idx (ix2 e (0 : Fin 1))).toInt = (((Fin.castLE (by decide) n : Fin 10240)).val : ℤ))
      = (Finset.univ.filter fun e : Fin 320000 => (Spec.dst EI e).toNat = n.val).map (Fin.castLEEmb (by decide)) := by
    ext e
    simp only [Finset.mem_filter, Finset.mem_univ, true_and, Finset.mem_map, Fin.castLEEmb_apply]
    constructor
    · intro he
      have hn : n.val < 10000 := n.isLt
      by_cases hlt : e.val < 320000
      · refine ⟨⟨e.val, hlt⟩, ?_, Fin.ext rfl⟩
        have := hidxa ⟨e.val, hlt⟩
        rw [show edgeRow ⟨e.val, hlt⟩ = e from Fin.ext rfl] at this
        rw [this, toInt_of_le (hdst _)] at he
        have he' : ((Spec.dst EI ⟨e.val, hlt⟩).toNat : ℤ) = (n.val : ℤ) := he
        exact_mod_cast he'
      · exfalso
        rw [hidxb e (by omega)] at he
        have h1 : (10000#32 : BitVec 32).toInt = 10000 := by decide
        rw [h1] at he
        have he' : (10000 : ℤ) = (n.val : ℤ) := he
        omega
    · rintro ⟨e', he', rfl⟩
      have := hidxa e'
      rw [show (Fin.castLE (by decide) e' : Fin 327680) = edgeRow e' from rfl, this, toInt_of_le (hdst _), he']
      rfl
  rw [hset, Finset.sum_map]
  refine Finset.sum_congr rfl fun e _ => ?_
  show h (ix2 (⟨(t6 (ix2 _ _)).toNat % 10240, _⟩ : Fin 10240) k) = hs (Spec.node (Spec.src EI e)) k
  have hrow : (t6 (ix2 (⟨(Fin.castLE (by decide) e : Fin 327680).val / 128, by have := e.isLt; simp only [Fin.val_castLE]; omega⟩ : Fin 2560)
      (⟨(Fin.castLE (by decide) e : Fin 327680).val % 128, Nat.mod_lt _ (by decide)⟩ : Fin 128))) = Spec.src EI e := ht6 e
  rw [← hh]
  congr 1
  funext a
  match a with
  | ⟨0, _⟩ =>
    apply Fin.ext
    show (t6 (ix2 _ _)).toNat % 10240 = (Spec.node (Spec.src EI e)).val
    rw [Spec.node_val_of_le (hsrc e)]
    have := hsrc e
    have hr : (t6 (ix2 (⟨(Fin.castLE (by decide) e : Fin 327680).val / 128, by have := e.isLt; simp only [Fin.val_castLE]; omega⟩ : Fin 2560)
      (⟨(Fin.castLE (by decide) e : Fin 327680).val % 128, Nat.mod_lt _ (by decide)⟩ : Fin 128))).toNat = (Spec.src EI e).toNat := by rw [hrow]
    exact (congrArg (· % 10240) hr).trans (Nat.mod_eq_of_lt (by omega))
  | ⟨1, _⟩ => rfl

end Agg

end Cert.Proof.KI

end
-- ==== Proof.KernelCoreI.lean ====
/-
  The idealized kernel's arithmetic, composed, is the specification: with the padded features, the two degree
  columns, the source table, the destination column, the zero array and the two bias rows given by their defining
  properties, the first region's function, an aggregation step, the second region's function, a second aggregation step
  and the third region's function give, at every node below 10000, the specification's second layer.
-/
import proofs.«207928_g75127567942135_cont_9to1c4b_313_20_alg».proof.Proof.KernelAggI
import proofs.«207928_g75127567942135_cont_9to1c4b_313_20_alg».proof.Proof.RegionValsI

set_option maxRecDepth 16384

noncomputable section

namespace Cert.Proof.KI

open Cert.KernelIdeal Cert.KernelIdeal.Gen
open Idealize.ShloMosaic Idealize.ShloMosaic.TcCoe Idealize.ShloMosaic.ValueIdx
open scoped BigOperators

section Core

variable (X : FVec Ideal Spec.SX .f32) (EI : IVec Spec.SE 32) (W1 : FVec Ideal Spec.SW .f32) (b1 : FVec Ideal Spec.SB .f32)
  (W2 : FVec Ideal Spec.SW .f32) (b2 : FVec Ideal Spec.SB .f32)

/-- A node as a row of the padded arrays. -/
abbrev nodeRow (r : Fin 10000) : Fin 10240 := Fin.castLE (by decide) r

/-- The first region's function at a node's row: the specification's scaled features. -/
theorem G0_node (x8 : FVec Ideal S10240x128 .f32) (d20 : FVec Ideal S10240x1 .f32)
    (hx8 : ∀ (r : Fin 10000) (k : Fin 128), x8 (ix2 (nodeRow r) k) = X (ix2 r k))
    (hd20 : ∀ r : Fin 10000, d20 (ix2 (nodeRow r) (0 : Fin 1)) = (((Spec.cnt (Spec.src EI) r.val : ℕ) : ℝ) : EReal))
    (r : Fin 10000) (k : Fin 128) : G0 x8 d20 (ix2 (nodeRow r) k) = Spec.h1 X EI r k := by
  rw [G0_apply]
  show x8 (ix2 (nodeRow r) k) * Ideal.rsqrt (max _ (d20 (ix2 (nodeRow r) (0 : Fin 1)))) = _
  rw [hx8, hd20]
  rfl

/-- THE COMPOSITION. -/
theorem core (hsrc : ∀ e, (Spec.src EI e).toNat ≤ 9999) (hdst : ∀ e, (Spec.dst EI e).toNat ≤ 9999)
    (x8 : FVec Ideal S10240x128 .f32) (d20 d32 : FVec Ideal S10240x1 .f32)
    (hx8 : ∀ (r : Fin 10000) (k : Fin 128), x8 (ix2 (nodeRow r) k) = X (ix2 r k))
    (hd20 : ∀ r : Fin 10000, d20 (ix2 (nodeRow r) (0 : Fin 1)) = (((Spec.cnt (Spec.src EI) r.val : ℕ) : ℝ) : EReal))
    (hd32 : ∀ r : Fin 10000, d32 (ix2 (nodeRow r) (0 : Fin 1)) = (((Spec.cnt (Spec.dst EI) r.val : ℕ) : ℝ) : EReal))
    (t6 : S2560x128.Idx → BitVec 32)
    (ht6 : ∀ e : Fin 320000, t6 (ix2 (⟨e.val / 128, by have := e.isLt; omega⟩ : Fin 2560) (⟨e.val % 128, Nat.mod_lt _ (by decide)⟩ : Fin 128)) = Spec.src EI e)
    (idx : IVec S327680x1 32)
    (hidxa : ∀ e : Fin 320000, idx (ix2 (edgeRow e) (0 : Fin 1)) = Spec.dst EI e)
    (hidxb : ∀ e : Fin 327680, 320000 ≤ e.val → idx (ix2 e (0 : Fin 1)) = 10000#32)
    (z z' : FVec Ideal S10240x128 .f32) (hz : ∀ i, z i = Ideal.ofBits .f32 0x00000000#32) (hz' : ∀ i, z' i = Ideal.ofBits .f32 0x00000000#32)
    (w1 w2 : FVec Ideal S128x128 .f32) (hw1 : ∀ k j : Fin 128, w1 (ix2 k j) = W1 (ix2 k j)) (hw2 : ∀ k j : Fin 128, w2 (ix2 k j) = W2 (ix2 k j))
    (c1 c2 : FVec Ideal S1x128 .f32) (hc1 : ∀ j : Fin 128, c1 (ix2 (0 : Fin 1) j) = b1 (ix1 j)) (hc2 : ∀ j : Fin 128, c2 (ix2 (0 : Fin 1) j) = b2 (ix1 j))
    (r : Fin 10000) (j : Fin 128) :
    G4 (Host.scatterAdd (F := Ideal) scatter_S10240x128_S327680x1_S327680x128_1_0_0_1 z' idx
          (gatherRows (F := Ideal)
            (G2 (Host.scatterAdd (F := Ideal) scatter_S10240x128_S327680x1_S327680x128_1_0_0_1 z idx (gatherRows (F := Ideal) (G0 x8 d20) t6)) d32 w1 c1 d20) t6))
        d32 w2 c2 (ix2 (nodeRow r) j)
      = Spec.y2 X EI W1 b1 W2 b2 r j := by
  -- the first aggregation, at every node and feature
  have ha1 : ∀ (n : Fin 10000) (k : Fin 128),
      Host.scatterAdd (F := Ideal) scatter_S10240x128_S327680x1_S327680x128_1_0_0_1 z idx (gatherRows (F := Ideal) (G0 x8 d20) t6) (ix2 (nodeRow n) k)
        = Spec.agg EI (Spec.h1 X EI) n k := fun n k =>
    agg_step EI hsrc hdst t6 ht6 idx hidxa hidxb z hz (G0 x8 d20) (Spec.h1 X EI) (G0_node X EI x8 d20 hx8 hd20) n k
  -- the second region's function at a node's row: the specification's second pre-scaled features
  have hh2 : ∀ (n : Fin 10000) (k : Fin 128),
      G2 (Host.scatterAdd (F := Ideal) scatter_S10240x128_S327680x1_S327680x128_1_0_0_1 z idx (gatherRows (F := Ideal) (G0 x8 d20) t6)) d32 w1 c1 d20 (ix2 (nodeRow n) k)
        = Spec.h2 X EI W1 b1 n k := fun n k => by
    rw [G2_apply]
    show max ((∑ k' : Fin 128, (Host.scatterAdd (F := Ideal) scatter_S10240x128_S327680x1_S327680x128_1_0_0_1 z idx (gatherRows (F := Ideal) (G0 x8 d20) t6) (ix2 (nodeRow n) k')
          * Ideal.rsqrt (max _ (d32 (ix2 (nodeRow n) (0 : Fin 1))))) * w1 (ix2 k' k)) + c1 (ix2 (0 : Fin 1) k)) _
        * Ideal.rsqrt (max _ (d20 (ix2 (nodeRow n) (0 : Fin 1)))) = _
    simp only [ha1, hw1]
    rw [hd32, hd20, hc1]
    rfl
  -- the second aggregation
  have ha2 : ∀ (n : Fin 10000) (k : Fin 128),
      Host.scatterAdd (F := Ideal) scatter_S10240x128_S327680x1_S327680x128_1_0_0_1 z' idx (gatherRows (F := Ideal)
          (G2 (Host.scatterAdd (F := Ideal) scatter_S10240x128_S327680x1_S327680x128_1_0_0_1 z idx (gatherRows (F := Ideal) (G0 x8 d20) t6)) d32 w1 c1 d20) t6) (ix2 (nodeRow n) k)
        = Spec.agg EI (Spec.h2 X EI W1 b1) n k := fun n k =>
    agg_step EI hsrc hdst t6 ht6 idx hidxa hidxb z' hz' _ (Spec.h2 X EI W1 b1) hh2 n k
  rw [G4_apply]
  show (∑ k : Fin 128, (Host.scatterAdd (F := Ideal) scatter_S10240x128_S327680x1_S327680x128_1_0_0_1 z' idx (gatherRows (F := Ideal)
          (G2 (Host.scatterAdd (F := Ideal) scatter_S10240x128_S327680x1_S327680x128_1_0_0_1 z idx (gatherRows (F := Ideal) (G0 x8 d20) t6)) d32 w1 c1 d20) t6) (ix2 (nodeRow r) k)
        * Ideal.rsqrt (max _ (d32 (ix2 (nodeRow r) (0 : Fin 1))))) * w2 (ix2 k j)) + c2 (ix2 (0 : Fin 1) j) = _
  simp only [ha2, hw2]
  rw [hd32, hc2]
  rfl

end Core

end Cert.Proof.KI

end
-- ==== Proof.LibScatterCount.lean ====
/-
  SCATTER WITH AN INTEGER ADD, READ AT AN ELEMENT. The host's scatter folds its updates, in row-major order, into the
  operand: an update whose result index is an element of the operand replaces that element by the body applied to
  it and the update; an update landing outside is dropped. When the body is the integer sum, the element after the fold
  is the operand's element plus the sum of the updates that land on it, whatever the order; in particular a scatter of
  ones into zeros (a histogram: jnp.bincount, a degree count) holds at each element the NUMBER of updates landing
  there, and the word read as a signed integer is that number as long as it is below 2^31.
-/
import Idealize.ShloMosaic.PureOps.ShapeOps
import Idealize.ShloMosaic.PureOps.Float
import Mathlib

open scoped BigOperators

namespace Cert.Proof.LibScatterCount

open Idealize.ShloMosaic

variable {s si u : Shape} {w v : Nat}

/-- One step of the fold: the update at row-major position `n` applied to the partial result `r`. -/
def step (d : ScatterDims s si u) (idx : IVec si w) (upd : u.Idx → BitVec v) (r : s.Idx → BitVec v) (n : Fin u.numel) :
    s.Idx → BitVec v :=
  match d.resultIdx? (u.rowMajor.symm n) idx with
  | some i => fun i' => if i' = i then IntOp.addi (r i) (upd (u.rowMajor.symm n)) else r i'
  | none => r

/-- A step read at an element: the element, plus the update if it lands there. -/
theorem step_apply (d : ScatterDims s si u) (idx : IVec si w) (upd : u.Idx → BitVec v) (r : s.Idx → BitVec v)
    (n : Fin u.numel) (i : s.Idx) :
    step d idx upd r n i = r i + (if d.resultIdx? (u.rowMajor.symm n) idx = some i then upd (u.rowMajor.symm n) else 0) := by
  unfold step
  cases h : d.resultIdx? (u.rowMajor.symm n) idx with
  | none => simp
  | some i0 =>
    by_cases hi : i = i0
    · subst hi; simp [IntOp.addi]
    · have : ¬ (some i0 = some i) := fun e => hi (Option.some.inj e).symm
      simp [hi, this]

/-- The fold over any list of positions, read at an element: the start's element plus the updates of the list that
    land there, summed in the list's order. -/
theorem foldl_step_apply (d : ScatterDims s si u) (idx : IVec si w) (upd : u.Idx → BitVec v) (i : s.Idx) :
    ∀ (L : List (Fin u.numel)) (r : s.Idx → BitVec v),
      L.foldl (step d idx upd) r i
        = r i + (L.map fun n => if d.resultIdx? (u.rowMajor.symm n) idx = some i then upd (u.rowMajor.symm n) else 0).sum
  | [], r => by simp
  | n :: L, r => by
    rw [List.foldl_cons, foldl_step_apply d idx upd i L, step_apply, List.map_cons, List.sum_cons, add_assoc]

/-- THE SCATTER WITH AN INTEGER ADD AT AN ELEMENT: the operand's element plus the sum of the updates whose result index
    is that element. -/
theorem scatter_addi_apply (d : ScatterDims s si u) (x : s.Idx → BitVec v) (idx : IVec si w) (upd : u.Idx → BitVec v)
    (i : s.Idx) :
    Host.scatter d IntOp.addi x idx upd i
      = x i + ∑ j ∈ Finset.univ.filter (fun j : u.Idx => d.resultIdx? j idx = some i), upd j := by
  have h := foldl_step_apply d idx upd i (List.finRange u.numel) x
  have hfold : Host.scatter d IntOp.addi x idx upd = (List.finRange u.numel).foldl (step d idx upd) x := rfl
  rw [hfold, h, ← Fin.sum_univ_def,
    ← Equiv.sum_comp u.rowMajor (fun n => if d.resultIdx? (u.rowMajor.symm n) idx = some i then upd (u.rowMajor.symm n) else 0)]
  simp only [Equiv.symm_apply_apply]
  rw [Finset.sum_filter]

/-- A HISTOGRAM: ones scattered into zeros hold at each element the number of updates landing there, as a word. -/
theorem scatter_ones_apply (d : ScatterDims s si u) (idx : IVec si w) (i : s.Idx) :
    Host.scatter d IntOp.addi (fun _ => (0 : BitVec 32)) idx (fun _ => (1 : BitVec 32)) i
      = (((Finset.univ.filter fun j : u.Idx => d.resultIdx? j idx = some i).card : ℕ) : BitVec 32) := by
  rw [scatter_addi_apply, zero_add, Finset.sum_const, nsmul_one]

/-- A count below 2^31, as a 32-bit word read signed, is the count. -/
theorem toInt_natCast_of_lt {c : ℕ} (h : c < 2 ^ 31) : ((c : BitVec 32)).toInt = (c : ℤ) := by
  have h1 : ((c : BitVec 32)).toNat = c := by
    rw [BitVec.natCast_eq_ofNat, BitVec.toNat_ofNat]; exact Nat.mod_eq_of_lt (by omega)
  rw [BitVec.toInt_eq_toNat_of_lt (by rw [h1]; omega), h1]

/-- So the histogram's word at an element, read as a signed integer, is the number of updates landing there, when
    there are fewer than 2^31 updates in all. -/
theorem scatter_ones_toInt (d : ScatterDims s si u) (idx : IVec si w) (i : s.Idx) (hN : u.numel < 2 ^ 31) :
    (Host.scatter d IntOp.addi (fun _ => (0 : BitVec 32)) idx (fun _ => (1 : BitVec 32)) i).toInt
      = (((Finset.univ.filter fun j : u.Idx => d.resultIdx? j idx = some i).card : ℕ) : ℤ) := by
  rw [scatter_ones_apply]
  refine toInt_natCast_of_lt (lt_of_le_of_lt ?_ hN)
  calc (Finset.univ.filter fun j : u.Idx => d.resultIdx? j idx = some i).card
      ≤ (Finset.univ : Finset u.Idx).card := Finset.card_filter_le _ _
    _ = u.numel := by rw [Finset.card_univ, Fintype.card_congr u.rowMajor, Fintype.card_fin]

end Cert.Proof.LibScatterCount
-- ==== Proof.KernelOutI.lean ====
/-
  THE IDEALIZED KERNEL COMPUTES THE SPECIFICATION (last section), after what the first host stretch of the idealized
  kernel leaves, read at an index, at the ideal arithmetic: the features
  padded with 240 zero rows; the two rows of the edge table as the source table (reshaped, 7680 copies of the word 10000
  appended) and the destination column (likewise); and the two degree columns, each a histogram of an edge row —
  every index clamped below by zero and a negative one wrapped, both the identity on a word at most 9999 —, converted
  to the extended real it counts.
-/
import proofs.«207928_g75127567942135_cont_9to1c4b_313_20_alg».proof.Proof.IndexRangeI
import proofs.«207928_g75127567942135_cont_9to1c4b_313_20_alg».proof.Proof.KernelWalkI
import proofs.«207928_g75127567942135_cont_9to1c4b_313_20_alg».proof.Proof.KernelCoreI
import proofs.«207928_g75127567942135_cont_9to1c4b_313_20_alg».proof.Proof.SpecI
import proofs.«207928_g75127567942135_cont_9to1c4b_313_20_alg».proof.Proof.LibScatterCount
import Idealize.ShloMosaic.Lib.KernelVsHost
import Idealize.ShloMosaic.PureOps.Ideal

set_option maxRecDepth 16384

noncomputable section

namespace Cert.Proof.KI

open Cert.KernelIdeal Cert.KernelIdeal.Gen
open Idealize.ShloMosaic Idealize.ShloMosaic.TcCoe Idealize.ShloMosaic.ValueIdx Idealize.ShloMosaic.StableHlo
open scoped BigOperators
open Idealize.SL.Sem

/-! ## A word at most 9999 through the index clamp and wrap -/

/-- Clamped below by zero and, if negative, wrapped by 10240, a word at most 9999 is itself. -/
theorem wrap_word {b : BitVec 32} (h : b.toNat ≤ 9999) :
    Scalar.select (IntOp.cmpi .slt (IntOp.maxsi (0#32) b) (0#32)) (IntOp.addi (IntOp.maxsi (0#32) b) (10240#32)) (IntOp.maxsi (0#32) b) = b := by
  have hb : b.toInt = (b.toNat : ℤ) := BitVec.toInt_eq_toNat_of_lt (by omega)
  have z : (0#32 : BitVec 32).toInt = 0 := by decide
  have hm : IntOp.maxsi (0#32) b = b := by
    unfold IntOp.maxsi
    rw [if_neg]
    rw [BitVec.slt_iff_toInt_lt, hb, z]; omega
  rw [hm]
  have hc : ¬ IntOp.cmpi .slt b (0#32) = 1#1 := fun hc => by
    have := IntOp.cmpi_slt.1 hc; rw [hb, z] at this; omega
  unfold Scalar.select
  exact if_neg hc

/-- The index column of a degree count, from an edge row: clamp, wrap. -/
abbrev wrapIx (r : IVec S320000 32) : IVec S320000 32 :=
  select (cmpi .slt (maxsi (broadcastInDim S320000 ![] bcast_S_S320000 (id (constantI S_ 32 0#32))) r) (broadcastInDim S320000 ![] bcast_S_S320000 (constantI S_ 32 0#32)))
    (addi (maxsi (broadcastInDim S320000 ![] bcast_S_S320000 (id (constantI S_ 32 0#32))) r) (broadcastInDim S320000 ![] bcast_S_S320000 (constantI S_ 32 10240#32)))
    (maxsi (broadcastInDim S320000 ![] bcast_S_S320000 (id (constantI S_ 32 0#32))) r)

theorem wrapIx_apply (r : IVec S320000 32) (j : S320000.Idx) (h : (r j).toNat ≤ 9999) : wrapIx r j = r j :=
  wrap_word h

/-! ## Where an update of the count scatter lands -/

theorem startA0 (idx : IVec S320000x1 32) (e : Fin 320000) :
    ScatterDims.start scatter_S10240_S320000x1_S320000_n_0_0_1 (ix1 e) idx (0 : Fin 1) = (idx (ix2 e (0 : Fin 1))).toInt := by
  unfold ScatterDims.start
  have hmem : (0 : Fin 1) ∈ scatter_S10240_S320000x1_S320000_n_0_0_1.scatterDimsToOperandDims := by decide
  rw [dif_pos hmem]
  congr 1
  apply congrArg idx
  funext b
  match b with
  | ⟨0, _⟩ => simp [ScatterDims.siIdx, ScatterDims.siCoord, scatter_S10240_S320000x1_S320000_n_0_0_1]; rfl
  | ⟨1, _⟩ => simp [ScatterDims.siIdx, scatter_S10240_S320000x1_S320000_n_0_0_1]; rfl

theorem windowA0 (e : Fin 320000) : ScatterDims.window scatter_S10240_S320000x1_S320000_n_0_0_1 (ix1 e) (0 : Fin 1) = 0 := by
  unfold ScatterDims.window
  have hmem : ¬ (0 : Fin 1) ∈ scatter_S10240_S320000x1_S320000_n_0_0_1.sKept := by decide
  rw [dif_neg hmem]

/-- Update `e` of the count scatter lands on element `n` exactly when its index word, read signed, is `n`. -/
theorem resultIdxA_iff (idx : IVec S320000x1 32) (e : Fin 320000) (n : Fin 10240) :
    ScatterDims.resultIdx? scatter_S10240_S320000x1_S320000_n_0_0_1 (ix1 e) idx = some (ix1 n) ↔ (idx (ix2 e (0 : Fin 1))).toInt = (n.val : ℤ) := by
  unfold ScatterDims.resultIdx?
  split
  · rename_i h
    rw [Option.some.injEq]
    constructor
    · intro heq
      have h0 := congrArg (fun f => (f (0 : Fin 1)).val) heq
      have hb := (h 0).1
      rw [startA0, windowA0] at hb
      have : ((ScatterDims.start scatter_S10240_S320000x1_S320000_n_0_0_1 (ix1 e) idx (0 : Fin 1)) + ((ScatterDims.window scatter_S10240_S320000x1_S320000_n_0_0_1 (ix1 e) (0 : Fin 1) : ℕ) : ℤ)).toNat = n.val := h0
      rw [startA0, windowA0] at this
      omega
    · intro hn
      funext a
      apply Fin.ext
      match a with
      | ⟨0, _⟩ =>
        show ((ScatterDims.start scatter_S10240_S320000x1_S320000_n_0_0_1 (ix1 e) idx (0 : Fin 1)) + ((ScatterDims.window scatter_S10240_S320000x1_S320000_n_0_0_1 (ix1 e) (0 : Fin 1) : ℕ) : ℤ)).toNat = n.val
        rw [startA0, windowA0, hn]; omega
  · rename_i h
    constructor
    · intro heq; exact absurd heq (by simp)
    · intro hn
      exfalso
      apply h
      intro a
      match a with
      | ⟨0, _⟩ =>
        show 0 ≤ ScatterDims.start scatter_S10240_S320000x1_S320000_n_0_0_1 (ix1 e) idx (0 : Fin 1) + ((ScatterDims.window scatter_S10240_S320000x1_S320000_n_0_0_1 (ix1 e) (0 : Fin 1) : ℕ) : ℤ)
          ∧ ScatterDims.start scatter_S10240_S320000x1_S320000_n_0_0_1 (ix1 e) idx (0 : Fin 1) + ((ScatterDims.window scatter_S10240_S320000x1_S320000_n_0_0_1 (ix1 e) (0 : Fin 1) : ℕ) : ℤ) < ((10240 : ℕ) : ℤ)
        rw [startA0, windowA0, hn]; have := n.isLt; omega

/-! ## A degree column at a row -/

/-- THE COUNT. The histogram of an edge row whose words are at most 9999, converted and reshaped to a column, holds at
    row `n` the number of edges whose word is `n`, as an extended real. -/
theorem count_read (r : IVec S320000 32) (f : Fin 320000 → BitVec 32) (hf : ∀ e : Fin 320000, r (ix1 e) = f e)
    (hr : ∀ e : Fin 320000, (f e).toNat ≤ 9999) (n : Fin 10240) :
    (shapeCast S10240x1 (sitofp (F := Ideal) .f32 (Host.scatter scatter_S10240_S320000x1_S320000_n_0_0_1 IntOp.addi (broadcastInDim S10240 ![] bcast_S_S10240 (constantI S_ 32 0#32))
          (broadcastInDim S320000x1 ![0] bcast_S320000_S320000x1_0 (wrapIx r)) (broadcastInDim S320000 ![] bcast_S_S320000 (constantI S_ 32 1#32)))) shapeCasts_S10240_S10240x1) (ix2 n (0 : Fin 1))
      = ((((Finset.univ.filter fun e : Fin 320000 => (f e).toNat = n.val).card : ℕ) : ℝ) : EReal) := by
  rw [shapeCast_apply _ shapeCasts_S10240_S10240x1 (ix2 n (0 : Fin 1)) (ix1 n)
    (by rw [Shape.rowMajor_val_one, Shape.rowMajor_val_two]; show n.val = n.val * 1 + 0; omega)]
  show ((((Host.scatter scatter_S10240_S320000x1_S320000_n_0_0_1 IntOp.addi (fun _ => (0 : BitVec 32))
      (broadcastInDim S320000x1 ![0] bcast_S320000_S320000x1_0 (wrapIx r)) (fun _ => (1 : BitVec 32)) (ix1 n)).toInt : ℝ)) : EReal) = _
  rw [LibScatterCount.scatter_ones_toInt _ _ _ (by rw [show S320000.numel = 320000 from Shape.numel_rank1 _]; decide), Int.cast_natCast]
  suffices hcard : (Finset.univ.filter fun j : S320000.Idx => ScatterDims.resultIdx? scatter_S10240_S320000x1_S320000_n_0_0_1 j
      (broadcastInDim S320000x1 ![0] bcast_S320000_S320000x1_0 (wrapIx r)) = some (ix1 n)).card
        = (Finset.univ.filter fun e : Fin 320000 => (f e).toNat = n.val).card by rw [hcard]
  have hidx : ∀ e : Fin 320000, (broadcastInDim S320000x1 ![0] bcast_S320000_S320000x1_0 (wrapIx r)) (ix2 e (0 : Fin 1)) = f e := fun e => by
    rw [broadcastInDim_apply _ bcast_S320000_S320000x1_0 (wrapIx r) (ix2 e (0 : Fin 1)) (ix1 e)
      (fun a => by match a with | ⟨0, _⟩ => rfl)]
    rw [wrapIx_apply r (ix1 e) (by rw [hf]; exact hr e), hf]
  have hidx' : ∀ e : Fin 320000, (broadcastInDim S320000x1 ![0] bcast_S320000_S320000x1_0 (wrapIx r)) (ix2 e (0 : Fin 1)) = f e := hidx
  have hiff : ∀ e : Fin 320000, ScatterDims.resultIdx? scatter_S10240_S320000x1_S320000_n_0_0_1 (ix1 e)
      (broadcastInDim S320000x1 ![0] bcast_S320000_S320000x1_0 (wrapIx r)) = some (ix1 n) ↔ (f e).toNat = n.val := fun e => by
    rw [resultIdxA_iff, hidx, BitVec.toInt_eq_toNat_of_lt (by have := hr e; omega)]
    exact Nat.cast_inj
  refine Finset.card_bij (fun j _ => (j 0 : Fin 320000)) ?_ ?_ ?_
  · intro j hj
    have hj2 := (Finset.mem_filter.1 hj).2
    rw [eq_ix1 j] at hj2
    exact Finset.mem_filter.2 ⟨Finset.mem_univ _, (hiff _).1 hj2⟩
  · intro j _ j' _ h
    rw [eq_ix1 j, eq_ix1 j']
    exact congrArg ix1 h
  · intro e he
    exact ⟨ix1 e, Finset.mem_filter.2 ⟨Finset.mem_univ _, (hiff e).2 (Finset.mem_filter.1 he).2⟩, rfl⟩

/-! ## The first host stretch, buffer by buffer -/

section Reads

variable (V : Valuation τ sig (Elt Ideal))

/-- A row of the edge table at an edge. -/
theorem srcRow_apply (e : Fin 320000) : (shapeCast S320000 (extractStridedSlice S1x320000 ![0, 0] (V (Proc.devRef .tc main_arg1 : DevRef τ sig) : IVec S2x320000 32) slices_S2x320000_S1x320000_0_0) shapeCasts_S1x320000_S320000) (ix1 e) = (V (Proc.devRef .tc main_arg1 : DevRef τ sig) : IVec S2x320000 32) (ix2 (0 : Fin 2) e) := by
  refine (shapeCast_dropUnit_apply ![320000] _ shapeCasts_S1x320000_S320000 (ix1 e)).trans ?_
  exact extractStridedSlice_apply _ _ _ _ (ix2 (0 : Fin 2) e)
    (fun a => by match a with | ⟨0, _⟩ => show (0 : ℕ) = 0 + 0; rfl
                              | ⟨1, _⟩ => show e.val = 0 + e.val; omega)
theorem dstRow_apply (e : Fin 320000) : (shapeCast S320000 (extractStridedSlice S1x320000 ![1, 0] (V (Proc.devRef .tc main_arg1 : DevRef τ sig) : IVec S2x320000 32) slices_S2x320000_S1x320000_1_0) shapeCasts_S1x320000_S320000) (ix1 e) = (V (Proc.devRef .tc main_arg1 : DevRef τ sig) : IVec S2x320000 32) (ix2 (1 : Fin 2) e) := by
  refine (shapeCast_dropUnit_apply ![320000] _ shapeCasts_S1x320000_S320000 (ix1 e)).trans ?_
  exact extractStridedSlice_apply _ _ _ _ (ix2 (1 : Fin 2) e)
    (fun a => by match a with | ⟨0, _⟩ => show (1 : ℕ) = 1 + 0; rfl
                              | ⟨1, _⟩ => show e.val = 0 + e.val; omega)

set_option maxHeartbeats 4000000 in
/-- The destination column: the second row of the edge table, then 7680 copies of the word 10000. -/
theorem opsA_v7 : after (opsA (F := Ideal)) V (Proc.devRef .tc main_v7 : DevRef τ sig)
    = concatenate S327680 0 [⟨S320000, (shapeCast S320000 (extractStridedSlice S1x320000 ![1, 0] (V (Proc.devRef .tc main_arg1 : DevRef τ sig) : IVec S2x320000 32) slices_S2x320000_S1x320000_1_0) shapeCasts_S1x320000_S320000)⟩, ⟨S7680, (broadcastInDim S7680 ![] bcast_S_S7680 (constantI S_ 32 10000#32))⟩] concatenates_S320000_S7680_S327680_d0 := by
  after_results; all_goals rfl

set_option maxHeartbeats 4000000 in
/-- The padded features. -/
theorem opsA_v8 : after (opsA (F := Ideal)) V (Proc.devRef .tc main_v8 : DevRef τ sig)
    = pad S10240x128 ![0, 0] ![240, 0] ![0, 0] (V (Proc.devRef .tc main_arg0 : DevRef τ sig) : FVec Ideal S10000x128 .f32)
        (sitofp (F := Ideal) .f32 (constantI S_ 32 0#32)) pads_S10000x128_S10240x128_02400_000 h_S_ := by
  after_results; all_goals rfl

set_option maxHeartbeats 8000000 in
/-- The out-degree column: the histogram of the source row. -/
theorem opsA_v20 : after (opsA (F := Ideal)) V (Proc.devRef .tc main_v20 : DevRef τ sig) = (shapeCast S10240x1 (sitofp (F := Ideal) .f32 (Host.scatter scatter_S10240_S320000x1_S320000_n_0_0_1 IntOp.addi (broadcastInDim S10240 ![] bcast_S_S10240 (constantI S_ 32 0#32))
          (broadcastInDim S320000x1 ![0] bcast_S320000_S320000x1_0 (wrapIx (shapeCast S320000 (extractStridedSlice S1x320000 ![0, 0] (V (Proc.devRef .tc main_arg1 : DevRef τ sig) : IVec S2x320000 32) slices_S2x320000_S1x320000_0_0) shapeCasts_S1x320000_S320000))) (broadcastInDim S320000 ![] bcast_S_S320000 (constantI S_ 32 1#32)))) shapeCasts_S10240_S10240x1) := by
  after_results; all_goals rfl

set_option maxHeartbeats 8000000 in
/-- The in-degree column: the histogram of the destination row. -/
theorem opsA_v32 : after (opsA (F := Ideal)) V (Proc.devRef .tc main_v32 : DevRef τ sig) = (shapeCast S10240x1 (sitofp (F := Ideal) .f32 (Host.scatter scatter_S10240_S320000x1_S320000_n_0_0_1 IntOp.addi (broadcastInDim S10240 ![] bcast_S_S10240 (constantI S_ 32 0#32))
          (broadcastInDim S320000x1 ![0] bcast_S320000_S320000x1_0 (wrapIx (shapeCast S320000 (extractStridedSlice S1x320000 ![1, 0] (V (Proc.devRef .tc main_arg1 : DevRef τ sig) : IVec S2x320000 32) slices_S2x320000_S1x320000_1_0) shapeCasts_S1x320000_S320000))) (broadcastInDim S320000 ![] bcast_S_S320000 (constantI S_ 32 1#32)))) shapeCasts_S10240_S10240x1) := by
  after_results; all_goals rfl

end Reads

/-! ## The kernel's result -/

section Out

variable (m : (ℓ : Loc nD τ sig) → Buf (Elt Ideal) ℓ)
  (g0 : (d : Dev nD) → Buf (Elt Ideal) (oLoc0 d)) (g1 : (d : Dev nD) → Buf (Elt Ideal) (oLoc1 d)) (d : Dev nD)

/-- The arguments as launched, by name. -/
abbrev aX : FVec Ideal Spec.SX .f32 := (Wa m d (Proc.devRef .tc main_arg0 : DevRef τ sig))
abbrev aEI : IVec Spec.SE 32 := (Wa m d (Proc.devRef .tc main_arg1 : DevRef τ sig))
abbrev aW1 : FVec Ideal Spec.SW .f32 := (Wa m d (Proc.devRef .tc main_arg2 : DevRef τ sig))
abbrev ab1 : FVec Ideal Spec.SB .f32 := (Wa m d (Proc.devRef .tc main_arg3 : DevRef τ sig))
abbrev aW2 : FVec Ideal Spec.SW .f32 := (Wa m d (Proc.devRef .tc main_arg4 : DevRef τ sig))
abbrev ab2 : FVec Ideal Spec.SB .f32 := (Wa m d (Proc.devRef .tc main_arg5 : DevRef τ sig))

variable (hEI : ∀ j, ((aEI m d) j).toNat ≤ 9999)
include hEI

/-- The padded features at a node's row. -/
theorem x8_node (r : Fin 10000) (k : Fin 128) : x8 m d (ix2 (nodeRow r) k) = aX m d (ix2 r k) := by
  show after (opsA (F := Ideal)) (Wa m d) _ _ = _
  rw [opsA_v8]
  exact pad_apply_of_inside _ _ _ _ _ _ _ (ix2 (nodeRow r) k) (ix2 r k)
    (fun a => by match a with
      | ⟨0, _⟩ => show r.val = 0 + r.val * (0 + 1); omega
      | ⟨1, _⟩ => show k.val = 0 + k.val * (0 + 1); omega)

/-- The out-degree column at a node's row. -/
theorem d20_node (r : Fin 10000) :
    d20 m d (ix2 (nodeRow r) (0 : Fin 1)) = (((Spec.cnt (Spec.src (aEI m d)) r.val : ℕ) : ℝ) : EReal) := by
  show after (opsA (F := Ideal)) (Wa m d) _ _ = _
  rw [opsA_v20, count_read _ (Spec.src (aEI m d)) (fun e => srcRow_apply (Wa m d) e) (fun e => hEI _) (nodeRow r)]
  rfl

/-- The in-degree column at a node's row. -/
theorem d32_node (r : Fin 10000) :
    d32 m d (ix2 (nodeRow r) (0 : Fin 1)) = (((Spec.cnt (Spec.dst (aEI m d)) r.val : ℕ) : ℝ) : EReal) := by
  show after (opsA (F := Ideal)) (Wa m d) _ _ = _
  rw [opsA_v32, count_read _ (Spec.dst (aEI m d)) (fun e => dstRow_apply (Wa m d) e) (fun e => hEI _) (nodeRow r)]
  rfl

omit hEI in
/-- The source table at an edge's position. -/
theorem t6_edge (e : Fin 320000) :
    t6 m d (ix2 (⟨e.val / 128, by have := e.isLt; omega⟩ : Fin 2560) (⟨e.val % 128, Nat.mod_lt _ (by decide)⟩ : Fin 128)) = Spec.src (aEI m d) e := by
  show after (opsA (F := Ideal)) (Wa m d) _ _ = _
  rw [opsA_v6]
  rw [shapeCast_apply _ shapeCasts_S327680_S2560x128 _ (ix1 (edgeRow e))
    (by rw [Shape.rowMajor_val_one, Shape.rowMajor_val_two]
        show e.val = e.val / 128 * 128 + e.val % 128
        omega)]
  rw [concat2_apply, dif_pos (show ((ix1 (edgeRow e) : S327680.Idx) 0).val < 320000 from e.isLt)]
  exact srcRow_apply (Wa m d) e

omit hEI in
/-- The destination column at an edge's row, -/
theorem i7_edge (e : Fin 320000) :
    (broadcastInDim S327680x1 ![0] bcast_S327680_S327680x1_0 (i7 m d)) (ix2 (edgeRow e) (0 : Fin 1)) = Spec.dst (aEI m d) e := by
  rw [broadcastInDim_apply _ bcast_S327680_S327680x1_0 (i7 m d) (ix2 (edgeRow e) (0 : Fin 1)) (ix1 (edgeRow e))
    (fun a => by match a with | ⟨0, _⟩ => rfl)]
  show after (opsA (F := Ideal)) (Wa m d) _ _ = _
  rw [opsA_v7, concat2_apply, dif_pos (show ((ix1 (edgeRow e) : S327680.Idx) 0).val < 320000 from e.isLt)]
  exact dstRow_apply (Wa m d) e

omit hEI in
/-- and at a padding row: the word 10000. -/
theorem i7_pad (e : Fin 327680) (he : 320000 ≤ e.val) :
    (broadcastInDim S327680x1 ![0] bcast_S327680_S327680x1_0 (i7 m d)) (ix2 e (0 : Fin 1)) = 10000#32 := by
  rw [broadcastInDim_apply _ bcast_S327680_S327680x1_0 (i7 m d) (ix2 e (0 : Fin 1)) (ix1 e)
    (fun a => by match a with | ⟨0, _⟩ => rfl)]
  show after (opsA (F := Ideal)) (Wa m d) _ _ = _
  rw [opsA_v7, concat2_apply, dif_neg (show ¬ ((ix1 e : S327680.Idx) 0).val < 320000 from by show ¬ e.val < 320000; omega)]
  rfl

/-- THE KERNEL'S RESULT. -/
theorem kernel_out (hg0 : g0 d = gatherRows (F := Ideal) (Wc m d h0') (Wc m d s'))
    (hg1 : g1 d = gatherRows (F := Ideal) (Wf m g0 d h1') (Wf m g0 d s')) :
    Wj m g0 g1 d (Proc.devRef .tc main_v46 : DevRef τ sig) = Spec.out (aX m d) (aEI m d) (aW1 m d) (ab1 m d) (aW2 m d) (ab2 m d) := by
  funext i
  obtain ⟨r, j, rfl⟩ : ∃ (r : Fin 10000) (j : Fin 128), i = ix2 r j := ⟨i 0, i 1, eq_ix2 i⟩
  rw [Wj_v46, extractStridedSlice_apply _ _ slices_S10240x128_S10000x128_0_0 (ix2 r j) (ix2 (nodeRow r) j)
    (fun a => by match a with
      | ⟨0, _⟩ => show r.val = 0 + r.val; omega
      | ⟨1, _⟩ => show j.val = 0 + j.val; omega),
    Wi_v45 m g0 g1 d hg0 hg1, Spec.out_apply]
  exact core (aX m d) (aEI m d) (aW1 m d) (ab1 m d) (aW2 m d) (ab2 m d)
    (fun e => hEI _) (fun e => hEI _)
    (x8 m d) (d20 m d) (d32 m d) (x8_node m d hEI) (d20_node m d hEI) (d32_node m d hEI)
    (t6 m d) (t6_edge m d) _ (i7_edge m d) (i7_pad m d)
    _ _ (fun _ => rfl) (fun _ => rfl)
    (Wb m d (Proc.devRef .tc main_arg2 : DevRef τ sig)) (Wb m d (Proc.devRef .tc main_arg4 : DevRef τ sig))
    (fun k j => congrFun (opsA_arg2 (Wa m d)) (ix2 k j)) (fun k j => congrFun (opsA_arg4 (Wa m d)) (ix2 k j))
    _ _
    (fun j => by
      rw [shapeCast_addUnit_apply ![128] _ shapeCasts_S128_S1x128 (ix2 (0 : Fin 1) j)]
      exact (congrArg (Wb m d (Proc.devRef .tc main_arg3 : DevRef τ sig)) (funext fun a => by match a with | ⟨0, _⟩ => rfl)).trans
        (congrFun (opsA_arg3 (Wa m d)) (ix1 j)))
    (fun j => by
      rw [shapeCast_addUnit_apply ![128] _ shapeCasts_S128_S1x128 (ix2 (0 : Fin 1) j)]
      exact (congrArg (Wb m d (Proc.devRef .tc main_arg5 : DevRef τ sig)) (funext fun a => by match a with | ⟨0, _⟩ => rfl)).trans
        (congrFun (opsA_arg5 (Wa m d)) (ix1 j)))
    r j

end Out

end Cert.Proof.KI

end
-- ==== Proof.RefRun.lean ====
import proofs.«207928_g75127567942135_cont_9to1c4b_313_20_alg».proof.Defs
import proofs.«207928_g75127567942135_cont_9to1c4b_313_20_alg».proof.Proof.Gen.ReferenceIdeal
import Idealize.ShloMosaic.Lib.StableHlo.Run

/-!
The reference program's run. Its @main is a straight line of tensor operations once each call of an
outlined function is replaced by that function's body over the call's own buffers (a call means its
callee's body on the operands). We list the 181 operations in program order, show that @main is the
sequence of that list, and obtain from the library's run of a sequence that every execution terminates
with each buffer holding the fold of the operations' results over the launch contents. No operation
writes an argument buffer, so the six argument arrays end as they began.
-/

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

/-- The operations of @main in program order, each call unfolded at its site: a clamp from below
    (`clip`, `clip_0`) is three operations — the bound converted to its own type, broadcast, the
    maximum —; a row lookup (`_take`) is twenty-three — the negative-index wrap through `_where`'s
    select, the bounds test reduced along the index axis, the gather, and the select against the
    not-a-number fill —; `relu` is three — the zero, its broadcast, the maximum. -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_c (constantI S_ 32 0#32),
    unary main_c main_v4 (broadcastInDim S10000 ![] bcast_S_S10000 : (⟨S_, .i32⟩ : BufTy).Contents (Elt F) → (⟨S10000, .i32⟩ : BufTy).Contents (Elt F)),
    nullary main_c_0 (constantI S_ 32 0#32),
    TRef.unary (.of main_c_0 : TRef sig ⟨S_, .i32⟩) main_call0.v0 id,
    TRef.unary main_call0.v0 main_call0.v1 (broadcastInDim S320000 ![] bcast_S_S320000),
    TRef.binary main_call0.v1 (.of main_v1 : TRef sig ⟨S320000, .i32⟩) main_call0.v2 maxsi,
    nullary main_c_1 (constantI S_ 32 0#32),
    unary main_c_1 main_v6 (broadcastInDim S320000 ![] bcast_S_S320000 : (⟨S_, .i32⟩ : BufTy).Contents (Elt F) → (⟨S320000, .i32⟩ : BufTy).Contents (Elt F)),
    binary main_v5 main_v6 main_v7 (cmpi .slt : (⟨S320000, .i32⟩ : BufTy).Contents (Elt F) → (⟨S320000, .i32⟩ : BufTy).Contents (Elt F) → (⟨S320000, .i1⟩ : BufTy).Contents (Elt F)),
    nullary main_c_2 (constantI S_ 32 10000#32),
    unary main_c_2 main_v8 (broadcastInDim S320000 ![] bcast_S_S320000 : (⟨S_, .i32⟩ : BufTy).Contents (Elt F) → (⟨S320000, .i32⟩ : BufTy).Contents (Elt F)),
    binary main_v5 main_v8 main_v9 (addi : (⟨S320000, .i32⟩ : BufTy).Contents (Elt F) → (⟨S320000, .i32⟩ : BufTy).Contents (Elt F) → (⟨S320000, .i32⟩ : BufTy).Contents (Elt F)),
    ternary main_v7 main_v9 main_v5 main_v10 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v10 main_v11 (broadcastInDim S320000x1 ![0] bcast_S320000_S320000x1_0 : (⟨S320000, .i32⟩ : BufTy).Contents (Elt F) → (⟨S320000x1, .i32⟩ : BufTy).Contents (Elt F)),
    nullary main_c_3 (constantI S_ 32 1#32),
    unary main_c_3 main_v12 (broadcastInDim S320000 ![] bcast_S_S320000 : (⟨S_, .i32⟩ : BufTy).Contents (Elt F) → (⟨S320000, .i32⟩ : BufTy).Contents (Elt F)),
    ternary main_v4 main_v11 main_v12 main_v13 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_4 (constantI S_ 32 1#32),
    TRef.unary (.of main_c_4 : TRef sig ⟨S_, .i32⟩) main_call1.v0 id,
    TRef.unary main_call1.v0 main_call1.v1 (broadcastInDim S10000 ![] bcast_S_S10000),
    TRef.binary main_call1.v1 (.of main_v13 : TRef sig ⟨S10000, .i32⟩) main_call1.v2 maxsi,
    unary main_v14 main_v15 (sitofp .f32 : (⟨S10000, .i32⟩ : BufTy).Contents (Elt F) → (⟨S10000, .f32⟩ : BufTy).Contents (Elt F)),
    nullary main_c_5 (constantI S_ 32 0#32),
    unary main_c_5 main_v16 (broadcastInDim S10000 ![] bcast_S_S10000 : (⟨S_, .i32⟩ : BufTy).Contents (Elt F) → (⟨S10000, .i32⟩ : BufTy).Contents (Elt F)),
    nullary main_c_6 (constantI S_ 32 0#32),
    TRef.unary (.of main_c_6 : TRef sig ⟨S_, .i32⟩) main_call2.v0 id,
    TRef.unary main_call2.v0 main_call2.v1 (broadcastInDim S320000 ![] bcast_S_S320000),
    TRef.binary main_call2.v1 (.of main_v3 : TRef sig ⟨S320000, .i32⟩) main_call2.v2 maxsi,
    nullary main_c_7 (constantI S_ 32 0#32),
    unary main_c_7 main_v18 (broadcastInDim S320000 ![] bcast_S_S320000 : (⟨S_, .i32⟩ : BufTy).Contents (Elt F) → (⟨S320000, .i32⟩ : BufTy).Contents (Elt F)),
    binary main_v17 main_v18 main_v19 (cmpi .slt : (⟨S320000, .i32⟩ : BufTy).Contents (Elt F) → (⟨S320000, .i32⟩ : BufTy).Contents (Elt F) → (⟨S320000, .i1⟩ : BufTy).Contents (Elt F)),
    nullary main_c_8 (constantI S_ 32 10000#32),
    unary main_c_8 main_v20 (broadcastInDim S320000 ![] bcast_S_S320000 : (⟨S_, .i32⟩ : BufTy).Contents (Elt F) → (⟨S320000, .i32⟩ : BufTy).Contents (Elt F)),
    binary main_v17 main_v20 main_v21 (addi : (⟨S320000, .i32⟩ : BufTy).Contents (Elt F) → (⟨S320000, .i32⟩ : BufTy).Contents (Elt F) → (⟨S320000, .i32⟩ : BufTy).Contents (Elt F)),
    ternary main_v19 main_v21 main_v17 main_v22 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v22 main_v23 (broadcastInDim S320000x1 ![0] bcast_S320000_S320000x1_0 : (⟨S320000, .i32⟩ : BufTy).Contents (Elt F) → (⟨S320000x1, .i32⟩ : BufTy).Contents (Elt F)),
    nullary main_c_9 (constantI S_ 32 1#32),
    unary main_c_9 main_v24 (broadcastInDim S320000 ![] bcast_S_S320000 : (⟨S_, .i32⟩ : BufTy).Contents (Elt F) → (⟨S320000, .i32⟩ : BufTy).Contents (Elt F)),
    ternary main_v16 main_v23 main_v24 main_v25 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_10 (constantI S_ 32 1#32),
    TRef.unary (.of main_c_10 : TRef sig ⟨S_, .i32⟩) main_call3.v0 id,
    TRef.unary main_call3.v0 main_call3.v1 (broadcastInDim S10000 ![] bcast_S_S10000),
    TRef.binary main_call3.v1 (.of main_v25 : TRef sig ⟨S10000, .i32⟩) main_call3.v2 maxsi,
    unary main_v26 main_v27 (sitofp .f32 : (⟨S10000, .i32⟩ : BufTy).Contents (Elt F) → (⟨S10000, .f32⟩ : BufTy).Contents (Elt F)),
    nullary main_cst (constant S_ .f32 0xBF000000#32),
    unary main_cst main_v28 (broadcastInDim S10000 ![] bcast_S_S10000 : (⟨S_, .f32⟩ : BufTy).Contents (Elt F) → (⟨S10000, .f32⟩ : BufTy).Contents (Elt F)),
    binary main_v15 main_v28 main_v29 (Host.powf : (⟨S10000, .f32⟩ : BufTy).Contents (Elt F) → (⟨S10000, .f32⟩ : BufTy).Contents (Elt F) → (⟨S10000, .f32⟩ : BufTy).Contents (Elt F)),
    unary main_v29 main_v30 (broadcastInDim S10000x1 ![0] bcast_S10000_S10000x1_0 : (⟨S10000, .f32⟩ : BufTy).Contents (Elt F) → (⟨S10000x1, .f32⟩ : BufTy).Contents (Elt F)),
    unary main_v30 main_v31 (broadcastInDim S10000x128 ![0, 1] bcast_S10000x1_S10000x128_0_1 : (⟨S10000x1, .f32⟩ : BufTy).Contents (Elt F) → (⟨S10000x128, .f32⟩ : BufTy).Contents (Elt F)),
    binary main_arg0 main_v31 main_v32 (mulf : (⟨S10000x128, .f32⟩ : BufTy).Contents (Elt F) → (⟨S10000x128, .f32⟩ : BufTy).Contents (Elt F) → (⟨S10000x128, .f32⟩ : BufTy).Contents (Elt F)),
    TRef.nullary main_call4.c (constantI S_ 32 0#32),
    TRef.unary main_call4.c main_call4.v0 (broadcastInDim S320000 ![] bcast_S_S320000),
    TRef.binary (.of main_v1 : TRef sig ⟨S320000, .i32⟩) main_call4.v0 main_call4.v1 (cmpi .slt),
    TRef.nullary main_call4.c_0 (constantI S_ 32 10000#32),
    TRef.unary main_call4.c_0 main_call4.v2 (broadcastInDim S320000 ![] bcast_S_S320000),
    TRef.binary (.of main_v1 : TRef sig ⟨S320000, .i32⟩) main_call4.v2 main_call4.v3 addi,
    TRef.ternary main_call4.v1 main_call4.v3 (.of main_v1 : TRef sig ⟨S320000, .i32⟩) main_call4.call0.v0 select,
    TRef.unary main_call4.call0.v0 main_call4.v5 (broadcastInDim S320000x1 ![0] bcast_S320000_S320000x1_0),
    TRef.nullary main_call4.c_1 (constantI S1 32 9999#32),
    TRef.nullary main_call4.c_2 (constantI S_ 32 0#32),
    TRef.unary main_call4.c_2 main_call4.v6 (broadcastInDim S320000x1 ![] bcast_S_S320000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S320000x1 ![0, 1] bcast_S1x1_S320000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S320000x1_S320000_d1 h_S_),
    TRef.binary (.of main_v32 : TRef sig ⟨S10000x128, .f32⟩) main_call4.v5 main_call4.v13 (fun x i => Host.gather gather_S10000x128_S320000x1_S320000x128_1_0_n_n_0_1_1128 x i),
    TRef.unary main_call4.v12 main_call4.v14 (broadcastInDim S320000x128 ![0] bcast_S320000_S320000x128_0),
    TRef.nullary main_call4.cst (constant S_ .f32 0x7FC00000#32),
    TRef.unary main_call4.cst main_call4.v15 (broadcastInDim S320000x128 ![] bcast_S_S320000x128),
    TRef.ternary main_call4.v14 main_call4.v13 main_call4.v15 main_call4.v16 select,
    nullary main_cst_11 (constant S_ .f32 0x00000000#32),
    unary main_cst_11 main_v34 (broadcastInDim S10000x128 ![] bcast_S_S10000x128 : (⟨S_, .f32⟩ : BufTy).Contents (Elt F) → (⟨S10000x128, .f32⟩ : BufTy).Contents (Elt F)),
    unary main_v3 main_v35 (broadcastInDim S320000x1 ![0] bcast_S320000_S320000x1_0 : (⟨S320000, .i32⟩ : BufTy).Contents (Elt F) → (⟨S320000x1, .i32⟩ : BufTy).Contents (Elt F)),
    ternary main_v34 main_v35 main_v33 main_v36 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    nullary main_cst_12 (constant S_ .f32 0xBF000000#32),
    unary main_cst_12 main_v37 (broadcastInDim S10000 ![] bcast_S_S10000 : (⟨S_, .f32⟩ : BufTy).Contents (Elt F) → (⟨S10000, .f32⟩ : BufTy).Contents (Elt F)),
    binary main_v27 main_v37 main_v38 (Host.powf : (⟨S10000, .f32⟩ : BufTy).Contents (Elt F) → (⟨S10000, .f32⟩ : BufTy).Contents (Elt F) → (⟨S10000, .f32⟩ : BufTy).Contents (Elt F)),
    unary main_v38 main_v39 (broadcastInDim S10000x1 ![0] bcast_S10000_S10000x1_0 : (⟨S10000, .f32⟩ : BufTy).Contents (Elt F) → (⟨S10000x1, .f32⟩ : BufTy).Contents (Elt F)),
    unary main_v39 main_v40 (broadcastInDim S10000x128 ![0, 1] bcast_S10000x1_S10000x128_0_1 : (⟨S10000x1, .f32⟩ : BufTy).Contents (Elt F) → (⟨S10000x128, .f32⟩ : BufTy).Contents (Elt F)),
    binary main_v36 main_v40 main_v41 (mulf : (⟨S10000x128, .f32⟩ : BufTy).Contents (Elt F) → (⟨S10000x128, .f32⟩ : BufTy).Contents (Elt F) → (⟨S10000x128, .f32⟩ : BufTy).Contents (Elt F)),
    binary main_v41 main_arg2 main_v42 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S10000x128 ![0, 1] bcast_S1x128_S10000x128_0_1 : (⟨S1x128, .f32⟩ : BufTy).Contents (Elt F) → (⟨S10000x128, .f32⟩ : BufTy).Contents (Elt F)),
    binary main_v42 main_v44 main_v45 (addf : (⟨S10000x128, .f32⟩ : BufTy).Contents (Elt F) → (⟨S10000x128, .f32⟩ : BufTy).Contents (Elt F) → (⟨S10000x128, .f32⟩ : BufTy).Contents (Elt F)),
    TRef.nullary main_call5.cst (constant S_ .f32 0x00000000#32),
    TRef.unary main_call5.cst main_call5.v0 (broadcastInDim S10000x128 ![] bcast_S_S10000x128),
    TRef.binary (.of main_v45 : TRef sig ⟨S10000x128, .f32⟩) main_call5.v0 main_call5.v1 maximumf,
    nullary main_c_13 (constantI S_ 32 0#32),
    unary main_c_13 main_v47 (broadcastInDim S10000 ![] bcast_S_S10000 : (⟨S_, .i32⟩ : BufTy).Contents (Elt F) → (⟨S10000, .i32⟩ : BufTy).Contents (Elt F)),
    nullary main_c_14 (constantI S_ 32 0#32),
    TRef.unary (.of main_c_14 : TRef sig ⟨S_, .i32⟩) main_call6.v0 id,
    TRef.unary main_call6.v0 main_call6.v1 (broadcastInDim S320000 ![] bcast_S_S320000),
    TRef.binary main_call6.v1 (.of main_v1 : TRef sig ⟨S320000, .i32⟩) main_call6.v2 maxsi,
    nullary main_c_15 (constantI S_ 32 0#32),
    unary main_c_15 main_v49 (broadcastInDim S320000 ![] bcast_S_S320000 : (⟨S_, .i32⟩ : BufTy).Contents (Elt F) → (⟨S320000, .i32⟩ : BufTy).Contents (Elt F)),
    binary main_v48 main_v49 main_v50 (cmpi .slt : (⟨S320000, .i32⟩ : BufTy).Contents (Elt F) → (⟨S320000, .i32⟩ : BufTy).Contents (Elt F) → (⟨S320000, .i1⟩ : BufTy).Contents (Elt F)),
    nullary main_c_16 (constantI S_ 32 10000#32),
    unary main_c_16 main_v51 (broadcastInDim S320000 ![] bcast_S_S320000 : (⟨S_, .i32⟩ : BufTy).Contents (Elt F) → (⟨S320000, .i32⟩ : BufTy).Contents (Elt F)),
    binary main_v48 main_v51 main_v52 (addi : (⟨S320000, .i32⟩ : BufTy).Contents (Elt F) → (⟨S320000, .i32⟩ : BufTy).Contents (Elt F) → (⟨S320000, .i32⟩ : BufTy).Contents (Elt F)),
    ternary main_v50 main_v52 main_v48 main_v53 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v53 main_v54 (broadcastInDim S320000x1 ![0] bcast_S320000_S320000x1_0 : (⟨S320000, .i32⟩ : BufTy).Contents (Elt F) → (⟨S320000x1, .i32⟩ : BufTy).Contents (Elt F)),
    nullary main_c_17 (constantI S_ 32 1#32),
    unary main_c_17 main_v55 (broadcastInDim S320000 ![] bcast_S_S320000 : (⟨S_, .i32⟩ : BufTy).Contents (Elt F) → (⟨S320000, .i32⟩ : BufTy).Contents (Elt F)),
    ternary main_v47 main_v54 main_v55 main_v56 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_18 (constantI S_ 32 1#32),
    TRef.unary (.of main_c_18 : TRef sig ⟨S_, .i32⟩) main_call7.v0 id,
    TRef.unary main_call7.v0 main_call7.v1 (broadcastInDim S10000 ![] bcast_S_S10000),
    TRef.binary main_call7.v1 (.of main_v56 : TRef sig ⟨S10000, .i32⟩) main_call7.v2 maxsi,
    unary main_v57 main_v58 (sitofp .f32 : (⟨S10000, .i32⟩ : BufTy).Contents (Elt F) → (⟨S10000, .f32⟩ : BufTy).Contents (Elt F)),
    nullary main_c_19 (constantI S_ 32 0#32),
    unary main_c_19 main_v59 (broadcastInDim S10000 ![] bcast_S_S10000 : (⟨S_, .i32⟩ : BufTy).Contents (Elt F) → (⟨S10000, .i32⟩ : BufTy).Contents (Elt F)),
    nullary main_c_20 (constantI S_ 32 0#32),
    TRef.unary (.of main_c_20 : TRef sig ⟨S_, .i32⟩) main_call8.v0 id,
    TRef.unary main_call8.v0 main_call8.v1 (broadcastInDim S320000 ![] bcast_S_S320000),
    TRef.binary main_call8.v1 (.of main_v3 : TRef sig ⟨S320000, .i32⟩) main_call8.v2 maxsi,
    nullary main_c_21 (constantI S_ 32 0#32),
    unary main_c_21 main_v61 (broadcastInDim S320000 ![] bcast_S_S320000 : (⟨S_, .i32⟩ : BufTy).Contents (Elt F) → (⟨S320000, .i32⟩ : BufTy).Contents (Elt F)),
    binary main_v60 main_v61 main_v62 (cmpi .slt : (⟨S320000, .i32⟩ : BufTy).Contents (Elt F) → (⟨S320000, .i32⟩ : BufTy).Contents (Elt F) → (⟨S320000, .i1⟩ : BufTy).Contents (Elt F)),
    nullary main_c_22 (constantI S_ 32 10000#32),
    unary main_c_22 main_v63 (broadcastInDim S320000 ![] bcast_S_S320000 : (⟨S_, .i32⟩ : BufTy).Contents (Elt F) → (⟨S320000, .i32⟩ : BufTy).Contents (Elt F)),
    binary main_v60 main_v63 main_v64 (addi : (⟨S320000, .i32⟩ : BufTy).Contents (Elt F) → (⟨S320000, .i32⟩ : BufTy).Contents (Elt F) → (⟨S320000, .i32⟩ : BufTy).Contents (Elt F)),
    ternary main_v62 main_v64 main_v60 main_v65 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v65 main_v66 (broadcastInDim S320000x1 ![0] bcast_S320000_S320000x1_0 : (⟨S320000, .i32⟩ : BufTy).Contents (Elt F) → (⟨S320000x1, .i32⟩ : BufTy).Contents (Elt F)),
    nullary main_c_23 (constantI S_ 32 1#32),
    unary main_c_23 main_v67 (broadcastInDim S320000 ![] bcast_S_S320000 : (⟨S_, .i32⟩ : BufTy).Contents (Elt F) → (⟨S320000, .i32⟩ : BufTy).Contents (Elt F)),
    ternary main_v59 main_v66 main_v67 main_v68 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_24 (constantI S_ 32 1#32),
    TRef.unary (.of main_c_24 : TRef sig ⟨S_, .i32⟩) main_call9.v0 id,
    TRef.unary main_call9.v0 main_call9.v1 (broadcastInDim S10000 ![] bcast_S_S10000),
    TRef.binary main_call9.v1 (.of main_v68 : TRef sig ⟨S10000, .i32⟩) main_call9.v2 maxsi,
    unary main_v69 main_v70 (sitofp .f32 : (⟨S10000, .i32⟩ : BufTy).Contents (Elt F) → (⟨S10000, .f32⟩ : BufTy).Contents (Elt F)),
    nullary main_cst_25 (constant S_ .f32 0xBF000000#32),
    unary main_cst_25 main_v71 (broadcastInDim S10000 ![] bcast_S_S10000 : (⟨S_, .f32⟩ : BufTy).Contents (Elt F) → (⟨S10000, .f32⟩ : BufTy).Contents (Elt F)),
    binary main_v58 main_v71 main_v72 (Host.powf : (⟨S10000, .f32⟩ : BufTy).Contents (Elt F) → (⟨S10000, .f32⟩ : BufTy).Contents (Elt F) → (⟨S10000, .f32⟩ : BufTy).Contents (Elt F)),
    unary main_v72 main_v73 (broadcastInDim S10000x1 ![0] bcast_S10000_S10000x1_0 : (⟨S10000, .f32⟩ : BufTy).Contents (Elt F) → (⟨S10000x1, .f32⟩ : BufTy).Contents (Elt F)),
    unary main_v73 main_v74 (broadcastInDim S10000x128 ![0, 1] bcast_S10000x1_S10000x128_0_1 : (⟨S10000x1, .f32⟩ : BufTy).Contents (Elt F) → (⟨S10000x128, .f32⟩ : BufTy).Contents (Elt F)),
    binary main_v46 main_v74 main_v75 (mulf : (⟨S10000x128, .f32⟩ : BufTy).Contents (Elt F) → (⟨S10000x128, .f32⟩ : BufTy).Contents (Elt F) → (⟨S10000x128, .f32⟩ : BufTy).Contents (Elt F)),
    TRef.nullary main_call10.c (constantI S_ 32 0#32),
    TRef.unary main_call10.c main_call10.v0 (broadcastInDim S320000 ![] bcast_S_S320000),
    TRef.binary (.of main_v1 : TRef sig ⟨S320000, .i32⟩) main_call10.v0 main_call10.v1 (cmpi .slt),
    TRef.nullary main_call10.c_0 (constantI S_ 32 10000#32),
    TRef.unary main_call10.c_0 main_call10.v2 (broadcastInDim S320000 ![] bcast_S_S320000),
    TRef.binary (.of main_v1 : TRef sig ⟨S320000, .i32⟩) main_call10.v2 main_call10.v3 addi,
    TRef.ternary main_call10.v1 main_call10.v3 (.of main_v1 : TRef sig ⟨S320000, .i32⟩) main_call10.call0.v0 select,
    TRef.unary main_call10.call0.v0 main_call10.v5 (broadcastInDim S320000x1 ![0] bcast_S320000_S320000x1_0),
    TRef.nullary main_call10.c_1 (constantI S1 32 9999#32),
    TRef.nullary main_call10.c_2 (constantI S_ 32 0#32),
    TRef.unary main_call10.c_2 main_call10.v6 (broadcastInDim S320000x1 ![] bcast_S_S320000x1),
    TRef.binary main_call10.v5 main_call10.v6 main_call10.v7 (cmpi .sge),
    TRef.unary main_call10.c_1 main_call10.v8 (broadcastInDim S1x1 ![1] bcast_S1_S1x1_1),
    TRef.unary main_call10.v8 main_call10.v9 (broadcastInDim S320000x1 ![0, 1] bcast_S1x1_S320000x1_0_1),
    TRef.binary main_call10.v5 main_call10.v9 main_call10.v10 (cmpi .sle),
    TRef.binary main_call10.v7 main_call10.v10 main_call10.v11 andi,
    TRef.nullary main_call10.c_3 (constantI S_ 1 1#1),
    TRef.binary main_call10.v11 main_call10.c_3 main_call10.v12 (fun x v => Host.reduce IntOp.andi x v reducesTo_S320000x1_S320000_d1 h_S_),
    TRef.binary (.of main_v75 : TRef sig ⟨S10000x128, .f32⟩) main_call10.v5 main_call10.v13 (fun x i => Host.gather gather_S10000x128_S320000x1_S320000x128_1_0_n_n_0_1_1128 x i),
    TRef.unary main_call10.v12 main_call10.v14 (broadcastInDim S320000x128 ![0] bcast_S320000_S320000x128_0),
    TRef.nullary main_call10.cst (constant S_ .f32 0x7FC00000#32),
    TRef.unary main_call10.cst main_call10.v15 (broadcastInDim S320000x128 ![] bcast_S_S320000x128),
    TRef.ternary main_call10.v14 main_call10.v13 main_call10.v15 main_call10.v16 select,
    nullary main_cst_26 (constant S_ .f32 0x00000000#32),
    unary main_cst_26 main_v77 (broadcastInDim S10000x128 ![] bcast_S_S10000x128 : (⟨S_, .f32⟩ : BufTy).Contents (Elt F) → (⟨S10000x128, .f32⟩ : BufTy).Contents (Elt F)),
    unary main_v3 main_v78 (broadcastInDim S320000x1 ![0] bcast_S320000_S320000x1_0 : (⟨S320000, .i32⟩ : BufTy).Contents (Elt F) → (⟨S320000x1, .i32⟩ : BufTy).Contents (Elt F)),
    ternary main_v77 main_v78 main_v76 main_v79 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    nullary main_cst_27 (constant S_ .f32 0xBF000000#32),
    unary main_cst_27 main_v80 (broadcastInDim S10000 ![] bcast_S_S10000 : (⟨S_, .f32⟩ : BufTy).Contents (Elt F) → (⟨S10000, .f32⟩ : BufTy).Contents (Elt F)),
    binary main_v70 main_v80 main_v81 (Host.powf : (⟨S10000, .f32⟩ : BufTy).Contents (Elt F) → (⟨S10000, .f32⟩ : BufTy).Contents (Elt F) → (⟨S10000, .f32⟩ : BufTy).Contents (Elt F)),
    unary main_v81 main_v82 (broadcastInDim S10000x1 ![0] bcast_S10000_S10000x1_0 : (⟨S10000, .f32⟩ : BufTy).Contents (Elt F) → (⟨S10000x1, .f32⟩ : BufTy).Contents (Elt F)),
    unary main_v82 main_v83 (broadcastInDim S10000x128 ![0, 1] bcast_S10000x1_S10000x128_0_1 : (⟨S10000x1, .f32⟩ : BufTy).Contents (Elt F) → (⟨S10000x128, .f32⟩ : BufTy).Contents (Elt F)),
    binary main_v79 main_v83 main_v84 (mulf : (⟨S10000x128, .f32⟩ : BufTy).Contents (Elt F) → (⟨S10000x128, .f32⟩ : BufTy).Contents (Elt F) → (⟨S10000x128, .f32⟩ : BufTy).Contents (Elt F)),
    binary main_v84 main_arg4 main_v85 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v86 (broadcastInDim S1x128 ![1] bcast_S128_S1x128_1 : (⟨S128, .f32⟩ : BufTy).Contents (Elt F) → (⟨S1x128, .f32⟩ : BufTy).Contents (Elt F)),
    unary main_v86 main_v87 (broadcastInDim S10000x128 ![0, 1] bcast_S1x128_S10000x128_0_1 : (⟨S1x128, .f32⟩ : BufTy).Contents (Elt F) → (⟨S10000x128, .f32⟩ : BufTy).Contents (Elt F)),
    binary main_v85 main_v87 main_v88 (addf : (⟨S10000x128, .f32⟩ : BufTy).Contents (Elt F) → (⟨S10000x128, .f32⟩ : BufTy).Contents (Elt F) → (⟨S10000x128, .f32⟩ : BufTy).Contents (Elt F)) ]

set_option maxRecDepth 16384 in
set_option maxHeartbeats 4000000 in
/-- @main is that straight line: with the two windows and the functions' bodies unfolded at their
    calls, both sides are one chain of steps once sequencing is reassociated to the right and the
    callees' returns are dropped. -/
theorem main_eq (c : Dev nD) : main (F := F) c = seq ops := by
  simp only [main, main_part0, main_part1, fn_clip.body, fn_clip_0.body, fn_where.body, fn_take.body, fn_relu.body,
    seq, bind_assoc, pure_bind]

/-- The signature scopes no TensorCore buffer and no semaphore: every buffer is a tensor value's, live
    for the whole program. -/
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore buffers only: each builder's operands and result are references
    of the TensorCore. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., unary_bufs_sub ..,
    binary_bufs_sub .., unary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., unary_bufs_sub .., binary_bufs_sub .., unary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., unary_bufs_sub ..,
    binary_bufs_sub .., unary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., unary_bufs_sub .., binary_bufs_sub .., unary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub ..⟩

set_option maxRecDepth 16384 in
set_option maxHeartbeats 4000000 in
/-- At the compiled mesh, for any float values, from any memory with zero counters: every weakly fair
    execution of @main on the TensorCores terminates, and every final state has each TensorCore buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 16384 in
set_option maxHeartbeats 4000000 in
/-- No operation's result buffer is an argument's: the fold leaves each argument array at its contents
    (at each operation the argument's reference differs from the result's, a decidable comparison). -/
theorem arg0_eq (V : Valuation τ sig (Elt F)) :
    after ops V (main_arg0 : DevRef τ sig) = V (main_arg0 : DevRef τ sig) := by
  after_results_simp

set_option maxRecDepth 16384 in
set_option maxHeartbeats 4000000 in
theorem arg1_eq (V : Valuation τ sig (Elt F)) :
    after ops V (main_arg1 : DevRef τ sig) = V (main_arg1 : DevRef τ sig) := by
  after_results_simp

set_option maxRecDepth 16384 in
set_option maxHeartbeats 4000000 in
theorem arg2_eq (V : Valuation τ sig (Elt F)) :
    after ops V (main_arg2 : DevRef τ sig) = V (main_arg2 : DevRef τ sig) := by
  after_results_simp

set_option maxRecDepth 16384 in
set_option maxHeartbeats 4000000 in
theorem arg3_eq (V : Valuation τ sig (Elt F)) :
    after ops V (main_arg3 : DevRef τ sig) = V (main_arg3 : DevRef τ sig) := by
  after_results_simp

set_option maxRecDepth 16384 in
set_option maxHeartbeats 4000000 in
theorem arg4_eq (V : Valuation τ sig (Elt F)) :
    after ops V (main_arg4 : DevRef τ sig) = V (main_arg4 : DevRef τ sig) := by
  after_results_simp

set_option maxRecDepth 16384 in
set_option maxHeartbeats 4000000 in
theorem arg5_eq (V : Valuation τ sig (Elt F)) :
    after ops V (main_arg5 : DevRef τ sig) = V (main_arg5 : DevRef τ sig) := by
  after_results_simp

end Cert.ReferenceIdeal.RefRun

namespace Cert.Proof.RefClaims

open Cert.ReferenceIdeal Cert.ReferenceIdeal.RefRun Idealize.ShloMosaic Idealize.ShloMosaic.TcCoe Idealize.SL.Sem
  Idealize.ShloMosaic.StableHlo

/-- The reference runs and its six argument arrays end unchanged: the run's final contents at an argument
    are the fold's, which is the launch contents there. -/
theorem frame_ri [Cert.ReferenceIdeal.Facts] [Cert.Pre_input_domain.Facts] : Cert.frame_ReferenceIdeal :=
  fun m g _ => (θ_run _ _ _).mono
    (fun _ h c => ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m g)

end Cert.Proof.RefClaims

end
-- ==== Proof.RefStages.lean ====
import proofs.«207928_g75127567942135_cont_9to1c4b_313_20_alg».proof.Proof.RefRun

/-!
The reference's result as a composition of small functions of its six argument arrays. The straight line of
operations is cut into twelve consecutive windows; over an arbitrary valuation entering a window, the window's
result buffer holds a small function of the buffers the window reads (a degree count, its inverse square root
spread over the feature columns, a row lookup, the second half of a convolution), and every buffer still needed
later is left as it was.
-/

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

/-! ## The stage functions -/

/-- Row 0 of the edge list as a vector: the sources. -/
def srcOf (a1 : IVec S2x320000 32) : IVec S320000 32 :=
  shapeCast S320000 (extractStridedSlice S1x320000 ![0, 0] a1 slices_S2x320000_S1x320000_0_0) shapeCasts_S1x320000_S320000

/-- Row 1 of the edge list as a vector: the targets. -/
def dstOf (a1 : IVec S2x320000 32) : IVec S320000 32 :=
  shapeCast S320000 (extractStridedSlice S1x320000 ![1, 0] a1 slices_S2x320000_S1x320000_1_0) shapeCasts_S1x320000_S320000
/-- How often each node occurs in a row `e` of the edge list, at least one, as a float: the index clamped
    below by zero, a negative one wrapped by the node count, ones summed into a zero array at those indices,
    the count clamped below by one and converted. -/
def degree (e : IVec S320000 32) : FVec F S10000 .f32 :=
  let lo : IVec S320000 32 := maxsi (broadcastInDim S320000 ![] bcast_S_S320000 (constantI S_ 32 0#32)) e
  let idx : IVec S320000 32 :=
    select (cmpi .slt lo (broadcastInDim S320000 ![] bcast_S_S320000 (constantI S_ 32 0#32)))
      (addi lo (broadcastInDim S320000 ![] bcast_S_S320000 (constantI S_ 32 10000#32))) lo
  let cnt : IVec S10000 32 :=
    Host.scatter scatter_S10000_S320000x1_S320000_n_0_0_1 IntOp.addi
      (broadcastInDim S10000 ![] bcast_S_S10000 (constantI S_ 32 0#32))
      (broadcastInDim S320000x1 ![0] bcast_S320000_S320000x1_0 idx)
      (broadcastInDim S320000 ![] bcast_S_S320000 (constantI S_ 32 1#32))
  sitofp .f32 (maxsi (broadcastInDim S10000 ![] bcast_S_S10000 (constantI S_ 32 1#32)) cnt)

/-- A per-node factor `d` raised to the power −1/2 and repeated across the 128 feature columns. -/
def invSqrtCols (d : FVec F S10000 .f32) : FVec F S10000x128 .f32 :=
  broadcastInDim S10000x128 ![0, 1] bcast_S10000x1_S10000x128_0_1
    (broadcastInDim S10000x1 ![0] bcast_S10000_S10000x1_0
      (Host.powf d (broadcastInDim S10000 ![] bcast_S_S10000 (constant S_ .f32 0xBF000000#32))))

/-- The rows of `h` at the indices `e`, one per edge: a negative index wrapped by the node count, the row
    gathered, and a row whose index is outside `0 … 9999` replaced by not-a-number. -/
def takeRows (h : FVec F S10000x128 .f32) (e : IVec S320000 32) : FVec F S320000x128 .f32 :=
  let i : IVec S320000x1 32 :=
    broadcastInDim S320000x1 ![0] bcast_S320000_S320000x1_0
      (select (cmpi .slt e (broadcastInDim S320000 ![] bcast_S_S320000 (constantI S_ 32 0#32)))
        (addi e (broadcastInDim S320000 ![] bcast_S_S320000 (constantI S_ 32 10000#32))) e)
  let ok : IVec S320000 1 :=
    Host.reduce IntOp.andi
      (andi (cmpi .sge i (broadcastInDim S320000x1 ![] bcast_S_S320000x1 (constantI S_ 32 0#32)))
        (cmpi .sle i (broadcastInDim S320000x1 ![0, 1] bcast_S1x1_S320000x1_0_1
          (broadcastInDim S1x1 ![1] bcast_S1_S1x1_1 (constantI S1 32 9999#32)))))
      (constantI S_ 1 1#1) reducesTo_S320000x1_S320000_d1 h_S_
  select (broadcastInDim S320000x128 ![0] bcast_S320000_S320000x128_0 ok)
    (Host.gather gather_S10000x128_S320000x1_S320000x128_1_0_n_n_0_1_1128 h i)
    (broadcastInDim S320000x128 ![] bcast_S_S320000x128 (constant S_ .f32 0x7FC00000#32))

/-- The second half of a graph convolution, from the looked-up rows `msgs`: summed into the targets `dst`, scaled
    by the targets' factor (from their degree `dIn`), multiplied by the weights, plus the bias on every row. -/
def layerTail (msgs : FVec F S320000x128 .f32) (dst : IVec S320000 32) (dIn : FVec F S10000 .f32) (W : FVec F S128x128 .f32)
    (b : FVec F S128 .f32) : FVec F S10000x128 .f32 :=
  addf
    (Host.dotGeneral dot_S10000x128_S128x128_S10000x128_1_0_0_1_n_n none
      (mulf
        (Host.scatterAdd scatter_S10000x128_S320000x1_S320000x128_1_0_0_1
          (broadcastInDim S10000x128 ![] bcast_S_S10000x128 (constant S_ .f32 0x00000000#32))
          (broadcastInDim S320000x1 ![0] bcast_S320000_S320000x1_0 dst) msgs)
        (invSqrtCols dIn))
      W)
    (broadcastInDim S10000x128 ![0, 1] bcast_S1x128_S10000x128_0_1 (broadcastInDim S1x128 ![1] bcast_S128_S1x128_1 b))

/-- The larger of each element and zero. -/
def relu0 (x : FVec F S10000x128 .f32) : FVec F S10000x128 .f32 :=
  maximumf x (broadcastInDim S10000x128 ![] bcast_S_S10000x128 (constant S_ .f32 0x00000000#32))

/-- What the reference computes from its arguments' contents: node features `a0`, the edge list `a1` (row 0 the
    sources, row 1 the targets), and the two layers' weights and biases `a2 … a5`. Each layer scales the features by
    the sources' inverse-square-root degree, looks them up along the sources, and finishes with `layerTail`; the
    second layer starts from the first one's result clamped below by zero. -/
def refOut (a0 : FVec F S10000x128 .f32) (a1 : IVec S2x320000 32) (a2 : FVec F S128x128 .f32) (a3 : FVec F S128 .f32)
    (a4 : FVec F S128x128 .f32) (a5 : FVec F S128 .f32) : FVec F S10000x128 .f32 :=
  layerTail
    (takeRows
      (mulf
        (relu0
          (layerTail (takeRows (mulf a0 (invSqrtCols (degree (srcOf a1)))) (srcOf a1)) (dstOf a1) (degree (dstOf a1)) a2 a3))
        (invSqrtCols (degree (srcOf a1))))
      (srcOf a1))
    (dstOf a1) (degree (dstOf a1)) a4 a5

/-! ## The windows -/

def w0 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000 ]

def w1 : List (HloOp τ sig (Elt F)) :=
  [ nullary main_c (constantI S_ 32 0#32),
    unary main_c main_v4 (broadcastInDim S10000 ![] bcast_S_S10000 : (⟨S_, .i32⟩ : BufTy).Contents (Elt F) → (⟨S10000, .i32⟩ : BufTy).Contents (Elt F)),
    nullary main_c_0 (constantI S_ 32 0#32),
    TRef.unary (.of main_c_0 : TRef sig ⟨S_, .i32⟩) main_call0.v0 id,
    TRef.unary main_call0.v0 main_call0.v1 (broadcastInDim S320000 ![] bcast_S_S320000),
    TRef.binary main_call0.v1 (.of main_v1 : TRef sig ⟨S320000, .i32⟩) main_call0.v2 maxsi,
    nullary main_c_1 (constantI S_ 32 0#32),
    unary main_c_1 main_v6 (broadcastInDim S320000 ![] bcast_S_S320000 : (⟨S_, .i32⟩ : BufTy).Contents (Elt F) → (⟨S320000, .i32⟩ : BufTy).Contents (Elt F)),
    binary main_v5 main_v6 main_v7 (cmpi .slt : (⟨S320000, .i32⟩ : BufTy).Contents (Elt F) → (⟨S320000, .i32⟩ : BufTy).Contents (Elt F) → (⟨S320000, .i1⟩ : BufTy).Contents (Elt F)),
    nullary main_c_2 (constantI S_ 32 10000#32),
    unary main_c_2 main_v8 (broadcastInDim S320000 ![] bcast_S_S320000 : (⟨S_, .i32⟩ : BufTy).Contents (Elt F) → (⟨S320000, .i32⟩ : BufTy).Contents (Elt F)),
    binary main_v5 main_v8 main_v9 (addi : (⟨S320000, .i32⟩ : BufTy).Contents (Elt F) → (⟨S320000, .i32⟩ : BufTy).Contents (Elt F) → (⟨S320000, .i32⟩ : BufTy).Contents (Elt F)),
    ternary main_v7 main_v9 main_v5 main_v10 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v10 main_v11 (broadcastInDim S320000x1 ![0] bcast_S320000_S320000x1_0 : (⟨S320000, .i32⟩ : BufTy).Contents (Elt F) → (⟨S320000x1, .i32⟩ : BufTy).Contents (Elt F)),
    nullary main_c_3 (constantI S_ 32 1#32),
    unary main_c_3 main_v12 (broadcastInDim S320000 ![] bcast_S_S320000 : (⟨S_, .i32⟩ : BufTy).Contents (Elt F) → (⟨S320000, .i32⟩ : BufTy).Contents (Elt F)),
    ternary main_v4 main_v11 main_v12 main_v13 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_4 (constantI S_ 32 1#32),
    TRef.unary (.of main_c_4 : TRef sig ⟨S_, .i32⟩) main_call1.v0 id,
    TRef.unary main_call1.v0 main_call1.v1 (broadcastInDim S10000 ![] bcast_S_S10000),
    TRef.binary main_call1.v1 (.of main_v13 : TRef sig ⟨S10000, .i32⟩) main_call1.v2 maxsi,
    unary main_v14 main_v15 (sitofp .f32 : (⟨S10000, .i32⟩ : BufTy).Contents (Elt F) → (⟨S10000, .f32⟩ : BufTy).Contents (Elt F)) ]

def w2 : List (HloOp τ sig (Elt F)) :=
  [ nullary main_c_5 (constantI S_ 32 0#32),
    unary main_c_5 main_v16 (broadcastInDim S10000 ![] bcast_S_S10000 : (⟨S_, .i32⟩ : BufTy).Contents (Elt F) → (⟨S10000, .i32⟩ : BufTy).Contents (Elt F)),
    nullary main_c_6 (constantI S_ 32 0#32),
    TRef.unary (.of main_c_6 : TRef sig ⟨S_, .i32⟩) main_call2.v0 id,
    TRef.unary main_call2.v0 main_call2.v1 (broadcastInDim S320000 ![] bcast_S_S320000),
    TRef.binary main_call2.v1 (.of main_v3 : TRef sig ⟨S320000, .i32⟩) main_call2.v2 maxsi,
    nullary main_c_7 (constantI S_ 32 0#32),
    unary main_c_7 main_v18 (broadcastInDim S320000 ![] bcast_S_S320000 : (⟨S_, .i32⟩ : BufTy).Contents (Elt F) → (⟨S320000, .i32⟩ : BufTy).Contents (Elt F)),
    binary main_v17 main_v18 main_v19 (cmpi .slt : (⟨S320000, .i32⟩ : BufTy).Contents (Elt F) → (⟨S320000, .i32⟩ : BufTy).Contents (Elt F) → (⟨S320000, .i1⟩ : BufTy).Contents (Elt F)),
    nullary main_c_8 (constantI S_ 32 10000#32),
    unary main_c_8 main_v20 (broadcastInDim S320000 ![] bcast_S_S320000 : (⟨S_, .i32⟩ : BufTy).Contents (Elt F) → (⟨S320000, .i32⟩ : BufTy).Contents (Elt F)),
    binary main_v17 main_v20 main_v21 (addi : (⟨S320000, .i32⟩ : BufTy).Contents (Elt F) → (⟨S320000, .i32⟩ : BufTy).Contents (Elt F) → (⟨S320000, .i32⟩ : BufTy).Contents (Elt F)),
    ternary main_v19 main_v21 main_v17 main_v22 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v22 main_v23 (broadcastInDim S320000x1 ![0] bcast_S320000_S320000x1_0 : (⟨S320000, .i32⟩ : BufTy).Contents (Elt F) → (⟨S320000x1, .i32⟩ : BufTy).Contents (Elt F)),
    nullary main_c_9 (constantI S_ 32 1#32),
    unary main_c_9 main_v24 (broadcastInDim S320000 ![] bcast_S_S320000 : (⟨S_, .i32⟩ : BufTy).Contents (Elt F) → (⟨S320000, .i32⟩ : BufTy).Contents (Elt F)),
    ternary main_v16 main_v23 main_v24 main_v25 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_10 (constantI S_ 32 1#32),
    TRef.unary (.of main_c_10 : TRef sig ⟨S_, .i32⟩) main_call3.v0 id,
    TRef.unary main_call3.v0 main_call3.v1 (broadcastInDim S10000 ![] bcast_S_S10000),
    TRef.binary main_call3.v1 (.of main_v25 : TRef sig ⟨S10000, .i32⟩) main_call3.v2 maxsi,
    unary main_v26 main_v27 (sitofp .f32 : (⟨S10000, .i32⟩ : BufTy).Contents (Elt F) → (⟨S10000, .f32⟩ : BufTy).Contents (Elt F)) ]

def w3 : List (HloOp τ sig (Elt F)) :=
  [ nullary main_cst (constant S_ .f32 0xBF000000#32),
    unary main_cst main_v28 (broadcastInDim S10000 ![] bcast_S_S10000 : (⟨S_, .f32⟩ : BufTy).Contents (Elt F) → (⟨S10000, .f32⟩ : BufTy).Contents (Elt F)),
    binary main_v15 main_v28 main_v29 (Host.powf : (⟨S10000, .f32⟩ : BufTy).Contents (Elt F) → (⟨S10000, .f32⟩ : BufTy).Contents (Elt F) → (⟨S10000, .f32⟩ : BufTy).Contents (Elt F)),
    unary main_v29 main_v30 (broadcastInDim S10000x1 ![0] bcast_S10000_S10000x1_0 : (⟨S10000, .f32⟩ : BufTy).Contents (Elt F) → (⟨S10000x1, .f32⟩ : BufTy).Contents (Elt F)),
    unary main_v30 main_v31 (broadcastInDim S10000x128 ![0, 1] bcast_S10000x1_S10000x128_0_1 : (⟨S10000x1, .f32⟩ : BufTy).Contents (Elt F) → (⟨S10000x128, .f32⟩ : BufTy).Contents (Elt F)),
    binary main_arg0 main_v31 main_v32 (mulf : (⟨S10000x128, .f32⟩ : BufTy).Contents (Elt F) → (⟨S10000x128, .f32⟩ : BufTy).Contents (Elt F) → (⟨S10000x128, .f32⟩ : BufTy).Contents (Elt F)) ]

def w4 : List (HloOp τ sig (Elt F)) :=
  [ TRef.nullary main_call4.c (constantI S_ 32 0#32),
    TRef.unary main_call4.c main_call4.v0 (broadcastInDim S320000 ![] bcast_S_S320000),
    TRef.binary (.of main_v1 : TRef sig ⟨S320000, .i32⟩) main_call4.v0 main_call4.v1 (cmpi .slt),
    TRef.nullary main_call4.c_0 (constantI S_ 32 10000#32),
    TRef.unary main_call4.c_0 main_call4.v2 (broadcastInDim S320000 ![] bcast_S_S320000),
    TRef.binary (.of main_v1 : TRef sig ⟨S320000, .i32⟩) main_call4.v2 main_call4.v3 addi,
    TRef.ternary main_call4.v1 main_call4.v3 (.of main_v1 : TRef sig ⟨S320000, .i32⟩) main_call4.call0.v0 select,
    TRef.unary main_call4.call0.v0 main_call4.v5 (broadcastInDim S320000x1 ![0] bcast_S320000_S320000x1_0),
    TRef.nullary main_call4.c_1 (constantI S1 32 9999#32),
    TRef.nullary main_call4.c_2 (constantI S_ 32 0#32),
    TRef.unary main_call4.c_2 main_call4.v6 (broadcastInDim S320000x1 ![] bcast_S_S320000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S320000x1 ![0, 1] bcast_S1x1_S320000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S320000x1_S320000_d1 h_S_),
    TRef.binary (.of main_v32 : TRef sig ⟨S10000x128, .f32⟩) main_call4.v5 main_call4.v13 (fun x i => Host.gather gather_S10000x128_S320000x1_S320000x128_1_0_n_n_0_1_1128 x i),
    TRef.unary main_call4.v12 main_call4.v14 (broadcastInDim S320000x128 ![0] bcast_S320000_S320000x128_0),
    TRef.nullary main_call4.cst (constant S_ .f32 0x7FC00000#32),
    TRef.unary main_call4.cst main_call4.v15 (broadcastInDim S320000x128 ![] bcast_S_S320000x128),
    TRef.ternary main_call4.v14 main_call4.v13 main_call4.v15 main_call4.v16 select ]

def w5 : List (HloOp τ sig (Elt F)) :=
  [ nullary main_cst_11 (constant S_ .f32 0x00000000#32),
    unary main_cst_11 main_v34 (broadcastInDim S10000x128 ![] bcast_S_S10000x128 : (⟨S_, .f32⟩ : BufTy).Contents (Elt F) → (⟨S10000x128, .f32⟩ : BufTy).Contents (Elt F)),
    unary main_v3 main_v35 (broadcastInDim S320000x1 ![0] bcast_S320000_S320000x1_0 : (⟨S320000, .i32⟩ : BufTy).Contents (Elt F) → (⟨S320000x1, .i32⟩ : BufTy).Contents (Elt F)),
    ternary main_v34 main_v35 main_v33 main_v36 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    nullary main_cst_12 (constant S_ .f32 0xBF000000#32),
    unary main_cst_12 main_v37 (broadcastInDim S10000 ![] bcast_S_S10000 : (⟨S_, .f32⟩ : BufTy).Contents (Elt F) → (⟨S10000, .f32⟩ : BufTy).Contents (Elt F)),
    binary main_v27 main_v37 main_v38 (Host.powf : (⟨S10000, .f32⟩ : BufTy).Contents (Elt F) → (⟨S10000, .f32⟩ : BufTy).Contents (Elt F) → (⟨S10000, .f32⟩ : BufTy).Contents (Elt F)),
    unary main_v38 main_v39 (broadcastInDim S10000x1 ![0] bcast_S10000_S10000x1_0 : (⟨S10000, .f32⟩ : BufTy).Contents (Elt F) → (⟨S10000x1, .f32⟩ : BufTy).Contents (Elt F)),
    unary main_v39 main_v40 (broadcastInDim S10000x128 ![0, 1] bcast_S10000x1_S10000x128_0_1 : (⟨S10000x1, .f32⟩ : BufTy).Contents (Elt F) → (⟨S10000x128, .f32⟩ : BufTy).Contents (Elt F)),
    binary main_v36 main_v40 main_v41 (mulf : (⟨S10000x128, .f32⟩ : BufTy).Contents (Elt F) → (⟨S10000x128, .f32⟩ : BufTy).Contents (Elt F) → (⟨S10000x128, .f32⟩ : BufTy).Contents (Elt F)),
    binary main_v41 main_arg2 main_v42 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S10000x128 ![0, 1] bcast_S1x128_S10000x128_0_1 : (⟨S1x128, .f32⟩ : BufTy).Contents (Elt F) → (⟨S10000x128, .f32⟩ : BufTy).Contents (Elt F)),
    binary main_v42 main_v44 main_v45 (addf : (⟨S10000x128, .f32⟩ : BufTy).Contents (Elt F) → (⟨S10000x128, .f32⟩ : BufTy).Contents (Elt F) → (⟨S10000x128, .f32⟩ : BufTy).Contents (Elt F)) ]

def w6 : List (HloOp τ sig (Elt F)) :=
  [ TRef.nullary main_call5.cst (constant S_ .f32 0x00000000#32),
    TRef.unary main_call5.cst main_call5.v0 (broadcastInDim S10000x128 ![] bcast_S_S10000x128),
    TRef.binary (.of main_v45 : TRef sig ⟨S10000x128, .f32⟩) main_call5.v0 main_call5.v1 maximumf ]

def w7 : List (HloOp τ sig (Elt F)) :=
  [ nullary main_c_13 (constantI S_ 32 0#32),
    unary main_c_13 main_v47 (broadcastInDim S10000 ![] bcast_S_S10000 : (⟨S_, .i32⟩ : BufTy).Contents (Elt F) → (⟨S10000, .i32⟩ : BufTy).Contents (Elt F)),
    nullary main_c_14 (constantI S_ 32 0#32),
    TRef.unary (.of main_c_14 : TRef sig ⟨S_, .i32⟩) main_call6.v0 id,
    TRef.unary main_call6.v0 main_call6.v1 (broadcastInDim S320000 ![] bcast_S_S320000),
    TRef.binary main_call6.v1 (.of main_v1 : TRef sig ⟨S320000, .i32⟩) main_call6.v2 maxsi,
    nullary main_c_15 (constantI S_ 32 0#32),
    unary main_c_15 main_v49 (broadcastInDim S320000 ![] bcast_S_S320000 : (⟨S_, .i32⟩ : BufTy).Contents (Elt F) → (⟨S320000, .i32⟩ : BufTy).Contents (Elt F)),
    binary main_v48 main_v49 main_v50 (cmpi .slt : (⟨S320000, .i32⟩ : BufTy).Contents (Elt F) → (⟨S320000, .i32⟩ : BufTy).Contents (Elt F) → (⟨S320000, .i1⟩ : BufTy).Contents (Elt F)),
    nullary main_c_16 (constantI S_ 32 10000#32),
    unary main_c_16 main_v51 (broadcastInDim S320000 ![] bcast_S_S320000 : (⟨S_, .i32⟩ : BufTy).Contents (Elt F) → (⟨S320000, .i32⟩ : BufTy).Contents (Elt F)),
    binary main_v48 main_v51 main_v52 (addi : (⟨S320000, .i32⟩ : BufTy).Contents (Elt F) → (⟨S320000, .i32⟩ : BufTy).Contents (Elt F) → (⟨S320000, .i32⟩ : BufTy).Contents (Elt F)),
    ternary main_v50 main_v52 main_v48 main_v53 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v53 main_v54 (broadcastInDim S320000x1 ![0] bcast_S320000_S320000x1_0 : (⟨S320000, .i32⟩ : BufTy).Contents (Elt F) → (⟨S320000x1, .i32⟩ : BufTy).Contents (Elt F)),
    nullary main_c_17 (constantI S_ 32 1#32),
    unary main_c_17 main_v55 (broadcastInDim S320000 ![] bcast_S_S320000 : (⟨S_, .i32⟩ : BufTy).Contents (Elt F) → (⟨S320000, .i32⟩ : BufTy).Contents (Elt F)),
    ternary main_v47 main_v54 main_v55 main_v56 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_18 (constantI S_ 32 1#32),
    TRef.unary (.of main_c_18 : TRef sig ⟨S_, .i32⟩) main_call7.v0 id,
    TRef.unary main_call7.v0 main_call7.v1 (broadcastInDim S10000 ![] bcast_S_S10000),
    TRef.binary main_call7.v1 (.of main_v56 : TRef sig ⟨S10000, .i32⟩) main_call7.v2 maxsi,
    unary main_v57 main_v58 (sitofp .f32 : (⟨S10000, .i32⟩ : BufTy).Contents (Elt F) → (⟨S10000, .f32⟩ : BufTy).Contents (Elt F)) ]

def w8 : List (HloOp τ sig (Elt F)) :=
  [ nullary main_c_19 (constantI S_ 32 0#32),
    unary main_c_19 main_v59 (broadcastInDim S10000 ![] bcast_S_S10000 : (⟨S_, .i32⟩ : BufTy).Contents (Elt F) → (⟨S10000, .i32⟩ : BufTy).Contents (Elt F)),
    nullary main_c_20 (constantI S_ 32 0#32),
    TRef.unary (.of main_c_20 : TRef sig ⟨S_, .i32⟩) main_call8.v0 id,
    TRef.unary main_call8.v0 main_call8.v1 (broadcastInDim S320000 ![] bcast_S_S320000),
    TRef.binary main_call8.v1 (.of main_v3 : TRef sig ⟨S320000, .i32⟩) main_call8.v2 maxsi,
    nullary main_c_21 (constantI S_ 32 0#32),
    unary main_c_21 main_v61 (broadcastInDim S320000 ![] bcast_S_S320000 : (⟨S_, .i32⟩ : BufTy).Contents (Elt F) → (⟨S320000, .i32⟩ : BufTy).Contents (Elt F)),
    binary main_v60 main_v61 main_v62 (cmpi .slt : (⟨S320000, .i32⟩ : BufTy).Contents (Elt F) → (⟨S320000, .i32⟩ : BufTy).Contents (Elt F) → (⟨S320000, .i1⟩ : BufTy).Contents (Elt F)),
    nullary main_c_22 (constantI S_ 32 10000#32),
    unary main_c_22 main_v63 (broadcastInDim S320000 ![] bcast_S_S320000 : (⟨S_, .i32⟩ : BufTy).Contents (Elt F) → (⟨S320000, .i32⟩ : BufTy).Contents (Elt F)),
    binary main_v60 main_v63 main_v64 (addi : (⟨S320000, .i32⟩ : BufTy).Contents (Elt F) → (⟨S320000, .i32⟩ : BufTy).Contents (Elt F) → (⟨S320000, .i32⟩ : BufTy).Contents (Elt F)),
    ternary main_v62 main_v64 main_v60 main_v65 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v65 main_v66 (broadcastInDim S320000x1 ![0] bcast_S320000_S320000x1_0 : (⟨S320000, .i32⟩ : BufTy).Contents (Elt F) → (⟨S320000x1, .i32⟩ : BufTy).Contents (Elt F)),
    nullary main_c_23 (constantI S_ 32 1#32),
    unary main_c_23 main_v67 (broadcastInDim S320000 ![] bcast_S_S320000 : (⟨S_, .i32⟩ : BufTy).Contents (Elt F) → (⟨S320000, .i32⟩ : BufTy).Contents (Elt F)),
    ternary main_v59 main_v66 main_v67 main_v68 ((fun x i u => Host.scatter scatter_S10000_S320000x1_S320000_n_0_0_1 IntOp.addi x i u) : (⟨S10000, .i32⟩ : BufTy).Contents (Elt F) → (⟨S320000x1, .i32⟩ : BufTy).Contents (Elt F) → (⟨S320000, .i32⟩ : BufTy).Contents (Elt F) → (⟨S10000, .i32⟩ : BufTy).Contents (Elt F)),
    nullary main_c_24 (constantI S_ 32 1#32),
    TRef.unary (.of main_c_24 : TRef sig ⟨S_, .i32⟩) main_call9.v0 id,
    TRef.unary main_call9.v0 main_call9.v1 (broadcastInDim S10000 ![] bcast_S_S10000),
    TRef.binary main_call9.v1 (.of main_v68 : TRef sig ⟨S10000, .i32⟩) main_call9.v2 maxsi,
    unary main_v69 main_v70 (sitofp .f32 : (⟨S10000, .i32⟩ : BufTy).Contents (Elt F) → (⟨S10000, .f32⟩ : BufTy).Contents (Elt F)) ]

def w9 : List (HloOp τ sig (Elt F)) :=
  [ nullary main_cst_25 (constant S_ .f32 0xBF000000#32),
    unary main_cst_25 main_v71 (broadcastInDim S10000 ![] bcast_S_S10000 : (⟨S_, .f32⟩ : BufTy).Contents (Elt F) → (⟨S10000, .f32⟩ : BufTy).Contents (Elt F)),
    binary main_v58 main_v71 main_v72 (Host.powf : (⟨S10000, .f32⟩ : BufTy).Contents (Elt F) → (⟨S10000, .f32⟩ : BufTy).Contents (Elt F) → (⟨S10000, .f32⟩ : BufTy).Contents (Elt F)),
    unary main_v72 main_v73 (broadcastInDim S10000x1 ![0] bcast_S10000_S10000x1_0 : (⟨S10000, .f32⟩ : BufTy).Contents (Elt F) → (⟨S10000x1, .f32⟩ : BufTy).Contents (Elt F)),
    unary main_v73 main_v74 (broadcastInDim S10000x128 ![0, 1] bcast_S10000x1_S10000x128_0_1 : (⟨S10000x1, .f32⟩ : BufTy).Contents (Elt F) → (⟨S10000x128, .f32⟩ : BufTy).Contents (Elt F)),
    binary main_v46 main_v74 main_v75 (mulf : (⟨S10000x128, .f32⟩ : BufTy).Contents (Elt F) → (⟨S10000x128, .f32⟩ : BufTy).Contents (Elt F) → (⟨S10000x128, .f32⟩ : BufTy).Contents (Elt F)) ]

def w10 : List (HloOp τ sig (Elt F)) :=
  [ TRef.nullary main_call10.c (constantI S_ 32 0#32),
    TRef.unary main_call10.c main_call10.v0 (broadcastInDim S320000 ![] bcast_S_S320000),
    TRef.binary (.of main_v1 : TRef sig ⟨S320000, .i32⟩) main_call10.v0 main_call10.v1 (cmpi .slt),
    TRef.nullary main_call10.c_0 (constantI S_ 32 10000#32),
    TRef.unary main_call10.c_0 main_call10.v2 (broadcastInDim S320000 ![] bcast_S_S320000),
    TRef.binary (.of main_v1 : TRef sig ⟨S320000, .i32⟩) main_call10.v2 main_call10.v3 addi,
    TRef.ternary main_call10.v1 main_call10.v3 (.of main_v1 : TRef sig ⟨S320000, .i32⟩) main_call10.call0.v0 select,
    TRef.unary main_call10.call0.v0 main_call10.v5 (broadcastInDim S320000x1 ![0] bcast_S320000_S320000x1_0),
    TRef.nullary main_call10.c_1 (constantI S1 32 9999#32),
    TRef.nullary main_call10.c_2 (constantI S_ 32 0#32),
    TRef.unary main_call10.c_2 main_call10.v6 (broadcastInDim S320000x1 ![] bcast_S_S320000x1),
    TRef.binary main_call10.v5 main_call10.v6 main_call10.v7 (cmpi .sge),
    TRef.unary main_call10.c_1 main_call10.v8 (broadcastInDim S1x1 ![1] bcast_S1_S1x1_1),
    TRef.unary main_call10.v8 main_call10.v9 (broadcastInDim S320000x1 ![0, 1] bcast_S1x1_S320000x1_0_1),
    TRef.binary main_call10.v5 main_call10.v9 main_call10.v10 (cmpi .sle),
    TRef.binary main_call10.v7 main_call10.v10 main_call10.v11 andi,
    TRef.nullary main_call10.c_3 (constantI S_ 1 1#1),
    TRef.binary main_call10.v11 main_call10.c_3 main_call10.v12 (fun x v => Host.reduce IntOp.andi x v reducesTo_S320000x1_S320000_d1 h_S_),
    TRef.binary (.of main_v75 : TRef sig ⟨S10000x128, .f32⟩) main_call10.v5 main_call10.v13 (fun x i => Host.gather gather_S10000x128_S320000x1_S320000x128_1_0_n_n_0_1_1128 x i),
    TRef.unary main_call10.v12 main_call10.v14 (broadcastInDim S320000x128 ![0] bcast_S320000_S320000x128_0),
    TRef.nullary main_call10.cst (constant S_ .f32 0x7FC00000#32),
    TRef.unary main_call10.cst main_call10.v15 (broadcastInDim S320000x128 ![] bcast_S_S320000x128),
    TRef.ternary main_call10.v14 main_call10.v13 main_call10.v15 main_call10.v16 select ]

def w11 : List (HloOp τ sig (Elt F)) :=
  [ nullary main_cst_26 (constant S_ .f32 0x00000000#32),
    unary main_cst_26 main_v77 (broadcastInDim S10000x128 ![] bcast_S_S10000x128 : (⟨S_, .f32⟩ : BufTy).Contents (Elt F) → (⟨S10000x128, .f32⟩ : BufTy).Contents (Elt F)),
    unary main_v3 main_v78 (broadcastInDim S320000x1 ![0] bcast_S320000_S320000x1_0 : (⟨S320000, .i32⟩ : BufTy).Contents (Elt F) → (⟨S320000x1, .i32⟩ : BufTy).Contents (Elt F)),
    ternary main_v77 main_v78 main_v76 main_v79 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    nullary main_cst_27 (constant S_ .f32 0xBF000000#32),
    unary main_cst_27 main_v80 (broadcastInDim S10000 ![] bcast_S_S10000 : (⟨S_, .f32⟩ : BufTy).Contents (Elt F) → (⟨S10000, .f32⟩ : BufTy).Contents (Elt F)),
    binary main_v70 main_v80 main_v81 (Host.powf : (⟨S10000, .f32⟩ : BufTy).Contents (Elt F) → (⟨S10000, .f32⟩ : BufTy).Contents (Elt F) → (⟨S10000, .f32⟩ : BufTy).Contents (Elt F)),
    unary main_v81 main_v82 (broadcastInDim S10000x1 ![0] bcast_S10000_S10000x1_0 : (⟨S10000, .f32⟩ : BufTy).Contents (Elt F) → (⟨S10000x1, .f32⟩ : BufTy).Contents (Elt F)),
    unary main_v82 main_v83 (broadcastInDim S10000x128 ![0, 1] bcast_S10000x1_S10000x128_0_1 : (⟨S10000x1, .f32⟩ : BufTy).Contents (Elt F) → (⟨S10000x128, .f32⟩ : BufTy).Contents (Elt F)),
    binary main_v79 main_v83 main_v84 (mulf : (⟨S10000x128, .f32⟩ : BufTy).Contents (Elt F) → (⟨S10000x128, .f32⟩ : BufTy).Contents (Elt F) → (⟨S10000x128, .f32⟩ : BufTy).Contents (Elt F)),
    binary main_v84 main_arg4 main_v85 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v86 (broadcastInDim S1x128 ![1] bcast_S128_S1x128_1 : (⟨S128, .f32⟩ : BufTy).Contents (Elt F) → (⟨S1x128, .f32⟩ : BufTy).Contents (Elt F)),
    unary main_v86 main_v87 (broadcastInDim S10000x128 ![0, 1] bcast_S1x128_S10000x128_0_1 : (⟨S1x128, .f32⟩ : BufTy).Contents (Elt F) → (⟨S10000x128, .f32⟩ : BufTy).Contents (Elt F)),
    binary main_v85 main_v87 main_v88 (addf : (⟨S10000x128, .f32⟩ : BufTy).Contents (Elt F) → (⟨S10000x128, .f32⟩ : BufTy).Contents (Elt F) → (⟨S10000x128, .f32⟩ : BufTy).Contents (Elt F)) ]

set_option maxRecDepth 16384 in
/-- The operations are the twelve windows in order. -/
theorem ops_split : (ops : List (HloOp τ sig (Elt F))) = w0 ++ (w1 ++ (w2 ++ (w3 ++ (w4 ++ (w5 ++ (w6 ++ (w7 ++ (w8 ++ (w9 ++ (w10 ++ w11)))))))))) := rfl

omit [FloatOps F] [Facts] in
/-- Folding over two lines run one after the other is folding over the second from the first's fold. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-! ## The typed references' casts are the identity

A call's buffer is read and written through a reference that carries the tensor value's type; contents move
between that type and the buffer's own along the equation of the two. Written and read back through the same
reference the two moves cancel; at a literal buffer the two types are the same by computation and one move
alone is the identity. -/

omit [FloatOps F] [Facts] in
theorem ofBuf_toBuf {T : BufTy} (x : TRef sig T) (v : T.Contents (Elt F)) : x.ofBuf (x.toBuf v) = v := by
  obtain ⟨r, h, _, _⟩ := x
  subst h
  rfl
omit [FloatOps F] [Facts] in
theorem ofBuf_c_0 (p1 : main_c_0.ty = ⟨S_, .i32⟩) (p2 p3) (x : main_c_0.ty.Contents (Elt F)) :
    (TRef.of main_c_0 p1 p2 p3 : TRef sig ⟨S_, .i32⟩).ofBuf (Val := Elt F) x = x := rfl
omit [FloatOps F] [Facts] in
theorem ofBuf_c_4 (p1 : main_c_4.ty = ⟨S_, .i32⟩) (p2 p3) (x : main_c_4.ty.Contents (Elt F)) :
    (TRef.of main_c_4 p1 p2 p3 : TRef sig ⟨S_, .i32⟩).ofBuf (Val := Elt F) x = x := rfl
omit [FloatOps F] [Facts] in
theorem ofBuf_c_6 (p1 : main_c_6.ty = ⟨S_, .i32⟩) (p2 p3) (x : main_c_6.ty.Contents (Elt F)) :
    (TRef.of main_c_6 p1 p2 p3 : TRef sig ⟨S_, .i32⟩).ofBuf (Val := Elt F) x = x := rfl
omit [FloatOps F] [Facts] in
theorem ofBuf_c_10 (p1 : main_c_10.ty = ⟨S_, .i32⟩) (p2 p3) (x : main_c_10.ty.Contents (Elt F)) :
    (TRef.of main_c_10 p1 p2 p3 : TRef sig ⟨S_, .i32⟩).ofBuf (Val := Elt F) x = x := rfl
omit [FloatOps F] [Facts] in
theorem ofBuf_c_14 (p1 : main_c_14.ty = ⟨S_, .i32⟩) (p2 p3) (x : main_c_14.ty.Contents (Elt F)) :
    (TRef.of main_c_14 p1 p2 p3 : TRef sig ⟨S_, .i32⟩).ofBuf (Val := Elt F) x = x := rfl
omit [FloatOps F] [Facts] in
theorem ofBuf_c_18 (p1 : main_c_18.ty = ⟨S_, .i32⟩) (p2 p3) (x : main_c_18.ty.Contents (Elt F)) :
    (TRef.of main_c_18 p1 p2 p3 : TRef sig ⟨S_, .i32⟩).ofBuf (Val := Elt F) x = x := rfl
omit [FloatOps F] [Facts] in
theorem ofBuf_c_20 (p1 : main_c_20.ty = ⟨S_, .i32⟩) (p2 p3) (x : main_c_20.ty.Contents (Elt F)) :
    (TRef.of main_c_20 p1 p2 p3 : TRef sig ⟨S_, .i32⟩).ofBuf (Val := Elt F) x = x := rfl
omit [FloatOps F] [Facts] in
theorem ofBuf_c_24 (p1 : main_c_24.ty = ⟨S_, .i32⟩) (p2 p3) (x : main_c_24.ty.Contents (Elt F)) :
    (TRef.of main_c_24 p1 p2 p3 : TRef sig ⟨S_, .i32⟩).ofBuf (Val := Elt F) x = x := rfl
omit [FloatOps F] [Facts] in
theorem ofBuf_v1 (p1 : main_v1.ty = ⟨S320000, .i32⟩) (p2 p3) (x : main_v1.ty.Contents (Elt F)) :
    (TRef.of main_v1 p1 p2 p3 : TRef sig ⟨S320000, .i32⟩).ofBuf (Val := Elt F) x = x := rfl
omit [FloatOps F] [Facts] in
theorem ofBuf_v3 (p1 : main_v3.ty = ⟨S320000, .i32⟩) (p2 p3) (x : main_v3.ty.Contents (Elt F)) :
    (TRef.of main_v3 p1 p2 p3 : TRef sig ⟨S320000, .i32⟩).ofBuf (Val := Elt F) x = x := rfl
omit [FloatOps F] [Facts] in
theorem ofBuf_v13 (p1 : main_v13.ty = ⟨S10000, .i32⟩) (p2 p3) (x : main_v13.ty.Contents (Elt F)) :
    (TRef.of main_v13 p1 p2 p3 : TRef sig ⟨S10000, .i32⟩).ofBuf (Val := Elt F) x = x := rfl
omit [FloatOps F] [Facts] in
theorem ofBuf_v25 (p1 : main_v25.ty = ⟨S10000, .i32⟩) (p2 p3) (x : main_v25.ty.Contents (Elt F)) :
    (TRef.of main_v25 p1 p2 p3 : TRef sig ⟨S10000, .i32⟩).ofBuf (Val := Elt F) x = x := rfl
omit [FloatOps F] [Facts] in
theorem ofBuf_v56 (p1 : main_v56.ty = ⟨S10000, .i32⟩) (p2 p3) (x : main_v56.ty.Contents (Elt F)) :
    (TRef.of main_v56 p1 p2 p3 : TRef sig ⟨S10000, .i32⟩).ofBuf (Val := Elt F) x = x := rfl
omit [FloatOps F] [Facts] in
theorem ofBuf_v68 (p1 : main_v68.ty = ⟨S10000, .i32⟩) (p2 p3) (x : main_v68.ty.Contents (Elt F)) :
    (TRef.of main_v68 p1 p2 p3 : TRef sig ⟨S10000, .i32⟩).ofBuf (Val := Elt F) x = x := rfl
omit [FloatOps F] [Facts] in
theorem ofBuf_v32 (p1 : main_v32.ty = ⟨S10000x128, .f32⟩) (p2 p3) (x : main_v32.ty.Contents (Elt F)) :
    (TRef.of main_v32 p1 p2 p3 : TRef sig ⟨S10000x128, .f32⟩).ofBuf (Val := Elt F) x = x := rfl
omit [FloatOps F] [Facts] in
theorem ofBuf_v45 (p1 : main_v45.ty = ⟨S10000x128, .f32⟩) (p2 p3) (x : main_v45.ty.Contents (Elt F)) :
    (TRef.of main_v45 p1 p2 p3 : TRef sig ⟨S10000x128, .f32⟩).ofBuf (Val := Elt F) x = x := rfl
omit [FloatOps F] [Facts] in
theorem ofBuf_v75 (p1 : main_v75.ty = ⟨S10000x128, .f32⟩) (p2 p3) (x : main_v75.ty.Contents (Elt F)) :
    (TRef.of main_v75 p1 p2 p3 : TRef sig ⟨S10000x128, .f32⟩).ofBuf (Val := Elt F) x = x := rfl
omit [FloatOps F] [Facts] in
theorem toBuf_v5 (p1 : main_v5.ty = ⟨S320000, .i32⟩) (p2 p3) (x : (⟨S320000, .i32⟩ : BufTy).Contents (Elt F)) :
    (TRef.of main_v5 p1 p2 p3 : TRef sig ⟨S320000, .i32⟩).toBuf (Val := Elt F) x = x := rfl
omit [FloatOps F] [Facts] in
theorem toBuf_v17 (p1 : main_v17.ty = ⟨S320000, .i32⟩) (p2 p3) (x : (⟨S320000, .i32⟩ : BufTy).Contents (Elt F)) :
    (TRef.of main_v17 p1 p2 p3 : TRef sig ⟨S320000, .i32⟩).toBuf (Val := Elt F) x = x := rfl
omit [FloatOps F] [Facts] in
theorem toBuf_v48 (p1 : main_v48.ty = ⟨S320000, .i32⟩) (p2 p3) (x : (⟨S320000, .i32⟩ : BufTy).Contents (Elt F)) :
    (TRef.of main_v48 p1 p2 p3 : TRef sig ⟨S320000, .i32⟩).toBuf (Val := Elt F) x = x := rfl
omit [FloatOps F] [Facts] in
theorem toBuf_v60 (p1 : main_v60.ty = ⟨S320000, .i32⟩) (p2 p3) (x : (⟨S320000, .i32⟩ : BufTy).Contents (Elt F)) :
    (TRef.of main_v60 p1 p2 p3 : TRef sig ⟨S320000, .i32⟩).toBuf (Val := Elt F) x = x := rfl
omit [FloatOps F] [Facts] in
theorem toBuf_v14 (p1 : main_v14.ty = ⟨S10000, .i32⟩) (p2 p3) (x : (⟨S10000, .i32⟩ : BufTy).Contents (Elt F)) :
    (TRef.of main_v14 p1 p2 p3 : TRef sig ⟨S10000, .i32⟩).toBuf (Val := Elt F) x = x := rfl
omit [FloatOps F] [Facts] in
theorem toBuf_v26 (p1 : main_v26.ty = ⟨S10000, .i32⟩) (p2 p3) (x : (⟨S10000, .i32⟩ : BufTy).Contents (Elt F)) :
    (TRef.of main_v26 p1 p2 p3 : TRef sig ⟨S10000, .i32⟩).toBuf (Val := Elt F) x = x := rfl
omit [FloatOps F] [Facts] in
theorem toBuf_v57 (p1 : main_v57.ty = ⟨S10000, .i32⟩) (p2 p3) (x : (⟨S10000, .i32⟩ : BufTy).Contents (Elt F)) :
    (TRef.of main_v57 p1 p2 p3 : TRef sig ⟨S10000, .i32⟩).toBuf (Val := Elt F) x = x := rfl
omit [FloatOps F] [Facts] in
theorem toBuf_v69 (p1 : main_v69.ty = ⟨S10000, .i32⟩) (p2 p3) (x : (⟨S10000, .i32⟩ : BufTy).Contents (Elt F)) :
    (TRef.of main_v69 p1 p2 p3 : TRef sig ⟨S10000, .i32⟩).toBuf (Val := Elt F) x = x := rfl
omit [FloatOps F] [Facts] in
theorem toBuf_v33 (p1 : main_v33.ty = ⟨S320000x128, .f32⟩) (p2 p3) (x : (⟨S320000x128, .f32⟩ : BufTy).Contents (Elt F)) :
    (TRef.of main_v33 p1 p2 p3 : TRef sig ⟨S320000x128, .f32⟩).toBuf (Val := Elt F) x = x := rfl
omit [FloatOps F] [Facts] in
theorem toBuf_v76 (p1 : main_v76.ty = ⟨S320000x128, .f32⟩) (p2 p3) (x : (⟨S320000x128, .f32⟩ : BufTy).Contents (Elt F)) :
    (TRef.of main_v76 p1 p2 p3 : TRef sig ⟨S320000x128, .f32⟩).toBuf (Val := Elt F) x = x := rfl
omit [FloatOps F] [Facts] in
theorem toBuf_v46 (p1 : main_v46.ty = ⟨S10000x128, .f32⟩) (p2 p3) (x : (⟨S10000x128, .f32⟩ : BufTy).Contents (Elt F)) :
    (TRef.of main_v46 p1 p2 p3 : TRef sig ⟨S10000x128, .f32⟩).toBuf (Val := Elt F) x = x := rfl

/-! ## Each window's result -/

set_option maxRecDepth 16384 in
theorem w0_v1 (W : Valuation τ sig (Elt F)) : after w0 W (main_v1 : DevRef τ sig) = srcOf (W (main_arg1 : DevRef τ sig)) := by
  unfold w0
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w0_v3 (W : Valuation τ sig (Elt F)) : after w0 W (main_v3 : DevRef τ sig) = dstOf (W (main_arg1 : DevRef τ sig)) := by
  unfold w0
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w1_val (W : Valuation τ sig (Elt F)) : after w1 W (main_v15 : DevRef τ sig) = degree (W (main_v1 : DevRef τ sig)) := by
  unfold w1
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w2_val (W : Valuation τ sig (Elt F)) : after w2 W (main_v27 : DevRef τ sig) = degree (W (main_v3 : DevRef τ sig)) := by
  unfold w2
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w3_val (W : Valuation τ sig (Elt F)) : after w3 W (main_v32 : DevRef τ sig) = mulf (W (main_arg0 : DevRef τ sig)) (invSqrtCols (W (main_v15 : DevRef τ sig))) := by
  unfold w3
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w4_val (W : Valuation τ sig (Elt F)) : after w4 W (main_v33 : DevRef τ sig) = takeRows (W (main_v32 : DevRef τ sig)) (W (main_v1 : DevRef τ sig)) := by
  unfold w4
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w5_val (W : Valuation τ sig (Elt F)) : after w5 W (main_v45 : DevRef τ sig) = layerTail (W (main_v33 : DevRef τ sig)) (W (main_v3 : DevRef τ sig)) (W (main_v27 : DevRef τ sig)) (W (main_arg2 : DevRef τ sig)) (W (main_arg3 : DevRef τ sig)) := by
  unfold w5
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w6_val (W : Valuation τ sig (Elt F)) : after w6 W (main_v46 : DevRef τ sig) = relu0 (W (main_v45 : DevRef τ sig)) := by
  unfold w6
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w7_val (W : Valuation τ sig (Elt F)) : after w7 W (main_v58 : DevRef τ sig) = degree (W (main_v1 : DevRef τ sig)) := by
  unfold w7
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w8_val (W : Valuation τ sig (Elt F)) : after w8 W (main_v70 : DevRef τ sig) = degree (W (main_v3 : DevRef τ sig)) := by
  unfold w8
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w9_val (W : Valuation τ sig (Elt F)) : after w9 W (main_v75 : DevRef τ sig) = mulf (W (main_v46 : DevRef τ sig)) (invSqrtCols (W (main_v58 : DevRef τ sig))) := by
  unfold w9
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w10_val (W : Valuation τ sig (Elt F)) : after w10 W (main_v76 : DevRef τ sig) = takeRows (W (main_v75 : DevRef τ sig)) (W (main_v1 : DevRef τ sig)) := by
  unfold w10
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

set_option maxRecDepth 16384 in
theorem w11_val (W : Valuation τ sig (Elt F)) : after w11 W (main_v88 : DevRef τ sig) = layerTail (W (main_v76 : DevRef τ sig)) (W (main_v3 : DevRef τ sig)) (W (main_v70 : DevRef τ sig)) (W (main_arg4 : DevRef τ sig)) (W (main_arg5 : DevRef τ sig)) := by
  unfold w11
  after_results_simp
  try simp only [ofBuf_toBuf, ofBuf_c_0, ofBuf_c_4, ofBuf_c_6, ofBuf_c_10, ofBuf_c_14, ofBuf_c_18, ofBuf_c_20, ofBuf_c_24, ofBuf_v1, ofBuf_v3, ofBuf_v13, ofBuf_v25, ofBuf_v56, ofBuf_v68, ofBuf_v32, ofBuf_v45, ofBuf_v75, toBuf_v5, toBuf_v17, toBuf_v48, toBuf_v60, toBuf_v14, toBuf_v26, toBuf_v57, toBuf_v69, toBuf_v33, toBuf_v76, toBuf_v46, id_eq]
  rfl

/-! ## What each window leaves -/

set_option maxRecDepth 16384 in
theorem w0_keep_arg0 (W : Valuation τ sig (Elt F)) : after w0 W (main_arg0 : DevRef τ sig) = W (main_arg0 : DevRef τ sig) := by
  unfold w0
  after_results_simp

set_option maxRecDepth 16384 in
theorem w0_keep_arg2 (W : Valuation τ sig (Elt F)) : after w0 W (main_arg2 : DevRef τ sig) = W (main_arg2 : DevRef τ sig) := by
  unfold w0
  after_results_simp

set_option maxRecDepth 16384 in
theorem w0_keep_arg3 (W : Valuation τ sig (Elt F)) : after w0 W (main_arg3 : DevRef τ sig) = W (main_arg3 : DevRef τ sig) := by
  unfold w0
  after_results_simp

set_option maxRecDepth 16384 in
theorem w0_keep_arg4 (W : Valuation τ sig (Elt F)) : after w0 W (main_arg4 : DevRef τ sig) = W (main_arg4 : DevRef τ sig) := by
  unfold w0
  after_results_simp

set_option maxRecDepth 16384 in
theorem w0_keep_arg5 (W : Valuation τ sig (Elt F)) : after w0 W (main_arg5 : DevRef τ sig) = W (main_arg5 : DevRef τ sig) := by
  unfold w0
  after_results_simp

set_option maxRecDepth 16384 in
theorem w1_keep_v1 (W : Valuation τ sig (Elt F)) : after w1 W (main_v1 : DevRef τ sig) = W (main_v1 : DevRef τ sig) := by
  unfold w1
  after_results_simp

set_option maxRecDepth 16384 in
theorem w1_keep_v3 (W : Valuation τ sig (Elt F)) : after w1 W (main_v3 : DevRef τ sig) = W (main_v3 : DevRef τ sig) := by
  unfold w1
  after_results_simp

set_option maxRecDepth 16384 in
theorem w1_keep_arg0 (W : Valuation τ sig (Elt F)) : after w1 W (main_arg0 : DevRef τ sig) = W (main_arg0 : DevRef τ sig) := by
  unfold w1
  after_results_simp

set_option maxRecDepth 16384 in
theorem w1_keep_arg2 (W : Valuation τ sig (Elt F)) : after w1 W (main_arg2 : DevRef τ sig) = W (main_arg2 : DevRef τ sig) := by
  unfold w1
  after_results_simp

set_option maxRecDepth 16384 in
theorem w1_keep_arg3 (W : Valuation τ sig (Elt F)) : after w1 W (main_arg3 : DevRef τ sig) = W (main_arg3 : DevRef τ sig) := by
  unfold w1
  after_results_simp

set_option maxRecDepth 16384 in
theorem w1_keep_arg4 (W : Valuation τ sig (Elt F)) : after w1 W (main_arg4 : DevRef τ sig) = W (main_arg4 : DevRef τ sig) := by
  unfold w1
  after_results_simp

set_option maxRecDepth 16384 in
theorem w1_keep_arg5 (W : Valuation τ sig (Elt F)) : after w1 W (main_arg5 : DevRef τ sig) = W (main_arg5 : DevRef τ sig) := by
  unfold w1
  after_results_simp

set_option maxRecDepth 16384 in
theorem w2_keep_v1 (W : Valuation τ sig (Elt F)) : after w2 W (main_v1 : DevRef τ sig) = W (main_v1 : DevRef τ sig) := by
  unfold w2
  after_results_simp

set_option maxRecDepth 16384 in
theorem w2_keep_v3 (W : Valuation τ sig (Elt F)) : after w2 W (main_v3 : DevRef τ sig) = W (main_v3 : DevRef τ sig) := by
  unfold w2
  after_results_simp

set_option maxRecDepth 16384 in
theorem w2_keep_v15 (W : Valuation τ sig (Elt F)) : after w2 W (main_v15 : DevRef τ sig) = W (main_v15 : DevRef τ sig) := by
  unfold w2
  after_results_simp

set_option maxRecDepth 16384 in
theorem w2_keep_arg0 (W : Valuation τ sig (Elt F)) : after w2 W (main_arg0 : DevRef τ sig) = W (main_arg0 : DevRef τ sig) := by
  unfold w2
  after_results_simp

set_option maxRecDepth 16384 in
theorem w2_keep_arg2 (W : Valuation τ sig (Elt F)) : after w2 W (main_arg2 : DevRef τ sig) = W (main_arg2 : DevRef τ sig) := by
  unfold w2
  after_results_simp

set_option maxRecDepth 16384 in
theorem w2_keep_arg3 (W : Valuation τ sig (Elt F)) : after w2 W (main_arg3 : DevRef τ sig) = W (main_arg3 : DevRef τ sig) := by
  unfold w2
  after_results_simp

set_option maxRecDepth 16384 in
theorem w2_keep_arg4 (W : Valuation τ sig (Elt F)) : after w2 W (main_arg4 : DevRef τ sig) = W (main_arg4 : DevRef τ sig) := by
  unfold w2
  after_results_simp

set_option maxRecDepth 16384 in
theorem w2_keep_arg5 (W : Valuation τ sig (Elt F)) : after w2 W (main_arg5 : DevRef τ sig) = W (main_arg5 : DevRef τ sig) := by
  unfold w2
  after_results_simp

set_option maxRecDepth 16384 in
theorem w3_keep_v1 (W : Valuation τ sig (Elt F)) : after w3 W (main_v1 : DevRef τ sig) = W (main_v1 : DevRef τ sig) := by
  unfold w3
  after_results_simp

set_option maxRecDepth 16384 in
theorem w3_keep_v3 (W : Valuation τ sig (Elt F)) : after w3 W (main_v3 : DevRef τ sig) = W (main_v3 : DevRef τ sig) := by
  unfold w3
  after_results_simp

set_option maxRecDepth 16384 in
theorem w3_keep_v27 (W : Valuation τ sig (Elt F)) : after w3 W (main_v27 : DevRef τ sig) = W (main_v27 : DevRef τ sig) := by
  unfold w3
  after_results_simp

set_option maxRecDepth 16384 in
theorem w3_keep_arg2 (W : Valuation τ sig (Elt F)) : after w3 W (main_arg2 : DevRef τ sig) = W (main_arg2 : DevRef τ sig) := by
  unfold w3
  after_results_simp

set_option maxRecDepth 16384 in
theorem w3_keep_arg3 (W : Valuation τ sig (Elt F)) : after w3 W (main_arg3 : DevRef τ sig) = W (main_arg3 : DevRef τ sig) := by
  unfold w3
  after_results_simp

set_option maxRecDepth 16384 in
theorem w3_keep_arg4 (W : Valuation τ sig (Elt F)) : after w3 W (main_arg4 : DevRef τ sig) = W (main_arg4 : DevRef τ sig) := by
  unfold w3
  after_results_simp

set_option maxRecDepth 16384 in
theorem w3_keep_arg5 (W : Valuation τ sig (Elt F)) : after w3 W (main_arg5 : DevRef τ sig) = W (main_arg5 : DevRef τ sig) := by
  unfold w3
  after_results_simp

set_option maxRecDepth 16384 in
theorem w4_keep_v1 (W : Valuation τ sig (Elt F)) : after w4 W (main_v1 : DevRef τ sig) = W (main_v1 : DevRef τ sig) := by
  unfold w4
  after_results_simp

set_option maxRecDepth 16384 in
theorem w4_keep_v3 (W : Valuation τ sig (Elt F)) : after w4 W (main_v3 : DevRef τ sig) = W (main_v3 : DevRef τ sig) := by
  unfold w4
  after_results_simp

set_option maxRecDepth 16384 in
theorem w4_keep_v27 (W : Valuation τ sig (Elt F)) : after w4 W (main_v27 : DevRef τ sig) = W (main_v27 : DevRef τ sig) := by
  unfold w4
  after_results_simp

set_option maxRecDepth 16384 in
theorem w4_keep_arg2 (W : Valuation τ sig (Elt F)) : after w4 W (main_arg2 : DevRef τ sig) = W (main_arg2 : DevRef τ sig) := by
  unfold w4
  after_results_simp

set_option maxRecDepth 16384 in
theorem w4_keep_arg3 (W : Valuation τ sig (Elt F)) : after w4 W (main_arg3 : DevRef τ sig) = W (main_arg3 : DevRef τ sig) := by
  unfold w4
  after_results_simp

set_option maxRecDepth 16384 in
theorem w4_keep_arg4 (W : Valuation τ sig (Elt F)) : after w4 W (main_arg4 : DevRef τ sig) = W (main_arg4 : DevRef τ sig) := by
  unfold w4
  after_results_simp

set_option maxRecDepth 16384 in
theorem w4_keep_arg5 (W : Valuation τ sig (Elt F)) : after w4 W (main_arg5 : DevRef τ sig) = W (main_arg5 : DevRef τ sig) := by
  unfold w4
  after_results_simp

set_option maxRecDepth 16384 in
theorem w5_keep_v1 (W : Valuation τ sig (Elt F)) : after w5 W (main_v1 : DevRef τ sig) = W (main_v1 : DevRef τ sig) := by
  unfold w5
  after_results_simp

set_option maxRecDepth 16384 in
theorem w5_keep_v3 (W : Valuation τ sig (Elt F)) : after w5 W (main_v3 : DevRef τ sig) = W (main_v3 : DevRef τ sig) := by
  unfold w5
  after_results_simp

set_option maxRecDepth 16384 in
theorem w5_keep_arg4 (W : Valuation τ sig (Elt F)) : after w5 W (main_arg4 : DevRef τ sig) = W (main_arg4 : DevRef τ sig) := by
  unfold w5
  after_results_simp

set_option maxRecDepth 16384 in
theorem w5_keep_arg5 (W : Valuation τ sig (Elt F)) : after w5 W (main_arg5 : DevRef τ sig) = W (main_arg5 : DevRef τ sig) := by
  unfold w5
  after_results_simp

set_option maxRecDepth 16384 in
theorem w6_keep_v1 (W : Valuation τ sig (Elt F)) : after w6 W (main_v1 : DevRef τ sig) = W (main_v1 : DevRef τ sig) := by
  unfold w6
  after_results_simp

set_option maxRecDepth 16384 in
theorem w6_keep_v3 (W : Valuation τ sig (Elt F)) : after w6 W (main_v3 : DevRef τ sig) = W (main_v3 : DevRef τ sig) := by
  unfold w6
  after_results_simp

set_option maxRecDepth 16384 in
theorem w6_keep_arg4 (W : Valuation τ sig (Elt F)) : after w6 W (main_arg4 : DevRef τ sig) = W (main_arg4 : DevRef τ sig) := by
  unfold w6
  after_results_simp

set_option maxRecDepth 16384 in
theorem w6_keep_arg5 (W : Valuation τ sig (Elt F)) : after w6 W (main_arg5 : DevRef τ sig) = W (main_arg5 : DevRef τ sig) := by
  unfold w6
  after_results_simp

set_option maxRecDepth 16384 in
theorem w7_keep_v1 (W : Valuation τ sig (Elt F)) : after w7 W (main_v1 : DevRef τ sig) = W (main_v1 : DevRef τ sig) := by
  unfold w7
  after_results_simp

set_option maxRecDepth 16384 in
theorem w7_keep_v3 (W : Valuation τ sig (Elt F)) : after w7 W (main_v3 : DevRef τ sig) = W (main_v3 : DevRef τ sig) := by
  unfold w7
  after_results_simp

set_option maxRecDepth 16384 in
theorem w7_keep_v46 (W : Valuation τ sig (Elt F)) : after w7 W (main_v46 : DevRef τ sig) = W (main_v46 : DevRef τ sig) := by
  unfold w7
  after_results_simp

set_option maxRecDepth 16384 in
theorem w7_keep_arg4 (W : Valuation τ sig (Elt F)) : after w7 W (main_arg4 : DevRef τ sig) = W (main_arg4 : DevRef τ sig) := by
  unfold w7
  after_results_simp

set_option maxRecDepth 16384 in
theorem w7_keep_arg5 (W : Valuation τ sig (Elt F)) : after w7 W (main_arg5 : DevRef τ sig) = W (main_arg5 : DevRef τ sig) := by
  unfold w7
  after_results_simp

set_option maxRecDepth 16384 in
theorem w8_keep_v1 (W : Valuation τ sig (Elt F)) : after w8 W (main_v1 : DevRef τ sig) = W (main_v1 : DevRef τ sig) := by
  unfold w8
  after_results_simp

set_option maxRecDepth 16384 in
theorem w8_keep_v3 (W : Valuation τ sig (Elt F)) : after w8 W (main_v3 : DevRef τ sig) = W (main_v3 : DevRef τ sig) := by
  unfold w8
  after_results_simp

set_option maxRecDepth 16384 in
theorem w8_keep_v46 (W : Valuation τ sig (Elt F)) : after w8 W (main_v46 : DevRef τ sig) = W (main_v46 : DevRef τ sig) := by
  unfold w8
  after_results_simp

set_option maxRecDepth 16384 in
theorem w8_keep_v58 (W : Valuation τ sig (Elt F)) : after w8 W (main_v58 : DevRef τ sig) = W (main_v58 : DevRef τ sig) := by
  unfold w8
  after_results_simp

set_option maxRecDepth 16384 in
theorem w8_keep_arg4 (W : Valuation τ sig (Elt F)) : after w8 W (main_arg4 : DevRef τ sig) = W (main_arg4 : DevRef τ sig) := by
  unfold w8
  after_results_simp

set_option maxRecDepth 16384 in
theorem w8_keep_arg5 (W : Valuation τ sig (Elt F)) : after w8 W (main_arg5 : DevRef τ sig) = W (main_arg5 : DevRef τ sig) := by
  unfold w8
  after_results_simp

set_option maxRecDepth 16384 in
theorem w9_keep_v1 (W : Valuation τ sig (Elt F)) : after w9 W (main_v1 : DevRef τ sig) = W (main_v1 : DevRef τ sig) := by
  unfold w9
  after_results_simp

set_option maxRecDepth 16384 in
theorem w9_keep_v3 (W : Valuation τ sig (Elt F)) : after w9 W (main_v3 : DevRef τ sig) = W (main_v3 : DevRef τ sig) := by
  unfold w9
  after_results_simp

set_option maxRecDepth 16384 in
theorem w9_keep_v70 (W : Valuation τ sig (Elt F)) : after w9 W (main_v70 : DevRef τ sig) = W (main_v70 : DevRef τ sig) := by
  unfold w9
  after_results_simp

set_option maxRecDepth 16384 in
theorem w9_keep_arg4 (W : Valuation τ sig (Elt F)) : after w9 W (main_arg4 : DevRef τ sig) = W (main_arg4 : DevRef τ sig) := by
  unfold w9
  after_results_simp

set_option maxRecDepth 16384 in
theorem w9_keep_arg5 (W : Valuation τ sig (Elt F)) : after w9 W (main_arg5 : DevRef τ sig) = W (main_arg5 : DevRef τ sig) := by
  unfold w9
  after_results_simp

set_option maxRecDepth 16384 in
theorem w10_keep_v3 (W : Valuation τ sig (Elt F)) : after w10 W (main_v3 : DevRef τ sig) = W (main_v3 : DevRef τ sig) := by
  unfold w10
  after_results_simp

set_option maxRecDepth 16384 in
theorem w10_keep_v70 (W : Valuation τ sig (Elt F)) : after w10 W (main_v70 : DevRef τ sig) = W (main_v70 : DevRef τ sig) := by
  unfold w10
  after_results_simp

set_option maxRecDepth 16384 in
theorem w10_keep_arg4 (W : Valuation τ sig (Elt F)) : after w10 W (main_arg4 : DevRef τ sig) = W (main_arg4 : DevRef τ sig) := by
  unfold w10
  after_results_simp

set_option maxRecDepth 16384 in
theorem w10_keep_arg5 (W : Valuation τ sig (Elt F)) : after w10 W (main_arg5 : DevRef τ sig) = W (main_arg5 : DevRef τ sig) := by
  unfold w10
  after_results_simp

end Cert.ReferenceIdeal.RefRun

end
-- ==== Proof.RefChain.lean ====
import proofs.«207928_g75127567942135_cont_9to1c4b_313_20_alg».proof.Proof.RefStages

/-!
The reference's result buffer, after the whole line, is `refOut` of the six arguments' contents: the twelve
windows chained, each window's result taken from the buffers entering it and every buffer still needed carried
unchanged through the windows before.
-/

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

set_option maxRecDepth 16384 in
set_option maxHeartbeats 2000000 in
theorem out_eq (V : Valuation τ sig (Elt F)) :
    after ops V (main_v88 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split]
  simp only [after_append]
  rw [w11_val, w10_val, w10_keep_v3, w10_keep_v70, w10_keep_arg4, w10_keep_arg5, w9_val, w9_keep_v1, w9_keep_v3, w9_keep_v70, w9_keep_arg4, w9_keep_arg5, w8_val, w8_keep_v1, w8_keep_v3, w8_keep_v46, w8_keep_v58, w8_keep_arg4, w8_keep_arg5, w7_val, w7_keep_v1, w7_keep_v3, w7_keep_v46, w7_keep_arg4, w7_keep_arg5, w6_val, w6_keep_v1, w6_keep_v3, w6_keep_arg4, w6_keep_arg5, w5_val, w5_keep_v1, w5_keep_v3, w5_keep_arg4, w5_keep_arg5, w4_val, w4_keep_v1, w4_keep_v3, w4_keep_v27, w4_keep_arg2, w4_keep_arg3, w4_keep_arg4, w4_keep_arg5, w3_val, w3_keep_v1, w3_keep_v3, w3_keep_v27, w3_keep_arg2, w3_keep_arg3, w3_keep_arg4, w3_keep_arg5, w2_val, w2_keep_v1, w2_keep_v3, w2_keep_v15, w2_keep_arg0, w2_keep_arg2, w2_keep_arg3, w2_keep_arg4, w2_keep_arg5, w1_val, w1_keep_v1, w1_keep_v3, w1_keep_arg0, w1_keep_arg2, w1_keep_arg3, w1_keep_arg4, w1_keep_arg5, w0_v1, w0_v3, w0_keep_arg0, w0_keep_arg2, w0_keep_arg3, w0_keep_arg4, w0_keep_arg5]
  rfl

end Cert.ReferenceIdeal.RefRun

end
-- ==== Proof.LibPowRsqrt.lean ====
import Idealize.ShloMosaic.PureOps.Ideal
import Idealize.ShloMosaic.PureOps.Ideal.Laws
import Mathlib

/-!
The power with exponent −1/2 is the inverse square root. At the ideal arithmetic a float is the extended real
it denotes: the 32-bit word `0xBF000000` denotes −1/2 and `0x3F800000` denotes 1, and for a positive real `r`
the power `r ^ (−1/2)` is `(√r)⁻¹`, which is what the inverse square root of `r` is.
-/

noncomputable section

namespace Cert.Proof.LibPowRsqrt

open Idealize.ShloMosaic

/-- The word `0xBF000000` of the 32-bit format denotes −1/2: sign 1, exponent 126, fraction 0. -/
theorem ofBits_f32_neg_half : Ideal.ofBits .f32 0xBF000000#32 = (((-1 / 2 : ℝ)) : EReal) := by
  have h1 : (((0xBF000000#32 : BitVec 32).extractLsb' (8 + 23) 1) == 1#1) = true := by decide
  have h2 : ((0xBF000000#32 : BitVec 32).extractLsb' 23 8).toNat = 126 := by decide
  have h3 : ((0xBF000000#32 : BitVec 32).extractLsb' 0 23).toNat = 0 := by decide
  show Ideal.ieee 8 23 (0xBF000000#32 : BitVec 32) = _
  unfold Ideal.ieee
  simp only [h1, h2, h3]
  norm_num

/-- The word `0x3F800000` of the 32-bit format denotes 1: sign 0, exponent 127, fraction 0. -/
theorem ofBits_f32_one : Ideal.ofBits .f32 0x3F800000#32 = ((1 : ℝ) : EReal) := by
  have h1 : (((0x3F800000#32 : BitVec 32).extractLsb' (8 + 23) 1) == 1#1) = false := by decide
  have h2 : ((0x3F800000#32 : BitVec 32).extractLsb' 23 8).toNat = 127 := by decide
  have h3 : ((0x3F800000#32 : BitVec 32).extractLsb' 0 23).toNat = 0 := by decide
  show Ideal.ieee 8 23 (0x3F800000#32 : BitVec 32) = _
  unfold Ideal.ieee
  simp only [h1, h2, h3]
  norm_num

/-- For a positive real, the power with exponent −1/2 is the inverse of the square root. -/
theorem rpow_neg_half {r : ℝ} (hr : 0 < r) : Real.rpow r (-1 / 2) = (Real.sqrt r)⁻¹ := by
  show r ^ ((-1 / 2 : ℝ)) = (Real.sqrt r)⁻¹
  rw [show ((-1 / 2 : ℝ)) = -(1 / 2) by ring, Real.rpow_neg hr.le, Real.sqrt_eq_rpow]

/-- THE LAW: at the ideal arithmetic, a positive real raised to the word −1/2 is its inverse square root. -/
theorem pow_neg_half_word {r : ℝ} (hr : 0 < r) :
    Ideal.pow (r : EReal) (Ideal.ofBits .f32 0xBF000000#32) = Ideal.rsqrt (r : EReal) := by
  rw [ofBits_f32_neg_half, Ideal.pow_coe_coe, Ideal.rsqrt_coe, if_neg (not_lt.mpr hr.le), if_neg hr.ne', rpow_neg_half hr]

end Cert.Proof.LibPowRsqrt

end
-- ==== Proof.RefDegreeI.lean ====
/-
  The reference's degree count, read at a node, at the ideal arithmetic: the number of edges whose word names the
  node, at least one, as an extended real. The count is a histogram — ones summed into zeros at the edge words, each
  clamped below by zero and a negative one wrapped, both the identity on a word at most 9999 —; it is then clamped below
  by one and converted.
-/
import proofs.«207928_g75127567942135_cont_9to1c4b_313_20_alg».proof.Proof.RefStages
import proofs.«207928_g75127567942135_cont_9to1c4b_313_20_alg».proof.Proof.LibScatterCount
import proofs.«207928_g75127567942135_cont_9to1c4b_313_20_alg».proof.Proof.SpecI
import Idealize.ShloMosaic.Lib.Pipeline.Value
import Idealize.ShloMosaic.Lib.ValueIdx
import Idealize.ShloMosaic.Lib.Affine
import Idealize.ShloMosaic.PureOps.Ideal

set_option maxRecDepth 16384

noncomputable section

namespace Cert.Proof.RefVal

open Cert.ReferenceIdeal Cert.ReferenceIdeal.Facts₀ Cert.ReferenceIdeal.Facts
open Idealize.ShloMosaic Idealize.ShloMosaic.ValueIdx
open Cert.Proof

variable [Facts]

/-! ## Words -/

/-- Clamped below by zero and, if negative, wrapped by 10000, a word at most 9999 is itself. -/
theorem wrap_word {b : BitVec 32} (h : b.toNat ≤ 9999) :
    Scalar.select (IntOp.cmpi .slt (IntOp.maxsi (0#32) b) (0#32)) (IntOp.addi (IntOp.maxsi (0#32) b) (10000#32)) (IntOp.maxsi (0#32) b) = b := by
  have hb : b.toInt = (b.toNat : ℤ) := BitVec.toInt_eq_toNat_of_lt (by omega)
  have z : (0#32 : BitVec 32).toInt = 0 := by decide
  have hm : IntOp.maxsi (0#32) b = b := by
    unfold IntOp.maxsi
    rw [if_neg]
    rw [BitVec.slt_iff_toInt_lt, hb, z]; omega
  rw [hm]
  have hc : ¬ IntOp.cmpi .slt b (0#32) = 1#1 := fun hc => by
    have := IntOp.cmpi_slt.1 hc; rw [hb, z] at this; omega
  unfold Scalar.select
  exact if_neg hc

/-- A count below 2^31 clamped below by one, read signed, is the larger of one and the count. -/
theorem maxsi_one_natCast {c : ℕ} (h : c < 2 ^ 31) : (IntOp.maxsi (1#32) ((c : ℕ) : BitVec 32)).toInt = ((max 1 c : ℕ) : ℤ) := by
  have hc := LibScatterCount.toInt_natCast_of_lt h
  have o : (1#32 : BitVec 32).toInt = 1 := by decide
  unfold IntOp.maxsi
  by_cases h0 : c = 0
  · subst h0
    rw [if_pos (by rw [BitVec.slt_iff_toInt_lt, hc, o]; decide), o]
    rfl
  · rw [if_neg (by rw [BitVec.slt_iff_toInt_lt, hc, o]; omega), hc]
    have : max 1 c = c := by omega
    rw [this]

/-! ## Where an update of the count scatter lands -/

theorem startR0 (idx : IVec S320000x1 32) (e : Fin 320000) :
    ScatterDims.start scatter_S10000_S320000x1_S320000_n_0_0_1 (ix1 e) idx (0 : Fin 1) = (idx (ix2 e (0 : Fin 1))).toInt := by
  unfold ScatterDims.start
  have hmem : (0 : Fin 1) ∈ scatter_S10000_S320000x1_S320000_n_0_0_1.scatterDimsToOperandDims := by decide
  rw [dif_pos hmem]
  congr 1
  apply congrArg idx
  funext b
  match b with
  | ⟨0, _⟩ => simp [ScatterDims.siIdx, ScatterDims.siCoord, scatter_S10000_S320000x1_S320000_n_0_0_1]; rfl
  | ⟨1, _⟩ => simp [ScatterDims.siIdx, scatter_S10000_S320000x1_S320000_n_0_0_1]; rfl

theorem windowR0 (e : Fin 320000) : ScatterDims.window scatter_S10000_S320000x1_S320000_n_0_0_1 (ix1 e) (0 : Fin 1) = 0 := by
  unfold ScatterDims.window
  have hmem : ¬ (0 : Fin 1) ∈ scatter_S10000_S320000x1_S320000_n_0_0_1.sKept := by decide
  rw [dif_neg hmem]

/-- Update `e` of the count scatter lands on element `n` exactly when its index word, read signed, is `n`. -/
theorem resultIdxR_iff (idx : IVec S320000x1 32) (e : Fin 320000) (n : Fin 10000) :
    ScatterDims.resultIdx? scatter_S10000_S320000x1_S320000_n_0_0_1 (ix1 e) idx = some (ix1 n) ↔ (idx (ix2 e (0 : Fin 1))).toInt = (n.val : ℤ) := by
  unfold ScatterDims.resultIdx?
  split
  · rename_i h
    rw [Option.some.injEq]
    constructor
    · intro heq
      have h0 := congrArg (fun f => (f (0 : Fin 1)).val) heq
      have : ((ScatterDims.start scatter_S10000_S320000x1_S320000_n_0_0_1 (ix1 e) idx (0 : Fin 1)) + ((ScatterDims.window scatter_S10000_S320000x1_S320000_n_0_0_1 (ix1 e) (0 : Fin 1) : ℕ) : ℤ)).toNat = n.val := h0
      have hb := (h 0).1
      rw [startR0, windowR0] at hb this
      omega
    · intro hn
      funext a
      apply Fin.ext
      match a with
      | ⟨0, _⟩ =>
        show ((ScatterDims.start scatter_S10000_S320000x1_S320000_n_0_0_1 (ix1 e) idx (0 : Fin 1)) + ((ScatterDims.window scatter_S10000_S320000x1_S320000_n_0_0_1 (ix1 e) (0 : Fin 1) : ℕ) : ℤ)).toNat = n.val
        rw [startR0, windowR0, hn]; omega
  · rename_i h
    constructor
    · intro heq; exact absurd heq (by simp)
    · intro hn
      exfalso
      apply h
      intro a
      match a with
      | ⟨0, _⟩ =>
        show 0 ≤ ScatterDims.start scatter_S10000_S320000x1_S320000_n_0_0_1 (ix1 e) idx (0 : Fin 1) + ((ScatterDims.window scatter_S10000_S320000x1_S320000_n_0_0_1 (ix1 e) (0 : Fin 1) : ℕ) : ℤ)
          ∧ ScatterDims.start scatter_S10000_S320000x1_S320000_n_0_0_1 (ix1 e) idx (0 : Fin 1) + ((ScatterDims.window scatter_S10000_S320000x1_S320000_n_0_0_1 (ix1 e) (0 : Fin 1) : ℕ) : ℤ) < ((10000 : ℕ) : ℤ)
        rw [startR0, windowR0, hn]; have := n.isLt; omega

/-! ## The degree at a node -/

/-- The index column of the count: each edge word clamped below by zero, a negative one wrapped by 10000. -/
abbrev wrapR (f : IVec S320000 32) : IVec S320000 32 :=
  select (cmpi .slt (maxsi (broadcastInDim S320000 ![] bcast_S_S320000 (constantI S_ 32 0#32)) f)
      (broadcastInDim S320000 ![] bcast_S_S320000 (constantI S_ 32 0#32)))
    (addi (maxsi (broadcastInDim S320000 ![] bcast_S_S320000 (constantI S_ 32 0#32)) f)
      (broadcastInDim S320000 ![] bcast_S_S320000 (constantI S_ 32 10000#32)))
    (maxsi (broadcastInDim S320000 ![] bcast_S_S320000 (constantI S_ 32 0#32)) f)
abbrev idxR (f : IVec S320000 32) : IVec S320000x1 32 := broadcastInDim S320000x1 ![0] bcast_S320000_S320000x1_0 (wrapR f)

/-- The index column at an edge: the edge word itself, when it is at most 9999. -/
theorem idxR_apply (f : IVec S320000 32) (hf : ∀ e, (f (ix1 e)).toNat ≤ 9999) (e : Fin 320000) :
    idxR f (ix2 e (0 : Fin 1)) = f (ix1 e) := by
  exact (broadcastInDim_apply _ bcast_S320000_S320000x1_0 (wrapR f) (ix2 e (0 : Fin 1)) (ix1 e)
    (fun a => by match a with | ⟨0, _⟩ => rfl)).trans (wrap_word (hf e))

/-- The count word at a node: the number of edges whose word is the node. -/
theorem count_word (f : IVec S320000 32) (hf : ∀ e, (f (ix1 e)).toNat ≤ 9999) (n : Fin 10000) :
    Host.scatter scatter_S10000_S320000x1_S320000_n_0_0_1 IntOp.addi (fun _ => (0 : BitVec 32)) (idxR f) (fun _ => (1 : BitVec 32)) (ix1 n)
      = ((Spec.cnt (fun e => f (ix1 e)) n.val : ℕ) : BitVec 32) := by
  rw [LibScatterCount.scatter_ones_apply]
  refine congrArg (fun c : ℕ => (c : BitVec 32)) ?_
  unfold Spec.cnt
  have hiff : ∀ e : Fin 320000, ScatterDims.resultIdx? scatter_S10000_S320000x1_S320000_n_0_0_1 (ix1 e) (idxR f) = some (ix1 n) ↔ (f (ix1 e)).toNat = n.val := fun e => by
    rw [resultIdxR_iff, idxR_apply f hf, BitVec.toInt_eq_toNat_of_lt (by have := hf e; omega)]
    exact Nat.cast_inj
  refine Finset.card_bij (fun j _ => (j 0 : Fin 320000)) ?_ ?_ ?_
  · intro j hj
    have hj2 := (Finset.mem_filter.1 hj).2
    rw [eq_ix1 j] at hj2
    exact Finset.mem_filter.2 ⟨Finset.mem_univ _, (hiff _).1 hj2⟩
  · intro j _ j' _ h
    rw [eq_ix1 j, eq_ix1 j']
    exact congrArg ix1 h
  · intro e he
    exact ⟨ix1 e, Finset.mem_filter.2 ⟨Finset.mem_univ _, (hiff e).2 (Finset.mem_filter.1 he).2⟩, rfl⟩

theorem cnt_le (g : Fin 320000 → BitVec 32) (n : ℕ) : Spec.cnt g n ≤ 320000 := by
  unfold Spec.cnt
  exact (Finset.card_filter_le _ _).trans (by rw [Finset.card_univ, Fintype.card_fin])

/-- THE DEGREE. For an edge row whose words are at most 9999, the degree at node `n` is the larger of one and the number
    of edges whose word is `n`, as an extended real. -/
theorem degree_apply (f : IVec S320000 32) (hf : ∀ e, (f (ix1 e)).toNat ≤ 9999) (n : Fin 10000) :
    Cert.ReferenceIdeal.RefRun.degree (F := Ideal) f (ix1 n)
      = (((max 1 (Spec.cnt (fun e => f (ix1 e)) n.val) : ℕ) : ℝ) : EReal) := by
  show (((IntOp.maxsi (1#32) (Host.scatter scatter_S10000_S320000x1_S320000_n_0_0_1 IntOp.addi (fun _ => (0 : BitVec 32)) (idxR f) (fun _ => (1 : BitVec 32)) (ix1 n))).toInt : ℝ) : EReal) = _
  rw [count_word f hf n, maxsi_one_natCast (lt_of_le_of_lt (cnt_le _ _) (by decide)), Int.cast_natCast]

end Cert.Proof.RefVal

end
-- ==== Proof.RefValI.lean ====
import proofs.«207928_g75127567942135_cont_9to1c4b_313_20_alg».proof.Proof.RefChain
import proofs.«207928_g75127567942135_cont_9to1c4b_313_20_alg».proof.Proof.SpecI
import proofs.«207928_g75127567942135_cont_9to1c4b_313_20_alg».proof.Proof.LibPowRsqrt
import proofs.«207928_g75127567942135_cont_9to1c4b_313_20_alg».proof.Proof.RefDegreeI
import Idealize.ShloMosaic.Lib.ValueIdx
import Idealize.ShloMosaic.Lib.ValueLayout
import Idealize.ShloMosaic.Lib.Pipeline.Value
import Idealize.ShloMosaic.PureOps.Ideal.Laws
import Mathlib

/-!
The reference's result, at the ideal arithmetic, is the specified function of its six arguments. The structural
half is already done: after the whole line the result buffer holds `refOut` of the arguments' contents, a
composition of small functions. Here each of those functions is read at a symbolic index — the row scatter-add as a
sum over the rows landing on a node, the host product as a sum over the contracted coordinate, the row lookup as the
row an in-range index word names, the inverse-square-root column as the specification's normaliser of the degree
count — and one reference convolution is the specification's layer; two of them, with the clamp below by zero between,
are the specified function.
-/

set_option maxRecDepth 16384

noncomputable section

namespace Cert.Proof.RefVal

open Cert.ReferenceIdeal Cert.ReferenceIdeal.Facts₀ Cert.ReferenceIdeal.Facts Cert.ReferenceIdeal.RefRun
open Idealize.ShloMosaic Idealize.ShloMosaic.TcCoe Idealize.ShloMosaic.ValueIdx Idealize.ShloMosaic.StableHlo
open scoped BigOperators

variable [Cert.ReferenceIdeal.Facts]

/-! ## Where an update of the row scatter lands -/
theorem startRow0 (idx : IVec S320000x1 32) (e : Fin 320000) (k' : Fin 128) :
    ScatterDims.start scatter_S10000x128_S320000x1_S320000x128_1_0_0_1 (ix2 e k') idx (0 : Fin 2) = (idx (ix2 e (0 : Fin 1))).toInt := by
  unfold ScatterDims.start
  have hmem : (0 : Fin 2) ∈ scatter_S10000x128_S320000x1_S320000x128_1_0_0_1.scatterDimsToOperandDims := by decide
  rw [dif_pos hmem]
  congr 1
  apply congrArg idx
  funext b
  match b with
  | ⟨0, _⟩ => simp [ScatterDims.siIdx, ScatterDims.siCoord, scatter_S10000x128_S320000x1_S320000x128_1_0_0_1]; rfl
  | ⟨1, _⟩ => simp [ScatterDims.siIdx, scatter_S10000x128_S320000x1_S320000x128_1_0_0_1]; rfl

theorem startRow1 (idx : IVec S320000x1 32) (e : Fin 320000) (k' : Fin 128) :
    ScatterDims.start scatter_S10000x128_S320000x1_S320000x128_1_0_0_1 (ix2 e k') idx (1 : Fin 2) = 0 := by
  unfold ScatterDims.start
  have hmem : ¬ (1 : Fin 2) ∈ scatter_S10000x128_S320000x1_S320000x128_1_0_0_1.scatterDimsToOperandDims := by decide
  rw [dif_neg hmem]

theorem windowRow0 (e : Fin 320000) (k' : Fin 128) : ScatterDims.window scatter_S10000x128_S320000x1_S320000x128_1_0_0_1 (ix2 e k') (0 : Fin 2) = 0 := by
  unfold ScatterDims.window
  have hmem : ¬ (0 : Fin 2) ∈ scatter_S10000x128_S320000x1_S320000x128_1_0_0_1.sKept := by decide
  rw [dif_neg hmem]

theorem windowRow1 (e : Fin 320000) (k' : Fin 128) : ScatterDims.window scatter_S10000x128_S320000x1_S320000x128_1_0_0_1 (ix2 e k') (1 : Fin 2) = k'.val := by
  unfold ScatterDims.window
  have hmem : (1 : Fin 2) ∈ scatter_S10000x128_S320000x1_S320000x128_1_0_0_1.sKept := by decide
  rw [dif_pos hmem]
  simp [scatter_S10000x128_S320000x1_S320000x128_1_0_0_1]
  rfl

/-- Where an update lands: update `(e, k')` of the row scatter lands on element `(n, k)` exactly when the index word of
    row `e`, read signed, is `n`, and `k' = k` (the row index comes from the index column, the feature coordinate is
    the update's own; an index outside the operand's rows lands nowhere). -/
theorem resultIdxRow_iff (idx : IVec S320000x1 32) (e : Fin 320000) (k' : Fin 128) (n : Fin 10000) (k : Fin 128) :
    ScatterDims.resultIdx? scatter_S10000x128_S320000x1_S320000x128_1_0_0_1 (ix2 e k') idx = some (ix2 n k)
      ↔ (idx (ix2 e (0 : Fin 1))).toInt = (n.val : ℤ) ∧ k' = k := by
  unfold ScatterDims.resultIdx?
  split
  · rename_i h
    rw [Option.some.injEq]
    constructor
    · intro heq
      have h0 := congrArg (fun f => (f (0 : Fin 2)).val) heq
      have h1 := congrArg (fun f => (f (1 : Fin 2)).val) heq
      simp only [startRow0, startRow1, windowRow0, windowRow1] at h0 h1
      have hb := (h 0).1
      rw [startRow0, windowRow0] at hb
      refine ⟨?_, Fin.ext ?_⟩
      · have : ((idx (ix2 e (0 : Fin 1))).toInt + ((0 : ℕ) : ℤ)).toNat = n.val := h0
        omega
      · have : ((0 : ℤ) + (k'.val : ℤ)).toNat = k.val := h1
        omega
    · rintro ⟨hn, rfl⟩
      funext a
      apply Fin.ext
      match a with
      | ⟨0, _⟩ =>
        show ((ScatterDims.start scatter_S10000x128_S320000x1_S320000x128_1_0_0_1 (ix2 e k') idx (0 : Fin 2)) + ((ScatterDims.window scatter_S10000x128_S320000x1_S320000x128_1_0_0_1 (ix2 e k') (0 : Fin 2) : ℕ) : ℤ)).toNat = n.val
        rw [startRow0, windowRow0, hn]; omega
      | ⟨1, _⟩ =>
        show ((ScatterDims.start scatter_S10000x128_S320000x1_S320000x128_1_0_0_1 (ix2 e k') idx (1 : Fin 2)) + ((ScatterDims.window scatter_S10000x128_S320000x1_S320000x128_1_0_0_1 (ix2 e k') (1 : Fin 2) : ℕ) : ℤ)).toNat = k'.val
        rw [startRow1, windowRow1]; omega
  · rename_i h
    constructor
    · intro heq; exact absurd heq (by simp)
    · rintro ⟨hn, rfl⟩
      exfalso
      apply h
      intro a
      match a with
      | ⟨0, _⟩ =>
        show 0 ≤ ScatterDims.start scatter_S10000x128_S320000x1_S320000x128_1_0_0_1 (ix2 e k') idx (0 : Fin 2) + ((ScatterDims.window scatter_S10000x128_S320000x1_S320000x128_1_0_0_1 (ix2 e k') (0 : Fin 2) : ℕ) : ℤ)
          ∧ ScatterDims.start scatter_S10000x128_S320000x1_S320000x128_1_0_0_1 (ix2 e k') idx (0 : Fin 2) + ((ScatterDims.window scatter_S10000x128_S320000x1_S320000x128_1_0_0_1 (ix2 e k') (0 : Fin 2) : ℕ) : ℤ) < ((10000 : ℕ) : ℤ)
        rw [startRow0, windowRow0, hn]; have := n.isLt; omega
      | ⟨1, _⟩ =>
        show 0 ≤ ScatterDims.start scatter_S10000x128_S320000x1_S320000x128_1_0_0_1 (ix2 e k') idx (1 : Fin 2) + ((ScatterDims.window scatter_S10000x128_S320000x1_S320000x128_1_0_0_1 (ix2 e k') (1 : Fin 2) : ℕ) : ℤ)
          ∧ ScatterDims.start scatter_S10000x128_S320000x1_S320000x128_1_0_0_1 (ix2 e k') idx (1 : Fin 2) + ((ScatterDims.window scatter_S10000x128_S320000x1_S320000x128_1_0_0_1 (ix2 e k') (1 : Fin 2) : ℕ) : ℤ) < ((128 : ℕ) : ℤ)
        rw [startRow1, windowRow1]; have := k'.isLt; omega

/-! ## The row scatter-add at an element -/

/-- The accumulating row scatter at element `(n, k)`, at the ideal arithmetic: the operand's element plus the sum, over
    the update rows `e` whose index word read signed is `n`, of the update's element `(e, k)`. -/
theorem scatterAddRow_apply (x : FVec Ideal S10000x128 .f32) (idx : IVec S320000x1 32) (upd : FVec Ideal S320000x128 .f32)
    (n : Fin 10000) (k : Fin 128) :
    Host.scatterAdd (F := Ideal) scatter_S10000x128_S320000x1_S320000x128_1_0_0_1 x idx upd (ix2 n k)
      = x (ix2 n k) + ∑ e ∈ Finset.univ.filter (fun e : Fin 320000 => (idx (ix2 e (0 : Fin 1))).toInt = (n.val : ℤ)), upd (ix2 e k) := by
  show Ideal.hostScatterAdd scatter_S10000x128_S320000x1_S320000x128_1_0_0_1 x idx upd (ix2 n k) = _
  unfold Ideal.hostScatterAdd
  refine congrArg (x (ix2 n k) + ·) ?_
  rw [Finset.sum_filter, sum_idx2, Finset.sum_filter]
  refine Finset.sum_congr rfl fun e _ => ?_
  simp only [resultIdxRow_iff]
  by_cases hQ : (idx (ix2 e (0 : Fin 1))).toInt = (n.val : ℤ)
  · simp [hQ]
  · simp [hQ]

/-! ## The contraction, the broadcasts, and the second half of a convolution at an element -/

/-- The 10000x128 by 128x128 host product at an index: the contraction's one axis re-indexed by its coordinate, the
    two operand indices read off the dimension numbers. -/
theorem dot_ix (A : FVec Ideal S10000x128 .f32) (M : FVec Ideal S128x128 .f32) (n : Fin 10000) (j : Fin 128) :
    Host.dotGeneral dot_S10000x128_S128x128_S10000x128_1_0_0_1_n_n none A M (ix2 n j) = ∑ k : Fin 128, A (ix2 n k) * M (ix2 k j) := by
  show FloatOps.dotGeneral dot_S10000x128_S128x128_S10000x128_1_0_0_1_n_n none .single A M (ix2 n j) = _
  rw [Ideal.dotGeneral_apply, ← Equiv.sum_comp (contrEquiv1 dot_S10000x128_S128x128_S10000x128_1_0_0_1_n_n 128 rfl rfl).symm]
  refine Finset.sum_congr rfl fun k _ => ?_
  have c2 := contrEquiv1_symm_val dot_S10000x128_S128x128_S10000x128_1_0_0_1_n_n 128 rfl rfl k
  have l2 : dot_S10000x128_S128x128_S10000x128_1_0_0_1_n_n.lhsIdx (ix2 n j) ((contrEquiv1 _ 128 rfl rfl).symm k) = ix2 n k := by
    funext ax; apply Fin.ext
    match ax with
    | ⟨0, _⟩ => simp [DotDims.lhsIdx, dot_S10000x128_S128x128_S10000x128_1_0_0_1_n_n]; rfl
    | ⟨1, _⟩ => simp [DotDims.lhsIdx, dot_S10000x128_S128x128_S10000x128_1_0_0_1_n_n]; exact c2
  have r2 : dot_S10000x128_S128x128_S10000x128_1_0_0_1_n_n.rhsIdx (ix2 n j) ((contrEquiv1 _ 128 rfl rfl).symm k) = ix2 k j := by
    funext ax; apply Fin.ext
    match ax with
    | ⟨0, _⟩ => simp [DotDims.rhsIdx, dot_S10000x128_S128x128_S10000x128_1_0_0_1_n_n]; exact c2
    | ⟨1, _⟩ => simp [DotDims.rhsIdx, dot_S10000x128_S128x128_S10000x128_1_0_0_1_n_n]; rfl
  rw [l2, r2]

/-- A bias spread over the rows reads, at row `n` and column `j`, the bias at `j`. -/
theorem biasRows_apply {α : Type} (b : S128.Idx → α) (n : Fin 10000) (j : Fin 128) :
    broadcastInDim S10000x128 ![0, 1] bcast_S1x128_S10000x128_0_1 (broadcastInDim S1x128 ![1] bcast_S128_S1x128_1 b) (ix2 n j)
      = b (ix1 j) := by
  rw [broadcastInDim_apply _ _ _ (ix2 n j) (ix2 (0 : Fin 1) j) (by intro a; fin_cases a <;> rfl),
    broadcastInDim_apply _ _ _ (ix2 (0 : Fin 1) j) (ix1 j) (by intro a; fin_cases a; rfl)]

/-- An index vector as a column reads, at row `e`, the vector at `e`. -/
theorem idxCol_apply {α : Type} (g : S320000.Idx → α) (e : Fin 320000) :
    broadcastInDim S320000x1 ![0] bcast_S320000_S320000x1_0 g (ix2 e (0 : Fin 1)) = g (ix1 e) :=
  broadcastInDim_apply _ _ _ (ix2 e (0 : Fin 1)) (ix1 e) (by intro a; fin_cases a; rfl)

/-- The second half of a convolution at node `n` and column `j`: the looked-up rows whose target word read signed is
    `n`, summed, scaled by the targets' factor at `n`, multiplied into column `j` of the weights, plus the bias at `j`. -/
theorem layerTail_apply (msgs : FVec Ideal S320000x128 .f32) (g : IVec S320000 32) (dIn : FVec Ideal S10000 .f32)
    (W : FVec Ideal S128x128 .f32) (b : FVec Ideal S128 .f32) (n : Fin 10000) (j : Fin 128) :
    layerTail msgs g dIn W b (ix2 n j)
      = (∑ k : Fin 128,
          ((∑ e ∈ Finset.univ.filter (fun e : Fin 320000 => (g (ix1 e)).toInt = (n.val : ℤ)), msgs (ix2 e k))
            * invSqrtCols dIn (ix2 n k)) * W (ix2 k j)) + b (ix1 j) := by
  unfold layerTail
  rw [addf_apply, dot_ix, biasRows_apply]
  refine congrArg (· + b (ix1 j)) (Finset.sum_congr rfl fun k _ => ?_)
  rw [mulf_apply, scatterAddRow_apply]
  have hz : broadcastInDim S10000x128 ![] bcast_S_S10000x128 (constant (F := Ideal) S_ .f32 0x00000000#32) (ix2 n k) = 0 := by
    show Ideal.ofBits .f32 0x00000000#32 = 0
    exact Ideal.ofBits_zero_f32
  rw [hz, zero_add]
  have hfil : (Finset.univ.filter fun e : Fin 320000 =>
        (broadcastInDim S320000x1 ![0] bcast_S320000_S320000x1_0 g (ix2 e (0 : Fin 1))).toInt = (n.val : ℤ))
      = Finset.univ.filter fun e : Fin 320000 => (g (ix1 e)).toInt = (n.val : ℤ) :=
    Finset.filter_congr fun e _ => by rw [idxCol_apply]
  rw [hfil]

/-! ## The row lookup at an element -/

/-- A word at most 9999 read signed is the word read unsigned. -/
theorem toInt_of_le {b : BitVec 32} (h : b.toNat ≤ 9999) : b.toInt = (b.toNat : ℤ) :=
  BitVec.toInt_eq_toNat_of_lt (by omega)

/-- A word at most 9999 is not below zero, is at least zero and is at most 9999, read signed. -/
theorem cmpi_slt_zero {x : BitVec 32} (h : x.toNat ≤ 9999) : IntOp.cmpi .slt x 0#32 = 0#1 := by
  have h0 : (0#32 : BitVec 32).toInt = 0 := by decide
  have hx := toInt_of_le h
  have hn : ¬ ((x.toNat : ℤ) < 0) := by omega
  simp [IntOp.cmpi, BitVec.slt, h0, hx, hn]

theorem cmpi_sge_zero {x : BitVec 32} (h : x.toNat ≤ 9999) : IntOp.cmpi .sge x 0#32 = 1#1 := by
  have h0 : (0#32 : BitVec 32).toInt = 0 := by decide
  have hx := toInt_of_le h
  have hn : (0 : ℤ) ≤ (x.toNat : ℤ) := by omega
  simp [IntOp.cmpi, BitVec.sle, h0, hx, hn]

theorem cmpi_sle_max {x : BitVec 32} (h : x.toNat ≤ 9999) : IntOp.cmpi .sle x 9999#32 = 1#1 := by
  have h0 : (9999#32 : BitVec 32).toInt = 9999 := by decide
  have hx := toInt_of_le h
  have hn : (x.toNat : ℤ) ≤ 9999 := by omega
  simp [IntOp.cmpi, BitVec.sle, h0, hx, hn]

/-- The negative-index wrap leaves a word at most 9999 as it is. -/
theorem wrap_apply (f : IVec S320000 32) (e : Fin 320000) (hf : (f (ix1 e)).toNat ≤ 9999) :
    select (cmpi .slt f (broadcastInDim S320000 ![] bcast_S_S320000 (constantI S_ 32 0#32))) (addi f (broadcastInDim S320000 ![] bcast_S_S320000 (constantI S_ 32 10000#32))) f (ix1 e) = f (ix1 e) := by
  rw [select_apply]
  have hc : cmpi .slt f (broadcastInDim S320000 ![] bcast_S_S320000 (constantI S_ 32 0#32)) (ix1 e) = 0#1 := by
    show IntOp.cmpi .slt (f (ix1 e)) 0#32 = 0#1
    exact cmpi_slt_zero hf
  rw [hc, select_zero]

instance andi_comm1 : Std.Commutative (IntOp.andi (w := 1)) := ⟨fun a b => BitVec.and_comm a b⟩
instance andi_assoc1 : Std.Associative (IntOp.andi (w := 1)) := ⟨fun a b c => BitVec.and_assoc a b c⟩

/-- The bounds test, reduced along the unit axis, holds at a row whose index word is at most 9999. -/
theorem inRange_apply (i : IVec S320000x1 32) (e : Fin 320000) (hi : (i (ix2 e (0 : Fin 1))).toNat ≤ 9999) :
    Host.reduce IntOp.andi (andi (cmpi .sge i (broadcastInDim S320000x1 ![] bcast_S_S320000x1 (constantI S_ 32 0#32))) (cmpi .sle i (broadcastInDim S320000x1 ![0, 1] bcast_S1x1_S320000x1_0_1 (broadcastInDim S1x1 ![1] bcast_S1_S1x1_1 (constantI S1 32 9999#32))))) (constantI S_ 1 1#1)
      reducesTo_S320000x1_S320000_d1 h_S_ (ix1 e) = 1#1 := by
  have hR : S320000x1.Reduces [(1 : Fin 2)] S320000 := by decide
  rw [Host.reduce_eq_fold_single IntOp.andi _ _ reducesTo_S320000x1_S320000_d1 hR h_S_ (ix1 e)]
  have huniv : (Finset.univ : Finset (Fin (S320000x1.size (1 : Fin 2)))) = {(⟨0, by decide⟩ : Fin (S320000x1.size (1 : Fin 2)))} := by
    decide
  rw [huniv, Finset.fold_singleton]
  have hl : hR.lift (ix1 e) (⟨0, by decide⟩ : Fin (S320000x1.size (1 : Fin 2))) = ix2 e (0 : Fin 1) := by
    funext c
    apply Fin.ext
    match c with
    | ⟨0, _⟩ => rfl
    | ⟨1, _⟩ => rfl
  show IntOp.andi (IntOp.andi (IntOp.cmpi .sge (i (hR.lift (ix1 e) ⟨0, by decide⟩)) 0#32)
      (IntOp.cmpi .sle (i (hR.lift (ix1 e) ⟨0, by decide⟩)) 9999#32)) 1#1 = 1#1
  rw [hl, cmpi_sge_zero hi, cmpi_sle_max hi]
  decide

/-- The row gather's operand index at `(e, k)`: the row the index word names (at most 9999, so inside the table), column `k`. -/
theorem gatherIdx_apply (i : IVec S320000x1 32) (e : Fin 320000) (k : Fin 128) (hi : (i (ix2 e (0 : Fin 1))).toNat ≤ 9999) :
    GatherDims.operandIdx gather_S10000x128_S320000x1_S320000x128_1_0_n_n_0_1_1128 (ix2 e k) i = ix2 (Spec.node (i (ix2 e (0 : Fin 1)))) k := by
  funext a
  apply Fin.ext
  match a with
  | ⟨0, _⟩ =>
    show GatherDims.start gather_S10000x128_S320000x1_S320000x128_1_0_n_n_0_1_1128 (ix2 e k) i (0 : Fin 2) + GatherDims.batchCoord gather_S10000x128_S320000x1_S320000x128_1_0_n_n_0_1_1128 (ix2 e k) (0 : Fin 2)
        + GatherDims.offCoord gather_S10000x128_S320000x1_S320000x128_1_0_n_n_0_1_1128 (ix2 e k) (0 : Fin 2) = (Spec.node (i (ix2 e (0 : Fin 1)))).val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (0 : Fin 2) ∈ (gather_S10000x128_S320000x1_S320000x128_1_0_n_n_0_1_1128).startIndexMap by decide)]
    have hsi : GatherDims.siIdx gather_S10000x128_S320000x1_S320000x128_1_0_n_n_0_1_1128 (ix2 e k) ⟨List.idxOf (0 : Fin 2) (gather_S10000x128_S320000x1_S320000x128_1_0_n_n_0_1_1128).startIndexMap,
        List.idxOf_lt_length_iff.2 (by decide)⟩ = ix2 e (0 : Fin 1) := by
      funext b; refine Fin.ext ?_
      match b with
      | ⟨0, _⟩ => rfl
      | ⟨1, _⟩ => rfl
    rw [hsi, Spec.node_val_of_le hi, toInt_of_le hi]
    show min ((i (ix2 e (0 : Fin 1))).toNat : ℤ).toNat (10000 - 1) = _
    rw [Int.toNat_natCast]
    omega
  | ⟨1, _⟩ =>
    show GatherDims.start gather_S10000x128_S320000x1_S320000x128_1_0_n_n_0_1_1128 (ix2 e k) i (1 : Fin 2) + GatherDims.batchCoord gather_S10000x128_S320000x1_S320000x128_1_0_n_n_0_1_1128 (ix2 e k) (1 : Fin 2)
        + GatherDims.offCoord gather_S10000x128_S320000x1_S320000x128_1_0_n_n_0_1_1128 (ix2 e k) (1 : Fin 2) = k.val
    rw [GatherDims.batchCoord_eq_zero _ _ _ (by decide)]
    have hs : GatherDims.start gather_S10000x128_S320000x1_S320000x128_1_0_n_n_0_1_1128 (ix2 e k) i (1 : Fin 2) = 0 := by
      unfold GatherDims.start
      rw [dif_neg (show ¬ (1 : Fin 2) ∈ (gather_S10000x128_S320000x1_S320000x128_1_0_n_n_0_1_1128).startIndexMap by decide)]
    have ho : GatherDims.offCoord gather_S10000x128_S320000x1_S320000x128_1_0_n_n_0_1_1128 (ix2 e k) (1 : Fin 2) = k.val := by
      unfold GatherDims.offCoord
      rw [dif_pos (show (1 : Fin 2) ∈ (gather_S10000x128_S320000x1_S320000x128_1_0_n_n_0_1_1128).sKept by decide)]
      rfl
    rw [hs, ho]
    omega

/-- THE ROW LOOKUP AT `(e, k)`: where the index word of edge `e` is at most 9999, the row of `h` that word names. -/
theorem takeRows_apply (h : FVec Ideal S10000x128 .f32) (f : IVec S320000 32) (e : Fin 320000) (k : Fin 128)
    (hf : (f (ix1 e)).toNat ≤ 9999) :
    takeRows h f (ix2 e k) = h (ix2 (Spec.node (f (ix1 e))) k) := by
  have hi : (broadcastInDim S320000x1 ![0] bcast_S320000_S320000x1_0
      (select (cmpi .slt f (broadcastInDim S320000 ![] bcast_S_S320000 (constantI S_ 32 0#32))) (addi f (broadcastInDim S320000 ![] bcast_S_S320000 (constantI S_ 32 10000#32))) f) (ix2 e (0 : Fin 1))) = f (ix1 e) := by
    rw [idxCol_apply, wrap_apply f e hf]
  simp only [takeRows]
  rw [select_apply]
  have hok : broadcastInDim S320000x128 ![0] bcast_S320000_S320000x128_0
      (Host.reduce IntOp.andi
        (andi
          (cmpi .sge (broadcastInDim S320000x1 ![0] bcast_S320000_S320000x1_0 (select (cmpi .slt f (broadcastInDim S320000 ![] bcast_S_S320000 (constantI S_ 32 0#32))) (addi f (broadcastInDim S320000 ![] bcast_S_S320000 (constantI S_ 32 10000#32))) f)) (broadcastInDim S320000x1 ![] bcast_S_S320000x1 (constantI S_ 32 0#32)))
          (cmpi .sle (broadcastInDim S320000x1 ![0] bcast_S320000_S320000x1_0 (select (cmpi .slt f (broadcastInDim S320000 ![] bcast_S_S320000 (constantI S_ 32 0#32))) (addi f (broadcastInDim S320000 ![] bcast_S_S320000 (constantI S_ 32 10000#32))) f)) (broadcastInDim S320000x1 ![0, 1] bcast_S1x1_S320000x1_0_1 (broadcastInDim S1x1 ![1] bcast_S1_S1x1_1 (constantI S1 32 9999#32)))))
        (constantI S_ 1 1#1) reducesTo_S320000x1_S320000_d1 h_S_) (ix2 e k) = 1#1 := by
    rw [broadcastInDim_apply _ _ _ (ix2 e k) (ix1 e) (by intro a; fin_cases a; rfl)]
    exact inRange_apply _ e (by rw [hi]; exact hf)
  rw [hok, select_one]
  show h (GatherDims.operandIdx gather_S10000x128_S320000x1_S320000x128_1_0_n_n_0_1_1128 (ix2 e k) _) = _
  rw [gatherIdx_apply _ e k (by rw [hi]; exact hf), hi]

/-! ## The edge rows, the normaliser, and one convolution against the specification -/

/-- Row 0 of the edge list at edge `e` is the specification's source word; row 1 its target word. -/
theorem srcOf_apply (EI : IVec S2x320000 32) (e : Fin 320000) : srcOf EI (ix1 e) = Spec.src EI e := by
  unfold srcOf Spec.src
  rw [shapeCast_1a_a_apply]
  exact extractStridedSlice_apply _ _ _ (ix2 (0 : Fin 1) e) (ix2 (0 : Fin 2) e) (by intro a; fin_cases a <;> simp)

theorem dstOf_apply (EI : IVec S2x320000 32) (e : Fin 320000) : dstOf EI (ix1 e) = Spec.dst EI e := by
  unfold dstOf Spec.dst
  rw [shapeCast_1a_a_apply]
  exact extractStridedSlice_apply _ _ _ (ix2 (0 : Fin 1) e) (ix2 (1 : Fin 2) e) (by intro a; fin_cases a <;> simp)

/-- The inverse-square-root column at node `n`, any column: the node's factor raised to the word −1/2. -/
theorem invSqrtCols_apply (d : FVec Ideal S10000 .f32) (n : Fin 10000) (k : Fin 128) :
    invSqrtCols d (ix2 n k) = Ideal.pow (d (ix1 n)) (Ideal.ofBits .f32 0xBF000000#32) := by
  unfold invSqrtCols
  rw [broadcastInDim_apply _ _ _ (ix2 n k) (ix2 n (0 : Fin 1)) (by intro a; fin_cases a <;> rfl),
    broadcastInDim_apply _ _ _ (ix2 n (0 : Fin 1)) (ix1 n) (by intro a; fin_cases a; rfl)]
  rfl

/-- The count of a row of in-range words at node `n`, clamped below by one, raised to −1/2 and spread over the
    columns, is the specification's normaliser of that count. -/
theorem normaliser_apply (f : IVec S320000 32) (hf : ∀ e, (f (ix1 e)).toNat ≤ 9999) (n : Fin 10000) (k : Fin 128) :
    invSqrtCols (degree (F := Ideal) f) (ix2 n k) = Spec.rs (Spec.cnt (fun e => f (ix1 e)) n.val) := by
  have hpos : (0 : ℝ) < ((max 1 (Spec.cnt (fun e => f (ix1 e)) n.val) : ℕ) : ℝ) := by
    have : 0 < max 1 (Spec.cnt (fun e => f (ix1 e)) n.val) := lt_of_lt_of_le Nat.one_pos (le_max_left _ _)
    exact_mod_cast this
  rw [invSqrtCols_apply, degree_apply f hf n, LibPowRsqrt.pow_neg_half_word hpos]
  unfold Spec.rs Spec.one
  rw [LibPowRsqrt.ofBits_f32_one, Nat.cast_max, Nat.cast_one, EReal.coe_strictMono.monotone.map_max]

/-- ONE CONVOLUTION against the specification: if the features `Xf`, scaled by the sources' normaliser, are `hs`,
    then the reference's convolution of `Xf` is the specification's layer on `hs`. -/
theorem conv_apply (Xf : FVec Ideal S10000x128 .f32) (EI : IVec S2x320000 32) (hEI : ∀ j, (EI j).toNat ≤ 9999)
    (W : FVec Ideal S128x128 .f32) (b : FVec Ideal S128 .f32) (hs : Fin 10000 → Fin 128 → EReal)
    (hX : ∀ m k, Xf (ix2 m k) * Spec.rs (Spec.cnt (Spec.src EI) m.val) = hs m k) (n : Fin 10000) (j : Fin 128) :
    layerTail (takeRows (mulf Xf (invSqrtCols (degree (F := Ideal) (srcOf EI)))) (srcOf EI)) (dstOf EI)
        (degree (F := Ideal) (dstOf EI)) W b (ix2 n j)
      = Spec.layer EI W b hs n j := by
  have hsrc : ∀ e, (srcOf EI (ix1 e)).toNat ≤ 9999 := fun e => by rw [srcOf_apply]; exact hEI _
  have hdst : ∀ e, (dstOf EI (ix1 e)).toNat ≤ 9999 := fun e => by rw [dstOf_apply]; exact hEI _
  have hcs : Spec.cnt (fun e => srcOf EI (ix1 e)) = Spec.cnt (Spec.src EI) := by
    congr 1; funext e; exact srcOf_apply EI e
  have hcd : Spec.cnt (fun e => dstOf EI (ix1 e)) = Spec.cnt (Spec.dst EI) := by
    congr 1; funext e; exact dstOf_apply EI e
  rw [layerTail_apply]
  unfold Spec.layer
  refine congrArg (· + b (ix1 j)) (Finset.sum_congr rfl fun k _ => ?_)
  rw [normaliser_apply (dstOf EI) hdst n k, hcd]
  refine congrArg (· * Spec.rs (Spec.cnt (Spec.dst EI) n.val) * W (ix2 k j)) ?_
  unfold Spec.agg
  have hfil : (Finset.univ.filter fun e : Fin 320000 => (dstOf EI (ix1 e)).toInt = (n.val : ℤ))
      = Finset.univ.filter fun e : Fin 320000 => (Spec.dst EI e).toNat = n.val :=
    Finset.filter_congr fun e _ => by
      rw [toInt_of_le (hdst e), dstOf_apply]
      exact Nat.cast_inj
  rw [hfil]
  refine Finset.sum_congr rfl fun e _ => ?_
  rw [takeRows_apply _ _ e k (hsrc e), mulf_apply, normaliser_apply (srcOf EI) hsrc _ k, hcs, srcOf_apply]
  exact hX _ k

/-! ## The reference's result is the specification -/

/-- `refOut` at the ideal arithmetic, on an edge list of in-range words, is the specified function. -/
theorem refOut_eq_spec (X : FVec Ideal S10000x128 .f32) (EI : IVec S2x320000 32) (W1 : FVec Ideal S128x128 .f32)
    (b1 : FVec Ideal S128 .f32) (W2 : FVec Ideal S128x128 .f32) (b2 : FVec Ideal S128 .f32)
    (hEI : ∀ j, (EI j).toNat ≤ 9999) :
    refOut (F := Ideal) X EI W1 b1 W2 b2 = Spec.out X EI W1 b1 W2 b2 := by
  funext i
  rw [eq_ix2 i]
  show refOut (F := Ideal) X EI W1 b1 W2 b2 (ix2 (i 0) (i 1)) = Spec.y2 X EI W1 b1 W2 b2 (i 0) (i 1)
  unfold refOut Spec.y2
  refine conv_apply _ EI hEI W2 b2 _ ?_ (i 0) (i 1)
  intro m k
  unfold Spec.h2 Spec.y1
  have h1 : relu0 (layerTail (takeRows (mulf X (invSqrtCols (degree (F := Ideal) (srcOf EI)))) (srcOf EI)) (dstOf EI)
      (degree (F := Ideal) (dstOf EI)) W1 b1) (ix2 m k)
      = max (Spec.layer EI W1 b1 (Spec.h1 X EI) m k) Spec.zero := by
    unfold relu0
    rw [maximumf_apply, conv_apply X EI hEI W1 b1 (Spec.h1 X EI) (fun _ _ => rfl) m k]
    rfl
  rw [h1]

/-- THE REFERENCE'S RESULT: after the whole line, from any valuation whose edge list holds in-range words, the result
    buffer holds the specified function of the six arguments' contents. -/
theorem ref_out (V : Valuation τ sig (Elt Ideal)) (hEI : ∀ j, ((V (main_arg1 : DevRef τ sig)) j).toNat ≤ 9999) :
    after (ops (F := Ideal)) V (main_v88 : DevRef τ sig)
      = Spec.out (V (main_arg0 : DevRef τ sig)) (V (main_arg1 : DevRef τ sig)) (V (main_arg2 : DevRef τ sig))
          (V (main_arg3 : DevRef τ sig)) (V (main_arg4 : DevRef τ sig)) (V (main_arg5 : DevRef τ sig)) :=
  (out_eq V).trans (refOut_eq_spec _ _ _ _ _ _ hEI)

end Cert.Proof.RefVal

end
-- ==== Proof.lean ====
/-
  The certificate's five claims, assembled.

  Both programs compute a two-layer graph convolution `D_in^{-1/2} A D_out^{-1/2} X W + b` over 10000 nodes and 320000
  edges. The kernel pads nodes to 10240 and edges to 327680 (padding edges run from node 10000 to node 10000), scales the
  features by the inverse square root of the clipped out-degree in a TensorCore region, gathers the scaled rows along the
  edges on the SparseCores, sums them by destination on the host, applies the affine map and the in-degree scaling in a
  second TensorCore region, repeats, and slices the first 10000 rows. The reference does the same on unpadded arrays, with
  `x ^ (-1/2)` for the inverse square root. At the ideal instance the two agree: `x ^ (-1/2) = (√x)⁻¹` for `x ≥ 1`, a
  padding edge contributes only to row 10000, which the slice drops, and every other operation is the same function of
  the same arguments in the same order. The frames: each program runs to its end from any memory satisfying the
  precondition (the edge words index rows that exist) and leaves its six argument arrays as launched; the idealization
  rewrote nothing, so `preserves` is trivial.
-/
import proofs.«207928_g75127567942135_cont_9to1c4b_313_20_alg».proof.Defs
import proofs.«207928_g75127567942135_cont_9to1c4b_313_20_alg».proof.Proof.Gen.Kernel
import proofs.«207928_g75127567942135_cont_9to1c4b_313_20_alg».proof.Proof.Gen.KernelIdeal
import proofs.«207928_g75127567942135_cont_9to1c4b_313_20_alg».proof.Proof.Gen.ReferenceIdeal
import proofs.«207928_g75127567942135_cont_9to1c4b_313_20_alg».proof.Proof.Gen.Pre_input_domain
import proofs.«207928_g75127567942135_cont_9to1c4b_313_20_alg».proof.Proof.FramesI
import proofs.«207928_g75127567942135_cont_9to1c4b_313_20_alg».proof.Proof.FramesB
import proofs.«207928_g75127567942135_cont_9to1c4b_313_20_alg».proof.Proof.KernelOutI
import proofs.«207928_g75127567942135_cont_9to1c4b_313_20_alg».proof.Proof.RefValI

noncomputable section

namespace Cert.Proof

open Idealize.ShloMosaic Idealize.ShloMosaic.TcCoe Idealize.ShloMosaic.StableHlo Idealize.SL.Sem

/-- The word-level kernel runs to its end and leaves its arguments as launched. -/
theorem frame_k : Cert.frame_Kernel := fun m ρ hpre => Cert.Proof.KB.frame m ρ hpre

/-- So does the idealized kernel. -/
theorem frame_ki : Cert.frame_KernelIdeal := fun m ρ hpre => Cert.Proof.KI.frame m ρ hpre

set_option maxHeartbeats 2000000 in
/-- At the ideal instance the kernel's result and the reference's are the one function `Spec.out` of the six arguments. -/
theorem algebraic : Cert.algebraic_KernelIdeal_ReferenceIdeal := by
  intro m g m' g' hpre hagree
  have hEI := fun c : Dev Cert.KernelIdeal.nD => Cert.Proof.KI.arg1_le_of_pre m hpre c
  refine ⟨fun c => Cert.Proof.Spec.out
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨?_, Cert.Proof.KI.frame_of_run m _ _ r h c⟩) (Cert.Proof.KI.run m g hpre)
    exact (h c (Proc.devRef .tc Cert.KernelIdeal.main_v46) (by decide)).trans
      (Cert.Proof.KI.kernel_out m _ _ c (hEI c) rfl (by rw [Cert.Proof.KI.Wf_s]))
  · refine (θ_run Cert.ReferenceIdeal.defs _ _).mono (fun r h c => ?_) (Cert.ReferenceIdeal.RefRun.run_main (F := Ideal) m' g')
    have ha := hagree c
    refine ⟨?_, ?_, ?_, ?_, ?_, ?_, ?_⟩
    · rw [h c Cert.ReferenceIdeal.main_v88, Cert.Proof.RefVal.ref_out (launchContents m' c) (by
        intro j
        have := hEI c j
        rw [← ha.2.1] at this
        exact this)]
      have e0 : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := ha.1
      have e1 : launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := ha.2.1
      have e2 : launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := ha.2.2.1
      have e3 : launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := ha.2.2.2.1
      have e4 : launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := ha.2.2.2.2.1
      have e5 : launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := ha.2.2.2.2.2
      rw [e0, e1, e2, e3, e4, e5]
    · exact (h c Cert.ReferenceIdeal.main_arg0).trans (Cert.ReferenceIdeal.RefRun.arg0_eq _)
    · exact (h c Cert.ReferenceIdeal.main_arg1).trans (Cert.ReferenceIdeal.RefRun.arg1_eq _)
    · exact (h c Cert.ReferenceIdeal.main_arg2).trans (Cert.ReferenceIdeal.RefRun.arg2_eq _)
    · exact (h c Cert.ReferenceIdeal.main_arg3).trans (Cert.ReferenceIdeal.RefRun.arg3_eq _)
    · exact (h c Cert.ReferenceIdeal.main_arg4).trans (Cert.ReferenceIdeal.RefRun.arg4_eq _)
    · exact (h c Cert.ReferenceIdeal.main_arg5).trans (Cert.ReferenceIdeal.RefRun.arg5_eq _)

theorem claim : Cert.Claim :=
  ⟨Cert.Kernel.Gen.facts, Cert.KernelIdeal.Gen.facts, Cert.ReferenceIdeal.Gen.facts, Cert.Pre_input_domain.Gen.facts,
    frame_k, frame_ki, Cert.Proof.RefClaims.frame_ri, trivial, algebraic⟩

end Cert.Proof

end
